-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 999999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S1000000x64 : Shape := ⟨2, ![1000000, 64]⟩
abbrev S50x16384 : Shape := ⟨2, ![50, 16384]⟩
abbrev S64x1000000 : Shape := ⟨2, ![64, 1000000]⟩
abbrev S507904x128 : Shape := ⟨2, ![507904, 128]⟩
abbrev S64x32768 : Shape := ⟨2, ![64, 32768]⟩
abbrev S16384x128 : Shape := ⟨2, ![16384, 128]⟩
abbrev S32768x64 : Shape := ⟨2, ![32768, 64]⟩
abbrev S16384x64 : Shape := ⟨2, ![16384, 64]⟩
abbrev S50x16384x64 : Shape := ⟨3, ![50, 16384, 64]⟩
abbrev S10x128 : Shape := ⟨2, ![10, 128]⟩
abbrev S5x128 : Shape := ⟨2, ![5, 128]⟩
abbrev S5x128x128 : Shape := ⟨3, ![5, 128, 128]⟩
abbrev S2x128x64 : Shape := ⟨3, ![2, 128, 64]⟩
abbrev S10 : Shape := ⟨1, ![10]⟩
abbrev S5 : Shape := ⟨1, ![5]⟩
abbrev S2 : Shape := ⟨1, ![2]⟩
abbrev S1x128 : Shape := ⟨2, ![1, 128]⟩
abbrev S128 : Shape := ⟨1, ![128]⟩
abbrev S1 : Shape := ⟨1, ![1]⟩
abbrev S_ : Shape := ⟨0, ![]⟩
abbrev S1x16 : Shape := ⟨2, ![1, 16]⟩
abbrev S16 : Shape := ⟨1, ![16]⟩
abbrev S1x128x128 : Shape := ⟨3, ![1, 128, 128]⟩
abbrev S128x128 : Shape := ⟨2, ![128, 128]⟩
abbrev S1x128x64 : Shape := ⟨3, ![1, 128, 64]⟩
abbrev S128x64 : Shape := ⟨2, ![128, 64]⟩
abbrev S16384x50x64 : Shape := ⟨3, ![16384, 50, 64]⟩

abbrev nBuf : Table → Nat
  | .hbm => 7
  | .local .tc .vmem => 4
  | .local .scVector .vmem => 4
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S50x16384, .i32⟩
  | .hbm, ⟨3, _⟩ => ⟨S64x1000000, .f32⟩
  | .hbm, ⟨4, _⟩ => ⟨S507904x128, .f32⟩
  | .hbm, ⟨5, _⟩ => ⟨S50x16384x64, .f32⟩
  | .hbm, ⟨6, _⟩ => ⟨S16384x50x64, .f32⟩
  | .local .tc .vmem, ⟨0, _⟩ => ⟨S64x32768, .f32⟩
  | .local .tc .vmem, ⟨1, _⟩ => ⟨S64x32768, .f32⟩
  | .local .tc .vmem, ⟨2, _⟩ => ⟨S16384x128, .f32⟩
  | .local .tc .vmem, ⟨3, _⟩ => ⟨S16384x128, .f32⟩
  | .local .scVector .vmem, ⟨0, _⟩ => ⟨S10x128, .i32⟩
  | .local .scVector .vmem, ⟨1, _⟩ => ⟨S5x128, .i32⟩
  | .local .scVector .vmem, ⟨2, _⟩ => ⟨S5x128x128, .f32⟩
  | .local .scVector .vmem, ⟨3, _⟩ => ⟨S2x128x64, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v2_scv : Ref sig .scVector := ⟨.hbm, 4, rfl⟩
abbrev main_v0_scv : Ref sig .scVector := ⟨.hbm, 2, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c128_i32_5 : BitVec 32 := 128#32
  let c0_i32_8 : BitVec 32 := 0#32
  let v27 : BitVec 1 := Scalar.cmpi .sgt c128_i32_5 c0_i32_8
  let v28 : BitVec 32 := Scalar.extui v27
  let c0_i32_9 : BitVec 32 := 0#32
  let v29 : BitVec 1 := Scalar.cmpi .slt c128_i32_5 c0_i32_9
  let v30 : BitVec 32 := Scalar.extui v29
  let v31 : BitVec 32 := Scalar.subi v28 v30
  let v32 : BitVec 1 := Scalar.cmpi .ne v26 v31
  let v33 : BitVec 32 := Scalar.remsi v3 c128_i32_5
  let c0_i32_10 : BitVec 32 := 0#32
  let v34 : BitVec 1 := Scalar.cmpi .ne v33 c0_i32_10
  let v35 : BitVec 1 := Scalar.andi v32 v34
  let v21 : BitVec 32 := Scalar.divsi v3 c128_i32_5
  let c1_i32_11 : BitVec 32 := 1#32
  let v36 : BitVec 32 := Scalar.subi v21 c1_i32_11
  let v37 : BitVec 32 := Scalar.select v35 v36 v21
  let c128_i32_12 : BitVec 32 := 128#32
  let v38 : BitVec 32 := Scalar.muli v37 c128_i32_12
  let v39 : BitVec 32 := Scalar.subi v3 v38
  let c128_i32_13 : BitVec 32 := 128#32
  let v40 : BitVec 32 := Scalar.muli v39 c128_i32_13
  ![v20.toNat, v40.toNat]
@[reducible] def k1_t1_loop : Scf.Loop 32 :=
  let c0_i32_101 : BitVec 32 := 0#32
  let c204_i32 : BitVec 32 := 204#32
  let v243 : BitVec 32 := Scalar.addi c0_i32_101 c204_i32
  let c1_i32_102 : BitVec 32 := 1#32
  ⟨c0_i32_101, v243, c1_i32_102⟩
def k1_cond1 (k1_t1 : Fin k1_t1_loop.trips) : BitVec 1 :=
  let c0_i32_101 : BitVec 32 := 0#32
  let c1_i32_102 : BitVec 32 := 1#32
  let arg12 : BitVec 32 := Scf.iv c0_i32_101 c1_i32_102 k1_t1
  let c200_i32_152 : BitVec 32 := 200#32
  let v340 : BitVec 1 := Scalar.cmpi .slt arg12 c200_i32_152
  let v341 : BitVec 32 := Scalar.extui v340
  let c0_i32_153 : BitVec 32 := 0#32
  let v342 : BitVec 1 := Scalar.cmpi .ne v341 c0_i32_153
  v342

def k1_off2 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32 : BitVec 32 := 10#32
  let c0_i32_177 : BitVec 32 := 0#32
  let v394 : BitVec 1 := Scalar.cmpi .eq c10_i32 c0_i32_177
  let c1_i32_178 : BitVec 32 := 1#32
  let v395 : BitVec 32 := Scalar.select v394 c1_i32_178 c10_i32
  let v396 : BitVec 32 := Scalar.remsi arg12 v395
  let c0_i32_180 : BitVec 32 := 0#32
  let v398 : BitVec 1 := Scalar.cmpi .slt v396 c0_i32_180
  let c0_i32_181 : BitVec 32 := 0#32
  let v399 : BitVec 1 := Scalar.cmpi .slt v395 c0_i32_181
  let v400 : BitVec 1 := Scalar.xori v398 v399
  let c0_i32_179 : BitVec 32 := 0#32
  let v397 : BitVec 1 := Scalar.cmpi .ne v396 c0_i32_179
  let v401 : BitVec 1 := Scalar.andi v400 v397
  let v402 : BitVec 32 := Scalar.addi v396 v395
  let v403 : BitVec 32 := Scalar.select v401 v402 v396
  let c0_i32_188 : BitVec 32 := 0#32
  ![v403.toNat, 0]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_101 : BitVec 32 := 0#32
  let c1_i32_102 : BitVec 32 := 1#32
  let arg12 : BitVec 32 := Scf.iv c0_i32_101 c1_i32_102 k1_t1
  let v356 : BitVec 32 := Scalar.addi v2 arg12
  let c0_i32_162 : BitVec 32 := 0#32
  let v358 : BitVec 1 := Scalar.cmpi .sgt v356 c0_i32_162
  let v359 : BitVec 32 := Scalar.extui v358
  let c0_i32_163 : BitVec 32 := 0#32
  let v360 : BitVec 1 := Scalar.cmpi .slt v356 c0_i32_163
  let v361 : BitVec 32 := Scalar.extui v360
  let v362 : BitVec 32 := Scalar.subi v359 v361
  let c128_i32_161 : BitVec 32 := 128#32
  let c0_i32_164 : BitVec 32 := 0#32
  let v363 : BitVec 1 := Scalar.cmpi .sgt c128_i32_161 c0_i32_164
  let v364 : BitVec 32 := Scalar.extui v363
  let c0_i32_165 : BitVec 32 := 0#32
  let v365 : BitVec 1 := Scalar.cmpi .slt c128_i32_161 c0_i32_165
  let v366 : BitVec 32 := Scalar.extui v365
  let v367 : BitVec 32 := Scalar.subi v364 v366
  let v368 : BitVec 1 := Scalar.cmpi .ne v362 v367
  let v369 : BitVec 32 := Scalar.remsi v356 c128_i32_161
  let c0_i32_166 : BitVec 32 := 0#32
  let v370 : BitVec 1 := Scalar.cmpi .ne v369 c0_i32_166
  let v371 : BitVec 1 := Scalar.andi v368 v370
  let v357 : BitVec 32 := Scalar.divsi v356 c128_i32_161
  let c1_i32_167 : BitVec 32 := 1#32
  let v372 : BitVec 32 := Scalar.subi v357 c1_i32_167
  let v373 : BitVec 32 := Scalar.select v371 v372 v357
  let c0_i32_169 : BitVec 32 := 0#32
  let v375 : BitVec 1 := Scalar.cmpi .sgt v356 c0_i32_169
  let v376 : BitVec 32 := Scalar.extui v375
  let c0_i32_170 : BitVec 32 := 0#32
  let v377 : BitVec 1 := Scalar.cmpi .slt v356 c0_i32_170
  let v378 : BitVec 32 := Scalar.extui v377
  let v379 : BitVec 32 := Scalar.subi v376 v378
  let c128_i32_168 : BitVec 32 := 128#32
  let c0_i32_171 : BitVec 32 := 0#32
  let v380 : BitVec 1 := Scalar.cmpi .sgt c128_i32_168 c0_i32_171
  let v381 : BitVec 32 := Scalar.extui v380
  let c0_i32_172 : BitVec 32 := 0#32
  let v382 : BitVec 1 := Scalar.cmpi .slt c128_i32_168 c0_i32_172
  let v383 : BitVec 32 := Scalar.extui v382
  let v384 : BitVec 32 := Scalar.subi v381 v383
  let v385 : BitVec 1 := Scalar.cmpi .ne v379 v384
  let v386 : BitVec 32 := Scalar.remsi v356 c128_i32_168
  let c0_i32_173 : BitVec 32 := 0#32
  let v387 : BitVec 1 := Scalar.cmpi .ne v386 c0_i32_173
  let v388 : BitVec 1 := Scalar.andi v385 v387
  let v374 : BitVec 32 := Scalar.divsi v356 c128_i32_168
  let c1_i32_174 : BitVec 32 := 1#32
  let v389 : BitVec 32 := Scalar.subi v374 c1_i32_174
  let v390 : BitVec 32 := Scalar.select v388 v389 v374
  let c128_i32_175 : BitVec 32 := 128#32
  let v391 : BitVec 32 := Scalar.muli v390 c128_i32_175
  let v392 : BitVec 32 := Scalar.subi v356 v391
  let c128_i32_176 : BitVec 32 := 128#32
  let v393 : BitVec 32 := Scalar.muli v392 c128_i32_176
  ![v373.toNat, v393.toNat]
def k1_off4 (k1_t1 : Fin k1_t1_loop.trips) : Fin 1 → Nat :=
  let c0_i32_101 : BitVec 32 := 0#32
  let c1_i32_102 : BitVec 32 := 1#32
  let arg12 : BitVec 32 := Scf.iv c0_i32_101 c1_i32_102 k1_t1
  let c10_i32_182 : BitVec 32 := 10#32
  let c0_i32_183 : BitVec 32 := 0#32
  let v404 : BitVec 1 := Scalar.cmpi .eq c10_i32_182 c0_i32_183
  let c1_i32_184 : BitVec 32 := 1#32
  let v405 : BitVec 32 := Scalar.select v404 c1_i32_184 c10_i32_182
  let v406 : BitVec 32 := Scalar.remsi arg12 v405
  let c0_i32_186 : BitVec 32 := 0#32
  let v408 : BitVec 1 := Scalar.cmpi .slt v406 c0_i32_186
  let c0_i32_187 : BitVec 32 := 0#32
  let v409 : BitVec 1 := Scalar.cmpi .slt v405 c0_i32_187
  let v410 : BitVec 1 := Scalar.xori v408 v409
  let c0_i32_185 : BitVec 32 := 0#32
  let v407 : BitVec 1 := Scalar.cmpi .ne v406 c0_i32_185
  let v411 : BitVec 1 := Scalar.andi v410 v407
  let v412 : BitVec 32 := Scalar.addi v406 v405
  let v413 : BitVec 32 := Scalar.select v411 v412 v406
  ![v413.toNat]
def k1_off5 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32_190 : BitVec 32 := 10#32
  let c0_i32_191 : BitVec 32 := 0#32
  let v424 : BitVec 1 := Scalar.cmpi .eq c10_i32_190 c0_i32_191
  let c1_i32_192 : BitVec 32 := 1#32
  let v425 : BitVec 32 := Scalar.select v424 c1_i32_192 c10_i32_190
  let v426 : BitVec 32 := Scalar.remsi arg12 v425
  let c0_i32_194 : BitVec 32 := 0#32
  let v428 : BitVec 1 := Scalar.cmpi .slt v426 c0_i32_194
  let c0_i32_195 : BitVec 32 := 0#32
  let v429 : BitVec 1 := Scalar.cmpi .slt v425 c0_i32_195
  let v430 : BitVec 1 := Scalar.xori v428 v429
  let c0_i32_193 : BitVec 32 := 0#32
  let v427 : BitVec 1 := Scalar.cmpi .ne v426 c0_i32_193
  let v431 : BitVec 1 := Scalar.andi v430 v427
  let v432 : BitVec 32 := Scalar.addi v426 v425
  let v433 : BitVec 32 := Scalar.select v431 v432 v426
  let v434 : Index := Scalar.indexCast v433
  let c0 : Index := 0#32
  ![v434.toNat, 0]
def k1_off6 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32 : BitVec 32 := 5#32
  let c0_i32_156 : BitVec 32 := 0#32
  let v346 : BitVec 1 := Scalar.cmpi .eq c5_i32 c0_i32_156
  let c1_i32_157 : BitVec 32 := 1#32
  let v347 : BitVec 32 := Scalar.select v346 c1_i32_157 c5_i32
  let v348 : BitVec 32 := Scalar.remsi arg12 v347
  let c0_i32_159 : BitVec 32 := 0#32
  let v350 : BitVec 1 := Scalar.cmpi .slt v348 c0_i32_159
  let c0_i32_160 : BitVec 32 := 0#32
  let v351 : BitVec 1 := Scalar.cmpi .slt v347 c0_i32_160
  let v352 : BitVec 1 := Scalar.xori v350 v351
  let c0_i32_158 : BitVec 32 := 0#32
  let v349 : BitVec 1 := Scalar.cmpi .ne v348 c0_i32_158
  let v353 : BitVec 1 := Scalar.andi v352 v349
  let v354 : BitVec 32 := Scalar.addi v348 v347
  let v355 : BitVec 32 := Scalar.select v353 v354 v348
  let v452 : Index := Scalar.indexCast v355
  let c0_198 : Index := 0#32
  ![v452.toNat, 0]
def k1_off7 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32_199 : BitVec 32 := 10#32
  let c0_i32_200 : BitVec 32 := 0#32
  let v456 : BitVec 1 := Scalar.cmpi .eq c10_i32_199 c0_i32_200
  let c1_i32_201 : BitVec 32 := 1#32
  let v457 : BitVec 32 := Scalar.select v456 c1_i32_201 c10_i32_199
  let v458 : BitVec 32 := Scalar.remsi arg12 v457
  let c0_i32_203 : BitVec 32 := 0#32
  let v460 : BitVec 1 := Scalar.cmpi .slt v458 c0_i32_203
  let c0_i32_204 : BitVec 32 := 0#32
  let v461 : BitVec 1 := Scalar.cmpi .slt v457 c0_i32_204
  let v462 : BitVec 1 := Scalar.xori v460 v461
  let c0_i32_202 : BitVec 32 := 0#32
  let v459 : BitVec 1 := Scalar.cmpi .ne v458 c0_i32_202
  let v463 : BitVec 1 := Scalar.andi v462 v459
  let v464 : BitVec 32 := Scalar.addi v458 v457
  let v465 : BitVec 32 := Scalar.select v463 v464 v458
  let v466 : Index := Scalar.indexCast v465
  let c16 : Index := 16#32
  ![v466.toNat, 16]
def k1_off8 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32 : BitVec 32 := 5#32
  let c0_i32_156 : BitVec 32 := 0#32
  let v346 : BitVec 1 := Scalar.cmpi .eq c5_i32 c0_i32_156
  let c1_i32_157 : BitVec 32 := 1#32
  let v347 : BitVec 32 := Scalar.select v346 c1_i32_157 c5_i32
  let v348 : BitVec 32 := Scalar.remsi arg12 v347
  let c0_i32_159 : BitVec 32 := 0#32
  let v350 : BitVec 1 := Scalar.cmpi .slt v348 c0_i32_159
  let c0_i32_160 : BitVec 32 := 0#32
  let v351 : BitVec 1 := Scalar.cmpi .slt v347 c0_i32_160
  let v352 : BitVec 1 := Scalar.xori v350 v351
  let c0_i32_158 : BitVec 32 := 0#32
  let v349 : BitVec 1 := Scalar.cmpi .ne v348 c0_i32_158
  let v353 : BitVec 1 := Scalar.andi v352 v349
  let v354 : BitVec 32 := Scalar.addi v348 v347
  let v355 : BitVec 32 := Scalar.select v353 v354 v348
  let v484 : Index := Scalar.indexCast v355
  let c16_212 : Index := 16#32
  ![v484.toNat, 16]
def k1_off9 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32_213 : BitVec 32 := 10#32
  let c0_i32_214 : BitVec 32 := 0#32
  let v488 : BitVec 1 := Scalar.cmpi .eq c10_i32_213 c0_i32_214
  let c1_i32_215 : BitVec 32 := 1#32
  let v489 : BitVec 32 := Scalar.select v488 c1_i32_215 c10_i32_213
  let v490 : BitVec 32 := Scalar.remsi arg12 v489
  let c0_i32_217 : BitVec 32 := 0#32
  let v492 : BitVec 1 := Scalar.cmpi .slt v490 c0_i32_217
  let c0_i32_218 : BitVec 32 := 0#32
  let v493 : BitVec 1 := Scalar.cmpi .slt v489 c0_i32_218
  let v494 : BitVec 1 := Scalar.xori v492 v493
  let c0_i32_216 : BitVec 32 := 0#32
  let v491 : BitVec 1 := Scalar.cmpi .ne v490 c0_i32_216
  let v495 : BitVec 1 := Scalar.andi v494 v491
  let v496 : BitVec 32 := Scalar.addi v490 v489
  let v497 : BitVec 32 := Scalar.select v495 v496 v490
  let v498 : Index := Scalar.indexCast v497
  let c32 : Index := 32#32
  ![v498.toNat, 32]
def k1_off10 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32 : BitVec 32 := 5#32
  let c0_i32_156 : BitVec 32 := 0#32
  let v346 : BitVec 1 := Scalar.cmpi .eq c5_i32 c0_i32_156
  let c1_i32_157 : BitVec 32 := 1#32
  let v347 : BitVec 32 := Scalar.select v346 c1_i32_157 c5_i32
  let v348 : BitVec 32 := Scalar.remsi arg12 v347
  let c0_i32_159 : BitVec 32 := 0#32
  let v350 : BitVec 1 := Scalar.cmpi .slt v348 c0_i32_159
  let c0_i32_160 : BitVec 32 := 0#32
  let v351 : BitVec 1 := Scalar.cmpi .slt v347 c0_i32_160
  let v352 : BitVec 1 := Scalar.xori v350 v351
  let c0_i32_158 : BitVec 32 := 0#32
  let v349 : BitVec 1 := Scalar.cmpi .ne v348 c0_i32_158
  let v353 : BitVec 1 := Scalar.andi v352 v349
  let v354 : BitVec 32 := Scalar.addi v348 v347
  let v355 : BitVec 32 := Scalar.select v353 v354 v348
  let v516 : Index := Scalar.indexCast v355
  let c32_226 : Index := 32#32
  ![v516.toNat, 32]
def k1_off11 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32_227 : BitVec 32 := 10#32
  let c0_i32_228 : BitVec 32 := 0#32
  let v520 : BitVec 1 := Scalar.cmpi .eq c10_i32_227 c0_i32_228
  let c1_i32_229 : BitVec 32 := 1#32
  let v521 : BitVec 32 := Scalar.select v520 c1_i32_229 c10_i32_227
  let v522 : BitVec 32 := Scalar.remsi arg12 v521
  let c0_i32_231 : BitVec 32 := 0#32
  let v524 : BitVec 1 := Scalar.cmpi .slt v522 c0_i32_231
  let c0_i32_232 : BitVec 32 := 0#32
  let v525 : BitVec 1 := Scalar.cmpi .slt v521 c0_i32_232
  let v526 : BitVec 1 := Scalar.xori v524 v525
  let c0_i32_230 : BitVec 32 := 0#32
  let v523 : BitVec 1 := Scalar.cmpi .ne v522 c0_i32_230
  let v527 : BitVec 1 := Scalar.andi v526 v523
  let v528 : BitVec 32 := Scalar.addi v522 v521
  let v529 : BitVec 32 := Scalar.select v527 v528 v522
  let v530 : Index := Scalar.indexCast v529
  let c48 : Index := 48#32
  ![v530.toNat, 48]
def k1_off12 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32 : BitVec 32 := 5#32
  let c0_i32_156 : BitVec 32 := 0#32
  let v346 : BitVec 1 := Scalar.cmpi .eq c5_i32 c0_i32_156
  let c1_i32_157 : BitVec 32 := 1#32
  let v347 : BitVec 32 := Scalar.select v346 c1_i32_157 c5_i32
  let v348 : BitVec 32 := Scalar.remsi arg12 v347
  let c0_i32_159 : BitVec 32 := 0#32
  let v350 : BitVec 1 := Scalar.cmpi .slt v348 c0_i32_159
  let c0_i32_160 : BitVec 32 := 0#32
  let v351 : BitVec 1 := Scalar.cmpi .slt v347 c0_i32_160
  let v352 : BitVec 1 := Scalar.xori v350 v351
  let c0_i32_158 : BitVec 32 := 0#32
  let v349 : BitVec 1 := Scalar.cmpi .ne v348 c0_i32_158
  let v353 : BitVec 1 := Scalar.andi v352 v349
  let v354 : BitVec 32 := Scalar.addi v348 v347
  let v355 : BitVec 32 := Scalar.select v353 v354 v348
  let v548 : Index := Scalar.indexCast v355
  let c48_240 : Index := 48#32
  ![v548.toNat, 48]
def k1_off13 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32_241 : BitVec 32 := 10#32
  let c0_i32_242 : BitVec 32 := 0#32
  let v552 : BitVec 1 := Scalar.cmpi .eq c10_i32_241 c0_i32_242
  let c1_i32_243 : BitVec 32 := 1#32
  let v553 : BitVec 32 := Scalar.select v552 c1_i32_243 c10_i32_241
  let v554 : BitVec 32 := Scalar.remsi arg12 v553
  let c0_i32_245 : BitVec 32 := 0#32
  let v556 : BitVec 1 := Scalar.cmpi .slt v554 c0_i32_245
  let c0_i32_246 : BitVec 32 := 0#32
  let v557 : BitVec 1 := Scalar.cmpi .slt v553 c0_i32_246
  let v558 : BitVec 1 := Scalar.xori v556 v557
  let c0_i32_244 : BitVec 32 := 0#32
  let v555 : BitVec 1 := Scalar.cmpi .ne v554 c0_i32_244
  let v559 : BitVec 1 := Scalar.andi v558 v555
  let v560 : BitVec 32 := Scalar.addi v554 v553
  let v561 : BitVec 32 := Scalar.select v559 v560 v554
  let v562 : Index := Scalar.indexCast v561
  let c64 : Index := 64#32
  ![v562.toNat, 64]
def k1_off14 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32 : BitVec 32 := 5#32
  let c0_i32_156 : BitVec 32 := 0#32
  let v346 : BitVec 1 := Scalar.cmpi .eq c5_i32 c0_i32_156
  let c1_i32_157 : BitVec 32 := 1#32
  let v347 : BitVec 32 := Scalar.select v346 c1_i32_157 c5_i32
  let v348 : BitVec 32 := Scalar.remsi arg12 v347
  let c0_i32_159 : BitVec 32 := 0#32
  let v350 : BitVec 1 := Scalar.cmpi .slt v348 c0_i32_159
  let c0_i32_160 : BitVec 32 := 0#32
  let v351 : BitVec 1 := Scalar.cmpi .slt v347 c0_i32_160
  let v352 : BitVec 1 := Scalar.xori v350 v351
  let c0_i32_158 : BitVec 32 := 0#32
  let v349 : BitVec 1 := Scalar.cmpi .ne v348 c0_i32_158
  let v353 : BitVec 1 := Scalar.andi v352 v349
  let v354 : BitVec 32 := Scalar.addi v348 v347
  let v355 : BitVec 32 := Scalar.select v353 v354 v348
  let v580 : Index := Scalar.indexCast v355
  let c64_254 : Index := 64#32
  ![v580.toNat, 64]
def k1_off15 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32_255 : BitVec 32 := 10#32
  let c0_i32_256 : BitVec 32 := 0#32
  let v584 : BitVec 1 := Scalar.cmpi .eq c10_i32_255 c0_i32_256
  let c1_i32_257 : BitVec 32 := 1#32
  let v585 : BitVec 32 := Scalar.select v584 c1_i32_257 c10_i32_255
  let v586 : BitVec 32 := Scalar.remsi arg12 v585
  let c0_i32_259 : BitVec 32 := 0#32
  let v588 : BitVec 1 := Scalar.cmpi .slt v586 c0_i32_259
  let c0_i32_260 : BitVec 32 := 0#32
  let v589 : BitVec 1 := Scalar.cmpi .slt v585 c0_i32_260
  let v590 : BitVec 1 := Scalar.xori v588 v589
  let c0_i32_258 : BitVec 32 := 0#32
  let v587 : BitVec 1 := Scalar.cmpi .ne v586 c0_i32_258
  let v591 : BitVec 1 := Scalar.andi v590 v587
  let v592 : BitVec 32 := Scalar.addi v586 v585
  let v593 : BitVec 32 := Scalar.select v591 v592 v586
  let v594 : Index := Scalar.indexCast v593
  let c80 : Index := 80#32
  ![v594.toNat, 80]
def k1_off16 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32 : BitVec 32 := 5#32
  let c0_i32_156 : BitVec 32 := 0#32
  let v346 : BitVec 1 := Scalar.cmpi .eq c5_i32 c0_i32_156
  let c1_i32_157 : BitVec 32 := 1#32
  let v347 : BitVec 32 := Scalar.select v346 c1_i32_157 c5_i32
  let v348 : BitVec 32 := Scalar.remsi arg12 v347
  let c0_i32_159 : BitVec 32 := 0#32
  let v350 : BitVec 1 := Scalar.cmpi .slt v348 c0_i32_159
  let c0_i32_160 : BitVec 32 := 0#32
  let v351 : BitVec 1 := Scalar.cmpi .slt v347 c0_i32_160
  let v352 : BitVec 1 := Scalar.xori v350 v351
  let c0_i32_158 : BitVec 32 := 0#32
  let v349 : BitVec 1 := Scalar.cmpi .ne v348 c0_i32_158
  let v353 : BitVec 1 := Scalar.andi v352 v349
  let v354 : BitVec 32 := Scalar.addi v348 v347
  let v355 : BitVec 32 := Scalar.select v353 v354 v348
  let v612 : Index := Scalar.indexCast v355
  let c80_268 : Index := 80#32
  ![v612.toNat, 80]
def k1_off17 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32_269 : BitVec 32 := 10#32
  let c0_i32_270 : BitVec 32 := 0#32
  let v616 : BitVec 1 := Scalar.cmpi .eq c10_i32_269 c0_i32_270
  let c1_i32_271 : BitVec 32 := 1#32
  let v617 : BitVec 32 := Scalar.select v616 c1_i32_271 c10_i32_269
  let v618 : BitVec 32 := Scalar.remsi arg12 v617
  let c0_i32_273 : BitVec 32 := 0#32
  let v620 : BitVec 1 := Scalar.cmpi .slt v618 c0_i32_273
  let c0_i32_274 : BitVec 32 := 0#32
  let v621 : BitVec 1 := Scalar.cmpi .slt v617 c0_i32_274
  let v622 : BitVec 1 := Scalar.xori v620 v621
  let c0_i32_272 : BitVec 32 := 0#32
  let v619 : BitVec 1 := Scalar.cmpi .ne v618 c0_i32_272
  let v623 : BitVec 1 := Scalar.andi v622 v619
  let v624 : BitVec 32 := Scalar.addi v618 v617
  let v625 : BitVec 32 := Scalar.select v623 v624 v618
  let v626 : Index := Scalar.indexCast v625
  let c96 : Index := 96#32
  ![v626.toNat, 96]
def k1_off18 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32 : BitVec 32 := 5#32
  let c0_i32_156 : BitVec 32 := 0#32
  let v346 : BitVec 1 := Scalar.cmpi .eq c5_i32 c0_i32_156
  let c1_i32_157 : BitVec 32 := 1#32
  let v347 : BitVec 32 := Scalar.select v346 c1_i32_157 c5_i32
  let v348 : BitVec 32 := Scalar.remsi arg12 v347
  let c0_i32_159 : BitVec 32 := 0#32
  let v350 : BitVec 1 := Scalar.cmpi .slt v348 c0_i32_159
  let c0_i32_160 : BitVec 32 := 0#32
  let v351 : BitVec 1 := Scalar.cmpi .slt v347 c0_i32_160
  let v352 : BitVec 1 := Scalar.xori v350 v351
  let c0_i32_158 : BitVec 32 := 0#32
  let v349 : BitVec 1 := Scalar.cmpi .ne v348 c0_i32_158
  let v353 : BitVec 1 := Scalar.andi v352 v349
  let v354 : BitVec 32 := Scalar.addi v348 v347
  let v355 : BitVec 32 := Scalar.select v353 v354 v348
  let v644 : Index := Scalar.indexCast v355
  let c96_282 : Index := 96#32
  ![v644.toNat, 96]
def k1_off19 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c10_i32_283 : BitVec 32 := 10#32
  let c0_i32_284 : BitVec 32 := 0#32
  let v648 : BitVec 1 := Scalar.cmpi .eq c10_i32_283 c0_i32_284
  let c1_i32_285 : BitVec 32 := 1#32
  let v649 : BitVec 32 := Scalar.select v648 c1_i32_285 c10_i32_283
  let v650 : BitVec 32 := Scalar.remsi arg12 v649
  let c0_i32_287 : BitVec 32 := 0#32
  let v652 : BitVec 1 := Scalar.cmpi .slt v650 c0_i32_287
  let c0_i32_288 : BitVec 32 := 0#32
  let v653 : BitVec 1 := Scalar.cmpi .slt v649 c0_i32_288
  let v654 : BitVec 1 := Scalar.xori v652 v653
  let c0_i32_286 : BitVec 32 := 0#32
  let v651 : BitVec 1 := Scalar.cmpi .ne v650 c0_i32_286
  let v655 : BitVec 1 := Scalar.andi v654 v651
  let v656 : BitVec 32 := Scalar.addi v650 v649
  let v657 : BitVec 32 := Scalar.select v655 v656 v650
  let v658 : Index := Scalar.indexCast v657
  let c112 : Index := 112#32
  ![v658.toNat, 112]
def k1_off20 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32 : BitVec 32 := 5#32
  let c0_i32_156 : BitVec 32 := 0#32
  let v346 : BitVec 1 := Scalar.cmpi .eq c5_i32 c0_i32_156
  let c1_i32_157 : BitVec 32 := 1#32
  let v347 : BitVec 32 := Scalar.select v346 c1_i32_157 c5_i32
  let v348 : BitVec 32 := Scalar.remsi arg12 v347
  let c0_i32_159 : BitVec 32 := 0#32
  let v350 : BitVec 1 := Scalar.cmpi .slt v348 c0_i32_159
  let c0_i32_160 : BitVec 32 := 0#32
  let v351 : BitVec 1 := Scalar.cmpi .slt v347 c0_i32_160
  let v352 : BitVec 1 := Scalar.xori v350 v351
  let c0_i32_158 : BitVec 32 := 0#32
  let v349 : BitVec 1 := Scalar.cmpi .ne v348 c0_i32_158
  let v353 : BitVec 1 := Scalar.andi v352 v349
  let v354 : BitVec 32 := Scalar.addi v348 v347
  let v355 : BitVec 32 := Scalar.select v353 v354 v348
  let v676 : Index := Scalar.indexCast v355
  let c112_296 : Index := 112#32
  ![v676.toNat, 112]
def k1_off21 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c5_i32_303 : BitVec 32 := 5#32
  let c0_i32_304 : BitVec 32 := 0#32
  let v690 : BitVec 1 := Scalar.cmpi .eq c5_i32_303 c0_i32_304
  let c1_i32_305 : BitVec 32 := 1#32
  let v691 : BitVec 32 := Scalar.select v690 c1_i32_305 c5_i32_303
  let v692 : BitVec 32 := Scalar.remsi arg12 v691
  let c0_i32_307 : BitVec 32 := 0#32
  let v694 : BitVec 1 := Scalar.cmpi .slt v692 c0_i32_307
  let c0_i32_308 : BitVec 32 := 0#32
  let v695 : BitVec 1 := Scalar.cmpi .slt v691 c0_i32_308
  let v696 : BitVec 1 := Scalar.xori v694 v695
  let c0_i32_306 : BitVec 32 := 0#32
  let v693 : BitVec 1 := Scalar.cmpi .ne v692 c0_i32_306
  let v697 : BitVec 1 := Scalar.andi v696 v693
  let v698 : BitVec 32 := Scalar.addi v692 v691
  let v699 : BitVec 32 := Scalar.select v697 v698 v692
  let c0_i32_315 : BitVec 32 := 0#32
  let c0_i32_316 : BitVec 32 := 0#32
  ![v699.toNat, 0, 0]
def k1_off22 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32_297 : BitVec 32 := 5#32
  let c0_i32_298 : BitVec 32 := 0#32
  let v680 : BitVec 1 := Scalar.cmpi .eq c5_i32_297 c0_i32_298
  let c1_i32_299 : BitVec 32 := 1#32
  let v681 : BitVec 32 := Scalar.select v680 c1_i32_299 c5_i32_297
  let v682 : BitVec 32 := Scalar.remsi arg12 v681
  let c0_i32_301 : BitVec 32 := 0#32
  let v684 : BitVec 1 := Scalar.cmpi .slt v682 c0_i32_301
  let c0_i32_302 : BitVec 32 := 0#32
  let v685 : BitVec 1 := Scalar.cmpi .slt v681 c0_i32_302
  let v686 : BitVec 1 := Scalar.xori v684 v685
  let c0_i32_300 : BitVec 32 := 0#32
  let v683 : BitVec 1 := Scalar.cmpi .ne v682 c0_i32_300
  let v687 : BitVec 1 := Scalar.andi v686 v683
  let v688 : BitVec 32 := Scalar.addi v682 v681
  let v689 : BitVec 32 := Scalar.select v687 v688 v682
  let c0_i32_317 : BitVec 32 := 0#32
  ![v689.toNat, 0]
def k1_off23 (k1_t1 : Fin k1_t1_loop.trips) : Fin 1 → Nat :=
  let c0_i32_101 : BitVec 32 := 0#32
  let c1_i32_102 : BitVec 32 := 1#32
  let arg12 : BitVec 32 := Scf.iv c0_i32_101 c1_i32_102 k1_t1
  let c5_i32_309 : BitVec 32 := 5#32
  let c0_i32_310 : BitVec 32 := 0#32
  let v700 : BitVec 1 := Scalar.cmpi .eq c5_i32_309 c0_i32_310
  let c1_i32_311 : BitVec 32 := 1#32
  let v701 : BitVec 32 := Scalar.select v700 c1_i32_311 c5_i32_309
  let v702 : BitVec 32 := Scalar.remsi arg12 v701
  let c0_i32_313 : BitVec 32 := 0#32
  let v704 : BitVec 1 := Scalar.cmpi .slt v702 c0_i32_313
  let c0_i32_314 : BitVec 32 := 0#32
  let v705 : BitVec 1 := Scalar.cmpi .slt v701 c0_i32_314
  let v706 : BitVec 1 := Scalar.xori v704 v705
  let c0_i32_312 : BitVec 32 := 0#32
  let v703 : BitVec 1 := Scalar.cmpi .ne v702 c0_i32_312
  let v707 : BitVec 1 := Scalar.andi v706 v703
  let v708 : BitVec 32 := Scalar.addi v702 v701
  let v709 : BitVec 32 := Scalar.select v707 v708 v702
  ![v709.toNat]
def k1_cond2 (k1_t1 : Fin k1_t1_loop.trips) : BitVec 1 :=
  let c0_i32_101 : BitVec 32 := 0#32
  let c1_i32_102 : BitVec 32 := 1#32
  let arg12 : BitVec 32 := Scf.iv c0_i32_101 c1_i32_102 k1_t1
  let c5_i32_320 : BitVec 32 := 5#32
  let v717 : BitVec 32 := Scalar.addi arg12 c5_i32_320
  let c200_i32_321 : BitVec 32 := 200#32
  let v718 : BitVec 1 := Scalar.cmpi .slt v717 c200_i32_321
  let v719 : BitVec 32 := Scalar.extui v718
  let c0_i32_322 : BitVec 32 := 0#32
  let v720 : BitVec 1 := Scalar.cmpi .ne v719 c0_i32_322
  v720

def k1_off24 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c5_i32_323 : BitVec 32 := 5#32
  let v721 : BitVec 32 := Scalar.addi arg12 c5_i32_323
  let c10_i32_340 : BitVec 32 := 10#32
  let c0_i32_341 : BitVec 32 := 0#32
  let v760 : BitVec 1 := Scalar.cmpi .eq c10_i32_340 c0_i32_341
  let c1_i32_342 : BitVec 32 := 1#32
  let v761 : BitVec 32 := Scalar.select v760 c1_i32_342 c10_i32_340
  let v762 : BitVec 32 := Scalar.remsi v721 v761
  let c0_i32_344 : BitVec 32 := 0#32
  let v764 : BitVec 1 := Scalar.cmpi .slt v762 c0_i32_344
  let c0_i32_345 : BitVec 32 := 0#32
  let v765 : BitVec 1 := Scalar.cmpi .slt v761 c0_i32_345
  let v766 : BitVec 1 := Scalar.xori v764 v765
  let c0_i32_343 : BitVec 32 := 0#32
  let v763 : BitVec 1 := Scalar.cmpi .ne v762 c0_i32_343
  let v767 : BitVec 1 := Scalar.andi v766 v763
  let v768 : BitVec 32 := Scalar.addi v762 v761
  let v769 : BitVec 32 := Scalar.select v767 v768 v762
  let c0_i32_352 : BitVec 32 := 0#32
  ![v769.toNat, 0]
def k1_off25 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_101 : BitVec 32 := 0#32
  let c1_i32_102 : BitVec 32 := 1#32
  let arg12 : BitVec 32 := Scf.iv c0_i32_101 c1_i32_102 k1_t1
  let c5_i32_323 : BitVec 32 := 5#32
  let v721 : BitVec 32 := Scalar.addi arg12 c5_i32_323
  let v722 : BitVec 32 := Scalar.addi v2 v721
  let c0_i32_325 : BitVec 32 := 0#32
  let v724 : BitVec 1 := Scalar.cmpi .sgt v722 c0_i32_325
  let v725 : BitVec 32 := Scalar.extui v724
  let c0_i32_326 : BitVec 32 := 0#32
  let v726 : BitVec 1 := Scalar.cmpi .slt v722 c0_i32_326
  let v727 : BitVec 32 := Scalar.extui v726
  let v728 : BitVec 32 := Scalar.subi v725 v727
  let c128_i32_324 : BitVec 32 := 128#32
  let c0_i32_327 : BitVec 32 := 0#32
  let v729 : BitVec 1 := Scalar.cmpi .sgt c128_i32_324 c0_i32_327
  let v730 : BitVec 32 := Scalar.extui v729
  let c0_i32_328 : BitVec 32 := 0#32
  let v731 : BitVec 1 := Scalar.cmpi .slt c128_i32_324 c0_i32_328
  let v732 : BitVec 32 := Scalar.extui v731
  let v733 : BitVec 32 := Scalar.subi v730 v732
  let v734 : BitVec 1 := Scalar.cmpi .ne v728 v733
  let v735 : BitVec 32 := Scalar.remsi v722 c128_i32_324
  let c0_i32_329 : BitVec 32 := 0#32
  let v736 : BitVec 1 := Scalar.cmpi .ne v735 c0_i32_329
  let v737 : BitVec 1 := Scalar.andi v734 v736
  let v723 : BitVec 32 := Scalar.divsi v722 c128_i32_324
  let c1_i32_330 : BitVec 32 := 1#32
  let v738 : BitVec 32 := Scalar.subi v723 c1_i32_330
  let v739 : BitVec 32 := Scalar.select v737 v738 v723
  let c0_i32_332 : BitVec 32 := 0#32
  let v741 : BitVec 1 := Scalar.cmpi .sgt v722 c0_i32_332
  let v742 : BitVec 32 := Scalar.extui v741
  let c0_i32_333 : BitVec 32 := 0#32
  let v743 : BitVec 1 := Scalar.cmpi .slt v722 c0_i32_333
  let v744 : BitVec 32 := Scalar.extui v743
  let v745 : BitVec 32 := Scalar.subi v742 v744
  let c128_i32_331 : BitVec 32 := 128#32
  let c0_i32_334 : BitVec 32 := 0#32
  let v746 : BitVec 1 := Scalar.cmpi .sgt c128_i32_331 c0_i32_334
  let v747 : BitVec 32 := Scalar.extui v746
  let c0_i32_335 : BitVec 32 := 0#32
  let v748 : BitVec 1 := Scalar.cmpi .slt c128_i32_331 c0_i32_335
  let v749 : BitVec 32 := Scalar.extui v748
  let v750 : BitVec 32 := Scalar.subi v747 v749
  let v751 : BitVec 1 := Scalar.cmpi .ne v745 v750
  let v752 : BitVec 32 := Scalar.remsi v722 c128_i32_331
  let c0_i32_336 : BitVec 32 := 0#32
  let v753 : BitVec 1 := Scalar.cmpi .ne v752 c0_i32_336
  let v754 : BitVec 1 := Scalar.andi v751 v753
  let v740 : BitVec 32 := Scalar.divsi v722 c128_i32_331
  let c1_i32_337 : BitVec 32 := 1#32
  let v755 : BitVec 32 := Scalar.subi v740 c1_i32_337
  let v756 : BitVec 32 := Scalar.select v754 v755 v740
  let c128_i32_338 : BitVec 32 := 128#32
  let v757 : BitVec 32 := Scalar.muli v756 c128_i32_338
  let v758 : BitVec 32 := Scalar.subi v722 v757
  let c128_i32_339 : BitVec 32 := 128#32
  let v759 : BitVec 32 := Scalar.muli v758 c128_i32_339
  ![v739.toNat, v759.toNat]
def k1_off26 (k1_t1 : Fin k1_t1_loop.trips) : Fin 1 → Nat :=
  let c0_i32_101 : BitVec 32 := 0#32
  let c1_i32_102 : BitVec 32 := 1#32
  let arg12 : BitVec 32 := Scf.iv c0_i32_101 c1_i32_102 k1_t1
  let c5_i32_323 : BitVec 32 := 5#32
  let v721 : BitVec 32 := Scalar.addi arg12 c5_i32_323
  let c10_i32_346 : BitVec 32 := 10#32
  let c0_i32_347 : BitVec 32 := 0#32
  let v770 : BitVec 1 := Scalar.cmpi .eq c10_i32_346 c0_i32_347
  let c1_i32_348 : BitVec 32 := 1#32
  let v771 : BitVec 32 := Scalar.select v770 c1_i32_348 c10_i32_346
  let v772 : BitVec 32 := Scalar.remsi v721 v771
  let c0_i32_350 : BitVec 32 := 0#32
  let v774 : BitVec 1 := Scalar.cmpi .slt v772 c0_i32_350
  let c0_i32_351 : BitVec 32 := 0#32
  let v775 : BitVec 1 := Scalar.cmpi .slt v771 c0_i32_351
  let v776 : BitVec 1 := Scalar.xori v774 v775
  let c0_i32_349 : BitVec 32 := 0#32
  let v773 : BitVec 1 := Scalar.cmpi .ne v772 c0_i32_349
  let v777 : BitVec 1 := Scalar.andi v776 v773
  let v778 : BitVec 32 := Scalar.addi v772 v771
  let v779 : BitVec 32 := Scalar.select v777 v778 v772
  ![v779.toNat]
def k1_cond3 (k1_t1 : Fin k1_t1_loop.trips) : BitVec 1 :=
  let c0_i32_101 : BitVec 32 := 0#32
  let c1_i32_102 : BitVec 32 := 1#32
  let arg12 : BitVec 32 := Scf.iv c0_i32_101 c1_i32_102 k1_t1
  let c4_i32_154 : BitVec 32 := 4#32
  let v343 : BitVec 1 := Scalar.cmpi .sge arg12 c4_i32_154
  let v344 : BitVec 32 := Scalar.extui v343
  let c0_i32_155 : BitVec 32 := 0#32
  let v345 : BitVec 1 := Scalar.cmpi .ne v344 c0_i32_155
  v345

def k1_off27 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_162 : BitVec 32 := 5#32
  let c0_i32_163 : BitVec 32 := 0#32
  let v357 : BitVec 1 := Scalar.cmpi .eq c5_i32_162 c0_i32_163
  let c1_i32_164 : BitVec 32 := 1#32
  let v358 : BitVec 32 := Scalar.select v357 c1_i32_164 c5_i32_162
  let v359 : BitVec 32 := Scalar.remsi v346 v358
  let c0_i32_166 : BitVec 32 := 0#32
  let v361 : BitVec 1 := Scalar.cmpi .slt v359 c0_i32_166
  let c0_i32_167 : BitVec 32 := 0#32
  let v362 : BitVec 1 := Scalar.cmpi .slt v358 c0_i32_167
  let v363 : BitVec 1 := Scalar.xori v361 v362
  let c0_i32_165 : BitVec 32 := 0#32
  let v360 : BitVec 1 := Scalar.cmpi .ne v359 c0_i32_165
  let v364 : BitVec 1 := Scalar.andi v363 v360
  let v365 : BitVec 32 := Scalar.addi v359 v358
  let v366 : BitVec 32 := Scalar.select v364 v365 v359
  let c0_i32_174 : BitVec 32 := 0#32
  let c0_i32_175 : BitVec 32 := 0#32
  ![v366.toNat, 0, 0]
def k1_off28 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32 : BitVec 32 := 5#32
  let c0_i32_157 : BitVec 32 := 0#32
  let v347 : BitVec 1 := Scalar.cmpi .eq c5_i32 c0_i32_157
  let c1_i32_158 : BitVec 32 := 1#32
  let v348 : BitVec 32 := Scalar.select v347 c1_i32_158 c5_i32
  let v349 : BitVec 32 := Scalar.remsi v346 v348
  let c0_i32_160 : BitVec 32 := 0#32
  let v351 : BitVec 1 := Scalar.cmpi .slt v349 c0_i32_160
  let c0_i32_161 : BitVec 32 := 0#32
  let v352 : BitVec 1 := Scalar.cmpi .slt v348 c0_i32_161
  let v353 : BitVec 1 := Scalar.xori v351 v352
  let c0_i32_159 : BitVec 32 := 0#32
  let v350 : BitVec 1 := Scalar.cmpi .ne v349 c0_i32_159
  let v354 : BitVec 1 := Scalar.andi v353 v350
  let v355 : BitVec 32 := Scalar.addi v349 v348
  let v356 : BitVec 32 := Scalar.select v354 v355 v349
  let c0_i32_176 : BitVec 32 := 0#32
  ![v356.toNat, 0]
def k1_off29 (k1_t1 : Fin k1_t1_loop.trips) : Fin 1 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_168 : BitVec 32 := 5#32
  let c0_i32_169 : BitVec 32 := 0#32
  let v367 : BitVec 1 := Scalar.cmpi .eq c5_i32_168 c0_i32_169
  let c1_i32_170 : BitVec 32 := 1#32
  let v368 : BitVec 32 := Scalar.select v367 c1_i32_170 c5_i32_168
  let v369 : BitVec 32 := Scalar.remsi v346 v368
  let c0_i32_172 : BitVec 32 := 0#32
  let v371 : BitVec 1 := Scalar.cmpi .slt v369 c0_i32_172
  let c0_i32_173 : BitVec 32 := 0#32
  let v372 : BitVec 1 := Scalar.cmpi .slt v368 c0_i32_173
  let v373 : BitVec 1 := Scalar.xori v371 v372
  let c0_i32_171 : BitVec 32 := 0#32
  let v370 : BitVec 1 := Scalar.cmpi .ne v369 c0_i32_171
  let v374 : BitVec 1 := Scalar.andi v373 v370
  let v375 : BitVec 32 := Scalar.addi v369 v368
  let v376 : BitVec 32 := Scalar.select v374 v375 v369
  ![v376.toNat]
def k1_cond4 (k1_t1 : Fin k1_t1_loop.trips) : BitVec 1 :=
  let c0_i32_101 : BitVec 32 := 0#32
  let c1_i32_102 : BitVec 32 := 1#32
  let arg12 : BitVec 32 := Scf.iv c0_i32_101 c1_i32_102 k1_t1
  let c6_i32 : BitVec 32 := 6#32
  let v384 : BitVec 1 := Scalar.cmpi .sge arg12 c6_i32
  let v385 : BitVec 32 := Scalar.extui v384
  let c0_i32_179 : BitVec 32 := 0#32
  let v386 : BitVec 1 := Scalar.cmpi .ne v385 c0_i32_179
  v386

def k1_off30 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_4303 : BitVec 32 := 2#32
  let v7611 : BitVec 32 := Scalar.subi v346 c2_i32_4303
  let c2_i32_4319 : BitVec 32 := 2#32
  let c0_i32_4320 : BitVec 32 := 0#32
  let v7649 : BitVec 1 := Scalar.cmpi .eq c2_i32_4319 c0_i32_4320
  let c1_i32_4321 : BitVec 32 := 1#32
  let v7650 : BitVec 32 := Scalar.select v7649 c1_i32_4321 c2_i32_4319
  let v7651 : BitVec 32 := Scalar.remsi v7611 v7650
  let c0_i32_4323 : BitVec 32 := 0#32
  let v7653 : BitVec 1 := Scalar.cmpi .slt v7651 c0_i32_4323
  let c0_i32_4324 : BitVec 32 := 0#32
  let v7654 : BitVec 1 := Scalar.cmpi .slt v7650 c0_i32_4324
  let v7655 : BitVec 1 := Scalar.xori v7653 v7654
  let c0_i32_4322 : BitVec 32 := 0#32
  let v7652 : BitVec 1 := Scalar.cmpi .ne v7651 c0_i32_4322
  let v7656 : BitVec 1 := Scalar.andi v7655 v7652
  let v7657 : BitVec 32 := Scalar.addi v7651 v7650
  let v7658 : BitVec 32 := Scalar.select v7656 v7657 v7651
  let c0_i32_4332 : BitVec 32 := 0#32
  let c0_i32_4333 : BitVec 32 := 0#32
  ![v7658.toNat, 0, 0]
def k1_off31 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_4303 : BitVec 32 := 2#32
  let v7611 : BitVec 32 := Scalar.subi v346 c2_i32_4303
  let v7612 : BitVec 32 := Scalar.addi v2 v7611
  let c0_i32_4305 : BitVec 32 := 0#32
  let v7614 : BitVec 1 := Scalar.cmpi .sgt v7612 c0_i32_4305
  let v7615 : BitVec 32 := Scalar.extui v7614
  let c0_i32_4306 : BitVec 32 := 0#32
  let v7616 : BitVec 1 := Scalar.cmpi .slt v7612 c0_i32_4306
  let v7617 : BitVec 32 := Scalar.extui v7616
  let v7618 : BitVec 32 := Scalar.subi v7615 v7617
  let c128_i32_4304 : BitVec 32 := 128#32
  let c0_i32_4307 : BitVec 32 := 0#32
  let v7619 : BitVec 1 := Scalar.cmpi .sgt c128_i32_4304 c0_i32_4307
  let v7620 : BitVec 32 := Scalar.extui v7619
  let c0_i32_4308 : BitVec 32 := 0#32
  let v7621 : BitVec 1 := Scalar.cmpi .slt c128_i32_4304 c0_i32_4308
  let v7622 : BitVec 32 := Scalar.extui v7621
  let v7623 : BitVec 32 := Scalar.subi v7620 v7622
  let v7624 : BitVec 1 := Scalar.cmpi .ne v7618 v7623
  let v7625 : BitVec 32 := Scalar.remsi v7612 c128_i32_4304
  let c0_i32_4309 : BitVec 32 := 0#32
  let v7626 : BitVec 1 := Scalar.cmpi .ne v7625 c0_i32_4309
  let v7627 : BitVec 1 := Scalar.andi v7624 v7626
  let v7613 : BitVec 32 := Scalar.divsi v7612 c128_i32_4304
  let c1_i32_4310 : BitVec 32 := 1#32
  let v7628 : BitVec 32 := Scalar.subi v7613 c1_i32_4310
  let v7629 : BitVec 32 := Scalar.select v7627 v7628 v7613
  let c0_i32_4312 : BitVec 32 := 0#32
  let v7631 : BitVec 1 := Scalar.cmpi .sgt v7612 c0_i32_4312
  let v7632 : BitVec 32 := Scalar.extui v7631
  let c0_i32_4313 : BitVec 32 := 0#32
  let v7633 : BitVec 1 := Scalar.cmpi .slt v7612 c0_i32_4313
  let v7634 : BitVec 32 := Scalar.extui v7633
  let v7635 : BitVec 32 := Scalar.subi v7632 v7634
  let c128_i32_4311 : BitVec 32 := 128#32
  let c0_i32_4314 : BitVec 32 := 0#32
  let v7636 : BitVec 1 := Scalar.cmpi .sgt c128_i32_4311 c0_i32_4314
  let v7637 : BitVec 32 := Scalar.extui v7636
  let c0_i32_4315 : BitVec 32 := 0#32
  let v7638 : BitVec 1 := Scalar.cmpi .slt c128_i32_4311 c0_i32_4315
  let v7639 : BitVec 32 := Scalar.extui v7638
  let v7640 : BitVec 32 := Scalar.subi v7637 v7639
  let v7641 : BitVec 1 := Scalar.cmpi .ne v7635 v7640
  let v7642 : BitVec 32 := Scalar.remsi v7612 c128_i32_4311
  let c0_i32_4316 : BitVec 32 := 0#32
  let v7643 : BitVec 1 := Scalar.cmpi .ne v7642 c0_i32_4316
  let v7644 : BitVec 1 := Scalar.andi v7641 v7643
  let v7630 : BitVec 32 := Scalar.divsi v7612 c128_i32_4311
  let c1_i32_4317 : BitVec 32 := 1#32
  let v7645 : BitVec 32 := Scalar.subi v7630 c1_i32_4317
  let v7646 : BitVec 32 := Scalar.select v7644 v7645 v7630
  let c128_i32_4318 : BitVec 32 := 128#32
  let v7647 : BitVec 32 := Scalar.muli v7646 c128_i32_4318
  let v7648 : BitVec 32 := Scalar.subi v7612 v7647
  let c128_i32_4325 : BitVec 32 := 128#32
  let v7659 : BitVec 32 := Scalar.muli v7648 c128_i32_4325
  let c0_i32_4334 : BitVec 32 := 0#32
  ![v7629.toNat, v7659.toNat, 0]
def k1_off32 (k1_t1 : Fin k1_t1_loop.trips) : Fin 1 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_4303 : BitVec 32 := 2#32
  let v7611 : BitVec 32 := Scalar.subi v346 c2_i32_4303
  let c2_i32_4326 : BitVec 32 := 2#32
  let c0_i32_4327 : BitVec 32 := 0#32
  let v7660 : BitVec 1 := Scalar.cmpi .eq c2_i32_4326 c0_i32_4327
  let c1_i32_4328 : BitVec 32 := 1#32
  let v7661 : BitVec 32 := Scalar.select v7660 c1_i32_4328 c2_i32_4326
  let v7662 : BitVec 32 := Scalar.remsi v7611 v7661
  let c0_i32_4330 : BitVec 32 := 0#32
  let v7664 : BitVec 1 := Scalar.cmpi .slt v7662 c0_i32_4330
  let c0_i32_4331 : BitVec 32 := 0#32
  let v7665 : BitVec 1 := Scalar.cmpi .slt v7661 c0_i32_4331
  let v7666 : BitVec 1 := Scalar.xori v7664 v7665
  let c0_i32_4329 : BitVec 32 := 0#32
  let v7663 : BitVec 1 := Scalar.cmpi .ne v7662 c0_i32_4329
  let v7667 : BitVec 1 := Scalar.andi v7666 v7663
  let v7668 : BitVec 32 := Scalar.addi v7662 v7661
  let v7669 : BitVec 32 := Scalar.select v7667 v7668 v7662
  ![v7669.toNat]
def k1_off33 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c10_i32 : BitVec 32 := 10#32
  let c0_i32_192 : BitVec 32 := 0#32
  let v407 : BitVec 1 := Scalar.cmpi .eq c10_i32 c0_i32_192
  let c1_i32_193 : BitVec 32 := 1#32
  let v408 : BitVec 32 := Scalar.select v407 c1_i32_193 c10_i32
  let v409 : BitVec 32 := Scalar.remsi v346 v408
  let c0_i32_195 : BitVec 32 := 0#32
  let v411 : BitVec 1 := Scalar.cmpi .slt v409 c0_i32_195
  let c0_i32_196 : BitVec 32 := 0#32
  let v412 : BitVec 1 := Scalar.cmpi .slt v408 c0_i32_196
  let v413 : BitVec 1 := Scalar.xori v411 v412
  let c0_i32_194 : BitVec 32 := 0#32
  let v410 : BitVec 1 := Scalar.cmpi .ne v409 c0_i32_194
  let v414 : BitVec 1 := Scalar.andi v413 v410
  let v415 : BitVec 32 := Scalar.addi v409 v408
  let v416 : BitVec 32 := Scalar.select v414 v415 v409
  let v417 : Index := Scalar.indexCast v416
  let c0 : Index := 0#32
  ![v417.toNat, 0]
def k1_off34 (v436 : BitVec 32) (c0_i32_200 : BitVec 32) : Fin 2 → Nat :=
  let c0_i32_201 : BitVec 32 := 0#32
  let v440 : Index := Scalar.indexCast c0_i32_201
  let v437 : BitVec 32 := Scalar.addi v436 c0_i32_200
  let v441 : Index := Scalar.indexCast v437
  ![0, v441.toNat]

def k1_chk1 (k1_t1 : Fin k1_t1_loop.trips) (v436 : BitVec 32) : Prop :=
  (∀ (k1_h3 : k1_cond3 k1_t1 = 1#1), ∀ (r : Fin 4), ∀ a, (k1_off34 v436 (BitVec.ofNat 32 (16 * r.val))) a + S1x16.size a ≤ S128x128.size a)
instance k1_chk1.dec : ∀ (k1_t1 : Fin k1_t1_loop.trips) (v436 : BitVec 32), Decidable (k1_chk1 k1_t1 v436) := fun k1_t1 v436 => decidable_of_iff' _ (Iff.of_eq (k1_chk1.eq_1 k1_t1 v436))
theorem k1_off34_inb : ∀ (k1_t1 : Fin k1_t1_loop.trips) (v436 : BitVec 32) (k1_hw1 : k1_chk1 k1_t1 v436), ∀ (k1_h3 : k1_cond3 k1_t1 = 1#1), ∀ (r : Fin 4), ∀ a, (k1_off34 v436 (BitVec.ofNat 32 (16 * r.val))) a + S1x16.size a ≤ S128x128.size a := fun k1_t1 v436 k1_hw1 k1_h3 r => k1_hw1 k1_h3 r

def k1_off35 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_205 : BitVec 32 := 0#32
  let c0_i32_206 : BitVec 32 := 0#32
  ![v406.toNat, 0, 0]
def k1_off36 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_209 : BitVec 32 := 0#32
  let c0_i32_210 : BitVec 32 := 0#32
  ![v396.toNat, 0, 0]
def k1_off37 (v490 : BitVec 32) (c0_i32_226 : BitVec 32) : Fin 2 → Nat :=
  let c1_i32_227 : BitVec 32 := 1#32
  let v494 : Index := Scalar.indexCast c1_i32_227
  let v491 : BitVec 32 := Scalar.addi v490 c0_i32_226
  let v495 : Index := Scalar.indexCast v491
  ![1, v495.toNat]

def k1_chk2 (k1_t1 : Fin k1_t1_loop.trips) (v490 : BitVec 32) : Prop :=
  (∀ (k1_h3 : k1_cond3 k1_t1 = 1#1), ∀ (r : Fin 4), ∀ a, (k1_off37 v490 (BitVec.ofNat 32 (16 * r.val))) a + S1x16.size a ≤ S128x128.size a)
instance k1_chk2.dec : ∀ (k1_t1 : Fin k1_t1_loop.trips) (v490 : BitVec 32), Decidable (k1_chk2 k1_t1 v490) := fun k1_t1 v490 => decidable_of_iff' _ (Iff.of_eq (k1_chk2.eq_1 k1_t1 v490))
theorem k1_off37_inb : ∀ (k1_t1 : Fin k1_t1_loop.trips) (v490 : BitVec 32) (k1_hw2 : k1_chk2 k1_t1 v490), ∀ (k1_h3 : k1_cond3 k1_t1 = 1#1), ∀ (r : Fin 4), ∀ a, (k1_off37 v490 (BitVec.ofNat 32 (16 * r.val))) a + S1x16.size a ≤ S128x128.size a := fun k1_t1 v490 k1_hw2 k1_h3 r => k1_hw2 k1_h3 r

def k1_off38 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_231 : BitVec 32 := 0#32
  let c0_i32_232 : BitVec 32 := 0#32
  ![v406.toNat, 0, 0]
def k1_off39 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_236 : BitVec 32 := 0#32
  let c0_i32_237 : BitVec 32 := 0#32
  ![v396.toNat, 0, 0]
def k1_off40 (v544 : BitVec 32) (c0_i32_258 : BitVec 32) : Fin 2 → Nat :=
  let c2_i32_259 : BitVec 32 := 2#32
  let v548 : Index := Scalar.indexCast c2_i32_259
  let v545 : BitVec 32 := Scalar.addi v544 c0_i32_258
  let v549 : Index := Scalar.indexCast v545
  ![2, v549.toNat]

def k1_chk3 (k1_t1 : Fin k1_t1_loop.trips) (v544 : BitVec 32) : Prop :=
  (∀ (k1_h3 : k1_cond3 k1_t1 = 1#1), ∀ (r : Fin 4), ∀ a, (k1_off40 v544 (BitVec.ofNat 32 (16 * r.val))) a + S1x16.size a ≤ S128x128.size a)
instance k1_chk3.dec : ∀ (k1_t1 : Fin k1_t1_loop.trips) (v544 : BitVec 32), Decidable (k1_chk3 k1_t1 v544) := fun k1_t1 v544 => decidable_of_iff' _ (Iff.of_eq (k1_chk3.eq_1 k1_t1 v544))
theorem k1_off40_inb : ∀ (k1_t1 : Fin k1_t1_loop.trips) (v544 : BitVec 32) (k1_hw3 : k1_chk3 k1_t1 v544), ∀ (k1_h3 : k1_cond3 k1_t1 = 1#1), ∀ (r : Fin 4), ∀ a, (k1_off40 v544 (BitVec.ofNat 32 (16 * r.val))) a + S1x16.size a ≤ S128x128.size a := fun k1_t1 v544 k1_hw3 k1_h3 r => k1_hw3 k1_h3 r

def k1_off41 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_263 : BitVec 32 := 0#32
  let c0_i32_264 : BitVec 32 := 0#32
  ![v406.toNat, 0, 0]
def k1_off42 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_268 : BitVec 32 := 0#32
  let c0_i32_269 : BitVec 32 := 0#32
  ![v396.toNat, 0, 0]
def k1_off43 (v598 : BitVec 32) (c0_i32_290 : BitVec 32) : Fin 2 → Nat :=
  let c3_i32_291 : BitVec 32 := 3#32
  let v602 : Index := Scalar.indexCast c3_i32_291
  let v599 : BitVec 32 := Scalar.addi v598 c0_i32_290
  let v603 : Index := Scalar.indexCast v599
  ![3, v603.toNat]

def k1_chk4 (k1_t1 : Fin k1_t1_loop.trips) (v598 : BitVec 32) : Prop :=
  (∀ (k1_h3 : k1_cond3 k1_t1 = 1#1), ∀ (r : Fin 4), ∀ a, (k1_off43 v598 (BitVec.ofNat 32 (16 * r.val))) a + S1x16.size a ≤ S128x128.size a)
instance k1_chk4.dec : ∀ (k1_t1 : Fin k1_t1_loop.trips) (v598 : BitVec 32), Decidable (k1_chk4 k1_t1 v598) := fun k1_t1 v598 => decidable_of_iff' _ (Iff.of_eq (k1_chk4.eq_1 k1_t1 v598))
theorem k1_off43_inb : ∀ (k1_t1 : Fin k1_t1_loop.trips) (v598 : BitVec 32) (k1_hw4 : k1_chk4 k1_t1 v598), ∀ (k1_h3 : k1_cond3 k1_t1 = 1#1), ∀ (r : Fin 4), ∀ a, (k1_off43 v598 (BitVec.ofNat 32 (16 * r.val))) a + S1x16.size a ≤ S128x128.size a := fun k1_t1 v598 k1_hw4 k1_h3 r => k1_hw4 k1_h3 r

def k1_off44 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_295 : BitVec 32 := 0#32
  let c0_i32_296 : BitVec 32 := 0#32
  ![v406.toNat, 0, 0]
def k1_off45 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_300 : BitVec 32 := 0#32
  let c0_i32_301 : BitVec 32 := 0#32
  ![v396.toNat, 0, 0]
def k1_off46 (v652 : BitVec 32) (c0_i32_322 : BitVec 32) : Fin 2 → Nat :=
  let c4_i32_323 : BitVec 32 := 4#32
  let v656 : Index := Scalar.indexCast c4_i32_323
  let v653 : BitVec 32 := Scalar.addi v652 c0_i32_322
  let v657 : Index := Scalar.indexCast v653
  ![4, v657.toNat]

def k1_chk5 (k1_t1 : Fin k1_t1_loop.trips) (v652 : BitVec 32) : Prop :=
  (∀ (k1_h3 : k1_cond3 k1_t1 = 1#1), ∀ (r : Fin 4), ∀ a, (k1_off46 v652 (BitVec.ofNat 32 (16 * r.val))) a + S1x16.size a ≤ S128x128.size a)
instance k1_chk5.dec : ∀ (k1_t1 : Fin k1_t1_loop.trips) (v652 : BitVec 32), Decidable (k1_chk5 k1_t1 v652) := fun k1_t1 v652 => decidable_of_iff' _ (Iff.of_eq (k1_chk5.eq_1 k1_t1 v652))
theorem k1_off46_inb : ∀ (k1_t1 : Fin k1_t1_loop.trips) (v652 : BitVec 32) (k1_hw5 : k1_chk5 k1_t1 v652), ∀ (k1_h3 : k1_cond3 k1_t1 = 1#1), ∀ (r : Fin 4), ∀ a, (k1_off46 v652 (BitVec.ofNat 32 (16 * r.val))) a + S1x16.size a ≤ S128x128.size a := fun k1_t1 v652 k1_hw5 k1_h3 r => k1_hw5 k1_h3 r

def k1_off47 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_327 : BitVec 32 := 0#32
  let c0_i32_328 : BitVec 32 := 0#32
  ![v406.toNat, 0, 0]
def k1_off48 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_332 : BitVec 32 := 0#32
  let c0_i32_333 : BitVec 32 := 0#32
  ![v396.toNat, 0, 0]
def k1_off49 (v706 : BitVec 32) (c0_i32_354 : BitVec 32) : Fin 2 → Nat :=
  let c5_i32_355 : BitVec 32 := 5#32
  let v710 : Index := Scalar.indexCast c5_i32_355
  let v707 : BitVec 32 := Scalar.addi v706 c0_i32_354
  let v711 : Index := Scalar.indexCast v707
  ![5, v711.toNat]

def k1_chk6 (k1_t1 : Fin k1_t1_loop.trips) (v706 : BitVec 32) : Prop :=
  (∀ (k1_h3 : k1_cond3 k1_t1 = 1#1), ∀ (r : Fin 4), ∀ a, (k1_off49 v706 (BitVec.ofNat 32 (16 * r.val))) a + S1x16.size a ≤ S128x128.size a)
instance k1_chk6.dec : ∀ (k1_t1 : Fin k1_t1_loop.trips) (v706 : BitVec 32), Decidable (k1_chk6 k1_t1 v706) := fun k1_t1 v706 => decidable_of_iff' _ (Iff.of_eq (k1_chk6.eq_1 k1_t1 v706))
theorem k1_off49_inb : ∀ (k1_t1 : Fin k1_t1_loop.trips) (v706 : BitVec 32) (k1_hw6 : k1_chk6 k1_t1 v706), ∀ (k1_h3 : k1_cond3 k1_t1 = 1#1), ∀ (r : Fin 4), ∀ a, (k1_off49 v706 (BitVec.ofNat 32 (16 * r.val))) a + S1x16.size a ≤ S128x128.size a := fun k1_t1 v706 k1_hw6 k1_h3 r => k1_hw6 k1_h3 r

def k1_off50 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_359 : BitVec 32 := 0#32
  let c0_i32_360 : BitVec 32 := 0#32
  ![v406.toNat, 0, 0]
def k1_off51 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_364 : BitVec 32 := 0#32
  let c0_i32_365 : BitVec 32 := 0#32
  ![v396.toNat, 0, 0]
def k1_off52 (v760 : BitVec 32) (c0_i32_386 : BitVec 32) : Fin 2 → Nat :=
  let c6_i32_387 : BitVec 32 := 6#32
  let v764 : Index := Scalar.indexCast c6_i32_387
  let v761 : BitVec 32 := Scalar.addi v760 c0_i32_386
  let v765 : Index := Scalar.indexCast v761
  ![6, v765.toNat]

def k1_chk7 (k1_t1 : Fin k1_t1_loop.trips) (v760 : BitVec 32) : Prop :=
  (∀ (k1_h3 : k1_cond3 k1_t1 = 1#1), ∀ (r : Fin 4), ∀ a, (k1_off52 v760 (BitVec.ofNat 32 (16 * r.val))) a + S1x16.size a ≤ S128x128.size a)
instance k1_chk7.dec : ∀ (k1_t1 : Fin k1_t1_loop.trips) (v760 : BitVec 32), Decidable (k1_chk7 k1_t1 v760) := fun k1_t1 v760 => decidable_of_iff' _ (Iff.of_eq (k1_chk7.eq_1 k1_t1 v760))
theorem k1_off52_inb : ∀ (k1_t1 : Fin k1_t1_loop.trips) (v760 : BitVec 32) (k1_hw7 : k1_chk7 k1_t1 v760), ∀ (k1_h3 : k1_cond3 k1_t1 = 1#1), ∀ (r : Fin 4), ∀ a, (k1_off52 v760 (BitVec.ofNat 32 (16 * r.val))) a + S1x16.size a ≤ S128x128.size a := fun k1_t1 v760 k1_hw7 k1_h3 r => k1_hw7 k1_h3 r

def k1_off53 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_391 : BitVec 32 := 0#32
  let c0_i32_392 : BitVec 32 := 0#32
  ![v406.toNat, 0, 0]
def k1_off54 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_396 : BitVec 32 := 0#32
  let c0_i32_397 : BitVec 32 := 0#32
  ![v396.toNat, 0, 0]
def k1_off55 (v814 : BitVec 32) (c0_i32_418 : BitVec 32) : Fin 2 → Nat :=
  let c7_i32 : BitVec 32 := 7#32
  let v818 : Index := Scalar.indexCast c7_i32
  let v815 : BitVec 32 := Scalar.addi v814 c0_i32_418
  let v819 : Index := Scalar.indexCast v815
  ![7, v819.toNat]

def k1_chk8 (k1_t1 : Fin k1_t1_loop.trips) (v814 : BitVec 32) : Prop :=
  (∀ (k1_h3 : k1_cond3 k1_t1 = 1#1), ∀ (r : Fin 4), ∀ a, (k1_off55 v814 (BitVec.ofNat 32 (16 * r.val))) a + S1x16.size a ≤ S128x128.size a)
instance k1_chk8.dec : ∀ (k1_t1 : Fin k1_t1_loop.trips) (v814 : BitVec 32), Decidable (k1_chk8 k1_t1 v814) := fun k1_t1 v814 => decidable_of_iff' _ (Iff.of_eq (k1_chk8.eq_1 k1_t1 v814))
theorem k1_off55_inb : ∀ (k1_t1 : Fin k1_t1_loop.trips) (v814 : BitVec 32) (k1_hw8 : k1_chk8 k1_t1 v814), ∀ (k1_h3 : k1_cond3 k1_t1 = 1#1), ∀ (r : Fin 4), ∀ a, (k1_off55 v814 (BitVec.ofNat 32 (16 * r.val))) a + S1x16.size a ≤ S128x128.size a := fun k1_t1 v814 k1_hw8 k1_h3 r => k1_hw8 k1_h3 r

def k1_off56 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_422 : BitVec 32 := 0#32
  let c0_i32_423 : BitVec 32 := 0#32
  ![v406.toNat, 0, 0]
def k1_off57 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_427 : BitVec 32 := 0#32
  let c0_i32_428 : BitVec 32 := 0#32
  ![v396.toNat, 0, 0]
def k1_off58 (v868 : BitVec 32) (c0_i32_449 : BitVec 32) : Fin 2 → Nat :=
  let c8_i32 : BitVec 32 := 8#32
  let v872 : Index := Scalar.indexCast c8_i32
  let v869 : BitVec 32 := Scalar.addi v868 c0_i32_449
  let v873 : Index := Scalar.indexCast v869
  ![8, v873.toNat]

def k1_chk9 (k1_t1 : Fin k1_t1_loop.trips) (v868 : BitVec 32) : Prop :=
  (∀ (k1_h3 : k1_cond3 k1_t1 = 1#1), ∀ (r : Fin 4), ∀ a, (k1_off58 v868 (BitVec.ofNat 32 (16 * r.val))) a + S1x16.size a ≤ S128x128.size a)
instance k1_chk9.dec : ∀ (k1_t1 : Fin k1_t1_loop.trips) (v868 : BitVec 32), Decidable (k1_chk9 k1_t1 v868) := fun k1_t1 v868 => decidable_of_iff' _ (Iff.of_eq (k1_chk9.eq_1 k1_t1 v868))
theorem k1_off58_inb : ∀ (k1_t1 : Fin k1_t1_loop.trips) (v868 : BitVec 32) (k1_hw9 : k1_chk9 k1_t1 v868), ∀ (k1_h3 : k1_cond3 k1_t1 = 1#1), ∀ (r : Fin 4), ∀ a, (k1_off58 v868 (BitVec.ofNat 32 (16 * r.val))) a + S1x16.size a ≤ S128x128.size a := fun k1_t1 v868 k1_hw9 k1_h3 r => k1_hw9 k1_h3 r

def k1_off59 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_453 : BitVec 32 := 0#32
  let c0_i32_454 : BitVec 32 := 0#32
  ![v406.toNat, 0, 0]
def k1_off60 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_458 : BitVec 32 := 0#32
  let c0_i32_459 : BitVec 32 := 0#32
  ![v396.toNat, 0, 0]
def k1_off61 (v922 : BitVec 32) (c0_i32_480 : BitVec 32) : Fin 2 → Nat :=
  let c9_i32 : BitVec 32 := 9#32
  let v926 : Index := Scalar.indexCast c9_i32
  let v923 : BitVec 32 := Scalar.addi v922 c0_i32_480
  let v927 : Index := Scalar.indexCast v923
  ![9, v927.toNat]

def k1_chk10 (k1_t1 : Fin k1_t1_loop.trips) (v922 : BitVec 32) : Prop :=
  (∀ (k1_h3 : k1_cond3 k1_t1 = 1#1), ∀ (r : Fin 4), ∀ a, (k1_off61 v922 (BitVec.ofNat 32 (16 * r.val))) a + S1x16.size a ≤ S128x128.size a)
instance k1_chk10.dec : ∀ (k1_t1 : Fin k1_t1_loop.trips) (v922 : BitVec 32), Decidable (k1_chk10 k1_t1 v922) := fun k1_t1 v922 => decidable_of_iff' _ (Iff.of_eq (k1_chk10.eq_1 k1_t1 v922))
theorem k1_off61_inb : ∀ (k1_t1 : Fin k1_t1_loop.trips) (v922 : BitVec 32) (k1_hw10 : k1_chk10 k1_t1 v922), ∀ (k1_h3 : k1_cond3 k1_t1 = 1#1), ∀ (r : Fin 4), ∀ a, (k1_off61 v922 (BitVec.ofNat 32 (16 * r.val))) a + S1x16.size a ≤ S128x128.size a := fun k1_t1 v922 k1_hw10 k1_h3 r => k1_hw10 k1_h3 r

def k1_off62 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_484 : BitVec 32 := 0#32
  let c0_i32_485 : BitVec 32 := 0#32
  ![v406.toNat, 0, 0]
def k1_off63 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_489 : BitVec 32 := 0#32
  let c0_i32_490 : BitVec 32 := 0#32
  ![v396.toNat, 0, 0]
def k1_off64 (v976 : BitVec 32) (c0_i32_511 : BitVec 32) : Fin 2 → Nat :=
  let c10_i32_512 : BitVec 32 := 10#32
  let v980 : Index := Scalar.indexCast c10_i32_512
  let v977 : BitVec 32 := Scalar.addi v976 c0_i32_511
  let v981 : Index := Scalar.indexCast v977
  ![10, v981.toNat]

def k1_chk11 (k1_t1 : Fin k1_t1_loop.trips) (v976 : BitVec 32) : Prop :=
  (∀ (k1_h3 : k1_cond3 k1_t1 = 1#1), ∀ (r : Fin 4), ∀ a, (k1_off64 v976 (BitVec.ofNat 32 (16 * r.val))) a + S1x16.size a ≤ S128x128.size a)
instance k1_chk11.dec : ∀ (k1_t1 : Fin k1_t1_loop.trips) (v976 : BitVec 32), Decidable (k1_chk11 k1_t1 v976) := fun k1_t1 v976 => decidable_of_iff' _ (Iff.of_eq (k1_chk11.eq_1 k1_t1 v976))
theorem k1_off64_inb : ∀ (k1_t1 : Fin k1_t1_loop.trips) (v976 : BitVec 32) (k1_hw11 : k1_chk11 k1_t1 v976), ∀ (k1_h3 : k1_cond3 k1_t1 = 1#1), ∀ (r : Fin 4), ∀ a, (k1_off64 v976 (BitVec.ofNat 32 (16 * r.val))) a + S1x16.size a ≤ S128x128.size a := fun k1_t1 v976 k1_hw11 k1_h3 r => k1_hw11 k1_h3 r

def k1_off65 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_516 : BitVec 32 := 0#32
  let c0_i32_517 : BitVec 32 := 0#32
  ![v406.toNat, 0, 0]
def k1_off66 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_521 : BitVec 32 := 0#32
  let c0_i32_522 : BitVec 32 := 0#32
  ![v396.toNat, 0, 0]
def k1_off67 (v1030 : BitVec 32) (c0_i32_543 : BitVec 32) : Fin 2 → Nat :=
  let c11_i32 : BitVec 32 := 11#32
  let v1034 : Index := Scalar.indexCast c11_i32
  let v1031 : BitVec 32 := Scalar.addi v1030 c0_i32_543
  let v1035 : Index := Scalar.indexCast v1031
  ![11, v1035.toNat]

def k1_chk12 (k1_t1 : Fin k1_t1_loop.trips) (v1030 : BitVec 32) : Prop :=
  (∀ (k1_h3 : k1_cond3 k1_t1 = 1#1), ∀ (r : Fin 4), ∀ a, (k1_off67 v1030 (BitVec.ofNat 32 (16 * r.val))) a + S1x16.size a ≤ S128x128.size a)
instance k1_chk12.dec : ∀ (k1_t1 : Fin k1_t1_loop.trips) (v1030 : BitVec 32), Decidable (k1_chk12 k1_t1 v1030) := fun k1_t1 v1030 => decidable_of_iff' _ (Iff.of_eq (k1_chk12.eq_1 k1_t1 v1030))
theorem k1_off67_inb : ∀ (k1_t1 : Fin k1_t1_loop.trips) (v1030 : BitVec 32) (k1_hw12 : k1_chk12 k1_t1 v1030), ∀ (k1_h3 : k1_cond3 k1_t1 = 1#1), ∀ (r : Fin 4), ∀ a, (k1_off67 v1030 (BitVec.ofNat 32 (16 * r.val))) a + S1x16.size a ≤ S128x128.size a := fun k1_t1 v1030 k1_hw12 k1_h3 r => k1_hw12 k1_h3 r

def k1_off68 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_547 : BitVec 32 := 0#32
  let c0_i32_548 : BitVec 32 := 0#32
  ![v406.toNat, 0, 0]
def k1_off69 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_552 : BitVec 32 := 0#32
  let c0_i32_553 : BitVec 32 := 0#32
  ![v396.toNat, 0, 0]
def k1_off70 (v1084 : BitVec 32) (c0_i32_574 : BitVec 32) : Fin 2 → Nat :=
  let c12_i32 : BitVec 32 := 12#32
  let v1088 : Index := Scalar.indexCast c12_i32
  let v1085 : BitVec 32 := Scalar.addi v1084 c0_i32_574
  let v1089 : Index := Scalar.indexCast v1085
  ![12, v1089.toNat]

def k1_chk13 (k1_t1 : Fin k1_t1_loop.trips) (v1084 : BitVec 32) : Prop :=
  (∀ (k1_h3 : k1_cond3 k1_t1 = 1#1), ∀ (r : Fin 4), ∀ a, (k1_off70 v1084 (BitVec.ofNat 32 (16 * r.val))) a + S1x16.size a ≤ S128x128.size a)
instance k1_chk13.dec : ∀ (k1_t1 : Fin k1_t1_loop.trips) (v1084 : BitVec 32), Decidable (k1_chk13 k1_t1 v1084) := fun k1_t1 v1084 => decidable_of_iff' _ (Iff.of_eq (k1_chk13.eq_1 k1_t1 v1084))
theorem k1_off70_inb : ∀ (k1_t1 : Fin k1_t1_loop.trips) (v1084 : BitVec 32) (k1_hw13 : k1_chk13 k1_t1 v1084), ∀ (k1_h3 : k1_cond3 k1_t1 = 1#1), ∀ (r : Fin 4), ∀ a, (k1_off70 v1084 (BitVec.ofNat 32 (16 * r.val))) a + S1x16.size a ≤ S128x128.size a := fun k1_t1 v1084 k1_hw13 k1_h3 r => k1_hw13 k1_h3 r

def k1_off71 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_578 : BitVec 32 := 0#32
  let c0_i32_579 : BitVec 32 := 0#32
  ![v406.toNat, 0, 0]
def k1_off72 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_583 : BitVec 32 := 0#32
  let c0_i32_584 : BitVec 32 := 0#32
  ![v396.toNat, 0, 0]
def k1_off73 (v1138 : BitVec 32) (c0_i32_605 : BitVec 32) : Fin 2 → Nat :=
  let c13_i32 : BitVec 32 := 13#32
  let v1142 : Index := Scalar.indexCast c13_i32
  let v1139 : BitVec 32 := Scalar.addi v1138 c0_i32_605
  let v1143 : Index := Scalar.indexCast v1139
  ![13, v1143.toNat]

def k1_chk14 (k1_t1 : Fin k1_t1_loop.trips) (v1138 : BitVec 32) : Prop :=
  (∀ (k1_h3 : k1_cond3 k1_t1 = 1#1), ∀ (r : Fin 4), ∀ a, (k1_off73 v1138 (BitVec.ofNat 32 (16 * r.val))) a + S1x16.size a ≤ S128x128.size a)
instance k1_chk14.dec : ∀ (k1_t1 : Fin k1_t1_loop.trips) (v1138 : BitVec 32), Decidable (k1_chk14 k1_t1 v1138) := fun k1_t1 v1138 => decidable_of_iff' _ (Iff.of_eq (k1_chk14.eq_1 k1_t1 v1138))
theorem k1_off73_inb : ∀ (k1_t1 : Fin k1_t1_loop.trips) (v1138 : BitVec 32) (k1_hw14 : k1_chk14 k1_t1 v1138), ∀ (k1_h3 : k1_cond3 k1_t1 = 1#1), ∀ (r : Fin 4), ∀ a, (k1_off73 v1138 (BitVec.ofNat 32 (16 * r.val))) a + S1x16.size a ≤ S128x128.size a := fun k1_t1 v1138 k1_hw14 k1_h3 r => k1_hw14 k1_h3 r

def k1_off74 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_609 : BitVec 32 := 0#32
  let c0_i32_610 : BitVec 32 := 0#32
  ![v406.toNat, 0, 0]
def k1_off75 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_614 : BitVec 32 := 0#32
  let c0_i32_615 : BitVec 32 := 0#32
  ![v396.toNat, 0, 0]
def k1_off76 (v1192 : BitVec 32) (c0_i32_636 : BitVec 32) : Fin 2 → Nat :=
  let c14_i32_637 : BitVec 32 := 14#32
  let v1196 : Index := Scalar.indexCast c14_i32_637
  let v1193 : BitVec 32 := Scalar.addi v1192 c0_i32_636
  let v1197 : Index := Scalar.indexCast v1193
  ![14, v1197.toNat]

def k1_chk15 (k1_t1 : Fin k1_t1_loop.trips) (v1192 : BitVec 32) : Prop :=
  (∀ (k1_h3 : k1_cond3 k1_t1 = 1#1), ∀ (r : Fin 4), ∀ a, (k1_off76 v1192 (BitVec.ofNat 32 (16 * r.val))) a + S1x16.size a ≤ S128x128.size a)
instance k1_chk15.dec : ∀ (k1_t1 : Fin k1_t1_loop.trips) (v1192 : BitVec 32), Decidable (k1_chk15 k1_t1 v1192) := fun k1_t1 v1192 => decidable_of_iff' _ (Iff.of_eq (k1_chk15.eq_1 k1_t1 v1192))
theorem k1_off76_inb : ∀ (k1_t1 : Fin k1_t1_loop.trips) (v1192 : BitVec 32) (k1_hw15 : k1_chk15 k1_t1 v1192), ∀ (k1_h3 : k1_cond3 k1_t1 = 1#1), ∀ (r : Fin 4), ∀ a, (k1_off76 v1192 (BitVec.ofNat 32 (16 * r.val))) a + S1x16.size a ≤ S128x128.size a := fun k1_t1 v1192 k1_hw15 k1_h3 r => k1_hw15 k1_h3 r

def k1_off77 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_641 : BitVec 32 := 0#32
  let c0_i32_642 : BitVec 32 := 0#32
  ![v406.toNat, 0, 0]
def k1_off78 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_646 : BitVec 32 := 0#32
  let c0_i32_647 : BitVec 32 := 0#32
  ![v396.toNat, 0, 0]
def k1_off79 (v1246 : BitVec 32) (c0_i32_668 : BitVec 32) : Fin 2 → Nat :=
  let c15_i32_669 : BitVec 32 := 15#32
  let v1250 : Index := Scalar.indexCast c15_i32_669
  let v1247 : BitVec 32 := Scalar.addi v1246 c0_i32_668
  let v1251 : Index := Scalar.indexCast v1247
  ![15, v1251.toNat]

def k1_chk16 (k1_t1 : Fin k1_t1_loop.trips) (v1246 : BitVec 32) : Prop :=
  (∀ (k1_h3 : k1_cond3 k1_t1 = 1#1), ∀ (r : Fin 4), ∀ a, (k1_off79 v1246 (BitVec.ofNat 32 (16 * r.val))) a + S1x16.size a ≤ S128x128.size a)
instance k1_chk16.dec : ∀ (k1_t1 : Fin k1_t1_loop.trips) (v1246 : BitVec 32), Decidable (k1_chk16 k1_t1 v1246) := fun k1_t1 v1246 => decidable_of_iff' _ (Iff.of_eq (k1_chk16.eq_1 k1_t1 v1246))
theorem k1_off79_inb : ∀ (k1_t1 : Fin k1_t1_loop.trips) (v1246 : BitVec 32) (k1_hw16 : k1_chk16 k1_t1 v1246), ∀ (k1_h3 : k1_cond3 k1_t1 = 1#1), ∀ (r : Fin 4), ∀ a, (k1_off79 v1246 (BitVec.ofNat 32 (16 * r.val))) a + S1x16.size a ≤ S128x128.size a := fun k1_t1 v1246 k1_hw16 k1_h3 r => k1_hw16 k1_h3 r

def k1_off80 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_673 : BitVec 32 := 0#32
  let c0_i32_674 : BitVec 32 := 0#32
  ![v406.toNat, 0, 0]
def k1_off81 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_678 : BitVec 32 := 0#32
  let c0_i32_679 : BitVec 32 := 0#32
  ![v396.toNat, 0, 0]
def k1_off82 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c10_i32_700 : BitVec 32 := 10#32
  let c0_i32_701 : BitVec 32 := 0#32
  let v1299 : BitVec 1 := Scalar.cmpi .eq c10_i32_700 c0_i32_701
  let c1_i32_702 : BitVec 32 := 1#32
  let v1300 : BitVec 32 := Scalar.select v1299 c1_i32_702 c10_i32_700
  let v1301 : BitVec 32 := Scalar.remsi v346 v1300
  let c0_i32_704 : BitVec 32 := 0#32
  let v1303 : BitVec 1 := Scalar.cmpi .slt v1301 c0_i32_704
  let c0_i32_705 : BitVec 32 := 0#32
  let v1304 : BitVec 1 := Scalar.cmpi .slt v1300 c0_i32_705
  let v1305 : BitVec 1 := Scalar.xori v1303 v1304
  let c0_i32_703 : BitVec 32 := 0#32
  let v1302 : BitVec 1 := Scalar.cmpi .ne v1301 c0_i32_703
  let v1306 : BitVec 1 := Scalar.andi v1305 v1302
  let v1307 : BitVec 32 := Scalar.addi v1301 v1300
  let v1308 : BitVec 32 := Scalar.select v1306 v1307 v1301
  let v1309 : Index := Scalar.indexCast v1308
  let c16_706 : Index := 16#32
  ![v1309.toNat, 16]
def k1_off83 (v1328 : BitVec 32) (c0_i32_714 : BitVec 32) : Fin 2 → Nat :=
  let c16_i32_715 : BitVec 32 := 16#32
  let v1332 : Index := Scalar.indexCast c16_i32_715
  let v1329 : BitVec 32 := Scalar.addi v1328 c0_i32_714
  let v1333 : Index := Scalar.indexCast v1329
  ![16, v1333.toNat]

def k1_chk17 (k1_t1 : Fin k1_t1_loop.trips) (v1328 : BitVec 32) : Prop :=
  (∀ (k1_h3 : k1_cond3 k1_t1 = 1#1), ∀ (r : Fin 4), ∀ a, (k1_off83 v1328 (BitVec.ofNat 32 (16 * r.val))) a + S1x16.size a ≤ S128x128.size a)
instance k1_chk17.dec : ∀ (k1_t1 : Fin k1_t1_loop.trips) (v1328 : BitVec 32), Decidable (k1_chk17 k1_t1 v1328) := fun k1_t1 v1328 => decidable_of_iff' _ (Iff.of_eq (k1_chk17.eq_1 k1_t1 v1328))
theorem k1_off83_inb : ∀ (k1_t1 : Fin k1_t1_loop.trips) (v1328 : BitVec 32) (k1_hw17 : k1_chk17 k1_t1 v1328), ∀ (k1_h3 : k1_cond3 k1_t1 = 1#1), ∀ (r : Fin 4), ∀ a, (k1_off83 v1328 (BitVec.ofNat 32 (16 * r.val))) a + S1x16.size a ≤ S128x128.size a := fun k1_t1 v1328 k1_hw17 k1_h3 r => k1_hw17 k1_h3 r

def k1_off84 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_719 : BitVec 32 := 0#32
  let c0_i32_720 : BitVec 32 := 0#32
  ![v406.toNat, 0, 0]
def k1_off85 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_724 : BitVec 32 := 0#32
  let c0_i32_725 : BitVec 32 := 0#32
  ![v396.toNat, 0, 0]
def k1_off86 (v1382 : BitVec 32) (c0_i32_746 : BitVec 32) : Fin 2 → Nat :=
  let c17_i32 : BitVec 32 := 17#32
  let v1386 : Index := Scalar.indexCast c17_i32
  let v1383 : BitVec 32 := Scalar.addi v1382 c0_i32_746
  let v1387 : Index := Scalar.indexCast v1383
  ![17, v1387.toNat]

def k1_chk18 (k1_t1 : Fin k1_t1_loop.trips) (v1382 : BitVec 32) : Prop :=
  (∀ (k1_h3 : k1_cond3 k1_t1 = 1#1), ∀ (r : Fin 4), ∀ a, (k1_off86 v1382 (BitVec.ofNat 32 (16 * r.val))) a + S1x16.size a ≤ S128x128.size a)
instance k1_chk18.dec : ∀ (k1_t1 : Fin k1_t1_loop.trips) (v1382 : BitVec 32), Decidable (k1_chk18 k1_t1 v1382) := fun k1_t1 v1382 => decidable_of_iff' _ (Iff.of_eq (k1_chk18.eq_1 k1_t1 v1382))
theorem k1_off86_inb : ∀ (k1_t1 : Fin k1_t1_loop.trips) (v1382 : BitVec 32) (k1_hw18 : k1_chk18 k1_t1 v1382), ∀ (k1_h3 : k1_cond3 k1_t1 = 1#1), ∀ (r : Fin 4), ∀ a, (k1_off86 v1382 (BitVec.ofNat 32 (16 * r.val))) a + S1x16.size a ≤ S128x128.size a := fun k1_t1 v1382 k1_hw18 k1_h3 r => k1_hw18 k1_h3 r

def k1_off87 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_750 : BitVec 32 := 0#32
  let c0_i32_751 : BitVec 32 := 0#32
  ![v406.toNat, 0, 0]
def k1_off88 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_755 : BitVec 32 := 0#32
  let c0_i32_756 : BitVec 32 := 0#32
  ![v396.toNat, 0, 0]
def k1_off89 (v1436 : BitVec 32) (c0_i32_777 : BitVec 32) : Fin 2 → Nat :=
  let c18_i32 : BitVec 32 := 18#32
  let v1440 : Index := Scalar.indexCast c18_i32
  let v1437 : BitVec 32 := Scalar.addi v1436 c0_i32_777
  let v1441 : Index := Scalar.indexCast v1437
  ![18, v1441.toNat]

def k1_chk19 (k1_t1 : Fin k1_t1_loop.trips) (v1436 : BitVec 32) : Prop :=
  (∀ (k1_h3 : k1_cond3 k1_t1 = 1#1), ∀ (r : Fin 4), ∀ a, (k1_off89 v1436 (BitVec.ofNat 32 (16 * r.val))) a + S1x16.size a ≤ S128x128.size a)
instance k1_chk19.dec : ∀ (k1_t1 : Fin k1_t1_loop.trips) (v1436 : BitVec 32), Decidable (k1_chk19 k1_t1 v1436) := fun k1_t1 v1436 => decidable_of_iff' _ (Iff.of_eq (k1_chk19.eq_1 k1_t1 v1436))
theorem k1_off89_inb : ∀ (k1_t1 : Fin k1_t1_loop.trips) (v1436 : BitVec 32) (k1_hw19 : k1_chk19 k1_t1 v1436), ∀ (k1_h3 : k1_cond3 k1_t1 = 1#1), ∀ (r : Fin 4), ∀ a, (k1_off89 v1436 (BitVec.ofNat 32 (16 * r.val))) a + S1x16.size a ≤ S128x128.size a := fun k1_t1 v1436 k1_hw19 k1_h3 r => k1_hw19 k1_h3 r

def k1_off90 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_781 : BitVec 32 := 0#32
  let c0_i32_782 : BitVec 32 := 0#32
  ![v406.toNat, 0, 0]
def k1_off91 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_786 : BitVec 32 := 0#32
  let c0_i32_787 : BitVec 32 := 0#32
  ![v396.toNat, 0, 0]
def k1_off92 (v1490 : BitVec 32) (c0_i32_808 : BitVec 32) : Fin 2 → Nat :=
  let c19_i32 : BitVec 32 := 19#32
  let v1494 : Index := Scalar.indexCast c19_i32
  let v1491 : BitVec 32 := Scalar.addi v1490 c0_i32_808
  let v1495 : Index := Scalar.indexCast v1491
  ![19, v1495.toNat]

def k1_chk20 (k1_t1 : Fin k1_t1_loop.trips) (v1490 : BitVec 32) : Prop :=
  (∀ (k1_h3 : k1_cond3 k1_t1 = 1#1), ∀ (r : Fin 4), ∀ a, (k1_off92 v1490 (BitVec.ofNat 32 (16 * r.val))) a + S1x16.size a ≤ S128x128.size a)
instance k1_chk20.dec : ∀ (k1_t1 : Fin k1_t1_loop.trips) (v1490 : BitVec 32), Decidable (k1_chk20 k1_t1 v1490) := fun k1_t1 v1490 => decidable_of_iff' _ (Iff.of_eq (k1_chk20.eq_1 k1_t1 v1490))
theorem k1_off92_inb : ∀ (k1_t1 : Fin k1_t1_loop.trips) (v1490 : BitVec 32) (k1_hw20 : k1_chk20 k1_t1 v1490), ∀ (k1_h3 : k1_cond3 k1_t1 = 1#1), ∀ (r : Fin 4), ∀ a, (k1_off92 v1490 (BitVec.ofNat 32 (16 * r.val))) a + S1x16.size a ≤ S128x128.size a := fun k1_t1 v1490 k1_hw20 k1_h3 r => k1_hw20 k1_h3 r

def k1_off93 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_812 : BitVec 32 := 0#32
  let c0_i32_813 : BitVec 32 := 0#32
  ![v406.toNat, 0, 0]
def k1_off94 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_817 : BitVec 32 := 0#32
  let c0_i32_818 : BitVec 32 := 0#32
  ![v396.toNat, 0, 0]
def k1_off95 (v1544 : BitVec 32) (c0_i32_839 : BitVec 32) : Fin 2 → Nat :=
  let c20_i32 : BitVec 32 := 20#32
  let v1548 : Index := Scalar.indexCast c20_i32
  let v1545 : BitVec 32 := Scalar.addi v1544 c0_i32_839
  let v1549 : Index := Scalar.indexCast v1545
  ![20, v1549.toNat]

def k1_chk21 (k1_t1 : Fin k1_t1_loop.trips) (v1544 : BitVec 32) : Prop :=
  (∀ (k1_h3 : k1_cond3 k1_t1 = 1#1), ∀ (r : Fin 4), ∀ a, (k1_off95 v1544 (BitVec.ofNat 32 (16 * r.val))) a + S1x16.size a ≤ S128x128.size a)
instance k1_chk21.dec : ∀ (k1_t1 : Fin k1_t1_loop.trips) (v1544 : BitVec 32), Decidable (k1_chk21 k1_t1 v1544) := fun k1_t1 v1544 => decidable_of_iff' _ (Iff.of_eq (k1_chk21.eq_1 k1_t1 v1544))
theorem k1_off95_inb : ∀ (k1_t1 : Fin k1_t1_loop.trips) (v1544 : BitVec 32) (k1_hw21 : k1_chk21 k1_t1 v1544), ∀ (k1_h3 : k1_cond3 k1_t1 = 1#1), ∀ (r : Fin 4), ∀ a, (k1_off95 v1544 (BitVec.ofNat 32 (16 * r.val))) a + S1x16.size a ≤ S128x128.size a := fun k1_t1 v1544 k1_hw21 k1_h3 r => k1_hw21 k1_h3 r

def k1_off96 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_843 : BitVec 32 := 0#32
  let c0_i32_844 : BitVec 32 := 0#32
  ![v406.toNat, 0, 0]
def k1_off97 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_848 : BitVec 32 := 0#32
  let c0_i32_849 : BitVec 32 := 0#32
  ![v396.toNat, 0, 0]
def k1_off98 (v1598 : BitVec 32) (c0_i32_870 : BitVec 32) : Fin 2 → Nat :=
  let c21_i32 : BitVec 32 := 21#32
  let v1602 : Index := Scalar.indexCast c21_i32
  let v1599 : BitVec 32 := Scalar.addi v1598 c0_i32_870
  let v1603 : Index := Scalar.indexCast v1599
  ![21, v1603.toNat]

def k1_chk22 (k1_t1 : Fin k1_t1_loop.trips) (v1598 : BitVec 32) : Prop :=
  (∀ (k1_h3 : k1_cond3 k1_t1 = 1#1), ∀ (r : Fin 4), ∀ a, (k1_off98 v1598 (BitVec.ofNat 32 (16 * r.val))) a + S1x16.size a ≤ S128x128.size a)
instance k1_chk22.dec : ∀ (k1_t1 : Fin k1_t1_loop.trips) (v1598 : BitVec 32), Decidable (k1_chk22 k1_t1 v1598) := fun k1_t1 v1598 => decidable_of_iff' _ (Iff.of_eq (k1_chk22.eq_1 k1_t1 v1598))
theorem k1_off98_inb : ∀ (k1_t1 : Fin k1_t1_loop.trips) (v1598 : BitVec 32) (k1_hw22 : k1_chk22 k1_t1 v1598), ∀ (k1_h3 : k1_cond3 k1_t1 = 1#1), ∀ (r : Fin 4), ∀ a, (k1_off98 v1598 (BitVec.ofNat 32 (16 * r.val))) a + S1x16.size a ≤ S128x128.size a := fun k1_t1 v1598 k1_hw22 k1_h3 r => k1_hw22 k1_h3 r

def k1_off99 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_874 : BitVec 32 := 0#32
  let c0_i32_875 : BitVec 32 := 0#32
  ![v406.toNat, 0, 0]
def k1_off100 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_879 : BitVec 32 := 0#32
  let c0_i32_880 : BitVec 32 := 0#32
  ![v396.toNat, 0, 0]
def k1_off101 (v1652 : BitVec 32) (c0_i32_901 : BitVec 32) : Fin 2 → Nat :=
  let c22_i32 : BitVec 32 := 22#32
  let v1656 : Index := Scalar.indexCast c22_i32
  let v1653 : BitVec 32 := Scalar.addi v1652 c0_i32_901
  let v1657 : Index := Scalar.indexCast v1653
  ![22, v1657.toNat]

def k1_chk23 (k1_t1 : Fin k1_t1_loop.trips) (v1652 : BitVec 32) : Prop :=
  (∀ (k1_h3 : k1_cond3 k1_t1 = 1#1), ∀ (r : Fin 4), ∀ a, (k1_off101 v1652 (BitVec.ofNat 32 (16 * r.val))) a + S1x16.size a ≤ S128x128.size a)
instance k1_chk23.dec : ∀ (k1_t1 : Fin k1_t1_loop.trips) (v1652 : BitVec 32), Decidable (k1_chk23 k1_t1 v1652) := fun k1_t1 v1652 => decidable_of_iff' _ (Iff.of_eq (k1_chk23.eq_1 k1_t1 v1652))
theorem k1_off101_inb : ∀ (k1_t1 : Fin k1_t1_loop.trips) (v1652 : BitVec 32) (k1_hw23 : k1_chk23 k1_t1 v1652), ∀ (k1_h3 : k1_cond3 k1_t1 = 1#1), ∀ (r : Fin 4), ∀ a, (k1_off101 v1652 (BitVec.ofNat 32 (16 * r.val))) a + S1x16.size a ≤ S128x128.size a := fun k1_t1 v1652 k1_hw23 k1_h3 r => k1_hw23 k1_h3 r

def k1_off102 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_905 : BitVec 32 := 0#32
  let c0_i32_906 : BitVec 32 := 0#32
  ![v406.toNat, 0, 0]
def k1_off103 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_910 : BitVec 32 := 0#32
  let c0_i32_911 : BitVec 32 := 0#32
  ![v396.toNat, 0, 0]
def k1_off104 (v1706 : BitVec 32) (c0_i32_932 : BitVec 32) : Fin 2 → Nat :=
  let c23_i32 : BitVec 32 := 23#32
  let v1710 : Index := Scalar.indexCast c23_i32
  let v1707 : BitVec 32 := Scalar.addi v1706 c0_i32_932
  let v1711 : Index := Scalar.indexCast v1707
  ![23, v1711.toNat]

def k1_chk24 (k1_t1 : Fin k1_t1_loop.trips) (v1706 : BitVec 32) : Prop :=
  (∀ (k1_h3 : k1_cond3 k1_t1 = 1#1), ∀ (r : Fin 4), ∀ a, (k1_off104 v1706 (BitVec.ofNat 32 (16 * r.val))) a + S1x16.size a ≤ S128x128.size a)
instance k1_chk24.dec : ∀ (k1_t1 : Fin k1_t1_loop.trips) (v1706 : BitVec 32), Decidable (k1_chk24 k1_t1 v1706) := fun k1_t1 v1706 => decidable_of_iff' _ (Iff.of_eq (k1_chk24.eq_1 k1_t1 v1706))
theorem k1_off104_inb : ∀ (k1_t1 : Fin k1_t1_loop.trips) (v1706 : BitVec 32) (k1_hw24 : k1_chk24 k1_t1 v1706), ∀ (k1_h3 : k1_cond3 k1_t1 = 1#1), ∀ (r : Fin 4), ∀ a, (k1_off104 v1706 (BitVec.ofNat 32 (16 * r.val))) a + S1x16.size a ≤ S128x128.size a := fun k1_t1 v1706 k1_hw24 k1_h3 r => k1_hw24 k1_h3 r

def k1_off105 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_936 : BitVec 32 := 0#32
  let c0_i32_937 : BitVec 32 := 0#32
  ![v406.toNat, 0, 0]
def k1_off106 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_941 : BitVec 32 := 0#32
  let c0_i32_942 : BitVec 32 := 0#32
  ![v396.toNat, 0, 0]
def k1_off107 (v1760 : BitVec 32) (c0_i32_963 : BitVec 32) : Fin 2 → Nat :=
  let c24_i32 : BitVec 32 := 24#32
  let v1764 : Index := Scalar.indexCast c24_i32
  let v1761 : BitVec 32 := Scalar.addi v1760 c0_i32_963
  let v1765 : Index := Scalar.indexCast v1761
  ![24, v1765.toNat]

def k1_chk25 (k1_t1 : Fin k1_t1_loop.trips) (v1760 : BitVec 32) : Prop :=
  (∀ (k1_h3 : k1_cond3 k1_t1 = 1#1), ∀ (r : Fin 4), ∀ a, (k1_off107 v1760 (BitVec.ofNat 32 (16 * r.val))) a + S1x16.size a ≤ S128x128.size a)
instance k1_chk25.dec : ∀ (k1_t1 : Fin k1_t1_loop.trips) (v1760 : BitVec 32), Decidable (k1_chk25 k1_t1 v1760) := fun k1_t1 v1760 => decidable_of_iff' _ (Iff.of_eq (k1_chk25.eq_1 k1_t1 v1760))
theorem k1_off107_inb : ∀ (k1_t1 : Fin k1_t1_loop.trips) (v1760 : BitVec 32) (k1_hw25 : k1_chk25 k1_t1 v1760), ∀ (k1_h3 : k1_cond3 k1_t1 = 1#1), ∀ (r : Fin 4), ∀ a, (k1_off107 v1760 (BitVec.ofNat 32 (16 * r.val))) a + S1x16.size a ≤ S128x128.size a := fun k1_t1 v1760 k1_hw25 k1_h3 r => k1_hw25 k1_h3 r

def k1_off108 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_967 : BitVec 32 := 0#32
  let c0_i32_968 : BitVec 32 := 0#32
  ![v406.toNat, 0, 0]
def k1_off109 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_972 : BitVec 32 := 0#32
  let c0_i32_973 : BitVec 32 := 0#32
  ![v396.toNat, 0, 0]
def k1_off110 (v1814 : BitVec 32) (c0_i32_994 : BitVec 32) : Fin 2 → Nat :=
  let c25_i32 : BitVec 32 := 25#32
  let v1818 : Index := Scalar.indexCast c25_i32
  let v1815 : BitVec 32 := Scalar.addi v1814 c0_i32_994
  let v1819 : Index := Scalar.indexCast v1815
  ![25, v1819.toNat]

def k1_chk26 (k1_t1 : Fin k1_t1_loop.trips) (v1814 : BitVec 32) : Prop :=
  (∀ (k1_h3 : k1_cond3 k1_t1 = 1#1), ∀ (r : Fin 4), ∀ a, (k1_off110 v1814 (BitVec.ofNat 32 (16 * r.val))) a + S1x16.size a ≤ S128x128.size a)
instance k1_chk26.dec : ∀ (k1_t1 : Fin k1_t1_loop.trips) (v1814 : BitVec 32), Decidable (k1_chk26 k1_t1 v1814) := fun k1_t1 v1814 => decidable_of_iff' _ (Iff.of_eq (k1_chk26.eq_1 k1_t1 v1814))
theorem k1_off110_inb : ∀ (k1_t1 : Fin k1_t1_loop.trips) (v1814 : BitVec 32) (k1_hw26 : k1_chk26 k1_t1 v1814), ∀ (k1_h3 : k1_cond3 k1_t1 = 1#1), ∀ (r : Fin 4), ∀ a, (k1_off110 v1814 (BitVec.ofNat 32 (16 * r.val))) a + S1x16.size a ≤ S128x128.size a := fun k1_t1 v1814 k1_hw26 k1_h3 r => k1_hw26 k1_h3 r

def k1_off111 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_998 : BitVec 32 := 0#32
  let c0_i32_999 : BitVec 32 := 0#32
  ![v406.toNat, 0, 0]
def k1_off112 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1003 : BitVec 32 := 0#32
  let c0_i32_1004 : BitVec 32 := 0#32
  ![v396.toNat, 0, 0]
def k1_off113 (v1868 : BitVec 32) (c0_i32_1025 : BitVec 32) : Fin 2 → Nat :=
  let c26_i32 : BitVec 32 := 26#32
  let v1872 : Index := Scalar.indexCast c26_i32
  let v1869 : BitVec 32 := Scalar.addi v1868 c0_i32_1025
  let v1873 : Index := Scalar.indexCast v1869
  ![26, v1873.toNat]

def k1_chk27 (k1_t1 : Fin k1_t1_loop.trips) (v1868 : BitVec 32) : Prop :=
  (∀ (k1_h3 : k1_cond3 k1_t1 = 1#1), ∀ (r : Fin 4), ∀ a, (k1_off113 v1868 (BitVec.ofNat 32 (16 * r.val))) a + S1x16.size a ≤ S128x128.size a)
instance k1_chk27.dec : ∀ (k1_t1 : Fin k1_t1_loop.trips) (v1868 : BitVec 32), Decidable (k1_chk27 k1_t1 v1868) := fun k1_t1 v1868 => decidable_of_iff' _ (Iff.of_eq (k1_chk27.eq_1 k1_t1 v1868))
theorem k1_off113_inb : ∀ (k1_t1 : Fin k1_t1_loop.trips) (v1868 : BitVec 32) (k1_hw27 : k1_chk27 k1_t1 v1868), ∀ (k1_h3 : k1_cond3 k1_t1 = 1#1), ∀ (r : Fin 4), ∀ a, (k1_off113 v1868 (BitVec.ofNat 32 (16 * r.val))) a + S1x16.size a ≤ S128x128.size a := fun k1_t1 v1868 k1_hw27 k1_h3 r => k1_hw27 k1_h3 r

def k1_off114 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1029 : BitVec 32 := 0#32
  let c0_i32_1030 : BitVec 32 := 0#32
  ![v406.toNat, 0, 0]
def k1_off115 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1034 : BitVec 32 := 0#32
  let c0_i32_1035 : BitVec 32 := 0#32
  ![v396.toNat, 0, 0]
def k1_off116 (v1922 : BitVec 32) (c0_i32_1056 : BitVec 32) : Fin 2 → Nat :=
  let c27_i32 : BitVec 32 := 27#32
  let v1926 : Index := Scalar.indexCast c27_i32
  let v1923 : BitVec 32 := Scalar.addi v1922 c0_i32_1056
  let v1927 : Index := Scalar.indexCast v1923
  ![27, v1927.toNat]

def k1_chk28 (k1_t1 : Fin k1_t1_loop.trips) (v1922 : BitVec 32) : Prop :=
  (∀ (k1_h3 : k1_cond3 k1_t1 = 1#1), ∀ (r : Fin 4), ∀ a, (k1_off116 v1922 (BitVec.ofNat 32 (16 * r.val))) a + S1x16.size a ≤ S128x128.size a)
instance k1_chk28.dec : ∀ (k1_t1 : Fin k1_t1_loop.trips) (v1922 : BitVec 32), Decidable (k1_chk28 k1_t1 v1922) := fun k1_t1 v1922 => decidable_of_iff' _ (Iff.of_eq (k1_chk28.eq_1 k1_t1 v1922))
theorem k1_off116_inb : ∀ (k1_t1 : Fin k1_t1_loop.trips) (v1922 : BitVec 32) (k1_hw28 : k1_chk28 k1_t1 v1922), ∀ (k1_h3 : k1_cond3 k1_t1 = 1#1), ∀ (r : Fin 4), ∀ a, (k1_off116 v1922 (BitVec.ofNat 32 (16 * r.val))) a + S1x16.size a ≤ S128x128.size a := fun k1_t1 v1922 k1_hw28 k1_h3 r => k1_hw28 k1_h3 r

def k1_off117 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1060 : BitVec 32 := 0#32
  let c0_i32_1061 : BitVec 32 := 0#32
  ![v406.toNat, 0, 0]
def k1_off118 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1065 : BitVec 32 := 0#32
  let c0_i32_1066 : BitVec 32 := 0#32
  ![v396.toNat, 0, 0]
def k1_off119 (v1976 : BitVec 32) (c0_i32_1087 : BitVec 32) : Fin 2 → Nat :=
  let c28_i32 : BitVec 32 := 28#32
  let v1980 : Index := Scalar.indexCast c28_i32
  let v1977 : BitVec 32 := Scalar.addi v1976 c0_i32_1087
  let v1981 : Index := Scalar.indexCast v1977
  ![28, v1981.toNat]

def k1_chk29 (k1_t1 : Fin k1_t1_loop.trips) (v1976 : BitVec 32) : Prop :=
  (∀ (k1_h3 : k1_cond3 k1_t1 = 1#1), ∀ (r : Fin 4), ∀ a, (k1_off119 v1976 (BitVec.ofNat 32 (16 * r.val))) a + S1x16.size a ≤ S128x128.size a)
instance k1_chk29.dec : ∀ (k1_t1 : Fin k1_t1_loop.trips) (v1976 : BitVec 32), Decidable (k1_chk29 k1_t1 v1976) := fun k1_t1 v1976 => decidable_of_iff' _ (Iff.of_eq (k1_chk29.eq_1 k1_t1 v1976))
theorem k1_off119_inb : ∀ (k1_t1 : Fin k1_t1_loop.trips) (v1976 : BitVec 32) (k1_hw29 : k1_chk29 k1_t1 v1976), ∀ (k1_h3 : k1_cond3 k1_t1 = 1#1), ∀ (r : Fin 4), ∀ a, (k1_off119 v1976 (BitVec.ofNat 32 (16 * r.val))) a + S1x16.size a ≤ S128x128.size a := fun k1_t1 v1976 k1_hw29 k1_h3 r => k1_hw29 k1_h3 r

def k1_off120 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1091 : BitVec 32 := 0#32
  let c0_i32_1092 : BitVec 32 := 0#32
  ![v406.toNat, 0, 0]
def k1_off121 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1096 : BitVec 32 := 0#32
  let c0_i32_1097 : BitVec 32 := 0#32
  ![v396.toNat, 0, 0]
def k1_off122 (v2030 : BitVec 32) (c0_i32_1118 : BitVec 32) : Fin 2 → Nat :=
  let c29_i32 : BitVec 32 := 29#32
  let v2034 : Index := Scalar.indexCast c29_i32
  let v2031 : BitVec 32 := Scalar.addi v2030 c0_i32_1118
  let v2035 : Index := Scalar.indexCast v2031
  ![29, v2035.toNat]

def k1_chk30 (k1_t1 : Fin k1_t1_loop.trips) (v2030 : BitVec 32) : Prop :=
  (∀ (k1_h3 : k1_cond3 k1_t1 = 1#1), ∀ (r : Fin 4), ∀ a, (k1_off122 v2030 (BitVec.ofNat 32 (16 * r.val))) a + S1x16.size a ≤ S128x128.size a)
instance k1_chk30.dec : ∀ (k1_t1 : Fin k1_t1_loop.trips) (v2030 : BitVec 32), Decidable (k1_chk30 k1_t1 v2030) := fun k1_t1 v2030 => decidable_of_iff' _ (Iff.of_eq (k1_chk30.eq_1 k1_t1 v2030))
theorem k1_off122_inb : ∀ (k1_t1 : Fin k1_t1_loop.trips) (v2030 : BitVec 32) (k1_hw30 : k1_chk30 k1_t1 v2030), ∀ (k1_h3 : k1_cond3 k1_t1 = 1#1), ∀ (r : Fin 4), ∀ a, (k1_off122 v2030 (BitVec.ofNat 32 (16 * r.val))) a + S1x16.size a ≤ S128x128.size a := fun k1_t1 v2030 k1_hw30 k1_h3 r => k1_hw30 k1_h3 r

def k1_off123 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1122 : BitVec 32 := 0#32
  let c0_i32_1123 : BitVec 32 := 0#32
  ![v406.toNat, 0, 0]
def k1_off124 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1127 : BitVec 32 := 0#32
  let c0_i32_1128 : BitVec 32 := 0#32
  ![v396.toNat, 0, 0]
def k1_off125 (v2084 : BitVec 32) (c0_i32_1149 : BitVec 32) : Fin 2 → Nat :=
  let c30_i32 : BitVec 32 := 30#32
  let v2088 : Index := Scalar.indexCast c30_i32
  let v2085 : BitVec 32 := Scalar.addi v2084 c0_i32_1149
  let v2089 : Index := Scalar.indexCast v2085
  ![30, v2089.toNat]

def k1_chk31 (k1_t1 : Fin k1_t1_loop.trips) (v2084 : BitVec 32) : Prop :=
  (∀ (k1_h3 : k1_cond3 k1_t1 = 1#1), ∀ (r : Fin 4), ∀ a, (k1_off125 v2084 (BitVec.ofNat 32 (16 * r.val))) a + S1x16.size a ≤ S128x128.size a)
instance k1_chk31.dec : ∀ (k1_t1 : Fin k1_t1_loop.trips) (v2084 : BitVec 32), Decidable (k1_chk31 k1_t1 v2084) := fun k1_t1 v2084 => decidable_of_iff' _ (Iff.of_eq (k1_chk31.eq_1 k1_t1 v2084))
theorem k1_off125_inb : ∀ (k1_t1 : Fin k1_t1_loop.trips) (v2084 : BitVec 32) (k1_hw31 : k1_chk31 k1_t1 v2084), ∀ (k1_h3 : k1_cond3 k1_t1 = 1#1), ∀ (r : Fin 4), ∀ a, (k1_off125 v2084 (BitVec.ofNat 32 (16 * r.val))) a + S1x16.size a ≤ S128x128.size a := fun k1_t1 v2084 k1_hw31 k1_h3 r => k1_hw31 k1_h3 r

def k1_off126 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1153 : BitVec 32 := 0#32
  let c0_i32_1154 : BitVec 32 := 0#32
  ![v406.toNat, 0, 0]
def k1_off127 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1158 : BitVec 32 := 0#32
  let c0_i32_1159 : BitVec 32 := 0#32
  ![v396.toNat, 0, 0]
def k1_off128 (v2138 : BitVec 32) (c0_i32_1180 : BitVec 32) : Fin 2 → Nat :=
  let c31_i32 : BitVec 32 := 31#32
  let v2142 : Index := Scalar.indexCast c31_i32
  let v2139 : BitVec 32 := Scalar.addi v2138 c0_i32_1180
  let v2143 : Index := Scalar.indexCast v2139
  ![31, v2143.toNat]

def k1_chk32 (k1_t1 : Fin k1_t1_loop.trips) (v2138 : BitVec 32) : Prop :=
  (∀ (k1_h3 : k1_cond3 k1_t1 = 1#1), ∀ (r : Fin 4), ∀ a, (k1_off128 v2138 (BitVec.ofNat 32 (16 * r.val))) a + S1x16.size a ≤ S128x128.size a)
instance k1_chk32.dec : ∀ (k1_t1 : Fin k1_t1_loop.trips) (v2138 : BitVec 32), Decidable (k1_chk32 k1_t1 v2138) := fun k1_t1 v2138 => decidable_of_iff' _ (Iff.of_eq (k1_chk32.eq_1 k1_t1 v2138))
theorem k1_off128_inb : ∀ (k1_t1 : Fin k1_t1_loop.trips) (v2138 : BitVec 32) (k1_hw32 : k1_chk32 k1_t1 v2138), ∀ (k1_h3 : k1_cond3 k1_t1 = 1#1), ∀ (r : Fin 4), ∀ a, (k1_off128 v2138 (BitVec.ofNat 32 (16 * r.val))) a + S1x16.size a ≤ S128x128.size a := fun k1_t1 v2138 k1_hw32 k1_h3 r => k1_hw32 k1_h3 r

def k1_off129 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1184 : BitVec 32 := 0#32
  let c0_i32_1185 : BitVec 32 := 0#32
  ![v406.toNat, 0, 0]
def k1_off130 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1189 : BitVec 32 := 0#32
  let c0_i32_1190 : BitVec 32 := 0#32
  ![v396.toNat, 0, 0]
def k1_off131 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c10_i32_1211 : BitVec 32 := 10#32
  let c0_i32_1212 : BitVec 32 := 0#32
  let v2191 : BitVec 1 := Scalar.cmpi .eq c10_i32_1211 c0_i32_1212
  let c1_i32_1213 : BitVec 32 := 1#32
  let v2192 : BitVec 32 := Scalar.select v2191 c1_i32_1213 c10_i32_1211
  let v2193 : BitVec 32 := Scalar.remsi v346 v2192
  let c0_i32_1215 : BitVec 32 := 0#32
  let v2195 : BitVec 1 := Scalar.cmpi .slt v2193 c0_i32_1215
  let c0_i32_1216 : BitVec 32 := 0#32
  let v2196 : BitVec 1 := Scalar.cmpi .slt v2192 c0_i32_1216
  let v2197 : BitVec 1 := Scalar.xori v2195 v2196
  let c0_i32_1214 : BitVec 32 := 0#32
  let v2194 : BitVec 1 := Scalar.cmpi .ne v2193 c0_i32_1214
  let v2198 : BitVec 1 := Scalar.andi v2197 v2194
  let v2199 : BitVec 32 := Scalar.addi v2193 v2192
  let v2200 : BitVec 32 := Scalar.select v2198 v2199 v2193
  let v2201 : Index := Scalar.indexCast v2200
  let c32_1217 : Index := 32#32
  ![v2201.toNat, 32]
def k1_off132 (v2220 : BitVec 32) (c0_i32_1225 : BitVec 32) : Fin 2 → Nat :=
  let c32_i32_1226 : BitVec 32 := 32#32
  let v2224 : Index := Scalar.indexCast c32_i32_1226
  let v2221 : BitVec 32 := Scalar.addi v2220 c0_i32_1225
  let v2225 : Index := Scalar.indexCast v2221
  ![32, v2225.toNat]

def k1_chk33 (k1_t1 : Fin k1_t1_loop.trips) (v2220 : BitVec 32) : Prop :=
  (∀ (k1_h3 : k1_cond3 k1_t1 = 1#1), ∀ (r : Fin 4), ∀ a, (k1_off132 v2220 (BitVec.ofNat 32 (16 * r.val))) a + S1x16.size a ≤ S128x128.size a)
instance k1_chk33.dec : ∀ (k1_t1 : Fin k1_t1_loop.trips) (v2220 : BitVec 32), Decidable (k1_chk33 k1_t1 v2220) := fun k1_t1 v2220 => decidable_of_iff' _ (Iff.of_eq (k1_chk33.eq_1 k1_t1 v2220))
theorem k1_off132_inb : ∀ (k1_t1 : Fin k1_t1_loop.trips) (v2220 : BitVec 32) (k1_hw33 : k1_chk33 k1_t1 v2220), ∀ (k1_h3 : k1_cond3 k1_t1 = 1#1), ∀ (r : Fin 4), ∀ a, (k1_off132 v2220 (BitVec.ofNat 32 (16 * r.val))) a + S1x16.size a ≤ S128x128.size a := fun k1_t1 v2220 k1_hw33 k1_h3 r => k1_hw33 k1_h3 r

def k1_off133 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1230 : BitVec 32 := 0#32
  let c0_i32_1231 : BitVec 32 := 0#32
  ![v406.toNat, 0, 0]
def k1_off134 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1235 : BitVec 32 := 0#32
  let c0_i32_1236 : BitVec 32 := 0#32
  ![v396.toNat, 0, 0]
def k1_off135 (v2274 : BitVec 32) (c0_i32_1257 : BitVec 32) : Fin 2 → Nat :=
  let c33_i32 : BitVec 32 := 33#32
  let v2278 : Index := Scalar.indexCast c33_i32
  let v2275 : BitVec 32 := Scalar.addi v2274 c0_i32_1257
  let v2279 : Index := Scalar.indexCast v2275
  ![33, v2279.toNat]

def k1_chk34 (k1_t1 : Fin k1_t1_loop.trips) (v2274 : BitVec 32) : Prop :=
  (∀ (k1_h3 : k1_cond3 k1_t1 = 1#1), ∀ (r : Fin 4), ∀ a, (k1_off135 v2274 (BitVec.ofNat 32 (16 * r.val))) a + S1x16.size a ≤ S128x128.size a)
instance k1_chk34.dec : ∀ (k1_t1 : Fin k1_t1_loop.trips) (v2274 : BitVec 32), Decidable (k1_chk34 k1_t1 v2274) := fun k1_t1 v2274 => decidable_of_iff' _ (Iff.of_eq (k1_chk34.eq_1 k1_t1 v2274))
theorem k1_off135_inb : ∀ (k1_t1 : Fin k1_t1_loop.trips) (v2274 : BitVec 32) (k1_hw34 : k1_chk34 k1_t1 v2274), ∀ (k1_h3 : k1_cond3 k1_t1 = 1#1), ∀ (r : Fin 4), ∀ a, (k1_off135 v2274 (BitVec.ofNat 32 (16 * r.val))) a + S1x16.size a ≤ S128x128.size a := fun k1_t1 v2274 k1_hw34 k1_h3 r => k1_hw34 k1_h3 r

def k1_off136 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1261 : BitVec 32 := 0#32
  let c0_i32_1262 : BitVec 32 := 0#32
  ![v406.toNat, 0, 0]
def k1_off137 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1266 : BitVec 32 := 0#32
  let c0_i32_1267 : BitVec 32 := 0#32
  ![v396.toNat, 0, 0]
def k1_off138 (v2328 : BitVec 32) (c0_i32_1288 : BitVec 32) : Fin 2 → Nat :=
  let c34_i32 : BitVec 32 := 34#32
  let v2332 : Index := Scalar.indexCast c34_i32
  let v2329 : BitVec 32 := Scalar.addi v2328 c0_i32_1288
  let v2333 : Index := Scalar.indexCast v2329
  ![34, v2333.toNat]

def k1_chk35 (k1_t1 : Fin k1_t1_loop.trips) (v2328 : BitVec 32) : Prop :=
  (∀ (k1_h3 : k1_cond3 k1_t1 = 1#1), ∀ (r : Fin 4), ∀ a, (k1_off138 v2328 (BitVec.ofNat 32 (16 * r.val))) a + S1x16.size a ≤ S128x128.size a)
instance k1_chk35.dec : ∀ (k1_t1 : Fin k1_t1_loop.trips) (v2328 : BitVec 32), Decidable (k1_chk35 k1_t1 v2328) := fun k1_t1 v2328 => decidable_of_iff' _ (Iff.of_eq (k1_chk35.eq_1 k1_t1 v2328))
theorem k1_off138_inb : ∀ (k1_t1 : Fin k1_t1_loop.trips) (v2328 : BitVec 32) (k1_hw35 : k1_chk35 k1_t1 v2328), ∀ (k1_h3 : k1_cond3 k1_t1 = 1#1), ∀ (r : Fin 4), ∀ a, (k1_off138 v2328 (BitVec.ofNat 32 (16 * r.val))) a + S1x16.size a ≤ S128x128.size a := fun k1_t1 v2328 k1_hw35 k1_h3 r => k1_hw35 k1_h3 r

def k1_off139 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1292 : BitVec 32 := 0#32
  let c0_i32_1293 : BitVec 32 := 0#32
  ![v406.toNat, 0, 0]
def k1_off140 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1297 : BitVec 32 := 0#32
  let c0_i32_1298 : BitVec 32 := 0#32
  ![v396.toNat, 0, 0]
def k1_off141 (v2382 : BitVec 32) (c0_i32_1319 : BitVec 32) : Fin 2 → Nat :=
  let c35_i32 : BitVec 32 := 35#32
  let v2386 : Index := Scalar.indexCast c35_i32
  let v2383 : BitVec 32 := Scalar.addi v2382 c0_i32_1319
  let v2387 : Index := Scalar.indexCast v2383
  ![35, v2387.toNat]

def k1_chk36 (k1_t1 : Fin k1_t1_loop.trips) (v2382 : BitVec 32) : Prop :=
  (∀ (k1_h3 : k1_cond3 k1_t1 = 1#1), ∀ (r : Fin 4), ∀ a, (k1_off141 v2382 (BitVec.ofNat 32 (16 * r.val))) a + S1x16.size a ≤ S128x128.size a)
instance k1_chk36.dec : ∀ (k1_t1 : Fin k1_t1_loop.trips) (v2382 : BitVec 32), Decidable (k1_chk36 k1_t1 v2382) := fun k1_t1 v2382 => decidable_of_iff' _ (Iff.of_eq (k1_chk36.eq_1 k1_t1 v2382))
theorem k1_off141_inb : ∀ (k1_t1 : Fin k1_t1_loop.trips) (v2382 : BitVec 32) (k1_hw36 : k1_chk36 k1_t1 v2382), ∀ (k1_h3 : k1_cond3 k1_t1 = 1#1), ∀ (r : Fin 4), ∀ a, (k1_off141 v2382 (BitVec.ofNat 32 (16 * r.val))) a + S1x16.size a ≤ S128x128.size a := fun k1_t1 v2382 k1_hw36 k1_h3 r => k1_hw36 k1_h3 r

def k1_off142 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1323 : BitVec 32 := 0#32
  let c0_i32_1324 : BitVec 32 := 0#32
  ![v406.toNat, 0, 0]
def k1_off143 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1328 : BitVec 32 := 0#32
  let c0_i32_1329 : BitVec 32 := 0#32
  ![v396.toNat, 0, 0]
def k1_off144 (v2436 : BitVec 32) (c0_i32_1350 : BitVec 32) : Fin 2 → Nat :=
  let c36_i32 : BitVec 32 := 36#32
  let v2440 : Index := Scalar.indexCast c36_i32
  let v2437 : BitVec 32 := Scalar.addi v2436 c0_i32_1350
  let v2441 : Index := Scalar.indexCast v2437
  ![36, v2441.toNat]

def k1_chk37 (k1_t1 : Fin k1_t1_loop.trips) (v2436 : BitVec 32) : Prop :=
  (∀ (k1_h3 : k1_cond3 k1_t1 = 1#1), ∀ (r : Fin 4), ∀ a, (k1_off144 v2436 (BitVec.ofNat 32 (16 * r.val))) a + S1x16.size a ≤ S128x128.size a)
instance k1_chk37.dec : ∀ (k1_t1 : Fin k1_t1_loop.trips) (v2436 : BitVec 32), Decidable (k1_chk37 k1_t1 v2436) := fun k1_t1 v2436 => decidable_of_iff' _ (Iff.of_eq (k1_chk37.eq_1 k1_t1 v2436))
theorem k1_off144_inb : ∀ (k1_t1 : Fin k1_t1_loop.trips) (v2436 : BitVec 32) (k1_hw37 : k1_chk37 k1_t1 v2436), ∀ (k1_h3 : k1_cond3 k1_t1 = 1#1), ∀ (r : Fin 4), ∀ a, (k1_off144 v2436 (BitVec.ofNat 32 (16 * r.val))) a + S1x16.size a ≤ S128x128.size a := fun k1_t1 v2436 k1_hw37 k1_h3 r => k1_hw37 k1_h3 r

def k1_off145 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1354 : BitVec 32 := 0#32
  let c0_i32_1355 : BitVec 32 := 0#32
  ![v406.toNat, 0, 0]
def k1_off146 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1359 : BitVec 32 := 0#32
  let c0_i32_1360 : BitVec 32 := 0#32
  ![v396.toNat, 0, 0]
def k1_off147 (v2490 : BitVec 32) (c0_i32_1381 : BitVec 32) : Fin 2 → Nat :=
  let c37_i32 : BitVec 32 := 37#32
  let v2494 : Index := Scalar.indexCast c37_i32
  let v2491 : BitVec 32 := Scalar.addi v2490 c0_i32_1381
  let v2495 : Index := Scalar.indexCast v2491
  ![37, v2495.toNat]

def k1_chk38 (k1_t1 : Fin k1_t1_loop.trips) (v2490 : BitVec 32) : Prop :=
  (∀ (k1_h3 : k1_cond3 k1_t1 = 1#1), ∀ (r : Fin 4), ∀ a, (k1_off147 v2490 (BitVec.ofNat 32 (16 * r.val))) a + S1x16.size a ≤ S128x128.size a)
instance k1_chk38.dec : ∀ (k1_t1 : Fin k1_t1_loop.trips) (v2490 : BitVec 32), Decidable (k1_chk38 k1_t1 v2490) := fun k1_t1 v2490 => decidable_of_iff' _ (Iff.of_eq (k1_chk38.eq_1 k1_t1 v2490))
theorem k1_off147_inb : ∀ (k1_t1 : Fin k1_t1_loop.trips) (v2490 : BitVec 32) (k1_hw38 : k1_chk38 k1_t1 v2490), ∀ (k1_h3 : k1_cond3 k1_t1 = 1#1), ∀ (r : Fin 4), ∀ a, (k1_off147 v2490 (BitVec.ofNat 32 (16 * r.val))) a + S1x16.size a ≤ S128x128.size a := fun k1_t1 v2490 k1_hw38 k1_h3 r => k1_hw38 k1_h3 r

def k1_off148 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1385 : BitVec 32 := 0#32
  let c0_i32_1386 : BitVec 32 := 0#32
  ![v406.toNat, 0, 0]
def k1_off149 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1390 : BitVec 32 := 0#32
  let c0_i32_1391 : BitVec 32 := 0#32
  ![v396.toNat, 0, 0]
def k1_off150 (v2544 : BitVec 32) (c0_i32_1412 : BitVec 32) : Fin 2 → Nat :=
  let c38_i32 : BitVec 32 := 38#32
  let v2548 : Index := Scalar.indexCast c38_i32
  let v2545 : BitVec 32 := Scalar.addi v2544 c0_i32_1412
  let v2549 : Index := Scalar.indexCast v2545
  ![38, v2549.toNat]

def k1_chk39 (k1_t1 : Fin k1_t1_loop.trips) (v2544 : BitVec 32) : Prop :=
  (∀ (k1_h3 : k1_cond3 k1_t1 = 1#1), ∀ (r : Fin 4), ∀ a, (k1_off150 v2544 (BitVec.ofNat 32 (16 * r.val))) a + S1x16.size a ≤ S128x128.size a)
instance k1_chk39.dec : ∀ (k1_t1 : Fin k1_t1_loop.trips) (v2544 : BitVec 32), Decidable (k1_chk39 k1_t1 v2544) := fun k1_t1 v2544 => decidable_of_iff' _ (Iff.of_eq (k1_chk39.eq_1 k1_t1 v2544))
theorem k1_off150_inb : ∀ (k1_t1 : Fin k1_t1_loop.trips) (v2544 : BitVec 32) (k1_hw39 : k1_chk39 k1_t1 v2544), ∀ (k1_h3 : k1_cond3 k1_t1 = 1#1), ∀ (r : Fin 4), ∀ a, (k1_off150 v2544 (BitVec.ofNat 32 (16 * r.val))) a + S1x16.size a ≤ S128x128.size a := fun k1_t1 v2544 k1_hw39 k1_h3 r => k1_hw39 k1_h3 r

def k1_off151 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1416 : BitVec 32 := 0#32
  let c0_i32_1417 : BitVec 32 := 0#32
  ![v406.toNat, 0, 0]
def k1_off152 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1421 : BitVec 32 := 0#32
  let c0_i32_1422 : BitVec 32 := 0#32
  ![v396.toNat, 0, 0]
def k1_off153 (v2598 : BitVec 32) (c0_i32_1443 : BitVec 32) : Fin 2 → Nat :=
  let c39_i32 : BitVec 32 := 39#32
  let v2602 : Index := Scalar.indexCast c39_i32
  let v2599 : BitVec 32 := Scalar.addi v2598 c0_i32_1443
  let v2603 : Index := Scalar.indexCast v2599
  ![39, v2603.toNat]

def k1_chk40 (k1_t1 : Fin k1_t1_loop.trips) (v2598 : BitVec 32) : Prop :=
  (∀ (k1_h3 : k1_cond3 k1_t1 = 1#1), ∀ (r : Fin 4), ∀ a, (k1_off153 v2598 (BitVec.ofNat 32 (16 * r.val))) a + S1x16.size a ≤ S128x128.size a)
instance k1_chk40.dec : ∀ (k1_t1 : Fin k1_t1_loop.trips) (v2598 : BitVec 32), Decidable (k1_chk40 k1_t1 v2598) := fun k1_t1 v2598 => decidable_of_iff' _ (Iff.of_eq (k1_chk40.eq_1 k1_t1 v2598))
theorem k1_off153_inb : ∀ (k1_t1 : Fin k1_t1_loop.trips) (v2598 : BitVec 32) (k1_hw40 : k1_chk40 k1_t1 v2598), ∀ (k1_h3 : k1_cond3 k1_t1 = 1#1), ∀ (r : Fin 4), ∀ a, (k1_off153 v2598 (BitVec.ofNat 32 (16 * r.val))) a + S1x16.size a ≤ S128x128.size a := fun k1_t1 v2598 k1_hw40 k1_h3 r => k1_hw40 k1_h3 r

def k1_off154 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1447 : BitVec 32 := 0#32
  let c0_i32_1448 : BitVec 32 := 0#32
  ![v406.toNat, 0, 0]
def k1_off155 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1452 : BitVec 32 := 0#32
  let c0_i32_1453 : BitVec 32 := 0#32
  ![v396.toNat, 0, 0]
def k1_off156 (v2652 : BitVec 32) (c0_i32_1474 : BitVec 32) : Fin 2 → Nat :=
  let c40_i32 : BitVec 32 := 40#32
  let v2656 : Index := Scalar.indexCast c40_i32
  let v2653 : BitVec 32 := Scalar.addi v2652 c0_i32_1474
  let v2657 : Index := Scalar.indexCast v2653
  ![40, v2657.toNat]

def k1_chk41 (k1_t1 : Fin k1_t1_loop.trips) (v2652 : BitVec 32) : Prop :=
  (∀ (k1_h3 : k1_cond3 k1_t1 = 1#1), ∀ (r : Fin 4), ∀ a, (k1_off156 v2652 (BitVec.ofNat 32 (16 * r.val))) a + S1x16.size a ≤ S128x128.size a)
instance k1_chk41.dec : ∀ (k1_t1 : Fin k1_t1_loop.trips) (v2652 : BitVec 32), Decidable (k1_chk41 k1_t1 v2652) := fun k1_t1 v2652 => decidable_of_iff' _ (Iff.of_eq (k1_chk41.eq_1 k1_t1 v2652))
theorem k1_off156_inb : ∀ (k1_t1 : Fin k1_t1_loop.trips) (v2652 : BitVec 32) (k1_hw41 : k1_chk41 k1_t1 v2652), ∀ (k1_h3 : k1_cond3 k1_t1 = 1#1), ∀ (r : Fin 4), ∀ a, (k1_off156 v2652 (BitVec.ofNat 32 (16 * r.val))) a + S1x16.size a ≤ S128x128.size a := fun k1_t1 v2652 k1_hw41 k1_h3 r => k1_hw41 k1_h3 r

def k1_off157 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1478 : BitVec 32 := 0#32
  let c0_i32_1479 : BitVec 32 := 0#32
  ![v406.toNat, 0, 0]
def k1_off158 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1483 : BitVec 32 := 0#32
  let c0_i32_1484 : BitVec 32 := 0#32
  ![v396.toNat, 0, 0]
def k1_off159 (v2706 : BitVec 32) (c0_i32_1505 : BitVec 32) : Fin 2 → Nat :=
  let c41_i32 : BitVec 32 := 41#32
  let v2710 : Index := Scalar.indexCast c41_i32
  let v2707 : BitVec 32 := Scalar.addi v2706 c0_i32_1505
  let v2711 : Index := Scalar.indexCast v2707
  ![41, v2711.toNat]

def k1_chk42 (k1_t1 : Fin k1_t1_loop.trips) (v2706 : BitVec 32) : Prop :=
  (∀ (k1_h3 : k1_cond3 k1_t1 = 1#1), ∀ (r : Fin 4), ∀ a, (k1_off159 v2706 (BitVec.ofNat 32 (16 * r.val))) a + S1x16.size a ≤ S128x128.size a)
instance k1_chk42.dec : ∀ (k1_t1 : Fin k1_t1_loop.trips) (v2706 : BitVec 32), Decidable (k1_chk42 k1_t1 v2706) := fun k1_t1 v2706 => decidable_of_iff' _ (Iff.of_eq (k1_chk42.eq_1 k1_t1 v2706))
theorem k1_off159_inb : ∀ (k1_t1 : Fin k1_t1_loop.trips) (v2706 : BitVec 32) (k1_hw42 : k1_chk42 k1_t1 v2706), ∀ (k1_h3 : k1_cond3 k1_t1 = 1#1), ∀ (r : Fin 4), ∀ a, (k1_off159 v2706 (BitVec.ofNat 32 (16 * r.val))) a + S1x16.size a ≤ S128x128.size a := fun k1_t1 v2706 k1_hw42 k1_h3 r => k1_hw42 k1_h3 r

def k1_off160 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1509 : BitVec 32 := 0#32
  let c0_i32_1510 : BitVec 32 := 0#32
  ![v406.toNat, 0, 0]
def k1_off161 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1514 : BitVec 32 := 0#32
  let c0_i32_1515 : BitVec 32 := 0#32
  ![v396.toNat, 0, 0]
def k1_off162 (v2760 : BitVec 32) (c0_i32_1536 : BitVec 32) : Fin 2 → Nat :=
  let c42_i32 : BitVec 32 := 42#32
  let v2764 : Index := Scalar.indexCast c42_i32
  let v2761 : BitVec 32 := Scalar.addi v2760 c0_i32_1536
  let v2765 : Index := Scalar.indexCast v2761
  ![42, v2765.toNat]

def k1_chk43 (k1_t1 : Fin k1_t1_loop.trips) (v2760 : BitVec 32) : Prop :=
  (∀ (k1_h3 : k1_cond3 k1_t1 = 1#1), ∀ (r : Fin 4), ∀ a, (k1_off162 v2760 (BitVec.ofNat 32 (16 * r.val))) a + S1x16.size a ≤ S128x128.size a)
instance k1_chk43.dec : ∀ (k1_t1 : Fin k1_t1_loop.trips) (v2760 : BitVec 32), Decidable (k1_chk43 k1_t1 v2760) := fun k1_t1 v2760 => decidable_of_iff' _ (Iff.of_eq (k1_chk43.eq_1 k1_t1 v2760))
theorem k1_off162_inb : ∀ (k1_t1 : Fin k1_t1_loop.trips) (v2760 : BitVec 32) (k1_hw43 : k1_chk43 k1_t1 v2760), ∀ (k1_h3 : k1_cond3 k1_t1 = 1#1), ∀ (r : Fin 4), ∀ a, (k1_off162 v2760 (BitVec.ofNat 32 (16 * r.val))) a + S1x16.size a ≤ S128x128.size a := fun k1_t1 v2760 k1_hw43 k1_h3 r => k1_hw43 k1_h3 r

def k1_off163 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1540 : BitVec 32 := 0#32
  let c0_i32_1541 : BitVec 32 := 0#32
  ![v406.toNat, 0, 0]
def k1_off164 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1545 : BitVec 32 := 0#32
  let c0_i32_1546 : BitVec 32 := 0#32
  ![v396.toNat, 0, 0]
def k1_off165 (v2814 : BitVec 32) (c0_i32_1567 : BitVec 32) : Fin 2 → Nat :=
  let c43_i32 : BitVec 32 := 43#32
  let v2818 : Index := Scalar.indexCast c43_i32
  let v2815 : BitVec 32 := Scalar.addi v2814 c0_i32_1567
  let v2819 : Index := Scalar.indexCast v2815
  ![43, v2819.toNat]

def k1_chk44 (k1_t1 : Fin k1_t1_loop.trips) (v2814 : BitVec 32) : Prop :=
  (∀ (k1_h3 : k1_cond3 k1_t1 = 1#1), ∀ (r : Fin 4), ∀ a, (k1_off165 v2814 (BitVec.ofNat 32 (16 * r.val))) a + S1x16.size a ≤ S128x128.size a)
instance k1_chk44.dec : ∀ (k1_t1 : Fin k1_t1_loop.trips) (v2814 : BitVec 32), Decidable (k1_chk44 k1_t1 v2814) := fun k1_t1 v2814 => decidable_of_iff' _ (Iff.of_eq (k1_chk44.eq_1 k1_t1 v2814))
theorem k1_off165_inb : ∀ (k1_t1 : Fin k1_t1_loop.trips) (v2814 : BitVec 32) (k1_hw44 : k1_chk44 k1_t1 v2814), ∀ (k1_h3 : k1_cond3 k1_t1 = 1#1), ∀ (r : Fin 4), ∀ a, (k1_off165 v2814 (BitVec.ofNat 32 (16 * r.val))) a + S1x16.size a ≤ S128x128.size a := fun k1_t1 v2814 k1_hw44 k1_h3 r => k1_hw44 k1_h3 r

def k1_off166 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1571 : BitVec 32 := 0#32
  let c0_i32_1572 : BitVec 32 := 0#32
  ![v406.toNat, 0, 0]
def k1_off167 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1576 : BitVec 32 := 0#32
  let c0_i32_1577 : BitVec 32 := 0#32
  ![v396.toNat, 0, 0]
def k1_off168 (v2868 : BitVec 32) (c0_i32_1598 : BitVec 32) : Fin 2 → Nat :=
  let c44_i32 : BitVec 32 := 44#32
  let v2872 : Index := Scalar.indexCast c44_i32
  let v2869 : BitVec 32 := Scalar.addi v2868 c0_i32_1598
  let v2873 : Index := Scalar.indexCast v2869
  ![44, v2873.toNat]

def k1_chk45 (k1_t1 : Fin k1_t1_loop.trips) (v2868 : BitVec 32) : Prop :=
  (∀ (k1_h3 : k1_cond3 k1_t1 = 1#1), ∀ (r : Fin 4), ∀ a, (k1_off168 v2868 (BitVec.ofNat 32 (16 * r.val))) a + S1x16.size a ≤ S128x128.size a)
instance k1_chk45.dec : ∀ (k1_t1 : Fin k1_t1_loop.trips) (v2868 : BitVec 32), Decidable (k1_chk45 k1_t1 v2868) := fun k1_t1 v2868 => decidable_of_iff' _ (Iff.of_eq (k1_chk45.eq_1 k1_t1 v2868))
theorem k1_off168_inb : ∀ (k1_t1 : Fin k1_t1_loop.trips) (v2868 : BitVec 32) (k1_hw45 : k1_chk45 k1_t1 v2868), ∀ (k1_h3 : k1_cond3 k1_t1 = 1#1), ∀ (r : Fin 4), ∀ a, (k1_off168 v2868 (BitVec.ofNat 32 (16 * r.val))) a + S1x16.size a ≤ S128x128.size a := fun k1_t1 v2868 k1_hw45 k1_h3 r => k1_hw45 k1_h3 r

def k1_off169 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1602 : BitVec 32 := 0#32
  let c0_i32_1603 : BitVec 32 := 0#32
  ![v406.toNat, 0, 0]
def k1_off170 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1607 : BitVec 32 := 0#32
  let c0_i32_1608 : BitVec 32 := 0#32
  ![v396.toNat, 0, 0]
def k1_off171 (v2922 : BitVec 32) (c0_i32_1629 : BitVec 32) : Fin 2 → Nat :=
  let c45_i32 : BitVec 32 := 45#32
  let v2926 : Index := Scalar.indexCast c45_i32
  let v2923 : BitVec 32 := Scalar.addi v2922 c0_i32_1629
  let v2927 : Index := Scalar.indexCast v2923
  ![45, v2927.toNat]

def k1_chk46 (k1_t1 : Fin k1_t1_loop.trips) (v2922 : BitVec 32) : Prop :=
  (∀ (k1_h3 : k1_cond3 k1_t1 = 1#1), ∀ (r : Fin 4), ∀ a, (k1_off171 v2922 (BitVec.ofNat 32 (16 * r.val))) a + S1x16.size a ≤ S128x128.size a)
instance k1_chk46.dec : ∀ (k1_t1 : Fin k1_t1_loop.trips) (v2922 : BitVec 32), Decidable (k1_chk46 k1_t1 v2922) := fun k1_t1 v2922 => decidable_of_iff' _ (Iff.of_eq (k1_chk46.eq_1 k1_t1 v2922))
theorem k1_off171_inb : ∀ (k1_t1 : Fin k1_t1_loop.trips) (v2922 : BitVec 32) (k1_hw46 : k1_chk46 k1_t1 v2922), ∀ (k1_h3 : k1_cond3 k1_t1 = 1#1), ∀ (r : Fin 4), ∀ a, (k1_off171 v2922 (BitVec.ofNat 32 (16 * r.val))) a + S1x16.size a ≤ S128x128.size a := fun k1_t1 v2922 k1_hw46 k1_h3 r => k1_hw46 k1_h3 r

def k1_off172 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1633 : BitVec 32 := 0#32
  let c0_i32_1634 : BitVec 32 := 0#32
  ![v406.toNat, 0, 0]
def k1_off173 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1638 : BitVec 32 := 0#32
  let c0_i32_1639 : BitVec 32 := 0#32
  ![v396.toNat, 0, 0]
def k1_off174 (v2976 : BitVec 32) (c0_i32_1660 : BitVec 32) : Fin 2 → Nat :=
  let c46_i32 : BitVec 32 := 46#32
  let v2980 : Index := Scalar.indexCast c46_i32
  let v2977 : BitVec 32 := Scalar.addi v2976 c0_i32_1660
  let v2981 : Index := Scalar.indexCast v2977
  ![46, v2981.toNat]

def k1_chk47 (k1_t1 : Fin k1_t1_loop.trips) (v2976 : BitVec 32) : Prop :=
  (∀ (k1_h3 : k1_cond3 k1_t1 = 1#1), ∀ (r : Fin 4), ∀ a, (k1_off174 v2976 (BitVec.ofNat 32 (16 * r.val))) a + S1x16.size a ≤ S128x128.size a)
instance k1_chk47.dec : ∀ (k1_t1 : Fin k1_t1_loop.trips) (v2976 : BitVec 32), Decidable (k1_chk47 k1_t1 v2976) := fun k1_t1 v2976 => decidable_of_iff' _ (Iff.of_eq (k1_chk47.eq_1 k1_t1 v2976))
theorem k1_off174_inb : ∀ (k1_t1 : Fin k1_t1_loop.trips) (v2976 : BitVec 32) (k1_hw47 : k1_chk47 k1_t1 v2976), ∀ (k1_h3 : k1_cond3 k1_t1 = 1#1), ∀ (r : Fin 4), ∀ a, (k1_off174 v2976 (BitVec.ofNat 32 (16 * r.val))) a + S1x16.size a ≤ S128x128.size a := fun k1_t1 v2976 k1_hw47 k1_h3 r => k1_hw47 k1_h3 r

def k1_off175 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1664 : BitVec 32 := 0#32
  let c0_i32_1665 : BitVec 32 := 0#32
  ![v406.toNat, 0, 0]
def k1_off176 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1669 : BitVec 32 := 0#32
  let c0_i32_1670 : BitVec 32 := 0#32
  ![v396.toNat, 0, 0]
def k1_off177 (v3030 : BitVec 32) (c0_i32_1691 : BitVec 32) : Fin 2 → Nat :=
  let c47_i32 : BitVec 32 := 47#32
  let v3034 : Index := Scalar.indexCast c47_i32
  let v3031 : BitVec 32 := Scalar.addi v3030 c0_i32_1691
  let v3035 : Index := Scalar.indexCast v3031
  ![47, v3035.toNat]

def k1_chk48 (k1_t1 : Fin k1_t1_loop.trips) (v3030 : BitVec 32) : Prop :=
  (∀ (k1_h3 : k1_cond3 k1_t1 = 1#1), ∀ (r : Fin 4), ∀ a, (k1_off177 v3030 (BitVec.ofNat 32 (16 * r.val))) a + S1x16.size a ≤ S128x128.size a)
instance k1_chk48.dec : ∀ (k1_t1 : Fin k1_t1_loop.trips) (v3030 : BitVec 32), Decidable (k1_chk48 k1_t1 v3030) := fun k1_t1 v3030 => decidable_of_iff' _ (Iff.of_eq (k1_chk48.eq_1 k1_t1 v3030))
theorem k1_off177_inb : ∀ (k1_t1 : Fin k1_t1_loop.trips) (v3030 : BitVec 32) (k1_hw48 : k1_chk48 k1_t1 v3030), ∀ (k1_h3 : k1_cond3 k1_t1 = 1#1), ∀ (r : Fin 4), ∀ a, (k1_off177 v3030 (BitVec.ofNat 32 (16 * r.val))) a + S1x16.size a ≤ S128x128.size a := fun k1_t1 v3030 k1_hw48 k1_h3 r => k1_hw48 k1_h3 r

def k1_off178 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1695 : BitVec 32 := 0#32
  let c0_i32_1696 : BitVec 32 := 0#32
  ![v406.toNat, 0, 0]
def k1_off179 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1700 : BitVec 32 := 0#32
  let c0_i32_1701 : BitVec 32 := 0#32
  ![v396.toNat, 0, 0]
def k1_off180 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c10_i32_1722 : BitVec 32 := 10#32
  let c0_i32_1723 : BitVec 32 := 0#32
  let v3083 : BitVec 1 := Scalar.cmpi .eq c10_i32_1722 c0_i32_1723
  let c1_i32_1724 : BitVec 32 := 1#32
  let v3084 : BitVec 32 := Scalar.select v3083 c1_i32_1724 c10_i32_1722
  let v3085 : BitVec 32 := Scalar.remsi v346 v3084
  let c0_i32_1726 : BitVec 32 := 0#32
  let v3087 : BitVec 1 := Scalar.cmpi .slt v3085 c0_i32_1726
  let c0_i32_1727 : BitVec 32 := 0#32
  let v3088 : BitVec 1 := Scalar.cmpi .slt v3084 c0_i32_1727
  let v3089 : BitVec 1 := Scalar.xori v3087 v3088
  let c0_i32_1725 : BitVec 32 := 0#32
  let v3086 : BitVec 1 := Scalar.cmpi .ne v3085 c0_i32_1725
  let v3090 : BitVec 1 := Scalar.andi v3089 v3086
  let v3091 : BitVec 32 := Scalar.addi v3085 v3084
  let v3092 : BitVec 32 := Scalar.select v3090 v3091 v3085
  let v3093 : Index := Scalar.indexCast v3092
  let c48_1728 : Index := 48#32
  ![v3093.toNat, 48]
def k1_off181 (v3112 : BitVec 32) (c0_i32_1736 : BitVec 32) : Fin 2 → Nat :=
  let c48_i32_1737 : BitVec 32 := 48#32
  let v3116 : Index := Scalar.indexCast c48_i32_1737
  let v3113 : BitVec 32 := Scalar.addi v3112 c0_i32_1736
  let v3117 : Index := Scalar.indexCast v3113
  ![48, v3117.toNat]

def k1_chk49 (k1_t1 : Fin k1_t1_loop.trips) (v3112 : BitVec 32) : Prop :=
  (∀ (k1_h3 : k1_cond3 k1_t1 = 1#1), ∀ (r : Fin 4), ∀ a, (k1_off181 v3112 (BitVec.ofNat 32 (16 * r.val))) a + S1x16.size a ≤ S128x128.size a)
instance k1_chk49.dec : ∀ (k1_t1 : Fin k1_t1_loop.trips) (v3112 : BitVec 32), Decidable (k1_chk49 k1_t1 v3112) := fun k1_t1 v3112 => decidable_of_iff' _ (Iff.of_eq (k1_chk49.eq_1 k1_t1 v3112))
theorem k1_off181_inb : ∀ (k1_t1 : Fin k1_t1_loop.trips) (v3112 : BitVec 32) (k1_hw49 : k1_chk49 k1_t1 v3112), ∀ (k1_h3 : k1_cond3 k1_t1 = 1#1), ∀ (r : Fin 4), ∀ a, (k1_off181 v3112 (BitVec.ofNat 32 (16 * r.val))) a + S1x16.size a ≤ S128x128.size a := fun k1_t1 v3112 k1_hw49 k1_h3 r => k1_hw49 k1_h3 r

def k1_off182 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1741 : BitVec 32 := 0#32
  let c0_i32_1742 : BitVec 32 := 0#32
  ![v406.toNat, 0, 0]
def k1_off183 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1746 : BitVec 32 := 0#32
  let c0_i32_1747 : BitVec 32 := 0#32
  ![v396.toNat, 0, 0]
def k1_off184 (v3166 : BitVec 32) (c0_i32_1768 : BitVec 32) : Fin 2 → Nat :=
  let c49_i32 : BitVec 32 := 49#32
  let v3170 : Index := Scalar.indexCast c49_i32
  let v3167 : BitVec 32 := Scalar.addi v3166 c0_i32_1768
  let v3171 : Index := Scalar.indexCast v3167
  ![49, v3171.toNat]

def k1_chk50 (k1_t1 : Fin k1_t1_loop.trips) (v3166 : BitVec 32) : Prop :=
  (∀ (k1_h3 : k1_cond3 k1_t1 = 1#1), ∀ (r : Fin 4), ∀ a, (k1_off184 v3166 (BitVec.ofNat 32 (16 * r.val))) a + S1x16.size a ≤ S128x128.size a)
instance k1_chk50.dec : ∀ (k1_t1 : Fin k1_t1_loop.trips) (v3166 : BitVec 32), Decidable (k1_chk50 k1_t1 v3166) := fun k1_t1 v3166 => decidable_of_iff' _ (Iff.of_eq (k1_chk50.eq_1 k1_t1 v3166))
theorem k1_off184_inb : ∀ (k1_t1 : Fin k1_t1_loop.trips) (v3166 : BitVec 32) (k1_hw50 : k1_chk50 k1_t1 v3166), ∀ (k1_h3 : k1_cond3 k1_t1 = 1#1), ∀ (r : Fin 4), ∀ a, (k1_off184 v3166 (BitVec.ofNat 32 (16 * r.val))) a + S1x16.size a ≤ S128x128.size a := fun k1_t1 v3166 k1_hw50 k1_h3 r => k1_hw50 k1_h3 r

def k1_off185 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1772 : BitVec 32 := 0#32
  let c0_i32_1773 : BitVec 32 := 0#32
  ![v406.toNat, 0, 0]
def k1_off186 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1777 : BitVec 32 := 0#32
  let c0_i32_1778 : BitVec 32 := 0#32
  ![v396.toNat, 0, 0]
def k1_off187 (v3220 : BitVec 32) (c0_i32_1799 : BitVec 32) : Fin 2 → Nat :=
  let c50_i32 : BitVec 32 := 50#32
  let v3224 : Index := Scalar.indexCast c50_i32
  let v3221 : BitVec 32 := Scalar.addi v3220 c0_i32_1799
  let v3225 : Index := Scalar.indexCast v3221
  ![50, v3225.toNat]

def k1_chk51 (k1_t1 : Fin k1_t1_loop.trips) (v3220 : BitVec 32) : Prop :=
  (∀ (k1_h3 : k1_cond3 k1_t1 = 1#1), ∀ (r : Fin 4), ∀ a, (k1_off187 v3220 (BitVec.ofNat 32 (16 * r.val))) a + S1x16.size a ≤ S128x128.size a)
instance k1_chk51.dec : ∀ (k1_t1 : Fin k1_t1_loop.trips) (v3220 : BitVec 32), Decidable (k1_chk51 k1_t1 v3220) := fun k1_t1 v3220 => decidable_of_iff' _ (Iff.of_eq (k1_chk51.eq_1 k1_t1 v3220))
theorem k1_off187_inb : ∀ (k1_t1 : Fin k1_t1_loop.trips) (v3220 : BitVec 32) (k1_hw51 : k1_chk51 k1_t1 v3220), ∀ (k1_h3 : k1_cond3 k1_t1 = 1#1), ∀ (r : Fin 4), ∀ a, (k1_off187 v3220 (BitVec.ofNat 32 (16 * r.val))) a + S1x16.size a ≤ S128x128.size a := fun k1_t1 v3220 k1_hw51 k1_h3 r => k1_hw51 k1_h3 r

def k1_off188 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1803 : BitVec 32 := 0#32
  let c0_i32_1804 : BitVec 32 := 0#32
  ![v406.toNat, 0, 0]
def k1_off189 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1808 : BitVec 32 := 0#32
  let c0_i32_1809 : BitVec 32 := 0#32
  ![v396.toNat, 0, 0]
def k1_off190 (v3274 : BitVec 32) (c0_i32_1830 : BitVec 32) : Fin 2 → Nat :=
  let c51_i32 : BitVec 32 := 51#32
  let v3278 : Index := Scalar.indexCast c51_i32
  let v3275 : BitVec 32 := Scalar.addi v3274 c0_i32_1830
  let v3279 : Index := Scalar.indexCast v3275
  ![51, v3279.toNat]

def k1_chk52 (k1_t1 : Fin k1_t1_loop.trips) (v3274 : BitVec 32) : Prop :=
  (∀ (k1_h3 : k1_cond3 k1_t1 = 1#1), ∀ (r : Fin 4), ∀ a, (k1_off190 v3274 (BitVec.ofNat 32 (16 * r.val))) a + S1x16.size a ≤ S128x128.size a)
instance k1_chk52.dec : ∀ (k1_t1 : Fin k1_t1_loop.trips) (v3274 : BitVec 32), Decidable (k1_chk52 k1_t1 v3274) := fun k1_t1 v3274 => decidable_of_iff' _ (Iff.of_eq (k1_chk52.eq_1 k1_t1 v3274))
theorem k1_off190_inb : ∀ (k1_t1 : Fin k1_t1_loop.trips) (v3274 : BitVec 32) (k1_hw52 : k1_chk52 k1_t1 v3274), ∀ (k1_h3 : k1_cond3 k1_t1 = 1#1), ∀ (r : Fin 4), ∀ a, (k1_off190 v3274 (BitVec.ofNat 32 (16 * r.val))) a + S1x16.size a ≤ S128x128.size a := fun k1_t1 v3274 k1_hw52 k1_h3 r => k1_hw52 k1_h3 r

def k1_off191 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1834 : BitVec 32 := 0#32
  let c0_i32_1835 : BitVec 32 := 0#32
  ![v406.toNat, 0, 0]
def k1_off192 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1839 : BitVec 32 := 0#32
  let c0_i32_1840 : BitVec 32 := 0#32
  ![v396.toNat, 0, 0]
def k1_off193 (v3328 : BitVec 32) (c0_i32_1861 : BitVec 32) : Fin 2 → Nat :=
  let c52_i32 : BitVec 32 := 52#32
  let v3332 : Index := Scalar.indexCast c52_i32
  let v3329 : BitVec 32 := Scalar.addi v3328 c0_i32_1861
  let v3333 : Index := Scalar.indexCast v3329
  ![52, v3333.toNat]

def k1_chk53 (k1_t1 : Fin k1_t1_loop.trips) (v3328 : BitVec 32) : Prop :=
  (∀ (k1_h3 : k1_cond3 k1_t1 = 1#1), ∀ (r : Fin 4), ∀ a, (k1_off193 v3328 (BitVec.ofNat 32 (16 * r.val))) a + S1x16.size a ≤ S128x128.size a)
instance k1_chk53.dec : ∀ (k1_t1 : Fin k1_t1_loop.trips) (v3328 : BitVec 32), Decidable (k1_chk53 k1_t1 v3328) := fun k1_t1 v3328 => decidable_of_iff' _ (Iff.of_eq (k1_chk53.eq_1 k1_t1 v3328))
theorem k1_off193_inb : ∀ (k1_t1 : Fin k1_t1_loop.trips) (v3328 : BitVec 32) (k1_hw53 : k1_chk53 k1_t1 v3328), ∀ (k1_h3 : k1_cond3 k1_t1 = 1#1), ∀ (r : Fin 4), ∀ a, (k1_off193 v3328 (BitVec.ofNat 32 (16 * r.val))) a + S1x16.size a ≤ S128x128.size a := fun k1_t1 v3328 k1_hw53 k1_h3 r => k1_hw53 k1_h3 r

def k1_off194 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1865 : BitVec 32 := 0#32
  let c0_i32_1866 : BitVec 32 := 0#32
  ![v406.toNat, 0, 0]
def k1_off195 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1870 : BitVec 32 := 0#32
  let c0_i32_1871 : BitVec 32 := 0#32
  ![v396.toNat, 0, 0]
def k1_off196 (v3382 : BitVec 32) (c0_i32_1892 : BitVec 32) : Fin 2 → Nat :=
  let c53_i32 : BitVec 32 := 53#32
  let v3386 : Index := Scalar.indexCast c53_i32
  let v3383 : BitVec 32 := Scalar.addi v3382 c0_i32_1892
  let v3387 : Index := Scalar.indexCast v3383
  ![53, v3387.toNat]

def k1_chk54 (k1_t1 : Fin k1_t1_loop.trips) (v3382 : BitVec 32) : Prop :=
  (∀ (k1_h3 : k1_cond3 k1_t1 = 1#1), ∀ (r : Fin 4), ∀ a, (k1_off196 v3382 (BitVec.ofNat 32 (16 * r.val))) a + S1x16.size a ≤ S128x128.size a)
instance k1_chk54.dec : ∀ (k1_t1 : Fin k1_t1_loop.trips) (v3382 : BitVec 32), Decidable (k1_chk54 k1_t1 v3382) := fun k1_t1 v3382 => decidable_of_iff' _ (Iff.of_eq (k1_chk54.eq_1 k1_t1 v3382))
theorem k1_off196_inb : ∀ (k1_t1 : Fin k1_t1_loop.trips) (v3382 : BitVec 32) (k1_hw54 : k1_chk54 k1_t1 v3382), ∀ (k1_h3 : k1_cond3 k1_t1 = 1#1), ∀ (r : Fin 4), ∀ a, (k1_off196 v3382 (BitVec.ofNat 32 (16 * r.val))) a + S1x16.size a ≤ S128x128.size a := fun k1_t1 v3382 k1_hw54 k1_h3 r => k1_hw54 k1_h3 r

def k1_off197 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1896 : BitVec 32 := 0#32
  let c0_i32_1897 : BitVec 32 := 0#32
  ![v406.toNat, 0, 0]
def k1_off198 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1901 : BitVec 32 := 0#32
  let c0_i32_1902 : BitVec 32 := 0#32
  ![v396.toNat, 0, 0]
def k1_off199 (v3436 : BitVec 32) (c0_i32_1923 : BitVec 32) : Fin 2 → Nat :=
  let c54_i32 : BitVec 32 := 54#32
  let v3440 : Index := Scalar.indexCast c54_i32
  let v3437 : BitVec 32 := Scalar.addi v3436 c0_i32_1923
  let v3441 : Index := Scalar.indexCast v3437
  ![54, v3441.toNat]

def k1_chk55 (k1_t1 : Fin k1_t1_loop.trips) (v3436 : BitVec 32) : Prop :=
  (∀ (k1_h3 : k1_cond3 k1_t1 = 1#1), ∀ (r : Fin 4), ∀ a, (k1_off199 v3436 (BitVec.ofNat 32 (16 * r.val))) a + S1x16.size a ≤ S128x128.size a)
instance k1_chk55.dec : ∀ (k1_t1 : Fin k1_t1_loop.trips) (v3436 : BitVec 32), Decidable (k1_chk55 k1_t1 v3436) := fun k1_t1 v3436 => decidable_of_iff' _ (Iff.of_eq (k1_chk55.eq_1 k1_t1 v3436))
theorem k1_off199_inb : ∀ (k1_t1 : Fin k1_t1_loop.trips) (v3436 : BitVec 32) (k1_hw55 : k1_chk55 k1_t1 v3436), ∀ (k1_h3 : k1_cond3 k1_t1 = 1#1), ∀ (r : Fin 4), ∀ a, (k1_off199 v3436 (BitVec.ofNat 32 (16 * r.val))) a + S1x16.size a ≤ S128x128.size a := fun k1_t1 v3436 k1_hw55 k1_h3 r => k1_hw55 k1_h3 r

def k1_off200 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1927 : BitVec 32 := 0#32
  let c0_i32_1928 : BitVec 32 := 0#32
  ![v406.toNat, 0, 0]
def k1_off201 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1932 : BitVec 32 := 0#32
  let c0_i32_1933 : BitVec 32 := 0#32
  ![v396.toNat, 0, 0]
def k1_off202 (v3490 : BitVec 32) (c0_i32_1954 : BitVec 32) : Fin 2 → Nat :=
  let c55_i32 : BitVec 32 := 55#32
  let v3494 : Index := Scalar.indexCast c55_i32
  let v3491 : BitVec 32 := Scalar.addi v3490 c0_i32_1954
  let v3495 : Index := Scalar.indexCast v3491
  ![55, v3495.toNat]

def k1_chk56 (k1_t1 : Fin k1_t1_loop.trips) (v3490 : BitVec 32) : Prop :=
  (∀ (k1_h3 : k1_cond3 k1_t1 = 1#1), ∀ (r : Fin 4), ∀ a, (k1_off202 v3490 (BitVec.ofNat 32 (16 * r.val))) a + S1x16.size a ≤ S128x128.size a)
instance k1_chk56.dec : ∀ (k1_t1 : Fin k1_t1_loop.trips) (v3490 : BitVec 32), Decidable (k1_chk56 k1_t1 v3490) := fun k1_t1 v3490 => decidable_of_iff' _ (Iff.of_eq (k1_chk56.eq_1 k1_t1 v3490))
theorem k1_off202_inb : ∀ (k1_t1 : Fin k1_t1_loop.trips) (v3490 : BitVec 32) (k1_hw56 : k1_chk56 k1_t1 v3490), ∀ (k1_h3 : k1_cond3 k1_t1 = 1#1), ∀ (r : Fin 4), ∀ a, (k1_off202 v3490 (BitVec.ofNat 32 (16 * r.val))) a + S1x16.size a ≤ S128x128.size a := fun k1_t1 v3490 k1_hw56 k1_h3 r => k1_hw56 k1_h3 r

def k1_off203 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1958 : BitVec 32 := 0#32
  let c0_i32_1959 : BitVec 32 := 0#32
  ![v406.toNat, 0, 0]
def k1_off204 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1963 : BitVec 32 := 0#32
  let c0_i32_1964 : BitVec 32 := 0#32
  ![v396.toNat, 0, 0]
def k1_off205 (v3544 : BitVec 32) (c0_i32_1985 : BitVec 32) : Fin 2 → Nat :=
  let c56_i32 : BitVec 32 := 56#32
  let v3548 : Index := Scalar.indexCast c56_i32
  let v3545 : BitVec 32 := Scalar.addi v3544 c0_i32_1985
  let v3549 : Index := Scalar.indexCast v3545
  ![56, v3549.toNat]

def k1_chk57 (k1_t1 : Fin k1_t1_loop.trips) (v3544 : BitVec 32) : Prop :=
  (∀ (k1_h3 : k1_cond3 k1_t1 = 1#1), ∀ (r : Fin 4), ∀ a, (k1_off205 v3544 (BitVec.ofNat 32 (16 * r.val))) a + S1x16.size a ≤ S128x128.size a)
instance k1_chk57.dec : ∀ (k1_t1 : Fin k1_t1_loop.trips) (v3544 : BitVec 32), Decidable (k1_chk57 k1_t1 v3544) := fun k1_t1 v3544 => decidable_of_iff' _ (Iff.of_eq (k1_chk57.eq_1 k1_t1 v3544))
theorem k1_off205_inb : ∀ (k1_t1 : Fin k1_t1_loop.trips) (v3544 : BitVec 32) (k1_hw57 : k1_chk57 k1_t1 v3544), ∀ (k1_h3 : k1_cond3 k1_t1 = 1#1), ∀ (r : Fin 4), ∀ a, (k1_off205 v3544 (BitVec.ofNat 32 (16 * r.val))) a + S1x16.size a ≤ S128x128.size a := fun k1_t1 v3544 k1_hw57 k1_h3 r => k1_hw57 k1_h3 r

def k1_off206 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_1989 : BitVec 32 := 0#32
  let c0_i32_1990 : BitVec 32 := 0#32
  ![v406.toNat, 0, 0]
def k1_off207 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_1994 : BitVec 32 := 0#32
  let c0_i32_1995 : BitVec 32 := 0#32
  ![v396.toNat, 0, 0]
def k1_off208 (v3598 : BitVec 32) (c0_i32_2016 : BitVec 32) : Fin 2 → Nat :=
  let c57_i32 : BitVec 32 := 57#32
  let v3602 : Index := Scalar.indexCast c57_i32
  let v3599 : BitVec 32 := Scalar.addi v3598 c0_i32_2016
  let v3603 : Index := Scalar.indexCast v3599
  ![57, v3603.toNat]

def k1_chk58 (k1_t1 : Fin k1_t1_loop.trips) (v3598 : BitVec 32) : Prop :=
  (∀ (k1_h3 : k1_cond3 k1_t1 = 1#1), ∀ (r : Fin 4), ∀ a, (k1_off208 v3598 (BitVec.ofNat 32 (16 * r.val))) a + S1x16.size a ≤ S128x128.size a)
instance k1_chk58.dec : ∀ (k1_t1 : Fin k1_t1_loop.trips) (v3598 : BitVec 32), Decidable (k1_chk58 k1_t1 v3598) := fun k1_t1 v3598 => decidable_of_iff' _ (Iff.of_eq (k1_chk58.eq_1 k1_t1 v3598))
theorem k1_off208_inb : ∀ (k1_t1 : Fin k1_t1_loop.trips) (v3598 : BitVec 32) (k1_hw58 : k1_chk58 k1_t1 v3598), ∀ (k1_h3 : k1_cond3 k1_t1 = 1#1), ∀ (r : Fin 4), ∀ a, (k1_off208 v3598 (BitVec.ofNat 32 (16 * r.val))) a + S1x16.size a ≤ S128x128.size a := fun k1_t1 v3598 k1_hw58 k1_h3 r => k1_hw58 k1_h3 r

def k1_off209 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2020 : BitVec 32 := 0#32
  let c0_i32_2021 : BitVec 32 := 0#32
  ![v406.toNat, 0, 0]
def k1_off210 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2025 : BitVec 32 := 0#32
  let c0_i32_2026 : BitVec 32 := 0#32
  ![v396.toNat, 0, 0]
def k1_off211 (v3652 : BitVec 32) (c0_i32_2047 : BitVec 32) : Fin 2 → Nat :=
  let c58_i32 : BitVec 32 := 58#32
  let v3656 : Index := Scalar.indexCast c58_i32
  let v3653 : BitVec 32 := Scalar.addi v3652 c0_i32_2047
  let v3657 : Index := Scalar.indexCast v3653
  ![58, v3657.toNat]

def k1_chk59 (k1_t1 : Fin k1_t1_loop.trips) (v3652 : BitVec 32) : Prop :=
  (∀ (k1_h3 : k1_cond3 k1_t1 = 1#1), ∀ (r : Fin 4), ∀ a, (k1_off211 v3652 (BitVec.ofNat 32 (16 * r.val))) a + S1x16.size a ≤ S128x128.size a)
instance k1_chk59.dec : ∀ (k1_t1 : Fin k1_t1_loop.trips) (v3652 : BitVec 32), Decidable (k1_chk59 k1_t1 v3652) := fun k1_t1 v3652 => decidable_of_iff' _ (Iff.of_eq (k1_chk59.eq_1 k1_t1 v3652))
theorem k1_off211_inb : ∀ (k1_t1 : Fin k1_t1_loop.trips) (v3652 : BitVec 32) (k1_hw59 : k1_chk59 k1_t1 v3652), ∀ (k1_h3 : k1_cond3 k1_t1 = 1#1), ∀ (r : Fin 4), ∀ a, (k1_off211 v3652 (BitVec.ofNat 32 (16 * r.val))) a + S1x16.size a ≤ S128x128.size a := fun k1_t1 v3652 k1_hw59 k1_h3 r => k1_hw59 k1_h3 r

def k1_off212 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2051 : BitVec 32 := 0#32
  let c0_i32_2052 : BitVec 32 := 0#32
  ![v406.toNat, 0, 0]
def k1_off213 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2056 : BitVec 32 := 0#32
  let c0_i32_2057 : BitVec 32 := 0#32
  ![v396.toNat, 0, 0]
def k1_off214 (v3706 : BitVec 32) (c0_i32_2078 : BitVec 32) : Fin 2 → Nat :=
  let c59_i32 : BitVec 32 := 59#32
  let v3710 : Index := Scalar.indexCast c59_i32
  let v3707 : BitVec 32 := Scalar.addi v3706 c0_i32_2078
  let v3711 : Index := Scalar.indexCast v3707
  ![59, v3711.toNat]

def k1_chk60 (k1_t1 : Fin k1_t1_loop.trips) (v3706 : BitVec 32) : Prop :=
  (∀ (k1_h3 : k1_cond3 k1_t1 = 1#1), ∀ (r : Fin 4), ∀ a, (k1_off214 v3706 (BitVec.ofNat 32 (16 * r.val))) a + S1x16.size a ≤ S128x128.size a)
instance k1_chk60.dec : ∀ (k1_t1 : Fin k1_t1_loop.trips) (v3706 : BitVec 32), Decidable (k1_chk60 k1_t1 v3706) := fun k1_t1 v3706 => decidable_of_iff' _ (Iff.of_eq (k1_chk60.eq_1 k1_t1 v3706))
theorem k1_off214_inb : ∀ (k1_t1 : Fin k1_t1_loop.trips) (v3706 : BitVec 32) (k1_hw60 : k1_chk60 k1_t1 v3706), ∀ (k1_h3 : k1_cond3 k1_t1 = 1#1), ∀ (r : Fin 4), ∀ a, (k1_off214 v3706 (BitVec.ofNat 32 (16 * r.val))) a + S1x16.size a ≤ S128x128.size a := fun k1_t1 v3706 k1_hw60 k1_h3 r => k1_hw60 k1_h3 r

def k1_off215 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2082 : BitVec 32 := 0#32
  let c0_i32_2083 : BitVec 32 := 0#32
  ![v406.toNat, 0, 0]
def k1_off216 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2087 : BitVec 32 := 0#32
  let c0_i32_2088 : BitVec 32 := 0#32
  ![v396.toNat, 0, 0]
def k1_off217 (v3760 : BitVec 32) (c0_i32_2109 : BitVec 32) : Fin 2 → Nat :=
  let c60_i32 : BitVec 32 := 60#32
  let v3764 : Index := Scalar.indexCast c60_i32
  let v3761 : BitVec 32 := Scalar.addi v3760 c0_i32_2109
  let v3765 : Index := Scalar.indexCast v3761
  ![60, v3765.toNat]

def k1_chk61 (k1_t1 : Fin k1_t1_loop.trips) (v3760 : BitVec 32) : Prop :=
  (∀ (k1_h3 : k1_cond3 k1_t1 = 1#1), ∀ (r : Fin 4), ∀ a, (k1_off217 v3760 (BitVec.ofNat 32 (16 * r.val))) a + S1x16.size a ≤ S128x128.size a)
instance k1_chk61.dec : ∀ (k1_t1 : Fin k1_t1_loop.trips) (v3760 : BitVec 32), Decidable (k1_chk61 k1_t1 v3760) := fun k1_t1 v3760 => decidable_of_iff' _ (Iff.of_eq (k1_chk61.eq_1 k1_t1 v3760))
theorem k1_off217_inb : ∀ (k1_t1 : Fin k1_t1_loop.trips) (v3760 : BitVec 32) (k1_hw61 : k1_chk61 k1_t1 v3760), ∀ (k1_h3 : k1_cond3 k1_t1 = 1#1), ∀ (r : Fin 4), ∀ a, (k1_off217 v3760 (BitVec.ofNat 32 (16 * r.val))) a + S1x16.size a ≤ S128x128.size a := fun k1_t1 v3760 k1_hw61 k1_h3 r => k1_hw61 k1_h3 r

def k1_off218 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2113 : BitVec 32 := 0#32
  let c0_i32_2114 : BitVec 32 := 0#32
  ![v406.toNat, 0, 0]
def k1_off219 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2118 : BitVec 32 := 0#32
  let c0_i32_2119 : BitVec 32 := 0#32
  ![v396.toNat, 0, 0]
def k1_off220 (v3814 : BitVec 32) (c0_i32_2140 : BitVec 32) : Fin 2 → Nat :=
  let c61_i32 : BitVec 32 := 61#32
  let v3818 : Index := Scalar.indexCast c61_i32
  let v3815 : BitVec 32 := Scalar.addi v3814 c0_i32_2140
  let v3819 : Index := Scalar.indexCast v3815
  ![61, v3819.toNat]

def k1_chk62 (k1_t1 : Fin k1_t1_loop.trips) (v3814 : BitVec 32) : Prop :=
  (∀ (k1_h3 : k1_cond3 k1_t1 = 1#1), ∀ (r : Fin 4), ∀ a, (k1_off220 v3814 (BitVec.ofNat 32 (16 * r.val))) a + S1x16.size a ≤ S128x128.size a)
instance k1_chk62.dec : ∀ (k1_t1 : Fin k1_t1_loop.trips) (v3814 : BitVec 32), Decidable (k1_chk62 k1_t1 v3814) := fun k1_t1 v3814 => decidable_of_iff' _ (Iff.of_eq (k1_chk62.eq_1 k1_t1 v3814))
theorem k1_off220_inb : ∀ (k1_t1 : Fin k1_t1_loop.trips) (v3814 : BitVec 32) (k1_hw62 : k1_chk62 k1_t1 v3814), ∀ (k1_h3 : k1_cond3 k1_t1 = 1#1), ∀ (r : Fin 4), ∀ a, (k1_off220 v3814 (BitVec.ofNat 32 (16 * r.val))) a + S1x16.size a ≤ S128x128.size a := fun k1_t1 v3814 k1_hw62 k1_h3 r => k1_hw62 k1_h3 r

def k1_off221 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2144 : BitVec 32 := 0#32
  let c0_i32_2145 : BitVec 32 := 0#32
  ![v406.toNat, 0, 0]
def k1_off222 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2149 : BitVec 32 := 0#32
  let c0_i32_2150 : BitVec 32 := 0#32
  ![v396.toNat, 0, 0]
def k1_off223 (v3868 : BitVec 32) (c0_i32_2171 : BitVec 32) : Fin 2 → Nat :=
  let c62_i32 : BitVec 32 := 62#32
  let v3872 : Index := Scalar.indexCast c62_i32
  let v3869 : BitVec 32 := Scalar.addi v3868 c0_i32_2171
  let v3873 : Index := Scalar.indexCast v3869
  ![62, v3873.toNat]

def k1_chk63 (k1_t1 : Fin k1_t1_loop.trips) (v3868 : BitVec 32) : Prop :=
  (∀ (k1_h3 : k1_cond3 k1_t1 = 1#1), ∀ (r : Fin 4), ∀ a, (k1_off223 v3868 (BitVec.ofNat 32 (16 * r.val))) a + S1x16.size a ≤ S128x128.size a)
instance k1_chk63.dec : ∀ (k1_t1 : Fin k1_t1_loop.trips) (v3868 : BitVec 32), Decidable (k1_chk63 k1_t1 v3868) := fun k1_t1 v3868 => decidable_of_iff' _ (Iff.of_eq (k1_chk63.eq_1 k1_t1 v3868))
theorem k1_off223_inb : ∀ (k1_t1 : Fin k1_t1_loop.trips) (v3868 : BitVec 32) (k1_hw63 : k1_chk63 k1_t1 v3868), ∀ (k1_h3 : k1_cond3 k1_t1 = 1#1), ∀ (r : Fin 4), ∀ a, (k1_off223 v3868 (BitVec.ofNat 32 (16 * r.val))) a + S1x16.size a ≤ S128x128.size a := fun k1_t1 v3868 k1_hw63 k1_h3 r => k1_hw63 k1_h3 r

def k1_off224 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2175 : BitVec 32 := 0#32
  let c0_i32_2176 : BitVec 32 := 0#32
  ![v406.toNat, 0, 0]
def k1_off225 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2180 : BitVec 32 := 0#32
  let c0_i32_2181 : BitVec 32 := 0#32
  ![v396.toNat, 0, 0]
def k1_off226 (v3922 : BitVec 32) (c0_i32_2202 : BitVec 32) : Fin 2 → Nat :=
  let c63_i32 : BitVec 32 := 63#32
  let v3926 : Index := Scalar.indexCast c63_i32
  let v3923 : BitVec 32 := Scalar.addi v3922 c0_i32_2202
  let v3927 : Index := Scalar.indexCast v3923
  ![63, v3927.toNat]

def k1_chk64 (k1_t1 : Fin k1_t1_loop.trips) (v3922 : BitVec 32) : Prop :=
  (∀ (k1_h3 : k1_cond3 k1_t1 = 1#1), ∀ (r : Fin 4), ∀ a, (k1_off226 v3922 (BitVec.ofNat 32 (16 * r.val))) a + S1x16.size a ≤ S128x128.size a)
instance k1_chk64.dec : ∀ (k1_t1 : Fin k1_t1_loop.trips) (v3922 : BitVec 32), Decidable (k1_chk64 k1_t1 v3922) := fun k1_t1 v3922 => decidable_of_iff' _ (Iff.of_eq (k1_chk64.eq_1 k1_t1 v3922))
theorem k1_off226_inb : ∀ (k1_t1 : Fin k1_t1_loop.trips) (v3922 : BitVec 32) (k1_hw64 : k1_chk64 k1_t1 v3922), ∀ (k1_h3 : k1_cond3 k1_t1 = 1#1), ∀ (r : Fin 4), ∀ a, (k1_off226 v3922 (BitVec.ofNat 32 (16 * r.val))) a + S1x16.size a ≤ S128x128.size a := fun k1_t1 v3922 k1_hw64 k1_h3 r => k1_hw64 k1_h3 r

def k1_off227 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2206 : BitVec 32 := 0#32
  let c0_i32_2207 : BitVec 32 := 0#32
  ![v406.toNat, 0, 0]
def k1_off228 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2211 : BitVec 32 := 0#32
  let c0_i32_2212 : BitVec 32 := 0#32
  ![v396.toNat, 0, 0]
def k1_off229 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c10_i32_2233 : BitVec 32 := 10#32
  let c0_i32_2234 : BitVec 32 := 0#32
  let v3975 : BitVec 1 := Scalar.cmpi .eq c10_i32_2233 c0_i32_2234
  let c1_i32_2235 : BitVec 32 := 1#32
  let v3976 : BitVec 32 := Scalar.select v3975 c1_i32_2235 c10_i32_2233
  let v3977 : BitVec 32 := Scalar.remsi v346 v3976
  let c0_i32_2237 : BitVec 32 := 0#32
  let v3979 : BitVec 1 := Scalar.cmpi .slt v3977 c0_i32_2237
  let c0_i32_2238 : BitVec 32 := 0#32
  let v3980 : BitVec 1 := Scalar.cmpi .slt v3976 c0_i32_2238
  let v3981 : BitVec 1 := Scalar.xori v3979 v3980
  let c0_i32_2236 : BitVec 32 := 0#32
  let v3978 : BitVec 1 := Scalar.cmpi .ne v3977 c0_i32_2236
  let v3982 : BitVec 1 := Scalar.andi v3981 v3978
  let v3983 : BitVec 32 := Scalar.addi v3977 v3976
  let v3984 : BitVec 32 := Scalar.select v3982 v3983 v3977
  let v3985 : Index := Scalar.indexCast v3984
  let c64 : Index := 64#32
  ![v3985.toNat, 64]
def k1_off230 (v4004 : BitVec 32) (c0_i32_2246 : BitVec 32) : Fin 2 → Nat :=
  let c64_i32 : BitVec 32 := 64#32
  let v4008 : Index := Scalar.indexCast c64_i32
  let v4005 : BitVec 32 := Scalar.addi v4004 c0_i32_2246
  let v4009 : Index := Scalar.indexCast v4005
  ![64, v4009.toNat]

def k1_chk65 (k1_t1 : Fin k1_t1_loop.trips) (v4004 : BitVec 32) : Prop :=
  (∀ (k1_h3 : k1_cond3 k1_t1 = 1#1), ∀ (r : Fin 4), ∀ a, (k1_off230 v4004 (BitVec.ofNat 32 (16 * r.val))) a + S1x16.size a ≤ S128x128.size a)
instance k1_chk65.dec : ∀ (k1_t1 : Fin k1_t1_loop.trips) (v4004 : BitVec 32), Decidable (k1_chk65 k1_t1 v4004) := fun k1_t1 v4004 => decidable_of_iff' _ (Iff.of_eq (k1_chk65.eq_1 k1_t1 v4004))
theorem k1_off230_inb : ∀ (k1_t1 : Fin k1_t1_loop.trips) (v4004 : BitVec 32) (k1_hw65 : k1_chk65 k1_t1 v4004), ∀ (k1_h3 : k1_cond3 k1_t1 = 1#1), ∀ (r : Fin 4), ∀ a, (k1_off230 v4004 (BitVec.ofNat 32 (16 * r.val))) a + S1x16.size a ≤ S128x128.size a := fun k1_t1 v4004 k1_hw65 k1_h3 r => k1_hw65 k1_h3 r

def k1_off231 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2250 : BitVec 32 := 0#32
  let c0_i32_2251 : BitVec 32 := 0#32
  ![v406.toNat, 0, 0]
def k1_off232 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2255 : BitVec 32 := 0#32
  let c0_i32_2256 : BitVec 32 := 0#32
  ![v396.toNat, 0, 0]
def k1_off233 (v4058 : BitVec 32) (c0_i32_2277 : BitVec 32) : Fin 2 → Nat :=
  let c65_i32 : BitVec 32 := 65#32
  let v4062 : Index := Scalar.indexCast c65_i32
  let v4059 : BitVec 32 := Scalar.addi v4058 c0_i32_2277
  let v4063 : Index := Scalar.indexCast v4059
  ![65, v4063.toNat]

def k1_chk66 (k1_t1 : Fin k1_t1_loop.trips) (v4058 : BitVec 32) : Prop :=
  (∀ (k1_h3 : k1_cond3 k1_t1 = 1#1), ∀ (r : Fin 4), ∀ a, (k1_off233 v4058 (BitVec.ofNat 32 (16 * r.val))) a + S1x16.size a ≤ S128x128.size a)
instance k1_chk66.dec : ∀ (k1_t1 : Fin k1_t1_loop.trips) (v4058 : BitVec 32), Decidable (k1_chk66 k1_t1 v4058) := fun k1_t1 v4058 => decidable_of_iff' _ (Iff.of_eq (k1_chk66.eq_1 k1_t1 v4058))
theorem k1_off233_inb : ∀ (k1_t1 : Fin k1_t1_loop.trips) (v4058 : BitVec 32) (k1_hw66 : k1_chk66 k1_t1 v4058), ∀ (k1_h3 : k1_cond3 k1_t1 = 1#1), ∀ (r : Fin 4), ∀ a, (k1_off233 v4058 (BitVec.ofNat 32 (16 * r.val))) a + S1x16.size a ≤ S128x128.size a := fun k1_t1 v4058 k1_hw66 k1_h3 r => k1_hw66 k1_h3 r

def k1_off234 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2281 : BitVec 32 := 0#32
  let c0_i32_2282 : BitVec 32 := 0#32
  ![v406.toNat, 0, 0]
def k1_off235 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2286 : BitVec 32 := 0#32
  let c0_i32_2287 : BitVec 32 := 0#32
  ![v396.toNat, 0, 0]
def k1_off236 (v4112 : BitVec 32) (c0_i32_2308 : BitVec 32) : Fin 2 → Nat :=
  let c66_i32 : BitVec 32 := 66#32
  let v4116 : Index := Scalar.indexCast c66_i32
  let v4113 : BitVec 32 := Scalar.addi v4112 c0_i32_2308
  let v4117 : Index := Scalar.indexCast v4113
  ![66, v4117.toNat]

def k1_chk67 (k1_t1 : Fin k1_t1_loop.trips) (v4112 : BitVec 32) : Prop :=
  (∀ (k1_h3 : k1_cond3 k1_t1 = 1#1), ∀ (r : Fin 4), ∀ a, (k1_off236 v4112 (BitVec.ofNat 32 (16 * r.val))) a + S1x16.size a ≤ S128x128.size a)
instance k1_chk67.dec : ∀ (k1_t1 : Fin k1_t1_loop.trips) (v4112 : BitVec 32), Decidable (k1_chk67 k1_t1 v4112) := fun k1_t1 v4112 => decidable_of_iff' _ (Iff.of_eq (k1_chk67.eq_1 k1_t1 v4112))
theorem k1_off236_inb : ∀ (k1_t1 : Fin k1_t1_loop.trips) (v4112 : BitVec 32) (k1_hw67 : k1_chk67 k1_t1 v4112), ∀ (k1_h3 : k1_cond3 k1_t1 = 1#1), ∀ (r : Fin 4), ∀ a, (k1_off236 v4112 (BitVec.ofNat 32 (16 * r.val))) a + S1x16.size a ≤ S128x128.size a := fun k1_t1 v4112 k1_hw67 k1_h3 r => k1_hw67 k1_h3 r

def k1_off237 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2312 : BitVec 32 := 0#32
  let c0_i32_2313 : BitVec 32 := 0#32
  ![v406.toNat, 0, 0]
def k1_off238 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2317 : BitVec 32 := 0#32
  let c0_i32_2318 : BitVec 32 := 0#32
  ![v396.toNat, 0, 0]
def k1_off239 (v4166 : BitVec 32) (c0_i32_2339 : BitVec 32) : Fin 2 → Nat :=
  let c67_i32 : BitVec 32 := 67#32
  let v4170 : Index := Scalar.indexCast c67_i32
  let v4167 : BitVec 32 := Scalar.addi v4166 c0_i32_2339
  let v4171 : Index := Scalar.indexCast v4167
  ![67, v4171.toNat]

def k1_chk68 (k1_t1 : Fin k1_t1_loop.trips) (v4166 : BitVec 32) : Prop :=
  (∀ (k1_h3 : k1_cond3 k1_t1 = 1#1), ∀ (r : Fin 4), ∀ a, (k1_off239 v4166 (BitVec.ofNat 32 (16 * r.val))) a + S1x16.size a ≤ S128x128.size a)
instance k1_chk68.dec : ∀ (k1_t1 : Fin k1_t1_loop.trips) (v4166 : BitVec 32), Decidable (k1_chk68 k1_t1 v4166) := fun k1_t1 v4166 => decidable_of_iff' _ (Iff.of_eq (k1_chk68.eq_1 k1_t1 v4166))
theorem k1_off239_inb : ∀ (k1_t1 : Fin k1_t1_loop.trips) (v4166 : BitVec 32) (k1_hw68 : k1_chk68 k1_t1 v4166), ∀ (k1_h3 : k1_cond3 k1_t1 = 1#1), ∀ (r : Fin 4), ∀ a, (k1_off239 v4166 (BitVec.ofNat 32 (16 * r.val))) a + S1x16.size a ≤ S128x128.size a := fun k1_t1 v4166 k1_hw68 k1_h3 r => k1_hw68 k1_h3 r

def k1_off240 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2343 : BitVec 32 := 0#32
  let c0_i32_2344 : BitVec 32 := 0#32
  ![v406.toNat, 0, 0]
def k1_off241 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2348 : BitVec 32 := 0#32
  let c0_i32_2349 : BitVec 32 := 0#32
  ![v396.toNat, 0, 0]
def k1_off242 (v4220 : BitVec 32) (c0_i32_2370 : BitVec 32) : Fin 2 → Nat :=
  let c68_i32 : BitVec 32 := 68#32
  let v4224 : Index := Scalar.indexCast c68_i32
  let v4221 : BitVec 32 := Scalar.addi v4220 c0_i32_2370
  let v4225 : Index := Scalar.indexCast v4221
  ![68, v4225.toNat]

def k1_chk69 (k1_t1 : Fin k1_t1_loop.trips) (v4220 : BitVec 32) : Prop :=
  (∀ (k1_h3 : k1_cond3 k1_t1 = 1#1), ∀ (r : Fin 4), ∀ a, (k1_off242 v4220 (BitVec.ofNat 32 (16 * r.val))) a + S1x16.size a ≤ S128x128.size a)
instance k1_chk69.dec : ∀ (k1_t1 : Fin k1_t1_loop.trips) (v4220 : BitVec 32), Decidable (k1_chk69 k1_t1 v4220) := fun k1_t1 v4220 => decidable_of_iff' _ (Iff.of_eq (k1_chk69.eq_1 k1_t1 v4220))
theorem k1_off242_inb : ∀ (k1_t1 : Fin k1_t1_loop.trips) (v4220 : BitVec 32) (k1_hw69 : k1_chk69 k1_t1 v4220), ∀ (k1_h3 : k1_cond3 k1_t1 = 1#1), ∀ (r : Fin 4), ∀ a, (k1_off242 v4220 (BitVec.ofNat 32 (16 * r.val))) a + S1x16.size a ≤ S128x128.size a := fun k1_t1 v4220 k1_hw69 k1_h3 r => k1_hw69 k1_h3 r

def k1_off243 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2374 : BitVec 32 := 0#32
  let c0_i32_2375 : BitVec 32 := 0#32
  ![v406.toNat, 0, 0]
def k1_off244 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2379 : BitVec 32 := 0#32
  let c0_i32_2380 : BitVec 32 := 0#32
  ![v396.toNat, 0, 0]
def k1_off245 (v4274 : BitVec 32) (c0_i32_2401 : BitVec 32) : Fin 2 → Nat :=
  let c69_i32 : BitVec 32 := 69#32
  let v4278 : Index := Scalar.indexCast c69_i32
  let v4275 : BitVec 32 := Scalar.addi v4274 c0_i32_2401
  let v4279 : Index := Scalar.indexCast v4275
  ![69, v4279.toNat]

def k1_chk70 (k1_t1 : Fin k1_t1_loop.trips) (v4274 : BitVec 32) : Prop :=
  (∀ (k1_h3 : k1_cond3 k1_t1 = 1#1), ∀ (r : Fin 4), ∀ a, (k1_off245 v4274 (BitVec.ofNat 32 (16 * r.val))) a + S1x16.size a ≤ S128x128.size a)
instance k1_chk70.dec : ∀ (k1_t1 : Fin k1_t1_loop.trips) (v4274 : BitVec 32), Decidable (k1_chk70 k1_t1 v4274) := fun k1_t1 v4274 => decidable_of_iff' _ (Iff.of_eq (k1_chk70.eq_1 k1_t1 v4274))
theorem k1_off245_inb : ∀ (k1_t1 : Fin k1_t1_loop.trips) (v4274 : BitVec 32) (k1_hw70 : k1_chk70 k1_t1 v4274), ∀ (k1_h3 : k1_cond3 k1_t1 = 1#1), ∀ (r : Fin 4), ∀ a, (k1_off245 v4274 (BitVec.ofNat 32 (16 * r.val))) a + S1x16.size a ≤ S128x128.size a := fun k1_t1 v4274 k1_hw70 k1_h3 r => k1_hw70 k1_h3 r

def k1_off246 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2405 : BitVec 32 := 0#32
  let c0_i32_2406 : BitVec 32 := 0#32
  ![v406.toNat, 0, 0]
def k1_off247 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2410 : BitVec 32 := 0#32
  let c0_i32_2411 : BitVec 32 := 0#32
  ![v396.toNat, 0, 0]
def k1_off248 (v4328 : BitVec 32) (c0_i32_2432 : BitVec 32) : Fin 2 → Nat :=
  let c70_i32 : BitVec 32 := 70#32
  let v4332 : Index := Scalar.indexCast c70_i32
  let v4329 : BitVec 32 := Scalar.addi v4328 c0_i32_2432
  let v4333 : Index := Scalar.indexCast v4329
  ![70, v4333.toNat]

def k1_chk71 (k1_t1 : Fin k1_t1_loop.trips) (v4328 : BitVec 32) : Prop :=
  (∀ (k1_h3 : k1_cond3 k1_t1 = 1#1), ∀ (r : Fin 4), ∀ a, (k1_off248 v4328 (BitVec.ofNat 32 (16 * r.val))) a + S1x16.size a ≤ S128x128.size a)
instance k1_chk71.dec : ∀ (k1_t1 : Fin k1_t1_loop.trips) (v4328 : BitVec 32), Decidable (k1_chk71 k1_t1 v4328) := fun k1_t1 v4328 => decidable_of_iff' _ (Iff.of_eq (k1_chk71.eq_1 k1_t1 v4328))
theorem k1_off248_inb : ∀ (k1_t1 : Fin k1_t1_loop.trips) (v4328 : BitVec 32) (k1_hw71 : k1_chk71 k1_t1 v4328), ∀ (k1_h3 : k1_cond3 k1_t1 = 1#1), ∀ (r : Fin 4), ∀ a, (k1_off248 v4328 (BitVec.ofNat 32 (16 * r.val))) a + S1x16.size a ≤ S128x128.size a := fun k1_t1 v4328 k1_hw71 k1_h3 r => k1_hw71 k1_h3 r

def k1_off249 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2436 : BitVec 32 := 0#32
  let c0_i32_2437 : BitVec 32 := 0#32
  ![v406.toNat, 0, 0]
def k1_off250 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2441 : BitVec 32 := 0#32
  let c0_i32_2442 : BitVec 32 := 0#32
  ![v396.toNat, 0, 0]
def k1_off251 (v4382 : BitVec 32) (c0_i32_2463 : BitVec 32) : Fin 2 → Nat :=
  let c71_i32 : BitVec 32 := 71#32
  let v4386 : Index := Scalar.indexCast c71_i32
  let v4383 : BitVec 32 := Scalar.addi v4382 c0_i32_2463
  let v4387 : Index := Scalar.indexCast v4383
  ![71, v4387.toNat]

def k1_chk72 (k1_t1 : Fin k1_t1_loop.trips) (v4382 : BitVec 32) : Prop :=
  (∀ (k1_h3 : k1_cond3 k1_t1 = 1#1), ∀ (r : Fin 4), ∀ a, (k1_off251 v4382 (BitVec.ofNat 32 (16 * r.val))) a + S1x16.size a ≤ S128x128.size a)
instance k1_chk72.dec : ∀ (k1_t1 : Fin k1_t1_loop.trips) (v4382 : BitVec 32), Decidable (k1_chk72 k1_t1 v4382) := fun k1_t1 v4382 => decidable_of_iff' _ (Iff.of_eq (k1_chk72.eq_1 k1_t1 v4382))
theorem k1_off251_inb : ∀ (k1_t1 : Fin k1_t1_loop.trips) (v4382 : BitVec 32) (k1_hw72 : k1_chk72 k1_t1 v4382), ∀ (k1_h3 : k1_cond3 k1_t1 = 1#1), ∀ (r : Fin 4), ∀ a, (k1_off251 v4382 (BitVec.ofNat 32 (16 * r.val))) a + S1x16.size a ≤ S128x128.size a := fun k1_t1 v4382 k1_hw72 k1_h3 r => k1_hw72 k1_h3 r

def k1_off252 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2467 : BitVec 32 := 0#32
  let c0_i32_2468 : BitVec 32 := 0#32
  ![v406.toNat, 0, 0]
def k1_off253 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2472 : BitVec 32 := 0#32
  let c0_i32_2473 : BitVec 32 := 0#32
  ![v396.toNat, 0, 0]
def k1_off254 (v4436 : BitVec 32) (c0_i32_2494 : BitVec 32) : Fin 2 → Nat :=
  let c72_i32 : BitVec 32 := 72#32
  let v4440 : Index := Scalar.indexCast c72_i32
  let v4437 : BitVec 32 := Scalar.addi v4436 c0_i32_2494
  let v4441 : Index := Scalar.indexCast v4437
  ![72, v4441.toNat]

def k1_chk73 (k1_t1 : Fin k1_t1_loop.trips) (v4436 : BitVec 32) : Prop :=
  (∀ (k1_h3 : k1_cond3 k1_t1 = 1#1), ∀ (r : Fin 4), ∀ a, (k1_off254 v4436 (BitVec.ofNat 32 (16 * r.val))) a + S1x16.size a ≤ S128x128.size a)
instance k1_chk73.dec : ∀ (k1_t1 : Fin k1_t1_loop.trips) (v4436 : BitVec 32), Decidable (k1_chk73 k1_t1 v4436) := fun k1_t1 v4436 => decidable_of_iff' _ (Iff.of_eq (k1_chk73.eq_1 k1_t1 v4436))
theorem k1_off254_inb : ∀ (k1_t1 : Fin k1_t1_loop.trips) (v4436 : BitVec 32) (k1_hw73 : k1_chk73 k1_t1 v4436), ∀ (k1_h3 : k1_cond3 k1_t1 = 1#1), ∀ (r : Fin 4), ∀ a, (k1_off254 v4436 (BitVec.ofNat 32 (16 * r.val))) a + S1x16.size a ≤ S128x128.size a := fun k1_t1 v4436 k1_hw73 k1_h3 r => k1_hw73 k1_h3 r

def k1_off255 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2498 : BitVec 32 := 0#32
  let c0_i32_2499 : BitVec 32 := 0#32
  ![v406.toNat, 0, 0]
def k1_off256 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2503 : BitVec 32 := 0#32
  let c0_i32_2504 : BitVec 32 := 0#32
  ![v396.toNat, 0, 0]
def k1_off257 (v4490 : BitVec 32) (c0_i32_2525 : BitVec 32) : Fin 2 → Nat :=
  let c73_i32 : BitVec 32 := 73#32
  let v4494 : Index := Scalar.indexCast c73_i32
  let v4491 : BitVec 32 := Scalar.addi v4490 c0_i32_2525
  let v4495 : Index := Scalar.indexCast v4491
  ![73, v4495.toNat]

def k1_chk74 (k1_t1 : Fin k1_t1_loop.trips) (v4490 : BitVec 32) : Prop :=
  (∀ (k1_h3 : k1_cond3 k1_t1 = 1#1), ∀ (r : Fin 4), ∀ a, (k1_off257 v4490 (BitVec.ofNat 32 (16 * r.val))) a + S1x16.size a ≤ S128x128.size a)
instance k1_chk74.dec : ∀ (k1_t1 : Fin k1_t1_loop.trips) (v4490 : BitVec 32), Decidable (k1_chk74 k1_t1 v4490) := fun k1_t1 v4490 => decidable_of_iff' _ (Iff.of_eq (k1_chk74.eq_1 k1_t1 v4490))
theorem k1_off257_inb : ∀ (k1_t1 : Fin k1_t1_loop.trips) (v4490 : BitVec 32) (k1_hw74 : k1_chk74 k1_t1 v4490), ∀ (k1_h3 : k1_cond3 k1_t1 = 1#1), ∀ (r : Fin 4), ∀ a, (k1_off257 v4490 (BitVec.ofNat 32 (16 * r.val))) a + S1x16.size a ≤ S128x128.size a := fun k1_t1 v4490 k1_hw74 k1_h3 r => k1_hw74 k1_h3 r

def k1_off258 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2529 : BitVec 32 := 0#32
  let c0_i32_2530 : BitVec 32 := 0#32
  ![v406.toNat, 0, 0]
def k1_off259 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2534 : BitVec 32 := 0#32
  let c0_i32_2535 : BitVec 32 := 0#32
  ![v396.toNat, 0, 0]
def k1_off260 (v4544 : BitVec 32) (c0_i32_2556 : BitVec 32) : Fin 2 → Nat :=
  let c74_i32 : BitVec 32 := 74#32
  let v4548 : Index := Scalar.indexCast c74_i32
  let v4545 : BitVec 32 := Scalar.addi v4544 c0_i32_2556
  let v4549 : Index := Scalar.indexCast v4545
  ![74, v4549.toNat]

def k1_chk75 (k1_t1 : Fin k1_t1_loop.trips) (v4544 : BitVec 32) : Prop :=
  (∀ (k1_h3 : k1_cond3 k1_t1 = 1#1), ∀ (r : Fin 4), ∀ a, (k1_off260 v4544 (BitVec.ofNat 32 (16 * r.val))) a + S1x16.size a ≤ S128x128.size a)
instance k1_chk75.dec : ∀ (k1_t1 : Fin k1_t1_loop.trips) (v4544 : BitVec 32), Decidable (k1_chk75 k1_t1 v4544) := fun k1_t1 v4544 => decidable_of_iff' _ (Iff.of_eq (k1_chk75.eq_1 k1_t1 v4544))
theorem k1_off260_inb : ∀ (k1_t1 : Fin k1_t1_loop.trips) (v4544 : BitVec 32) (k1_hw75 : k1_chk75 k1_t1 v4544), ∀ (k1_h3 : k1_cond3 k1_t1 = 1#1), ∀ (r : Fin 4), ∀ a, (k1_off260 v4544 (BitVec.ofNat 32 (16 * r.val))) a + S1x16.size a ≤ S128x128.size a := fun k1_t1 v4544 k1_hw75 k1_h3 r => k1_hw75 k1_h3 r

def k1_off261 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2560 : BitVec 32 := 0#32
  let c0_i32_2561 : BitVec 32 := 0#32
  ![v406.toNat, 0, 0]
def k1_off262 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2565 : BitVec 32 := 0#32
  let c0_i32_2566 : BitVec 32 := 0#32
  ![v396.toNat, 0, 0]
def k1_off263 (v4598 : BitVec 32) (c0_i32_2587 : BitVec 32) : Fin 2 → Nat :=
  let c75_i32 : BitVec 32 := 75#32
  let v4602 : Index := Scalar.indexCast c75_i32
  let v4599 : BitVec 32 := Scalar.addi v4598 c0_i32_2587
  let v4603 : Index := Scalar.indexCast v4599
  ![75, v4603.toNat]

def k1_chk76 (k1_t1 : Fin k1_t1_loop.trips) (v4598 : BitVec 32) : Prop :=
  (∀ (k1_h3 : k1_cond3 k1_t1 = 1#1), ∀ (r : Fin 4), ∀ a, (k1_off263 v4598 (BitVec.ofNat 32 (16 * r.val))) a + S1x16.size a ≤ S128x128.size a)
instance k1_chk76.dec : ∀ (k1_t1 : Fin k1_t1_loop.trips) (v4598 : BitVec 32), Decidable (k1_chk76 k1_t1 v4598) := fun k1_t1 v4598 => decidable_of_iff' _ (Iff.of_eq (k1_chk76.eq_1 k1_t1 v4598))
theorem k1_off263_inb : ∀ (k1_t1 : Fin k1_t1_loop.trips) (v4598 : BitVec 32) (k1_hw76 : k1_chk76 k1_t1 v4598), ∀ (k1_h3 : k1_cond3 k1_t1 = 1#1), ∀ (r : Fin 4), ∀ a, (k1_off263 v4598 (BitVec.ofNat 32 (16 * r.val))) a + S1x16.size a ≤ S128x128.size a := fun k1_t1 v4598 k1_hw76 k1_h3 r => k1_hw76 k1_h3 r

def k1_off264 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2591 : BitVec 32 := 0#32
  let c0_i32_2592 : BitVec 32 := 0#32
  ![v406.toNat, 0, 0]
def k1_off265 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2596 : BitVec 32 := 0#32
  let c0_i32_2597 : BitVec 32 := 0#32
  ![v396.toNat, 0, 0]
def k1_off266 (v4652 : BitVec 32) (c0_i32_2618 : BitVec 32) : Fin 2 → Nat :=
  let c76_i32 : BitVec 32 := 76#32
  let v4656 : Index := Scalar.indexCast c76_i32
  let v4653 : BitVec 32 := Scalar.addi v4652 c0_i32_2618
  let v4657 : Index := Scalar.indexCast v4653
  ![76, v4657.toNat]

def k1_chk77 (k1_t1 : Fin k1_t1_loop.trips) (v4652 : BitVec 32) : Prop :=
  (∀ (k1_h3 : k1_cond3 k1_t1 = 1#1), ∀ (r : Fin 4), ∀ a, (k1_off266 v4652 (BitVec.ofNat 32 (16 * r.val))) a + S1x16.size a ≤ S128x128.size a)
instance k1_chk77.dec : ∀ (k1_t1 : Fin k1_t1_loop.trips) (v4652 : BitVec 32), Decidable (k1_chk77 k1_t1 v4652) := fun k1_t1 v4652 => decidable_of_iff' _ (Iff.of_eq (k1_chk77.eq_1 k1_t1 v4652))
theorem k1_off266_inb : ∀ (k1_t1 : Fin k1_t1_loop.trips) (v4652 : BitVec 32) (k1_hw77 : k1_chk77 k1_t1 v4652), ∀ (k1_h3 : k1_cond3 k1_t1 = 1#1), ∀ (r : Fin 4), ∀ a, (k1_off266 v4652 (BitVec.ofNat 32 (16 * r.val))) a + S1x16.size a ≤ S128x128.size a := fun k1_t1 v4652 k1_hw77 k1_h3 r => k1_hw77 k1_h3 r

def k1_off267 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2622 : BitVec 32 := 0#32
  let c0_i32_2623 : BitVec 32 := 0#32
  ![v406.toNat, 0, 0]
def k1_off268 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2627 : BitVec 32 := 0#32
  let c0_i32_2628 : BitVec 32 := 0#32
  ![v396.toNat, 0, 0]
def k1_off269 (v4706 : BitVec 32) (c0_i32_2649 : BitVec 32) : Fin 2 → Nat :=
  let c77_i32 : BitVec 32 := 77#32
  let v4710 : Index := Scalar.indexCast c77_i32
  let v4707 : BitVec 32 := Scalar.addi v4706 c0_i32_2649
  let v4711 : Index := Scalar.indexCast v4707
  ![77, v4711.toNat]

def k1_chk78 (k1_t1 : Fin k1_t1_loop.trips) (v4706 : BitVec 32) : Prop :=
  (∀ (k1_h3 : k1_cond3 k1_t1 = 1#1), ∀ (r : Fin 4), ∀ a, (k1_off269 v4706 (BitVec.ofNat 32 (16 * r.val))) a + S1x16.size a ≤ S128x128.size a)
instance k1_chk78.dec : ∀ (k1_t1 : Fin k1_t1_loop.trips) (v4706 : BitVec 32), Decidable (k1_chk78 k1_t1 v4706) := fun k1_t1 v4706 => decidable_of_iff' _ (Iff.of_eq (k1_chk78.eq_1 k1_t1 v4706))
theorem k1_off269_inb : ∀ (k1_t1 : Fin k1_t1_loop.trips) (v4706 : BitVec 32) (k1_hw78 : k1_chk78 k1_t1 v4706), ∀ (k1_h3 : k1_cond3 k1_t1 = 1#1), ∀ (r : Fin 4), ∀ a, (k1_off269 v4706 (BitVec.ofNat 32 (16 * r.val))) a + S1x16.size a ≤ S128x128.size a := fun k1_t1 v4706 k1_hw78 k1_h3 r => k1_hw78 k1_h3 r

def k1_off270 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2653 : BitVec 32 := 0#32
  let c0_i32_2654 : BitVec 32 := 0#32
  ![v406.toNat, 0, 0]
def k1_off271 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2658 : BitVec 32 := 0#32
  let c0_i32_2659 : BitVec 32 := 0#32
  ![v396.toNat, 0, 0]
def k1_off272 (v4760 : BitVec 32) (c0_i32_2680 : BitVec 32) : Fin 2 → Nat :=
  let c78_i32 : BitVec 32 := 78#32
  let v4764 : Index := Scalar.indexCast c78_i32
  let v4761 : BitVec 32 := Scalar.addi v4760 c0_i32_2680
  let v4765 : Index := Scalar.indexCast v4761
  ![78, v4765.toNat]

def k1_chk79 (k1_t1 : Fin k1_t1_loop.trips) (v4760 : BitVec 32) : Prop :=
  (∀ (k1_h3 : k1_cond3 k1_t1 = 1#1), ∀ (r : Fin 4), ∀ a, (k1_off272 v4760 (BitVec.ofNat 32 (16 * r.val))) a + S1x16.size a ≤ S128x128.size a)
instance k1_chk79.dec : ∀ (k1_t1 : Fin k1_t1_loop.trips) (v4760 : BitVec 32), Decidable (k1_chk79 k1_t1 v4760) := fun k1_t1 v4760 => decidable_of_iff' _ (Iff.of_eq (k1_chk79.eq_1 k1_t1 v4760))
theorem k1_off272_inb : ∀ (k1_t1 : Fin k1_t1_loop.trips) (v4760 : BitVec 32) (k1_hw79 : k1_chk79 k1_t1 v4760), ∀ (k1_h3 : k1_cond3 k1_t1 = 1#1), ∀ (r : Fin 4), ∀ a, (k1_off272 v4760 (BitVec.ofNat 32 (16 * r.val))) a + S1x16.size a ≤ S128x128.size a := fun k1_t1 v4760 k1_hw79 k1_h3 r => k1_hw79 k1_h3 r

def k1_off273 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2684 : BitVec 32 := 0#32
  let c0_i32_2685 : BitVec 32 := 0#32
  ![v406.toNat, 0, 0]
def k1_off274 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2689 : BitVec 32 := 0#32
  let c0_i32_2690 : BitVec 32 := 0#32
  ![v396.toNat, 0, 0]
def k1_off275 (v4814 : BitVec 32) (c0_i32_2711 : BitVec 32) : Fin 2 → Nat :=
  let c79_i32 : BitVec 32 := 79#32
  let v4818 : Index := Scalar.indexCast c79_i32
  let v4815 : BitVec 32 := Scalar.addi v4814 c0_i32_2711
  let v4819 : Index := Scalar.indexCast v4815
  ![79, v4819.toNat]

def k1_chk80 (k1_t1 : Fin k1_t1_loop.trips) (v4814 : BitVec 32) : Prop :=
  (∀ (k1_h3 : k1_cond3 k1_t1 = 1#1), ∀ (r : Fin 4), ∀ a, (k1_off275 v4814 (BitVec.ofNat 32 (16 * r.val))) a + S1x16.size a ≤ S128x128.size a)
instance k1_chk80.dec : ∀ (k1_t1 : Fin k1_t1_loop.trips) (v4814 : BitVec 32), Decidable (k1_chk80 k1_t1 v4814) := fun k1_t1 v4814 => decidable_of_iff' _ (Iff.of_eq (k1_chk80.eq_1 k1_t1 v4814))
theorem k1_off275_inb : ∀ (k1_t1 : Fin k1_t1_loop.trips) (v4814 : BitVec 32) (k1_hw80 : k1_chk80 k1_t1 v4814), ∀ (k1_h3 : k1_cond3 k1_t1 = 1#1), ∀ (r : Fin 4), ∀ a, (k1_off275 v4814 (BitVec.ofNat 32 (16 * r.val))) a + S1x16.size a ≤ S128x128.size a := fun k1_t1 v4814 k1_hw80 k1_h3 r => k1_hw80 k1_h3 r

def k1_off276 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2715 : BitVec 32 := 0#32
  let c0_i32_2716 : BitVec 32 := 0#32
  ![v406.toNat, 0, 0]
def k1_off277 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2720 : BitVec 32 := 0#32
  let c0_i32_2721 : BitVec 32 := 0#32
  ![v396.toNat, 0, 0]
def k1_off278 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c10_i32_2742 : BitVec 32 := 10#32
  let c0_i32_2743 : BitVec 32 := 0#32
  let v4867 : BitVec 1 := Scalar.cmpi .eq c10_i32_2742 c0_i32_2743
  let c1_i32_2744 : BitVec 32 := 1#32
  let v4868 : BitVec 32 := Scalar.select v4867 c1_i32_2744 c10_i32_2742
  let v4869 : BitVec 32 := Scalar.remsi v346 v4868
  let c0_i32_2746 : BitVec 32 := 0#32
  let v4871 : BitVec 1 := Scalar.cmpi .slt v4869 c0_i32_2746
  let c0_i32_2747 : BitVec 32 := 0#32
  let v4872 : BitVec 1 := Scalar.cmpi .slt v4868 c0_i32_2747
  let v4873 : BitVec 1 := Scalar.xori v4871 v4872
  let c0_i32_2745 : BitVec 32 := 0#32
  let v4870 : BitVec 1 := Scalar.cmpi .ne v4869 c0_i32_2745
  let v4874 : BitVec 1 := Scalar.andi v4873 v4870
  let v4875 : BitVec 32 := Scalar.addi v4869 v4868
  let v4876 : BitVec 32 := Scalar.select v4874 v4875 v4869
  let v4877 : Index := Scalar.indexCast v4876
  let c80 : Index := 80#32
  ![v4877.toNat, 80]
def k1_off279 (v4896 : BitVec 32) (c0_i32_2755 : BitVec 32) : Fin 2 → Nat :=
  let c80_i32 : BitVec 32 := 80#32
  let v4900 : Index := Scalar.indexCast c80_i32
  let v4897 : BitVec 32 := Scalar.addi v4896 c0_i32_2755
  let v4901 : Index := Scalar.indexCast v4897
  ![80, v4901.toNat]

def k1_chk81 (k1_t1 : Fin k1_t1_loop.trips) (v4896 : BitVec 32) : Prop :=
  (∀ (k1_h3 : k1_cond3 k1_t1 = 1#1), ∀ (r : Fin 4), ∀ a, (k1_off279 v4896 (BitVec.ofNat 32 (16 * r.val))) a + S1x16.size a ≤ S128x128.size a)
instance k1_chk81.dec : ∀ (k1_t1 : Fin k1_t1_loop.trips) (v4896 : BitVec 32), Decidable (k1_chk81 k1_t1 v4896) := fun k1_t1 v4896 => decidable_of_iff' _ (Iff.of_eq (k1_chk81.eq_1 k1_t1 v4896))
theorem k1_off279_inb : ∀ (k1_t1 : Fin k1_t1_loop.trips) (v4896 : BitVec 32) (k1_hw81 : k1_chk81 k1_t1 v4896), ∀ (k1_h3 : k1_cond3 k1_t1 = 1#1), ∀ (r : Fin 4), ∀ a, (k1_off279 v4896 (BitVec.ofNat 32 (16 * r.val))) a + S1x16.size a ≤ S128x128.size a := fun k1_t1 v4896 k1_hw81 k1_h3 r => k1_hw81 k1_h3 r

def k1_off280 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2759 : BitVec 32 := 0#32
  let c0_i32_2760 : BitVec 32 := 0#32
  ![v406.toNat, 0, 0]
def k1_off281 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2764 : BitVec 32 := 0#32
  let c0_i32_2765 : BitVec 32 := 0#32
  ![v396.toNat, 0, 0]
def k1_off282 (v4950 : BitVec 32) (c0_i32_2786 : BitVec 32) : Fin 2 → Nat :=
  let c81_i32 : BitVec 32 := 81#32
  let v4954 : Index := Scalar.indexCast c81_i32
  let v4951 : BitVec 32 := Scalar.addi v4950 c0_i32_2786
  let v4955 : Index := Scalar.indexCast v4951
  ![81, v4955.toNat]

def k1_chk82 (k1_t1 : Fin k1_t1_loop.trips) (v4950 : BitVec 32) : Prop :=
  (∀ (k1_h3 : k1_cond3 k1_t1 = 1#1), ∀ (r : Fin 4), ∀ a, (k1_off282 v4950 (BitVec.ofNat 32 (16 * r.val))) a + S1x16.size a ≤ S128x128.size a)
instance k1_chk82.dec : ∀ (k1_t1 : Fin k1_t1_loop.trips) (v4950 : BitVec 32), Decidable (k1_chk82 k1_t1 v4950) := fun k1_t1 v4950 => decidable_of_iff' _ (Iff.of_eq (k1_chk82.eq_1 k1_t1 v4950))
theorem k1_off282_inb : ∀ (k1_t1 : Fin k1_t1_loop.trips) (v4950 : BitVec 32) (k1_hw82 : k1_chk82 k1_t1 v4950), ∀ (k1_h3 : k1_cond3 k1_t1 = 1#1), ∀ (r : Fin 4), ∀ a, (k1_off282 v4950 (BitVec.ofNat 32 (16 * r.val))) a + S1x16.size a ≤ S128x128.size a := fun k1_t1 v4950 k1_hw82 k1_h3 r => k1_hw82 k1_h3 r

def k1_off283 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2790 : BitVec 32 := 0#32
  let c0_i32_2791 : BitVec 32 := 0#32
  ![v406.toNat, 0, 0]
def k1_off284 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2795 : BitVec 32 := 0#32
  let c0_i32_2796 : BitVec 32 := 0#32
  ![v396.toNat, 0, 0]
def k1_off285 (v5004 : BitVec 32) (c0_i32_2817 : BitVec 32) : Fin 2 → Nat :=
  let c82_i32 : BitVec 32 := 82#32
  let v5008 : Index := Scalar.indexCast c82_i32
  let v5005 : BitVec 32 := Scalar.addi v5004 c0_i32_2817
  let v5009 : Index := Scalar.indexCast v5005
  ![82, v5009.toNat]

def k1_chk83 (k1_t1 : Fin k1_t1_loop.trips) (v5004 : BitVec 32) : Prop :=
  (∀ (k1_h3 : k1_cond3 k1_t1 = 1#1), ∀ (r : Fin 4), ∀ a, (k1_off285 v5004 (BitVec.ofNat 32 (16 * r.val))) a + S1x16.size a ≤ S128x128.size a)
instance k1_chk83.dec : ∀ (k1_t1 : Fin k1_t1_loop.trips) (v5004 : BitVec 32), Decidable (k1_chk83 k1_t1 v5004) := fun k1_t1 v5004 => decidable_of_iff' _ (Iff.of_eq (k1_chk83.eq_1 k1_t1 v5004))
theorem k1_off285_inb : ∀ (k1_t1 : Fin k1_t1_loop.trips) (v5004 : BitVec 32) (k1_hw83 : k1_chk83 k1_t1 v5004), ∀ (k1_h3 : k1_cond3 k1_t1 = 1#1), ∀ (r : Fin 4), ∀ a, (k1_off285 v5004 (BitVec.ofNat 32 (16 * r.val))) a + S1x16.size a ≤ S128x128.size a := fun k1_t1 v5004 k1_hw83 k1_h3 r => k1_hw83 k1_h3 r

def k1_off286 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2821 : BitVec 32 := 0#32
  let c0_i32_2822 : BitVec 32 := 0#32
  ![v406.toNat, 0, 0]
def k1_off287 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2826 : BitVec 32 := 0#32
  let c0_i32_2827 : BitVec 32 := 0#32
  ![v396.toNat, 0, 0]
def k1_off288 (v5058 : BitVec 32) (c0_i32_2848 : BitVec 32) : Fin 2 → Nat :=
  let c83_i32 : BitVec 32 := 83#32
  let v5062 : Index := Scalar.indexCast c83_i32
  let v5059 : BitVec 32 := Scalar.addi v5058 c0_i32_2848
  let v5063 : Index := Scalar.indexCast v5059
  ![83, v5063.toNat]

def k1_chk84 (k1_t1 : Fin k1_t1_loop.trips) (v5058 : BitVec 32) : Prop :=
  (∀ (k1_h3 : k1_cond3 k1_t1 = 1#1), ∀ (r : Fin 4), ∀ a, (k1_off288 v5058 (BitVec.ofNat 32 (16 * r.val))) a + S1x16.size a ≤ S128x128.size a)
instance k1_chk84.dec : ∀ (k1_t1 : Fin k1_t1_loop.trips) (v5058 : BitVec 32), Decidable (k1_chk84 k1_t1 v5058) := fun k1_t1 v5058 => decidable_of_iff' _ (Iff.of_eq (k1_chk84.eq_1 k1_t1 v5058))
theorem k1_off288_inb : ∀ (k1_t1 : Fin k1_t1_loop.trips) (v5058 : BitVec 32) (k1_hw84 : k1_chk84 k1_t1 v5058), ∀ (k1_h3 : k1_cond3 k1_t1 = 1#1), ∀ (r : Fin 4), ∀ a, (k1_off288 v5058 (BitVec.ofNat 32 (16 * r.val))) a + S1x16.size a ≤ S128x128.size a := fun k1_t1 v5058 k1_hw84 k1_h3 r => k1_hw84 k1_h3 r

def k1_off289 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2852 : BitVec 32 := 0#32
  let c0_i32_2853 : BitVec 32 := 0#32
  ![v406.toNat, 0, 0]
def k1_off290 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2857 : BitVec 32 := 0#32
  let c0_i32_2858 : BitVec 32 := 0#32
  ![v396.toNat, 0, 0]
def k1_off291 (v5112 : BitVec 32) (c0_i32_2879 : BitVec 32) : Fin 2 → Nat :=
  let c84_i32 : BitVec 32 := 84#32
  let v5116 : Index := Scalar.indexCast c84_i32
  let v5113 : BitVec 32 := Scalar.addi v5112 c0_i32_2879
  let v5117 : Index := Scalar.indexCast v5113
  ![84, v5117.toNat]

def k1_chk85 (k1_t1 : Fin k1_t1_loop.trips) (v5112 : BitVec 32) : Prop :=
  (∀ (k1_h3 : k1_cond3 k1_t1 = 1#1), ∀ (r : Fin 4), ∀ a, (k1_off291 v5112 (BitVec.ofNat 32 (16 * r.val))) a + S1x16.size a ≤ S128x128.size a)
instance k1_chk85.dec : ∀ (k1_t1 : Fin k1_t1_loop.trips) (v5112 : BitVec 32), Decidable (k1_chk85 k1_t1 v5112) := fun k1_t1 v5112 => decidable_of_iff' _ (Iff.of_eq (k1_chk85.eq_1 k1_t1 v5112))
theorem k1_off291_inb : ∀ (k1_t1 : Fin k1_t1_loop.trips) (v5112 : BitVec 32) (k1_hw85 : k1_chk85 k1_t1 v5112), ∀ (k1_h3 : k1_cond3 k1_t1 = 1#1), ∀ (r : Fin 4), ∀ a, (k1_off291 v5112 (BitVec.ofNat 32 (16 * r.val))) a + S1x16.size a ≤ S128x128.size a := fun k1_t1 v5112 k1_hw85 k1_h3 r => k1_hw85 k1_h3 r

def k1_off292 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2883 : BitVec 32 := 0#32
  let c0_i32_2884 : BitVec 32 := 0#32
  ![v406.toNat, 0, 0]
def k1_off293 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2888 : BitVec 32 := 0#32
  let c0_i32_2889 : BitVec 32 := 0#32
  ![v396.toNat, 0, 0]
def k1_off294 (v5166 : BitVec 32) (c0_i32_2910 : BitVec 32) : Fin 2 → Nat :=
  let c85_i32 : BitVec 32 := 85#32
  let v5170 : Index := Scalar.indexCast c85_i32
  let v5167 : BitVec 32 := Scalar.addi v5166 c0_i32_2910
  let v5171 : Index := Scalar.indexCast v5167
  ![85, v5171.toNat]

def k1_chk86 (k1_t1 : Fin k1_t1_loop.trips) (v5166 : BitVec 32) : Prop :=
  (∀ (k1_h3 : k1_cond3 k1_t1 = 1#1), ∀ (r : Fin 4), ∀ a, (k1_off294 v5166 (BitVec.ofNat 32 (16 * r.val))) a + S1x16.size a ≤ S128x128.size a)
instance k1_chk86.dec : ∀ (k1_t1 : Fin k1_t1_loop.trips) (v5166 : BitVec 32), Decidable (k1_chk86 k1_t1 v5166) := fun k1_t1 v5166 => decidable_of_iff' _ (Iff.of_eq (k1_chk86.eq_1 k1_t1 v5166))
theorem k1_off294_inb : ∀ (k1_t1 : Fin k1_t1_loop.trips) (v5166 : BitVec 32) (k1_hw86 : k1_chk86 k1_t1 v5166), ∀ (k1_h3 : k1_cond3 k1_t1 = 1#1), ∀ (r : Fin 4), ∀ a, (k1_off294 v5166 (BitVec.ofNat 32 (16 * r.val))) a + S1x16.size a ≤ S128x128.size a := fun k1_t1 v5166 k1_hw86 k1_h3 r => k1_hw86 k1_h3 r

def k1_off295 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2914 : BitVec 32 := 0#32
  let c0_i32_2915 : BitVec 32 := 0#32
  ![v406.toNat, 0, 0]
def k1_off296 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2919 : BitVec 32 := 0#32
  let c0_i32_2920 : BitVec 32 := 0#32
  ![v396.toNat, 0, 0]
def k1_off297 (v5220 : BitVec 32) (c0_i32_2941 : BitVec 32) : Fin 2 → Nat :=
  let c86_i32 : BitVec 32 := 86#32
  let v5224 : Index := Scalar.indexCast c86_i32
  let v5221 : BitVec 32 := Scalar.addi v5220 c0_i32_2941
  let v5225 : Index := Scalar.indexCast v5221
  ![86, v5225.toNat]

def k1_chk87 (k1_t1 : Fin k1_t1_loop.trips) (v5220 : BitVec 32) : Prop :=
  (∀ (k1_h3 : k1_cond3 k1_t1 = 1#1), ∀ (r : Fin 4), ∀ a, (k1_off297 v5220 (BitVec.ofNat 32 (16 * r.val))) a + S1x16.size a ≤ S128x128.size a)
instance k1_chk87.dec : ∀ (k1_t1 : Fin k1_t1_loop.trips) (v5220 : BitVec 32), Decidable (k1_chk87 k1_t1 v5220) := fun k1_t1 v5220 => decidable_of_iff' _ (Iff.of_eq (k1_chk87.eq_1 k1_t1 v5220))
theorem k1_off297_inb : ∀ (k1_t1 : Fin k1_t1_loop.trips) (v5220 : BitVec 32) (k1_hw87 : k1_chk87 k1_t1 v5220), ∀ (k1_h3 : k1_cond3 k1_t1 = 1#1), ∀ (r : Fin 4), ∀ a, (k1_off297 v5220 (BitVec.ofNat 32 (16 * r.val))) a + S1x16.size a ≤ S128x128.size a := fun k1_t1 v5220 k1_hw87 k1_h3 r => k1_hw87 k1_h3 r

def k1_off298 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2945 : BitVec 32 := 0#32
  let c0_i32_2946 : BitVec 32 := 0#32
  ![v406.toNat, 0, 0]
def k1_off299 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2950 : BitVec 32 := 0#32
  let c0_i32_2951 : BitVec 32 := 0#32
  ![v396.toNat, 0, 0]
def k1_off300 (v5274 : BitVec 32) (c0_i32_2972 : BitVec 32) : Fin 2 → Nat :=
  let c87_i32 : BitVec 32 := 87#32
  let v5278 : Index := Scalar.indexCast c87_i32
  let v5275 : BitVec 32 := Scalar.addi v5274 c0_i32_2972
  let v5279 : Index := Scalar.indexCast v5275
  ![87, v5279.toNat]

def k1_chk88 (k1_t1 : Fin k1_t1_loop.trips) (v5274 : BitVec 32) : Prop :=
  (∀ (k1_h3 : k1_cond3 k1_t1 = 1#1), ∀ (r : Fin 4), ∀ a, (k1_off300 v5274 (BitVec.ofNat 32 (16 * r.val))) a + S1x16.size a ≤ S128x128.size a)
instance k1_chk88.dec : ∀ (k1_t1 : Fin k1_t1_loop.trips) (v5274 : BitVec 32), Decidable (k1_chk88 k1_t1 v5274) := fun k1_t1 v5274 => decidable_of_iff' _ (Iff.of_eq (k1_chk88.eq_1 k1_t1 v5274))
theorem k1_off300_inb : ∀ (k1_t1 : Fin k1_t1_loop.trips) (v5274 : BitVec 32) (k1_hw88 : k1_chk88 k1_t1 v5274), ∀ (k1_h3 : k1_cond3 k1_t1 = 1#1), ∀ (r : Fin 4), ∀ a, (k1_off300 v5274 (BitVec.ofNat 32 (16 * r.val))) a + S1x16.size a ≤ S128x128.size a := fun k1_t1 v5274 k1_hw88 k1_h3 r => k1_hw88 k1_h3 r

def k1_off301 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_2976 : BitVec 32 := 0#32
  let c0_i32_2977 : BitVec 32 := 0#32
  ![v406.toNat, 0, 0]
def k1_off302 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_2981 : BitVec 32 := 0#32
  let c0_i32_2982 : BitVec 32 := 0#32
  ![v396.toNat, 0, 0]
def k1_off303 (v5328 : BitVec 32) (c0_i32_3003 : BitVec 32) : Fin 2 → Nat :=
  let c88_i32 : BitVec 32 := 88#32
  let v5332 : Index := Scalar.indexCast c88_i32
  let v5329 : BitVec 32 := Scalar.addi v5328 c0_i32_3003
  let v5333 : Index := Scalar.indexCast v5329
  ![88, v5333.toNat]

def k1_chk89 (k1_t1 : Fin k1_t1_loop.trips) (v5328 : BitVec 32) : Prop :=
  (∀ (k1_h3 : k1_cond3 k1_t1 = 1#1), ∀ (r : Fin 4), ∀ a, (k1_off303 v5328 (BitVec.ofNat 32 (16 * r.val))) a + S1x16.size a ≤ S128x128.size a)
instance k1_chk89.dec : ∀ (k1_t1 : Fin k1_t1_loop.trips) (v5328 : BitVec 32), Decidable (k1_chk89 k1_t1 v5328) := fun k1_t1 v5328 => decidable_of_iff' _ (Iff.of_eq (k1_chk89.eq_1 k1_t1 v5328))
theorem k1_off303_inb : ∀ (k1_t1 : Fin k1_t1_loop.trips) (v5328 : BitVec 32) (k1_hw89 : k1_chk89 k1_t1 v5328), ∀ (k1_h3 : k1_cond3 k1_t1 = 1#1), ∀ (r : Fin 4), ∀ a, (k1_off303 v5328 (BitVec.ofNat 32 (16 * r.val))) a + S1x16.size a ≤ S128x128.size a := fun k1_t1 v5328 k1_hw89 k1_h3 r => k1_hw89 k1_h3 r

def k1_off304 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3007 : BitVec 32 := 0#32
  let c0_i32_3008 : BitVec 32 := 0#32
  ![v406.toNat, 0, 0]
def k1_off305 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3012 : BitVec 32 := 0#32
  let c0_i32_3013 : BitVec 32 := 0#32
  ![v396.toNat, 0, 0]
def k1_off306 (v5382 : BitVec 32) (c0_i32_3034 : BitVec 32) : Fin 2 → Nat :=
  let c89_i32 : BitVec 32 := 89#32
  let v5386 : Index := Scalar.indexCast c89_i32
  let v5383 : BitVec 32 := Scalar.addi v5382 c0_i32_3034
  let v5387 : Index := Scalar.indexCast v5383
  ![89, v5387.toNat]

def k1_chk90 (k1_t1 : Fin k1_t1_loop.trips) (v5382 : BitVec 32) : Prop :=
  (∀ (k1_h3 : k1_cond3 k1_t1 = 1#1), ∀ (r : Fin 4), ∀ a, (k1_off306 v5382 (BitVec.ofNat 32 (16 * r.val))) a + S1x16.size a ≤ S128x128.size a)
instance k1_chk90.dec : ∀ (k1_t1 : Fin k1_t1_loop.trips) (v5382 : BitVec 32), Decidable (k1_chk90 k1_t1 v5382) := fun k1_t1 v5382 => decidable_of_iff' _ (Iff.of_eq (k1_chk90.eq_1 k1_t1 v5382))
theorem k1_off306_inb : ∀ (k1_t1 : Fin k1_t1_loop.trips) (v5382 : BitVec 32) (k1_hw90 : k1_chk90 k1_t1 v5382), ∀ (k1_h3 : k1_cond3 k1_t1 = 1#1), ∀ (r : Fin 4), ∀ a, (k1_off306 v5382 (BitVec.ofNat 32 (16 * r.val))) a + S1x16.size a ≤ S128x128.size a := fun k1_t1 v5382 k1_hw90 k1_h3 r => k1_hw90 k1_h3 r

def k1_off307 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3038 : BitVec 32 := 0#32
  let c0_i32_3039 : BitVec 32 := 0#32
  ![v406.toNat, 0, 0]
def k1_off308 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3043 : BitVec 32 := 0#32
  let c0_i32_3044 : BitVec 32 := 0#32
  ![v396.toNat, 0, 0]
def k1_off309 (v5436 : BitVec 32) (c0_i32_3065 : BitVec 32) : Fin 2 → Nat :=
  let c90_i32 : BitVec 32 := 90#32
  let v5440 : Index := Scalar.indexCast c90_i32
  let v5437 : BitVec 32 := Scalar.addi v5436 c0_i32_3065
  let v5441 : Index := Scalar.indexCast v5437
  ![90, v5441.toNat]

def k1_chk91 (k1_t1 : Fin k1_t1_loop.trips) (v5436 : BitVec 32) : Prop :=
  (∀ (k1_h3 : k1_cond3 k1_t1 = 1#1), ∀ (r : Fin 4), ∀ a, (k1_off309 v5436 (BitVec.ofNat 32 (16 * r.val))) a + S1x16.size a ≤ S128x128.size a)
instance k1_chk91.dec : ∀ (k1_t1 : Fin k1_t1_loop.trips) (v5436 : BitVec 32), Decidable (k1_chk91 k1_t1 v5436) := fun k1_t1 v5436 => decidable_of_iff' _ (Iff.of_eq (k1_chk91.eq_1 k1_t1 v5436))
theorem k1_off309_inb : ∀ (k1_t1 : Fin k1_t1_loop.trips) (v5436 : BitVec 32) (k1_hw91 : k1_chk91 k1_t1 v5436), ∀ (k1_h3 : k1_cond3 k1_t1 = 1#1), ∀ (r : Fin 4), ∀ a, (k1_off309 v5436 (BitVec.ofNat 32 (16 * r.val))) a + S1x16.size a ≤ S128x128.size a := fun k1_t1 v5436 k1_hw91 k1_h3 r => k1_hw91 k1_h3 r

def k1_off310 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3069 : BitVec 32 := 0#32
  let c0_i32_3070 : BitVec 32 := 0#32
  ![v406.toNat, 0, 0]
def k1_off311 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3074 : BitVec 32 := 0#32
  let c0_i32_3075 : BitVec 32 := 0#32
  ![v396.toNat, 0, 0]
def k1_off312 (v5490 : BitVec 32) (c0_i32_3096 : BitVec 32) : Fin 2 → Nat :=
  let c91_i32 : BitVec 32 := 91#32
  let v5494 : Index := Scalar.indexCast c91_i32
  let v5491 : BitVec 32 := Scalar.addi v5490 c0_i32_3096
  let v5495 : Index := Scalar.indexCast v5491
  ![91, v5495.toNat]

def k1_chk92 (k1_t1 : Fin k1_t1_loop.trips) (v5490 : BitVec 32) : Prop :=
  (∀ (k1_h3 : k1_cond3 k1_t1 = 1#1), ∀ (r : Fin 4), ∀ a, (k1_off312 v5490 (BitVec.ofNat 32 (16 * r.val))) a + S1x16.size a ≤ S128x128.size a)
instance k1_chk92.dec : ∀ (k1_t1 : Fin k1_t1_loop.trips) (v5490 : BitVec 32), Decidable (k1_chk92 k1_t1 v5490) := fun k1_t1 v5490 => decidable_of_iff' _ (Iff.of_eq (k1_chk92.eq_1 k1_t1 v5490))
theorem k1_off312_inb : ∀ (k1_t1 : Fin k1_t1_loop.trips) (v5490 : BitVec 32) (k1_hw92 : k1_chk92 k1_t1 v5490), ∀ (k1_h3 : k1_cond3 k1_t1 = 1#1), ∀ (r : Fin 4), ∀ a, (k1_off312 v5490 (BitVec.ofNat 32 (16 * r.val))) a + S1x16.size a ≤ S128x128.size a := fun k1_t1 v5490 k1_hw92 k1_h3 r => k1_hw92 k1_h3 r

def k1_off313 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3100 : BitVec 32 := 0#32
  let c0_i32_3101 : BitVec 32 := 0#32
  ![v406.toNat, 0, 0]
def k1_off314 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3105 : BitVec 32 := 0#32
  let c0_i32_3106 : BitVec 32 := 0#32
  ![v396.toNat, 0, 0]
def k1_off315 (v5544 : BitVec 32) (c0_i32_3127 : BitVec 32) : Fin 2 → Nat :=
  let c92_i32 : BitVec 32 := 92#32
  let v5548 : Index := Scalar.indexCast c92_i32
  let v5545 : BitVec 32 := Scalar.addi v5544 c0_i32_3127
  let v5549 : Index := Scalar.indexCast v5545
  ![92, v5549.toNat]

def k1_chk93 (k1_t1 : Fin k1_t1_loop.trips) (v5544 : BitVec 32) : Prop :=
  (∀ (k1_h3 : k1_cond3 k1_t1 = 1#1), ∀ (r : Fin 4), ∀ a, (k1_off315 v5544 (BitVec.ofNat 32 (16 * r.val))) a + S1x16.size a ≤ S128x128.size a)
instance k1_chk93.dec : ∀ (k1_t1 : Fin k1_t1_loop.trips) (v5544 : BitVec 32), Decidable (k1_chk93 k1_t1 v5544) := fun k1_t1 v5544 => decidable_of_iff' _ (Iff.of_eq (k1_chk93.eq_1 k1_t1 v5544))
theorem k1_off315_inb : ∀ (k1_t1 : Fin k1_t1_loop.trips) (v5544 : BitVec 32) (k1_hw93 : k1_chk93 k1_t1 v5544), ∀ (k1_h3 : k1_cond3 k1_t1 = 1#1), ∀ (r : Fin 4), ∀ a, (k1_off315 v5544 (BitVec.ofNat 32 (16 * r.val))) a + S1x16.size a ≤ S128x128.size a := fun k1_t1 v5544 k1_hw93 k1_h3 r => k1_hw93 k1_h3 r

def k1_off316 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3131 : BitVec 32 := 0#32
  let c0_i32_3132 : BitVec 32 := 0#32
  ![v406.toNat, 0, 0]
def k1_off317 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3136 : BitVec 32 := 0#32
  let c0_i32_3137 : BitVec 32 := 0#32
  ![v396.toNat, 0, 0]
def k1_off318 (v5598 : BitVec 32) (c0_i32_3158 : BitVec 32) : Fin 2 → Nat :=
  let c93_i32 : BitVec 32 := 93#32
  let v5602 : Index := Scalar.indexCast c93_i32
  let v5599 : BitVec 32 := Scalar.addi v5598 c0_i32_3158
  let v5603 : Index := Scalar.indexCast v5599
  ![93, v5603.toNat]

def k1_chk94 (k1_t1 : Fin k1_t1_loop.trips) (v5598 : BitVec 32) : Prop :=
  (∀ (k1_h3 : k1_cond3 k1_t1 = 1#1), ∀ (r : Fin 4), ∀ a, (k1_off318 v5598 (BitVec.ofNat 32 (16 * r.val))) a + S1x16.size a ≤ S128x128.size a)
instance k1_chk94.dec : ∀ (k1_t1 : Fin k1_t1_loop.trips) (v5598 : BitVec 32), Decidable (k1_chk94 k1_t1 v5598) := fun k1_t1 v5598 => decidable_of_iff' _ (Iff.of_eq (k1_chk94.eq_1 k1_t1 v5598))
theorem k1_off318_inb : ∀ (k1_t1 : Fin k1_t1_loop.trips) (v5598 : BitVec 32) (k1_hw94 : k1_chk94 k1_t1 v5598), ∀ (k1_h3 : k1_cond3 k1_t1 = 1#1), ∀ (r : Fin 4), ∀ a, (k1_off318 v5598 (BitVec.ofNat 32 (16 * r.val))) a + S1x16.size a ≤ S128x128.size a := fun k1_t1 v5598 k1_hw94 k1_h3 r => k1_hw94 k1_h3 r

def k1_off319 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3162 : BitVec 32 := 0#32
  let c0_i32_3163 : BitVec 32 := 0#32
  ![v406.toNat, 0, 0]
def k1_off320 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3167 : BitVec 32 := 0#32
  let c0_i32_3168 : BitVec 32 := 0#32
  ![v396.toNat, 0, 0]
def k1_off321 (v5652 : BitVec 32) (c0_i32_3189 : BitVec 32) : Fin 2 → Nat :=
  let c94_i32 : BitVec 32 := 94#32
  let v5656 : Index := Scalar.indexCast c94_i32
  let v5653 : BitVec 32 := Scalar.addi v5652 c0_i32_3189
  let v5657 : Index := Scalar.indexCast v5653
  ![94, v5657.toNat]

def k1_chk95 (k1_t1 : Fin k1_t1_loop.trips) (v5652 : BitVec 32) : Prop :=
  (∀ (k1_h3 : k1_cond3 k1_t1 = 1#1), ∀ (r : Fin 4), ∀ a, (k1_off321 v5652 (BitVec.ofNat 32 (16 * r.val))) a + S1x16.size a ≤ S128x128.size a)
instance k1_chk95.dec : ∀ (k1_t1 : Fin k1_t1_loop.trips) (v5652 : BitVec 32), Decidable (k1_chk95 k1_t1 v5652) := fun k1_t1 v5652 => decidable_of_iff' _ (Iff.of_eq (k1_chk95.eq_1 k1_t1 v5652))
theorem k1_off321_inb : ∀ (k1_t1 : Fin k1_t1_loop.trips) (v5652 : BitVec 32) (k1_hw95 : k1_chk95 k1_t1 v5652), ∀ (k1_h3 : k1_cond3 k1_t1 = 1#1), ∀ (r : Fin 4), ∀ a, (k1_off321 v5652 (BitVec.ofNat 32 (16 * r.val))) a + S1x16.size a ≤ S128x128.size a := fun k1_t1 v5652 k1_hw95 k1_h3 r => k1_hw95 k1_h3 r

def k1_off322 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3193 : BitVec 32 := 0#32
  let c0_i32_3194 : BitVec 32 := 0#32
  ![v406.toNat, 0, 0]
def k1_off323 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3198 : BitVec 32 := 0#32
  let c0_i32_3199 : BitVec 32 := 0#32
  ![v396.toNat, 0, 0]
def k1_off324 (v5706 : BitVec 32) (c0_i32_3220 : BitVec 32) : Fin 2 → Nat :=
  let c95_i32 : BitVec 32 := 95#32
  let v5710 : Index := Scalar.indexCast c95_i32
  let v5707 : BitVec 32 := Scalar.addi v5706 c0_i32_3220
  let v5711 : Index := Scalar.indexCast v5707
  ![95, v5711.toNat]

def k1_chk96 (k1_t1 : Fin k1_t1_loop.trips) (v5706 : BitVec 32) : Prop :=
  (∀ (k1_h3 : k1_cond3 k1_t1 = 1#1), ∀ (r : Fin 4), ∀ a, (k1_off324 v5706 (BitVec.ofNat 32 (16 * r.val))) a + S1x16.size a ≤ S128x128.size a)
instance k1_chk96.dec : ∀ (k1_t1 : Fin k1_t1_loop.trips) (v5706 : BitVec 32), Decidable (k1_chk96 k1_t1 v5706) := fun k1_t1 v5706 => decidable_of_iff' _ (Iff.of_eq (k1_chk96.eq_1 k1_t1 v5706))
theorem k1_off324_inb : ∀ (k1_t1 : Fin k1_t1_loop.trips) (v5706 : BitVec 32) (k1_hw96 : k1_chk96 k1_t1 v5706), ∀ (k1_h3 : k1_cond3 k1_t1 = 1#1), ∀ (r : Fin 4), ∀ a, (k1_off324 v5706 (BitVec.ofNat 32 (16 * r.val))) a + S1x16.size a ≤ S128x128.size a := fun k1_t1 v5706 k1_hw96 k1_h3 r => k1_hw96 k1_h3 r

def k1_off325 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3224 : BitVec 32 := 0#32
  let c0_i32_3225 : BitVec 32 := 0#32
  ![v406.toNat, 0, 0]
def k1_off326 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3229 : BitVec 32 := 0#32
  let c0_i32_3230 : BitVec 32 := 0#32
  ![v396.toNat, 0, 0]
def k1_off327 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c10_i32_3251 : BitVec 32 := 10#32
  let c0_i32_3252 : BitVec 32 := 0#32
  let v5759 : BitVec 1 := Scalar.cmpi .eq c10_i32_3251 c0_i32_3252
  let c1_i32_3253 : BitVec 32 := 1#32
  let v5760 : BitVec 32 := Scalar.select v5759 c1_i32_3253 c10_i32_3251
  let v5761 : BitVec 32 := Scalar.remsi v346 v5760
  let c0_i32_3255 : BitVec 32 := 0#32
  let v5763 : BitVec 1 := Scalar.cmpi .slt v5761 c0_i32_3255
  let c0_i32_3256 : BitVec 32 := 0#32
  let v5764 : BitVec 1 := Scalar.cmpi .slt v5760 c0_i32_3256
  let v5765 : BitVec 1 := Scalar.xori v5763 v5764
  let c0_i32_3254 : BitVec 32 := 0#32
  let v5762 : BitVec 1 := Scalar.cmpi .ne v5761 c0_i32_3254
  let v5766 : BitVec 1 := Scalar.andi v5765 v5762
  let v5767 : BitVec 32 := Scalar.addi v5761 v5760
  let v5768 : BitVec 32 := Scalar.select v5766 v5767 v5761
  let v5769 : Index := Scalar.indexCast v5768
  let c96 : Index := 96#32
  ![v5769.toNat, 96]
def k1_off328 (v5788 : BitVec 32) (c0_i32_3264 : BitVec 32) : Fin 2 → Nat :=
  let c96_i32 : BitVec 32 := 96#32
  let v5792 : Index := Scalar.indexCast c96_i32
  let v5789 : BitVec 32 := Scalar.addi v5788 c0_i32_3264
  let v5793 : Index := Scalar.indexCast v5789
  ![96, v5793.toNat]

def k1_chk97 (k1_t1 : Fin k1_t1_loop.trips) (v5788 : BitVec 32) : Prop :=
  (∀ (k1_h3 : k1_cond3 k1_t1 = 1#1), ∀ (r : Fin 4), ∀ a, (k1_off328 v5788 (BitVec.ofNat 32 (16 * r.val))) a + S1x16.size a ≤ S128x128.size a)
instance k1_chk97.dec : ∀ (k1_t1 : Fin k1_t1_loop.trips) (v5788 : BitVec 32), Decidable (k1_chk97 k1_t1 v5788) := fun k1_t1 v5788 => decidable_of_iff' _ (Iff.of_eq (k1_chk97.eq_1 k1_t1 v5788))
theorem k1_off328_inb : ∀ (k1_t1 : Fin k1_t1_loop.trips) (v5788 : BitVec 32) (k1_hw97 : k1_chk97 k1_t1 v5788), ∀ (k1_h3 : k1_cond3 k1_t1 = 1#1), ∀ (r : Fin 4), ∀ a, (k1_off328 v5788 (BitVec.ofNat 32 (16 * r.val))) a + S1x16.size a ≤ S128x128.size a := fun k1_t1 v5788 k1_hw97 k1_h3 r => k1_hw97 k1_h3 r

def k1_off329 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3268 : BitVec 32 := 0#32
  let c0_i32_3269 : BitVec 32 := 0#32
  ![v406.toNat, 0, 0]
def k1_off330 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3273 : BitVec 32 := 0#32
  let c0_i32_3274 : BitVec 32 := 0#32
  ![v396.toNat, 0, 0]
def k1_off331 (v5842 : BitVec 32) (c0_i32_3295 : BitVec 32) : Fin 2 → Nat :=
  let c97_i32 : BitVec 32 := 97#32
  let v5846 : Index := Scalar.indexCast c97_i32
  let v5843 : BitVec 32 := Scalar.addi v5842 c0_i32_3295
  let v5847 : Index := Scalar.indexCast v5843
  ![97, v5847.toNat]

def k1_chk98 (k1_t1 : Fin k1_t1_loop.trips) (v5842 : BitVec 32) : Prop :=
  (∀ (k1_h3 : k1_cond3 k1_t1 = 1#1), ∀ (r : Fin 4), ∀ a, (k1_off331 v5842 (BitVec.ofNat 32 (16 * r.val))) a + S1x16.size a ≤ S128x128.size a)
instance k1_chk98.dec : ∀ (k1_t1 : Fin k1_t1_loop.trips) (v5842 : BitVec 32), Decidable (k1_chk98 k1_t1 v5842) := fun k1_t1 v5842 => decidable_of_iff' _ (Iff.of_eq (k1_chk98.eq_1 k1_t1 v5842))
theorem k1_off331_inb : ∀ (k1_t1 : Fin k1_t1_loop.trips) (v5842 : BitVec 32) (k1_hw98 : k1_chk98 k1_t1 v5842), ∀ (k1_h3 : k1_cond3 k1_t1 = 1#1), ∀ (r : Fin 4), ∀ a, (k1_off331 v5842 (BitVec.ofNat 32 (16 * r.val))) a + S1x16.size a ≤ S128x128.size a := fun k1_t1 v5842 k1_hw98 k1_h3 r => k1_hw98 k1_h3 r

def k1_off332 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3299 : BitVec 32 := 0#32
  let c0_i32_3300 : BitVec 32 := 0#32
  ![v406.toNat, 0, 0]
def k1_off333 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3304 : BitVec 32 := 0#32
  let c0_i32_3305 : BitVec 32 := 0#32
  ![v396.toNat, 0, 0]
def k1_off334 (v5896 : BitVec 32) (c0_i32_3326 : BitVec 32) : Fin 2 → Nat :=
  let c98_i32 : BitVec 32 := 98#32
  let v5900 : Index := Scalar.indexCast c98_i32
  let v5897 : BitVec 32 := Scalar.addi v5896 c0_i32_3326
  let v5901 : Index := Scalar.indexCast v5897
  ![98, v5901.toNat]

def k1_chk99 (k1_t1 : Fin k1_t1_loop.trips) (v5896 : BitVec 32) : Prop :=
  (∀ (k1_h3 : k1_cond3 k1_t1 = 1#1), ∀ (r : Fin 4), ∀ a, (k1_off334 v5896 (BitVec.ofNat 32 (16 * r.val))) a + S1x16.size a ≤ S128x128.size a)
instance k1_chk99.dec : ∀ (k1_t1 : Fin k1_t1_loop.trips) (v5896 : BitVec 32), Decidable (k1_chk99 k1_t1 v5896) := fun k1_t1 v5896 => decidable_of_iff' _ (Iff.of_eq (k1_chk99.eq_1 k1_t1 v5896))
theorem k1_off334_inb : ∀ (k1_t1 : Fin k1_t1_loop.trips) (v5896 : BitVec 32) (k1_hw99 : k1_chk99 k1_t1 v5896), ∀ (k1_h3 : k1_cond3 k1_t1 = 1#1), ∀ (r : Fin 4), ∀ a, (k1_off334 v5896 (BitVec.ofNat 32 (16 * r.val))) a + S1x16.size a ≤ S128x128.size a := fun k1_t1 v5896 k1_hw99 k1_h3 r => k1_hw99 k1_h3 r

def k1_off335 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3330 : BitVec 32 := 0#32
  let c0_i32_3331 : BitVec 32 := 0#32
  ![v406.toNat, 0, 0]
def k1_off336 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3335 : BitVec 32 := 0#32
  let c0_i32_3336 : BitVec 32 := 0#32
  ![v396.toNat, 0, 0]
def k1_off337 (v5950 : BitVec 32) (c0_i32_3357 : BitVec 32) : Fin 2 → Nat :=
  let c99_i32 : BitVec 32 := 99#32
  let v5954 : Index := Scalar.indexCast c99_i32
  let v5951 : BitVec 32 := Scalar.addi v5950 c0_i32_3357
  let v5955 : Index := Scalar.indexCast v5951
  ![99, v5955.toNat]

def k1_chk100 (k1_t1 : Fin k1_t1_loop.trips) (v5950 : BitVec 32) : Prop :=
  (∀ (k1_h3 : k1_cond3 k1_t1 = 1#1), ∀ (r : Fin 4), ∀ a, (k1_off337 v5950 (BitVec.ofNat 32 (16 * r.val))) a + S1x16.size a ≤ S128x128.size a)
instance k1_chk100.dec : ∀ (k1_t1 : Fin k1_t1_loop.trips) (v5950 : BitVec 32), Decidable (k1_chk100 k1_t1 v5950) := fun k1_t1 v5950 => decidable_of_iff' _ (Iff.of_eq (k1_chk100.eq_1 k1_t1 v5950))
theorem k1_off337_inb : ∀ (k1_t1 : Fin k1_t1_loop.trips) (v5950 : BitVec 32) (k1_hw100 : k1_chk100 k1_t1 v5950), ∀ (k1_h3 : k1_cond3 k1_t1 = 1#1), ∀ (r : Fin 4), ∀ a, (k1_off337 v5950 (BitVec.ofNat 32 (16 * r.val))) a + S1x16.size a ≤ S128x128.size a := fun k1_t1 v5950 k1_hw100 k1_h3 r => k1_hw100 k1_h3 r

def k1_off338 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3361 : BitVec 32 := 0#32
  let c0_i32_3362 : BitVec 32 := 0#32
  ![v406.toNat, 0, 0]
def k1_off339 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3366 : BitVec 32 := 0#32
  let c0_i32_3367 : BitVec 32 := 0#32
  ![v396.toNat, 0, 0]
def k1_off340 (v6004 : BitVec 32) (c0_i32_3388 : BitVec 32) : Fin 2 → Nat :=
  let c100_i32 : BitVec 32 := 100#32
  let v6008 : Index := Scalar.indexCast c100_i32
  let v6005 : BitVec 32 := Scalar.addi v6004 c0_i32_3388
  let v6009 : Index := Scalar.indexCast v6005
  ![100, v6009.toNat]

def k1_chk101 (k1_t1 : Fin k1_t1_loop.trips) (v6004 : BitVec 32) : Prop :=
  (∀ (k1_h3 : k1_cond3 k1_t1 = 1#1), ∀ (r : Fin 4), ∀ a, (k1_off340 v6004 (BitVec.ofNat 32 (16 * r.val))) a + S1x16.size a ≤ S128x128.size a)
instance k1_chk101.dec : ∀ (k1_t1 : Fin k1_t1_loop.trips) (v6004 : BitVec 32), Decidable (k1_chk101 k1_t1 v6004) := fun k1_t1 v6004 => decidable_of_iff' _ (Iff.of_eq (k1_chk101.eq_1 k1_t1 v6004))
theorem k1_off340_inb : ∀ (k1_t1 : Fin k1_t1_loop.trips) (v6004 : BitVec 32) (k1_hw101 : k1_chk101 k1_t1 v6004), ∀ (k1_h3 : k1_cond3 k1_t1 = 1#1), ∀ (r : Fin 4), ∀ a, (k1_off340 v6004 (BitVec.ofNat 32 (16 * r.val))) a + S1x16.size a ≤ S128x128.size a := fun k1_t1 v6004 k1_hw101 k1_h3 r => k1_hw101 k1_h3 r

def k1_off341 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3392 : BitVec 32 := 0#32
  let c0_i32_3393 : BitVec 32 := 0#32
  ![v406.toNat, 0, 0]
def k1_off342 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3397 : BitVec 32 := 0#32
  let c0_i32_3398 : BitVec 32 := 0#32
  ![v396.toNat, 0, 0]
def k1_off343 (v6058 : BitVec 32) (c0_i32_3419 : BitVec 32) : Fin 2 → Nat :=
  let c101_i32 : BitVec 32 := 101#32
  let v6062 : Index := Scalar.indexCast c101_i32
  let v6059 : BitVec 32 := Scalar.addi v6058 c0_i32_3419
  let v6063 : Index := Scalar.indexCast v6059
  ![101, v6063.toNat]

def k1_chk102 (k1_t1 : Fin k1_t1_loop.trips) (v6058 : BitVec 32) : Prop :=
  (∀ (k1_h3 : k1_cond3 k1_t1 = 1#1), ∀ (r : Fin 4), ∀ a, (k1_off343 v6058 (BitVec.ofNat 32 (16 * r.val))) a + S1x16.size a ≤ S128x128.size a)
instance k1_chk102.dec : ∀ (k1_t1 : Fin k1_t1_loop.trips) (v6058 : BitVec 32), Decidable (k1_chk102 k1_t1 v6058) := fun k1_t1 v6058 => decidable_of_iff' _ (Iff.of_eq (k1_chk102.eq_1 k1_t1 v6058))
theorem k1_off343_inb : ∀ (k1_t1 : Fin k1_t1_loop.trips) (v6058 : BitVec 32) (k1_hw102 : k1_chk102 k1_t1 v6058), ∀ (k1_h3 : k1_cond3 k1_t1 = 1#1), ∀ (r : Fin 4), ∀ a, (k1_off343 v6058 (BitVec.ofNat 32 (16 * r.val))) a + S1x16.size a ≤ S128x128.size a := fun k1_t1 v6058 k1_hw102 k1_h3 r => k1_hw102 k1_h3 r

def k1_off344 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3423 : BitVec 32 := 0#32
  let c0_i32_3424 : BitVec 32 := 0#32
  ![v406.toNat, 0, 0]
def k1_off345 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3428 : BitVec 32 := 0#32
  let c0_i32_3429 : BitVec 32 := 0#32
  ![v396.toNat, 0, 0]
def k1_off346 (v6112 : BitVec 32) (c0_i32_3450 : BitVec 32) : Fin 2 → Nat :=
  let c102_i32 : BitVec 32 := 102#32
  let v6116 : Index := Scalar.indexCast c102_i32
  let v6113 : BitVec 32 := Scalar.addi v6112 c0_i32_3450
  let v6117 : Index := Scalar.indexCast v6113
  ![102, v6117.toNat]

def k1_chk103 (k1_t1 : Fin k1_t1_loop.trips) (v6112 : BitVec 32) : Prop :=
  (∀ (k1_h3 : k1_cond3 k1_t1 = 1#1), ∀ (r : Fin 4), ∀ a, (k1_off346 v6112 (BitVec.ofNat 32 (16 * r.val))) a + S1x16.size a ≤ S128x128.size a)
instance k1_chk103.dec : ∀ (k1_t1 : Fin k1_t1_loop.trips) (v6112 : BitVec 32), Decidable (k1_chk103 k1_t1 v6112) := fun k1_t1 v6112 => decidable_of_iff' _ (Iff.of_eq (k1_chk103.eq_1 k1_t1 v6112))
theorem k1_off346_inb : ∀ (k1_t1 : Fin k1_t1_loop.trips) (v6112 : BitVec 32) (k1_hw103 : k1_chk103 k1_t1 v6112), ∀ (k1_h3 : k1_cond3 k1_t1 = 1#1), ∀ (r : Fin 4), ∀ a, (k1_off346 v6112 (BitVec.ofNat 32 (16 * r.val))) a + S1x16.size a ≤ S128x128.size a := fun k1_t1 v6112 k1_hw103 k1_h3 r => k1_hw103 k1_h3 r

def k1_off347 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3454 : BitVec 32 := 0#32
  let c0_i32_3455 : BitVec 32 := 0#32
  ![v406.toNat, 0, 0]
def k1_off348 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3459 : BitVec 32 := 0#32
  let c0_i32_3460 : BitVec 32 := 0#32
  ![v396.toNat, 0, 0]
def k1_off349 (v6166 : BitVec 32) (c0_i32_3481 : BitVec 32) : Fin 2 → Nat :=
  let c103_i32 : BitVec 32 := 103#32
  let v6170 : Index := Scalar.indexCast c103_i32
  let v6167 : BitVec 32 := Scalar.addi v6166 c0_i32_3481
  let v6171 : Index := Scalar.indexCast v6167
  ![103, v6171.toNat]

def k1_chk104 (k1_t1 : Fin k1_t1_loop.trips) (v6166 : BitVec 32) : Prop :=
  (∀ (k1_h3 : k1_cond3 k1_t1 = 1#1), ∀ (r : Fin 4), ∀ a, (k1_off349 v6166 (BitVec.ofNat 32 (16 * r.val))) a + S1x16.size a ≤ S128x128.size a)
instance k1_chk104.dec : ∀ (k1_t1 : Fin k1_t1_loop.trips) (v6166 : BitVec 32), Decidable (k1_chk104 k1_t1 v6166) := fun k1_t1 v6166 => decidable_of_iff' _ (Iff.of_eq (k1_chk104.eq_1 k1_t1 v6166))
theorem k1_off349_inb : ∀ (k1_t1 : Fin k1_t1_loop.trips) (v6166 : BitVec 32) (k1_hw104 : k1_chk104 k1_t1 v6166), ∀ (k1_h3 : k1_cond3 k1_t1 = 1#1), ∀ (r : Fin 4), ∀ a, (k1_off349 v6166 (BitVec.ofNat 32 (16 * r.val))) a + S1x16.size a ≤ S128x128.size a := fun k1_t1 v6166 k1_hw104 k1_h3 r => k1_hw104 k1_h3 r

def k1_off350 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3485 : BitVec 32 := 0#32
  let c0_i32_3486 : BitVec 32 := 0#32
  ![v406.toNat, 0, 0]
def k1_off351 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3490 : BitVec 32 := 0#32
  let c0_i32_3491 : BitVec 32 := 0#32
  ![v396.toNat, 0, 0]
def k1_off352 (v6220 : BitVec 32) (c0_i32_3512 : BitVec 32) : Fin 2 → Nat :=
  let c104_i32 : BitVec 32 := 104#32
  let v6224 : Index := Scalar.indexCast c104_i32
  let v6221 : BitVec 32 := Scalar.addi v6220 c0_i32_3512
  let v6225 : Index := Scalar.indexCast v6221
  ![104, v6225.toNat]

def k1_chk105 (k1_t1 : Fin k1_t1_loop.trips) (v6220 : BitVec 32) : Prop :=
  (∀ (k1_h3 : k1_cond3 k1_t1 = 1#1), ∀ (r : Fin 4), ∀ a, (k1_off352 v6220 (BitVec.ofNat 32 (16 * r.val))) a + S1x16.size a ≤ S128x128.size a)
instance k1_chk105.dec : ∀ (k1_t1 : Fin k1_t1_loop.trips) (v6220 : BitVec 32), Decidable (k1_chk105 k1_t1 v6220) := fun k1_t1 v6220 => decidable_of_iff' _ (Iff.of_eq (k1_chk105.eq_1 k1_t1 v6220))
theorem k1_off352_inb : ∀ (k1_t1 : Fin k1_t1_loop.trips) (v6220 : BitVec 32) (k1_hw105 : k1_chk105 k1_t1 v6220), ∀ (k1_h3 : k1_cond3 k1_t1 = 1#1), ∀ (r : Fin 4), ∀ a, (k1_off352 v6220 (BitVec.ofNat 32 (16 * r.val))) a + S1x16.size a ≤ S128x128.size a := fun k1_t1 v6220 k1_hw105 k1_h3 r => k1_hw105 k1_h3 r

def k1_off353 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3516 : BitVec 32 := 0#32
  let c0_i32_3517 : BitVec 32 := 0#32
  ![v406.toNat, 0, 0]
def k1_off354 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3521 : BitVec 32 := 0#32
  let c0_i32_3522 : BitVec 32 := 0#32
  ![v396.toNat, 0, 0]
def k1_off355 (v6274 : BitVec 32) (c0_i32_3543 : BitVec 32) : Fin 2 → Nat :=
  let c105_i32 : BitVec 32 := 105#32
  let v6278 : Index := Scalar.indexCast c105_i32
  let v6275 : BitVec 32 := Scalar.addi v6274 c0_i32_3543
  let v6279 : Index := Scalar.indexCast v6275
  ![105, v6279.toNat]

def k1_chk106 (k1_t1 : Fin k1_t1_loop.trips) (v6274 : BitVec 32) : Prop :=
  (∀ (k1_h3 : k1_cond3 k1_t1 = 1#1), ∀ (r : Fin 4), ∀ a, (k1_off355 v6274 (BitVec.ofNat 32 (16 * r.val))) a + S1x16.size a ≤ S128x128.size a)
instance k1_chk106.dec : ∀ (k1_t1 : Fin k1_t1_loop.trips) (v6274 : BitVec 32), Decidable (k1_chk106 k1_t1 v6274) := fun k1_t1 v6274 => decidable_of_iff' _ (Iff.of_eq (k1_chk106.eq_1 k1_t1 v6274))
theorem k1_off355_inb : ∀ (k1_t1 : Fin k1_t1_loop.trips) (v6274 : BitVec 32) (k1_hw106 : k1_chk106 k1_t1 v6274), ∀ (k1_h3 : k1_cond3 k1_t1 = 1#1), ∀ (r : Fin 4), ∀ a, (k1_off355 v6274 (BitVec.ofNat 32 (16 * r.val))) a + S1x16.size a ≤ S128x128.size a := fun k1_t1 v6274 k1_hw106 k1_h3 r => k1_hw106 k1_h3 r

def k1_off356 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3547 : BitVec 32 := 0#32
  let c0_i32_3548 : BitVec 32 := 0#32
  ![v406.toNat, 0, 0]
def k1_off357 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3552 : BitVec 32 := 0#32
  let c0_i32_3553 : BitVec 32 := 0#32
  ![v396.toNat, 0, 0]
def k1_off358 (v6328 : BitVec 32) (c0_i32_3574 : BitVec 32) : Fin 2 → Nat :=
  let c106_i32 : BitVec 32 := 106#32
  let v6332 : Index := Scalar.indexCast c106_i32
  let v6329 : BitVec 32 := Scalar.addi v6328 c0_i32_3574
  let v6333 : Index := Scalar.indexCast v6329
  ![106, v6333.toNat]

def k1_chk107 (k1_t1 : Fin k1_t1_loop.trips) (v6328 : BitVec 32) : Prop :=
  (∀ (k1_h3 : k1_cond3 k1_t1 = 1#1), ∀ (r : Fin 4), ∀ a, (k1_off358 v6328 (BitVec.ofNat 32 (16 * r.val))) a + S1x16.size a ≤ S128x128.size a)
instance k1_chk107.dec : ∀ (k1_t1 : Fin k1_t1_loop.trips) (v6328 : BitVec 32), Decidable (k1_chk107 k1_t1 v6328) := fun k1_t1 v6328 => decidable_of_iff' _ (Iff.of_eq (k1_chk107.eq_1 k1_t1 v6328))
theorem k1_off358_inb : ∀ (k1_t1 : Fin k1_t1_loop.trips) (v6328 : BitVec 32) (k1_hw107 : k1_chk107 k1_t1 v6328), ∀ (k1_h3 : k1_cond3 k1_t1 = 1#1), ∀ (r : Fin 4), ∀ a, (k1_off358 v6328 (BitVec.ofNat 32 (16 * r.val))) a + S1x16.size a ≤ S128x128.size a := fun k1_t1 v6328 k1_hw107 k1_h3 r => k1_hw107 k1_h3 r

def k1_off359 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3578 : BitVec 32 := 0#32
  let c0_i32_3579 : BitVec 32 := 0#32
  ![v406.toNat, 0, 0]
def k1_off360 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3583 : BitVec 32 := 0#32
  let c0_i32_3584 : BitVec 32 := 0#32
  ![v396.toNat, 0, 0]
def k1_off361 (v6382 : BitVec 32) (c0_i32_3605 : BitVec 32) : Fin 2 → Nat :=
  let c107_i32 : BitVec 32 := 107#32
  let v6386 : Index := Scalar.indexCast c107_i32
  let v6383 : BitVec 32 := Scalar.addi v6382 c0_i32_3605
  let v6387 : Index := Scalar.indexCast v6383
  ![107, v6387.toNat]

def k1_chk108 (k1_t1 : Fin k1_t1_loop.trips) (v6382 : BitVec 32) : Prop :=
  (∀ (k1_h3 : k1_cond3 k1_t1 = 1#1), ∀ (r : Fin 4), ∀ a, (k1_off361 v6382 (BitVec.ofNat 32 (16 * r.val))) a + S1x16.size a ≤ S128x128.size a)
instance k1_chk108.dec : ∀ (k1_t1 : Fin k1_t1_loop.trips) (v6382 : BitVec 32), Decidable (k1_chk108 k1_t1 v6382) := fun k1_t1 v6382 => decidable_of_iff' _ (Iff.of_eq (k1_chk108.eq_1 k1_t1 v6382))
theorem k1_off361_inb : ∀ (k1_t1 : Fin k1_t1_loop.trips) (v6382 : BitVec 32) (k1_hw108 : k1_chk108 k1_t1 v6382), ∀ (k1_h3 : k1_cond3 k1_t1 = 1#1), ∀ (r : Fin 4), ∀ a, (k1_off361 v6382 (BitVec.ofNat 32 (16 * r.val))) a + S1x16.size a ≤ S128x128.size a := fun k1_t1 v6382 k1_hw108 k1_h3 r => k1_hw108 k1_h3 r

def k1_off362 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3609 : BitVec 32 := 0#32
  let c0_i32_3610 : BitVec 32 := 0#32
  ![v406.toNat, 0, 0]
def k1_off363 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3614 : BitVec 32 := 0#32
  let c0_i32_3615 : BitVec 32 := 0#32
  ![v396.toNat, 0, 0]
def k1_off364 (v6436 : BitVec 32) (c0_i32_3636 : BitVec 32) : Fin 2 → Nat :=
  let c108_i32 : BitVec 32 := 108#32
  let v6440 : Index := Scalar.indexCast c108_i32
  let v6437 : BitVec 32 := Scalar.addi v6436 c0_i32_3636
  let v6441 : Index := Scalar.indexCast v6437
  ![108, v6441.toNat]

def k1_chk109 (k1_t1 : Fin k1_t1_loop.trips) (v6436 : BitVec 32) : Prop :=
  (∀ (k1_h3 : k1_cond3 k1_t1 = 1#1), ∀ (r : Fin 4), ∀ a, (k1_off364 v6436 (BitVec.ofNat 32 (16 * r.val))) a + S1x16.size a ≤ S128x128.size a)
instance k1_chk109.dec : ∀ (k1_t1 : Fin k1_t1_loop.trips) (v6436 : BitVec 32), Decidable (k1_chk109 k1_t1 v6436) := fun k1_t1 v6436 => decidable_of_iff' _ (Iff.of_eq (k1_chk109.eq_1 k1_t1 v6436))
theorem k1_off364_inb : ∀ (k1_t1 : Fin k1_t1_loop.trips) (v6436 : BitVec 32) (k1_hw109 : k1_chk109 k1_t1 v6436), ∀ (k1_h3 : k1_cond3 k1_t1 = 1#1), ∀ (r : Fin 4), ∀ a, (k1_off364 v6436 (BitVec.ofNat 32 (16 * r.val))) a + S1x16.size a ≤ S128x128.size a := fun k1_t1 v6436 k1_hw109 k1_h3 r => k1_hw109 k1_h3 r

def k1_off365 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3640 : BitVec 32 := 0#32
  let c0_i32_3641 : BitVec 32 := 0#32
  ![v406.toNat, 0, 0]
def k1_off366 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3645 : BitVec 32 := 0#32
  let c0_i32_3646 : BitVec 32 := 0#32
  ![v396.toNat, 0, 0]
def k1_off367 (v6490 : BitVec 32) (c0_i32_3667 : BitVec 32) : Fin 2 → Nat :=
  let c109_i32 : BitVec 32 := 109#32
  let v6494 : Index := Scalar.indexCast c109_i32
  let v6491 : BitVec 32 := Scalar.addi v6490 c0_i32_3667
  let v6495 : Index := Scalar.indexCast v6491
  ![109, v6495.toNat]

def k1_chk110 (k1_t1 : Fin k1_t1_loop.trips) (v6490 : BitVec 32) : Prop :=
  (∀ (k1_h3 : k1_cond3 k1_t1 = 1#1), ∀ (r : Fin 4), ∀ a, (k1_off367 v6490 (BitVec.ofNat 32 (16 * r.val))) a + S1x16.size a ≤ S128x128.size a)
instance k1_chk110.dec : ∀ (k1_t1 : Fin k1_t1_loop.trips) (v6490 : BitVec 32), Decidable (k1_chk110 k1_t1 v6490) := fun k1_t1 v6490 => decidable_of_iff' _ (Iff.of_eq (k1_chk110.eq_1 k1_t1 v6490))
theorem k1_off367_inb : ∀ (k1_t1 : Fin k1_t1_loop.trips) (v6490 : BitVec 32) (k1_hw110 : k1_chk110 k1_t1 v6490), ∀ (k1_h3 : k1_cond3 k1_t1 = 1#1), ∀ (r : Fin 4), ∀ a, (k1_off367 v6490 (BitVec.ofNat 32 (16 * r.val))) a + S1x16.size a ≤ S128x128.size a := fun k1_t1 v6490 k1_hw110 k1_h3 r => k1_hw110 k1_h3 r

def k1_off368 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3671 : BitVec 32 := 0#32
  let c0_i32_3672 : BitVec 32 := 0#32
  ![v406.toNat, 0, 0]
def k1_off369 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3676 : BitVec 32 := 0#32
  let c0_i32_3677 : BitVec 32 := 0#32
  ![v396.toNat, 0, 0]
def k1_off370 (v6544 : BitVec 32) (c0_i32_3698 : BitVec 32) : Fin 2 → Nat :=
  let c110_i32 : BitVec 32 := 110#32
  let v6548 : Index := Scalar.indexCast c110_i32
  let v6545 : BitVec 32 := Scalar.addi v6544 c0_i32_3698
  let v6549 : Index := Scalar.indexCast v6545
  ![110, v6549.toNat]

def k1_chk111 (k1_t1 : Fin k1_t1_loop.trips) (v6544 : BitVec 32) : Prop :=
  (∀ (k1_h3 : k1_cond3 k1_t1 = 1#1), ∀ (r : Fin 4), ∀ a, (k1_off370 v6544 (BitVec.ofNat 32 (16 * r.val))) a + S1x16.size a ≤ S128x128.size a)
instance k1_chk111.dec : ∀ (k1_t1 : Fin k1_t1_loop.trips) (v6544 : BitVec 32), Decidable (k1_chk111 k1_t1 v6544) := fun k1_t1 v6544 => decidable_of_iff' _ (Iff.of_eq (k1_chk111.eq_1 k1_t1 v6544))
theorem k1_off370_inb : ∀ (k1_t1 : Fin k1_t1_loop.trips) (v6544 : BitVec 32) (k1_hw111 : k1_chk111 k1_t1 v6544), ∀ (k1_h3 : k1_cond3 k1_t1 = 1#1), ∀ (r : Fin 4), ∀ a, (k1_off370 v6544 (BitVec.ofNat 32 (16 * r.val))) a + S1x16.size a ≤ S128x128.size a := fun k1_t1 v6544 k1_hw111 k1_h3 r => k1_hw111 k1_h3 r

def k1_off371 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3702 : BitVec 32 := 0#32
  let c0_i32_3703 : BitVec 32 := 0#32
  ![v406.toNat, 0, 0]
def k1_off372 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3707 : BitVec 32 := 0#32
  let c0_i32_3708 : BitVec 32 := 0#32
  ![v396.toNat, 0, 0]
def k1_off373 (v6598 : BitVec 32) (c0_i32_3729 : BitVec 32) : Fin 2 → Nat :=
  let c111_i32 : BitVec 32 := 111#32
  let v6602 : Index := Scalar.indexCast c111_i32
  let v6599 : BitVec 32 := Scalar.addi v6598 c0_i32_3729
  let v6603 : Index := Scalar.indexCast v6599
  ![111, v6603.toNat]

def k1_chk112 (k1_t1 : Fin k1_t1_loop.trips) (v6598 : BitVec 32) : Prop :=
  (∀ (k1_h3 : k1_cond3 k1_t1 = 1#1), ∀ (r : Fin 4), ∀ a, (k1_off373 v6598 (BitVec.ofNat 32 (16 * r.val))) a + S1x16.size a ≤ S128x128.size a)
instance k1_chk112.dec : ∀ (k1_t1 : Fin k1_t1_loop.trips) (v6598 : BitVec 32), Decidable (k1_chk112 k1_t1 v6598) := fun k1_t1 v6598 => decidable_of_iff' _ (Iff.of_eq (k1_chk112.eq_1 k1_t1 v6598))
theorem k1_off373_inb : ∀ (k1_t1 : Fin k1_t1_loop.trips) (v6598 : BitVec 32) (k1_hw112 : k1_chk112 k1_t1 v6598), ∀ (k1_h3 : k1_cond3 k1_t1 = 1#1), ∀ (r : Fin 4), ∀ a, (k1_off373 v6598 (BitVec.ofNat 32 (16 * r.val))) a + S1x16.size a ≤ S128x128.size a := fun k1_t1 v6598 k1_hw112 k1_h3 r => k1_hw112 k1_h3 r

def k1_off374 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3733 : BitVec 32 := 0#32
  let c0_i32_3734 : BitVec 32 := 0#32
  ![v406.toNat, 0, 0]
def k1_off375 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3738 : BitVec 32 := 0#32
  let c0_i32_3739 : BitVec 32 := 0#32
  ![v396.toNat, 0, 0]
def k1_off376 (k1_t1 : Fin k1_t1_loop.trips) : Fin 2 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c10_i32_3760 : BitVec 32 := 10#32
  let c0_i32_3761 : BitVec 32 := 0#32
  let v6651 : BitVec 1 := Scalar.cmpi .eq c10_i32_3760 c0_i32_3761
  let c1_i32_3762 : BitVec 32 := 1#32
  let v6652 : BitVec 32 := Scalar.select v6651 c1_i32_3762 c10_i32_3760
  let v6653 : BitVec 32 := Scalar.remsi v346 v6652
  let c0_i32_3764 : BitVec 32 := 0#32
  let v6655 : BitVec 1 := Scalar.cmpi .slt v6653 c0_i32_3764
  let c0_i32_3765 : BitVec 32 := 0#32
  let v6656 : BitVec 1 := Scalar.cmpi .slt v6652 c0_i32_3765
  let v6657 : BitVec 1 := Scalar.xori v6655 v6656
  let c0_i32_3763 : BitVec 32 := 0#32
  let v6654 : BitVec 1 := Scalar.cmpi .ne v6653 c0_i32_3763
  let v6658 : BitVec 1 := Scalar.andi v6657 v6654
  let v6659 : BitVec 32 := Scalar.addi v6653 v6652
  let v6660 : BitVec 32 := Scalar.select v6658 v6659 v6653
  let v6661 : Index := Scalar.indexCast v6660
  let c112 : Index := 112#32
  ![v6661.toNat, 112]
def k1_off377 (v6680 : BitVec 32) (c0_i32_3773 : BitVec 32) : Fin 2 → Nat :=
  let c112_i32 : BitVec 32 := 112#32
  let v6684 : Index := Scalar.indexCast c112_i32
  let v6681 : BitVec 32 := Scalar.addi v6680 c0_i32_3773
  let v6685 : Index := Scalar.indexCast v6681
  ![112, v6685.toNat]

def k1_chk113 (k1_t1 : Fin k1_t1_loop.trips) (v6680 : BitVec 32) : Prop :=
  (∀ (k1_h3 : k1_cond3 k1_t1 = 1#1), ∀ (r : Fin 4), ∀ a, (k1_off377 v6680 (BitVec.ofNat 32 (16 * r.val))) a + S1x16.size a ≤ S128x128.size a)
instance k1_chk113.dec : ∀ (k1_t1 : Fin k1_t1_loop.trips) (v6680 : BitVec 32), Decidable (k1_chk113 k1_t1 v6680) := fun k1_t1 v6680 => decidable_of_iff' _ (Iff.of_eq (k1_chk113.eq_1 k1_t1 v6680))
theorem k1_off377_inb : ∀ (k1_t1 : Fin k1_t1_loop.trips) (v6680 : BitVec 32) (k1_hw113 : k1_chk113 k1_t1 v6680), ∀ (k1_h3 : k1_cond3 k1_t1 = 1#1), ∀ (r : Fin 4), ∀ a, (k1_off377 v6680 (BitVec.ofNat 32 (16 * r.val))) a + S1x16.size a ≤ S128x128.size a := fun k1_t1 v6680 k1_hw113 k1_h3 r => k1_hw113 k1_h3 r

def k1_off378 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3777 : BitVec 32 := 0#32
  let c0_i32_3778 : BitVec 32 := 0#32
  ![v406.toNat, 0, 0]
def k1_off379 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3782 : BitVec 32 := 0#32
  let c0_i32_3783 : BitVec 32 := 0#32
  ![v396.toNat, 0, 0]
def k1_off380 (v6734 : BitVec 32) (c0_i32_3804 : BitVec 32) : Fin 2 → Nat :=
  let c113_i32 : BitVec 32 := 113#32
  let v6738 : Index := Scalar.indexCast c113_i32
  let v6735 : BitVec 32 := Scalar.addi v6734 c0_i32_3804
  let v6739 : Index := Scalar.indexCast v6735
  ![113, v6739.toNat]

def k1_chk114 (k1_t1 : Fin k1_t1_loop.trips) (v6734 : BitVec 32) : Prop :=
  (∀ (k1_h3 : k1_cond3 k1_t1 = 1#1), ∀ (r : Fin 4), ∀ a, (k1_off380 v6734 (BitVec.ofNat 32 (16 * r.val))) a + S1x16.size a ≤ S128x128.size a)
instance k1_chk114.dec : ∀ (k1_t1 : Fin k1_t1_loop.trips) (v6734 : BitVec 32), Decidable (k1_chk114 k1_t1 v6734) := fun k1_t1 v6734 => decidable_of_iff' _ (Iff.of_eq (k1_chk114.eq_1 k1_t1 v6734))
theorem k1_off380_inb : ∀ (k1_t1 : Fin k1_t1_loop.trips) (v6734 : BitVec 32) (k1_hw114 : k1_chk114 k1_t1 v6734), ∀ (k1_h3 : k1_cond3 k1_t1 = 1#1), ∀ (r : Fin 4), ∀ a, (k1_off380 v6734 (BitVec.ofNat 32 (16 * r.val))) a + S1x16.size a ≤ S128x128.size a := fun k1_t1 v6734 k1_hw114 k1_h3 r => k1_hw114 k1_h3 r

def k1_off381 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3808 : BitVec 32 := 0#32
  let c0_i32_3809 : BitVec 32 := 0#32
  ![v406.toNat, 0, 0]
def k1_off382 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3813 : BitVec 32 := 0#32
  let c0_i32_3814 : BitVec 32 := 0#32
  ![v396.toNat, 0, 0]
def k1_off383 (v6788 : BitVec 32) (c0_i32_3835 : BitVec 32) : Fin 2 → Nat :=
  let c114_i32 : BitVec 32 := 114#32
  let v6792 : Index := Scalar.indexCast c114_i32
  let v6789 : BitVec 32 := Scalar.addi v6788 c0_i32_3835
  let v6793 : Index := Scalar.indexCast v6789
  ![114, v6793.toNat]

def k1_chk115 (k1_t1 : Fin k1_t1_loop.trips) (v6788 : BitVec 32) : Prop :=
  (∀ (k1_h3 : k1_cond3 k1_t1 = 1#1), ∀ (r : Fin 4), ∀ a, (k1_off383 v6788 (BitVec.ofNat 32 (16 * r.val))) a + S1x16.size a ≤ S128x128.size a)
instance k1_chk115.dec : ∀ (k1_t1 : Fin k1_t1_loop.trips) (v6788 : BitVec 32), Decidable (k1_chk115 k1_t1 v6788) := fun k1_t1 v6788 => decidable_of_iff' _ (Iff.of_eq (k1_chk115.eq_1 k1_t1 v6788))
theorem k1_off383_inb : ∀ (k1_t1 : Fin k1_t1_loop.trips) (v6788 : BitVec 32) (k1_hw115 : k1_chk115 k1_t1 v6788), ∀ (k1_h3 : k1_cond3 k1_t1 = 1#1), ∀ (r : Fin 4), ∀ a, (k1_off383 v6788 (BitVec.ofNat 32 (16 * r.val))) a + S1x16.size a ≤ S128x128.size a := fun k1_t1 v6788 k1_hw115 k1_h3 r => k1_hw115 k1_h3 r

def k1_off384 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3839 : BitVec 32 := 0#32
  let c0_i32_3840 : BitVec 32 := 0#32
  ![v406.toNat, 0, 0]
def k1_off385 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3844 : BitVec 32 := 0#32
  let c0_i32_3845 : BitVec 32 := 0#32
  ![v396.toNat, 0, 0]
def k1_off386 (v6842 : BitVec 32) (c0_i32_3866 : BitVec 32) : Fin 2 → Nat :=
  let c115_i32 : BitVec 32 := 115#32
  let v6846 : Index := Scalar.indexCast c115_i32
  let v6843 : BitVec 32 := Scalar.addi v6842 c0_i32_3866
  let v6847 : Index := Scalar.indexCast v6843
  ![115, v6847.toNat]

def k1_chk116 (k1_t1 : Fin k1_t1_loop.trips) (v6842 : BitVec 32) : Prop :=
  (∀ (k1_h3 : k1_cond3 k1_t1 = 1#1), ∀ (r : Fin 4), ∀ a, (k1_off386 v6842 (BitVec.ofNat 32 (16 * r.val))) a + S1x16.size a ≤ S128x128.size a)
instance k1_chk116.dec : ∀ (k1_t1 : Fin k1_t1_loop.trips) (v6842 : BitVec 32), Decidable (k1_chk116 k1_t1 v6842) := fun k1_t1 v6842 => decidable_of_iff' _ (Iff.of_eq (k1_chk116.eq_1 k1_t1 v6842))
theorem k1_off386_inb : ∀ (k1_t1 : Fin k1_t1_loop.trips) (v6842 : BitVec 32) (k1_hw116 : k1_chk116 k1_t1 v6842), ∀ (k1_h3 : k1_cond3 k1_t1 = 1#1), ∀ (r : Fin 4), ∀ a, (k1_off386 v6842 (BitVec.ofNat 32 (16 * r.val))) a + S1x16.size a ≤ S128x128.size a := fun k1_t1 v6842 k1_hw116 k1_h3 r => k1_hw116 k1_h3 r

def k1_off387 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3870 : BitVec 32 := 0#32
  let c0_i32_3871 : BitVec 32 := 0#32
  ![v406.toNat, 0, 0]
def k1_off388 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3875 : BitVec 32 := 0#32
  let c0_i32_3876 : BitVec 32 := 0#32
  ![v396.toNat, 0, 0]
def k1_off389 (v6896 : BitVec 32) (c0_i32_3897 : BitVec 32) : Fin 2 → Nat :=
  let c116_i32 : BitVec 32 := 116#32
  let v6900 : Index := Scalar.indexCast c116_i32
  let v6897 : BitVec 32 := Scalar.addi v6896 c0_i32_3897
  let v6901 : Index := Scalar.indexCast v6897
  ![116, v6901.toNat]

def k1_chk117 (k1_t1 : Fin k1_t1_loop.trips) (v6896 : BitVec 32) : Prop :=
  (∀ (k1_h3 : k1_cond3 k1_t1 = 1#1), ∀ (r : Fin 4), ∀ a, (k1_off389 v6896 (BitVec.ofNat 32 (16 * r.val))) a + S1x16.size a ≤ S128x128.size a)
instance k1_chk117.dec : ∀ (k1_t1 : Fin k1_t1_loop.trips) (v6896 : BitVec 32), Decidable (k1_chk117 k1_t1 v6896) := fun k1_t1 v6896 => decidable_of_iff' _ (Iff.of_eq (k1_chk117.eq_1 k1_t1 v6896))
theorem k1_off389_inb : ∀ (k1_t1 : Fin k1_t1_loop.trips) (v6896 : BitVec 32) (k1_hw117 : k1_chk117 k1_t1 v6896), ∀ (k1_h3 : k1_cond3 k1_t1 = 1#1), ∀ (r : Fin 4), ∀ a, (k1_off389 v6896 (BitVec.ofNat 32 (16 * r.val))) a + S1x16.size a ≤ S128x128.size a := fun k1_t1 v6896 k1_hw117 k1_h3 r => k1_hw117 k1_h3 r

def k1_off390 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3901 : BitVec 32 := 0#32
  let c0_i32_3902 : BitVec 32 := 0#32
  ![v406.toNat, 0, 0]
def k1_off391 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3906 : BitVec 32 := 0#32
  let c0_i32_3907 : BitVec 32 := 0#32
  ![v396.toNat, 0, 0]
def k1_off392 (v6950 : BitVec 32) (c0_i32_3928 : BitVec 32) : Fin 2 → Nat :=
  let c117_i32 : BitVec 32 := 117#32
  let v6954 : Index := Scalar.indexCast c117_i32
  let v6951 : BitVec 32 := Scalar.addi v6950 c0_i32_3928
  let v6955 : Index := Scalar.indexCast v6951
  ![117, v6955.toNat]

def k1_chk118 (k1_t1 : Fin k1_t1_loop.trips) (v6950 : BitVec 32) : Prop :=
  (∀ (k1_h3 : k1_cond3 k1_t1 = 1#1), ∀ (r : Fin 4), ∀ a, (k1_off392 v6950 (BitVec.ofNat 32 (16 * r.val))) a + S1x16.size a ≤ S128x128.size a)
instance k1_chk118.dec : ∀ (k1_t1 : Fin k1_t1_loop.trips) (v6950 : BitVec 32), Decidable (k1_chk118 k1_t1 v6950) := fun k1_t1 v6950 => decidable_of_iff' _ (Iff.of_eq (k1_chk118.eq_1 k1_t1 v6950))
theorem k1_off392_inb : ∀ (k1_t1 : Fin k1_t1_loop.trips) (v6950 : BitVec 32) (k1_hw118 : k1_chk118 k1_t1 v6950), ∀ (k1_h3 : k1_cond3 k1_t1 = 1#1), ∀ (r : Fin 4), ∀ a, (k1_off392 v6950 (BitVec.ofNat 32 (16 * r.val))) a + S1x16.size a ≤ S128x128.size a := fun k1_t1 v6950 k1_hw118 k1_h3 r => k1_hw118 k1_h3 r

def k1_off393 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3932 : BitVec 32 := 0#32
  let c0_i32_3933 : BitVec 32 := 0#32
  ![v406.toNat, 0, 0]
def k1_off394 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3937 : BitVec 32 := 0#32
  let c0_i32_3938 : BitVec 32 := 0#32
  ![v396.toNat, 0, 0]
def k1_off395 (v7004 : BitVec 32) (c0_i32_3959 : BitVec 32) : Fin 2 → Nat :=
  let c118_i32 : BitVec 32 := 118#32
  let v7008 : Index := Scalar.indexCast c118_i32
  let v7005 : BitVec 32 := Scalar.addi v7004 c0_i32_3959
  let v7009 : Index := Scalar.indexCast v7005
  ![118, v7009.toNat]

def k1_chk119 (k1_t1 : Fin k1_t1_loop.trips) (v7004 : BitVec 32) : Prop :=
  (∀ (k1_h3 : k1_cond3 k1_t1 = 1#1), ∀ (r : Fin 4), ∀ a, (k1_off395 v7004 (BitVec.ofNat 32 (16 * r.val))) a + S1x16.size a ≤ S128x128.size a)
instance k1_chk119.dec : ∀ (k1_t1 : Fin k1_t1_loop.trips) (v7004 : BitVec 32), Decidable (k1_chk119 k1_t1 v7004) := fun k1_t1 v7004 => decidable_of_iff' _ (Iff.of_eq (k1_chk119.eq_1 k1_t1 v7004))
theorem k1_off395_inb : ∀ (k1_t1 : Fin k1_t1_loop.trips) (v7004 : BitVec 32) (k1_hw119 : k1_chk119 k1_t1 v7004), ∀ (k1_h3 : k1_cond3 k1_t1 = 1#1), ∀ (r : Fin 4), ∀ a, (k1_off395 v7004 (BitVec.ofNat 32 (16 * r.val))) a + S1x16.size a ≤ S128x128.size a := fun k1_t1 v7004 k1_hw119 k1_h3 r => k1_hw119 k1_h3 r

def k1_off396 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3963 : BitVec 32 := 0#32
  let c0_i32_3964 : BitVec 32 := 0#32
  ![v406.toNat, 0, 0]
def k1_off397 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3968 : BitVec 32 := 0#32
  let c0_i32_3969 : BitVec 32 := 0#32
  ![v396.toNat, 0, 0]
def k1_off398 (v7058 : BitVec 32) (c0_i32_3990 : BitVec 32) : Fin 2 → Nat :=
  let c119_i32 : BitVec 32 := 119#32
  let v7062 : Index := Scalar.indexCast c119_i32
  let v7059 : BitVec 32 := Scalar.addi v7058 c0_i32_3990
  let v7063 : Index := Scalar.indexCast v7059
  ![119, v7063.toNat]

def k1_chk120 (k1_t1 : Fin k1_t1_loop.trips) (v7058 : BitVec 32) : Prop :=
  (∀ (k1_h3 : k1_cond3 k1_t1 = 1#1), ∀ (r : Fin 4), ∀ a, (k1_off398 v7058 (BitVec.ofNat 32 (16 * r.val))) a + S1x16.size a ≤ S128x128.size a)
instance k1_chk120.dec : ∀ (k1_t1 : Fin k1_t1_loop.trips) (v7058 : BitVec 32), Decidable (k1_chk120 k1_t1 v7058) := fun k1_t1 v7058 => decidable_of_iff' _ (Iff.of_eq (k1_chk120.eq_1 k1_t1 v7058))
theorem k1_off398_inb : ∀ (k1_t1 : Fin k1_t1_loop.trips) (v7058 : BitVec 32) (k1_hw120 : k1_chk120 k1_t1 v7058), ∀ (k1_h3 : k1_cond3 k1_t1 = 1#1), ∀ (r : Fin 4), ∀ a, (k1_off398 v7058 (BitVec.ofNat 32 (16 * r.val))) a + S1x16.size a ≤ S128x128.size a := fun k1_t1 v7058 k1_hw120 k1_h3 r => k1_hw120 k1_h3 r

def k1_off399 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_3994 : BitVec 32 := 0#32
  let c0_i32_3995 : BitVec 32 := 0#32
  ![v406.toNat, 0, 0]
def k1_off400 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_3999 : BitVec 32 := 0#32
  let c0_i32_4000 : BitVec 32 := 0#32
  ![v396.toNat, 0, 0]
def k1_off401 (v7112 : BitVec 32) (c0_i32_4021 : BitVec 32) : Fin 2 → Nat :=
  let c120_i32 : BitVec 32 := 120#32
  let v7116 : Index := Scalar.indexCast c120_i32
  let v7113 : BitVec 32 := Scalar.addi v7112 c0_i32_4021
  let v7117 : Index := Scalar.indexCast v7113
  ![120, v7117.toNat]

def k1_chk121 (k1_t1 : Fin k1_t1_loop.trips) (v7112 : BitVec 32) : Prop :=
  (∀ (k1_h3 : k1_cond3 k1_t1 = 1#1), ∀ (r : Fin 4), ∀ a, (k1_off401 v7112 (BitVec.ofNat 32 (16 * r.val))) a + S1x16.size a ≤ S128x128.size a)
instance k1_chk121.dec : ∀ (k1_t1 : Fin k1_t1_loop.trips) (v7112 : BitVec 32), Decidable (k1_chk121 k1_t1 v7112) := fun k1_t1 v7112 => decidable_of_iff' _ (Iff.of_eq (k1_chk121.eq_1 k1_t1 v7112))
theorem k1_off401_inb : ∀ (k1_t1 : Fin k1_t1_loop.trips) (v7112 : BitVec 32) (k1_hw121 : k1_chk121 k1_t1 v7112), ∀ (k1_h3 : k1_cond3 k1_t1 = 1#1), ∀ (r : Fin 4), ∀ a, (k1_off401 v7112 (BitVec.ofNat 32 (16 * r.val))) a + S1x16.size a ≤ S128x128.size a := fun k1_t1 v7112 k1_hw121 k1_h3 r => k1_hw121 k1_h3 r

def k1_off402 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_4025 : BitVec 32 := 0#32
  let c0_i32_4026 : BitVec 32 := 0#32
  ![v406.toNat, 0, 0]
def k1_off403 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_4030 : BitVec 32 := 0#32
  let c0_i32_4031 : BitVec 32 := 0#32
  ![v396.toNat, 0, 0]
def k1_off404 (v7166 : BitVec 32) (c0_i32_4052 : BitVec 32) : Fin 2 → Nat :=
  let c121_i32 : BitVec 32 := 121#32
  let v7170 : Index := Scalar.indexCast c121_i32
  let v7167 : BitVec 32 := Scalar.addi v7166 c0_i32_4052
  let v7171 : Index := Scalar.indexCast v7167
  ![121, v7171.toNat]

def k1_chk122 (k1_t1 : Fin k1_t1_loop.trips) (v7166 : BitVec 32) : Prop :=
  (∀ (k1_h3 : k1_cond3 k1_t1 = 1#1), ∀ (r : Fin 4), ∀ a, (k1_off404 v7166 (BitVec.ofNat 32 (16 * r.val))) a + S1x16.size a ≤ S128x128.size a)
instance k1_chk122.dec : ∀ (k1_t1 : Fin k1_t1_loop.trips) (v7166 : BitVec 32), Decidable (k1_chk122 k1_t1 v7166) := fun k1_t1 v7166 => decidable_of_iff' _ (Iff.of_eq (k1_chk122.eq_1 k1_t1 v7166))
theorem k1_off404_inb : ∀ (k1_t1 : Fin k1_t1_loop.trips) (v7166 : BitVec 32) (k1_hw122 : k1_chk122 k1_t1 v7166), ∀ (k1_h3 : k1_cond3 k1_t1 = 1#1), ∀ (r : Fin 4), ∀ a, (k1_off404 v7166 (BitVec.ofNat 32 (16 * r.val))) a + S1x16.size a ≤ S128x128.size a := fun k1_t1 v7166 k1_hw122 k1_h3 r => k1_hw122 k1_h3 r

def k1_off405 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_4056 : BitVec 32 := 0#32
  let c0_i32_4057 : BitVec 32 := 0#32
  ![v406.toNat, 0, 0]
def k1_off406 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_4061 : BitVec 32 := 0#32
  let c0_i32_4062 : BitVec 32 := 0#32
  ![v396.toNat, 0, 0]
def k1_off407 (v7220 : BitVec 32) (c0_i32_4083 : BitVec 32) : Fin 2 → Nat :=
  let c122_i32 : BitVec 32 := 122#32
  let v7224 : Index := Scalar.indexCast c122_i32
  let v7221 : BitVec 32 := Scalar.addi v7220 c0_i32_4083
  let v7225 : Index := Scalar.indexCast v7221
  ![122, v7225.toNat]

def k1_chk123 (k1_t1 : Fin k1_t1_loop.trips) (v7220 : BitVec 32) : Prop :=
  (∀ (k1_h3 : k1_cond3 k1_t1 = 1#1), ∀ (r : Fin 4), ∀ a, (k1_off407 v7220 (BitVec.ofNat 32 (16 * r.val))) a + S1x16.size a ≤ S128x128.size a)
instance k1_chk123.dec : ∀ (k1_t1 : Fin k1_t1_loop.trips) (v7220 : BitVec 32), Decidable (k1_chk123 k1_t1 v7220) := fun k1_t1 v7220 => decidable_of_iff' _ (Iff.of_eq (k1_chk123.eq_1 k1_t1 v7220))
theorem k1_off407_inb : ∀ (k1_t1 : Fin k1_t1_loop.trips) (v7220 : BitVec 32) (k1_hw123 : k1_chk123 k1_t1 v7220), ∀ (k1_h3 : k1_cond3 k1_t1 = 1#1), ∀ (r : Fin 4), ∀ a, (k1_off407 v7220 (BitVec.ofNat 32 (16 * r.val))) a + S1x16.size a ≤ S128x128.size a := fun k1_t1 v7220 k1_hw123 k1_h3 r => k1_hw123 k1_h3 r

def k1_off408 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_4087 : BitVec 32 := 0#32
  let c0_i32_4088 : BitVec 32 := 0#32
  ![v406.toNat, 0, 0]
def k1_off409 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_4092 : BitVec 32 := 0#32
  let c0_i32_4093 : BitVec 32 := 0#32
  ![v396.toNat, 0, 0]
def k1_off410 (v7274 : BitVec 32) (c0_i32_4114 : BitVec 32) : Fin 2 → Nat :=
  let c123_i32 : BitVec 32 := 123#32
  let v7278 : Index := Scalar.indexCast c123_i32
  let v7275 : BitVec 32 := Scalar.addi v7274 c0_i32_4114
  let v7279 : Index := Scalar.indexCast v7275
  ![123, v7279.toNat]

def k1_chk124 (k1_t1 : Fin k1_t1_loop.trips) (v7274 : BitVec 32) : Prop :=
  (∀ (k1_h3 : k1_cond3 k1_t1 = 1#1), ∀ (r : Fin 4), ∀ a, (k1_off410 v7274 (BitVec.ofNat 32 (16 * r.val))) a + S1x16.size a ≤ S128x128.size a)
instance k1_chk124.dec : ∀ (k1_t1 : Fin k1_t1_loop.trips) (v7274 : BitVec 32), Decidable (k1_chk124 k1_t1 v7274) := fun k1_t1 v7274 => decidable_of_iff' _ (Iff.of_eq (k1_chk124.eq_1 k1_t1 v7274))
theorem k1_off410_inb : ∀ (k1_t1 : Fin k1_t1_loop.trips) (v7274 : BitVec 32) (k1_hw124 : k1_chk124 k1_t1 v7274), ∀ (k1_h3 : k1_cond3 k1_t1 = 1#1), ∀ (r : Fin 4), ∀ a, (k1_off410 v7274 (BitVec.ofNat 32 (16 * r.val))) a + S1x16.size a ≤ S128x128.size a := fun k1_t1 v7274 k1_hw124 k1_h3 r => k1_hw124 k1_h3 r

def k1_off411 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_4118 : BitVec 32 := 0#32
  let c0_i32_4119 : BitVec 32 := 0#32
  ![v406.toNat, 0, 0]
def k1_off412 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_4123 : BitVec 32 := 0#32
  let c0_i32_4124 : BitVec 32 := 0#32
  ![v396.toNat, 0, 0]
def k1_off413 (v7328 : BitVec 32) (c0_i32_4145 : BitVec 32) : Fin 2 → Nat :=
  let c124_i32 : BitVec 32 := 124#32
  let v7332 : Index := Scalar.indexCast c124_i32
  let v7329 : BitVec 32 := Scalar.addi v7328 c0_i32_4145
  let v7333 : Index := Scalar.indexCast v7329
  ![124, v7333.toNat]

def k1_chk125 (k1_t1 : Fin k1_t1_loop.trips) (v7328 : BitVec 32) : Prop :=
  (∀ (k1_h3 : k1_cond3 k1_t1 = 1#1), ∀ (r : Fin 4), ∀ a, (k1_off413 v7328 (BitVec.ofNat 32 (16 * r.val))) a + S1x16.size a ≤ S128x128.size a)
instance k1_chk125.dec : ∀ (k1_t1 : Fin k1_t1_loop.trips) (v7328 : BitVec 32), Decidable (k1_chk125 k1_t1 v7328) := fun k1_t1 v7328 => decidable_of_iff' _ (Iff.of_eq (k1_chk125.eq_1 k1_t1 v7328))
theorem k1_off413_inb : ∀ (k1_t1 : Fin k1_t1_loop.trips) (v7328 : BitVec 32) (k1_hw125 : k1_chk125 k1_t1 v7328), ∀ (k1_h3 : k1_cond3 k1_t1 = 1#1), ∀ (r : Fin 4), ∀ a, (k1_off413 v7328 (BitVec.ofNat 32 (16 * r.val))) a + S1x16.size a ≤ S128x128.size a := fun k1_t1 v7328 k1_hw125 k1_h3 r => k1_hw125 k1_h3 r

def k1_off414 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_4149 : BitVec 32 := 0#32
  let c0_i32_4150 : BitVec 32 := 0#32
  ![v406.toNat, 0, 0]
def k1_off415 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_4154 : BitVec 32 := 0#32
  let c0_i32_4155 : BitVec 32 := 0#32
  ![v396.toNat, 0, 0]
def k1_off416 (v7382 : BitVec 32) (c0_i32_4176 : BitVec 32) : Fin 2 → Nat :=
  let c125_i32 : BitVec 32 := 125#32
  let v7386 : Index := Scalar.indexCast c125_i32
  let v7383 : BitVec 32 := Scalar.addi v7382 c0_i32_4176
  let v7387 : Index := Scalar.indexCast v7383
  ![125, v7387.toNat]

def k1_chk126 (k1_t1 : Fin k1_t1_loop.trips) (v7382 : BitVec 32) : Prop :=
  (∀ (k1_h3 : k1_cond3 k1_t1 = 1#1), ∀ (r : Fin 4), ∀ a, (k1_off416 v7382 (BitVec.ofNat 32 (16 * r.val))) a + S1x16.size a ≤ S128x128.size a)
instance k1_chk126.dec : ∀ (k1_t1 : Fin k1_t1_loop.trips) (v7382 : BitVec 32), Decidable (k1_chk126 k1_t1 v7382) := fun k1_t1 v7382 => decidable_of_iff' _ (Iff.of_eq (k1_chk126.eq_1 k1_t1 v7382))
theorem k1_off416_inb : ∀ (k1_t1 : Fin k1_t1_loop.trips) (v7382 : BitVec 32) (k1_hw126 : k1_chk126 k1_t1 v7382), ∀ (k1_h3 : k1_cond3 k1_t1 = 1#1), ∀ (r : Fin 4), ∀ a, (k1_off416 v7382 (BitVec.ofNat 32 (16 * r.val))) a + S1x16.size a ≤ S128x128.size a := fun k1_t1 v7382 k1_hw126 k1_h3 r => k1_hw126 k1_h3 r

def k1_off417 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_4180 : BitVec 32 := 0#32
  let c0_i32_4181 : BitVec 32 := 0#32
  ![v406.toNat, 0, 0]
def k1_off418 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_4185 : BitVec 32 := 0#32
  let c0_i32_4186 : BitVec 32 := 0#32
  ![v396.toNat, 0, 0]
def k1_off419 (v7436 : BitVec 32) (c0_i32_4207 : BitVec 32) : Fin 2 → Nat :=
  let c126_i32 : BitVec 32 := 126#32
  let v7440 : Index := Scalar.indexCast c126_i32
  let v7437 : BitVec 32 := Scalar.addi v7436 c0_i32_4207
  let v7441 : Index := Scalar.indexCast v7437
  ![126, v7441.toNat]

def k1_chk127 (k1_t1 : Fin k1_t1_loop.trips) (v7436 : BitVec 32) : Prop :=
  (∀ (k1_h3 : k1_cond3 k1_t1 = 1#1), ∀ (r : Fin 4), ∀ a, (k1_off419 v7436 (BitVec.ofNat 32 (16 * r.val))) a + S1x16.size a ≤ S128x128.size a)
instance k1_chk127.dec : ∀ (k1_t1 : Fin k1_t1_loop.trips) (v7436 : BitVec 32), Decidable (k1_chk127 k1_t1 v7436) := fun k1_t1 v7436 => decidable_of_iff' _ (Iff.of_eq (k1_chk127.eq_1 k1_t1 v7436))
theorem k1_off419_inb : ∀ (k1_t1 : Fin k1_t1_loop.trips) (v7436 : BitVec 32) (k1_hw127 : k1_chk127 k1_t1 v7436), ∀ (k1_h3 : k1_cond3 k1_t1 = 1#1), ∀ (r : Fin 4), ∀ a, (k1_off419 v7436 (BitVec.ofNat 32 (16 * r.val))) a + S1x16.size a ≤ S128x128.size a := fun k1_t1 v7436 k1_hw127 k1_h3 r => k1_hw127 k1_h3 r

def k1_off420 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_4211 : BitVec 32 := 0#32
  let c0_i32_4212 : BitVec 32 := 0#32
  ![v406.toNat, 0, 0]
def k1_off421 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_4216 : BitVec 32 := 0#32
  let c0_i32_4217 : BitVec 32 := 0#32
  ![v396.toNat, 0, 0]
def k1_off422 (v7490 : BitVec 32) (c0_i32_4238 : BitVec 32) : Fin 2 → Nat :=
  let c127_i32 : BitVec 32 := 127#32
  let v7494 : Index := Scalar.indexCast c127_i32
  let v7491 : BitVec 32 := Scalar.addi v7490 c0_i32_4238
  let v7495 : Index := Scalar.indexCast v7491
  ![127, v7495.toNat]

def k1_chk128 (k1_t1 : Fin k1_t1_loop.trips) (v7490 : BitVec 32) : Prop :=
  (∀ (k1_h3 : k1_cond3 k1_t1 = 1#1), ∀ (r : Fin 4), ∀ a, (k1_off422 v7490 (BitVec.ofNat 32 (16 * r.val))) a + S1x16.size a ≤ S128x128.size a)
instance k1_chk128.dec : ∀ (k1_t1 : Fin k1_t1_loop.trips) (v7490 : BitVec 32), Decidable (k1_chk128 k1_t1 v7490) := fun k1_t1 v7490 => decidable_of_iff' _ (Iff.of_eq (k1_chk128.eq_1 k1_t1 v7490))
theorem k1_off422_inb : ∀ (k1_t1 : Fin k1_t1_loop.trips) (v7490 : BitVec 32) (k1_hw128 : k1_chk128 k1_t1 v7490), ∀ (k1_h3 : k1_cond3 k1_t1 = 1#1), ∀ (r : Fin 4), ∀ a, (k1_off422 v7490 (BitVec.ofNat 32 (16 * r.val))) a + S1x16.size a ≤ S128x128.size a := fun k1_t1 v7490 k1_hw128 k1_h3 r => k1_hw128 k1_h3 r

def k1_off423 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_186 : BitVec 32 := 2#32
  let c0_i32_187 : BitVec 32 := 0#32
  let v397 : BitVec 1 := Scalar.cmpi .eq c2_i32_186 c0_i32_187
  let c1_i32_188 : BitVec 32 := 1#32
  let v398 : BitVec 32 := Scalar.select v397 c1_i32_188 c2_i32_186
  let v399 : BitVec 32 := Scalar.remsi v346 v398
  let c0_i32_190 : BitVec 32 := 0#32
  let v401 : BitVec 1 := Scalar.cmpi .slt v399 c0_i32_190
  let c0_i32_191 : BitVec 32 := 0#32
  let v402 : BitVec 1 := Scalar.cmpi .slt v398 c0_i32_191
  let v403 : BitVec 1 := Scalar.xori v401 v402
  let c0_i32_189 : BitVec 32 := 0#32
  let v400 : BitVec 1 := Scalar.cmpi .ne v399 c0_i32_189
  let v404 : BitVec 1 := Scalar.andi v403 v400
  let v405 : BitVec 32 := Scalar.addi v399 v398
  let v406 : BitVec 32 := Scalar.select v404 v405 v399
  let c0_i32_4242 : BitVec 32 := 0#32
  let c0_i32_4243 : BitVec 32 := 0#32
  ![v406.toNat, 0, 0]
def k1_off424 (k1_t1 : Fin k1_t1_loop.trips) : Fin 3 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c5_i32_180 : BitVec 32 := 5#32
  let c0_i32_181 : BitVec 32 := 0#32
  let v387 : BitVec 1 := Scalar.cmpi .eq c5_i32_180 c0_i32_181
  let c1_i32_182 : BitVec 32 := 1#32
  let v388 : BitVec 32 := Scalar.select v387 c1_i32_182 c5_i32_180
  let v389 : BitVec 32 := Scalar.remsi v346 v388
  let c0_i32_184 : BitVec 32 := 0#32
  let v391 : BitVec 1 := Scalar.cmpi .slt v389 c0_i32_184
  let c0_i32_185 : BitVec 32 := 0#32
  let v392 : BitVec 1 := Scalar.cmpi .slt v388 c0_i32_185
  let v393 : BitVec 1 := Scalar.xori v391 v392
  let c0_i32_183 : BitVec 32 := 0#32
  let v390 : BitVec 1 := Scalar.cmpi .ne v389 c0_i32_183
  let v394 : BitVec 1 := Scalar.andi v393 v390
  let v395 : BitVec 32 := Scalar.addi v389 v388
  let v396 : BitVec 32 := Scalar.select v394 v395 v389
  let c0_i32_4247 : BitVec 32 := 0#32
  let c0_i32_4248 : BitVec 32 := 0#32
  ![v396.toNat, 0, 0]
def k1_off425 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let v7543 : BitVec 32 := Scalar.addi v2 v346
  let c0_i32_4270 : BitVec 32 := 0#32
  let v7545 : BitVec 1 := Scalar.cmpi .sgt v7543 c0_i32_4270
  let v7546 : BitVec 32 := Scalar.extui v7545
  let c0_i32_4271 : BitVec 32 := 0#32
  let v7547 : BitVec 1 := Scalar.cmpi .slt v7543 c0_i32_4271
  let v7548 : BitVec 32 := Scalar.extui v7547
  let v7549 : BitVec 32 := Scalar.subi v7546 v7548
  let c128_i32_4269 : BitVec 32 := 128#32
  let c0_i32_4272 : BitVec 32 := 0#32
  let v7550 : BitVec 1 := Scalar.cmpi .sgt c128_i32_4269 c0_i32_4272
  let v7551 : BitVec 32 := Scalar.extui v7550
  let c0_i32_4273 : BitVec 32 := 0#32
  let v7552 : BitVec 1 := Scalar.cmpi .slt c128_i32_4269 c0_i32_4273
  let v7553 : BitVec 32 := Scalar.extui v7552
  let v7554 : BitVec 32 := Scalar.subi v7551 v7553
  let v7555 : BitVec 1 := Scalar.cmpi .ne v7549 v7554
  let v7556 : BitVec 32 := Scalar.remsi v7543 c128_i32_4269
  let c0_i32_4274 : BitVec 32 := 0#32
  let v7557 : BitVec 1 := Scalar.cmpi .ne v7556 c0_i32_4274
  let v7558 : BitVec 1 := Scalar.andi v7555 v7557
  let v7544 : BitVec 32 := Scalar.divsi v7543 c128_i32_4269
  let c1_i32_4275 : BitVec 32 := 1#32
  let v7559 : BitVec 32 := Scalar.subi v7544 c1_i32_4275
  let v7560 : BitVec 32 := Scalar.select v7558 v7559 v7544
  let c0_i32_4277 : BitVec 32 := 0#32
  let v7562 : BitVec 1 := Scalar.cmpi .sgt v7543 c0_i32_4277
  let v7563 : BitVec 32 := Scalar.extui v7562
  let c0_i32_4278 : BitVec 32 := 0#32
  let v7564 : BitVec 1 := Scalar.cmpi .slt v7543 c0_i32_4278
  let v7565 : BitVec 32 := Scalar.extui v7564
  let v7566 : BitVec 32 := Scalar.subi v7563 v7565
  let c128_i32_4276 : BitVec 32 := 128#32
  let c0_i32_4279 : BitVec 32 := 0#32
  let v7567 : BitVec 1 := Scalar.cmpi .sgt c128_i32_4276 c0_i32_4279
  let v7568 : BitVec 32 := Scalar.extui v7567
  let c0_i32_4280 : BitVec 32 := 0#32
  let v7569 : BitVec 1 := Scalar.cmpi .slt c128_i32_4276 c0_i32_4280
  let v7570 : BitVec 32 := Scalar.extui v7569
  let v7571 : BitVec 32 := Scalar.subi v7568 v7570
  let v7572 : BitVec 1 := Scalar.cmpi .ne v7566 v7571
  let v7573 : BitVec 32 := Scalar.remsi v7543 c128_i32_4276
  let c0_i32_4281 : BitVec 32 := 0#32
  let v7574 : BitVec 1 := Scalar.cmpi .ne v7573 c0_i32_4281
  let v7575 : BitVec 1 := Scalar.andi v7572 v7574
  let v7561 : BitVec 32 := Scalar.divsi v7543 c128_i32_4276
  let c1_i32_4282 : BitVec 32 := 1#32
  let v7576 : BitVec 32 := Scalar.subi v7561 c1_i32_4282
  let v7577 : BitVec 32 := Scalar.select v7575 v7576 v7561
  let c128_i32_4283 : BitVec 32 := 128#32
  let v7578 : BitVec 32 := Scalar.muli v7577 c128_i32_4283
  let v7579 : BitVec 32 := Scalar.subi v7543 v7578
  let c128_i32_4290 : BitVec 32 := 128#32
  let v7590 : BitVec 32 := Scalar.muli v7579 c128_i32_4290
  let c0_i32_4299 : BitVec 32 := 0#32
  ![v7560.toNat, v7590.toNat, 0]
def k1_off426 (k1_t1 : Fin k1_t1_loop.trips) : Fin 1 → Nat :=
  let c0_i32_101 : BitVec 32 := 0#32
  let c1_i32_102 : BitVec 32 := 1#32
  let arg12 : BitVec 32 := Scf.iv c0_i32_101 c1_i32_102 k1_t1
  let c4_i32_156 : BitVec 32 := 4#32
  let v346 : BitVec 32 := Scalar.subi arg12 c4_i32_156
  let c2_i32_4291 : BitVec 32 := 2#32
  let c0_i32_4292 : BitVec 32 := 0#32
  let v7591 : BitVec 1 := Scalar.cmpi .eq c2_i32_4291 c0_i32_4292
  let c1_i32_4293 : BitVec 32 := 1#32
  let v7592 : BitVec 32 := Scalar.select v7591 c1_i32_4293 c2_i32_4291
  let v7593 : BitVec 32 := Scalar.remsi v346 v7592
  let c0_i32_4295 : BitVec 32 := 0#32
  let v7595 : BitVec 1 := Scalar.cmpi .slt v7593 c0_i32_4295
  let c0_i32_4296 : BitVec 32 := 0#32
  let v7596 : BitVec 1 := Scalar.cmpi .slt v7592 c0_i32_4296
  let v7597 : BitVec 1 := Scalar.xori v7595 v7596
  let c0_i32_4294 : BitVec 32 := 0#32
  let v7594 : BitVec 1 := Scalar.cmpi .ne v7593 c0_i32_4294
  let v7598 : BitVec 1 := Scalar.andi v7597 v7594
  let v7599 : BitVec 32 := Scalar.addi v7593 v7592
  let v7600 : BitVec 32 := Scalar.select v7598 v7599 v7593
  ![v7600.toNat]
def k1_off427 (i : grid1.Coords) (c198_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let v244 : BitVec 32 := Scalar.addi v2 c198_i32
  let c0_i32_105 : BitVec 32 := 0#32
  let v246 : BitVec 1 := Scalar.cmpi .sgt v244 c0_i32_105
  let v247 : BitVec 32 := Scalar.extui v246
  let c0_i32_106 : BitVec 32 := 0#32
  let v248 : BitVec 1 := Scalar.cmpi .slt v244 c0_i32_106
  let v249 : BitVec 32 := Scalar.extui v248
  let v250 : BitVec 32 := Scalar.subi v247 v249
  let c128_i32_104 : BitVec 32 := 128#32
  let c0_i32_107 : BitVec 32 := 0#32
  let v251 : BitVec 1 := Scalar.cmpi .sgt c128_i32_104 c0_i32_107
  let v252 : BitVec 32 := Scalar.extui v251
  let c0_i32_108 : BitVec 32 := 0#32
  let v253 : BitVec 1 := Scalar.cmpi .slt c128_i32_104 c0_i32_108
  let v254 : BitVec 32 := Scalar.extui v253
  let v255 : BitVec 32 := Scalar.subi v252 v254
  let v256 : BitVec 1 := Scalar.cmpi .ne v250 v255
  let v257 : BitVec 32 := Scalar.remsi v244 c128_i32_104
  let c0_i32_109 : BitVec 32 := 0#32
  let v258 : BitVec 1 := Scalar.cmpi .ne v257 c0_i32_109
  let v259 : BitVec 1 := Scalar.andi v256 v258
  let v245 : BitVec 32 := Scalar.divsi v244 c128_i32_104
  let c1_i32_110 : BitVec 32 := 1#32
  let v260 : BitVec 32 := Scalar.subi v245 c1_i32_110
  let v261 : BitVec 32 := Scalar.select v259 v260 v245
  let c0_i32_112 : BitVec 32 := 0#32
  let v263 : BitVec 1 := Scalar.cmpi .sgt v244 c0_i32_112
  let v264 : BitVec 32 := Scalar.extui v263
  let c0_i32_113 : BitVec 32 := 0#32
  let v265 : BitVec 1 := Scalar.cmpi .slt v244 c0_i32_113
  let v266 : BitVec 32 := Scalar.extui v265
  let v267 : BitVec 32 := Scalar.subi v264 v266
  let c128_i32_111 : BitVec 32 := 128#32
  let c0_i32_114 : BitVec 32 := 0#32
  let v268 : BitVec 1 := Scalar.cmpi .sgt c128_i32_111 c0_i32_114
  let v269 : BitVec 32 := Scalar.extui v268
  let c0_i32_115 : BitVec 32 := 0#32
  let v270 : BitVec 1 := Scalar.cmpi .slt c128_i32_111 c0_i32_115
  let v271 : BitVec 32 := Scalar.extui v270
  let v272 : BitVec 32 := Scalar.subi v269 v271
  let v273 : BitVec 1 := Scalar.cmpi .ne v267 v272
  let v274 : BitVec 32 := Scalar.remsi v244 c128_i32_111
  let c0_i32_116 : BitVec 32 := 0#32
  let v275 : BitVec 1 := Scalar.cmpi .ne v274 c0_i32_116
  let v276 : BitVec 1 := Scalar.andi v273 v275
  let v262 : BitVec 32 := Scalar.divsi v244 c128_i32_111
  let c1_i32_117 : BitVec 32 := 1#32
  let v277 : BitVec 32 := Scalar.subi v262 c1_i32_117
  let v278 : BitVec 32 := Scalar.select v276 v277 v262
  let c128_i32_118 : BitVec 32 := 128#32
  let v279 : BitVec 32 := Scalar.muli v278 c128_i32_118
  let v280 : BitVec 32 := Scalar.subi v244 v279
  let c128_i32_119 : BitVec 32 := 128#32
  let v281 : BitVec 32 := Scalar.muli v280 c128_i32_119
  let c0_i32_124 : BitVec 32 := 0#32
  ![v261.toNat, v281.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x50_S50x16384_1_0 : S16384x50.Transposes [1, 0] S50x16384
  transposes_S1000000x64_S64x1000000_1_0 : S1000000x64.Transposes [1, 0] S64x1000000
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  transposes_S64x32768_p1_0_S32768x64 : S64x32768.Transposes [1, 0] S32768x64
  slices_S32768x64_o0_0_S16384x64 : S32768x64.Slices ![0, 0] S16384x64
  slices_S32768x64_o16384_0_S16384x64 : S32768x64.Slices ![16384, 0] S16384x64
  concatenates_S16384x64_S16384x64_S16384x128_d1 : Shape.Concatenates [S16384x64, S16384x64] S16384x128 1
  inb_S16384x128_S16384x128_0_0 : ∀ a, (![0, 0] : Fin 2 → Nat) a + S16384x128.size a ≤ S16384x128.size a
  h_S16384x128 : 0 < S16384x128.numel
  inb_S10x128_S1x128_0_0 : ∀ a, (![0, 0] : Fin 2 → Nat) a + S1x128.size a ≤ S10x128.size a
  squeezes_S1x128_S128 : S1x128.Squeezes S128
  inb_S10_S1_0 : ∀ a, (![0] : Fin 1 → Nat) a + S1.size a ≤ S10.size a
  squeezes_S1_S_ : S1.Squeezes S_
  inb_S10x128_S1x128_1_0 : ∀ a, (![1, 0] : Fin 2 → Nat) a + S1x128.size a ≤ S10x128.size a
  inb_S10_S1_1 : ∀ a, (![1] : Fin 1 → Nat) a + S1.size a ≤ S10.size a
  inb_S10x128_S1x128_2_0 : ∀ a, (![2, 0] : Fin 2 → Nat) a + S1x128.size a ≤ S10x128.size a
  inb_S10_S1_2 : ∀ a, (![2] : Fin 1 → Nat) a + S1.size a ≤ S10.size a
  inb_S10x128_S1x128_3_0 : ∀ a, (![3, 0] : Fin 2 → Nat) a + S1x128.size a ≤ S10x128.size a
  inb_S10_S1_3 : ∀ a, (![3] : Fin 1 → Nat) a + S1.size a ≤ S10.size a
  inb_S10x128_S1x128_4_0 : ∀ a, (![4, 0] : Fin 2 → Nat) a + S1x128.size a ≤ S10x128.size a
  inb_S10_S1_4 : ∀ a, (![4] : Fin 1 → Nat) a + S1.size a ≤ S10.size a
  h_S1x16 : 0 < S1x16.numel
  shapeCasts_S1x16_S16 : S1x16.ShapeCasts S16
  shapeCasts_S16_S1x16 : S16.ShapeCasts S1x16
  squeezes_S1x128x128_S128x128 : S1x128x128.Squeezes S128x128
  inb_S507904x128_S507904x128_0_0 : ∀ a, (![0, 0] : Fin 2 → Nat) a + S507904x128.size a ≤ S507904x128.size a
  gathers_S507904x128_S128x128 : S507904x128.Gathers 0 S128x128
  squeezes_S1x128x64_S128x64 : S1x128x64.Squeezes S128x64
  slices_S16_o0_S1 : S16.Slices ![0] S1
  inpos_S1_p0 : ∀ a, (![0] : Fin 1 → Nat) a < S1.size a
  inb_S128x64_S1x16_0_0 : ∀ a, (![0, 0] : Fin 2 → Nat) a + S1x16.size a ≤ S128x64.size a
  inb_S128x64_S1x16_0_16 : ∀ a, (![0, 16] : Fin 2 → Nat) a + S1x16.size a ≤ S128x64.size a
  inb_S128x64_S1x16_0_32 : ∀ a, (![0, 32] : Fin 2 → Nat) a + S1x16.size a ≤ S128x64.size a
  inb_S128x64_S1x16_0_48 : ∀ a, (![0, 48] : Fin 2 → Nat) a + S1x16.size a ≤ S128x64.size a
  slices_S16_o1_S1 : S16.Slices ![1] S1
  inb_S128x64_S1x16_1_0 : ∀ a, (![1, 0] : Fin 2 → Nat) a + S1x16.size a ≤ S128x64.size a
  inb_S128x64_S1x16_1_16 : ∀ a, (![1, 16] : Fin 2 → Nat) a + S1x16.size a ≤ S128x64.size a
  inb_S128x64_S1x16_1_32 : ∀ a, (![1, 32] : Fin 2 → Nat) a + S1x16.size a ≤ S128x64.size a
  inb_S128x64_S1x16_1_48 : ∀ a, (![1, 48] : Fin 2 → Nat) a + S1x16.size a ≤ S128x64.size a
  slices_S16_o2_S1 : S16.Slices ![2] S1
  inb_S128x64_S1x16_2_0 : ∀ a, (![2, 0] : Fin 2 → Nat) a + S1x16.size a ≤ S128x64.size a
  inb_S128x64_S1x16_2_16 : ∀ a, (![2, 16] : Fin 2 → Nat) a + S1x16.size a ≤ S128x64.size a
  inb_S128x64_S1x16_2_32 : ∀ a, (![2, 32] : Fin 2 → Nat) a + S1x16.size a ≤ S128x64.size a
  inb_S128x64_S1x16_2_48 : ∀ a, (![2, 48] : Fin 2 → Nat) a + S1x16.size a ≤ S128x64.size a
  slices_S16_o3_S1 : S16.Slices ![3] S1
  inb_S128x64_S1x16_3_0 : ∀ a, (![3, 0] : Fin 2 → Nat) a + S1x16.size a ≤ S128x64.size a
  inb_S128x64_S1x16_3_16 : ∀ a, (![3, 16] : Fin 2 → Nat) a + S1x16.size a ≤ S128x64.size a
  inb_S128x64_S1x16_3_32 : ∀ a, (![3, 32] : Fin 2 → Nat) a + S1x16.size a ≤ S128x64.size a
  inb_S128x64_S1x16_3_48 : ∀ a, (![3, 48] : Fin 2 → Nat) a + S1x16.size a ≤ S128x64.size a
  slices_S16_o4_S1 : S16.Slices ![4] S1
  inb_S128x64_S1x16_4_0 : ∀ a, (![4, 0] : Fin 2 → Nat) a + S1x16.size a ≤ S128x64.size a
  inb_S128x64_S1x16_4_16 : ∀ a, (![4, 16] : Fin 2 → Nat) a + S1x16.size a ≤ S128x64.size a
  inb_S128x64_S1x16_4_32 : ∀ a, (![4, 32] : Fin 2 → Nat) a + S1x16.size a ≤ S128x64.size a
  inb_S128x64_S1x16_4_48 : ∀ a, (![4, 48] : Fin 2 → Nat) a + S1x16.size a ≤ S128x64.size a
  slices_S16_o5_S1 : S16.Slices ![5] S1
  inb_S128x64_S1x16_5_0 : ∀ a, (![5, 0] : Fin 2 → Nat) a + S1x16.size a ≤ S128x64.size a
  inb_S128x64_S1x16_5_16 : ∀ a, (![5, 16] : Fin 2 → Nat) a + S1x16.size a ≤ S128x64.size a
  inb_S128x64_S1x16_5_32 : ∀ a, (![5, 32] : Fin 2 → Nat) a + S1x16.size a ≤ S128x64.size a
  inb_S128x64_S1x16_5_48 : ∀ a, (![5, 48] : Fin 2 → Nat) a + S1x16.size a ≤ S128x64.size a
  slices_S16_o6_S1 : S16.Slices ![6] S1
  inb_S128x64_S1x16_6_0 : ∀ a, (![6, 0] : Fin 2 → Nat) a + S1x16.size a ≤ S128x64.size a
  inb_S128x64_S1x16_6_16 : ∀ a, (![6, 16] : Fin 2 → Nat) a + S1x16.size a ≤ S128x64.size a
  inb_S128x64_S1x16_6_32 : ∀ a, (![6, 32] : Fin 2 → Nat) a + S1x16.size a ≤ S128x64.size a
  inb_S128x64_S1x16_6_48 : ∀ a, (![6, 48] : Fin 2 → Nat) a + S1x16.size a ≤ S128x64.size a
  slices_S16_o7_S1 : S16.Slices ![7] S1
  inb_S128x64_S1x16_7_0 : ∀ a, (![7, 0] : Fin 2 → Nat) a + S1x16.size a ≤ S128x64.size a
  inb_S128x64_S1x16_7_16 : ∀ a, (![7, 16] : Fin 2 → Nat) a + S1x16.size a ≤ S128x64.size a
  inb_S128x64_S1x16_7_32 : ∀ a, (![7, 32] : Fin 2 → Nat) a + S1x16.size a ≤ S128x64.size a
  inb_S128x64_S1x16_7_48 : ∀ a, (![7, 48] : Fin 2 → Nat) a + S1x16.size a ≤ S128x64.size a
  slices_S16_o8_S1 : S16.Slices ![8] S1
  inb_S128x64_S1x16_8_0 : ∀ a, (![8, 0] : Fin 2 → Nat) a + S1x16.size a ≤ S128x64.size a
  inb_S128x64_S1x16_8_16 : ∀ a, (![8, 16] : Fin 2 → Nat) a + S1x16.size a ≤ S128x64.size a
  inb_S128x64_S1x16_8_32 : ∀ a, (![8, 32] : Fin 2 → Nat) a + S1x16.size a ≤ S128x64.size a
  inb_S128x64_S1x16_8_48 : ∀ a, (![8, 48] : Fin 2 → Nat) a + S1x16.size a ≤ S128x64.size a
  slices_S16_o9_S1 : S16.Slices ![9] S1
  inb_S128x64_S1x16_9_0 : ∀ a, (![9, 0] : Fin 2 → Nat) a + S1x16.size a ≤ S128x64.size a
  inb_S128x64_S1x16_9_16 : ∀ a, (![9, 16] : Fin 2 → Nat) a + S1x16.size a ≤ S128x64.size a
  inb_S128x64_S1x16_9_32 : ∀ a, (![9, 32] : Fin 2 → Nat) a + S1x16.size a ≤ S128x64.size a
  inb_S128x64_S1x16_9_48 : ∀ a, (![9, 48] : Fin 2 → Nat) a + S1x16.size a ≤ S128x64.size a
  slices_S16_o10_S1 : S16.Slices ![10] S1
  inb_S128x64_S1x16_10_0 : ∀ a, (![10, 0] : Fin 2 → Nat) a + S1x16.size a ≤ S128x64.size a
  inb_S128x64_S1x16_10_16 : ∀ a, (![10, 16] : Fin 2 → Nat) a + S1x16.size a ≤ S128x64.size a
  inb_S128x64_S1x16_10_32 : ∀ a, (![10, 32] : Fin 2 → Nat) a + S1x16.size a ≤ S128x64.size a
  inb_S128x64_S1x16_10_48 : ∀ a, (![10, 48] : Fin 2 → Nat) a + S1x16.size a ≤ S128x64.size a
  slices_S16_o11_S1 : S16.Slices ![11] S1
  inb_S128x64_S1x16_11_0 : ∀ a, (![11, 0] : Fin 2 → Nat) a + S1x16.size a ≤ S128x64.size a
  inb_S128x64_S1x16_11_16 : ∀ a, (![11, 16] : Fin 2 → Nat) a + S1x16.size a ≤ S128x64.size a
  inb_S128x64_S1x16_11_32 : ∀ a, (![11, 32] : Fin 2 → Nat) a + S1x16.size a ≤ S128x64.size a
  inb_S128x64_S1x16_11_48 : ∀ a, (![11, 48] : Fin 2 → Nat) a + S1x16.size a ≤ S128x64.size a
  slices_S16_o12_S1 : S16.Slices ![12] S1
  inb_S128x64_S1x16_12_0 : ∀ a, (![12, 0] : Fin 2 → Nat) a + S1x16.size a ≤ S128x64.size a
  inb_S128x64_S1x16_12_16 : ∀ a, (![12, 16] : Fin 2 → Nat) a + S1x16.size a ≤ S128x64.size a
  inb_S128x64_S1x16_12_32 : ∀ a, (![12, 32] : Fin 2 → Nat) a + S1x16.size a ≤ S128x64.size a
  inb_S128x64_S1x16_12_48 : ∀ a, (![12, 48] : Fin 2 → Nat) a + S1x16.size a ≤ S128x64.size a
  slices_S16_o13_S1 : S16.Slices ![13] S1
  inb_S128x64_S1x16_13_0 : ∀ a, (![13, 0] : Fin 2 → Nat) a + S1x16.size a ≤ S128x64.size a
  inb_S128x64_S1x16_13_16 : ∀ a, (![13, 16] : Fin 2 → Nat) a + S1x16.size a ≤ S128x64.size a
  inb_S128x64_S1x16_13_32 : ∀ a, (![13, 32] : Fin 2 → Nat) a + S1x16.size a ≤ S128x64.size a
  inb_S128x64_S1x16_13_48 : ∀ a, (![13, 48] : Fin 2 → Nat) a + S1x16.size a ≤ S128x64.size a
  slices_S16_o14_S1 : S16.Slices ![14] S1
  inb_S128x64_S1x16_14_0 : ∀ a, (![14, 0] : Fin 2 → Nat) a + S1x16.size a ≤ S128x64.size a
  inb_S128x64_S1x16_14_16 : ∀ a, (![14, 16] : Fin 2 → Nat) a + S1x16.size a ≤ S128x64.size a
  inb_S128x64_S1x16_14_32 : ∀ a, (![14, 32] : Fin 2 → Nat) a + S1x16.size a ≤ S128x64.size a
  inb_S128x64_S1x16_14_48 : ∀ a, (![14, 48] : Fin 2 → Nat) a + S1x16.size a ≤ S128x64.size a
  slices_S16_o15_S1 : S16.Slices ![15] S1
  inb_S128x64_S1x16_15_0 : ∀ a, (![15, 0] : Fin 2 → Nat) a + S1x16.size a ≤ S128x64.size a
  inb_S128x64_S1x16_15_16 : ∀ a, (![15, 16] : Fin 2 → Nat) a + S1x16.size a ≤ S128x64.size a
  inb_S128x64_S1x16_15_32 : ∀ a, (![15, 32] : Fin 2 → Nat) a + S1x16.size a ≤ S128x64.size a
  inb_S128x64_S1x16_15_48 : ∀ a, (![15, 48] : Fin 2 → Nat) a + S1x16.size a ≤ S128x64.size a
  inb_S128x64_S1x16_16_0 : ∀ a, (![16, 0] : Fin 2 → Nat) a + S1x16.size a ≤ S128x64.size a
  inb_S128x64_S1x16_16_16 : ∀ a, (![16, 16] : Fin 2 → Nat) a + S1x16.size a ≤ S128x64.size a
  inb_S128x64_S1x16_16_32 : ∀ a, (![16, 32] : Fin 2 → Nat) a + S1x16.size a ≤ S128x64.size a
  inb_S128x64_S1x16_16_48 : ∀ a, (![16, 48] : Fin 2 → Nat) a + S1x16.size a ≤ S128x64.size a
  inb_S128x64_S1x16_17_0 : ∀ a, (![17, 0] : Fin 2 → Nat) a + S1x16.size a ≤ S128x64.size a
  inb_S128x64_S1x16_17_16 : ∀ a, (![17, 16] : Fin 2 → Nat) a + S1x16.size a ≤ S128x64.size a
  inb_S128x64_S1x16_17_32 : ∀ a, (![17, 32] : Fin 2 → Nat) a + S1x16.size a ≤ S128x64.size a
  inb_S128x64_S1x16_17_48 : ∀ a, (![17, 48] : Fin 2 → Nat) a + S1x16.size a ≤ S128x64.size a
  inb_S128x64_S1x16_18_0 : ∀ a, (![18, 0] : Fin 2 → Nat) a + S1x16.size a ≤ S128x64.size a
  inb_S128x64_S1x16_18_16 : ∀ a, (![18, 16] : Fin 2 → Nat) a + S1x16.size a ≤ S128x64.size a
  inb_S128x64_S1x16_18_32 : ∀ a, (![18, 32] : Fin 2 → Nat) a + S1x16.size a ≤ S128x64.size a
  inb_S128x64_S1x16_18_48 : ∀ a, (![18, 48] : Fin 2 → Nat) a + S1x16.size a ≤ S128x64.size a
  inb_S128x64_S1x16_19_0 : ∀ a, (![19, 0] : Fin 2 → Nat) a + S1x16.size a ≤ S128x64.size a
  inb_S128x64_S1x16_19_16 : ∀ a, (![19, 16] : Fin 2 → Nat) a + S1x16.size a ≤ S128x64.size a
  inb_S128x64_S1x16_19_32 : ∀ a, (![19, 32] : Fin 2 → Nat) a + S1x16.size a ≤ S128x64.size a
  inb_S128x64_S1x16_19_48 : ∀ a, (![19, 48] : Fin 2 → Nat) a + S1x16.size a ≤ S128x64.size a
  inb_S128x64_S1x16_20_0 : ∀ a, (![20, 0] : Fin 2 → Nat) a + S1x16.size a ≤ S128x64.size a
  inb_S128x64_S1x16_20_16 : ∀ a, (![20, 16] : Fin 2 → Nat) a + S1x16.size a ≤ S128x64.size a
  inb_S128x64_S1x16_20_32 : ∀ a, (![20, 32] : Fin 2 → Nat) a + S1x16.size a ≤ S128x64.size a
  inb_S128x64_S1x16_20_48 : ∀ a, (![20, 48] : Fin 2 → Nat) a + S1x16.size a ≤ S128x64.size a
  inb_S128x64_S1x16_21_0 : ∀ a, (![21, 0] : Fin 2 → Nat) a + S1x16.size a ≤ S128x64.size a
  inb_S128x64_S1x16_21_16 : ∀ a, (![21, 16] : Fin 2 → Nat) a + S1x16.size a ≤ S128x64.size a
  inb_S128x64_S1x16_21_32 : ∀ a, (![21, 32] : Fin 2 → Nat) a + S1x16.size a ≤ S128x64.size a
  inb_S128x64_S1x16_21_48 : ∀ a, (![21, 48] : Fin 2 → Nat) a + S1x16.size a ≤ S128x64.size a
  inb_S128x64_S1x16_22_0 : ∀ a, (![22, 0] : Fin 2 → Nat) a + S1x16.size a ≤ S128x64.size a
  inb_S128x64_S1x16_22_16 : ∀ a, (![22, 16] : Fin 2 → Nat) a + S1x16.size a ≤ S128x64.size a
  inb_S128x64_S1x16_22_32 : ∀ a, (![22, 32] : Fin 2 → Nat) a + S1x16.size a ≤ S128x64.size a
  inb_S128x64_S1x16_22_48 : ∀ a, (![22, 48] : Fin 2 → Nat) a + S1x16.size a ≤ S128x64.size a
  inb_S128x64_S1x16_23_0 : ∀ a, (![23, 0] : Fin 2 → Nat) a + S1x16.size a ≤ S128x64.size a
  inb_S128x64_S1x16_23_16 : ∀ a, (![23, 16] : Fin 2 → Nat) a + S1x16.size a ≤ S128x64.size a
  inb_S128x64_S1x16_23_32 : ∀ a, (![23, 32] : Fin 2 → Nat) a + S1x16.size a ≤ S128x64.size a
  inb_S128x64_S1x16_23_48 : ∀ a, (![23, 48] : Fin 2 → Nat) a + S1x16.size a ≤ S128x64.size a
  inb_S128x64_S1x16_24_0 : ∀ a, (![24, 0] : Fin 2 → Nat) a + S1x16.size a ≤ S128x64.size a
  inb_S128x64_S1x16_24_16 : ∀ a, (![24, 16] : Fin 2 → Nat) a + S1x16.size a ≤ S128x64.size a
  inb_S128x64_S1x16_24_32 : ∀ a, (![24, 32] : Fin 2 → Nat) a + S1x16.size a ≤ S128x64.size a
  inb_S128x64_S1x16_24_48 : ∀ a, (![24, 48] : Fin 2 → Nat) a + S1x16.size a ≤ S128x64.size a
  inb_S128x64_S1x16_25_0 : ∀ a, (![25, 0] : Fin 2 → Nat) a + S1x16.size a ≤ S128x64.size a
  inb_S128x64_S1x16_25_16 : ∀ a, (![25, 16] : Fin 2 → Nat) a + S1x16.size a ≤ S128x64.size a
  inb_S128x64_S1x16_25_32 : ∀ a, (![25, 32] : Fin 2 → Nat) a + S1x16.size a ≤ S128x64.size a
  inb_S128x64_S1x16_25_48 : ∀ a, (![25, 48] : Fin 2 → Nat) a + S1x16.size a ≤ S128x64.size a
  inb_S128x64_S1x16_26_0 : ∀ a, (![26, 0] : Fin 2 → Nat) a + S1x16.size a ≤ S128x64.size a
  inb_S128x64_S1x16_26_16 : ∀ a, (![26, 16] : Fin 2 → Nat) a + S1x16.size a ≤ S128x64.size a
  inb_S128x64_S1x16_26_32 : ∀ a, (![26, 32] : Fin 2 → Nat) a + S1x16.size a ≤ S128x64.size a
  inb_S128x64_S1x16_26_48 : ∀ a, (![26, 48] : Fin 2 → Nat) a + S1x16.size a ≤ S128x64.size a
  inb_S128x64_S1x16_27_0 : ∀ a, (![27, 0] : Fin 2 → Nat) a + S1x16.size a ≤ S128x64.size a
  inb_S128x64_S1x16_27_16 : ∀ a, (![27, 16] : Fin 2 → Nat) a + S1x16.size a ≤ S128x64.size a
  inb_S128x64_S1x16_27_32 : ∀ a, (![27, 32] : Fin 2 → Nat) a + S1x16.size a ≤ S128x64.size a
  inb_S128x64_S1x16_27_48 : ∀ a, (![27, 48] : Fin 2 → Nat) a + S1x16.size a ≤ S128x64.size a
  inb_S128x64_S1x16_28_0 : ∀ a, (![28, 0] : Fin 2 → Nat) a + S1x16.size a ≤ S128x64.size a
  inb_S128x64_S1x16_28_16 : ∀ a, (![28, 16] : Fin 2 → Nat) a + S1x16.size a ≤ S128x64.size a
  inb_S128x64_S1x16_28_32 : ∀ a, (![28, 32] : Fin 2 → Nat) a + S1x16.size a ≤ S128x64.size a
  inb_S128x64_S1x16_28_48 : ∀ a, (![28, 48] : Fin 2 → Nat) a + S1x16.size a ≤ S128x64.size a
  inb_S128x64_S1x16_29_0 : ∀ a, (![29, 0] : Fin 2 → Nat) a + S1x16.size a ≤ S128x64.size a
  inb_S128x64_S1x16_29_16 : ∀ a, (![29, 16] : Fin 2 → Nat) a + S1x16.size a ≤ S128x64.size a
  inb_S128x64_S1x16_29_32 : ∀ a, (![29, 32] : Fin 2 → Nat) a + S1x16.size a ≤ S128x64.size a
  inb_S128x64_S1x16_29_48 : ∀ a, (![29, 48] : Fin 2 → Nat) a + S1x16.size a ≤ S128x64.size a
  inb_S128x64_S1x16_30_0 : ∀ a, (![30, 0] : Fin 2 → Nat) a + S1x16.size a ≤ S128x64.size a
  inb_S128x64_S1x16_30_16 : ∀ a, (![30, 16] : Fin 2 → Nat) a + S1x16.size a ≤ S128x64.size a
  inb_S128x64_S1x16_30_32 : ∀ a, (![30, 32] : Fin 2 → Nat) a + S1x16.size a ≤ S128x64.size a
  inb_S128x64_S1x16_30_48 : ∀ a, (![30, 48] : Fin 2 → Nat) a + S1x16.size a ≤ S128x64.size a
  inb_S128x64_S1x16_31_0 : ∀ a, (![31, 0] : Fin 2 → Nat) a + S1x16.size a ≤ S128x64.size a
  inb_S128x64_S1x16_31_16 : ∀ a, (![31, 16] : Fin 2 → Nat) a + S1x16.size a ≤ S128x64.size a
  inb_S128x64_S1x16_31_32 : ∀ a, (![31, 32] : Fin 2 → Nat) a + S1x16.size a ≤ S128x64.size a
  inb_S128x64_S1x16_31_48 : ∀ a, (![31, 48] : Fin 2 → Nat) a + S1x16.size a ≤ S128x64.size a
  inb_S128x64_S1x16_32_0 : ∀ a, (![32, 0] : Fin 2 → Nat) a + S1x16.size a ≤ S128x64.size a
  inb_S128x64_S1x16_32_16 : ∀ a, (![32, 16] : Fin 2 → Nat) a + S1x16.size a ≤ S128x64.size a
  inb_S128x64_S1x16_32_32 : ∀ a, (![32, 32] : Fin 2 → Nat) a + S1x16.size a ≤ S128x64.size a
  inb_S128x64_S1x16_32_48 : ∀ a, (![32, 48] : Fin 2 → Nat) a + S1x16.size a ≤ S128x64.size a
  inb_S128x64_S1x16_33_0 : ∀ a, (![33, 0] : Fin 2 → Nat) a + S1x16.size a ≤ S128x64.size a
  inb_S128x64_S1x16_33_16 : ∀ a, (![33, 16] : Fin 2 → Nat) a + S1x16.size a ≤ S128x64.size a
  inb_S128x64_S1x16_33_32 : ∀ a, (![33, 32] : Fin 2 → Nat) a + S1x16.size a ≤ S128x64.size a
  inb_S128x64_S1x16_33_48 : ∀ a, (![33, 48] : Fin 2 → Nat) a + S1x16.size a ≤ S128x64.size a
  inb_S128x64_S1x16_34_0 : ∀ a, (![34, 0] : Fin 2 → Nat) a + S1x16.size a ≤ S128x64.size a
  inb_S128x64_S1x16_34_16 : ∀ a, (![34, 16] : Fin 2 → Nat) a + S1x16.size a ≤ S128x64.size a
  inb_S128x64_S1x16_34_32 : ∀ a, (![34, 32] : Fin 2 → Nat) a + S1x16.size a ≤ S128x64.size a
  inb_S128x64_S1x16_34_48 : ∀ a, (![34, 48] : Fin 2 → Nat) a + S1x16.size a ≤ S128x64.size a
  inb_S128x64_S1x16_35_0 : ∀ a, (![35, 0] : Fin 2 → Nat) a + S1x16.size a ≤ S128x64.size a
  inb_S128x64_S1x16_35_16 : ∀ a, (![35, 16] : Fin 2 → Nat) a + S1x16.size a ≤ S128x64.size a
  inb_S128x64_S1x16_35_32 : ∀ a, (![35, 32] : Fin 2 → Nat) a + S1x16.size a ≤ S128x64.size a
  inb_S128x64_S1x16_35_48 : ∀ a, (![35, 48] : Fin 2 → Nat) a + S1x16.size a ≤ S128x64.size a
  inb_S128x64_S1x16_36_0 : ∀ a, (![36, 0] : Fin 2 → Nat) a + S1x16.size a ≤ S128x64.size a
  inb_S128x64_S1x16_36_16 : ∀ a, (![36, 16] : Fin 2 → Nat) a + S1x16.size a ≤ S128x64.size a
  inb_S128x64_S1x16_36_32 : ∀ a, (![36, 32] : Fin 2 → Nat) a + S1x16.size a ≤ S128x64.size a
  inb_S128x64_S1x16_36_48 : ∀ a, (![36, 48] : Fin 2 → Nat) a + S1x16.size a ≤ S128x64.size a
  inb_S128x64_S1x16_37_0 : ∀ a, (![37, 0] : Fin 2 → Nat) a + S1x16.size a ≤ S128x64.size a
  inb_S128x64_S1x16_37_16 : ∀ a, (![37, 16] : Fin 2 → Nat) a + S1x16.size a ≤ S128x64.size a
  inb_S128x64_S1x16_37_32 : ∀ a, (![37, 32] : Fin 2 → Nat) a + S1x16.size a ≤ S128x64.size a
  inb_S128x64_S1x16_37_48 : ∀ a, (![37, 48] : Fin 2 → Nat) a + S1x16.size a ≤ S128x64.size a
  inb_S128x64_S1x16_38_0 : ∀ a, (![38, 0] : Fin 2 → Nat) a + S1x16.size a ≤ S128x64.size a
  inb_S128x64_S1x16_38_16 : ∀ a, (![38, 16] : Fin 2 → Nat) a + S1x16.size a ≤ S128x64.size a
  inb_S128x64_S1x16_38_32 : ∀ a, (![38, 32] : Fin 2 → Nat) a + S1x16.size a ≤ S128x64.size a
  inb_S128x64_S1x16_38_48 : ∀ a, (![38, 48] : Fin 2 → Nat) a + S1x16.size a ≤ S128x64.size a
  inb_S128x64_S1x16_39_0 : ∀ a, (![39, 0] : Fin 2 → Nat) a + S1x16.size a ≤ S128x64.size a
  inb_S128x64_S1x16_39_16 : ∀ a, (![39, 16] : Fin 2 → Nat) a + S1x16.size a ≤ S128x64.size a
  inb_S128x64_S1x16_39_32 : ∀ a, (![39, 32] : Fin 2 → Nat) a + S1x16.size a ≤ S128x64.size a
  inb_S128x64_S1x16_39_48 : ∀ a, (![39, 48] : Fin 2 → Nat) a + S1x16.size a ≤ S128x64.size a
  inb_S128x64_S1x16_40_0 : ∀ a, (![40, 0] : Fin 2 → Nat) a + S1x16.size a ≤ S128x64.size a
  inb_S128x64_S1x16_40_16 : ∀ a, (![40, 16] : Fin 2 → Nat) a + S1x16.size a ≤ S128x64.size a
  inb_S128x64_S1x16_40_32 : ∀ a, (![40, 32] : Fin 2 → Nat) a + S1x16.size a ≤ S128x64.size a
  inb_S128x64_S1x16_40_48 : ∀ a, (![40, 48] : Fin 2 → Nat) a + S1x16.size a ≤ S128x64.size a
  inb_S128x64_S1x16_41_0 : ∀ a, (![41, 0] : Fin 2 → Nat) a + S1x16.size a ≤ S128x64.size a
  inb_S128x64_S1x16_41_16 : ∀ a, (![41, 16] : Fin 2 → Nat) a + S1x16.size a ≤ S128x64.size a
  inb_S128x64_S1x16_41_32 : ∀ a, (![41, 32] : Fin 2 → Nat) a + S1x16.size a ≤ S128x64.size a
  inb_S128x64_S1x16_41_48 : ∀ a, (![41, 48] : Fin 2 → Nat) a + S1x16.size a ≤ S128x64.size a
  inb_S128x64_S1x16_42_0 : ∀ a, (![42, 0] : Fin 2 → Nat) a + S1x16.size a ≤ S128x64.size a
  inb_S128x64_S1x16_42_16 : ∀ a, (![42, 16] : Fin 2 → Nat) a + S1x16.size a ≤ S128x64.size a
  inb_S128x64_S1x16_42_32 : ∀ a, (![42, 32] : Fin 2 → Nat) a + S1x16.size a ≤ S128x64.size a
  inb_S128x64_S1x16_42_48 : ∀ a, (![42, 48] : Fin 2 → Nat) a + S1x16.size a ≤ S128x64.size a
  inb_S128x64_S1x16_43_0 : ∀ a, (![43, 0] : Fin 2 → Nat) a + S1x16.size a ≤ S128x64.size a
  inb_S128x64_S1x16_43_16 : ∀ a, (![43, 16] : Fin 2 → Nat) a + S1x16.size a ≤ S128x64.size a
  inb_S128x64_S1x16_43_32 : ∀ a, (![43, 32] : Fin 2 → Nat) a + S1x16.size a ≤ S128x64.size a
  inb_S128x64_S1x16_43_48 : ∀ a, (![43, 48] : Fin 2 → Nat) a + S1x16.size a ≤ S128x64.size a
  inb_S128x64_S1x16_44_0 : ∀ a, (![44, 0] : Fin 2 → Nat) a + S1x16.size a ≤ S128x64.size a
  inb_S128x64_S1x16_44_16 : ∀ a, (![44, 16] : Fin 2 → Nat) a + S1x16.size a ≤ S128x64.size a
  inb_S128x64_S1x16_44_32 : ∀ a, (![44, 32] : Fin 2 → Nat) a + S1x16.size a ≤ S128x64.size a
  inb_S128x64_S1x16_44_48 : ∀ a, (![44, 48] : Fin 2 → Nat) a + S1x16.size a ≤ S128x64.size a
  inb_S128x64_S1x16_45_0 : ∀ a, (![45, 0] : Fin 2 → Nat) a + S1x16.size a ≤ S128x64.size a
  inb_S128x64_S1x16_45_16 : ∀ a, (![45, 16] : Fin 2 → Nat) a + S1x16.size a ≤ S128x64.size a
  inb_S128x64_S1x16_45_32 : ∀ a, (![45, 32] : Fin 2 → Nat) a + S1x16.size a ≤ S128x64.size a
  inb_S128x64_S1x16_45_48 : ∀ a, (![45, 48] : Fin 2 → Nat) a + S1x16.size a ≤ S128x64.size a
  inb_S128x64_S1x16_46_0 : ∀ a, (![46, 0] : Fin 2 → Nat) a + S1x16.size a ≤ S128x64.size a
  inb_S128x64_S1x16_46_16 : ∀ a, (![46, 16] : Fin 2 → Nat) a + S1x16.size a ≤ S128x64.size a
  inb_S128x64_S1x16_46_32 : ∀ a, (![46, 32] : Fin 2 → Nat) a + S1x16.size a ≤ S128x64.size a
  inb_S128x64_S1x16_46_48 : ∀ a, (![46, 48] : Fin 2 → Nat) a + S1x16.size a ≤ S128x64.size a
  inb_S128x64_S1x16_47_0 : ∀ a, (![47, 0] : Fin 2 → Nat) a + S1x16.size a ≤ S128x64.size a
  inb_S128x64_S1x16_47_16 : ∀ a, (![47, 16] : Fin 2 → Nat) a + S1x16.size a ≤ S128x64.size a
  inb_S128x64_S1x16_47_32 : ∀ a, (![47, 32] : Fin 2 → Nat) a + S1x16.size a ≤ S128x64.size a
  inb_S128x64_S1x16_47_48 : ∀ a, (![47, 48] : Fin 2 → Nat) a + S1x16.size a ≤ S128x64.size a
  inb_S128x64_S1x16_48_0 : ∀ a, (![48, 0] : Fin 2 → Nat) a + S1x16.size a ≤ S128x64.size a
  inb_S128x64_S1x16_48_16 : ∀ a, (![48, 16] : Fin 2 → Nat) a + S1x16.size a ≤ S128x64.size a
  inb_S128x64_S1x16_48_32 : ∀ a, (![48, 32] : Fin 2 → Nat) a + S1x16.size a ≤ S128x64.size a
  inb_S128x64_S1x16_48_48 : ∀ a, (![48, 48] : Fin 2 → Nat) a + S1x16.size a ≤ S128x64.size a
  inb_S128x64_S1x16_49_0 : ∀ a, (![49, 0] : Fin 2 → Nat) a + S1x16.size a ≤ S128x64.size a
  inb_S128x64_S1x16_49_16 : ∀ a, (![49, 16] : Fin 2 → Nat) a + S1x16.size a ≤ S128x64.size a
  inb_S128x64_S1x16_49_32 : ∀ a, (![49, 32] : Fin 2 → Nat) a + S1x16.size a ≤ S128x64.size a
  inb_S128x64_S1x16_49_48 : ∀ a, (![49, 48] : Fin 2 → Nat) a + S1x16.size a ≤ S128x64.size a
  inb_S128x64_S1x16_50_0 : ∀ a, (![50, 0] : Fin 2 → Nat) a + S1x16.size a ≤ S128x64.size a
  inb_S128x64_S1x16_50_16 : ∀ a, (![50, 16] : Fin 2 → Nat) a + S1x16.size a ≤ S128x64.size a
  inb_S128x64_S1x16_50_32 : ∀ a, (![50, 32] : Fin 2 → Nat) a + S1x16.size a ≤ S128x64.size a
  inb_S128x64_S1x16_50_48 : ∀ a, (![50, 48] : Fin 2 → Nat) a + S1x16.size a ≤ S128x64.size a
  inb_S128x64_S1x16_51_0 : ∀ a, (![51, 0] : Fin 2 → Nat) a + S1x16.size a ≤ S128x64.size a
  inb_S128x64_S1x16_51_16 : ∀ a, (![51, 16] : Fin 2 → Nat) a + S1x16.size a ≤ S128x64.size a
  inb_S128x64_S1x16_51_32 : ∀ a, (![51, 32] : Fin 2 → Nat) a + S1x16.size a ≤ S128x64.size a
  inb_S128x64_S1x16_51_48 : ∀ a, (![51, 48] : Fin 2 → Nat) a + S1x16.size a ≤ S128x64.size a
  inb_S128x64_S1x16_52_0 : ∀ a, (![52, 0] : Fin 2 → Nat) a + S1x16.size a ≤ S128x64.size a
  inb_S128x64_S1x16_52_16 : ∀ a, (![52, 16] : Fin 2 → Nat) a + S1x16.size a ≤ S128x64.size a
  inb_S128x64_S1x16_52_32 : ∀ a, (![52, 32] : Fin 2 → Nat) a + S1x16.size a ≤ S128x64.size a
  inb_S128x64_S1x16_52_48 : ∀ a, (![52, 48] : Fin 2 → Nat) a + S1x16.size a ≤ S128x64.size a
  inb_S128x64_S1x16_53_0 : ∀ a, (![53, 0] : Fin 2 → Nat) a + S1x16.size a ≤ S128x64.size a
  inb_S128x64_S1x16_53_16 : ∀ a, (![53, 16] : Fin 2 → Nat) a + S1x16.size a ≤ S128x64.size a
  inb_S128x64_S1x16_53_32 : ∀ a, (![53, 32] : Fin 2 → Nat) a + S1x16.size a ≤ S128x64.size a
  inb_S128x64_S1x16_53_48 : ∀ a, (![53, 48] : Fin 2 → Nat) a + S1x16.size a ≤ S128x64.size a
  inb_S128x64_S1x16_54_0 : ∀ a, (![54, 0] : Fin 2 → Nat) a + S1x16.size a ≤ S128x64.size a
  inb_S128x64_S1x16_54_16 : ∀ a, (![54, 16] : Fin 2 → Nat) a + S1x16.size a ≤ S128x64.size a
  inb_S128x64_S1x16_54_32 : ∀ a, (![54, 32] : Fin 2 → Nat) a + S1x16.size a ≤ S128x64.size a
  inb_S128x64_S1x16_54_48 : ∀ a, (![54, 48] : Fin 2 → Nat) a + S1x16.size a ≤ S128x64.size a
  inb_S128x64_S1x16_55_0 : ∀ a, (![55, 0] : Fin 2 → Nat) a + S1x16.size a ≤ S128x64.size a
  inb_S128x64_S1x16_55_16 : ∀ a, (![55, 16] : Fin 2 → Nat) a + S1x16.size a ≤ S128x64.size a
  inb_S128x64_S1x16_55_32 : ∀ a, (![55, 32] : Fin 2 → Nat) a + S1x16.size a ≤ S128x64.size a
  inb_S128x64_S1x16_55_48 : ∀ a, (![55, 48] : Fin 2 → Nat) a + S1x16.size a ≤ S128x64.size a
  inb_S128x64_S1x16_56_0 : ∀ a, (![56, 0] : Fin 2 → Nat) a + S1x16.size a ≤ S128x64.size a
  inb_S128x64_S1x16_56_16 : ∀ a, (![56, 16] : Fin 2 → Nat) a + S1x16.size a ≤ S128x64.size a
  inb_S128x64_S1x16_56_32 : ∀ a, (![56, 32] : Fin 2 → Nat) a + S1x16.size a ≤ S128x64.size a
  inb_S128x64_S1x16_56_48 : ∀ a, (![56, 48] : Fin 2 → Nat) a + S1x16.size a ≤ S128x64.size a
  inb_S128x64_S1x16_57_0 : ∀ a, (![57, 0] : Fin 2 → Nat) a + S1x16.size a ≤ S128x64.size a
  inb_S128x64_S1x16_57_16 : ∀ a, (![57, 16] : Fin 2 → Nat) a + S1x16.size a ≤ S128x64.size a
  inb_S128x64_S1x16_57_32 : ∀ a, (![57, 32] : Fin 2 → Nat) a + S1x16.size a ≤ S128x64.size a
  inb_S128x64_S1x16_57_48 : ∀ a, (![57, 48] : Fin 2 → Nat) a + S1x16.size a ≤ S128x64.size a
  inb_S128x64_S1x16_58_0 : ∀ a, (![58, 0] : Fin 2 → Nat) a + S1x16.size a ≤ S128x64.size a
  inb_S128x64_S1x16_58_16 : ∀ a, (![58, 16] : Fin 2 → Nat) a + S1x16.size a ≤ S128x64.size a
  inb_S128x64_S1x16_58_32 : ∀ a, (![58, 32] : Fin 2 → Nat) a + S1x16.size a ≤ S128x64.size a
  inb_S128x64_S1x16_58_48 : ∀ a, (![58, 48] : Fin 2 → Nat) a + S1x16.size a ≤ S128x64.size a
  inb_S128x64_S1x16_59_0 : ∀ a, (![59, 0] : Fin 2 → Nat) a + S1x16.size a ≤ S128x64.size a
  inb_S128x64_S1x16_59_16 : ∀ a, (![59, 16] : Fin 2 → Nat) a + S1x16.size a ≤ S128x64.size a
  inb_S128x64_S1x16_59_32 : ∀ a, (![59, 32] : Fin 2 → Nat) a + S1x16.size a ≤ S128x64.size a
  inb_S128x64_S1x16_59_48 : ∀ a, (![59, 48] : Fin 2 → Nat) a + S1x16.size a ≤ S128x64.size a
  inb_S128x64_S1x16_60_0 : ∀ a, (![60, 0] : Fin 2 → Nat) a + S1x16.size a ≤ S128x64.size a
  inb_S128x64_S1x16_60_16 : ∀ a, (![60, 16] : Fin 2 → Nat) a + S1x16.size a ≤ S128x64.size a
  inb_S128x64_S1x16_60_32 : ∀ a, (![60, 32] : Fin 2 → Nat) a + S1x16.size a ≤ S128x64.size a
  inb_S128x64_S1x16_60_48 : ∀ a, (![60, 48] : Fin 2 → Nat) a + S1x16.size a ≤ S128x64.size a
  inb_S128x64_S1x16_61_0 : ∀ a, (![61, 0] : Fin 2 → Nat) a + S1x16.size a ≤ S128x64.size a
  inb_S128x64_S1x16_61_16 : ∀ a, (![61, 16] : Fin 2 → Nat) a + S1x16.size a ≤ S128x64.size a
  inb_S128x64_S1x16_61_32 : ∀ a, (![61, 32] : Fin 2 → Nat) a + S1x16.size a ≤ S128x64.size a
  inb_S128x64_S1x16_61_48 : ∀ a, (![61, 48] : Fin 2 → Nat) a + S1x16.size a ≤ S128x64.size a
  inb_S128x64_S1x16_62_0 : ∀ a, (![62, 0] : Fin 2 → Nat) a + S1x16.size a ≤ S128x64.size a
  inb_S128x64_S1x16_62_16 : ∀ a, (![62, 16] : Fin 2 → Nat) a + S1x16.size a ≤ S128x64.size a
  inb_S128x64_S1x16_62_32 : ∀ a, (![62, 32] : Fin 2 → Nat) a + S1x16.size a ≤ S128x64.size a
  inb_S128x64_S1x16_62_48 : ∀ a, (![62, 48] : Fin 2 → Nat) a + S1x16.size a ≤ S128x64.size a
  inb_S128x64_S1x16_63_0 : ∀ a, (![63, 0] : Fin 2 → Nat) a + S1x16.size a ≤ S128x64.size a
  inb_S128x64_S1x16_63_16 : ∀ a, (![63, 16] : Fin 2 → Nat) a + S1x16.size a ≤ S128x64.size a
  inb_S128x64_S1x16_63_32 : ∀ a, (![63, 32] : Fin 2 → Nat) a + S1x16.size a ≤ S128x64.size a
  inb_S128x64_S1x16_63_48 : ∀ a, (![63, 48] : Fin 2 → Nat) a + S1x16.size a ≤ S128x64.size a
  inb_S128x64_S1x16_64_0 : ∀ a, (![64, 0] : Fin 2 → Nat) a + S1x16.size a ≤ S128x64.size a
  inb_S128x64_S1x16_64_16 : ∀ a, (![64, 16] : Fin 2 → Nat) a + S1x16.size a ≤ S128x64.size a
  inb_S128x64_S1x16_64_32 : ∀ a, (![64, 32] : Fin 2 → Nat) a + S1x16.size a ≤ S128x64.size a
  inb_S128x64_S1x16_64_48 : ∀ a, (![64, 48] : Fin 2 → Nat) a + S1x16.size a ≤ S128x64.size a
  inb_S128x64_S1x16_65_0 : ∀ a, (![65, 0] : Fin 2 → Nat) a + S1x16.size a ≤ S128x64.size a
  inb_S128x64_S1x16_65_16 : ∀ a, (![65, 16] : Fin 2 → Nat) a + S1x16.size a ≤ S128x64.size a
  inb_S128x64_S1x16_65_32 : ∀ a, (![65, 32] : Fin 2 → Nat) a + S1x16.size a ≤ S128x64.size a
  inb_S128x64_S1x16_65_48 : ∀ a, (![65, 48] : Fin 2 → Nat) a + S1x16.size a ≤ S128x64.size a
  inb_S128x64_S1x16_66_0 : ∀ a, (![66, 0] : Fin 2 → Nat) a + S1x16.size a ≤ S128x64.size a
  inb_S128x64_S1x16_66_16 : ∀ a, (![66, 16] : Fin 2 → Nat) a + S1x16.size a ≤ S128x64.size a
  inb_S128x64_S1x16_66_32 : ∀ a, (![66, 32] : Fin 2 → Nat) a + S1x16.size a ≤ S128x64.size a
  inb_S128x64_S1x16_66_48 : ∀ a, (![66, 48] : Fin 2 → Nat) a + S1x16.size a ≤ S128x64.size a
  inb_S128x64_S1x16_67_0 : ∀ a, (![67, 0] : Fin 2 → Nat) a + S1x16.size a ≤ S128x64.size a
  inb_S128x64_S1x16_67_16 : ∀ a, (![67, 16] : Fin 2 → Nat) a + S1x16.size a ≤ S128x64.size a
  inb_S128x64_S1x16_67_32 : ∀ a, (![67, 32] : Fin 2 → Nat) a + S1x16.size a ≤ S128x64.size a
  inb_S128x64_S1x16_67_48 : ∀ a, (![67, 48] : Fin 2 → Nat) a + S1x16.size a ≤ S128x64.size a
  inb_S128x64_S1x16_68_0 : ∀ a, (![68, 0] : Fin 2 → Nat) a + S1x16.size a ≤ S128x64.size a
  inb_S128x64_S1x16_68_16 : ∀ a, (![68, 16] : Fin 2 → Nat) a + S1x16.size a ≤ S128x64.size a
  inb_S128x64_S1x16_68_32 : ∀ a, (![68, 32] : Fin 2 → Nat) a + S1x16.size a ≤ S128x64.size a
  inb_S128x64_S1x16_68_48 : ∀ a, (![68, 48] : Fin 2 → Nat) a + S1x16.size a ≤ S128x64.size a
  inb_S128x64_S1x16_69_0 : ∀ a, (![69, 0] : Fin 2 → Nat) a + S1x16.size a ≤ S128x64.size a
  inb_S128x64_S1x16_69_16 : ∀ a, (![69, 16] : Fin 2 → Nat) a + S1x16.size a ≤ S128x64.size a
  inb_S128x64_S1x16_69_32 : ∀ a, (![69, 32] : Fin 2 → Nat) a + S1x16.size a ≤ S128x64.size a
  inb_S128x64_S1x16_69_48 : ∀ a, (![69, 48] : Fin 2 → Nat) a + S1x16.size a ≤ S128x64.size a
  inb_S128x64_S1x16_70_0 : ∀ a, (![70, 0] : Fin 2 → Nat) a + S1x16.size a ≤ S128x64.size a
  inb_S128x64_S1x16_70_16 : ∀ a, (![70, 16] : Fin 2 → Nat) a + S1x16.size a ≤ S128x64.size a
  inb_S128x64_S1x16_70_32 : ∀ a, (![70, 32] : Fin 2 → Nat) a + S1x16.size a ≤ S128x64.size a
  inb_S128x64_S1x16_70_48 : ∀ a, (![70, 48] : Fin 2 → Nat) a + S1x16.size a ≤ S128x64.size a
  inb_S128x64_S1x16_71_0 : ∀ a, (![71, 0] : Fin 2 → Nat) a + S1x16.size a ≤ S128x64.size a
  inb_S128x64_S1x16_71_16 : ∀ a, (![71, 16] : Fin 2 → Nat) a + S1x16.size a ≤ S128x64.size a
  inb_S128x64_S1x16_71_32 : ∀ a, (![71, 32] : Fin 2 → Nat) a + S1x16.size a ≤ S128x64.size a
  inb_S128x64_S1x16_71_48 : ∀ a, (![71, 48] : Fin 2 → Nat) a + S1x16.size a ≤ S128x64.size a
  inb_S128x64_S1x16_72_0 : ∀ a, (![72, 0] : Fin 2 → Nat) a + S1x16.size a ≤ S128x64.size a
  inb_S128x64_S1x16_72_16 : ∀ a, (![72, 16] : Fin 2 → Nat) a + S1x16.size a ≤ S128x64.size a
  inb_S128x64_S1x16_72_32 : ∀ a, (![72, 32] : Fin 2 → Nat) a + S1x16.size a ≤ S128x64.size a
  inb_S128x64_S1x16_72_48 : ∀ a, (![72, 48] : Fin 2 → Nat) a + S1x16.size a ≤ S128x64.size a
  inb_S128x64_S1x16_73_0 : ∀ a, (![73, 0] : Fin 2 → Nat) a + S1x16.size a ≤ S128x64.size a
  inb_S128x64_S1x16_73_16 : ∀ a, (![73, 16] : Fin 2 → Nat) a + S1x16.size a ≤ S128x64.size a
  inb_S128x64_S1x16_73_32 : ∀ a, (![73, 32] : Fin 2 → Nat) a + S1x16.size a ≤ S128x64.size a
  inb_S128x64_S1x16_73_48 : ∀ a, (![73, 48] : Fin 2 → Nat) a + S1x16.size a ≤ S128x64.size a
  inb_S128x64_S1x16_74_0 : ∀ a, (![74, 0] : Fin 2 → Nat) a + S1x16.size a ≤ S128x64.size a
  inb_S128x64_S1x16_74_16 : ∀ a, (![74, 16] : Fin 2 → Nat) a + S1x16.size a ≤ S128x64.size a
  inb_S128x64_S1x16_74_32 : ∀ a, (![74, 32] : Fin 2 → Nat) a + S1x16.size a ≤ S128x64.size a
  inb_S128x64_S1x16_74_48 : ∀ a, (![74, 48] : Fin 2 → Nat) a + S1x16.size a ≤ S128x64.size a
  inb_S128x64_S1x16_75_0 : ∀ a, (![75, 0] : Fin 2 → Nat) a + S1x16.size a ≤ S128x64.size a
  inb_S128x64_S1x16_75_16 : ∀ a, (![75, 16] : Fin 2 → Nat) a + S1x16.size a ≤ S128x64.size a
  inb_S128x64_S1x16_75_32 : ∀ a, (![75, 32] : Fin 2 → Nat) a + S1x16.size a ≤ S128x64.size a
  inb_S128x64_S1x16_75_48 : ∀ a, (![75, 48] : Fin 2 → Nat) a + S1x16.size a ≤ S128x64.size a
  inb_S128x64_S1x16_76_0 : ∀ a, (![76, 0] : Fin 2 → Nat) a + S1x16.size a ≤ S128x64.size a
  inb_S128x64_S1x16_76_16 : ∀ a, (![76, 16] : Fin 2 → Nat) a + S1x16.size a ≤ S128x64.size a
  inb_S128x64_S1x16_76_32 : ∀ a, (![76, 32] : Fin 2 → Nat) a + S1x16.size a ≤ S128x64.size a
  inb_S128x64_S1x16_76_48 : ∀ a, (![76, 48] : Fin 2 → Nat) a + S1x16.size a ≤ S128x64.size a
  inb_S128x64_S1x16_77_0 : ∀ a, (![77, 0] : Fin 2 → Nat) a + S1x16.size a ≤ S128x64.size a
  inb_S128x64_S1x16_77_16 : ∀ a, (![77, 16] : Fin 2 → Nat) a + S1x16.size a ≤ S128x64.size a
  inb_S128x64_S1x16_77_32 : ∀ a, (![77, 32] : Fin 2 → Nat) a + S1x16.size a ≤ S128x64.size a
  inb_S128x64_S1x16_77_48 : ∀ a, (![77, 48] : Fin 2 → Nat) a + S1x16.size a ≤ S128x64.size a
  inb_S128x64_S1x16_78_0 : ∀ a, (![78, 0] : Fin 2 → Nat) a + S1x16.size a ≤ S128x64.size a
  inb_S128x64_S1x16_78_16 : ∀ a, (![78, 16] : Fin 2 → Nat) a + S1x16.size a ≤ S128x64.size a
  inb_S128x64_S1x16_78_32 : ∀ a, (![78, 32] : Fin 2 → Nat) a + S1x16.size a ≤ S128x64.size a
  inb_S128x64_S1x16_78_48 : ∀ a, (![78, 48] : Fin 2 → Nat) a + S1x16.size a ≤ S128x64.size a
  inb_S128x64_S1x16_79_0 : ∀ a, (![79, 0] : Fin 2 → Nat) a + S1x16.size a ≤ S128x64.size a
  inb_S128x64_S1x16_79_16 : ∀ a, (![79, 16] : Fin 2 → Nat) a + S1x16.size a ≤ S128x64.size a
  inb_S128x64_S1x16_79_32 : ∀ a, (![79, 32] : Fin 2 → Nat) a + S1x16.size a ≤ S128x64.size a
  inb_S128x64_S1x16_79_48 : ∀ a, (![79, 48] : Fin 2 → Nat) a + S1x16.size a ≤ S128x64.size a
  inb_S128x64_S1x16_80_0 : ∀ a, (![80, 0] : Fin 2 → Nat) a + S1x16.size a ≤ S128x64.size a
  inb_S128x64_S1x16_80_16 : ∀ a, (![80, 16] : Fin 2 → Nat) a + S1x16.size a ≤ S128x64.size a
  inb_S128x64_S1x16_80_32 : ∀ a, (![80, 32] : Fin 2 → Nat) a + S1x16.size a ≤ S128x64.size a
  inb_S128x64_S1x16_80_48 : ∀ a, (![80, 48] : Fin 2 → Nat) a + S1x16.size a ≤ S128x64.size a
  inb_S128x64_S1x16_81_0 : ∀ a, (![81, 0] : Fin 2 → Nat) a + S1x16.size a ≤ S128x64.size a
  inb_S128x64_S1x16_81_16 : ∀ a, (![81, 16] : Fin 2 → Nat) a + S1x16.size a ≤ S128x64.size a
  inb_S128x64_S1x16_81_32 : ∀ a, (![81, 32] : Fin 2 → Nat) a + S1x16.size a ≤ S128x64.size a
  inb_S128x64_S1x16_81_48 : ∀ a, (![81, 48] : Fin 2 → Nat) a + S1x16.size a ≤ S128x64.size a
  inb_S128x64_S1x16_82_0 : ∀ a, (![82, 0] : Fin 2 → Nat) a + S1x16.size a ≤ S128x64.size a
  inb_S128x64_S1x16_82_16 : ∀ a, (![82, 16] : Fin 2 → Nat) a + S1x16.size a ≤ S128x64.size a
  inb_S128x64_S1x16_82_32 : ∀ a, (![82, 32] : Fin 2 → Nat) a + S1x16.size a ≤ S128x64.size a
  inb_S128x64_S1x16_82_48 : ∀ a, (![82, 48] : Fin 2 → Nat) a + S1x16.size a ≤ S128x64.size a
  inb_S128x64_S1x16_83_0 : ∀ a, (![83, 0] : Fin 2 → Nat) a + S1x16.size a ≤ S128x64.size a
  inb_S128x64_S1x16_83_16 : ∀ a, (![83, 16] : Fin 2 → Nat) a + S1x16.size a ≤ S128x64.size a
  inb_S128x64_S1x16_83_32 : ∀ a, (![83, 32] : Fin 2 → Nat) a + S1x16.size a ≤ S128x64.size a
  inb_S128x64_S1x16_83_48 : ∀ a, (![83, 48] : Fin 2 → Nat) a + S1x16.size a ≤ S128x64.size a
  inb_S128x64_S1x16_84_0 : ∀ a, (![84, 0] : Fin 2 → Nat) a + S1x16.size a ≤ S128x64.size a
  inb_S128x64_S1x16_84_16 : ∀ a, (![84, 16] : Fin 2 → Nat) a + S1x16.size a ≤ S128x64.size a
  inb_S128x64_S1x16_84_32 : ∀ a, (![84, 32] : Fin 2 → Nat) a + S1x16.size a ≤ S128x64.size a
  inb_S128x64_S1x16_84_48 : ∀ a, (![84, 48] : Fin 2 → Nat) a + S1x16.size a ≤ S128x64.size a
  inb_S128x64_S1x16_85_0 : ∀ a, (![85, 0] : Fin 2 → Nat) a + S1x16.size a ≤ S128x64.size a
  inb_S128x64_S1x16_85_16 : ∀ a, (![85, 16] : Fin 2 → Nat) a + S1x16.size a ≤ S128x64.size a
  inb_S128x64_S1x16_85_32 : ∀ a, (![85, 32] : Fin 2 → Nat) a + S1x16.size a ≤ S128x64.size a
  inb_S128x64_S1x16_85_48 : ∀ a, (![85, 48] : Fin 2 → Nat) a + S1x16.size a ≤ S128x64.size a
  inb_S128x64_S1x16_86_0 : ∀ a, (![86, 0] : Fin 2 → Nat) a + S1x16.size a ≤ S128x64.size a
  inb_S128x64_S1x16_86_16 : ∀ a, (![86, 16] : Fin 2 → Nat) a + S1x16.size a ≤ S128x64.size a
  inb_S128x64_S1x16_86_32 : ∀ a, (![86, 32] : Fin 2 → Nat) a + S1x16.size a ≤ S128x64.size a
  inb_S128x64_S1x16_86_48 : ∀ a, (![86, 48] : Fin 2 → Nat) a + S1x16.size a ≤ S128x64.size a
  inb_S128x64_S1x16_87_0 : ∀ a, (![87, 0] : Fin 2 → Nat) a + S1x16.size a ≤ S128x64.size a
  inb_S128x64_S1x16_87_16 : ∀ a, (![87, 16] : Fin 2 → Nat) a + S1x16.size a ≤ S128x64.size a
  inb_S128x64_S1x16_87_32 : ∀ a, (![87, 32] : Fin 2 → Nat) a + S1x16.size a ≤ S128x64.size a
  inb_S128x64_S1x16_87_48 : ∀ a, (![87, 48] : Fin 2 → Nat) a + S1x16.size a ≤ S128x64.size a
  inb_S128x64_S1x16_88_0 : ∀ a, (![88, 0] : Fin 2 → Nat) a + S1x16.size a ≤ S128x64.size a
  inb_S128x64_S1x16_88_16 : ∀ a, (![88, 16] : Fin 2 → Nat) a + S1x16.size a ≤ S128x64.size a
  inb_S128x64_S1x16_88_32 : ∀ a, (![88, 32] : Fin 2 → Nat) a + S1x16.size a ≤ S128x64.size a
  inb_S128x64_S1x16_88_48 : ∀ a, (![88, 48] : Fin 2 → Nat) a + S1x16.size a ≤ S128x64.size a
  inb_S128x64_S1x16_89_0 : ∀ a, (![89, 0] : Fin 2 → Nat) a + S1x16.size a ≤ S128x64.size a
  inb_S128x64_S1x16_89_16 : ∀ a, (![89, 16] : Fin 2 → Nat) a + S1x16.size a ≤ S128x64.size a
  inb_S128x64_S1x16_89_32 : ∀ a, (![89, 32] : Fin 2 → Nat) a + S1x16.size a ≤ S128x64.size a
  inb_S128x64_S1x16_89_48 : ∀ a, (![89, 48] : Fin 2 → Nat) a + S1x16.size a ≤ S128x64.size a
  inb_S128x64_S1x16_90_0 : ∀ a, (![90, 0] : Fin 2 → Nat) a + S1x16.size a ≤ S128x64.size a
  inb_S128x64_S1x16_90_16 : ∀ a, (![90, 16] : Fin 2 → Nat) a + S1x16.size a ≤ S128x64.size a
  inb_S128x64_S1x16_90_32 : ∀ a, (![90, 32] : Fin 2 → Nat) a + S1x16.size a ≤ S128x64.size a
  inb_S128x64_S1x16_90_48 : ∀ a, (![90, 48] : Fin 2 → Nat) a + S1x16.size a ≤ S128x64.size a
  inb_S128x64_S1x16_91_0 : ∀ a, (![91, 0] : Fin 2 → Nat) a + S1x16.size a ≤ S128x64.size a
  inb_S128x64_S1x16_91_16 : ∀ a, (![91, 16] : Fin 2 → Nat) a + S1x16.size a ≤ S128x64.size a
  inb_S128x64_S1x16_91_32 : ∀ a, (![91, 32] : Fin 2 → Nat) a + S1x16.size a ≤ S128x64.size a
  inb_S128x64_S1x16_91_48 : ∀ a, (![91, 48] : Fin 2 → Nat) a + S1x16.size a ≤ S128x64.size a
  inb_S128x64_S1x16_92_0 : ∀ a, (![92, 0] : Fin 2 → Nat) a + S1x16.size a ≤ S128x64.size a
  inb_S128x64_S1x16_92_16 : ∀ a, (![92, 16] : Fin 2 → Nat) a + S1x16.size a ≤ S128x64.size a
  inb_S128x64_S1x16_92_32 : ∀ a, (![92, 32] : Fin 2 → Nat) a + S1x16.size a ≤ S128x64.size a
  inb_S128x64_S1x16_92_48 : ∀ a, (![92, 48] : Fin 2 → Nat) a + S1x16.size a ≤ S128x64.size a
  inb_S128x64_S1x16_93_0 : ∀ a, (![93, 0] : Fin 2 → Nat) a + S1x16.size a ≤ S128x64.size a
  inb_S128x64_S1x16_93_16 : ∀ a, (![93, 16] : Fin 2 → Nat) a + S1x16.size a ≤ S128x64.size a
  inb_S128x64_S1x16_93_32 : ∀ a, (![93, 32] : Fin 2 → Nat) a + S1x16.size a ≤ S128x64.size a
  inb_S128x64_S1x16_93_48 : ∀ a, (![93, 48] : Fin 2 → Nat) a + S1x16.size a ≤ S128x64.size a
  inb_S128x64_S1x16_94_0 : ∀ a, (![94, 0] : Fin 2 → Nat) a + S1x16.size a ≤ S128x64.size a
  inb_S128x64_S1x16_94_16 : ∀ a, (![94, 16] : Fin 2 → Nat) a + S1x16.size a ≤ S128x64.size a
  inb_S128x64_S1x16_94_32 : ∀ a, (![94, 32] : Fin 2 → Nat) a + S1x16.size a ≤ S128x64.size a
  inb_S128x64_S1x16_94_48 : ∀ a, (![94, 48] : Fin 2 → Nat) a + S1x16.size a ≤ S128x64.size a
  inb_S128x64_S1x16_95_0 : ∀ a, (![95, 0] : Fin 2 → Nat) a + S1x16.size a ≤ S128x64.size a
  inb_S128x64_S1x16_95_16 : ∀ a, (![95, 16] : Fin 2 → Nat) a + S1x16.size a ≤ S128x64.size a
  inb_S128x64_S1x16_95_32 : ∀ a, (![95, 32] : Fin 2 → Nat) a + S1x16.size a ≤ S128x64.size a
  inb_S128x64_S1x16_95_48 : ∀ a, (![95, 48] : Fin 2 → Nat) a + S1x16.size a ≤ S128x64.size a
  inb_S128x64_S1x16_96_0 : ∀ a, (![96, 0] : Fin 2 → Nat) a + S1x16.size a ≤ S128x64.size a
  inb_S128x64_S1x16_96_16 : ∀ a, (![96, 16] : Fin 2 → Nat) a + S1x16.size a ≤ S128x64.size a
  inb_S128x64_S1x16_96_32 : ∀ a, (![96, 32] : Fin 2 → Nat) a + S1x16.size a ≤ S128x64.size a
  inb_S128x64_S1x16_96_48 : ∀ a, (![96, 48] : Fin 2 → Nat) a + S1x16.size a ≤ S128x64.size a
  inb_S128x64_S1x16_97_0 : ∀ a, (![97, 0] : Fin 2 → Nat) a + S1x16.size a ≤ S128x64.size a
  inb_S128x64_S1x16_97_16 : ∀ a, (![97, 16] : Fin 2 → Nat) a + S1x16.size a ≤ S128x64.size a
  inb_S128x64_S1x16_97_32 : ∀ a, (![97, 32] : Fin 2 → Nat) a + S1x16.size a ≤ S128x64.size a
  inb_S128x64_S1x16_97_48 : ∀ a, (![97, 48] : Fin 2 → Nat) a + S1x16.size a ≤ S128x64.size a
  inb_S128x64_S1x16_98_0 : ∀ a, (![98, 0] : Fin 2 → Nat) a + S1x16.size a ≤ S128x64.size a
  inb_S128x64_S1x16_98_16 : ∀ a, (![98, 16] : Fin 2 → Nat) a + S1x16.size a ≤ S128x64.size a
  inb_S128x64_S1x16_98_32 : ∀ a, (![98, 32] : Fin 2 → Nat) a + S1x16.size a ≤ S128x64.size a
  inb_S128x64_S1x16_98_48 : ∀ a, (![98, 48] : Fin 2 → Nat) a + S1x16.size a ≤ S128x64.size a
  inb_S128x64_S1x16_99_0 : ∀ a, (![99, 0] : Fin 2 → Nat) a + S1x16.size a ≤ S128x64.size a
  inb_S128x64_S1x16_99_16 : ∀ a, (![99, 16] : Fin 2 → Nat) a + S1x16.size a ≤ S128x64.size a
  inb_S128x64_S1x16_99_32 : ∀ a, (![99, 32] : Fin 2 → Nat) a + S1x16.size a ≤ S128x64.size a
  inb_S128x64_S1x16_99_48 : ∀ a, (![99, 48] : Fin 2 → Nat) a + S1x16.size a ≤ S128x64.size a
  inb_S128x64_S1x16_100_0 : ∀ a, (![100, 0] : Fin 2 → Nat) a + S1x16.size a ≤ S128x64.size a
  inb_S128x64_S1x16_100_16 : ∀ a, (![100, 16] : Fin 2 → Nat) a + S1x16.size a ≤ S128x64.size a
  inb_S128x64_S1x16_100_32 : ∀ a, (![100, 32] : Fin 2 → Nat) a + S1x16.size a ≤ S128x64.size a
  inb_S128x64_S1x16_100_48 : ∀ a, (![100, 48] : Fin 2 → Nat) a + S1x16.size a ≤ S128x64.size a
  inb_S128x64_S1x16_101_0 : ∀ a, (![101, 0] : Fin 2 → Nat) a + S1x16.size a ≤ S128x64.size a
  inb_S128x64_S1x16_101_16 : ∀ a, (![101, 16] : Fin 2 → Nat) a + S1x16.size a ≤ S128x64.size a
  inb_S128x64_S1x16_101_32 : ∀ a, (![101, 32] : Fin 2 → Nat) a + S1x16.size a ≤ S128x64.size a
  inb_S128x64_S1x16_101_48 : ∀ a, (![101, 48] : Fin 2 → Nat) a + S1x16.size a ≤ S128x64.size a
  inb_S128x64_S1x16_102_0 : ∀ a, (![102, 0] : Fin 2 → Nat) a + S1x16.size a ≤ S128x64.size a
  inb_S128x64_S1x16_102_16 : ∀ a, (![102, 16] : Fin 2 → Nat) a + S1x16.size a ≤ S128x64.size a
  inb_S128x64_S1x16_102_32 : ∀ a, (![102, 32] : Fin 2 → Nat) a + S1x16.size a ≤ S128x64.size a
  inb_S128x64_S1x16_102_48 : ∀ a, (![102, 48] : Fin 2 → Nat) a + S1x16.size a ≤ S128x64.size a
  inb_S128x64_S1x16_103_0 : ∀ a, (![103, 0] : Fin 2 → Nat) a + S1x16.size a ≤ S128x64.size a
  inb_S128x64_S1x16_103_16 : ∀ a, (![103, 16] : Fin 2 → Nat) a + S1x16.size a ≤ S128x64.size a
  inb_S128x64_S1x16_103_32 : ∀ a, (![103, 32] : Fin 2 → Nat) a + S1x16.size a ≤ S128x64.size a
  inb_S128x64_S1x16_103_48 : ∀ a, (![103, 48] : Fin 2 → Nat) a + S1x16.size a ≤ S128x64.size a
  inb_S128x64_S1x16_104_0 : ∀ a, (![104, 0] : Fin 2 → Nat) a + S1x16.size a ≤ S128x64.size a
  inb_S128x64_S1x16_104_16 : ∀ a, (![104, 16] : Fin 2 → Nat) a + S1x16.size a ≤ S128x64.size a
  inb_S128x64_S1x16_104_32 : ∀ a, (![104, 32] : Fin 2 → Nat) a + S1x16.size a ≤ S128x64.size a
  inb_S128x64_S1x16_104_48 : ∀ a, (![104, 48] : Fin 2 → Nat) a + S1x16.size a ≤ S128x64.size a
  inb_S128x64_S1x16_105_0 : ∀ a, (![105, 0] : Fin 2 → Nat) a + S1x16.size a ≤ S128x64.size a
  inb_S128x64_S1x16_105_16 : ∀ a, (![105, 16] : Fin 2 → Nat) a + S1x16.size a ≤ S128x64.size a
  inb_S128x64_S1x16_105_32 : ∀ a, (![105, 32] : Fin 2 → Nat) a + S1x16.size a ≤ S128x64.size a
  inb_S128x64_S1x16_105_48 : ∀ a, (![105, 48] : Fin 2 → Nat) a + S1x16.size a ≤ S128x64.size a
  inb_S128x64_S1x16_106_0 : ∀ a, (![106, 0] : Fin 2 → Nat) a + S1x16.size a ≤ S128x64.size a
  inb_S128x64_S1x16_106_16 : ∀ a, (![106, 16] : Fin 2 → Nat) a + S1x16.size a ≤ S128x64.size a
  inb_S128x64_S1x16_106_32 : ∀ a, (![106, 32] : Fin 2 → Nat) a + S1x16.size a ≤ S128x64.size a
  inb_S128x64_S1x16_106_48 : ∀ a, (![106, 48] : Fin 2 → Nat) a + S1x16.size a ≤ S128x64.size a
  inb_S128x64_S1x16_107_0 : ∀ a, (![107, 0] : Fin 2 → Nat) a + S1x16.size a ≤ S128x64.size a
  inb_S128x64_S1x16_107_16 : ∀ a, (![107, 16] : Fin 2 → Nat) a + S1x16.size a ≤ S128x64.size a
  inb_S128x64_S1x16_107_32 : ∀ a, (![107, 32] : Fin 2 → Nat) a + S1x16.size a ≤ S128x64.size a
  inb_S128x64_S1x16_107_48 : ∀ a, (![107, 48] : Fin 2 → Nat) a + S1x16.size a ≤ S128x64.size a
  inb_S128x64_S1x16_108_0 : ∀ a, (![108, 0] : Fin 2 → Nat) a + S1x16.size a ≤ S128x64.size a
  inb_S128x64_S1x16_108_16 : ∀ a, (![108, 16] : Fin 2 → Nat) a + S1x16.size a ≤ S128x64.size a
  inb_S128x64_S1x16_108_32 : ∀ a, (![108, 32] : Fin 2 → Nat) a + S1x16.size a ≤ S128x64.size a
  inb_S128x64_S1x16_108_48 : ∀ a, (![108, 48] : Fin 2 → Nat) a + S1x16.size a ≤ S128x64.size a
  inb_S128x64_S1x16_109_0 : ∀ a, (![109, 0] : Fin 2 → Nat) a + S1x16.size a ≤ S128x64.size a
  inb_S128x64_S1x16_109_16 : ∀ a, (![109, 16] : Fin 2 → Nat) a + S1x16.size a ≤ S128x64.size a
  inb_S128x64_S1x16_109_32 : ∀ a, (![109, 32] : Fin 2 → Nat) a + S1x16.size a ≤ S128x64.size a
  inb_S128x64_S1x16_109_48 : ∀ a, (![109, 48] : Fin 2 → Nat) a + S1x16.size a ≤ S128x64.size a
  inb_S128x64_S1x16_110_0 : ∀ a, (![110, 0] : Fin 2 → Nat) a + S1x16.size a ≤ S128x64.size a
  inb_S128x64_S1x16_110_16 : ∀ a, (![110, 16] : Fin 2 → Nat) a + S1x16.size a ≤ S128x64.size a
  inb_S128x64_S1x16_110_32 : ∀ a, (![110, 32] : Fin 2 → Nat) a + S1x16.size a ≤ S128x64.size a
  inb_S128x64_S1x16_110_48 : ∀ a, (![110, 48] : Fin 2 → Nat) a + S1x16.size a ≤ S128x64.size a
  inb_S128x64_S1x16_111_0 : ∀ a, (![111, 0] : Fin 2 → Nat) a + S1x16.size a ≤ S128x64.size a
  inb_S128x64_S1x16_111_16 : ∀ a, (![111, 16] : Fin 2 → Nat) a + S1x16.size a ≤ S128x64.size a
  inb_S128x64_S1x16_111_32 : ∀ a, (![111, 32] : Fin 2 → Nat) a + S1x16.size a ≤ S128x64.size a
  inb_S128x64_S1x16_111_48 : ∀ a, (![111, 48] : Fin 2 → Nat) a + S1x16.size a ≤ S128x64.size a
  inb_S128x64_S1x16_112_0 : ∀ a, (![112, 0] : Fin 2 → Nat) a + S1x16.size a ≤ S128x64.size a
  inb_S128x64_S1x16_112_16 : ∀ a, (![112, 16] : Fin 2 → Nat) a + S1x16.size a ≤ S128x64.size a
  inb_S128x64_S1x16_112_32 : ∀ a, (![112, 32] : Fin 2 → Nat) a + S1x16.size a ≤ S128x64.size a
  inb_S128x64_S1x16_112_48 : ∀ a, (![112, 48] : Fin 2 → Nat) a + S1x16.size a ≤ S128x64.size a
  inb_S128x64_S1x16_113_0 : ∀ a, (![113, 0] : Fin 2 → Nat) a + S1x16.size a ≤ S128x64.size a
  inb_S128x64_S1x16_113_16 : ∀ a, (![113, 16] : Fin 2 → Nat) a + S1x16.size a ≤ S128x64.size a
  inb_S128x64_S1x16_113_32 : ∀ a, (![113, 32] : Fin 2 → Nat) a + S1x16.size a ≤ S128x64.size a
  inb_S128x64_S1x16_113_48 : ∀ a, (![113, 48] : Fin 2 → Nat) a + S1x16.size a ≤ S128x64.size a
  inb_S128x64_S1x16_114_0 : ∀ a, (![114, 0] : Fin 2 → Nat) a + S1x16.size a ≤ S128x64.size a
  inb_S128x64_S1x16_114_16 : ∀ a, (![114, 16] : Fin 2 → Nat) a + S1x16.size a ≤ S128x64.size a
  inb_S128x64_S1x16_114_32 : ∀ a, (![114, 32] : Fin 2 → Nat) a + S1x16.size a ≤ S128x64.size a
  inb_S128x64_S1x16_114_48 : ∀ a, (![114, 48] : Fin 2 → Nat) a + S1x16.size a ≤ S128x64.size a
  inb_S128x64_S1x16_115_0 : ∀ a, (![115, 0] : Fin 2 → Nat) a + S1x16.size a ≤ S128x64.size a
  inb_S128x64_S1x16_115_16 : ∀ a, (![115, 16] : Fin 2 → Nat) a + S1x16.size a ≤ S128x64.size a
  inb_S128x64_S1x16_115_32 : ∀ a, (![115, 32] : Fin 2 → Nat) a + S1x16.size a ≤ S128x64.size a
  inb_S128x64_S1x16_115_48 : ∀ a, (![115, 48] : Fin 2 → Nat) a + S1x16.size a ≤ S128x64.size a
  inb_S128x64_S1x16_116_0 : ∀ a, (![116, 0] : Fin 2 → Nat) a + S1x16.size a ≤ S128x64.size a
  inb_S128x64_S1x16_116_16 : ∀ a, (![116, 16] : Fin 2 → Nat) a + S1x16.size a ≤ S128x64.size a
  inb_S128x64_S1x16_116_32 : ∀ a, (![116, 32] : Fin 2 → Nat) a + S1x16.size a ≤ S128x64.size a
  inb_S128x64_S1x16_116_48 : ∀ a, (![116, 48] : Fin 2 → Nat) a + S1x16.size a ≤ S128x64.size a
  inb_S128x64_S1x16_117_0 : ∀ a, (![117, 0] : Fin 2 → Nat) a + S1x16.size a ≤ S128x64.size a
  inb_S128x64_S1x16_117_16 : ∀ a, (![117, 16] : Fin 2 → Nat) a + S1x16.size a ≤ S128x64.size a
  inb_S128x64_S1x16_117_32 : ∀ a, (![117, 32] : Fin 2 → Nat) a + S1x16.size a ≤ S128x64.size a
  inb_S128x64_S1x16_117_48 : ∀ a, (![117, 48] : Fin 2 → Nat) a + S1x16.size a ≤ S128x64.size a
  inb_S128x64_S1x16_118_0 : ∀ a, (![118, 0] : Fin 2 → Nat) a + S1x16.size a ≤ S128x64.size a
  inb_S128x64_S1x16_118_16 : ∀ a, (![118, 16] : Fin 2 → Nat) a + S1x16.size a ≤ S128x64.size a
  inb_S128x64_S1x16_118_32 : ∀ a, (![118, 32] : Fin 2 → Nat) a + S1x16.size a ≤ S128x64.size a
  inb_S128x64_S1x16_118_48 : ∀ a, (![118, 48] : Fin 2 → Nat) a + S1x16.size a ≤ S128x64.size a
  inb_S128x64_S1x16_119_0 : ∀ a, (![119, 0] : Fin 2 → Nat) a + S1x16.size a ≤ S128x64.size a
  inb_S128x64_S1x16_119_16 : ∀ a, (![119, 16] : Fin 2 → Nat) a + S1x16.size a ≤ S128x64.size a
  inb_S128x64_S1x16_119_32 : ∀ a, (![119, 32] : Fin 2 → Nat) a + S1x16.size a ≤ S128x64.size a
  inb_S128x64_S1x16_119_48 : ∀ a, (![119, 48] : Fin 2 → Nat) a + S1x16.size a ≤ S128x64.size a
  inb_S128x64_S1x16_120_0 : ∀ a, (![120, 0] : Fin 2 → Nat) a + S1x16.size a ≤ S128x64.size a
  inb_S128x64_S1x16_120_16 : ∀ a, (![120, 16] : Fin 2 → Nat) a + S1x16.size a ≤ S128x64.size a
  inb_S128x64_S1x16_120_32 : ∀ a, (![120, 32] : Fin 2 → Nat) a + S1x16.size a ≤ S128x64.size a
  inb_S128x64_S1x16_120_48 : ∀ a, (![120, 48] : Fin 2 → Nat) a + S1x16.size a ≤ S128x64.size a
  inb_S128x64_S1x16_121_0 : ∀ a, (![121, 0] : Fin 2 → Nat) a + S1x16.size a ≤ S128x64.size a
  inb_S128x64_S1x16_121_16 : ∀ a, (![121, 16] : Fin 2 → Nat) a + S1x16.size a ≤ S128x64.size a
  inb_S128x64_S1x16_121_32 : ∀ a, (![121, 32] : Fin 2 → Nat) a + S1x16.size a ≤ S128x64.size a
  inb_S128x64_S1x16_121_48 : ∀ a, (![121, 48] : Fin 2 → Nat) a + S1x16.size a ≤ S128x64.size a
  inb_S128x64_S1x16_122_0 : ∀ a, (![122, 0] : Fin 2 → Nat) a + S1x16.size a ≤ S128x64.size a
  inb_S128x64_S1x16_122_16 : ∀ a, (![122, 16] : Fin 2 → Nat) a + S1x16.size a ≤ S128x64.size a
  inb_S128x64_S1x16_122_32 : ∀ a, (![122, 32] : Fin 2 → Nat) a + S1x16.size a ≤ S128x64.size a
  inb_S128x64_S1x16_122_48 : ∀ a, (![122, 48] : Fin 2 → Nat) a + S1x16.size a ≤ S128x64.size a
  inb_S128x64_S1x16_123_0 : ∀ a, (![123, 0] : Fin 2 → Nat) a + S1x16.size a ≤ S128x64.size a
  inb_S128x64_S1x16_123_16 : ∀ a, (![123, 16] : Fin 2 → Nat) a + S1x16.size a ≤ S128x64.size a
  inb_S128x64_S1x16_123_32 : ∀ a, (![123, 32] : Fin 2 → Nat) a + S1x16.size a ≤ S128x64.size a
  inb_S128x64_S1x16_123_48 : ∀ a, (![123, 48] : Fin 2 → Nat) a + S1x16.size a ≤ S128x64.size a
  inb_S128x64_S1x16_124_0 : ∀ a, (![124, 0] : Fin 2 → Nat) a + S1x16.size a ≤ S128x64.size a
  inb_S128x64_S1x16_124_16 : ∀ a, (![124, 16] : Fin 2 → Nat) a + S1x16.size a ≤ S128x64.size a
  inb_S128x64_S1x16_124_32 : ∀ a, (![124, 32] : Fin 2 → Nat) a + S1x16.size a ≤ S128x64.size a
  inb_S128x64_S1x16_124_48 : ∀ a, (![124, 48] : Fin 2 → Nat) a + S1x16.size a ≤ S128x64.size a
  inb_S128x64_S1x16_125_0 : ∀ a, (![125, 0] : Fin 2 → Nat) a + S1x16.size a ≤ S128x64.size a
  inb_S128x64_S1x16_125_16 : ∀ a, (![125, 16] : Fin 2 → Nat) a + S1x16.size a ≤ S128x64.size a
  inb_S128x64_S1x16_125_32 : ∀ a, (![125, 32] : Fin 2 → Nat) a + S1x16.size a ≤ S128x64.size a
  inb_S128x64_S1x16_125_48 : ∀ a, (![125, 48] : Fin 2 → Nat) a + S1x16.size a ≤ S128x64.size a
  inb_S128x64_S1x16_126_0 : ∀ a, (![126, 0] : Fin 2 → Nat) a + S1x16.size a ≤ S128x64.size a
  inb_S128x64_S1x16_126_16 : ∀ a, (![126, 16] : Fin 2 → Nat) a + S1x16.size a ≤ S128x64.size a
  inb_S128x64_S1x16_126_32 : ∀ a, (![126, 32] : Fin 2 → Nat) a + S1x16.size a ≤ S128x64.size a
  inb_S128x64_S1x16_126_48 : ∀ a, (![126, 48] : Fin 2 → Nat) a + S1x16.size a ≤ S128x64.size a
  inb_S128x64_S1x16_127_0 : ∀ a, (![127, 0] : Fin 2 → Nat) a + S1x16.size a ≤ S128x64.size a
  inb_S128x64_S1x16_127_16 : ∀ a, (![127, 16] : Fin 2 → Nat) a + S1x16.size a ≤ S128x64.size a
  inb_S128x64_S1x16_127_32 : ∀ a, (![127, 32] : Fin 2 → Nat) a + S1x16.size a ≤ S128x64.size a
  inb_S128x64_S1x16_127_48 : ∀ a, (![127, 48] : Fin 2 → Nat) a + S1x16.size a ≤ S128x64.size a
  inb_S2x128x64_S1x128x64_0_0_0 : ∀ a, (![0, 0, 0] : Fin 3 → Nat) a + S1x128x64.size a ≤ S2x128x64.size a
  inb_S2_S1_0 : ∀ a, (![0] : Fin 1 → Nat) a + S1.size a ≤ S2.size a
  inb_S2x128x64_S1x128x64_1_0_0 : ∀ a, (![1, 0, 0] : Fin 3 → Nat) a + S1x128x64.size a ≤ S2x128x64.size a
  inb_S2_S1_1 : ∀ a, (![1] : Fin 1 → Nat) a + S1.size a ≤ S2.size a
  transposes_S50x16384x64_S16384x50x64_1_0_2 : S50x16384x64.Transposes [1, 0, 2] S16384x50x64
  hcc1_scratch4 : 4 + S10.numel ≤ 21
  hcc1_scratch5 : 14 + S5.numel ≤ 21
  hcc1_scratch6 : 19 + S2.numel ≤ 21
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x32768.size a < S64x1000000.size a
  hwx0_0 : ∀ i : grid0.Coords, EltTy.bits .f32 = 32 ∨ (Rect.unit (s := S64x1000000) (fun a => cc0_transform_0 i a * S64x32768.size a) (fun a => (Pipeline.Clip.of (cc0_transform_0 i a) (S64x32768.size a) (S64x1000000.size a)).extent (S64x32768.size a)) fun a => Pipeline.Clip.inb (Pipeline.Clip.ok_of (hstart0_0 i a))).WholeWords (EltTy.packing .f32)
  hwxs0_0 : ∀ i : grid0.Coords, EltTy.bits .f32 = 32 ∨ (Rect.unit (s := S64x32768) (fun _ => 0) (fun a => (Pipeline.Clip.of (cc0_transform_0 i a) (S64x32768.size a) (S64x1000000.size a)).extent (S64x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S507904x128.size a
  hwx0_1 : ∀ i : grid0.Coords, EltTy.bits .f32 = 32 ∨ (Rect.block (s := S507904x128) S16384x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ (r : Fin 5), ∀ a, (k1_off1 i (BitVec.ofNat 32 r.val)) a + S1x128.size a ≤ S50x16384.size a
  k1_t1_ok : k1_t1_loop.OK
  k1_off2_inb : ∀ k1_t1 : Fin k1_t1_loop.trips, ∀ (k1_h1 : k1_cond1 k1_t1 = 1#1), ∀ a, (k1_off2 k1_t1) a + S1x128.size a ≤ S10x128.size a
  k1_off3_inb : ∀ (i : grid1.Coords) (k1_t1 : Fin k1_t1_loop.trips), ∀ (k1_h1 : k1_cond1 k1_t1 = 1#1), ∀ a, (k1_off3 i k1_t1) a + S1x128.size a ≤ S50x16384.size a
  k1_off4_inb : ∀ k1_t1 : Fin k1_t1_loop.trips, ∀ (k1_h1 : k1_cond1 k1_t1 = 1#1), ∀ a, (k1_off4 k1_t1) a + S1.size a ≤ S10.size a
  k1_off5_inb : ∀ k1_t1 : Fin k1_t1_loop.trips, ∀ (k1_h1 : k1_cond1 k1_t1 = 1#1), ∀ a, (k1_off5 k1_t1) a + S1x16.size a ≤ S10x128.size a
  k1_off6_inb : ∀ k1_t1 : Fin k1_t1_loop.trips, ∀ (k1_h1 : k1_cond1 k1_t1 = 1#1), ∀ a, (k1_off6 k1_t1) a + S1x16.size a ≤ S5x128.size a
  k1_off7_inb : ∀ k1_t1 : Fin k1_t1_loop.trips, ∀ (k1_h1 : k1_cond1 k1_t1 = 1#1), ∀ a, (k1_off7 k1_t1) a + S1x16.size a ≤ S10x128.size a
  k1_off8_inb : ∀ k1_t1 : Fin k1_t1_loop.trips, ∀ (k1_h1 : k1_cond1 k1_t1 = 1#1), ∀ a, (k1_off8 k1_t1) a + S1x16.size a ≤ S5x128.size a
  k1_off9_inb : ∀ k1_t1 : Fin k1_t1_loop.trips, ∀ (k1_h1 : k1_cond1 k1_t1 = 1#1), ∀ a, (k1_off9 k1_t1) a + S1x16.size a ≤ S10x128.size a
  k1_off10_inb : ∀ k1_t1 : Fin k1_t1_loop.trips, ∀ (k1_h1 : k1_cond1 k1_t1 = 1#1), ∀ a, (k1_off10 k1_t1) a + S1x16.size a ≤ S5x128.size a
  k1_off11_inb : ∀ k1_t1 : Fin k1_t1_loop.trips, ∀ (k1_h1 : k1_cond1 k1_t1 = 1#1), ∀ a, (k1_off11 k1_t1) a + S1x16.size a ≤ S10x128.size a
  k1_off12_inb : ∀ k1_t1 : Fin k1_t1_loop.trips, ∀ (k1_h1 : k1_cond1 k1_t1 = 1#1), ∀ a, (k1_off12 k1_t1) a + S1x16.size a ≤ S5x128.size a
  k1_off13_inb : ∀ k1_t1 : Fin k1_t1_loop.trips, ∀ (k1_h1 : k1_cond1 k1_t1 = 1#1), ∀ a, (k1_off13 k1_t1) a + S1x16.size a ≤ S10x128.size a
  k1_off14_inb : ∀ k1_t1 : Fin k1_t1_loop.trips, ∀ (k1_h1 : k1_cond1 k1_t1 = 1#1), ∀ a, (k1_off14 k1_t1) a + S1x16.size a ≤ S5x128.size a
  k1_off15_inb : ∀ k1_t1 : Fin k1_t1_loop.trips, ∀ (k1_h1 : k1_cond1 k1_t1 = 1#1), ∀ a, (k1_off15 k1_t1) a + S1x16.size a ≤ S10x128.size a
  k1_off16_inb : ∀ k1_t1 : Fin k1_t1_loop.trips, ∀ (k1_h1 : k1_cond1 k1_t1 = 1#1), ∀ a, (k1_off16 k1_t1) a + S1x16.size a ≤ S5x128.size a
  k1_off17_inb : ∀ k1_t1 : Fin k1_t1_loop.trips, ∀ (k1_h1 : k1_cond1 k1_t1 = 1#1), ∀ a, (k1_off17 k1_t1) a + S1x16.size a ≤ S10x128.size a
  k1_off18_inb : ∀ k1_t1 : Fin k1_t1_loop.trips, ∀ (k1_h1 : k1_cond1 k1_t1 = 1#1), ∀ a, (k1_off18 k1_t1) a + S1x16.size a ≤ S5x128.size a
  k1_off19_inb : ∀ k1_t1 : Fin k1_t1_loop.trips, ∀ (k1_h1 : k1_cond1 k1_t1 = 1#1), ∀ a, (k1_off19 k1_t1) a + S1x16.size a ≤ S10x128.size a
  k1_off20_inb : ∀ k1_t1 : Fin k1_t1_loop.trips, ∀ (k1_h1 : k1_cond1 k1_t1 = 1#1), ∀ a, (k1_off20 k1_t1) a + S1x16.size a ≤ S5x128.size a
  k1_off21_inb : ∀ k1_t1 : Fin k1_t1_loop.trips, ∀ (k1_h1 : k1_cond1 k1_t1 = 1#1), ∀ a, (k1_off21 k1_t1) a + S1x128x128.size a ≤ S5x128x128.size a
  k1_off22_inb : ∀ k1_t1 : Fin k1_t1_loop.trips, ∀ (k1_h1 : k1_cond1 k1_t1 = 1#1), ∀ a, (k1_off22 k1_t1) a + S1x128.size a ≤ S5x128.size a
  k1_off23_inb : ∀ k1_t1 : Fin k1_t1_loop.trips, ∀ (k1_h1 : k1_cond1 k1_t1 = 1#1), ∀ a, (k1_off23 k1_t1) a + S1.size a ≤ S5.size a
  k1_off24_inb : ∀ k1_t1 : Fin k1_t1_loop.trips, ∀ (k1_h1 : k1_cond1 k1_t1 = 1#1), ∀ (k1_h2 : k1_cond2 k1_t1 = 1#1), ∀ a, (k1_off24 k1_t1) a + S1x128.size a ≤ S10x128.size a
  k1_off25_inb : ∀ (i : grid1.Coords) (k1_t1 : Fin k1_t1_loop.trips), ∀ (k1_h1 : k1_cond1 k1_t1 = 1#1), ∀ (k1_h2 : k1_cond2 k1_t1 = 1#1), ∀ a, (k1_off25 i k1_t1) a + S1x128.size a ≤ S50x16384.size a
  k1_off26_inb : ∀ k1_t1 : Fin k1_t1_loop.trips, ∀ (k1_h1 : k1_cond1 k1_t1 = 1#1), ∀ (k1_h2 : k1_cond2 k1_t1 = 1#1), ∀ a, (k1_off26 k1_t1) a + S1.size a ≤ S10.size a
  k1_off27_inb : ∀ k1_t1 : Fin k1_t1_loop.trips, ∀ (k1_h3 : k1_cond3 k1_t1 = 1#1), ∀ a, (k1_off27 k1_t1) a + S1x128x128.size a ≤ S5x128x128.size a
  k1_off28_inb : ∀ k1_t1 : Fin k1_t1_loop.trips, ∀ (k1_h3 : k1_cond3 k1_t1 = 1#1), ∀ a, (k1_off28 k1_t1) a + S1x128.size a ≤ S5x128.size a
  k1_off29_inb : ∀ k1_t1 : Fin k1_t1_loop.trips, ∀ (k1_h3 : k1_cond3 k1_t1 = 1#1), ∀ a, (k1_off29 k1_t1) a + S1.size a ≤ S5.size a
  k1_off30_inb : ∀ k1_t1 : Fin k1_t1_loop.trips, ∀ (k1_h3 : k1_cond3 k1_t1 = 1#1), ∀ (k1_h4 : k1_cond4 k1_t1 = 1#1), ∀ a, (k1_off30 k1_t1) a + S1x128x64.size a ≤ S2x128x64.size a
  k1_off31_inb : ∀ (i : grid1.Coords) (k1_t1 : Fin k1_t1_loop.trips), ∀ (k1_h3 : k1_cond3 k1_t1 = 1#1), ∀ (k1_h4 : k1_cond4 k1_t1 = 1#1), ∀ a, (k1_off31 i k1_t1) a + S1x128x64.size a ≤ S50x16384x64.size a
  k1_off32_inb : ∀ k1_t1 : Fin k1_t1_loop.trips, ∀ (k1_h3 : k1_cond3 k1_t1 = 1#1), ∀ (k1_h4 : k1_cond4 k1_t1 = 1#1), ∀ a, (k1_off32 k1_t1) a + S1.size a ≤ S2.size a
  k1_off33_inb : ∀ k1_t1 : Fin k1_t1_loop.trips, ∀ (k1_h3 : k1_cond3 k1_t1 = 1#1), ∀ a, (k1_off33 k1_t1) a + S1x16.size a ≤ S10x128.size a
  k1_off35_inb : ∀ k1_t1 : Fin k1_t1_loop.trips, ∀ (k1_h3 : k1_cond3 k1_t1 = 1#1), ∀ a, (k1_off35 k1_t1) a + S1x128x64.size a ≤ S2x128x64.size a
  k1_off36_inb : ∀ k1_t1 : Fin k1_t1_loop.trips, ∀ (k1_h3 : k1_cond3 k1_t1 = 1#1), ∀ a, (k1_off36 k1_t1) a + S1x128x128.size a ≤ S5x128x128.size a
  k1_off38_inb : ∀ k1_t1 : Fin k1_t1_loop.trips, ∀ (k1_h3 : k1_cond3 k1_t1 = 1#1), ∀ a, (k1_off38 k1_t1) a + S1x128x64.size a ≤ S2x128x64.size a
  k1_off39_inb : ∀ k1_t1 : Fin k1_t1_loop.trips, ∀ (k1_h3 : k1_cond3 k1_t1 = 1#1), ∀ a, (k1_off39 k1_t1) a + S1x128x128.size a ≤ S5x128x128.size a
  k1_off41_inb : ∀ k1_t1 : Fin k1_t1_loop.trips, ∀ (k1_h3 : k1_cond3 k1_t1 = 1#1), ∀ a, (k1_off41 k1_t1) a + S1x128x64.size a ≤ S2x128x64.size a
  k1_off42_inb : ∀ k1_t1 : Fin k1_t1_loop.trips, ∀ (k1_h3 : k1_cond3 k1_t1 = 1#1), ∀ a, (k1_off42 k1_t1) a + S1x128x128.size a ≤ S5x128x128.size a
  k1_off44_inb : ∀ k1_t1 : Fin k1_t1_loop.trips, ∀ (k1_h3 : k1_cond3 k1_t1 = 1#1), ∀ a, (k1_off44 k1_t1) a + S1x128x64.size a ≤ S2x128x64.size a
  k1_off45_inb : ∀ k1_t1 : Fin k1_t1_loop.trips, ∀ (k1_h3 : k1_cond3 k1_t1 = 1#1), ∀ a, (k1_off45 k1_t1) a + S1x128x128.size a ≤ S5x128x128.size a
  k1_off47_inb : ∀ k1_t1 : Fin k1_t1_loop.trips, ∀ (k1_h3 : k1_cond3 k1_t1 = 1#1), ∀ a, (k1_off47 k1_t1) a + S1x128x64.size a ≤ S2x128x64.size a
  k1_off48_inb : ∀ k1_t1 : Fin k1_t1_loop.trips, ∀ (k1_h3 : k1_cond3 k1_t1 = 1#1), ∀ a, (k1_off48 k1_t1) a + S1x128x128.size a ≤ S5x128x128.size a
  k1_off50_inb : ∀ k1_t1 : Fin k1_t1_loop.trips, ∀ (k1_h3 : k1_cond3 k1_t1 = 1#1), ∀ a, (k1_off50 k1_t1) a + S1x128x64.size a ≤ S2x128x64.size a
  k1_off51_inb : ∀ k1_t1 : Fin k1_t1_loop.trips, ∀ (k1_h3 : k1_cond3 k1_t1 = 1#1), ∀ a, (k1_off51 k1_t1) a + S1x128x128.size a ≤ S5x128x128.size a
  k1_off53_inb : ∀ k1_t1 : Fin k1_t1_loop.trips, ∀ (k1_h3 : k1_cond3 k1_t1 = 1#1), ∀ a, (k1_off53 k1_t1) a + S1x128x64.size a ≤ S2x128x64.size a
  k1_off54_inb : ∀ k1_t1 : Fin k1_t1_loop.trips, ∀ (k1_h3 : k1_cond3 k1_t1 = 1#1), ∀ a, (k1_off54 k1_t1) a + S1x128x128.size a ≤ S5x128x128.size a
  k1_off56_inb : ∀ k1_t1 : Fin k1_t1_loop.trips, ∀ (k1_h3 : k1_cond3 k1_t1 = 1#1), ∀ a, (k1_off56 k1_t1) a + S1x128x64.size a ≤ S2x128x64.size a
  k1_off57_inb : ∀ k1_t1 : Fin k1_t1_loop.trips, ∀ (k1_h3 : k1_cond3 k1_t1 = 1#1), ∀ a, (k1_off57 k1_t1) a + S1x128x128.size a ≤ S5x128x128.size a
  k1_off59_inb : ∀ k1_t1 : Fin k1_t1_loop.trips, ∀ (k1_h3 : k1_cond3 k1_t1 = 1#1), ∀ a, (k1_off59 k1_t1) a + S1x128x64.size a ≤ S2x128x64.size a
  k1_off60_inb : ∀ k1_t1 : Fin k1_t1_loop.trips, ∀ (k1_h3 : k1_cond3 k1_t1 = 1#1), ∀ a, (k1_off60 k1_t1) a + S1x128x128.size a ≤ S5x128x128.size a
  k1_off62_inb : ∀ k1_t1 : Fin k1_t1_loop.trips, ∀ (k1_h3 : k1_cond3 k1_t1 = 1#1), ∀ a, (k1_off62 k1_t1) a + S1x128x64.size a ≤ S2x128x64.size a
  k1_off63_inb : ∀ k1_t1 : Fin k1_t1_loop.trips, ∀ (k1_h3 : k1_cond3 k1_t1 = 1#1), ∀ a, (k1_off63 k1_t1) a + S1x128x128.size a ≤ S5x128x128.size a
  k1_off65_inb : ∀ k1_t1 : Fin k1_t1_loop.trips, ∀ (k1_h3 : k1_cond3 k1_t1 = 1#1), ∀ a, (k1_off65 k1_t1) a + S1x128x64.size a ≤ S2x128x64.size a
  k1_off66_inb : ∀ k1_t1 : Fin k1_t1_loop.trips, ∀ (k1_h3 : k1_cond3 k1_t1 = 1#1), ∀ a, (k1_off66 k1_t1) a + S1x128x128.size a ≤ S5x128x128.size a
  k1_off68_inb : ∀ k1_t1 : Fin k1_t1_loop.trips, ∀ (k1_h3 : k1_cond3 k1_t1 = 1#1), ∀ a, (k1_off68 k1_t1) a + S1x128x64.size a ≤ S2x128x64.size a
  k1_off69_inb : ∀ k1_t1 : Fin k1_t1_loop.trips, ∀ (k1_h3 : k1_cond3 k1_t1 = 1#1), ∀ a, (k1_off69 k1_t1) a + S1x128x128.size a ≤ S5x128x128.size a
  k1_off71_inb : ∀ k1_t1 : Fin k1_t1_loop.trips, ∀ (k1_h3 : k1_cond3 k1_t1 = 1#1), ∀ a, (k1_off71 k1_t1) a + S1x128x64.size a ≤ S2x128x64.size a
  k1_off72_inb : ∀ k1_t1 : Fin k1_t1_loop.trips, ∀ (k1_h3 : k1_cond3 k1_t1 = 1#1), ∀ a, (k1_off72 k1_t1) a + S1x128x128.size a ≤ S5x128x128.size a
  k1_off74_inb : ∀ k1_t1 : Fin k1_t1_loop.trips, ∀ (k1_h3 : k1_cond3 k1_t1 = 1#1), ∀ a, (k1_off74 k1_t1) a + S1x128x64.size a ≤ S2x128x64.size a
  k1_off75_inb : ∀ k1_t1 : Fin k1_t1_loop.trips, ∀ (k1_h3 : k1_cond3 k1_t1 = 1#1), ∀ a, (k1_off75 k1_t1) a + S1x128x128.size a ≤ S5x128x128.size a
  k1_off77_inb : ∀ k1_t1 : Fin k1_t1_loop.trips, ∀ (k1_h3 : k1_cond3 k1_t1 = 1#1), ∀ a, (k1_off77 k1_t1) a + S1x128x64.size a ≤ S2x128x64.size a
  k1_off78_inb : ∀ k1_t1 : Fin k1_t1_loop.trips, ∀ (k1_h3 : k1_cond3 k1_t1 = 1#1), ∀ a, (k1_off78 k1_t1) a + S1x128x128.size a ≤ S5x128x128.size a
  k1_off80_inb : ∀ k1_t1 : Fin k1_t1_loop.trips, ∀ (k1_h3 : k1_cond3 k1_t1 = 1#1), ∀ a, (k1_off80 k1_t1) a + S1x128x64.size a ≤ S2x128x64.size a
  k1_off81_inb : ∀ k1_t1 : Fin k1_t1_loop.trips, ∀ (k1_h3 : k1_cond3 k1_t1 = 1#1), ∀ a, (k1_off81 k1_t1) a + S1x128x128.size a ≤ S5x128x128.size a
  k1_off82_inb : ∀ k1_t1 : Fin k1_t1_loop.trips, ∀ (k1_h3 : k1_cond3 k1_t1 = 1#1), ∀ a, (k1_off82 k1_t1) a + S1x16.size a ≤ S10x128.size a
  k1_off84_inb : ∀ k1_t1 : Fin k1_t1_loop.trips, ∀ (k1_h3 : k1_cond3 k1_t1 = 1#1), ∀ a, (k1_off84 k1_t1) a + S1x128x64.size a ≤ S2x128x64.size a
  k1_off85_inb : ∀ k1_t1 : Fin k1_t1_loop.trips, ∀ (k1_h3 : k1_cond3 k1_t1 = 1#1), ∀ a, (k1_off85 k1_t1) a + S1x128x128.size a ≤ S5x128x128.size a
  k1_off87_inb : ∀ k1_t1 : Fin k1_t1_loop.trips, ∀ (k1_h3 : k1_cond3 k1_t1 = 1#1), ∀ a, (k1_off87 k1_t1) a + S1x128x64.size a ≤ S2x128x64.size a
  k1_off88_inb : ∀ k1_t1 : Fin k1_t1_loop.trips, ∀ (k1_h3 : k1_cond3 k1_t1 = 1#1), ∀ a, (k1_off88 k1_t1) a + S1x128x128.size a ≤ S5x128x128.size a
  k1_off90_inb : ∀ k1_t1 : Fin k1_t1_loop.trips, ∀ (k1_h3 : k1_cond3 k1_t1 = 1#1), ∀ a, (k1_off90 k1_t1) a + S1x128x64.size a ≤ S2x128x64.size a
  k1_off91_inb : ∀ k1_t1 : Fin k1_t1_loop.trips, ∀ (k1_h3 : k1_cond3 k1_t1 = 1#1), ∀ a, (k1_off91 k1_t1) a + S1x128x128.size a ≤ S5x128x128.size a
  k1_off93_inb : ∀ k1_t1 : Fin k1_t1_loop.trips, ∀ (k1_h3 : k1_cond3 k1_t1 = 1#1), ∀ a, (k1_off93 k1_t1) a + S1x128x64.size a ≤ S2x128x64.size a
  k1_off94_inb : ∀ k1_t1 : Fin k1_t1_loop.trips, ∀ (k1_h3 : k1_cond3 k1_t1 = 1#1), ∀ a, (k1_off94 k1_t1) a + S1x128x128.size a ≤ S5x128x128.size a
  k1_off96_inb : ∀ k1_t1 : Fin k1_t1_loop.trips, ∀ (k1_h3 : k1_cond3 k1_t1 = 1#1), ∀ a, (k1_off96 k1_t1) a + S1x128x64.size a ≤ S2x128x64.size a
  k1_off97_inb : ∀ k1_t1 : Fin k1_t1_loop.trips, ∀ (k1_h3 : k1_cond3 k1_t1 = 1#1), ∀ a, (k1_off97 k1_t1) a + S1x128x128.size a ≤ S5x128x128.size a
  k1_off99_inb : ∀ k1_t1 : Fin k1_t1_loop.trips, ∀ (k1_h3 : k1_cond3 k1_t1 = 1#1), ∀ a, (k1_off99 k1_t1) a + S1x128x64.size a ≤ S2x128x64.size a
  k1_off100_inb : ∀ k1_t1 : Fin k1_t1_loop.trips, ∀ (k1_h3 : k1_cond3 k1_t1 = 1#1), ∀ a, (k1_off100 k1_t1) a + S1x128x128.size a ≤ S5x128x128.size a
  k1_off102_inb : ∀ k1_t1 : Fin k1_t1_loop.trips, ∀ (k1_h3 : k1_cond3 k1_t1 = 1#1), ∀ a, (k1_off102 k1_t1) a + S1x128x64.size a ≤ S2x128x64.size a
  k1_off103_inb : ∀ k1_t1 : Fin k1_t1_loop.trips, ∀ (k1_h3 : k1_cond3 k1_t1 = 1#1), ∀ a, (k1_off103 k1_t1) a + S1x128x128.size a ≤ S5x128x128.size a
  k1_off105_inb : ∀ k1_t1 : Fin k1_t1_loop.trips, ∀ (k1_h3 : k1_cond3 k1_t1 = 1#1), ∀ a, (k1_off105 k1_t1) a + S1x128x64.size a ≤ S2x128x64.size a
  k1_off106_inb : ∀ k1_t1 : Fin k1_t1_loop.trips, ∀ (k1_h3 : k1_cond3 k1_t1 = 1#1), ∀ a, (k1_off106 k1_t1) a + S1x128x128.size a ≤ S5x128x128.size a
  k1_off108_inb : ∀ k1_t1 : Fin k1_t1_loop.trips, ∀ (k1_h3 : k1_cond3 k1_t1 = 1#1), ∀ a, (k1_off108 k1_t1) a + S1x128x64.size a ≤ S2x128x64.size a
  k1_off109_inb : ∀ k1_t1 : Fin k1_t1_loop.trips, ∀ (k1_h3 : k1_cond3 k1_t1 = 1#1), ∀ a, (k1_off109 k1_t1) a + S1x128x128.size a ≤ S5x128x128.size a
  k1_off111_inb : ∀ k1_t1 : Fin k1_t1_loop.trips, ∀ (k1_h3 : k1_cond3 k1_t1 = 1#1), ∀ a, (k1_off111 k1_t1) a + S1x128x64.size a ≤ S2x128x64.size a
  k1_off112_inb : ∀ k1_t1 : Fin k1_t1_loop.trips, ∀ (k1_h3 : k1_cond3 k1_t1 = 1#1), ∀ a, (k1_off112 k1_t1) a + S1x128x128.size a ≤ S5x128x128.size a
  k1_off114_inb : ∀ k1_t1 : Fin k1_t1_loop.trips, ∀ (k1_h3 : k1_cond3 k1_t1 = 1#1), ∀ a, (k1_off114 k1_t1) a + S1x128x64.size a ≤ S2x128x64.size a
  k1_off115_inb : ∀ k1_t1 : Fin k1_t1_loop.trips, ∀ (k1_h3 : k1_cond3 k1_t1 = 1#1), ∀ a, (k1_off115 k1_t1) a + S1x128x128.size a ≤ S5x128x128.size a
  k1_off117_inb : ∀ k1_t1 : Fin k1_t1_loop.trips, ∀ (k1_h3 : k1_cond3 k1_t1 = 1#1), ∀ a, (k1_off117 k1_t1) a + S1x128x64.size a ≤ S2x128x64.size a
  k1_off118_inb : ∀ k1_t1 : Fin k1_t1_loop.trips, ∀ (k1_h3 : k1_cond3 k1_t1 = 1#1), ∀ a, (k1_off118 k1_t1) a + S1x128x128.size a ≤ S5x128x128.size a
  k1_off120_inb : ∀ k1_t1 : Fin k1_t1_loop.trips, ∀ (k1_h3 : k1_cond3 k1_t1 = 1#1), ∀ a, (k1_off120 k1_t1) a + S1x128x64.size a ≤ S2x128x64.size a
  k1_off121_inb : ∀ k1_t1 : Fin k1_t1_loop.trips, ∀ (k1_h3 : k1_cond3 k1_t1 = 1#1), ∀ a, (k1_off121 k1_t1) a + S1x128x128.size a ≤ S5x128x128.size a
  k1_off123_inb : ∀ k1_t1 : Fin k1_t1_loop.trips, ∀ (k1_h3 : k1_cond3 k1_t1 = 1#1), ∀ a, (k1_off123 k1_t1) a + S1x128x64.size a ≤ S2x128x64.size a
  k1_off124_inb : ∀ k1_t1 : Fin k1_t1_loop.trips, ∀ (k1_h3 : k1_cond3 k1_t1 = 1#1), ∀ a, (k1_off124 k1_t1) a + S1x128x128.size a ≤ S5x128x128.size a
  k1_off126_inb : ∀ k1_t1 : Fin k1_t1_loop.trips, ∀ (k1_h3 : k1_cond3 k1_t1 = 1#1), ∀ a, (k1_off126 k1_t1) a + S1x128x64.size a ≤ S2x128x64.size a
  k1_off127_inb : ∀ k1_t1 : Fin k1_t1_loop.trips, ∀ (k1_h3 : k1_cond3 k1_t1 = 1#1), ∀ a, (k1_off127 k1_t1) a + S1x128x128.size a ≤ S5x128x128.size a
  k1_off129_inb : ∀ k1_t1 : Fin k1_t1_loop.trips, ∀ (k1_h3 : k1_cond3 k1_t1 = 1#1), ∀ a, (k1_off129 k1_t1) a + S1x128x64.size a ≤ S2x128x64.size a
  k1_off130_inb : ∀ k1_t1 : Fin k1_t1_loop.trips, ∀ (k1_h3 : k1_cond3 k1_t1 = 1#1), ∀ a, (k1_off130 k1_t1) a + S1x128x128.size a ≤ S5x128x128.size a
  k1_off131_inb : ∀ k1_t1 : Fin k1_t1_loop.trips, ∀ (k1_h3 : k1_cond3 k1_t1 = 1#1), ∀ a, (k1_off131 k1_t1) a + S1x16.size a ≤ S10x128.size a
  k1_off133_inb : ∀ k1_t1 : Fin k1_t1_loop.trips, ∀ (k1_h3 : k1_cond3 k1_t1 = 1#1), ∀ a, (k1_off133 k1_t1) a + S1x128x64.size a ≤ S2x128x64.size a
  k1_off134_inb : ∀ k1_t1 : Fin k1_t1_loop.trips, ∀ (k1_h3 : k1_cond3 k1_t1 = 1#1), ∀ a, (k1_off134 k1_t1) a + S1x128x128.size a ≤ S5x128x128.size a
  k1_off136_inb : ∀ k1_t1 : Fin k1_t1_loop.trips, ∀ (k1_h3 : k1_cond3 k1_t1 = 1#1), ∀ a, (k1_off136 k1_t1) a + S1x128x64.size a ≤ S2x128x64.size a
  k1_off137_inb : ∀ k1_t1 : Fin k1_t1_loop.trips, ∀ (k1_h3 : k1_cond3 k1_t1 = 1#1), ∀ a, (k1_off137 k1_t1) a + S1x128x128.size a ≤ S5x128x128.size a
  k1_off139_inb : ∀ k1_t1 : Fin k1_t1_loop.trips, ∀ (k1_h3 : k1_cond3 k1_t1 = 1#1), ∀ a, (k1_off139 k1_t1) a + S1x128x64.size a ≤ S2x128x64.size a
  k1_off140_inb : ∀ k1_t1 : Fin k1_t1_loop.trips, ∀ (k1_h3 : k1_cond3 k1_t1 = 1#1), ∀ a, (k1_off140 k1_t1) a + S1x128x128.size a ≤ S5x128x128.size a
  k1_off142_inb : ∀ k1_t1 : Fin k1_t1_loop.trips, ∀ (k1_h3 : k1_cond3 k1_t1 = 1#1), ∀ a, (k1_off142 k1_t1) a + S1x128x64.size a ≤ S2x128x64.size a
  k1_off143_inb : ∀ k1_t1 : Fin k1_t1_loop.trips, ∀ (k1_h3 : k1_cond3 k1_t1 = 1#1), ∀ a, (k1_off143 k1_t1) a + S1x128x128.size a ≤ S5x128x128.size a
  k1_off145_inb : ∀ k1_t1 : Fin k1_t1_loop.trips, ∀ (k1_h3 : k1_cond3 k1_t1 = 1#1), ∀ a, (k1_off145 k1_t1) a + S1x128x64.size a ≤ S2x128x64.size a
  k1_off146_inb : ∀ k1_t1 : Fin k1_t1_loop.trips, ∀ (k1_h3 : k1_cond3 k1_t1 = 1#1), ∀ a, (k1_off146 k1_t1) a + S1x128x128.size a ≤ S5x128x128.size a
  k1_off148_inb : ∀ k1_t1 : Fin k1_t1_loop.trips, ∀ (k1_h3 : k1_cond3 k1_t1 = 1#1), ∀ a, (k1_off148 k1_t1) a + S1x128x64.size a ≤ S2x128x64.size a
  k1_off149_inb : ∀ k1_t1 : Fin k1_t1_loop.trips, ∀ (k1_h3 : k1_cond3 k1_t1 = 1#1), ∀ a, (k1_off149 k1_t1) a + S1x128x128.size a ≤ S5x128x128.size a
  k1_off151_inb : ∀ k1_t1 : Fin k1_t1_loop.trips, ∀ (k1_h3 : k1_cond3 k1_t1 = 1#1), ∀ a, (k1_off151 k1_t1) a + S1x128x64.size a ≤ S2x128x64.size a
  k1_off152_inb : ∀ k1_t1 : Fin k1_t1_loop.trips, ∀ (k1_h3 : k1_cond3 k1_t1 = 1#1), ∀ a, (k1_off152 k1_t1) a + S1x128x128.size a ≤ S5x128x128.size a
  k1_off154_inb : ∀ k1_t1 : Fin k1_t1_loop.trips, ∀ (k1_h3 : k1_cond3 k1_t1 = 1#1), ∀ a, (k1_off154 k1_t1) a + S1x128x64.size a ≤ S2x128x64.size a
  k1_off155_inb : ∀ k1_t1 : Fin k1_t1_loop.trips, ∀ (k1_h3 : k1_cond3 k1_t1 = 1#1), ∀ a, (k1_off155 k1_t1) a + S1x128x128.size a ≤ S5x128x128.size a
  k1_off157_inb : ∀ k1_t1 : Fin k1_t1_loop.trips, ∀ (k1_h3 : k1_cond3 k1_t1 = 1#1), ∀ a, (k1_off157 k1_t1) a + S1x128x64.size a ≤ S2x128x64.size a
  k1_off158_inb : ∀ k1_t1 : Fin k1_t1_loop.trips, ∀ (k1_h3 : k1_cond3 k1_t1 = 1#1), ∀ a, (k1_off158 k1_t1) a + S1x128x128.size a ≤ S5x128x128.size a
  k1_off160_inb : ∀ k1_t1 : Fin k1_t1_loop.trips, ∀ (k1_h3 : k1_cond3 k1_t1 = 1#1), ∀ a, (k1_off160 k1_t1) a + S1x128x64.size a ≤ S2x128x64.size a
  k1_off161_inb : ∀ k1_t1 : Fin k1_t1_loop.trips, ∀ (k1_h3 : k1_cond3 k1_t1 = 1#1), ∀ a, (k1_off161 k1_t1) a + S1x128x128.size a ≤ S5x128x128.size a
  k1_off163_inb : ∀ k1_t1 : Fin k1_t1_loop.trips, ∀ (k1_h3 : k1_cond3 k1_t1 = 1#1), ∀ a, (k1_off163 k1_t1) a + S1x128x64.size a ≤ S2x128x64.size a
  k1_off164_inb : ∀ k1_t1 : Fin k1_t1_loop.trips, ∀ (k1_h3 : k1_cond3 k1_t1 = 1#1), ∀ a, (k1_off164 k1_t1) a + S1x128x128.size a ≤ S5x128x128.size a
  k1_off166_inb : ∀ k1_t1 : Fin k1_t1_loop.trips, ∀ (k1_h3 : k1_cond3 k1_t1 = 1#1), ∀ a, (k1_off166 k1_t1) a + S1x128x64.size a ≤ S2x128x64.size a
  k1_off167_inb : ∀ k1_t1 : Fin k1_t1_loop.trips, ∀ (k1_h3 : k1_cond3 k1_t1 = 1#1), ∀ a, (k1_off167 k1_t1) a + S1x128x128.size a ≤ S5x128x128.size a
  k1_off169_inb : ∀ k1_t1 : Fin k1_t1_loop.trips, ∀ (k1_h3 : k1_cond3 k1_t1 = 1#1), ∀ a, (k1_off169 k1_t1) a + S1x128x64.size a ≤ S2x128x64.size a
  k1_off170_inb : ∀ k1_t1 : Fin k1_t1_loop.trips, ∀ (k1_h3 : k1_cond3 k1_t1 = 1#1), ∀ a, (k1_off170 k1_t1) a + S1x128x128.size a ≤ S5x128x128.size a
  k1_off172_inb : ∀ k1_t1 : Fin k1_t1_loop.trips, ∀ (k1_h3 : k1_cond3 k1_t1 = 1#1), ∀ a, (k1_off172 k1_t1) a + S1x128x64.size a ≤ S2x128x64.size a
  k1_off173_inb : ∀ k1_t1 : Fin k1_t1_loop.trips, ∀ (k1_h3 : k1_cond3 k1_t1 = 1#1), ∀ a, (k1_off173 k1_t1) a + S1x128x128.size a ≤ S5x128x128.size a
  k1_off175_inb : ∀ k1_t1 : Fin k1_t1_loop.trips, ∀ (k1_h3 : k1_cond3 k1_t1 = 1#1), ∀ a, (k1_off175 k1_t1) a + S1x128x64.size a ≤ S2x128x64.size a
  k1_off176_inb : ∀ k1_t1 : Fin k1_t1_loop.trips, ∀ (k1_h3 : k1_cond3 k1_t1 = 1#1), ∀ a, (k1_off176 k1_t1) a + S1x128x128.size a ≤ S5x128x128.size a
  k1_off178_inb : ∀ k1_t1 : Fin k1_t1_loop.trips, ∀ (k1_h3 : k1_cond3 k1_t1 = 1#1), ∀ a, (k1_off178 k1_t1) a + S1x128x64.size a ≤ S2x128x64.size a
  k1_off179_inb : ∀ k1_t1 : Fin k1_t1_loop.trips, ∀ (k1_h3 : k1_cond3 k1_t1 = 1#1), ∀ a, (k1_off179 k1_t1) a + S1x128x128.size a ≤ S5x128x128.size a
  k1_off180_inb : ∀ k1_t1 : Fin k1_t1_loop.trips, ∀ (k1_h3 : k1_cond3 k1_t1 = 1#1), ∀ a, (k1_off180 k1_t1) a + S1x16.size a ≤ S10x128.size a
  k1_off182_inb : ∀ k1_t1 : Fin k1_t1_loop.trips, ∀ (k1_h3 : k1_cond3 k1_t1 = 1#1), ∀ a, (k1_off182 k1_t1) a + S1x128x64.size a ≤ S2x128x64.size a
  k1_off183_inb : ∀ k1_t1 : Fin k1_t1_loop.trips, ∀ (k1_h3 : k1_cond3 k1_t1 = 1#1), ∀ a, (k1_off183 k1_t1) a + S1x128x128.size a ≤ S5x128x128.size a
  k1_off185_inb : ∀ k1_t1 : Fin k1_t1_loop.trips, ∀ (k1_h3 : k1_cond3 k1_t1 = 1#1), ∀ a, (k1_off185 k1_t1) a + S1x128x64.size a ≤ S2x128x64.size a
  k1_off186_inb : ∀ k1_t1 : Fin k1_t1_loop.trips, ∀ (k1_h3 : k1_cond3 k1_t1 = 1#1), ∀ a, (k1_off186 k1_t1) a + S1x128x128.size a ≤ S5x128x128.size a
  k1_off188_inb : ∀ k1_t1 : Fin k1_t1_loop.trips, ∀ (k1_h3 : k1_cond3 k1_t1 = 1#1), ∀ a, (k1_off188 k1_t1) a + S1x128x64.size a ≤ S2x128x64.size a
  k1_off189_inb : ∀ k1_t1 : Fin k1_t1_loop.trips, ∀ (k1_h3 : k1_cond3 k1_t1 = 1#1), ∀ a, (k1_off189 k1_t1) a + S1x128x128.size a ≤ S5x128x128.size a
  k1_off191_inb : ∀ k1_t1 : Fin k1_t1_loop.trips, ∀ (k1_h3 : k1_cond3 k1_t1 = 1#1), ∀ a, (k1_off191 k1_t1) a + S1x128x64.size a ≤ S2x128x64.size a
  k1_off192_inb : ∀ k1_t1 : Fin k1_t1_loop.trips, ∀ (k1_h3 : k1_cond3 k1_t1 = 1#1), ∀ a, (k1_off192 k1_t1) a + S1x128x128.size a ≤ S5x128x128.size a
  k1_off194_inb : ∀ k1_t1 : Fin k1_t1_loop.trips, ∀ (k1_h3 : k1_cond3 k1_t1 = 1#1), ∀ a, (k1_off194 k1_t1) a + S1x128x64.size a ≤ S2x128x64.size a
  k1_off195_inb : ∀ k1_t1 : Fin k1_t1_loop.trips, ∀ (k1_h3 : k1_cond3 k1_t1 = 1#1), ∀ a, (k1_off195 k1_t1) a + S1x128x128.size a ≤ S5x128x128.size a
  k1_off197_inb : ∀ k1_t1 : Fin k1_t1_loop.trips, ∀ (k1_h3 : k1_cond3 k1_t1 = 1#1), ∀ a, (k1_off197 k1_t1) a + S1x128x64.size a ≤ S2x128x64.size a
  k1_off198_inb : ∀ k1_t1 : Fin k1_t1_loop.trips, ∀ (k1_h3 : k1_cond3 k1_t1 = 1#1), ∀ a, (k1_off198 k1_t1) a + S1x128x128.size a ≤ S5x128x128.size a
  k1_off200_inb : ∀ k1_t1 : Fin k1_t1_loop.trips, ∀ (k1_h3 : k1_cond3 k1_t1 = 1#1), ∀ a, (k1_off200 k1_t1) a + S1x128x64.size a ≤ S2x128x64.size a
  k1_off201_inb : ∀ k1_t1 : Fin k1_t1_loop.trips, ∀ (k1_h3 : k1_cond3 k1_t1 = 1#1), ∀ a, (k1_off201 k1_t1) a + S1x128x128.size a ≤ S5x128x128.size a
  k1_off203_inb : ∀ k1_t1 : Fin k1_t1_loop.trips, ∀ (k1_h3 : k1_cond3 k1_t1 = 1#1), ∀ a, (k1_off203 k1_t1) a + S1x128x64.size a ≤ S2x128x64.size a
  k1_off204_inb : ∀ k1_t1 : Fin k1_t1_loop.trips, ∀ (k1_h3 : k1_cond3 k1_t1 = 1#1), ∀ a, (k1_off204 k1_t1) a + S1x128x128.size a ≤ S5x128x128.size a
  k1_off206_inb : ∀ k1_t1 : Fin k1_t1_loop.trips, ∀ (k1_h3 : k1_cond3 k1_t1 = 1#1), ∀ a, (k1_off206 k1_t1) a + S1x128x64.size a ≤ S2x128x64.size a
  k1_off207_inb : ∀ k1_t1 : Fin k1_t1_loop.trips, ∀ (k1_h3 : k1_cond3 k1_t1 = 1#1), ∀ a, (k1_off207 k1_t1) a + S1x128x128.size a ≤ S5x128x128.size a
  k1_off209_inb : ∀ k1_t1 : Fin k1_t1_loop.trips, ∀ (k1_h3 : k1_cond3 k1_t1 = 1#1), ∀ a, (k1_off209 k1_t1) a + S1x128x64.size a ≤ S2x128x64.size a
  k1_off210_inb : ∀ k1_t1 : Fin k1_t1_loop.trips, ∀ (k1_h3 : k1_cond3 k1_t1 = 1#1), ∀ a, (k1_off210 k1_t1) a + S1x128x128.size a ≤ S5x128x128.size a
  k1_off212_inb : ∀ k1_t1 : Fin k1_t1_loop.trips, ∀ (k1_h3 : k1_cond3 k1_t1 = 1#1), ∀ a, (k1_off212 k1_t1) a + S1x128x64.size a ≤ S2x128x64.size a
  k1_off213_inb : ∀ k1_t1 : Fin k1_t1_loop.trips, ∀ (k1_h3 : k1_cond3 k1_t1 = 1#1), ∀ a, (k1_off213 k1_t1) a + S1x128x128.size a ≤ S5x128x128.size a
  k1_off215_inb : ∀ k1_t1 : Fin k1_t1_loop.trips, ∀ (k1_h3 : k1_cond3 k1_t1 = 1#1), ∀ a, (k1_off215 k1_t1) a + S1x128x64.size a ≤ S2x128x64.size a
  k1_off216_inb : ∀ k1_t1 : Fin k1_t1_loop.trips, ∀ (k1_h3 : k1_cond3 k1_t1 = 1#1), ∀ a, (k1_off216 k1_t1) a + S1x128x128.size a ≤ S5x128x128.size a
  k1_off218_inb : ∀ k1_t1 : Fin k1_t1_loop.trips, ∀ (k1_h3 : k1_cond3 k1_t1 = 1#1), ∀ a, (k1_off218 k1_t1) a + S1x128x64.size a ≤ S2x128x64.size a
  k1_off219_inb : ∀ k1_t1 : Fin k1_t1_loop.trips, ∀ (k1_h3 : k1_cond3 k1_t1 = 1#1), ∀ a, (k1_off219 k1_t1) a + S1x128x128.size a ≤ S5x128x128.size a
  k1_off221_inb : ∀ k1_t1 : Fin k1_t1_loop.trips, ∀ (k1_h3 : k1_cond3 k1_t1 = 1#1), ∀ a, (k1_off221 k1_t1) a + S1x128x64.size a ≤ S2x128x64.size a
  k1_off222_inb : ∀ k1_t1 : Fin k1_t1_loop.trips, ∀ (k1_h3 : k1_cond3 k1_t1 = 1#1), ∀ a, (k1_off222 k1_t1) a + S1x128x128.size a ≤ S5x128x128.size a
  k1_off224_inb : ∀ k1_t1 : Fin k1_t1_loop.trips, ∀ (k1_h3 : k1_cond3 k1_t1 = 1#1), ∀ a, (k1_off224 k1_t1) a + S1x128x64.size a ≤ S2x128x64.size a
  k1_off225_inb : ∀ k1_t1 : Fin k1_t1_loop.trips, ∀ (k1_h3 : k1_cond3 k1_t1 = 1#1), ∀ a, (k1_off225 k1_t1) a + S1x128x128.size a ≤ S5x128x128.size a
  k1_off227_inb : ∀ k1_t1 : Fin k1_t1_loop.trips, ∀ (k1_h3 : k1_cond3 k1_t1 = 1#1), ∀ a, (k1_off227 k1_t1) a + S1x128x64.size a ≤ S2x128x64.size a
  k1_off228_inb : ∀ k1_t1 : Fin k1_t1_loop.trips, ∀ (k1_h3 : k1_cond3 k1_t1 = 1#1), ∀ a, (k1_off228 k1_t1) a + S1x128x128.size a ≤ S5x128x128.size a
  k1_off229_inb : ∀ k1_t1 : Fin k1_t1_loop.trips, ∀ (k1_h3 : k1_cond3 k1_t1 = 1#1), ∀ a, (k1_off229 k1_t1) a + S1x16.size a ≤ S10x128.size a
  k1_off231_inb : ∀ k1_t1 : Fin k1_t1_loop.trips, ∀ (k1_h3 : k1_cond3 k1_t1 = 1#1), ∀ a, (k1_off231 k1_t1) a + S1x128x64.size a ≤ S2x128x64.size a
  k1_off232_inb : ∀ k1_t1 : Fin k1_t1_loop.trips, ∀ (k1_h3 : k1_cond3 k1_t1 = 1#1), ∀ a, (k1_off232 k1_t1) a + S1x128x128.size a ≤ S5x128x128.size a
  k1_off234_inb : ∀ k1_t1 : Fin k1_t1_loop.trips, ∀ (k1_h3 : k1_cond3 k1_t1 = 1#1), ∀ a, (k1_off234 k1_t1) a + S1x128x64.size a ≤ S2x128x64.size a
  k1_off235_inb : ∀ k1_t1 : Fin k1_t1_loop.trips, ∀ (k1_h3 : k1_cond3 k1_t1 = 1#1), ∀ a, (k1_off235 k1_t1) a + S1x128x128.size a ≤ S5x128x128.size a
  k1_off237_inb : ∀ k1_t1 : Fin k1_t1_loop.trips, ∀ (k1_h3 : k1_cond3 k1_t1 = 1#1), ∀ a, (k1_off237 k1_t1) a + S1x128x64.size a ≤ S2x128x64.size a
  k1_off238_inb : ∀ k1_t1 : Fin k1_t1_loop.trips, ∀ (k1_h3 : k1_cond3 k1_t1 = 1#1), ∀ a, (k1_off238 k1_t1) a + S1x128x128.size a ≤ S5x128x128.size a
  k1_off240_inb : ∀ k1_t1 : Fin k1_t1_loop.trips, ∀ (k1_h3 : k1_cond3 k1_t1 = 1#1), ∀ a, (k1_off240 k1_t1) a + S1x128x64.size a ≤ S2x128x64.size a
  k1_off241_inb : ∀ k1_t1 : Fin k1_t1_loop.trips, ∀ (k1_h3 : k1_cond3 k1_t1 = 1#1), ∀ a, (k1_off241 k1_t1) a + S1x128x128.size a ≤ S5x128x128.size a
  k1_off243_inb : ∀ k1_t1 : Fin k1_t1_loop.trips, ∀ (k1_h3 : k1_cond3 k1_t1 = 1#1), ∀ a, (k1_off243 k1_t1) a + S1x128x64.size a ≤ S2x128x64.size a
  k1_off244_inb : ∀ k1_t1 : Fin k1_t1_loop.trips, ∀ (k1_h3 : k1_cond3 k1_t1 = 1#1), ∀ a, (k1_off244 k1_t1) a + S1x128x128.size a ≤ S5x128x128.size a
  k1_off246_inb : ∀ k1_t1 : Fin k1_t1_loop.trips, ∀ (k1_h3 : k1_cond3 k1_t1 = 1#1), ∀ a, (k1_off246 k1_t1) a + S1x128x64.size a ≤ S2x128x64.size a
  k1_off247_inb : ∀ k1_t1 : Fin k1_t1_loop.trips, ∀ (k1_h3 : k1_cond3 k1_t1 = 1#1), ∀ a, (k1_off247 k1_t1) a + S1x128x128.size a ≤ S5x128x128.size a
  k1_off249_inb : ∀ k1_t1 : Fin k1_t1_loop.trips, ∀ (k1_h3 : k1_cond3 k1_t1 = 1#1), ∀ a, (k1_off249 k1_t1) a + S1x128x64.size a ≤ S2x128x64.size a
  k1_off250_inb : ∀ k1_t1 : Fin k1_t1_loop.trips, ∀ (k1_h3 : k1_cond3 k1_t1 = 1#1), ∀ a, (k1_off250 k1_t1) a + S1x128x128.size a ≤ S5x128x128.size a
  k1_off252_inb : ∀ k1_t1 : Fin k1_t1_loop.trips, ∀ (k1_h3 : k1_cond3 k1_t1 = 1#1), ∀ a, (k1_off252 k1_t1) a + S1x128x64.size a ≤ S2x128x64.size a
  k1_off253_inb : ∀ k1_t1 : Fin k1_t1_loop.trips, ∀ (k1_h3 : k1_cond3 k1_t1 = 1#1), ∀ a, (k1_off253 k1_t1) a + S1x128x128.size a ≤ S5x128x128.size a
  k1_off255_inb : ∀ k1_t1 : Fin k1_t1_loop.trips, ∀ (k1_h3 : k1_cond3 k1_t1 = 1#1), ∀ a, (k1_off255 k1_t1) a + S1x128x64.size a ≤ S2x128x64.size a
  k1_off256_inb : ∀ k1_t1 : Fin k1_t1_loop.trips, ∀ (k1_h3 : k1_cond3 k1_t1 = 1#1), ∀ a, (k1_off256 k1_t1) a + S1x128x128.size a ≤ S5x128x128.size a
  k1_off258_inb : ∀ k1_t1 : Fin k1_t1_loop.trips, ∀ (k1_h3 : k1_cond3 k1_t1 = 1#1), ∀ a, (k1_off258 k1_t1) a + S1x128x64.size a ≤ S2x128x64.size a
  k1_off259_inb : ∀ k1_t1 : Fin k1_t1_loop.trips, ∀ (k1_h3 : k1_cond3 k1_t1 = 1#1), ∀ a, (k1_off259 k1_t1) a + S1x128x128.size a ≤ S5x128x128.size a
  k1_off261_inb : ∀ k1_t1 : Fin k1_t1_loop.trips, ∀ (k1_h3 : k1_cond3 k1_t1 = 1#1), ∀ a, (k1_off261 k1_t1) a + S1x128x64.size a ≤ S2x128x64.size a
  k1_off262_inb : ∀ k1_t1 : Fin k1_t1_loop.trips, ∀ (k1_h3 : k1_cond3 k1_t1 = 1#1), ∀ a, (k1_off262 k1_t1) a + S1x128x128.size a ≤ S5x128x128.size a
  k1_off264_inb : ∀ k1_t1 : Fin k1_t1_loop.trips, ∀ (k1_h3 : k1_cond3 k1_t1 = 1#1), ∀ a, (k1_off264 k1_t1) a + S1x128x64.size a ≤ S2x128x64.size a
  k1_off265_inb : ∀ k1_t1 : Fin k1_t1_loop.trips, ∀ (k1_h3 : k1_cond3 k1_t1 = 1#1), ∀ a, (k1_off265 k1_t1) a + S1x128x128.size a ≤ S5x128x128.size a
  k1_off267_inb : ∀ k1_t1 : Fin k1_t1_loop.trips, ∀ (k1_h3 : k1_cond3 k1_t1 = 1#1), ∀ a, (k1_off267 k1_t1) a + S1x128x64.size a ≤ S2x128x64.size a
  k1_off268_inb : ∀ k1_t1 : Fin k1_t1_loop.trips, ∀ (k1_h3 : k1_cond3 k1_t1 = 1#1), ∀ a, (k1_off268 k1_t1) a + S1x128x128.size a ≤ S5x128x128.size a
  k1_off270_inb : ∀ k1_t1 : Fin k1_t1_loop.trips, ∀ (k1_h3 : k1_cond3 k1_t1 = 1#1), ∀ a, (k1_off270 k1_t1) a + S1x128x64.size a ≤ S2x128x64.size a
  k1_off271_inb : ∀ k1_t1 : Fin k1_t1_loop.trips, ∀ (k1_h3 : k1_cond3 k1_t1 = 1#1), ∀ a, (k1_off271 k1_t1) a + S1x128x128.size a ≤ S5x128x128.size a
  k1_off273_inb : ∀ k1_t1 : Fin k1_t1_loop.trips, ∀ (k1_h3 : k1_cond3 k1_t1 = 1#1), ∀ a, (k1_off273 k1_t1) a + S1x128x64.size a ≤ S2x128x64.size a
  k1_off274_inb : ∀ k1_t1 : Fin k1_t1_loop.trips, ∀ (k1_h3 : k1_cond3 k1_t1 = 1#1), ∀ a, (k1_off274 k1_t1) a + S1x128x128.size a ≤ S5x128x128.size a
  k1_off276_inb : ∀ k1_t1 : Fin k1_t1_loop.trips, ∀ (k1_h3 : k1_cond3 k1_t1 = 1#1), ∀ a, (k1_off276 k1_t1) a + S1x128x64.size a ≤ S2x128x64.size a
  k1_off277_inb : ∀ k1_t1 : Fin k1_t1_loop.trips, ∀ (k1_h3 : k1_cond3 k1_t1 = 1#1), ∀ a, (k1_off277 k1_t1) a + S1x128x128.size a ≤ S5x128x128.size a
  k1_off278_inb : ∀ k1_t1 : Fin k1_t1_loop.trips, ∀ (k1_h3 : k1_cond3 k1_t1 = 1#1), ∀ a, (k1_off278 k1_t1) a + S1x16.size a ≤ S10x128.size a
  k1_off280_inb : ∀ k1_t1 : Fin k1_t1_loop.trips, ∀ (k1_h3 : k1_cond3 k1_t1 = 1#1), ∀ a, (k1_off280 k1_t1) a + S1x128x64.size a ≤ S2x128x64.size a
  k1_off281_inb : ∀ k1_t1 : Fin k1_t1_loop.trips, ∀ (k1_h3 : k1_cond3 k1_t1 = 1#1), ∀ a, (k1_off281 k1_t1) a + S1x128x128.size a ≤ S5x128x128.size a
  k1_off283_inb : ∀ k1_t1 : Fin k1_t1_loop.trips, ∀ (k1_h3 : k1_cond3 k1_t1 = 1#1), ∀ a, (k1_off283 k1_t1) a + S1x128x64.size a ≤ S2x128x64.size a
  k1_off284_inb : ∀ k1_t1 : Fin k1_t1_loop.trips, ∀ (k1_h3 : k1_cond3 k1_t1 = 1#1), ∀ a, (k1_off284 k1_t1) a + S1x128x128.size a ≤ S5x128x128.size a
  k1_off286_inb : ∀ k1_t1 : Fin k1_t1_loop.trips, ∀ (k1_h3 : k1_cond3 k1_t1 = 1#1), ∀ a, (k1_off286 k1_t1) a + S1x128x64.size a ≤ S2x128x64.size a
  k1_off287_inb : ∀ k1_t1 : Fin k1_t1_loop.trips, ∀ (k1_h3 : k1_cond3 k1_t1 = 1#1), ∀ a, (k1_off287 k1_t1) a + S1x128x128.size a ≤ S5x128x128.size a
  k1_off289_inb : ∀ k1_t1 : Fin k1_t1_loop.trips, ∀ (k1_h3 : k1_cond3 k1_t1 = 1#1), ∀ a, (k1_off289 k1_t1) a + S1x128x64.size a ≤ S2x128x64.size a
  k1_off290_inb : ∀ k1_t1 : Fin k1_t1_loop.trips, ∀ (k1_h3 : k1_cond3 k1_t1 = 1#1), ∀ a, (k1_off290 k1_t1) a + S1x128x128.size a ≤ S5x128x128.size a
  k1_off292_inb : ∀ k1_t1 : Fin k1_t1_loop.trips, ∀ (k1_h3 : k1_cond3 k1_t1 = 1#1), ∀ a, (k1_off292 k1_t1) a + S1x128x64.size a ≤ S2x128x64.size a
  k1_off293_inb : ∀ k1_t1 : Fin k1_t1_loop.trips, ∀ (k1_h3 : k1_cond3 k1_t1 = 1#1), ∀ a, (k1_off293 k1_t1) a + S1x128x128.size a ≤ S5x128x128.size a
  k1_off295_inb : ∀ k1_t1 : Fin k1_t1_loop.trips, ∀ (k1_h3 : k1_cond3 k1_t1 = 1#1), ∀ a, (k1_off295 k1_t1) a + S1x128x64.size a ≤ S2x128x64.size a
  k1_off296_inb : ∀ k1_t1 : Fin k1_t1_loop.trips, ∀ (k1_h3 : k1_cond3 k1_t1 = 1#1), ∀ a, (k1_off296 k1_t1) a + S1x128x128.size a ≤ S5x128x128.size a
  k1_off298_inb : ∀ k1_t1 : Fin k1_t1_loop.trips, ∀ (k1_h3 : k1_cond3 k1_t1 = 1#1), ∀ a, (k1_off298 k1_t1) a + S1x128x64.size a ≤ S2x128x64.size a
  k1_off299_inb : ∀ k1_t1 : Fin k1_t1_loop.trips, ∀ (k1_h3 : k1_cond3 k1_t1 = 1#1), ∀ a, (k1_off299 k1_t1) a + S1x128x128.size a ≤ S5x128x128.size a
  k1_off301_inb : ∀ k1_t1 : Fin k1_t1_loop.trips, ∀ (k1_h3 : k1_cond3 k1_t1 = 1#1), ∀ a, (k1_off301 k1_t1) a + S1x128x64.size a ≤ S2x128x64.size a
  k1_off302_inb : ∀ k1_t1 : Fin k1_t1_loop.trips, ∀ (k1_h3 : k1_cond3 k1_t1 = 1#1), ∀ a, (k1_off302 k1_t1) a + S1x128x128.size a ≤ S5x128x128.size a
  k1_off304_inb : ∀ k1_t1 : Fin k1_t1_loop.trips, ∀ (k1_h3 : k1_cond3 k1_t1 = 1#1), ∀ a, (k1_off304 k1_t1) a + S1x128x64.size a ≤ S2x128x64.size a
  k1_off305_inb : ∀ k1_t1 : Fin k1_t1_loop.trips, ∀ (k1_h3 : k1_cond3 k1_t1 = 1#1), ∀ a, (k1_off305 k1_t1) a + S1x128x128.size a ≤ S5x128x128.size a
  k1_off307_inb : ∀ k1_t1 : Fin k1_t1_loop.trips, ∀ (k1_h3 : k1_cond3 k1_t1 = 1#1), ∀ a, (k1_off307 k1_t1) a + S1x128x64.size a ≤ S2x128x64.size a
  k1_off308_inb : ∀ k1_t1 : Fin k1_t1_loop.trips, ∀ (k1_h3 : k1_cond3 k1_t1 = 1#1), ∀ a, (k1_off308 k1_t1) a + S1x128x128.size a ≤ S5x128x128.size a
  k1_off310_inb : ∀ k1_t1 : Fin k1_t1_loop.trips, ∀ (k1_h3 : k1_cond3 k1_t1 = 1#1), ∀ a, (k1_off310 k1_t1) a + S1x128x64.size a ≤ S2x128x64.size a
  k1_off311_inb : ∀ k1_t1 : Fin k1_t1_loop.trips, ∀ (k1_h3 : k1_cond3 k1_t1 = 1#1), ∀ a, (k1_off311 k1_t1) a + S1x128x128.size a ≤ S5x128x128.size a
  k1_off313_inb : ∀ k1_t1 : Fin k1_t1_loop.trips, ∀ (k1_h3 : k1_cond3 k1_t1 = 1#1), ∀ a, (k1_off313 k1_t1) a + S1x128x64.size a ≤ S2x128x64.size a
  k1_off314_inb : ∀ k1_t1 : Fin k1_t1_loop.trips, ∀ (k1_h3 : k1_cond3 k1_t1 = 1#1), ∀ a, (k1_off314 k1_t1) a + S1x128x128.size a ≤ S5x128x128.size a
  k1_off316_inb : ∀ k1_t1 : Fin k1_t1_loop.trips, ∀ (k1_h3 : k1_cond3 k1_t1 = 1#1), ∀ a, (k1_off316 k1_t1) a + S1x128x64.size a ≤ S2x128x64.size a
  k1_off317_inb : ∀ k1_t1 : Fin k1_t1_loop.trips, ∀ (k1_h3 : k1_cond3 k1_t1 = 1#1), ∀ a, (k1_off317 k1_t1) a + S1x128x128.size a ≤ S5x128x128.size a
  k1_off319_inb : ∀ k1_t1 : Fin k1_t1_loop.trips, ∀ (k1_h3 : k1_cond3 k1_t1 = 1#1), ∀ a, (k1_off319 k1_t1) a + S1x128x64.size a ≤ S2x128x64.size a
  k1_off320_inb : ∀ k1_t1 : Fin k1_t1_loop.trips, ∀ (k1_h3 : k1_cond3 k1_t1 = 1#1), ∀ a, (k1_off320 k1_t1) a + S1x128x128.size a ≤ S5x128x128.size a
  k1_off322_inb : ∀ k1_t1 : Fin k1_t1_loop.trips, ∀ (k1_h3 : k1_cond3 k1_t1 = 1#1), ∀ a, (k1_off322 k1_t1) a + S1x128x64.size a ≤ S2x128x64.size a
  k1_off323_inb : ∀ k1_t1 : Fin k1_t1_loop.trips, ∀ (k1_h3 : k1_cond3 k1_t1 = 1#1), ∀ a, (k1_off323 k1_t1) a + S1x128x128.size a ≤ S5x128x128.size a
  k1_off325_inb : ∀ k1_t1 : Fin k1_t1_loop.trips, ∀ (k1_h3 : k1_cond3 k1_t1 = 1#1), ∀ a, (k1_off325 k1_t1) a + S1x128x64.size a ≤ S2x128x64.size a
  k1_off326_inb : ∀ k1_t1 : Fin k1_t1_loop.trips, ∀ (k1_h3 : k1_cond3 k1_t1 = 1#1), ∀ a, (k1_off326 k1_t1) a + S1x128x128.size a ≤ S5x128x128.size a
  k1_off327_inb : ∀ k1_t1 : Fin k1_t1_loop.trips, ∀ (k1_h3 : k1_cond3 k1_t1 = 1#1), ∀ a, (k1_off327 k1_t1) a + S1x16.size a ≤ S10x128.size a
  k1_off329_inb : ∀ k1_t1 : Fin k1_t1_loop.trips, ∀ (k1_h3 : k1_cond3 k1_t1 = 1#1), ∀ a, (k1_off329 k1_t1) a + S1x128x64.size a ≤ S2x128x64.size a
  k1_off330_inb : ∀ k1_t1 : Fin k1_t1_loop.trips, ∀ (k1_h3 : k1_cond3 k1_t1 = 1#1), ∀ a, (k1_off330 k1_t1) a + S1x128x128.size a ≤ S5x128x128.size a
  k1_off332_inb : ∀ k1_t1 : Fin k1_t1_loop.trips, ∀ (k1_h3 : k1_cond3 k1_t1 = 1#1), ∀ a, (k1_off332 k1_t1) a + S1x128x64.size a ≤ S2x128x64.size a
  k1_off333_inb : ∀ k1_t1 : Fin k1_t1_loop.trips, ∀ (k1_h3 : k1_cond3 k1_t1 = 1#1), ∀ a, (k1_off333 k1_t1) a + S1x128x128.size a ≤ S5x128x128.size a
  k1_off335_inb : ∀ k1_t1 : Fin k1_t1_loop.trips, ∀ (k1_h3 : k1_cond3 k1_t1 = 1#1), ∀ a, (k1_off335 k1_t1) a + S1x128x64.size a ≤ S2x128x64.size a
  k1_off336_inb : ∀ k1_t1 : Fin k1_t1_loop.trips, ∀ (k1_h3 : k1_cond3 k1_t1 = 1#1), ∀ a, (k1_off336 k1_t1) a + S1x128x128.size a ≤ S5x128x128.size a
  k1_off338_inb : ∀ k1_t1 : Fin k1_t1_loop.trips, ∀ (k1_h3 : k1_cond3 k1_t1 = 1#1), ∀ a, (k1_off338 k1_t1) a + S1x128x64.size a ≤ S2x128x64.size a
  k1_off339_inb : ∀ k1_t1 : Fin k1_t1_loop.trips, ∀ (k1_h3 : k1_cond3 k1_t1 = 1#1), ∀ a, (k1_off339 k1_t1) a + S1x128x128.size a ≤ S5x128x128.size a
  k1_off341_inb : ∀ k1_t1 : Fin k1_t1_loop.trips, ∀ (k1_h3 : k1_cond3 k1_t1 = 1#1), ∀ a, (k1_off341 k1_t1) a + S1x128x64.size a ≤ S2x128x64.size a
  k1_off342_inb : ∀ k1_t1 : Fin k1_t1_loop.trips, ∀ (k1_h3 : k1_cond3 k1_t1 = 1#1), ∀ a, (k1_off342 k1_t1) a + S1x128x128.size a ≤ S5x128x128.size a
  k1_off344_inb : ∀ k1_t1 : Fin k1_t1_loop.trips, ∀ (k1_h3 : k1_cond3 k1_t1 = 1#1), ∀ a, (k1_off344 k1_t1) a + S1x128x64.size a ≤ S2x128x64.size a
  k1_off345_inb : ∀ k1_t1 : Fin k1_t1_loop.trips, ∀ (k1_h3 : k1_cond3 k1_t1 = 1#1), ∀ a, (k1_off345 k1_t1) a + S1x128x128.size a ≤ S5x128x128.size a
  k1_off347_inb : ∀ k1_t1 : Fin k1_t1_loop.trips, ∀ (k1_h3 : k1_cond3 k1_t1 = 1#1), ∀ a, (k1_off347 k1_t1) a + S1x128x64.size a ≤ S2x128x64.size a
  k1_off348_inb : ∀ k1_t1 : Fin k1_t1_loop.trips, ∀ (k1_h3 : k1_cond3 k1_t1 = 1#1), ∀ a, (k1_off348 k1_t1) a + S1x128x128.size a ≤ S5x128x128.size a
  k1_off350_inb : ∀ k1_t1 : Fin k1_t1_loop.trips, ∀ (k1_h3 : k1_cond3 k1_t1 = 1#1), ∀ a, (k1_off350 k1_t1) a + S1x128x64.size a ≤ S2x128x64.size a
  k1_off351_inb : ∀ k1_t1 : Fin k1_t1_loop.trips, ∀ (k1_h3 : k1_cond3 k1_t1 = 1#1), ∀ a, (k1_off351 k1_t1) a + S1x128x128.size a ≤ S5x128x128.size a
  k1_off353_inb : ∀ k1_t1 : Fin k1_t1_loop.trips, ∀ (k1_h3 : k1_cond3 k1_t1 = 1#1), ∀ a, (k1_off353 k1_t1) a + S1x128x64.size a ≤ S2x128x64.size a
  k1_off354_inb : ∀ k1_t1 : Fin k1_t1_loop.trips, ∀ (k1_h3 : k1_cond3 k1_t1 = 1#1), ∀ a, (k1_off354 k1_t1) a + S1x128x128.size a ≤ S5x128x128.size a
  k1_off356_inb : ∀ k1_t1 : Fin k1_t1_loop.trips, ∀ (k1_h3 : k1_cond3 k1_t1 = 1#1), ∀ a, (k1_off356 k1_t1) a + S1x128x64.size a ≤ S2x128x64.size a
  k1_off357_inb : ∀ k1_t1 : Fin k1_t1_loop.trips, ∀ (k1_h3 : k1_cond3 k1_t1 = 1#1), ∀ a, (k1_off357 k1_t1) a + S1x128x128.size a ≤ S5x128x128.size a
  k1_off359_inb : ∀ k1_t1 : Fin k1_t1_loop.trips, ∀ (k1_h3 : k1_cond3 k1_t1 = 1#1), ∀ a, (k1_off359 k1_t1) a + S1x128x64.size a ≤ S2x128x64.size a
  k1_off360_inb : ∀ k1_t1 : Fin k1_t1_loop.trips, ∀ (k1_h3 : k1_cond3 k1_t1 = 1#1), ∀ a, (k1_off360 k1_t1) a + S1x128x128.size a ≤ S5x128x128.size a
  k1_off362_inb : ∀ k1_t1 : Fin k1_t1_loop.trips, ∀ (k1_h3 : k1_cond3 k1_t1 = 1#1), ∀ a, (k1_off362 k1_t1) a + S1x128x64.size a ≤ S2x128x64.size a
  k1_off363_inb : ∀ k1_t1 : Fin k1_t1_loop.trips, ∀ (k1_h3 : k1_cond3 k1_t1 = 1#1), ∀ a, (k1_off363 k1_t1) a + S1x128x128.size a ≤ S5x128x128.size a
  k1_off365_inb : ∀ k1_t1 : Fin k1_t1_loop.trips, ∀ (k1_h3 : k1_cond3 k1_t1 = 1#1), ∀ a, (k1_off365 k1_t1) a + S1x128x64.size a ≤ S2x128x64.size a
  k1_off366_inb : ∀ k1_t1 : Fin k1_t1_loop.trips, ∀ (k1_h3 : k1_cond3 k1_t1 = 1#1), ∀ a, (k1_off366 k1_t1) a + S1x128x128.size a ≤ S5x128x128.size a
  k1_off368_inb : ∀ k1_t1 : Fin k1_t1_loop.trips, ∀ (k1_h3 : k1_cond3 k1_t1 = 1#1), ∀ a, (k1_off368 k1_t1) a + S1x128x64.size a ≤ S2x128x64.size a
  k1_off369_inb : ∀ k1_t1 : Fin k1_t1_loop.trips, ∀ (k1_h3 : k1_cond3 k1_t1 = 1#1), ∀ a, (k1_off369 k1_t1) a + S1x128x128.size a ≤ S5x128x128.size a
  k1_off371_inb : ∀ k1_t1 : Fin k1_t1_loop.trips, ∀ (k1_h3 : k1_cond3 k1_t1 = 1#1), ∀ a, (k1_off371 k1_t1) a + S1x128x64.size a ≤ S2x128x64.size a
  k1_off372_inb : ∀ k1_t1 : Fin k1_t1_loop.trips, ∀ (k1_h3 : k1_cond3 k1_t1 = 1#1), ∀ a, (k1_off372 k1_t1) a + S1x128x128.size a ≤ S5x128x128.size a
  k1_off374_inb : ∀ k1_t1 : Fin k1_t1_loop.trips, ∀ (k1_h3 : k1_cond3 k1_t1 = 1#1), ∀ a, (k1_off374 k1_t1) a + S1x128x64.size a ≤ S2x128x64.size a
  k1_off375_inb : ∀ k1_t1 : Fin k1_t1_loop.trips, ∀ (k1_h3 : k1_cond3 k1_t1 = 1#1), ∀ a, (k1_off375 k1_t1) a + S1x128x128.size a ≤ S5x128x128.size a
  k1_off376_inb : ∀ k1_t1 : Fin k1_t1_loop.trips, ∀ (k1_h3 : k1_cond3 k1_t1 = 1#1), ∀ a, (k1_off376 k1_t1) a + S1x16.size a ≤ S10x128.size a
  k1_off378_inb : ∀ k1_t1 : Fin k1_t1_loop.trips, ∀ (k1_h3 : k1_cond3 k1_t1 = 1#1), ∀ a, (k1_off378 k1_t1) a + S1x128x64.size a ≤ S2x128x64.size a
  k1_off379_inb : ∀ k1_t1 : Fin k1_t1_loop.trips, ∀ (k1_h3 : k1_cond3 k1_t1 = 1#1), ∀ a, (k1_off379 k1_t1) a + S1x128x128.size a ≤ S5x128x128.size a
  k1_off381_inb : ∀ k1_t1 : Fin k1_t1_loop.trips, ∀ (k1_h3 : k1_cond3 k1_t1 = 1#1), ∀ a, (k1_off381 k1_t1) a + S1x128x64.size a ≤ S2x128x64.size a
  k1_off382_inb : ∀ k1_t1 : Fin k1_t1_loop.trips, ∀ (k1_h3 : k1_cond3 k1_t1 = 1#1), ∀ a, (k1_off382 k1_t1) a + S1x128x128.size a ≤ S5x128x128.size a
  k1_off384_inb : ∀ k1_t1 : Fin k1_t1_loop.trips, ∀ (k1_h3 : k1_cond3 k1_t1 = 1#1), ∀ a, (k1_off384 k1_t1) a + S1x128x64.size a ≤ S2x128x64.size a
  k1_off385_inb : ∀ k1_t1 : Fin k1_t1_loop.trips, ∀ (k1_h3 : k1_cond3 k1_t1 = 1#1), ∀ a, (k1_off385 k1_t1) a + S1x128x128.size a ≤ S5x128x128.size a
  k1_off387_inb : ∀ k1_t1 : Fin k1_t1_loop.trips, ∀ (k1_h3 : k1_cond3 k1_t1 = 1#1), ∀ a, (k1_off387 k1_t1) a + S1x128x64.size a ≤ S2x128x64.size a
  k1_off388_inb : ∀ k1_t1 : Fin k1_t1_loop.trips, ∀ (k1_h3 : k1_cond3 k1_t1 = 1#1), ∀ a, (k1_off388 k1_t1) a + S1x128x128.size a ≤ S5x128x128.size a
  k1_off390_inb : ∀ k1_t1 : Fin k1_t1_loop.trips, ∀ (k1_h3 : k1_cond3 k1_t1 = 1#1), ∀ a, (k1_off390 k1_t1) a + S1x128x64.size a ≤ S2x128x64.size a
  k1_off391_inb : ∀ k1_t1 : Fin k1_t1_loop.trips, ∀ (k1_h3 : k1_cond3 k1_t1 = 1#1), ∀ a, (k1_off391 k1_t1) a + S1x128x128.size a ≤ S5x128x128.size a
  k1_off393_inb : ∀ k1_t1 : Fin k1_t1_loop.trips, ∀ (k1_h3 : k1_cond3 k1_t1 = 1#1), ∀ a, (k1_off393 k1_t1) a + S1x128x64.size a ≤ S2x128x64.size a
  k1_off394_inb : ∀ k1_t1 : Fin k1_t1_loop.trips, ∀ (k1_h3 : k1_cond3 k1_t1 = 1#1), ∀ a, (k1_off394 k1_t1) a + S1x128x128.size a ≤ S5x128x128.size a
  k1_off396_inb : ∀ k1_t1 : Fin k1_t1_loop.trips, ∀ (k1_h3 : k1_cond3 k1_t1 = 1#1), ∀ a, (k1_off396 k1_t1) a + S1x128x64.size a ≤ S2x128x64.size a
  k1_off397_inb : ∀ k1_t1 : Fin k1_t1_loop.trips, ∀ (k1_h3 : k1_cond3 k1_t1 = 1#1), ∀ a, (k1_off397 k1_t1) a + S1x128x128.size a ≤ S5x128x128.size a
  k1_off399_inb : ∀ k1_t1 : Fin k1_t1_loop.trips, ∀ (k1_h3 : k1_cond3 k1_t1 = 1#1), ∀ a, (k1_off399 k1_t1) a + S1x128x64.size a ≤ S2x128x64.size a
  k1_off400_inb : ∀ k1_t1 : Fin k1_t1_loop.trips, ∀ (k1_h3 : k1_cond3 k1_t1 = 1#1), ∀ a, (k1_off400 k1_t1) a + S1x128x128.size a ≤ S5x128x128.size a
  k1_off402_inb : ∀ k1_t1 : Fin k1_t1_loop.trips, ∀ (k1_h3 : k1_cond3 k1_t1 = 1#1), ∀ a, (k1_off402 k1_t1) a + S1x128x64.size a ≤ S2x128x64.size a
  k1_off403_inb : ∀ k1_t1 : Fin k1_t1_loop.trips, ∀ (k1_h3 : k1_cond3 k1_t1 = 1#1), ∀ a, (k1_off403 k1_t1) a + S1x128x128.size a ≤ S5x128x128.size a
  k1_off405_inb : ∀ k1_t1 : Fin k1_t1_loop.trips, ∀ (k1_h3 : k1_cond3 k1_t1 = 1#1), ∀ a, (k1_off405 k1_t1) a + S1x128x64.size a ≤ S2x128x64.size a
  k1_off406_inb : ∀ k1_t1 : Fin k1_t1_loop.trips, ∀ (k1_h3 : k1_cond3 k1_t1 = 1#1), ∀ a, (k1_off406 k1_t1) a + S1x128x128.size a ≤ S5x128x128.size a
  k1_off408_inb : ∀ k1_t1 : Fin k1_t1_loop.trips, ∀ (k1_h3 : k1_cond3 k1_t1 = 1#1), ∀ a, (k1_off408 k1_t1) a + S1x128x64.size a ≤ S2x128x64.size a
  k1_off409_inb : ∀ k1_t1 : Fin k1_t1_loop.trips, ∀ (k1_h3 : k1_cond3 k1_t1 = 1#1), ∀ a, (k1_off409 k1_t1) a + S1x128x128.size a ≤ S5x128x128.size a
  k1_off411_inb : ∀ k1_t1 : Fin k1_t1_loop.trips, ∀ (k1_h3 : k1_cond3 k1_t1 = 1#1), ∀ a, (k1_off411 k1_t1) a + S1x128x64.size a ≤ S2x128x64.size a
  k1_off412_inb : ∀ k1_t1 : Fin k1_t1_loop.trips, ∀ (k1_h3 : k1_cond3 k1_t1 = 1#1), ∀ a, (k1_off412 k1_t1) a + S1x128x128.size a ≤ S5x128x128.size a
  k1_off414_inb : ∀ k1_t1 : Fin k1_t1_loop.trips, ∀ (k1_h3 : k1_cond3 k1_t1 = 1#1), ∀ a, (k1_off414 k1_t1) a + S1x128x64.size a ≤ S2x128x64.size a
  k1_off415_inb : ∀ k1_t1 : Fin k1_t1_loop.trips, ∀ (k1_h3 : k1_cond3 k1_t1 = 1#1), ∀ a, (k1_off415 k1_t1) a + S1x128x128.size a ≤ S5x128x128.size a
  k1_off417_inb : ∀ k1_t1 : Fin k1_t1_loop.trips, ∀ (k1_h3 : k1_cond3 k1_t1 = 1#1), ∀ a, (k1_off417 k1_t1) a + S1x128x64.size a ≤ S2x128x64.size a
  k1_off418_inb : ∀ k1_t1 : Fin k1_t1_loop.trips, ∀ (k1_h3 : k1_cond3 k1_t1 = 1#1), ∀ a, (k1_off418 k1_t1) a + S1x128x128.size a ≤ S5x128x128.size a
  k1_off420_inb : ∀ k1_t1 : Fin k1_t1_loop.trips, ∀ (k1_h3 : k1_cond3 k1_t1 = 1#1), ∀ a, (k1_off420 k1_t1) a + S1x128x64.size a ≤ S2x128x64.size a
  k1_off421_inb : ∀ k1_t1 : Fin k1_t1_loop.trips, ∀ (k1_h3 : k1_cond3 k1_t1 = 1#1), ∀ a, (k1_off421 k1_t1) a + S1x128x128.size a ≤ S5x128x128.size a
  k1_off423_inb : ∀ k1_t1 : Fin k1_t1_loop.trips, ∀ (k1_h3 : k1_cond3 k1_t1 = 1#1), ∀ a, (k1_off423 k1_t1) a + S1x128x64.size a ≤ S2x128x64.size a
  k1_off424_inb : ∀ k1_t1 : Fin k1_t1_loop.trips, ∀ (k1_h3 : k1_cond3 k1_t1 = 1#1), ∀ a, (k1_off424 k1_t1) a + S1x128x128.size a ≤ S5x128x128.size a
  k1_off425_inb : ∀ (i : grid1.Coords) (k1_t1 : Fin k1_t1_loop.trips), ∀ (k1_h3 : k1_cond3 k1_t1 = 1#1), ∀ a, (k1_off425 i k1_t1) a + S1x128x64.size a ≤ S50x16384x64.size a
  k1_off426_inb : ∀ k1_t1 : Fin k1_t1_loop.trips, ∀ (k1_h3 : k1_cond3 k1_t1 = 1#1), ∀ a, (k1_off426 k1_t1) a + S1.size a ≤ S2.size a
  k1_off427_inb : ∀ i : grid1.Coords, ∀ (r : Fin 2), ∀ a, (k1_off427 i (BitVec.ofNat 32 (198 + r.val))) a + S1x128x64.size a ≤ S50x16384x64.size a

variable [Facts₀]

abbrev cc1_scratch4 : DmaSems sig S10 := SemArray.consecutive 4 S10 hcc1_scratch4
abbrev cc1_scratch5 : DmaSems sig S5 := SemArray.consecutive 14 S5 hcc1_scratch5
abbrev cc1_scratch6 : DmaSems sig S2 := SemArray.consecutive 19 S2 hcc1_scratch6

abbrev win0_0 : Pipeline.Window sig grid0 :=
  Pipeline.Window.ofSpecClip (Memref.whole main_v1) S64x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S16384x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x64, .f32⟩
  | .hbm, ⟨21, _⟩ => ⟨S16384x50x64, .i1⟩
  | .hbm, ⟨22, _⟩ => ⟨S_, .f32⟩
  | .hbm, ⟨23, _⟩ => ⟨S16384x50x64, .f32⟩
  | .hbm, ⟨24, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  gather_S1000000x64_S16384x50x1_S16384x50x64_2_0_n_n_0_2_164_wf : GatherDims.WF S1000000x64 S16384x50x1 S16384x50x64 [2] [0] [] [0] [] 2 ![1, 64]

variable [Facts₀]

def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf

class Facts : Prop extends Facts₀ where

variable [Facts]
-- ==== Proof.Spec.lean ====
/-
  The embedding lookup as ONE function of the two argument arrays, and the layout of the packed table the
  kernel gathers from.

  The reference computes `out[b, h, c] = table[x[b, h], c]`. The kernel first re-lays the table: it cuts the
  rows into groups of 32768 and writes group `g` as 16384 rows of 128 columns, row `r` of the group holding
  table row `32768 g + r` in columns 0–63 and table row `32768 g + 16384 + r` in columns 64–127. A table
  row `i` therefore sits in packed row `16384 (i / 32768) + i % 16384` at column offset `64 ((i / 16384) % 2)`:
  the two numbers the kernel computes with shifts and masks from each index word.
-/
import Idealize.ShloMosaic.PureOps
import Idealize.ShloMosaic.Lib.ValueIdx

namespace Cert.Spec

open Idealize.ShloMosaic Idealize.ShloMosaic.ValueIdx

/-- The index array, the table, the result. -/
abbrev SX : Shape := ⟨2, ![16384, 50]⟩
abbrev ST : Shape := ⟨2, ![1000000, 64]⟩
abbrev SO : Shape := ⟨3, ![16384, 50, 64]⟩
/-- The packed table: 31 groups of 16384 rows, 128 columns. -/
abbrev SP : Shape := ⟨2, ![507904, 128]⟩

/-- The table row an index word names: its unsigned value, kept inside the table. For a word in `[0, 999999]`
    (every word of `x`, by the precondition) this is the word's value itself. -/
def rowOf (w : BitVec 32) : Fin 1000000 := ⟨min w.toNat 999999, by omega⟩

theorem rowOf_val_of_le {w : BitVec 32} (h : w.toNat ≤ 999999) : (rowOf w).val = w.toNat := by
  show min w.toNat 999999 = w.toNat
  omega

/-- The lookup: entry `(b, h, c)` of the result is entry `(x[b, h], c)` of the table. -/
def lookup {E : Type} (x : SX.Idx → BitVec 32) (tab : ST.Idx → E) : SO.Idx → E :=
  fun i => tab (ix2 (rowOf (x (ix2 (i 0) (i 1)))) (i 2))

/-- The packed row holding table row `i`. -/
def packRow (i : Nat) : Nat := 16384 * (i / 32768) + i % 16384
/-- The column offset, 0 or 64, at which that packed row holds table row `i`. -/
def packOff (i : Nat) : Nat := 64 * ((i / 16384) % 2)

theorem packRow_lt {i : Nat} (h : i < 1000000) : packRow i < 507904 := by
  unfold packRow; omega

theorem packOff_le (i : Nat) : packOff i + 64 ≤ 128 := by
  unfold packOff; omega

/-- The table row that packed entry `(r, j)` holds (when that row exists): the inverse reading of the layout. -/
def srcRow (r j : Nat) : Nat := 32768 * (r / 16384) + 16384 * (j / 64) + r % 16384

/-- Reading the packed layout back at the place the kernel computes for row `i` gives row `i`. -/
theorem srcRow_pack (i c : Nat) (hc : c < 64) : srcRow (packRow i) (packOff i + c) = i := by
  unfold srcRow packRow packOff; omega

/-! ## What the SparseCore kernel writes, before the last transpose

The kernel's own output is the lookup with its first two axes exchanged, `[50, 16384, 64]`; it is written in
6400 chunks of 128 consecutive batch positions: chunk `g` is history position `g / 128`, batch positions
`128 (g % 128) … 128 (g % 128) + 127`, all 64 columns. Worker `w` of the 32 writes chunks `200 w … 200 w + 199`. -/

/-- The kernel's output array before the host's transpose. -/
abbrev SOT : Shape := ⟨3, ![50, 16384, 64]⟩
/-- The index array as the kernel reads it: transposed. -/
abbrev SXT : Shape := ⟨2, ![50, 16384]⟩

/-- Entry `(h, b, c)` is entry `(x[b, h], c)` of the table. -/
def lookupT {E : Type} (x : SX.Idx → BitVec 32) (tab : ST.Idx → E) : SOT.Idx → E :=
  fun i => tab (ix2 (rowOf (x (ix2 (i 1) (i 0)))) (i 2))

/-- The entries of chunk `g`. -/
def chunkSet (g : Nat) : Finset SOT.Idx :=
  Finset.univ.filter fun i => (i 0).val = g / 128 ∧ (i 1).val / 128 = g % 128

/-- Exchanging the first two axes of `lookupT` gives `lookup`. -/
theorem lookupT_swap {E : Type} (x : SX.Idx → BitVec 32) (tab : ST.Idx → E) (b : Fin 16384) (h : Fin 50) (c : Fin 64) :
    lookupT x tab (ix3 h b c) = lookup x tab (ix3 b h c) := rfl

/-- The packed table holds the table in the layout above, wherever the table row exists (the last group
    of 32768 rows runs past the table's end: those packed entries are not constrained). -/
def PackOK {E : Type} (tab : ST.Idx → E) (tp : SP.Idx → E) : Prop :=
  ∀ (r : Fin 507904) (j : Fin 128) (hs : srcRow r.val j.val < 1000000),
    tp (ix2 r j) = tab (ix2 ⟨srcRow r.val j.val, hs⟩ ⟨j.val % 64, Nat.mod_lt _ (by decide)⟩)

/-- Through a packed table in that layout, the place the kernel computes for an index word in range reads the
    table row the word names. -/
theorem PackOK.read {E : Type} {tab : ST.Idx → E} {tp : SP.Idx → E} (h : PackOK tab tp) (i : Nat) (hi : i < 1000000)
    (c : Fin 64) :
    tp (ix2 ⟨packRow i, packRow_lt hi⟩ ⟨packOff i + c.val, by have := packOff_le i; omega⟩) = tab (ix2 ⟨i, hi⟩ c) := by
  have hs : srcRow (packRow i) (packOff i + c.val) = i := srcRow_pack i c.val c.isLt
  have hm : (packOff i + c.val) % 64 = c.val := by unfold packOff; omega
  rw [h ⟨packRow i, packRow_lt hi⟩ ⟨packOff i + c.val, by have := packOff_le i; omega⟩ (by simp only; omega)]
  congr 1
  funext a
  match a with
  | ⟨0, _⟩ => exact Fin.ext hs
  | ⟨1, _⟩ => exact Fin.ext hm

end Cert.Spec
-- ==== Proof.KSetup.lean ====
/-
  The launch of the program, first part: the program as the SparseCore launch theorem sees it, the proof's
  resource algebra, the arrays' locations, and what the one SparseCore call's handshakes carry.

  @main on the TensorCore transposes the index array and the table, re-lays the transposed table into the packed
  table (a TensorCore kernel region), starts ONE SparseCore call — a vector-subcore kernel on 2 SparseCores of 16
  vector subcores each — and transposes its output. The call hands every SparseCore a READ SHARE of the packed table
  (at some contents that hold the table in the pack layout) and of the transposed indices, and the output chunks of
  its sixteen vector subcores; the sequencer deals each vector subcore a share of the two read arrays and its own
  200 chunks; a vector subcore hands its chunks back holding the lookup, and the SparseCore hands back all of them.
  The read shares are not returned: nobody reads the two arrays after the call.
-/
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic
import proofs.«206325_g16862041604593_cont_week2b_1534_42_alg».proof.Proof.Gen.KernelIdeal
import proofs.«206325_g16862041604593_cont_week2b_1534_42_alg».proof.Proof.Gen.KernelIdeal.Launch
import proofs.«206325_g16862041604593_cont_week2b_1534_42_alg».proof.Proof.Spec

noncomputable section

namespace Cert.Proof.KLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_eq (q : Fin 1) : (K (F := F)).nCore q = 2 := match q with | 0 => rfl
theorem nSub_eq (q : Fin 1) : (K (F := F)).nSub q = 16 := match q with | 0 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

/-- The SparseCore handshakes' copy of the rounds algebra (duties numbered). -/
abbrev UH : Type := URounds (GSem nD τ sig) ℕ
/-- The TensorCore region's staging cells' copy (duties unnamed). -/
abbrev UP : Type := UR sig nD τ
abbrev UU : Type := UH × (UP × Counters)

local notation "𝕄" => MT nD τ sig (HIx 1) (Elt F) ℕ UU ℕ

/-- The handshakes' component, the left factor. -/
abbrev EH : Emb UH (MT nD τ sig (HIx 1) (Elt F) ℕ UU ℕ) := embL
/-- The staging cells' component: the left factor of the right factor. -/
abbrev EP : Emb UP (MT nD τ sig (HIx 1) (Elt F) ℕ UU ℕ) := (Emb.inl : Emb UP (UP × Counters)).trans embR

instance EP_landsIn : (EP (F := F)).LandsIn (upEmb : UEmb _ 𝕄) := by
  unfold EP embR; infer_instance

/-- Owning a launch element of the product is owning its three components, each through its embedding. -/
theorem ownU_split (a : UH) (b : UP) (c : Counters) :
    (ownU ((a, (b, c)) : UU) : sProp 𝕄) ⊢ iprop(BI.own (EH (F := F) a) ∗ BI.own (EP (F := F) b)) := by
  iintro Hu
  ihave H := (ownU_pair _ _) $$ Hu
  icases H with ⟨HH, HR⟩
  ihave H2 := (own_pair_emb embR b c) $$ HR
  icases H2 with ⟨HP, -⟩
  isplitl [HH]; · iexact HH
  iexact HP

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev xtLoc (d : Dev nD) : Loc nD τ sig := (SparseCore.T d).loc main_v0
abbrev t1Loc (d : Dev nD) : Loc nD τ sig := (SparseCore.T d).loc main_v1
abbrev tabLoc (d : Dev nD) : Loc nD τ sig := (SparseCore.T d).loc main_v2
abbrev outLoc (d : Dev nD) : Loc nD τ sig := (SparseCore.T d).loc main_v3
abbrev resLoc (d : Dev nD) : Loc nD τ sig := (SparseCore.T d).loc main_v4

/-- The index array and the table at the launch. -/
abbrev xIn (d : Dev nD) : IVec S16384x50 32 := m (a0Loc d)
abbrev tIn (d : Dev nD) : FVec F S1000000x64 .f32 := m (a1Loc d)

/-- The index array transposed: what @main's first line leaves in its result. -/
def xT (d : Dev nD) : IVec S50x16384 32 := transpose S50x16384 [1, 0] (xIn m d) Facts₀.transposes_S16384x50_S50x16384_1_0
/-- The table transposed: what @main's second line leaves. -/
def tT (d : Dev nD) : FVec F S64x1000000 .f32 := transpose S64x1000000 [1, 0] (tIn m d) Facts₀.transposes_S1000000x64_S64x1000000_1_0

/-- The SparseCore kernel's output: the lookup with its first two axes exchanged. -/
abbrev outT (d : Dev nD) : FVec F S50x16384x64 .f32 := Cert.Spec.lookupT (xIn m d) (tIn m d)
/-- The program's result. -/
abbrev res (d : Dev nD) : FVec F S16384x50x64 .f32 := Cert.Spec.lookup (xIn m d) (tIn m d)

/-! ## The shares and the chunks -/

/-- SparseCore `c`'s read share of an array, and vector subcore `(c, i)`'s part of it. -/
abbrev qC (c : Fin 2) : PosShare TreeShare := shareTok fullShare 2 c
abbrev qV (c : Fin 2) (i : Fin 16) : PosShare TreeShare := shareTok (qC c) 16 i

/-- The worker number of vector subcore `i` of SparseCore `c`. -/
abbrev widOf (c : Fin 2) (i : Fin 16) : Nat := 2 * i.val + c.val

/-- Worker `w`'s 200 output chunks, each whole at the full share, at contents `f`. -/
def chunks (d : Dev nD) (w : Nat) (f : Buf (Elt F) (outLoc d)) : sProp 𝕄 :=
  bigSep (Finset.univ : Finset (Fin 200)) fun t => outLoc d ↦[Cert.Spec.chunkSet (200 * w + t.val)]{fullShare} f

/-- The two read arrays at the shares `q`: the packed table at some contents holding the table in the pack layout,
    the transposed indices. -/
def reads (d : Dev nD) (q : PosShare TreeShare) : sProp 𝕄 :=
  iprop(∃ tp : Buf (Elt F) (tabLoc d), ⌜Cert.Spec.PackOK (tIn m d) tp⌝ ∗ (tabLoc d ↦{q} tp) ∗ (xtLoc d ↦{q} xT m d))

/-! ## What the call's handshakes carry -/

def stOf (d : Dev nD) (c : Fin 2) : sProp 𝕄 :=
  iprop(reads m d (qC c) ∗ bigSep (Finset.univ : Finset (Fin 16)) fun i => chunks d (widOf c i) (m (outLoc d)))
def dnOf (d : Dev nD) (c : Fin 2) : sProp 𝕄 :=
  bigSep (Finset.univ : Finset (Fin 16)) fun i => chunks d (widOf c i) (outT m d)
def goOf (d : Dev nD) (c : Fin 2) (i : Fin 16) : sProp 𝕄 :=
  iprop(reads m d (qV c i) ∗ chunks d (widOf c i) (m (outLoc d)))
def tdOf (d : Dev nD) (c : Fin 2) (i : Fin 16) : sProp 𝕄 := chunks d (widOf c i) (outT m d)

instance chunks_storable (d : Dev nD) (w : Nat) (f : Buf (Elt F) (outLoc d)) : BI.Storable (upEmb : UEmb _ 𝕄) (chunks d w f) := by
  unfold chunks; infer_instance
instance reads_storable (d : Dev nD) (q : PosShare TreeShare) : BI.Storable (upEmb : UEmb _ 𝕄) (reads m d q) := by
  unfold reads; infer_instance
instance stOf_storable (d : Dev nD) (c : Fin 2) : BI.Storable (upEmb : UEmb _ 𝕄) (stOf m d c) := by
  unfold stOf; infer_instance
instance dnOf_storable (d : Dev nD) (c : Fin 2) : BI.Storable (upEmb : UEmb _ 𝕄) (dnOf m d c) := by
  unfold dnOf; infer_instance
instance goOf_storable (d : Dev nD) (c : Fin 2) (i : Fin 16) : BI.Storable (upEmb : UEmb _ 𝕄) (goOf m d c i) := by
  unfold goOf; infer_instance
instance tdOf_storable (d : Dev nD) (c : Fin 2) (i : Fin 16) : BI.Storable (upEmb : UEmb _ 𝕄) (tdOf m d c i) := by
  unfold tdOf; infer_instance

/-- Call 0's payloads; the kernel's proof consumes nothing of the launch's. -/
def P : (K (F := F)).Pay (nD := nD) (Val := Elt F) (Name := ℕ) (U := UU) where
  st := fun q d c => stOf m d (Fin.cast (nCore_eq q) c)
  dn := fun q d c => dnOf m d (Fin.cast (nCore_eq q) c)
  go := fun q d c i => goOf m d (Fin.cast (nCore_eq q) c) (Fin.cast (nSub_eq q) i)
  td := fun q d c i => tdOf m d (Fin.cast (nCore_eq q) c) (Fin.cast (nSub_eq q) i)
  x := fun _ _ => iprop(emp)

theorem P_st (q : Fin 1) (d : Dev nD) (c : Fin ((K (F := F)).nCore q)) : (P m).st q d c = stOf m d (Fin.cast (nCore_eq q) c) := rfl
theorem P_dn (q : Fin 1) (d : Dev nD) (c : Fin ((K (F := F)).nCore q)) : (P m).dn q d c = dnOf m d (Fin.cast (nCore_eq q) c) := rfl
theorem P_go (q : Fin 1) (d : Dev nD) (c : Fin ((K (F := F)).nCore q)) (i : Fin ((K (F := F)).nSub q)) :
    (P m).go q d c i = goOf m d (Fin.cast (nCore_eq q) c) (Fin.cast (nSub_eq q) i) := rfl
theorem P_td (q : Fin 1) (d : Dev nD) (c : Fin ((K (F := F)).nCore q)) (i : Fin ((K (F := F)).nSub q)) :
    (P m).td q d c i = tdOf m d (Fin.cast (nCore_eq q) c) (Fin.cast (nSub_eq q) i) := rfl
theorem P_x (q : Fin 1) (thr : Thread nD τ) : (P m).x q thr = iprop(emp) := rfl

instance P_storable : (P (F := F) m).IsStorable where
  st _ d c := by rw [P_st]; infer_instance
  dn _ d c := by rw [P_dn]; infer_instance
  go _ _ _ _ := by rw [P_go]; infer_instance
  td _ _ _ _ := by rw [P_td]; infer_instance

end Cert.Proof.KLaunch

end
-- ==== Proof.KSplit.lean ====
/-
  The launch, second part: how the arrays split.

  A read share of the packed table and of the transposed indices splits into as many read shares as there are
  readers (two SparseCores; sixteen vector subcores of each); the output array is the disjoint union of its 6400
  chunks, 200 to each of the 32 workers; the sequencer's split of one SparseCore's operands among its sixteen vector
  subcores, with the chunks gathered back; and the call's operands out of the whole arrays, its results back into
  the whole output.
-/
import proofs.«206325_g16862041604593_cont_week2b_1534_42_alg».proof.Proof.KSetup

noncomputable section

namespace Cert.Proof.KLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## Read shares -/

/-- The two read arrays held at a share `q`, the packed table at contents in the pack layout, are a reader's
    operands at that share. -/
theorem reads_of (d : Dev nD) (q : PosShare TreeShare) (tp : Buf (Elt F) (tabLoc d)) (hp : Cert.Spec.PackOK (tIn m d) tp) :
    iprop((tabLoc d ↦{q} tp) ∗ (xtLoc d ↦{q} xT m d)) ⊢ (reads m d q : sProp 𝕄) := by
  unfold reads
  iintro ⟨Ht, Hx⟩
  iexists tp
  isplitr; · ipureintro; exact hp
  isplitl [Ht]; · iexact Ht
  iexact Hx

/-- Held at a share `q`, they are `n` readers' operands, each at its read share of `q` (the remainder is dropped). -/
theorem reads_intro (d : Dev nD) (q : PosShare TreeShare) (n : ℕ) (tp : Buf (Elt F) (tabLoc d)) (hp : Cert.Spec.PackOK (tIn m d) tp) :
    iprop((tabLoc d ↦{q} tp) ∗ (xtLoc d ↦{q} xT m d)) ⊢ (bigSep (Finset.univ : Finset (Fin n)) fun i => reads m d (shareTok q n i) : sProp 𝕄) := by
  iintro ⟨Ht, Hx⟩
  ihave Ht' := (pointsTo_toks_split q n) $$ Ht
  icases Ht' with ⟨-, Ht⟩
  ihave Hx' := (pointsTo_toks_split q n) $$ Hx
  icases Hx' with ⟨-, Hx⟩
  iapply (SparseCore.ent (bigSep_mono (Φ := fun i : Fin n => iprop((tabLoc d ↦{shareTok q n i} tp) ∗ (xtLoc d ↦{shareTok q n i} xT m d))) fun i _ => reads_of m d _ tp hp))
  rw [bigSep_sep']
  isplitl [Ht]; · iexact Ht
  iexact Hx

/-- A reader's operands at a share `q` are `n` readers' operands. -/
theorem reads_split (d : Dev nD) (q : PosShare TreeShare) (n : ℕ) :
    reads m d q ⊢ (bigSep (Finset.univ : Finset (Fin n)) fun i => reads m d (shareTok q n i) : sProp 𝕄) := by
  unfold reads
  iintro ⟨%tp, %hp, Ht, Hx⟩
  iapply (reads_intro m d q n tp hp)
  isplitl [Ht]; · iexact Ht
  iexact Hx

/-! ## The output's chunks -/

theorem mem_chunkSet (j : Cert.Spec.SOT.Idx) (g : Nat) :
    j ∈ Cert.Spec.chunkSet g ↔ (j 0).val = g / 128 ∧ (j 1).val / 128 = g % 128 := by
  unfold Cert.Spec.chunkSet; simp only [Finset.mem_filter, Finset.mem_univ, true_and]

/-- Two chunks with different numbers share no entry. -/
theorem chunk_disjoint {g g' : Nat} (h : g ≠ g') : Disjoint (Cert.Spec.chunkSet g) (Cert.Spec.chunkSet g') := by
  refine Finset.disjoint_left.mpr fun i hi hi' => h ?_
  rw [mem_chunkSet] at hi hi'
  omega

/-- The chunk number of worker `2 i + c`'s `t`-th chunk. -/
abbrev chunkNo (x : Fin 2 × Fin 16 × Fin 200) : Nat := 200 * widOf x.1 x.2.1 + x.2.2.val

theorem chunkNo_inj : Function.Injective chunkNo := by
  rintro ⟨c, i, t⟩ ⟨c', i', t'⟩ h
  have hc := c.isLt; have hc' := c'.isLt; have hi := i.isLt; have hi' := i'.isLt; have ht := t.isLt; have ht' := t'.isLt
  simp only [chunkNo, widOf] at h
  have h1 : c.val = c'.val := by omega
  have h2 : i.val = i'.val := by omega
  have h3 : t.val = t'.val := by omega
  exact Prod.ext (Fin.ext h1) (Prod.ext (Fin.ext h2) (Fin.ext h3))

/-- Each entry `(a, b, _)` of the output lies in the chunk numbered `128 a + b / 128`, which is some worker's. -/
theorem chunk_arith (a b : Nat) (ha : a < 50) (hb : b < 16384) :
    ∃ x : Fin 2 × Fin 16 × Fin 200, a = chunkNo x / 128 ∧ b / 128 = chunkNo x % 128 := by
  have hc : ((128 * a + b / 128) / 200) % 2 < 2 := by omega
  have hi : ((128 * a + b / 128) / 200) / 2 < 16 := by omega
  have ht : (128 * a + b / 128) % 200 < 200 := by omega
  refine ⟨(⟨_, hc⟩, ⟨_, hi⟩, ⟨_, ht⟩), ?_⟩
  simp only [chunkNo, widOf]
  omega

set_option maxRecDepth 100000 in
/-- Every entry of the output lies in one of the 6400 chunks. -/
theorem chunk_cover : (Finset.univ : Finset (Fin 2 × Fin 16 × Fin 200)).biUnion (fun x => Cert.Spec.chunkSet (chunkNo x)) = Finset.univ := by
  refine Finset.eq_univ_iff_forall.mpr fun j => ?_
  exact (chunk_arith (j 0).val (j 1).val (j 0).isLt (j 1).isLt).elim fun x hx =>
    Finset.mem_biUnion.mpr ⟨x, Finset.mem_univ _, (mem_chunkSet j _).mpr hx⟩

set_option maxRecDepth 100000 in
/-- The whole output array is its 32 workers' chunks. -/
theorem out_chunks (d : Dev nD) (f : Buf (Elt F) (outLoc d)) :
    (outLoc d ↦{fullShare} f : sProp 𝕄)
      = bigSep (Finset.univ : Finset (Fin 2)) fun c => bigSep (Finset.univ : Finset (Fin 16)) fun i => chunks d (widOf c i) f := by
  have h1 : (outLoc d ↦{fullShare} f : sProp 𝕄)
      = bigSep (Finset.univ : Finset (Fin 2 × Fin 16 × Fin 200)) fun x => outLoc d ↦[Cert.Spec.chunkSet (chunkNo x)]{fullShare} f := by
    rw [← pointsTo_biUnion Finset.univ (ℓ := outLoc d) (fun x => Cert.Spec.chunkSet (chunkNo x))
      (fun x _ y _ h => chunk_disjoint (fun e => h (chunkNo_inj e))), chunk_cover]; try rfl
  rw [h1, ← Finset.univ_product_univ, SparseCore.bigSep_product]
  refine bigSep_congr fun c _ => ?_
  rw [← Finset.univ_product_univ, SparseCore.bigSep_product]
  rfl

/-! ## The sequencer's split -/

theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)

/-- One SparseCore's operands among its sixteen vector subcores: each a share of the read arrays' share and its own
    chunks; the chunks back. -/
theorem vecSplit : (K (F := F)).VecSplit' (P m) 0 := by
  intro d c
  rw [P_st, P_dn]
  simp only [P_go, P_td]
  rw [bigSep_tasks (F := F) (fun i => goOf m d (Fin.cast (nCore_eq 0) c) i), bigSep_tasks (F := F) (fun i => tdOf m d (Fin.cast (nCore_eq 0) c) i)]
  generalize Fin.cast (nCore_eq 0) c = c'
  unfold stOf goOf tdOf dnOf
  rw [bigSep_sep']
  iintro ⟨Hr, Hch⟩
  imodintro
  isplitl [Hr Hch]
  · isplitl [Hr]; · iapply (reads_split m d (qC c') 16); iexact Hr
    iexact Hch
  · iintro H; iexact H

/-! ## The call's operands from the whole arrays, and its results back -/

/-- The packed table and the transposed indices whole, the output whole at its launch contents, are what the call
    hands the two SparseCores. -/
theorem st_intro (d : Dev nD) (tp : Buf (Elt F) (tabLoc d)) (hp : Cert.Spec.PackOK (tIn m d) tp) :
    iprop((tabLoc d ↦{fullShare} tp) ∗ (xtLoc d ↦{fullShare} xT m d) ∗ (outLoc d ↦{fullShare} m (outLoc d)))
      ⊢ (bigSep Finset.univ fun c : Fin ((K (F := F)).nCore 0) => (P m).st 0 d c : sProp 𝕄) := by
  simp only [P_st]
  rw [bigSep_cores (F := F) (fun c => stOf m d c)]
  unfold stOf
  rw [bigSep_sep', out_chunks]
  iintro ⟨Ht, Hx, Ho⟩
  isplitl [Ht Hx]
  · iapply (reads_intro m d fullShare 2 tp hp)
    isplitl [Ht]; · iexact Ht
    iexact Hx
  · iexact Ho

/-- What the two SparseCores hand back is the output whole, holding the lookup. -/
theorem dn_elim (d : Dev nD) :
    (bigSep Finset.univ fun c : Fin ((K (F := F)).nCore 0) => (P m).dn 0 d c : sProp 𝕄) ⊢ (outLoc d ↦{fullShare} outT m d : sProp 𝕄) := by
  simp only [P_dn]
  rw [bigSep_cores (F := F) (fun c => dnOf m d c), out_chunks]
  unfold dnOf
  exact .rfl

end Cert.Proof.KLaunch

end
-- ==== Proof.KMain.lean ====
/-
  The launch, third part: the launch element of the ghost state, @main on the TensorCore, and how the final memory
  reads the claim.

  The launch element is the handshakes' rounds beside the staging cells' (funded by the region's proof, a
  hypothesis here) and the counters'. @main keeps the two arguments whole throughout: it transposes the indices and
  the table (each a host operation over its two arrays), runs the TensorCore region (a hypothesis: it leaves the packed
  table holding the table in the pack layout), hands the packed table, the transposed indices and the output to the
  SparseCore call and gets the output back holding the kernel's lookup, and exchanges the output's first two axes,
  which is the lookup.
-/
import proofs.«206325_g16862041604593_cont_week2b_1534_42_alg».proof.Proof.KSplit
import Idealize.ShloMosaic.Lib.ValueLayout

noncomputable section

namespace Cert.Proof.KLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (devRef_ne_of_ne unary_result unary_result_ne)
open Idealize.ShloMosaic.ValueIdx

/-! ## The launch element: the handshakes' rounds, the staging cells' ghost state; nothing of the SparseCore kernel's -/

def u₀ (c₀ : UP) : UU := (initOf (K (F := F)).hsCells (K (F := F)).hsToks, (c₀, 1))

theorem bigSep_emp' {I : Type} (s : Finset I) : (bigSep s fun _ => iprop(emp)) = (iprop(emp) : sProp 𝕄) := bigSep_emp_const s

theorem hu₀ (Gh : Dev nD → sProp 𝕄) (c₀ : UP) (hfund : (BI.own (EP (F := F) c₀) : sProp 𝕄) ⊢ iprop(|==> bigSep Finset.univ Gh)) :
    (ownU (u₀ (F := F) c₀) : sProp 𝕄)
      ⊢ |={Set.univ}=> iprop(BI.own (EH (initOf (K (F := F)).hsCells (K (F := F)).hsToks)) ∗ (bigSep Finset.univ Gh)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod hfund $$ HP with HG
  imodintro
  isplitl [HH]; · iexact HH
  isplitl [HG]; · iexact HG
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable [FloatOps F]

/-- What the proof of the TensorCore region supplies: from the region boundary, the transposed table, the packed
    table's array, what the TensorCore owes (nothing at the region's own index) and the staging cells' ghost state,
    the region runs and leaves the packed table holding the table in the pack layout. -/
def RegionOK (Gh : Dev nD → sProp 𝕄) : Prop :=
  ∀ (d : Dev nD) (t1 : Buf (Elt F) (t1Loc d)) (v2 : Buf (Elt F) (tabLoc d)) (O : CellTallies nD τ sig (HIx 1)) (b : ℕ), (∀ g, O g none = 0) →
    iprop(boundary (SparseCore.T d) ∗ (t1Loc d ↦{fullShare} t1) ∗ (tabLoc d ↦{fullShare} v2)
        ∗ (∃ W, ⌜(K (F := F)).WBelow (SparseCore.T d) W b⌝ ∗ owes (SparseCore.T d) O W) ∗ levAts (K (F := F)).L (K (F := F)).lev ∗ Gh d)
      ⊢ wp (M := 𝕄) frame (wpE ((K (F := F)).defs (D (F := F))) 𝒱 (SparseCore.T d) none) Set.univ
          (Prog.lift (.customCall (SparseCore.inner (Pipeline.entry 0)) ()))
          fun _ => iprop(boundary (SparseCore.T d) ∗ (t1Loc d ↦{fullShare} t1)
            ∗ (∃ tp : Buf (Elt F) (tabLoc d), ⌜∀ tab : FVec F S1000000x64 .f32, (∀ i, t1 (ix2 (i 1) (i 0)) = tab i) → Cert.Spec.PackOK tab tp⌝ ∗ tabLoc d ↦{fullShare} tp)
            ∗ (∃ W, ⌜(K (F := F)).WBelow (SparseCore.T d) W b⌝ ∗ owes (SparseCore.T d) O W))

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xtLoc d ↦{fullShare} W main_v0)
      ∗ (t1Loc d ↦{fullShare} W main_v1) ∗ (tabLoc d ↦{fullShare} W main_v2) ∗ (outLoc d ↦{fullShare} W main_v3) ∗ (resLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem held_pair (d : Dev nD) {x y : DevRef τ sig} (h : x ≠ y) (V : Valuation τ sig (Elt F)) :
    (held (SparseCore.T d) {x, y} V : sProp 𝕄) = iprop((((d, x) : Loc nD τ sig) ↦{fullShare} V x) ∗ (((d, y) : Loc nD τ sig) ↦{fullShare} V y)) := by
  unfold held
  rw [SparseCore.bigSep_insert' (Finset.notMem_singleton.mpr h), bigSep_singleton]

omit [FloatOps F] in
/-- After `y := f x` the two arrays hold `x`'s contents and `f` of them. -/
theorem held_unary (d : Dev nD) (x y : Ref sig .tc) (hne : x ≠ y) (f : x.ty.Contents (Elt F) → y.ty.Contents (Elt F)) (hx) (hy) (V : Valuation τ sig (Elt F)) :
    (held (SparseCore.T d) {Proc.devRef .tc x, Proc.devRef .tc y} ((StableHlo.unary x y f hx hy).result V) : sProp 𝕄)
      = iprop((((d, Proc.devRef .tc x) : Loc nD τ sig) ↦{fullShare} V (Proc.devRef .tc x)) ∗ (((d, Proc.devRef .tc y) : Loc nD τ sig) ↦{fullShare} f (V (Proc.devRef .tc x)))) := by
  rw [held_pair d (devRef_ne_of_ne hne), unary_result, unary_result_ne _ _ _ _ _ _ hne]

include m in
/-- A host operation `y := f x` at the head of what is left of @main, its two arrays held whole. -/
theorem wp_unary (d : Dev nD) (x y : Ref sig .tc) (hne : x ≠ y)
    (f : x.ty.Contents (Elt F) → y.ty.Contents (Elt F)) (hx) (hy)
    (vx : Buf (Elt F) ((SparseCore.T d).loc x)) (vy : Buf (Elt F) ((SparseCore.T d).loc y))
    {α : Type} {k : Prog (TpuEff nD τ sig (Elt F) (SparseCore.Sig (ΛP (F := F)) 1) .tc) α} {Q : α → sProp 𝕄} :
    iprop(boundary (SparseCore.T d) ∗ ((SparseCore.T d).loc x ↦{fullShare} vx) ∗ ((SparseCore.T d).loc y ↦{fullShare} vy))
      ⊢ iprop(((boundary (SparseCore.T d) ∗ ((SparseCore.T d).loc x ↦{fullShare} vx) ∗ ((SparseCore.T d).loc y ↦{fullShare} (f vx : Buf (Elt F) ((SparseCore.T d).loc y))))
              -∗ wp frame (wpE ((K (F := F)).defs (D (F := F))) 𝒱 (SparseCore.T d) none) Set.univ k Q)
          -∗ wp frame (wpE ((K (F := F)).defs (D (F := F))) 𝒱 (SparseCore.T d) none) Set.univ (hlo rfl (StableHlo.unary x y f hx hy) fun _ => k) Q) := by
  have hne' : (Proc.devRef .tc x : DevRef τ sig) ≠ Proc.devRef .tc y := devRef_ne_of_ne hne
  have hV : ∀ V : Valuation τ sig (Elt F), V = Function.update (Function.update (V0 m d) (Proc.devRef .tc x) vx) (Proc.devRef .tc y) vy →
      V (Proc.devRef .tc x) = vx ∧ V (Proc.devRef .tc y) = vy := by
    rintro V rfl
    exact ⟨by rw [Function.update_of_ne hne', Function.update_self], Function.update_self _ _ _⟩
  obtain ⟨V, hVdef⟩ : ∃ V : Valuation τ sig (Elt F), V = Function.update (Function.update (V0 m d) (Proc.devRef .tc x) vx) (Proc.devRef .tc y) vy := ⟨_, rfl⟩
  obtain ⟨hVx, hVy⟩ := hV V hVdef
  iintro ⟨Hb, Hx, Hy⟩ Hk
  iapply (wp_hlo_within 𝒱 (SparseCore.T d) none Set.univ (op := StableHlo.unary x y f hx hy) (S := {Proc.devRef .tc x, Proc.devRef .tc y}) (Finset.Subset.refl _)
      (V := V)) $$ [Hb Hx Hy]
  · isplitl [Hb]; · iexact Hb
    rw [held_pair d hne', hVx, hVy]
    isplitl [Hx]; · iexact Hx
    iexact Hy
  iintro ⟨Hb, Hheld⟩
  ihave Hh := (Entails.of_eq (held_unary (F := F) d x y hne f hx hy V)) $$ Hheld
  rw [hVx]
  icases Hh with ⟨Hx, Hy⟩
  iapply Hk
  isplitl [Hb]; · iexact Hb
  isplitl [Hx]; · iexact Hx
  iexact Hy

/-- What @main leaves the claim: the two arguments at their launch contents, the result holding the lookup. -/
abbrev FIN (d : Dev nD) : sProp 𝕄 :=
  iprop((a0Loc d ↦{fullShare} m (a0Loc d)) ∗ (a1Loc d ↦{fullShare} m (a1Loc d)) ∗ (resLoc d ↦{fullShare} res m d))

omit [FloatOps F] in
theorem tcSt_split (d : Dev nD) (n : ℕ) : ∃ R : sProp 𝕄, (K (F := F)).tcSt EH d n
    = iprop((∃ W, ⌜(K (F := F)).WBelow (SparseCore.T d) W (8 * n)⌝ ∗ owes (SparseCore.T d) ((K (F := F)).Otc d n) W) ∗ R) := ⟨_, rfl⟩

omit [FloatOps F] in
/-- The TensorCore owes nothing at the region's own index. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

omit [FloatOps F] in
/-- The transposed table read at `(c, r)` is the table at `(r, c)`. -/
theorem tT_apply (d : Dev nD) (i : S1000000x64.Idx) : tT m d (ix2 (i 1) (i 0)) = tIn m d i := by
  unfold tT
  exact transpose_apply _ _ _ _ i (fun b => by
    match b with
    | ⟨0, _⟩ => rfl
    | ⟨1, _⟩ => rfl)

omit [FloatOps F] in
/-- The transposed indices read at `(h, b)` are the indices at `(b, h)`. -/
theorem xT_apply (d : Dev nD) (h : Fin 50) (b : Fin 16384) : xT m d (ix2 h b) = xIn m d (ix2 b h) := by
  unfold xT
  rw [transpose_ix2_apply]

omit [FloatOps F] in
/-- The kernel's output with its first two axes exchanged is the lookup. -/
theorem res_eq (d : Dev nD) (h : S50x16384x64.Transposes [1, 0, 2] S16384x50x64) :
    transpose S16384x50x64 [1, 0, 2] (outT m d) h = res m d := by
  funext j
  rw [transpose_apply _ _ h j (ix3 (j 1) (j 0) (j 2)) (fun b => by
    match b with
    | ⟨0, _⟩ => rfl
    | ⟨1, _⟩ => rfl
    | ⟨2, _⟩ => rfl)]
  rfl

/-- @main on device `d`'s TensorCore: the two transposes, the region (the hypothesis), the call (`wp_run`: the packed
    table, the transposed indices and the output to the two SparseCores; the output back holding the kernel's lookup),
    the last transpose; the two arguments kept throughout. -/
theorem hmain (Gh : Dev nD → sProp 𝕄) (hpack : RegionOK (F := F) Gh) (κ : GSem nD τ sig → ℕ) (d : Dev nD) :
    iprop((K (F := F)).ctx EH (P m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d 0
  unfold SparseCore.Cfg.tcRes
  rw [unscopedBufs_eq]
  simp only [main, wp_bind, wp_pure]
  iintro ⟨#Hctx, Hst, ⟨Hb, ⟨Ha0, Ha1, Hv0, Hv1, Hv2, Hv3, Hv4⟩, -, -⟩, HG⟩
  ihave Hlev := (SparseCore.Cfg.ctx_levAts κ) $$ Hctx
  -- the indices transposed
  iapply (wp_unary m d main_arg0 main_v0 (by decide) _ _ _ (m (a0Loc d)) (m (xtLoc d))) $$ [Hb Ha0 Hv0]
  · isplitl [Hb]; · iexact Hb
    isplitl [Ha0]; · iexact Ha0
    iexact Hv0
  iintro ⟨Hb, Ha0, Hv0⟩
  rw [wp_ret]; imodintro
  -- the table transposed
  iapply (wp_unary m d main_arg1 main_v1 (by decide) _ _ _ (m (a1Loc d)) (m (t1Loc d))) $$ [Hb Ha1 Hv1]
  · isplitl [Hb]; · iexact Hb
    isplitl [Ha1]; · iexact Ha1
    iexact Hv1
  iintro ⟨Hb, Ha1, Hv1⟩
  rw [wp_ret]; imodintro
  -- the region: the packed table
  ihave Hst' := (Entails.of_eq hR) $$ Hst
  icases Hst' with ⟨HO, HR⟩
  iapply (wp_wand_r frame _ Set.univ)
  isplitl [Hb Hv1 Hv2 HO Hlev HG]
  · iapply (hpack d (tT m d) (m (tabLoc d)) _ _ (Otc_none d))
    isplitl [Hb]; · iexact Hb
    isplitl [Hv1]; · iexact Hv1
    isplitl [Hv2]; · iexact Hv2
    isplitl [HO]; · iexact HO
    isplitl [Hlev]; · iexact Hlev
    iexact HG
  iintro %_ ⟨Hb, Hv1, ⟨%tp, %hp, Hv2⟩, HO⟩
  -- the call
  iapply ((K (F := F)).wp_run (D (F := F)) 𝒱 (EH := EH) (P := P m) κ d 0)
  isplitr; · iexact Hctx
  isplitl [HO HR]
  · iapply (Entails.of_eq hR.symm)
    isplitl [HO]; · iexact HO
    iexact HR
  isplitl [Hv0 Hv2 Hv3]
  · iapply (st_intro m d tp (hp _ (tT_apply m d)))
    isplitl [Hv2]; · iexact Hv2
    isplitl [Hv0]; · iexact Hv0
    iexact Hv3
  iintro ⟨Hst, Hdn⟩
  ihave Hv3 := (dn_elim m d) $$ Hdn
  -- the output's first two axes exchanged
  iapply (wp_unary m d main_v3 main_v4 (by decide) _ _ _ (outT m d) (m (resLoc d))) $$ [Hb Hv3 Hv4]
  · isplitl [Hb]; · iexact Hb
    isplitl [Hv3]; · iexact Hv3
    iexact Hv4
  iintro ⟨Hb, Hv3, Hv4⟩
  rw [wp_ret]; imodintro; imodintro
  isplitl [Hst]; · iexact Hst
  isplitl [Ha0]; · iexact Ha0
  isplitl [Ha1]; · iexact Ha1
  rw [← res_eq m d]
  iexact Hv4

/-! ## The final memory reads the claim -/

def fq (d : Dev nD) (s' : Phys nD τ sig (Elt F)) : Prop :=
  s'.mem.mem (resLoc d) = res m d ∧ s'.mem.mem (a0Loc d) = m (a0Loc d) ∧ s'.mem.mem (a1Loc d) = m (a1Loc d)

omit [FloatOps F] in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := resLoc d) (I := Finset.univ) (q := fullShare) (f := res m d)) $$ [HSI Hr]
  · isplitl [HSI] <;> iassumption
  icases H with %h2
  ipureintro
  exact ⟨funext fun i => h2 i (Finset.mem_univ i), funext fun i => h0 i (Finset.mem_univ i), funext fun i => h1 i (Finset.mem_univ i)⟩

end Cert.Proof.KLaunch

end
-- ==== Proof.KRun.lean ====
/-
  The launch, last part: the vector subcores' obligation from the body's proof (a hypothesis), and the launch
  theorem applied: every weakly fair execution of the 35 threads terminates, and in every final memory the result
  holds the lookup of the two arguments, which are unchanged.
-/
import proofs.«206325_g16862041604593_cont_week2b_1534_42_alg».proof.Proof.KMain

noncomputable section

namespace Cert.Proof.KLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.StableHlo (held held_split held_sdiff_result wp_hlo_within)
open Idealize.ShloMosaic.StableHlo (devRef_ne_of_ne unary_result unary_result_ne)
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile Facts₀.hcore1 Facts₀.hsub1 (fun c s => cc1_k (coordsV c s)
          (Memref.whole main_v2_scv) (Memref.isWhole_whole _) (Memref.whole main_v0_scv) (Memref.isWhole_whole _)
          (Memref.whole main_v3_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) cc1_scratch4 cc1_scratch5 cc1_scratch6) ⟨⟩ c s := rfl

omit [FloatOps F] in
/-- An entailment in the proof mode's spelling is one in the library's. -/
theorem toEnt {A B : sProp 𝕄} (h : A ⊢ B) : Idealize.SL.BI.Entails A B := h

/-- What the proof of the SparseCore kernel's body supplies: one vector subcore's task at a symbolic grid point,
    from read shares of the packed table (in the pack layout) and of the transposed indices (in range) and its 200
    output chunks, to the chunks holding the lookup. -/
def BodyOK : Prop :=
  ∀ (d : Dev nD) (L : grid1.Coords) (q q' : PosShare TreeShare) (tab : FVec F S1000000x64 .f32) (x : IVec S16384x50 32)
    (tp : Buf (Elt F) (tabLoc d)) (xt : Buf (Elt F) (xtLoc d)) (fo : Buf (Elt F) (outLoc d)),
    (∀ j, (x j).toNat ≤ 999999) → (∀ (h : Fin 50) (b : Fin 16384), xt (ix2 h b) = x (ix2 b h)) → Cert.Spec.PackOK tab tp →
    ∀ (O : CellTallies nD τ sig (HIx 1)) (W : Waits sig (HIx 1)), (∀ g, O g none = 0) →
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * (2 * (L 1).val + (L 0).val) + t.val)]{fullShare} fo)
        ∗ scopedBufs (V d ((L 0).castLE Facts₀.hcore1) ((L 1).castLE Facts₀.hsub1)) ∗ scopedSems0 (V d ((L 0).castLE Facts₀.hcore1) ((L 1).castLE Facts₀.hsub1))
        ∗ owes (V d ((L 0).castLE Facts₀.hcore1) ((L 1).castLE Facts₀.hsub1)) O W)
      ⊢ wp (M := 𝕄) frame (wpE (defs₀ (F := F)) 𝒱₀ (V d ((L 0).castLE Facts₀.hcore1) ((L 1).castLE Facts₀.hsub1)) none) Set.univ
          (cc1_k L (Memref.whole main_v2_scv) (Memref.isWhole_whole _) (Memref.whole main_v0_scv) (Memref.isWhole_whole _)
            (Memref.whole main_v3_scv) (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4 cc1_scratch5 cc1_scratch6)
          fun _ => iprop((tabLoc d ↦{q} tp) ∗ (xtLoc d ↦{q'} xt)
            ∗ (bigSep (Finset.univ : Finset (Fin 200)) fun t => outLoc d ↦[Cert.Spec.chunkSet (200 * (2 * (L 1).val + (L 0).val) + t.val)]{fullShare} Cert.Spec.lookupT x tab)
            ∗ scopedBufs (V d ((L 0).castLE Facts₀.hcore1) ((L 1).castLE Facts₀.hsub1)) ∗ scopedSems0 (V d ((L 0).castLE Facts₀.hcore1) ((L 1).castLE Facts₀.hsub1))
            ∗ ∃ W', ⌜∀ p ∈ W', p ∈ W ∨ p.2 = none⌝ ∗ owes (V d ((L 0).castLE Facts₀.hcore1) ((L 1).castLE Facts₀.hsub1)) O W')

/-- `TileObl` at call 0: the task of vector subcore `i` of SparseCore `c` is the body at the grid point `(c, i)`, on its
    shares and its worker's chunks; the read shares are dropped at the end. -/
theorem tileObl (hx : ∀ (d : Dev nD) j, (xIn m d j).toNat ≤ 999999) (hbody : BodyOK (F := F)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  rw [P_go, P_td]
  unfold goOf tdOf reads chunks
  refine toEnt ?_
  iintro ⟨#Hlv, -, ⟨⟨%tp, %hp, Ht, Hx⟩, Hch⟩, Hsb, Hss, HO⟩
  iapply (wp_wand_r frame _ Set.univ)
  isplitl [Ht Hx Hch Hsb Hss HO]
  · iapply (hbody d (coordsV ⟨_, hc.1⟩ ⟨_, hc.2⟩) _ _ (tIn m d) (xIn m d) tp (xT m d) (m (outLoc d)) (hx d) (xT_apply m d) hp O W hO)
    isplitr; · iexact Hlv
    isplitl [Ht]; · iexact Ht
    isplitl [Hx]; · iexact Hx
    isplitl [Hch]; · iexact Hch
    isplitl [Hsb]; · iexact Hsb
    isplitl [Hss]; · iexact Hss
    iexact HO
  iintro %_ ⟨-, -, Hch, Hsb, Hss, %W', %hW', HO⟩
  isplitl [Hch]; · iexact Hch
  isplitl [Hsb]; · iexact Hsb
  isplitl [Hss]; · iexact Hss
  iexists W'; isplitr
  · ipureintro; exact fun p hp => (hW' p hp).imp_right Or.inl
  · iexact HO

/-! ## The program's run -/

/-- The strongest post: the result holds the lookup of the two arguments, which are unchanged. -/
def QC : PUnit × MemSt nD τ sig (Elt F) → Prop := fun r => ∀ c : Dev nD,
  r.2.mem ((c.tc : Thread nD τ).loc main_v4) = Cert.Spec.lookup (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- The launch theorem at this program: one vector-subcore call on two SparseCores, after a TensorCore region. -/
theorem run_main [∀ e, Nonempty (Elt F e)]
    (hx : ∀ (d : Dev nD) j, (m ((SparseCore.T d).loc main_arg0) j).toNat ≤ 999999)
    (hbody : BodyOK (F := F))
    (Gh : Dev nD → sProp 𝕄) (c₀ : UP) (hfund : (BI.own (EP (F := F) c₀) : sProp 𝕄) ⊢ iprop(|==> bigSep Finset.univ Gh))
    (hpack : RegionOK (F := F) Gh) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hx hbody)
    (fun q _ => match q with | 0 => SparseCore.Cfg.VecSplit.of_plain (vecSplit m))
    m ρ main Gh (FIN m) (u₀ (F := F) c₀) (sep_elim_left.trans (hu₀ m Gh c₀ hfund)) (hmain m ρ Gh hpack) (fq m) (hfin m) (QC m) (fun _ h => h)

end Cert.Proof.KLaunch

end
-- ==== Proof.KRegion.lean ====
/-
  The TensorCore region of the program: @main's third statement, the pallas_call that re-lays the transposed
  table. On a grid of 31 points it fetches the block of 32768 columns of the transposed table (64 rows; the last
  block overhangs the array: 31 * 32768 > 1000000, and the fetch fills only the columns that exist), transposes
  it, and writes rows [0, 16384) and [16384, 32768) of the transpose side by side into 16384 rows of 128 columns
  of the packed table.

  The proof data is relational: what the body leaves in the input's staging buffer is what it found there; what it
  leaves in the output's staging buffer is constrained by a relation R on the point and the contents left (a
  parameter here: the frame takes the relation that holds of everything, the value the packed layout on the
  entries whose table row exists). The region rule then gives: the transposed table unchanged, the packed table
  at SOME contents the write-backs of such blocks may leave.
-/
import proofs.«206325_g16862041604593_cont_week2b_1534_42_alg».proof.Proof.Gen.KernelIdeal.Launch
import proofs.«206325_g16862041604593_cont_week2b_1534_42_alg».proof.Proof.Gen.KernelIdeal.Points
import proofs.«206325_g16862041604593_cont_week2b_1534_42_alg».proof.Proof.Gen.KernelIdeal.Skeleton
import Idealize.ShloMosaic.Lib.Pipeline.Kit
import Idealize.ShloMosaic.Lib.Pipeline.Regions
import Idealize.ShloMosaic.Lib.SparseCore.Threads
import Idealize.ShloMosaic.Lib.Tactic

noncomputable section

namespace Cert.Proof.KRegion

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf kernel pipe)

variable {F : FTy → Type} [FloatOps F]
variable {Name : Type} [DecidableEq Name] {UU : Type} [URA UU]

local notation "𝕄" => MT nD τ sig (HIx 1) (Elt F) Name UU ℕ

/-- The one admissible contents of the (absent) prefetched tables. -/
abbrev adm : (p : Fin 1) → (pcfgs (F := F) p).Adm := fun p => (cfgs p).toPCfg_adm

/-! ## The proof data -/

variable (R : Fin cfg0.N → (S16384x128.Idx → Elt F .f32) → Prop)
variable (t1 : FVec F S64x1000000 .f32) (v2 : FVec F S507904x128 .f32)
  (O : CellTallies nD τ sig (HIx 1)) (W : Waits sig (HIx 1))

/-- The proof data on device c's TensorCore: the transposed table and the packed table at their entry contents;
    the input's buffer left as found, the output's in the relation R; no invariant; the core owing O throughout,
    its recorded pairs within W and the pairs at index none. -/
def rdat (c : Dev nD) : RDat τ (Elt F) (HIx 1) Name UU ℕ cfg0 c where
  A w := match w with
    | ⟨0, _⟩ => t1
    | ⟨1, _⟩ => v2
  after w t Y X := match w with
    | ⟨0, _⟩ => X = Y
    | ⟨1, _⟩ => R t X
  Φ _ := iprop(emp)
  q _ := fullShare
  owed _ := O
  recorded _ := {p | p ∈ W ∨ p.2 = none}

/-- The family over the one pipeline. -/
def rdats : (p : Fin 1) → (c : Dev nD) → RDat τ (Elt F) (HIx 1) Name UU ℕ (Pipeline.pin (pcfgs (F := F)) adm p) c :=
  fun _ c => rdat (Name := Name) (UU := UU) R t1 v2 O W c

/-! ## The kernel body's obligation -/

/-- The kernel body on staging buffers s0 of the input's window and s1 of the output's: the whole load of the
    input's buffer, the dead whole load of the output's, the whole store of the re-laid block; the input's buffer
    is left as found and the output's holds the payload of what the input's held. -/
theorem sound_body (𝒱₀ : Variants) (c : Dev nD) (E : Set Name) (i : grid0.Coords) (s0 : Fin 2) (s1 : Fin 2)
    (X0 : S64x32768.Idx → Elt F .f32) (X1 : S16384x128.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ K ⟨⟩))
      ⊢ wp frame (wpE (defs₀ (F := F)) 𝒱₀ c none) E
          (cc0_body i (stage0_0 s0) (hstage0_0 s0) (stage0_1 s1) (hstage0_1 s1)) K := by
  have hz : (![0, 0] : Fin 2 → Nat) = fun _ => 0 := funext fun a => by fin_cases a <;> rfl
  fin_cases s0 <;> fin_cases s1
  · have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hw1 : ∀ f w, (((Memref.whole cc0_stg1_0).access (Rect.unit (s := S16384x128) ![0, 0] S16384x128.size inb_S16384x128_S16384x128_0_0)) :
        View sig .tc _ _ _).write (Elt F) f w Finset.univ = w := Memref.write_access_unit_zero_univ (Elt F) cc0_stg1_0 hz _
    simp only [owns_whole_eq, cc0_body_eq_skeleton]; unfold cc0_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hw1 : ∀ f w, (((Memref.whole cc0_stg1_1).access (Rect.unit (s := S16384x128) ![0, 0] S16384x128.size inb_S16384x128_S16384x128_0_0)) :
        View sig .tc _ _ _).write (Elt F) f w Finset.univ = w := Memref.write_access_unit_zero_univ (Elt F) cc0_stg1_1 hz _
    simp only [owns_whole_eq, cc0_body_eq_skeleton]; unfold cc0_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hw1 : ∀ f w, (((Memref.whole cc0_stg1_0).access (Rect.unit (s := S16384x128) ![0, 0] S16384x128.size inb_S16384x128_S16384x128_0_0)) :
        View sig .tc _ _ _).write (Elt F) f w Finset.univ = w := Memref.write_access_unit_zero_univ (Elt F) cc0_stg1_0 hz _
    simp only [owns_whole_eq, cc0_body_eq_skeleton]; unfold cc0_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hw1 : ∀ f w, (((Memref.whole cc0_stg1_1).access (Rect.unit (s := S16384x128) ![0, 0] S16384x128.size inb_S16384x128_S16384x128_0_0)) :
        View sig .tc _ _ _).write (Elt F) f w Finset.univ = w := Memref.write_access_unit_zero_univ (Elt F) cc0_stg1_1 hz _
    simp only [owns_whole_eq, cc0_body_eq_skeleton]; unfold cc0_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1

/-- The library's body obligation, from sound_body at the point's staging buffers, for a relation R that the
    payload of whatever the input's buffer may hold after the fetch satisfies. -/
theorem body_obligation (𝒱₀ : Variants) (c : Dev nD)
    (hR : ∀ (t : Fin cfg0.N) (Y0 : S64x32768.Idx → Elt F .f32),
      (rdat (Name := Name) (UU := UU) R t1 v2 O W c).Finds (0 : Fin 2) t Y0 → R t (k0_pay1 Y0)) :
    (rdat (Name := Name) (UU := UU) R t1 v2 O W c).BodyObligation (defs₀ (F := F)) 𝒱₀ (none : HIx 1) Set.univ := fun t Y hY => by
  rw [bigSep_W0, bigSep_W0]
  rw [show (rdat (Name := Name) (UU := UU) R t1 v2 O W c).Φ t.succ = (rdat (Name := Name) (UU := UU) R t1 v2 O W c).Φ t.castSucc from rfl,
    show (rdat (Name := Name) (UU := UU) R t1 v2 O W c).owesAt none t.succ = (rdat (Name := Name) (UU := UU) R t1 v2 O W c).owesAt none t.castSucc from rfl]
  iintro ⟨HΦ, Ho, H0, H1⟩
  iapply (sound_body (F := F) 𝒱₀ c Set.univ (grid0.coords t) (cfg0.slots t 0) (cfg0.slots t 1) (Y 0) (Y 1) _)
  isplitl [H0 H1]
  · isplitl [H0]
    · iexact H0
    · iexact H1
  iintro ⟨H0, H1⟩
  isplitl [HΦ]; · iexact HΦ
  isplitl [Ho]; · iexact Ho
  isplitl [H0]
  · iexists Y 0
    isplitr; · ipureintro; exact rfl
    iexact H0
  · iexists k0_pay1 (Y 0)
    isplitr; · ipureintro; exact hR t (Y 0) (hY 0)
    iexact H1

/-! ## The region -/

theorem share_full (c : Dev nD) (w : Fin cfg0.W) :
    (rdat (Name := Name) (UU := UU) R t1 v2 O W c).share w = fullShare := by
  unfold RDat.share; split <;> rfl

/-- No table is prefetched. -/
theorem bigSep_fin0 {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 1) (Name := Name) (U := UU) (Lvl := ℕ) (Val := Elt F) (pcfgs (F := F) 0).pre c q pf : sProp 𝕄) = BI.emp :=
  bigSep_fin0 _

/-- The staging cells are pairwise distinct, at the pipelines read with their (absent) tables. -/
theorem phinj : Function.Injective (cellOf (nD := nD) (τ := τ) (Pipeline.pin (pcfgs (F := F)) adm)) :=
  (launch0.toP (Val := Elt F)).cellOf_inj adm

/-- The windows' arrays, whole and at the full share, as points-tos of the two buffers. -/
theorem arr0_eq (c : Dev nD) (G : FVec F S64x1000000 .f32) :
    (((cfg0.win 0).arr.view.loc (c : Thread nD τ)) ↦[(cfg0.win 0).arr.view.set]{(rdat (Name := Name) (UU := UU) R t1 v2 O W c).share 0} G : sProp 𝕄)
      = (((c : Thread nD τ).loc main_v1) ↦{fullShare} G) := by
  have e : (cfg0.win 0).arr.view.set = Finset.univ := (arr_whole0 0).set_eq_univ
  rw [e, share_full]
theorem arr1_eq (c : Dev nD) (G : FVec F S507904x128 .f32) :
    (((cfg0.win 1).arr.view.loc (c : Thread nD τ)) ↦[(cfg0.win 1).arr.view.set]{(rdat (Name := Name) (UU := UU) R t1 v2 O W c).share 1} G : sProp 𝕄)
      = (((c : Thread nD τ).loc main_v2) ↦{fullShare} G) := by
  have e : (cfg0.win 1).arr.view.set = Finset.univ := (arr_whole0 1).set_eq_univ
  rw [e, share_full]

variable (lv : GSem nD τ sig → HIx 1 → ℕ)

/-- The thread state before the region: the transposed table and the packed table whole, the core owing O. -/
abbrev preSt (c : Dev nD) : sProp 𝕄 :=
  iprop((((c : Thread nD τ).loc main_v1) ↦{fullShare} t1) ∗ (((c : Thread nD τ).loc main_v2) ↦{fullShare} v2) ∗ owes (c : Thread nD τ) O W)

/-- The thread state after it: the transposed table as it was, the packed table at some contents the write-backs
    may leave, the core owing O with its recorded pairs within W and the pairs at index none. -/
abbrev postSt (c : Dev nD) : sProp 𝕄 :=
  iprop((((c : Thread nD τ).loc main_v1) ↦{fullShare} t1)
    ∗ (∃ tp : FVec F S507904x128 .f32, ⌜(rdat (Name := Name) (UU := UU) R t1 v2 O W c).ArrAt (1 : Fin 2) cfg0.N tp⌝ ∗ ((c : Thread nD τ).loc main_v2) ↦{fullShare} tp)
    ∗ ∃ W' : Waits sig (HIx 1), ⌜∀ p ∈ W', p ∈ W ∨ p.2 = none⌝ ∗ owes (c : Thread nD τ) O W')

/-- The region's record for the library's region step. -/
def seg (𝒱₀ : Variants) (hO : ∀ g, O g none = 0) (hlv : (sc (F := F)).Refines lv)
    (hR : ∀ (c : Dev nD) (t : Fin cfg0.N) (Y0 : S64x32768.Idx → Elt F .f32),
      (rdat (Name := Name) (UU := UU) R t1 v2 O W c).Finds (0 : Fin 2) t Y0 → R t (k0_pay1 Y0)) :
    Pipeline.RDat.RegionSeg (pcfgs (F := F)) adm (rdats (Name := Name) (UU := UU) R t1 v2 O W) (none : HIx 1) defs₀ 𝒱₀
      (sc (F := F)).L lv (0 : Fin 1) where
  win := winFacts0.to₀
  block_pos := block_pos0
  stage_whole := stage_whole0
  K := PEmpty
  osem k := k.elim
  ho := Pipeline.OwnSemFacts.none _
  hbody c := body_obligation R t1 v2 O W 𝒱₀ c (hR c)
  hwaits c := Pipeline.RDat.cellsWaits_intro _ _ _ _ c fun w s t => (sc (F := F)).mayWait_none _ hO lv hlv
  pre := preSt t1 v2 O W
  post := postSt R t1 v2 O W
  X _ := iprop(emp)
  Y _ := iprop(emp)
  Z _ := iprop(emp)
  hentry c := by
    rw [Pipeline.ownSems0_none,
      Pipeline.RDat.arrays_eq (pcfgs (F := F)) adm (rdats (Name := Name) (UU := UU) R t1 v2 O W) 0 c arr_whole0 (share_full R t1 v2 O W c),
      bigSep_W0, prefHeld_emp]
    iintro ⟨⟨H1, H2, HO⟩, -, -⟩
    imodintro
    isplitl [H1 H2]
    · isplitl [H1]
      · iexact H1
      · iexact H2
    isplitr; · iempintro
    isplitl [HO]
    · iexists W
      isplitr; · ipureintro; exact fun p hp => Or.inl (Or.inl (Finset.mem_coe.mp hp))
      iexact HO
    isplitr <;> iempintro
  hin c := by
    iintro -; iempintro
  hout c := by
    rw [Pipeline.ownSems0_none, scopedRest0_eq]
    iintro -
    isplitr; · iempintro
    isplitr <;> iempintro
  hexit c := by
    unfold RDat.arraysAt
    rw [bigSep_W0]
    iintro ⟨⟨⟨%F0, %h0, H0⟩, ⟨%F1, %h1, H1⟩⟩, ⟨%W', %hW', HO⟩, -, -⟩
    imodintro
    have h0' : (rdat (Name := Name) (UU := UU) R t1 v2 O W c).ArrAt (0 : Fin 2) cfg0.N F0 := h0
    have e0 : F0 = t1 := by
      rw [(rdat (Name := Name) (UU := UU) R t1 v2 O W c).ArrAt_in (0 : Fin 2) rfl cfg0.N] at h0'; exact h0'
    subst e0
    isplitl [H0]
    · iapply (Entails.of_eq (arr0_eq R F0 v2 O W c F0)); iexact H0
    isplitl [H1]
    · iexists F1
      isplitr; · ipureintro; exact h1
      iapply (Entails.of_eq (arr1_eq R F0 v2 O W c F1)); iexact H1
    · iexists W'
      isplitr
      · ipureintro
        intro p hp
        rcases hW' (Finset.mem_coe.mpr hp) with h | ⟨w, s, rfl⟩
        · exact h
        · exact Or.inr rfl
      iexact HO

/-! ## The rule -/

variable (EP : Emb (URounds (GSem nD τ sig) Unit) (MT nD τ sig (HIx 1) (Elt F) Name UU ℕ))

/-- The rounds ghost state of the region's staging cells on device d, as the launch deals it. -/
abbrev ghost (d : Dev nD) : sProp 𝕄 :=
  iprop(Pipeline.cellsGhost (nD := nD) (τ := τ) (cfgs) EP 0 d ∗ Pipeline.toksInit (nD := nD) (τ := τ) (cfgs) EP 0 d)

set_option backward.isDefEq.respectTransparency.types false in
/-- The region, run on device d's TensorCore under the program's body table: from the boundary, the two arrays,
    the core's debt, the level facts and the staging cells' ghost state, to the boundary, the transposed table as
    it was, the packed table at some contents the write-backs may leave, and the debt. -/
theorem wp_region [Infinite Name] [EP.LandsIn (upEmb : UEmb _ 𝕄)] (𝒱₀ : Variants)
    (hO : ∀ g, O g none = 0) (hlv : (sc (F := F)).Refines lv)
    (hR : ∀ (c : Dev nD) (t : Fin cfg0.N) (Y0 : S64x32768.Idx → Elt F .f32),
      (rdat (Name := Name) (UU := UU) R t1 v2 O W c).Finds (0 : Fin 2) t Y0 → R t (k0_pay1 Y0))
    (d : Dev nD) :
    iprop(boundary (d : Thread nD τ) ∗ preSt t1 v2 O W d ∗ levAts (sc (F := F)).L lv ∗ ghost EP d)
      ⊢ wp frame (wpE ((sc (F := F)).defs (Pipeline.defs (pcfgs (F := F)) defs₀)) (Variants.lift 𝒱₀) (d : Thread nD τ) none) Set.univ
          (Prog.lift (.customCall (SparseCore.inner (Pipeline.entry (0 : Fin 1))) ()))
          fun _ => iprop(boundary (d : Thread nD τ) ∗ postSt R t1 v2 O W d) := by
  have h := Pipeline.RDat.RegionSeg.wp (pcfgs (F := F)) adm (rdats (Name := Name) (UU := UU) R t1 v2 O W) (none : HIx 1) phinj EP defs₀ 𝒱₀
    (sc (F := F)).L lv (seg R t1 v2 O W lv 𝒱₀ hO hlv hR) d none (by intro u hu; cases hu) (fun _ => Prog.ret PUnit.unit)
    (fun _ => iprop(boundary (d : Thread nD τ) ∗ postSt R t1 v2 O W d))
  refine BIBase.Entails.trans ?_ ((sc (F := F)).wp_liftProg (Pipeline.defs (pcfgs (F := F)) defs₀) (Variants.lift 𝒱₀) (d : Thread nD τ) Set.univ none
    (Prog.op (TpuEff.customCall (Pipeline.entry (0 : Fin 1)) ()) fun _ => Prog.ret PUnit.unit) _)
  refine BIBase.Entails.trans ?_ h
  iintro ⟨Hb, Hpre, Hl, Hg, Ht⟩
  isplitr
  · iintro H
    rw [wp_ret]
    imodintro
    iexact H
  isplitl [Hb]; · iexact Hb
  isplitl [Hpre]
  · iapply (show (preSt t1 v2 O W d : sProp 𝕄) ⊢ (seg R t1 v2 O W lv 𝒱₀ hO hlv hR).pre d from Entails.of_eq rfl)
    iexact Hpre
  isplitl [Hl]; · iexact Hl
  isplitl [Hg]
  · iexact Hg
  · iexact Ht

/-- The frame of the region: the same with nothing said of the packed table's contents. -/
theorem wp_pack_frame [Infinite Name] [EP.LandsIn (upEmb : UEmb _ 𝕄)] (𝒱₀ : Variants)
    (hO : ∀ g, O g none = 0) (hlv : (sc (F := F)).Refines lv) (d : Dev nD) :
    iprop(boundary (d : Thread nD τ) ∗ preSt t1 v2 O W d ∗ levAts (sc (F := F)).L lv ∗ ghost EP d)
      ⊢ wp frame (wpE ((sc (F := F)).defs (Pipeline.defs (pcfgs (F := F)) defs₀)) (Variants.lift 𝒱₀) (d : Thread nD τ) none) Set.univ
          (Prog.lift (.customCall (SparseCore.inner (Pipeline.entry (0 : Fin 1))) ()))
          fun _ => iprop(boundary (d : Thread nD τ) ∗ (((d : Thread nD τ).loc main_v1) ↦{fullShare} t1)
            ∗ (∃ tp : FVec F S507904x128 .f32, ((d : Thread nD τ).loc main_v2) ↦{fullShare} tp)
            ∗ ∃ W' : Waits sig (HIx 1), ⌜∀ p ∈ W', p ∈ W ∨ p.2 = none⌝ ∗ owes (d : Thread nD τ) O W') :=
  (wp_region (fun _ _ => True) t1 v2 O W lv EP 𝒱₀ hO hlv (fun _ _ _ _ => trivial) d).trans
    (wp_mono frame _ Set.univ fun _ => by
      iintro ⟨Hb, H1, ⟨%tp, -, H2⟩, HO⟩
      isplitl [Hb]; · iexact Hb
      isplitl [H1]; · iexact H1
      isplitl [H2]
      · iexists tp; iexact H2
      iexact HO)

/-! ## Funding the staging cells at the launch -/

theorem bigSep_fin1 {M : Type} [URA M] (Φ : Fin 1 → sProp M) : bigSep Finset.univ Φ = Φ 0 := by
  rw [show (Finset.univ : Finset (Fin 1)) = {0} from by decide, BI.bigSep_singleton]

/-- From the rounds library's launch element at the staging cells and the loop's transfers: every device's ghost
    state for the region. No counter is consumed and no invariant allocated. -/
theorem fund :
    BI.own (EP (initOf (Pipeline.cells (nD := nD) (τ := τ) cfgs cellOf_inj) (Pipeline.launchToks (nD := nD) (τ := τ) cfgs cellOf_inj)))
      ⊢ iprop(|==> bigSep Finset.univ fun d : Dev nD => ghost EP d) := by
  refine (Pipeline.fund_ghost (nD := nD) (τ := τ) cfgs EP cellOf_inj).trans (BI.bupd_mono ?_)
  simp only [bigSep_fin1]
  exact BI.Entails.refl _

end Cert.Proof.KRegion

end
-- ==== Proof.PackValue.lean ====
/-
  What the re-laying step stores, read at an index.

  At each grid point the step loads a `[64, 32768]` block `b` of the transposed table (64 table columns by 32768
  table rows), transposes it to `[32768, 64]`, and writes rows `[0, 16384)` and rows `[16384, 32768)` of the
  transpose side by side as a `[16384, 128]` array. So entry `(r, j)` of what is stored is, for `j < 64`, entry
  `(r, j)` of the transpose, which is `b (j, r)`; and for `j ≥ 64`, entry `(16384 + r, j - 64)` of the transpose,
  which is `b (j - 64, 16384 + r)`. In one formula: `b (j % 64, r + 16384 (j / 64))`.
-/
import proofs.«206325_g16862041604593_cont_week2b_1534_42_alg».proof.Proof.Gen.KernelIdeal.Skeleton
import Idealize.ShloMosaic.Lib.ValueIdx
import Idealize.ShloMosaic.Lib.ValueLayout
import Idealize.ShloMosaic.Lib.Pipeline.Value

noncomputable section

namespace Cert.PackValue

open Idealize.ShloMosaic Idealize.ShloMosaic.ValueIdx Cert.KernelIdeal Cert.KernelIdeal.Gen

variable {F : FTy → Type} [FloatOps F]

/-- Two rank-2 indices with equal coordinates are equal. -/
theorem ix2_congr {n0 n1 : Nat} {a a' : Fin n0} {b b' : Fin n1} (ha : a.val = a'.val) (hb : b.val = b'.val) :
    ix2 a b = ix2 a' b' := by
  obtain rfl := Fin.ext ha
  obtain rfl := Fin.ext hb
  rfl

/-- The block transposed: entry `(c, d)` of the `[32768, 64]` array is entry `(d, c)` of the `[64, 32768]` block. -/
def blockT (b : Vec F S64x32768 .f32) : FVec F S32768x64 .f32 :=
  transpose S32768x64 [1, 0] (shapeCast S64x32768 b shapeCasts_S64x32768_S64x32768) transposes_S64x32768_p1_0_S32768x64

theorem blockT_apply (b : Vec F S64x32768 .f32) (c : Fin 32768) (d : Fin 64) :
    blockT b (ix2 c d) = b (ix2 d c) := by
  unfold blockT
  rw [transpose_ix2_apply, shapeCast_self]

/-- The stored value is the two halves of the transposed block side by side. -/
theorem pay_eq (b : Vec F S64x32768 .f32) :
    k0_pay1 b = concatenate S16384x128 1
      [⟨S16384x64, extractStridedSlice S16384x64 ![0, 0] (blockT b) slices_S32768x64_o0_0_S16384x64⟩,
       ⟨S16384x64, extractStridedSlice S16384x64 ![16384, 0] (blockT b) slices_S32768x64_o16384_0_S16384x64⟩]
      concatenates_S16384x64_S16384x64_S16384x128_d1 := rfl

/-- Columns 0–63 of row `r` of the stored value are column `r` of the block: rows `[0, 16384)` of its transpose. -/
theorem pack_apply_left (b : Vec F S64x32768 .f32) (r : Fin 16384) (j : Fin 128) (hj : j.val < 64) :
    k0_pay1 b (ix2 r j) = b (ix2 (⟨j.val, hj⟩ : Fin 64) (⟨r.val, by omega⟩ : Fin 32768)) := by
  have hr := r.isLt
  rw [pay_eq]
  refine (concatenate_pair_apply_left _ _ _ concatenates_S16384x64_S16384x64_S16384x128_d1 (ix2 r j) rfl
    (ix2 r (⟨j.val, hj⟩ : Fin 64)) (fun c => match c with | ⟨0, _⟩ => rfl | ⟨1, _⟩ => rfl)).trans ?_
  refine (slice2_axis0_apply 0 _ _ r (⟨j.val, hj⟩ : Fin 64) (⟨r.val, by omega⟩ : Fin 32768) (by simp)).trans ?_
  exact blockT_apply b _ _

/-- Columns 64–127 of row `r` of the stored value are column `16384 + r` of the block: rows `[16384, 32768)` of its
    transpose. -/
theorem pack_apply_right (b : Vec F S64x32768 .f32) (r : Fin 16384) (j : Fin 128) (hj : 64 ≤ j.val) :
    k0_pay1 b (ix2 r j)
      = b (ix2 (⟨j.val - 64, by omega⟩ : Fin 64) (⟨16384 + r.val, by omega⟩ : Fin 32768)) := by
  have hr := r.isLt
  have hj2 := j.isLt
  rw [pay_eq]
  refine (concatenate_pair_apply_right _ _ _ concatenates_S16384x64_S16384x64_S16384x128_d1 (ix2 r j) rfl rfl
    (ix2 r (⟨j.val - 64, by omega⟩ : Fin 64))
    (fun c => match c with | ⟨0, _⟩ => fun _ => rfl | ⟨1, _⟩ => fun hne => absurd rfl hne) ?_).trans ?_
  · show j.val - 64 + 64 = j.val
    omega
  refine (slice2_axis0_apply 16384 _ _ r (⟨j.val - 64, by omega⟩ : Fin 64) (⟨16384 + r.val, by omega⟩ : Fin 32768) rfl).trans ?_
  exact blockT_apply b _ _

/-- The stored value at `(r, j)`: column `j % 64` of table-block column `r + 16384 (j / 64)`. -/
theorem pack_apply (b : Vec F S64x32768 .f32) (r : Fin 16384) (j : Fin 128) :
    k0_pay1 b (ix2 r j)
      = b (ix2 (⟨j.val % 64, Nat.mod_lt _ (by decide)⟩ : Fin 64)
              (⟨r.val + 16384 * (j.val / 64), by omega⟩ : Fin 32768)) := by
  have hr := r.isLt
  have hj2 := j.isLt
  by_cases hj : j.val < 64
  · rw [pack_apply_left b r j hj]
    exact congrArg b (ix2_congr (by show j.val = j.val % 64; omega)
      (by show r.val = r.val + 16384 * (j.val / 64); omega))
  · rw [pack_apply_right b r j (by omega)]
    exact congrArg b (ix2_congr (by show j.val - 64 = j.val % 64; omega)
      (by show 16384 + r.val = r.val + 16384 * (j.val / 64); omega))

end Cert.PackValue
-- ==== Proof.KRegionValue.lean ====
/-
  The value of the re-laying region: the relation its proof data takes for the output's staging buffer, and what
  the packed table holds after the write-backs.

  At point t the fetch fills the input's staging buffer with columns [32768 t, 32768 t + 32768) of the
  transposed table, as far as they exist (the table has 1000000 rows, so the last point's block is cut at column
  1000000 - 32768 * 30 = 16960 and the rest of the buffer holds words nothing names). The body writes entry
  (j % 64, r + 16384 (j / 64)) of that buffer to entry (r, j) of the output's; so wherever table row
  32768 t + 16384 (j / 64) + r exists, entry (r, j) of the output's buffer is that row's column j % 64. The
  write-back of point t puts the buffer on rows [16384 t, 16384 t + 16384) of the packed table; the 31 blocks are
  disjoint and cover it, so packed entry (r, j) holds row 32768 (r / 16384) + 16384 (j / 64) + r % 16384,
  column j % 64, of the table wherever that row exists.
-/
import proofs.«206325_g16862041604593_cont_week2b_1534_42_alg».proof.Proof.KRegion
import proofs.«206325_g16862041604593_cont_week2b_1534_42_alg».proof.Proof.PackValue
import proofs.«206325_g16862041604593_cont_week2b_1534_42_alg».proof.Proof.Spec

noncomputable section

namespace Cert.Proof.KRegion

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf kernel pipe)
open Idealize.ShloMosaic.ValueIdx

variable {F : FTy → Type} [FloatOps F]
variable {Name : Type} [DecidableEq Name] {UU : Type} [URA UU]

local notation "𝕄" => MT nD τ sig (HIx 1) (Elt F) Name UU ℕ

/-! ## The relation and the layout -/

/-- What the body may leave in the output's staging buffer at point t: on every entry whose table row exists,
    that row's entry of the transposed table. -/
def Rel (t1 : FVec F S64x1000000 .f32) (t : Fin cfg0.N) (X : S16384x128.Idx → Elt F .f32) : Prop :=
  ∀ (r : Fin 16384) (j : Fin 128) (hs : 32768 * t.val + 16384 * (j.val / 64) + r.val < 1000000),
    X (ix2 r j) = t1 (ix2 (⟨j.val % 64, Nat.mod_lt _ (by decide)⟩ : Fin 64)
      (⟨32768 * t.val + 16384 * (j.val / 64) + r.val, hs⟩ : Fin 1000000))

/-- The packed table holds the transposed table in the packed layout wherever the table row exists. -/
def PackedT (t1 : FVec F S64x1000000 .f32) (tp : FVec F S507904x128 .f32) : Prop :=
  ∀ (r : Fin 507904) (j : Fin 128) (hs : Cert.Spec.srcRow r.val j.val < 1000000),
    tp (ix2 r j) = t1 (ix2 (⟨j.val % 64, Nat.mod_lt _ (by decide)⟩ : Fin 64)
      (⟨Cert.Spec.srcRow r.val j.val, hs⟩ : Fin 1000000))

/-- Read through the transposition, that is the packed layout of the table itself. -/
theorem PackedT.packOK {t1 : FVec F S64x1000000 .f32} {tp : FVec F S507904x128 .f32} {tab : FVec F S1000000x64 .f32}
    (h1 : ∀ i : S1000000x64.Idx, t1 (ix2 (i 1) (i 0)) = tab i) (h : PackedT t1 tp) : Cert.Spec.PackOK tab tp :=
  fun r j hs => (h r j hs).trans (h1 (ix2 (⟨Cert.Spec.srcRow r.val j.val, hs⟩ : Fin 1000000) (⟨j.val % 64, Nat.mod_lt _ (by decide)⟩ : Fin 64)))

/-! ## The windows' blocks on the grid -/

theorem xsize0_0 : ∀ t : Fin cfg0.N, win0_0.xsize (grid0.coords t) 0 = 64 := by decide +kernel
theorem xsize0_1 : ∀ t : Fin cfg0.N, win0_0.xsize (grid0.coords t) 1 = min 32768 (1000000 - 32768 * t.val) := by decide +kernel
theorem index0_0 : ∀ t : Fin cfg0.N, win0_0.index t 0 = 0 := by decide +kernel
theorem index0_1 : ∀ t : Fin cfg0.N, win0_0.index t 1 = t.val := by decide +kernel
theorem index1_0 : ∀ t : Fin cfg0.N, win0_1.index t 0 = t.val := by decide +kernel
theorem index1_1 : ∀ t : Fin cfg0.N, win0_1.index t 1 = 0 := by decide +kernel

/-! ## What the fetch leaves in the input's staging buffer -/

variable (t1 : FVec F S64x1000000 .f32) (v2 : FVec F S507904x128 .f32)
  (O : CellTallies nD τ sig (HIx 1)) (W : Waits sig (HIx 1))

/-- After the fetch at point t the input's buffer holds, at a column that exists in the table, that column of
    the transposed table's block t. -/
theorem fetched_apply (R : Fin cfg0.N → (S16384x128.Idx → Elt F .f32) → Prop) (c : Dev nD) (t : Fin cfg0.N)
    (d : S64x32768.Idx → Elt F .f32) (a : Fin 64) (b : Fin 32768) (h : 32768 * t.val + b.val < 1000000) :
    (rdat (Name := Name) (UU := UU) R t1 v2 O W c).fetched (0 : Fin 2) t d (ix2 a b)
      = t1 (ix2 a (⟨32768 * t.val + b.val, h⟩ : Fin 1000000)) := by
  have hm : win0_0.moved (grid0.coords t) (ix2 a b) = true := (win0_0.moved_iff _ _).mpr fun ax => by
    match ax with
    | ⟨0, _⟩ => show a.val < win0_0.xsize (grid0.coords t) 0; rw [xsize0_0 t]; exact a.isLt
    | ⟨1, _⟩ => show b.val < win0_0.xsize (grid0.coords t) 1; rw [xsize0_1 t]; have := b.isLt; omega
  show win0_0.fill (grid0.coords t) d ((win0_0.blk t).view.read (Elt F) t1) (ix2 a b) = _
  unfold Window.fill
  rw [dif_pos hm, View.read_apply]
  refine (cast_eq _ _).trans ?_
  congr 1
  funext ax
  apply Fin.ext
  show ((win0_0.rect t).emb _ ax : Nat) = _
  rw [win0_0.rect_emb_val t _ ax]
  match ax with
  | ⟨0, _⟩ => show win0_0.index t 0 * 64 + a.val = a.val; rw [index0_0 t]; omega
  | ⟨1, _⟩ => show win0_0.index t 1 * 32768 + b.val = 32768 * t.val + b.val; rw [index0_1 t]; omega

/-- So the payload of whatever the body finds in the input's buffer satisfies the relation. -/
theorem rel_of_finds (c : Dev nD) (t : Fin cfg0.N) (Y0 : S64x32768.Idx → Elt F .f32)
    (h : (rdat (Name := Name) (UU := UU) (Rel t1) t1 v2 O W c).Finds (0 : Fin 2) t Y0) : Rel t1 t (k0_pay1 Y0) := by
  rw [RDat.finds_of_fetch _ (fetch0_0 t)] at h
  obtain ⟨d, rfl⟩ := h
  intro r j hs
  have hr := r.isLt
  have hj := j.isLt
  rw [Cert.PackValue.pack_apply,
    fetched_apply t1 v2 O W (Rel t1) c t d _ _ (show 32768 * t.val + (r.val + 16384 * (j.val / 64)) < 1000000 by omega)]
  exact congrArg t1 (Cert.PackValue.ix2_congr rfl (by show 32768 * t.val + (r.val + 16384 * (j.val / 64)) = 32768 * t.val + 16384 * (j.val / 64) + r.val; omega))

/-! ## What the write-backs leave in the packed table -/

/-- After the write-backs of the points below n, the packed rows below 16384 n hold the layout. -/
def Inv (n : Nat) (G : FVec F S507904x128 .f32) : Prop :=
  ∀ (r : Fin 507904) (j : Fin 128), r.val / 16384 < n → ∀ hs : Cert.Spec.srcRow r.val j.val < 1000000,
    G (ix2 r j) = t1 (ix2 (⟨j.val % 64, Nat.mod_lt _ (by decide)⟩ : Fin 64) (⟨Cert.Spec.srcRow r.val j.val, hs⟩ : Fin 1000000))

/-- A packed entry is under the block of point u exactly when its row is among the block's. -/
theorem mem_blk1 (u : Fin cfg0.N) (r : Fin 507904) (j : Fin 128) :
    ix2 r j ∈ (win0_1.blk u).view.setOn Finset.univ ↔ r.val / 16384 = u.val := by
  rw [View.setOn_univ]
  show ix2 r j ∈ ((View.whole main_v2).slice (win0_1.rect u)).set ↔ _
  rw [View.set_slice_whole, Rect.mem_set_unit]
  have hj := j.isLt
  constructor
  · intro h
    have h0 := h 0
    rw [index1_0 u] at h0
    have : (u.val * 16384 ≤ r.val) ∧ r.val < u.val * 16384 + 16384 := h0
    omega
  · intro h ax
    match ax with
    | ⟨0, _⟩ =>
      show win0_1.index u 0 * 16384 ≤ r.val ∧ r.val < win0_1.index u 0 * 16384 + 16384
      rw [index1_0 u]
      omega
    | ⟨1, _⟩ =>
      show win0_1.index u 1 * 128 ≤ j.val ∧ j.val < win0_1.index u 1 * 128 + 128
      rw [index1_1 u]
      omega

theorem inv_of_arrAt (c : Dev nD) : ∀ (n : Nat), n ≤ cfg0.N → ∀ G : FVec F S507904x128 .f32,
    (rdat (Name := Name) (UU := UU) (Rel t1) t1 v2 O W c).ArrAt (1 : Fin 2) n G → Inv t1 n G
  | 0, _, G, _ => fun r j h => absurd h (Nat.not_lt_zero _)
  | n + 1, hn, G, hG => by
    have hlt : n < cfg0.N := hn
    simp only [RDat.ArrAt] at hG
    rw [dif_pos hlt, if_pos (flush0_1 ⟨n, hlt⟩)] at hG
    obtain ⟨G₀, X, hG₀, ⟨Y, -, hX⟩, rfl⟩ := hG
    have ih := inv_of_arrAt c n (Nat.le_of_lt hlt) G₀ hG₀
    have hX' : Rel t1 ⟨n, hlt⟩ X := hX
    intro r j hr hs
    have hrl := r.isLt
    by_cases hrn : r.val / 16384 = n
    · -- under the block of point n: what the body left there
      have hy : (win0_1.blk ⟨n, hlt⟩).view.emb (ix2 (⟨r.val % 16384, Nat.mod_lt _ (by decide)⟩ : Fin 16384) j) = ix2 r j := by
        funext ax
        apply Fin.ext
        show ((win0_1.rect ⟨n, hlt⟩).emb _ ax : Nat) = _
        rw [win0_1.rect_emb_val ⟨n, hlt⟩ _ ax]
        match ax with
        | ⟨0, _⟩ =>
          show win0_1.index ⟨n, hlt⟩ 0 * 16384 + r.val % 16384 = r.val
          rw [index1_0 ⟨n, hlt⟩]
          show n * 16384 + r.val % 16384 = r.val
          omega
        | ⟨1, _⟩ =>
          show win0_1.index ⟨n, hlt⟩ 1 * 128 + j.val = j.val
          rw [index1_1 ⟨n, hlt⟩]
          omega
      rw [← hy, View.write_emb_of_mem _ _ (Finset.mem_univ _)]
      refine (cast_eq _ _).trans ?_
      have := hX' (⟨r.val % 16384, Nat.mod_lt _ (by decide)⟩ : Fin 16384) j
        (by show 32768 * n + 16384 * (j.val / 64) + r.val % 16384 < 1000000; unfold Cert.Spec.srcRow at hs; rw [hrn] at hs; omega)
      refine this.trans ?_
      exact congrArg t1 (Cert.PackValue.ix2_congr rfl (by
        show 32768 * n + 16384 * (j.val / 64) + r.val % 16384 = Cert.Spec.srcRow r.val j.val
        unfold Cert.Spec.srcRow; rw [hrn]))
    · -- under no block yet written but those below n: as before
      rw [View.write_of_not_mem _ _ _ (by rw [mem_blk1]; exact hrn)]
      exact ih r j (by omega) hs

/-- After the run the packed table holds the layout. -/
theorem packed_of_arrAt (c : Dev nD) (tp : FVec F S507904x128 .f32)
    (h : (rdat (Name := Name) (UU := UU) (Rel t1) t1 v2 O W c).ArrAt (1 : Fin 2) cfg0.N tp) : PackedT t1 tp :=
  fun r j hs => inv_of_arrAt t1 v2 O W c cfg0.N (Nat.le_refl _) tp h r j
    (by have := r.isLt; show r.val / 16384 < 31; omega) hs

/-! ## The region's rule, with the value -/

variable (lv : GSem nD τ sig → HIx 1 → ℕ)
variable (EP : Emb (URounds (GSem nD τ sig) Unit) (MT nD τ sig (HIx 1) (Elt F) Name UU ℕ))

/-- The region on device d's TensorCore, under the program's body table: the transposed table unchanged, the
    packed table at SOME contents holding it in the packed layout, the core owing what it owed with its recorded
    pairs within W and the pairs at index none. -/
theorem wp_pack [Infinite Name] [EP.LandsIn (upEmb : UEmb _ 𝕄)] (𝒱₀ : Variants)
    (hO : ∀ g, O g none = 0) (hlv : (sc (F := F)).Refines lv) (d : Dev nD) :
    iprop(boundary (d : Thread nD τ) ∗ preSt t1 v2 O W d ∗ levAts (sc (F := F)).L lv ∗ ghost EP d)
      ⊢ wp frame (wpE ((sc (F := F)).defs (Pipeline.defs (pcfgs (F := F)) defs₀)) (Variants.lift 𝒱₀) (d : Thread nD τ) none) Set.univ
          (Prog.lift (.customCall (SparseCore.inner (Pipeline.entry (0 : Fin 1))) ()))
          fun _ => iprop(boundary (d : Thread nD τ) ∗ (((d : Thread nD τ).loc main_v1) ↦{fullShare} t1)
            ∗ (∃ tp : FVec F S507904x128 .f32, ⌜PackedT t1 tp⌝ ∗ ((d : Thread nD τ).loc main_v2) ↦{fullShare} tp)
            ∗ ∃ W' : Waits sig (HIx 1), ⌜∀ p ∈ W', p ∈ W ∨ p.2 = none⌝ ∗ owes (d : Thread nD τ) O W') :=
  (wp_region (Rel t1) t1 v2 O W lv EP 𝒱₀ hO hlv (fun c t Y0 h => rel_of_finds t1 v2 O W c t Y0 h) d).trans
    (wp_mono frame _ Set.univ fun _ => by
      iintro ⟨Hb, H1, ⟨%tp, %htp, H2⟩, HO⟩
      isplitl [Hb]; · iexact Hb
      isplitl [H1]; · iexact H1
      isplitl [H2]
      · iexists tp
        isplitr; · ipureintro; exact packed_of_arrAt t1 v2 O W d tp htp
        iexact H2
      iexact HO)

/-- The same from and to a core whose recorded pairs all sit at or below a level b (index none is at level 0). -/
theorem wp_pack_below [Infinite Name] [EP.LandsIn (upEmb : UEmb _ 𝕄)] (𝒱₀ : Variants)
    (hO : ∀ g, O g none = 0) (hlv : (sc (F := F)).Refines lv) (b : ℕ) (d : Dev nD) :
    iprop(boundary (d : Thread nD τ) ∗ (((d : Thread nD τ).loc main_v1) ↦{fullShare} t1) ∗ (((d : Thread nD τ).loc main_v2) ↦{fullShare} v2)
        ∗ (∃ W : Waits sig (HIx 1), ⌜(sc (F := F)).WBelow (d : Thread nD τ) W b⌝ ∗ owes (d : Thread nD τ) O W)
        ∗ levAts (sc (F := F)).L lv ∗ ghost EP d)
      ⊢ wp frame (wpE ((sc (F := F)).defs (Pipeline.defs (pcfgs (F := F)) defs₀)) (Variants.lift 𝒱₀) (d : Thread nD τ) none) Set.univ
          (Prog.lift (.customCall (SparseCore.inner (Pipeline.entry (0 : Fin 1))) ()))
          fun _ => iprop(boundary (d : Thread nD τ) ∗ (((d : Thread nD τ).loc main_v1) ↦{fullShare} t1)
            ∗ (∃ tp : FVec F S507904x128 .f32, ⌜PackedT t1 tp⌝ ∗ ((d : Thread nD τ).loc main_v2) ↦{fullShare} tp)
            ∗ ∃ W : Waits sig (HIx 1), ⌜(sc (F := F)).WBelow (d : Thread nD τ) W b⌝ ∗ owes (d : Thread nD τ) O W) := by
  iintro ⟨Hb, H1, H2, ⟨%W, %hW, HO⟩, Hl, Hg⟩
  iapply (wp_wand_r frame _ Set.univ)
  isplitl [Hb H1 H2 HO Hl Hg]
  · iapply (wp_pack t1 v2 O W lv EP 𝒱₀ hO hlv d)
    isplitl [Hb]; · iexact Hb
    isplitl [H1 H2 HO]
    · isplitl [H1]; · iexact H1
      isplitl [H2]; · iexact H2
      iexact HO
    isplitl [Hl]; · iexact Hl
    iexact Hg
  · iintro %_ ⟨Hb, H1, H2, ⟨%W', %hW', HO⟩⟩
    isplitl [Hb]; · iexact Hb
    isplitl [H1]; · iexact H1
    isplitl [H2]; · iexact H2
    iexists W'
    isplitr
    · ipureintro
      intro p hp
      rcases hW' p hp with h | h
      · exact hW p h
      · show (sc (F := F)).lev _ p.2 ≤ b
        rw [h]; exact Nat.zero_le _
    iexact HO

end Cert.Proof.KRegion

end
-- ==== Proof.KRegionGlue.lean ====
/-
  The TensorCore region's rule, in the form @main's proof asks of the region.

  The region leaves the packed table holding the TRANSPOSED table in the pack layout; read through the transposition
  that is the pack layout of the table itself, which is what the SparseCore call is handed.
-/
import proofs.«206325_g16862041604593_cont_week2b_1534_42_alg».proof.Proof.KRun
import proofs.«206325_g16862041604593_cont_week2b_1534_42_alg».proof.Proof.KRegionValue

noncomputable section

namespace Cert.Proof.KClaims

open Cert.KernelIdeal Cert.KernelIdeal.Gen
open Cert.Proof.KLaunch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The region's rule, at the launch's resource algebra and levels, is what @main's proof asks of the region: the
    packed layout of the transposed table, read through the transposition, is the packed layout of the table. -/
theorem regionOK : RegionOK (F := F) (Cert.Proof.KRegion.ghost (EP (F := F))) := by
  intro d t1 v2 O b hO
  refine (Cert.Proof.KRegion.wp_pack_below (t1 := t1) (v2 := v2) (O := O) (lv := (K (F := F)).lev) (EP := EP (F := F)) 𝒱₀ hO
    (by sl_refines_lev) b d).trans (wp_mono frame _ Set.univ fun _ => ?_)
  iintro ⟨Hb, H1, ⟨%tp, %htp, H2⟩, HO⟩
  isplitl [Hb]; · iexact Hb
  isplitl [H1]; · iexact H1
  isplitl [H2]
  · iexists tp
    isplitr; · ipureintro; exact fun tab h => Cert.Proof.KRegion.PackedT.packOK h htp
    iexact H2
  iexact HO

end Cert.Proof.KClaims

end
-- ==== Proof.PreRange.lean ====
/-
  The precondition read back: every word of the index array lies in [0, 999999].

  The printed precondition is the conjunction of two `jnp.all`s: every table entry finite, and every index word
  `w` with `0 ≤ w` and `w ≤ 999999`, both signed. A reduction by `and` over all axes that comes out 1 met a 1
  at every index, so the second conjunct gives the two signed comparisons at each index; a word that is
  nonnegative signed reads the same unsigned, so it is at most 999999 unsigned too.
-/
import proofs.«206325_g16862041604593_cont_week2b_1534_42_alg».proof.Pre_input_domain
import proofs.«206325_g16862041604593_cont_week2b_1534_42_alg».proof.Proof.Gen.Pre_input_domain
import Idealize.ShloMosaic.Lib.ReduceAll

namespace Cert.PreRange

open Idealize.ShloMosaic

/-- The shape of rank 0 has one index. -/
instance subsingleton_S_ : Subsingleton Cert.Pre_input_domain.S_.Idx := ⟨fun a b => funext fun d => d.elim0⟩

/-- A word between 0 and `n` signed (`n` below 2³¹) is at most `n` unsigned. -/
theorem toNat_le_of_toInt {w : BitVec 32} {n : Nat} (h0 : 0 ≤ w.toInt) (hn : w.toInt ≤ (n : Int)) : w.toNat ≤ n := by
  have h := BitVec.toInt_eq_toNat_cond w
  have hlt := w.isLt
  split at h <;> omega

/-- Every index word is between 0 and 999999, read signed. -/
theorem x_range {F : FTy → Type} [FloatOps F] (x : IVec Cert.Pre_input_domain.S16384x50 32)
    (t : FVec F Cert.Pre_input_domain.S1000000x64 .f32)
    (h : @Cert.Pre_input_domain.fn Cert.Pre_input_domain.Gen.facts F _ x t = fun _ => 1#1) :
    ∀ j, 0 ≤ (x j).toInt ∧ (x j).toInt ≤ 999999 := by
  intro j
  have e := congrFun h (fun d => d.elim0)
  dsimp only [Cert.Pre_input_domain.fn] at e
  have e2 := (IntOp.andi_eq_one.1 e).2
  have e3 := Host.reduce_andi_all _ _ _ _ _ e2 j
  obtain ⟨h0, h1⟩ := IntOp.andi_eq_one.1 e3
  have h0' : (0#32 : BitVec 32).toInt ≤ (x j).toInt := IntOp.cmpi_sge.1 h0
  have h1' : (x j).toInt ≤ (999999#32 : BitVec 32).toInt := IntOp.cmpi_sle.1 h1
  have c0 : (0#32 : BitVec 32).toInt = 0 := by decide
  have c1 : (999999#32 : BitVec 32).toInt = 999999 := by decide
  rw [c0] at h0'
  rw [c1] at h1'
  exact ⟨h0', h1'⟩

/-- Every index word is at most 999999, read unsigned. -/
theorem x_le {F : FTy → Type} [FloatOps F] (x : IVec Cert.Pre_input_domain.S16384x50 32)
    (t : FVec F Cert.Pre_input_domain.S1000000x64 .f32)
    (h : @Cert.Pre_input_domain.fn Cert.Pre_input_domain.Gen.facts F _ x t = fun _ => 1#1) :
    ∀ j, (x j).toNat ≤ 999999 := fun j =>
  toNat_le_of_toInt (x_range x t h j).1 (x_range x t h j).2

end Cert.PreRange
-- ==== Proof.KBodyChunkOff.lean ====
/-
  The SparseCore kernel's chunk arithmetic in closed form.

  The 32 workers (2 cores × 16 subcores; worker `w` = subcore · 2 + core) each handle 200 consecutive chunks of the 6400:
  worker `w` has chunks `200 w … 200 w + 199`. Chunk `g` is history position `g / 128` and batch positions
  `128 (g % 128) … 128 (g % 128) + 127`. The kernel computes the word `g` from the grid point and the loop trip
  (`200 w` plus the trip, plus 5 or minus 4, or plus a literal) and splits it by a signed floor division by 128 and
  the remainder times 128. Every offset chain of the kernel's HBM slices is that one split applied to its word; the
  split is the natural-number one at every word the kernel forms (below 6409), by evaluation, and no word overflows.
-/
import proofs.«206325_g16862041604593_cont_week2b_1534_42_alg».proof.KernelIdeal
import Idealize.ShloMosaic.Lib.Exec

set_option Elab.async false

noncomputable section

namespace Cert.Proof.KBody

open Cert.KernelIdeal
open Idealize.ShloMosaic

/-- The worker number of the subcore at grid point `i`: subcore times two plus core. -/
abbrev wid (i : grid1.Coords) : Nat := 2 * (i 1).val + (i 0).val

theorem wid_lt (i : grid1.Coords) : wid i < 32 := by
  have h0 : (i 0).val < 2 := (i 0).isLt
  have h1 : (i 1).val < 16 := (i 1).isLt
  show 2 * (i 1).val + (i 0).val < 32
  omega

theorem cond1_iff : ∀ k : Fin k1_t1_loop.trips, k1_cond1 k = 1#1 ↔ k.val < 200 := by decide +kernel
theorem cond2_iff : ∀ k : Fin k1_t1_loop.trips, k1_cond2 k = 1#1 ↔ k.val < 195 := by decide +kernel
theorem cond3_iff : ∀ k : Fin k1_t1_loop.trips, k1_cond3 k = 1#1 ↔ 4 ≤ k.val := by decide +kernel
theorem cond4_iff : ∀ k : Fin k1_t1_loop.trips, k1_cond4 k = 1#1 ↔ 6 ≤ k.val := by decide +kernel

/-! ## The split of a chunk word -/

/-- A chunk word split as the kernel splits it: the signed floor quotient by 128, and 128 times the remainder. -/
def splitOff (v : BitVec 32) : Fin 2 → Nat :=
  let c0_i32_162 : BitVec 32 := 0#32
  let v358 : BitVec 1 := Scalar.cmpi .sgt v c0_i32_162
  let v359 : BitVec 32 := Scalar.extui v358
  let c0_i32_163 : BitVec 32 := 0#32
  let v360 : BitVec 1 := Scalar.cmpi .slt v c0_i32_163
  let v361 : BitVec 32 := Scalar.extui v360
  let v362 : BitVec 32 := Scalar.subi v359 v361
  let c128_i32_161 : BitVec 32 := 128#32
  let c0_i32_164 : BitVec 32 := 0#32
  let v363 : BitVec 1 := Scalar.cmpi .sgt c128_i32_161 c0_i32_164
  let v364 : BitVec 32 := Scalar.extui v363
  let c0_i32_165 : BitVec 32 := 0#32
  let v365 : BitVec 1 := Scalar.cmpi .slt c128_i32_161 c0_i32_165
  let v366 : BitVec 32 := Scalar.extui v365
  let v367 : BitVec 32 := Scalar.subi v364 v366
  let v368 : BitVec 1 := Scalar.cmpi .ne v362 v367
  let v369 : BitVec 32 := Scalar.remsi v c128_i32_161
  let c0_i32_166 : BitVec 32 := 0#32
  let v370 : BitVec 1 := Scalar.cmpi .ne v369 c0_i32_166
  let v371 : BitVec 1 := Scalar.andi v368 v370
  let v357 : BitVec 32 := Scalar.divsi v c128_i32_161
  let c1_i32_167 : BitVec 32 := 1#32
  let v372 : BitVec 32 := Scalar.subi v357 c1_i32_167
  let v373 : BitVec 32 := Scalar.select v371 v372 v357
  let c0_i32_169 : BitVec 32 := 0#32
  let v375 : BitVec 1 := Scalar.cmpi .sgt v c0_i32_169
  let v376 : BitVec 32 := Scalar.extui v375
  let c0_i32_170 : BitVec 32 := 0#32
  let v377 : BitVec 1 := Scalar.cmpi .slt v c0_i32_170
  let v378 : BitVec 32 := Scalar.extui v377
  let v379 : BitVec 32 := Scalar.subi v376 v378
  let c128_i32_168 : BitVec 32 := 128#32
  let c0_i32_171 : BitVec 32 := 0#32
  let v380 : BitVec 1 := Scalar.cmpi .sgt c128_i32_168 c0_i32_171
  let v381 : BitVec 32 := Scalar.extui v380
  let c0_i32_172 : BitVec 32 := 0#32
  let v382 : BitVec 1 := Scalar.cmpi .slt c128_i32_168 c0_i32_172
  let v383 : BitVec 32 := Scalar.extui v382
  let v384 : BitVec 32 := Scalar.subi v381 v383
  let v385 : BitVec 1 := Scalar.cmpi .ne v379 v384
  let v386 : BitVec 32 := Scalar.remsi v c128_i32_168
  let c0_i32_173 : BitVec 32 := 0#32
  let v387 : BitVec 1 := Scalar.cmpi .ne v386 c0_i32_173
  let v388 : BitVec 1 := Scalar.andi v385 v387
  let v374 : BitVec 32 := Scalar.divsi v c128_i32_168
  let c1_i32_174 : BitVec 32 := 1#32
  let v389 : BitVec 32 := Scalar.subi v374 c1_i32_174
  let v390 : BitVec 32 := Scalar.select v388 v389 v374
  let c128_i32_175 : BitVec 32 := 128#32
  let v391 : BitVec 32 := Scalar.muli v390 c128_i32_175
  let v392 : BitVec 32 := Scalar.subi v v391
  let c128_i32_176 : BitVec 32 := 128#32
  let v393 : BitVec 32 := Scalar.muli v392 c128_i32_176
  ![v373.toNat, v393.toNat]

/-- At every word the kernel forms the split is the natural-number one. -/
theorem splitOff_ofNat : ∀ (g : Fin 6409) (a : Fin 2),
    splitOff (BitVec.ofNat 32 g.val) a = (![g.val / 128, 128 * (g.val % 128)] : Fin 2 → Nat) a := by
  decide +kernel

theorem splitOff_eq (g : Nat) (hg : g < 6409) :
    splitOff (BitVec.ofNat 32 g) = ![g / 128, 128 * (g % 128)] :=
  funext (splitOff_ofNat ⟨g, hg⟩)

/-! ## The chunk words -/

/-- The worker's first chunk, as the kernel computes it. -/
def baseWord (i : grid1.Coords) : BitVec 32 :=
  Scalar.muli (Scalar.addi (Scalar.muli (BitVec.ofNat 32 (i 1).val) 2#32) (BitVec.ofNat 32 (i 0).val)) 200#32

theorem baseWord_eq : ∀ i : grid1.Coords, baseWord i = BitVec.ofNat 32 (200 * wid i) := by decide +kernel

/-- The loop's variable at a trip is the trip. -/
theorem iv_eq : ∀ k : Fin k1_t1_loop.trips, Scf.iv 0#32 1#32 k.val = BitVec.ofNat 32 k.val := by decide +kernel

/-- From trip 4 on, the trip less four does not wrap. -/
theorem iv_sub4_eq : ∀ k : Fin k1_t1_loop.trips, 4 ≤ k.val →
    Scalar.subi (Scf.iv 0#32 1#32 k.val) 4#32 = BitVec.ofNat 32 (k.val - 4) := by decide +kernel

theorem addi_ofNat (a b : Nat) : Scalar.addi (BitVec.ofNat 32 a) (BitVec.ofNat 32 b) = BitVec.ofNat 32 (a + b) :=
  (BitVec.ofNat_add a b).symm

/-! ## The offset chains in closed form -/

theorem off3_eq (i : grid1.Coords) (k : Fin k1_t1_loop.trips) :
    k1_off3 i k = ![(200 * wid i + k.val) / 128, 128 * ((200 * wid i + k.val) % 128)] := by
  have hw := wid_lt i
  have hk : k.val < 204 := k.isLt
  show splitOff (Scalar.addi (baseWord i) (Scf.iv 0#32 1#32 k.val)) = _
  rw [baseWord_eq, iv_eq, addi_ofNat]
  exact splitOff_eq _ (by omega)

theorem off25_eq (i : grid1.Coords) (k : Fin k1_t1_loop.trips) :
    k1_off25 i k = ![(200 * wid i + k.val + 5) / 128, 128 * ((200 * wid i + k.val + 5) % 128)] := by
  have hw := wid_lt i
  have hk : k.val < 204 := k.isLt
  show splitOff (Scalar.addi (baseWord i) (Scalar.addi (Scf.iv 0#32 1#32 k.val) (BitVec.ofNat 32 5))) = _
  rw [baseWord_eq, iv_eq, addi_ofNat, addi_ofNat, ← Nat.add_assoc]
  exact splitOff_eq _ (by omega)

theorem off425_eq (i : grid1.Coords) (k : Fin k1_t1_loop.trips) (h3 : k1_cond3 k = 1#1) :
    k1_off425 i k = ![(200 * wid i + k.val - 4) / 128, 128 * ((200 * wid i + k.val - 4) % 128), 0] := by
  have hw := wid_lt i
  have hk : k.val < 204 := k.isLt
  have h4 : 4 ≤ k.val := (cond3_iff k).1 h3
  have hs : splitOff (Scalar.addi (baseWord i) (Scalar.subi (Scf.iv 0#32 1#32 k.val) 4#32))
      = ![(200 * wid i + k.val - 4) / 128, 128 * ((200 * wid i + k.val - 4) % 128)] := by
    rw [baseWord_eq, iv_sub4_eq k h4, addi_ofNat, show 200 * wid i + (k.val - 4) = 200 * wid i + k.val - 4 from by omega]
    exact splitOff_eq _ (by omega)
  funext a
  match a with
  | ⟨0, _⟩ => exact congrFun hs 0
  | ⟨1, _⟩ => exact congrFun hs 1
  | ⟨2, _⟩ => rfl

theorem off1_eq (i : grid1.Coords) (r : Fin 5) :
    k1_off1 i (BitVec.ofNat 32 r.val) = ![(200 * wid i + r.val) / 128, 128 * ((200 * wid i + r.val) % 128)] := by
  have hw := wid_lt i
  have hr : r.val < 5 := r.isLt
  show splitOff (Scalar.addi (baseWord i) (BitVec.ofNat 32 r.val)) = _
  rw [baseWord_eq, addi_ofNat]
  exact splitOff_eq _ (by omega)

theorem off427_eq (i : grid1.Coords) (r : Fin 2) :
    k1_off427 i (BitVec.ofNat 32 (198 + r.val))
      = ![(200 * wid i + 198 + r.val) / 128, 128 * ((200 * wid i + 198 + r.val) % 128), 0] := by
  have hw := wid_lt i
  have hr : r.val < 2 := r.isLt
  have hs : splitOff (Scalar.addi (baseWord i) (BitVec.ofNat 32 (198 + r.val)))
      = ![(200 * wid i + 198 + r.val) / 128, 128 * ((200 * wid i + 198 + r.val) % 128)] := by
    rw [baseWord_eq, addi_ofNat, ← Nat.add_assoc]
    exact splitOff_eq _ (by omega)
  funext a
  match a with
  | ⟨0, _⟩ => exact congrFun hs 0
  | ⟨1, _⟩ => exact congrFun hs 1
  | ⟨2, _⟩ => rfl

/-- The same, entry by entry. -/
theorem off3_apply (i : grid1.Coords) (k : Fin k1_t1_loop.trips) (a : Fin 2) :
    k1_off3 i k a = (![(200 * wid i + k.val) / 128, 128 * ((200 * wid i + k.val) % 128)] : Fin 2 → Nat) a :=
  congrFun (off3_eq i k) a
theorem off25_apply (i : grid1.Coords) (k : Fin k1_t1_loop.trips) (a : Fin 2) :
    k1_off25 i k a = (![(200 * wid i + k.val + 5) / 128, 128 * ((200 * wid i + k.val + 5) % 128)] : Fin 2 → Nat) a :=
  congrFun (off25_eq i k) a
theorem off425_apply (i : grid1.Coords) (k : Fin k1_t1_loop.trips) (h3 : k1_cond3 k = 1#1) (a : Fin 3) :
    k1_off425 i k a
      = (![(200 * wid i + k.val - 4) / 128, 128 * ((200 * wid i + k.val - 4) % 128), 0] : Fin 3 → Nat) a :=
  congrFun (off425_eq i k h3) a
theorem off1_apply (i : grid1.Coords) (r : Fin 5) (a : Fin 2) :
    k1_off1 i (BitVec.ofNat 32 r.val) a
      = (![(200 * wid i + r.val) / 128, 128 * ((200 * wid i + r.val) % 128)] : Fin 2 → Nat) a :=
  congrFun (off1_eq i r) a
theorem off427_apply (i : grid1.Coords) (r : Fin 2) (a : Fin 3) :
    k1_off427 i (BitVec.ofNat 32 (198 + r.val)) a
      = (![(200 * wid i + 198 + r.val) / 128, 128 * ((200 * wid i + 198 + r.val) % 128), 0] : Fin 3 → Nat) a :=
  congrFun (off427_eq i r) a

end Cert.Proof.KBody

end
-- ==== Proof.KBodyChunks.lean ====
/-
  The chunks of the two HBM operands that the SparseCore kernel's copies name, as sets of entries.

  Each copy names a slice of the transposed index array [50, 16384] or of the output [50, 16384, 64] at offsets the
  kernel computes from the worker and the trip. With the offsets in closed form, the slice of chunk `g` is the rectangle
  "history position `g / 128`, batch positions `128 (g % 128) … + 127`(, all columns)": exactly the entries whose first
  coordinate is `g / 128` and whose second, divided by 128, is `g % 128`. Different chunks share no entry.
-/
import proofs.«206325_g16862041604593_cont_week2b_1534_42_alg».proof.KernelIdeal
import proofs.«206325_g16862041604593_cont_week2b_1534_42_alg».proof.Proof.Spec
import proofs.«206325_g16862041604593_cont_week2b_1534_42_alg».proof.Proof.KBodyChunkOff
import Idealize.ShloMosaic.Lib.SparseCore.Launch
import Idealize.ShloMosaic.Lib.Tactic

noncomputable section

namespace Cert.Proof.KBody

open Cert.KernelIdeal
open Idealize.ShloMosaic
open Idealize.ShloMosaic.SparseCore (S V T)
open Idealize.SL Idealize.SL.RA Idealize.SL.BI
open scoped Idealize.SL.BI
open Idealize.ShloMosaic.ValueIdx

variable {F : FTy → Type} [Cert.KernelIdeal.Facts]

/-! ## The chunks as sets of entries -/

/-- The entries of chunk `g` of the index array as the kernel reads it (transposed): history position `g / 128`, batch
    positions `128 (g % 128) … + 127`. -/
def xChunkSet (g : Nat) : Finset Cert.Spec.SXT.Idx :=
  Finset.univ.filter fun j => (j 0).val = g / 128 ∧ (j 1).val / 128 = g % 128

/-- The rectangle of one history position, 128 batch positions from a multiple of 128 and all 64 columns is chunk `g` of
    the output. -/
theorem unit_set_chunk (g : Nat)
    (inb : ∀ a, (![g / 128, 128 * (g % 128), 0] : Fin 3 → Nat) a + S1x128x64.size a ≤ S50x16384x64.size a) :
    (Rect.unit (s := S50x16384x64) ![g / 128, 128 * (g % 128), 0] S1x128x64.size inb).set = Cert.Spec.chunkSet g := by
  ext j
  rw [Rect.mem_set_unit]
  unfold Cert.Spec.chunkSet
  rw [Finset.mem_filter]
  simp only [Finset.mem_univ, true_and]
  constructor
  · intro h
    have h0 : g / 128 ≤ (j 0).val ∧ (j 0).val < g / 128 + 1 := h 0
    have h1 : 128 * (g % 128) ≤ (j 1).val ∧ (j 1).val < 128 * (g % 128) + 128 := h 1
    omega
  · rintro ⟨h0, h1⟩ a
    have h2 : (j 2).val < 64 := (j 2).isLt
    match a with
    | ⟨0, _⟩ => exact (show g / 128 ≤ (j 0).val ∧ (j 0).val < g / 128 + 1 from by omega)
    | ⟨1, _⟩ => exact (show 128 * (g % 128) ≤ (j 1).val ∧ (j 1).val < 128 * (g % 128) + 128 from by omega)
    | ⟨2, _⟩ => exact (show 0 ≤ (j 2).val ∧ (j 2).val < 0 + 64 from by omega)

/-- The same rectangle with its offsets given up to an equation. -/
theorem unit_set_chunk_of_eq (g : Nat) (off : Fin 3 → Nat) (hoff : off = ![g / 128, 128 * (g % 128), 0])
    (inb : ∀ a, off a + S1x128x64.size a ≤ S50x16384x64.size a) :
    (Rect.unit (s := S50x16384x64) off S1x128x64.size inb).set = Cert.Spec.chunkSet g := by
  subst hoff
  exact unit_set_chunk g inb

/-- The same for the index array: one history position, 128 batch positions from a multiple of 128. -/
theorem unit_set_xChunk (g : Nat)
    (inb : ∀ a, (![g / 128, 128 * (g % 128)] : Fin 2 → Nat) a + S1x128.size a ≤ S50x16384.size a) :
    (Rect.unit (s := S50x16384) ![g / 128, 128 * (g % 128)] S1x128.size inb).set = xChunkSet g := by
  ext j
  rw [Rect.mem_set_unit]
  unfold xChunkSet
  rw [Finset.mem_filter]
  simp only [Finset.mem_univ, true_and]
  constructor
  · intro h
    have h0 : g / 128 ≤ (j 0).val ∧ (j 0).val < g / 128 + 1 := h 0
    have h1 : 128 * (g % 128) ≤ (j 1).val ∧ (j 1).val < 128 * (g % 128) + 128 := h 1
    omega
  · rintro ⟨h0, h1⟩ a
    match a with
    | ⟨0, _⟩ => exact (show g / 128 ≤ (j 0).val ∧ (j 0).val < g / 128 + 1 from by omega)
    | ⟨1, _⟩ => exact (show 128 * (g % 128) ≤ (j 1).val ∧ (j 1).val < 128 * (g % 128) + 128 from by omega)

/-- The same rectangle with its offsets given up to an equation. -/
theorem unit_set_xChunk_of_eq (g : Nat) (off : Fin 2 → Nat) (hoff : off = ![g / 128, 128 * (g % 128)])
    (inb : ∀ a, off a + S1x128.size a ≤ S50x16384.size a) :
    (Rect.unit (s := S50x16384) off S1x128.size inb).set = xChunkSet g := by
  subst hoff
  exact unit_set_xChunk g inb

/-- Two different chunks of the output share no entry: a chunk's number is read off any of its entries. -/
theorem chunkSet_disjoint (g g' : Nat) (h : g ≠ g') (hg : g < 6400) (hg' : g' < 6400) :
    Disjoint (Cert.Spec.chunkSet g) (Cert.Spec.chunkSet g') := by
  rw [Finset.disjoint_left]
  intro j hj hj'
  unfold Cert.Spec.chunkSet at hj hj'
  rw [Finset.mem_filter] at hj hj'
  omega

/-- Two different chunks of the index array share no entry. -/
theorem xChunkSet_disjoint (g g' : Nat) (h : g ≠ g') (hg : g < 6400) (hg' : g' < 6400) :
    Disjoint (xChunkSet g) (xChunkSet g') := by
  rw [Finset.disjoint_left]
  intro j hj hj'
  unfold xChunkSet at hj hj'
  rw [Finset.mem_filter] at hj hj'
  omega

/-! ## The slices the kernel's copies name -/

/-- The output slice a trip writes back into (trips 4 and later). -/
abbrev outW (i : grid1.Coords) (k : Fin k1_t1_loop.trips) (h3 : k1_cond3 k = 1#1) : Memref sig .scVector .hbm S128x64 .f32 :=
  ((Memref.whole main_v3_scv).slice (Rect.unit (s := S50x16384x64) (k1_off425 i k) S1x128x64.size
    (Facts₀.k1_off425_inb i k h3)) (fun _ => rfl)).squeeze S128x64 Facts₀.squeezes_S1x128x64_S128x64

/-- The two output slices awaited after the loop. -/
abbrev outW427 (i : grid1.Coords) (r : Fin 2) : Memref sig .scVector .hbm S128x64 .f32 :=
  ((Memref.whole main_v3_scv).slice (Rect.unit (s := S50x16384x64) (k1_off427 i (BitVec.ofNat 32 (198 + r.val))) S1x128x64.size
    (Facts₀.k1_off427_inb i r)) (fun _ => rfl)).squeeze S128x64 Facts₀.squeezes_S1x128x64_S128x64

/-- The index slice a trip prefetches. -/
abbrev xtW25 (i : grid1.Coords) (k : Fin k1_t1_loop.trips) (h1 : k1_cond1 k = 1#1) (h2 : k1_cond2 k = 1#1) :
    Memref sig .scVector .hbm S128 .i32 :=
  ((Memref.whole main_v0_scv).slice (Rect.unit (s := S50x16384) (k1_off25 i k) S1x128.size
    (Facts₀.k1_off25_inb i k h1 h2)) (fun _ => rfl)).squeeze S128 Facts₀.squeezes_S1x128_S128

/-- The index slice a trip waits for. -/
abbrev xtW3 (i : grid1.Coords) (k : Fin k1_t1_loop.trips) (h1 : k1_cond1 k = 1#1) : Memref sig .scVector .hbm S128 .i32 :=
  ((Memref.whole main_v0_scv).slice (Rect.unit (s := S50x16384) (k1_off3 i k) S1x128.size
    (Facts₀.k1_off3_inb i k h1)) (fun _ => rfl)).squeeze S128 Facts₀.squeezes_S1x128_S128

/-- The five index slices fetched before the loop. -/
abbrev xtW1 (i : grid1.Coords) (r : Fin 5) : Memref sig .scVector .hbm S128 .i32 :=
  ((Memref.whole main_v0_scv).slice (Rect.unit (s := S50x16384) (k1_off1 i (BitVec.ofNat 32 r.val)) S1x128.size
    (Facts₀.k1_off1_inb i r)) (fun _ => rfl)).squeeze S128 Facts₀.squeezes_S1x128_S128

theorem set_outW (i : grid1.Coords) (k : Fin k1_t1_loop.trips) (h3 : k1_cond3 k = 1#1) :
    (outW i k h3).view.set = Cert.Spec.chunkSet (200 * wid i + k.val - 4) := by
  have hoff : k1_off425 i k
      = ![(200 * wid i + k.val - 4) / 128, 128 * ((200 * wid i + k.val - 4) % 128), 0] := funext (off425_apply i k h3)
  show (((View.whole main_v3_scv).slice (Rect.unit (s := S50x16384x64) (k1_off425 i k) S1x128x64.size
    (Facts₀.k1_off425_inb i k h3))).reshape S128x64 Facts₀.squeezes_S1x128x64_S128x64.numel_eq).set = _
  rw [View.set_reshape, View.set_slice_whole]
  exact unit_set_chunk_of_eq _ _ hoff _

theorem set_outW427 (i : grid1.Coords) (r : Fin 2) :
    (outW427 i r).view.set = Cert.Spec.chunkSet (200 * wid i + 198 + r.val) := by
  have hoff : k1_off427 i (BitVec.ofNat 32 (198 + r.val))
      = ![(200 * wid i + 198 + r.val) / 128, 128 * ((200 * wid i + 198 + r.val) % 128), 0] := funext (off427_apply i r)
  show (((View.whole main_v3_scv).slice (Rect.unit (s := S50x16384x64) (k1_off427 i (BitVec.ofNat 32 (198 + r.val))) S1x128x64.size
    (Facts₀.k1_off427_inb i r))).reshape S128x64 Facts₀.squeezes_S1x128x64_S128x64.numel_eq).set = _
  rw [View.set_reshape, View.set_slice_whole]
  exact unit_set_chunk_of_eq _ _ hoff _

theorem set_xtW25 (i : grid1.Coords) (k : Fin k1_t1_loop.trips) (h1 : k1_cond1 k = 1#1) (h2 : k1_cond2 k = 1#1) :
    (xtW25 i k h1 h2).view.set = xChunkSet (200 * wid i + k.val + 5) := by
  have hoff : k1_off25 i k
      = ![(200 * wid i + k.val + 5) / 128, 128 * ((200 * wid i + k.val + 5) % 128)] := funext (off25_apply i k)
  show (((View.whole main_v0_scv).slice (Rect.unit (s := S50x16384) (k1_off25 i k) S1x128.size
    (Facts₀.k1_off25_inb i k h1 h2))).reshape S128 Facts₀.squeezes_S1x128_S128.numel_eq).set = _
  rw [View.set_reshape, View.set_slice_whole]
  exact unit_set_xChunk_of_eq _ _ hoff _

theorem set_xtW3 (i : grid1.Coords) (k : Fin k1_t1_loop.trips) (h1 : k1_cond1 k = 1#1) :
    (xtW3 i k h1).view.set = xChunkSet (200 * wid i + k.val) := by
  have hoff : k1_off3 i k
      = ![(200 * wid i + k.val) / 128, 128 * ((200 * wid i + k.val) % 128)] := funext (off3_apply i k)
  show (((View.whole main_v0_scv).slice (Rect.unit (s := S50x16384) (k1_off3 i k) S1x128.size
    (Facts₀.k1_off3_inb i k h1))).reshape S128 Facts₀.squeezes_S1x128_S128.numel_eq).set = _
  rw [View.set_reshape, View.set_slice_whole]
  exact unit_set_xChunk_of_eq _ _ hoff _

theorem set_xtW1 (i : grid1.Coords) (r : Fin 5) :
    (xtW1 i r).view.set = xChunkSet (200 * wid i + r.val) := by
  have hoff : k1_off1 i (BitVec.ofNat 32 r.val)
      = ![(200 * wid i + r.val) / 128, 128 * ((200 * wid i + r.val) % 128)] := funext (off1_apply i r)
  show (((View.whole main_v0_scv).slice (Rect.unit (s := S50x16384) (k1_off1 i (BitVec.ofNat 32 r.val)) S1x128.size
    (Facts₀.k1_off1_inb i r))).reshape S128 Facts₀.squeezes_S1x128_S128.numel_eq).set = _
  rw [View.set_reshape, View.set_slice_whole]
  exact unit_set_xChunk_of_eq _ _ hoff _

end Cert.Proof.KBody

end
-- ==== Proof.KBodyDefs.lean ====
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Spec
import proofs.«206325_g16862041604593_cont_week2b_1534_42_alg».proof.Proof.KBodyChunks
import Idealize.ShloMosaic.Lib.SparseCore.Launch
import Idealize.ShloMosaic.Lib.SparseCore.Stream
import Idealize.ShloMosaic.Lib.Ring
import Idealize.ShloMosaic.Lib.Tactic

/-!
  The SparseCore kernel's body, one vector subcore's task: names.

  Each of the four scratch arrays is a ring of slots (10 rows of index words, 5 rows of packed-row numbers,
  5 blocks of gathered rows, 2 blocks of selected half-rows), each slot with a DMA semaphore of its own. A slot
  is named here by a natural number taken modulo the ring's length, so that chunk `u`'s slot is `u` itself.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none

abbrev cV (L : grid1.Coords) : Fin τ.nSC := (L 0).castLE hcore1
abbrev jV (L : grid1.Coords) : Fin τ.nSub := (L 1).castLE hsub1

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## Slots by number -/

theorem inb_idx (j : Nat) : ∀ a, (![j % 10, 0] : Fin 2 → Nat) a + S1x128.size a ≤ S10x128.size a := by
  intro a; have := Nat.mod_lt j (show 0 < 10 by decide)
  fin_cases a <;> simp [Shape.size] <;> omega
theorem inb_half (j : Nat) : ∀ a, (![j % 5, 0] : Fin 2 → Nat) a + S1x128.size a ≤ S5x128.size a := by
  intro a; have := Nat.mod_lt j (show 0 < 5 by decide)
  fin_cases a <;> simp [Shape.size] <;> omega
theorem inb_rows (j : Nat) : ∀ a, (![j % 5, 0, 0] : Fin 3 → Nat) a + S1x128x128.size a ≤ S5x128x128.size a := by
  intro a; have := Nat.mod_lt j (show 0 < 5 by decide)
  fin_cases a <;> simp [Shape.size] <;> omega
theorem inb_sel (j : Nat) : ∀ a, (![j % 2, 0, 0] : Fin 3 → Nat) a + S1x128x64.size a ≤ S2x128x64.size a := by
  intro a; have := Nat.mod_lt j (show 0 < 2 by decide)
  fin_cases a <;> simp [Shape.size] <;> omega
theorem inb_isem (j : Nat) : ∀ a, (![j % 10] : Fin 1 → Nat) a + S1.size a ≤ S10.size a := by
  intro a; have := Nat.mod_lt j (show 0 < 10 by decide)
  fin_cases a <;> simp [Shape.size] <;> omega
theorem inb_gsem (j : Nat) : ∀ a, (![j % 5] : Fin 1 → Nat) a + S1.size a ≤ S5.size a := by
  intro a; have := Nat.mod_lt j (show 0 < 5 by decide)
  fin_cases a <;> simp [Shape.size] <;> omega
theorem inb_wsem (j : Nat) : ∀ a, (![j % 2] : Fin 1 → Nat) a + S1.size a ≤ S2.size a := by
  intro a; have := Nat.mod_lt j (show 0 < 2 by decide)
  fin_cases a <;> simp [Shape.size] <;> omega

/-- Slot `j` of the index ring, of the packed-row ring, of the gathered-rows ring, of the selected-rows ring: rectangles. -/
abbrev idxR (j : Nat) : Rect S10x128 := Rect.unit (s := S10x128) ![j % 10, 0] S1x128.size (inb_idx j)
abbrev halfR (j : Nat) : Rect S5x128 := Rect.unit (s := S5x128) ![j % 5, 0] S1x128.size (inb_half j)
abbrev rowsR (j : Nat) : Rect S5x128x128 := Rect.unit (s := S5x128x128) ![j % 5, 0, 0] S1x128x128.size (inb_rows j)
abbrev selR (j : Nat) : Rect S2x128x64 := Rect.unit (s := S2x128x64) ![j % 2, 0, 0] S1x128x64.size (inb_sel j)

/-- The slots as memrefs, sliced and squeezed as the kernel does. -/
abbrev idxC (j : Nat) : Memref sig .scVector .vmem S128 .i32 := ((A5).slice (idxR j) (fun _ => rfl)).squeeze S128 squeezes_S1x128_S128
abbrev halfC (j : Nat) : Memref sig .scVector .vmem S128 .i32 := ((A6).slice (halfR j) (fun _ => rfl)).squeeze S128 squeezes_S1x128_S128
abbrev rowsC (j : Nat) : Memref sig .scVector .vmem S128x128 .f32 := ((A7).slice (rowsR j) (fun _ => rfl)).squeeze S128x128 squeezes_S1x128x128_S128x128
abbrev selC (j : Nat) : Memref sig .scVector .vmem S128x64 .f32 := ((A8).slice (selR j) (fun _ => rfl)).squeeze S128x64 squeezes_S1x128x64_S128x64

/-- The slots' semaphores. -/
abbrev isemC (j : Nat) : DmaSem sig := ((cc1_scratch4.slice (Rect.unit (s := S10) ![j % 10] S1.size (inb_isem j))).squeeze S_ squeezes_S1_S_).sem
abbrev gsemC (j : Nat) : DmaSem sig := ((cc1_scratch5.slice (Rect.unit (s := S5) ![j % 5] S1.size (inb_gsem j))).squeeze S_ squeezes_S1_S_).sem
abbrev wsemC (j : Nat) : DmaSem sig := ((cc1_scratch6.slice (Rect.unit (s := S2) ![j % 2] S1.size (inb_wsem j))).squeeze S_ squeezes_S1_S_).sem

/-! ## The program's own spellings of the slots at a trip -/

abbrev idxP2 (k : Fin k1_t1_loop.trips) (h1 : k1_cond1 k = 1#1) :=
  ((A5).slice (Rect.unit (s := S10x128) (k1_off2 k) S1x128.size (k1_off2_inb k h1)) (fun _ => rfl)).squeeze S128 squeezes_S1x128_S128
abbrev xtP3 (L : grid1.Coords) (k : Fin k1_t1_loop.trips) (h1 : k1_cond1 k = 1#1) :=
  ((A3).slice (Rect.unit (s := S50x16384) (k1_off3 L k) S1x128.size (k1_off3_inb L k h1)) (fun _ => rfl)).squeeze S128 squeezes_S1x128_S128
abbrev halfP22 (k : Fin k1_t1_loop.trips) (h1 : k1_cond1 k = 1#1) :=
  ((A6).slice (Rect.unit (s := S5x128) (k1_off22 k) S1x128.size (k1_off22_inb k h1)) (fun _ => rfl)).squeeze S128 squeezes_S1x128_S128
abbrev rowsP21 (k : Fin k1_t1_loop.trips) (h1 : k1_cond1 k = 1#1) :=
  ((A7).slice (Rect.unit (s := S5x128x128) (k1_off21 k) S1x128x128.size (k1_off21_inb k h1)) (fun _ => rfl)).squeeze S128x128 squeezes_S1x128x128_S128x128
abbrev idxP24 (k : Fin k1_t1_loop.trips) (h1 : k1_cond1 k = 1#1) (h2 : k1_cond2 k = 1#1) :=
  ((A5).slice (Rect.unit (s := S10x128) (k1_off24 k) S1x128.size (k1_off24_inb k h1 h2)) (fun _ => rfl)).squeeze S128 squeezes_S1x128_S128
abbrev xtP25 (L : grid1.Coords) (k : Fin k1_t1_loop.trips) (h1 : k1_cond1 k = 1#1) (h2 : k1_cond2 k = 1#1) :=
  ((A3).slice (Rect.unit (s := S50x16384) (k1_off25 L k) S1x128.size (k1_off25_inb L k h1 h2)) (fun _ => rfl)).squeeze S128 squeezes_S1x128_S128
abbrev rowsP27 (k : Fin k1_t1_loop.trips) (h3 : k1_cond3 k = 1#1) :=
  ((A7).slice (Rect.unit (s := S5x128x128) (k1_off27 k) S1x128x128.size (k1_off27_inb k h3)) (fun _ => rfl)).squeeze S128x128 squeezes_S1x128x128_S128x128
abbrev halfP28 (k : Fin k1_t1_loop.trips) (h3 : k1_cond3 k = 1#1) :=
  ((A6).slice (Rect.unit (s := S5x128) (k1_off28 k) S1x128.size (k1_off28_inb k h3)) (fun _ => rfl)).squeeze S128 squeezes_S1x128_S128
abbrev selP30 (k : Fin k1_t1_loop.trips) (h3 : k1_cond3 k = 1#1) (h4 : k1_cond4 k = 1#1) :=
  ((A8).slice (Rect.unit (s := S2x128x64) (k1_off30 k) S1x128x64.size (k1_off30_inb k h3 h4)) (fun _ => rfl)).squeeze S128x64 squeezes_S1x128x64_S128x64
abbrev outP31 (L : grid1.Coords) (k : Fin k1_t1_loop.trips) (h3 : k1_cond3 k = 1#1) (h4 : k1_cond4 k = 1#1) :=
  ((A4).slice (Rect.unit (s := S50x16384x64) (k1_off31 L k) S1x128x64.size (k1_off31_inb L k h3 h4)) (fun _ => rfl)).squeeze S128x64 squeezes_S1x128x64_S128x64
abbrev outP425 (L : grid1.Coords) (k : Fin k1_t1_loop.trips) (h3 : k1_cond3 k = 1#1) :=
  ((A4).slice (Rect.unit (s := S50x16384x64) (k1_off425 L k) S1x128x64.size (k1_off425_inb L k h3)) (fun _ => rfl)).squeeze S128x64 squeezes_S1x128x64_S128x64
abbrev selP423 (k : Fin k1_t1_loop.trips) (h3 : k1_cond3 k = 1#1) :=
  ((A8).slice (Rect.unit (s := S2x128x64) (k1_off423 k) S1x128x64.size (k1_off423_inb k h3)) (fun _ => rfl)).squeeze S128x64 squeezes_S1x128x64_S128x64
abbrev isemP4 (k : Fin k1_t1_loop.trips) (h1 : k1_cond1 k = 1#1) : DmaSem sig :=
  ((cc1_scratch4.slice (Rect.unit (s := S10) (k1_off4 k) S1.size (k1_off4_inb k h1))).squeeze S_ squeezes_S1_S_).sem
abbrev gsemP23 (k : Fin k1_t1_loop.trips) (h1 : k1_cond1 k = 1#1) : DmaSem sig :=
  ((cc1_scratch5.slice (Rect.unit (s := S5) (k1_off23 k) S1.size (k1_off23_inb k h1))).squeeze S_ squeezes_S1_S_).sem
abbrev isemP26 (k : Fin k1_t1_loop.trips) (h1 : k1_cond1 k = 1#1) (h2 : k1_cond2 k = 1#1) : DmaSem sig :=
  ((cc1_scratch4.slice (Rect.unit (s := S10) (k1_off26 k) S1.size (k1_off26_inb k h1 h2))).squeeze S_ squeezes_S1_S_).sem
abbrev gsemP29 (k : Fin k1_t1_loop.trips) (h3 : k1_cond3 k = 1#1) : DmaSem sig :=
  ((cc1_scratch5.slice (Rect.unit (s := S5) (k1_off29 k) S1.size (k1_off29_inb k h3))).squeeze S_ squeezes_S1_S_).sem
abbrev wsemP32 (k : Fin k1_t1_loop.trips) (h3 : k1_cond3 k = 1#1) (h4 : k1_cond4 k = 1#1) : DmaSem sig :=
  ((cc1_scratch6.slice (Rect.unit (s := S2) (k1_off32 k) S1.size (k1_off32_inb k h3 h4))).squeeze S_ squeezes_S1_S_).sem
abbrev wsemP426 (k : Fin k1_t1_loop.trips) (h3 : k1_cond3 k = 1#1) : DmaSem sig :=
  ((cc1_scratch6.slice (Rect.unit (s := S2) (k1_off426 k) S1.size (k1_off426_inb k h3))).squeeze S_ squeezes_S1_S_).sem

/-- The packed table as the gather names it: the whole array through its full rectangle. -/
abbrev tabS : Memref sig .scVector .hbm S507904x128 .f32 := ((A2).slice (Rect.unit (s := S507904x128) ![0, 0] S507904x128.size inb_S507904x128_S507904x128_0_0) (fun _ => rfl))

/-! ## What the loop carries

The three copy rings, by chunk number: a chunk's index copy, gather or write-back IN FLIGHT is the transfer's wait
capability delivering the destination slot and the source back; a FREE slot is its semaphore at zero and the slot at
some contents. Chunk numbers are the worker's own, `t < 200`; chunk `t` of worker `L` is chunk `200 * wid L + t`
of the whole output. -/

section Carried

variable {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))

/-- The index words a slot holds all name table rows. -/
def IdxOK (u : Nat) (c : Buf (Elt F) ((idxC u).view.loc (V d (cV L) (jV L)))) : Prop := ∀ x : S128.Idx, ((idxC u).view.read (Elt F) c x).toNat ≤ 999999

/-- Chunk `u`'s index words on their way into slot `u`. -/
def IFl (u : Nat) : sProp 𝕄 :=
  iprop(∃ c, ⌜IdxOK d L u c⌝ ∗ Transfers.Flight (countersEmb (U := UU)) (V d (cV L) (jV L)) (SemLoc.dma (isemC u)) (default : HIx 1) 4096
    iprop(((idxC u).view.loc (V d (cV L) (jV L)) ↦[(idxC u).view.set]{fullShare} c) ∗ ((A3).view.loc (V d (cV L) (jV L)) ↦[xChunkSet (200 * wid L + u)]{q'} xt)))
/-- Index slot `v` not awaited: its semaphore at zero, the slot at some contents. -/
def IFree (v : Nat) : sProp 𝕄 :=
  iprop(semVal ((V d (cV L) (jV L)), SemLoc.dma (isemC v)) 0 ∗ ∃ f, ((idxC v).view.loc (V d (cV L) (jV L)) ↦[(idxC v).view.set]{fullShare} f))
/-- Chunk `u`'s gather in flight: the rows slot, the list slot and the table's read share come back at its wait. -/
def GFl (u : Nat) : sProp 𝕄 :=
  iprop(∃ c₁ c₂, Transfers.Flight (countersEmb (U := UU)) (V d (cV L) (jV L)) (SemLoc.dma (gsemC u)) (default : HIx 1) 524288
    iprop((((rowsC u).view.loc (V d (cV L) (jV L)) ↦[(rowsC u).view.set]{fullShare} c₁) ∗ ((halfC u).view.loc (V d (cV L) (jV L)) ↦[(halfC u).view.set]{fullShare} c₂))
      ∗ ((tabS).view.loc (V d (cV L) (jV L)) ↦[(tabS).view.set]{Transfers.shareTokN q (u % 5)} tp)))
def GFree (v : Nat) : sProp 𝕄 :=
  iprop(semVal ((V d (cV L) (jV L)), SemLoc.dma (gsemC v)) 0 ∗ (∃ f, ((rowsC v).view.loc (V d (cV L) (jV L)) ↦[(rowsC v).view.set]{fullShare} f)) ∗ (∃ f, ((halfC v).view.loc (V d (cV L) (jV L)) ↦[(halfC v).view.set]{fullShare} f))
    ∗ ((tabS).view.loc (V d (cV L) (jV L)) ↦[(tabS).view.set]{Transfers.shareTokN q (v % 5)} tp))
/-- Chunk `u`'s write-back in flight: the output chunk and the selected-rows slot come back at its wait. -/
def WFl (u : Nat) : sProp 𝕄 :=
  iprop(∃ c₁ c₂, Transfers.Flight (countersEmb (U := UU)) (V d (cV L) (jV L)) (SemLoc.dma (wsemC u)) (default : HIx 1) 262144
    iprop(((A4).view.loc (V d (cV L) (jV L)) ↦[Cert.Spec.chunkSet (200 * wid L + u)]{fullShare} c₁) ∗ ((selC u).view.loc (V d (cV L) (jV L)) ↦[(selC u).view.set]{fullShare} c₂)))
def WFree (v : Nat) : sProp 𝕄 :=
  iprop(semVal ((V d (cV L) (jV L)), SemLoc.dma (wsemC v)) 0 ∗ ∃ f, ((selC v).view.loc (V d (cV L) (jV L)) ↦[(selC v).view.set]{fullShare} f))
/-- Chunk `t` of the index array at home; chunk `t` of the output written, or not yet touched. -/
def XHome (t : Nat) : sProp 𝕄 := (A3).view.loc (V d (cV L) (jV L)) ↦[xChunkSet (200 * wid L + t)]{q'} xt
def OutDone (t : Nat) : sProp 𝕄 := iprop(∃ f, (A4).view.loc (V d (cV L) (jV L)) ↦[Cert.Spec.chunkSet (200 * wid L + t)]{fullShare} f)
def OutInit (t : Nat) : sProp 𝕄 := (A4).view.loc (V d (cV L) (jV L)) ↦[Cert.Spec.chunkSet (200 * wid L + t)]{fullShare} fo

variable (O : CellTallies nD τ sig (HIx 1)) (W : Waits sig (HIx 1))

/-- What the subcore owes the launch, its waits so far at the kernel's own index. -/
def Owes : sProp 𝕄 := iprop(∃ W', ⌜∀ p ∈ W', p ∈ W ∨ p.2 = none⌝ ∗ owes (V d (cV L) (jV L)) O W')

/-- Before trip `n` of the 204: index copies `[m, min (m+5) 200)` in flight, `m = min n 200`, the other index slots
    free; gathers `[n-4, min n 200)` in flight, the other gather slots free; write-backs `[n-6, min (n-4) 200)` in
    flight, the other slot free; the index chunks not in flight at home; the output chunks below `n-6` written,
    those from `min (n-4) 200` untouched. -/
def Inv (n : Nat) (_ : Unit) : sProp 𝕄 :=
  iprop(Transfers.MayWaits (V d (cV L) (jV L)) (default : HIx 1) O ∗ Owes d L O W
    ∗ bigSep (Finset.Ico (min n 200) (min (min n 200 + 5) 200)) (IFl d L q' xt)
    ∗ bigSep (Finset.Ico (min (min n 200 + 5) 200) (min n 200 + 10)) (IFree d L)
    ∗ bigSep (Finset.Ico (n - 4) (min n 200)) (GFl d L q tp)
    ∗ bigSep (Finset.Ico (min n 200) (n - 4 + 5)) (GFree d L q tp)
    ∗ bigSep (Finset.Ico (n - 6) (min (n - 4) 200)) (WFl d L)
    ∗ bigSep (Finset.Ico (min (n - 4) 200) (n - 6 + 2)) (WFree d L)
    ∗ bigSep (Finset.range (min n 200)) (XHome d L q' xt)
    ∗ bigSep (Finset.Ico (min (min n 200 + 5) 200) 200) (XHome d L q' xt)
    ∗ bigSep (Finset.range (n - 6)) (OutDone d L)
    ∗ bigSep (Finset.Ico (min (n - 4) 200) 200) (OutInit d L fo))

end Carried

end Cert.Proof.KBody
end
-- ==== Proof.KBodyOff.lean ====
import proofs.«206325_g16862041604593_cont_week2b_1534_42_alg».proof.KernelIdeal
import Idealize.ShloMosaic.Lib.Exec

set_option Elab.async false

/-!
  Closed forms of the offset chains the SparseCore kernel computes at a trip `k` of its loop (and, for the
  slices of the two HBM operands, at a worker): slot numbers are residues of the trip, chunk places are the
  quotient and remainder of the chunk number by 128. Each is checked at every trip by evaluation.
-/

namespace Cert.Proof.KBody

open Cert.KernelIdeal
open Idealize.ShloMosaic

/-! ## The loop's four conditions as inequalities of the trip -/
theorem k1_cond1_iff : ∀ k : Fin k1_t1_loop.trips, k1_cond1 k = 1#1 ↔ k.val < 200 := by decide +kernel
theorem k1_cond2_iff : ∀ k : Fin k1_t1_loop.trips, k1_cond2 k = 1#1 ↔ k.val < 195 := by decide +kernel
theorem k1_cond3_iff : ∀ k : Fin k1_t1_loop.trips, k1_cond3 k = 1#1 ↔ 4 ≤ k.val := by decide +kernel
theorem k1_cond4_iff : ∀ k : Fin k1_t1_loop.trips, k1_cond4 k = 1#1 ↔ 6 ≤ k.val := by decide +kernel

/-! ## The slot chains: residues of the trip -/
theorem k1_off5_eq : ∀ k : Fin k1_t1_loop.trips, k1_off5 k = ![k.val % 10, 0] := by decide +kernel
instance (k : Fin k1_t1_loop.trips) : ClosedOff (k1_off5 k) := ⟨![k.val % 10, 0], k1_off5_eq k⟩
theorem k1_off6_eq : ∀ k : Fin k1_t1_loop.trips, k1_off6 k = ![k.val % 5, 0] := by decide +kernel
instance (k : Fin k1_t1_loop.trips) : ClosedOff (k1_off6 k) := ⟨![k.val % 5, 0], k1_off6_eq k⟩
theorem k1_off24_eq : ∀ k : Fin k1_t1_loop.trips, k1_off24 k = ![(k.val + 5) % 10, 0] := by decide +kernel
instance (k : Fin k1_t1_loop.trips) : ClosedOff (k1_off24 k) := ⟨![(k.val + 5) % 10, 0], k1_off24_eq k⟩
theorem k1_off27_eq : ∀ k : Fin k1_t1_loop.trips, k1_off27 k = ![(k.val + 1) % 5, 0, 0] := by decide +kernel
instance (k : Fin k1_t1_loop.trips) : ClosedOff (k1_off27 k) := ⟨![(k.val + 1) % 5, 0, 0], k1_off27_eq k⟩
theorem k1_off30_eq : ∀ k : Fin k1_t1_loop.trips, k1_off30 k = ![k.val % 2, 0, 0] := by decide +kernel
instance (k : Fin k1_t1_loop.trips) : ClosedOff (k1_off30 k) := ⟨![k.val % 2, 0, 0], k1_off30_eq k⟩
theorem k1_off33_eq : ∀ k : Fin k1_t1_loop.trips, k1_off33 k = ![(k.val + 6) % 10, 0] := by decide +kernel
instance (k : Fin k1_t1_loop.trips) : ClosedOff (k1_off33 k) := ⟨![(k.val + 6) % 10, 0], k1_off33_eq k⟩
theorem k1_off2_eq (k : Fin k1_t1_loop.trips) : k1_off2 k = ![k.val % 10, 0] :=
  (show k1_off2 k = ![(k1_off5 k) 0, 0] from rfl).trans (by rw [k1_off5_eq]; rfl)
instance (k : Fin k1_t1_loop.trips) : ClosedOff (k1_off2 k) := ⟨![k.val % 10, 0], k1_off2_eq k⟩
theorem k1_off4_eq (k : Fin k1_t1_loop.trips) : k1_off4 k = ![k.val % 10] :=
  (show k1_off4 k = ![(k1_off5 k) 0] from rfl).trans (by rw [k1_off5_eq]; rfl)
instance (k : Fin k1_t1_loop.trips) : ClosedOff (k1_off4 k) := ⟨![k.val % 10], k1_off4_eq k⟩
theorem k1_off7_eq (k : Fin k1_t1_loop.trips) : k1_off7 k = ![k.val % 10, 16] :=
  (show k1_off7 k = ![(k1_off5 k) 0, 16] from rfl).trans (by rw [k1_off5_eq]; rfl)
instance (k : Fin k1_t1_loop.trips) : ClosedOff (k1_off7 k) := ⟨![k.val % 10, 16], k1_off7_eq k⟩
theorem k1_off8_eq (k : Fin k1_t1_loop.trips) : k1_off8 k = ![k.val % 5, 16] :=
  (show k1_off8 k = ![(k1_off6 k) 0, 16] from rfl).trans (by rw [k1_off6_eq]; rfl)
instance (k : Fin k1_t1_loop.trips) : ClosedOff (k1_off8 k) := ⟨![k.val % 5, 16], k1_off8_eq k⟩
theorem k1_off9_eq (k : Fin k1_t1_loop.trips) : k1_off9 k = ![k.val % 10, 32] :=
  (show k1_off9 k = ![(k1_off5 k) 0, 32] from rfl).trans (by rw [k1_off5_eq]; rfl)
instance (k : Fin k1_t1_loop.trips) : ClosedOff (k1_off9 k) := ⟨![k.val % 10, 32], k1_off9_eq k⟩
theorem k1_off10_eq (k : Fin k1_t1_loop.trips) : k1_off10 k = ![k.val % 5, 32] :=
  (show k1_off10 k = ![(k1_off6 k) 0, 32] from rfl).trans (by rw [k1_off6_eq]; rfl)
instance (k : Fin k1_t1_loop.trips) : ClosedOff (k1_off10 k) := ⟨![k.val % 5, 32], k1_off10_eq k⟩
theorem k1_off11_eq (k : Fin k1_t1_loop.trips) : k1_off11 k = ![k.val % 10, 48] :=
  (show k1_off11 k = ![(k1_off5 k) 0, 48] from rfl).trans (by rw [k1_off5_eq]; rfl)
instance (k : Fin k1_t1_loop.trips) : ClosedOff (k1_off11 k) := ⟨![k.val % 10, 48], k1_off11_eq k⟩
theorem k1_off12_eq (k : Fin k1_t1_loop.trips) : k1_off12 k = ![k.val % 5, 48] :=
  (show k1_off12 k = ![(k1_off6 k) 0, 48] from rfl).trans (by rw [k1_off6_eq]; rfl)
instance (k : Fin k1_t1_loop.trips) : ClosedOff (k1_off12 k) := ⟨![k.val % 5, 48], k1_off12_eq k⟩
theorem k1_off13_eq (k : Fin k1_t1_loop.trips) : k1_off13 k = ![k.val % 10, 64] :=
  (show k1_off13 k = ![(k1_off5 k) 0, 64] from rfl).trans (by rw [k1_off5_eq]; rfl)
instance (k : Fin k1_t1_loop.trips) : ClosedOff (k1_off13 k) := ⟨![k.val % 10, 64], k1_off13_eq k⟩
theorem k1_off14_eq (k : Fin k1_t1_loop.trips) : k1_off14 k = ![k.val % 5, 64] :=
  (show k1_off14 k = ![(k1_off6 k) 0, 64] from rfl).trans (by rw [k1_off6_eq]; rfl)
instance (k : Fin k1_t1_loop.trips) : ClosedOff (k1_off14 k) := ⟨![k.val % 5, 64], k1_off14_eq k⟩
theorem k1_off15_eq (k : Fin k1_t1_loop.trips) : k1_off15 k = ![k.val % 10, 80] :=
  (show k1_off15 k = ![(k1_off5 k) 0, 80] from rfl).trans (by rw [k1_off5_eq]; rfl)
instance (k : Fin k1_t1_loop.trips) : ClosedOff (k1_off15 k) := ⟨![k.val % 10, 80], k1_off15_eq k⟩
theorem k1_off16_eq (k : Fin k1_t1_loop.trips) : k1_off16 k = ![k.val % 5, 80] :=
  (show k1_off16 k = ![(k1_off6 k) 0, 80] from rfl).trans (by rw [k1_off6_eq]; rfl)
instance (k : Fin k1_t1_loop.trips) : ClosedOff (k1_off16 k) := ⟨![k.val % 5, 80], k1_off16_eq k⟩
theorem k1_off17_eq (k : Fin k1_t1_loop.trips) : k1_off17 k = ![k.val % 10, 96] :=
  (show k1_off17 k = ![(k1_off5 k) 0, 96] from rfl).trans (by rw [k1_off5_eq]; rfl)
instance (k : Fin k1_t1_loop.trips) : ClosedOff (k1_off17 k) := ⟨![k.val % 10, 96], k1_off17_eq k⟩
theorem k1_off18_eq (k : Fin k1_t1_loop.trips) : k1_off18 k = ![k.val % 5, 96] :=
  (show k1_off18 k = ![(k1_off6 k) 0, 96] from rfl).trans (by rw [k1_off6_eq]; rfl)
instance (k : Fin k1_t1_loop.trips) : ClosedOff (k1_off18 k) := ⟨![k.val % 5, 96], k1_off18_eq k⟩
theorem k1_off19_eq (k : Fin k1_t1_loop.trips) : k1_off19 k = ![k.val % 10, 112] :=
  (show k1_off19 k = ![(k1_off5 k) 0, 112] from rfl).trans (by rw [k1_off5_eq]; rfl)
instance (k : Fin k1_t1_loop.trips) : ClosedOff (k1_off19 k) := ⟨![k.val % 10, 112], k1_off19_eq k⟩
theorem k1_off20_eq (k : Fin k1_t1_loop.trips) : k1_off20 k = ![k.val % 5, 112] :=
  (show k1_off20 k = ![(k1_off6 k) 0, 112] from rfl).trans (by rw [k1_off6_eq]; rfl)
instance (k : Fin k1_t1_loop.trips) : ClosedOff (k1_off20 k) := ⟨![k.val % 5, 112], k1_off20_eq k⟩
theorem k1_off21_eq (k : Fin k1_t1_loop.trips) : k1_off21 k = ![k.val % 5, 0, 0] :=
  (show k1_off21 k = ![(k1_off6 k) 0, 0, 0] from rfl).trans (by rw [k1_off6_eq]; rfl)
instance (k : Fin k1_t1_loop.trips) : ClosedOff (k1_off21 k) := ⟨![k.val % 5, 0, 0], k1_off21_eq k⟩
theorem k1_off22_eq (k : Fin k1_t1_loop.trips) : k1_off22 k = ![k.val % 5, 0] :=
  (show k1_off22 k = ![(k1_off6 k) 0, 0] from rfl).trans (by rw [k1_off6_eq]; rfl)
instance (k : Fin k1_t1_loop.trips) : ClosedOff (k1_off22 k) := ⟨![k.val % 5, 0], k1_off22_eq k⟩
theorem k1_off23_eq (k : Fin k1_t1_loop.trips) : k1_off23 k = ![k.val % 5] :=
  (show k1_off23 k = ![(k1_off6 k) 0] from rfl).trans (by rw [k1_off6_eq]; rfl)
instance (k : Fin k1_t1_loop.trips) : ClosedOff (k1_off23 k) := ⟨![k.val % 5], k1_off23_eq k⟩
theorem k1_off26_eq (k : Fin k1_t1_loop.trips) : k1_off26 k = ![(k.val + 5) % 10] :=
  (show k1_off26 k = ![(k1_off24 k) 0] from rfl).trans (by rw [k1_off24_eq]; rfl)
instance (k : Fin k1_t1_loop.trips) : ClosedOff (k1_off26 k) := ⟨![(k.val + 5) % 10], k1_off26_eq k⟩
theorem k1_off28_eq (k : Fin k1_t1_loop.trips) : k1_off28 k = ![(k.val + 1) % 5, 0] :=
  (show k1_off28 k = ![(k1_off27 k) 0, 0] from rfl).trans (by rw [k1_off27_eq]; rfl)
instance (k : Fin k1_t1_loop.trips) : ClosedOff (k1_off28 k) := ⟨![(k.val + 1) % 5, 0], k1_off28_eq k⟩
theorem k1_off29_eq (k : Fin k1_t1_loop.trips) : k1_off29 k = ![(k.val + 1) % 5] :=
  (show k1_off29 k = ![(k1_off27 k) 0] from rfl).trans (by rw [k1_off27_eq]; rfl)
instance (k : Fin k1_t1_loop.trips) : ClosedOff (k1_off29 k) := ⟨![(k.val + 1) % 5], k1_off29_eq k⟩
theorem k1_off32_eq (k : Fin k1_t1_loop.trips) : k1_off32 k = ![k.val % 2] :=
  (show k1_off32 k = ![(k1_off30 k) 0] from rfl).trans (by rw [k1_off30_eq]; rfl)
instance (k : Fin k1_t1_loop.trips) : ClosedOff (k1_off32 k) := ⟨![k.val % 2], k1_off32_eq k⟩
theorem k1_off35_eq : ∀ k : Fin k1_t1_loop.trips, k1_off35 k = ![k.val % 2, 0, 0] := by decide +kernel
instance (k : Fin k1_t1_loop.trips) : ClosedOff (k1_off35 k) := ⟨![k.val % 2, 0, 0], k1_off35_eq k⟩
theorem k1_off82_eq (k : Fin k1_t1_loop.trips) : k1_off82 k = ![(k.val + 6) % 10, 16] :=
  (show k1_off82 k = ![(k1_off33 k) 0, 16] from rfl).trans (by rw [k1_off33_eq]; rfl)
instance (k : Fin k1_t1_loop.trips) : ClosedOff (k1_off82 k) := ⟨![(k.val + 6) % 10, 16], k1_off82_eq k⟩
theorem k1_off131_eq (k : Fin k1_t1_loop.trips) : k1_off131 k = ![(k.val + 6) % 10, 32] :=
  (show k1_off131 k = ![(k1_off33 k) 0, 32] from rfl).trans (by rw [k1_off33_eq]; rfl)
instance (k : Fin k1_t1_loop.trips) : ClosedOff (k1_off131 k) := ⟨![(k.val + 6) % 10, 32], k1_off131_eq k⟩
theorem k1_off180_eq (k : Fin k1_t1_loop.trips) : k1_off180 k = ![(k.val + 6) % 10, 48] :=
  (show k1_off180 k = ![(k1_off33 k) 0, 48] from rfl).trans (by rw [k1_off33_eq]; rfl)
instance (k : Fin k1_t1_loop.trips) : ClosedOff (k1_off180 k) := ⟨![(k.val + 6) % 10, 48], k1_off180_eq k⟩
theorem k1_off229_eq (k : Fin k1_t1_loop.trips) : k1_off229 k = ![(k.val + 6) % 10, 64] :=
  (show k1_off229 k = ![(k1_off33 k) 0, 64] from rfl).trans (by rw [k1_off33_eq]; rfl)
instance (k : Fin k1_t1_loop.trips) : ClosedOff (k1_off229 k) := ⟨![(k.val + 6) % 10, 64], k1_off229_eq k⟩
theorem k1_off278_eq (k : Fin k1_t1_loop.trips) : k1_off278 k = ![(k.val + 6) % 10, 80] :=
  (show k1_off278 k = ![(k1_off33 k) 0, 80] from rfl).trans (by rw [k1_off33_eq]; rfl)
instance (k : Fin k1_t1_loop.trips) : ClosedOff (k1_off278 k) := ⟨![(k.val + 6) % 10, 80], k1_off278_eq k⟩
theorem k1_off327_eq (k : Fin k1_t1_loop.trips) : k1_off327 k = ![(k.val + 6) % 10, 96] :=
  (show k1_off327 k = ![(k1_off33 k) 0, 96] from rfl).trans (by rw [k1_off33_eq]; rfl)
instance (k : Fin k1_t1_loop.trips) : ClosedOff (k1_off327 k) := ⟨![(k.val + 6) % 10, 96], k1_off327_eq k⟩
theorem k1_off376_eq (k : Fin k1_t1_loop.trips) : k1_off376 k = ![(k.val + 6) % 10, 112] :=
  (show k1_off376 k = ![(k1_off33 k) 0, 112] from rfl).trans (by rw [k1_off33_eq]; rfl)
instance (k : Fin k1_t1_loop.trips) : ClosedOff (k1_off376 k) := ⟨![(k.val + 6) % 10, 112], k1_off376_eq k⟩
theorem k1_off423_eq : ∀ k : Fin k1_t1_loop.trips, k1_off423 k = ![k.val % 2, 0, 0] := by decide +kernel
instance (k : Fin k1_t1_loop.trips) : ClosedOff (k1_off423 k) := ⟨![k.val % 2, 0, 0], k1_off423_eq k⟩
theorem k1_off426_eq : ∀ k : Fin k1_t1_loop.trips, k1_off426 k = ![k.val % 2] := by decide +kernel
instance (k : Fin k1_t1_loop.trips) : ClosedOff (k1_off426 k) := ⟨![k.val % 2], k1_off426_eq k⟩

end Cert.Proof.KBody
-- ==== Proof.KBodyRespell.lean ====
import proofs.«206325_g16862041604593_cont_week2b_1534_42_alg».proof.Proof.KBodyDefs
import proofs.«206325_g16862041604593_cont_week2b_1534_42_alg».proof.Proof.KBodyOff

/-!
  The SparseCore kernel's body: the program's spellings of its slots are the slots by number.

  The kernel names a slot of a ring by a rectangle whose offsets it computes from the trip; in closed form the
  offsets are the trip's residue modulo the ring's length. A slot's memref, its semaphore, what is held of it and
  what a transfer through it credits depend on the offsets only, so each spelling at a trip is the slot of that
  number; the slices of the transposed indices and of the output that a trip names are the chunks of those numbers.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## Slots through equal offsets

A slot's memref (or semaphore) depends on its rectangle's offsets only: two spellings at equal offsets are the same,
whatever their in-bounds evidence. -/

theorem idx_slot_congr {off off' : Fin 2 → Nat} (h : off = off')
    (inb : ∀ a, off a + S1x128.size a ≤ S10x128.size a) (inb' : ∀ a, off' a + S1x128.size a ≤ S10x128.size a) :
    ((A5).slice (Rect.unit (s := S10x128) off S1x128.size inb) (fun _ => rfl)).squeeze S128 squeezes_S1x128_S128
      = ((A5).slice (Rect.unit (s := S10x128) off' S1x128.size inb') (fun _ => rfl)).squeeze S128 squeezes_S1x128_S128 := by
  subst h; rfl
theorem half_slot_congr {off off' : Fin 2 → Nat} (h : off = off')
    (inb : ∀ a, off a + S1x128.size a ≤ S5x128.size a) (inb' : ∀ a, off' a + S1x128.size a ≤ S5x128.size a) :
    ((A6).slice (Rect.unit (s := S5x128) off S1x128.size inb) (fun _ => rfl)).squeeze S128 squeezes_S1x128_S128
      = ((A6).slice (Rect.unit (s := S5x128) off' S1x128.size inb') (fun _ => rfl)).squeeze S128 squeezes_S1x128_S128 := by
  subst h; rfl
theorem rows_slot_congr {off off' : Fin 3 → Nat} (h : off = off')
    (inb : ∀ a, off a + S1x128x128.size a ≤ S5x128x128.size a) (inb' : ∀ a, off' a + S1x128x128.size a ≤ S5x128x128.size a) :
    ((A7).slice (Rect.unit (s := S5x128x128) off S1x128x128.size inb) (fun _ => rfl)).squeeze S128x128 squeezes_S1x128x128_S128x128
      = ((A7).slice (Rect.unit (s := S5x128x128) off' S1x128x128.size inb') (fun _ => rfl)).squeeze S128x128 squeezes_S1x128x128_S128x128 := by
  subst h; rfl
theorem sel_slot_congr {off off' : Fin 3 → Nat} (h : off = off')
    (inb : ∀ a, off a + S1x128x64.size a ≤ S2x128x64.size a) (inb' : ∀ a, off' a + S1x128x64.size a ≤ S2x128x64.size a) :
    ((A8).slice (Rect.unit (s := S2x128x64) off S1x128x64.size inb) (fun _ => rfl)).squeeze S128x64 squeezes_S1x128x64_S128x64
      = ((A8).slice (Rect.unit (s := S2x128x64) off' S1x128x64.size inb') (fun _ => rfl)).squeeze S128x64 squeezes_S1x128x64_S128x64 := by
  subst h; rfl
theorem isem_slot_congr {off off' : Fin 1 → Nat} (h : off = off')
    (inb : ∀ a, off a + S1.size a ≤ S10.size a) (inb' : ∀ a, off' a + S1.size a ≤ S10.size a) :
    ((cc1_scratch4.slice (Rect.unit (s := S10) off S1.size inb)).squeeze S_ squeezes_S1_S_).sem
      = ((cc1_scratch4.slice (Rect.unit (s := S10) off' S1.size inb')).squeeze S_ squeezes_S1_S_).sem := by
  subst h; rfl
theorem gsem_slot_congr {off off' : Fin 1 → Nat} (h : off = off')
    (inb : ∀ a, off a + S1.size a ≤ S5.size a) (inb' : ∀ a, off' a + S1.size a ≤ S5.size a) :
    ((cc1_scratch5.slice (Rect.unit (s := S5) off S1.size inb)).squeeze S_ squeezes_S1_S_).sem
      = ((cc1_scratch5.slice (Rect.unit (s := S5) off' S1.size inb')).squeeze S_ squeezes_S1_S_).sem := by
  subst h; rfl
theorem wsem_slot_congr {off off' : Fin 1 → Nat} (h : off = off')
    (inb : ∀ a, off a + S1.size a ≤ S2.size a) (inb' : ∀ a, off' a + S1.size a ≤ S2.size a) :
    ((cc1_scratch6.slice (Rect.unit (s := S2) off S1.size inb)).squeeze S_ squeezes_S1_S_).sem
      = ((cc1_scratch6.slice (Rect.unit (s := S2) off' S1.size inb')).squeeze S_ squeezes_S1_S_).sem := by
  subst h; rfl

/-! ## The program's spellings are the slots by number -/

theorem idxP2_eq (k : Fin k1_t1_loop.trips) (h1 : k1_cond1 k = 1#1) : idxP2 k h1 = idxC k.val :=
  idx_slot_congr (k1_off2_eq k) _ _
theorem idxP24_eq (k : Fin k1_t1_loop.trips) (h1 : k1_cond1 k = 1#1) (h2 : k1_cond2 k = 1#1) : idxP24 k h1 h2 = idxC (k.val + 5) :=
  idx_slot_congr (k1_off24_eq k) _ _
theorem halfP22_eq (k : Fin k1_t1_loop.trips) (h1 : k1_cond1 k = 1#1) : halfP22 k h1 = halfC k.val :=
  half_slot_congr (k1_off22_eq k) _ _
theorem halfP28_eq (k : Fin k1_t1_loop.trips) (h3 : k1_cond3 k = 1#1) : halfP28 k h3 = halfC (k.val + 1) :=
  half_slot_congr (k1_off28_eq k) _ _
theorem rowsP21_eq (k : Fin k1_t1_loop.trips) (h1 : k1_cond1 k = 1#1) : rowsP21 k h1 = rowsC k.val :=
  rows_slot_congr (k1_off21_eq k) _ _
theorem rowsP27_eq (k : Fin k1_t1_loop.trips) (h3 : k1_cond3 k = 1#1) : rowsP27 k h3 = rowsC (k.val + 1) :=
  rows_slot_congr (k1_off27_eq k) _ _
theorem selP30_eq (k : Fin k1_t1_loop.trips) (h3 : k1_cond3 k = 1#1) (h4 : k1_cond4 k = 1#1) : selP30 k h3 h4 = selC k.val :=
  sel_slot_congr (k1_off30_eq k) _ _
theorem selP423_eq (k : Fin k1_t1_loop.trips) (h3 : k1_cond3 k = 1#1) : selP423 k h3 = selC k.val :=
  sel_slot_congr (k1_off423_eq k) _ _

/-! ## Slots by number, up to the ring's length -/

theorem idxC_congr {a b : Nat} (h : a % 10 = b % 10) : idxC a = idxC b := idx_slot_congr (by rw [h]) _ _
theorem halfC_congr {a b : Nat} (h : a % 5 = b % 5) : halfC a = halfC b := half_slot_congr (by rw [h]) _ _
theorem rowsC_congr {a b : Nat} (h : a % 5 = b % 5) : rowsC a = rowsC b := rows_slot_congr (by rw [h]) _ _
theorem selC_congr {a b : Nat} (h : a % 2 = b % 2) : selC a = selC b := sel_slot_congr (by rw [h]) _ _
theorem isemC_congr {a b : Nat} (h : a % 10 = b % 10) : isemC a = isemC b := isem_slot_congr (by rw [h]) _ _
theorem gsemC_congr {a b : Nat} (h : a % 5 = b % 5) : gsemC a = gsemC b := gsem_slot_congr (by rw [h]) _ _
theorem wsemC_congr {a b : Nat} (h : a % 2 = b % 2) : wsemC a = wsemC b := wsem_slot_congr (by rw [h]) _ _

/-! ## The semaphores -/

theorem isemP4_eq (k : Fin k1_t1_loop.trips) (h1 : k1_cond1 k = 1#1) : isemP4 k h1 = isemC k.val :=
  isem_slot_congr (k1_off4_eq k) _ _
theorem isemP26_eq (k : Fin k1_t1_loop.trips) (h1 : k1_cond1 k = 1#1) (h2 : k1_cond2 k = 1#1) : isemP26 k h1 h2 = isemC (k.val + 5) :=
  isem_slot_congr (k1_off26_eq k) _ _
theorem gsemP23_eq (k : Fin k1_t1_loop.trips) (h1 : k1_cond1 k = 1#1) : gsemP23 k h1 = gsemC k.val :=
  gsem_slot_congr (k1_off23_eq k) _ _
theorem gsemP29_eq (k : Fin k1_t1_loop.trips) (h3 : k1_cond3 k = 1#1) : gsemP29 k h3 = gsemC (k.val + 1) :=
  gsem_slot_congr (k1_off29_eq k) _ _
theorem wsemP32_eq (k : Fin k1_t1_loop.trips) (h3 : k1_cond3 k = 1#1) (h4 : k1_cond4 k = 1#1) : wsemP32 k h3 h4 = wsemC k.val :=
  wsem_slot_congr (k1_off32_eq k) _ _
theorem wsemP426_eq (k : Fin k1_t1_loop.trips) (h3 : k1_cond3 k = 1#1) : wsemP426 k h3 = wsemC k.val :=
  wsem_slot_congr (k1_off426_eq k) _ _

/-! ## The same for what is held of a slot

A slot held (its elements, at a share, at contents) under the program's spelling is the slot held under its number. -/

section Pts

variable {UU : Type} [URA UU]

set_option quotPrecheck false in
local notation "𝕄" => MT nD τ sig (HIx 1) (Elt F) ℕ UU ℕ

variable (d : Dev nD) (L : grid1.Coords)

theorem pts_idx_slot {off off' : Fin 2 → Nat} (h : off = off')
    (inb : ∀ a, off a + S1x128.size a ≤ S10x128.size a) (inb' : ∀ a, off' a + S1x128.size a ≤ S10x128.size a)
    (q : PosShare TreeShare) (f : Buf (Elt F) ((A5).view.loc (V d (cV L) (jV L)))) :
    ((((A5).slice (Rect.unit (s := S10x128) off S1x128.size inb) (fun _ => rfl)).squeeze S128 squeezes_S1x128_S128).view.loc (V d (cV L) (jV L))
        ↦[(((A5).slice (Rect.unit (s := S10x128) off S1x128.size inb) (fun _ => rfl)).squeeze S128 squeezes_S1x128_S128).view.set]{q} f : sProp 𝕄)
      = ((((A5).slice (Rect.unit (s := S10x128) off' S1x128.size inb') (fun _ => rfl)).squeeze S128 squeezes_S1x128_S128).view.loc (V d (cV L) (jV L))
        ↦[(((A5).slice (Rect.unit (s := S10x128) off' S1x128.size inb') (fun _ => rfl)).squeeze S128 squeezes_S1x128_S128).view.set]{q} f) := by
  subst h; rfl
theorem pts_half_slot {off off' : Fin 2 → Nat} (h : off = off')
    (inb : ∀ a, off a + S1x128.size a ≤ S5x128.size a) (inb' : ∀ a, off' a + S1x128.size a ≤ S5x128.size a)
    (q : PosShare TreeShare) (f : Buf (Elt F) ((A6).view.loc (V d (cV L) (jV L)))) :
    ((((A6).slice (Rect.unit (s := S5x128) off S1x128.size inb) (fun _ => rfl)).squeeze S128 squeezes_S1x128_S128).view.loc (V d (cV L) (jV L))
        ↦[(((A6).slice (Rect.unit (s := S5x128) off S1x128.size inb) (fun _ => rfl)).squeeze S128 squeezes_S1x128_S128).view.set]{q} f : sProp 𝕄)
      = ((((A6).slice (Rect.unit (s := S5x128) off' S1x128.size inb') (fun _ => rfl)).squeeze S128 squeezes_S1x128_S128).view.loc (V d (cV L) (jV L))
        ↦[(((A6).slice (Rect.unit (s := S5x128) off' S1x128.size inb') (fun _ => rfl)).squeeze S128 squeezes_S1x128_S128).view.set]{q} f) := by
  subst h; rfl
theorem pts_rows_slot {off off' : Fin 3 → Nat} (h : off = off')
    (inb : ∀ a, off a + S1x128x128.size a ≤ S5x128x128.size a) (inb' : ∀ a, off' a + S1x128x128.size a ≤ S5x128x128.size a)
    (q : PosShare TreeShare) (f : Buf (Elt F) ((A7).view.loc (V d (cV L) (jV L)))) :
    ((((A7).slice (Rect.unit (s := S5x128x128) off S1x128x128.size inb) (fun _ => rfl)).squeeze S128x128 squeezes_S1x128x128_S128x128).view.loc (V d (cV L) (jV L))
        ↦[(((A7).slice (Rect.unit (s := S5x128x128) off S1x128x128.size inb) (fun _ => rfl)).squeeze S128x128 squeezes_S1x128x128_S128x128).view.set]{q} f : sProp 𝕄)
      = ((((A7).slice (Rect.unit (s := S5x128x128) off' S1x128x128.size inb') (fun _ => rfl)).squeeze S128x128 squeezes_S1x128x128_S128x128).view.loc (V d (cV L) (jV L))
        ↦[(((A7).slice (Rect.unit (s := S5x128x128) off' S1x128x128.size inb') (fun _ => rfl)).squeeze S128x128 squeezes_S1x128x128_S128x128).view.set]{q} f) := by
  subst h; rfl
theorem pts_sel_slot {off off' : Fin 3 → Nat} (h : off = off')
    (inb : ∀ a, off a + S1x128x64.size a ≤ S2x128x64.size a) (inb' : ∀ a, off' a + S1x128x64.size a ≤ S2x128x64.size a)
    (q : PosShare TreeShare) (f : Buf (Elt F) ((A8).view.loc (V d (cV L) (jV L)))) :
    ((((A8).slice (Rect.unit (s := S2x128x64) off S1x128x64.size inb) (fun _ => rfl)).squeeze S128x64 squeezes_S1x128x64_S128x64).view.loc (V d (cV L) (jV L))
        ↦[(((A8).slice (Rect.unit (s := S2x128x64) off S1x128x64.size inb) (fun _ => rfl)).squeeze S128x64 squeezes_S1x128x64_S128x64).view.set]{q} f : sProp 𝕄)
      = ((((A8).slice (Rect.unit (s := S2x128x64) off' S1x128x64.size inb') (fun _ => rfl)).squeeze S128x64 squeezes_S1x128x64_S128x64).view.loc (V d (cV L) (jV L))
        ↦[(((A8).slice (Rect.unit (s := S2x128x64) off' S1x128x64.size inb') (fun _ => rfl)).squeeze S128x64 squeezes_S1x128x64_S128x64).view.set]{q} f) := by
  subst h; rfl

theorem pts_idxP2 (k : Fin k1_t1_loop.trips) (h1 : k1_cond1 k = 1#1) (q : PosShare TreeShare) (f : Buf (Elt F) ((A5).view.loc (V d (cV L) (jV L)))) :
    ((idxP2 k h1).view.loc (V d (cV L) (jV L)) ↦[(idxP2 k h1).view.set]{q} f : sProp 𝕄)
      = ((idxC k.val).view.loc (V d (cV L) (jV L)) ↦[(idxC k.val).view.set]{q} f) :=
  pts_idx_slot d L (k1_off2_eq k) _ _ q f
theorem pts_idxP24 (k : Fin k1_t1_loop.trips) (h1 : k1_cond1 k = 1#1) (h2 : k1_cond2 k = 1#1) (q : PosShare TreeShare) (f : Buf (Elt F) ((A5).view.loc (V d (cV L) (jV L)))) :
    ((idxP24 k h1 h2).view.loc (V d (cV L) (jV L)) ↦[(idxP24 k h1 h2).view.set]{q} f : sProp 𝕄)
      = ((idxC (k.val + 5)).view.loc (V d (cV L) (jV L)) ↦[(idxC (k.val + 5)).view.set]{q} f) :=
  pts_idx_slot d L (k1_off24_eq k) _ _ q f
theorem pts_halfP22 (k : Fin k1_t1_loop.trips) (h1 : k1_cond1 k = 1#1) (q : PosShare TreeShare) (f : Buf (Elt F) ((A6).view.loc (V d (cV L) (jV L)))) :
    ((halfP22 k h1).view.loc (V d (cV L) (jV L)) ↦[(halfP22 k h1).view.set]{q} f : sProp 𝕄)
      = ((halfC k.val).view.loc (V d (cV L) (jV L)) ↦[(halfC k.val).view.set]{q} f) :=
  pts_half_slot d L (k1_off22_eq k) _ _ q f
theorem pts_halfP28 (k : Fin k1_t1_loop.trips) (h3 : k1_cond3 k = 1#1) (q : PosShare TreeShare) (f : Buf (Elt F) ((A6).view.loc (V d (cV L) (jV L)))) :
    ((halfP28 k h3).view.loc (V d (cV L) (jV L)) ↦[(halfP28 k h3).view.set]{q} f : sProp 𝕄)
      = ((halfC (k.val + 1)).view.loc (V d (cV L) (jV L)) ↦[(halfC (k.val + 1)).view.set]{q} f) :=
  pts_half_slot d L (k1_off28_eq k) _ _ q f
theorem pts_rowsP21 (k : Fin k1_t1_loop.trips) (h1 : k1_cond1 k = 1#1) (q : PosShare TreeShare) (f : Buf (Elt F) ((A7).view.loc (V d (cV L) (jV L)))) :
    ((rowsP21 k h1).view.loc (V d (cV L) (jV L)) ↦[(rowsP21 k h1).view.set]{q} f : sProp 𝕄)
      = ((rowsC k.val).view.loc (V d (cV L) (jV L)) ↦[(rowsC k.val).view.set]{q} f) :=
  pts_rows_slot d L (k1_off21_eq k) _ _ q f
theorem pts_rowsP27 (k : Fin k1_t1_loop.trips) (h3 : k1_cond3 k = 1#1) (q : PosShare TreeShare) (f : Buf (Elt F) ((A7).view.loc (V d (cV L) (jV L)))) :
    ((rowsP27 k h3).view.loc (V d (cV L) (jV L)) ↦[(rowsP27 k h3).view.set]{q} f : sProp 𝕄)
      = ((rowsC (k.val + 1)).view.loc (V d (cV L) (jV L)) ↦[(rowsC (k.val + 1)).view.set]{q} f) :=
  pts_rows_slot d L (k1_off27_eq k) _ _ q f
theorem pts_selP30 (k : Fin k1_t1_loop.trips) (h3 : k1_cond3 k = 1#1) (h4 : k1_cond4 k = 1#1) (q : PosShare TreeShare) (f : Buf (Elt F) ((A8).view.loc (V d (cV L) (jV L)))) :
    ((selP30 k h3 h4).view.loc (V d (cV L) (jV L)) ↦[(selP30 k h3 h4).view.set]{q} f : sProp 𝕄)
      = ((selC k.val).view.loc (V d (cV L) (jV L)) ↦[(selC k.val).view.set]{q} f) :=
  pts_sel_slot d L (k1_off30_eq k) _ _ q f
theorem pts_selP423 (k : Fin k1_t1_loop.trips) (h3 : k1_cond3 k = 1#1) (q : PosShare TreeShare) (f : Buf (Elt F) ((A8).view.loc (V d (cV L) (jV L)))) :
    ((selP423 k h3).view.loc (V d (cV L) (jV L)) ↦[(selP423 k h3).view.set]{q} f : sProp 𝕄)
      = ((selC k.val).view.loc (V d (cV L) (jV L)) ↦[(selC k.val).view.set]{q} f) :=
  pts_sel_slot d L (k1_off423_eq k) _ _ q f

/-! ## The slices of the two HBM operands are chunks -/

theorem set_xtP3 (k : Fin k1_t1_loop.trips) (h1 : k1_cond1 k = 1#1) : (xtP3 L k h1).view.set = xChunkSet (200 * wid L + k.val) :=
  set_xtW3 L k h1
theorem set_xtP25 (k : Fin k1_t1_loop.trips) (h1 : k1_cond1 k = 1#1) (h2 : k1_cond2 k = 1#1) :
    (xtP25 L k h1 h2).view.set = xChunkSet (200 * wid L + k.val + 5) :=
  set_xtW25 L k h1 h2
theorem set_outP425 (k : Fin k1_t1_loop.trips) (h3 : k1_cond3 k = 1#1) :
    (outP425 L k h3).view.set = Cert.Spec.chunkSet (200 * wid L + k.val - 4) :=
  set_outW L k h3

theorem pts_xtP3 (k : Fin k1_t1_loop.trips) (h1 : k1_cond1 k = 1#1) (q : PosShare TreeShare) (f : Buf (Elt F) ((A3).view.loc (V d (cV L) (jV L)))) :
    ((xtP3 L k h1).view.loc (V d (cV L) (jV L)) ↦[(xtP3 L k h1).view.set]{q} f : sProp 𝕄)
      = ((A3).view.loc (V d (cV L) (jV L)) ↦[xChunkSet (200 * wid L + k.val)]{q} f) := by
  rw [set_xtP3]
theorem pts_xtP25 (k : Fin k1_t1_loop.trips) (h1 : k1_cond1 k = 1#1) (h2 : k1_cond2 k = 1#1) (q : PosShare TreeShare) (f : Buf (Elt F) ((A3).view.loc (V d (cV L) (jV L)))) :
    ((xtP25 L k h1 h2).view.loc (V d (cV L) (jV L)) ↦[(xtP25 L k h1 h2).view.set]{q} f : sProp 𝕄)
      = ((A3).view.loc (V d (cV L) (jV L)) ↦[xChunkSet (200 * wid L + k.val + 5)]{q} f) := by
  rw [set_xtP25]
theorem pts_outP425 (k : Fin k1_t1_loop.trips) (h3 : k1_cond3 k = 1#1) (q : PosShare TreeShare) (f : Buf (Elt F) ((A4).view.loc (V d (cV L) (jV L)))) :
    ((outP425 L k h3).view.loc (V d (cV L) (jV L)) ↦[(outP425 L k h3).view.set]{q} f : sProp 𝕄)
      = ((A4).view.loc (V d (cV L) (jV L)) ↦[Cert.Spec.chunkSet (200 * wid L + k.val - 4)]{q} f) := by
  rw [set_outP425]

end Pts

/-! ## What a transfer into or out of a slot credits its semaphore -/

theorem credit_idxP2 (k : Fin k1_t1_loop.trips) (h1 : k1_cond1 k = 1#1) : (idxP2 k h1).view.dmaCredit = 4096 := rfl
theorem credit_idxP24 (k : Fin k1_t1_loop.trips) (h1 : k1_cond1 k = 1#1) (h2 : k1_cond2 k = 1#1) : (idxP24 k h1 h2).view.dmaCredit = 4096 := rfl
theorem credit_rowsP27 (k : Fin k1_t1_loop.trips) (h3 : k1_cond3 k = 1#1) : (rowsP27 k h3).view.dmaCredit = 524288 := rfl
theorem credit_outP31 (L : grid1.Coords) (k : Fin k1_t1_loop.trips) (h3 : k1_cond3 k = 1#1) (h4 : k1_cond4 k = 1#1) : (outP31 L k h3 h4).view.dmaCredit = 262144 := rfl
theorem credit_outP425 (L : grid1.Coords) (k : Fin k1_t1_loop.trips) (h3 : k1_cond3 k = 1#1) : (outP425 L k h3).view.dmaCredit = 262144 := rfl

end Cert.Proof.KBody

end
-- ==== Proof.KBodyPack.lean ====
import proofs.«206325_g16862041604593_cont_week2b_1534_42_alg».proof.Proof.KBodyRespell
import Idealize.ShloMosaic.Lib.Writes
import Idealize.ShloMosaic.Lib.Exec

/-!
  The SparseCore kernel's body: what the loop carries, opened at a trip and closed after it.

  Between trips the rings' slots, the copies in flight and the chunks at home are held by NUMBER; a trip's program
  text names them by the offsets it computes. Opening turns a held slot or flight of the right number into the
  program's spelling at trip `k` (slot `k`, `k + 5`, `k + 1`, … modulo the ring's length; chunk `k`, `k + 5`, `k - 4`);
  closing turns what the trip leaves back. An index slot overwritten whole by a chunk of the transposed indices holds
  words of that array.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## The carried families, opened at a trip and closed after it -/

section Pack

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))

/-! ### Opening: from the slot by number to the program's spelling at trip `k` -/

theorem IFl_open (k : Fin k1_t1_loop.trips) (h1 : k1_cond1 k = 1#1) :
    IFl d L q' xt k.val ⊢ (iprop(∃ c, ⌜∀ x : S128.Idx, ((idxP2 k h1).view.read (Elt F) c x).toNat ≤ 999999⌝
      ∗ Transfers.Flight (countersEmb (U := UU)) (V d (cV L) (jV L)) (SemLoc.dma (isemP4 k h1)) (default : HIx 1) 4096
          iprop(((idxP2 k h1).view.loc (V d (cV L) (jV L)) ↦[(idxP2 k h1).view.set]{fullShare} c)
            ∗ ((xtP3 L k h1).view.loc (V d (cV L) (jV L)) ↦[(xtP3 L k h1).view.set]{q'} xt))) : sProp 𝕄) := by
  rw [idxP2_eq k h1, isemP4_eq k h1, set_xtP3]
  unfold IFl IdxOK
  exact BI.Entails.refl _

theorem IFree_open (k : Fin k1_t1_loop.trips) (h1 : k1_cond1 k = 1#1) (h2 : k1_cond2 k = 1#1) :
    IFree d L (k.val + 5) ⊢ (iprop(semVal ((V d (cV L) (jV L)), SemLoc.dma (isemP26 k h1 h2)) 0
      ∗ ∃ f, ((idxP24 k h1 h2).view.loc (V d (cV L) (jV L)) ↦[(idxP24 k h1 h2).view.set]{fullShare} f)) : sProp 𝕄) := by
  rw [idxP24_eq k h1 h2, isemP26_eq k h1 h2]
  unfold IFree
  exact BI.Entails.refl _

theorem XHome_open (k : Fin k1_t1_loop.trips) (h1 : k1_cond1 k = 1#1) (h2 : k1_cond2 k = 1#1) :
    XHome d L q' xt (k.val + 5) ⊢ ((xtP25 L k h1 h2).view.loc (V d (cV L) (jV L)) ↦[(xtP25 L k h1 h2).view.set]{q'} xt : sProp 𝕄) := by
  rw [set_xtP25, show 200 * wid L + k.val + 5 = 200 * wid L + (k.val + 5) by omega]
  unfold XHome
  exact BI.Entails.refl _

theorem GFree_open (k : Fin k1_t1_loop.trips) (h1 : k1_cond1 k = 1#1) :
    GFree d L q tp k.val ⊢ (iprop(semVal ((V d (cV L) (jV L)), SemLoc.dma (gsemP23 k h1)) 0
      ∗ (∃ f, ((rowsP21 k h1).view.loc (V d (cV L) (jV L)) ↦[(rowsP21 k h1).view.set]{fullShare} f))
      ∗ (∃ f, ((halfP22 k h1).view.loc (V d (cV L) (jV L)) ↦[(halfP22 k h1).view.set]{fullShare} f))
      ∗ ((tabS).view.loc (V d (cV L) (jV L)) ↦[(tabS).view.set]{Transfers.shareTokN q (k.val % 5)} tp)) : sProp 𝕄) := by
  rw [rowsP21_eq k h1, halfP22_eq k h1, gsemP23_eq k h1]
  unfold GFree
  exact BI.Entails.refl _

theorem GFl_open (k : Fin k1_t1_loop.trips) (h3 : k1_cond3 k = 1#1) (hk : 4 ≤ k.val) :
    GFl d L q tp (k.val - 4) ⊢ (iprop(∃ c₁ c₂, Transfers.Flight (countersEmb (U := UU)) (V d (cV L) (jV L)) (SemLoc.dma (gsemP29 k h3)) (default : HIx 1) 524288
      iprop((((rowsP27 k h3).view.loc (V d (cV L) (jV L)) ↦[(rowsP27 k h3).view.set]{fullShare} c₁)
          ∗ ((halfP28 k h3).view.loc (V d (cV L) (jV L)) ↦[(halfP28 k h3).view.set]{fullShare} c₂))
        ∗ ((tabS).view.loc (V d (cV L) (jV L)) ↦[(tabS).view.set]{Transfers.shareTokN q ((k.val - 4) % 5)} tp))) : sProp 𝕄) := by
  rw [rowsP27_eq k h3, halfP28_eq k h3, gsemP29_eq k h3,
    rowsC_congr (a := k.val + 1) (b := k.val - 4) (by omega), halfC_congr (a := k.val + 1) (b := k.val - 4) (by omega),
    gsemC_congr (a := k.val + 1) (b := k.val - 4) (by omega)]
  unfold GFl
  exact BI.Entails.refl _

theorem WFl_open (k : Fin k1_t1_loop.trips) (h3 : k1_cond3 k = 1#1) (h4 : k1_cond4 k = 1#1) (hk : 6 ≤ k.val) :
    WFl d L (k.val - 6) ⊢ (iprop(∃ c₁ c₂, Transfers.Flight (countersEmb (U := UU)) (V d (cV L) (jV L)) (SemLoc.dma (wsemP32 k h3 h4)) (default : HIx 1) 262144
      iprop(((A4).view.loc (V d (cV L) (jV L)) ↦[Cert.Spec.chunkSet (200 * wid L + (k.val - 6))]{fullShare} c₁)
        ∗ ((selP30 k h3 h4).view.loc (V d (cV L) (jV L)) ↦[(selP30 k h3 h4).view.set]{fullShare} c₂))) : sProp 𝕄) := by
  rw [selP30_eq k h3 h4, wsemP32_eq k h3 h4, selC_congr (a := k.val) (b := k.val - 6) (by omega), wsemC_congr (a := k.val) (b := k.val - 6) (by omega)]
  unfold WFl
  exact BI.Entails.refl _

theorem OutInit_open (k : Fin k1_t1_loop.trips) (h3 : k1_cond3 k = 1#1) (hk : 4 ≤ k.val) :
    OutInit d L fo (k.val - 4) ⊢ ((outP425 L k h3).view.loc (V d (cV L) (jV L)) ↦[(outP425 L k h3).view.set]{fullShare} fo : sProp 𝕄) := by
  rw [set_outP425, show 200 * wid L + k.val - 4 = 200 * wid L + (k.val - 4) by omega]
  unfold OutInit
  exact BI.Entails.refl _

theorem IFree_read (k : Fin k1_t1_loop.trips) :
    IFree d L (k.val + 6) ⊣⊢ (iprop(semVal ((V d (cV L) (jV L)), SemLoc.dma (isemC (k.val + 6))) 0
      ∗ ∃ f, ((idxC (k.val + 6)).view.loc (V d (cV L) (jV L)) ↦[(idxC (k.val + 6)).view.set]{fullShare} f)) : sProp 𝕄) := by
  unfold IFree
  exact ⟨BI.Entails.refl _, BI.Entails.refl _⟩

/-! ### Closing: from what a trip leaves under the program's spelling to the slot by number -/

theorem IFree_close (k : Fin k1_t1_loop.trips) (h1 : k1_cond1 k = 1#1) :
    (iprop(semVal ((V d (cV L) (jV L)), SemLoc.dma (isemP4 k h1)) 0
      ∗ ∃ f, ((idxP2 k h1).view.loc (V d (cV L) (jV L)) ↦[(idxP2 k h1).view.set]{fullShare} f)) : sProp 𝕄) ⊢ IFree d L (k.val + 10) := by
  rw [idxP2_eq k h1, isemP4_eq k h1, idxC_congr (a := k.val) (b := k.val + 10) (by omega), isemC_congr (a := k.val) (b := k.val + 10) (by omega)]
  unfold IFree
  exact BI.Entails.refl _

theorem XHome_close (k : Fin k1_t1_loop.trips) (h1 : k1_cond1 k = 1#1) :
    ((xtP3 L k h1).view.loc (V d (cV L) (jV L)) ↦[(xtP3 L k h1).view.set]{q'} xt : sProp 𝕄) ⊢ XHome d L q' xt k.val := by
  rw [set_xtP3]
  unfold XHome
  exact BI.Entails.refl _

theorem IFl_close (k : Fin k1_t1_loop.trips) (h1 : k1_cond1 k = 1#1) (h2 : k1_cond2 k = 1#1) :
    ∀ c, (∀ x : S128.Idx, ((idxP24 k h1 h2).view.read (Elt F) c x).toNat ≤ 999999) →
    (Transfers.Flight (countersEmb (U := UU)) (V d (cV L) (jV L)) (SemLoc.dma (isemP26 k h1 h2)) (default : HIx 1) 4096
      iprop(((idxP24 k h1 h2).view.loc (V d (cV L) (jV L)) ↦[(idxP24 k h1 h2).view.set]{fullShare} c)
        ∗ ((xtP25 L k h1 h2).view.loc (V d (cV L) (jV L)) ↦[(xtP25 L k h1 h2).view.set]{q'} xt)) : sProp 𝕄) ⊢ IFl d L q' xt (k.val + 5) := by
  rw [idxP24_eq k h1 h2, isemP26_eq k h1 h2, set_xtP25, show 200 * wid L + k.val + 5 = 200 * wid L + (k.val + 5) by omega]
  intro c hc
  unfold IFl
  iintro H
  iexists c
  isplitr; · ipureintro; exact hc
  iexact H

theorem GFl_close (k : Fin k1_t1_loop.trips) (h1 : k1_cond1 k = 1#1) :
    ∀ c₁ c₂, (Transfers.Flight (countersEmb (U := UU)) (V d (cV L) (jV L)) (SemLoc.dma (gsemP23 k h1)) (default : HIx 1) 524288
      iprop((((rowsP21 k h1).view.loc (V d (cV L) (jV L)) ↦[(rowsP21 k h1).view.set]{fullShare} c₁)
          ∗ ((halfP22 k h1).view.loc (V d (cV L) (jV L)) ↦[(halfP22 k h1).view.set]{fullShare} c₂))
        ∗ ((tabS).view.loc (V d (cV L) (jV L)) ↦[(tabS).view.set]{Transfers.shareTokN q (k.val % 5)} tp)) : sProp 𝕄) ⊢ GFl d L q tp k.val := by
  rw [rowsP21_eq k h1, halfP22_eq k h1, gsemP23_eq k h1]
  intro c₁ c₂
  unfold GFl
  iintro H
  iexists c₁
  iexists c₂
  iexact H

theorem GFree_close (k : Fin k1_t1_loop.trips) (h3 : k1_cond3 k = 1#1) (hk : 4 ≤ k.val) :
    (iprop(semVal ((V d (cV L) (jV L)), SemLoc.dma (gsemP29 k h3)) 0
      ∗ (∃ f, ((rowsP27 k h3).view.loc (V d (cV L) (jV L)) ↦[(rowsP27 k h3).view.set]{fullShare} f))
      ∗ (∃ f, ((halfP28 k h3).view.loc (V d (cV L) (jV L)) ↦[(halfP28 k h3).view.set]{fullShare} f))
      ∗ ((tabS).view.loc (V d (cV L) (jV L)) ↦[(tabS).view.set]{Transfers.shareTokN q ((k.val - 4) % 5)} tp)) : sProp 𝕄) ⊢ GFree d L q tp (k.val + 1) := by
  rw [rowsP27_eq k h3, halfP28_eq k h3, gsemP29_eq k h3, show (k.val - 4) % 5 = (k.val + 1) % 5 by omega]
  unfold GFree
  exact BI.Entails.refl _

theorem WFl_close (k : Fin k1_t1_loop.trips) (h3 : k1_cond3 k = 1#1) (hk : 4 ≤ k.val) :
    ∀ c₁ c₂, (Transfers.Flight (countersEmb (U := UU)) (V d (cV L) (jV L)) (SemLoc.dma (wsemP426 k h3)) (default : HIx 1) 262144
      iprop(((outP425 L k h3).view.loc (V d (cV L) (jV L)) ↦[(outP425 L k h3).view.set]{fullShare} c₁)
        ∗ ((selP423 k h3).view.loc (V d (cV L) (jV L)) ↦[(selP423 k h3).view.set]{fullShare} c₂)) : sProp 𝕄) ⊢ WFl d L (k.val - 4) := by
  rw [selP423_eq k h3, wsemP426_eq k h3, set_outP425, show 200 * wid L + k.val - 4 = 200 * wid L + (k.val - 4) by omega,
    selC_congr (a := k.val) (b := k.val - 4) (by omega), wsemC_congr (a := k.val) (b := k.val - 4) (by omega)]
  intro c₁ c₂
  unfold WFl
  iintro H
  iexists c₁
  iexists c₂
  iexact H

theorem OutDone_close (k : Fin k1_t1_loop.trips) (hk : 6 ≤ k.val) (c : Buf (Elt F) ((A4).view.loc (V d (cV L) (jV L)))) :
    ((A4).view.loc (V d (cV L) (jV L)) ↦[Cert.Spec.chunkSet (200 * wid L + (k.val - 6))]{fullShare} c : sProp 𝕄) ⊢ OutDone d L (k.val - 6) := by
  unfold OutDone
  iintro H
  iexists c
  iexact H

end Pack

/-! ## What a landed index chunk holds -/

/-- A slot of index words overwritten whole by a chunk of the transposed indices holds words of that array: in range
    if all of the array's are. -/
theorem landed_ok (L : grid1.Coords) (k : Fin k1_t1_loop.trips) (h1 : k1_cond1 k = 1#1) (h2 : k1_cond2 k = 1#1)
    (xt : IVec S50x16384 32) (hxt : ∀ j, (xt j).toNat ≤ 999999) (f : (idxP24 k h1 h2).view.ty.Contents (Elt F)) :
    ∀ x : S128.Idx, ((idxP24 k h1 h2).view.read (Elt F) ((idxP24 k h1 h2).view.writes (Elt F) f
      [⟨Rect.whole S128, ReadAs.same.apply ((xtP25 L k h1 h2).view.read (Elt F) xt)⟩]) x).toNat ≤ 999999 := by
  intro x
  rw [View.read_writes_whole]
  exact hxt _

end Cert.Proof.KBody

end
-- ==== Proof.KBodyRegion.lean ====
import proofs.«206325_g16862041604593_cont_week2b_1534_42_alg».proof.Proof.KBodyPack
import Idealize.ShloMosaic.Lib.Ring

/-!
  The SparseCore kernel's body: one trip of the loop takes what the loop carries before trip `k` to what it carries
  before trip `k + 1`.

  What is carried is runs of slots and chunks by number. A trip touches a few of them, according to its phase (the
  first four trips only fetch and gather; from the fifth a gather is awaited and a write-back issued; from the seventh
  a write-back is awaited; the last trips fetch no more, then gather no more). Given what a trip of each phase does to
  the pieces it touches (five hypotheses), the step is bookkeeping: take the pieces off the ends of their runs, frame the
  rest, put the new pieces on.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## Runs of a family by number -/

section Runs

variable {M : Type} [URA M] (A : ℕ → sProp M)

theorem ico_pop {a a' b : ℕ} (h : a < b) (ha : a' = a + 1) :
    bigSep (Finset.Ico a b) A = iprop(A a ∗ bigSep (Finset.Ico a' b) A) := by
  subst ha; exact Ring.bigSep_Ico_succ h A
theorem ico_push {a b b' : ℕ} (h : a ≤ b) (hb : b' = b + 1) :
    bigSep (Finset.Ico a b') A = iprop(A b ∗ bigSep (Finset.Ico a b) A) := by
  subst hb
  rw [show Finset.Ico a (b + 1) = insert b (Finset.Ico a b) from by
    ext x; simp only [Finset.mem_Ico, Finset.mem_insert]; omega, BI.bigSep_insert (by simp)]; rfl
theorem ico_split {a m b : ℕ} (h1 : a ≤ m) (h2 : m ≤ b) :
    bigSep (Finset.Ico a b) A = iprop(bigSep (Finset.Ico a m) A ∗ bigSep (Finset.Ico m b) A) := by
  rw [← Finset.Ico_union_Ico_eq_Ico h1 h2, BI.bigSep_union (Finset.Ico_disjoint_Ico_consecutive a m b)]; rfl
theorem ico_empty_eq {a b a' b' : ℕ} (h : b ≤ a) (h' : b' ≤ a') :
    bigSep (Finset.Ico a b) A = bigSep (Finset.Ico a' b') A := by
  rw [Finset.Ico_eq_empty (by omega), Finset.Ico_eq_empty (by omega)]
theorem range_push {r r' : ℕ} (h : r' = r + 1) :
    bigSep (Finset.range r') A = iprop(A r ∗ bigSep (Finset.range r) A) := by
  subst h; exact Ring.bigSep_range_succ r A

theorem pop_ent {a a' b : ℕ} (h : a < b) (ha : a' = a + 1) :
    bigSep (Finset.Ico a b) A ⊢ iprop(A a ∗ bigSep (Finset.Ico a' b) A) := Entails.of_eq (ico_pop A h ha)
theorem unpop_ent {a a' b : ℕ} (h : a < b) (ha : a' = a + 1) :
    iprop(A a ∗ bigSep (Finset.Ico a' b) A) ⊢ bigSep (Finset.Ico a b) A := Entails.of_eq (ico_pop A h ha).symm
theorem push_ent {a b b' : ℕ} (h : a ≤ b) (hb : b' = b + 1) :
    iprop(A b ∗ bigSep (Finset.Ico a b) A) ⊢ bigSep (Finset.Ico a b') A := Entails.of_eq (ico_push A h hb).symm
theorem split_ent {a m b : ℕ} (h1 : a ≤ m) (h2 : m ≤ b) :
    bigSep (Finset.Ico a b) A ⊢ iprop(bigSep (Finset.Ico a m) A ∗ bigSep (Finset.Ico m b) A) := Entails.of_eq (ico_split A h1 h2)
theorem join_ent {a m b : ℕ} (h1 : a ≤ m) (h2 : m ≤ b) :
    iprop(bigSep (Finset.Ico a m) A ∗ bigSep (Finset.Ico m b) A) ⊢ bigSep (Finset.Ico a b) A := Entails.of_eq (ico_split A h1 h2).symm
theorem empty_ent {a b a' b' : ℕ} (h : b ≤ a) (h' : b' ≤ a') :
    bigSep (Finset.Ico a b) A ⊢ bigSep (Finset.Ico a' b') A := Entails.of_eq (ico_empty_eq A h h')
theorem rpush_ent {r r' : ℕ} (h : r' = r + 1) :
    iprop(A r ∗ bigSep (Finset.range r) A) ⊢ bigSep (Finset.range r') A := Entails.of_eq (range_push A h).symm

end Runs

theorem trips_eq : k1_t1_loop.trips = 204 := by decide

/-! ## The step -/

section Region

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (O : CellTallies nD τ sig (HIx 1)) (W : Waits sig (HIx 1))

set_option quotPrecheck false in
local notation "fI" => IFl d L q' xt
set_option quotPrecheck false in
local notation "fIF" => IFree d L
set_option quotPrecheck false in
local notation "fG" => GFl d L q tp
set_option quotPrecheck false in
local notation "fGF" => GFree d L q tp
set_option quotPrecheck false in
local notation "fW" => WFl d L
set_option quotPrecheck false in
local notation "fWF" => WFree d L
set_option quotPrecheck false in
local notation "fX" => XHome d L q' xt
set_option quotPrecheck false in
local notation "fOD" => OutDone d L
set_option quotPrecheck false in
local notation "fOI" => OutInit d L fo
set_option quotPrecheck false in
local notation "MW" => Transfers.MayWaits (V d (cV L) (jV L)) (default : HIx 1) O
set_option quotPrecheck false in
local notation "OW" => Owes d L O W

/-- What is carried before trip `n`, with the ends of its runs named. -/
theorem Inv_eq (n a1 b1 a2 b2 a3 b3 a4 b4 a5 b5 a6 b6 r7 a8 r9 a10 : ℕ)
    (h1 : min n 200 = a1) (h2 : min (min n 200 + 5) 200 = b1) (h3 : min (min n 200 + 5) 200 = a2) (h4 : min n 200 + 10 = b2)
    (h5 : n - 4 = a3) (h6 : min n 200 = b3) (h7 : min n 200 = a4) (h8 : n - 4 + 5 = b4) (h9 : n - 6 = a5) (h10 : min (n - 4) 200 = b5)
    (h11 : min (n - 4) 200 = a6) (h12 : n - 6 + 2 = b6) (h13 : min n 200 = r7) (h14 : min (min n 200 + 5) 200 = a8) (h15 : n - 6 = r9)
    (h16 : min (n - 4) 200 = a10) (acc : Unit) :
    Inv d L q q' tp xt fo O W n acc = (iprop(MW ∗ OW
      ∗ bigSep (Finset.Ico a1 b1) fI ∗ bigSep (Finset.Ico a2 b2) fIF ∗ bigSep (Finset.Ico a3 b3) fG ∗ bigSep (Finset.Ico a4 b4) fGF
      ∗ bigSep (Finset.Ico a5 b5) fW ∗ bigSep (Finset.Ico a6 b6) fWF ∗ bigSep (Finset.range r7) fX ∗ bigSep (Finset.Ico a8 200) fX
      ∗ bigSep (Finset.range r9) fOD ∗ bigSep (Finset.Ico a10 200) fOI) : sProp 𝕄) := by
  subst h1 h2 h3 h4 h5 h6 h7 h8 h9 h10 h11 h12 h13 h14 h15 h16; rfl

variable (body : Fin k1_t1_loop.trips → Unit → Prog (TpuEff nD τ sig (Elt F) Λ₀ (Proc.scVector (cV L) (jV L))) Unit)

/-- The first four trips: the trip's index chunk lands and its gather is issued; the chunk five ahead is fetched. -/
def PhaseA : Prop := ∀ k : Fin k1_t1_loop.trips, k.val < 4 →
  (iprop(MW ∗ OW ∗ fI k.val ∗ fIF (k.val + 5) ∗ fX (k.val + 5) ∗ fGF k.val) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val)
/-- Trips four and five: also, the gather issued four trips before lands and its rows are written back. -/
def PhaseB : Prop := ∀ k : Fin k1_t1_loop.trips, 4 ≤ k.val → k.val < 6 →
  (iprop(MW ∗ OW ∗ fI k.val ∗ fIF (k.val + 5) ∗ fX (k.val + 5) ∗ fGF k.val ∗ fG (k.val - 4) ∗ fWF (k.val - 4) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val ∗ fGF (k.val + 1) ∗ fW (k.val - 4) ∗ fIF (k.val + 6))
/-- The steady trips: also, the write-back issued two trips before is awaited first. -/
def PhaseC : Prop := ∀ k : Fin k1_t1_loop.trips, 6 ≤ k.val → k.val < 195 →
  (iprop(MW ∗ OW ∗ fI k.val ∗ fIF (k.val + 5) ∗ fX (k.val + 5) ∗ fGF k.val ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val ∗ fGF (k.val + 1) ∗ fOD (k.val - 6) ∗ fW (k.val - 4) ∗ fIF (k.val + 6))
/-- The last trips that gather: nothing more is fetched. -/
def PhaseD : Prop := ∀ k : Fin k1_t1_loop.trips, 195 ≤ k.val → k.val < 200 →
  (iprop(MW ∗ OW ∗ fI k.val ∗ fGF k.val ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fG k.val ∗ fGF (k.val + 1) ∗ fOD (k.val - 6) ∗ fW (k.val - 4) ∗ fIF (k.val + 6))
/-- The draining trips: only the landing gathers are written back. -/
def PhaseE : Prop := ∀ k : Fin k1_t1_loop.trips, 200 ≤ k.val →
  (iprop(MW ∗ OW ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fGF (k.val + 1) ∗ fOD (k.val - 6) ∗ fW (k.val - 4) ∗ fIF (k.val + 6))

theorem stepA (hA : PhaseA (UU := UU) d L q q' tp xt O W body) (k : Fin k1_t1_loop.trips) (hk : k.val < 4) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  rw [Inv_eq d L q q' tp xt fo O W (k.val) (k.val) (k.val + 5) (k.val + 5) (k.val + 10) (0) (k.val) (k.val) (5) (0) (0) (0) (2) (k.val) (k.val + 5) (0) (0)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fX (a := k.val + 5) (a' := k.val + 6) (b := 200) (by omega) (by omega)) $$ HX2
  icases T with ⟨Hx5, HX2⟩
  ihave T := (pop_ent fGF (a := k.val) (a' := k.val + 1) (b := 5) (by omega) (by omega)) $$ HGF
  icases T with ⟨Hgf, HGF⟩
  iapply (wp_wand_r frame _ Set.univ)
  isplitl [Hmw How Hi Hif5 Hx5 Hgf]
  · iapply (hA k hk)
    isplitl [Hmw]; · iexact Hmw
    isplitl [How]; · iexact How
    isplitl [Hi]; · iexact Hi
    isplitl [Hif5]; · iexact Hif5
    isplitl [Hx5]; · iexact Hx5
    iexact Hgf
  iintro %acc' ⟨Hmw, How, Hif10, Hx, Hi5, Hg⟩
  rw [Inv_eq d L q q' tp xt fo O W (k.val + 1) (k.val + 1) (k.val + 6) (k.val + 6) (k.val + 11) (0) (k.val + 1) (k.val + 1) (5) (0) (0) (0) (2) (k.val + 1) (k.val + 6) (0) (0)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif10 HIF]
  · iapply (push_ent fIF (a := k.val + 6) (b := k.val + 10) (b' := k.val + 11) (by omega) (by omega))
    isplitl [Hif10]; · iexact Hif10
    iexact HIF
  isplitl [Hg HG]
  · iapply (push_ent fG (a := 0) (b := k.val) (b' := k.val + 1) (by omega) (by omega))
    isplitl [Hg]; · iexact Hg
    iexact HG
  isplitl [HGF]; · iexact HGF
  isplitl [HWf]; · iexact HWf
  isplitl [HWF]; · iexact HWF
  isplitl [Hx HX1]
  · iapply (rpush_ent fX (r := k.val) (r' := k.val + 1) (by omega))
    isplitl [Hx]; · iexact Hx
    iexact HX1
  isplitl [HX2]; · iexact HX2
  isplitl [HOD]; · iexact HOD
  iexact HOI

theorem stepB (hB : PhaseB (UU := UU) d L q q' tp xt fo O W body) (k : Fin k1_t1_loop.trips) (h4 : 4 ≤ k.val) (h6 : k.val < 6) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  rw [Inv_eq d L q q' tp xt fo O W (k.val) (k.val) (k.val + 5) (k.val + 5) (k.val + 10) (k.val - 4) (k.val) (k.val) (k.val + 1) (0) (k.val - 4) (k.val - 4) (2) (k.val) (k.val + 5) (0) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fIF (a := k.val + 6) (a' := k.val + 7) (b := k.val + 10) (by omega) (by omega)) $$ HIF
  icases T with ⟨Hif6, HIF⟩
  ihave T := (pop_ent fX (a := k.val + 5) (a' := k.val + 6) (b := 200) (by omega) (by omega)) $$ HX2
  icases T with ⟨Hx5, HX2⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fWF (a := k.val - 4) (a' := k.val - 3) (b := 2) (by omega) (by omega)) $$ HWF
  icases T with ⟨Hwf, HWF⟩
  ihave T := (pop_ent fOI (a := k.val - 4) (a' := k.val - 3) (b := 200) (by omega) (by omega)) $$ HOI
  icases T with ⟨Hoi, HOI⟩
  iapply (wp_wand_r frame _ Set.univ)
  isplitl [Hmw How Hi Hif5 Hx5 Hgf Hg4 Hwf Hoi Hif6]
  · iapply (hB k h4 h6)
    isplitl [Hmw]; · iexact Hmw
    isplitl [How]; · iexact How
    isplitl [Hi]; · iexact Hi
    isplitl [Hif5]; · iexact Hif5
    isplitl [Hx5]; · iexact Hx5
    isplitl [Hgf]; · iexact Hgf
    isplitl [Hg4]; · iexact Hg4
    isplitl [Hwf]; · iexact Hwf
    isplitl [Hoi]; · iexact Hoi
    iexact Hif6
  iintro %acc' ⟨Hmw, How, Hif10, Hx, Hi5, Hg, Hgf1, Hw4, Hif6⟩
  rw [Inv_eq d L q q' tp xt fo O W (k.val + 1) (k.val + 1) (k.val + 6) (k.val + 6) (k.val + 11) (k.val - 3) (k.val + 1) (k.val + 1) (k.val + 2) (0) (k.val - 3) (k.val - 3) (2) (k.val + 1) (k.val + 6) (0) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif6 Hif10 HIF]
  · iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIF
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := 0) (b := k.val - 4) (b' := k.val - 3) (by omega) (by omega))
    isplitl [Hw4]; · iexact Hw4
    iexact HWf
  isplitl [HWF]; · iexact HWF
  isplitl [Hx HX1]
  · iapply (rpush_ent fX (r := k.val) (r' := k.val + 1) (by omega))
    isplitl [Hx]; · iexact Hx
    iexact HX1
  isplitl [HX2]; · iexact HX2
  isplitl [HOD]; · iexact HOD
  iexact HOI

theorem stepC (hC : PhaseC (UU := UU) d L q q' tp xt fo O W body) (k : Fin k1_t1_loop.trips) (h6 : 6 ≤ k.val) (h195 : k.val < 195) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  rw [Inv_eq d L q q' tp xt fo O W (k.val) (k.val) (k.val + 5) (k.val + 5) (k.val + 10) (k.val - 4) (k.val) (k.val) (k.val + 1) (k.val - 6) (k.val - 4) (k.val - 4) (k.val - 4) (k.val) (k.val + 5) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fIF (a := k.val + 6) (a' := k.val + 7) (b := k.val + 10) (by omega) (by omega)) $$ HIF
  icases T with ⟨Hif6, HIF⟩
  ihave T := (pop_ent fX (a := k.val + 5) (a' := k.val + 6) (b := 200) (by omega) (by omega)) $$ HX2
  icases T with ⟨Hx5, HX2⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hi Hif5 Hx5 Hgf Hg4 Hw6 Hoi Hif6]
  · iapply (hC k h6 h195)
    isplitl [Hmw]; · iexact Hmw
    isplitl [How]; · iexact How
    isplitl [Hi]; · iexact Hi
    isplitl [Hif5]; · iexact Hif5
    isplitl [Hx5]; · iexact Hx5
    isplitl [Hgf]; · iexact Hgf
    isplitl [Hg4]; · iexact Hg4
    isplitl [Hw6]; · iexact Hw6
    isplitl [Hoi]; · iexact Hoi
    iexact Hif6
  iintro %acc' ⟨Hmw, How, Hif10, Hx, Hi5, Hg, Hgf1, Hod, Hw4, Hif6⟩
  rw [Inv_eq d L q q' tp xt fo O W (k.val + 1) (k.val + 1) (k.val + 6) (k.val + 6) (k.val + 11) (k.val - 3) (k.val + 1) (k.val + 1) (k.val + 2) (k.val - 5) (k.val - 3) (k.val - 3) (k.val - 3) (k.val + 1) (k.val + 6) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif6 Hif10 HIF]
  · iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIF
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [Hx HX1]
  · iapply (rpush_ent fX (r := k.val) (r' := k.val + 1) (by omega))
    isplitl [Hx]; · iexact Hx
    iexact HX1
  isplitl [HX2]; · iexact HX2
  isplitl [Hod HOD]
  · iapply (rpush_ent fOD (r := k.val - 6) (r' := k.val - 5) (by omega))
    isplitl [Hod]; · iexact Hod
    iexact HOD
  iexact HOI

theorem stepD (hD : PhaseD (UU := UU) d L q q' tp xt fo O W body) (k : Fin k1_t1_loop.trips) (h195 : 195 ≤ k.val) (h200 : k.val < 200) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  rw [Inv_eq d L q q' tp xt fo O W (k.val) (k.val) (200) (200) (k.val + 10) (k.val - 4) (k.val) (k.val) (k.val + 1) (k.val - 6) (k.val - 4) (k.val - 4) (k.val - 4) (k.val) (200) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := 200) (by omega) (by omega)) $$ HI
  icases T with ⟨Hi, HI⟩
  ihave T := (split_ent fIF (a := 200) (m := k.val + 6) (b := k.val + 10) (by omega) (by omega)) $$ HIF
  icases T with ⟨HIFa, HIFb⟩
  ihave T := (pop_ent fIF (a := k.val + 6) (a' := k.val + 7) (b := k.val + 10) (by omega) (by omega)) $$ HIFb
  icases T with ⟨Hif6, HIFb⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hi Hgf Hg4 Hw6 Hoi Hif6]
  · iapply (hD k h195 h200)
    isplitl [Hmw]; · iexact Hmw
    isplitl [How]; · iexact How
    isplitl [Hi]; · iexact Hi
    isplitl [Hgf]; · iexact Hgf
    isplitl [Hg4]; · iexact Hg4
    isplitl [Hw6]; · iexact Hw6
    isplitl [Hoi]; · iexact Hoi
    iexact Hif6
  iintro %acc' ⟨Hmw, How, Hif10, Hx, Hg, Hgf1, Hod, Hw4, Hif6⟩
  rw [Inv_eq d L q q' tp xt fo O W (k.val + 1) (k.val + 1) (200) (200) (k.val + 11) (k.val - 3) (k.val + 1) (k.val + 1) (k.val + 2) (k.val - 5) (k.val - 3) (k.val - 3) (k.val - 3) (k.val + 1) (200) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [HI]; · iexact HI
  isplitl [HIFa Hif6 Hif10 HIFb]
  · iapply (join_ent fIF (a := 200) (m := k.val + 6) (b := k.val + 11) (by omega) (by omega))
    isplitl [HIFa]; · iexact HIFa
    iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIFb
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [Hx HX1]
  · iapply (rpush_ent fX (r := k.val) (r' := k.val + 1) (by omega))
    isplitl [Hx]; · iexact Hx
    iexact HX1
  isplitl [HX2]; · iexact HX2
  isplitl [Hod HOD]
  · iapply (rpush_ent fOD (r := k.val - 6) (r' := k.val - 5) (by omega))
    isplitl [Hod]; · iexact Hod
    iexact HOD
  iexact HOI

theorem stepE (hE : PhaseE (UU := UU) d L q tp fo O W body) (k : Fin k1_t1_loop.trips) (h200 : 200 ≤ k.val) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  have hlt : k.val < 204 := lt_of_lt_of_eq k.isLt trips_eq
  rw [Inv_eq d L q q' tp xt fo O W (k.val) (200) (200) (200) (210) (k.val - 4) (200) (200) (k.val + 1) (k.val - 6) (k.val - 4) (k.val - 4) (k.val - 4) (200) (200) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (split_ent fIF (a := 200) (m := k.val + 6) (b := 210) (by omega) (by omega)) $$ HIF
  icases T with ⟨HIFa, HIFb⟩
  ihave T := (pop_ent fIF (a := k.val + 6) (a' := k.val + 7) (b := 210) (by omega) (by omega)) $$ HIFb
  icases T with ⟨Hif6, HIFb⟩
  ihave T := (pop_ent fG (a := k.val - 4) (a' := k.val - 3) (b := 200) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hg4 Hw6 Hoi Hif6]
  · iapply (hE k h200)
    isplitl [Hmw]; · iexact Hmw
    isplitl [How]; · iexact How
    isplitl [Hg4]; · iexact Hg4
    isplitl [Hw6]; · iexact Hw6
    isplitl [Hoi]; · iexact Hoi
    iexact Hif6
  iintro %acc' ⟨Hmw, How, Hgf1, Hod, Hw4, Hif6⟩
  rw [Inv_eq d L q q' tp xt fo O W (k.val + 1) (200) (200) (200) (210) (k.val - 3) (200) (200) (k.val + 2) (k.val - 5) (k.val - 3) (k.val - 3) (k.val - 3) (200) (200) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [HI]; · iexact HI
  isplitl [HIFa Hif6 HIFb]
  · iapply (join_ent fIF (a := 200) (m := k.val + 6) (b := 210) (by omega) (by omega))
    isplitl [HIFa]; · iexact HIFa
    iapply (unpop_ent fIF (a := k.val + 6) (a' := k.val + 7) (b := 210) (by omega) (by omega))
    isplitl [Hif6]; · iexact Hif6
    iexact HIFb
  isplitl [HG]; · iexact HG
  isplitl [Hgf1 HGF]
  · iapply (push_ent fGF (a := 200) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [HX1]; · iexact HX1
  isplitl [HX2]; · iexact HX2
  isplitl [Hod HOD]
  · iapply (rpush_ent fOD (r := k.val - 6) (r' := k.val - 5) (by omega))
    isplitl [Hod]; · iexact Hod
    iexact HOD
  iexact HOI

/-- One trip: from what is carried before it to what is carried after it, whatever its phase. -/
theorem region (hA : PhaseA (UU := UU) d L q q' tp xt O W body) (hB : PhaseB (UU := UU) d L q q' tp xt fo O W body) (hC : PhaseC (UU := UU) d L q q' tp xt fo O W body)
    (hD : PhaseD (UU := UU) d L q q' tp xt fo O W body) (hE : PhaseE (UU := UU) d L q tp fo O W body) :
    ∀ (k : Fin k1_t1_loop.trips) (acc : Unit),
      (Inv d L q q' tp xt fo O W k.val acc : sProp 𝕄) ⊢ wp frame (wpE (defs₀ (F := F)) 𝒱₀ (V d (cV L) (jV L)) none) Set.univ (body k acc) (Inv d L q q' tp xt fo O W (k.val + 1)) := by
  intro k acc
  cases acc
  by_cases h4 : k.val < 4
  · exact stepA d L q q' tp xt fo O W body hA k h4
  by_cases h6 : k.val < 6
  · exact stepB d L q q' tp xt fo O W body hB k (by omega) h6
  by_cases h195 : k.val < 195
  · exact stepC d L q q' tp xt fo O W body hC k (by omega) h195
  by_cases h200 : k.val < 200
  · exact stepD d L q q' tp xt fo O W body hD k (by omega) h200
  · exact stepE d L q q' tp xt fo O W body hE k (by omega)

end Region

end Cert.Proof.KBody

end
-- ==== Proof.KBodyEnds.lean ====
import proofs.«206325_g16862041604593_cont_week2b_1534_42_alg».proof.Proof.KBodyRegion

/-!
  The SparseCore kernel's body: the two ends of the loop.

  Before the first trip the five index chunks the prologue fetched are in flight and every other slot is free; that is
  what the loop carries before trip 0. After the last trip, what it carries is every slot free again but for the last
  two write-backs, every index chunk at home and all but the last two output chunks written. A free slot depends on
  its number only through the residue modulo its ring's length, so the free slots numbered from 200 are the free slots
  numbered from 0.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## Runs shifted -/

section Shift

variable {M : Type} [URA M] (A : ℕ → sProp M)

/-- A run over the numbers from `a + c` to `b + c` is the run from `a` to `b` of the family shifted by `c`. -/
theorem ico_shift (a b c : ℕ) : bigSep (Finset.Ico (a + c) (b + c)) A = bigSep (Finset.Ico a b) fun j => A (j + c) := by
  rw [← Finset.map_add_right_Ico, BI.bigSep_map]; rfl

end Shift

section Ends

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (O : CellTallies nD τ sig (HIx 1)) (W : Waits sig (HIx 1))

set_option quotPrecheck false in
local notation "fI" => IFl d L q' xt
set_option quotPrecheck false in
local notation "fIF" => IFree d L
set_option quotPrecheck false in
local notation "fG" => GFl d L q tp
set_option quotPrecheck false in
local notation "fGF" => GFree d L q tp
set_option quotPrecheck false in
local notation "fW" => WFl d L
set_option quotPrecheck false in
local notation "fWF" => WFree d L
set_option quotPrecheck false in
local notation "fX" => XHome d L q' xt
set_option quotPrecheck false in
local notation "fOD" => OutDone d L
set_option quotPrecheck false in
local notation "fOI" => OutInit d L fo
set_option quotPrecheck false in
local notation "MW" => Transfers.MayWaits (V d (cV L) (jV L)) (default : HIx 1) O
set_option quotPrecheck false in
local notation "OW" => Owes d L O W

/-- After the prologue: what the loop carries before trip 0. -/
theorem Inv_zero :
    (iprop(MW ∗ OW ∗ bigSep (Finset.range 5) fI ∗ bigSep (Finset.Ico 5 10) fIF ∗ bigSep (Finset.range 5) fGF ∗ bigSep (Finset.range 2) fWF
      ∗ bigSep (Finset.Ico 5 200) fX ∗ bigSep (Finset.range 200) fOI) : sProp 𝕄) ⊢ Inv d L q q' tp xt fo O W 0 () := by
  rw [Inv_eq d L q q' tp xt fo O W 0 0 5 5 10 0 0 0 5 0 0 0 2 0 5 0 0
    (by omega) (by omega) (by omega) (by omega) (by omega) (by omega) (by omega) (by omega) (by omega) (by omega) (by omega) (by omega) (by omega) (by omega) (by omega) (by omega) ()]
  simp only [Finset.range_eq_Ico]
  iintro ⟨Hmw, How, HI, HIF, HGF, HWF, HX, HOI⟩
  isplitl [Hmw]; · iexact Hmw
  isplitl [How]; · iexact How
  isplitl [HI]; · iexact HI
  isplitl [HIF]; · iexact HIF
  isplitr; · rw [Finset.Ico_self, bigSep_empty]; iempintro
  isplitl [HGF]; · iexact HGF
  isplitr; · rw [Finset.Ico_self, bigSep_empty]; iempintro
  isplitl [HWF]; · iexact HWF
  isplitr; · rw [Finset.Ico_self, bigSep_empty]; iempintro
  isplitl [HX]; · iexact HX
  isplitr; · rw [Finset.Ico_self, bigSep_empty]; iempintro
  iexact HOI

/-- After the last trip: what the loop's exit is handed. -/
theorem Inv_last :
    Inv d L q q' tp xt fo O W 204 () ⊢ (iprop(MW ∗ OW ∗ bigSep (Finset.Ico 200 210) fIF ∗ bigSep (Finset.Ico 200 205) fGF ∗ fW 198 ∗ fW 199
      ∗ bigSep (Finset.range 200) fX ∗ bigSep (Finset.range 198) fOD) : sProp 𝕄) := by
  rw [Inv_eq d L q q' tp xt fo O W 204 200 200 200 210 200 200 200 205 198 200 200 200 200 200 198 200
    (by omega) (by omega) (by omega) (by omega) (by omega) (by omega) (by omega) (by omega) (by omega) (by omega) (by omega) (by omega) (by omega) (by omega) (by omega) (by omega) ()]
  iintro ⟨Hmw, How, -, HIF, -, HGF, HWf, -, HX1, -, HOD, -⟩
  ihave T := (pop_ent fW (a := 198) (a' := 199) (b := 200) (by omega) (by omega)) $$ HWf
  icases T with ⟨Hw198, HWf⟩
  ihave T := (pop_ent fW (a := 199) (a' := 200) (b := 200) (by omega) (by omega)) $$ HWf
  icases T with ⟨Hw199, -⟩
  isplitl [Hmw]; · iexact Hmw
  isplitl [How]; · iexact How
  isplitl [HIF]; · iexact HIF
  isplitl [HGF]; · iexact HGF
  isplitl [Hw198]; · iexact Hw198
  isplitl [Hw199]; · iexact Hw199
  isplitl [HX1]; · iexact HX1
  iexact HOD

/-! ## Free slots by residue -/

omit [FloatOps F] [CountersIn UU] in
/-- A free index slot depends on its number modulo 10 only. -/
theorem IFree_shift (j : ℕ) : (IFree d L (j + 200) : sProp 𝕄) = IFree d L j := by
  unfold IFree
  rw [isemC_congr (a := j + 200) (b := j) (by omega), idxC_congr (a := j + 200) (b := j) (by omega)]

omit [FloatOps F] [CountersIn UU] in
/-- A free gather slot, with its token of the table's share, depends on its number modulo 5 only. -/
theorem GFree_shift (j : ℕ) : (GFree d L q tp (j + 200) : sProp 𝕄) = GFree d L q tp j := by
  unfold GFree
  rw [gsemC_congr (a := j + 200) (b := j) (by omega), rowsC_congr (a := j + 200) (b := j) (by omega), halfC_congr (a := j + 200) (b := j) (by omega),
    show (j + 200) % 5 = j % 5 by omega]

omit [FloatOps F] [CountersIn UU] in
/-- The free index slots numbered from 200 are the ten index slots. -/
theorem IFree_reindex : (bigSep (Finset.Ico 200 210) fIF : sProp 𝕄) = bigSep (Finset.range 10) fIF := by
  rw [show Finset.Ico 200 210 = Finset.Ico (0 + 200) (10 + 200) from rfl, ico_shift, Finset.range_eq_Ico]
  exact bigSep_congr fun j _ => IFree_shift d L j

omit [FloatOps F] [CountersIn UU] in
/-- The free gather slots numbered from 200 are the five gather slots. -/
theorem GFree_reindex : (bigSep (Finset.Ico 200 205) fGF : sProp 𝕄) = bigSep (Finset.range 5) fGF := by
  rw [show Finset.Ico 200 205 = Finset.Ico (0 + 200) (5 + 200) from rfl, ico_shift, Finset.range_eq_Ico]
  exact bigSep_congr fun j _ => GFree_shift d L q tp j

omit [FloatOps F] [CountersIn UU] in
/-- The ten index slots: the five the prologue fetches into and the other five. -/
theorem IFree_split : (bigSep (Finset.range 10) fIF : sProp 𝕄) = iprop(bigSep (Finset.range 5) fIF ∗ bigSep (Finset.Ico 5 10) fIF) := by
  simp only [Finset.range_eq_Ico]
  exact ico_split fIF (a := 0) (m := 5) (b := 10) (by omega) (by omega)

end Ends

/-! ## The same ends, with the free slots spelt out by kind -/

section EndsBySlot

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (O : CellTallies nD τ sig (HIx 1)) (W : Waits sig (HIx 1))

omit [FloatOps F] [CountersIn UU] in
/-- Free index slots over any set: their semaphores at zero and the slots at some contents. -/
theorem IFree_fam (s : Finset ℕ) : (bigSep s (IFree d L) : sProp 𝕄)
    = iprop((bigSep s fun j => semVal (((V d (cV L) (jV L)), SemLoc.dma (isemC j)) : GSem nD τ sig) 0)
      ∗ bigSep s fun j => iprop(∃ f, (idxC j).view.loc (V d (cV L) (jV L)) ↦[(idxC j).view.set]{fullShare} f)) :=
  (bigSep_congr fun j _ => (rfl : (IFree d L j : sProp 𝕄) = iprop(semVal (((V d (cV L) (jV L)), SemLoc.dma (isemC j)) : GSem nD τ sig) 0
      ∗ ∃ f, (idxC j).view.loc (V d (cV L) (jV L)) ↦[(idxC j).view.set]{fullShare} f))).trans (bigSep_sep' _ _ _)

omit [FloatOps F] [CountersIn UU] in
/-- Free write-back slots over any set. -/
theorem WFree_fam (s : Finset ℕ) : (bigSep s (WFree d L) : sProp 𝕄)
    = iprop((bigSep s fun j => semVal (((V d (cV L) (jV L)), SemLoc.dma (wsemC j)) : GSem nD τ sig) 0)
      ∗ bigSep s fun j => iprop(∃ f, (selC j).view.loc (V d (cV L) (jV L)) ↦[(selC j).view.set]{fullShare} f)) :=
  (bigSep_congr fun j _ => (rfl : (WFree d L j : sProp 𝕄) = iprop(semVal (((V d (cV L) (jV L)), SemLoc.dma (wsemC j)) : GSem nD τ sig) 0
      ∗ ∃ f, (selC j).view.loc (V d (cV L) (jV L)) ↦[(selC j).view.set]{fullShare} f))).trans (bigSep_sep' _ _ _)

omit [FloatOps F] [CountersIn UU] in
/-- The five free gather slots: their semaphores, the rows slots, the list slots, and the five tokens of the table's
    share (slot `s` holds token `s`). -/
theorem GFree_fam : (bigSep (Finset.range 5) (GFree d L q tp) : sProp 𝕄)
    = iprop((bigSep (Finset.range 5) fun j => semVal (((V d (cV L) (jV L)), SemLoc.dma (gsemC j)) : GSem nD τ sig) 0)
      ∗ (bigSep (Finset.range 5) fun j => iprop(∃ f, (rowsC j).view.loc (V d (cV L) (jV L)) ↦[(rowsC j).view.set]{fullShare} f))
      ∗ (bigSep (Finset.range 5) fun j => iprop(∃ f, (halfC j).view.loc (V d (cV L) (jV L)) ↦[(halfC j).view.set]{fullShare} f))
      ∗ bigSep (Finset.range 5) fun s => (tabS).view.loc (V d (cV L) (jV L)) ↦[(tabS).view.set]{Transfers.shareTokN q s} tp) := by
  rw [← bigSep_sep', ← bigSep_sep', ← bigSep_sep']
  refine bigSep_congr fun s hs => ?_
  have e : s % 5 = s := Nat.mod_eq_of_lt (Finset.mem_range.mp hs)
  unfold GFree
  rw [e]

theorem trips_eq' : Scf.trips k1_t1_loop.lb k1_t1_loop.ub k1_t1_loop.st = 204 := trips_eq

/-- After the prologue, from the pieces by kind (the five index chunks in flight one by one; the other slots' buffers
    and semaphores; the table's five tokens; the index chunks not yet fetched; the whole output untouched). -/
theorem Inv_zero_slots :
    (iprop(Transfers.MayWaits (V d (cV L) (jV L)) (default : HIx 1) O ∗ owes (V d (cV L) (jV L)) O W
      ∗ IFl d L q' xt 0 ∗ IFl d L q' xt 1 ∗ IFl d L q' xt 2 ∗ IFl d L q' xt 3 ∗ IFl d L q' xt 4
      ∗ (bigSep (Finset.Ico 5 10) fun j => iprop(∃ f, (idxC j).view.loc (V d (cV L) (jV L)) ↦[(idxC j).view.set]{fullShare} f))
      ∗ (bigSep (Finset.Ico 5 10) fun j => semVal (((V d (cV L) (jV L)), SemLoc.dma (isemC j)) : GSem nD τ sig) 0)
      ∗ (bigSep (Finset.range 5) fun j => iprop(∃ f, (halfC j).view.loc (V d (cV L) (jV L)) ↦[(halfC j).view.set]{fullShare} f))
      ∗ (bigSep (Finset.range 5) fun j => iprop(∃ f, (rowsC j).view.loc (V d (cV L) (jV L)) ↦[(rowsC j).view.set]{fullShare} f))
      ∗ (bigSep (Finset.range 5) fun j => semVal (((V d (cV L) (jV L)), SemLoc.dma (gsemC j)) : GSem nD τ sig) 0)
      ∗ (bigSep (Finset.range 5) fun s => (tabS).view.loc (V d (cV L) (jV L)) ↦[(tabS).view.set]{Transfers.shareTokN q s} tp)
      ∗ (bigSep (Finset.range 2) fun j => iprop(∃ f, (selC j).view.loc (V d (cV L) (jV L)) ↦[(selC j).view.set]{fullShare} f))
      ∗ (bigSep (Finset.range 2) fun j => semVal (((V d (cV L) (jV L)), SemLoc.dma (wsemC j)) : GSem nD τ sig) 0)
      ∗ (bigSep (Finset.Ico 5 200) fun t => (A3).view.loc (V d (cV L) (jV L)) ↦[xChunkSet (200 * wid L + t)]{q'} xt)
      ∗ (bigSep (Finset.range 200) fun t => (A4).view.loc (V d (cV L) (jV L)) ↦[Cert.Spec.chunkSet (200 * wid L + t)]{fullShare} fo)) : sProp 𝕄)
      ⊢ Inv d L q q' tp xt fo O W 0 () := by
  iintro ⟨Hmw, HO, H0, H1, H2, H3, H4, Hidx, Hisem, Hhalf, Hrows, Hgsem, Htok, Hsel, Hwsem, HX, HOI⟩
  iapply (Inv_zero d L q q' tp xt fo O W)
  rw [IFree_fam d L (Finset.Ico 5 10), GFree_fam d L q tp, WFree_fam d L (Finset.range 2)]
  isplitl [Hmw]; · iexact Hmw
  isplitl [HO]
  · unfold Owes
    iexists W
    isplitr; · ipureintro; exact fun p hp => Or.inl hp
    iexact HO
  isplitl [H0 H1 H2 H3 H4]
  · iapply (rpush_ent (IFl d L q' xt) (r := 4) (r' := 5) rfl); isplitl [H4]; · iexact H4
    iapply (rpush_ent (IFl d L q' xt) (r := 3) (r' := 4) rfl); isplitl [H3]; · iexact H3
    iapply (rpush_ent (IFl d L q' xt) (r := 2) (r' := 3) rfl); isplitl [H2]; · iexact H2
    iapply (rpush_ent (IFl d L q' xt) (r := 1) (r' := 2) rfl); isplitl [H1]; · iexact H1
    iapply (rpush_ent (IFl d L q' xt) (r := 0) (r' := 1) rfl); isplitl [H0]; · iexact H0
    rw [Finset.range_zero, bigSep_empty]; iempintro
  isplitl [Hidx Hisem]
  · isplitl [Hisem]; · iexact Hisem
    iexact Hidx
  isplitl [Hhalf Hrows Hgsem Htok]
  · isplitl [Hgsem]; · iexact Hgsem
    isplitl [Hrows]; · iexact Hrows
    isplitl [Hhalf]; · iexact Hhalf
    iexact Htok
  isplitl [Hsel Hwsem]
  · isplitl [Hwsem]; · iexact Hwsem
    iexact Hsel
  isplitl [HX]; · iexact HX
  iexact HOI

/-- After the last trip, to the pieces by kind: the last two write-backs in flight apart, every other slot's buffer
    and semaphore, the table's five tokens, every index chunk at home, all but the last two output chunks written. -/
theorem Inv_last_slots (u : Unit) :
    Inv d L q q' tp xt fo O W 204 u ⊢ (iprop(Transfers.MayWaits (V d (cV L) (jV L)) (default : HIx 1) O ∗ Owes d L O W
      ∗ WFl d L 198 ∗ WFl d L 199
      ∗ (bigSep (Finset.range 10) fun j => iprop(∃ f, (idxC j).view.loc (V d (cV L) (jV L)) ↦[(idxC j).view.set]{fullShare} f))
      ∗ (bigSep (Finset.range 10) fun j => semVal (((V d (cV L) (jV L)), SemLoc.dma (isemC j)) : GSem nD τ sig) 0)
      ∗ (bigSep (Finset.range 5) fun j => iprop(∃ f, (halfC j).view.loc (V d (cV L) (jV L)) ↦[(halfC j).view.set]{fullShare} f))
      ∗ (bigSep (Finset.range 5) fun j => iprop(∃ f, (rowsC j).view.loc (V d (cV L) (jV L)) ↦[(rowsC j).view.set]{fullShare} f))
      ∗ (bigSep (Finset.range 5) fun j => semVal (((V d (cV L) (jV L)), SemLoc.dma (gsemC j)) : GSem nD τ sig) 0)
      ∗ (bigSep (Finset.range 5) fun s => (tabS).view.loc (V d (cV L) (jV L)) ↦[(tabS).view.set]{Transfers.shareTokN q s} tp)
      ∗ (bigSep (Finset.range 200) fun t => (A3).view.loc (V d (cV L) (jV L)) ↦[xChunkSet (200 * wid L + t)]{q'} xt)
      ∗ (bigSep (Finset.range 198) fun t => iprop(∃ f, (A4).view.loc (V d (cV L) (jV L)) ↦[Cert.Spec.chunkSet (200 * wid L + t)]{fullShare} f))) : sProp 𝕄) := by
  cases u
  iintro H
  ihave H' := (Inv_last d L q q' tp xt fo O W) $$ H
  rw [IFree_reindex d L, GFree_reindex d L q tp, IFree_fam d L (Finset.range 10), GFree_fam d L q tp]
  icases H' with ⟨Hmw, How, ⟨Hisem, Hidx⟩, ⟨Hgsem, Hrows, Hhalf, Htok⟩, Hw198, Hw199, HX, HOD⟩
  isplitl [Hmw]; · iexact Hmw
  isplitl [How]; · iexact How
  isplitl [Hw198]; · iexact Hw198
  isplitl [Hw199]; · iexact Hw199
  isplitl [Hidx]; · iexact Hidx
  isplitl [Hisem]; · iexact Hisem
  isplitl [Hhalf]; · iexact Hhalf
  isplitl [Hrows]; · iexact Hrows
  isplitl [Hgsem]; · iexact Hgsem
  isplitl [Htok]; · iexact Htok
  isplitl [HX]; · iexact HX
  iexact HOD

end EndsBySlot

end Cert.Proof.KBody

end
-- ==== Proof.KBodyValueRegion.lean ====
import proofs.«206325_g16862041604593_cont_week2b_1534_42_alg».proof.Proof.KBodyRegion
import proofs.«206325_g16862041604593_cont_week2b_1534_42_alg».proof.Proof.KBodyEnds
import Idealize.ShloMosaic.Lib.ValueIdx

/-!
  The SparseCore kernel's body with the value of its output: what the loop carries with contents, and one trip's step
  over it.

  The families the loop carries are those of the frame with what they deliver named: a landed index slot holds its
  chunk's words, a landed gather the packed rows those words name, a landed write-back the transposed lookup on its
  chunk, a written chunk the lookup. The step from trip `k` to trip `k + 1` is the same bookkeeping as for the frame,
  over five phase statements with contents.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

open Idealize.ShloMosaic.ValueIdx

/-! ## What the loop carries, with contents -/

section Carried

variable {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (x : IVec S16384x50 32) (tab : FVec F S1000000x64 .f32)

/-- The transposed indices at history position `h`, batch position `bb` (0 outside the array). -/
def xtAt (h bb : Nat) : BitVec 32 := if hh : h < 50 ∧ bb < 16384 then (xt (ix2 ⟨h, hh.1⟩ ⟨bb, hh.2⟩) : BitVec 32) else 0#32

/-- Word `b` of the worker's chunk `u`. -/
def chunkWordOf (u b : Nat) : BitVec 32 := xtAt d L xt ((200 * wid L + u) / 128) (128 * ((200 * wid L + u) % 128) + b)

/-- Index slot `v` holds chunk `u`'s words. -/
def IdxIsAt (v u : Nat) (c : Buf (Elt F) ((idxC v).view.loc (V d (cV L) (jV L)))) : Prop :=
  ∀ b : S128.Idx, (idxC v).view.read (Elt F) c b = chunkWordOf d L xt u (b 0).val
/-- An index slot holds chunk `u`'s words. -/
def IdxIs (u : Nat) (c : Buf (Elt F) ((idxC u).view.loc (V d (cV L) (jV L)))) : Prop :=
  ∀ b : S128.Idx, (idxC u).view.read (Elt F) c b = chunkWordOf d L xt u (b 0).val
/-- A gathered-rows slot holds, for each word of chunk `u`, the packed row the word names. -/
def RowsIs (u : Nat) (c₁ : Buf (Elt F) ((rowsC u).view.loc (V d (cV L) (jV L)))) : Prop :=
  ∀ (b j : Fin 128) (hr : Cert.Spec.packRow (chunkWordOf d L xt u b.val).toNat < 507904),
    (rowsC u).view.read (Elt F) c₁ (ix2 b j) = tp (ix2 ⟨Cert.Spec.packRow (chunkWordOf d L xt u b.val).toNat, hr⟩ j)
/-- A selected-rows slot holds, for each word of chunk `u`, the table row the word names. -/
def SelIs (u : Nat) (c₂ : Buf (Elt F) ((selC u).view.loc (V d (cV L) (jV L)))) : Prop :=
  ∀ (b : Fin 128) (c : Fin 64), (selC u).view.read (Elt F) c₂ (ix2 b c) = tab (ix2 (Cert.Spec.rowOf (chunkWordOf d L xt u b.val)) c)
/-- Output contents that are the transposed lookup on the worker's chunk `u`. -/
def OutIs (u : Nat) (c₁ : Buf (Elt F) ((A4).view.loc (V d (cV L) (jV L)))) : Prop :=
  ∀ i ∈ Cert.Spec.chunkSet (200 * wid L + u), c₁ i = Cert.Spec.lookupT x tab i

/-- Index slot `v` not awaited, holding (if it was ever loaded) the words of chunk `v - 10`, the last chunk that landed
    in it: its semaphore at zero, the slot at those contents. The select stage of trip `k` reads slot `k + 6`, chunk
    `k - 4`'s words. -/
def ILoadedV (v : Nat) : sProp 𝕄 :=
  iprop(semVal ((V d (cV L) (jV L)), SemLoc.dma (isemC v)) 0
    ∗ ∃ f, ⌜10 ≤ v → IdxOK d L v f ∧ IdxIsAt d L xt v (v - 10) f⌝ ∗ ((idxC v).view.loc (V d (cV L) (jV L)) ↦[(idxC v).view.set]{fullShare} f))

omit [CountersIn UU] in
/-- A loaded slot is a free slot. -/
theorem ILoadedV_free (v : Nat) : ILoadedV d L xt v ⊢ (IFree d L v : sProp 𝕄) := by
  unfold ILoadedV IFree
  iintro ⟨Hs, %f, -, Hf⟩
  isplitl [Hs]; · iexact Hs
  iexists f; iexact Hf

omit [CountersIn UU] in
/-- A slot never loaded (its number below the ring's length) that is free is, vacuously, loaded. -/
theorem ILoadedV_of_free (v : Nat) (hv : v < 10) : (IFree d L v : sProp 𝕄) ⊢ ILoadedV d L xt v := by
  unfold ILoadedV IFree
  iintro ⟨Hs, %f, Hf⟩
  isplitl [Hs]; · iexact Hs
  iexists f
  isplitr; · ipureintro; intro h; omega
  iexact Hf

/-- Chunk `u`'s index words on their way into slot `u`: what lands is the chunk's words. -/
def IFlV (u : Nat) : sProp 𝕄 :=
  iprop(∃ c, ⌜IdxOK d L u c ∧ IdxIs d L xt u c⌝ ∗ Transfers.Flight (countersEmb (U := UU)) (V d (cV L) (jV L)) (SemLoc.dma (isemC u)) (default : HIx 1) 4096
    iprop(((idxC u).view.loc (V d (cV L) (jV L)) ↦[(idxC u).view.set]{fullShare} c) ∗ ((A3).view.loc (V d (cV L) (jV L)) ↦[xChunkSet (200 * wid L + u)]{q'} xt)))
/-- Chunk `u`'s gather in flight: what lands in the rows slot is the packed rows its words name. -/
def GFlV (u : Nat) : sProp 𝕄 :=
  iprop(∃ c₁ c₂, ⌜RowsIs d L tp xt u c₁⌝ ∗ Transfers.Flight (countersEmb (U := UU)) (V d (cV L) (jV L)) (SemLoc.dma (gsemC u)) (default : HIx 1) 524288
    iprop((((rowsC u).view.loc (V d (cV L) (jV L)) ↦[(rowsC u).view.set]{fullShare} c₁) ∗ ((halfC u).view.loc (V d (cV L) (jV L)) ↦[(halfC u).view.set]{fullShare} c₂))
      ∗ ((tabS).view.loc (V d (cV L) (jV L)) ↦[(tabS).view.set]{Transfers.shareTokN q (u % 5)} tp)))
/-- Chunk `u`'s write-back in flight: what lands in the output chunk is the transposed lookup there. -/
def WFlV (u : Nat) : sProp 𝕄 :=
  iprop(∃ c₁ c₂, ⌜OutIs d L x tab u c₁⌝ ∗ Transfers.Flight (countersEmb (U := UU)) (V d (cV L) (jV L)) (SemLoc.dma (wsemC u)) (default : HIx 1) 262144
    iprop(((A4).view.loc (V d (cV L) (jV L)) ↦[Cert.Spec.chunkSet (200 * wid L + u)]{fullShare} c₁) ∗ ((selC u).view.loc (V d (cV L) (jV L)) ↦[(selC u).view.set]{fullShare} c₂)))
/-- Chunk `t` of the output written: it holds the transposed lookup. -/
def OutDoneV (t : Nat) : sProp 𝕄 := (A4).view.loc (V d (cV L) (jV L)) ↦[Cert.Spec.chunkSet (200 * wid L + t)]{fullShare} Cert.Spec.lookupT x tab

variable (O : CellTallies nD τ sig (HIx 1)) (W : Waits sig (HIx 1))

/-- What the loop carries before trip `n`, with contents: as `Inv`, the copies in flight delivering what they name, the
    index slots not awaited holding the words last landed in them, the written chunks holding the lookup. -/
def InvV (n : Nat) (_ : Unit) : sProp 𝕄 :=
  iprop(Transfers.MayWaits (V d (cV L) (jV L)) (default : HIx 1) O ∗ Owes d L O W
    ∗ bigSep (Finset.Ico (min n 200) (min (min n 200 + 5) 200)) (IFlV d L q' xt)
    ∗ bigSep (Finset.Ico (min (min n 200 + 5) 200) (min n 200 + 10)) (ILoadedV d L xt)
    ∗ bigSep (Finset.Ico (n - 4) (min n 200)) (GFlV d L q tp xt)
    ∗ bigSep (Finset.Ico (min n 200) (n - 4 + 5)) (GFree d L q tp)
    ∗ bigSep (Finset.Ico (n - 6) (min (n - 4) 200)) (WFlV d L x tab)
    ∗ bigSep (Finset.Ico (min (n - 4) 200) (n - 6 + 2)) (WFree d L)
    ∗ bigSep (Finset.range (min n 200)) (XHome d L q' xt)
    ∗ bigSep (Finset.Ico (min (min n 200 + 5) 200) 200) (XHome d L q' xt)
    ∗ bigSep (Finset.range (n - 6)) (OutDoneV d L x tab)
    ∗ bigSep (Finset.Ico (min (n - 4) 200) 200) (OutInit d L fo))

end Carried
/-! ## The step -/

section RegionV

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (x : IVec S16384x50 32) (tab : FVec F S1000000x64 .f32)
variable (O : CellTallies nD τ sig (HIx 1)) (W : Waits sig (HIx 1))

set_option quotPrecheck false in
local notation "fI" => IFlV d L q' xt
set_option quotPrecheck false in
local notation "fIF" => ILoadedV d L xt
set_option quotPrecheck false in
local notation "fG" => GFlV d L q tp xt
set_option quotPrecheck false in
local notation "fGF" => GFree d L q tp
set_option quotPrecheck false in
local notation "fW" => WFlV d L x tab
set_option quotPrecheck false in
local notation "fWF" => WFree d L
set_option quotPrecheck false in
local notation "fX" => XHome d L q' xt
set_option quotPrecheck false in
local notation "fOD" => OutDoneV d L x tab
set_option quotPrecheck false in
local notation "fOI" => OutInit d L fo
set_option quotPrecheck false in
local notation "MW" => Transfers.MayWaits (V d (cV L) (jV L)) (default : HIx 1) O
set_option quotPrecheck false in
local notation "OW" => Owes d L O W

/-- What is carried before trip `n`, with the ends of its runs named. -/
theorem Inv_eqV (n a1 b1 a2 b2 a3 b3 a4 b4 a5 b5 a6 b6 r7 a8 r9 a10 : ℕ)
    (h1 : min n 200 = a1) (h2 : min (min n 200 + 5) 200 = b1) (h3 : min (min n 200 + 5) 200 = a2) (h4 : min n 200 + 10 = b2)
    (h5 : n - 4 = a3) (h6 : min n 200 = b3) (h7 : min n 200 = a4) (h8 : n - 4 + 5 = b4) (h9 : n - 6 = a5) (h10 : min (n - 4) 200 = b5)
    (h11 : min (n - 4) 200 = a6) (h12 : n - 6 + 2 = b6) (h13 : min n 200 = r7) (h14 : min (min n 200 + 5) 200 = a8) (h15 : n - 6 = r9)
    (h16 : min (n - 4) 200 = a10) (acc : Unit) :
    InvV d L q q' tp xt fo x tab O W n acc = (iprop(MW ∗ OW
      ∗ bigSep (Finset.Ico a1 b1) fI ∗ bigSep (Finset.Ico a2 b2) fIF ∗ bigSep (Finset.Ico a3 b3) fG ∗ bigSep (Finset.Ico a4 b4) fGF
      ∗ bigSep (Finset.Ico a5 b5) fW ∗ bigSep (Finset.Ico a6 b6) fWF ∗ bigSep (Finset.range r7) fX ∗ bigSep (Finset.Ico a8 200) fX
      ∗ bigSep (Finset.range r9) fOD ∗ bigSep (Finset.Ico a10 200) fOI) : sProp 𝕄) := by
  subst h1 h2 h3 h4 h5 h6 h7 h8 h9 h10 h11 h12 h13 h14 h15 h16; rfl

variable (body : Fin k1_t1_loop.trips → Unit → Prog (TpuEff nD τ sig (Elt F) Λ₀ (Proc.scVector (cV L) (jV L))) Unit)

/-- The first four trips: the trip's index chunk lands and its gather is issued; the chunk five ahead is fetched. -/
def PhaseAV : Prop := ∀ k : Fin k1_t1_loop.trips, k.val < 4 →
  (iprop(MW ∗ OW ∗ fI k.val ∗ fIF (k.val + 5) ∗ fX (k.val + 5) ∗ fGF k.val) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val)
/-- Trips four and five: also, the gather issued four trips before lands and its rows are written back. -/
def PhaseBV : Prop := ∀ k : Fin k1_t1_loop.trips, 4 ≤ k.val → k.val < 6 →
  (iprop(MW ∗ OW ∗ fI k.val ∗ fIF (k.val + 5) ∗ fX (k.val + 5) ∗ fGF k.val ∗ fG (k.val - 4) ∗ fWF (k.val - 4) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val ∗ fGF (k.val + 1) ∗ fW (k.val - 4) ∗ fIF (k.val + 6))
/-- The steady trips: also, the write-back issued two trips before is awaited first. -/
def PhaseCV : Prop := ∀ k : Fin k1_t1_loop.trips, 6 ≤ k.val → k.val < 195 →
  (iprop(MW ∗ OW ∗ fI k.val ∗ fIF (k.val + 5) ∗ fX (k.val + 5) ∗ fGF k.val ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val ∗ fGF (k.val + 1) ∗ fOD (k.val - 6) ∗ fW (k.val - 4) ∗ fIF (k.val + 6))
/-- The last trips that gather: nothing more is fetched. -/
def PhaseDV : Prop := ∀ k : Fin k1_t1_loop.trips, 195 ≤ k.val → k.val < 200 →
  (iprop(MW ∗ OW ∗ fI k.val ∗ fGF k.val ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fG k.val ∗ fGF (k.val + 1) ∗ fOD (k.val - 6) ∗ fW (k.val - 4) ∗ fIF (k.val + 6))
/-- The draining trips: only the landing gathers are written back. -/
def PhaseEV : Prop := ∀ k : Fin k1_t1_loop.trips, 200 ≤ k.val →
  (iprop(MW ∗ OW ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fGF (k.val + 1) ∗ fOD (k.val - 6) ∗ fW (k.val - 4) ∗ fIF (k.val + 6))

theorem stepAV (hA : PhaseAV (UU := UU) d L q q' tp xt O W body) (k : Fin k1_t1_loop.trips) (hk : k.val < 4) :
    (InvV d L q q' tp xt fo x tab O W k.val () : sProp 𝕄) ⊢ wp frame (wpE (defs₀ (F := F)) 𝒱₀ (V d (cV L) (jV L)) none) Set.univ (body k ()) (InvV d L q q' tp xt fo x tab O W (k.val + 1)) := by
  rw [Inv_eqV d L q q' tp xt fo x tab O W (k.val) (k.val) (k.val + 5) (k.val + 5) (k.val + 10) (0) (k.val) (k.val) (5) (0) (0) (0) (2) (k.val) (k.val + 5) (0) (0)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fX (a := k.val + 5) (a' := k.val + 6) (b := 200) (by omega) (by omega)) $$ HX2
  icases T with ⟨Hx5, HX2⟩
  ihave T := (pop_ent fGF (a := k.val) (a' := k.val + 1) (b := 5) (by omega) (by omega)) $$ HGF
  icases T with ⟨Hgf, HGF⟩
  iapply (wp_wand_r frame _ Set.univ)
  isplitl [Hmw How Hi Hif5 Hx5 Hgf]
  · iapply (hA k hk)
    isplitl [Hmw]; · iexact Hmw
    isplitl [How]; · iexact How
    isplitl [Hi]; · iexact Hi
    isplitl [Hif5]; · iexact Hif5
    isplitl [Hx5]; · iexact Hx5
    iexact Hgf
  iintro %acc' ⟨Hmw, How, Hif10, Hx, Hi5, Hg⟩
  rw [Inv_eqV d L q q' tp xt fo x tab O W (k.val + 1) (k.val + 1) (k.val + 6) (k.val + 6) (k.val + 11) (0) (k.val + 1) (k.val + 1) (5) (0) (0) (0) (2) (k.val + 1) (k.val + 6) (0) (0)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif10 HIF]
  · iapply (push_ent fIF (a := k.val + 6) (b := k.val + 10) (b' := k.val + 11) (by omega) (by omega))
    isplitl [Hif10]; · iexact Hif10
    iexact HIF
  isplitl [Hg HG]
  · iapply (push_ent fG (a := 0) (b := k.val) (b' := k.val + 1) (by omega) (by omega))
    isplitl [Hg]; · iexact Hg
    iexact HG
  isplitl [HGF]; · iexact HGF
  isplitl [HWf]; · iexact HWf
  isplitl [HWF]; · iexact HWF
  isplitl [Hx HX1]
  · iapply (rpush_ent fX (r := k.val) (r' := k.val + 1) (by omega))
    isplitl [Hx]; · iexact Hx
    iexact HX1
  isplitl [HX2]; · iexact HX2
  isplitl [HOD]; · iexact HOD
  iexact HOI

theorem stepBV (hB : PhaseBV (UU := UU) d L q q' tp xt fo x tab O W body) (k : Fin k1_t1_loop.trips) (h4 : 4 ≤ k.val) (h6 : k.val < 6) :
    (InvV d L q q' tp xt fo x tab O W k.val () : sProp 𝕄) ⊢ wp frame (wpE (defs₀ (F := F)) 𝒱₀ (V d (cV L) (jV L)) none) Set.univ (body k ()) (InvV d L q q' tp xt fo x tab O W (k.val + 1)) := by
  rw [Inv_eqV d L q q' tp xt fo x tab O W (k.val) (k.val) (k.val + 5) (k.val + 5) (k.val + 10) (k.val - 4) (k.val) (k.val) (k.val + 1) (0) (k.val - 4) (k.val - 4) (2) (k.val) (k.val + 5) (0) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fIF (a := k.val + 6) (a' := k.val + 7) (b := k.val + 10) (by omega) (by omega)) $$ HIF
  icases T with ⟨Hif6, HIF⟩
  ihave T := (pop_ent fX (a := k.val + 5) (a' := k.val + 6) (b := 200) (by omega) (by omega)) $$ HX2
  icases T with ⟨Hx5, HX2⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fWF (a := k.val - 4) (a' := k.val - 3) (b := 2) (by omega) (by omega)) $$ HWF
  icases T with ⟨Hwf, HWF⟩
  ihave T := (pop_ent fOI (a := k.val - 4) (a' := k.val - 3) (b := 200) (by omega) (by omega)) $$ HOI
  icases T with ⟨Hoi, HOI⟩
  iapply (wp_wand_r frame _ Set.univ)
  isplitl [Hmw How Hi Hif5 Hx5 Hgf Hg4 Hwf Hoi Hif6]
  · iapply (hB k h4 h6)
    isplitl [Hmw]; · iexact Hmw
    isplitl [How]; · iexact How
    isplitl [Hi]; · iexact Hi
    isplitl [Hif5]; · iexact Hif5
    isplitl [Hx5]; · iexact Hx5
    isplitl [Hgf]; · iexact Hgf
    isplitl [Hg4]; · iexact Hg4
    isplitl [Hwf]; · iexact Hwf
    isplitl [Hoi]; · iexact Hoi
    iexact Hif6
  iintro %acc' ⟨Hmw, How, Hif10, Hx, Hi5, Hg, Hgf1, Hw4, Hif6⟩
  rw [Inv_eqV d L q q' tp xt fo x tab O W (k.val + 1) (k.val + 1) (k.val + 6) (k.val + 6) (k.val + 11) (k.val - 3) (k.val + 1) (k.val + 1) (k.val + 2) (0) (k.val - 3) (k.val - 3) (2) (k.val + 1) (k.val + 6) (0) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif6 Hif10 HIF]
  · iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIF
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := 0) (b := k.val - 4) (b' := k.val - 3) (by omega) (by omega))
    isplitl [Hw4]; · iexact Hw4
    iexact HWf
  isplitl [HWF]; · iexact HWF
  isplitl [Hx HX1]
  · iapply (rpush_ent fX (r := k.val) (r' := k.val + 1) (by omega))
    isplitl [Hx]; · iexact Hx
    iexact HX1
  isplitl [HX2]; · iexact HX2
  isplitl [HOD]; · iexact HOD
  iexact HOI

theorem stepCV (hC : PhaseCV (UU := UU) d L q q' tp xt fo x tab O W body) (k : Fin k1_t1_loop.trips) (h6 : 6 ≤ k.val) (h195 : k.val < 195) :
    (InvV d L q q' tp xt fo x tab O W k.val () : sProp 𝕄) ⊢ wp frame (wpE (defs₀ (F := F)) 𝒱₀ (V d (cV L) (jV L)) none) Set.univ (body k ()) (InvV d L q q' tp xt fo x tab O W (k.val + 1)) := by
  rw [Inv_eqV d L q q' tp xt fo x tab O W (k.val) (k.val) (k.val + 5) (k.val + 5) (k.val + 10) (k.val - 4) (k.val) (k.val) (k.val + 1) (k.val - 6) (k.val - 4) (k.val - 4) (k.val - 4) (k.val) (k.val + 5) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fIF (a := k.val + 6) (a' := k.val + 7) (b := k.val + 10) (by omega) (by omega)) $$ HIF
  icases T with ⟨Hif6, HIF⟩
  ihave T := (pop_ent fX (a := k.val + 5) (a' := k.val + 6) (b := 200) (by omega) (by omega)) $$ HX2
  icases T with ⟨Hx5, HX2⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hi Hif5 Hx5 Hgf Hg4 Hw6 Hoi Hif6]
  · iapply (hC k h6 h195)
    isplitl [Hmw]; · iexact Hmw
    isplitl [How]; · iexact How
    isplitl [Hi]; · iexact Hi
    isplitl [Hif5]; · iexact Hif5
    isplitl [Hx5]; · iexact Hx5
    isplitl [Hgf]; · iexact Hgf
    isplitl [Hg4]; · iexact Hg4
    isplitl [Hw6]; · iexact Hw6
    isplitl [Hoi]; · iexact Hoi
    iexact Hif6
  iintro %acc' ⟨Hmw, How, Hif10, Hx, Hi5, Hg, Hgf1, Hod, Hw4, Hif6⟩
  rw [Inv_eqV d L q q' tp xt fo x tab O W (k.val + 1) (k.val + 1) (k.val + 6) (k.val + 6) (k.val + 11) (k.val - 3) (k.val + 1) (k.val + 1) (k.val + 2) (k.val - 5) (k.val - 3) (k.val - 3) (k.val - 3) (k.val + 1) (k.val + 6) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif6 Hif10 HIF]
  · iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIF
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [Hx HX1]
  · iapply (rpush_ent fX (r := k.val) (r' := k.val + 1) (by omega))
    isplitl [Hx]; · iexact Hx
    iexact HX1
  isplitl [HX2]; · iexact HX2
  isplitl [Hod HOD]
  · iapply (rpush_ent fOD (r := k.val - 6) (r' := k.val - 5) (by omega))
    isplitl [Hod]; · iexact Hod
    iexact HOD
  iexact HOI

theorem stepDV (hD : PhaseDV (UU := UU) d L q q' tp xt fo x tab O W body) (k : Fin k1_t1_loop.trips) (h195 : 195 ≤ k.val) (h200 : k.val < 200) :
    (InvV d L q q' tp xt fo x tab O W k.val () : sProp 𝕄) ⊢ wp frame (wpE (defs₀ (F := F)) 𝒱₀ (V d (cV L) (jV L)) none) Set.univ (body k ()) (InvV d L q q' tp xt fo x tab O W (k.val + 1)) := by
  rw [Inv_eqV d L q q' tp xt fo x tab O W (k.val) (k.val) (200) (200) (k.val + 10) (k.val - 4) (k.val) (k.val) (k.val + 1) (k.val - 6) (k.val - 4) (k.val - 4) (k.val - 4) (k.val) (200) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := 200) (by omega) (by omega)) $$ HI
  icases T with ⟨Hi, HI⟩
  ihave T := (split_ent fIF (a := 200) (m := k.val + 6) (b := k.val + 10) (by omega) (by omega)) $$ HIF
  icases T with ⟨HIFa, HIFb⟩
  ihave T := (pop_ent fIF (a := k.val + 6) (a' := k.val + 7) (b := k.val + 10) (by omega) (by omega)) $$ HIFb
  icases T with ⟨Hif6, HIFb⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hi Hgf Hg4 Hw6 Hoi Hif6]
  · iapply (hD k h195 h200)
    isplitl [Hmw]; · iexact Hmw
    isplitl [How]; · iexact How
    isplitl [Hi]; · iexact Hi
    isplitl [Hgf]; · iexact Hgf
    isplitl [Hg4]; · iexact Hg4
    isplitl [Hw6]; · iexact Hw6
    isplitl [Hoi]; · iexact Hoi
    iexact Hif6
  iintro %acc' ⟨Hmw, How, Hif10, Hx, Hg, Hgf1, Hod, Hw4, Hif6⟩
  rw [Inv_eqV d L q q' tp xt fo x tab O W (k.val + 1) (k.val + 1) (200) (200) (k.val + 11) (k.val - 3) (k.val + 1) (k.val + 1) (k.val + 2) (k.val - 5) (k.val - 3) (k.val - 3) (k.val - 3) (k.val + 1) (200) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [HI]; · iexact HI
  isplitl [HIFa Hif6 Hif10 HIFb]
  · iapply (join_ent fIF (a := 200) (m := k.val + 6) (b := k.val + 11) (by omega) (by omega))
    isplitl [HIFa]; · iexact HIFa
    iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIFb
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [Hx HX1]
  · iapply (rpush_ent fX (r := k.val) (r' := k.val + 1) (by omega))
    isplitl [Hx]; · iexact Hx
    iexact HX1
  isplitl [HX2]; · iexact HX2
  isplitl [Hod HOD]
  · iapply (rpush_ent fOD (r := k.val - 6) (r' := k.val - 5) (by omega))
    isplitl [Hod]; · iexact Hod
    iexact HOD
  iexact HOI

theorem stepEV (hE : PhaseEV (UU := UU) d L q tp xt fo x tab O W body) (k : Fin k1_t1_loop.trips) (h200 : 200 ≤ k.val) :
    (InvV d L q q' tp xt fo x tab O W k.val () : sProp 𝕄) ⊢ wp frame (wpE (defs₀ (F := F)) 𝒱₀ (V d (cV L) (jV L)) none) Set.univ (body k ()) (InvV d L q q' tp xt fo x tab O W (k.val + 1)) := by
  have hlt : k.val < 204 := lt_of_lt_of_eq k.isLt trips_eq
  rw [Inv_eqV d L q q' tp xt fo x tab O W (k.val) (200) (200) (200) (210) (k.val - 4) (200) (200) (k.val + 1) (k.val - 6) (k.val - 4) (k.val - 4) (k.val - 4) (200) (200) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (split_ent fIF (a := 200) (m := k.val + 6) (b := 210) (by omega) (by omega)) $$ HIF
  icases T with ⟨HIFa, HIFb⟩
  ihave T := (pop_ent fIF (a := k.val + 6) (a' := k.val + 7) (b := 210) (by omega) (by omega)) $$ HIFb
  icases T with ⟨Hif6, HIFb⟩
  ihave T := (pop_ent fG (a := k.val - 4) (a' := k.val - 3) (b := 200) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hg4 Hw6 Hoi Hif6]
  · iapply (hE k h200)
    isplitl [Hmw]; · iexact Hmw
    isplitl [How]; · iexact How
    isplitl [Hg4]; · iexact Hg4
    isplitl [Hw6]; · iexact Hw6
    isplitl [Hoi]; · iexact Hoi
    iexact Hif6
  iintro %acc' ⟨Hmw, How, Hgf1, Hod, Hw4, Hif6⟩
  rw [Inv_eqV d L q q' tp xt fo x tab O W (k.val + 1) (200) (200) (200) (210) (k.val - 3) (200) (200) (k.val + 2) (k.val - 5) (k.val - 3) (k.val - 3) (k.val - 3) (200) (200) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [HI]; · iexact HI
  isplitl [HIFa Hif6 HIFb]
  · iapply (join_ent fIF (a := 200) (m := k.val + 6) (b := 210) (by omega) (by omega))
    isplitl [HIFa]; · iexact HIFa
    iapply (unpop_ent fIF (a := k.val + 6) (a' := k.val + 7) (b := 210) (by omega) (by omega))
    isplitl [Hif6]; · iexact Hif6
    iexact HIFb
  isplitl [HG]; · iexact HG
  isplitl [Hgf1 HGF]
  · iapply (push_ent fGF (a := 200) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [HX1]; · iexact HX1
  isplitl [HX2]; · iexact HX2
  isplitl [Hod HOD]
  · iapply (rpush_ent fOD (r := k.val - 6) (r' := k.val - 5) (by omega))
    isplitl [Hod]; · iexact Hod
    iexact HOD
  iexact HOI

/-- One trip: from what is carried before it to what is carried after it, whatever its phase. -/
theorem regionV (hA : PhaseAV (UU := UU) d L q q' tp xt O W body) (hB : PhaseBV (UU := UU) d L q q' tp xt fo x tab O W body) (hC : PhaseCV (UU := UU) d L q q' tp xt fo x tab O W body)
    (hD : PhaseDV (UU := UU) d L q q' tp xt fo x tab O W body) (hE : PhaseEV (UU := UU) d L q tp xt fo x tab O W body) :
    ∀ (k : Fin k1_t1_loop.trips) (acc : Unit),
      (InvV d L q q' tp xt fo x tab O W k.val acc : sProp 𝕄) ⊢ wp frame (wpE (defs₀ (F := F)) 𝒱₀ (V d (cV L) (jV L)) none) Set.univ (body k acc) (InvV d L q q' tp xt fo x tab O W (k.val + 1)) := by
  intro k acc
  cases acc
  by_cases h4 : k.val < 4
  · exact stepAV d L q q' tp xt fo x tab O W body hA k h4
  by_cases h6 : k.val < 6
  · exact stepBV d L q q' tp xt fo x tab O W body hB k (by omega) h6
  by_cases h195 : k.val < 195
  · exact stepCV d L q q' tp xt fo x tab O W body hC k (by omega) h195
  by_cases h200 : k.val < 200
  · exact stepDV d L q q' tp xt fo x tab O W body hD k (by omega) h200
  · exact stepEV d L q q' tp xt fo x tab O W body hE k (by omega)

end RegionV
section EndsV

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (x : IVec S16384x50 32) (tab : FVec F S1000000x64 .f32)
variable (O : CellTallies nD τ sig (HIx 1)) (W : Waits sig (HIx 1))

set_option quotPrecheck false in
local notation "fI" => IFlV d L q' xt
set_option quotPrecheck false in
local notation "fIF" => ILoadedV d L xt
set_option quotPrecheck false in
local notation "fG" => GFlV d L q tp xt
set_option quotPrecheck false in
local notation "fGF" => GFree d L q tp
set_option quotPrecheck false in
local notation "fW" => WFlV d L x tab
set_option quotPrecheck false in
local notation "fWF" => WFree d L
set_option quotPrecheck false in
local notation "fX" => XHome d L q' xt
set_option quotPrecheck false in
local notation "fOD" => OutDoneV d L x tab
set_option quotPrecheck false in
local notation "fOI" => OutInit d L fo
set_option quotPrecheck false in
local notation "MW" => Transfers.MayWaits (V d (cV L) (jV L)) (default : HIx 1) O
set_option quotPrecheck false in
local notation "OW" => Owes d L O W

/-- After the prologue: what the loop carries before trip 0. -/
theorem Inv_zeroV :
    (iprop(MW ∗ OW ∗ bigSep (Finset.range 5) fI ∗ bigSep (Finset.Ico 5 10) fIF ∗ bigSep (Finset.range 5) fGF ∗ bigSep (Finset.range 2) fWF
      ∗ bigSep (Finset.Ico 5 200) fX ∗ bigSep (Finset.range 200) fOI) : sProp 𝕄) ⊢ InvV d L q q' tp xt fo x tab O W 0 () := by
  rw [Inv_eqV d L q q' tp xt fo x tab O W 0 0 5 5 10 0 0 0 5 0 0 0 2 0 5 0 0
    (by omega) (by omega) (by omega) (by omega) (by omega) (by omega) (by omega) (by omega) (by omega) (by omega) (by omega) (by omega) (by omega) (by omega) (by omega) (by omega) ()]
  simp only [Finset.range_eq_Ico]
  iintro ⟨Hmw, How, HI, HIF, HGF, HWF, HX, HOI⟩
  isplitl [Hmw]; · iexact Hmw
  isplitl [How]; · iexact How
  isplitl [HI]; · iexact HI
  isplitl [HIF]; · iexact HIF
  isplitr; · rw [Finset.Ico_self, bigSep_empty]; iempintro
  isplitl [HGF]; · iexact HGF
  isplitr; · rw [Finset.Ico_self, bigSep_empty]; iempintro
  isplitl [HWF]; · iexact HWF
  isplitr; · rw [Finset.Ico_self, bigSep_empty]; iempintro
  isplitl [HX]; · iexact HX
  isplitr; · rw [Finset.Ico_self, bigSep_empty]; iempintro
  iexact HOI

/-- After the last trip: what the loop's exit is handed. -/
theorem Inv_lastV :
    InvV d L q q' tp xt fo x tab O W 204 () ⊢ (iprop(MW ∗ OW ∗ bigSep (Finset.Ico 200 210) fIF ∗ bigSep (Finset.Ico 200 205) fGF ∗ fW 198 ∗ fW 199
      ∗ bigSep (Finset.range 200) fX ∗ bigSep (Finset.range 198) fOD) : sProp 𝕄) := by
  rw [Inv_eqV d L q q' tp xt fo x tab O W 204 200 200 200 210 200 200 200 205 198 200 200 200 200 200 198 200
    (by omega) (by omega) (by omega) (by omega) (by omega) (by omega) (by omega) (by omega) (by omega) (by omega) (by omega) (by omega) (by omega) (by omega) (by omega) (by omega) ()]
  iintro ⟨Hmw, How, -, HIF, -, HGF, HWf, -, HX1, -, HOD, -⟩
  ihave T := (pop_ent fW (a := 198) (a' := 199) (b := 200) (by omega) (by omega)) $$ HWf
  icases T with ⟨Hw198, HWf⟩
  ihave T := (pop_ent fW (a := 199) (a' := 200) (b := 200) (by omega) (by omega)) $$ HWf
  icases T with ⟨Hw199, -⟩
  isplitl [Hmw]; · iexact Hmw
  isplitl [How]; · iexact How
  isplitl [HIF]; · iexact HIF
  isplitl [HGF]; · iexact HGF
  isplitl [Hw198]; · iexact Hw198
  isplitl [Hw199]; · iexact Hw199
  isplitl [HX1]; · iexact HX1
  iexact HOD

end EndsV

end Cert.Proof.KBody

end
-- ==== Proof.KBodyEntry.lean ====
/-
  The tile's resources at entry and exit, in the spelling the body's run reads them in.

  The launch hands a vector subcore's task: the packed table and the transposed index array read-only, its two hundred
  chunks of the output whole, and everything the subcore owns — its scratch buffers whole at some contents, its
  semaphores at zero. The body reads the same resources piece by piece: each of the four ring buffers slot by slot
  (the slots are the buffer cut along its leading axis, pairwise disjoint and covering it); the seventeen DMA
  semaphores of the three arrays by slot number, apart from the subcore's other semaphores; the index array as this
  worker's two hundred chunks (pairwise disjoint) and the rest; the output's chunks numbered by trip; the table as the
  share the body keeps and five read tokens. Every statement here is an equivalence, used one way at entry and the other
  at exit.
-/
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Spec
import proofs.«206325_g16862041604593_cont_week2b_1534_42_alg».proof.Proof.KBodyChunks
import proofs.«206325_g16862041604593_cont_week2b_1534_42_alg».proof.Proof.KBodyDefs
import Idealize.ShloMosaic.Lib.SparseCore.Launch
import Idealize.ShloMosaic.Lib.SparseCore.Stream
import Idealize.ShloMosaic.Lib.Ring
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {UU : Type} [URA UU] [CountersIn UU]
set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## The HBM operands at entry and exit -/

variable (d : Dev nD) (L : grid1.Coords)

/-- The packed table, read-only: the share the body keeps and one read token per slot of the gathered-rows ring. -/
theorem tab_toks (q : PosShare TreeShare) (tp : Buf (Elt F) ((SparseCore.T d).loc main_v2)) :
    (((SparseCore.T d).loc main_v2 ↦{q} tp : sProp 𝕄))
      ⊣⊢ iprop(((A2).view.loc (V d (cV L) (jV L)) ↦{Transfers.shareDrop q 5} tp)
          ∗ bigSep (Finset.range 5) fun s => (A2).view.loc (V d (cV L) (jV L)) ↦{Transfers.shareTokN q s} tp) :=
  Transfers.pointsTo_toks_range q 5

/-- The output's two hundred chunks of this worker, numbered by trip. -/
theorem out_chunks (f : Buf (Elt F) ((SparseCore.T d).loc main_v3)) :
    (bigSep (Finset.univ : Finset (Fin 200)) fun t =>
        ((SparseCore.T d).loc main_v3 ↦[Cert.Spec.chunkSet (200 * wid L + t.val)]{fullShare} f : sProp 𝕄))
      = bigSep (Finset.range 200) fun t =>
          ((A4).view.loc (V d (cV L) (jV L)) ↦[Cert.Spec.chunkSet (200 * wid L + t)]{fullShare} f : sProp 𝕄) :=
  Ring.bigSep_fin_eq_range 200 _ _ (fun _ _ => rfl)

/-- The index entries of this worker's two hundred chunks. -/
def xtOwn (L : grid1.Coords) : Finset Cert.Spec.SXT.Idx := (Finset.range 200).biUnion fun t => xChunkSet (200 * wid L + t)

/-- The index array's entries outside this worker's chunks, at the same share and contents. -/
def XtRest (q' : PosShare TreeShare) (xt : Buf (Elt F) ((SparseCore.T (τ := τ) d).loc main_v0)) : sProp 𝕄 :=
  (SparseCore.T (τ := τ) d).loc main_v0 ↦[Finset.univ \ xtOwn L]{q'} xt

/-- This worker's index entries are its two hundred chunks, numbered by trip. -/
theorem xt_disj (t t' : ℕ) (ht : t < 200) (ht' : t' < 200) (hne : t ≠ t') :
    Disjoint (xChunkSet (200 * wid L + t)) (xChunkSet (200 * wid L + t')) := by
  have hw := wid_lt L
  exact xChunkSet_disjoint _ _ (by omega) (by omega) (by omega)

theorem xt_own (q' : PosShare TreeShare) (xt : Buf (Elt F) ((SparseCore.T (τ := τ) d).loc main_v0)) :
    ((SparseCore.T (τ := τ) d).loc main_v0 ↦[xtOwn L]{q'} xt : sProp 𝕄)
      = bigSep (Finset.range 200) fun t => (SparseCore.T (τ := τ) d).loc main_v0 ↦[xChunkSet (200 * wid L + t)]{q'} xt :=
  pointsTo_biUnion (Ix := HIx 1) (Val := Elt F) (Name := ℕ) (U := UU) (Lvl := ℕ) (ℓ := (SparseCore.T (τ := τ) d).loc main_v0)
    (q := q') (f := xt) (Finset.range 200) (fun t => xChunkSet (200 * wid L + t))
    (fun t ht t' ht' hne => xt_disj L t t' (Finset.mem_range.mp ht) (Finset.mem_range.mp ht') hne)

set_option maxHeartbeats 1600000 in
/-- The transposed index array, read-only: this worker's two hundred chunks, numbered by trip, and the rest. -/
theorem xt_chunks (q' : PosShare TreeShare) (xt : Buf (Elt F) ((SparseCore.T (τ := τ) d).loc main_v0)) :
    (((SparseCore.T (τ := τ) d).loc main_v0 ↦{q'} xt : sProp 𝕄))
      ⊣⊢ iprop((bigSep (Finset.range 200) fun t => (A3).view.loc (V d (cV L) (jV L)) ↦[xChunkSet (200 * wid L + t)]{q'} xt)
          ∗ XtRest d L q' xt) := by
  show _ ⊣⊢ iprop((bigSep (Finset.range 200) fun t => (SparseCore.T (τ := τ) d).loc main_v0 ↦[xChunkSet (200 * wid L + t)]{q'} xt)
          ∗ XtRest d L q' xt)
  rw [← xt_own d L q' xt]
  exact pointsTo_split_subset (Ix := HIx 1) (Val := Elt F) (Name := ℕ) (U := UU) (Lvl := ℕ)
    (ℓ := (SparseCore.T (τ := τ) d).loc main_v0) (q := q') (f := xt) (Finset.subset_univ (xtOwn L))

/-! ## The subcore's own semaphores at entry and exit -/

/-- The cells of the three semaphore arrays, by slot number. -/
abbrev isemCell (j : Nat) : GSem nD τ sig := (V d (cV L) (jV L), SemLoc.dma (isemC j))
abbrev gsemCell (j : Nat) : GSem nD τ sig := (V d (cV L) (jV L), SemLoc.dma (gsemC j))
abbrev wsemCell (j : Nat) : GSem nD τ sig := (V d (cV L) (jV L), SemLoc.dma (wsemC j))

theorem isem_inj : ∀ a b : Fin 10, isemC a.val = isemC b.val → a = b := by decide
theorem gsem_inj : ∀ a b : Fin 5, gsemC a.val = gsemC b.val → a = b := by decide
theorem wsem_inj : ∀ a b : Fin 2, wsemC a.val = wsemC b.val → a = b := by decide
theorem isem_ne_gsem : ∀ (a : Fin 10) (b : Fin 5), isemC a.val ≠ gsemC b.val := by decide
theorem isem_ne_wsem : ∀ (a : Fin 10) (b : Fin 2), isemC a.val ≠ wsemC b.val := by decide
theorem gsem_ne_wsem : ∀ (a : Fin 5) (b : Fin 2), gsemC a.val ≠ wsemC b.val := by decide
theorem isem_scoped : ∀ a : Fin 10, (SemLoc.dma (isemC a.val) : SemLoc sig).isScoped .scVector = true := by decide
theorem gsem_scoped : ∀ a : Fin 5, (SemLoc.dma (gsemC a.val) : SemLoc sig).isScoped .scVector = true := by decide
theorem wsem_scoped : ∀ a : Fin 2, (SemLoc.dma (wsemC a.val) : SemLoc sig).isScoped .scVector = true := by decide

/-- The seventeen cells. -/
def semCells : Finset (GSem nD τ sig) :=
  (Finset.range 10).image (isemCell d L) ∪ ((Finset.range 5).image (gsemCell d L) ∪ (Finset.range 2).image (wsemCell d L))

/-- The subcore's other own semaphores, at zero. -/
def SemRest : sProp 𝕄 := bigSep (ownCells (V d (cV L) (jV L)) \ semCells d L) fun g => semVal g 0

theorem isemCell_injOn : Set.InjOn (isemCell d L) (Finset.range 10 : Finset ℕ) := by
  intro a ha b hb e
  have ha' := Finset.mem_range.mp (Finset.mem_coe.mp ha)
  have hb' := Finset.mem_range.mp (Finset.mem_coe.mp hb)
  exact congrArg Fin.val (isem_inj ⟨a, ha'⟩ ⟨b, hb'⟩ (SemLoc.dma.inj (congrArg Prod.snd e)))
theorem gsemCell_injOn : Set.InjOn (gsemCell d L) (Finset.range 5 : Finset ℕ) := by
  intro a ha b hb e
  have ha' := Finset.mem_range.mp (Finset.mem_coe.mp ha)
  have hb' := Finset.mem_range.mp (Finset.mem_coe.mp hb)
  exact congrArg Fin.val (gsem_inj ⟨a, ha'⟩ ⟨b, hb'⟩ (SemLoc.dma.inj (congrArg Prod.snd e)))
theorem wsemCell_injOn : Set.InjOn (wsemCell d L) (Finset.range 2 : Finset ℕ) := by
  intro a ha b hb e
  have ha' := Finset.mem_range.mp (Finset.mem_coe.mp ha)
  have hb' := Finset.mem_range.mp (Finset.mem_coe.mp hb)
  exact congrArg Fin.val (wsem_inj ⟨a, ha'⟩ ⟨b, hb'⟩ (SemLoc.dma.inj (congrArg Prod.snd e)))

theorem semCells_disj1 : Disjoint ((Finset.range 10).image (isemCell d L))
    ((Finset.range 5).image (gsemCell d L) ∪ (Finset.range 2).image (wsemCell d L)) := by
  rw [Finset.disjoint_left]
  intro g hg hg'
  obtain ⟨a, ha, rfl⟩ := Finset.mem_image.mp hg
  have ha' := Finset.mem_range.mp ha
  rcases Finset.mem_union.mp hg' with h | h
  · obtain ⟨b, hb, e⟩ := Finset.mem_image.mp h
    exact isem_ne_gsem ⟨a, ha'⟩ ⟨b, Finset.mem_range.mp hb⟩ (SemLoc.dma.inj (congrArg Prod.snd e)).symm
  · obtain ⟨b, hb, e⟩ := Finset.mem_image.mp h
    exact isem_ne_wsem ⟨a, ha'⟩ ⟨b, Finset.mem_range.mp hb⟩ (SemLoc.dma.inj (congrArg Prod.snd e)).symm

theorem semCells_disj2 : Disjoint ((Finset.range 5).image (gsemCell d L)) ((Finset.range 2).image (wsemCell d L)) := by
  rw [Finset.disjoint_left]
  intro g hg hg'
  obtain ⟨a, ha, rfl⟩ := Finset.mem_image.mp hg
  obtain ⟨b, hb, e⟩ := Finset.mem_image.mp hg'
  exact gsem_ne_wsem ⟨a, Finset.mem_range.mp ha⟩ ⟨b, Finset.mem_range.mp hb⟩ (SemLoc.dma.inj (congrArg Prod.snd e)).symm

theorem semCells_sub : semCells d L ⊆ ownCells (V d (cV L) (jV L)) := by
  intro g hg
  unfold semCells at hg
  rcases Finset.mem_union.mp hg with h | h
  · obtain ⟨a, ha, rfl⟩ := Finset.mem_image.mp h
    exact mem_ownCells.mpr ⟨rfl, isem_scoped ⟨a, Finset.mem_range.mp ha⟩⟩
  rcases Finset.mem_union.mp h with h | h
  · obtain ⟨a, ha, rfl⟩ := Finset.mem_image.mp h
    exact mem_ownCells.mpr ⟨rfl, gsem_scoped ⟨a, Finset.mem_range.mp ha⟩⟩
  · obtain ⟨a, ha, rfl⟩ := Finset.mem_image.mp h
    exact mem_ownCells.mpr ⟨rfl, wsem_scoped ⟨a, Finset.mem_range.mp ha⟩⟩

/-- The subcore's own semaphores at zero are the seventeen cells at zero, by slot number, and the rest. -/
theorem scopedSems0_cells :
    (scopedSems0 (V d (cV L) (jV L)) : sProp 𝕄)
      ⊣⊢ iprop((bigSep (Finset.range 10) fun j => semVal ((V d (cV L) (jV L), SemLoc.dma (isemC j)) : GSem nD τ sig) 0)
          ∗ (bigSep (Finset.range 5) fun j => semVal ((V d (cV L) (jV L), SemLoc.dma (gsemC j)) : GSem nD τ sig) 0)
          ∗ (bigSep (Finset.range 2) fun j => semVal ((V d (cV L) (jV L), SemLoc.dma (wsemC j)) : GSem nD τ sig) 0)
          ∗ SemRest d L) := by
  rw [SparseCore.Cfg.scopedSems0_V (Val := Elt F) d (cV L) (jV L)]
  unfold SparseCore.Cfg.ownSems0 SemRest
  rw [SparseCore.bigSep_sdiff_split' (semCells_sub d L)]
  unfold semCells
  rw [SparseCore.bigSep_union' (semCells_disj1 d L), SparseCore.bigSep_union' (semCells_disj2 d L),
    bigSep_image_of_injOn (isemCell_injOn d L), bigSep_image_of_injOn (gsemCell_injOn d L),
    bigSep_image_of_injOn (wsemCell_injOn d L)]
  exact Idealize.SL.BI.Laws.sep_assoc.trans (Idealize.SL.BI.Laws.sep_congr_right Idealize.SL.BI.Laws.sep_assoc)

/-! ## The subcore's own buffers at entry and exit

Each of the four ring buffers is cut along its leading axis into its slots: slot `b` is the rectangle at offset `b` on
that axis, one long there and whole on the other axes. The slots are pairwise disjoint and cover the buffer, so the
buffer held whole at some contents is its slots, each held at some contents. -/

variable [FloatOps F]

omit [FloatOps F] in
/-- Held at given contents is held at some contents. -/
theorem pts_exists_intro {ℓ : Loc nD τ sig} (I : Finset (Idx ℓ)) (f : Buf (Elt F) ℓ) :
    (ℓ ↦[I]{fullShare} f : sProp 𝕄) ⊢ iprop(∃ g, ℓ ↦[I]{fullShare} g) := by
  iintro H; iexists f; iexact H

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem set_idxC (j : Nat) : (idxC j).view.set = (idxR j).set := by
  show (((View.whole cc1_scratch0).slice (idxR j)).reshape S128 squeezes_S1x128_S128.numel_eq).set = _
  rw [View.set_reshape, View.set_slice_whole]

theorem idx_disj (b b' : Fin 10) (h : b ≠ b') : Disjoint (idxR b.val).set (idxR b'.val).set :=
  Ring.lead_disjoint (s := S10x128) (NB := 10) 0 1 (fun b => ![b.val % 10, 0]) S1x128.size (fun b => inb_idx b.val)
    (fun b => by show b.val % 10 = 1 * b.val; rw [Nat.mod_eq_of_lt b.isLt, Nat.one_mul]) rfl b b' h

theorem idx_cover : Finset.univ.biUnion (fun b : Fin 10 => (idxR b.val).set) = Finset.univ :=
  Ring.lead_cover (s := S10x128) (NB := 10) 0 1 (fun b => ![b.val % 10, 0]) S1x128.size (fun b => inb_idx b.val)
    (fun b => by show b.val % 10 = 1 * b.val; rw [Nat.mod_eq_of_lt b.isLt, Nat.one_mul])
    (fun b a ha => by fin_cases a <;> first | exact absurd rfl ha | rfl)
    rfl
    (fun a ha => by fin_cases a <;> first | exact absurd rfl ha | rfl)
    rfl

set_option maxHeartbeats 1000000 in
/-- The buffer held whole at some contents is its slots, each at some contents. -/
theorem idx_slots :
    (iprop(∃ f, (V d (cV L) (jV L)).loc cc1_scratch0 ↦{fullShare} f) : sProp 𝕄)
      ⊣⊢ bigSep (Finset.range 10) fun j => iprop(∃ f, (idxC j).view.loc (V d (cV L) (jV L)) ↦[(idxC j).view.set]{fullShare} f) := by
  have e : (bigSep (Finset.univ : Finset (Fin 10)) fun b => (iprop(∃ f, (V d (cV L) (jV L)).loc cc1_scratch0 ↦[(idxR b.val).set]{fullShare} f) : sProp 𝕄))
      = bigSep (Finset.range 10) fun j => iprop(∃ f, (idxC j).view.loc (V d (cV L) (jV L)) ↦[(idxC j).view.set]{fullShare} f) :=
    Ring.bigSep_fin_eq_range 10 _ _ (fun t h => by rw [set_idxC])
  rw [← e]
  constructor
  · iintro ⟨%f, H⟩
    have hs := Entails.of_eq (Ring.pointsTo_blocks (Ix := HIx 1) (Name := ℕ) (U := UU) (Lvl := ℕ) (q := fullShare)
      (ℓ := (V d (cV L) (jV L)).loc cc1_scratch0) (fun b : Fin 10 => (idxR b.val).set) idx_disj idx_cover f)
    have hm := bigSep_mono (s := (Finset.univ : Finset (Fin 10)))
      (Φ := fun b : Fin 10 => ((V d (cV L) (jV L)).loc cc1_scratch0 ↦[(idxR b.val).set]{fullShare} f : sProp 𝕄))
      (Ψ := fun b : Fin 10 => (iprop(∃ f, (V d (cV L) (jV L)).loc cc1_scratch0 ↦[(idxR b.val).set]{fullShare} f) : sProp 𝕄))
      (fun b _ => pts_exists_intro _ f)
    iapply (hs.trans hm) $$ H
  · iintro H
    iapply (Ring.pointsTo_blocks_join_exists (Ix := HIx 1) (Name := ℕ) (U := UU) (Lvl := ℕ) (q := fullShare)
      (ℓ := (V d (cV L) (jV L)).loc cc1_scratch0) (fun b : Fin 10 => (idxR b.val).set) idx_disj idx_cover
      ((fun _ => (0#32 : BitVec 32)) : Buf (Elt F) ((V d (cV L) (jV L)).loc cc1_scratch0)))
    iexact H

theorem set_halfC (j : Nat) : (halfC j).view.set = (halfR j).set := by
  show (((View.whole cc1_scratch1).slice (halfR j)).reshape S128 squeezes_S1x128_S128.numel_eq).set = _
  rw [View.set_reshape, View.set_slice_whole]

theorem half_disj (b b' : Fin 5) (h : b ≠ b') : Disjoint (halfR b.val).set (halfR b'.val).set :=
  Ring.lead_disjoint (s := S5x128) (NB := 5) 0 1 (fun b => ![b.val % 5, 0]) S1x128.size (fun b => inb_half b.val)
    (fun b => by show b.val % 5 = 1 * b.val; rw [Nat.mod_eq_of_lt b.isLt, Nat.one_mul]) rfl b b' h

theorem half_cover : Finset.univ.biUnion (fun b : Fin 5 => (halfR b.val).set) = Finset.univ :=
  Ring.lead_cover (s := S5x128) (NB := 5) 0 1 (fun b => ![b.val % 5, 0]) S1x128.size (fun b => inb_half b.val)
    (fun b => by show b.val % 5 = 1 * b.val; rw [Nat.mod_eq_of_lt b.isLt, Nat.one_mul])
    (fun b a ha => by fin_cases a <;> first | exact absurd rfl ha | rfl)
    rfl
    (fun a ha => by fin_cases a <;> first | exact absurd rfl ha | rfl)
    rfl

set_option maxHeartbeats 1000000 in
/-- The buffer held whole at some contents is its slots, each at some contents. -/
theorem half_slots :
    (iprop(∃ f, (V d (cV L) (jV L)).loc cc1_scratch1 ↦{fullShare} f) : sProp 𝕄)
      ⊣⊢ bigSep (Finset.range 5) fun j => iprop(∃ f, (halfC j).view.loc (V d (cV L) (jV L)) ↦[(halfC j).view.set]{fullShare} f) := by
  have e : (bigSep (Finset.univ : Finset (Fin 5)) fun b => (iprop(∃ f, (V d (cV L) (jV L)).loc cc1_scratch1 ↦[(halfR b.val).set]{fullShare} f) : sProp 𝕄))
      = bigSep (Finset.range 5) fun j => iprop(∃ f, (halfC j).view.loc (V d (cV L) (jV L)) ↦[(halfC j).view.set]{fullShare} f) :=
    Ring.bigSep_fin_eq_range 5 _ _ (fun t h => by rw [set_halfC])
  rw [← e]
  constructor
  · iintro ⟨%f, H⟩
    have hs := Entails.of_eq (Ring.pointsTo_blocks (Ix := HIx 1) (Name := ℕ) (U := UU) (Lvl := ℕ) (q := fullShare)
      (ℓ := (V d (cV L) (jV L)).loc cc1_scratch1) (fun b : Fin 5 => (halfR b.val).set) half_disj half_cover f)
    have hm := bigSep_mono (s := (Finset.univ : Finset (Fin 5)))
      (Φ := fun b : Fin 5 => ((V d (cV L) (jV L)).loc cc1_scratch1 ↦[(halfR b.val).set]{fullShare} f : sProp 𝕄))
      (Ψ := fun b : Fin 5 => (iprop(∃ f, (V d (cV L) (jV L)).loc cc1_scratch1 ↦[(halfR b.val).set]{fullShare} f) : sProp 𝕄))
      (fun b _ => pts_exists_intro _ f)
    iapply (hs.trans hm) $$ H
  · iintro H
    iapply (Ring.pointsTo_blocks_join_exists (Ix := HIx 1) (Name := ℕ) (U := UU) (Lvl := ℕ) (q := fullShare)
      (ℓ := (V d (cV L) (jV L)).loc cc1_scratch1) (fun b : Fin 5 => (halfR b.val).set) half_disj half_cover
      ((fun _ => (0#32 : BitVec 32)) : Buf (Elt F) ((V d (cV L) (jV L)).loc cc1_scratch1)))
    iexact H

theorem set_rowsC (j : Nat) : (rowsC j).view.set = (rowsR j).set := by
  show (((View.whole cc1_scratch2).slice (rowsR j)).reshape S128x128 squeezes_S1x128x128_S128x128.numel_eq).set = _
  rw [View.set_reshape, View.set_slice_whole]

theorem rows_disj (b b' : Fin 5) (h : b ≠ b') : Disjoint (rowsR b.val).set (rowsR b'.val).set :=
  Ring.lead_disjoint (s := S5x128x128) (NB := 5) 0 1 (fun b => ![b.val % 5, 0, 0]) S1x128x128.size (fun b => inb_rows b.val)
    (fun b => by show b.val % 5 = 1 * b.val; rw [Nat.mod_eq_of_lt b.isLt, Nat.one_mul]) rfl b b' h

theorem rows_cover : Finset.univ.biUnion (fun b : Fin 5 => (rowsR b.val).set) = Finset.univ :=
  Ring.lead_cover (s := S5x128x128) (NB := 5) 0 1 (fun b => ![b.val % 5, 0, 0]) S1x128x128.size (fun b => inb_rows b.val)
    (fun b => by show b.val % 5 = 1 * b.val; rw [Nat.mod_eq_of_lt b.isLt, Nat.one_mul])
    (fun b a ha => by fin_cases a <;> first | exact absurd rfl ha | rfl)
    rfl
    (fun a ha => by fin_cases a <;> first | exact absurd rfl ha | rfl)
    rfl

set_option maxHeartbeats 1000000 in
/-- The buffer held whole at some contents is its slots, each at some contents. -/
theorem rows_slots :
    (iprop(∃ f, (V d (cV L) (jV L)).loc cc1_scratch2 ↦{fullShare} f) : sProp 𝕄)
      ⊣⊢ bigSep (Finset.range 5) fun j => iprop(∃ f, (rowsC j).view.loc (V d (cV L) (jV L)) ↦[(rowsC j).view.set]{fullShare} f) := by
  have e : (bigSep (Finset.univ : Finset (Fin 5)) fun b => (iprop(∃ f, (V d (cV L) (jV L)).loc cc1_scratch2 ↦[(rowsR b.val).set]{fullShare} f) : sProp 𝕄))
      = bigSep (Finset.range 5) fun j => iprop(∃ f, (rowsC j).view.loc (V d (cV L) (jV L)) ↦[(rowsC j).view.set]{fullShare} f) :=
    Ring.bigSep_fin_eq_range 5 _ _ (fun t h => by rw [set_rowsC])
  rw [← e]
  constructor
  · iintro ⟨%f, H⟩
    have hs := Entails.of_eq (Ring.pointsTo_blocks (Ix := HIx 1) (Name := ℕ) (U := UU) (Lvl := ℕ) (q := fullShare)
      (ℓ := (V d (cV L) (jV L)).loc cc1_scratch2) (fun b : Fin 5 => (rowsR b.val).set) rows_disj rows_cover f)
    have hm := bigSep_mono (s := (Finset.univ : Finset (Fin 5)))
      (Φ := fun b : Fin 5 => ((V d (cV L) (jV L)).loc cc1_scratch2 ↦[(rowsR b.val).set]{fullShare} f : sProp 𝕄))
      (Ψ := fun b : Fin 5 => (iprop(∃ f, (V d (cV L) (jV L)).loc cc1_scratch2 ↦[(rowsR b.val).set]{fullShare} f) : sProp 𝕄))
      (fun b _ => pts_exists_intro _ f)
    iapply (hs.trans hm) $$ H
  · iintro H
    iapply (Ring.pointsTo_blocks_join_exists (Ix := HIx 1) (Name := ℕ) (U := UU) (Lvl := ℕ) (q := fullShare)
      (ℓ := (V d (cV L) (jV L)).loc cc1_scratch2) (fun b : Fin 5 => (rowsR b.val).set) rows_disj rows_cover
      ((fun _ => (FloatOps.ofBits .f32 0#32 : F .f32)) : Buf (Elt F) ((V d (cV L) (jV L)).loc cc1_scratch2)))
    iexact H

theorem set_selC (j : Nat) : (selC j).view.set = (selR j).set := by
  show (((View.whole cc1_scratch3).slice (selR j)).reshape S128x64 squeezes_S1x128x64_S128x64.numel_eq).set = _
  rw [View.set_reshape, View.set_slice_whole]

theorem sel_disj (b b' : Fin 2) (h : b ≠ b') : Disjoint (selR b.val).set (selR b'.val).set :=
  Ring.lead_disjoint (s := S2x128x64) (NB := 2) 0 1 (fun b => ![b.val % 2, 0, 0]) S1x128x64.size (fun b => inb_sel b.val)
    (fun b => by show b.val % 2 = 1 * b.val; rw [Nat.mod_eq_of_lt b.isLt, Nat.one_mul]) rfl b b' h

theorem sel_cover : Finset.univ.biUnion (fun b : Fin 2 => (selR b.val).set) = Finset.univ :=
  Ring.lead_cover (s := S2x128x64) (NB := 2) 0 1 (fun b => ![b.val % 2, 0, 0]) S1x128x64.size (fun b => inb_sel b.val)
    (fun b => by show b.val % 2 = 1 * b.val; rw [Nat.mod_eq_of_lt b.isLt, Nat.one_mul])
    (fun b a ha => by fin_cases a <;> first | exact absurd rfl ha | rfl)
    rfl
    (fun a ha => by fin_cases a <;> first | exact absurd rfl ha | rfl)
    rfl

set_option maxHeartbeats 1000000 in
/-- The buffer held whole at some contents is its slots, each at some contents. -/
theorem sel_slots :
    (iprop(∃ f, (V d (cV L) (jV L)).loc cc1_scratch3 ↦{fullShare} f) : sProp 𝕄)
      ⊣⊢ bigSep (Finset.range 2) fun j => iprop(∃ f, (selC j).view.loc (V d (cV L) (jV L)) ↦[(selC j).view.set]{fullShare} f) := by
  have e : (bigSep (Finset.univ : Finset (Fin 2)) fun b => (iprop(∃ f, (V d (cV L) (jV L)).loc cc1_scratch3 ↦[(selR b.val).set]{fullShare} f) : sProp 𝕄))
      = bigSep (Finset.range 2) fun j => iprop(∃ f, (selC j).view.loc (V d (cV L) (jV L)) ↦[(selC j).view.set]{fullShare} f) :=
    Ring.bigSep_fin_eq_range 2 _ _ (fun t h => by rw [set_selC])
  rw [← e]
  constructor
  · iintro ⟨%f, H⟩
    have hs := Entails.of_eq (Ring.pointsTo_blocks (Ix := HIx 1) (Name := ℕ) (U := UU) (Lvl := ℕ) (q := fullShare)
      (ℓ := (V d (cV L) (jV L)).loc cc1_scratch3) (fun b : Fin 2 => (selR b.val).set) sel_disj sel_cover f)
    have hm := bigSep_mono (s := (Finset.univ : Finset (Fin 2)))
      (Φ := fun b : Fin 2 => ((V d (cV L) (jV L)).loc cc1_scratch3 ↦[(selR b.val).set]{fullShare} f : sProp 𝕄))
      (Ψ := fun b : Fin 2 => (iprop(∃ f, (V d (cV L) (jV L)).loc cc1_scratch3 ↦[(selR b.val).set]{fullShare} f) : sProp 𝕄))
      (fun b _ => pts_exists_intro _ f)
    iapply (hs.trans hm) $$ H
  · iintro H
    iapply (Ring.pointsTo_blocks_join_exists (Ix := HIx 1) (Name := ℕ) (U := UU) (Lvl := ℕ) (q := fullShare)
      (ℓ := (V d (cV L) (jV L)).loc cc1_scratch3) (fun b : Fin 2 => (selR b.val).set) sel_disj sel_cover
      ((fun _ => (FloatOps.ofBits .f32 0#32 : F .f32)) : Buf (Elt F) ((V d (cV L) (jV L)).loc cc1_scratch3)))
    iexact H

/-- The subcore's other own buffers, each whole at some contents. -/
def BufRest : sProp 𝕄 :=
  bigSep (((((ownRefs (τ := τ) (.scVector (cV L) (jV L))).erase ((Proc.scVector (cV L) (jV L)).devRef cc1_scratch0)).erase
      ((Proc.scVector (cV L) (jV L)).devRef cc1_scratch1)).erase ((Proc.scVector (cV L) (jV L)).devRef cc1_scratch2)).erase ((Proc.scVector (cV L) (jV L)).devRef cc1_scratch3))
    fun b => iprop(∃ f, ((d, b) : Loc nD τ sig) ↦{fullShare} f)

/-- The four ring buffers are among the subcore's own. -/
theorem ownBufs_four :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f) ∗ BufRest d L) := by
  unfold SparseCore.Cfg.ownBufs BufRest
  refine (SparseCore.bigSep_erase' (SparseCore.Cfg.mem_ownRefs_of_owner (p := (Proc.scVector (cV L) (jV L)))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (Proc.scVector (cV L) (jV L))) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := (Proc.scVector (cV L) (jV L))) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := (Proc.scVector (cV L) (jV L))) (b := (Proc.scVector (cV L) (jV L)).devRef cc1_scratch3) rfl⟩⟩⟩)]

/-- The subcore's own buffers are the four rings slot by slot, each slot at some contents, and the rest. -/
theorem scopedBufs_slots :
    (scopedBufs (V d (cV L) (jV L)) : sProp 𝕄)
      ⊣⊢ iprop((bigSep (Finset.range 10) fun j => iprop(∃ f, (idxC j).view.loc (V d (cV L) (jV L)) ↦[(idxC j).view.set]{fullShare} f))
          ∗ (bigSep (Finset.range 5) fun j => iprop(∃ f, (halfC j).view.loc (V d (cV L) (jV L)) ↦[(halfC j).view.set]{fullShare} f))
          ∗ (bigSep (Finset.range 5) fun j => iprop(∃ f, (rowsC j).view.loc (V d (cV L) (jV L)) ↦[(rowsC j).view.set]{fullShare} f))
          ∗ (bigSep (Finset.range 2) fun j => iprop(∃ f, (selC j).view.loc (V d (cV L) (jV L)) ↦[(selC j).view.set]{fullShare} f))
          ∗ BufRest d L) := by
  rw [(K (F := F)).scopedBufs_V facts d (cV L) (jV L), ownBufs_four]
  exact Idealize.SL.BI.Laws.sep_congr (idx_slots d L) (Idealize.SL.BI.Laws.sep_congr (half_slots d L)
    (Idealize.SL.BI.Laws.sep_congr (rows_slots d L) (Idealize.SL.BI.Laws.sep_congr_left (sel_slots d L))))

end Cert.Proof.KBody

end
-- ==== Proof.KBodyShell.lean ====
/-
  The SparseCore kernel's body, one vector subcore's task: the shell around the loop.

  The task's resources arrive whole: the packed table and the transposed index array read-only, the worker's two
  hundred output chunks, the subcore's scratch buffers at some contents and its semaphores at zero. They are
  regrouped slot by slot and chunk by chunk. Before the loop the body starts the copies of the first five chunks
  of index words, each into its own slot of the index ring on its own semaphore; what lands is a chunk of the
  transposed index array, whose words all name table rows. That is the loop's invariant before trip 0. The loop's
  204 trips keep the invariant (a hypothesis here: the trip's proof). After the last trip everything is free but
  the write-backs of chunks 198 and 199: the body waits for the two, and the pieces regroup into the whole
  resources it was handed, the output's chunks each at some contents.
-/
import proofs.«206325_g16862041604593_cont_week2b_1534_42_alg».proof.Proof.KBodyRespell
import proofs.«206325_g16862041604593_cont_week2b_1534_42_alg».proof.Proof.KBodyEntry
import proofs.«206325_g16862041604593_cont_week2b_1534_42_alg».proof.Proof.KBodyEnds
import proofs.«206325_g16862041604593_cont_week2b_1534_42_alg».proof.Proof.Gen.KernelIdeal.Skeleton
import Idealize.ShloMosaic.Lib.ValueIdx

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

section ShellHelpers
variable {UU : Type} [URA UU] [CountersIn UU]
set_option quotPrecheck false in
local notation "𝕄" => MT nD τ sig (HIx 1) (Elt F) ℕ UU ℕ
variable (d : Dev nD) (L : grid1.Coords)

/-- A run over the numbers below n with its first five set apart. -/
theorem shell_range_take5 {M : Type} [URA M] (n : Nat) (h : 5 ≤ n) (A : ℕ → sProp M) :
    bigSep (Finset.range n) A = iprop(A 0 ∗ A 1 ∗ A 2 ∗ A 3 ∗ A 4 ∗ bigSep (Finset.Ico 5 n) A) := by
  rw [Finset.range_eq_Ico, Ring.bigSep_Ico_succ (by omega : 0 < n), Ring.bigSep_Ico_succ (by omega : 0 + 1 < n),
    Ring.bigSep_Ico_succ (by omega : 0 + 1 + 1 < n), Ring.bigSep_Ico_succ (by omega : 0 + 1 + 1 + 1 < n),
    Ring.bigSep_Ico_succ (by omega : 0 + 1 + 1 + 1 + 1 < n)]

/-- The index slots and their semaphores as the copies before the loop spell them. -/
abbrev idxL0 : Memref sig .scVector .vmem S128 .i32 := ((A5).slice (Rect.unit (s := S10x128) ![0, 0] S1x128.size inb_S10x128_S1x128_0_0) (fun _ => rfl)).squeeze S128 squeezes_S1x128_S128
abbrev idxL1 : Memref sig .scVector .vmem S128 .i32 := ((A5).slice (Rect.unit (s := S10x128) ![1, 0] S1x128.size inb_S10x128_S1x128_1_0) (fun _ => rfl)).squeeze S128 squeezes_S1x128_S128
abbrev idxL2 : Memref sig .scVector .vmem S128 .i32 := ((A5).slice (Rect.unit (s := S10x128) ![2, 0] S1x128.size inb_S10x128_S1x128_2_0) (fun _ => rfl)).squeeze S128 squeezes_S1x128_S128
abbrev idxL3 : Memref sig .scVector .vmem S128 .i32 := ((A5).slice (Rect.unit (s := S10x128) ![3, 0] S1x128.size inb_S10x128_S1x128_3_0) (fun _ => rfl)).squeeze S128 squeezes_S1x128_S128
abbrev idxL4 : Memref sig .scVector .vmem S128 .i32 := ((A5).slice (Rect.unit (s := S10x128) ![4, 0] S1x128.size inb_S10x128_S1x128_4_0) (fun _ => rfl)).squeeze S128 squeezes_S1x128_S128
abbrev isemL0 : DmaSem sig := ((cc1_scratch4.slice (Rect.unit (s := S10) ![0] S1.size inb_S10_S1_0)).squeeze S_ squeezes_S1_S_).sem
abbrev isemL1 : DmaSem sig := ((cc1_scratch4.slice (Rect.unit (s := S10) ![1] S1.size inb_S10_S1_1)).squeeze S_ squeezes_S1_S_).sem
abbrev isemL2 : DmaSem sig := ((cc1_scratch4.slice (Rect.unit (s := S10) ![2] S1.size inb_S10_S1_2)).squeeze S_ squeezes_S1_S_).sem
abbrev isemL3 : DmaSem sig := ((cc1_scratch4.slice (Rect.unit (s := S10) ![3] S1.size inb_S10_S1_3)).squeeze S_ squeezes_S1_S_).sem
abbrev isemL4 : DmaSem sig := ((cc1_scratch4.slice (Rect.unit (s := S10) ![4] S1.size inb_S10_S1_4)).squeeze S_ squeezes_S1_S_).sem

/-- The five index slices fetched before the loop, as the copies spell them. -/
abbrev xtL (L : grid1.Coords) (r : Fin 5) : Memref sig .scVector .hbm S128 .i32 :=
  ((A3).slice (Rect.unit (s := S50x16384) (k1_off1 L (BitVec.ofNat 32 r.val)) S1x128.size (k1_off1_inb L r)) (fun _ => rfl)).squeeze S128 squeezes_S1x128_S128

theorem shell_pts_xtL (r : Fin 5) (q : PosShare TreeShare) (f : Buf (Elt F) ((A3).view.loc (V d (cV L) (jV L)))) :
    ((xtL L r).view.loc (V d (cV L) (jV L)) ↦[(xtL L r).view.set]{q} f : sProp 𝕄)
      = ((A3).view.loc (V d (cV L) (jV L)) ↦[xChunkSet (200 * wid L + r.val)]{q} f) := by
  have e : (xtL L r).view.set = xChunkSet (200 * wid L + r.val) := set_xtW1 L r
  rw [e]

end ShellHelpers

section ShellHelpers2
variable {UU : Type} [URA UU] [CountersIn UU]
set_option quotPrecheck false in
local notation "𝕄" => MT nD τ sig (HIx 1) (Elt F) ℕ UU ℕ
variable (d : Dev nD) (L : grid1.Coords)
open Idealize.ShloMosaic.ValueIdx

/-- The gather's name for the packed table is the whole table. -/
theorem shell_set_tabS : (tabS).view.set = Finset.univ := by
  show ((View.whole main_v2_scv).slice (Rect.unit (s := S507904x128) ![0, 0] S507904x128.size inb_S507904x128_S507904x128_0_0)).set = _
  rw [View.set_slice_whole]
  exact Rect.set_eq_univ_of_whole _ (fun a => ⟨by fin_cases a <;> rfl, rfl, rfl⟩)

theorem shell_pts_tabS (q : PosShare TreeShare) (tp : Buf (Elt F) ((A2).view.loc (V d (cV L) (jV L)))) :
    ((tabS).view.loc (V d (cV L) (jV L)) ↦[(tabS).view.set]{q} tp : sProp 𝕄) = ((A2).view.loc (V d (cV L) (jV L)) ↦{q} tp) := by
  rw [shell_set_tabS]

variable [FloatOps F]

/-- What a whole-slot copy lands in an index slot, when every word copied names a table row. -/
theorem shell_landed_ok (u : Nat) (fi : Buf (Elt F) ((idxC u).view.loc (V d (cV L) (jV L)))) (w : S128.Idx → Elt F .i32)
    (hw : ∀ y, (w y).toNat ≤ 999999) :
    IdxOK d L u ((idxC u).view.writes (Elt F) fi [⟨Rect.whole S128, w⟩]) := by
  intro y
  have h := View.read_writes_cons_emb (idxC u).view fi (Rect.whole S128) w [] y
  rw [Rect.emb_whole_apply] at h
  exact le_of_eq_of_le (congrArg BitVec.toNat h) (hw y)

/-- A chunk of index words read off the transposed index array names table rows, if every word of the array does. -/
theorem shell_read_xtL_le (r : Fin 5) (xt : Buf (Elt F) ((A3).view.loc (V d (cV L) (jV L))))
    (h : ∀ j : S50x16384.Idx, (xt j).toNat ≤ 999999) (y : S128.Idx) :
    ((xtL L r).view.read (Elt F) xt y).toNat ≤ 999999 := by
  rw [View.read_apply, cast_eq]; exact h _

/-- A copy before the loop, issued: chunk r's index words on their way into slot r. -/
theorem shell_ifl_of_flight (q' : PosShare TreeShare) (xt : Buf (Elt F) ((A3).view.loc (V d (cV L) (jV L)))) (r : Fin 5)
    (fi : Buf (Elt F) ((idxC r.val).view.loc (V d (cV L) (jV L)))) (w : S128.Idx → Elt F .i32) (hw : ∀ y, (w y).toNat ≤ 999999) :
    (Transfers.Flight (countersEmb (U := UU)) (V d (cV L) (jV L)) (SemLoc.dma (isemC r.val)) (default : HIx 1) 4096
        iprop(((idxC r.val).view.loc (V d (cV L) (jV L)) ↦[(idxC r.val).view.set]{fullShare} (idxC r.val).view.writes (Elt F) fi [⟨Rect.whole S128, w⟩])
          ∗ ((xtL L r).view.loc (V d (cV L) (jV L)) ↦[(xtL L r).view.set]{q'} xt)) : sProp 𝕄)
      ⊢ IFl d L q' xt r.val := by
  unfold IFl
  iintro H
  iexists _
  isplitr; · ipureintro; exact shell_landed_ok d L r.val fi w hw
  iapply (Transfers.Flight_mono (countersEmb (U := UU)) (V d (cV L) (jV L)) (sep_mono .rfl (Entails.of_eq (shell_pts_xtL d L r q' xt)))) $$ H

end ShellHelpers2

section ShellHelpers3
variable {UU : Type} [URA UU] [CountersIn UU]
set_option quotPrecheck false in
local notation "𝕄" => MT nD τ sig (HIx 1) (Elt F) ℕ UU ℕ
variable (d : Dev nD) (L : grid1.Coords)

/-- The two write-back semaphores as the waits after the loop spell them. -/
abbrev wsemL0 : DmaSem sig := ((cc1_scratch6.slice (Rect.unit (s := S2) ![0] S1.size inb_S2_S1_0)).squeeze S_ squeezes_S1_S_).sem
abbrev wsemL1 : DmaSem sig := ((cc1_scratch6.slice (Rect.unit (s := S2) ![1] S1.size inb_S2_S1_1)).squeeze S_ squeezes_S1_S_).sem

end ShellHelpers3

section ShellHelpers4
variable {UU : Type} [URA UU] [CountersIn UU]
set_option quotPrecheck false in
local notation "𝕄" => MT nD τ sig (HIx 1) (Elt F) ℕ UU ℕ
variable (d : Dev nD) (L : grid1.Coords)

theorem shell_range_two {M : Type} [URA M] (A : ℕ → sProp M) : bigSep (Finset.range 2) A = iprop(A 0 ∗ A 1) := by
  rw [show Finset.range 2 = insert 0 {1} from by decide, bigSep_insert (by decide), BI.bigSep_singleton]; rfl

theorem shell_range_last2 {M : Type} [URA M] (n : ℕ) (A : ℕ → sProp M) :
    bigSep (Finset.range (n + 2)) A = iprop(A (n + 1) ∗ A n ∗ bigSep (Finset.range n) A) := by
  rw [Ring.bigSep_range_succ (n + 1), Ring.bigSep_range_succ n]

theorem shell_out_last {M : Type} [URA M] (A : ℕ → sProp M) :
    bigSep (Finset.range 200) A = iprop(A 199 ∗ A 198 ∗ bigSep (Finset.range 198) A) := shell_range_last2 198 A

/-- The output's two hundred chunks of this worker, each at some contents, numbered by trip. -/
theorem shell_out_chunks_ex :
    (bigSep (Finset.univ : Finset (Fin 200)) fun t =>
        iprop(∃ f, ((SparseCore.T d).loc main_v3 ↦[Cert.Spec.chunkSet (200 * wid L + t.val)]{fullShare} f : sProp 𝕄)))
      = bigSep (Finset.range 200) fun t =>
          iprop(∃ f, ((A4).view.loc (V d (cV L) (jV L)) ↦[Cert.Spec.chunkSet (200 * wid L + t)]{fullShare} f : sProp 𝕄)) :=
  Ring.bigSep_fin_eq_range 200 _ _ (fun _ _ => rfl)

end ShellHelpers4

section Shell
variable {UU : Type} [URA UU] [CountersIn UU]
set_option quotPrecheck false in
local notation "𝕄" => MT nD τ sig (HIx 1) (Elt F) ℕ UU ℕ
open Idealize.ShloMosaic.ValueIdx

abbrev tabLoc (d : Dev nD) : Loc nD τ sig := (SparseCore.T d).loc main_v2
abbrev xtLoc (d : Dev nD) : Loc nD τ sig := (SparseCore.T d).loc main_v0
abbrev outLoc (d : Dev nD) : Loc nD τ sig := (SparseCore.T d).loc main_v3

variable [FloatOps F]

set_option maxHeartbeats 40000000 in
set_option maxRecDepth 65536 in
theorem tile_body_shell (d : Dev nD) (L : grid1.Coords) (q q' : PosShare TreeShare)
    (tab : FVec F S1000000x64 .f32) (x : IVec S16384x50 32)
    (tp : Buf (Elt F) (tabLoc d)) (xt : Buf (Elt F) (xtLoc d)) (fo : Buf (Elt F) (outLoc d))
    (hx : ∀ j, (x j).toNat ≤ 999999)
    (hxt : ∀ (h : Fin 50) (b : Fin 16384), xt (ix2 h b) = x (ix2 b h))
    (hpack : Cert.Spec.PackOK tab tp)
    (O : CellTallies nD τ sig (HIx 1)) (W : Waits sig (HIx 1)) (hO : ∀ g, O g none = 0)
    (region : ∀ (v2 : BitVec 32) (k : Fin k1_t1_loop.trips) (acc : Unit),
      Inv (UU := UU) d L q q' tp xt fo O W k.val acc
        ⊢ wp (M := 𝕄) frame (wpE (defs₀ (F := F)) 𝒱₀ (V d (cV L) (jV L)) none) Set.univ
            (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32 k acc)
            (Inv (UU := UU) d L q q' tp xt fo O W (k.val + 1))) :
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * wid L + t.val)]{fullShare} fo)
        ∗ scopedBufs (V d (cV L) (jV L)) ∗ scopedSems0 (V d (cV L) (jV L)) ∗ owes (V d (cV L) (jV L)) O W)
      ⊢ wp (M := 𝕄) frame (wpE (defs₀ (F := F)) 𝒱₀ (V d (cV L) (jV L)) none) Set.univ
          (cc1_k L A2 (Memref.isWhole_whole _) A3 (Memref.isWhole_whole _) A4 (Memref.isWhole_whole _) A5 (Memref.isWhole_whole _)
            A6 (Memref.isWhole_whole _) A7 (Memref.isWhole_whole _) A8 (Memref.isWhole_whole _) cc1_scratch4 cc1_scratch5 cc1_scratch6)
          fun _ => iprop((tabLoc d ↦{q} tp) ∗ (xtLoc d ↦{q'} xt)
            ∗ (bigSep (Finset.univ : Finset (Fin 200)) fun t => iprop(∃ f, outLoc d ↦[Cert.Spec.chunkSet (200 * wid L + t.val)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [out_chunks (UU := UU) d L fo]
  iintro ⟨#Hlv, Htab, Hxt, Hout, Hsb, Hss, HO⟩
  ihave Hmw := ((K (F := F)).mayWaits_none (thr := V d (cV L) (jV L)) hO) $$ Hlv
  ihave Htab' := (tab_toks (UU := UU) d L q tp).1 $$ Htab
  icases Htab' with ⟨Htab0, Htoks⟩
  ihave Hxt' := (xt_chunks (UU := UU) d L q' xt).1 $$ Hxt
  icases Hxt' with ⟨Hxch, Hxrest⟩
  ihave Hsb' := (scopedBufs_slots (F := F) (UU := UU) d L).1 $$ Hsb
  icases Hsb' with ⟨Hidx, Hhalf, Hrows, Hsel, Hbrest⟩
  ihave Hss' := (scopedSems0_cells (F := F) (UU := UU) d L).1 $$ Hss
  icases Hss' with ⟨Hisem, Hgsem, Hwsem, Hsrest⟩
  -- the five slots, cells and chunks the copies before the loop name
  ihave Hidx' := (Entails.of_eq (shell_range_take5 10 (by decide) _)) $$ Hidx
  icases Hidx' with ⟨⟨%fi0, HI0⟩, ⟨%fi1, HI1⟩, ⟨%fi2, HI2⟩, ⟨%fi3, HI3⟩, ⟨%fi4, HI4⟩, Hidx⟩
  ihave Hisem' := (Entails.of_eq (shell_range_take5 10 (by decide) _)) $$ Hisem
  icases Hisem' with ⟨HS0, HS1, HS2, HS3, HS4, Hisem⟩
  ihave Hxch' := (Entails.of_eq (shell_range_take5 200 (by decide) _)) $$ Hxch
  icases Hxch' with ⟨HX0, HX1, HX2, HX3, HX4, Hxch⟩
  ihave HI0 := (show ((idxC 0).view.loc (V d (cV L) (jV L)) ↦[(idxC 0).view.set]{fullShare} fi0 : sProp 𝕄) ⊢ ((idxL0).view.loc (V d (cV L) (jV L)) ↦[(idxL0).view.set]{fullShare} fi0) from Entails.of_eq rfl) $$ HI0
  ihave HS0 := (show (semVal ((V d (cV L) (jV L), SemLoc.dma (isemC 0)) : GSem nD τ sig) 0 : sProp 𝕄) ⊢ semVal ((V d (cV L) (jV L), SemLoc.dma isemL0) : GSem nD τ sig) 0 from Entails.of_eq rfl) $$ HS0
  ihave HX0 := (Entails.of_eq (shell_pts_xtL (UU := UU) d L (0 : Fin 5) q' xt).symm) $$ HX0
  ihave HI1 := (show ((idxC 1).view.loc (V d (cV L) (jV L)) ↦[(idxC 1).view.set]{fullShare} fi1 : sProp 𝕄) ⊢ ((idxL1).view.loc (V d (cV L) (jV L)) ↦[(idxL1).view.set]{fullShare} fi1) from Entails.of_eq rfl) $$ HI1
  ihave HS1 := (show (semVal ((V d (cV L) (jV L), SemLoc.dma (isemC 1)) : GSem nD τ sig) 0 : sProp 𝕄) ⊢ semVal ((V d (cV L) (jV L), SemLoc.dma isemL1) : GSem nD τ sig) 0 from Entails.of_eq rfl) $$ HS1
  ihave HX1 := (Entails.of_eq (shell_pts_xtL (UU := UU) d L (1 : Fin 5) q' xt).symm) $$ HX1
  ihave HI2 := (show ((idxC 2).view.loc (V d (cV L) (jV L)) ↦[(idxC 2).view.set]{fullShare} fi2 : sProp 𝕄) ⊢ ((idxL2).view.loc (V d (cV L) (jV L)) ↦[(idxL2).view.set]{fullShare} fi2) from Entails.of_eq rfl) $$ HI2
  ihave HS2 := (show (semVal ((V d (cV L) (jV L), SemLoc.dma (isemC 2)) : GSem nD τ sig) 0 : sProp 𝕄) ⊢ semVal ((V d (cV L) (jV L), SemLoc.dma isemL2) : GSem nD τ sig) 0 from Entails.of_eq rfl) $$ HS2
  ihave HX2 := (Entails.of_eq (shell_pts_xtL (UU := UU) d L (2 : Fin 5) q' xt).symm) $$ HX2
  ihave HI3 := (show ((idxC 3).view.loc (V d (cV L) (jV L)) ↦[(idxC 3).view.set]{fullShare} fi3 : sProp 𝕄) ⊢ ((idxL3).view.loc (V d (cV L) (jV L)) ↦[(idxL3).view.set]{fullShare} fi3) from Entails.of_eq rfl) $$ HI3
  ihave HS3 := (show (semVal ((V d (cV L) (jV L), SemLoc.dma (isemC 3)) : GSem nD τ sig) 0 : sProp 𝕄) ⊢ semVal ((V d (cV L) (jV L), SemLoc.dma isemL3) : GSem nD τ sig) 0 from Entails.of_eq rfl) $$ HS3
  ihave HX3 := (Entails.of_eq (shell_pts_xtL (UU := UU) d L (3 : Fin 5) q' xt).symm) $$ HX3
  ihave HI4 := (show ((idxC 4).view.loc (V d (cV L) (jV L)) ↦[(idxC 4).view.set]{fullShare} fi4 : sProp 𝕄) ⊢ ((idxL4).view.loc (V d (cV L) (jV L)) ↦[(idxL4).view.set]{fullShare} fi4) from Entails.of_eq rfl) $$ HI4
  ihave HS4 := (show (semVal ((V d (cV L) (jV L), SemLoc.dma (isemC 4)) : GSem nD τ sig) 0 : sProp 𝕄) ⊢ semVal ((V d (cV L) (jV L), SemLoc.dma isemL4) : GSem nD τ sig) 0 from Entails.of_eq rfl) $$ HS4
  ihave HX4 := (Entails.of_eq (shell_pts_xtL (UU := UU) d L (4 : Fin 5) q' xt).symm) $$ HX4
  sl_exec_parts
  sl_for (Inv (UU := UU) d L q q' tp xt fo O W) $$ [Hmw HO HS0 HS1 HS2 HS3 HS4 Hidx Hisem Hhalf Hrows Hgsem Htoks Hsel Hwsem Hxch Hout]
  case region =>
    intro k acc
    exact region _ k acc
  · have hle : ∀ j : S50x16384.Idx, (xt j).toNat ≤ 999999 := fun j =>
      le_of_eq_of_le (congrArg (fun i => (xt i).toNat) (eq_ix2 j)) (le_of_eq_of_le (congrArg BitVec.toNat (hxt (j 0) (j 1))) (hx _))
    ihave HF0 : IFl d L q' xt 0 $$ [HS0]
    · iclear Hlv
      iclear Hmw
      istop
      exact shell_ifl_of_flight (UU := UU) d L q' xt (0 : Fin 5) fi0 _ (fun y => shell_read_xtL_le (F := F) d L (0 : Fin 5) xt hle y)
    ihave HF1 : IFl d L q' xt 1 $$ [HS1]
    · iclear Hlv
      iclear Hmw
      istop
      exact shell_ifl_of_flight (UU := UU) d L q' xt (1 : Fin 5) fi1 _ (fun y => shell_read_xtL_le (F := F) d L (1 : Fin 5) xt hle y)
    ihave HF2 : IFl d L q' xt 2 $$ [HS2]
    · iclear Hlv
      iclear Hmw
      istop
      exact shell_ifl_of_flight (UU := UU) d L q' xt (2 : Fin 5) fi2 _ (fun y => shell_read_xtL_le (F := F) d L (2 : Fin 5) xt hle y)
    ihave HF3 : IFl d L q' xt 3 $$ [HS3]
    · iclear Hlv
      iclear Hmw
      istop
      exact shell_ifl_of_flight (UU := UU) d L q' xt (3 : Fin 5) fi3 _ (fun y => shell_read_xtL_le (F := F) d L (3 : Fin 5) xt hle y)
    ihave HF4 : IFl d L q' xt 4 $$ [HS4]
    · iclear Hlv
      iclear Hmw
      istop
      exact shell_ifl_of_flight (UU := UU) d L q' xt (4 : Fin 5) fi4 _ (fun y => shell_read_xtL_le (F := F) d L (4 : Fin 5) xt hle y)
    ihave Htoks' : (bigSep (Finset.range 5) fun s => (tabS).view.loc (V d (cV L) (jV L)) ↦[(tabS).view.set]{Transfers.shareTokN q s} tp) $$ [Htoks]
    · iclear Hlv
      iclear Hmw
      istop
      exact Entails.of_eq (bigSep_congr fun s _ => (shell_pts_tabS (UU := UU) d L _ tp).symm)
    iapply (Inv_zero_slots (UU := UU) d L q q' tp xt fo O W)
    isplitl [Hmw]; · iexact Hmw
    isplitl [HO]; · iexact HO
    isplitl [HF0]; · iexact HF0
    isplitl [HF1]; · iexact HF1
    isplitl [HF2]; · iexact HF2
    isplitl [HF3]; · iexact HF3
    isplitl [HF4]; · iexact HF4
    isplitl [Hidx]; · iexact Hidx
    isplitl [Hisem]; · iexact Hisem
    isplitl [Hhalf]; · iexact Hhalf
    isplitl [Hrows]; · iexact Hrows
    isplitl [Hgsem]; · iexact Hgsem
    isplitl [Htoks']; · iexact Htoks'
    isplitl [Hsel]; · iexact Hsel
    isplitl [Hwsem]; · iexact Hwsem
    isplitl [Hxch]; · iexact Hxch
    iexact Hout
  iintro %u HI
  ihave HI' : (Inv (UU := UU) d L q q' tp xt fo O W 204 u) $$ [HI]
  · iclear Hlv
    iclear Hmw
    istop
    exact Entails.of_eq (by rw [trips_eq'])
  ihave HL := (Inv_last_slots (UU := UU) d L q q' tp xt fo O W u) $$ HI'
  unfold Owes WFl
  icases HL with ⟨-, ⟨%W', %hW', HO⟩, ⟨%c1a, %c2a, HWa⟩, ⟨%c1b, %c2b, HWb⟩, Hidx, Hisem, Hhalf, Hrows, Hgsem, Htoks, Hxch, Hout⟩
  ihave HWa' : (Transfers.Flight (countersEmb (U := UU)) (V d (cV L) (jV L)) (SemLoc.dma wsemL0) (default : HIx 1) 262144
      iprop(((A4).view.loc (V d (cV L) (jV L)) ↦[Cert.Spec.chunkSet (200 * wid L + 198)]{fullShare} c1a) ∗ ((selC 198).view.loc (V d (cV L) (jV L)) ↦[(selC 198).view.set]{fullShare} c2a))) $$ [HWa]
  · iclear Hlv
    iclear Hmw
    istop
    exact Entails.of_eq rfl
  ihave HWb' : (Transfers.Flight (countersEmb (U := UU)) (V d (cV L) (jV L)) (SemLoc.dma wsemL1) (default : HIx 1) 262144
      iprop(((A4).view.loc (V d (cV L) (jV L)) ↦[Cert.Spec.chunkSet (200 * wid L + 199)]{fullShare} c1b) ∗ ((selC 199).view.loc (V d (cV L) (jV L)) ↦[(selC 199).view.set]{fullShare} c2b))) $$ [HWb]
  · iclear Hlv
    iclear Hmw
    istop
    exact Entails.of_eq rfl
  sl_exec_parts
  sl_step
  -- the packed table
  isplitl [Htab0 Htoks]
  · ihave Htoks' : (bigSep (Finset.range 5) fun s => (A2).view.loc (V d (cV L) (jV L)) ↦{Transfers.shareTokN q s} tp) $$ [Htoks]
    · iclear Hlv
      iclear Hmw
      istop
      exact Entails.of_eq (bigSep_congr fun s _ => shell_pts_tabS (UU := UU) d L _ tp)
    iapply (tab_toks (UU := UU) d L q tp).2
    isplitl [Htab0]; · iexact Htab0
    iexact Htoks'
  -- the transposed index array
  isplitl [Hxch Hxrest]
  · iapply (xt_chunks (UU := UU) d L q' xt).2
    isplitl [Hxch]; · iexact Hxch
    iexact Hxrest
  -- the output's chunks
  isplitl [Hout HWa'_dst HWb'_dst]
  · iapply (Entails.of_eq (shell_out_chunks_ex (UU := UU) d L).symm)
    iapply (Entails.of_eq (shell_out_last _).symm)
    isplitl [HWb'_dst]; · iexists c1b; iexact HWb'_dst
    isplitl [HWa'_dst]; · iexists c1a; iexact HWa'_dst
    iexact Hout
  -- the subcore's own buffers
  isplitl [Hidx Hhalf Hrows HWa'_src HWb'_src Hbrest]
  · iapply (scopedBufs_slots (F := F) (UU := UU) d L).2
    isplitl [Hidx]; · iexact Hidx
    isplitl [Hhalf]; · iexact Hhalf
    isplitl [Hrows]; · iexact Hrows
    isplitl [HWa'_src HWb'_src]
    · iapply (Entails.of_eq (shell_range_two _).symm)
      isplitl [HWa'_src]
      · iclear Hlv
        iclear Hmw
        istop
        refine BIBase.Entails.trans (show _ ⊢ ((selC 0).view.loc (V d (cV L) (jV L)) ↦[(selC 0).view.set]{fullShare} c2a : sProp 𝕄) from Entails.of_eq rfl) ?_
        iintro H
        iexists c2a
        iexact H
      · iclear Hlv
        iclear Hmw
        istop
        refine BIBase.Entails.trans (show _ ⊢ ((selC 1).view.loc (V d (cV L) (jV L)) ↦[(selC 1).view.set]{fullShare} c2b : sProp 𝕄) from Entails.of_eq rfl) ?_
        iintro H
        iexists c2b
        iexact H
    iexact Hbrest
  -- its semaphores
  isplitl [Hisem Hgsem HWa' HWb' Hsrest]
  · iapply (scopedSems0_cells (F := F) (UU := UU) d L).2
    isplitl [Hisem]; · iexact Hisem
    isplitl [Hgsem]; · iexact Hgsem
    isplitl [HWa' HWb']
    · iapply (Entails.of_eq (shell_range_two _).symm)
      isplitl [HWa']
      · iclear Hlv
        iclear Hmw
        istop
        exact (Entails.of_eq rfl : _ ⊢ (semVal ((V d (cV L) (jV L), SemLoc.dma (wsemC 0)) : GSem nD τ sig) 0 : sProp 𝕄))
      · iclear Hlv
        iclear Hmw
        istop
        exact (Entails.of_eq rfl : _ ⊢ (semVal ((V d (cV L) (jV L), SemLoc.dma (wsemC 1)) : GSem nD τ sig) 0 : sProp 𝕄))
    iexact Hsrest
  -- what the subcore owes
  iexists _
  isplitr
  rotate_left
  · iexact HO
  · ipureintro
    intro p hp
    rcases Finset.mem_insert.mp hp with hp | hp
    · subst hp; exact .inr rfl
    rcases Finset.mem_insert.mp hp with hp | hp
    · subst hp; exact .inr rfl
    exact hW' p hp

end Shell

end Cert.Proof.KBody
end
-- ==== Proof.BitLayout.lean ====
/-
  The two numbers the kernel computes from an index word, read as arithmetic on the word's value.

  The packed table stores table row `i` in packed row `16384 (i / 32768) + i % 16384`, at column offset
  `64 ((i / 16384) % 2)`. The kernel gets both from the bits of `i`:

  * shifting right by 15 drops the low 15 bits, leaving the quotient `i / 32768`; shifting that left by 14
    multiplies it by 16384. No bit is lost: for `i ≤ 999999` the quotient is at most 30.
  * masking with `32767 = 2^15 - 1` keeps the low 15 bits, the remainder `i % 32768`; masking that with
    `16383 = 2^14 - 1` keeps its low 14 bits, `i % 16384`.
  * the first number is a multiple of `2^14` and the second is below `2^14`, so they have no bit in common and
    their bitwise "or" is their sum.
  * bit 14 of `i` is `(i % 32768) / 16384`, which is `(i / 16384) % 2`; shifted left by 6 it is 0 or 64.
-/
import proofs.«206325_g16862041604593_cont_week2b_1534_42_alg».proof.Proof.Spec

namespace Cert.BitLayout

open Cert.Spec

/-! ## Masks and shifts on natural numbers -/

/-- Keeping the low 15 bits is the remainder by `2^15`. -/
theorem and_32767 (n : Nat) : n &&& 32767 = n % 32768 :=
  Nat.and_two_pow_sub_one_eq_mod n 15

/-- Keeping the low 14 bits is the remainder by `2^14`. -/
theorem and_16383 (n : Nat) : n &&& 16383 = n % 16384 :=
  Nat.and_two_pow_sub_one_eq_mod n 14

/-- Keeping the lowest bit is the remainder by 2. -/
theorem and_1 (n : Nat) : n &&& 1 = n % 2 :=
  Nat.and_two_pow_sub_one_eq_mod n 1

/-- Dropping the low 15 bits is the quotient by `2^15`. -/
theorem shr_15 (n : Nat) : n >>> 15 = n / 32768 :=
  Nat.shiftRight_eq_div_pow n 15

/-- Dropping the low 14 bits is the quotient by `2^14`. -/
theorem shr_14 (n : Nat) : n >>> 14 = n / 16384 :=
  Nat.shiftRight_eq_div_pow n 14

theorem shl_14 (n : Nat) : n <<< 14 = n * 16384 :=
  Nat.shiftLeft_eq n 14

theorem shl_6 (n : Nat) : n <<< 6 = n * 64 :=
  Nat.shiftLeft_eq n 6

/-- The packed row, on natural numbers: quotient times 16384 "or" the low 14 bits, the shift taken in 32 bits. -/
theorem row_nat (n : Nat) (h : n ≤ 999999) :
    (n >>> 15) <<< 14 % 2 ^ 32 ||| (n &&& 32767 &&& 16383) = packRow n := by
  have hb : n &&& 32767 &&& 16383 = n % 16384 := by
    rw [and_32767, and_16383]; omega
  have hb_lt : n % 16384 < 2 ^ 14 := by omega
  have hmod : (n / 32768) <<< 14 % 2 ^ 32 = (n / 32768) <<< 14 := by
    apply Nat.mod_eq_of_lt
    rw [shl_14]; omega
  rw [shr_15, hb, hmod, ← Nat.shiftLeft_add_eq_or_of_lt hb_lt, shl_14]
  unfold packRow; omega

/-- The same with the low 14 bits taken from the word at once: the two masks compose to one. -/
theorem row_nat' (n : Nat) (h : n ≤ 999999) :
    (n >>> 15) <<< 14 % 2 ^ 32 ||| (n &&& 16383) = packRow n := by
  have hb : n &&& 16383 = n &&& 32767 &&& 16383 := by
    rw [and_32767, and_16383, and_16383]; omega
  rw [hb]; exact row_nat n h

/-- The column offset, on natural numbers: bit 14 of the word, times 64. -/
theorem off_nat (n : Nat) :
    (((n &&& 32767) >>> 14) &&& 1) <<< 6 % 2 ^ 32 = packOff n := by
  rw [and_32767, shr_14, and_1, shl_6]
  unfold packOff; omega

/-! ## The same on 32-bit words -/

/-- The packed row as the kernel computes it: `((w >>> 15) <<< 14) ||| ((w &&& 32767) &&& 16383)`. -/
theorem row_word (w : BitVec 32) (h : w.toNat ≤ 999999) :
    (((w >>> 15) <<< 14) ||| ((w &&& 32767#32) &&& 16383#32)).toNat = packRow w.toNat := by
  rw [BitVec.toNat_or, BitVec.toNat_shiftLeft, BitVec.toNat_ushiftRight, BitVec.toNat_and,
    BitVec.toNat_and]
  exact row_nat w.toNat h

/-- The packed row with a single mask. -/
theorem row_word' (w : BitVec 32) (h : w.toNat ≤ 999999) :
    (((w >>> 15) <<< 14) ||| (w &&& 16383#32)).toNat = packRow w.toNat := by
  rw [BitVec.toNat_or, BitVec.toNat_shiftLeft, BitVec.toNat_ushiftRight, BitVec.toNat_and]
  exact row_nat' w.toNat h

/-- The column offset as the kernel computes it: `(((w &&& 32767) >>> 14) &&& 1) <<< 6`. It needs no bound on
    the word; the hypothesis is kept so that both statements are used the same way. -/
theorem off_word (w : BitVec 32) (_h : w.toNat ≤ 999999) :
    ((((w &&& 32767#32) >>> 14) &&& 1#32) <<< 6).toNat = packOff w.toNat := by
  rw [BitVec.toNat_shiftLeft, BitVec.toNat_and, BitVec.toNat_ushiftRight, BitVec.toNat_and]
  exact off_nat w.toNat

/-- Both numbers fit a 32-bit word, so a word is determined by them. -/
theorem packRow_lt_word {n : Nat} (h : n ≤ 999999) : packRow n < 2 ^ 32 := by
  unfold packRow; omega

theorem packOff_lt_word (n : Nat) : packOff n < 2 ^ 32 := by
  unfold packOff; omega

/-- The packed row as a word. -/
theorem row_word_eq (w : BitVec 32) (h : w.toNat ≤ 999999) :
    ((w >>> 15) <<< 14) ||| ((w &&& 32767#32) &&& 16383#32) = BitVec.ofNat 32 (packRow w.toNat) := by
  apply BitVec.eq_of_toNat_eq
  rw [row_word w h, BitVec.toNat_ofNat, Nat.mod_eq_of_lt (packRow_lt_word h)]

/-- The column offset as a word. -/
theorem off_word_eq (w : BitVec 32) (h : w.toNat ≤ 999999) :
    (((w &&& 32767#32) >>> 14) &&& 1#32) <<< 6 = BitVec.ofNat 32 (packOff w.toNat) := by
  apply BitVec.eq_of_toNat_eq
  rw [off_word w h, BitVec.toNat_ofNat, Nat.mod_eq_of_lt (packOff_lt_word _)]

end Cert.BitLayout
-- ==== Proof.LaneLayout.lean ====
/-
  The kernel's shifts and masks on a vector of index words, read one lane at a time.

  A vector operation applies the word operation in every lane, and a broadcast constant is that constant in
  every lane. A shift by a broadcast amount below 32 is the ordinary shift by that amount (an amount of 32 or
  more would be the machine's corner case; 15, 14 and 6 are not). So at lane `l` the row vector
  `((v >>> 15) <<< 14) ||| ((v &&& 32767) &&& 16383)` is the packed row of the word `v l`, and the offset
  vector `(((v &&& 32767) >>> 14) &&& 1) <<< 6` is its column offset. The statements hold at every shape of
  vector; the kernel uses 16 lanes.
-/
import Idealize.ShloMosaic.PureOps
import Idealize.ShloMosaic.Lib.ValueLayout
import proofs.«206325_g16862041604593_cont_week2b_1534_42_alg».proof.Proof.BitLayout

namespace Cert.LaneLayout

open Idealize.ShloMosaic Idealize.ShloMosaic.ValueIdx Cert.Spec

/-- The vectors the kernel computes on: 16 index words. -/
abbrev S16 : Shape := ⟨1, ![16]⟩
/-- The same as one row of a buffer. -/
abbrev S1x16 : Shape := ⟨2, ![1, 16]⟩

variable {s : Shape}

/-! ## One operation at one lane -/

/-- A broadcast constant is the constant in every lane. -/
theorem broadcast_lane {α : Type} (c : α) (l : s.Idx) : broadcast s c l = c := rfl

/-- A mask by a broadcast constant masks each lane. -/
theorem andi_lane (v : IVec s 32) (c : BitVec 32) (l : s.Idx) :
    andi v (broadcast s c) l = v l &&& c := rfl

/-- The "or" of two vectors is the "or" in each lane. -/
theorem ori_lane (x y : IVec s 32) (l : s.Idx) : ori x y l = x l ||| y l := rfl

/-- A logical right shift by a broadcast amount below 32 shifts each lane by that amount. -/
theorem shrui_lane (v : IVec s 32) (c : BitVec 32) (hc : c.toNat < 32) (l : s.Idx) :
    shrui v (broadcast s c) l = v l >>> c.toNat := by
  show IntOp.shrui .vector (v l) c = _
  unfold IntOp.shrui
  rw [if_pos hc]
  rfl

/-- A left shift by a broadcast amount below 32 shifts each lane by that amount. -/
theorem shli_lane (v : IVec s 32) (c : BitVec 32) (hc : c.toNat < 32) (l : s.Idx) :
    shli v (broadcast s c) l = v l <<< c.toNat := by
  show IntOp.shli .vector (v l) c = _
  unfold IntOp.shli
  rw [if_pos hc]
  rfl

/-! ## The kernel's two vectors at one lane -/

/-- The quotient part of the row: `(v >>> 15) <<< 14` at lane `l`. -/
theorem rowHigh_lane (v : IVec s 32) (l : s.Idx) :
    shli (shrui v (broadcast s 15#32)) (broadcast s 14#32) l = (v l >>> 15) <<< 14 := by
  rw [shli_lane _ _ (by decide), shrui_lane _ _ (by decide)]
  rfl

/-- The low 15 bits: `v &&& 32767` at lane `l`. -/
theorem low15_lane (v : IVec s 32) (l : s.Idx) :
    andi v (broadcast s 32767#32) l = v l &&& 32767#32 := rfl

/-- The row vector at lane `l` is the packed row of the word in that lane. -/
theorem row_lane (v : IVec s 32) (l : s.Idx) (h : (v l).toNat ≤ 999999) :
    ori (shli (shrui v (broadcast s 15#32)) (broadcast s 14#32))
        (andi (andi v (broadcast s 32767#32)) (broadcast s 16383#32)) l
      = BitVec.ofNat 32 (packRow (v l).toNat) := by
  rw [ori_lane, rowHigh_lane, andi_lane, andi_lane]
  exact BitLayout.row_word_eq (v l) h

/-- The same where the two halves were computed apart: `hi` the shifted quotient and `lo` the low 15 bits of
    one vector `v`, as the kernel's loop carries them. -/
theorem row_lane_split (v hi lo : IVec s 32) (l : s.Idx) (h : (v l).toNat ≤ 999999)
    (hhi : hi l = (v l >>> 15) <<< 14) (hlo : lo l = v l &&& 32767#32) :
    ori hi (andi lo (broadcast s 16383#32)) l = BitVec.ofNat 32 (packRow (v l).toNat) := by
  rw [ori_lane, andi_lane, hhi, hlo]
  exact BitLayout.row_word_eq (v l) h

/-- The offset vector at lane `l` is the column offset of the word in that lane. -/
theorem off_lane (v : IVec s 32) (l : s.Idx) (h : (v l).toNat ≤ 999999) :
    shli (andi (shrui (andi v (broadcast s 32767#32)) (broadcast s 14#32)) (broadcast s 1#32))
        (broadcast s 6#32) l
      = BitVec.ofNat 32 (packOff (v l).toNat) := by
  rw [shli_lane _ _ (by decide), andi_lane, shrui_lane _ _ (by decide), andi_lane]
  exact BitLayout.off_word_eq (v l) h

/-- The offset when the low 15 bits were computed apart. -/
theorem off_lane_split (v lo : IVec s 32) (l : s.Idx) (h : (v l).toNat ≤ 999999)
    (hlo : lo l = v l &&& 32767#32) :
    shli (andi (shrui lo (broadcast s 14#32)) (broadcast s 1#32)) (broadcast s 6#32) l
      = BitVec.ofNat 32 (packOff (v l).toNat) := by
  rw [shli_lane _ _ (by decide), andi_lane, shrui_lane _ _ (by decide), hlo]
  exact BitLayout.off_word_eq (v l) h

/-! ## The values as numbers -/

/-- The row vector's lane as a number. -/
theorem row_lane_toNat (v : IVec s 32) (l : s.Idx) (h : (v l).toNat ≤ 999999) :
    (ori (shli (shrui v (broadcast s 15#32)) (broadcast s 14#32))
        (andi (andi v (broadcast s 32767#32)) (broadcast s 16383#32)) l).toNat
      = packRow (v l).toNat := by
  rw [row_lane v l h, BitVec.toNat_ofNat, Nat.mod_eq_of_lt (BitLayout.packRow_lt_word h)]

/-- The offset vector's lane as a number. -/
theorem off_lane_toNat (v : IVec s 32) (l : s.Idx) (h : (v l).toNat ≤ 999999) :
    (shli (andi (shrui (andi v (broadcast s 32767#32)) (broadcast s 14#32)) (broadcast s 1#32))
        (broadcast s 6#32) l).toNat
      = packOff (v l).toNat := by
  rw [off_lane v l h, BitVec.toNat_ofNat, Nat.mod_eq_of_lt (BitLayout.packOff_lt_word _)]

end Cert.LaneLayout
-- ==== Proof.LanePayload.lean ====
/-
  The kernel's row and offset vectors read through the casts between a buffer row and a vector.

  The kernel loads 16 index words as a `[1, 16]` row of a buffer, casts the row to a 16-lane vector, computes on
  the lanes, and casts the result back to a `[1, 16]` row to store it. Both casts keep lane `l` at lane `l`, so
  entry `(0, l)` of the stored row is the packed row of entry `(0, l)` of the loaded row, and lane `l` of the
  offset vector is the column offset of that entry. A one-lane slice at `k` of a vector is its lane `k`.
-/
import Idealize.ShloMosaic.Lib.Pipeline.Value
import proofs.«206325_g16862041604593_cont_week2b_1534_42_alg».proof.Proof.LaneLayout

namespace Cert.LanePayload

open Idealize.ShloMosaic Idealize.ShloMosaic.ValueIdx Cert.Spec Cert.LaneLayout

/-- A one-lane vector. -/
abbrev S1 : Shape := ⟨1, ![1]⟩

/-- The cast of a buffer row to a vector, at lane `l`. -/
theorem rowToVec_apply {α : Type} (v : S1x16.Idx → α) (h1 : S1x16.ShapeCasts S16) (l : Fin 16) :
    shapeCast S16 v h1 (ix1 l) = v (ix2 (0 : Fin 1) l) :=
  shapeCast_1a_a_apply v h1 l

/-- The cast of a vector to a buffer row, at entry `(u, l)`. -/
theorem vecToRow_apply {α : Type} (x : S16.Idx → α) (h2 : S16.ShapeCasts S1x16) (u : Fin 1) (l : Fin 16) :
    shapeCast S1x16 x h2 (ix2 u l) = x (ix1 l) :=
  shapeCast_a_1a_apply x h2 u l

/-- A row cast to a vector and back is the row. -/
theorem rowToVecToRow {α : Type} (v : S1x16.Idx → α) (h1 : S1x16.ShapeCasts S16) (h2 : S16.ShapeCasts S1x16) :
    shapeCast S1x16 (shapeCast S16 v h1) h2 = v :=
  shapeCast_shapeCast v h1 h2

/-- The stored row of packed-row numbers: entry `(u, l)` is the packed row of the loaded word `(0, l)`. -/
theorem rowPayload_apply (v : IVec S1x16 32) (h1 : S1x16.ShapeCasts S16) (h2 : S16.ShapeCasts S1x16)
    (u : Fin 1) (l : Fin 16) (h : (v (ix2 (0 : Fin 1) l)).toNat ≤ 999999) :
    shapeCast S1x16
        (ori (shli (shrui (shapeCast S16 v h1) (broadcast S16 15#32)) (broadcast S16 14#32))
          (andi (andi (shapeCast S16 v h1) (broadcast S16 32767#32)) (broadcast S16 16383#32))) h2 (ix2 u l)
      = BitVec.ofNat 32 (packRow (v (ix2 (0 : Fin 1) l)).toNat) := by
  have e : shapeCast S16 v h1 (ix1 l) = v (ix2 (0 : Fin 1) l) := rowToVec_apply v h1 l
  rw [vecToRow_apply, row_lane _ _ (by rw [e]; exact h), e]

/-- The same where the two halves were computed apart and are carried as vectors of their own: `hi` the shifted
    quotient and `lo` the low 15 bits of one vector `w` of index words, lane by lane. -/
theorem rowSplitPayload_apply (w hi lo : IVec S16 32) (h2 : S16.ShapeCasts S1x16) (u : Fin 1) (l : Fin 16)
    (h : (w (ix1 l)).toNat ≤ 999999)
    (hhi : hi (ix1 l) = (w (ix1 l) >>> 15) <<< 14) (hlo : lo (ix1 l) = w (ix1 l) &&& 32767#32) :
    shapeCast S1x16 (ori hi (andi lo (broadcast S16 16383#32))) h2 (ix2 u l)
      = BitVec.ofNat 32 (packRow (w (ix1 l)).toNat) := by
  rw [vecToRow_apply]
  exact row_lane_split w hi lo (ix1 l) h hhi hlo

/-- The offset vector: lane `l` is the column offset of the loaded word `(0, l)`. -/
theorem offPayload_apply (v : IVec S1x16 32) (h1 : S1x16.ShapeCasts S16) (l : Fin 16)
    (h : (v (ix2 (0 : Fin 1) l)).toNat ≤ 999999) :
    shli (andi (shrui (andi (shapeCast S16 v h1) (broadcast S16 32767#32)) (broadcast S16 14#32))
        (broadcast S16 1#32)) (broadcast S16 6#32) (ix1 l)
      = BitVec.ofNat 32 (packOff (v (ix2 (0 : Fin 1) l)).toNat) := by
  have e : shapeCast S16 v h1 (ix1 l) = v (ix2 (0 : Fin 1) l) := rowToVec_apply v h1 l
  rw [off_lane _ _ (by rw [e]; exact h), e]

/-- A one-lane slice at `k` of a 16-lane vector is its lane `k`. -/
theorem lane_extract {α : Type} (x : S16.Idx → α) (k : Nat) (hk : k < 16) (h : S16.Slices ![k] S1) (u : Fin 1) :
    extractStridedSlice S1 ![k] x h (ix1 u) = x (ix1 (⟨k, hk⟩ : Fin 16)) :=
  extractStridedSlice_apply _ _ _ _ _ (fun ax => by
    match ax with
    | ⟨0, _⟩ =>
      have hu : u.val = 0 := by omega
      show k = k + u.val
      omega)

/-- A one-lane slice at `k` of a 16-lane vector, read at its one position, is lane `k` of the vector. -/
theorem extractAt_slice_lane {α : Type} (x : S16.Idx → α) (k : Nat) (hk : k < 16) (hs : S16.Slices ![k] S1)
    (hp : ∀ a, (![0] : Fin 1 → Nat) a < S1.size a) :
    extractAt ![0] (extractStridedSlice S1 ![k] x hs) hp = x (ix1 (⟨k, hk⟩ : Fin 16)) := by
  unfold extractAt
  exact extractStridedSlice_apply _ _ _ _ _ (fun ax => by
    match ax with
    | ⟨0, _⟩ =>
      show k = k + 0
      rfl)

end Cert.LanePayload
-- ==== Proof.LanePay.lean ====
/-
  The gather stage's stored rows and the select stage's offset vectors, as functions of the index words loaded.

  Each of the eight groups of 16 index words is loaded as a `[1, 16]` row `v`. The gather stage stores, for each
  group, the row of packed-row numbers `rowVec v`: entry `(0, l)` is the packed row of the word `v (0, l)`. The select
  stage computes, for each group, the offset vector `offVec v`: lane `l` is the column offset of the word `v (0, l)`.
  The program spells the eight groups' values through differently cut pieces (a cast here, the two halves of the
  row carried apart there); unfolded, all eight are the same two expressions.
-/
import proofs.«206325_g16862041604593_cont_week2b_1534_42_alg».proof.Proof.Gen.KernelIdeal.Skeleton
import proofs.«206325_g16862041604593_cont_week2b_1534_42_alg».proof.Proof.LanePayload

noncomputable section

namespace Cert.LanePay

open Idealize.ShloMosaic Idealize.ShloMosaic.ValueIdx Cert.Spec Cert.KernelIdeal Cert.KernelIdeal.Gen

variable {F : FTy → Type} [FloatOps F]

/-- The row of packed-row numbers of a loaded row of index words. -/
def rowVec (v : IVec S1x16 32) : IVec S1x16 32 :=
  shapeCast S1x16
    (ori (shli (shrui (shapeCast S16 v shapeCasts_S1x16_S16) (broadcast S16 15#32)) (broadcast S16 14#32))
      (andi (andi (shapeCast S16 v shapeCasts_S1x16_S16) (broadcast S16 32767#32)) (broadcast S16 16383#32)))
    shapeCasts_S16_S1x16

/-- The vector of column offsets of a loaded row of index words. -/
def offVec (v : IVec S1x16 32) : IVec S16 32 :=
  shli (andi (shrui (andi (shapeCast S16 v shapeCasts_S1x16_S16) (broadcast S16 32767#32)) (broadcast S16 14#32))
    (broadcast S16 1#32)) (broadcast S16 6#32)

/-- Entry `(u, l)` of the stored row is the packed row of the loaded word `(0, l)`. -/
theorem rowVec_apply (v : IVec S1x16 32) (u : Fin 1) (l : Fin 16)
    (h : (v (ix2 (0 : Fin 1) l)).toNat ≤ 999999) :
    rowVec v (ix2 u l) = BitVec.ofNat 32 (packRow (v (ix2 (0 : Fin 1) l)).toNat) :=
  LanePayload.rowPayload_apply v shapeCasts_S1x16_S16 shapeCasts_S16_S1x16 u l h

/-- Lane `l` of the offset vector is the column offset of the loaded word `(0, l)`. -/
theorem offVec_apply (v : IVec S1x16 32) (l : Fin 16) (h : (v (ix2 (0 : Fin 1) l)).toNat ≤ 999999) :
    offVec v (ix1 l) = BitVec.ofNat 32 (packOff (v (ix2 (0 : Fin 1) l)).toNat) :=
  LanePayload.offPayload_apply v shapeCasts_S1x16_S16 l h

/-- Lane `l` of the offset vector as a number: the column offset of the loaded word `(0, l)`. -/
theorem offVec_toNat (v : IVec S1x16 32) (l : Fin 16) (h : (v (ix2 (0 : Fin 1) l)).toNat ≤ 999999) :
    (offVec v (ix1 l)).toNat = packOff (v (ix2 (0 : Fin 1) l)).toNat := by
  rw [offVec_apply v l h, BitVec.toNat_ofNat, Nat.mod_eq_of_lt (BitLayout.packOff_lt_word _)]

/-! ## The gather stage: the eight stored rows -/

theorem pay1_eq (v : Vec F S1x16 .i32) : k1_pay1 v = rowVec v := rfl
theorem pay2_eq (v : Vec F S1x16 .i32) : k1_pay2 v = rowVec v := rfl
/-- Group 2: the low 15 bits and the shifted quotient are carried apart. -/
theorem pay6_eq (v : Vec F S1x16 .i32) : k1_pay6 (k1_pay4 v) (k1_pay5 v) = rowVec v := rfl
/-- Group 3: the row vector is carried whole and cast when stored. -/
theorem pay12_eq (v : Vec F S1x16 .i32) : k1_pay12 (k1_pay9 v) = rowVec v := rfl
theorem pay13_eq (v : Vec F S1x16 .i32) : k1_pay13 v = rowVec v := rfl
theorem pay14_eq (v : Vec F S1x16 .i32) : k1_pay14 v = rowVec v := rfl
theorem pay15_eq (v : Vec F S1x16 .i32) : k1_pay15 v = rowVec v := rfl
/-- Group 7: as group 2. -/
theorem pay19_eq (v : Vec F S1x16 .i32) : k1_pay19 (k1_pay17 v) (k1_pay18 v) = rowVec v := rfl

/-! ## The select stage: the eight offset vectors -/

theorem off0_eq (v : Vec F S1x16 .i32) : k1_pay20 v = offVec v := rfl
theorem off1_eq (v : Vec F S1x16 .i32) : k1_pay113 (k1_pay112 v) = offVec v := rfl
theorem off2_eq (v : Vec F S1x16 .i32) : k1_pay206 (k1_pay204 v) = offVec v := rfl
theorem off3_eq (v : Vec F S1x16 .i32) : k1_pay300 (k1_pay297 v) k1_pay299 = offVec v := rfl
theorem off4_eq (v : Vec F S1x16 .i32) : k1_pay394 (k1_pay393 v) = offVec v := rfl
theorem off5_eq (v : Vec F S1x16 .i32) : k1_pay488 (k1_pay486 v) = offVec v := rfl
theorem off6_eq (v : Vec F S1x16 .i32) : k1_pay583 (k1_pay580 v) = offVec v := rfl
theorem off7_eq (v : Vec F S1x16 .i32) : k1_pay675 (k1_pay674 v) = offVec v := rfl

/-! ## The word read for one lane -/

/-- The word the select stage reads for lane `k` of a group: lane `k` of the group's offset vector, the column
    offset of the loaded word `(0, k)`. Stated for any offset vector `x` equal to `offVec v`. -/
theorem laneWord_eq (v : IVec S1x16 32) (x : IVec S16 32) (hx : x = offVec v) (k : Nat) (hk : k < 16)
    (hs : S16.Slices ![k] S1) (hp : ∀ a, (![0] : Fin 1 → Nat) a < S1.size a)
    (h : (v (ix2 (0 : Fin 1) (⟨k, hk⟩ : Fin 16))).toNat ≤ 999999) :
    extractAt ![0] (extractStridedSlice S1 ![k] x hs) hp
      = BitVec.ofNat 32 (packOff (v (ix2 (0 : Fin 1) (⟨k, hk⟩ : Fin 16))).toNat) := by
  rw [LanePayload.extractAt_slice_lane x k hk hs hp, hx]
  exact offVec_apply v ⟨k, hk⟩ h

end Cert.LanePay
-- ==== Proof.KBodyHin.lean ====
/-
  The list of packed-row numbers the gather reads: what the subcore leaves in the list slot, and why every entry
  is a row of the packed table.

  Before it issues the gather for chunk `k`, the subcore rewrites slot `k % 5` of the list buffer: for each of the
  eight groups `q` of 16 index words of slot `k % 10` of the index buffer, it loads the group, computes the row of
  packed-row numbers, and stores it over columns `16 q … 16 q + 15` of the list slot. The eight stores cover the
  slot, and each store's entry `(0, l)` is the packed row of the index word at column `16 q + l`. So afterwards
  entry `x` of the list slot is the packed row of entry `x` of the index slot, whatever the list slot held before;
  and when every index word is at most 999999, every list entry is below 507904, the number of rows of the packed
  table.
-/
import proofs.«206325_g16862041604593_cont_week2b_1534_42_alg».proof.Proof.KBodyDefs
import proofs.«206325_g16862041604593_cont_week2b_1534_42_alg».proof.Proof.KBodyOff
import proofs.«206325_g16862041604593_cont_week2b_1534_42_alg».proof.Proof.LanePay
import Idealize.ShloMosaic.Lib.Writes

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)

variable [FloatOps F]

/-! ## The eight stores as a list of writes -/

section Hin

open Idealize.ShloMosaic.ValueIdx Cert.Spec

/-- The 16 index words a load through the whole index buffer at offsets `off` reads. -/
def idxLoad (off : Fin 2 → Nat) (inb : ∀ a, off a + S1x16.size a ≤ S10x128.size a)
    (fi : (A5).view.ty.Contents (Elt F)) : IVec S1x16 32 :=
  View.readAt (Elt F) (A5).view (Rect.unit (s := S10x128) off S1x16.size inb).toLoadRect fi

/-- One store of the stage: the packed rows of the 16 words loaded at `offI`, through the 16 columns at `offH`. -/
def halfPiece (offI : Fin 2 → Nat) (inbI : ∀ a, offI a + S1x16.size a ≤ S10x128.size a)
    (offH : Fin 2 → Nat) (inbH : ∀ a, offH a + S1x16.size a ≤ S5x128.size a)
    (fi : (A5).view.ty.Contents (Elt F)) : View.Piece (Elt F) S5x128 .i32 :=
  ⟨Rect.unit (s := S5x128) offH S1x16.size inbH, Cert.LanePay.rowVec (idxLoad offI inbI fi)⟩

/-- The eight stores, the last first. -/
def halfList (k : Fin k1_t1_loop.trips) (h1 : k1_cond1 k = 1#1) (fi : (A5).view.ty.Contents (Elt F)) :
    List (View.Piece (Elt F) S5x128 .i32) :=
  [halfPiece (k1_off19 k) (k1_off19_inb k h1) (k1_off20 k) (k1_off20_inb k h1) fi,
   halfPiece (k1_off17 k) (k1_off17_inb k h1) (k1_off18 k) (k1_off18_inb k h1) fi,
   halfPiece (k1_off15 k) (k1_off15_inb k h1) (k1_off16 k) (k1_off16_inb k h1) fi,
   halfPiece (k1_off13 k) (k1_off13_inb k h1) (k1_off14 k) (k1_off14_inb k h1) fi,
   halfPiece (k1_off11 k) (k1_off11_inb k h1) (k1_off12 k) (k1_off12_inb k h1) fi,
   halfPiece (k1_off9 k) (k1_off9_inb k h1) (k1_off10 k) (k1_off10_inb k h1) fi,
   halfPiece (k1_off7 k) (k1_off7_inb k h1) (k1_off8 k) (k1_off8_inb k h1) fi,
   halfPiece (k1_off5 k) (k1_off5_inb k h1) (k1_off6 k) (k1_off6_inb k h1) fi]

/-- The list buffer after the eight stores, over prior contents `fh`. -/
def halfAfter (d : Dev nD) (L : grid1.Coords) (k : Fin k1_t1_loop.trips) (h1 : k1_cond1 k = 1#1)
    (fi : Buf (Elt F) ((idxP2 k h1).view.loc (V d (cV L) (jV L))))
    (fh : Buf (Elt F) ((halfP22 k h1).view.loc (V d (cV L) (jV L)))) :
    Buf (Elt F) ((halfP22 k h1).view.loc (V d (cV L) (jV L))) :=
  (A6).view.writes (Elt F) fh (halfList k h1 fi)

/-! ### Indices -/

/-- Entry `x` of a 128-vector, matched with the `[1, 128]` row it was squeezed from, is entry `(0, x)`. -/
theorem squeeze_idx (h : S128.numel = S1x128.numel) (x : S128.Idx) :
    Shape.reshapeEquiv (s := S1x128) (s' := S128) h x = ix2 (n0 := 1) (n1 := 128) 0 (x 0) :=
  Shape.reshapeEquiv_eq_of_rowMajor h
    ((Shape.rowMajor_val_two (d := ![1, 128]) (ix2 (n0 := 1) (n1 := 128) 0 (x 0))).trans
      ((show (0 : Nat) * 128 + (x 0).val = (x 0).val by omega).trans
        (Shape.rowMajor_val_one (d := ![128]) x).symm))

/-- Entry `(a, b)` of a unit-stride rectangle of a matrix is the matrix's entry at the offsets plus `(a, b)`. -/
theorem unit_emb_ix2 {n0 n1 m0 m1 : Nat} (off : Fin 2 → Nat)
    (inb : ∀ c, off c + (![m0, m1] : Fin 2 → Nat) c ≤ (⟨2, ![n0, n1]⟩ : Shape).size c)
    (a : Fin m0) (b : Fin m1) (i : Fin n0) (j : Fin n1) (hi : i.val = off 0 + a.val) (hj : j.val = off 1 + b.val) :
    (Rect.unit (s := ⟨2, ![n0, n1]⟩) off ![m0, m1] inb).emb (ix2 a b) = ix2 i j := by
  funext c
  match c with
  | ⟨0, _⟩ => exact Fin.ext (by show off 0 + 1 * a.val = i.val; omega)
  | ⟨1, _⟩ => exact Fin.ext (by show off 1 + 1 * b.val = j.val; omega)

end Hin

section HinFacts

open Idealize.ShloMosaic.ValueIdx Cert.Spec

/-- What the list slot `k % 5` reads is row `k % 5` of the whole list buffer. -/
theorem half_read (k : Fin k1_t1_loop.trips) (h1 : k1_cond1 k = 1#1) (g : (A6).view.ty.Contents (Elt F)) (x : S128.Idx) :
    (halfP22 k h1).view.read (Elt F) g x
      = (A6).view.read (Elt F) g (ix2 (n0 := 5) (n1 := 128) ⟨k.val % 5, Nat.mod_lt _ (by decide)⟩ (x 0)) := by
  have e0 : (k1_off22 k) 0 = k.val % 5 := congrFun (k1_off22_eq k) 0
  have e1 : (k1_off22 k) 1 = 0 := congrFun (k1_off22_eq k) 1
  have hx : (halfP22 k h1).view.read (Elt F) g x
      = (A6).view.read (Elt F) g ((Rect.unit (s := S5x128) (k1_off22 k) S1x128.size (k1_off22_inb k h1)).emb
          (Shape.reshapeEquiv (s := S1x128) (s' := S128) squeezes_S1x128_S128.numel_eq x)) := rfl
  rw [hx, squeeze_idx]
  exact congrArg _ (unit_emb_ix2 (n0 := 5) (n1 := 128) (m0 := 1) (m1 := 128) (k1_off22 k) (k1_off22_inb k h1) 0 (x 0)
    ⟨k.val % 5, Nat.mod_lt _ (by decide)⟩ (x 0) (by show k.val % 5 = (k1_off22 k) 0 + 0; omega)
    (by show (x 0).val = (k1_off22 k) 1 + (x 0).val; omega))

/-- What the index slot `k % 10` reads is row `k % 10` of the whole index buffer. -/
theorem idx_read (k : Fin k1_t1_loop.trips) (h1 : k1_cond1 k = 1#1) (g : (A5).view.ty.Contents (Elt F)) (x : S128.Idx) :
    (idxP2 k h1).view.read (Elt F) g x
      = (A5).view.read (Elt F) g (ix2 (n0 := 10) (n1 := 128) ⟨k.val % 10, Nat.mod_lt _ (by decide)⟩ (x 0)) := by
  have e0 : (k1_off2 k) 0 = k.val % 10 := congrFun (k1_off2_eq k) 0
  have e1 : (k1_off2 k) 1 = 0 := congrFun (k1_off2_eq k) 1
  have hx : (idxP2 k h1).view.read (Elt F) g x
      = (A5).view.read (Elt F) g ((Rect.unit (s := S10x128) (k1_off2 k) S1x128.size (k1_off2_inb k h1)).emb
          (Shape.reshapeEquiv (s := S1x128) (s' := S128) squeezes_S1x128_S128.numel_eq x)) := rfl
  rw [hx, squeeze_idx]
  exact congrArg _ (unit_emb_ix2 (n0 := 10) (n1 := 128) (m0 := 1) (m1 := 128) (k1_off2 k) (k1_off2_inb k h1) 0 (x 0)
    ⟨k.val % 10, Nat.mod_lt _ (by decide)⟩ (x 0) (by show k.val % 10 = (k1_off2 k) 0 + 0; omega)
    (by show (x 0).val = (k1_off2 k) 1 + (x 0).val; omega))

/-- A 16-word load at row `j`, column `c` of the index buffer reads, at `(u, l)`, the buffer's entry `(j, c + l)`. -/
theorem idxLoad_apply (off : Fin 2 → Nat) (inb : ∀ a, off a + S1x16.size a ≤ S10x128.size a)
    (fi : (A5).view.ty.Contents (Elt F)) (u : Fin 1) (l : Fin 16) (i : Fin 10) (j : Fin 128)
    (hi : i.val = off 0) (hj : j.val = off 1 + l.val) :
    idxLoad off inb fi (ix2 u l) = (A5).view.read (Elt F) fi (ix2 (n0 := 10) (n1 := 128) i j) := by
  have hu : u.val = 0 := by omega
  have hx : idxLoad off inb fi (ix2 u l)
      = (A5).view.read (Elt F) fi ((Rect.unit (s := S10x128) off S1x16.size inb).emb (ix2 u l)) := rfl
  rw [hx]
  exact congrArg _ (unit_emb_ix2 (n0 := 10) (n1 := 128) (m0 := 1) (m1 := 16) off inb u l i j (by omega) hj)

/-- The table row an index word of row `k % 10` of the index buffer is stored as, by column. -/
def rowOfIdx (k : Fin k1_t1_loop.trips) (fi : (A5).view.ty.Contents (Elt F)) : S5x128.Idx → Elt F .i32 :=
  fun y => BitVec.ofNat 32 (packRow (BitVec.toNat ((A5).view.read (Elt F) fi
    (ix2 (n0 := 10) (n1 := 128) ⟨k.val % 10, Nat.mod_lt _ (by decide)⟩ (y 1)))))

/-- A property of every entry of a `[1, 16]` row, from the property by coordinates. -/
theorem forall_idx_1x16 {P : (⟨2, ![1, 16]⟩ : Shape).Idx → Prop} (h : ∀ (u : Fin 1) (l : Fin 16), P (ix2 u l)) : ∀ x, P x :=
  fun x => by rw [eq_ix2 x]; exact h _ _

/-- One store agrees with `rowOfIdx`: at the same column offset `c` in both buffers, row `k % 10` of the index
    buffer, when the index words of that row are at most 999999. -/
theorem halfPiece_ok (k : Fin k1_t1_loop.trips) (fi : (A5).view.ty.Contents (Elt F))
    (hfi : ∀ j : Fin 128, BitVec.toNat ((A5).view.read (Elt F) fi
      (ix2 (n0 := 10) (n1 := 128) ⟨k.val % 10, Nat.mod_lt _ (by decide)⟩ j)) ≤ 999999)
    (offI : Fin 2 → Nat) (inbI : ∀ a, offI a + S1x16.size a ≤ S10x128.size a)
    (offH : Fin 2 → Nat) (inbH : ∀ a, offH a + S1x16.size a ≤ S5x128.size a)
    (c : Nat) (hI0 : offI 0 = k.val % 10) (hI1 : offI 1 = c) (hH1 : offH 1 = c) (u : Fin 1) (l : Fin 16) :
    (halfPiece offI inbI offH inbH fi).2 (ix2 u l)
      = rowOfIdx k fi ((halfPiece offI inbI offH inbH fi).1.emb (ix2 u l)) := by
  have hcol : ((Rect.unit (s := S5x128) offH S1x16.size inbH).emb (ix2 u l) 1).val = c + l.val := by
    show offH 1 + 1 * l.val = c + l.val
    omega
  have hload : idxLoad offI inbI fi (ix2 (0 : Fin 1) l)
      = (A5).view.read (Elt F) fi (ix2 (n0 := 10) (n1 := 128) ⟨k.val % 10, Nat.mod_lt _ (by decide)⟩
          ((Rect.unit (s := S5x128) offH S1x16.size inbH).emb (ix2 u l) 1)) :=
    idxLoad_apply offI inbI fi 0 l _ _ hI0.symm (by rw [hcol, hI1])
  show Cert.LanePay.rowVec (idxLoad offI inbI fi) (ix2 u l)
    = BitVec.ofNat 32 (packRow (BitVec.toNat ((A5).view.read (Elt F) fi
        (ix2 (n0 := 10) (n1 := 128) ⟨k.val % 10, Nat.mod_lt _ (by decide)⟩
          ((Rect.unit (s := S5x128) offH S1x16.size inbH).emb (ix2 u l) 1)))))
  rw [Cert.LanePay.rowVec_apply _ u l (by rw [hload]; exact hfi _), hload]

/-- An entry of row `k % 5` whose column lies in the 16 columns from `c` is in the rectangle stored through at `(k % 5, c)`. -/
theorem mem_halfPiece (k : Fin k1_t1_loop.trips) (offH : Fin 2 → Nat) (inbH : ∀ a, offH a + S1x16.size a ≤ S5x128.size a)
    (c : Nat) (hH0 : offH 0 = k.val % 5) (hH1 : offH 1 = c) (j : Fin 128) (hlo : c ≤ j.val) (hhi : j.val < c + 16) :
    ix2 (n0 := 5) (n1 := 128) ⟨k.val % 5, Nat.mod_lt _ (by decide)⟩ j ∈ (Rect.unit (s := S5x128) offH S1x16.size inbH).set := by
  rw [Rect.mem_set_unit]
  intro a
  match a with
  | ⟨0, _⟩ =>
    show offH 0 ≤ k.val % 5 ∧ k.val % 5 < offH 0 + 1
    omega
  | ⟨1, _⟩ =>
    show offH 1 ≤ j.val ∧ j.val < offH 1 + 16
    omega

end HinFacts

section HinMain

open Idealize.ShloMosaic.ValueIdx Cert.Spec

/-- Every one of the eight stores agrees with `rowOfIdx`. -/
theorem halfList_ok (k : Fin k1_t1_loop.trips) (h1 : k1_cond1 k = 1#1) (fi : (A5).view.ty.Contents (Elt F))
    (hfi' : ∀ j : Fin 128, BitVec.toNat ((A5).view.read (Elt F) fi
      (ix2 (n0 := 10) (n1 := 128) ⟨k.val % 10, Nat.mod_lt _ (by decide)⟩ j)) ≤ 999999) :
    ∀ p ∈ halfList k h1 fi, ∀ x : p.1.shape.Idx, p.2 x = rowOfIdx k fi (p.1.emb x) := by
  intro p hp
  unfold halfList at hp
  simp only [List.mem_cons, List.not_mem_nil, or_false] at hp
  rcases hp with rfl | rfl | rfl | rfl | rfl | rfl | rfl | rfl
  · exact forall_idx_1x16 (fun u l => halfPiece_ok k fi hfi' (k1_off19 k) (k1_off19_inb k h1) (k1_off20 k) (k1_off20_inb k h1) 112
      (congrFun (k1_off19_eq k) 0) (congrFun (k1_off19_eq k) 1) (congrFun (k1_off20_eq k) 1) u l)
  · exact forall_idx_1x16 (fun u l => halfPiece_ok k fi hfi' (k1_off17 k) (k1_off17_inb k h1) (k1_off18 k) (k1_off18_inb k h1) 96
      (congrFun (k1_off17_eq k) 0) (congrFun (k1_off17_eq k) 1) (congrFun (k1_off18_eq k) 1) u l)
  · exact forall_idx_1x16 (fun u l => halfPiece_ok k fi hfi' (k1_off15 k) (k1_off15_inb k h1) (k1_off16 k) (k1_off16_inb k h1) 80
      (congrFun (k1_off15_eq k) 0) (congrFun (k1_off15_eq k) 1) (congrFun (k1_off16_eq k) 1) u l)
  · exact forall_idx_1x16 (fun u l => halfPiece_ok k fi hfi' (k1_off13 k) (k1_off13_inb k h1) (k1_off14 k) (k1_off14_inb k h1) 64
      (congrFun (k1_off13_eq k) 0) (congrFun (k1_off13_eq k) 1) (congrFun (k1_off14_eq k) 1) u l)
  · exact forall_idx_1x16 (fun u l => halfPiece_ok k fi hfi' (k1_off11 k) (k1_off11_inb k h1) (k1_off12 k) (k1_off12_inb k h1) 48
      (congrFun (k1_off11_eq k) 0) (congrFun (k1_off11_eq k) 1) (congrFun (k1_off12_eq k) 1) u l)
  · exact forall_idx_1x16 (fun u l => halfPiece_ok k fi hfi' (k1_off9 k) (k1_off9_inb k h1) (k1_off10 k) (k1_off10_inb k h1) 32
      (congrFun (k1_off9_eq k) 0) (congrFun (k1_off9_eq k) 1) (congrFun (k1_off10_eq k) 1) u l)
  · exact forall_idx_1x16 (fun u l => halfPiece_ok k fi hfi' (k1_off7 k) (k1_off7_inb k h1) (k1_off8 k) (k1_off8_inb k h1) 16
      (congrFun (k1_off7_eq k) 0) (congrFun (k1_off7_eq k) 1) (congrFun (k1_off8_eq k) 1) u l)
  · exact forall_idx_1x16 (fun u l => halfPiece_ok k fi hfi' (k1_off5 k) (k1_off5_inb k h1) (k1_off6 k) (k1_off6_inb k h1) 0
      (congrFun (k1_off5_eq k) 0) (congrFun (k1_off5_eq k) 1) (congrFun (k1_off6_eq k) 1) u l)

/-- The eight stores cover row `k % 5` of the list buffer. -/
theorem halfList_cover (k : Fin k1_t1_loop.trips) (h1 : k1_cond1 k = 1#1) (fi : (A5).view.ty.Contents (Elt F)) (j : Fin 128) :
    ∃ p ∈ halfList k h1 fi,
      ix2 (n0 := 5) (n1 := 128) ⟨k.val % 5, Nat.mod_lt _ (by decide)⟩ j ∈ p.1.set := by
  have hj := j.isLt
  unfold halfList
  by_cases c7 : 112 ≤ j.val
  · exact ⟨halfPiece (k1_off19 k) (k1_off19_inb k h1) (k1_off20 k) (k1_off20_inb k h1) fi, List.mem_cons_self,
      mem_halfPiece k (k1_off20 k) (k1_off20_inb k h1) 112 (congrFun (k1_off20_eq k) 0) (congrFun (k1_off20_eq k) 1) j c7 (by omega)⟩
  by_cases c6 : 96 ≤ j.val
  · exact ⟨halfPiece (k1_off17 k) (k1_off17_inb k h1) (k1_off18 k) (k1_off18_inb k h1) fi, (List.mem_cons_of_mem _ List.mem_cons_self),
      mem_halfPiece k (k1_off18 k) (k1_off18_inb k h1) 96 (congrFun (k1_off18_eq k) 0) (congrFun (k1_off18_eq k) 1) j c6 (by omega)⟩
  by_cases c5 : 80 ≤ j.val
  · exact ⟨halfPiece (k1_off15 k) (k1_off15_inb k h1) (k1_off16 k) (k1_off16_inb k h1) fi, (List.mem_cons_of_mem _ (List.mem_cons_of_mem _ List.mem_cons_self)),
      mem_halfPiece k (k1_off16 k) (k1_off16_inb k h1) 80 (congrFun (k1_off16_eq k) 0) (congrFun (k1_off16_eq k) 1) j c5 (by omega)⟩
  by_cases c4 : 64 ≤ j.val
  · exact ⟨halfPiece (k1_off13 k) (k1_off13_inb k h1) (k1_off14 k) (k1_off14_inb k h1) fi, (List.mem_cons_of_mem _ (List.mem_cons_of_mem _ (List.mem_cons_of_mem _ List.mem_cons_self))),
      mem_halfPiece k (k1_off14 k) (k1_off14_inb k h1) 64 (congrFun (k1_off14_eq k) 0) (congrFun (k1_off14_eq k) 1) j c4 (by omega)⟩
  by_cases c3 : 48 ≤ j.val
  · exact ⟨halfPiece (k1_off11 k) (k1_off11_inb k h1) (k1_off12 k) (k1_off12_inb k h1) fi, (List.mem_cons_of_mem _ (List.mem_cons_of_mem _ (List.mem_cons_of_mem _ (List.mem_cons_of_mem _ List.mem_cons_self)))),
      mem_halfPiece k (k1_off12 k) (k1_off12_inb k h1) 48 (congrFun (k1_off12_eq k) 0) (congrFun (k1_off12_eq k) 1) j c3 (by omega)⟩
  by_cases c2 : 32 ≤ j.val
  · exact ⟨halfPiece (k1_off9 k) (k1_off9_inb k h1) (k1_off10 k) (k1_off10_inb k h1) fi, (List.mem_cons_of_mem _ (List.mem_cons_of_mem _ (List.mem_cons_of_mem _ (List.mem_cons_of_mem _ (List.mem_cons_of_mem _ List.mem_cons_self))))),
      mem_halfPiece k (k1_off10 k) (k1_off10_inb k h1) 32 (congrFun (k1_off10_eq k) 0) (congrFun (k1_off10_eq k) 1) j c2 (by omega)⟩
  by_cases c1 : 16 ≤ j.val
  · exact ⟨halfPiece (k1_off7 k) (k1_off7_inb k h1) (k1_off8 k) (k1_off8_inb k h1) fi, (List.mem_cons_of_mem _ (List.mem_cons_of_mem _ (List.mem_cons_of_mem _ (List.mem_cons_of_mem _ (List.mem_cons_of_mem _ (List.mem_cons_of_mem _ List.mem_cons_self)))))),
      mem_halfPiece k (k1_off8 k) (k1_off8_inb k h1) 16 (congrFun (k1_off8_eq k) 0) (congrFun (k1_off8_eq k) 1) j c1 (by omega)⟩
  exact ⟨halfPiece (k1_off5 k) (k1_off5_inb k h1) (k1_off6 k) (k1_off6_inb k h1) fi, (List.mem_cons_of_mem _ (List.mem_cons_of_mem _ (List.mem_cons_of_mem _ (List.mem_cons_of_mem _ (List.mem_cons_of_mem _ (List.mem_cons_of_mem _ (List.mem_cons_of_mem _ List.mem_cons_self))))))),
    mem_halfPiece k (k1_off6 k) (k1_off6_inb k h1) 0 (congrFun (k1_off6_eq k) 0) (congrFun (k1_off6_eq k) 1) j (by omega) (by omega)⟩

/-- After the eight stores, entry `x` of the list slot is the packed row of entry `x` of the index slot. -/
theorem half_word (d : Dev nD) (L : grid1.Coords) (k : Fin k1_t1_loop.trips) (h1 : k1_cond1 k = 1#1)
    (fi : Buf (Elt F) ((idxP2 k h1).view.loc (V d (cV L) (jV L))))
    (fh : Buf (Elt F) ((halfP22 k h1).view.loc (V d (cV L) (jV L))))
    (hfi : ∀ x : S128.Idx, ((idxP2 k h1).view.read (Elt F) fi x).toNat ≤ 999999) (x : S128.Idx) :
    (halfP22 k h1).view.read (Elt F) (halfAfter d L k h1 fi fh) x
      = BitVec.ofNat 32 (packRow ((idxP2 k h1).view.read (Elt F) fi x).toNat) := by
  have hfi' : ∀ j : Fin 128, BitVec.toNat ((A5).view.read (Elt F) fi
      (ix2 (n0 := 10) (n1 := 128) ⟨k.val % 10, Nat.mod_lt _ (by decide)⟩ j)) ≤ 999999 := fun j => by
    have := hfi (ix1 j)
    rwa [idx_read] at this
  rw [half_read, idx_read]
  exact View.read_writes_apply_of_pieces (A6).view fh (rowOfIdx k fi) (halfList k h1 fi) (halfList_ok k h1 fi hfi') _
    (halfList_cover k h1 fi (x 0))

/-- So every entry of the list slot is a row of the packed table. -/
theorem hin_of_idx (d : Dev nD) (L : grid1.Coords) (k : Fin k1_t1_loop.trips) (h1 : k1_cond1 k = 1#1)
    (fi : Buf (Elt F) ((idxP2 k h1).view.loc (V d (cV L) (jV L))))
    (fh : Buf (Elt F) ((halfP22 k h1).view.loc (V d (cV L) (jV L))))
    (hfi : ∀ x : S128.Idx, ((idxP2 k h1).view.read (Elt F) fi x).toNat ≤ 999999) :
    ∀ x : S128.Idx, ((halfP22 k h1).view.read (Elt F) (halfAfter d L k h1 fi fh) x).toNat < 507904 := by
  intro x
  have hx := hfi x
  rw [half_word d L k h1 fi fh hfi x, BitVec.toNat_ofNat, Nat.mod_eq_of_lt (Cert.BitLayout.packRow_lt_word hx)]
  exact packRow_lt (by omega)

end HinMain

end Cert.Proof.KBody
end
-- ==== Proof.KBodyShellValue.lean ====
/-
  The SparseCore kernel's body with the value of its output: the shell around the loop.

  As for the frame, with what the copies deliver named. The five index chunks fetched before the loop land as the
  worker's chunks 0 to 4 of the transposed index array, word by word (the slice of chunk r is the array's history
  position g / 128 and batch positions 128 (g % 128) + b, g = 200 w + r); that is the loop's invariant with contents
  before trip 0. After the last trip the two write-backs still in flight deliver the lookup on chunks 198 and 199;
  the body waits for them, and a landed chunk that holds the lookup is the chunk at the lookup, so the worker's two
  hundred output chunks all end at the lookup of the two arguments.
-/
import proofs.«206325_g16862041604593_cont_week2b_1534_42_alg».proof.Proof.KBodyValueRegion
import proofs.«206325_g16862041604593_cont_week2b_1534_42_alg».proof.Proof.KBodyShell
import proofs.«206325_g16862041604593_cont_week2b_1534_42_alg».proof.Proof.KBodyHin
import Idealize.ShloMosaic.Lib.ValueIdx

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

section ShellValueHelpers
variable [FloatOps F] {UU : Type} [URA UU] [CountersIn UU]
set_option quotPrecheck false in
local notation "𝕄" => MT nD τ sig (HIx 1) (Elt F) ℕ UU ℕ
open Idealize.ShloMosaic.ValueIdx

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (x : IVec S16384x50 32) (tab : FVec F S1000000x64 .f32)
variable (O : CellTallies nD τ sig (HIx 1)) (W : Waits sig (HIx 1))

/-- A chunk fetched before the loop is in range: history position below 50, batch positions below 16384. -/
theorem chunk1_lt (r : Fin 5) (b : Nat) (hb : b < 128) :
    (200 * wid L + r.val) / 128 < 50 ∧ 128 * ((200 * wid L + r.val) % 128) + b < 16384 := by
  have hw := wid_lt L
  have hr := r.isLt
  omega

/-- What the slice of chunk r reads at y: the array's entry at history position g / 128, batch position
    128 (g % 128) + y, g = 200 w + r. -/
theorem xtL_read (r : Fin 5) (g : (A3).view.ty.Contents (Elt F)) (y : S128.Idx) :
    (xtL L r).view.read (Elt F) g y
      = (A3).view.read (Elt F) g (ix2 (n0 := 50) (n1 := 16384)
          ⟨(200 * wid L + r.val) / 128, (chunk1_lt L r (y 0).val (y 0).isLt).1⟩
          ⟨128 * ((200 * wid L + r.val) % 128) + (y 0).val, (chunk1_lt L r (y 0).val (y 0).isLt).2⟩) := by
  have e0 : (k1_off1 L (BitVec.ofNat 32 r.val)) 0 = (200 * wid L + r.val) / 128 := congrFun (off1_eq L r) 0
  have e1 : (k1_off1 L (BitVec.ofNat 32 r.val)) 1 = 128 * ((200 * wid L + r.val) % 128) := congrFun (off1_eq L r) 1
  have hx : (xtL L r).view.read (Elt F) g y
      = (A3).view.read (Elt F) g ((Rect.unit (s := S50x16384) (k1_off1 L (BitVec.ofNat 32 r.val)) S1x128.size (k1_off1_inb L r)).emb
          (Shape.reshapeEquiv (s := S1x128) (s' := S128) squeezes_S1x128_S128.numel_eq y)) := rfl
  rw [hx, squeeze_idx]
  exact congrArg _ (unit_emb_ix2 (n0 := 50) (n1 := 16384) (m0 := 1) (m1 := 128) (k1_off1 L (BitVec.ofNat 32 r.val)) (k1_off1_inb L r) 0 (y 0)
    ⟨_, (chunk1_lt L r (y 0).val (y 0).isLt).1⟩ ⟨_, (chunk1_lt L r (y 0).val (y 0).isLt).2⟩
    (by show (200 * wid L + r.val) / 128 = (k1_off1 L (BitVec.ofNat 32 r.val)) 0 + 0; omega)
    (by show 128 * ((200 * wid L + r.val) % 128) + (y 0).val = (k1_off1 L (BitVec.ofNat 32 r.val)) 1 + (y 0).val; omega))

/-- Chunk r read off the transposed index array is the worker's chunk r, word by word. -/
theorem shell_chunkWord_lit (r : Fin 5) (b : S128.Idx) :
    (xtL L r).view.read (Elt F) xt b = chunkWordOf d L xt r.val (b 0).val := by
  rw [xtL_read L r xt b]
  unfold chunkWordOf xtAt
  rw [dif_pos ⟨(chunk1_lt L r (b 0).val (b 0).isLt).1, (chunk1_lt L r (b 0).val (b 0).isLt).2⟩]
  rfl

/-- What a whole-slot copy lands in an index slot is the words copied. -/
theorem shell_idxIs_landed (u : Nat) (fi : Buf (Elt F) ((idxC u).view.loc (V d (cV L) (jV L)))) (w : S128.Idx → Elt F .i32)
    (hIs : ∀ b : S128.Idx, w b = chunkWordOf d L xt u (b 0).val) :
    IdxIs d L xt u ((idxC u).view.writes (Elt F) fi [⟨Rect.whole S128, w⟩]) := by
  intro b
  rw [View.read_writes_whole]
  exact hIs b

/-- A copy before the loop, issued: chunk r's index words on their way into slot r, with what lands named. -/
theorem shell_iflV_of_flight (r : Fin 5)
    (fi : Buf (Elt F) ((idxC r.val).view.loc (V d (cV L) (jV L)))) (w : S128.Idx → Elt F .i32) (hw : ∀ y, (w y).toNat ≤ 999999)
    (hIs : ∀ b : S128.Idx, w b = chunkWordOf d L xt r.val (b 0).val) :
    (Transfers.Flight (countersEmb (U := UU)) (V d (cV L) (jV L)) (SemLoc.dma (isemC r.val)) (default : HIx 1) 4096
        iprop(((idxC r.val).view.loc (V d (cV L) (jV L)) ↦[(idxC r.val).view.set]{fullShare} (idxC r.val).view.writes (Elt F) fi [⟨Rect.whole S128, w⟩])
          ∗ ((xtL L r).view.loc (V d (cV L) (jV L)) ↦[(xtL L r).view.set]{q'} xt)) : sProp 𝕄)
      ⊢ IFlV d L q' xt r.val := by
  unfold IFlV
  iintro H
  iexists _
  isplitr; · ipureintro; exact ⟨shell_landed_ok d L r.val fi w hw, shell_idxIs_landed d L xt r.val fi w hIs⟩
  iapply (Transfers.Flight_mono (countersEmb (U := UU)) (V d (cV L) (jV L)) (sep_mono .rfl (Entails.of_eq (shell_pts_xtL d L r q' xt)))) $$ H

/-- A landed write-back's chunk, holding the lookup there, is the chunk at the lookup. -/
theorem shell_outAt (u : Nat) (c : Buf (Elt F) ((A4).view.loc (V d (cV L) (jV L)))) (h : OutIs d L x tab u c) :
    ((A4).view.loc (V d (cV L) (jV L)) ↦[Cert.Spec.chunkSet (200 * wid L + u)]{fullShare} c : sProp 𝕄)
      ⊢ ((A4).view.loc (V d (cV L) (jV L)) ↦[Cert.Spec.chunkSet (200 * wid L + u)]{fullShare} Cert.Spec.lookupT x tab) :=
  Entails.of_eq (pointsTo_congr (fun i hi => h i hi))

/-- Before trip 0, from the pieces by kind. -/
theorem Inv_zeroV_slots :
    (iprop(Transfers.MayWaits (V d (cV L) (jV L)) (default : HIx 1) O ∗ owes (V d (cV L) (jV L)) O W
      ∗ IFlV d L q' xt 0 ∗ IFlV d L q' xt 1 ∗ IFlV d L q' xt 2 ∗ IFlV d L q' xt 3 ∗ IFlV d L q' xt 4
      ∗ (bigSep (Finset.Ico 5 10) fun j => iprop(∃ f, (idxC j).view.loc (V d (cV L) (jV L)) ↦[(idxC j).view.set]{fullShare} f))
      ∗ (bigSep (Finset.Ico 5 10) fun j => semVal (((V d (cV L) (jV L)), SemLoc.dma (isemC j)) : GSem nD τ sig) 0)
      ∗ (bigSep (Finset.range 5) fun j => iprop(∃ f, (halfC j).view.loc (V d (cV L) (jV L)) ↦[(halfC j).view.set]{fullShare} f))
      ∗ (bigSep (Finset.range 5) fun j => iprop(∃ f, (rowsC j).view.loc (V d (cV L) (jV L)) ↦[(rowsC j).view.set]{fullShare} f))
      ∗ (bigSep (Finset.range 5) fun j => semVal (((V d (cV L) (jV L)), SemLoc.dma (gsemC j)) : GSem nD τ sig) 0)
      ∗ (bigSep (Finset.range 5) fun s => (tabS).view.loc (V d (cV L) (jV L)) ↦[(tabS).view.set]{Transfers.shareTokN q s} tp)
      ∗ (bigSep (Finset.range 2) fun j => iprop(∃ f, (selC j).view.loc (V d (cV L) (jV L)) ↦[(selC j).view.set]{fullShare} f))
      ∗ (bigSep (Finset.range 2) fun j => semVal (((V d (cV L) (jV L)), SemLoc.dma (wsemC j)) : GSem nD τ sig) 0)
      ∗ (bigSep (Finset.Ico 5 200) fun t => (A3).view.loc (V d (cV L) (jV L)) ↦[xChunkSet (200 * wid L + t)]{q'} xt)
      ∗ (bigSep (Finset.range 200) fun t => (A4).view.loc (V d (cV L) (jV L)) ↦[Cert.Spec.chunkSet (200 * wid L + t)]{fullShare} fo)) : sProp 𝕄)
      ⊢ InvV d L q q' tp xt fo x tab O W 0 () := by
  iintro ⟨Hmw, HO, H0, H1, H2, H3, H4, Hidx, Hisem, Hhalf, Hrows, Hgsem, Htok, Hsel, Hwsem, HX, HOI⟩
  iapply (Inv_zeroV d L q q' tp xt fo x tab O W)
  rw [GFree_fam d L q tp, WFree_fam d L (Finset.range 2)]
  isplitl [Hmw]; · iexact Hmw
  isplitl [HO]
  · unfold Owes
    iexists W
    isplitr; · ipureintro; exact fun p hp => Or.inl hp
    iexact HO
  isplitl [H0 H1 H2 H3 H4]
  · iapply (rpush_ent (IFlV d L q' xt) (r := 4) (r' := 5) rfl); isplitl [H4]; · iexact H4
    iapply (rpush_ent (IFlV d L q' xt) (r := 3) (r' := 4) rfl); isplitl [H3]; · iexact H3
    iapply (rpush_ent (IFlV d L q' xt) (r := 2) (r' := 3) rfl); isplitl [H2]; · iexact H2
    iapply (rpush_ent (IFlV d L q' xt) (r := 1) (r' := 2) rfl); isplitl [H1]; · iexact H1
    iapply (rpush_ent (IFlV d L q' xt) (r := 0) (r' := 1) rfl); isplitl [H0]; · iexact H0
    rw [Finset.range_zero, bigSep_empty]; iempintro
  isplitl [Hidx Hisem]
  · iapply (show (bigSep (Finset.Ico 5 10) (IFree d L) : sProp 𝕄) ⊢ bigSep (Finset.Ico 5 10) (ILoadedV d L xt) from
      BI.bigSep_mono fun v hv => ILoadedV_of_free d L xt v (by have := Finset.mem_Ico.mp hv; omega))
    rw [IFree_fam d L (Finset.Ico 5 10)]
    isplitl [Hisem]; · iexact Hisem
    iexact Hidx
  isplitl [Hhalf Hrows Hgsem Htok]
  · isplitl [Hgsem]; · iexact Hgsem
    isplitl [Hrows]; · iexact Hrows
    isplitl [Hhalf]; · iexact Hhalf
    iexact Htok
  isplitl [Hsel Hwsem]
  · isplitl [Hwsem]; · iexact Hwsem
    iexact Hsel
  isplitl [HX]; · iexact HX
  iexact HOI

/-- After the last trip, to the pieces by kind: the last two write-backs in flight apart (what they deliver is the
    lookup on their chunks), every other slot's buffer and semaphore, the table's five tokens, every index chunk
    at home, all but the last two output chunks at the lookup. -/
theorem Inv_lastV_slots (u : Unit) :
    InvV d L q q' tp xt fo x tab O W 204 u ⊢ (iprop(Transfers.MayWaits (V d (cV L) (jV L)) (default : HIx 1) O ∗ Owes d L O W
      ∗ WFlV d L x tab 198 ∗ WFlV d L x tab 199
      ∗ (bigSep (Finset.range 10) fun j => iprop(∃ f, (idxC j).view.loc (V d (cV L) (jV L)) ↦[(idxC j).view.set]{fullShare} f))
      ∗ (bigSep (Finset.range 10) fun j => semVal (((V d (cV L) (jV L)), SemLoc.dma (isemC j)) : GSem nD τ sig) 0)
      ∗ (bigSep (Finset.range 5) fun j => iprop(∃ f, (halfC j).view.loc (V d (cV L) (jV L)) ↦[(halfC j).view.set]{fullShare} f))
      ∗ (bigSep (Finset.range 5) fun j => iprop(∃ f, (rowsC j).view.loc (V d (cV L) (jV L)) ↦[(rowsC j).view.set]{fullShare} f))
      ∗ (bigSep (Finset.range 5) fun j => semVal (((V d (cV L) (jV L)), SemLoc.dma (gsemC j)) : GSem nD τ sig) 0)
      ∗ (bigSep (Finset.range 5) fun s => (tabS).view.loc (V d (cV L) (jV L)) ↦[(tabS).view.set]{Transfers.shareTokN q s} tp)
      ∗ (bigSep (Finset.range 200) fun t => (A3).view.loc (V d (cV L) (jV L)) ↦[xChunkSet (200 * wid L + t)]{q'} xt)
      ∗ (bigSep (Finset.range 198) (OutDoneV d L x tab))) : sProp 𝕄) := by
  cases u
  iintro H
  ihave H' := (Inv_lastV d L q q' tp xt fo x tab O W) $$ H
  icases H' with ⟨Hmw, How, HIL, HGF, Hw198, Hw199, HX, HOD⟩
  ihave HIF := (show (bigSep (Finset.Ico 200 210) (ILoadedV d L xt) : sProp 𝕄) ⊢ bigSep (Finset.Ico 200 210) (IFree d L) from
      BI.bigSep_mono fun v _ => ILoadedV_free d L xt v) $$ HIL
  ihave HIF' := (Entails.of_eq ((IFree_reindex d L).trans (IFree_fam d L (Finset.range 10)))) $$ HIF
  icases HIF' with ⟨Hisem, Hidx⟩
  ihave HGF' := (Entails.of_eq ((GFree_reindex d L q tp).trans (GFree_fam d L q tp))) $$ HGF
  icases HGF' with ⟨Hgsem, Hrows, Hhalf, Htok⟩
  isplitl [Hmw]; · iexact Hmw
  isplitl [How]; · iexact How
  isplitl [Hw198]; · iexact Hw198
  isplitl [Hw199]; · iexact Hw199
  isplitl [Hidx]; · iexact Hidx
  isplitl [Hisem]; · iexact Hisem
  isplitl [Hhalf]; · iexact Hhalf
  isplitl [Hrows]; · iexact Hrows
  isplitl [Hgsem]; · iexact Hgsem
  isplitl [Htok]; · iexact Htok
  isplitl [HX]; · iexact HX
  iexact HOD

end ShellValueHelpers

section ShellV
variable {UU : Type} [URA UU] [CountersIn UU]
set_option quotPrecheck false in
local notation "𝕄" => MT nD τ sig (HIx 1) (Elt F) ℕ UU ℕ
open Idealize.ShloMosaic.ValueIdx

variable [FloatOps F]

set_option maxHeartbeats 40000000 in
set_option maxRecDepth 65536 in
theorem tile_body_shellV (d : Dev nD) (L : grid1.Coords) (q q' : PosShare TreeShare)
    (tab : FVec F S1000000x64 .f32) (x : IVec S16384x50 32)
    (tp : Buf (Elt F) (tabLoc d)) (xt : Buf (Elt F) (xtLoc d)) (fo : Buf (Elt F) (outLoc d))
    (hx : ∀ j, (x j).toNat ≤ 999999)
    (hxt : ∀ (h : Fin 50) (b : Fin 16384), xt (ix2 h b) = x (ix2 b h))
    (hpack : Cert.Spec.PackOK tab tp)
    (O : CellTallies nD τ sig (HIx 1)) (W : Waits sig (HIx 1)) (hO : ∀ g, O g none = 0)
    (region : ∀ (v2 : BitVec 32) (k : Fin k1_t1_loop.trips) (acc : Unit),
      InvV (UU := UU) d L q q' tp xt fo x tab O W k.val acc
        ⊢ wp (M := 𝕄) frame (wpE (defs₀ (F := F)) 𝒱₀ (V d (cV L) (jV L)) none) Set.univ
            (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32 k acc)
            (InvV (UU := UU) d L q q' tp xt fo x tab O W (k.val + 1))) :
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * wid L + t.val)]{fullShare} fo)
        ∗ scopedBufs (V d (cV L) (jV L)) ∗ scopedSems0 (V d (cV L) (jV L)) ∗ owes (V d (cV L) (jV L)) O W)
      ⊢ wp (M := 𝕄) frame (wpE (defs₀ (F := F)) 𝒱₀ (V d (cV L) (jV L)) none) Set.univ
          (cc1_k L A2 (Memref.isWhole_whole _) A3 (Memref.isWhole_whole _) A4 (Memref.isWhole_whole _) A5 (Memref.isWhole_whole _)
            A6 (Memref.isWhole_whole _) A7 (Memref.isWhole_whole _) A8 (Memref.isWhole_whole _) cc1_scratch4 cc1_scratch5 cc1_scratch6)
          fun _ => iprop((tabLoc d ↦{q} tp) ∗ (xtLoc d ↦{q'} xt)
            ∗ (bigSep (Finset.univ : Finset (Fin 200)) fun t => outLoc d ↦[Cert.Spec.chunkSet (200 * wid L + t.val)]{fullShare} Cert.Spec.lookupT x tab)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [out_chunks (UU := UU) d L fo]
  iintro ⟨#Hlv, Htab, Hxt, Hout, Hsb, Hss, HO⟩
  ihave Hmw := ((K (F := F)).mayWaits_none (thr := V d (cV L) (jV L)) hO) $$ Hlv
  ihave Htab' := (tab_toks (UU := UU) d L q tp).1 $$ Htab
  icases Htab' with ⟨Htab0, Htoks⟩
  ihave Hxt' := (xt_chunks (UU := UU) d L q' xt).1 $$ Hxt
  icases Hxt' with ⟨Hxch, Hxrest⟩
  ihave Hsb' := (scopedBufs_slots (F := F) (UU := UU) d L).1 $$ Hsb
  icases Hsb' with ⟨Hidx, Hhalf, Hrows, Hsel, Hbrest⟩
  ihave Hss' := (scopedSems0_cells (F := F) (UU := UU) d L).1 $$ Hss
  icases Hss' with ⟨Hisem, Hgsem, Hwsem, Hsrest⟩
  -- the five slots, cells and chunks the copies before the loop name
  ihave Hidx' := (Entails.of_eq (shell_range_take5 10 (by decide) _)) $$ Hidx
  icases Hidx' with ⟨⟨%fi0, HI0⟩, ⟨%fi1, HI1⟩, ⟨%fi2, HI2⟩, ⟨%fi3, HI3⟩, ⟨%fi4, HI4⟩, Hidx⟩
  ihave Hisem' := (Entails.of_eq (shell_range_take5 10 (by decide) _)) $$ Hisem
  icases Hisem' with ⟨HS0, HS1, HS2, HS3, HS4, Hisem⟩
  ihave Hxch' := (Entails.of_eq (shell_range_take5 200 (by decide) _)) $$ Hxch
  icases Hxch' with ⟨HX0, HX1, HX2, HX3, HX4, Hxch⟩
  ihave HI0 := (show ((idxC 0).view.loc (V d (cV L) (jV L)) ↦[(idxC 0).view.set]{fullShare} fi0 : sProp 𝕄) ⊢ ((idxL0).view.loc (V d (cV L) (jV L)) ↦[(idxL0).view.set]{fullShare} fi0) from Entails.of_eq rfl) $$ HI0
  ihave HS0 := (show (semVal ((V d (cV L) (jV L), SemLoc.dma (isemC 0)) : GSem nD τ sig) 0 : sProp 𝕄) ⊢ semVal ((V d (cV L) (jV L), SemLoc.dma isemL0) : GSem nD τ sig) 0 from Entails.of_eq rfl) $$ HS0
  ihave HX0 := (Entails.of_eq (shell_pts_xtL (UU := UU) d L (0 : Fin 5) q' xt).symm) $$ HX0
  ihave HI1 := (show ((idxC 1).view.loc (V d (cV L) (jV L)) ↦[(idxC 1).view.set]{fullShare} fi1 : sProp 𝕄) ⊢ ((idxL1).view.loc (V d (cV L) (jV L)) ↦[(idxL1).view.set]{fullShare} fi1) from Entails.of_eq rfl) $$ HI1
  ihave HS1 := (show (semVal ((V d (cV L) (jV L), SemLoc.dma (isemC 1)) : GSem nD τ sig) 0 : sProp 𝕄) ⊢ semVal ((V d (cV L) (jV L), SemLoc.dma isemL1) : GSem nD τ sig) 0 from Entails.of_eq rfl) $$ HS1
  ihave HX1 := (Entails.of_eq (shell_pts_xtL (UU := UU) d L (1 : Fin 5) q' xt).symm) $$ HX1
  ihave HI2 := (show ((idxC 2).view.loc (V d (cV L) (jV L)) ↦[(idxC 2).view.set]{fullShare} fi2 : sProp 𝕄) ⊢ ((idxL2).view.loc (V d (cV L) (jV L)) ↦[(idxL2).view.set]{fullShare} fi2) from Entails.of_eq rfl) $$ HI2
  ihave HS2 := (show (semVal ((V d (cV L) (jV L), SemLoc.dma (isemC 2)) : GSem nD τ sig) 0 : sProp 𝕄) ⊢ semVal ((V d (cV L) (jV L), SemLoc.dma isemL2) : GSem nD τ sig) 0 from Entails.of_eq rfl) $$ HS2
  ihave HX2 := (Entails.of_eq (shell_pts_xtL (UU := UU) d L (2 : Fin 5) q' xt).symm) $$ HX2
  ihave HI3 := (show ((idxC 3).view.loc (V d (cV L) (jV L)) ↦[(idxC 3).view.set]{fullShare} fi3 : sProp 𝕄) ⊢ ((idxL3).view.loc (V d (cV L) (jV L)) ↦[(idxL3).view.set]{fullShare} fi3) from Entails.of_eq rfl) $$ HI3
  ihave HS3 := (show (semVal ((V d (cV L) (jV L), SemLoc.dma (isemC 3)) : GSem nD τ sig) 0 : sProp 𝕄) ⊢ semVal ((V d (cV L) (jV L), SemLoc.dma isemL3) : GSem nD τ sig) 0 from Entails.of_eq rfl) $$ HS3
  ihave HX3 := (Entails.of_eq (shell_pts_xtL (UU := UU) d L (3 : Fin 5) q' xt).symm) $$ HX3
  ihave HI4 := (show ((idxC 4).view.loc (V d (cV L) (jV L)) ↦[(idxC 4).view.set]{fullShare} fi4 : sProp 𝕄) ⊢ ((idxL4).view.loc (V d (cV L) (jV L)) ↦[(idxL4).view.set]{fullShare} fi4) from Entails.of_eq rfl) $$ HI4
  ihave HS4 := (show (semVal ((V d (cV L) (jV L), SemLoc.dma (isemC 4)) : GSem nD τ sig) 0 : sProp 𝕄) ⊢ semVal ((V d (cV L) (jV L), SemLoc.dma isemL4) : GSem nD τ sig) 0 from Entails.of_eq rfl) $$ HS4
  ihave HX4 := (Entails.of_eq (shell_pts_xtL (UU := UU) d L (4 : Fin 5) q' xt).symm) $$ HX4
  sl_exec_parts
  sl_for (InvV (UU := UU) d L q q' tp xt fo x tab O W) $$ [Hmw HO HS0 HS1 HS2 HS3 HS4 Hidx Hisem Hhalf Hrows Hgsem Htoks Hsel Hwsem Hxch Hout]
  case region =>
    intro k acc
    exact region _ k acc
  · have hle : ∀ j : S50x16384.Idx, (xt j).toNat ≤ 999999 := fun j =>
      le_of_eq_of_le (congrArg (fun i => (xt i).toNat) (eq_ix2 j)) (le_of_eq_of_le (congrArg BitVec.toNat (hxt (j 0) (j 1))) (hx _))
    ihave HF0 : IFlV d L q' xt 0 $$ [HS0]
    · iclear Hlv
      iclear Hmw
      istop
      exact shell_iflV_of_flight (UU := UU) d L q' xt (0 : Fin 5) fi0 _ (fun y => shell_read_xtL_le (F := F) d L (0 : Fin 5) xt hle y) (fun b => shell_chunkWord_lit (F := F) d L xt (0 : Fin 5) b)
    ihave HF1 : IFlV d L q' xt 1 $$ [HS1]
    · iclear Hlv
      iclear Hmw
      istop
      exact shell_iflV_of_flight (UU := UU) d L q' xt (1 : Fin 5) fi1 _ (fun y => shell_read_xtL_le (F := F) d L (1 : Fin 5) xt hle y) (fun b => shell_chunkWord_lit (F := F) d L xt (1 : Fin 5) b)
    ihave HF2 : IFlV d L q' xt 2 $$ [HS2]
    · iclear Hlv
      iclear Hmw
      istop
      exact shell_iflV_of_flight (UU := UU) d L q' xt (2 : Fin 5) fi2 _ (fun y => shell_read_xtL_le (F := F) d L (2 : Fin 5) xt hle y) (fun b => shell_chunkWord_lit (F := F) d L xt (2 : Fin 5) b)
    ihave HF3 : IFlV d L q' xt 3 $$ [HS3]
    · iclear Hlv
      iclear Hmw
      istop
      exact shell_iflV_of_flight (UU := UU) d L q' xt (3 : Fin 5) fi3 _ (fun y => shell_read_xtL_le (F := F) d L (3 : Fin 5) xt hle y) (fun b => shell_chunkWord_lit (F := F) d L xt (3 : Fin 5) b)
    ihave HF4 : IFlV d L q' xt 4 $$ [HS4]
    · iclear Hlv
      iclear Hmw
      istop
      exact shell_iflV_of_flight (UU := UU) d L q' xt (4 : Fin 5) fi4 _ (fun y => shell_read_xtL_le (F := F) d L (4 : Fin 5) xt hle y) (fun b => shell_chunkWord_lit (F := F) d L xt (4 : Fin 5) b)
    ihave Htoks' : (bigSep (Finset.range 5) fun s => (tabS).view.loc (V d (cV L) (jV L)) ↦[(tabS).view.set]{Transfers.shareTokN q s} tp) $$ [Htoks]
    · iclear Hlv
      iclear Hmw
      istop
      exact Entails.of_eq (bigSep_congr fun s _ => (shell_pts_tabS (UU := UU) d L _ tp).symm)
    iapply (Inv_zeroV_slots (UU := UU) d L q q' tp xt fo x tab O W)
    isplitl [Hmw]; · iexact Hmw
    isplitl [HO]; · iexact HO
    isplitl [HF0]; · iexact HF0
    isplitl [HF1]; · iexact HF1
    isplitl [HF2]; · iexact HF2
    isplitl [HF3]; · iexact HF3
    isplitl [HF4]; · iexact HF4
    isplitl [Hidx]; · iexact Hidx
    isplitl [Hisem]; · iexact Hisem
    isplitl [Hhalf]; · iexact Hhalf
    isplitl [Hrows]; · iexact Hrows
    isplitl [Hgsem]; · iexact Hgsem
    isplitl [Htoks']; · iexact Htoks'
    isplitl [Hsel]; · iexact Hsel
    isplitl [Hwsem]; · iexact Hwsem
    isplitl [Hxch]; · iexact Hxch
    iexact Hout
  iintro %u HI
  ihave HI' : (InvV (UU := UU) d L q q' tp xt fo x tab O W 204 u) $$ [HI]
  · iclear Hlv
    iclear Hmw
    istop
    exact Entails.of_eq (by rw [trips_eq'])
  ihave HL := (Inv_lastV_slots (UU := UU) d L q q' tp xt fo x tab O W u) $$ HI'
  unfold Owes WFlV
  icases HL with ⟨-, ⟨%W', %hW', HO⟩, ⟨%c1a, %c2a, %hOa, HWa⟩, ⟨%c1b, %c2b, %hOb, HWb⟩, Hidx, Hisem, Hhalf, Hrows, Hgsem, Htoks, Hxch, Hout⟩
  ihave HWa' : (Transfers.Flight (countersEmb (U := UU)) (V d (cV L) (jV L)) (SemLoc.dma wsemL0) (default : HIx 1) 262144
      iprop(((A4).view.loc (V d (cV L) (jV L)) ↦[Cert.Spec.chunkSet (200 * wid L + 198)]{fullShare} c1a) ∗ ((selC 198).view.loc (V d (cV L) (jV L)) ↦[(selC 198).view.set]{fullShare} c2a))) $$ [HWa]
  · iclear Hlv
    iclear Hmw
    istop
    exact Entails.of_eq rfl
  ihave HWb' : (Transfers.Flight (countersEmb (U := UU)) (V d (cV L) (jV L)) (SemLoc.dma wsemL1) (default : HIx 1) 262144
      iprop(((A4).view.loc (V d (cV L) (jV L)) ↦[Cert.Spec.chunkSet (200 * wid L + 199)]{fullShare} c1b) ∗ ((selC 199).view.loc (V d (cV L) (jV L)) ↦[(selC 199).view.set]{fullShare} c2b))) $$ [HWb]
  · iclear Hlv
    iclear Hmw
    istop
    exact Entails.of_eq rfl
  sl_exec_parts
  sl_step
  -- the packed table
  isplitl [Htab0 Htoks]
  · ihave Htoks' : (bigSep (Finset.range 5) fun s => (A2).view.loc (V d (cV L) (jV L)) ↦{Transfers.shareTokN q s} tp) $$ [Htoks]
    · iclear Hlv
      iclear Hmw
      istop
      exact Entails.of_eq (bigSep_congr fun s _ => shell_pts_tabS (UU := UU) d L _ tp)
    iapply (tab_toks (UU := UU) d L q tp).2
    isplitl [Htab0]; · iexact Htab0
    iexact Htoks'
  -- the transposed index array
  isplitl [Hxch Hxrest]
  · iapply (xt_chunks (UU := UU) d L q' xt).2
    isplitl [Hxch]; · iexact Hxch
    iexact Hxrest
  -- the output's chunks
  isplitl [Hout HWa'_dst HWb'_dst]
  · ihave Hout' : (bigSep (Finset.range 198) fun t => (A4).view.loc (V d (cV L) (jV L)) ↦[Cert.Spec.chunkSet (200 * wid L + t)]{fullShare} Cert.Spec.lookupT x tab) $$ [Hout]
    · iclear Hlv
      iclear Hmw
      istop
      exact Entails.of_eq rfl
    iapply (Entails.of_eq (out_chunks (UU := UU) d L (Cert.Spec.lookupT x tab)).symm)
    iapply (Entails.of_eq (shell_out_last _).symm)
    isplitl [HWb'_dst]; · iapply (shell_outAt (UU := UU) d L x tab 199 c1b hOb); iexact HWb'_dst
    isplitl [HWa'_dst]; · iapply (shell_outAt (UU := UU) d L x tab 198 c1a hOa); iexact HWa'_dst
    iexact Hout'
  -- the subcore's own buffers
  isplitl [Hidx Hhalf Hrows HWa'_src HWb'_src Hbrest]
  · iapply (scopedBufs_slots (F := F) (UU := UU) d L).2
    isplitl [Hidx]; · iexact Hidx
    isplitl [Hhalf]; · iexact Hhalf
    isplitl [Hrows]; · iexact Hrows
    isplitl [HWa'_src HWb'_src]
    · iapply (Entails.of_eq (shell_range_two _).symm)
      isplitl [HWa'_src]
      · iclear Hlv
        iclear Hmw
        istop
        refine BIBase.Entails.trans (show _ ⊢ ((selC 0).view.loc (V d (cV L) (jV L)) ↦[(selC 0).view.set]{fullShare} c2a : sProp 𝕄) from Entails.of_eq rfl) ?_
        iintro H
        iexists c2a
        iexact H
      · iclear Hlv
        iclear Hmw
        istop
        refine BIBase.Entails.trans (show _ ⊢ ((selC 1).view.loc (V d (cV L) (jV L)) ↦[(selC 1).view.set]{fullShare} c2b : sProp 𝕄) from Entails.of_eq rfl) ?_
        iintro H
        iexists c2b
        iexact H
    iexact Hbrest
  -- its semaphores
  isplitl [Hisem Hgsem HWa' HWb' Hsrest]
  · iapply (scopedSems0_cells (F := F) (UU := UU) d L).2
    isplitl [Hisem]; · iexact Hisem
    isplitl [Hgsem]; · iexact Hgsem
    isplitl [HWa' HWb']
    · iapply (Entails.of_eq (shell_range_two _).symm)
      isplitl [HWa']
      · iclear Hlv
        iclear Hmw
        istop
        exact (Entails.of_eq rfl : _ ⊢ (semVal ((V d (cV L) (jV L), SemLoc.dma (wsemC 0)) : GSem nD τ sig) 0 : sProp 𝕄))
      · iclear Hlv
        iclear Hmw
        istop
        exact (Entails.of_eq rfl : _ ⊢ (semVal ((V d (cV L) (jV L), SemLoc.dma (wsemC 1)) : GSem nD τ sig) 0 : sProp 𝕄))
    iexact Hsrest
  -- what the subcore owes
  iexists _
  isplitr
  rotate_left
  · iexact HO
  · ipureintro
    intro p hp
    rcases Finset.mem_insert.mp hp with hp | hp
    · subst hp; exact .inr rfl
    rcases Finset.mem_insert.mp hp with hp | hp
    · subst hp; exact .inr rfl
    exact hW' p hp

end ShellV

end Cert.Proof.KBody
end
-- ==== Proof.KBodyValuePack.lean ====
import proofs.«206325_g16862041604593_cont_week2b_1534_42_alg».proof.Proof.KBodyValueRegion
import Idealize.ShloMosaic.Lib.ValueIdx

/-!
  The SparseCore kernel's body with the value of its output: the families with contents, opened at a trip in the
  program's spelling and closed after it. As for the frame, with the pure facts about what is delivered carried along.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

open Idealize.ShloMosaic.ValueIdx

/-! ## The families with contents, opened at a trip and closed after it -/

section PackV

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (x : IVec S16384x50 32) (tab : FVec F S1000000x64 .f32)

/-! ### Through equal offsets

The program spells a slot by offsets it computes; what is held of it is typed at the array, whatever the offsets. A
statement over a spelling at offsets EQUAL to a slot's own is the statement over the slot. -/

theorem IFlV_open_at (u : Nat) {off : Fin 2 → Nat} (ho : off = ![u % 10, 0]) (inb : ∀ a, off a + S1x128.size a ≤ S10x128.size a)
    {soff : Fin 1 → Nat} (hs : soff = ![u % 10]) (sinb : ∀ a, soff a + S1.size a ≤ S10.size a) :
    IFlV d L q' xt u ⊢ (iprop(∃ c : Buf (Elt F) ((A5).view.loc (V d (cV L) (jV L))),
      ⌜(∀ x : S128.Idx, ((((A5).slice (Rect.unit (s := S10x128) off S1x128.size inb) (fun _ => rfl)).squeeze S128 squeezes_S1x128_S128).view.read (Elt F) c x).toNat ≤ 999999) ∧ IdxIs d L xt u c⌝
      ∗ Transfers.Flight (countersEmb (U := UU)) (V d (cV L) (jV L)) (SemLoc.dma ((cc1_scratch4.slice (Rect.unit (s := S10) soff S1.size sinb)).squeeze S_ squeezes_S1_S_).sem) (default : HIx 1) 4096
          iprop(((((A5).slice (Rect.unit (s := S10x128) off S1x128.size inb) (fun _ => rfl)).squeeze S128 squeezes_S1x128_S128).view.loc (V d (cV L) (jV L))
              ↦[(((A5).slice (Rect.unit (s := S10x128) off S1x128.size inb) (fun _ => rfl)).squeeze S128 squeezes_S1x128_S128).view.set]{fullShare} c)
            ∗ ((A3).view.loc (V d (cV L) (jV L)) ↦[xChunkSet (200 * wid L + u)]{q'} xt))) : sProp 𝕄) := by
  subst ho hs
  unfold IFlV IdxOK
  exact BI.Entails.refl _

set_option maxHeartbeats 4000000 in
theorem IFlV_open (k : Fin k1_t1_loop.trips) (h1 : k1_cond1 k = 1#1) :
    IFlV d L q' xt k.val ⊢ (iprop(∃ c : Buf (Elt F) ((A5).view.loc (V d (cV L) (jV L))),
      ⌜(∀ x : S128.Idx, ((idxP2 k h1).view.read (Elt F) c x).toNat ≤ 999999) ∧ IdxIs d L xt k.val c⌝
      ∗ Transfers.Flight (countersEmb (U := UU)) (V d (cV L) (jV L)) (SemLoc.dma (isemP4 k h1)) (default : HIx 1) 4096
          iprop(((idxP2 k h1).view.loc (V d (cV L) (jV L)) ↦[(idxP2 k h1).view.set]{fullShare} c)
            ∗ ((xtP3 L k h1).view.loc (V d (cV L) (jV L)) ↦[(xtP3 L k h1).view.set]{q'} xt))) : sProp 𝕄) := by
  rw [set_xtP3]
  exact IFlV_open_at d L q' xt k.val (k1_off2_eq k) _ (k1_off4_eq k) _

theorem IFlV_close_at (u : Nat) {off : Fin 2 → Nat} (ho : off = ![u % 10, 0]) (inb : ∀ a, off a + S1x128.size a ≤ S10x128.size a)
    {soff : Fin 1 → Nat} (hs : soff = ![u % 10]) (sinb : ∀ a, soff a + S1.size a ≤ S10.size a)
    (c : Buf (Elt F) ((A5).view.loc (V d (cV L) (jV L))))
    (hc : ∀ x : S128.Idx, ((((A5).slice (Rect.unit (s := S10x128) off S1x128.size inb) (fun _ => rfl)).squeeze S128 squeezes_S1x128_S128).view.read (Elt F) c x).toNat ≤ 999999)
    (hi : IdxIs d L xt u c) :
    (Transfers.Flight (countersEmb (U := UU)) (V d (cV L) (jV L)) (SemLoc.dma ((cc1_scratch4.slice (Rect.unit (s := S10) soff S1.size sinb)).squeeze S_ squeezes_S1_S_).sem) (default : HIx 1) 4096
      iprop(((((A5).slice (Rect.unit (s := S10x128) off S1x128.size inb) (fun _ => rfl)).squeeze S128 squeezes_S1x128_S128).view.loc (V d (cV L) (jV L))
          ↦[(((A5).slice (Rect.unit (s := S10x128) off S1x128.size inb) (fun _ => rfl)).squeeze S128 squeezes_S1x128_S128).view.set]{fullShare} c)
        ∗ ((A3).view.loc (V d (cV L) (jV L)) ↦[xChunkSet (200 * wid L + u)]{q'} xt)) : sProp 𝕄) ⊢ IFlV d L q' xt u := by
  subst ho hs
  unfold IFlV
  iintro H
  iexists c
  isplitr; · ipureintro; exact ⟨hc, hi⟩
  iexact H

set_option maxHeartbeats 4000000 in
theorem IFlV_close (k : Fin k1_t1_loop.trips) (h1 : k1_cond1 k = 1#1) (h2 : k1_cond2 k = 1#1)
    (c : (idxP24 k h1 h2).view.ty.Contents (Elt F))
    (hc : ∀ x : S128.Idx, ((idxP24 k h1 h2).view.read (Elt F) c x).toNat ≤ 999999) (hi : IdxIs d L xt (k.val + 5) c) :
    (Transfers.Flight (countersEmb (U := UU)) (V d (cV L) (jV L)) (SemLoc.dma (isemP26 k h1 h2)) (default : HIx 1) 4096
      iprop(((idxP24 k h1 h2).view.loc (V d (cV L) (jV L)) ↦[(idxP24 k h1 h2).view.set]{fullShare} c)
        ∗ ((xtP25 L k h1 h2).view.loc (V d (cV L) (jV L)) ↦[(xtP25 L k h1 h2).view.set]{q'} xt)) : sProp 𝕄) ⊢ IFlV d L q' xt (k.val + 5) := by
  rw [set_xtP25, show 200 * wid L + k.val + 5 = 200 * wid L + (k.val + 5) by omega]
  exact IFlV_close_at d L q' xt (k.val + 5) (k1_off24_eq k) _ (k1_off26_eq k) _ c hc hi

theorem ILoadedV_close_at (u v : Nat) (hv : v = u + 10) {off : Fin 2 → Nat} (ho : off = ![v % 10, 0]) (inb : ∀ a, off a + S1x128.size a ≤ S10x128.size a)
    {soff : Fin 1 → Nat} (hs : soff = ![v % 10]) (sinb : ∀ a, soff a + S1.size a ≤ S10.size a)
    (c : Buf (Elt F) ((A5).view.loc (V d (cV L) (jV L))))
    (hc : ∀ x : S128.Idx, ((((A5).slice (Rect.unit (s := S10x128) off S1x128.size inb) (fun _ => rfl)).squeeze S128 squeezes_S1x128_S128).view.read (Elt F) c x).toNat ≤ 999999)
    (hi : ∀ b : S128.Idx, (((A5).slice (Rect.unit (s := S10x128) off S1x128.size inb) (fun _ => rfl)).squeeze S128 squeezes_S1x128_S128).view.read (Elt F) c b = chunkWordOf d L xt u (b 0).val) :
    (iprop(semVal ((V d (cV L) (jV L)), SemLoc.dma ((cc1_scratch4.slice (Rect.unit (s := S10) soff S1.size sinb)).squeeze S_ squeezes_S1_S_).sem) 0
      ∗ ((((A5).slice (Rect.unit (s := S10x128) off S1x128.size inb) (fun _ => rfl)).squeeze S128 squeezes_S1x128_S128).view.loc (V d (cV L) (jV L))
          ↦[(((A5).slice (Rect.unit (s := S10x128) off S1x128.size inb) (fun _ => rfl)).squeeze S128 squeezes_S1x128_S128).view.set]{fullShare} c)) : sProp 𝕄) ⊢ ILoadedV d L xt v := by
  subst ho hs
  unfold ILoadedV
  iintro ⟨Hs, Hc⟩
  isplitl [Hs]; · iexact Hs
  iexists c
  isplitr
  · ipureintro
    intro _
    have e : v - 10 = u := by omega
    rw [e]
    exact ⟨hc, hi⟩
  iexact Hc

set_option maxHeartbeats 4000000 in
/-- After the wait of trip `k`: slot `k` (which is slot `k + 10`) holds chunk `k`'s words and is awaited no more. -/
theorem ILoadedV_close (k : Fin k1_t1_loop.trips) (h1 : k1_cond1 k = 1#1)
    (c : Buf (Elt F) ((A5).view.loc (V d (cV L) (jV L))))
    (hc : ∀ x : S128.Idx, ((idxP2 k h1).view.read (Elt F) c x).toNat ≤ 999999)
    (hi : ∀ b : S128.Idx, (idxP2 k h1).view.read (Elt F) c b = chunkWordOf d L xt k.val (b 0).val) :
    (iprop(semVal ((V d (cV L) (jV L)), SemLoc.dma (isemP4 k h1)) 0
      ∗ ((idxP2 k h1).view.loc (V d (cV L) (jV L)) ↦[(idxP2 k h1).view.set]{fullShare} c)) : sProp 𝕄) ⊢ ILoadedV d L xt (k.val + 10) :=
  ILoadedV_close_at d L xt k.val (k.val + 10) rfl ((k1_off2_eq k).trans (by rw [show (k.val + 10) % 10 = k.val % 10 by omega])) _
    ((k1_off4_eq k).trans (by rw [show (k.val + 10) % 10 = k.val % 10 by omega])) _ c hc hi

theorem GFlV_open_at (u : Nat) {off : Fin 3 → Nat} (ho : off = ![u % 5, 0, 0]) (inb : ∀ a, off a + S1x128x128.size a ≤ S5x128x128.size a)
    {hoff : Fin 2 → Nat} (hh : hoff = ![u % 5, 0]) (hinb : ∀ a, hoff a + S1x128.size a ≤ S5x128.size a)
    {soff : Fin 1 → Nat} (hs : soff = ![u % 5]) (sinb : ∀ a, soff a + S1.size a ≤ S5.size a) :
    GFlV d L q tp xt u ⊢ (iprop(∃ (c₁ : Buf (Elt F) ((A7).view.loc (V d (cV L) (jV L)))) (c₂ : Buf (Elt F) ((A6).view.loc (V d (cV L) (jV L)))), ⌜RowsIs d L tp xt u c₁⌝
      ∗ Transfers.Flight (countersEmb (U := UU)) (V d (cV L) (jV L)) (SemLoc.dma ((cc1_scratch5.slice (Rect.unit (s := S5) soff S1.size sinb)).squeeze S_ squeezes_S1_S_).sem) (default : HIx 1) 524288
      iprop((((((A7).slice (Rect.unit (s := S5x128x128) off S1x128x128.size inb) (fun _ => rfl)).squeeze S128x128 squeezes_S1x128x128_S128x128).view.loc (V d (cV L) (jV L))
            ↦[(((A7).slice (Rect.unit (s := S5x128x128) off S1x128x128.size inb) (fun _ => rfl)).squeeze S128x128 squeezes_S1x128x128_S128x128).view.set]{fullShare} c₁)
          ∗ ((((A6).slice (Rect.unit (s := S5x128) hoff S1x128.size hinb) (fun _ => rfl)).squeeze S128 squeezes_S1x128_S128).view.loc (V d (cV L) (jV L))
            ↦[(((A6).slice (Rect.unit (s := S5x128) hoff S1x128.size hinb) (fun _ => rfl)).squeeze S128 squeezes_S1x128_S128).view.set]{fullShare} c₂))
        ∗ ((tabS).view.loc (V d (cV L) (jV L)) ↦[(tabS).view.set]{Transfers.shareTokN q (u % 5)} tp))) : sProp 𝕄) := by
  subst ho hh hs
  unfold GFlV
  exact BI.Entails.refl _

set_option maxHeartbeats 4000000 in
theorem GFlV_open (k : Fin k1_t1_loop.trips) (h3 : k1_cond3 k = 1#1) (hk : 4 ≤ k.val) :
    GFlV d L q tp xt (k.val - 4) ⊢ (iprop(∃ (c₁ : (rowsP27 k h3).view.ty.Contents (Elt F)) (c₂ : (halfP28 k h3).view.ty.Contents (Elt F)), ⌜RowsIs d L tp xt (k.val - 4) c₁⌝
      ∗ Transfers.Flight (countersEmb (U := UU)) (V d (cV L) (jV L)) (SemLoc.dma (gsemP29 k h3)) (default : HIx 1) 524288
      iprop((((rowsP27 k h3).view.loc (V d (cV L) (jV L)) ↦[(rowsP27 k h3).view.set]{fullShare} c₁)
          ∗ ((halfP28 k h3).view.loc (V d (cV L) (jV L)) ↦[(halfP28 k h3).view.set]{fullShare} c₂))
        ∗ ((tabS).view.loc (V d (cV L) (jV L)) ↦[(tabS).view.set]{Transfers.shareTokN q ((k.val - 4) % 5)} tp))) : sProp 𝕄) :=
  GFlV_open_at d L q tp xt (k.val - 4) ((k1_off27_eq k).trans (by rw [show (k.val + 1) % 5 = (k.val - 4) % 5 by omega])) _
    ((k1_off28_eq k).trans (by rw [show (k.val + 1) % 5 = (k.val - 4) % 5 by omega])) _
    ((k1_off29_eq k).trans (by rw [show (k.val + 1) % 5 = (k.val - 4) % 5 by omega])) _

theorem GFlV_close_at (u : Nat) {off : Fin 3 → Nat} (ho : off = ![u % 5, 0, 0]) (inb : ∀ a, off a + S1x128x128.size a ≤ S5x128x128.size a)
    {hoff : Fin 2 → Nat} (hh : hoff = ![u % 5, 0]) (hinb : ∀ a, hoff a + S1x128.size a ≤ S5x128.size a)
    {soff : Fin 1 → Nat} (hs : soff = ![u % 5]) (sinb : ∀ a, soff a + S1.size a ≤ S5.size a)
    (c₁ : Buf (Elt F) ((A7).view.loc (V d (cV L) (jV L)))) (c₂ : Buf (Elt F) ((A6).view.loc (V d (cV L) (jV L)))) (hr : RowsIs d L tp xt u c₁) :
    (Transfers.Flight (countersEmb (U := UU)) (V d (cV L) (jV L)) (SemLoc.dma ((cc1_scratch5.slice (Rect.unit (s := S5) soff S1.size sinb)).squeeze S_ squeezes_S1_S_).sem) (default : HIx 1) 524288
      iprop((((((A7).slice (Rect.unit (s := S5x128x128) off S1x128x128.size inb) (fun _ => rfl)).squeeze S128x128 squeezes_S1x128x128_S128x128).view.loc (V d (cV L) (jV L))
            ↦[(((A7).slice (Rect.unit (s := S5x128x128) off S1x128x128.size inb) (fun _ => rfl)).squeeze S128x128 squeezes_S1x128x128_S128x128).view.set]{fullShare} c₁)
          ∗ ((((A6).slice (Rect.unit (s := S5x128) hoff S1x128.size hinb) (fun _ => rfl)).squeeze S128 squeezes_S1x128_S128).view.loc (V d (cV L) (jV L))
            ↦[(((A6).slice (Rect.unit (s := S5x128) hoff S1x128.size hinb) (fun _ => rfl)).squeeze S128 squeezes_S1x128_S128).view.set]{fullShare} c₂))
        ∗ ((tabS).view.loc (V d (cV L) (jV L)) ↦[(tabS).view.set]{Transfers.shareTokN q (u % 5)} tp)) : sProp 𝕄) ⊢ GFlV d L q tp xt u := by
  subst ho hh hs
  unfold GFlV
  iintro H
  iexists c₁
  iexists c₂
  isplitr; · ipureintro; exact hr
  iexact H

set_option maxHeartbeats 4000000 in
theorem GFlV_close (k : Fin k1_t1_loop.trips) (h1 : k1_cond1 k = 1#1)
    (c₁ : Buf (Elt F) ((A7).view.loc (V d (cV L) (jV L)))) (c₂ : Buf (Elt F) ((A6).view.loc (V d (cV L) (jV L)))) (hr : RowsIs d L tp xt k.val c₁) :
    (Transfers.Flight (countersEmb (U := UU)) (V d (cV L) (jV L)) (SemLoc.dma (gsemP23 k h1)) (default : HIx 1) 524288
      iprop((((rowsP21 k h1).view.loc (V d (cV L) (jV L)) ↦[(rowsP21 k h1).view.set]{fullShare} c₁)
          ∗ ((halfP22 k h1).view.loc (V d (cV L) (jV L)) ↦[(halfP22 k h1).view.set]{fullShare} c₂))
        ∗ ((tabS).view.loc (V d (cV L) (jV L)) ↦[(tabS).view.set]{Transfers.shareTokN q (k.val % 5)} tp)) : sProp 𝕄) ⊢ GFlV d L q tp xt k.val :=
  GFlV_close_at d L q tp xt k.val (k1_off21_eq k) _ (k1_off22_eq k) _ (k1_off23_eq k) _ c₁ c₂ hr

set_option maxHeartbeats 4000000 in
/-- The slot the select stage of trip `k` reads: slot `k + 6`, holding chunk `k - 4`'s words. -/
theorem ILoadedV_read (k : Fin k1_t1_loop.trips) (hk : 4 ≤ k.val) :
    ILoadedV d L xt (k.val + 6) ⊣⊢ (iprop(semVal ((V d (cV L) (jV L)), SemLoc.dma (isemC (k.val + 6))) 0
      ∗ ∃ c, ⌜IdxOK d L (k.val + 6) c ∧ IdxIsAt d L xt (k.val + 6) (k.val - 4) c⌝
        ∗ ((idxC (k.val + 6)).view.loc (V d (cV L) (jV L)) ↦[(idxC (k.val + 6)).view.set]{fullShare} c)) : sProp 𝕄) := by
  unfold ILoadedV
  rw [show k.val + 6 - 10 = k.val - 4 by omega]
  constructor
  · iintro ⟨Hs, %c, %hc, Hc⟩
    isplitl [Hs]; · iexact Hs
    iexists c
    isplitr; · ipureintro; exact hc (by omega)
    iexact Hc
  · iintro ⟨Hs, %c, %hc, Hc⟩
    isplitl [Hs]; · iexact Hs
    iexists c
    isplitr; · ipureintro; exact fun _ => hc
    iexact Hc

set_option maxHeartbeats 4000000 in
theorem WFlV_open (k : Fin k1_t1_loop.trips) (h3 : k1_cond3 k = 1#1) (h4 : k1_cond4 k = 1#1) (hk : 6 ≤ k.val) :
    WFlV d L x tab (k.val - 6) ⊢ (iprop(∃ c₁ c₂, ⌜OutIs d L x tab (k.val - 6) c₁⌝
      ∗ Transfers.Flight (countersEmb (U := UU)) (V d (cV L) (jV L)) (SemLoc.dma (wsemP32 k h3 h4)) (default : HIx 1) 262144
      iprop(((A4).view.loc (V d (cV L) (jV L)) ↦[Cert.Spec.chunkSet (200 * wid L + (k.val - 6))]{fullShare} c₁)
        ∗ ((selP30 k h3 h4).view.loc (V d (cV L) (jV L)) ↦[(selP30 k h3 h4).view.set]{fullShare} c₂))) : sProp 𝕄) := by
  rw [selP30_eq k h3 h4, wsemP32_eq k h3 h4, selC_congr (a := k.val) (b := k.val - 6) (by omega), wsemC_congr (a := k.val) (b := k.val - 6) (by omega)]
  unfold WFlV
  exact BI.Entails.refl _

set_option maxHeartbeats 4000000 in
theorem WFlV_close (k : Fin k1_t1_loop.trips) (h3 : k1_cond3 k = 1#1) (hk : 4 ≤ k.val) :
    ∀ c₁ c₂, OutIs d L x tab (k.val - 4) c₁ →
    (Transfers.Flight (countersEmb (U := UU)) (V d (cV L) (jV L)) (SemLoc.dma (wsemP426 k h3)) (default : HIx 1) 262144
      iprop(((outP425 L k h3).view.loc (V d (cV L) (jV L)) ↦[(outP425 L k h3).view.set]{fullShare} c₁)
        ∗ ((selP423 k h3).view.loc (V d (cV L) (jV L)) ↦[(selP423 k h3).view.set]{fullShare} c₂)) : sProp 𝕄) ⊢ WFlV d L x tab (k.val - 4) := by
  rw [selP423_eq k h3, wsemP426_eq k h3, set_outP425, show 200 * wid L + k.val - 4 = 200 * wid L + (k.val - 4) by omega,
    selC_congr (a := k.val) (b := k.val - 4) (by omega), wsemC_congr (a := k.val) (b := k.val - 4) (by omega)]
  intro c₁ c₂ ho
  unfold WFlV
  iintro H
  iexists c₁
  iexists c₂
  isplitr; · ipureintro; exact ho
  iexact H

omit [CountersIn UU] in
/-- A chunk at contents that are the lookup on it is the chunk at the lookup. -/
theorem OutDoneV_close (k : Fin k1_t1_loop.trips) (hk : 6 ≤ k.val) (c : Buf (Elt F) ((A4).view.loc (V d (cV L) (jV L))))
    (hc : OutIs d L x tab (k.val - 6) c) :
    ((A4).view.loc (V d (cV L) (jV L)) ↦[Cert.Spec.chunkSet (200 * wid L + (k.val - 6))]{fullShare} c : sProp 𝕄) ⊢ OutDoneV d L x tab (k.val - 6) := by
  unfold OutDoneV
  rw [pointsTo_congr (fun i hi => hc i hi)]

end PackV

end Cert.Proof.KBody

end
-- ==== Proof.KBodyContent.lean ====
/-
  What the kernel's copies deliver, as facts about contents.

  The index chunk a trip fetches five ahead lands as that chunk's entries of the transposed index array; the list a trip
  stores holds the packed-row numbers of its landed index words; and the gather of packed rows by that list delivers, at
  row `b` of the rows slot, the packed table's row of the `b`-th word. These are the equations the value of the output is
  carried by; none speaks of the machine.
-/
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.KBodyHin
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.ValueIdx Cert.Spec

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)

/-! ## What the copies deliver

Two facts about contents, free of the machine: the index chunk a trip fetches lands as that chunk's entries of the
transposed index array; and the gather of packed rows by a list of row numbers delivers, at row `b` of the slot, the
packed table's row the list's `b`-th word names. -/

/-- The chunk a trip prefetches is in range: history position below 50, batch positions below 16384. -/
theorem chunk25_lt (L : grid1.Coords) (k : Fin k1_t1_loop.trips) (h2 : k1_cond2 k = 1#1) (b : Nat) (hb : b < 128) :
    (200 * wid L + k.val + 5) / 128 < 50 ∧ 128 * ((200 * wid L + k.val + 5) % 128) + b < 16384 := by
  have hw := wid_lt L
  have hk := (cond2_iff k).1 h2
  omega

/-- What the slice of the chunk five ahead reads at `x`: the array's entry at history position `g / 128`, batch
    position `128 (g % 128) + x`, `g = 200 w + k + 5`. -/
theorem xt25_read (L : grid1.Coords) (k : Fin k1_t1_loop.trips) (h1 : k1_cond1 k = 1#1) (h2 : k1_cond2 k = 1#1)
    (g : (A3).view.ty.Contents (Elt F)) (x : S128.Idx) :
    (xtP25 L k h1 h2).view.read (Elt F) g x
      = (A3).view.read (Elt F) g (ix2 (n0 := 50) (n1 := 16384)
          ⟨(200 * wid L + k.val + 5) / 128, (chunk25_lt L k h2 (x 0).val (x 0).isLt).1⟩
          ⟨128 * ((200 * wid L + k.val + 5) % 128) + (x 0).val, (chunk25_lt L k h2 (x 0).val (x 0).isLt).2⟩) := by
  have e0 : (k1_off25 L k) 0 = (200 * wid L + k.val + 5) / 128 := congrFun (off25_eq L k) 0
  have e1 : (k1_off25 L k) 1 = 128 * ((200 * wid L + k.val + 5) % 128) := congrFun (off25_eq L k) 1
  have hx : (xtP25 L k h1 h2).view.read (Elt F) g x
      = (A3).view.read (Elt F) g ((Rect.unit (s := S50x16384) (k1_off25 L k) S1x128.size (k1_off25_inb L k h1 h2)).emb
          (Shape.reshapeEquiv (s := S1x128) (s' := S128) squeezes_S1x128_S128.numel_eq x)) := rfl
  rw [hx, squeeze_idx]
  exact congrArg _ (unit_emb_ix2 (n0 := 50) (n1 := 16384) (m0 := 1) (m1 := 128) (k1_off25 L k) (k1_off25_inb L k h1 h2) 0 (x 0)
    ⟨_, (chunk25_lt L k h2 (x 0).val (x 0).isLt).1⟩ ⟨_, (chunk25_lt L k h2 (x 0).val (x 0).isLt).2⟩
    (by show (200 * wid L + k.val + 5) / 128 = (k1_off25 L k) 0 + 0; omega)
    (by show 128 * ((200 * wid L + k.val + 5) % 128) + (x 0).val = (k1_off25 L k) 1 + (x 0).val; omega))

/-- A slot of index words overwritten whole by the chunk five ahead holds that chunk's entries of the array. -/
theorem landed_word (L : grid1.Coords) (k : Fin k1_t1_loop.trips) (h1 : k1_cond1 k = 1#1) (h2 : k1_cond2 k = 1#1)
    (xt : IVec S50x16384 32) (f : (idxP24 k h1 h2).view.ty.Contents (Elt F)) (x : S128.Idx) :
    (idxP24 k h1 h2).view.read (Elt F) ((idxP24 k h1 h2).view.writes (Elt F) f
      [⟨Rect.whole S128, ReadAs.same.apply ((xtP25 L k h1 h2).view.read (Elt F) xt)⟩]) x
      = xt (ix2 (n0 := 50) (n1 := 16384)
          ⟨(200 * wid L + k.val + 5) / 128, (chunk25_lt L k h2 (x 0).val (x 0).isLt).1⟩
          ⟨128 * ((200 * wid L + k.val + 5) % 128) + (x 0).val, (chunk25_lt L k h2 (x 0).val (x 0).isLt).2⟩) := by
  rw [View.read_writes_whole]
  exact xt25_read L k h1 h2 xt x

/-- The whole packed table read through its whole slice is itself. -/
theorem tabS_read (tp : (A2).view.ty.Contents (Elt F)) (r : Fin 507904) (j : Fin 128) :
    (tabS).view.read (Elt F) tp (ix2 r j) = tp (ix2 r j) := by
  have hx : (tabS).view.read (Elt F) tp (ix2 r j)
      = (A2).view.read (Elt F) tp ((Rect.unit (s := S507904x128) ![0, 0] S507904x128.size inb_S507904x128_S507904x128_0_0).emb (ix2 r j)) := rfl
  rw [hx]
  exact congrArg _ (unit_emb_ix2 (n0 := 507904) (n1 := 128) (m0 := 507904) (m1 := 128) ![0, 0] inb_S507904x128_S507904x128_0_0 r j r j
    (by show r.val = 0 + r.val; omega) (by show j.val = 0 + j.val; omega))

/-- The gather of rows of the packed table by a list of 128 row numbers delivers, at `(b, j)`, entry `j` of the row the
    list's `b`-th word names. -/
theorem gather_at (tp : (A2).view.ty.Contents (Elt F)) (lst : S128.Idx → Elt F .i32) (hn : S128.numel = 128)
    (hin : ∀ x, (lst x).toNat < 507904) (b j : Fin 128) :
    SparseCore.gatherPayload gathers_S507904x128_S128x128 ((tabS).view.read (Elt F) tp) (SparseCore.rows lst hn hin) (ix2 b j)
      = tp (ix2 (n0 := 507904) (n1 := 128) ⟨(lst (ix1 b)).toNat, hin _⟩ j) := by
  have hsym : S128.rowMajor.symm (b.cast hn.symm) = ix1 b := by
    rw [Equiv.symm_apply_eq]
    exact Fin.ext (Shape.rowMajor_val_one (d := ![128]) (ix1 b)).symm
  have hr : SparseCore.rows lst hn hin b = ⟨(lst (ix1 b)).toNat, hin _⟩ := by
    unfold SparseCore.rows
    exact Fin.ext (by show (lst (S128.rowMajor.symm (b.cast hn.symm))).toNat = (lst (ix1 b)).toNat; rw [hsym])
  have hidx : gathers_S507904x128_S128x128.idx (SparseCore.rows lst hn hin) (ix2 b j)
      = ix2 (n0 := 507904) (n1 := 128) ⟨(lst (ix1 b)).toNat, hin _⟩ j := by
    funext a
    match a with
    | ⟨0, _⟩ =>
      refine Fin.ext ?_
      have h0 := congrArg Fin.val (Shape.Gathers.idx_axis gathers_S507904x128_S128x128 (SparseCore.rows lst hn hin) (ix2 b j))
      exact h0.trans (congrArg Fin.val hr)
    | ⟨1, _⟩ =>
      refine Fin.ext ?_
      exact Shape.Gathers.idx_of_ne gathers_S507904x128_S128x128 (SparseCore.rows lst hn hin) (ix2 b j) ⟨1, by decide⟩ (by decide)
  unfold SparseCore.gatherPayload
  rw [hidx]
  exact tabS_read tp _ j

variable [FloatOps F]

/-- The gather a trip issues delivers, at `(b, j)` of the rows slot, entry `j` of the packed row of the trip's `b`-th
    index word: the list it reads holds the packed-row numbers of the landed index words. -/
theorem gathered_rows (d : Dev nD) (L : grid1.Coords) (k : Fin k1_t1_loop.trips) (h1 : k1_cond1 k = 1#1)
    (tp : (A2).view.ty.Contents (Elt F))
    (fi : Buf (Elt F) ((idxP2 k h1).view.loc (V d (cV L) (jV L))))
    (fh : Buf (Elt F) ((halfP22 k h1).view.loc (V d (cV L) (jV L))))
    (hfi : ∀ x : S128.Idx, ((idxP2 k h1).view.read (Elt F) fi x).toNat ≤ 999999) (hn : S128.numel = 128)
    (hin : ∀ x : S128.Idx, ((halfP22 k h1).view.read (Elt F) (halfAfter d L k h1 fi fh) x).toNat < 507904) (b j : Fin 128) :
    SparseCore.gatherPayload gathers_S507904x128_S128x128 ((tabS).view.read (Elt F) tp)
        (SparseCore.rows ((halfP22 k h1).view.read (Elt F) (halfAfter d L k h1 fi fh)) hn hin) (ix2 b j)
      = tp (ix2 (n0 := 507904) (n1 := 128)
          ⟨packRow ((idxP2 k h1).view.read (Elt F) fi (ix1 b)).toNat, packRow_lt (by have := hfi (ix1 b); omega)⟩ j) := by
  rw [gather_at tp _ hn hin b j]
  congr 1
  refine congrArg (fun r => ix2 (n0 := 507904) (n1 := 128) r j) (Fin.ext ?_)
  show ((halfP22 k h1).view.read (Elt F) (halfAfter d L k h1 fi fh) (ix1 b)).toNat = _
  rw [half_word d L k h1 fi fh hfi (ix1 b), BitVec.toNat_ofNat, Nat.mod_eq_of_lt (Cert.BitLayout.packRow_lt_word (hfi (ix1 b)))]

end Cert.Proof.KBody

end
-- ==== Proof.KBodyContentIs.lean ====
/-
  What the kernel's copies deliver, stated as the predicates the loop carries.

  The landed index chunk is chunk `k + 5`'s words; the gather issued from index words that are chunk `k`'s delivers the
  packed rows those words name; and the write-back of a select slot holding, for each word of chunk `k − 4`, the table
  row the word names leaves the output chunk at the transposed lookup: its entry `(b, c)` lands at history position
  `g / 128`, batch position `128 (g % 128) + b`, column `c`, and the word there is `x[128 (g % 128) + b, g / 128]`.
-/
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.KBodyValueRegion
import proofs.«206325_g16862041604593_cont_week2b_1534_42_alg».proof.Proof.KBodyContent
import proofs.«206325_g16862041604593_cont_week2b_1534_42_alg».proof.Proof.KBodyHin
import Idealize.ShloMosaic.Lib.ValueIdx
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

open Idealize.ShloMosaic.ValueIdx

/-! ## What the loop carries, with contents -/

open Cert.Spec

/-! ## The copies' deliveries, as the predicates the loop carries -/

section Is

variable [FloatOps F]
variable (d : Dev nD) (L : grid1.Coords)
variable (tp : Buf (Elt F) ((A2).view.loc (V d (cV L) (jV L)))) (xt : Buf (Elt F) ((A3).view.loc (V d (cV L) (jV L))))
variable (x : IVec S16384x50 32) (tab : FVec F S1000000x64 .f32)

/-- The index chunk fetched five ahead lands as chunk `k + 5`'s words. -/
theorem landed_is (k : Fin k1_t1_loop.trips) (h1 : k1_cond1 k = 1#1) (h2 : k1_cond2 k = 1#1)
    (f : (idxP24 k h1 h2).view.ty.Contents (Elt F)) (b : S128.Idx) :
    (idxP24 k h1 h2).view.read (Elt F) ((idxP24 k h1 h2).view.writes (Elt F) f
      [⟨Rect.whole S128, ReadAs.same.apply ((xtP25 L k h1 h2).view.read (Elt F) xt)⟩]) b
      = chunkWordOf d L xt (k.val + 5) (b 0).val := by
  rw [landed_word L k h1 h2 xt f b]
  unfold chunkWordOf xtAt
  have hlt := chunk25_lt L k h2 (b 0).val (b 0).isLt
  have e : 200 * wid L + (k.val + 5) = 200 * wid L + k.val + 5 := by omega
  rw [dif_pos (by rw [e]; exact hlt)]
  congr 1

/-- The gather a trip issues, its list stored from index words that are chunk `k`'s, delivers the packed rows those
    words name. -/
theorem gathered_is (k : Fin k1_t1_loop.trips) (h1 : k1_cond1 k = 1#1)
    (fi : Buf (Elt F) ((idxP2 k h1).view.loc (V d (cV L) (jV L))))
    (fh : Buf (Elt F) ((halfP22 k h1).view.loc (V d (cV L) (jV L))))
    (fr : (rowsP21 k h1).view.ty.Contents (Elt F))
    (hfi : ∀ y : S128.Idx, ((idxP2 k h1).view.read (Elt F) fi y).toNat ≤ 999999)
    (hIs : ∀ y : S128.Idx, (idxP2 k h1).view.read (Elt F) fi y = chunkWordOf d L xt k.val (y 0).val)
    (hn : S128.numel = 128)
    (hin : ∀ y : S128.Idx, ((halfP22 k h1).view.read (Elt F) (halfAfter d L k h1 fi fh) y).toNat < 507904)
    (b j : Fin 128) (hr : Cert.Spec.packRow (chunkWordOf d L xt k.val b.val).toNat < 507904) :
    (rowsP21 k h1).view.read (Elt F) ((rowsP21 k h1).view.writes (Elt F) fr
      [⟨Rect.whole S128x128, SparseCore.gatherPayload gathers_S507904x128_S128x128 ((tabS).view.read (Elt F) tp)
        (SparseCore.rows ((halfP22 k h1).view.read (Elt F) (halfAfter d L k h1 fi fh)) hn hin)⟩]) (ix2 b j)
      = tp (ix2 ⟨Cert.Spec.packRow (chunkWordOf d L xt k.val b.val).toNat, hr⟩ j) := by
  rw [View.read_writes_whole, gathered_rows d L k h1 tp fi fh hfi hn hin b j]
  refine congrArg (fun r => tp (ix2 (n0 := 507904) (n1 := 128) r j)) (Fin.ext ?_)
  show Cert.Spec.packRow ((idxP2 k h1).view.read (Elt F) fi (ix1 b)).toNat = Cert.Spec.packRow (chunkWordOf d L xt k.val b.val).toNat
  rw [hIs (ix1 b)]

end Is

/-! ## The write-back's delivery -/

section Out

variable [FloatOps F]
variable (d : Dev nD) (L : grid1.Coords)
variable (xt : Buf (Elt F) ((A3).view.loc (V d (cV L) (jV L))))
variable (x : IVec S16384x50 32) (tab : FVec F S1000000x64 .f32)

/-- Entry `(b, c)` of a `[128, 64]` block, matched with the `[1, 128, 64]` block it was squeezed from, is entry `(0, b, c)`. -/
theorem squeeze_idx3 (h : S128x64.numel = S1x128x64.numel) (y : S128x64.Idx) :
    Shape.reshapeEquiv (s := S1x128x64) (s' := S128x64) h y = ix3 (n0 := 1) (n1 := 128) (n2 := 64) 0 (y 0) (y 1) :=
  Shape.reshapeEquiv_eq_of_rowMajor h
    ((Shape.rowMajor_val_three (d := ![1, 128, 64]) (ix3 (n0 := 1) (n1 := 128) (n2 := 64) 0 (y 0) (y 1))).trans
      ((show ((0 : Nat) * 128 + (y 0).val) * 64 + (y 1).val = (y 0).val * 64 + (y 1).val by omega).trans
        (Shape.rowMajor_val_two (d := ![128, 64]) y).symm))

/-- Entry `(a, b, c)` of a unit-stride rectangle of a rank-3 array is the array's entry at the offsets plus `(a, b, c)`. -/
theorem unit_emb_ix3 {n0 n1 n2 m0 m1 m2 : Nat} (off : Fin 3 → Nat)
    (inb : ∀ e, off e + (![m0, m1, m2] : Fin 3 → Nat) e ≤ (⟨3, ![n0, n1, n2]⟩ : Shape).size e)
    (a : Fin m0) (b : Fin m1) (c : Fin m2) (i : Fin n0) (j : Fin n1) (l : Fin n2)
    (hi : i.val = off 0 + a.val) (hj : j.val = off 1 + b.val) (hl : l.val = off 2 + c.val) :
    (Rect.unit (s := ⟨3, ![n0, n1, n2]⟩) off ![m0, m1, m2] inb).emb (ix3 a b c) = ix3 i j l := by
  funext e
  match e with
  | ⟨0, _⟩ => exact Fin.ext (by show off 0 + 1 * a.val = i.val; omega)
  | ⟨1, _⟩ => exact Fin.ext (by show off 1 + 1 * b.val = j.val; omega)
  | ⟨2, _⟩ => exact Fin.ext (by show off 2 + 1 * c.val = l.val; omega)

/-- The chunk a trip writes back is in range. -/
theorem chunk425_lt (L : grid1.Coords) (k : Fin k1_t1_loop.trips) (b : Nat) (hb : b < 128) :
    (200 * wid L + k.val - 4) / 128 < 50 ∧ 128 * ((200 * wid L + k.val - 4) % 128) + b < 16384 := by
  have hw := wid_lt L
  have hk : k.val < 204 := trips_eq ▸ k.isLt
  omega

/-- Entry `(b, c)` of the output slice a trip writes back is the output's entry at history position `g / 128`, batch
    position `128 (g % 128) + b`, column `c`, `g = 200 w + k − 4`. -/
theorem out_emb (k : Fin k1_t1_loop.trips) (h3 : k1_cond3 k = 1#1) (b : Fin 128) (c : Fin 64) :
    (outP425 L k h3).view.emb (ix2 b c)
      = ix3 (n0 := 50) (n1 := 16384) (n2 := 64) ⟨(200 * wid L + k.val - 4) / 128, (chunk425_lt L k b.val b.isLt).1⟩
          ⟨128 * ((200 * wid L + k.val - 4) % 128) + b.val, (chunk425_lt L k b.val b.isLt).2⟩ c := by
  have e0 : (k1_off425 L k) 0 = (200 * wid L + k.val - 4) / 128 := congrFun (off425_eq L k h3) 0
  have e1 : (k1_off425 L k) 1 = 128 * ((200 * wid L + k.val - 4) % 128) := congrFun (off425_eq L k h3) 1
  have e2 : (k1_off425 L k) 2 = 0 := congrFun (off425_eq L k h3) 2
  have hx : (outP425 L k h3).view.emb (ix2 b c)
      = (Rect.unit (s := S50x16384x64) (k1_off425 L k) S1x128x64.size (k1_off425_inb L k h3)).emb
          (Shape.reshapeEquiv (s := S1x128x64) (s' := S128x64) squeezes_S1x128x64_S128x64.numel_eq (ix2 b c)) := rfl
  rw [hx, squeeze_idx3]
  exact unit_emb_ix3 (n0 := 50) (n1 := 16384) (n2 := 64) (m0 := 1) (m1 := 128) (m2 := 64) (k1_off425 L k) (k1_off425_inb L k h3) 0 b c
    ⟨_, (chunk425_lt L k b.val b.isLt).1⟩ ⟨_, (chunk425_lt L k b.val b.isLt).2⟩ c
    (by show (200 * wid L + k.val - 4) / 128 = (k1_off425 L k) 0 + 0; omega)
    (by show 128 * ((200 * wid L + k.val - 4) % 128) + b.val = (k1_off425 L k) 1 + b.val; omega)
    (by show c.val = (k1_off425 L k) 2 + c.val; omega)

/-- The write-back of a select slot that holds, for each word of chunk `k − 4`, the table row the word names leaves the
    output chunk at the transposed lookup. -/
theorem written_is (k : Fin k1_t1_loop.trips) (h3 : k1_cond3 k = 1#1) (hk4 : 4 ≤ k.val)
    (fo : (outP425 L k h3).view.ty.Contents (Elt F)) (cs : (selP423 k h3).view.ty.Contents (Elt F))
    (hxt : ∀ (h : Fin 50) (b : Fin 16384), xt (ix2 h b) = x (ix2 b h))
    (hSel : ∀ (b : Fin 128) (c : Fin 64), (selP423 k h3).view.read (Elt F) cs (ix2 b c)
      = tab (ix2 (Cert.Spec.rowOf (chunkWordOf d L xt (k.val - 4) b.val)) c)) :
    ∀ i ∈ Cert.Spec.chunkSet (200 * wid L + (k.val - 4)),
      (outP425 L k h3).view.writes (Elt F) fo [⟨Rect.whole S128x64, ReadAs.same.apply ((selP423 k h3).view.read (Elt F) cs)⟩] i
        = Cert.Spec.lookupT x tab i := by
  intro i hi
  rw [show 200 * wid L + (k.val - 4) = 200 * wid L + k.val - 4 from by omega, ← set_outP425 L k h3] at hi
  obtain ⟨y, -, rfl⟩ := Finset.mem_map.mp hi
  obtain ⟨b, c, rfl⟩ : ∃ b c, y = ix2 b c := ⟨y 0, y 1, eq_ix2 y⟩
  have hread : (outP425 L k h3).view.read (Elt F)
      ((outP425 L k h3).view.writes (Elt F) fo [⟨Rect.whole S128x64, ReadAs.same.apply ((selP423 k h3).view.read (Elt F) cs)⟩]) (ix2 b c)
      = (selP423 k h3).view.read (Elt F) cs (ix2 b c) := congrFun (View.read_writes_whole _ _ _) (ix2 b c)
  have hL : (outP425 L k h3).view.writes (Elt F) fo [⟨Rect.whole S128x64, ReadAs.same.apply ((selP423 k h3).view.read (Elt F) cs)⟩]
        ((outP425 L k h3).view.emb (ix2 b c))
      = (outP425 L k h3).view.read (Elt F)
          ((outP425 L k h3).view.writes (Elt F) fo [⟨Rect.whole S128x64, ReadAs.same.apply ((selP423 k h3).view.read (Elt F) cs)⟩]) (ix2 b c) :=
    ((View.read_apply _ _).trans (cast_eq _ _)).symm
  rw [hL, hread, hSel b c, out_emb L k h3 b c]
  have hlt := chunk425_lt L k b.val b.isLt
  have e : 200 * wid L + (k.val - 4) = 200 * wid L + k.val - 4 := by omega
  show tab (ix2 (Cert.Spec.rowOf (chunkWordOf d L xt (k.val - 4) b.val)) c)
    = tab (ix2 (Cert.Spec.rowOf (x (ix2 ⟨128 * ((200 * wid L + k.val - 4) % 128) + b.val, hlt.2⟩ ⟨(200 * wid L + k.val - 4) / 128, hlt.1⟩))) c)
  rw [← hxt]
  unfold chunkWordOf
  rw [e]
  unfold xtAt
  rw [dif_pos hlt]

end Out

/-! ## The same facts as the loop's predicates -/

section Canon

variable [FloatOps F]
variable (d : Dev nD) (L : grid1.Coords)
variable (tp : Buf (Elt F) ((A2).view.loc (V d (cV L) (jV L)))) (xt : Buf (Elt F) ((A3).view.loc (V d (cV L) (jV L))))
variable (x : IVec S16384x50 32) (tab : FVec F S1000000x64 .f32)

omit [FloatOps F] in
/-- Reading through two spellings of one memref reads the same. -/
theorem read_congr_memref {sp : Space} {s : Shape} {e : EltTy} {m m' : Memref sig .scVector sp s e} (h : m = m')
    (c : m.view.ty.Contents (Elt F)) (c' : m'.view.ty.Contents (Elt F)) (hc : HEq c c') (b : s.Idx) :
    m.view.read (Elt F) c b = m'.view.read (Elt F) c' b := by
  subst h
  rw [eq_of_heq hc]

/-- The index chunk fetched five ahead lands as chunk `k + 5`'s words. -/
theorem idxIs_landed (k : Fin k1_t1_loop.trips) (h1 : k1_cond1 k = 1#1) (h2 : k1_cond2 k = 1#1)
    (f : (idxP24 k h1 h2).view.ty.Contents (Elt F)) :
    IdxIs d L xt (k.val + 5) ((idxP24 k h1 h2).view.writes (Elt F) f
      [⟨Rect.whole S128, ReadAs.same.apply ((xtP25 L k h1 h2).view.read (Elt F) xt)⟩]) :=
  fun b => (read_congr_memref (idxP24_eq k h1 h2).symm _ _ HEq.rfl b).trans (landed_is d L xt k h1 h2 f b)

/-- The write-back of a select slot holding chunk `k − 4`'s table rows leaves the output chunk at the transposed lookup. -/
theorem outIs_written (k : Fin k1_t1_loop.trips) (h3 : k1_cond3 k = 1#1) (hk4 : 4 ≤ k.val)
    (fo : (outP425 L k h3).view.ty.Contents (Elt F)) (cs : (selP423 k h3).view.ty.Contents (Elt F))
    (hxt : ∀ (h : Fin 50) (b : Fin 16384), xt (ix2 h b) = x (ix2 b h))
    (hS : SelIs d L xt tab (k.val - 4) cs) :
    OutIs d L x tab (k.val - 4) ((outP425 L k h3).view.writes (Elt F) fo
      [⟨Rect.whole S128x64, ReadAs.same.apply ((selP423 k h3).view.read (Elt F) cs)⟩]) :=
  written_is d L xt x tab k h3 hk4 fo cs hxt (fun b c =>
    (read_congr_memref ((selP423_eq k h3).trans (selC_congr (a := k.val) (b := k.val - 4) (by omega))) _ _ HEq.rfl (ix2 b c)).trans (hS b c))

end Canon

end Cert.Proof.KBody

end
-- ==== Proof.KBodyContentRows.lean ====
/-
  What a trip's gather delivers, in the loop's own terms.

  The rows slot after the gather, read at row b and column j, is entry j of the packed table's row packRow w, w the
  b-th word of the index slot the trip's list was computed from; when that slot holds the worker's chunk of the
  trip, w is the chunk's b-th word. A slot's reads depend on its rectangle's offsets only, so the statement moves
  between the program's spelling of a slot and the slot by number.
-/
import proofs.«206325_g16862041604593_cont_week2b_1534_42_alg».proof.Proof.KBodyContent
import proofs.«206325_g16862041604593_cont_week2b_1534_42_alg».proof.Proof.KBodyValueRegion
import proofs.«206325_g16862041604593_cont_week2b_1534_42_alg».proof.Proof.KBodyRespell

noncomputable section

namespace Cert.Proof.KBody

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open Idealize.ShloMosaic.ValueIdx Cert.Spec

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A5" => (Memref.whole Cert.KernelIdeal.cc1_scratch0 : Memref Cert.KernelIdeal.sig Kind.scVector Space.vmem Cert.KernelIdeal.S10x128 EltTy.i32)
local notation "A7" => (Memref.whole Cert.KernelIdeal.cc1_scratch2 : Memref Cert.KernelIdeal.sig Kind.scVector Space.vmem Cert.KernelIdeal.S5x128x128 EltTy.f32)

/-- Reading a slot of the index ring depends on its rectangle's offsets only. -/
theorem idx_read_congr {off off' : Fin 2 → Nat} (h : off = off')
    (inb : ∀ a, off a + S1x128.size a ≤ S10x128.size a) (inb' : ∀ a, off' a + S1x128.size a ≤ S10x128.size a)
    (g : (A5).view.ty.Contents (Elt F)) (y : S128.Idx) :
    (((A5).slice (Rect.unit (s := S10x128) off S1x128.size inb) (fun _ => rfl)).squeeze S128 squeezes_S1x128_S128).view.read (Elt F) g y
      = (((A5).slice (Rect.unit (s := S10x128) off' S1x128.size inb') (fun _ => rfl)).squeeze S128 squeezes_S1x128_S128).view.read (Elt F) g y := by
  subst h; rfl

/-- Reading a slot of the gathered-rows ring depends on its rectangle's offsets only. -/
theorem rows_read_congr {off off' : Fin 3 → Nat} (h : off = off')
    (inb : ∀ a, off a + S1x128x128.size a ≤ S5x128x128.size a) (inb' : ∀ a, off' a + S1x128x128.size a ≤ S5x128x128.size a)
    (g : (A7).view.ty.Contents (Elt F)) (y : S128x128.Idx) :
    (((A7).slice (Rect.unit (s := S5x128x128) off S1x128x128.size inb) (fun _ => rfl)).squeeze S128x128 squeezes_S1x128x128_S128x128).view.read (Elt F) g y
      = (((A7).slice (Rect.unit (s := S5x128x128) off' S1x128x128.size inb') (fun _ => rfl)).squeeze S128x128 squeezes_S1x128x128_S128x128).view.read (Elt F) g y := by
  subst h; rfl

variable [FloatOps F]

variable (d : Dev nD) (L : grid1.Coords)
variable (tp : Buf (Elt F) ((A2).view.loc (V d (cV L) (jV L)))) (xt : Buf (Elt F) ((A3).view.loc (V d (cV L) (jV L))))

/-- The gather a trip issues, landed: the rows slot holds, for each word of the worker's chunk of the trip, the packed
    row the word names — when the index slot the trip's list was computed from holds that chunk. -/
theorem rowsIs_gathered (k : Fin k1_t1_loop.trips) (h1 : k1_cond1 k = 1#1)
    (ci : Buf (Elt F) ((idxP2 k h1).view.loc (V d (cV L) (jV L))))
    (fh : Buf (Elt F) ((halfP22 k h1).view.loc (V d (cV L) (jV L))))
    (fr : Buf (Elt F) ((rowsP21 k h1).view.loc (V d (cV L) (jV L))))
    (hci : ∀ y : S128.Idx, ((idxP2 k h1).view.read (Elt F) ci y).toNat ≤ 999999)
    (hIs : IdxIs d L xt k.val ci) (hn : S128.numel = 128)
    (hin : ∀ y : S128.Idx, ((halfP22 k h1).view.read (Elt F) (halfAfter d L k h1 ci fh) y).toNat < 507904) :
    RowsIs d L tp xt k.val ((rowsP21 k h1).view.writes (Elt F) fr
      [⟨Rect.whole S128x128, SparseCore.gatherPayload gathers_S507904x128_S128x128 ((tabS).view.read (Elt F) tp)
        (SparseCore.rows ((halfP22 k h1).view.read (Elt F) (halfAfter d L k h1 ci fh)) hn hin)⟩]) := by
  intro b j hr
  have e1 : (rowsC k.val).view.read (Elt F) ((rowsP21 k h1).view.writes (Elt F) fr
      [⟨Rect.whole S128x128, SparseCore.gatherPayload gathers_S507904x128_S128x128 ((tabS).view.read (Elt F) tp)
        (SparseCore.rows ((halfP22 k h1).view.read (Elt F) (halfAfter d L k h1 ci fh)) hn hin)⟩]) (ix2 b j)
      = (rowsP21 k h1).view.read (Elt F) ((rowsP21 k h1).view.writes (Elt F) fr
      [⟨Rect.whole S128x128, SparseCore.gatherPayload gathers_S507904x128_S128x128 ((tabS).view.read (Elt F) tp)
        (SparseCore.rows ((halfP22 k h1).view.read (Elt F) (halfAfter d L k h1 ci fh)) hn hin)⟩]) (ix2 b j) :=
    rows_read_congr (k1_off21_eq k).symm _ _ _ _
  have e2 : (idxP2 k h1).view.read (Elt F) ci (ix1 b) = chunkWordOf d L xt k.val b.val :=
    (idx_read_congr (k1_off2_eq k) _ _ ci (ix1 b)).trans (hIs (ix1 b))
  rw [e1, View.read_writes_whole, gathered_rows d L k h1 tp ci fh hci hn hin b j]
  exact congrArg (fun r => tp (ix2 (n0 := 507904) (n1 := 128) r j)) (Fin.ext (by show packRow _ = packRow _; rw [e2]))

end Cert.Proof.KBody
end
-- ==== Proof.ChkCore.lean ====
/-
  Why the select stage's window offsets are in range.

  For each index word the kernel copies 64 lanes of a gathered 128-lane row, starting at lane 0 or lane 64: the
  start is bit 14 of the word shifted left by 6. It does so 16 lanes at a time, at lane offsets
  `start + 16 r` for `r = 0, 1, 2, 3`. A word of the form `(q &&& 1) <<< 6` is 0 or 64 whatever `q` is, so the
  largest offset is `64 + 48 = 112` and the 16-lane window ends at lane 128 at the latest: inside the row. The
  row number is a literal below 128, and the window is one row tall.
-/
import Idealize.ShloMosaic.PureOps
import Idealize.ShloMosaic.Lib.ValueIdx
import Idealize.ShloMosaic.Lib.Pipeline.Value

namespace Cert.ChkCore

open Idealize.ShloMosaic Idealize.ShloMosaic.ValueIdx

/-- A lane offset the kernel can compute: 0 or 64. -/
def IsOff (w : BitVec 32) : Prop := w = 0#32 ∨ w = 64#32

theorem isOff_zero : IsOff 0#32 := Or.inl rfl
theorem isOff_64 : IsOff 64#32 := Or.inr rfl

theorem IsOff.toNat {w : BitVec 32} (h : IsOff w) : w.toNat = 0 ∨ w.toNat = 64 := by
  rcases h with rfl | rfl
  · left; rfl
  · right; rfl

theorem IsOff.toNat_le {w : BitVec 32} (h : IsOff w) : w.toNat ≤ 64 := by
  rcases h.toNat with h | h <;> omega

/-- The lowest bit of a word, as a word, is 0 or 1. -/
theorem and_one_cases (q : BitVec 32) : q &&& 1#32 = 0#32 ∨ q &&& 1#32 = 1#32 := by
  have h : (q &&& 1#32).toNat = q.toNat % 2 := by
    rw [BitVec.toNat_and]
    exact Nat.and_two_pow_sub_one_eq_mod q.toNat 1
  rcases Nat.mod_two_eq_zero_or_one q.toNat with h0 | h1
  · left; apply BitVec.eq_of_toNat_eq; rw [h, h0]; rfl
  · right; apply BitVec.eq_of_toNat_eq; rw [h, h1]; rfl

/-- One bit shifted left by 6 is 0 or 64. -/
theorem isOff_word (q : BitVec 32) : IsOff ((q &&& 1#32) <<< 6) := by
  rcases and_one_cases q with h | h <;> rw [h]
  · exact Or.inl rfl
  · exact Or.inr rfl

/-- The kernel's offset word, for every word `p`: bit 14 shifted left by 6. -/
theorem isOff_word14 (p : BitVec 32) : IsOff (((p >>> 14) &&& 1#32) <<< 6) := isOff_word _

/-- Every lane of a vector `(y &&& 1) <<< 6` is 0 or 64, at every shape of vector. -/
theorem isOff_offLane {s : Shape} (y : IVec s 32) (l : s.Idx) :
    IsOff (shli (andi y (broadcast s 1#32)) (broadcast s 6#32) l) := by
  show IsOff (IntOp.shli .vector (IntOp.andi (y l) 1#32) 6#32)
  unfold IntOp.shli IntOp.andi
  rw [if_pos (by decide)]
  exact isOff_word (y l)

/-- A one-lane slice of a vector whose lanes are 0 or 64, read at its one position, is 0 or 64. -/
theorem isOff_extract {n : Nat} (x : IVec ⟨1, ![n]⟩ 32) (hx : ∀ l, IsOff (x l)) (off : Fin 1 → Nat)
    (hs : (⟨1, ![n]⟩ : Shape).Slices off ⟨1, ![1]⟩)
    (pos : Fin 1 → Nat) (hp : ∀ a, pos a < (⟨1, ![1]⟩ : Shape).size a) :
    IsOff (extractAt pos (extractStridedSlice ⟨1, ![1]⟩ off x hs) hp) := by
  unfold extractAt extractStridedSlice
  exact hx _

/-- The 16-lane window at row `row`, lane `w + 16 r` of a `[128, 128]` buffer is inside it when `w` is 0 or 64. -/
theorem window_inb (row : Nat) (hrow : row < 128) (w : BitVec 32) (hw : IsOff w) (r : Fin 4) (a : Fin 2) :
    (![row, (Scalar.indexCast (Scalar.addi w (BitVec.ofNat 32 (16 * r.val)))).toNat] : Fin 2 → Nat) a
        + (⟨2, ![1, 16]⟩ : Shape).size a ≤ (⟨2, ![128, 128]⟩ : Shape).size a := by
  match a with
  | ⟨0, _⟩ =>
    show row + 1 ≤ 128
    omega
  | ⟨1, _⟩ =>
    show (w + BitVec.ofNat 32 (16 * r.val)).toNat + 16 ≤ 128
    have hr := r.isLt
    have hw' := hw.toNat
    rw [BitVec.toNat_add, BitVec.toNat_ofNat]
    omega

/-- The same in the shape of the kernel's assumed checks: under any condition `P`, for the four windows `r`. -/
theorem chk_core (row : Nat) (hrow : row < 128) (w : BitVec 32) (hw : IsOff w) (P : Prop) :
    ∀ (_ : P) (r : Fin 4) (a : Fin 2),
      (![row, (Scalar.indexCast (Scalar.addi w (BitVec.ofNat 32 (16 * r.val)))).toNat] : Fin 2 → Nat) a
        + (⟨2, ![1, 16]⟩ : Shape).size a ≤ (⟨2, ![128, 128]⟩ : Shape).size a :=
  fun _ r a => window_inb row hrow w hw r a

/-- The offset of that window as a number: `w + 16 r`, no wrap-around. -/
theorem window_off (w : BitVec 32) (hw : IsOff w) (r : Fin 4) :
    (Scalar.indexCast (Scalar.addi w (BitVec.ofNat 32 (16 * r.val)))).toNat = w.toNat + 16 * r.val := by
  show (w + BitVec.ofNat 32 (16 * r.val)).toNat = _
  have hr := r.isLt
  have hw' := hw.toNat
  rw [BitVec.toNat_add, BitVec.toNat_ofNat]
  omega

/-! ## One tactic for the 128 checks

  The lemma that check `k1_chkN` holds of the word the kernel computes for it is named `chkN` in the table of the
  program the check belongs to (`Cert.ChkFacts` for the idealized program, `Cert.WChkFacts` for the word-level one);
  the form that takes the offset vector with "every lane is 0 or 64" as a hypothesis is `chkN_of`. -/

/-- The name of the lemma for a check in the table `table`, from the check's name: `k1_chkN` gives `table.chkN`. -/
def lemmaOfCheck (table : Lean.Name) (n : Lean.Name) : Option Lean.Name :=
  match n with
  | .str _ s =>
    if s.startsWith "k1_chk" then some (Lean.Name.mkStr table ("chk" ++ (s.drop 6).toString)) else none
  | _ => none

open Lean Elab Tactic Meta in
/-- Closes a goal `k1_chkN t w` whose word `w` is a lane of an offset vector `(y &&& 1) <<< 6`: by the lemma of
    that check in the table `table`, found from the check's name. -/
def chkDisch (table : Name) : TacticM Unit := withMainContext do
  let g ← getMainGoal
  let ty ← instantiateMVars (← g.getType)
  let some c := ty.getAppFn.constName? | throwError "chk_disch: the goal is not a window check"
  let some lem := lemmaOfCheck table c | throwError "chk_disch: the goal is not a window check"
  let id := mkIdent lem
  let idOf := mkIdent (lem.appendAfter "_of")
  evalTactic (← `(tactic| first
    | exact $id _
    | exact $idOf _ _ (fun l => Cert.ChkCore.isOff_offLane _ l)))

/-- The checks of the idealized program. -/
elab "chk_disch" : tactic => chkDisch `Cert.ChkFacts
/-- The checks of the word-level program. -/
elab "w_chk_disch" : tactic => chkDisch `Cert.WChkFacts

end Cert.ChkCore
-- ==== Proof.ChkFacts.lean ====
/-
  The 128 window checks of the select stage hold for every vector of index words.

  The stage handles 128 index words, 16 at a time. For each group of 16 it computes the offset vector
  `(((x &&& 32767) >>> 14) &&& 1) <<< 6` once; for the word in lane `k` it reads lane `k` of that vector (a one-lane
  slice, read at its one position) and copies four 16-lane windows of row `16 q + k` of the gathered buffer, at lane
  offsets `off + 16 r`, `r = 0, 1, 2, 3`. Check `N` says the four windows of row `N - 1` lie inside the `[128, 128]`
  buffer. Every lane of an offset vector is 0 or 64 whatever the index words are (`ChkCore.isOff_offLane`), and then
  the windows are inside (`ChkCore.chk_core`): so every check holds with no condition on the words. Below, for each
  check: it holds of any word that is 0 or 64; the word it is about is 0 or 64; so it holds of that word.
-/
import proofs.«206325_g16862041604593_cont_week2b_1534_42_alg».proof.Proof.Gen.KernelIdeal.Skeleton
import proofs.«206325_g16862041604593_cont_week2b_1534_42_alg».proof.Proof.ChkCore

noncomputable section

namespace Cert.ChkFacts

open Idealize.ShloMosaic Cert.KernelIdeal Cert.KernelIdeal.Gen Cert.ChkCore

variable {F : FTy → Type} [FloatOps F]

/-! ## Each check holds of a word that is 0 or 64 -/

theorem chk1_of_isOff (t : Fin k1_t1_loop.trips) (w : BitVec 32) (hw : IsOff w) : k1_chk1 t w :=
  chk_core 0 (by decide) w hw _
theorem chk2_of_isOff (t : Fin k1_t1_loop.trips) (w : BitVec 32) (hw : IsOff w) : k1_chk2 t w :=
  chk_core 1 (by decide) w hw _
theorem chk3_of_isOff (t : Fin k1_t1_loop.trips) (w : BitVec 32) (hw : IsOff w) : k1_chk3 t w :=
  chk_core 2 (by decide) w hw _
theorem chk4_of_isOff (t : Fin k1_t1_loop.trips) (w : BitVec 32) (hw : IsOff w) : k1_chk4 t w :=
  chk_core 3 (by decide) w hw _
theorem chk5_of_isOff (t : Fin k1_t1_loop.trips) (w : BitVec 32) (hw : IsOff w) : k1_chk5 t w :=
  chk_core 4 (by decide) w hw _
theorem chk6_of_isOff (t : Fin k1_t1_loop.trips) (w : BitVec 32) (hw : IsOff w) : k1_chk6 t w :=
  chk_core 5 (by decide) w hw _
theorem chk7_of_isOff (t : Fin k1_t1_loop.trips) (w : BitVec 32) (hw : IsOff w) : k1_chk7 t w :=
  chk_core 6 (by decide) w hw _
theorem chk8_of_isOff (t : Fin k1_t1_loop.trips) (w : BitVec 32) (hw : IsOff w) : k1_chk8 t w :=
  chk_core 7 (by decide) w hw _
theorem chk9_of_isOff (t : Fin k1_t1_loop.trips) (w : BitVec 32) (hw : IsOff w) : k1_chk9 t w :=
  chk_core 8 (by decide) w hw _
theorem chk10_of_isOff (t : Fin k1_t1_loop.trips) (w : BitVec 32) (hw : IsOff w) : k1_chk10 t w :=
  chk_core 9 (by decide) w hw _
theorem chk11_of_isOff (t : Fin k1_t1_loop.trips) (w : BitVec 32) (hw : IsOff w) : k1_chk11 t w :=
  chk_core 10 (by decide) w hw _
theorem chk12_of_isOff (t : Fin k1_t1_loop.trips) (w : BitVec 32) (hw : IsOff w) : k1_chk12 t w :=
  chk_core 11 (by decide) w hw _
theorem chk13_of_isOff (t : Fin k1_t1_loop.trips) (w : BitVec 32) (hw : IsOff w) : k1_chk13 t w :=
  chk_core 12 (by decide) w hw _
theorem chk14_of_isOff (t : Fin k1_t1_loop.trips) (w : BitVec 32) (hw : IsOff w) : k1_chk14 t w :=
  chk_core 13 (by decide) w hw _
theorem chk15_of_isOff (t : Fin k1_t1_loop.trips) (w : BitVec 32) (hw : IsOff w) : k1_chk15 t w :=
  chk_core 14 (by decide) w hw _
theorem chk16_of_isOff (t : Fin k1_t1_loop.trips) (w : BitVec 32) (hw : IsOff w) : k1_chk16 t w :=
  chk_core 15 (by decide) w hw _
theorem chk17_of_isOff (t : Fin k1_t1_loop.trips) (w : BitVec 32) (hw : IsOff w) : k1_chk17 t w :=
  chk_core 16 (by decide) w hw _
theorem chk18_of_isOff (t : Fin k1_t1_loop.trips) (w : BitVec 32) (hw : IsOff w) : k1_chk18 t w :=
  chk_core 17 (by decide) w hw _
theorem chk19_of_isOff (t : Fin k1_t1_loop.trips) (w : BitVec 32) (hw : IsOff w) : k1_chk19 t w :=
  chk_core 18 (by decide) w hw _
theorem chk20_of_isOff (t : Fin k1_t1_loop.trips) (w : BitVec 32) (hw : IsOff w) : k1_chk20 t w :=
  chk_core 19 (by decide) w hw _
theorem chk21_of_isOff (t : Fin k1_t1_loop.trips) (w : BitVec 32) (hw : IsOff w) : k1_chk21 t w :=
  chk_core 20 (by decide) w hw _
theorem chk22_of_isOff (t : Fin k1_t1_loop.trips) (w : BitVec 32) (hw : IsOff w) : k1_chk22 t w :=
  chk_core 21 (by decide) w hw _
theorem chk23_of_isOff (t : Fin k1_t1_loop.trips) (w : BitVec 32) (hw : IsOff w) : k1_chk23 t w :=
  chk_core 22 (by decide) w hw _
theorem chk24_of_isOff (t : Fin k1_t1_loop.trips) (w : BitVec 32) (hw : IsOff w) : k1_chk24 t w :=
  chk_core 23 (by decide) w hw _
theorem chk25_of_isOff (t : Fin k1_t1_loop.trips) (w : BitVec 32) (hw : IsOff w) : k1_chk25 t w :=
  chk_core 24 (by decide) w hw _
theorem chk26_of_isOff (t : Fin k1_t1_loop.trips) (w : BitVec 32) (hw : IsOff w) : k1_chk26 t w :=
  chk_core 25 (by decide) w hw _
theorem chk27_of_isOff (t : Fin k1_t1_loop.trips) (w : BitVec 32) (hw : IsOff w) : k1_chk27 t w :=
  chk_core 26 (by decide) w hw _
theorem chk28_of_isOff (t : Fin k1_t1_loop.trips) (w : BitVec 32) (hw : IsOff w) : k1_chk28 t w :=
  chk_core 27 (by decide) w hw _
theorem chk29_of_isOff (t : Fin k1_t1_loop.trips) (w : BitVec 32) (hw : IsOff w) : k1_chk29 t w :=
  chk_core 28 (by decide) w hw _
theorem chk30_of_isOff (t : Fin k1_t1_loop.trips) (w : BitVec 32) (hw : IsOff w) : k1_chk30 t w :=
  chk_core 29 (by decide) w hw _
theorem chk31_of_isOff (t : Fin k1_t1_loop.trips) (w : BitVec 32) (hw : IsOff w) : k1_chk31 t w :=
  chk_core 30 (by decide) w hw _
theorem chk32_of_isOff (t : Fin k1_t1_loop.trips) (w : BitVec 32) (hw : IsOff w) : k1_chk32 t w :=
  chk_core 31 (by decide) w hw _
theorem chk33_of_isOff (t : Fin k1_t1_loop.trips) (w : BitVec 32) (hw : IsOff w) : k1_chk33 t w :=
  chk_core 32 (by decide) w hw _
theorem chk34_of_isOff (t : Fin k1_t1_loop.trips) (w : BitVec 32) (hw : IsOff w) : k1_chk34 t w :=
  chk_core 33 (by decide) w hw _
theorem chk35_of_isOff (t : Fin k1_t1_loop.trips) (w : BitVec 32) (hw : IsOff w) : k1_chk35 t w :=
  chk_core 34 (by decide) w hw _
theorem chk36_of_isOff (t : Fin k1_t1_loop.trips) (w : BitVec 32) (hw : IsOff w) : k1_chk36 t w :=
  chk_core 35 (by decide) w hw _
theorem chk37_of_isOff (t : Fin k1_t1_loop.trips) (w : BitVec 32) (hw : IsOff w) : k1_chk37 t w :=
  chk_core 36 (by decide) w hw _
theorem chk38_of_isOff (t : Fin k1_t1_loop.trips) (w : BitVec 32) (hw : IsOff w) : k1_chk38 t w :=
  chk_core 37 (by decide) w hw _
theorem chk39_of_isOff (t : Fin k1_t1_loop.trips) (w : BitVec 32) (hw : IsOff w) : k1_chk39 t w :=
  chk_core 38 (by decide) w hw _
theorem chk40_of_isOff (t : Fin k1_t1_loop.trips) (w : BitVec 32) (hw : IsOff w) : k1_chk40 t w :=
  chk_core 39 (by decide) w hw _
theorem chk41_of_isOff (t : Fin k1_t1_loop.trips) (w : BitVec 32) (hw : IsOff w) : k1_chk41 t w :=
  chk_core 40 (by decide) w hw _
theorem chk42_of_isOff (t : Fin k1_t1_loop.trips) (w : BitVec 32) (hw : IsOff w) : k1_chk42 t w :=
  chk_core 41 (by decide) w hw _
theorem chk43_of_isOff (t : Fin k1_t1_loop.trips) (w : BitVec 32) (hw : IsOff w) : k1_chk43 t w :=
  chk_core 42 (by decide) w hw _
theorem chk44_of_isOff (t : Fin k1_t1_loop.trips) (w : BitVec 32) (hw : IsOff w) : k1_chk44 t w :=
  chk_core 43 (by decide) w hw _
theorem chk45_of_isOff (t : Fin k1_t1_loop.trips) (w : BitVec 32) (hw : IsOff w) : k1_chk45 t w :=
  chk_core 44 (by decide) w hw _
theorem chk46_of_isOff (t : Fin k1_t1_loop.trips) (w : BitVec 32) (hw : IsOff w) : k1_chk46 t w :=
  chk_core 45 (by decide) w hw _
theorem chk47_of_isOff (t : Fin k1_t1_loop.trips) (w : BitVec 32) (hw : IsOff w) : k1_chk47 t w :=
  chk_core 46 (by decide) w hw _
theorem chk48_of_isOff (t : Fin k1_t1_loop.trips) (w : BitVec 32) (hw : IsOff w) : k1_chk48 t w :=
  chk_core 47 (by decide) w hw _
theorem chk49_of_isOff (t : Fin k1_t1_loop.trips) (w : BitVec 32) (hw : IsOff w) : k1_chk49 t w :=
  chk_core 48 (by decide) w hw _
theorem chk50_of_isOff (t : Fin k1_t1_loop.trips) (w : BitVec 32) (hw : IsOff w) : k1_chk50 t w :=
  chk_core 49 (by decide) w hw _
theorem chk51_of_isOff (t : Fin k1_t1_loop.trips) (w : BitVec 32) (hw : IsOff w) : k1_chk51 t w :=
  chk_core 50 (by decide) w hw _
theorem chk52_of_isOff (t : Fin k1_t1_loop.trips) (w : BitVec 32) (hw : IsOff w) : k1_chk52 t w :=
  chk_core 51 (by decide) w hw _
theorem chk53_of_isOff (t : Fin k1_t1_loop.trips) (w : BitVec 32) (hw : IsOff w) : k1_chk53 t w :=
  chk_core 52 (by decide) w hw _
theorem chk54_of_isOff (t : Fin k1_t1_loop.trips) (w : BitVec 32) (hw : IsOff w) : k1_chk54 t w :=
  chk_core 53 (by decide) w hw _
theorem chk55_of_isOff (t : Fin k1_t1_loop.trips) (w : BitVec 32) (hw : IsOff w) : k1_chk55 t w :=
  chk_core 54 (by decide) w hw _
theorem chk56_of_isOff (t : Fin k1_t1_loop.trips) (w : BitVec 32) (hw : IsOff w) : k1_chk56 t w :=
  chk_core 55 (by decide) w hw _
theorem chk57_of_isOff (t : Fin k1_t1_loop.trips) (w : BitVec 32) (hw : IsOff w) : k1_chk57 t w :=
  chk_core 56 (by decide) w hw _
theorem chk58_of_isOff (t : Fin k1_t1_loop.trips) (w : BitVec 32) (hw : IsOff w) : k1_chk58 t w :=
  chk_core 57 (by decide) w hw _
theorem chk59_of_isOff (t : Fin k1_t1_loop.trips) (w : BitVec 32) (hw : IsOff w) : k1_chk59 t w :=
  chk_core 58 (by decide) w hw _
theorem chk60_of_isOff (t : Fin k1_t1_loop.trips) (w : BitVec 32) (hw : IsOff w) : k1_chk60 t w :=
  chk_core 59 (by decide) w hw _
theorem chk61_of_isOff (t : Fin k1_t1_loop.trips) (w : BitVec 32) (hw : IsOff w) : k1_chk61 t w :=
  chk_core 60 (by decide) w hw _
theorem chk62_of_isOff (t : Fin k1_t1_loop.trips) (w : BitVec 32) (hw : IsOff w) : k1_chk62 t w :=
  chk_core 61 (by decide) w hw _
theorem chk63_of_isOff (t : Fin k1_t1_loop.trips) (w : BitVec 32) (hw : IsOff w) : k1_chk63 t w :=
  chk_core 62 (by decide) w hw _
theorem chk64_of_isOff (t : Fin k1_t1_loop.trips) (w : BitVec 32) (hw : IsOff w) : k1_chk64 t w :=
  chk_core 63 (by decide) w hw _
theorem chk65_of_isOff (t : Fin k1_t1_loop.trips) (w : BitVec 32) (hw : IsOff w) : k1_chk65 t w :=
  chk_core 64 (by decide) w hw _
theorem chk66_of_isOff (t : Fin k1_t1_loop.trips) (w : BitVec 32) (hw : IsOff w) : k1_chk66 t w :=
  chk_core 65 (by decide) w hw _
theorem chk67_of_isOff (t : Fin k1_t1_loop.trips) (w : BitVec 32) (hw : IsOff w) : k1_chk67 t w :=
  chk_core 66 (by decide) w hw _
theorem chk68_of_isOff (t : Fin k1_t1_loop.trips) (w : BitVec 32) (hw : IsOff w) : k1_chk68 t w :=
  chk_core 67 (by decide) w hw _
theorem chk69_of_isOff (t : Fin k1_t1_loop.trips) (w : BitVec 32) (hw : IsOff w) : k1_chk69 t w :=
  chk_core 68 (by decide) w hw _
theorem chk70_of_isOff (t : Fin k1_t1_loop.trips) (w : BitVec 32) (hw : IsOff w) : k1_chk70 t w :=
  chk_core 69 (by decide) w hw _
theorem chk71_of_isOff (t : Fin k1_t1_loop.trips) (w : BitVec 32) (hw : IsOff w) : k1_chk71 t w :=
  chk_core 70 (by decide) w hw _
theorem chk72_of_isOff (t : Fin k1_t1_loop.trips) (w : BitVec 32) (hw : IsOff w) : k1_chk72 t w :=
  chk_core 71 (by decide) w hw _
theorem chk73_of_isOff (t : Fin k1_t1_loop.trips) (w : BitVec 32) (hw : IsOff w) : k1_chk73 t w :=
  chk_core 72 (by decide) w hw _
theorem chk74_of_isOff (t : Fin k1_t1_loop.trips) (w : BitVec 32) (hw : IsOff w) : k1_chk74 t w :=
  chk_core 73 (by decide) w hw _
theorem chk75_of_isOff (t : Fin k1_t1_loop.trips) (w : BitVec 32) (hw : IsOff w) : k1_chk75 t w :=
  chk_core 74 (by decide) w hw _
theorem chk76_of_isOff (t : Fin k1_t1_loop.trips) (w : BitVec 32) (hw : IsOff w) : k1_chk76 t w :=
  chk_core 75 (by decide) w hw _
theorem chk77_of_isOff (t : Fin k1_t1_loop.trips) (w : BitVec 32) (hw : IsOff w) : k1_chk77 t w :=
  chk_core 76 (by decide) w hw _
theorem chk78_of_isOff (t : Fin k1_t1_loop.trips) (w : BitVec 32) (hw : IsOff w) : k1_chk78 t w :=
  chk_core 77 (by decide) w hw _
theorem chk79_of_isOff (t : Fin k1_t1_loop.trips) (w : BitVec 32) (hw : IsOff w) : k1_chk79 t w :=
  chk_core 78 (by decide) w hw _
theorem chk80_of_isOff (t : Fin k1_t1_loop.trips) (w : BitVec 32) (hw : IsOff w) : k1_chk80 t w :=
  chk_core 79 (by decide) w hw _
theorem chk81_of_isOff (t : Fin k1_t1_loop.trips) (w : BitVec 32) (hw : IsOff w) : k1_chk81 t w :=
  chk_core 80 (by decide) w hw _
theorem chk82_of_isOff (t : Fin k1_t1_loop.trips) (w : BitVec 32) (hw : IsOff w) : k1_chk82 t w :=
  chk_core 81 (by decide) w hw _
theorem chk83_of_isOff (t : Fin k1_t1_loop.trips) (w : BitVec 32) (hw : IsOff w) : k1_chk83 t w :=
  chk_core 82 (by decide) w hw _
theorem chk84_of_isOff (t : Fin k1_t1_loop.trips) (w : BitVec 32) (hw : IsOff w) : k1_chk84 t w :=
  chk_core 83 (by decide) w hw _
theorem chk85_of_isOff (t : Fin k1_t1_loop.trips) (w : BitVec 32) (hw : IsOff w) : k1_chk85 t w :=
  chk_core 84 (by decide) w hw _
theorem chk86_of_isOff (t : Fin k1_t1_loop.trips) (w : BitVec 32) (hw : IsOff w) : k1_chk86 t w :=
  chk_core 85 (by decide) w hw _
theorem chk87_of_isOff (t : Fin k1_t1_loop.trips) (w : BitVec 32) (hw : IsOff w) : k1_chk87 t w :=
  chk_core 86 (by decide) w hw _
theorem chk88_of_isOff (t : Fin k1_t1_loop.trips) (w : BitVec 32) (hw : IsOff w) : k1_chk88 t w :=
  chk_core 87 (by decide) w hw _
theorem chk89_of_isOff (t : Fin k1_t1_loop.trips) (w : BitVec 32) (hw : IsOff w) : k1_chk89 t w :=
  chk_core 88 (by decide) w hw _
theorem chk90_of_isOff (t : Fin k1_t1_loop.trips) (w : BitVec 32) (hw : IsOff w) : k1_chk90 t w :=
  chk_core 89 (by decide) w hw _
theorem chk91_of_isOff (t : Fin k1_t1_loop.trips) (w : BitVec 32) (hw : IsOff w) : k1_chk91 t w :=
  chk_core 90 (by decide) w hw _
theorem chk92_of_isOff (t : Fin k1_t1_loop.trips) (w : BitVec 32) (hw : IsOff w) : k1_chk92 t w :=
  chk_core 91 (by decide) w hw _
theorem chk93_of_isOff (t : Fin k1_t1_loop.trips) (w : BitVec 32) (hw : IsOff w) : k1_chk93 t w :=
  chk_core 92 (by decide) w hw _
theorem chk94_of_isOff (t : Fin k1_t1_loop.trips) (w : BitVec 32) (hw : IsOff w) : k1_chk94 t w :=
  chk_core 93 (by decide) w hw _
theorem chk95_of_isOff (t : Fin k1_t1_loop.trips) (w : BitVec 32) (hw : IsOff w) : k1_chk95 t w :=
  chk_core 94 (by decide) w hw _
theorem chk96_of_isOff (t : Fin k1_t1_loop.trips) (w : BitVec 32) (hw : IsOff w) : k1_chk96 t w :=
  chk_core 95 (by decide) w hw _
theorem chk97_of_isOff (t : Fin k1_t1_loop.trips) (w : BitVec 32) (hw : IsOff w) : k1_chk97 t w :=
  chk_core 96 (by decide) w hw _
theorem chk98_of_isOff (t : Fin k1_t1_loop.trips) (w : BitVec 32) (hw : IsOff w) : k1_chk98 t w :=
  chk_core 97 (by decide) w hw _
theorem chk99_of_isOff (t : Fin k1_t1_loop.trips) (w : BitVec 32) (hw : IsOff w) : k1_chk99 t w :=
  chk_core 98 (by decide) w hw _
theorem chk100_of_isOff (t : Fin k1_t1_loop.trips) (w : BitVec 32) (hw : IsOff w) : k1_chk100 t w :=
  chk_core 99 (by decide) w hw _
theorem chk101_of_isOff (t : Fin k1_t1_loop.trips) (w : BitVec 32) (hw : IsOff w) : k1_chk101 t w :=
  chk_core 100 (by decide) w hw _
theorem chk102_of_isOff (t : Fin k1_t1_loop.trips) (w : BitVec 32) (hw : IsOff w) : k1_chk102 t w :=
  chk_core 101 (by decide) w hw _
theorem chk103_of_isOff (t : Fin k1_t1_loop.trips) (w : BitVec 32) (hw : IsOff w) : k1_chk103 t w :=
  chk_core 102 (by decide) w hw _
theorem chk104_of_isOff (t : Fin k1_t1_loop.trips) (w : BitVec 32) (hw : IsOff w) : k1_chk104 t w :=
  chk_core 103 (by decide) w hw _
theorem chk105_of_isOff (t : Fin k1_t1_loop.trips) (w : BitVec 32) (hw : IsOff w) : k1_chk105 t w :=
  chk_core 104 (by decide) w hw _
theorem chk106_of_isOff (t : Fin k1_t1_loop.trips) (w : BitVec 32) (hw : IsOff w) : k1_chk106 t w :=
  chk_core 105 (by decide) w hw _
theorem chk107_of_isOff (t : Fin k1_t1_loop.trips) (w : BitVec 32) (hw : IsOff w) : k1_chk107 t w :=
  chk_core 106 (by decide) w hw _
theorem chk108_of_isOff (t : Fin k1_t1_loop.trips) (w : BitVec 32) (hw : IsOff w) : k1_chk108 t w :=
  chk_core 107 (by decide) w hw _
theorem chk109_of_isOff (t : Fin k1_t1_loop.trips) (w : BitVec 32) (hw : IsOff w) : k1_chk109 t w :=
  chk_core 108 (by decide) w hw _
theorem chk110_of_isOff (t : Fin k1_t1_loop.trips) (w : BitVec 32) (hw : IsOff w) : k1_chk110 t w :=
  chk_core 109 (by decide) w hw _
theorem chk111_of_isOff (t : Fin k1_t1_loop.trips) (w : BitVec 32) (hw : IsOff w) : k1_chk111 t w :=
  chk_core 110 (by decide) w hw _
theorem chk112_of_isOff (t : Fin k1_t1_loop.trips) (w : BitVec 32) (hw : IsOff w) : k1_chk112 t w :=
  chk_core 111 (by decide) w hw _
theorem chk113_of_isOff (t : Fin k1_t1_loop.trips) (w : BitVec 32) (hw : IsOff w) : k1_chk113 t w :=
  chk_core 112 (by decide) w hw _
theorem chk114_of_isOff (t : Fin k1_t1_loop.trips) (w : BitVec 32) (hw : IsOff w) : k1_chk114 t w :=
  chk_core 113 (by decide) w hw _
theorem chk115_of_isOff (t : Fin k1_t1_loop.trips) (w : BitVec 32) (hw : IsOff w) : k1_chk115 t w :=
  chk_core 114 (by decide) w hw _
theorem chk116_of_isOff (t : Fin k1_t1_loop.trips) (w : BitVec 32) (hw : IsOff w) : k1_chk116 t w :=
  chk_core 115 (by decide) w hw _
theorem chk117_of_isOff (t : Fin k1_t1_loop.trips) (w : BitVec 32) (hw : IsOff w) : k1_chk117 t w :=
  chk_core 116 (by decide) w hw _
theorem chk118_of_isOff (t : Fin k1_t1_loop.trips) (w : BitVec 32) (hw : IsOff w) : k1_chk118 t w :=
  chk_core 117 (by decide) w hw _
theorem chk119_of_isOff (t : Fin k1_t1_loop.trips) (w : BitVec 32) (hw : IsOff w) : k1_chk119 t w :=
  chk_core 118 (by decide) w hw _
theorem chk120_of_isOff (t : Fin k1_t1_loop.trips) (w : BitVec 32) (hw : IsOff w) : k1_chk120 t w :=
  chk_core 119 (by decide) w hw _
theorem chk121_of_isOff (t : Fin k1_t1_loop.trips) (w : BitVec 32) (hw : IsOff w) : k1_chk121 t w :=
  chk_core 120 (by decide) w hw _
theorem chk122_of_isOff (t : Fin k1_t1_loop.trips) (w : BitVec 32) (hw : IsOff w) : k1_chk122 t w :=
  chk_core 121 (by decide) w hw _
theorem chk123_of_isOff (t : Fin k1_t1_loop.trips) (w : BitVec 32) (hw : IsOff w) : k1_chk123 t w :=
  chk_core 122 (by decide) w hw _
theorem chk124_of_isOff (t : Fin k1_t1_loop.trips) (w : BitVec 32) (hw : IsOff w) : k1_chk124 t w :=
  chk_core 123 (by decide) w hw _
theorem chk125_of_isOff (t : Fin k1_t1_loop.trips) (w : BitVec 32) (hw : IsOff w) : k1_chk125 t w :=
  chk_core 124 (by decide) w hw _
theorem chk126_of_isOff (t : Fin k1_t1_loop.trips) (w : BitVec 32) (hw : IsOff w) : k1_chk126 t w :=
  chk_core 125 (by decide) w hw _
theorem chk127_of_isOff (t : Fin k1_t1_loop.trips) (w : BitVec 32) (hw : IsOff w) : k1_chk127 t w :=
  chk_core 126 (by decide) w hw _
theorem chk128_of_isOff (t : Fin k1_t1_loop.trips) (w : BitVec 32) (hw : IsOff w) : k1_chk128 t w :=
  chk_core 127 (by decide) w hw _

/-! ## The word each check is about is 0 or 64, so the check holds of it -/

/-! ### Index words 0 to 15 -/

/-- Every lane of this group's offset vector is 0 or 64. -/
theorem isOff_pay20 (v418 : Vec F S1x16 .i32) (l : S16.Idx) : IsOff (k1_pay20 v418 l) := isOff_offLane _ l

theorem isOff_w1 (v418 : Vec F S1x16 .i32) : IsOff (extractAt ![0] (k1_pay21 v418) inpos_S1_p0) :=
  isOff_extract (k1_pay20 v418) (isOff_pay20 v418) ![0] slices_S16_o0_S1 ![0] inpos_S1_p0

theorem chk1 (t : Fin k1_t1_loop.trips) {v418 : Vec F S1x16 .i32} :
    k1_chk1 t (extractAt ![0] (k1_pay21 v418) inpos_S1_p0) :=
  chk1_of_isOff t _ (isOff_w1 v418)

theorem isOff_w2_of (X : IVec S16 32) (hX : ∀ l, IsOff (X l)) : IsOff (extractAt ![0] (k1_pay27 X) inpos_S1_p0) :=
  isOff_extract X hX ![1] slices_S16_o1_S1 ![0] inpos_S1_p0
theorem chk2_of (t : Fin k1_t1_loop.trips) (X : IVec S16 32) (hX : ∀ l, IsOff (X l)) :
    k1_chk2 t (extractAt ![0] (k1_pay27 X) inpos_S1_p0) :=
  chk2_of_isOff t _ (isOff_w2_of X hX)
theorem chk2 (t : Fin k1_t1_loop.trips) {v418 : Vec F S1x16 .i32} :
    k1_chk2 t (extractAt ![0] (k1_pay27 (k1_pay20 v418)) inpos_S1_p0) :=
  chk2_of t _ (isOff_pay20 v418)

theorem isOff_w3_of (X : IVec S16 32) (hX : ∀ l, IsOff (X l)) : IsOff (extractAt ![0] (k1_pay33 X) inpos_S1_p0) :=
  isOff_extract X hX ![2] slices_S16_o2_S1 ![0] inpos_S1_p0
theorem chk3_of (t : Fin k1_t1_loop.trips) (X : IVec S16 32) (hX : ∀ l, IsOff (X l)) :
    k1_chk3 t (extractAt ![0] (k1_pay33 X) inpos_S1_p0) :=
  chk3_of_isOff t _ (isOff_w3_of X hX)
theorem chk3 (t : Fin k1_t1_loop.trips) {v418 : Vec F S1x16 .i32} :
    k1_chk3 t (extractAt ![0] (k1_pay33 (k1_pay20 v418)) inpos_S1_p0) :=
  chk3_of t _ (isOff_pay20 v418)

theorem isOff_w4_of (X : IVec S16 32) (hX : ∀ l, IsOff (X l)) : IsOff (extractAt ![0] (k1_pay38 X) inpos_S1_p0) :=
  isOff_extract X hX ![3] slices_S16_o3_S1 ![0] inpos_S1_p0
theorem chk4_of (t : Fin k1_t1_loop.trips) (X : IVec S16 32) (hX : ∀ l, IsOff (X l)) :
    k1_chk4 t (extractAt ![0] (k1_pay38 X) inpos_S1_p0) :=
  chk4_of_isOff t _ (isOff_w4_of X hX)
theorem chk4 (t : Fin k1_t1_loop.trips) {v418 : Vec F S1x16 .i32} :
    k1_chk4 t (extractAt ![0] (k1_pay38 (k1_pay20 v418)) inpos_S1_p0) :=
  chk4_of t _ (isOff_pay20 v418)

theorem isOff_w5_of (X : IVec S16 32) (hX : ∀ l, IsOff (X l)) : IsOff (extractAt ![0] (k1_pay44 X) inpos_S1_p0) :=
  isOff_extract X hX ![4] slices_S16_o4_S1 ![0] inpos_S1_p0
theorem chk5_of (t : Fin k1_t1_loop.trips) (X : IVec S16 32) (hX : ∀ l, IsOff (X l)) :
    k1_chk5 t (extractAt ![0] (k1_pay44 X) inpos_S1_p0) :=
  chk5_of_isOff t _ (isOff_w5_of X hX)
theorem chk5 (t : Fin k1_t1_loop.trips) {v418 : Vec F S1x16 .i32} :
    k1_chk5 t (extractAt ![0] (k1_pay44 (k1_pay20 v418)) inpos_S1_p0) :=
  chk5_of t _ (isOff_pay20 v418)

theorem isOff_w6_of (X : IVec S16 32) (hX : ∀ l, IsOff (X l)) : IsOff (extractAt ![0] (k1_pay49 X) inpos_S1_p0) :=
  isOff_extract X hX ![5] slices_S16_o5_S1 ![0] inpos_S1_p0
theorem chk6_of (t : Fin k1_t1_loop.trips) (X : IVec S16 32) (hX : ∀ l, IsOff (X l)) :
    k1_chk6 t (extractAt ![0] (k1_pay49 X) inpos_S1_p0) :=
  chk6_of_isOff t _ (isOff_w6_of X hX)
theorem chk6 (t : Fin k1_t1_loop.trips) {v418 : Vec F S1x16 .i32} :
    k1_chk6 t (extractAt ![0] (k1_pay49 (k1_pay20 v418)) inpos_S1_p0) :=
  chk6_of t _ (isOff_pay20 v418)

theorem isOff_w7_of (X : IVec S16 32) (hX : ∀ l, IsOff (X l)) : IsOff (extractAt ![0] (k1_pay55 X) inpos_S1_p0) :=
  isOff_extract X hX ![6] slices_S16_o6_S1 ![0] inpos_S1_p0
theorem chk7_of (t : Fin k1_t1_loop.trips) (X : IVec S16 32) (hX : ∀ l, IsOff (X l)) :
    k1_chk7 t (extractAt ![0] (k1_pay55 X) inpos_S1_p0) :=
  chk7_of_isOff t _ (isOff_w7_of X hX)
theorem chk7 (t : Fin k1_t1_loop.trips) {v418 : Vec F S1x16 .i32} :
    k1_chk7 t (extractAt ![0] (k1_pay55 (k1_pay20 v418)) inpos_S1_p0) :=
  chk7_of t _ (isOff_pay20 v418)

theorem isOff_w8_of (X : IVec S16 32) (hX : ∀ l, IsOff (X l)) : IsOff (extractAt ![0] (k1_pay60 X) inpos_S1_p0) :=
  isOff_extract X hX ![7] slices_S16_o7_S1 ![0] inpos_S1_p0
theorem chk8_of (t : Fin k1_t1_loop.trips) (X : IVec S16 32) (hX : ∀ l, IsOff (X l)) :
    k1_chk8 t (extractAt ![0] (k1_pay60 X) inpos_S1_p0) :=
  chk8_of_isOff t _ (isOff_w8_of X hX)
theorem chk8 (t : Fin k1_t1_loop.trips) {v418 : Vec F S1x16 .i32} :
    k1_chk8 t (extractAt ![0] (k1_pay60 (k1_pay20 v418)) inpos_S1_p0) :=
  chk8_of t _ (isOff_pay20 v418)

theorem isOff_w9_of (X : IVec S16 32) (hX : ∀ l, IsOff (X l)) : IsOff (extractAt ![0] (k1_pay66 X) inpos_S1_p0) :=
  isOff_extract X hX ![8] slices_S16_o8_S1 ![0] inpos_S1_p0
theorem chk9_of (t : Fin k1_t1_loop.trips) (X : IVec S16 32) (hX : ∀ l, IsOff (X l)) :
    k1_chk9 t (extractAt ![0] (k1_pay66 X) inpos_S1_p0) :=
  chk9_of_isOff t _ (isOff_w9_of X hX)
theorem chk9 (t : Fin k1_t1_loop.trips) {v418 : Vec F S1x16 .i32} :
    k1_chk9 t (extractAt ![0] (k1_pay66 (k1_pay20 v418)) inpos_S1_p0) :=
  chk9_of t _ (isOff_pay20 v418)

theorem isOff_w10_of (X : IVec S16 32) (hX : ∀ l, IsOff (X l)) : IsOff (extractAt ![0] (k1_pay72 X) inpos_S1_p0) :=
  isOff_extract X hX ![9] slices_S16_o9_S1 ![0] inpos_S1_p0
theorem chk10_of (t : Fin k1_t1_loop.trips) (X : IVec S16 32) (hX : ∀ l, IsOff (X l)) :
    k1_chk10 t (extractAt ![0] (k1_pay72 X) inpos_S1_p0) :=
  chk10_of_isOff t _ (isOff_w10_of X hX)
theorem chk10 (t : Fin k1_t1_loop.trips) {v418 : Vec F S1x16 .i32} :
    k1_chk10 t (extractAt ![0] (k1_pay72 (k1_pay20 v418)) inpos_S1_p0) :=
  chk10_of t _ (isOff_pay20 v418)

theorem isOff_w11_of (X : IVec S16 32) (hX : ∀ l, IsOff (X l)) : IsOff (extractAt ![0] (k1_pay78 X) inpos_S1_p0) :=
  isOff_extract X hX ![10] slices_S16_o10_S1 ![0] inpos_S1_p0
theorem chk11_of (t : Fin k1_t1_loop.trips) (X : IVec S16 32) (hX : ∀ l, IsOff (X l)) :
    k1_chk11 t (extractAt ![0] (k1_pay78 X) inpos_S1_p0) :=
  chk11_of_isOff t _ (isOff_w11_of X hX)
theorem chk11 (t : Fin k1_t1_loop.trips) {v418 : Vec F S1x16 .i32} :
    k1_chk11 t (extractAt ![0] (k1_pay78 (k1_pay20 v418)) inpos_S1_p0) :=
  chk11_of t _ (isOff_pay20 v418)

theorem isOff_w12_of (X : IVec S16 32) (hX : ∀ l, IsOff (X l)) : IsOff (extractAt ![0] (k1_pay84 X) inpos_S1_p0) :=
  isOff_extract X hX ![11] slices_S16_o11_S1 ![0] inpos_S1_p0
theorem chk12_of (t : Fin k1_t1_loop.trips) (X : IVec S16 32) (hX : ∀ l, IsOff (X l)) :
    k1_chk12 t (extractAt ![0] (k1_pay84 X) inpos_S1_p0) :=
  chk12_of_isOff t _ (isOff_w12_of X hX)
theorem chk12 (t : Fin k1_t1_loop.trips) {v418 : Vec F S1x16 .i32} :
    k1_chk12 t (extractAt ![0] (k1_pay84 (k1_pay20 v418)) inpos_S1_p0) :=
  chk12_of t _ (isOff_pay20 v418)

theorem isOff_w13_of (X : IVec S16 32) (hX : ∀ l, IsOff (X l)) : IsOff (extractAt ![0] (k1_pay89 X) inpos_S1_p0) :=
  isOff_extract X hX ![12] slices_S16_o12_S1 ![0] inpos_S1_p0
theorem chk13_of (t : Fin k1_t1_loop.trips) (X : IVec S16 32) (hX : ∀ l, IsOff (X l)) :
    k1_chk13 t (extractAt ![0] (k1_pay89 X) inpos_S1_p0) :=
  chk13_of_isOff t _ (isOff_w13_of X hX)
theorem chk13 (t : Fin k1_t1_loop.trips) {v418 : Vec F S1x16 .i32} :
    k1_chk13 t (extractAt ![0] (k1_pay89 (k1_pay20 v418)) inpos_S1_p0) :=
  chk13_of t _ (isOff_pay20 v418)

theorem isOff_w14_of (X : IVec S16 32) (hX : ∀ l, IsOff (X l)) : IsOff (extractAt ![0] (k1_pay95 X) inpos_S1_p0) :=
  isOff_extract X hX ![13] slices_S16_o13_S1 ![0] inpos_S1_p0
theorem chk14_of (t : Fin k1_t1_loop.trips) (X : IVec S16 32) (hX : ∀ l, IsOff (X l)) :
    k1_chk14 t (extractAt ![0] (k1_pay95 X) inpos_S1_p0) :=
  chk14_of_isOff t _ (isOff_w14_of X hX)
theorem chk14 (t : Fin k1_t1_loop.trips) {v418 : Vec F S1x16 .i32} :
    k1_chk14 t (extractAt ![0] (k1_pay95 (k1_pay20 v418)) inpos_S1_p0) :=
  chk14_of t _ (isOff_pay20 v418)

theorem isOff_w15_of (X : IVec S16 32) (hX : ∀ l, IsOff (X l)) : IsOff (extractAt ![0] (k1_pay100 X) inpos_S1_p0) :=
  isOff_extract X hX ![14] slices_S16_o14_S1 ![0] inpos_S1_p0
theorem chk15_of (t : Fin k1_t1_loop.trips) (X : IVec S16 32) (hX : ∀ l, IsOff (X l)) :
    k1_chk15 t (extractAt ![0] (k1_pay100 X) inpos_S1_p0) :=
  chk15_of_isOff t _ (isOff_w15_of X hX)
theorem chk15 (t : Fin k1_t1_loop.trips) {v418 : Vec F S1x16 .i32} :
    k1_chk15 t (extractAt ![0] (k1_pay100 (k1_pay20 v418)) inpos_S1_p0) :=
  chk15_of t _ (isOff_pay20 v418)

theorem isOff_w16_of (X : IVec S16 32) (hX : ∀ l, IsOff (X l)) : IsOff (extractAt ![0] (k1_pay107 X) inpos_S1_p0) :=
  isOff_extract X hX ![15] slices_S16_o15_S1 ![0] inpos_S1_p0
theorem chk16_of (t : Fin k1_t1_loop.trips) (X : IVec S16 32) (hX : ∀ l, IsOff (X l)) :
    k1_chk16 t (extractAt ![0] (k1_pay107 X) inpos_S1_p0) :=
  chk16_of_isOff t _ (isOff_w16_of X hX)
theorem chk16 (t : Fin k1_t1_loop.trips) {v418 : Vec F S1x16 .i32} :
    k1_chk16 t (extractAt ![0] (k1_pay107 (k1_pay20 v418)) inpos_S1_p0) :=
  chk16_of t _ (isOff_pay20 v418)

/-! ### Index words 16 to 31 -/

/-- Every lane of this group's offset vector is 0 or 64. -/
theorem isOff_pay113 (v1311 : IVec S16 32) (l : S16.Idx) : IsOff (k1_pay113 v1311 l) := isOff_offLane _ l

theorem isOff_w17 (v1311 : IVec S16 32) : IsOff (extractAt ![0] (k1_pay114 v1311) inpos_S1_p0) :=
  isOff_extract (k1_pay113 v1311) (isOff_pay113 v1311) ![0] slices_S16_o0_S1 ![0] inpos_S1_p0

theorem chk17 (t : Fin k1_t1_loop.trips) {v1311 : IVec S16 32} :
    k1_chk17 t (extractAt ![0] (k1_pay114 v1311) inpos_S1_p0) :=
  chk17_of_isOff t _ (isOff_w17 v1311)

theorem isOff_w18_of (X : IVec S16 32) (hX : ∀ l, IsOff (X l)) : IsOff (extractAt ![0] (k1_pay120 X) inpos_S1_p0) :=
  isOff_extract X hX ![1] slices_S16_o1_S1 ![0] inpos_S1_p0
theorem chk18_of (t : Fin k1_t1_loop.trips) (X : IVec S16 32) (hX : ∀ l, IsOff (X l)) :
    k1_chk18 t (extractAt ![0] (k1_pay120 X) inpos_S1_p0) :=
  chk18_of_isOff t _ (isOff_w18_of X hX)
theorem chk18 (t : Fin k1_t1_loop.trips) {v1311 : IVec S16 32} :
    k1_chk18 t (extractAt ![0] (k1_pay120 (k1_pay113 v1311)) inpos_S1_p0) :=
  chk18_of t _ (isOff_pay113 v1311)

theorem isOff_w19_of (X : IVec S16 32) (hX : ∀ l, IsOff (X l)) : IsOff (extractAt ![0] (k1_pay125 X) inpos_S1_p0) :=
  isOff_extract X hX ![2] slices_S16_o2_S1 ![0] inpos_S1_p0
theorem chk19_of (t : Fin k1_t1_loop.trips) (X : IVec S16 32) (hX : ∀ l, IsOff (X l)) :
    k1_chk19 t (extractAt ![0] (k1_pay125 X) inpos_S1_p0) :=
  chk19_of_isOff t _ (isOff_w19_of X hX)
theorem chk19 (t : Fin k1_t1_loop.trips) {v1311 : IVec S16 32} :
    k1_chk19 t (extractAt ![0] (k1_pay125 (k1_pay113 v1311)) inpos_S1_p0) :=
  chk19_of t _ (isOff_pay113 v1311)

theorem isOff_w20_of (X : IVec S16 32) (hX : ∀ l, IsOff (X l)) : IsOff (extractAt ![0] (k1_pay131 X) inpos_S1_p0) :=
  isOff_extract X hX ![3] slices_S16_o3_S1 ![0] inpos_S1_p0
theorem chk20_of (t : Fin k1_t1_loop.trips) (X : IVec S16 32) (hX : ∀ l, IsOff (X l)) :
    k1_chk20 t (extractAt ![0] (k1_pay131 X) inpos_S1_p0) :=
  chk20_of_isOff t _ (isOff_w20_of X hX)
theorem chk20 (t : Fin k1_t1_loop.trips) {v1311 : IVec S16 32} :
    k1_chk20 t (extractAt ![0] (k1_pay131 (k1_pay113 v1311)) inpos_S1_p0) :=
  chk20_of t _ (isOff_pay113 v1311)

theorem isOff_w21_of (X : IVec S16 32) (hX : ∀ l, IsOff (X l)) : IsOff (extractAt ![0] (k1_pay137 X) inpos_S1_p0) :=
  isOff_extract X hX ![4] slices_S16_o4_S1 ![0] inpos_S1_p0
theorem chk21_of (t : Fin k1_t1_loop.trips) (X : IVec S16 32) (hX : ∀ l, IsOff (X l)) :
    k1_chk21 t (extractAt ![0] (k1_pay137 X) inpos_S1_p0) :=
  chk21_of_isOff t _ (isOff_w21_of X hX)
theorem chk21 (t : Fin k1_t1_loop.trips) {v1311 : IVec S16 32} :
    k1_chk21 t (extractAt ![0] (k1_pay137 (k1_pay113 v1311)) inpos_S1_p0) :=
  chk21_of t _ (isOff_pay113 v1311)

theorem isOff_w22_of (X : IVec S16 32) (hX : ∀ l, IsOff (X l)) : IsOff (extractAt ![0] (k1_pay142 X) inpos_S1_p0) :=
  isOff_extract X hX ![5] slices_S16_o5_S1 ![0] inpos_S1_p0
theorem chk22_of (t : Fin k1_t1_loop.trips) (X : IVec S16 32) (hX : ∀ l, IsOff (X l)) :
    k1_chk22 t (extractAt ![0] (k1_pay142 X) inpos_S1_p0) :=
  chk22_of_isOff t _ (isOff_w22_of X hX)
theorem chk22 (t : Fin k1_t1_loop.trips) {v1311 : IVec S16 32} :
    k1_chk22 t (extractAt ![0] (k1_pay142 (k1_pay113 v1311)) inpos_S1_p0) :=
  chk22_of t _ (isOff_pay113 v1311)

theorem isOff_w23_of (X : IVec S16 32) (hX : ∀ l, IsOff (X l)) : IsOff (extractAt ![0] (k1_pay148 X) inpos_S1_p0) :=
  isOff_extract X hX ![6] slices_S16_o6_S1 ![0] inpos_S1_p0
theorem chk23_of (t : Fin k1_t1_loop.trips) (X : IVec S16 32) (hX : ∀ l, IsOff (X l)) :
    k1_chk23 t (extractAt ![0] (k1_pay148 X) inpos_S1_p0) :=
  chk23_of_isOff t _ (isOff_w23_of X hX)
theorem chk23 (t : Fin k1_t1_loop.trips) {v1311 : IVec S16 32} :
    k1_chk23 t (extractAt ![0] (k1_pay148 (k1_pay113 v1311)) inpos_S1_p0) :=
  chk23_of t _ (isOff_pay113 v1311)

theorem isOff_w24_of (X : IVec S16 32) (hX : ∀ l, IsOff (X l)) : IsOff (extractAt ![0] (k1_pay153 X) inpos_S1_p0) :=
  isOff_extract X hX ![7] slices_S16_o7_S1 ![0] inpos_S1_p0
theorem chk24_of (t : Fin k1_t1_loop.trips) (X : IVec S16 32) (hX : ∀ l, IsOff (X l)) :
    k1_chk24 t (extractAt ![0] (k1_pay153 X) inpos_S1_p0) :=
  chk24_of_isOff t _ (isOff_w24_of X hX)
theorem chk24 (t : Fin k1_t1_loop.trips) {v1311 : IVec S16 32} :
    k1_chk24 t (extractAt ![0] (k1_pay153 (k1_pay113 v1311)) inpos_S1_p0) :=
  chk24_of t _ (isOff_pay113 v1311)

theorem isOff_w25_of (X : IVec S16 32) (hX : ∀ l, IsOff (X l)) : IsOff (extractAt ![0] (k1_pay159 X) inpos_S1_p0) :=
  isOff_extract X hX ![8] slices_S16_o8_S1 ![0] inpos_S1_p0
theorem chk25_of (t : Fin k1_t1_loop.trips) (X : IVec S16 32) (hX : ∀ l, IsOff (X l)) :
    k1_chk25 t (extractAt ![0] (k1_pay159 X) inpos_S1_p0) :=
  chk25_of_isOff t _ (isOff_w25_of X hX)
theorem chk25 (t : Fin k1_t1_loop.trips) {v1311 : IVec S16 32} :
    k1_chk25 t (extractAt ![0] (k1_pay159 (k1_pay113 v1311)) inpos_S1_p0) :=
  chk25_of t _ (isOff_pay113 v1311)

theorem isOff_w26_of (X : IVec S16 32) (hX : ∀ l, IsOff (X l)) : IsOff (extractAt ![0] (k1_pay164 X) inpos_S1_p0) :=
  isOff_extract X hX ![9] slices_S16_o9_S1 ![0] inpos_S1_p0
theorem chk26_of (t : Fin k1_t1_loop.trips) (X : IVec S16 32) (hX : ∀ l, IsOff (X l)) :
    k1_chk26 t (extractAt ![0] (k1_pay164 X) inpos_S1_p0) :=
  chk26_of_isOff t _ (isOff_w26_of X hX)
theorem chk26 (t : Fin k1_t1_loop.trips) {v1311 : IVec S16 32} :
    k1_chk26 t (extractAt ![0] (k1_pay164 (k1_pay113 v1311)) inpos_S1_p0) :=
  chk26_of t _ (isOff_pay113 v1311)

theorem isOff_w27_of (X : IVec S16 32) (hX : ∀ l, IsOff (X l)) : IsOff (extractAt ![0] (k1_pay170 X) inpos_S1_p0) :=
  isOff_extract X hX ![10] slices_S16_o10_S1 ![0] inpos_S1_p0
theorem chk27_of (t : Fin k1_t1_loop.trips) (X : IVec S16 32) (hX : ∀ l, IsOff (X l)) :
    k1_chk27 t (extractAt ![0] (k1_pay170 X) inpos_S1_p0) :=
  chk27_of_isOff t _ (isOff_w27_of X hX)
theorem chk27 (t : Fin k1_t1_loop.trips) {v1311 : IVec S16 32} :
    k1_chk27 t (extractAt ![0] (k1_pay170 (k1_pay113 v1311)) inpos_S1_p0) :=
  chk27_of t _ (isOff_pay113 v1311)

theorem isOff_w28_of (X : IVec S16 32) (hX : ∀ l, IsOff (X l)) : IsOff (extractAt ![0] (k1_pay176 X) inpos_S1_p0) :=
  isOff_extract X hX ![11] slices_S16_o11_S1 ![0] inpos_S1_p0
theorem chk28_of (t : Fin k1_t1_loop.trips) (X : IVec S16 32) (hX : ∀ l, IsOff (X l)) :
    k1_chk28 t (extractAt ![0] (k1_pay176 X) inpos_S1_p0) :=
  chk28_of_isOff t _ (isOff_w28_of X hX)
theorem chk28 (t : Fin k1_t1_loop.trips) {v1311 : IVec S16 32} :
    k1_chk28 t (extractAt ![0] (k1_pay176 (k1_pay113 v1311)) inpos_S1_p0) :=
  chk28_of t _ (isOff_pay113 v1311)

theorem isOff_w29_of (X : IVec S16 32) (hX : ∀ l, IsOff (X l)) : IsOff (extractAt ![0] (k1_pay182 X) inpos_S1_p0) :=
  isOff_extract X hX ![12] slices_S16_o12_S1 ![0] inpos_S1_p0
theorem chk29_of (t : Fin k1_t1_loop.trips) (X : IVec S16 32) (hX : ∀ l, IsOff (X l)) :
    k1_chk29 t (extractAt ![0] (k1_pay182 X) inpos_S1_p0) :=
  chk29_of_isOff t _ (isOff_w29_of X hX)
theorem chk29 (t : Fin k1_t1_loop.trips) {v1311 : IVec S16 32} :
    k1_chk29 t (extractAt ![0] (k1_pay182 (k1_pay113 v1311)) inpos_S1_p0) :=
  chk29_of t _ (isOff_pay113 v1311)

theorem isOff_w30_of (X : IVec S16 32) (hX : ∀ l, IsOff (X l)) : IsOff (extractAt ![0] (k1_pay188 X) inpos_S1_p0) :=
  isOff_extract X hX ![13] slices_S16_o13_S1 ![0] inpos_S1_p0
theorem chk30_of (t : Fin k1_t1_loop.trips) (X : IVec S16 32) (hX : ∀ l, IsOff (X l)) :
    k1_chk30 t (extractAt ![0] (k1_pay188 X) inpos_S1_p0) :=
  chk30_of_isOff t _ (isOff_w30_of X hX)
theorem chk30 (t : Fin k1_t1_loop.trips) {v1311 : IVec S16 32} :
    k1_chk30 t (extractAt ![0] (k1_pay188 (k1_pay113 v1311)) inpos_S1_p0) :=
  chk30_of t _ (isOff_pay113 v1311)

theorem isOff_w31_of (X : IVec S16 32) (hX : ∀ l, IsOff (X l)) : IsOff (extractAt ![0] (k1_pay193 X) inpos_S1_p0) :=
  isOff_extract X hX ![14] slices_S16_o14_S1 ![0] inpos_S1_p0
theorem chk31_of (t : Fin k1_t1_loop.trips) (X : IVec S16 32) (hX : ∀ l, IsOff (X l)) :
    k1_chk31 t (extractAt ![0] (k1_pay193 X) inpos_S1_p0) :=
  chk31_of_isOff t _ (isOff_w31_of X hX)
theorem chk31 (t : Fin k1_t1_loop.trips) {v1311 : IVec S16 32} :
    k1_chk31 t (extractAt ![0] (k1_pay193 (k1_pay113 v1311)) inpos_S1_p0) :=
  chk31_of t _ (isOff_pay113 v1311)

theorem isOff_w32_of (X : IVec S16 32) (hX : ∀ l, IsOff (X l)) : IsOff (extractAt ![0] (k1_pay199 X) inpos_S1_p0) :=
  isOff_extract X hX ![15] slices_S16_o15_S1 ![0] inpos_S1_p0
theorem chk32_of (t : Fin k1_t1_loop.trips) (X : IVec S16 32) (hX : ∀ l, IsOff (X l)) :
    k1_chk32 t (extractAt ![0] (k1_pay199 X) inpos_S1_p0) :=
  chk32_of_isOff t _ (isOff_w32_of X hX)
theorem chk32 (t : Fin k1_t1_loop.trips) {v1311 : IVec S16 32} :
    k1_chk32 t (extractAt ![0] (k1_pay199 (k1_pay113 v1311)) inpos_S1_p0) :=
  chk32_of t _ (isOff_pay113 v1311)

/-! ### Index words 32 to 47 -/

/-- Every lane of this group's offset vector is 0 or 64. -/
theorem isOff_pay206 (v2203 : IVec S16 32) (l : S16.Idx) : IsOff (k1_pay206 v2203 l) := isOff_offLane _ l

theorem isOff_w33 (v2203 : IVec S16 32) : IsOff (extractAt ![0] (k1_pay207 v2203) inpos_S1_p0) :=
  isOff_extract (k1_pay206 v2203) (isOff_pay206 v2203) ![0] slices_S16_o0_S1 ![0] inpos_S1_p0

theorem chk33 (t : Fin k1_t1_loop.trips) {v2203 : IVec S16 32} :
    k1_chk33 t (extractAt ![0] (k1_pay207 v2203) inpos_S1_p0) :=
  chk33_of_isOff t _ (isOff_w33 v2203)

theorem isOff_w34_of (X : IVec S16 32) (hX : ∀ l, IsOff (X l)) : IsOff (extractAt ![0] (k1_pay213 X) inpos_S1_p0) :=
  isOff_extract X hX ![1] slices_S16_o1_S1 ![0] inpos_S1_p0
theorem chk34_of (t : Fin k1_t1_loop.trips) (X : IVec S16 32) (hX : ∀ l, IsOff (X l)) :
    k1_chk34 t (extractAt ![0] (k1_pay213 X) inpos_S1_p0) :=
  chk34_of_isOff t _ (isOff_w34_of X hX)
theorem chk34 (t : Fin k1_t1_loop.trips) {v2203 : IVec S16 32} :
    k1_chk34 t (extractAt ![0] (k1_pay213 (k1_pay206 v2203)) inpos_S1_p0) :=
  chk34_of t _ (isOff_pay206 v2203)

theorem isOff_w35_of (X : IVec S16 32) (hX : ∀ l, IsOff (X l)) : IsOff (extractAt ![0] (k1_pay218 X) inpos_S1_p0) :=
  isOff_extract X hX ![2] slices_S16_o2_S1 ![0] inpos_S1_p0
theorem chk35_of (t : Fin k1_t1_loop.trips) (X : IVec S16 32) (hX : ∀ l, IsOff (X l)) :
    k1_chk35 t (extractAt ![0] (k1_pay218 X) inpos_S1_p0) :=
  chk35_of_isOff t _ (isOff_w35_of X hX)
theorem chk35 (t : Fin k1_t1_loop.trips) {v2203 : IVec S16 32} :
    k1_chk35 t (extractAt ![0] (k1_pay218 (k1_pay206 v2203)) inpos_S1_p0) :=
  chk35_of t _ (isOff_pay206 v2203)

theorem isOff_w36_of (X : IVec S16 32) (hX : ∀ l, IsOff (X l)) : IsOff (extractAt ![0] (k1_pay224 X) inpos_S1_p0) :=
  isOff_extract X hX ![3] slices_S16_o3_S1 ![0] inpos_S1_p0
theorem chk36_of (t : Fin k1_t1_loop.trips) (X : IVec S16 32) (hX : ∀ l, IsOff (X l)) :
    k1_chk36 t (extractAt ![0] (k1_pay224 X) inpos_S1_p0) :=
  chk36_of_isOff t _ (isOff_w36_of X hX)
theorem chk36 (t : Fin k1_t1_loop.trips) {v2203 : IVec S16 32} :
    k1_chk36 t (extractAt ![0] (k1_pay224 (k1_pay206 v2203)) inpos_S1_p0) :=
  chk36_of t _ (isOff_pay206 v2203)

theorem isOff_w37_of (X : IVec S16 32) (hX : ∀ l, IsOff (X l)) : IsOff (extractAt ![0] (k1_pay229 X) inpos_S1_p0) :=
  isOff_extract X hX ![4] slices_S16_o4_S1 ![0] inpos_S1_p0
theorem chk37_of (t : Fin k1_t1_loop.trips) (X : IVec S16 32) (hX : ∀ l, IsOff (X l)) :
    k1_chk37 t (extractAt ![0] (k1_pay229 X) inpos_S1_p0) :=
  chk37_of_isOff t _ (isOff_w37_of X hX)
theorem chk37 (t : Fin k1_t1_loop.trips) {v2203 : IVec S16 32} :
    k1_chk37 t (extractAt ![0] (k1_pay229 (k1_pay206 v2203)) inpos_S1_p0) :=
  chk37_of t _ (isOff_pay206 v2203)

theorem isOff_w38_of (X : IVec S16 32) (hX : ∀ l, IsOff (X l)) : IsOff (extractAt ![0] (k1_pay235 X) inpos_S1_p0) :=
  isOff_extract X hX ![5] slices_S16_o5_S1 ![0] inpos_S1_p0
theorem chk38_of (t : Fin k1_t1_loop.trips) (X : IVec S16 32) (hX : ∀ l, IsOff (X l)) :
    k1_chk38 t (extractAt ![0] (k1_pay235 X) inpos_S1_p0) :=
  chk38_of_isOff t _ (isOff_w38_of X hX)
theorem chk38 (t : Fin k1_t1_loop.trips) {v2203 : IVec S16 32} :
    k1_chk38 t (extractAt ![0] (k1_pay235 (k1_pay206 v2203)) inpos_S1_p0) :=
  chk38_of t _ (isOff_pay206 v2203)

theorem isOff_w39_of (X : IVec S16 32) (hX : ∀ l, IsOff (X l)) : IsOff (extractAt ![0] (k1_pay241 X) inpos_S1_p0) :=
  isOff_extract X hX ![6] slices_S16_o6_S1 ![0] inpos_S1_p0
theorem chk39_of (t : Fin k1_t1_loop.trips) (X : IVec S16 32) (hX : ∀ l, IsOff (X l)) :
    k1_chk39 t (extractAt ![0] (k1_pay241 X) inpos_S1_p0) :=
  chk39_of_isOff t _ (isOff_w39_of X hX)
theorem chk39 (t : Fin k1_t1_loop.trips) {v2203 : IVec S16 32} :
    k1_chk39 t (extractAt ![0] (k1_pay241 (k1_pay206 v2203)) inpos_S1_p0) :=
  chk39_of t _ (isOff_pay206 v2203)

theorem isOff_w40_of (X : IVec S16 32) (hX : ∀ l, IsOff (X l)) : IsOff (extractAt ![0] (k1_pay246 X) inpos_S1_p0) :=
  isOff_extract X hX ![7] slices_S16_o7_S1 ![0] inpos_S1_p0
theorem chk40_of (t : Fin k1_t1_loop.trips) (X : IVec S16 32) (hX : ∀ l, IsOff (X l)) :
    k1_chk40 t (extractAt ![0] (k1_pay246 X) inpos_S1_p0) :=
  chk40_of_isOff t _ (isOff_w40_of X hX)
theorem chk40 (t : Fin k1_t1_loop.trips) {v2203 : IVec S16 32} :
    k1_chk40 t (extractAt ![0] (k1_pay246 (k1_pay206 v2203)) inpos_S1_p0) :=
  chk40_of t _ (isOff_pay206 v2203)

theorem isOff_w41_of (X : IVec S16 32) (hX : ∀ l, IsOff (X l)) : IsOff (extractAt ![0] (k1_pay252 X) inpos_S1_p0) :=
  isOff_extract X hX ![8] slices_S16_o8_S1 ![0] inpos_S1_p0
theorem chk41_of (t : Fin k1_t1_loop.trips) (X : IVec S16 32) (hX : ∀ l, IsOff (X l)) :
    k1_chk41 t (extractAt ![0] (k1_pay252 X) inpos_S1_p0) :=
  chk41_of_isOff t _ (isOff_w41_of X hX)
theorem chk41 (t : Fin k1_t1_loop.trips) {v2203 : IVec S16 32} :
    k1_chk41 t (extractAt ![0] (k1_pay252 (k1_pay206 v2203)) inpos_S1_p0) :=
  chk41_of t _ (isOff_pay206 v2203)

theorem isOff_w42_of (X : IVec S16 32) (hX : ∀ l, IsOff (X l)) : IsOff (extractAt ![0] (k1_pay257 X) inpos_S1_p0) :=
  isOff_extract X hX ![9] slices_S16_o9_S1 ![0] inpos_S1_p0
theorem chk42_of (t : Fin k1_t1_loop.trips) (X : IVec S16 32) (hX : ∀ l, IsOff (X l)) :
    k1_chk42 t (extractAt ![0] (k1_pay257 X) inpos_S1_p0) :=
  chk42_of_isOff t _ (isOff_w42_of X hX)
theorem chk42 (t : Fin k1_t1_loop.trips) {v2203 : IVec S16 32} :
    k1_chk42 t (extractAt ![0] (k1_pay257 (k1_pay206 v2203)) inpos_S1_p0) :=
  chk42_of t _ (isOff_pay206 v2203)

theorem isOff_w43_of (X : IVec S16 32) (hX : ∀ l, IsOff (X l)) : IsOff (extractAt ![0] (k1_pay263 X) inpos_S1_p0) :=
  isOff_extract X hX ![10] slices_S16_o10_S1 ![0] inpos_S1_p0
theorem chk43_of (t : Fin k1_t1_loop.trips) (X : IVec S16 32) (hX : ∀ l, IsOff (X l)) :
    k1_chk43 t (extractAt ![0] (k1_pay263 X) inpos_S1_p0) :=
  chk43_of_isOff t _ (isOff_w43_of X hX)
theorem chk43 (t : Fin k1_t1_loop.trips) {v2203 : IVec S16 32} :
    k1_chk43 t (extractAt ![0] (k1_pay263 (k1_pay206 v2203)) inpos_S1_p0) :=
  chk43_of t _ (isOff_pay206 v2203)

theorem isOff_w44_of (X : IVec S16 32) (hX : ∀ l, IsOff (X l)) : IsOff (extractAt ![0] (k1_pay268 X) inpos_S1_p0) :=
  isOff_extract X hX ![11] slices_S16_o11_S1 ![0] inpos_S1_p0
theorem chk44_of (t : Fin k1_t1_loop.trips) (X : IVec S16 32) (hX : ∀ l, IsOff (X l)) :
    k1_chk44 t (extractAt ![0] (k1_pay268 X) inpos_S1_p0) :=
  chk44_of_isOff t _ (isOff_w44_of X hX)
theorem chk44 (t : Fin k1_t1_loop.trips) {v2203 : IVec S16 32} :
    k1_chk44 t (extractAt ![0] (k1_pay268 (k1_pay206 v2203)) inpos_S1_p0) :=
  chk44_of t _ (isOff_pay206 v2203)

theorem isOff_w45_of (X : IVec S16 32) (hX : ∀ l, IsOff (X l)) : IsOff (extractAt ![0] (k1_pay274 X) inpos_S1_p0) :=
  isOff_extract X hX ![12] slices_S16_o12_S1 ![0] inpos_S1_p0
theorem chk45_of (t : Fin k1_t1_loop.trips) (X : IVec S16 32) (hX : ∀ l, IsOff (X l)) :
    k1_chk45 t (extractAt ![0] (k1_pay274 X) inpos_S1_p0) :=
  chk45_of_isOff t _ (isOff_w45_of X hX)
theorem chk45 (t : Fin k1_t1_loop.trips) {v2203 : IVec S16 32} :
    k1_chk45 t (extractAt ![0] (k1_pay274 (k1_pay206 v2203)) inpos_S1_p0) :=
  chk45_of t _ (isOff_pay206 v2203)

theorem isOff_w46_of (X : IVec S16 32) (hX : ∀ l, IsOff (X l)) : IsOff (extractAt ![0] (k1_pay280 X) inpos_S1_p0) :=
  isOff_extract X hX ![13] slices_S16_o13_S1 ![0] inpos_S1_p0
theorem chk46_of (t : Fin k1_t1_loop.trips) (X : IVec S16 32) (hX : ∀ l, IsOff (X l)) :
    k1_chk46 t (extractAt ![0] (k1_pay280 X) inpos_S1_p0) :=
  chk46_of_isOff t _ (isOff_w46_of X hX)
theorem chk46 (t : Fin k1_t1_loop.trips) {v2203 : IVec S16 32} :
    k1_chk46 t (extractAt ![0] (k1_pay280 (k1_pay206 v2203)) inpos_S1_p0) :=
  chk46_of t _ (isOff_pay206 v2203)

theorem isOff_w47_of (X : IVec S16 32) (hX : ∀ l, IsOff (X l)) : IsOff (extractAt ![0] (k1_pay286 X) inpos_S1_p0) :=
  isOff_extract X hX ![14] slices_S16_o14_S1 ![0] inpos_S1_p0
theorem chk47_of (t : Fin k1_t1_loop.trips) (X : IVec S16 32) (hX : ∀ l, IsOff (X l)) :
    k1_chk47 t (extractAt ![0] (k1_pay286 X) inpos_S1_p0) :=
  chk47_of_isOff t _ (isOff_w47_of X hX)
theorem chk47 (t : Fin k1_t1_loop.trips) {v2203 : IVec S16 32} :
    k1_chk47 t (extractAt ![0] (k1_pay286 (k1_pay206 v2203)) inpos_S1_p0) :=
  chk47_of t _ (isOff_pay206 v2203)

theorem isOff_w48_of (X : IVec S16 32) (hX : ∀ l, IsOff (X l)) : IsOff (extractAt ![0] (k1_pay292 X) inpos_S1_p0) :=
  isOff_extract X hX ![15] slices_S16_o15_S1 ![0] inpos_S1_p0
theorem chk48_of (t : Fin k1_t1_loop.trips) (X : IVec S16 32) (hX : ∀ l, IsOff (X l)) :
    k1_chk48 t (extractAt ![0] (k1_pay292 X) inpos_S1_p0) :=
  chk48_of_isOff t _ (isOff_w48_of X hX)
theorem chk48 (t : Fin k1_t1_loop.trips) {v2203 : IVec S16 32} :
    k1_chk48 t (extractAt ![0] (k1_pay292 (k1_pay206 v2203)) inpos_S1_p0) :=
  chk48_of t _ (isOff_pay206 v2203)

/-! ### Index words 48 to 63 -/

/-- Every lane of this group's offset vector is 0 or 64. -/
theorem isOff_pay300 (v3095 : IVec S16 32) (v3098 : IVec S16 32) (l : S16.Idx) : IsOff (k1_pay300 v3095 v3098 l) := isOff_offLane _ l

theorem isOff_w49 (v3095 : IVec S16 32) (v3098 : IVec S16 32) : IsOff (extractAt ![0] (k1_pay301 v3095 v3098) inpos_S1_p0) :=
  isOff_extract (k1_pay300 v3095 v3098) (isOff_pay300 v3095 v3098) ![0] slices_S16_o0_S1 ![0] inpos_S1_p0

theorem chk49 (t : Fin k1_t1_loop.trips) {v3095 : IVec S16 32} {v3098 : IVec S16 32} :
    k1_chk49 t (extractAt ![0] (k1_pay301 v3095 v3098) inpos_S1_p0) :=
  chk49_of_isOff t _ (isOff_w49 v3095 v3098)

theorem isOff_w50_of (X : IVec S16 32) (hX : ∀ l, IsOff (X l)) : IsOff (extractAt ![0] (k1_pay307 X) inpos_S1_p0) :=
  isOff_extract X hX ![1] slices_S16_o1_S1 ![0] inpos_S1_p0
theorem chk50_of (t : Fin k1_t1_loop.trips) (X : IVec S16 32) (hX : ∀ l, IsOff (X l)) :
    k1_chk50 t (extractAt ![0] (k1_pay307 X) inpos_S1_p0) :=
  chk50_of_isOff t _ (isOff_w50_of X hX)
theorem chk50 (t : Fin k1_t1_loop.trips) {v3095 : IVec S16 32} {v3098 : IVec S16 32} :
    k1_chk50 t (extractAt ![0] (k1_pay307 (k1_pay300 v3095 v3098)) inpos_S1_p0) :=
  chk50_of t _ (isOff_pay300 v3095 v3098)

theorem isOff_w51_of (X : IVec S16 32) (hX : ∀ l, IsOff (X l)) : IsOff (extractAt ![0] (k1_pay312 X) inpos_S1_p0) :=
  isOff_extract X hX ![2] slices_S16_o2_S1 ![0] inpos_S1_p0
theorem chk51_of (t : Fin k1_t1_loop.trips) (X : IVec S16 32) (hX : ∀ l, IsOff (X l)) :
    k1_chk51 t (extractAt ![0] (k1_pay312 X) inpos_S1_p0) :=
  chk51_of_isOff t _ (isOff_w51_of X hX)
theorem chk51 (t : Fin k1_t1_loop.trips) {v3095 : IVec S16 32} {v3098 : IVec S16 32} :
    k1_chk51 t (extractAt ![0] (k1_pay312 (k1_pay300 v3095 v3098)) inpos_S1_p0) :=
  chk51_of t _ (isOff_pay300 v3095 v3098)

theorem isOff_w52_of (X : IVec S16 32) (hX : ∀ l, IsOff (X l)) : IsOff (extractAt ![0] (k1_pay318 X) inpos_S1_p0) :=
  isOff_extract X hX ![3] slices_S16_o3_S1 ![0] inpos_S1_p0
theorem chk52_of (t : Fin k1_t1_loop.trips) (X : IVec S16 32) (hX : ∀ l, IsOff (X l)) :
    k1_chk52 t (extractAt ![0] (k1_pay318 X) inpos_S1_p0) :=
  chk52_of_isOff t _ (isOff_w52_of X hX)
theorem chk52 (t : Fin k1_t1_loop.trips) {v3095 : IVec S16 32} {v3098 : IVec S16 32} :
    k1_chk52 t (extractAt ![0] (k1_pay318 (k1_pay300 v3095 v3098)) inpos_S1_p0) :=
  chk52_of t _ (isOff_pay300 v3095 v3098)

theorem isOff_w53_of (X : IVec S16 32) (hX : ∀ l, IsOff (X l)) : IsOff (extractAt ![0] (k1_pay323 X) inpos_S1_p0) :=
  isOff_extract X hX ![4] slices_S16_o4_S1 ![0] inpos_S1_p0
theorem chk53_of (t : Fin k1_t1_loop.trips) (X : IVec S16 32) (hX : ∀ l, IsOff (X l)) :
    k1_chk53 t (extractAt ![0] (k1_pay323 X) inpos_S1_p0) :=
  chk53_of_isOff t _ (isOff_w53_of X hX)
theorem chk53 (t : Fin k1_t1_loop.trips) {v3095 : IVec S16 32} {v3098 : IVec S16 32} :
    k1_chk53 t (extractAt ![0] (k1_pay323 (k1_pay300 v3095 v3098)) inpos_S1_p0) :=
  chk53_of t _ (isOff_pay300 v3095 v3098)

theorem isOff_w54_of (X : IVec S16 32) (hX : ∀ l, IsOff (X l)) : IsOff (extractAt ![0] (k1_pay329 X) inpos_S1_p0) :=
  isOff_extract X hX ![5] slices_S16_o5_S1 ![0] inpos_S1_p0
theorem chk54_of (t : Fin k1_t1_loop.trips) (X : IVec S16 32) (hX : ∀ l, IsOff (X l)) :
    k1_chk54 t (extractAt ![0] (k1_pay329 X) inpos_S1_p0) :=
  chk54_of_isOff t _ (isOff_w54_of X hX)
theorem chk54 (t : Fin k1_t1_loop.trips) {v3095 : IVec S16 32} {v3098 : IVec S16 32} :
    k1_chk54 t (extractAt ![0] (k1_pay329 (k1_pay300 v3095 v3098)) inpos_S1_p0) :=
  chk54_of t _ (isOff_pay300 v3095 v3098)

theorem isOff_w55_of (X : IVec S16 32) (hX : ∀ l, IsOff (X l)) : IsOff (extractAt ![0] (k1_pay334 X) inpos_S1_p0) :=
  isOff_extract X hX ![6] slices_S16_o6_S1 ![0] inpos_S1_p0
theorem chk55_of (t : Fin k1_t1_loop.trips) (X : IVec S16 32) (hX : ∀ l, IsOff (X l)) :
    k1_chk55 t (extractAt ![0] (k1_pay334 X) inpos_S1_p0) :=
  chk55_of_isOff t _ (isOff_w55_of X hX)
theorem chk55 (t : Fin k1_t1_loop.trips) {v3095 : IVec S16 32} {v3098 : IVec S16 32} :
    k1_chk55 t (extractAt ![0] (k1_pay334 (k1_pay300 v3095 v3098)) inpos_S1_p0) :=
  chk55_of t _ (isOff_pay300 v3095 v3098)

theorem isOff_w56_of (X : IVec S16 32) (hX : ∀ l, IsOff (X l)) : IsOff (extractAt ![0] (k1_pay340 X) inpos_S1_p0) :=
  isOff_extract X hX ![7] slices_S16_o7_S1 ![0] inpos_S1_p0
theorem chk56_of (t : Fin k1_t1_loop.trips) (X : IVec S16 32) (hX : ∀ l, IsOff (X l)) :
    k1_chk56 t (extractAt ![0] (k1_pay340 X) inpos_S1_p0) :=
  chk56_of_isOff t _ (isOff_w56_of X hX)
theorem chk56 (t : Fin k1_t1_loop.trips) {v3095 : IVec S16 32} {v3098 : IVec S16 32} :
    k1_chk56 t (extractAt ![0] (k1_pay340 (k1_pay300 v3095 v3098)) inpos_S1_p0) :=
  chk56_of t _ (isOff_pay300 v3095 v3098)

theorem isOff_w57_of (X : IVec S16 32) (hX : ∀ l, IsOff (X l)) : IsOff (extractAt ![0] (k1_pay346 X) inpos_S1_p0) :=
  isOff_extract X hX ![8] slices_S16_o8_S1 ![0] inpos_S1_p0
theorem chk57_of (t : Fin k1_t1_loop.trips) (X : IVec S16 32) (hX : ∀ l, IsOff (X l)) :
    k1_chk57 t (extractAt ![0] (k1_pay346 X) inpos_S1_p0) :=
  chk57_of_isOff t _ (isOff_w57_of X hX)
theorem chk57 (t : Fin k1_t1_loop.trips) {v3095 : IVec S16 32} {v3098 : IVec S16 32} :
    k1_chk57 t (extractAt ![0] (k1_pay346 (k1_pay300 v3095 v3098)) inpos_S1_p0) :=
  chk57_of t _ (isOff_pay300 v3095 v3098)

theorem isOff_w58_of (X : IVec S16 32) (hX : ∀ l, IsOff (X l)) : IsOff (extractAt ![0] (k1_pay351 X) inpos_S1_p0) :=
  isOff_extract X hX ![9] slices_S16_o9_S1 ![0] inpos_S1_p0
theorem chk58_of (t : Fin k1_t1_loop.trips) (X : IVec S16 32) (hX : ∀ l, IsOff (X l)) :
    k1_chk58 t (extractAt ![0] (k1_pay351 X) inpos_S1_p0) :=
  chk58_of_isOff t _ (isOff_w58_of X hX)
theorem chk58 (t : Fin k1_t1_loop.trips) {v3095 : IVec S16 32} {v3098 : IVec S16 32} :
    k1_chk58 t (extractAt ![0] (k1_pay351 (k1_pay300 v3095 v3098)) inpos_S1_p0) :=
  chk58_of t _ (isOff_pay300 v3095 v3098)

theorem isOff_w59_of (X : IVec S16 32) (hX : ∀ l, IsOff (X l)) : IsOff (extractAt ![0] (k1_pay357 X) inpos_S1_p0) :=
  isOff_extract X hX ![10] slices_S16_o10_S1 ![0] inpos_S1_p0
theorem chk59_of (t : Fin k1_t1_loop.trips) (X : IVec S16 32) (hX : ∀ l, IsOff (X l)) :
    k1_chk59 t (extractAt ![0] (k1_pay357 X) inpos_S1_p0) :=
  chk59_of_isOff t _ (isOff_w59_of X hX)
theorem chk59 (t : Fin k1_t1_loop.trips) {v3095 : IVec S16 32} {v3098 : IVec S16 32} :
    k1_chk59 t (extractAt ![0] (k1_pay357 (k1_pay300 v3095 v3098)) inpos_S1_p0) :=
  chk59_of t _ (isOff_pay300 v3095 v3098)

theorem isOff_w60_of (X : IVec S16 32) (hX : ∀ l, IsOff (X l)) : IsOff (extractAt ![0] (k1_pay362 X) inpos_S1_p0) :=
  isOff_extract X hX ![11] slices_S16_o11_S1 ![0] inpos_S1_p0
theorem chk60_of (t : Fin k1_t1_loop.trips) (X : IVec S16 32) (hX : ∀ l, IsOff (X l)) :
    k1_chk60 t (extractAt ![0] (k1_pay362 X) inpos_S1_p0) :=
  chk60_of_isOff t _ (isOff_w60_of X hX)
theorem chk60 (t : Fin k1_t1_loop.trips) {v3095 : IVec S16 32} {v3098 : IVec S16 32} :
    k1_chk60 t (extractAt ![0] (k1_pay362 (k1_pay300 v3095 v3098)) inpos_S1_p0) :=
  chk60_of t _ (isOff_pay300 v3095 v3098)

theorem isOff_w61_of (X : IVec S16 32) (hX : ∀ l, IsOff (X l)) : IsOff (extractAt ![0] (k1_pay368 X) inpos_S1_p0) :=
  isOff_extract X hX ![12] slices_S16_o12_S1 ![0] inpos_S1_p0
theorem chk61_of (t : Fin k1_t1_loop.trips) (X : IVec S16 32) (hX : ∀ l, IsOff (X l)) :
    k1_chk61 t (extractAt ![0] (k1_pay368 X) inpos_S1_p0) :=
  chk61_of_isOff t _ (isOff_w61_of X hX)
theorem chk61 (t : Fin k1_t1_loop.trips) {v3095 : IVec S16 32} {v3098 : IVec S16 32} :
    k1_chk61 t (extractAt ![0] (k1_pay368 (k1_pay300 v3095 v3098)) inpos_S1_p0) :=
  chk61_of t _ (isOff_pay300 v3095 v3098)

theorem isOff_w62_of (X : IVec S16 32) (hX : ∀ l, IsOff (X l)) : IsOff (extractAt ![0] (k1_pay373 X) inpos_S1_p0) :=
  isOff_extract X hX ![13] slices_S16_o13_S1 ![0] inpos_S1_p0
theorem chk62_of (t : Fin k1_t1_loop.trips) (X : IVec S16 32) (hX : ∀ l, IsOff (X l)) :
    k1_chk62 t (extractAt ![0] (k1_pay373 X) inpos_S1_p0) :=
  chk62_of_isOff t _ (isOff_w62_of X hX)
theorem chk62 (t : Fin k1_t1_loop.trips) {v3095 : IVec S16 32} {v3098 : IVec S16 32} :
    k1_chk62 t (extractAt ![0] (k1_pay373 (k1_pay300 v3095 v3098)) inpos_S1_p0) :=
  chk62_of t _ (isOff_pay300 v3095 v3098)

theorem isOff_w63_of (X : IVec S16 32) (hX : ∀ l, IsOff (X l)) : IsOff (extractAt ![0] (k1_pay379 X) inpos_S1_p0) :=
  isOff_extract X hX ![14] slices_S16_o14_S1 ![0] inpos_S1_p0
theorem chk63_of (t : Fin k1_t1_loop.trips) (X : IVec S16 32) (hX : ∀ l, IsOff (X l)) :
    k1_chk63 t (extractAt ![0] (k1_pay379 X) inpos_S1_p0) :=
  chk63_of_isOff t _ (isOff_w63_of X hX)
theorem chk63 (t : Fin k1_t1_loop.trips) {v3095 : IVec S16 32} {v3098 : IVec S16 32} :
    k1_chk63 t (extractAt ![0] (k1_pay379 (k1_pay300 v3095 v3098)) inpos_S1_p0) :=
  chk63_of t _ (isOff_pay300 v3095 v3098)

theorem isOff_w64_of (X : IVec S16 32) (hX : ∀ l, IsOff (X l)) : IsOff (extractAt ![0] (k1_pay385 X) inpos_S1_p0) :=
  isOff_extract X hX ![15] slices_S16_o15_S1 ![0] inpos_S1_p0
theorem chk64_of (t : Fin k1_t1_loop.trips) (X : IVec S16 32) (hX : ∀ l, IsOff (X l)) :
    k1_chk64 t (extractAt ![0] (k1_pay385 X) inpos_S1_p0) :=
  chk64_of_isOff t _ (isOff_w64_of X hX)
theorem chk64 (t : Fin k1_t1_loop.trips) {v3095 : IVec S16 32} {v3098 : IVec S16 32} :
    k1_chk64 t (extractAt ![0] (k1_pay385 (k1_pay300 v3095 v3098)) inpos_S1_p0) :=
  chk64_of t _ (isOff_pay300 v3095 v3098)

/-! ### Index words 64 to 79 -/

/-- Every lane of this group's offset vector is 0 or 64. -/
theorem isOff_pay394 (v3991 : IVec S16 32) (l : S16.Idx) : IsOff (k1_pay394 v3991 l) := isOff_offLane _ l

theorem isOff_w65 (v3991 : IVec S16 32) : IsOff (extractAt ![0] (k1_pay395 v3991) inpos_S1_p0) :=
  isOff_extract (k1_pay394 v3991) (isOff_pay394 v3991) ![0] slices_S16_o0_S1 ![0] inpos_S1_p0

theorem chk65 (t : Fin k1_t1_loop.trips) {v3991 : IVec S16 32} :
    k1_chk65 t (extractAt ![0] (k1_pay395 v3991) inpos_S1_p0) :=
  chk65_of_isOff t _ (isOff_w65 v3991)

theorem isOff_w66_of (X : IVec S16 32) (hX : ∀ l, IsOff (X l)) : IsOff (extractAt ![0] (k1_pay401 X) inpos_S1_p0) :=
  isOff_extract X hX ![1] slices_S16_o1_S1 ![0] inpos_S1_p0
theorem chk66_of (t : Fin k1_t1_loop.trips) (X : IVec S16 32) (hX : ∀ l, IsOff (X l)) :
    k1_chk66 t (extractAt ![0] (k1_pay401 X) inpos_S1_p0) :=
  chk66_of_isOff t _ (isOff_w66_of X hX)
theorem chk66 (t : Fin k1_t1_loop.trips) {v3991 : IVec S16 32} :
    k1_chk66 t (extractAt ![0] (k1_pay401 (k1_pay394 v3991)) inpos_S1_p0) :=
  chk66_of t _ (isOff_pay394 v3991)

theorem isOff_w67_of (X : IVec S16 32) (hX : ∀ l, IsOff (X l)) : IsOff (extractAt ![0] (k1_pay407 X) inpos_S1_p0) :=
  isOff_extract X hX ![2] slices_S16_o2_S1 ![0] inpos_S1_p0
theorem chk67_of (t : Fin k1_t1_loop.trips) (X : IVec S16 32) (hX : ∀ l, IsOff (X l)) :
    k1_chk67 t (extractAt ![0] (k1_pay407 X) inpos_S1_p0) :=
  chk67_of_isOff t _ (isOff_w67_of X hX)
theorem chk67 (t : Fin k1_t1_loop.trips) {v3991 : IVec S16 32} :
    k1_chk67 t (extractAt ![0] (k1_pay407 (k1_pay394 v3991)) inpos_S1_p0) :=
  chk67_of t _ (isOff_pay394 v3991)

theorem isOff_w68_of (X : IVec S16 32) (hX : ∀ l, IsOff (X l)) : IsOff (extractAt ![0] (k1_pay413 X) inpos_S1_p0) :=
  isOff_extract X hX ![3] slices_S16_o3_S1 ![0] inpos_S1_p0
theorem chk68_of (t : Fin k1_t1_loop.trips) (X : IVec S16 32) (hX : ∀ l, IsOff (X l)) :
    k1_chk68 t (extractAt ![0] (k1_pay413 X) inpos_S1_p0) :=
  chk68_of_isOff t _ (isOff_w68_of X hX)
theorem chk68 (t : Fin k1_t1_loop.trips) {v3991 : IVec S16 32} :
    k1_chk68 t (extractAt ![0] (k1_pay413 (k1_pay394 v3991)) inpos_S1_p0) :=
  chk68_of t _ (isOff_pay394 v3991)

theorem isOff_w69_of (X : IVec S16 32) (hX : ∀ l, IsOff (X l)) : IsOff (extractAt ![0] (k1_pay418 X) inpos_S1_p0) :=
  isOff_extract X hX ![4] slices_S16_o4_S1 ![0] inpos_S1_p0
theorem chk69_of (t : Fin k1_t1_loop.trips) (X : IVec S16 32) (hX : ∀ l, IsOff (X l)) :
    k1_chk69 t (extractAt ![0] (k1_pay418 X) inpos_S1_p0) :=
  chk69_of_isOff t _ (isOff_w69_of X hX)
theorem chk69 (t : Fin k1_t1_loop.trips) {v3991 : IVec S16 32} :
    k1_chk69 t (extractAt ![0] (k1_pay418 (k1_pay394 v3991)) inpos_S1_p0) :=
  chk69_of t _ (isOff_pay394 v3991)

theorem isOff_w70_of (X : IVec S16 32) (hX : ∀ l, IsOff (X l)) : IsOff (extractAt ![0] (k1_pay424 X) inpos_S1_p0) :=
  isOff_extract X hX ![5] slices_S16_o5_S1 ![0] inpos_S1_p0
theorem chk70_of (t : Fin k1_t1_loop.trips) (X : IVec S16 32) (hX : ∀ l, IsOff (X l)) :
    k1_chk70 t (extractAt ![0] (k1_pay424 X) inpos_S1_p0) :=
  chk70_of_isOff t _ (isOff_w70_of X hX)
theorem chk70 (t : Fin k1_t1_loop.trips) {v3991 : IVec S16 32} :
    k1_chk70 t (extractAt ![0] (k1_pay424 (k1_pay394 v3991)) inpos_S1_p0) :=
  chk70_of t _ (isOff_pay394 v3991)

theorem isOff_w71_of (X : IVec S16 32) (hX : ∀ l, IsOff (X l)) : IsOff (extractAt ![0] (k1_pay429 X) inpos_S1_p0) :=
  isOff_extract X hX ![6] slices_S16_o6_S1 ![0] inpos_S1_p0
theorem chk71_of (t : Fin k1_t1_loop.trips) (X : IVec S16 32) (hX : ∀ l, IsOff (X l)) :
    k1_chk71 t (extractAt ![0] (k1_pay429 X) inpos_S1_p0) :=
  chk71_of_isOff t _ (isOff_w71_of X hX)
theorem chk71 (t : Fin k1_t1_loop.trips) {v3991 : IVec S16 32} :
    k1_chk71 t (extractAt ![0] (k1_pay429 (k1_pay394 v3991)) inpos_S1_p0) :=
  chk71_of t _ (isOff_pay394 v3991)

theorem isOff_w72_of (X : IVec S16 32) (hX : ∀ l, IsOff (X l)) : IsOff (extractAt ![0] (k1_pay435 X) inpos_S1_p0) :=
  isOff_extract X hX ![7] slices_S16_o7_S1 ![0] inpos_S1_p0
theorem chk72_of (t : Fin k1_t1_loop.trips) (X : IVec S16 32) (hX : ∀ l, IsOff (X l)) :
    k1_chk72 t (extractAt ![0] (k1_pay435 X) inpos_S1_p0) :=
  chk72_of_isOff t _ (isOff_w72_of X hX)
theorem chk72 (t : Fin k1_t1_loop.trips) {v3991 : IVec S16 32} :
    k1_chk72 t (extractAt ![0] (k1_pay435 (k1_pay394 v3991)) inpos_S1_p0) :=
  chk72_of t _ (isOff_pay394 v3991)

theorem isOff_w73_of (X : IVec S16 32) (hX : ∀ l, IsOff (X l)) : IsOff (extractAt ![0] (k1_pay440 X) inpos_S1_p0) :=
  isOff_extract X hX ![8] slices_S16_o8_S1 ![0] inpos_S1_p0
theorem chk73_of (t : Fin k1_t1_loop.trips) (X : IVec S16 32) (hX : ∀ l, IsOff (X l)) :
    k1_chk73 t (extractAt ![0] (k1_pay440 X) inpos_S1_p0) :=
  chk73_of_isOff t _ (isOff_w73_of X hX)
theorem chk73 (t : Fin k1_t1_loop.trips) {v3991 : IVec S16 32} :
    k1_chk73 t (extractAt ![0] (k1_pay440 (k1_pay394 v3991)) inpos_S1_p0) :=
  chk73_of t _ (isOff_pay394 v3991)

theorem isOff_w74_of (X : IVec S16 32) (hX : ∀ l, IsOff (X l)) : IsOff (extractAt ![0] (k1_pay446 X) inpos_S1_p0) :=
  isOff_extract X hX ![9] slices_S16_o9_S1 ![0] inpos_S1_p0
theorem chk74_of (t : Fin k1_t1_loop.trips) (X : IVec S16 32) (hX : ∀ l, IsOff (X l)) :
    k1_chk74 t (extractAt ![0] (k1_pay446 X) inpos_S1_p0) :=
  chk74_of_isOff t _ (isOff_w74_of X hX)
theorem chk74 (t : Fin k1_t1_loop.trips) {v3991 : IVec S16 32} :
    k1_chk74 t (extractAt ![0] (k1_pay446 (k1_pay394 v3991)) inpos_S1_p0) :=
  chk74_of t _ (isOff_pay394 v3991)

theorem isOff_w75_of (X : IVec S16 32) (hX : ∀ l, IsOff (X l)) : IsOff (extractAt ![0] (k1_pay452 X) inpos_S1_p0) :=
  isOff_extract X hX ![10] slices_S16_o10_S1 ![0] inpos_S1_p0
theorem chk75_of (t : Fin k1_t1_loop.trips) (X : IVec S16 32) (hX : ∀ l, IsOff (X l)) :
    k1_chk75 t (extractAt ![0] (k1_pay452 X) inpos_S1_p0) :=
  chk75_of_isOff t _ (isOff_w75_of X hX)
theorem chk75 (t : Fin k1_t1_loop.trips) {v3991 : IVec S16 32} :
    k1_chk75 t (extractAt ![0] (k1_pay452 (k1_pay394 v3991)) inpos_S1_p0) :=
  chk75_of t _ (isOff_pay394 v3991)

theorem isOff_w76_of (X : IVec S16 32) (hX : ∀ l, IsOff (X l)) : IsOff (extractAt ![0] (k1_pay457 X) inpos_S1_p0) :=
  isOff_extract X hX ![11] slices_S16_o11_S1 ![0] inpos_S1_p0
theorem chk76_of (t : Fin k1_t1_loop.trips) (X : IVec S16 32) (hX : ∀ l, IsOff (X l)) :
    k1_chk76 t (extractAt ![0] (k1_pay457 X) inpos_S1_p0) :=
  chk76_of_isOff t _ (isOff_w76_of X hX)
theorem chk76 (t : Fin k1_t1_loop.trips) {v3991 : IVec S16 32} :
    k1_chk76 t (extractAt ![0] (k1_pay457 (k1_pay394 v3991)) inpos_S1_p0) :=
  chk76_of t _ (isOff_pay394 v3991)

theorem isOff_w77_of (X : IVec S16 32) (hX : ∀ l, IsOff (X l)) : IsOff (extractAt ![0] (k1_pay463 X) inpos_S1_p0) :=
  isOff_extract X hX ![12] slices_S16_o12_S1 ![0] inpos_S1_p0
theorem chk77_of (t : Fin k1_t1_loop.trips) (X : IVec S16 32) (hX : ∀ l, IsOff (X l)) :
    k1_chk77 t (extractAt ![0] (k1_pay463 X) inpos_S1_p0) :=
  chk77_of_isOff t _ (isOff_w77_of X hX)
theorem chk77 (t : Fin k1_t1_loop.trips) {v3991 : IVec S16 32} :
    k1_chk77 t (extractAt ![0] (k1_pay463 (k1_pay394 v3991)) inpos_S1_p0) :=
  chk77_of t _ (isOff_pay394 v3991)

theorem isOff_w78_of (X : IVec S16 32) (hX : ∀ l, IsOff (X l)) : IsOff (extractAt ![0] (k1_pay468 X) inpos_S1_p0) :=
  isOff_extract X hX ![13] slices_S16_o13_S1 ![0] inpos_S1_p0
theorem chk78_of (t : Fin k1_t1_loop.trips) (X : IVec S16 32) (hX : ∀ l, IsOff (X l)) :
    k1_chk78 t (extractAt ![0] (k1_pay468 X) inpos_S1_p0) :=
  chk78_of_isOff t _ (isOff_w78_of X hX)
theorem chk78 (t : Fin k1_t1_loop.trips) {v3991 : IVec S16 32} :
    k1_chk78 t (extractAt ![0] (k1_pay468 (k1_pay394 v3991)) inpos_S1_p0) :=
  chk78_of t _ (isOff_pay394 v3991)

theorem isOff_w79_of (X : IVec S16 32) (hX : ∀ l, IsOff (X l)) : IsOff (extractAt ![0] (k1_pay474 X) inpos_S1_p0) :=
  isOff_extract X hX ![14] slices_S16_o14_S1 ![0] inpos_S1_p0
theorem chk79_of (t : Fin k1_t1_loop.trips) (X : IVec S16 32) (hX : ∀ l, IsOff (X l)) :
    k1_chk79 t (extractAt ![0] (k1_pay474 X) inpos_S1_p0) :=
  chk79_of_isOff t _ (isOff_w79_of X hX)
theorem chk79 (t : Fin k1_t1_loop.trips) {v3991 : IVec S16 32} :
    k1_chk79 t (extractAt ![0] (k1_pay474 (k1_pay394 v3991)) inpos_S1_p0) :=
  chk79_of t _ (isOff_pay394 v3991)

theorem isOff_w80_of (X : IVec S16 32) (hX : ∀ l, IsOff (X l)) : IsOff (extractAt ![0] (k1_pay479 X) inpos_S1_p0) :=
  isOff_extract X hX ![15] slices_S16_o15_S1 ![0] inpos_S1_p0
theorem chk80_of (t : Fin k1_t1_loop.trips) (X : IVec S16 32) (hX : ∀ l, IsOff (X l)) :
    k1_chk80 t (extractAt ![0] (k1_pay479 X) inpos_S1_p0) :=
  chk80_of_isOff t _ (isOff_w80_of X hX)
theorem chk80 (t : Fin k1_t1_loop.trips) {v3991 : IVec S16 32} :
    k1_chk80 t (extractAt ![0] (k1_pay479 (k1_pay394 v3991)) inpos_S1_p0) :=
  chk80_of t _ (isOff_pay394 v3991)

/-! ### Index words 80 to 95 -/

/-- Every lane of this group's offset vector is 0 or 64. -/
theorem isOff_pay488 (v4883 : IVec S16 32) (l : S16.Idx) : IsOff (k1_pay488 v4883 l) := isOff_offLane _ l

theorem isOff_w81 (v4883 : IVec S16 32) : IsOff (extractAt ![0] (k1_pay489 v4883) inpos_S1_p0) :=
  isOff_extract (k1_pay488 v4883) (isOff_pay488 v4883) ![0] slices_S16_o0_S1 ![0] inpos_S1_p0

theorem chk81 (t : Fin k1_t1_loop.trips) {v4883 : IVec S16 32} :
    k1_chk81 t (extractAt ![0] (k1_pay489 v4883) inpos_S1_p0) :=
  chk81_of_isOff t _ (isOff_w81 v4883)

theorem isOff_w82_of (X : IVec S16 32) (hX : ∀ l, IsOff (X l)) : IsOff (extractAt ![0] (k1_pay494 X) inpos_S1_p0) :=
  isOff_extract X hX ![1] slices_S16_o1_S1 ![0] inpos_S1_p0
theorem chk82_of (t : Fin k1_t1_loop.trips) (X : IVec S16 32) (hX : ∀ l, IsOff (X l)) :
    k1_chk82 t (extractAt ![0] (k1_pay494 X) inpos_S1_p0) :=
  chk82_of_isOff t _ (isOff_w82_of X hX)
theorem chk82 (t : Fin k1_t1_loop.trips) {v4883 : IVec S16 32} :
    k1_chk82 t (extractAt ![0] (k1_pay494 (k1_pay488 v4883)) inpos_S1_p0) :=
  chk82_of t _ (isOff_pay488 v4883)

theorem isOff_w83_of (X : IVec S16 32) (hX : ∀ l, IsOff (X l)) : IsOff (extractAt ![0] (k1_pay500 X) inpos_S1_p0) :=
  isOff_extract X hX ![2] slices_S16_o2_S1 ![0] inpos_S1_p0
theorem chk83_of (t : Fin k1_t1_loop.trips) (X : IVec S16 32) (hX : ∀ l, IsOff (X l)) :
    k1_chk83 t (extractAt ![0] (k1_pay500 X) inpos_S1_p0) :=
  chk83_of_isOff t _ (isOff_w83_of X hX)
theorem chk83 (t : Fin k1_t1_loop.trips) {v4883 : IVec S16 32} :
    k1_chk83 t (extractAt ![0] (k1_pay500 (k1_pay488 v4883)) inpos_S1_p0) :=
  chk83_of t _ (isOff_pay488 v4883)

theorem isOff_w84_of (X : IVec S16 32) (hX : ∀ l, IsOff (X l)) : IsOff (extractAt ![0] (k1_pay506 X) inpos_S1_p0) :=
  isOff_extract X hX ![3] slices_S16_o3_S1 ![0] inpos_S1_p0
theorem chk84_of (t : Fin k1_t1_loop.trips) (X : IVec S16 32) (hX : ∀ l, IsOff (X l)) :
    k1_chk84 t (extractAt ![0] (k1_pay506 X) inpos_S1_p0) :=
  chk84_of_isOff t _ (isOff_w84_of X hX)
theorem chk84 (t : Fin k1_t1_loop.trips) {v4883 : IVec S16 32} :
    k1_chk84 t (extractAt ![0] (k1_pay506 (k1_pay488 v4883)) inpos_S1_p0) :=
  chk84_of t _ (isOff_pay488 v4883)

theorem isOff_w85_of (X : IVec S16 32) (hX : ∀ l, IsOff (X l)) : IsOff (extractAt ![0] (k1_pay512 X) inpos_S1_p0) :=
  isOff_extract X hX ![4] slices_S16_o4_S1 ![0] inpos_S1_p0
theorem chk85_of (t : Fin k1_t1_loop.trips) (X : IVec S16 32) (hX : ∀ l, IsOff (X l)) :
    k1_chk85 t (extractAt ![0] (k1_pay512 X) inpos_S1_p0) :=
  chk85_of_isOff t _ (isOff_w85_of X hX)
theorem chk85 (t : Fin k1_t1_loop.trips) {v4883 : IVec S16 32} :
    k1_chk85 t (extractAt ![0] (k1_pay512 (k1_pay488 v4883)) inpos_S1_p0) :=
  chk85_of t _ (isOff_pay488 v4883)

theorem isOff_w86_of (X : IVec S16 32) (hX : ∀ l, IsOff (X l)) : IsOff (extractAt ![0] (k1_pay518 X) inpos_S1_p0) :=
  isOff_extract X hX ![5] slices_S16_o5_S1 ![0] inpos_S1_p0
theorem chk86_of (t : Fin k1_t1_loop.trips) (X : IVec S16 32) (hX : ∀ l, IsOff (X l)) :
    k1_chk86 t (extractAt ![0] (k1_pay518 X) inpos_S1_p0) :=
  chk86_of_isOff t _ (isOff_w86_of X hX)
theorem chk86 (t : Fin k1_t1_loop.trips) {v4883 : IVec S16 32} :
    k1_chk86 t (extractAt ![0] (k1_pay518 (k1_pay488 v4883)) inpos_S1_p0) :=
  chk86_of t _ (isOff_pay488 v4883)

theorem isOff_w87_of (X : IVec S16 32) (hX : ∀ l, IsOff (X l)) : IsOff (extractAt ![0] (k1_pay523 X) inpos_S1_p0) :=
  isOff_extract X hX ![6] slices_S16_o6_S1 ![0] inpos_S1_p0
theorem chk87_of (t : Fin k1_t1_loop.trips) (X : IVec S16 32) (hX : ∀ l, IsOff (X l)) :
    k1_chk87 t (extractAt ![0] (k1_pay523 X) inpos_S1_p0) :=
  chk87_of_isOff t _ (isOff_w87_of X hX)
theorem chk87 (t : Fin k1_t1_loop.trips) {v4883 : IVec S16 32} :
    k1_chk87 t (extractAt ![0] (k1_pay523 (k1_pay488 v4883)) inpos_S1_p0) :=
  chk87_of t _ (isOff_pay488 v4883)

theorem isOff_w88_of (X : IVec S16 32) (hX : ∀ l, IsOff (X l)) : IsOff (extractAt ![0] (k1_pay529 X) inpos_S1_p0) :=
  isOff_extract X hX ![7] slices_S16_o7_S1 ![0] inpos_S1_p0
theorem chk88_of (t : Fin k1_t1_loop.trips) (X : IVec S16 32) (hX : ∀ l, IsOff (X l)) :
    k1_chk88 t (extractAt ![0] (k1_pay529 X) inpos_S1_p0) :=
  chk88_of_isOff t _ (isOff_w88_of X hX)
theorem chk88 (t : Fin k1_t1_loop.trips) {v4883 : IVec S16 32} :
    k1_chk88 t (extractAt ![0] (k1_pay529 (k1_pay488 v4883)) inpos_S1_p0) :=
  chk88_of t _ (isOff_pay488 v4883)

theorem isOff_w89_of (X : IVec S16 32) (hX : ∀ l, IsOff (X l)) : IsOff (extractAt ![0] (k1_pay534 X) inpos_S1_p0) :=
  isOff_extract X hX ![8] slices_S16_o8_S1 ![0] inpos_S1_p0
theorem chk89_of (t : Fin k1_t1_loop.trips) (X : IVec S16 32) (hX : ∀ l, IsOff (X l)) :
    k1_chk89 t (extractAt ![0] (k1_pay534 X) inpos_S1_p0) :=
  chk89_of_isOff t _ (isOff_w89_of X hX)
theorem chk89 (t : Fin k1_t1_loop.trips) {v4883 : IVec S16 32} :
    k1_chk89 t (extractAt ![0] (k1_pay534 (k1_pay488 v4883)) inpos_S1_p0) :=
  chk89_of t _ (isOff_pay488 v4883)

theorem isOff_w90_of (X : IVec S16 32) (hX : ∀ l, IsOff (X l)) : IsOff (extractAt ![0] (k1_pay540 X) inpos_S1_p0) :=
  isOff_extract X hX ![9] slices_S16_o9_S1 ![0] inpos_S1_p0
theorem chk90_of (t : Fin k1_t1_loop.trips) (X : IVec S16 32) (hX : ∀ l, IsOff (X l)) :
    k1_chk90 t (extractAt ![0] (k1_pay540 X) inpos_S1_p0) :=
  chk90_of_isOff t _ (isOff_w90_of X hX)
theorem chk90 (t : Fin k1_t1_loop.trips) {v4883 : IVec S16 32} :
    k1_chk90 t (extractAt ![0] (k1_pay540 (k1_pay488 v4883)) inpos_S1_p0) :=
  chk90_of t _ (isOff_pay488 v4883)

theorem isOff_w91_of (X : IVec S16 32) (hX : ∀ l, IsOff (X l)) : IsOff (extractAt ![0] (k1_pay545 X) inpos_S1_p0) :=
  isOff_extract X hX ![10] slices_S16_o10_S1 ![0] inpos_S1_p0
theorem chk91_of (t : Fin k1_t1_loop.trips) (X : IVec S16 32) (hX : ∀ l, IsOff (X l)) :
    k1_chk91 t (extractAt ![0] (k1_pay545 X) inpos_S1_p0) :=
  chk91_of_isOff t _ (isOff_w91_of X hX)
theorem chk91 (t : Fin k1_t1_loop.trips) {v4883 : IVec S16 32} :
    k1_chk91 t (extractAt ![0] (k1_pay545 (k1_pay488 v4883)) inpos_S1_p0) :=
  chk91_of t _ (isOff_pay488 v4883)

theorem isOff_w92_of (X : IVec S16 32) (hX : ∀ l, IsOff (X l)) : IsOff (extractAt ![0] (k1_pay551 X) inpos_S1_p0) :=
  isOff_extract X hX ![11] slices_S16_o11_S1 ![0] inpos_S1_p0
theorem chk92_of (t : Fin k1_t1_loop.trips) (X : IVec S16 32) (hX : ∀ l, IsOff (X l)) :
    k1_chk92 t (extractAt ![0] (k1_pay551 X) inpos_S1_p0) :=
  chk92_of_isOff t _ (isOff_w92_of X hX)
theorem chk92 (t : Fin k1_t1_loop.trips) {v4883 : IVec S16 32} :
    k1_chk92 t (extractAt ![0] (k1_pay551 (k1_pay488 v4883)) inpos_S1_p0) :=
  chk92_of t _ (isOff_pay488 v4883)

theorem isOff_w93_of (X : IVec S16 32) (hX : ∀ l, IsOff (X l)) : IsOff (extractAt ![0] (k1_pay557 X) inpos_S1_p0) :=
  isOff_extract X hX ![12] slices_S16_o12_S1 ![0] inpos_S1_p0
theorem chk93_of (t : Fin k1_t1_loop.trips) (X : IVec S16 32) (hX : ∀ l, IsOff (X l)) :
    k1_chk93 t (extractAt ![0] (k1_pay557 X) inpos_S1_p0) :=
  chk93_of_isOff t _ (isOff_w93_of X hX)
theorem chk93 (t : Fin k1_t1_loop.trips) {v4883 : IVec S16 32} :
    k1_chk93 t (extractAt ![0] (k1_pay557 (k1_pay488 v4883)) inpos_S1_p0) :=
  chk93_of t _ (isOff_pay488 v4883)

theorem isOff_w94_of (X : IVec S16 32) (hX : ∀ l, IsOff (X l)) : IsOff (extractAt ![0] (k1_pay562 X) inpos_S1_p0) :=
  isOff_extract X hX ![13] slices_S16_o13_S1 ![0] inpos_S1_p0
theorem chk94_of (t : Fin k1_t1_loop.trips) (X : IVec S16 32) (hX : ∀ l, IsOff (X l)) :
    k1_chk94 t (extractAt ![0] (k1_pay562 X) inpos_S1_p0) :=
  chk94_of_isOff t _ (isOff_w94_of X hX)
theorem chk94 (t : Fin k1_t1_loop.trips) {v4883 : IVec S16 32} :
    k1_chk94 t (extractAt ![0] (k1_pay562 (k1_pay488 v4883)) inpos_S1_p0) :=
  chk94_of t _ (isOff_pay488 v4883)

theorem isOff_w95_of (X : IVec S16 32) (hX : ∀ l, IsOff (X l)) : IsOff (extractAt ![0] (k1_pay568 X) inpos_S1_p0) :=
  isOff_extract X hX ![14] slices_S16_o14_S1 ![0] inpos_S1_p0
theorem chk95_of (t : Fin k1_t1_loop.trips) (X : IVec S16 32) (hX : ∀ l, IsOff (X l)) :
    k1_chk95 t (extractAt ![0] (k1_pay568 X) inpos_S1_p0) :=
  chk95_of_isOff t _ (isOff_w95_of X hX)
theorem chk95 (t : Fin k1_t1_loop.trips) {v4883 : IVec S16 32} :
    k1_chk95 t (extractAt ![0] (k1_pay568 (k1_pay488 v4883)) inpos_S1_p0) :=
  chk95_of t _ (isOff_pay488 v4883)

theorem isOff_w96_of (X : IVec S16 32) (hX : ∀ l, IsOff (X l)) : IsOff (extractAt ![0] (k1_pay573 X) inpos_S1_p0) :=
  isOff_extract X hX ![15] slices_S16_o15_S1 ![0] inpos_S1_p0
theorem chk96_of (t : Fin k1_t1_loop.trips) (X : IVec S16 32) (hX : ∀ l, IsOff (X l)) :
    k1_chk96 t (extractAt ![0] (k1_pay573 X) inpos_S1_p0) :=
  chk96_of_isOff t _ (isOff_w96_of X hX)
theorem chk96 (t : Fin k1_t1_loop.trips) {v4883 : IVec S16 32} :
    k1_chk96 t (extractAt ![0] (k1_pay573 (k1_pay488 v4883)) inpos_S1_p0) :=
  chk96_of t _ (isOff_pay488 v4883)

/-! ### Index words 96 to 111 -/

/-- Every lane of this group's offset vector is 0 or 64. -/
theorem isOff_pay583 (v5775 : IVec S16 32) (l : S16.Idx) : IsOff (k1_pay583 v5775 l) := isOff_offLane _ l

theorem isOff_w97 (v5775 : IVec S16 32) : IsOff (extractAt ![0] (k1_pay584 v5775) inpos_S1_p0) :=
  isOff_extract (k1_pay583 v5775) (isOff_pay583 v5775) ![0] slices_S16_o0_S1 ![0] inpos_S1_p0

theorem chk97 (t : Fin k1_t1_loop.trips) {v5775 : IVec S16 32} :
    k1_chk97 t (extractAt ![0] (k1_pay584 v5775) inpos_S1_p0) :=
  chk97_of_isOff t _ (isOff_w97 v5775)

theorem isOff_w98_of (X : IVec S16 32) (hX : ∀ l, IsOff (X l)) : IsOff (extractAt ![0] (k1_pay589 X) inpos_S1_p0) :=
  isOff_extract X hX ![1] slices_S16_o1_S1 ![0] inpos_S1_p0
theorem chk98_of (t : Fin k1_t1_loop.trips) (X : IVec S16 32) (hX : ∀ l, IsOff (X l)) :
    k1_chk98 t (extractAt ![0] (k1_pay589 X) inpos_S1_p0) :=
  chk98_of_isOff t _ (isOff_w98_of X hX)
theorem chk98 (t : Fin k1_t1_loop.trips) {v5775 : IVec S16 32} :
    k1_chk98 t (extractAt ![0] (k1_pay589 (k1_pay583 v5775)) inpos_S1_p0) :=
  chk98_of t _ (isOff_pay583 v5775)

theorem isOff_w99_of (X : IVec S16 32) (hX : ∀ l, IsOff (X l)) : IsOff (extractAt ![0] (k1_pay595 X) inpos_S1_p0) :=
  isOff_extract X hX ![2] slices_S16_o2_S1 ![0] inpos_S1_p0
theorem chk99_of (t : Fin k1_t1_loop.trips) (X : IVec S16 32) (hX : ∀ l, IsOff (X l)) :
    k1_chk99 t (extractAt ![0] (k1_pay595 X) inpos_S1_p0) :=
  chk99_of_isOff t _ (isOff_w99_of X hX)
theorem chk99 (t : Fin k1_t1_loop.trips) {v5775 : IVec S16 32} :
    k1_chk99 t (extractAt ![0] (k1_pay595 (k1_pay583 v5775)) inpos_S1_p0) :=
  chk99_of t _ (isOff_pay583 v5775)

theorem isOff_w100_of (X : IVec S16 32) (hX : ∀ l, IsOff (X l)) : IsOff (extractAt ![0] (k1_pay600 X) inpos_S1_p0) :=
  isOff_extract X hX ![3] slices_S16_o3_S1 ![0] inpos_S1_p0
theorem chk100_of (t : Fin k1_t1_loop.trips) (X : IVec S16 32) (hX : ∀ l, IsOff (X l)) :
    k1_chk100 t (extractAt ![0] (k1_pay600 X) inpos_S1_p0) :=
  chk100_of_isOff t _ (isOff_w100_of X hX)
theorem chk100 (t : Fin k1_t1_loop.trips) {v5775 : IVec S16 32} :
    k1_chk100 t (extractAt ![0] (k1_pay600 (k1_pay583 v5775)) inpos_S1_p0) :=
  chk100_of t _ (isOff_pay583 v5775)

theorem isOff_w101_of (X : IVec S16 32) (hX : ∀ l, IsOff (X l)) : IsOff (extractAt ![0] (k1_pay606 X) inpos_S1_p0) :=
  isOff_extract X hX ![4] slices_S16_o4_S1 ![0] inpos_S1_p0
theorem chk101_of (t : Fin k1_t1_loop.trips) (X : IVec S16 32) (hX : ∀ l, IsOff (X l)) :
    k1_chk101 t (extractAt ![0] (k1_pay606 X) inpos_S1_p0) :=
  chk101_of_isOff t _ (isOff_w101_of X hX)
theorem chk101 (t : Fin k1_t1_loop.trips) {v5775 : IVec S16 32} :
    k1_chk101 t (extractAt ![0] (k1_pay606 (k1_pay583 v5775)) inpos_S1_p0) :=
  chk101_of t _ (isOff_pay583 v5775)

theorem isOff_w102_of (X : IVec S16 32) (hX : ∀ l, IsOff (X l)) : IsOff (extractAt ![0] (k1_pay612 X) inpos_S1_p0) :=
  isOff_extract X hX ![5] slices_S16_o5_S1 ![0] inpos_S1_p0
theorem chk102_of (t : Fin k1_t1_loop.trips) (X : IVec S16 32) (hX : ∀ l, IsOff (X l)) :
    k1_chk102 t (extractAt ![0] (k1_pay612 X) inpos_S1_p0) :=
  chk102_of_isOff t _ (isOff_w102_of X hX)
theorem chk102 (t : Fin k1_t1_loop.trips) {v5775 : IVec S16 32} :
    k1_chk102 t (extractAt ![0] (k1_pay612 (k1_pay583 v5775)) inpos_S1_p0) :=
  chk102_of t _ (isOff_pay583 v5775)

theorem isOff_w103_of (X : IVec S16 32) (hX : ∀ l, IsOff (X l)) : IsOff (extractAt ![0] (k1_pay618 X) inpos_S1_p0) :=
  isOff_extract X hX ![6] slices_S16_o6_S1 ![0] inpos_S1_p0
theorem chk103_of (t : Fin k1_t1_loop.trips) (X : IVec S16 32) (hX : ∀ l, IsOff (X l)) :
    k1_chk103 t (extractAt ![0] (k1_pay618 X) inpos_S1_p0) :=
  chk103_of_isOff t _ (isOff_w103_of X hX)
theorem chk103 (t : Fin k1_t1_loop.trips) {v5775 : IVec S16 32} :
    k1_chk103 t (extractAt ![0] (k1_pay618 (k1_pay583 v5775)) inpos_S1_p0) :=
  chk103_of t _ (isOff_pay583 v5775)

theorem isOff_w104_of (X : IVec S16 32) (hX : ∀ l, IsOff (X l)) : IsOff (extractAt ![0] (k1_pay624 X) inpos_S1_p0) :=
  isOff_extract X hX ![7] slices_S16_o7_S1 ![0] inpos_S1_p0
theorem chk104_of (t : Fin k1_t1_loop.trips) (X : IVec S16 32) (hX : ∀ l, IsOff (X l)) :
    k1_chk104 t (extractAt ![0] (k1_pay624 X) inpos_S1_p0) :=
  chk104_of_isOff t _ (isOff_w104_of X hX)
theorem chk104 (t : Fin k1_t1_loop.trips) {v5775 : IVec S16 32} :
    k1_chk104 t (extractAt ![0] (k1_pay624 (k1_pay583 v5775)) inpos_S1_p0) :=
  chk104_of t _ (isOff_pay583 v5775)

theorem isOff_w105_of (X : IVec S16 32) (hX : ∀ l, IsOff (X l)) : IsOff (extractAt ![0] (k1_pay629 X) inpos_S1_p0) :=
  isOff_extract X hX ![8] slices_S16_o8_S1 ![0] inpos_S1_p0
theorem chk105_of (t : Fin k1_t1_loop.trips) (X : IVec S16 32) (hX : ∀ l, IsOff (X l)) :
    k1_chk105 t (extractAt ![0] (k1_pay629 X) inpos_S1_p0) :=
  chk105_of_isOff t _ (isOff_w105_of X hX)
theorem chk105 (t : Fin k1_t1_loop.trips) {v5775 : IVec S16 32} :
    k1_chk105 t (extractAt ![0] (k1_pay629 (k1_pay583 v5775)) inpos_S1_p0) :=
  chk105_of t _ (isOff_pay583 v5775)

theorem isOff_w106_of (X : IVec S16 32) (hX : ∀ l, IsOff (X l)) : IsOff (extractAt ![0] (k1_pay635 X) inpos_S1_p0) :=
  isOff_extract X hX ![9] slices_S16_o9_S1 ![0] inpos_S1_p0
theorem chk106_of (t : Fin k1_t1_loop.trips) (X : IVec S16 32) (hX : ∀ l, IsOff (X l)) :
    k1_chk106 t (extractAt ![0] (k1_pay635 X) inpos_S1_p0) :=
  chk106_of_isOff t _ (isOff_w106_of X hX)
theorem chk106 (t : Fin k1_t1_loop.trips) {v5775 : IVec S16 32} :
    k1_chk106 t (extractAt ![0] (k1_pay635 (k1_pay583 v5775)) inpos_S1_p0) :=
  chk106_of t _ (isOff_pay583 v5775)

theorem isOff_w107_of (X : IVec S16 32) (hX : ∀ l, IsOff (X l)) : IsOff (extractAt ![0] (k1_pay640 X) inpos_S1_p0) :=
  isOff_extract X hX ![10] slices_S16_o10_S1 ![0] inpos_S1_p0
theorem chk107_of (t : Fin k1_t1_loop.trips) (X : IVec S16 32) (hX : ∀ l, IsOff (X l)) :
    k1_chk107 t (extractAt ![0] (k1_pay640 X) inpos_S1_p0) :=
  chk107_of_isOff t _ (isOff_w107_of X hX)
theorem chk107 (t : Fin k1_t1_loop.trips) {v5775 : IVec S16 32} :
    k1_chk107 t (extractAt ![0] (k1_pay640 (k1_pay583 v5775)) inpos_S1_p0) :=
  chk107_of t _ (isOff_pay583 v5775)

theorem isOff_w108_of (X : IVec S16 32) (hX : ∀ l, IsOff (X l)) : IsOff (extractAt ![0] (k1_pay646 X) inpos_S1_p0) :=
  isOff_extract X hX ![11] slices_S16_o11_S1 ![0] inpos_S1_p0
theorem chk108_of (t : Fin k1_t1_loop.trips) (X : IVec S16 32) (hX : ∀ l, IsOff (X l)) :
    k1_chk108 t (extractAt ![0] (k1_pay646 X) inpos_S1_p0) :=
  chk108_of_isOff t _ (isOff_w108_of X hX)
theorem chk108 (t : Fin k1_t1_loop.trips) {v5775 : IVec S16 32} :
    k1_chk108 t (extractAt ![0] (k1_pay646 (k1_pay583 v5775)) inpos_S1_p0) :=
  chk108_of t _ (isOff_pay583 v5775)

theorem isOff_w109_of (X : IVec S16 32) (hX : ∀ l, IsOff (X l)) : IsOff (extractAt ![0] (k1_pay651 X) inpos_S1_p0) :=
  isOff_extract X hX ![12] slices_S16_o12_S1 ![0] inpos_S1_p0
theorem chk109_of (t : Fin k1_t1_loop.trips) (X : IVec S16 32) (hX : ∀ l, IsOff (X l)) :
    k1_chk109 t (extractAt ![0] (k1_pay651 X) inpos_S1_p0) :=
  chk109_of_isOff t _ (isOff_w109_of X hX)
theorem chk109 (t : Fin k1_t1_loop.trips) {v5775 : IVec S16 32} :
    k1_chk109 t (extractAt ![0] (k1_pay651 (k1_pay583 v5775)) inpos_S1_p0) :=
  chk109_of t _ (isOff_pay583 v5775)

theorem isOff_w110_of (X : IVec S16 32) (hX : ∀ l, IsOff (X l)) : IsOff (extractAt ![0] (k1_pay657 X) inpos_S1_p0) :=
  isOff_extract X hX ![13] slices_S16_o13_S1 ![0] inpos_S1_p0
theorem chk110_of (t : Fin k1_t1_loop.trips) (X : IVec S16 32) (hX : ∀ l, IsOff (X l)) :
    k1_chk110 t (extractAt ![0] (k1_pay657 X) inpos_S1_p0) :=
  chk110_of_isOff t _ (isOff_w110_of X hX)
theorem chk110 (t : Fin k1_t1_loop.trips) {v5775 : IVec S16 32} :
    k1_chk110 t (extractAt ![0] (k1_pay657 (k1_pay583 v5775)) inpos_S1_p0) :=
  chk110_of t _ (isOff_pay583 v5775)

theorem isOff_w111_of (X : IVec S16 32) (hX : ∀ l, IsOff (X l)) : IsOff (extractAt ![0] (k1_pay663 X) inpos_S1_p0) :=
  isOff_extract X hX ![14] slices_S16_o14_S1 ![0] inpos_S1_p0
theorem chk111_of (t : Fin k1_t1_loop.trips) (X : IVec S16 32) (hX : ∀ l, IsOff (X l)) :
    k1_chk111 t (extractAt ![0] (k1_pay663 X) inpos_S1_p0) :=
  chk111_of_isOff t _ (isOff_w111_of X hX)
theorem chk111 (t : Fin k1_t1_loop.trips) {v5775 : IVec S16 32} :
    k1_chk111 t (extractAt ![0] (k1_pay663 (k1_pay583 v5775)) inpos_S1_p0) :=
  chk111_of t _ (isOff_pay583 v5775)

theorem isOff_w112_of (X : IVec S16 32) (hX : ∀ l, IsOff (X l)) : IsOff (extractAt ![0] (k1_pay668 X) inpos_S1_p0) :=
  isOff_extract X hX ![15] slices_S16_o15_S1 ![0] inpos_S1_p0
theorem chk112_of (t : Fin k1_t1_loop.trips) (X : IVec S16 32) (hX : ∀ l, IsOff (X l)) :
    k1_chk112 t (extractAt ![0] (k1_pay668 X) inpos_S1_p0) :=
  chk112_of_isOff t _ (isOff_w112_of X hX)
theorem chk112 (t : Fin k1_t1_loop.trips) {v5775 : IVec S16 32} :
    k1_chk112 t (extractAt ![0] (k1_pay668 (k1_pay583 v5775)) inpos_S1_p0) :=
  chk112_of t _ (isOff_pay583 v5775)

/-! ### Index words 112 to 127 -/

/-- Every lane of this group's offset vector is 0 or 64. -/
theorem isOff_pay675 (v6667 : IVec S16 32) (l : S16.Idx) : IsOff (k1_pay675 v6667 l) := isOff_offLane _ l

theorem isOff_w113 (v6667 : IVec S16 32) : IsOff (extractAt ![0] (k1_pay676 v6667) inpos_S1_p0) :=
  isOff_extract (k1_pay675 v6667) (isOff_pay675 v6667) ![0] slices_S16_o0_S1 ![0] inpos_S1_p0

theorem chk113 (t : Fin k1_t1_loop.trips) {v6667 : IVec S16 32} :
    k1_chk113 t (extractAt ![0] (k1_pay676 v6667) inpos_S1_p0) :=
  chk113_of_isOff t _ (isOff_w113 v6667)

theorem isOff_w114_of (X : IVec S16 32) (hX : ∀ l, IsOff (X l)) : IsOff (extractAt ![0] (k1_pay681 X) inpos_S1_p0) :=
  isOff_extract X hX ![1] slices_S16_o1_S1 ![0] inpos_S1_p0
theorem chk114_of (t : Fin k1_t1_loop.trips) (X : IVec S16 32) (hX : ∀ l, IsOff (X l)) :
    k1_chk114 t (extractAt ![0] (k1_pay681 X) inpos_S1_p0) :=
  chk114_of_isOff t _ (isOff_w114_of X hX)
theorem chk114 (t : Fin k1_t1_loop.trips) {v6667 : IVec S16 32} :
    k1_chk114 t (extractAt ![0] (k1_pay681 (k1_pay675 v6667)) inpos_S1_p0) :=
  chk114_of t _ (isOff_pay675 v6667)

theorem isOff_w115_of (X : IVec S16 32) (hX : ∀ l, IsOff (X l)) : IsOff (extractAt ![0] (k1_pay688 X) inpos_S1_p0) :=
  isOff_extract X hX ![2] slices_S16_o2_S1 ![0] inpos_S1_p0
theorem chk115_of (t : Fin k1_t1_loop.trips) (X : IVec S16 32) (hX : ∀ l, IsOff (X l)) :
    k1_chk115 t (extractAt ![0] (k1_pay688 X) inpos_S1_p0) :=
  chk115_of_isOff t _ (isOff_w115_of X hX)
theorem chk115 (t : Fin k1_t1_loop.trips) {v6667 : IVec S16 32} :
    k1_chk115 t (extractAt ![0] (k1_pay688 (k1_pay675 v6667)) inpos_S1_p0) :=
  chk115_of t _ (isOff_pay675 v6667)

theorem isOff_w116_of (X : IVec S16 32) (hX : ∀ l, IsOff (X l)) : IsOff (extractAt ![0] (k1_pay693 X) inpos_S1_p0) :=
  isOff_extract X hX ![3] slices_S16_o3_S1 ![0] inpos_S1_p0
theorem chk116_of (t : Fin k1_t1_loop.trips) (X : IVec S16 32) (hX : ∀ l, IsOff (X l)) :
    k1_chk116 t (extractAt ![0] (k1_pay693 X) inpos_S1_p0) :=
  chk116_of_isOff t _ (isOff_w116_of X hX)
theorem chk116 (t : Fin k1_t1_loop.trips) {v6667 : IVec S16 32} :
    k1_chk116 t (extractAt ![0] (k1_pay693 (k1_pay675 v6667)) inpos_S1_p0) :=
  chk116_of t _ (isOff_pay675 v6667)

theorem isOff_w117_of (X : IVec S16 32) (hX : ∀ l, IsOff (X l)) : IsOff (extractAt ![0] (k1_pay699 X) inpos_S1_p0) :=
  isOff_extract X hX ![4] slices_S16_o4_S1 ![0] inpos_S1_p0
theorem chk117_of (t : Fin k1_t1_loop.trips) (X : IVec S16 32) (hX : ∀ l, IsOff (X l)) :
    k1_chk117 t (extractAt ![0] (k1_pay699 X) inpos_S1_p0) :=
  chk117_of_isOff t _ (isOff_w117_of X hX)
theorem chk117 (t : Fin k1_t1_loop.trips) {v6667 : IVec S16 32} :
    k1_chk117 t (extractAt ![0] (k1_pay699 (k1_pay675 v6667)) inpos_S1_p0) :=
  chk117_of t _ (isOff_pay675 v6667)

theorem isOff_w118_of (X : IVec S16 32) (hX : ∀ l, IsOff (X l)) : IsOff (extractAt ![0] (k1_pay704 X) inpos_S1_p0) :=
  isOff_extract X hX ![5] slices_S16_o5_S1 ![0] inpos_S1_p0
theorem chk118_of (t : Fin k1_t1_loop.trips) (X : IVec S16 32) (hX : ∀ l, IsOff (X l)) :
    k1_chk118 t (extractAt ![0] (k1_pay704 X) inpos_S1_p0) :=
  chk118_of_isOff t _ (isOff_w118_of X hX)
theorem chk118 (t : Fin k1_t1_loop.trips) {v6667 : IVec S16 32} :
    k1_chk118 t (extractAt ![0] (k1_pay704 (k1_pay675 v6667)) inpos_S1_p0) :=
  chk118_of t _ (isOff_pay675 v6667)

theorem isOff_w119_of (X : IVec S16 32) (hX : ∀ l, IsOff (X l)) : IsOff (extractAt ![0] (k1_pay710 X) inpos_S1_p0) :=
  isOff_extract X hX ![6] slices_S16_o6_S1 ![0] inpos_S1_p0
theorem chk119_of (t : Fin k1_t1_loop.trips) (X : IVec S16 32) (hX : ∀ l, IsOff (X l)) :
    k1_chk119 t (extractAt ![0] (k1_pay710 X) inpos_S1_p0) :=
  chk119_of_isOff t _ (isOff_w119_of X hX)
theorem chk119 (t : Fin k1_t1_loop.trips) {v6667 : IVec S16 32} :
    k1_chk119 t (extractAt ![0] (k1_pay710 (k1_pay675 v6667)) inpos_S1_p0) :=
  chk119_of t _ (isOff_pay675 v6667)

theorem isOff_w120_of (X : IVec S16 32) (hX : ∀ l, IsOff (X l)) : IsOff (extractAt ![0] (k1_pay716 X) inpos_S1_p0) :=
  isOff_extract X hX ![7] slices_S16_o7_S1 ![0] inpos_S1_p0
theorem chk120_of (t : Fin k1_t1_loop.trips) (X : IVec S16 32) (hX : ∀ l, IsOff (X l)) :
    k1_chk120 t (extractAt ![0] (k1_pay716 X) inpos_S1_p0) :=
  chk120_of_isOff t _ (isOff_w120_of X hX)
theorem chk120 (t : Fin k1_t1_loop.trips) {v6667 : IVec S16 32} :
    k1_chk120 t (extractAt ![0] (k1_pay716 (k1_pay675 v6667)) inpos_S1_p0) :=
  chk120_of t _ (isOff_pay675 v6667)

theorem isOff_w121_of (X : IVec S16 32) (hX : ∀ l, IsOff (X l)) : IsOff (extractAt ![0] (k1_pay722 X) inpos_S1_p0) :=
  isOff_extract X hX ![8] slices_S16_o8_S1 ![0] inpos_S1_p0
theorem chk121_of (t : Fin k1_t1_loop.trips) (X : IVec S16 32) (hX : ∀ l, IsOff (X l)) :
    k1_chk121 t (extractAt ![0] (k1_pay722 X) inpos_S1_p0) :=
  chk121_of_isOff t _ (isOff_w121_of X hX)
theorem chk121 (t : Fin k1_t1_loop.trips) {v6667 : IVec S16 32} :
    k1_chk121 t (extractAt ![0] (k1_pay722 (k1_pay675 v6667)) inpos_S1_p0) :=
  chk121_of t _ (isOff_pay675 v6667)

theorem isOff_w122_of (X : IVec S16 32) (hX : ∀ l, IsOff (X l)) : IsOff (extractAt ![0] (k1_pay728 X) inpos_S1_p0) :=
  isOff_extract X hX ![9] slices_S16_o9_S1 ![0] inpos_S1_p0
theorem chk122_of (t : Fin k1_t1_loop.trips) (X : IVec S16 32) (hX : ∀ l, IsOff (X l)) :
    k1_chk122 t (extractAt ![0] (k1_pay728 X) inpos_S1_p0) :=
  chk122_of_isOff t _ (isOff_w122_of X hX)
theorem chk122 (t : Fin k1_t1_loop.trips) {v6667 : IVec S16 32} :
    k1_chk122 t (extractAt ![0] (k1_pay728 (k1_pay675 v6667)) inpos_S1_p0) :=
  chk122_of t _ (isOff_pay675 v6667)

theorem isOff_w123_of (X : IVec S16 32) (hX : ∀ l, IsOff (X l)) : IsOff (extractAt ![0] (k1_pay733 X) inpos_S1_p0) :=
  isOff_extract X hX ![10] slices_S16_o10_S1 ![0] inpos_S1_p0
theorem chk123_of (t : Fin k1_t1_loop.trips) (X : IVec S16 32) (hX : ∀ l, IsOff (X l)) :
    k1_chk123 t (extractAt ![0] (k1_pay733 X) inpos_S1_p0) :=
  chk123_of_isOff t _ (isOff_w123_of X hX)
theorem chk123 (t : Fin k1_t1_loop.trips) {v6667 : IVec S16 32} :
    k1_chk123 t (extractAt ![0] (k1_pay733 (k1_pay675 v6667)) inpos_S1_p0) :=
  chk123_of t _ (isOff_pay675 v6667)

theorem isOff_w124_of (X : IVec S16 32) (hX : ∀ l, IsOff (X l)) : IsOff (extractAt ![0] (k1_pay739 X) inpos_S1_p0) :=
  isOff_extract X hX ![11] slices_S16_o11_S1 ![0] inpos_S1_p0
theorem chk124_of (t : Fin k1_t1_loop.trips) (X : IVec S16 32) (hX : ∀ l, IsOff (X l)) :
    k1_chk124 t (extractAt ![0] (k1_pay739 X) inpos_S1_p0) :=
  chk124_of_isOff t _ (isOff_w124_of X hX)
theorem chk124 (t : Fin k1_t1_loop.trips) {v6667 : IVec S16 32} :
    k1_chk124 t (extractAt ![0] (k1_pay739 (k1_pay675 v6667)) inpos_S1_p0) :=
  chk124_of t _ (isOff_pay675 v6667)

theorem isOff_w125_of (X : IVec S16 32) (hX : ∀ l, IsOff (X l)) : IsOff (extractAt ![0] (k1_pay744 X) inpos_S1_p0) :=
  isOff_extract X hX ![12] slices_S16_o12_S1 ![0] inpos_S1_p0
theorem chk125_of (t : Fin k1_t1_loop.trips) (X : IVec S16 32) (hX : ∀ l, IsOff (X l)) :
    k1_chk125 t (extractAt ![0] (k1_pay744 X) inpos_S1_p0) :=
  chk125_of_isOff t _ (isOff_w125_of X hX)
theorem chk125 (t : Fin k1_t1_loop.trips) {v6667 : IVec S16 32} :
    k1_chk125 t (extractAt ![0] (k1_pay744 (k1_pay675 v6667)) inpos_S1_p0) :=
  chk125_of t _ (isOff_pay675 v6667)

theorem isOff_w126_of (X : IVec S16 32) (hX : ∀ l, IsOff (X l)) : IsOff (extractAt ![0] (k1_pay750 X) inpos_S1_p0) :=
  isOff_extract X hX ![13] slices_S16_o13_S1 ![0] inpos_S1_p0
theorem chk126_of (t : Fin k1_t1_loop.trips) (X : IVec S16 32) (hX : ∀ l, IsOff (X l)) :
    k1_chk126 t (extractAt ![0] (k1_pay750 X) inpos_S1_p0) :=
  chk126_of_isOff t _ (isOff_w126_of X hX)
theorem chk126 (t : Fin k1_t1_loop.trips) {v6667 : IVec S16 32} :
    k1_chk126 t (extractAt ![0] (k1_pay750 (k1_pay675 v6667)) inpos_S1_p0) :=
  chk126_of t _ (isOff_pay675 v6667)

theorem isOff_w127_of (X : IVec S16 32) (hX : ∀ l, IsOff (X l)) : IsOff (extractAt ![0] (k1_pay755 X) inpos_S1_p0) :=
  isOff_extract X hX ![14] slices_S16_o14_S1 ![0] inpos_S1_p0
theorem chk127_of (t : Fin k1_t1_loop.trips) (X : IVec S16 32) (hX : ∀ l, IsOff (X l)) :
    k1_chk127 t (extractAt ![0] (k1_pay755 X) inpos_S1_p0) :=
  chk127_of_isOff t _ (isOff_w127_of X hX)
theorem chk127 (t : Fin k1_t1_loop.trips) {v6667 : IVec S16 32} :
    k1_chk127 t (extractAt ![0] (k1_pay755 (k1_pay675 v6667)) inpos_S1_p0) :=
  chk127_of t _ (isOff_pay675 v6667)

theorem isOff_w128_of (X : IVec S16 32) (hX : ∀ l, IsOff (X l)) : IsOff (extractAt ![0] (k1_pay761 X) inpos_S1_p0) :=
  isOff_extract X hX ![15] slices_S16_o15_S1 ![0] inpos_S1_p0
theorem chk128_of (t : Fin k1_t1_loop.trips) (X : IVec S16 32) (hX : ∀ l, IsOff (X l)) :
    k1_chk128 t (extractAt ![0] (k1_pay761 X) inpos_S1_p0) :=
  chk128_of_isOff t _ (isOff_w128_of X hX)
theorem chk128 (t : Fin k1_t1_loop.trips) {v6667 : IVec S16 32} :
    k1_chk128 t (extractAt ![0] (k1_pay761 (k1_pay675 v6667)) inpos_S1_p0) :=
  chk128_of t _ (isOff_pay675 v6667)

end Cert.ChkFacts
-- ==== Proof.KBodyPhaseAV.lean ====
/-
  The first four trips of a subcore's loop, `k < 4`.

  Nothing gathered is ready yet, so only the first stage runs: the trip waits for its own chunk of index words,
  rewrites the list of packed-row numbers (every entry a row of the packed table, because every index word is at
  most 999999), issues the gather of those rows, and issues the copy of the index chunk five ahead. What it was
  handed — its index copy in flight, the index slot and index chunk five ahead, and its gather slot — comes back
  as: the index slot free again (for chunk `k + 10`), the index chunk at home, the copy five ahead in flight,
  and the gather in flight.
-/
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyValuePack
import proofs.«206325_g16862041604593_cont_week2b_1534_42_alg».proof.Proof.KBodyContentIs
import proofs.«206325_g16862041604593_cont_week2b_1534_42_alg».proof.Proof.KBodyContentRows
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

set_option maxHeartbeats 40000000 in
set_option maxRecDepth 65536 in
/-- The first four trips, `k < 4`, with contents: the first stage only; the landed index chunk is the chunk's words, the
    gather issued will land the packed rows they name, the chunk fetched five ahead its own words. -/
theorem phaseA_holdsV (d : Dev nD) (L : grid1.Coords) (q q' : PosShare TreeShare)
    (tp : Buf (Elt F) ((A2).view.loc (V d (cV L) (jV L)))) (xt : Buf (Elt F) ((A3).view.loc (V d (cV L) (jV L))))
    (O : CellTallies nD τ sig (HIx 1)) (W : Waits sig (HIx 1)) (v2 : BitVec 32)
    (hxt : ∀ j, (xt j).toNat ≤ 999999) :
    PhaseAV (UU := UU) d L q q' tp xt O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk4
  have h1 : k1_cond1 k = 1#1 := (k1_cond1_iff k).2 (by omega)
  have h2 : k1_cond2 k = 1#1 := (k1_cond2_iff k).2 (by omega)
  have h3 : ¬ k1_cond3 k = 1#1 := fun h => by have := (k1_cond3_iff k).1 h; omega
  unfold k1_t1_body
  iintro ⟨#Hmw, HOW, HI, HIF, HX, HGF⟩
  ihave HI' := (IFlV_open d L q' xt k h1) $$ HI
  icases HI' with ⟨%ci, %hciP, HflI⟩
  obtain ⟨hci, hIs⟩ := hciP
  ihave HIFf := (ILoadedV_free d L xt (k.val + 5)) $$ HIF
  ihave HIF' := (IFree_open d L k h1 h2) $$ HIFf
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  unfold Owes
  icases HOW with ⟨%W', %hW', HO⟩
  -- the wait for the index words and the eight stores, up to the gather's issue; the list's words name packed rows
  sl_exec_parts (disch := chk_disch)
  have hin := hin_of_idx d L k h1 ci fh hci
  -- the gather and the copy of the index chunk five ahead
  sl_exec_parts (disch := chk_disch)
  sl_step
  icases Htab with -
  -- the contents: what the wait landed, read through the program's spelling of its slot
  have hIsP : ∀ b : S128.Idx, (idxP2 k h1).view.read (Elt F) ci b = chunkWordOf d L xt k.val (b 0).val :=
    fun b => (read_congr_memref (idxP2_eq k h1) _ _ HEq.rfl b).trans (hIs b)
  isplitr; · iexact Hmw
  isplitl [HO]
  · iexists _
    isplitr
    swap
    · iexact HO
    ipureintro
    intro p hp
    rcases Finset.mem_insert.mp hp with hp | hp
    · exact .inr (hp ▸ rfl)
    · exact hW' p hp
  isplitl [HflI HflI_dst]
  · iapply (ILoadedV_close d L xt k h1 ci hci hIsP)
    isplitl [HflI]; · iexact HflI
    iexact HflI_dst
  isplitl [HflI_src]
  · iapply (XHome_close d L q' xt k h1); iexact HflI_src
  isplitl [HsemI']
  · iapply (IFlV_close d L q' xt k h1 h2 _ (by exact landed_ok L k h1 h2 xt hxt fi') (by exact idxIs_landed d L xt k h1 h2 fi')); iexact HsemI'
  · have hRows := rowsIs_gathered d L tp xt k h1 ci fh fr hci hIs (by first | rfl | decide) hin
    iapply (GFlV_close d L q tp xt k h1 _ _ hRows); iexact HsemG

end Cert.Proof.KBody
end
-- ==== Proof.KBodySelValue.lean ====
/-
  What the select stage leaves in the slot of selected rows.

  For each of the 128 batch positions `b` of a chunk the stage takes the offset word of the position's index word —
  lane `b % 16` of the offset vector of the group `b / 16` of 16 index words, 0 or 64 — and, for `r = 0, 1, 2, 3`, loads
  16 lanes of row `b` of the gathered block from lane `word + 16 r` and stores them over lanes `16 r … 16 r + 15` of
  row `b` of the slot. The 512 stores cover the slot, so afterwards entry `(b, c)` of the slot is entry
  `(b, word_b + c)` of the gathered block, whatever the slot held before; and when the index word is at most 999999
  its offset word is its column offset `packOff`.
-/
import proofs.«206325_g16862041604593_cont_week2b_1534_42_alg».proof.Proof.KBodyDefs
import proofs.«206325_g16862041604593_cont_week2b_1534_42_alg».proof.Proof.KBodyOff
import proofs.«206325_g16862041604593_cont_week2b_1534_42_alg».proof.Proof.KBodyHin
import proofs.«206325_g16862041604593_cont_week2b_1534_42_alg».proof.Proof.LanePay
import proofs.«206325_g16862041604593_cont_week2b_1534_42_alg».proof.Proof.ChkCore
import Idealize.ShloMosaic.Lib.Writes

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A5" => (Memref.whole Cert.KernelIdeal.cc1_scratch0 : Memref Cert.KernelIdeal.sig Kind.scVector Space.vmem Cert.KernelIdeal.S10x128 EltTy.i32)

variable [FloatOps F]

/-! ## The pure core: one store of the select stage

  For batch position `b` the stage reads the offset word `w` of the index word (0 or 64: the word's column offset in
  its packed row) and, for `r = 0, 1, 2, 3`, loads the 16 lanes of row `b` of the gathered block from lane
  `w + 16 r` and stores them over lanes `16 r … 16 r + 15` of row `b` of the selected block. So entry `(b, c)` of the
  selected block is entry `(b, w + c)` of the gathered block. -/

section SelCore

open Idealize.ShloMosaic.ValueIdx Cert.Spec

variable {sg : RefSig} {κ : Kind} {sp : Space} {e : EltTy} {Val : EltTy → Type}

/-- A 16-lane load at row `i`, lane `o` of a matrix view reads, at `(u, l)`, the view's entry `(i, o + l)`. -/
theorem readAt_unit_row {n0 n1 : Nat} (v : View sg κ sp ⟨2, ![n0, n1]⟩ e) (f : v.ty.Contents Val)
    (off : Fin 2 → Nat) (inb : ∀ c, off c + (![1, 16] : Fin 2 → Nat) c ≤ (⟨2, ![n0, n1]⟩ : Shape).size c)
    (u : Fin 1) (l : Fin 16) (i : Fin n0) (j : Fin n1) (hi : i.val = off 0) (hj : j.val = off 1 + l.val) :
    v.readAt Val (Rect.unit (s := ⟨2, ![n0, n1]⟩) off ![1, 16] inb).toLoadRect f (ix2 u l) = v.read Val f (ix2 i j) := by
  have hu : u.val = 0 := by omega
  have hx : v.readAt Val (Rect.unit (s := ⟨2, ![n0, n1]⟩) off ![1, 16] inb).toLoadRect f (ix2 u l)
      = v.read Val f ((Rect.unit (s := ⟨2, ![n0, n1]⟩) off ![1, 16] inb).emb (ix2 u l)) := rfl
  rw [hx]
  exact congrArg _ (unit_emb_ix2 (n0 := n0) (n1 := n1) (m0 := 1) (m1 := 16) off inb u l i j (by omega) hj)

/-- The lane offset of window `r` of a word that is 0 or 64: `w + 16 r`, at most 112. -/
theorem window_lane (w : BitVec 32) (hw : Cert.ChkCore.IsOff w) (r : Fin 4) :
    (Scalar.indexCast (Scalar.addi w (BitVec.ofNat 32 (16 * r.val)))).toNat = w.toNat + 16 * r.val
      ∧ w.toNat + 16 * r.val + 16 ≤ 128 := by
  have h := Cert.ChkCore.window_off w hw r
  have hr := r.isLt
  have hw' := hw.toNat_le
  exact ⟨h, by omega⟩

end SelCore

section SelValue

open Idealize.ShloMosaic.ValueIdx Cert.Spec Cert.ChkCore

/-! ## The offset word of a batch position -/

/-- The offsets at which the stage loads group `q` of the 16-word groups of the index slot. -/
def selOffI (k : Fin k1_t1_loop.trips) (q : Fin 8) : Fin 2 → Nat :=
  match q with
  | ⟨0, _⟩ => k1_off33 k
  | ⟨1, _⟩ => k1_off82 k
  | ⟨2, _⟩ => k1_off131 k
  | ⟨3, _⟩ => k1_off180 k
  | ⟨4, _⟩ => k1_off229 k
  | ⟨5, _⟩ => k1_off278 k
  | ⟨6, _⟩ => k1_off327 k
  | ⟨7, _⟩ => k1_off376 k

theorem selOffI_inb (k : Fin k1_t1_loop.trips) (h3 : k1_cond3 k = 1#1) (q : Fin 8) :
    ∀ a, selOffI k q a + S1x16.size a ≤ S10x128.size a :=
  match q with
  | ⟨0, _⟩ => k1_off33_inb k h3
  | ⟨1, _⟩ => k1_off82_inb k h3
  | ⟨2, _⟩ => k1_off131_inb k h3
  | ⟨3, _⟩ => k1_off180_inb k h3
  | ⟨4, _⟩ => k1_off229_inb k h3
  | ⟨5, _⟩ => k1_off278_inb k h3
  | ⟨6, _⟩ => k1_off327_inb k h3
  | ⟨7, _⟩ => k1_off376_inb k h3

/-- They are row `(k + 6) % 10` of the index buffer, column `16 q`. -/
theorem selOffI_eq (k : Fin k1_t1_loop.trips) (q : Fin 8) : selOffI k q = ![(k.val + 6) % 10, 16 * q.val] :=
  match q with
  | ⟨0, _⟩ => k1_off33_eq k
  | ⟨1, _⟩ => k1_off82_eq k
  | ⟨2, _⟩ => k1_off131_eq k
  | ⟨3, _⟩ => k1_off180_eq k
  | ⟨4, _⟩ => k1_off229_eq k
  | ⟨5, _⟩ => k1_off278_eq k
  | ⟨6, _⟩ => k1_off327_eq k
  | ⟨7, _⟩ => k1_off376_eq k

/-- A one-lane slice of a 16-lane vector at a lane below 16. -/
theorem slices16 (l : Nat) (hl : l < 16) : S16.Slices ![l] S1 :=
  ⟨rfl, fun a => by
    match a with
    | ⟨0, _⟩ =>
      show l + 1 ≤ 16
      omega⟩

/-- The offset word of batch position `b`: lane `b % 16` of the offset vector of group `b / 16`. -/
def selWord (k : Fin k1_t1_loop.trips) (h3 : k1_cond3 k = 1#1) (fiu : (A5).view.ty.Contents (Elt F)) (b : Fin 128) : BitVec 32 :=
  extractAt ![0]
    (extractStridedSlice S1 ![b.val % 16]
      (Cert.LanePay.offVec (idxLoad (selOffI k ⟨b.val / 16, by omega⟩) (selOffI_inb k h3 ⟨b.val / 16, by omega⟩) fiu))
      (slices16 (b.val % 16) (Nat.mod_lt _ (by decide))))
    inpos_S1_p0

/-- It is 0 or 64, whatever the index words are. -/
theorem isOff_selWord (k : Fin k1_t1_loop.trips) (h3 : k1_cond3 k = 1#1) (fiu : (A5).view.ty.Contents (Elt F)) (b : Fin 128) :
    IsOff (selWord k h3 fiu b) :=
  isOff_extract _ (fun l => isOff_offLane _ l) _ _ _ _

/-! ## The 512 stores -/

/-- The window of the gathered block that store `(b, r)` loads: row `b`, 16 lanes from `w + 16 r`. -/
def selOffR (b r : Nat) (w : BitVec 32) : Fin 2 → Nat :=
  ![b, (Scalar.indexCast (Scalar.addi w (BitVec.ofNat 32 (16 * r)))).toNat]

theorem selOffR_inb (b : Fin 128) (r : Fin 4) (w : BitVec 32) (hw : IsOff w) :
    ∀ a, selOffR b.val r.val w a + S1x16.size a ≤ S128x128.size a :=
  fun a => window_inb b.val b.isLt w hw r a

/-- The 16 lanes of the slot that store `(b, r)` writes. -/
theorem selRect_inb (b : Fin 128) (r : Fin 4) :
    ∀ a, (![b.val, 16 * r.val] : Fin 2 → Nat) a + S1x16.size a ≤ S128x64.size a := fun a => by
  have hb := b.isLt
  have hr := r.isLt
  match a with
  | ⟨0, _⟩ =>
    show b.val + 1 ≤ 128
    omega
  | ⟨1, _⟩ =>
    show 16 * r.val + 16 ≤ 64
    omega

/-- The lanes store `(b, r)` loads. -/
def selLoad (k : Fin k1_t1_loop.trips) (h3 : k1_cond3 k = 1#1) (cg1 : (rowsP27 k h3).view.ty.Contents (Elt F))
    (fiu : (A5).view.ty.Contents (Elt F)) (b : Fin 128) (r : Fin 4) : FVec F S1x16 .f32 :=
  View.readAt (Elt F) (rowsP27 k h3).view
    (Rect.unit (s := S128x128) (selOffR b.val r.val (selWord k h3 fiu b)) S1x16.size
      (selOffR_inb b r _ (isOff_selWord k h3 fiu b))).toLoadRect cg1

/-- Store `(b, r)`. -/
def selPiece (k : Fin k1_t1_loop.trips) (h3 : k1_cond3 k = 1#1) (cg1 : (rowsP27 k h3).view.ty.Contents (Elt F))
    (fiu : (A5).view.ty.Contents (Elt F)) (b : Fin 128) (r : Fin 4) : View.Piece (Elt F) S128x64 .f32 :=
  ⟨Rect.unit (s := S128x64) ![b.val, 16 * r.val] S1x16.size (selRect_inb b r),
   shapeCast S1x16 (shapeCast S16 (selLoad k h3 cg1 fiu b r) shapeCasts_S1x16_S16) shapeCasts_S16_S1x16⟩

/-- The 512 stores, the last first: batch positions 127 down to 0, windows 3 down to 0. -/
def selList (k : Fin k1_t1_loop.trips) (h3 : k1_cond3 k = 1#1) (cg1 : (rowsP27 k h3).view.ty.Contents (Elt F))
    (fiu : (A5).view.ty.Contents (Elt F)) : List (View.Piece (Elt F) S128x64 .f32) :=
  (List.finRange 128).reverse.flatMap fun b =>
    [selPiece k h3 cg1 fiu b 3, selPiece k h3 cg1 fiu b 2, selPiece k h3 cg1 fiu b 1, selPiece k h3 cg1 fiu b 0]

/-- The slot of selected rows after the 512 stores, over prior contents `cw2`. -/
def selAfter (k : Fin k1_t1_loop.trips) (h3 : k1_cond3 k = 1#1) (cw2 : (selP423 k h3).view.ty.Contents (Elt F))
    (cg1 : (rowsP27 k h3).view.ty.Contents (Elt F)) (fiu : (A5).view.ty.Contents (Elt F)) :
    (selP423 k h3).view.ty.Contents (Elt F) :=
  (selP423 k h3).view.writes (Elt F) cw2 (selList k h3 cg1 fiu)

/-! ## Reading the slot back -/

/-- Entry `(b, c)` of the gathered block shifted by the position's offset word. -/
def selOf (k : Fin k1_t1_loop.trips) (h3 : k1_cond3 k = 1#1) (cg1 : (rowsP27 k h3).view.ty.Contents (Elt F))
    (fiu : (A5).view.ty.Contents (Elt F)) : S128x64.Idx → Elt F .f32 :=
  fun y => (rowsP27 k h3).view.read (Elt F) cg1
    (ix2 (n0 := 128) (n1 := 128) (y 0) ⟨(selWord k h3 fiu (y 0)).toNat + (y 1).val, by
      have h1 := (isOff_selWord k h3 fiu (y 0)).toNat_le
      have h2 : (y 1).val < 64 := (y 1).isLt
      omega⟩)

/-- Store `(b, r)` agrees with `selOf`. -/
theorem selPiece_ok (k : Fin k1_t1_loop.trips) (h3 : k1_cond3 k = 1#1) (cg1 : (rowsP27 k h3).view.ty.Contents (Elt F))
    (fiu : (A5).view.ty.Contents (Elt F)) (b : Fin 128) (r : Fin 4) (u : Fin 1) (l : Fin 16) :
    (selPiece k h3 cg1 fiu b r).2 (ix2 u l) = selOf k h3 cg1 fiu ((selPiece k h3 cg1 fiu b r).1.emb (ix2 u l)) := by
  have hw := isOff_selWord k h3 fiu b
  have hoff := window_off (selWord k h3 fiu b) hw r
  have hle := hw.toNat_le
  have hr := r.isLt
  have hl := l.isLt
  have hemb : (Rect.unit (s := S128x64) ![b.val, 16 * r.val] S1x16.size (selRect_inb b r)).emb (ix2 u l)
      = ix2 (n0 := 128) (n1 := 64) b ⟨16 * r.val + l.val, by omega⟩ :=
    unit_emb_ix2 (n0 := 128) (n1 := 64) (m0 := 1) (m1 := 16) ![b.val, 16 * r.val] (selRect_inb b r) u l b _
      (by have hu : u.val = 0 := by omega
          show b.val = b.val + u.val; omega) rfl
  have hload : selLoad k h3 cg1 fiu b r (ix2 u l)
      = (rowsP27 k h3).view.read (Elt F) cg1
          (ix2 (n0 := 128) (n1 := 128) b ⟨(selWord k h3 fiu b).toNat + (16 * r.val + l.val), by omega⟩) :=
    readAt_unit_row (rowsP27 k h3).view cg1 (selOffR b.val r.val (selWord k h3 fiu b))
      (selOffR_inb b r _ hw) u l b _ rfl (by
        show (selWord k h3 fiu b).toNat + (16 * r.val + l.val)
          = (Scalar.indexCast (Scalar.addi (selWord k h3 fiu b) (BitVec.ofNat 32 (16 * r.val)))).toNat + l.val
        rw [hoff]; omega)
  show shapeCast S1x16 (shapeCast S16 (selLoad k h3 cg1 fiu b r) shapeCasts_S1x16_S16) shapeCasts_S16_S1x16 (ix2 u l)
    = selOf k h3 cg1 fiu ((Rect.unit (s := S128x64) ![b.val, 16 * r.val] S1x16.size (selRect_inb b r)).emb (ix2 u l))
  rw [Cert.LanePayload.rowToVecToRow, hload, hemb]
  rfl

/-- Every store agrees with `selOf`. -/
theorem selList_ok (k : Fin k1_t1_loop.trips) (h3 : k1_cond3 k = 1#1) (cg1 : (rowsP27 k h3).view.ty.Contents (Elt F))
    (fiu : (A5).view.ty.Contents (Elt F)) :
    ∀ p ∈ selList k h3 cg1 fiu, ∀ x : p.1.shape.Idx, p.2 x = selOf k h3 cg1 fiu (p.1.emb x) := by
  intro p hp
  obtain ⟨b, -, hp4⟩ := List.mem_flatMap.1 hp
  simp only [List.mem_cons, List.not_mem_nil, or_false] at hp4
  rcases hp4 with rfl | rfl | rfl | rfl
  · exact forall_idx_1x16 (fun u l => selPiece_ok k h3 cg1 fiu b 3 u l)
  · exact forall_idx_1x16 (fun u l => selPiece_ok k h3 cg1 fiu b 2 u l)
  · exact forall_idx_1x16 (fun u l => selPiece_ok k h3 cg1 fiu b 1 u l)
  · exact forall_idx_1x16 (fun u l => selPiece_ok k h3 cg1 fiu b 0 u l)

/-- The stores cover the slot. -/
theorem selList_cover (k : Fin k1_t1_loop.trips) (h3 : k1_cond3 k = 1#1) (cg1 : (rowsP27 k h3).view.ty.Contents (Elt F))
    (fiu : (A5).view.ty.Contents (Elt F)) (b : Fin 128) (c : Fin 64) :
    ∃ p ∈ selList k h3 cg1 fiu, ix2 (n0 := 128) (n1 := 64) b c ∈ p.1.set := by
  have hc := c.isLt
  have hmem : ∀ r : Fin 4, selPiece k h3 cg1 fiu b r ∈ selList k h3 cg1 fiu := fun r =>
    List.mem_flatMap.2 ⟨b, List.mem_reverse.2 (List.mem_finRange b), by
      match r with
      | ⟨0, _⟩ => exact List.mem_cons_of_mem _ (List.mem_cons_of_mem _ (List.mem_cons_of_mem _ List.mem_cons_self))
      | ⟨1, _⟩ => exact List.mem_cons_of_mem _ (List.mem_cons_of_mem _ List.mem_cons_self)
      | ⟨2, _⟩ => exact List.mem_cons_of_mem _ List.mem_cons_self
      | ⟨3, _⟩ => exact List.mem_cons_self⟩
  refine ⟨selPiece k h3 cg1 fiu b ⟨c.val / 16, by omega⟩, hmem _, ?_⟩
  show ix2 (n0 := 128) (n1 := 64) b c ∈ (Rect.unit (s := S128x64) ![b.val, 16 * (c.val / 16)] S1x16.size
    (selRect_inb b ⟨c.val / 16, by omega⟩)).set
  rw [Rect.mem_set_unit]
  intro a
  match a with
  | ⟨0, _⟩ =>
    show b.val ≤ b.val ∧ b.val < b.val + 1
    omega
  | ⟨1, _⟩ =>
    show 16 * (c.val / 16) ≤ c.val ∧ c.val < 16 * (c.val / 16) + 16
    omega

/-- After the 512 stores, entry `(b, c)` of the slot is entry `(b, word_b + c)` of the gathered block. -/
theorem sel_entry (k : Fin k1_t1_loop.trips) (h3 : k1_cond3 k = 1#1) (cw2 : (selP423 k h3).view.ty.Contents (Elt F))
    (cg1 : (rowsP27 k h3).view.ty.Contents (Elt F)) (fiu : (A5).view.ty.Contents (Elt F)) (b : Fin 128) (c : Fin 64) :
    (selP423 k h3).view.read (Elt F) (selAfter k h3 cw2 cg1 fiu) (ix2 (n0 := 128) (n1 := 64) b c)
      = selOf k h3 cg1 fiu (ix2 (n0 := 128) (n1 := 64) b c) :=
  View.read_writes_apply_of_pieces (selP423 k h3).view cw2 (selOf k h3 cg1 fiu) (selList k h3 cg1 fiu)
    (selList_ok k h3 cg1 fiu) _ (selList_cover k h3 cg1 fiu b c)

/-! ## The offset word as a column offset -/

/-- The index word of batch position `b`: entry `b` of row `(k + 6) % 10` of the index buffer. -/
def selIdxWord (k : Fin k1_t1_loop.trips) (fiu : (A5).view.ty.Contents (Elt F)) (b : Fin 128) : BitVec 32 :=
  (A5).view.read (Elt F) fiu (ix2 (n0 := 10) (n1 := 128) ⟨(k.val + 6) % 10, Nat.mod_lt _ (by decide)⟩ b)

/-- When the index word is at most 999999, the offset word is its column offset. -/
theorem selWord_eq (k : Fin k1_t1_loop.trips) (h3 : k1_cond3 k = 1#1) (fiu : (A5).view.ty.Contents (Elt F)) (b : Fin 128)
    (h : (selIdxWord k fiu b).toNat ≤ 999999) :
    selWord k h3 fiu b = BitVec.ofNat 32 (packOff (selIdxWord k fiu b).toNat) := by
  have hb := b.isLt
  have e := selOffI_eq k ⟨b.val / 16, by omega⟩
  have hv : idxLoad (selOffI k ⟨b.val / 16, by omega⟩) (selOffI_inb k h3 ⟨b.val / 16, by omega⟩) fiu
        (ix2 (0 : Fin 1) (⟨b.val % 16, Nat.mod_lt _ (by decide)⟩ : Fin 16)) = selIdxWord k fiu b :=
    idxLoad_apply _ _ fiu 0 _ _ _ (by rw [e]; rfl) (by
      rw [e]
      show b.val = 16 * (b.val / 16) + b.val % 16
      omega)
  have := Cert.LanePay.laneWord_eq
    (idxLoad (selOffI k ⟨b.val / 16, by omega⟩) (selOffI_inb k h3 ⟨b.val / 16, by omega⟩) fiu) _ rfl
    (b.val % 16) (Nat.mod_lt _ (by decide)) (slices16 (b.val % 16) (Nat.mod_lt _ (by decide))) inpos_S1_p0
    (by rw [hv]; exact h)
  rw [hv] at this
  exact this

/-- The same as a number. -/
theorem selWord_toNat (k : Fin k1_t1_loop.trips) (h3 : k1_cond3 k = 1#1) (fiu : (A5).view.ty.Contents (Elt F)) (b : Fin 128)
    (h : (selIdxWord k fiu b).toNat ≤ 999999) :
    (selWord k h3 fiu b).toNat = packOff (selIdxWord k fiu b).toNat := by
  rw [selWord_eq k h3 fiu b h, BitVec.toNat_ofNat, Nat.mod_eq_of_lt (Cert.BitLayout.packOff_lt_word _)]

end SelValue

end Cert.Proof.KBody
end
-- ==== Proof.KBodyValueLemmas.lean ====
/-
  The value of the select stage, as pure facts about the pack layout.

  A chunk's gathered block holds, for each of its 128 index words `w`, packed row `packRow w` of the packed table; the
  select stage keeps the 64 columns from `packOff w` on. Where the packed table holds the table in the pack layout and
  the word names a table row, those 64 entries are row `w` of the table: the chunk of the transposed lookup.
-/
import proofs.«206325_g16862041604593_cont_week2b_1534_42_alg».proof.Proof.Spec

namespace Cert.Spec

open Idealize.ShloMosaic Idealize.ShloMosaic.ValueIdx

/-- For an index word in range, the table row it names is the word's value. -/
theorem rowOf_eq {w : BitVec 32} (h : w.toNat ≤ 999999) : rowOf w = ⟨w.toNat, by omega⟩ :=
  Fin.ext (rowOf_val_of_le h)

/-- Through a packed table in the pack layout, the 64 entries the select stage keeps for an index word in range are
    the table row the word names. -/
theorem select_value {E : Type} {tab : ST.Idx → E} {tp : SP.Idx → E} (hp : PackOK tab tp) (w : BitVec 32) (hw : w.toNat ≤ 999999)
    (c : Fin 64) :
    tp (ix2 ⟨packRow w.toNat, packRow_lt (by omega)⟩ ⟨packOff w.toNat + c.val, by have := packOff_le w.toNat; omega⟩)
      = tab (ix2 (rowOf w) c) := by
  rw [hp.read w.toNat (by omega) c, rowOf_eq hw]

/-- Chunk `g`'s index word number `b`: the index at batch position `128 (g % 128) + b`, history position `g / 128`. -/
def chunkWord (x : SX.Idx → BitVec 32) (g : Nat) (hg : g < 6400) (b : Fin 128) : BitVec 32 :=
  x (ix2 ⟨128 * (g % 128) + b.val, by omega⟩ ⟨g / 128, by omega⟩)

/-- What the select stage leaves for chunk `g`, entry `(b, c)`, is the transposed lookup at history position `g / 128`,
    batch position `128 (g % 128) + b`, column `c`. -/
theorem select_lookupT {E : Type} (x : SX.Idx → BitVec 32) (hx : ∀ j, (x j).toNat ≤ 999999) {tab : ST.Idx → E} {tp : SP.Idx → E}
    (hp : PackOK tab tp) (g : Nat) (hg : g < 6400) (b : Fin 128) (c : Fin 64) :
    tp (ix2 ⟨packRow (chunkWord x g hg b).toNat, packRow_lt (by have := hx (ix2 ⟨128 * (g % 128) + b.val, by omega⟩ ⟨g / 128, by omega⟩); unfold chunkWord; omega)⟩
        ⟨packOff (chunkWord x g hg b).toNat + c.val, by have := packOff_le (chunkWord x g hg b).toNat; omega⟩)
      = lookupT x tab (ix3 ⟨g / 128, by omega⟩ ⟨128 * (g % 128) + b.val, by omega⟩ c) :=
  select_value hp (chunkWord x g hg b) (hx _) c

/-- An entry of the output lies in chunk `g` exactly when it is `(g / 128, 128 (g % 128) + b, c)` for some `b`, `c`. -/
theorem mem_chunkSet_iff (g : Nat) (i : SOT.Idx) :
    i ∈ chunkSet g ↔ (i 0).val = g / 128 ∧ (i 1).val / 128 = g % 128 := by
  unfold chunkSet; simp only [Finset.mem_filter, Finset.mem_univ, true_and]

end Cert.Spec
-- ==== Proof.KBodySelIs.lean ====
/-
  The select stage's contents: after its 512 stores the slot of selected rows holds, for each index word of the
  chunk, the table row the word names.

  Entry `(b, c)` of the slot is entry `(b, off_b + c)` of the gathered block, `off_b` the offset word of batch position
  `b`; for a word `w` at most 999999 that offset is `packOff w`; the gathered block's row `b` is packed row
  `packRow w` of the packed table; and in the pack layout the 64 entries of that packed row from `packOff w` on are
  table row `w`.
-/
import proofs.«206325_g16862041604593_cont_week2b_1534_42_alg».proof.Proof.KBodySelValue
import proofs.«206325_g16862041604593_cont_week2b_1534_42_alg».proof.Proof.KBodyContentRows
import proofs.«206325_g16862041604593_cont_week2b_1534_42_alg».proof.Proof.KBodyValueRegion
import proofs.«206325_g16862041604593_cont_week2b_1534_42_alg».proof.Proof.KBodyValueLemmas
import proofs.«206325_g16862041604593_cont_week2b_1534_42_alg».proof.Proof.PackValue

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A5" => (Memref.whole Cert.KernelIdeal.cc1_scratch0 : Memref Cert.KernelIdeal.sig Kind.scVector Space.vmem Cert.KernelIdeal.S10x128 EltTy.i32)

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

variable [FloatOps F]

section SelIdx

open Idealize.ShloMosaic.ValueIdx Cert.Spec

/-- What index slot `j` reads is row `j % 10` of the whole index buffer. -/
theorem idxC_read (j : Nat) (g : (A5).view.ty.Contents (Elt F)) (x : S128.Idx) :
    (idxC j).view.read (Elt F) g x
      = (A5).view.read (Elt F) g (ix2 (n0 := 10) (n1 := 128) ⟨j % 10, Nat.mod_lt _ (by decide)⟩ (x 0)) := by
  have hx : (idxC j).view.read (Elt F) g x
      = (A5).view.read (Elt F) g ((idxR j).emb
          (Shape.reshapeEquiv (s := S1x128) (s' := S128) squeezes_S1x128_S128.numel_eq x)) := rfl
  rw [hx, squeeze_idx]
  exact congrArg _ (unit_emb_ix2 (n0 := 10) (n1 := 128) (m0 := 1) (m1 := 128) ![j % 10, 0] (inb_idx j) 0 (x 0)
    ⟨j % 10, Nat.mod_lt _ (by decide)⟩ (x 0) (by show j % 10 = j % 10 + 0; omega)
    (by show (x 0).val = 0 + (x 0).val; omega))

/-- The index word of batch position `b` is entry `b` of index slot `k + 6`. -/
theorem selIdxWord_eq (k : Fin k1_t1_loop.trips) (fiu : (A5).view.ty.Contents (Elt F)) (b : Fin 128) :
    selIdxWord k fiu b = (idxC (k.val + 6)).view.read (Elt F) fiu (ix1 b) :=
  (idxC_read (k.val + 6) fiu (ix1 b)).symm

/-- After the 512 stores, entry `(b, c)` of the slot of selected rows is entry `(b, packOff w_b + c)` of the gathered
    block, `w_b` the index word at entry `b` of index slot `k + 6`, when that word is at most 999999. -/
theorem sel_entry_packOff (k : Fin k1_t1_loop.trips) (h3 : k1_cond3 k = 1#1) (cw2 : (selP423 k h3).view.ty.Contents (Elt F))
    (cg1 : (rowsP27 k h3).view.ty.Contents (Elt F)) (fiu : (A5).view.ty.Contents (Elt F)) (b : Fin 128) (c : Fin 64)
    (h : ((idxC (k.val + 6)).view.read (Elt F) fiu (ix1 b)).toNat ≤ 999999) :
    (selP423 k h3).view.read (Elt F) (selAfter k h3 cw2 cg1 fiu) (ix2 (n0 := 128) (n1 := 64) b c)
      = (rowsP27 k h3).view.read (Elt F) cg1 (ix2 (n0 := 128) (n1 := 128) b
          ⟨packOff ((idxC (k.val + 6)).view.read (Elt F) fiu (ix1 b)).toNat + c.val, by
            have := packOff_le ((idxC (k.val + 6)).view.read (Elt F) fiu (ix1 b)).toNat
            have := c.isLt
            omega⟩) := by
  have hw : (selIdxWord k fiu b).toNat ≤ 999999 := by rw [selIdxWord_eq]; exact h
  have e := selWord_toNat k h3 fiu b hw
  rw [selIdxWord_eq] at e
  rw [sel_entry]
  show (rowsP27 k h3).view.read (Elt F) cg1 (ix2 (n0 := 128) (n1 := 128) b ⟨(selWord k h3 fiu b).toNat + c.val, _⟩) = _
  exact congrArg _ (Cert.PackValue.ix2_congr rfl (by show (selWord k h3 fiu b).toNat + c.val = _; rw [e]))

end SelIdx

section SelIs

open Idealize.ShloMosaic.ValueIdx Cert.Spec

/-! ## One slot under two spellings reads the same -/

theorem sel_read_congr {off off' : Fin 3 → Nat} (h : off = off')
    (inb : ∀ a, off a + S1x128x64.size a ≤ S2x128x64.size a) (inb' : ∀ a, off' a + S1x128x64.size a ≤ S2x128x64.size a)
    (g : (A8).view.ty.Contents (Elt F)) (x : S128x64.Idx) :
    (((A8).slice (Rect.unit (s := S2x128x64) off S1x128x64.size inb) (fun _ => rfl)).squeeze S128x64 squeezes_S1x128x64_S128x64).view.read (Elt F) g x
      = (((A8).slice (Rect.unit (s := S2x128x64) off' S1x128x64.size inb') (fun _ => rfl)).squeeze S128x64 squeezes_S1x128x64_S128x64).view.read (Elt F) g x := by
  subst h; rfl

/-- The trip's own spelling of the slot of selected rows reads as slot `k`; slots two apart are one slot. -/
theorem selP423_read (k : Fin k1_t1_loop.trips) (h3 : k1_cond3 k = 1#1) (g : (A8).view.ty.Contents (Elt F)) (x : S128x64.Idx) :
    (selP423 k h3).view.read (Elt F) g x = (selC k.val).view.read (Elt F) g x :=
  sel_read_congr (k1_off423_eq k) _ _ g x
theorem selC_read {a b : Nat} (h : a % 2 = b % 2) (g : (A8).view.ty.Contents (Elt F)) (x : S128x64.Idx) :
    (selC a).view.read (Elt F) g x = (selC b).view.read (Elt F) g x :=
  sel_read_congr (by rw [h]) _ _ g x
/-- The same for the slot of gathered rows (five slots) and the index slots (ten). -/
theorem rowsP27_read (k : Fin k1_t1_loop.trips) (h3 : k1_cond3 k = 1#1) (g : (A7).view.ty.Contents (Elt F)) (x : S128x128.Idx) :
    (rowsP27 k h3).view.read (Elt F) g x = (rowsC (k.val + 1)).view.read (Elt F) g x :=
  rows_read_congr (k1_off27_eq k) _ _ g x
theorem rowsC_read {a b : Nat} (h : a % 5 = b % 5) (g : (A7).view.ty.Contents (Elt F)) (x : S128x128.Idx) :
    (rowsC a).view.read (Elt F) g x = (rowsC b).view.read (Elt F) g x :=
  rows_read_congr (by rw [h]) _ _ g x
theorem idxC_read_congr {a b : Nat} (h : a % 10 = b % 10) (g : (A5).view.ty.Contents (Elt F)) (x : S128.Idx) :
    (idxC a).view.read (Elt F) g x = (idxC b).view.read (Elt F) g x :=
  idx_read_congr (by rw [h]) _ _ g x

/-! ## The selected rows are the table rows the words name -/

variable (d : Dev nD) (L : grid1.Coords)
variable (tp : Buf (Elt F) ((A2).view.loc (V d (cV L) (jV L)))) (xt : Buf (Elt F) ((A3).view.loc (V d (cV L) (jV L))))
variable (tab : FVec F S1000000x64 .f32)

/-- (The hypothesis on index slot `k + 6` is written out: "entry `b` of the slot is word `b` of chunk `k - 4`".)
    At a trip `k ≥ 4`: if the gathered block holds, for each word of chunk `k - 4`, the packed row the word names,
    index slot `k + 6` holds the chunk's words, the packed table is in the pack layout and the words are at most 999999,
    then after the 512 stores the slot of selected rows holds, for each word, the table row it names. -/
theorem selIs_selected (k : Fin k1_t1_loop.trips) (h3 : k1_cond3 k = 1#1) (hk : 4 ≤ k.val)
    (cw2 : (selP423 k h3).view.ty.Contents (Elt F)) (cg1 : (rowsP27 k h3).view.ty.Contents (Elt F))
    (fiu : (A5).view.ty.Contents (Elt F))
    (hR : RowsIs d L tp xt (k.val - 4) cg1) (hI : ∀ b : S128.Idx, (idxC (k.val + 6)).view.read (Elt F) fiu b = chunkWordOf d L xt (k.val - 4) (b 0).val) (hpack : Cert.Spec.PackOK tab tp)
    (hok : ∀ b : Fin 128, (chunkWordOf d L xt (k.val - 4) b.val).toNat ≤ 999999) :
    SelIs d L xt tab (k.val - 4) (selAfter k h3 cw2 cg1 fiu) := by
  intro b c
  have hw : selIdxWord k fiu b = chunkWordOf d L xt (k.val - 4) b.val := by
    rw [selIdxWord_eq]
    exact hI (ix1 b)
  have hwb := hok b
  have hoff : (selWord k h3 fiu b).toNat = packOff (chunkWordOf d L xt (k.val - 4) b.val).toNat := by
    rw [selWord_toNat k h3 fiu b (by rw [hw]; exact hwb), hw]
  have hr : packRow (chunkWordOf d L xt (k.val - 4) b.val).toNat < 507904 := packRow_lt (by omega)
  have hpo := packOff_le (chunkWordOf d L xt (k.val - 4) b.val).toNat
  have hc := c.isLt
  rw [selC_read (a := k.val - 4) (b := k.val) (by omega), ← selP423_read k h3, sel_entry]
  show (rowsP27 k h3).view.read (Elt F) cg1
    (ix2 (n0 := 128) (n1 := 128) b ⟨(selWord k h3 fiu b).toNat + c.val, _⟩) = _
  rw [rowsP27_read, rowsC_read (a := k.val + 1) (b := k.val - 4) (by omega)]
  have e : ix2 (n0 := 128) (n1 := 128) b (⟨(selWord k h3 fiu b).toNat + c.val, by omega⟩ : Fin 128)
      = ix2 (n0 := 128) (n1 := 128) b (⟨packOff (chunkWordOf d L xt (k.val - 4) b.val).toNat + c.val, by omega⟩ : Fin 128) :=
    Cert.PackValue.ix2_congr rfl (by show (selWord k h3 fiu b).toNat + c.val = _; rw [hoff])
  rw [e, hR b _ hr]
  exact Cert.Spec.select_value hpack _ hwb c

/-- The same with the bound on the words given as the bound on what index slot `k + 6` holds. -/
theorem selIs_selected_of_ok (k : Fin k1_t1_loop.trips) (h3 : k1_cond3 k = 1#1) (hk : 4 ≤ k.val)
    (cw2 : (selP423 k h3).view.ty.Contents (Elt F)) (cg1 : (rowsP27 k h3).view.ty.Contents (Elt F))
    (fiu : (A5).view.ty.Contents (Elt F))
    (hR : RowsIs d L tp xt (k.val - 4) cg1) (hI : ∀ b : S128.Idx, (idxC (k.val + 6)).view.read (Elt F) fiu b = chunkWordOf d L xt (k.val - 4) (b 0).val)
    (hok : IdxOK d L (k.val + 6) fiu) (hpack : Cert.Spec.PackOK tab tp) :
    SelIs d L xt tab (k.val - 4) (selAfter k h3 cw2 cg1 fiu) :=
  selIs_selected d L tp xt tab k h3 hk cw2 cg1 fiu hR hI hpack (fun b => by
    have h := hok (ix1 b)
    rw [hI (ix1 b)] at h
    exact h)

/-- The same from what the loaded index slot `k + 6` is known to hold: its bound and its words together. -/
theorem selIs_of_loaded (k : Fin k1_t1_loop.trips) (h3 : k1_cond3 k = 1#1) (hk : 4 ≤ k.val)
    (cw2 : (selP423 k h3).view.ty.Contents (Elt F)) (cg1 : (rowsP27 k h3).view.ty.Contents (Elt F))
    (fiu : (A5).view.ty.Contents (Elt F))
    (hR : RowsIs d L tp xt (k.val - 4) cg1)
    (hfiu : IdxOK d L (k.val + 6) fiu ∧ (∀ b : S128.Idx, (idxC (k.val + 6)).view.read (Elt F) fiu b = chunkWordOf d L xt (k.val - 4) (b 0).val))
    (hpack : Cert.Spec.PackOK tab tp) :
    SelIs d L xt tab (k.val - 4) (selAfter k h3 cw2 cg1 fiu) :=
  selIs_selected_of_ok d L tp xt tab k h3 hk cw2 cg1 fiu hR hfiu.2 hfiu.1 hpack

end SelIs

end Cert.Proof.KBody
end
-- ==== Proof.KBodyPhaseB.lean ====
/-
  Trips four and five of a subcore's loop, `4 ≤ k < 6`.

  The first stage runs as in every trip that fetches: the trip waits for its own chunk of index words, rewrites the
  list of packed-row numbers, issues the gather of those rows and the copy of the index chunk five ahead. The
  gather issued four trips before has been issued, so the second stage runs too: it waits for that gather, selects
  from each gathered row the 64 lanes its index word names, and issues the write-back of the selected rows. No
  write-back was issued two trips before, so there is none to wait for: the slot of selected rows is still free.
-/
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyRegion
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-- The slot of selected rows of chunk `k - 4`, not awaited, under the names the trip's own write-back uses. -/
theorem WFree_open (d : Dev nD) (L : grid1.Coords) (k : Fin k1_t1_loop.trips) (h3 : k1_cond3 k = 1#1) (hk : 4 ≤ k.val) :
    WFree (UU := UU) d L (k.val - 4) ⊢ (iprop(semVal ((V d (cV L) (jV L)), SemLoc.dma (wsemP426 k h3)) 0
      ∗ ∃ f, ((selP423 k h3).view.loc (V d (cV L) (jV L)) ↦[(selP423 k h3).view.set]{fullShare} f)) : sProp 𝕄) := by
  rw [selP423_eq k h3, wsemP426_eq k h3, selC_congr (a := k.val) (b := k.val - 4) (by omega),
    wsemC_congr (a := k.val) (b := k.val - 4) (by omega)]
  unfold WFree
  exact BI.Entails.refl _

set_option maxHeartbeats 40000000 in
set_option maxRecDepth 65536 in
/-- Trips four and five, `4 ≤ k < 6`: both stages, no write-back to wait for. -/
theorem phaseB_holds (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (O : CellTallies nD τ sig (HIx 1)) (W : Waits sig (HIx 1)) (v2 : BitVec 32)
    (hxt : ∀ j, (xt j).toNat ≤ 999999) :
    PhaseB (UU := UU) d L q q' tp xt fo O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk4 hk6
  have h1 : k1_cond1 k = 1#1 := (k1_cond1_iff k).2 (by omega)
  have h2 : k1_cond2 k = 1#1 := (k1_cond2_iff k).2 (by omega)
  have h3 : k1_cond3 k = 1#1 := (k1_cond3_iff k).2 (by omega)
  have h4 : ¬ k1_cond4 k = 1#1 := fun h => by have := (k1_cond4_iff k).1 h; omega
  unfold k1_t1_body
  iintro ⟨#Hmw, HOW, HI, HIF, HX, HGF, HG, HWF, HOI, HIF6⟩
  ihave HI' := (IFl_open d L q' xt k h1) $$ HI
  icases HI' with ⟨%ci, %hci, HflI⟩
  ihave HIF' := (IFree_open d L k h1 h2) $$ HIF
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  ihave HG' := (GFl_open d L q tp k h3 (by omega)) $$ HG
  icases HG' with ⟨%cg1, %cg2, HflG⟩
  ihave HWF' := (WFree_open d L k h3 hk4) $$ HWF
  icases HWF' with ⟨HflW, ⟨%cw2, Hsel⟩⟩
  ihave Hout := (OutInit_open d L fo k h3 (by omega)) $$ HOI
  ihave HIF6' := (IFree_read d L k).1 $$ HIF6
  icases HIF6' with ⟨Hsem6, ⟨%fiu, Hidxu⟩⟩
  unfold Owes
  icases HOW with ⟨%W', %hW', HO⟩
  -- the wait for the index words and the eight stores, up to the gather's issue; the list's words name packed rows
  sl_exec_parts (disch := chk_disch)
  have hin := hin_of_idx d L k h1 ci fh hci
  -- the gather, the copy of the index chunk five ahead, the wait for the gather issued four trips before
  sl_exec_parts (disch := chk_disch)
  icases HflG_dst with ⟨HGr, HGh⟩
  -- the selection of 64 lanes from each gathered row, and the write-back's issue
  sl_exec_parts (disch := chk_disch)
  sl_step
  icases Htab with -
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    · exact hW' p hp
  isplitl [HflI HflI_dst]
  · iapply (IFree_close d L k h1)
    isplitl [HflI]; · iexact HflI
    iexists _; iexact HflI_dst
  isplitl [HflI_src]
  · iapply (XHome_close d L q' xt k h1); iexact HflI_src
  isplitl [HsemI']
  · iapply (IFl_close d L q' xt k h1 h2 _ (by exact landed_ok L k h1 h2 xt hxt fi')); iexact HsemI'
  isplitl [HsemG]
  · iapply (GFl_close d L q tp k h1 _ _); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW]
  · iapply (WFl_close d L k h3 (by omega) _ _); iexact HflW
  · iapply (IFree_read d L k).2
    isplitl [Hsem6]; · iexact Hsem6
    iexists _; iexact Hidxu

end Cert.Proof.KBody
end
-- ==== Proof.KBodyPhaseBV.lean ====
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyValuePack
import proofs.«206325_g16862041604593_cont_week2b_1534_42_alg».proof.Proof.KBodyContentIs
import proofs.«206325_g16862041604593_cont_week2b_1534_42_alg».proof.Proof.KBodySelIs
import proofs.«206325_g16862041604593_cont_week2b_1534_42_alg».proof.Proof.KBodyContentRows
import proofs.«206325_g16862041604593_cont_week2b_1534_42_alg».proof.Proof.KBodyHin
import proofs.«206325_g16862041604593_cont_week2b_1534_42_alg».proof.Proof.KBodyPhaseB
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

set_option maxHeartbeats 100000000 in
set_option maxRecDepth 65536 in
/-- Trips four and five, `4 ≤ k < 6`, with contents: what lands is the chunk's words, the rows they name and the table
    rows they select; there is no write-back to wait for. -/
theorem phaseB_holdsV (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (x : IVec S16384x50 32) (tab : FVec F S1000000x64 .f32)
    (O : CellTallies nD τ sig (HIx 1)) (W : Waits sig (HIx 1)) (v2 : BitVec 32)
    (hxtok : ∀ j, (xt j).toNat ≤ 999999)
    (hxt : ∀ (h : Fin 50) (b : Fin 16384), xt (Idealize.ShloMosaic.ValueIdx.ix2 h b) = x (Idealize.ShloMosaic.ValueIdx.ix2 b h))
    (hpack : Cert.Spec.PackOK tab tp) :
    PhaseBV (UU := UU) d L q q' tp xt fo x tab O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk4 hk6
  have h1 : k1_cond1 k = 1#1 := (k1_cond1_iff k).2 (by omega)
  have h2 : k1_cond2 k = 1#1 := (k1_cond2_iff k).2 (by omega)
  have h3 : k1_cond3 k = 1#1 := (k1_cond3_iff k).2 (by omega)
  have h4 : ¬ k1_cond4 k = 1#1 := fun h => by have := (k1_cond4_iff k).1 h; omega
  unfold k1_t1_body
  iintro ⟨#Hmw, HOW, HI, HIF, HX, HGF, HG, HWF, HOI, HIF6⟩
  ihave HI' := (IFlV_open d L q' xt k h1) $$ HI
  icases HI' with ⟨%ci, %hciP, HflI⟩
  obtain ⟨hci, hIs⟩ := hciP
  ihave HIFf := (ILoadedV_free d L xt (k.val + 5)) $$ HIF
  ihave HIF' := (IFree_open d L k h1 h2) $$ HIFf
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  ihave HG' := (GFlV_open d L q tp xt k h3 (by omega)) $$ HG
  icases HG' with ⟨%cg1, %cg2, %hRows4, HflG⟩
  ihave HWF' := (WFree_open d L k h3 hk4) $$ HWF
  icases HWF' with ⟨HflW, ⟨%cw2, Hsel⟩⟩
  ihave Hout := (OutInit_open d L fo k h3 (by omega)) $$ HOI
  ihave HIF6' := (ILoadedV_read d L xt k (by omega)).1 $$ HIF6
  icases HIF6' with ⟨Hsem6, ⟨%fiu, %hfiu, Hidxu⟩⟩
  unfold Owes
  icases HOW with ⟨%W', %hW', HO⟩
  -- the wait for the index words and the eight stores, up to the gather's issue; the list's words name packed rows
  sl_exec_parts (disch := chk_disch)
  have hin := hin_of_idx d L k h1 ci fh hci
  -- the gather, the copy of the index chunk five ahead, the wait for the gather issued four trips before
  sl_exec_parts (disch := chk_disch)
  icases HflG_dst with ⟨HGr, HGh⟩
  -- the selection of 64 lanes from each gathered row, and the write-back's issue
  sl_exec_parts (disch := chk_disch)
  sl_step
  icases Htab with -
  -- the contents: what the wait landed, what the gather will land, what was selected, what the write-back carries
  have hIsP : ∀ b : S128.Idx, (idxP2 k h1).view.read (Elt F) ci b = chunkWordOf d L xt k.val (b 0).val :=
    fun b => (read_congr_memref (idxP2_eq k h1) _ _ HEq.rfl b).trans (hIs b)
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    exact hW' p hp
  isplitl [HflI HflI_dst]
  · iapply (ILoadedV_close d L xt k h1 ci hci hIsP)
    isplitl [HflI]; · iexact HflI
    iexact HflI_dst
  isplitl [HflI_src]
  · iapply (XHome_close d L q' xt k h1); iexact HflI_src
  isplitl [HsemI']
  · iapply (IFlV_close d L q' xt k h1 h2 _ (by exact landed_ok L k h1 h2 xt hxtok fi') (by exact idxIs_landed d L xt k h1 h2 fi')); iexact HsemI'
  isplitl [HsemG]
  · have hRows := rowsIs_gathered d L tp xt k h1 ci fh fr hci hIs (by first | rfl | decide) hin
    iapply (GFlV_close d L q tp xt k h1 _ _ hRows); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW]
  · have hSel := selIs_of_loaded d L tp xt tab k h3 (by omega) cw2 cg1 fiu hRows4 hfiu hpack
    have hOut := outIs_written d L xt x tab k h3 (by omega) fo _ hxt hSel
    iapply (WFlV_close d L x tab k h3 (by omega) _ _ hOut)
    iexact HflW
  · iapply (ILoadedV_read d L xt k (by omega)).2
    isplitl [Hsem6]; · iexact Hsem6
    iexists _
    isplitr; · ipureintro; exact hfiu
    iexact Hidxu

end Cert.Proof.KBody
end
-- ==== Proof.KBodyPhaseCV.lean ====
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyValuePack
import proofs.«206325_g16862041604593_cont_week2b_1534_42_alg».proof.Proof.KBodyContentIs
import proofs.«206325_g16862041604593_cont_week2b_1534_42_alg».proof.Proof.KBodySelIs
import proofs.«206325_g16862041604593_cont_week2b_1534_42_alg».proof.Proof.KBodyContentRows
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

set_option maxHeartbeats 100000000 in
set_option maxRecDepth 65536 in
/-- The steady trips, 6 ≤ k < 195, with contents: what lands is the chunk's words, the rows they name, the table rows
    they select, and the written chunk is the lookup. -/
theorem phaseC_holdsV (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (x : IVec S16384x50 32) (tab : FVec F S1000000x64 .f32)
    (O : CellTallies nD τ sig (HIx 1)) (W : Waits sig (HIx 1)) (v2 : BitVec 32)
    (hxtok : ∀ j, (xt j).toNat ≤ 999999)
    (hxt : ∀ (h : Fin 50) (b : Fin 16384), xt (Idealize.ShloMosaic.ValueIdx.ix2 h b) = x (Idealize.ShloMosaic.ValueIdx.ix2 b h))
    (hpack : Cert.Spec.PackOK tab tp) :
    PhaseCV (UU := UU) d L q q' tp xt fo x tab O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk6 hk195
  have h1 : k1_cond1 k = 1#1 := (k1_cond1_iff k).2 (by omega)
  have h2 : k1_cond2 k = 1#1 := (k1_cond2_iff k).2 (by omega)
  have h3 : k1_cond3 k = 1#1 := (k1_cond3_iff k).2 (by omega)
  have h4 : k1_cond4 k = 1#1 := (k1_cond4_iff k).2 (by omega)
  unfold k1_t1_body
  iintro ⟨#Hmw, HOW, HI, HIF, HX, HGF, HG, HW, HOI, HIF6⟩
  ihave HI' := (IFlV_open d L q' xt k h1) $$ HI
  icases HI' with ⟨%ci, %hciP, HflI⟩
  obtain ⟨hci, hIs⟩ := hciP
  ihave HIFf := (ILoadedV_free d L xt (k.val + 5)) $$ HIF
  ihave HIF' := (IFree_open d L k h1 h2) $$ HIFf
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  ihave HG' := (GFlV_open d L q tp xt k h3 (by omega)) $$ HG
  icases HG' with ⟨%cg1, %cg2, %hRows4, HflG⟩
  ihave HW' := (WFlV_open d L x tab k h3 h4 hk6) $$ HW
  icases HW' with ⟨%cw1, %cw2, %hOut6, HflW⟩
  ihave Hout := (OutInit_open d L fo k h3 (by omega)) $$ HOI
  ihave HIF6' := (ILoadedV_read d L xt k (by omega)).1 $$ HIF6
  icases HIF6' with ⟨Hsem6, ⟨%fiu, %hfiu, Hidxu⟩⟩
  unfold Owes
  icases HOW with ⟨%W', %hW', HO⟩
  -- stage 1 up to the gather's issue; its list's words name packed rows
  sl_exec_parts (disch := chk_disch)
  have hin := hin_of_idx d L k h1 ci fh hci
  -- the gather, the next index copy, the two waits
  sl_exec_parts (disch := chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := chk_disch)
  sl_step
  icases Htab with -
  -- the contents: what the wait landed, what the gather will land, what was selected, what the write-back carries
  have hIsP : ∀ b : S128.Idx, (idxP2 k h1).view.read (Elt F) ci b = chunkWordOf d L xt k.val (b 0).val :=
    fun b => (idx_read_congr (k1_off2_eq k) _ _ ci b).trans (hIs b)
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW' p hp
  isplitl [HflI HflI_dst]
  · iapply (ILoadedV_close d L xt k h1 ci hci hIsP)
    isplitl [HflI]; · iexact HflI
    iexact HflI_dst
  isplitl [HflI_src]
  · iapply (XHome_close d L q' xt k h1); iexact HflI_src
  isplitl [HsemI']
  · iapply (IFlV_close d L q' xt k h1 h2 _ (by exact landed_ok L k h1 h2 xt hxtok fi') (by exact idxIs_landed d L xt k h1 h2 fi')); iexact HsemI'
  isplitl [HsemG]
  · have hRows := rowsIs_gathered d L tp xt k h1 ci fh fr hci hIs (by first | rfl | decide) hin
    iapply (GFlV_close d L q tp xt k h1 _ _ hRows); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDoneV_close d L x tab k hk6 cw1 hOut6); iexact HflW_dst
  isplitl [HflW]
  · have hSel := selIs_of_loaded d L tp xt tab k h3 (by omega) cw2 cg1 fiu hRows4 hfiu hpack
    have hOut := outIs_written d L xt x tab k h3 (by omega) fo _ hxt hSel
    iapply (WFlV_close d L x tab k h3 (by omega) _ _ hOut)
    iexact HflW
  · iapply (ILoadedV_read d L xt k (by omega)).2
    isplitl [Hsem6]; · iexact Hsem6
    iexists _
    isplitr; · ipureintro; exact hfiu
    iexact Hidxu

end Cert.Proof.KBody
end
-- ==== Proof.KBodyPhaseDV.lean ====
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyValuePack
import proofs.«206325_g16862041604593_cont_week2b_1534_42_alg».proof.Proof.KBodyContentIs
import proofs.«206325_g16862041604593_cont_week2b_1534_42_alg».proof.Proof.KBodySelIs
import proofs.«206325_g16862041604593_cont_week2b_1534_42_alg».proof.Proof.KBodyContentRows
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## The last gathering trips

From trip 195 to 199 the trip's index chunk still lands and its gather is issued, but no further chunk is fetched; the
second stage runs as in the steady trips. -/

set_option maxHeartbeats 100000000 in
set_option maxRecDepth 65536 in
/-- The last trips that gather, 195 ≤ k < 200, with contents: every stage but the next fetch; what lands is the
    chunk's words, the rows they name, the table rows they select, and the written chunk is the lookup. -/
theorem phaseD_holdsV (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (x : IVec S16384x50 32) (tab : FVec F S1000000x64 .f32)
    (O : CellTallies nD τ sig (HIx 1)) (W : Waits sig (HIx 1)) (v2 : BitVec 32)
    (hxtok : ∀ j, (xt j).toNat ≤ 999999)
    (hxt : ∀ (h : Fin 50) (b : Fin 16384), xt (Idealize.ShloMosaic.ValueIdx.ix2 h b) = x (Idealize.ShloMosaic.ValueIdx.ix2 b h))
    (hpack : Cert.Spec.PackOK tab tp) :
    PhaseDV (UU := UU) d L q q' tp xt fo x tab O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk195 hk200
  have h1 : k1_cond1 k = 1#1 := (k1_cond1_iff k).2 (by omega)
  have h2 : ¬ k1_cond2 k = 1#1 := fun h => by have := (k1_cond2_iff k).1 h; omega
  have h3 : k1_cond3 k = 1#1 := (k1_cond3_iff k).2 (by omega)
  have h4 : k1_cond4 k = 1#1 := (k1_cond4_iff k).2 (by omega)
  unfold k1_t1_body
  iintro ⟨#Hmw, HOW, HI, HGF, HG, HW, HOI, HIF6⟩
  ihave HI' := (IFlV_open d L q' xt k h1) $$ HI
  icases HI' with ⟨%ci, %hciP, HflI⟩
  obtain ⟨hci, hIs⟩ := hciP
  ihave HGF' := (GFree_open d L q tp k h1) $$ HGF
  icases HGF' with ⟨HsemG, ⟨%fr, Hrows⟩, ⟨%fh, Hhalf⟩, Htab⟩
  ihave HG' := (GFlV_open d L q tp xt k h3 (by omega)) $$ HG
  icases HG' with ⟨%cg1, %cg2, %hRows4, HflG⟩
  ihave HW' := (WFlV_open d L x tab k h3 h4 (by omega)) $$ HW
  icases HW' with ⟨%cw1, %cw2, %hOut6, HflW⟩
  ihave Hout := (OutInit_open d L fo k h3 (by omega)) $$ HOI
  ihave HIF6' := (ILoadedV_read d L xt k (by omega)).1 $$ HIF6
  icases HIF6' with ⟨Hsem6, ⟨%fiu, %hfiu, Hidxu⟩⟩
  unfold Owes
  icases HOW with ⟨%W', %hW', HO⟩
  -- stage 1 up to the gather's issue; its list's words name packed rows
  sl_exec_parts (disch := chk_disch)
  have hin := hin_of_idx d L k h1 ci fh hci
  -- the gather and the two waits
  sl_exec_parts (disch := chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := chk_disch)
  sl_step
  icases Htab with -
  -- the contents: what the wait landed, what the gather will land, what was selected, what the write-back carries
  have hIsP : ∀ b : S128.Idx, (idxP2 k h1).view.read (Elt F) ci b = chunkWordOf d L xt k.val (b 0).val :=
    fun b => (idx_read_congr (k1_off2_eq k) _ _ ci b).trans (hIs b)
  isplitr; · iexact Hmw
  isplitl [HO]
  · iexists _
    isplitr
    rotate_left
    · iexact HO
    · ipureintro
      intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact hW' p hp
  isplitl [HflI HflI_dst]
  · iapply (ILoadedV_close d L xt k h1 ci hci hIsP)
    isplitl [HflI]; · iexact HflI
    iexact HflI_dst
  isplitl [HflI_src]
  · iapply (XHome_close d L q' xt k h1); iexact HflI_src
  isplitl [HsemG]
  · have hRows := rowsIs_gathered d L tp xt k h1 ci fh fr hci hIs (by first | rfl | decide) hin
    iapply (GFlV_close d L q tp xt k h1 _ _ hRows); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDoneV_close d L x tab k (by omega) cw1 hOut6); iexact HflW_dst
  isplitl [HflW]
  · have hSel := selIs_of_loaded d L tp xt tab k h3 (by omega) cw2 cg1 fiu hRows4 hfiu hpack
    have hOut := outIs_written d L xt x tab k h3 (by omega) fo _ hxt hSel
    iapply (WFlV_close d L x tab k h3 (by omega) _ _ hOut)
    iexact HflW
  · iapply (ILoadedV_read d L xt k (by omega)).2
    isplitl [Hsem6]; · iexact Hsem6
    iexists _
    isplitr; · ipureintro; exact hfiu
    iexact Hidxu

end Cert.Proof.KBody
end
-- ==== Proof.KBodyPhaseEV.lean ====
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyValuePack
import proofs.«206325_g16862041604593_cont_week2b_1534_42_alg».proof.Proof.KBodyContentIs
import proofs.«206325_g16862041604593_cont_week2b_1534_42_alg».proof.Proof.KBodySelIs
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

set_option maxHeartbeats 100000000 in
set_option maxRecDepth 65536 in
/-- The draining trips, 200 ≤ k, with contents: the landed rows are selected into the table rows their words name and the
    written chunk is the lookup. -/
theorem phaseE_holdsV (d : Dev nD) (L : grid1.Coords) (q : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (x : IVec S16384x50 32) (tab : FVec F S1000000x64 .f32)
    (O : CellTallies nD τ sig (HIx 1)) (W : Waits sig (HIx 1)) (v2 : BitVec 32)
    (hxtok : ∀ j, (xt j).toNat ≤ 999999)
    (hxt : ∀ (h : Fin 50) (b : Fin 16384), xt (Idealize.ShloMosaic.ValueIdx.ix2 h b) = x (Idealize.ShloMosaic.ValueIdx.ix2 b h))
    (hpack : Cert.Spec.PackOK tab tp) :
    PhaseEV (UU := UU) d L q tp xt fo x tab O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk200
  have h1 : ¬ k1_cond1 k = 1#1 := fun h => by have := (k1_cond1_iff k).1 h; omega
  have h2 : ¬ k1_cond2 k = 1#1 := fun h => by have := (k1_cond2_iff k).1 h; omega
  have h3 : k1_cond3 k = 1#1 := (k1_cond3_iff k).2 (by omega)
  have h4 : k1_cond4 k = 1#1 := (k1_cond4_iff k).2 (by omega)
  unfold k1_t1_body
  iintro ⟨#Hmw, HOW, HG, HW, HOI, HIF6⟩
  ihave HG' := (GFlV_open d L q tp xt k h3 (by omega)) $$ HG
  icases HG' with ⟨%cg1, %cg2, %hRows4, HflG⟩
  ihave HW' := (WFlV_open d L x tab k h3 h4 (by omega)) $$ HW
  icases HW' with ⟨%cw1, %cw2, %hOut6, HflW⟩
  ihave Hout := (OutInit_open d L fo k h3 (by omega)) $$ HOI
  ihave HIF6' := (ILoadedV_read d L xt k (by omega)).1 $$ HIF6
  icases HIF6' with ⟨Hsem6, ⟨%fiu, %hfiu, Hidxu⟩⟩
  unfold Owes
  icases HOW with ⟨%W', %hW', HO⟩
  -- the two waits
  sl_exec_parts (disch := chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := chk_disch)
  sl_step
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    exact hW' p hp
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDoneV_close d L x tab k (by omega) cw1 hOut6); iexact HflW_dst
  isplitl [HflW]
  · have hSel := selIs_of_loaded d L tp xt tab k h3 (by omega) cw2 cg1 fiu hRows4 hfiu hpack
    have hOut := outIs_written d L xt x tab k h3 (by omega) fo _ hxt hSel
    iapply (WFlV_close d L x tab k h3 (by omega) _ _ hOut)
    iexact HflW
  · iapply (ILoadedV_read d L xt k (by omega)).2
    isplitl [Hsem6]; · iexact Hsem6
    iexists _
    isplitr; · ipureintro; exact hfiu
    iexact Hidxu

end Cert.Proof.KBody
end
-- ==== Proof.KBodyValue.lean ====
import proofs.«206325_g16862041604593_cont_week2b_1534_42_alg».proof.Proof.KBodyShellValue
import proofs.«206325_g16862041604593_cont_week2b_1534_42_alg».proof.Proof.KBodyValueRegion
import proofs.«206325_g16862041604593_cont_week2b_1534_42_alg».proof.Proof.KBodyPhaseAV
import proofs.«206325_g16862041604593_cont_week2b_1534_42_alg».proof.Proof.KBodyPhaseBV
import proofs.«206325_g16862041604593_cont_week2b_1534_42_alg».proof.Proof.KBodyPhaseCV
import proofs.«206325_g16862041604593_cont_week2b_1534_42_alg».proof.Proof.KBodyPhaseDV
import proofs.«206325_g16862041604593_cont_week2b_1534_42_alg».proof.Proof.KBodyPhaseEV
import Idealize.ShloMosaic.Lib.ValueIdx

/-!
  The SparseCore kernel's body, one vector subcore's task, with the value of its output: the statement the launch
  consumes for the lookup, from the shell around the loop and the five phases of a trip, all with contents.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

open Idealize.ShloMosaic.ValueIdx

section Body

variable [FloatOps F] {UU : Type} [URA UU] [CountersIn UU]

set_option quotPrecheck false in
local notation "𝕄" => MT nD τ sig (HIx 1) (Elt F) ℕ UU ℕ

set_option maxHeartbeats 4000000 in
/-- One vector subcore's task with the VALUE of what it writes: from read shares of the packed table (holding the table
    in the pack layout) and of the transposed indices (every word naming a table row) and the worker's 200 output chunks,
    the body runs and hands the shares back and the chunks holding the lookup with its first two axes exchanged. The shell
    around the loop over what the loop carries with contents, the loop's step from the five phases with contents. -/
theorem tile_body (d : Dev nD) (L : grid1.Coords) (q q' : PosShare TreeShare)
    (tab : FVec F S1000000x64 .f32) (x : IVec S16384x50 32)
    (tp : Buf (Elt F) ((SparseCore.T d).loc main_v2)) (xt : Buf (Elt F) ((SparseCore.T d).loc main_v0)) (fo : Buf (Elt F) ((SparseCore.T d).loc main_v3))
    (hx : ∀ j, (x j).toNat ≤ 999999)
    (hxt : ∀ (h : Fin 50) (b : Fin 16384), xt (ix2 h b) = x (ix2 b h))
    (hpack : Cert.Spec.PackOK tab tp)
    (O : CellTallies nD τ sig (HIx 1)) (W : Waits sig (HIx 1)) (hO : ∀ g, O g none = 0) :
    iprop(levAts (K (F := F)).L (K (F := F)).lev ∗ ((SparseCore.T d).loc main_v2 ↦{q} tp) ∗ ((SparseCore.T d).loc main_v0 ↦{q'} xt)
        ∗ (bigSep (Finset.univ : Finset (Fin 200)) fun t => (SparseCore.T d).loc main_v3 ↦[Cert.Spec.chunkSet (200 * wid L + t.val)]{fullShare} fo)
        ∗ scopedBufs (V d (cV L) (jV L)) ∗ scopedSems0 (V d (cV L) (jV L)) ∗ owes (V d (cV L) (jV L)) O W)
      ⊢ wp (M := 𝕄) frame (wpE (defs₀ (F := F)) 𝒱₀ (V d (cV L) (jV L)) none) Set.univ
          (cc1_k L A2 (Memref.isWhole_whole _) A3 (Memref.isWhole_whole _) A4 (Memref.isWhole_whole _) A5 (Memref.isWhole_whole _)
            A6 (Memref.isWhole_whole _) A7 (Memref.isWhole_whole _) A8 (Memref.isWhole_whole _) cc1_scratch4 cc1_scratch5 cc1_scratch6)
          fun _ => iprop(((SparseCore.T d).loc main_v2 ↦{q} tp) ∗ ((SparseCore.T d).loc main_v0 ↦{q'} xt)
            ∗ (bigSep (Finset.univ : Finset (Fin 200)) fun t => (SparseCore.T d).loc main_v3 ↦[Cert.Spec.chunkSet (200 * wid L + t.val)]{fullShare} Cert.Spec.lookupT x tab)
            ∗ scopedBufs (V d (cV L) (jV L)) ∗ scopedSems0 (V d (cV L) (jV L))
            ∗ ∃ W', ⌜∀ p ∈ W', p ∈ W ∨ p.2 = none⌝ ∗ owes (V d (cV L) (jV L)) O W') :=
  -- the transposed indices are in range, as the indices are
  have hxtok : ∀ j, (xt j).toNat ≤ 999999 := fun j =>
    le_of_eq_of_le (congrArg (fun i => (xt i).toNat) (eq_ix2 j)) (le_of_eq_of_le (congrArg BitVec.toNat (hxt (j 0) (j 1))) (hx _))
  tile_body_shellV d L q q' tab x tp xt fo hx hxt hpack O W hO (fun v2 =>
    regionV d L q q' tp xt fo x tab O W
      (k1_t1_body L A2 (Memref.isWhole_whole _) A3 (Memref.isWhole_whole _) A4 (Memref.isWhole_whole _) A5 (Memref.isWhole_whole _)
        A6 (Memref.isWhole_whole _) A7 (Memref.isWhole_whole _) A8 (Memref.isWhole_whole _) cc1_scratch4 cc1_scratch5 cc1_scratch6 v2 0#32 204#32)
      (phaseA_holdsV d L q q' tp xt O W v2 hxtok)
      (phaseB_holdsV d L q q' tp xt fo x tab O W v2 hxtok hxt hpack)
      (phaseC_holdsV d L q q' tp xt fo x tab O W v2 hxtok hxt hpack)
      (phaseD_holdsV d L q q' tp xt fo x tab O W v2 hxtok hxt hpack)
      (phaseE_holdsV d L q tp xt fo x tab O W v2 hxtok hxt hpack))

end Body

end Cert.Proof.KBody

end
-- ==== Proof.KClaims.lean ====
/-
  The program's run under its precondition, from the three proofs it rests on.

  The launch theorem's application (the run of the whole program) takes the SparseCore kernel's body and the
  TensorCore region as hypotheses. Here they are discharged: the region by its rule; the body by its statement with the value of its output; and
  the index range by reading the precondition back. The result: from every memory satisfying the precondition, every
  weakly fair execution terminates with the result holding the lookup of the two arguments, which are unchanged.
-/
import proofs.«206325_g16862041604593_cont_week2b_1534_42_alg».proof.Pre_input_domain
import proofs.«206325_g16862041604593_cont_week2b_1534_42_alg».proof.Proof.Gen.Pre_input_domain
import proofs.«206325_g16862041604593_cont_week2b_1534_42_alg».proof.Proof.KRegionGlue
import proofs.«206325_g16862041604593_cont_week2b_1534_42_alg».proof.Proof.PreRange
import proofs.«206325_g16862041604593_cont_week2b_1534_42_alg».proof.Proof.KBodyValue

noncomputable section

namespace Cert.Proof.KClaims

open Cert.KernelIdeal Cert.KernelIdeal.Gen
open Cert.Proof.KLaunch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The body's statement is what the vector subcores' obligation asks of it. -/
theorem bodyOK : BodyOK (F := F) :=
  fun d L q q' tab x tp xt fo h1 h2 h3 O W hO => Cert.Proof.KBody.tile_body (UU := UU) d L q q' tab x tp xt fo h1 h2 h3 O W hO

/-- The program's run from a memory whose two arguments satisfy the precondition (stated at the arguments, as the
    certificate's precondition reads): the result holds the lookup, the arguments are unchanged. -/
theorem run_pre [∀ e, Nonempty (Elt F e)] (m : (ℓ : Loc nD τ sig) → Buf (Elt F) ℓ) (g : Dev nD → PrngReg)
    (hpre : ∀ c : Dev nD, @Cert.Pre_input_domain.fn Cert.Pre_input_domain.Gen.facts F _ (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, g⟩ (QC m) :=
  run_main m g (fun d => Cert.PreRange.x_le _ _ (hpre d)) bodyOK (Cert.Proof.KRegion.ghost (EP (F := F))) _ (Cert.Proof.KRegion.fund (EP (F := F))) regionOK

end Cert.Proof.KClaims

end
-- ==== Proof.KFrame.lean ====
/-
  The launch for the frame alone: the same program and the same handshakes, but the SparseCore kernel's body is
  only known to hand its output chunks back at SOME contents. The call then returns the output at contents not named,
  the last transpose leaves the result at contents not named, and what the run establishes is termination with the two
  arguments unchanged.
-/
import proofs.«206325_g16862041604593_cont_week2b_1534_42_alg».proof.Proof.KRun

noncomputable section

namespace Cert.Proof.KLaunch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.StableHlo (held held_split held_sdiff_result wp_hlo_within)
open Idealize.ShloMosaic.StableHlo (devRef_ne_of_ne unary_result unary_result_ne)
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The call's handshakes for the frame: the output chunks come back at contents not named -/

/-- Worker `w`'s 200 output chunks, each whole at the full share, at some contents. -/
def chunksE (d : Dev nD) (w : Nat) : sProp 𝕄 :=
  bigSep (Finset.univ : Finset (Fin 200)) fun t => iprop(∃ f : Buf (Elt F) (outLoc d), outLoc d ↦[Cert.Spec.chunkSet (200 * w + t.val)]{fullShare} f)

def dnOfF (d : Dev nD) (c : Fin 2) : sProp 𝕄 := bigSep (Finset.univ : Finset (Fin 16)) fun i => chunksE (F := F) d (widOf c i)
def tdOfF (d : Dev nD) (c : Fin 2) (i : Fin 16) : sProp 𝕄 := chunksE (F := F) d (widOf c i)

omit [FloatOps F] in
instance chunksE_storable (d : Dev nD) (w : Nat) : BI.Storable (upEmb : UEmb _ 𝕄) (chunksE (F := F) d w) := by
  unfold chunksE; infer_instance
omit [FloatOps F] in
instance dnOfF_storable (d : Dev nD) (c : Fin 2) : BI.Storable (upEmb : UEmb _ 𝕄) (dnOfF (F := F) d c) := by
  unfold dnOfF; infer_instance
omit [FloatOps F] in
instance tdOfF_storable (d : Dev nD) (c : Fin 2) (i : Fin 16) : BI.Storable (upEmb : UEmb _ 𝕄) (tdOfF (F := F) d c i) := by
  unfold tdOfF; infer_instance

/-- Call 0's payloads for the frame: operands as before, the chunks back at contents not named. -/
def PF : (K (F := F)).Pay (nD := nD) (Val := Elt F) (Name := ℕ) (U := UU) where
  st := fun q d c => stOf m d (Fin.cast (nCore_eq q) c)
  dn := fun q d c => dnOfF d (Fin.cast (nCore_eq q) c)
  go := fun q d c i => goOf m d (Fin.cast (nCore_eq q) c) (Fin.cast (nSub_eq q) i)
  td := fun q d c i => tdOfF d (Fin.cast (nCore_eq q) c) (Fin.cast (nSub_eq q) i)
  x := fun _ _ => iprop(emp)

omit [FloatOps F] in
theorem PF_st (q : Fin 1) (d : Dev nD) (c : Fin ((K (F := F)).nCore q)) : (PF m).st q d c = stOf m d (Fin.cast (nCore_eq q) c) := rfl
omit [FloatOps F] in
theorem PF_dn (q : Fin 1) (d : Dev nD) (c : Fin ((K (F := F)).nCore q)) : (PF m).dn q d c = dnOfF d (Fin.cast (nCore_eq q) c) := rfl
omit [FloatOps F] in
theorem PF_go (q : Fin 1) (d : Dev nD) (c : Fin ((K (F := F)).nCore q)) (i : Fin ((K (F := F)).nSub q)) :
    (PF m).go q d c i = goOf m d (Fin.cast (nCore_eq q) c) (Fin.cast (nSub_eq q) i) := rfl
omit [FloatOps F] in
theorem PF_td (q : Fin 1) (d : Dev nD) (c : Fin ((K (F := F)).nCore q)) (i : Fin ((K (F := F)).nSub q)) :
    (PF m).td q d c i = tdOfF d (Fin.cast (nCore_eq q) c) (Fin.cast (nSub_eq q) i) := rfl
omit [FloatOps F] in
theorem PF_x (q : Fin 1) (thr : Thread nD τ) : (PF m).x q thr = iprop(emp) := rfl

omit [FloatOps F] in
instance PF_storable : (PF (F := F) m).IsStorable where
  st _ d c := by rw [PF_st]; infer_instance
  dn _ d c := by rw [PF_dn]; infer_instance
  go _ _ _ _ := by rw [PF_go]; infer_instance
  td _ _ _ _ := by rw [PF_td]; infer_instance

omit [FloatOps F] in
/-- The sequencer's split, for the frame. -/
theorem vecSplitF : (K (F := F)).VecSplit' (PF m) 0 := by
  intro d c
  rw [PF_st, PF_dn]
  simp only [PF_go, PF_td]
  rw [bigSep_tasks (F := F) (fun i => goOf m d (Fin.cast (nCore_eq 0) c) i), bigSep_tasks (F := F) (fun i => tdOfF d (Fin.cast (nCore_eq 0) c) i)]
  generalize Fin.cast (nCore_eq 0) c = c'
  unfold stOf goOf tdOfF dnOfF
  rw [bigSep_sep']
  iintro ⟨Hr, Hch⟩
  imodintro
  isplitl [Hr Hch]
  · isplitl [Hr]; · iapply (reads_split m d (qC c') 16); iexact Hr
    iexact Hch
  · iintro H; iexact H

omit [FloatOps F] in
/-- The call's operands from the whole arrays, for the frame. -/
theorem st_introF (d : Dev nD) (tp : Buf (Elt F) (tabLoc d)) (hp : Cert.Spec.PackOK (tIn m d) tp) :
    iprop((tabLoc d ↦{fullShare} tp) ∗ (xtLoc d ↦{fullShare} xT m d) ∗ (outLoc d ↦{fullShare} m (outLoc d)))
      ⊢ (bigSep Finset.univ fun c : Fin ((K (F := F)).nCore 0) => (PF m).st 0 d c : sProp 𝕄) := by
  simp only [PF_st]
  rw [bigSep_cores (F := F) (fun c => stOf m d c)]
  unfold stOf
  rw [bigSep_sep', out_chunks]
  iintro ⟨Ht, Hx, Ho⟩
  isplitl [Ht Hx]
  · iapply (reads_intro m d fullShare 2 tp hp)
    isplitl [Ht]; · iexact Ht
    iexact Hx
  · iexact Ho

set_option maxRecDepth 100000 in
omit [FloatOps F] in
/-- The 6400 chunks, each at some contents, by worker. -/
theorem chunksE_all (d : Dev nD) :
    (bigSep (Finset.univ : Finset (Fin 2 × Fin 16 × Fin 200)) fun x => iprop(∃ f : Buf (Elt F) (outLoc d), outLoc d ↦[Cert.Spec.chunkSet (chunkNo x)]{fullShare} f) : sProp 𝕄)
      = bigSep (Finset.univ : Finset (Fin 2)) fun c => bigSep (Finset.univ : Finset (Fin 16)) fun i => chunksE (F := F) d (widOf c i) := by
  unfold chunksE
  rw [← Finset.univ_product_univ, SparseCore.bigSep_product]
  refine bigSep_congr fun c _ => ?_
  rw [← Finset.univ_product_univ, SparseCore.bigSep_product]
  try rfl

set_option maxRecDepth 100000 in
omit [FloatOps F] in
/-- The 32 workers' chunks, each at some contents, are the whole output at some contents. -/
theorem out_join (d : Dev nD) (f₀ : Buf (Elt F) (outLoc d)) :
    (bigSep (Finset.univ : Finset (Fin 2)) fun c => bigSep (Finset.univ : Finset (Fin 16)) fun i => chunksE (F := F) d (widOf c i))
      ⊢ (iprop(∃ f : Buf (Elt F) (outLoc d), outLoc d ↦{fullShare} f) : sProp 𝕄) := by
  rw [← chunksE_all]
  haveI : Nonempty (Buf (Elt F) (outLoc d)) := ⟨f₀⟩
  refine toEnt (BI.Entails.trans (bigSep_exists_pi Finset.univ (fun (x : Fin 2 × Fin 16 × Fin 200) (f : Buf (Elt F) (outLoc d)) =>
    (outLoc d ↦[Cert.Spec.chunkSet (chunkNo x)]{fullShare} f : sProp 𝕄))) (toEnt ?_))
  iintro ⟨%fs, H⟩
  ihave H' := (pointsTo_biUnion_join Finset.univ (fun x => Cert.Spec.chunkSet (chunkNo x)) fs f₀
    (fun x _ y _ h => chunk_disjoint (fun e => h (chunkNo_inj e)))) $$ H
  icases H' with ⟨%g, -, Hg⟩
  rw [chunk_cover]
  iexists g; iexact Hg

omit [FloatOps F] in
/-- What the two SparseCores hand back, for the frame, is the output whole at some contents. -/
theorem dn_elimF (d : Dev nD) :
    (bigSep Finset.univ fun c : Fin ((K (F := F)).nCore 0) => (PF m).dn 0 d c : sProp 𝕄) ⊢ (iprop(∃ f : Buf (Elt F) (outLoc d), outLoc d ↦{fullShare} f) : sProp 𝕄) := by
  simp only [PF_dn]
  rw [bigSep_cores (F := F) (fun c => dnOfF d c)]
  unfold dnOfF
  exact out_join d (m (outLoc d))

omit [FloatOps F] in
/-- The launch element, for the frame's payloads. -/
theorem hu₀F (Gh : Dev nD → sProp 𝕄) (c₀ : UP) (hfund : (BI.own (EP (F := F) c₀) : sProp 𝕄) ⊢ iprop(|==> bigSep Finset.univ Gh)) :
    (ownU (u₀ (F := F) c₀) : sProp 𝕄)
      ⊢ |={Set.univ}=> iprop(BI.own (EH (initOf (K (F := F)).hsCells (K (F := F)).hsToks)) ∗ (bigSep Finset.univ Gh)
        ∗ bigSep Finset.univ fun thr : Thread nD τ => bigSep Finset.univ fun q : Fin 1 => (PF m).x q thr) := by
  unfold u₀
  iintro Hu
  ihave H := (ownU_split _ _ _) $$ Hu
  icases H with ⟨HH, HP⟩
  imod hfund $$ HP with HG
  imodintro
  isplitl [HH]; · iexact HH
  isplitl [HG]; · iexact HG
  simp only [PF_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What @main leaves the frame: the two arguments at their launch contents. -/
abbrev FINF (d : Dev nD) : sProp 𝕄 := iprop((a0Loc d ↦{fullShare} m (a0Loc d)) ∗ (a1Loc d ↦{fullShare} m (a1Loc d)))

/-- @main on device `d`'s TensorCore, for the frame: as before, but the call's output comes back at contents not
    named, so the last transpose leaves the result at contents not named; the two arguments kept throughout. -/
theorem hmainF (Gh : Dev nD → sProp 𝕄) (hpack : RegionOK (F := F) Gh) (κ : GSem nD τ sig → ℕ) (d : Dev nD) :
    iprop((K (F := F)).ctx EH (PF m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FINF m d) := by
  obtain ⟨R, hR⟩ := tcSt_split (F := F) d 0
  unfold SparseCore.Cfg.tcRes
  rw [unscopedBufs_eq]
  simp only [main, wp_bind, wp_pure]
  iintro ⟨#Hctx, Hst, ⟨Hb, ⟨Ha0, Ha1, Hv0, Hv1, Hv2, Hv3, Hv4⟩, -, -⟩, HG⟩
  ihave Hlev := (SparseCore.Cfg.ctx_levAts κ) $$ Hctx
  -- the indices transposed
  iapply (wp_unary m d main_arg0 main_v0 (by decide) _ _ _ (m (a0Loc d)) (m (xtLoc d))) $$ [Hb Ha0 Hv0]
  · isplitl [Hb]; · iexact Hb
    isplitl [Ha0]; · iexact Ha0
    iexact Hv0
  iintro ⟨Hb, Ha0, Hv0⟩
  rw [wp_ret]; imodintro
  -- the table transposed
  iapply (wp_unary m d main_arg1 main_v1 (by decide) _ _ _ (m (a1Loc d)) (m (t1Loc d))) $$ [Hb Ha1 Hv1]
  · isplitl [Hb]; · iexact Hb
    isplitl [Ha1]; · iexact Ha1
    iexact Hv1
  iintro ⟨Hb, Ha1, Hv1⟩
  rw [wp_ret]; imodintro
  -- the region: the packed table
  ihave Hst' := (Entails.of_eq hR) $$ Hst
  icases Hst' with ⟨HO, HR⟩
  iapply (wp_wand_r frame _ Set.univ)
  isplitl [Hb Hv1 Hv2 HO Hlev HG]
  · iapply (hpack d (tT m d) (m (tabLoc d)) _ _ (Otc_none d))
    isplitl [Hb]; · iexact Hb
    isplitl [Hv1]; · iexact Hv1
    isplitl [Hv2]; · iexact Hv2
    isplitl [HO]; · iexact HO
    isplitl [Hlev]; · iexact Hlev
    iexact HG
  iintro %_ ⟨Hb, Hv1, ⟨%tp, %hp, Hv2⟩, HO⟩
  -- the call
  iapply ((K (F := F)).wp_run (D (F := F)) 𝒱 (EH := EH) (P := PF m) κ d 0)
  isplitr; · iexact Hctx
  isplitl [HO HR]
  · iapply (Entails.of_eq hR.symm)
    isplitl [HO]; · iexact HO
    iexact HR
  isplitl [Hv0 Hv2 Hv3]
  · iapply (st_introF m d tp (hp _ (tT_apply m d)))
    isplitl [Hv2]; · iexact Hv2
    isplitl [Hv0]; · iexact Hv0
    iexact Hv3
  iintro ⟨Hst, Hdn⟩
  ihave Hv3' := (dn_elimF m d) $$ Hdn
  icases Hv3' with ⟨%g3, Hv3⟩
  -- the output's first two axes exchanged
  iapply (wp_unary m d main_v3 main_v4 (by decide) _ _ _ g3 (m (resLoc d))) $$ [Hb Hv3 Hv4]
  · isplitl [Hb]; · iexact Hb
    isplitl [Hv3]; · iexact Hv3
    iexact Hv4
  iintro ⟨Hb, Hv3, Hv4⟩
  rw [wp_ret]; imodintro; imodintro
  isplitl [Hst]; · iexact Hst
  isplitl [Ha0]; · iexact Ha0
  iexact Ha1

def fqF (d : Dev nD) (s' : Phys nD τ sig (Elt F)) : Prop :=
  s'.mem.mem (a0Loc d) = m (a0Loc d) ∧ s'.mem.mem (a1Loc d) = m (a1Loc d)

omit [FloatOps F] in
theorem hfinF (d : Dev nD) (s' : Phys nD τ sig (Elt F)) : iprop(FINF m d ∗ SI s') ⊢ (⌜fqF m d s'⌝ : sProp 𝕄) := by
  iintro ⟨⟨Ha0, Ha1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (SI_pointsTo_agree (st := s') (ℓ := a1Loc d) (I := Finset.univ) (q := fullShare) (f := m (a1Loc d))) $$ [HSI Ha1]
  · isplitl [HSI] <;> iassumption
  icases H with %h1
  ipureintro
  exact ⟨funext fun i => h0 i (Finset.mem_univ i), funext fun i => h1 i (Finset.mem_univ i)⟩

/-- What the frame of the SparseCore kernel's body supplies: the same task, its 200 output chunks coming back at
    contents not named. -/
def BodyOKF : Prop :=
  ∀ (d : Dev nD) (L : grid1.Coords) (q q' : PosShare TreeShare) (tab : FVec F S1000000x64 .f32) (x : IVec S16384x50 32)
    (tp : Buf (Elt F) (tabLoc d)) (xt : Buf (Elt F) (xtLoc d)) (fo : Buf (Elt F) (outLoc d)),
    (∀ j, (x j).toNat ≤ 999999) → (∀ (h : Fin 50) (b : Fin 16384), xt (ix2 h b) = x (ix2 b h)) → Cert.Spec.PackOK tab tp →
    ∀ (O : CellTallies nD τ sig (HIx 1)) (W : Waits sig (HIx 1)), (∀ g, O g none = 0) →
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * (2 * (L 1).val + (L 0).val) + t.val)]{fullShare} fo)
        ∗ scopedBufs (V d ((L 0).castLE Facts₀.hcore1) ((L 1).castLE Facts₀.hsub1)) ∗ scopedSems0 (V d ((L 0).castLE Facts₀.hcore1) ((L 1).castLE Facts₀.hsub1))
        ∗ owes (V d ((L 0).castLE Facts₀.hcore1) ((L 1).castLE Facts₀.hsub1)) O W)
      ⊢ wp (M := 𝕄) frame (wpE (defs₀ (F := F)) 𝒱₀ (V d ((L 0).castLE Facts₀.hcore1) ((L 1).castLE Facts₀.hsub1)) none) Set.univ
          (cc1_k L (Memref.whole main_v2_scv) (Memref.isWhole_whole _) (Memref.whole main_v0_scv) (Memref.isWhole_whole _)
            (Memref.whole main_v3_scv) (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4 cc1_scratch5 cc1_scratch6)
          fun _ => iprop((tabLoc d ↦{q} tp) ∗ (xtLoc d ↦{q'} xt)
            ∗ (bigSep (Finset.univ : Finset (Fin 200)) fun t => iprop(∃ f : Buf (Elt F) (outLoc d), outLoc d ↦[Cert.Spec.chunkSet (200 * (2 * (L 1).val + (L 0).val) + t.val)]{fullShare} f))
            ∗ scopedBufs (V d ((L 0).castLE Facts₀.hcore1) ((L 1).castLE Facts₀.hsub1)) ∗ scopedSems0 (V d ((L 0).castLE Facts₀.hcore1) ((L 1).castLE Facts₀.hsub1))
            ∗ ∃ W', ⌜∀ p ∈ W', p ∈ W ∨ p.2 = none⌝ ∗ owes (V d ((L 0).castLE Facts₀.hcore1) ((L 1).castLE Facts₀.hsub1)) O W')

/-- `TileObl` at call 0 for the frame: the same, the chunks handed back at contents not named. -/
theorem tileOblF (hx : ∀ (d : Dev nD) j, (xIn m d j).toNat ≤ 999999) (hbody : BodyOKF (F := F)) :
    (K (F := F)).TileObl (D (F := F)) 𝒱 (PF m) v₀ 0 := by
  intro d c i O W hO _ _
  simp only [show (PF m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  rw [PF_go, PF_td]
  unfold goOf tdOfF reads chunks chunksE
  refine toEnt ?_
  iintro ⟨#Hlv, -, ⟨⟨%tp, %hp, Ht, Hx⟩, Hch⟩, Hsb, Hss, HO⟩
  iapply (wp_wand_r frame _ Set.univ)
  isplitl [Ht Hx Hch Hsb Hss HO]
  · iapply (hbody d (coordsV ⟨_, hc.1⟩ ⟨_, hc.2⟩) _ _ (tIn m d) (xIn m d) tp (xT m d) (m (outLoc d)) (hx d) (xT_apply m d) hp O W hO)
    isplitr; · iexact Hlv
    isplitl [Ht]; · iexact Ht
    isplitl [Hx]; · iexact Hx
    isplitl [Hch]; · iexact Hch
    isplitl [Hsb]; · iexact Hsb
    isplitl [Hss]; · iexact Hss
    iexact HO
  iintro %_ ⟨-, -, Hch, Hsb, Hss, %W', %hW', HO⟩
  isplitl [Hch]; · iexact Hch
  isplitl [Hsb]; · iexact Hsb
  isplitl [Hss]; · iexact Hss
  iexists W'; isplitr
  · ipureintro; exact fun p hp => (hW' p hp).imp_right Or.inl
  · iexact HO

/-! ## The program's run, for the frame -/

/-- The frame's post: the two arguments unchanged. -/
def QF : PUnit × MemSt nD τ sig (Elt F) → Prop := fun r => ∀ c : Dev nD,
  r.2.mem ((c.tc : Thread nD τ).loc main_arg0) = m ((c.tc : Thread nD τ).loc main_arg0)
    ∧ r.2.mem ((c.tc : Thread nD τ).loc main_arg1) = m ((c.tc : Thread nD τ).loc main_arg1)

/-- The launch theorem at this program, from the body's frame. -/
theorem run_frame [∀ e, Nonempty (Elt F e)]
    (hx : ∀ (d : Dev nD) j, (m ((SparseCore.T d).loc main_arg0) j).toNat ≤ 999999)
    (hbody : BodyOKF (F := F))
    (Gh : Dev nD → sProp 𝕄) (c₀ : UP) (hfund : (BI.own (EP (F := F) c₀) : sProp 𝕄) ⊢ iprop(|==> bigSep Finset.univ Gh))
    (hpack : RegionOK (F := F) Gh) :
    θ_run (Cert.KernelIdeal.defs (F := F)) (Cert.KernelIdeal.threads (F := F)) ⟨m, fun _ => 0, ρ⟩ (QF m) :=
  SparseCore.Cfg.θ_run_sc (K := K (F := F)) (D := D (F := F)) (𝒱 := 𝒱) (EH := EH) (P := PF m) facts v₀
    (fun q hq => match q with | 0 => nomatch hq)
    (fun q _ => match q with | 0 => tileOblF m hx hbody)
    (fun q _ => match q with | 0 => SparseCore.Cfg.VecSplit.of_plain (vecSplitF m))
    m ρ main Gh (FINF m) (u₀ (F := F) c₀) (sep_elim_left.trans (hu₀F m Gh c₀ hfund)) (hmainF m ρ Gh hpack) (fqF m) (hfinF m) (QF m) (fun _ h => h)

end Cert.Proof.KLaunch

end
-- ==== Proof.KBodyPhaseA.lean ====
/-
  The first four trips of a subcore's loop, `k < 4`.

  Nothing gathered is ready yet, so only the first stage runs: the trip waits for its own chunk of index words,
  rewrites the list of packed-row numbers (every entry a row of the packed table, because every index word is at
  most 999999), issues the gather of those rows, and issues the copy of the index chunk five ahead. What it was
  handed — its index copy in flight, the index slot and index chunk five ahead, and its gather slot — comes back
  as: the index slot free again (for chunk `k + 10`), the index chunk at home, the copy five ahead in flight,
  and the gather in flight.
-/
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyRegion
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

set_option maxHeartbeats 40000000 in
set_option maxRecDepth 65536 in
/-- The first four trips, `k < 4`: the first stage only. -/
theorem phaseA_holds (d : Dev nD) (L : grid1.Coords) (q q' : PosShare TreeShare)
    (tp : Buf (Elt F) ((A2).view.loc (V d (cV L) (jV L)))) (xt : Buf (Elt F) ((A3).view.loc (V d (cV L) (jV L))))
    (O : CellTallies nD τ sig (HIx 1)) (W : Waits sig (HIx 1)) (v2 : BitVec 32)
    (hxt : ∀ j, (xt j).toNat ≤ 999999) :
    PhaseA (UU := UU) d L q q' tp xt O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk4
  have h1 : k1_cond1 k = 1#1 := (k1_cond1_iff k).2 (by omega)
  have h2 : k1_cond2 k = 1#1 := (k1_cond2_iff k).2 (by omega)
  have h3 : ¬ k1_cond3 k = 1#1 := fun h => by have := (k1_cond3_iff k).1 h; omega
  unfold k1_t1_body
  iintro ⟨#Hmw, HOW, HI, HIF, HX, HGF⟩
  ihave HI' := (IFl_open d L q' xt k h1) $$ HI
  icases HI' with ⟨%ci, %hci, HflI⟩
  ihave HIF' := (IFree_open d L k h1 h2) $$ HIF
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  unfold Owes
  icases HOW with ⟨%W', %hW', HO⟩
  -- the wait for the index words and the eight stores, up to the gather's issue; the list's words name packed rows
  sl_exec_parts (disch := chk_disch)
  have hin := hin_of_idx d L k h1 ci fh hci
  -- the gather and the copy of the index chunk five ahead
  sl_exec_parts (disch := chk_disch)
  sl_step
  icases Htab with -
  isplitr; · iexact Hmw
  isplitl [HO]
  · iexists _
    isplitr
    swap
    · iexact HO
    ipureintro
    intro p hp
    rcases Finset.mem_insert.mp hp with hp | hp
    · exact .inr (hp ▸ rfl)
    · exact hW' p hp
  isplitl [HflI HflI_dst]
  · iapply (IFree_close d L k h1)
    isplitl [HflI]; · iexact HflI
    iexists _; iexact HflI_dst
  isplitl [HflI_src]
  · iapply (XHome_close d L q' xt k h1); iexact HflI_src
  isplitl [HsemI']
  · iapply (IFl_close d L q' xt k h1 h2 _ (by exact landed_ok L k h1 h2 xt hxt fi')); iexact HsemI'
  · iapply (GFl_close d L q tp k h1 _ _); iexact HsemG

end Cert.Proof.KBody
end
-- ==== Proof.KBodyPhaseC.lean ====
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyRegion
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

set_option maxHeartbeats 40000000 in
set_option maxRecDepth 65536 in
/-- The steady trips, 6 ≤ k < 195: every stage runs. -/
theorem phaseC_holds (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (O : CellTallies nD τ sig (HIx 1)) (W : Waits sig (HIx 1)) (v2 : BitVec 32)
    (hxt : ∀ j, (xt j).toNat ≤ 999999) :
    PhaseC (UU := UU) d L q q' tp xt fo O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk6 hk195
  have h1 : k1_cond1 k = 1#1 := (k1_cond1_iff k).2 (by omega)
  have h2 : k1_cond2 k = 1#1 := (k1_cond2_iff k).2 (by omega)
  have h3 : k1_cond3 k = 1#1 := (k1_cond3_iff k).2 (by omega)
  have h4 : k1_cond4 k = 1#1 := (k1_cond4_iff k).2 (by omega)
  unfold k1_t1_body
  iintro ⟨#Hmw, HOW, HI, HIF, HX, HGF, HG, HW, HOI, HIF6⟩
  ihave HI' := (IFl_open d L q' xt k h1) $$ HI
  icases HI' with ⟨%ci, %hci, HflI⟩
  ihave HIF' := (IFree_open d L k h1 h2) $$ HIF
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  ihave HG' := (GFl_open d L q tp k h3 (by omega)) $$ HG
  icases HG' with ⟨%cg1, %cg2, HflG⟩
  ihave HW' := (WFl_open d L k h3 h4 hk6) $$ HW
  icases HW' with ⟨%cw1, %cw2, HflW⟩
  ihave Hout := (OutInit_open d L fo k h3 (by omega)) $$ HOI
  ihave HIF6' := (IFree_read d L k).1 $$ HIF6
  icases HIF6' with ⟨Hsem6, ⟨%fiu, Hidxu⟩⟩
  unfold Owes
  icases HOW with ⟨%W', %hW', HO⟩
  -- stage 1 up to the gather's issue; its list's words name packed rows
  sl_exec_parts (disch := chk_disch)
  have hin := hin_of_idx d L k h1 ci fh hci
  -- the gather, the next index copy, the two waits
  sl_exec_parts (disch := chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := chk_disch)
  sl_step
  icases Htab with -
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW' p hp
  isplitl [HflI HflI_dst]
  · iapply (IFree_close d L k h1)
    isplitl [HflI]; · iexact HflI
    iexists _; iexact HflI_dst
  isplitl [HflI_src]
  · iapply (XHome_close d L q' xt k h1); iexact HflI_src
  isplitl [HsemI']
  · iapply (IFl_close d L q' xt k h1 h2 _ (by exact landed_ok L k h1 h2 xt hxt fi')); iexact HsemI'
  isplitl [HsemG]
  · iapply (GFl_close d L q tp k h1 _ _); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDone_close d L k hk6 _); iexact HflW_dst
  isplitl [HflW]
  · iapply (WFl_close d L k h3 (by omega) _ _); iexact HflW
  · iapply (IFree_read d L k).2
    isplitl [Hsem6]; · iexact Hsem6
    iexists _; iexact Hidxu

end Cert.Proof.KBody
end
-- ==== Proof.KBodyPhaseD.lean ====
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyRegion
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## The last gathering trips

From trip 195 to 199 the trip's index chunk still lands and its gather is issued, but no further chunk is fetched; the
second stage runs as in the steady trips. -/

set_option maxHeartbeats 40000000 in
set_option maxRecDepth 65536 in
/-- The last trips that gather, 195 ≤ k < 200: every stage but the next fetch. -/
theorem phaseD_holds (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (O : CellTallies nD τ sig (HIx 1)) (W : Waits sig (HIx 1)) (v2 : BitVec 32)
    (hxt : ∀ j, (xt j).toNat ≤ 999999) :
    PhaseD (UU := UU) d L q q' tp xt fo O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk195 hk200
  have h1 : k1_cond1 k = 1#1 := (k1_cond1_iff k).2 (by omega)
  have h2 : ¬ k1_cond2 k = 1#1 := fun h => by have := (k1_cond2_iff k).1 h; omega
  have h3 : k1_cond3 k = 1#1 := (k1_cond3_iff k).2 (by omega)
  have h4 : k1_cond4 k = 1#1 := (k1_cond4_iff k).2 (by omega)
  unfold k1_t1_body
  iintro ⟨#Hmw, HOW, HI, HGF, HG, HW, HOI, HIF6⟩
  ihave HI' := (IFl_open d L q' xt k h1) $$ HI
  icases HI' with ⟨%ci, %hci, HflI⟩
  ihave HGF' := (GFree_open d L q tp k h1) $$ HGF
  icases HGF' with ⟨HsemG, ⟨%fr, Hrows⟩, ⟨%fh, Hhalf⟩, Htab⟩
  ihave HG' := (GFl_open d L q tp k h3 (by omega)) $$ HG
  icases HG' with ⟨%cg1, %cg2, HflG⟩
  ihave HW' := (WFl_open d L k h3 h4 (by omega)) $$ HW
  icases HW' with ⟨%cw1, %cw2, HflW⟩
  ihave Hout := (OutInit_open d L fo k h3 (by omega)) $$ HOI
  ihave HIF6' := (IFree_read d L k).1 $$ HIF6
  icases HIF6' with ⟨Hsem6, ⟨%fiu, Hidxu⟩⟩
  unfold Owes
  icases HOW with ⟨%W', %hW', HO⟩
  -- stage 1 up to the gather's issue; its list's words name packed rows
  sl_exec_parts (disch := chk_disch)
  have hin := hin_of_idx d L k h1 ci fh hci
  -- the gather and the two waits
  sl_exec_parts (disch := chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := chk_disch)
  sl_step
  icases Htab with -
  isplitr; · iexact Hmw
  isplitl [HO]
  · iexists _
    isplitr
    rotate_left
    · iexact HO
    · ipureintro
      intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact hW' p hp
  isplitl [HflI HflI_dst]
  · iapply (IFree_close d L k h1)
    isplitl [HflI]; · iexact HflI
    iexists _; iexact HflI_dst
  isplitl [HflI_src]
  · iapply (XHome_close d L q' xt k h1); iexact HflI_src
  isplitl [HsemG]
  · iapply (GFl_close d L q tp k h1 _ _); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDone_close d L k (by omega) _); iexact HflW_dst
  isplitl [HflW]
  · iapply (WFl_close d L k h3 (by omega) _ _); iexact HflW
  · iapply (IFree_read d L k).2
    isplitl [Hsem6]; · iexact Hsem6
    iexists _; iexact Hidxu

end Cert.Proof.KBody
end
-- ==== Proof.KBodyPhaseE.lean ====
import proofs.«206325_g16862041604593_cont_week2b_1534_42_alg».proof.KernelIdeal
import proofs.«206325_g16862041604593_cont_week2b_1534_42_alg».proof.Proof.Gen.KernelIdeal
import proofs.«206325_g16862041604593_cont_week2b_1534_42_alg».proof.Proof.Gen.KernelIdeal.Skeleton
import proofs.«206325_g16862041604593_cont_week2b_1534_42_alg».proof.Proof.KBodyRegion
import proofs.«206325_g16862041604593_cont_week2b_1534_42_alg».proof.Proof.KBodyHin
import proofs.«206325_g16862041604593_cont_week2b_1534_42_alg».proof.Proof.ChkFacts
import Idealize.ShloMosaic.Lib.SparseCore.Launch
import Idealize.ShloMosaic.Lib.SparseCore.Stream
import Idealize.ShloMosaic.Lib.Tactic

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

/-! ## The draining trips

From trip 200 on nothing is fetched or gathered: the trip only awaits the gather issued four trips before, awaits the
write-back issued two trips before that, selects the landed rows' halves into the freed slot and issues their
write-back. -/

set_option maxHeartbeats 40000000 in
set_option maxRecDepth 65536 in
/-- The draining trips, 200 ≤ k: only the second stage runs. -/
theorem phaseE_holds (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (O : CellTallies nD τ sig (HIx 1)) (W : Waits sig (HIx 1)) (v2 : BitVec 32)
    (hxt : ∀ j, (xt j).toNat ≤ 999999) :
    PhaseE (UU := UU) d L q tp fo O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk200
  have h1 : ¬ k1_cond1 k = 1#1 := fun h => by have := (k1_cond1_iff k).1 h; omega
  have h2 : ¬ k1_cond2 k = 1#1 := fun h => by have := (k1_cond2_iff k).1 h; omega
  have h3 : k1_cond3 k = 1#1 := (k1_cond3_iff k).2 (by omega)
  have h4 : k1_cond4 k = 1#1 := (k1_cond4_iff k).2 (by omega)
  unfold k1_t1_body
  iintro ⟨#Hmw, HOW, HG, HW, HOI, HIF6⟩
  ihave HG' := (GFl_open d L q tp k h3 (by omega)) $$ HG
  icases HG' with ⟨%cg1, %cg2, HflG⟩
  ihave HW' := (WFl_open d L k h3 h4 (by omega)) $$ HW
  icases HW' with ⟨%cw1, %cw2, HflW⟩
  ihave Hout := (OutInit_open d L fo k h3 (by omega)) $$ HOI
  ihave HIF6' := (IFree_read d L k).1 $$ HIF6
  icases HIF6' with ⟨Hsem6, ⟨%fiu, Hidxu⟩⟩
  unfold Owes
  icases HOW with ⟨%W', %hW', HO⟩
  -- the two waits
  sl_exec_parts (disch := chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := chk_disch)
  sl_step
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    · exact hW' p hp
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDone_close d L k (by omega) _); iexact HflW_dst
  isplitl [HflW]
  · iapply (WFl_close d L k h3 (by omega) _ _); iexact HflW
  · iapply (IFree_read d L k).2
    isplitl [Hsem6]; · iexact Hsem6
    iexists _; iexact Hidxu

end Cert.Proof.KBody
end
-- ==== Proof.KBody.lean ====
import proofs.«206325_g16862041604593_cont_week2b_1534_42_alg».proof.Proof.KBodyShell
import proofs.«206325_g16862041604593_cont_week2b_1534_42_alg».proof.Proof.KBodyRegion
import proofs.«206325_g16862041604593_cont_week2b_1534_42_alg».proof.Proof.KBodyPhaseA
import proofs.«206325_g16862041604593_cont_week2b_1534_42_alg».proof.Proof.KBodyPhaseB
import proofs.«206325_g16862041604593_cont_week2b_1534_42_alg».proof.Proof.KBodyPhaseC
import proofs.«206325_g16862041604593_cont_week2b_1534_42_alg».proof.Proof.KBodyPhaseD
import proofs.«206325_g16862041604593_cont_week2b_1534_42_alg».proof.Proof.KBodyPhaseE

/-!
  The SparseCore kernel's body, one vector subcore's task, as a frame: the shell around the loop, the loop's step
  assembled from the five phases of a trip.
-/

noncomputable section

namespace Cert.Proof.KBody

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.KernelIdeal.main_v2_scv : Memref Cert.KernelIdeal.sig Kind.scVector Space.hbm Cert.KernelIdeal.S507904x128 EltTy.f32)
local notation "A3" => (Memref.whole Cert.KernelIdeal.main_v0_scv : Memref Cert.KernelIdeal.sig Kind.scVector Space.hbm Cert.KernelIdeal.S50x16384 EltTy.i32)
local notation "A4" => (Memref.whole Cert.KernelIdeal.main_v3_scv : Memref Cert.KernelIdeal.sig Kind.scVector Space.hbm Cert.KernelIdeal.S50x16384x64 EltTy.f32)
local notation "A5" => (Memref.whole Cert.KernelIdeal.cc1_scratch0 : Memref Cert.KernelIdeal.sig Kind.scVector Space.vmem Cert.KernelIdeal.S10x128 EltTy.i32)
local notation "A6" => (Memref.whole Cert.KernelIdeal.cc1_scratch1 : Memref Cert.KernelIdeal.sig Kind.scVector Space.vmem Cert.KernelIdeal.S5x128 EltTy.i32)
local notation "A7" => (Memref.whole Cert.KernelIdeal.cc1_scratch2 : Memref Cert.KernelIdeal.sig Kind.scVector Space.vmem Cert.KernelIdeal.S5x128x128 EltTy.f32)
local notation "A8" => (Memref.whole Cert.KernelIdeal.cc1_scratch3 : Memref Cert.KernelIdeal.sig Kind.scVector Space.vmem Cert.KernelIdeal.S2x128x64 EltTy.f32)

open Idealize.ShloMosaic.ValueIdx

section Body

variable [FloatOps F] {UU : Type} [URA UU] [CountersIn UU]

set_option quotPrecheck false in
local notation "𝕄" => MT nD τ sig (HIx 1) (Elt F) ℕ UU ℕ

set_option maxHeartbeats 4000000 in
/-- One vector subcore's task, as a frame: from read shares of the packed table and of the transposed indices and the
    worker's 200 output chunks, the body runs and hands the shares back, the chunks at some contents. The shell around
    the loop, with the loop's step from its five phases. -/
theorem tile_body_frame (d : Dev nD) (L : grid1.Coords) (q q' : PosShare TreeShare)
    (tab : FVec F S1000000x64 .f32) (x : IVec S16384x50 32)
    (tp : Buf (Elt F) (tabLoc d)) (xt : Buf (Elt F) (xtLoc d)) (fo : Buf (Elt F) (outLoc d))
    (hx : ∀ j, (x j).toNat ≤ 999999)
    (hxt : ∀ (h : Fin 50) (b : Fin 16384), xt (ix2 h b) = x (ix2 b h))
    (hpack : Cert.Spec.PackOK tab tp)
    (O : CellTallies nD τ sig (HIx 1)) (W : Waits sig (HIx 1)) (hO : ∀ g, O g none = 0) :
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * wid L + t.val)]{fullShare} fo)
        ∗ scopedBufs (V d (cV L) (jV L)) ∗ scopedSems0 (V d (cV L) (jV L)) ∗ owes (V d (cV L) (jV L)) O W)
      ⊢ wp (M := 𝕄) frame (wpE (defs₀ (F := F)) 𝒱₀ (V d (cV L) (jV L)) none) Set.univ
          (cc1_k L A2 (Memref.isWhole_whole _) A3 (Memref.isWhole_whole _) A4 (Memref.isWhole_whole _) A5 (Memref.isWhole_whole _)
            A6 (Memref.isWhole_whole _) A7 (Memref.isWhole_whole _) A8 (Memref.isWhole_whole _) cc1_scratch4 cc1_scratch5 cc1_scratch6)
          fun _ => iprop((tabLoc d ↦{q} tp) ∗ (xtLoc d ↦{q'} xt)
            ∗ (bigSep (Finset.univ : Finset (Fin 200)) fun t => iprop(∃ f, outLoc d ↦[Cert.Spec.chunkSet (200 * wid L + t.val)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') :=
  -- the transposed indices are in range, as the indices are
  have hxtok : ∀ j, (xt j).toNat ≤ 999999 := fun j =>
    le_of_eq_of_le (congrArg (fun i => (xt i).toNat) (eq_ix2 j)) (le_of_eq_of_le (congrArg BitVec.toNat (hxt (j 0) (j 1))) (hx _))
  tile_body_shell d L q q' tab x tp xt fo hx hxt hpack O W hO (fun v2 =>
    region d L q q' tp xt fo O W
      (k1_t1_body L A2 (Memref.isWhole_whole _) A3 (Memref.isWhole_whole _) A4 (Memref.isWhole_whole _) A5 (Memref.isWhole_whole _)
        A6 (Memref.isWhole_whole _) A7 (Memref.isWhole_whole _) A8 (Memref.isWhole_whole _) cc1_scratch4 cc1_scratch5 cc1_scratch6 v2 0#32 204#32)
      (phaseA_holds d L q q' tp xt O W v2 hxtok)
      (phaseB_holds d L q q' tp xt fo O W v2 hxtok)
      (phaseC_holds d L q q' tp xt fo O W v2 hxtok)
      (phaseD_holds d L q q' tp xt fo O W v2 hxtok)
      (phaseE_holds d L q q' tp xt fo O W v2 hxtok))

end Body

end Cert.Proof.KBody

end
-- ==== Proof.KClaimsF.lean ====
/-
  The program's frame under its precondition, from the frame of the SparseCore kernel's body.

  The same application of the launch theorem as for the value, with the body only known to hand its output chunks back
  at some contents: every weakly fair execution terminates with the two arguments unchanged.
-/
import proofs.«206325_g16862041604593_cont_week2b_1534_42_alg».proof.Pre_input_domain
import proofs.«206325_g16862041604593_cont_week2b_1534_42_alg».proof.Proof.Gen.Pre_input_domain
import proofs.«206325_g16862041604593_cont_week2b_1534_42_alg».proof.Proof.KRegionGlue
import proofs.«206325_g16862041604593_cont_week2b_1534_42_alg».proof.Proof.KFrame
import proofs.«206325_g16862041604593_cont_week2b_1534_42_alg».proof.Proof.PreRange
import proofs.«206325_g16862041604593_cont_week2b_1534_42_alg».proof.Proof.KBody

noncomputable section

namespace Cert.Proof.KClaimsF

open Cert.KernelIdeal Cert.KernelIdeal.Gen
open Cert.Proof.KLaunch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The body's frame is what the vector subcores' obligation asks of it. -/
theorem bodyOKF : BodyOKF (F := F) :=
  fun d L q q' tab x tp xt fo h1 h2 h3 O W hO => Cert.Proof.KBody.tile_body_frame (UU := UU) d L q q' tab x tp xt fo h1 h2 h3 O W hO

/-- The program's run from a memory whose two arguments satisfy the precondition: the arguments are unchanged. -/
theorem frame_pre [∀ e, Nonempty (Elt F e)] (m : (ℓ : Loc nD τ sig) → Buf (Elt F) ℓ) (g : Dev nD → PrngReg)
    (hpre : ∀ c : Dev nD, @Cert.Pre_input_domain.fn Cert.Pre_input_domain.Gen.facts F _ (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, g⟩ (QF m) :=
  run_frame m g (fun d => Cert.PreRange.x_le _ _ (hpre d)) bodyOKF (Cert.Proof.KRegion.ghost (EP (F := F))) _ (Cert.Proof.KRegion.fund (EP (F := F))) Cert.Proof.KClaims.regionOK

end Cert.Proof.KClaimsF

end
-- ==== Proof.WSetup.lean ====
/-
  The launch of the program, first part: the program as the SparseCore launch theorem sees it, the proof's
  resource algebra, the arrays' locations, and what the one SparseCore call's handshakes carry.

  @main on the TensorCore transposes the index array and the table, re-lays the transposed table into the packed
  table (a TensorCore kernel region), starts ONE SparseCore call — a vector-subcore kernel on 2 SparseCores of 16
  vector subcores each — and transposes its output. The call hands every SparseCore a READ SHARE of the packed table
  (at some contents that hold the table in the pack layout) and of the transposed indices, and the output chunks of
  its sixteen vector subcores; the sequencer deals each vector subcore a share of the two read arrays and its own
  200 chunks; a vector subcore hands its chunks back holding the lookup, and the SparseCore hands back all of them.
  The read shares are not returned: nobody reads the two arrays after the call.
-/
import Idealize.ShloMosaic.Lib.SparseCore.Launch
import Idealize.ShloMosaic.Lib.StableHlo.Run
import Idealize.ShloMosaic.Lib.Pipeline.Kit
import Idealize.ShloMosaic.Lib.Transfers
import Idealize.ShloMosaic.Lib.Tactic
import proofs.«206325_g16862041604593_cont_week2b_1534_42_alg».proof.Proof.Gen.Kernel
import proofs.«206325_g16862041604593_cont_week2b_1534_42_alg».proof.Proof.Gen.Kernel.Launch
import proofs.«206325_g16862041604593_cont_week2b_1534_42_alg».proof.Proof.Spec

noncomputable section

namespace Cert.Proof.WLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_eq (q : Fin 1) : (K (F := F)).nCore q = 2 := match q with | 0 => rfl
theorem nSub_eq (q : Fin 1) : (K (F := F)).nSub q = 16 := match q with | 0 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

/-- The SparseCore handshakes' copy of the rounds algebra (duties numbered). -/
abbrev UH : Type := URounds (GSem nD τ sig) ℕ
/-- The TensorCore region's staging cells' copy (duties unnamed). -/
abbrev UP : Type := UR sig nD τ
abbrev UU : Type := UH × (UP × Counters)

local notation "𝕄" => MT nD τ sig (HIx 1) (Elt F) ℕ UU ℕ

/-- The handshakes' component, the left factor. -/
abbrev EH : Emb UH (MT nD τ sig (HIx 1) (Elt F) ℕ UU ℕ) := embL
/-- The staging cells' component: the left factor of the right factor. -/
abbrev EP : Emb UP (MT nD τ sig (HIx 1) (Elt F) ℕ UU ℕ) := (Emb.inl : Emb UP (UP × Counters)).trans embR

instance EP_landsIn : (EP (F := F)).LandsIn (upEmb : UEmb _ 𝕄) := by
  unfold EP embR; infer_instance

/-- Owning a launch element of the product is owning its three components, each through its embedding. -/
theorem ownU_split (a : UH) (b : UP) (c : Counters) :
    (ownU ((a, (b, c)) : UU) : sProp 𝕄) ⊢ iprop(BI.own (EH (F := F) a) ∗ BI.own (EP (F := F) b)) := by
  iintro Hu
  ihave H := (ownU_pair _ _) $$ Hu
  icases H with ⟨HH, HR⟩
  ihave H2 := (own_pair_emb embR b c) $$ HR
  icases H2 with ⟨HP, -⟩
  isplitl [HH]; · iexact HH
  iexact HP

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev xtLoc (d : Dev nD) : Loc nD τ sig := (SparseCore.T d).loc main_v0
abbrev t1Loc (d : Dev nD) : Loc nD τ sig := (SparseCore.T d).loc main_v1
abbrev tabLoc (d : Dev nD) : Loc nD τ sig := (SparseCore.T d).loc main_v2
abbrev outLoc (d : Dev nD) : Loc nD τ sig := (SparseCore.T d).loc main_v3
abbrev resLoc (d : Dev nD) : Loc nD τ sig := (SparseCore.T d).loc main_v4

/-- The index array and the table at the launch. -/
abbrev xIn (d : Dev nD) : IVec S16384x50 32 := m (a0Loc d)
abbrev tIn (d : Dev nD) : FVec F S1000000x64 .f32 := m (a1Loc d)

/-- The index array transposed: what @main's first line leaves in its result. -/
def xT (d : Dev nD) : IVec S50x16384 32 := transpose S50x16384 [1, 0] (xIn m d) Facts₀.transposes_S16384x50_S50x16384_1_0
/-- The table transposed: what @main's second line leaves. -/
def tT (d : Dev nD) : FVec F S64x1000000 .f32 := transpose S64x1000000 [1, 0] (tIn m d) Facts₀.transposes_S1000000x64_S64x1000000_1_0

/-- The SparseCore kernel's output: the lookup with its first two axes exchanged. -/
abbrev outT (d : Dev nD) : FVec F S50x16384x64 .f32 := Cert.Spec.lookupT (xIn m d) (tIn m d)
/-- The program's result. -/
abbrev res (d : Dev nD) : FVec F S16384x50x64 .f32 := Cert.Spec.lookup (xIn m d) (tIn m d)

/-! ## The shares and the chunks -/

/-- SparseCore `c`'s read share of an array, and vector subcore `(c, i)`'s part of it. -/
abbrev qC (c : Fin 2) : PosShare TreeShare := shareTok fullShare 2 c
abbrev qV (c : Fin 2) (i : Fin 16) : PosShare TreeShare := shareTok (qC c) 16 i

/-- The worker number of vector subcore `i` of SparseCore `c`. -/
abbrev widOf (c : Fin 2) (i : Fin 16) : Nat := 2 * i.val + c.val

/-- Worker `w`'s 200 output chunks, each whole at the full share, at contents `f`. -/
def chunks (d : Dev nD) (w : Nat) (f : Buf (Elt F) (outLoc d)) : sProp 𝕄 :=
  bigSep (Finset.univ : Finset (Fin 200)) fun t => outLoc d ↦[Cert.Spec.chunkSet (200 * w + t.val)]{fullShare} f

/-- The two read arrays at the shares `q`: the packed table at some contents holding the table in the pack layout,
    the transposed indices. -/
def reads (d : Dev nD) (q : PosShare TreeShare) : sProp 𝕄 :=
  iprop(∃ tp : Buf (Elt F) (tabLoc d), ⌜Cert.Spec.PackOK (tIn m d) tp⌝ ∗ (tabLoc d ↦{q} tp) ∗ (xtLoc d ↦{q} xT m d))

/-! ## What the call's handshakes carry -/

def stOf (d : Dev nD) (c : Fin 2) : sProp 𝕄 :=
  iprop(reads m d (qC c) ∗ bigSep (Finset.univ : Finset (Fin 16)) fun i => chunks d (widOf c i) (m (outLoc d)))
def dnOf (d : Dev nD) (c : Fin 2) : sProp 𝕄 :=
  bigSep (Finset.univ : Finset (Fin 16)) fun i => chunks d (widOf c i) (outT m d)
def goOf (d : Dev nD) (c : Fin 2) (i : Fin 16) : sProp 𝕄 :=
  iprop(reads m d (qV c i) ∗ chunks d (widOf c i) (m (outLoc d)))
def tdOf (d : Dev nD) (c : Fin 2) (i : Fin 16) : sProp 𝕄 := chunks d (widOf c i) (outT m d)

instance chunks_storable (d : Dev nD) (w : Nat) (f : Buf (Elt F) (outLoc d)) : BI.Storable (upEmb : UEmb _ 𝕄) (chunks d w f) := by
  unfold chunks; infer_instance
instance reads_storable (d : Dev nD) (q : PosShare TreeShare) : BI.Storable (upEmb : UEmb _ 𝕄) (reads m d q) := by
  unfold reads; infer_instance
instance stOf_storable (d : Dev nD) (c : Fin 2) : BI.Storable (upEmb : UEmb _ 𝕄) (stOf m d c) := by
  unfold stOf; infer_instance
instance dnOf_storable (d : Dev nD) (c : Fin 2) : BI.Storable (upEmb : UEmb _ 𝕄) (dnOf m d c) := by
  unfold dnOf; infer_instance
instance goOf_storable (d : Dev nD) (c : Fin 2) (i : Fin 16) : BI.Storable (upEmb : UEmb _ 𝕄) (goOf m d c i) := by
  unfold goOf; infer_instance
instance tdOf_storable (d : Dev nD) (c : Fin 2) (i : Fin 16) : BI.Storable (upEmb : UEmb _ 𝕄) (tdOf m d c i) := by
  unfold tdOf; infer_instance

/-- Call 0's payloads; the kernel's proof consumes nothing of the launch's. -/
def P : (K (F := F)).Pay (nD := nD) (Val := Elt F) (Name := ℕ) (U := UU) where
  st := fun q d c => stOf m d (Fin.cast (nCore_eq q) c)
  dn := fun q d c => dnOf m d (Fin.cast (nCore_eq q) c)
  go := fun q d c i => goOf m d (Fin.cast (nCore_eq q) c) (Fin.cast (nSub_eq q) i)
  td := fun q d c i => tdOf m d (Fin.cast (nCore_eq q) c) (Fin.cast (nSub_eq q) i)
  x := fun _ _ => iprop(emp)

theorem P_st (q : Fin 1) (d : Dev nD) (c : Fin ((K (F := F)).nCore q)) : (P m).st q d c = stOf m d (Fin.cast (nCore_eq q) c) := rfl
theorem P_dn (q : Fin 1) (d : Dev nD) (c : Fin ((K (F := F)).nCore q)) : (P m).dn q d c = dnOf m d (Fin.cast (nCore_eq q) c) := rfl
theorem P_go (q : Fin 1) (d : Dev nD) (c : Fin ((K (F := F)).nCore q)) (i : Fin ((K (F := F)).nSub q)) :
    (P m).go q d c i = goOf m d (Fin.cast (nCore_eq q) c) (Fin.cast (nSub_eq q) i) := rfl
theorem P_td (q : Fin 1) (d : Dev nD) (c : Fin ((K (F := F)).nCore q)) (i : Fin ((K (F := F)).nSub q)) :
    (P m).td q d c i = tdOf m d (Fin.cast (nCore_eq q) c) (Fin.cast (nSub_eq q) i) := rfl
theorem P_x (q : Fin 1) (thr : Thread nD τ) : (P m).x q thr = iprop(emp) := rfl

instance P_storable : (P (F := F) m).IsStorable where
  st _ d c := by rw [P_st]; infer_instance
  dn _ d c := by rw [P_dn]; infer_instance
  go _ _ _ _ := by rw [P_go]; infer_instance
  td _ _ _ _ := by rw [P_td]; infer_instance

end Cert.Proof.WLaunch

end
-- ==== Proof.WSplit.lean ====
/-
  The launch, second part: how the arrays split.

  A read share of the packed table and of the transposed indices splits into as many read shares as there are
  readers (two SparseCores; sixteen vector subcores of each); the output array is the disjoint union of its 6400
  chunks, 200 to each of the 32 workers; the sequencer's split of one SparseCore's operands among its sixteen vector
  subcores, with the chunks gathered back; and the call's operands out of the whole arrays, its results back into
  the whole output.
-/
import proofs.«206325_g16862041604593_cont_week2b_1534_42_alg».proof.Proof.WSetup

noncomputable section

namespace Cert.Proof.WLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

/-! ## Read shares -/

/-- The two read arrays held at a share `q`, the packed table at contents in the pack layout, are a reader's
    operands at that share. -/
theorem reads_of (d : Dev nD) (q : PosShare TreeShare) (tp : Buf (Elt F) (tabLoc d)) (hp : Cert.Spec.PackOK (tIn m d) tp) :
    iprop((tabLoc d ↦{q} tp) ∗ (xtLoc d ↦{q} xT m d)) ⊢ (reads m d q : sProp 𝕄) := by
  unfold reads
  iintro ⟨Ht, Hx⟩
  iexists tp
  isplitr; · ipureintro; exact hp
  isplitl [Ht]; · iexact Ht
  iexact Hx

/-- Held at a share `q`, they are `n` readers' operands, each at its read share of `q` (the remainder is dropped). -/
theorem reads_intro (d : Dev nD) (q : PosShare TreeShare) (n : ℕ) (tp : Buf (Elt F) (tabLoc d)) (hp : Cert.Spec.PackOK (tIn m d) tp) :
    iprop((tabLoc d ↦{q} tp) ∗ (xtLoc d ↦{q} xT m d)) ⊢ (bigSep (Finset.univ : Finset (Fin n)) fun i => reads m d (shareTok q n i) : sProp 𝕄) := by
  iintro ⟨Ht, Hx⟩
  ihave Ht' := (pointsTo_toks_split q n) $$ Ht
  icases Ht' with ⟨-, Ht⟩
  ihave Hx' := (pointsTo_toks_split q n) $$ Hx
  icases Hx' with ⟨-, Hx⟩
  iapply (SparseCore.ent (bigSep_mono (Φ := fun i : Fin n => iprop((tabLoc d ↦{shareTok q n i} tp) ∗ (xtLoc d ↦{shareTok q n i} xT m d))) fun i _ => reads_of m d _ tp hp))
  rw [bigSep_sep']
  isplitl [Ht]; · iexact Ht
  iexact Hx

/-- A reader's operands at a share `q` are `n` readers' operands. -/
theorem reads_split (d : Dev nD) (q : PosShare TreeShare) (n : ℕ) :
    reads m d q ⊢ (bigSep (Finset.univ : Finset (Fin n)) fun i => reads m d (shareTok q n i) : sProp 𝕄) := by
  unfold reads
  iintro ⟨%tp, %hp, Ht, Hx⟩
  iapply (reads_intro m d q n tp hp)
  isplitl [Ht]; · iexact Ht
  iexact Hx

/-! ## The output's chunks -/

theorem mem_chunkSet (j : Cert.Spec.SOT.Idx) (g : Nat) :
    j ∈ Cert.Spec.chunkSet g ↔ (j 0).val = g / 128 ∧ (j 1).val / 128 = g % 128 := by
  unfold Cert.Spec.chunkSet; simp only [Finset.mem_filter, Finset.mem_univ, true_and]

/-- Two chunks with different numbers share no entry. -/
theorem chunk_disjoint {g g' : Nat} (h : g ≠ g') : Disjoint (Cert.Spec.chunkSet g) (Cert.Spec.chunkSet g') := by
  refine Finset.disjoint_left.mpr fun i hi hi' => h ?_
  rw [mem_chunkSet] at hi hi'
  omega

/-- The chunk number of worker `2 i + c`'s `t`-th chunk. -/
abbrev chunkNo (x : Fin 2 × Fin 16 × Fin 200) : Nat := 200 * widOf x.1 x.2.1 + x.2.2.val

theorem chunkNo_inj : Function.Injective chunkNo := by
  rintro ⟨c, i, t⟩ ⟨c', i', t'⟩ h
  have hc := c.isLt; have hc' := c'.isLt; have hi := i.isLt; have hi' := i'.isLt; have ht := t.isLt; have ht' := t'.isLt
  simp only [chunkNo, widOf] at h
  have h1 : c.val = c'.val := by omega
  have h2 : i.val = i'.val := by omega
  have h3 : t.val = t'.val := by omega
  exact Prod.ext (Fin.ext h1) (Prod.ext (Fin.ext h2) (Fin.ext h3))

/-- Each entry `(a, b, _)` of the output lies in the chunk numbered `128 a + b / 128`, which is some worker's. -/
theorem chunk_arith (a b : Nat) (ha : a < 50) (hb : b < 16384) :
    ∃ x : Fin 2 × Fin 16 × Fin 200, a = chunkNo x / 128 ∧ b / 128 = chunkNo x % 128 := by
  have hc : ((128 * a + b / 128) / 200) % 2 < 2 := by omega
  have hi : ((128 * a + b / 128) / 200) / 2 < 16 := by omega
  have ht : (128 * a + b / 128) % 200 < 200 := by omega
  refine ⟨(⟨_, hc⟩, ⟨_, hi⟩, ⟨_, ht⟩), ?_⟩
  simp only [chunkNo, widOf]
  omega

set_option maxRecDepth 100000 in
/-- Every entry of the output lies in one of the 6400 chunks. -/
theorem chunk_cover : (Finset.univ : Finset (Fin 2 × Fin 16 × Fin 200)).biUnion (fun x => Cert.Spec.chunkSet (chunkNo x)) = Finset.univ := by
  refine Finset.eq_univ_iff_forall.mpr fun j => ?_
  exact (chunk_arith (j 0).val (j 1).val (j 0).isLt (j 1).isLt).elim fun x hx =>
    Finset.mem_biUnion.mpr ⟨x, Finset.mem_univ _, (mem_chunkSet j _).mpr hx⟩

set_option maxRecDepth 100000 in
/-- The whole output array is its 32 workers' chunks. -/
theorem out_chunks (d : Dev nD) (f : Buf (Elt F) (outLoc d)) :
    (outLoc d ↦{fullShare} f : sProp 𝕄)
      = bigSep (Finset.univ : Finset (Fin 2)) fun c => bigSep (Finset.univ : Finset (Fin 16)) fun i => chunks d (widOf c i) f := by
  have h1 : (outLoc d ↦{fullShare} f : sProp 𝕄)
      = bigSep (Finset.univ : Finset (Fin 2 × Fin 16 × Fin 200)) fun x => outLoc d ↦[Cert.Spec.chunkSet (chunkNo x)]{fullShare} f := by
    rw [← pointsTo_biUnion Finset.univ (ℓ := outLoc d) (fun x => Cert.Spec.chunkSet (chunkNo x))
      (fun x _ y _ h => chunk_disjoint (fun e => h (chunkNo_inj e))), chunk_cover]; try rfl
  rw [h1, ← Finset.univ_product_univ, SparseCore.bigSep_product]
  refine bigSep_congr fun c _ => ?_
  rw [← Finset.univ_product_univ, SparseCore.bigSep_product]
  rfl

/-! ## The sequencer's split -/

theorem bigSep_tasks (Φ : Fin 16 → sProp 𝕄) :
    (bigSep Finset.univ fun i : Fin ((K (F := F)).nSub 0) => Φ (Fin.cast (nSub_eq 0) i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast (nCore_eq 0) c)) = bigSep Finset.univ Φ :=
  bigSep_congr fun _ _ => congrArg Φ (Fin.ext rfl)

/-- One SparseCore's operands among its sixteen vector subcores: each a share of the read arrays' share and its own
    chunks; the chunks back. -/
theorem vecSplit : (K (F := F)).VecSplit' (P m) 0 := by
  intro d c
  rw [P_st, P_dn]
  simp only [P_go, P_td]
  rw [bigSep_tasks (F := F) (fun i => goOf m d (Fin.cast (nCore_eq 0) c) i), bigSep_tasks (F := F) (fun i => tdOf m d (Fin.cast (nCore_eq 0) c) i)]
  generalize Fin.cast (nCore_eq 0) c = c'
  unfold stOf goOf tdOf dnOf
  rw [bigSep_sep']
  iintro ⟨Hr, Hch⟩
  imodintro
  isplitl [Hr Hch]
  · isplitl [Hr]; · iapply (reads_split m d (qC c') 16); iexact Hr
    iexact Hch
  · iintro H; iexact H

/-! ## The call's operands from the whole arrays, and its results back -/

/-- The packed table and the transposed indices whole, the output whole at its launch contents, are what the call
    hands the two SparseCores. -/
theorem st_intro (d : Dev nD) (tp : Buf (Elt F) (tabLoc d)) (hp : Cert.Spec.PackOK (tIn m d) tp) :
    iprop((tabLoc d ↦{fullShare} tp) ∗ (xtLoc d ↦{fullShare} xT m d) ∗ (outLoc d ↦{fullShare} m (outLoc d)))
      ⊢ (bigSep Finset.univ fun c : Fin ((K (F := F)).nCore 0) => (P m).st 0 d c : sProp 𝕄) := by
  simp only [P_st]
  rw [bigSep_cores (F := F) (fun c => stOf m d c)]
  unfold stOf
  rw [bigSep_sep', out_chunks]
  iintro ⟨Ht, Hx, Ho⟩
  isplitl [Ht Hx]
  · iapply (reads_intro m d fullShare 2 tp hp)
    isplitl [Ht]; · iexact Ht
    iexact Hx
  · iexact Ho

/-- What the two SparseCores hand back is the output whole, holding the lookup. -/
theorem dn_elim (d : Dev nD) :
    (bigSep Finset.univ fun c : Fin ((K (F := F)).nCore 0) => (P m).dn 0 d c : sProp 𝕄) ⊢ (outLoc d ↦{fullShare} outT m d : sProp 𝕄) := by
  simp only [P_dn]
  rw [bigSep_cores (F := F) (fun c => dnOf m d c), out_chunks]
  unfold dnOf
  exact .rfl

end Cert.Proof.WLaunch

end
-- ==== Proof.WMain.lean ====
/-
  The launch, third part: the launch element of the ghost state, @main on the TensorCore, and how the final memory
  reads the claim.

  The launch element is the handshakes' rounds beside the staging cells' (funded by the region's proof, a
  hypothesis here) and the counters'. @main keeps the two arguments whole throughout: it transposes the indices and
  the table (each a host operation over its two arrays), runs the TensorCore region (a hypothesis: it leaves the packed
  table holding the table in the pack layout), hands the packed table, the transposed indices and the output to the
  SparseCore call and gets the output back holding the kernel's lookup, and exchanges the output's first two axes,
  which is the lookup.
-/
import proofs.«206325_g16862041604593_cont_week2b_1534_42_alg».proof.Proof.WSplit
import Idealize.ShloMosaic.Lib.ValueLayout

noncomputable section

namespace Cert.Proof.WLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (devRef_ne_of_ne unary_result unary_result_ne)
open Idealize.ShloMosaic.ValueIdx

/-! ## The launch element: the handshakes' rounds, the staging cells' ghost state; nothing of the SparseCore kernel's -/

def u₀ (c₀ : UP) : UU := (initOf (K (F := F)).hsCells (K (F := F)).hsToks, (c₀, 1))

theorem bigSep_emp' {I : Type} (s : Finset I) : (bigSep s fun _ => iprop(emp)) = (iprop(emp) : sProp 𝕄) := bigSep_emp_const s

theorem hu₀ (Gh : Dev nD → sProp 𝕄) (c₀ : UP) (hfund : (BI.own (EP (F := F) c₀) : sProp 𝕄) ⊢ iprop(|==> bigSep Finset.univ Gh)) :
    (ownU (u₀ (F := F) c₀) : sProp 𝕄)
      ⊢ |={Set.univ}=> iprop(BI.own (EH (initOf (K (F := F)).hsCells (K (F := F)).hsToks)) ∗ (bigSep Finset.univ Gh)
        ∗ bigSep Finset.univ fun thr : Thread nD τ => bigSep Finset.univ fun q : Fin 1 => (P m).x q thr) := by
  unfold u₀
  iintro Hu
  ihave H := (ownU_split _ _ _) $$ Hu
  icases H with ⟨HH, HP⟩
  imod hfund $$ HP with HG
  imodintro
  isplitl [HH]; · iexact HH
  isplitl [HG]; · iexact HG
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable [FloatOps F]

/-- What the proof of the TensorCore region supplies: from the region boundary, the transposed table, the packed
    table's array, what the TensorCore owes (nothing at the region's own index) and the staging cells' ghost state,
    the region runs and leaves the packed table holding the table in the pack layout. -/
def RegionOK (Gh : Dev nD → sProp 𝕄) : Prop :=
  ∀ (d : Dev nD) (t1 : Buf (Elt F) (t1Loc d)) (v2 : Buf (Elt F) (tabLoc d)) (O : CellTallies nD τ sig (HIx 1)) (b : ℕ), (∀ g, O g none = 0) →
    iprop(boundary (SparseCore.T d) ∗ (t1Loc d ↦{fullShare} t1) ∗ (tabLoc d ↦{fullShare} v2)
        ∗ (∃ W, ⌜(K (F := F)).WBelow (SparseCore.T d) W b⌝ ∗ owes (SparseCore.T d) O W) ∗ levAts (K (F := F)).L (K (F := F)).lev ∗ Gh d)
      ⊢ wp (M := 𝕄) frame (wpE ((K (F := F)).defs (D (F := F))) 𝒱 (SparseCore.T d) none) Set.univ
          (Prog.lift (.customCall (SparseCore.inner (Pipeline.entry 0)) ()))
          fun _ => iprop(boundary (SparseCore.T d) ∗ (t1Loc d ↦{fullShare} t1)
            ∗ (∃ tp : Buf (Elt F) (tabLoc d), ⌜∀ tab : FVec F S1000000x64 .f32, (∀ i, t1 (ix2 (i 1) (i 0)) = tab i) → Cert.Spec.PackOK tab tp⌝ ∗ tabLoc d ↦{fullShare} tp)
            ∗ (∃ W, ⌜(K (F := F)).WBelow (SparseCore.T d) W b⌝ ∗ owes (SparseCore.T d) O W))

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (xtLoc d ↦{fullShare} W main_v0)
      ∗ (t1Loc d ↦{fullShare} W main_v1) ∗ (tabLoc d ↦{fullShare} W main_v2) ∗ (outLoc d ↦{fullShare} W main_v3) ∗ (resLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem held_pair (d : Dev nD) {x y : DevRef τ sig} (h : x ≠ y) (V : Valuation τ sig (Elt F)) :
    (held (SparseCore.T d) {x, y} V : sProp 𝕄) = iprop((((d, x) : Loc nD τ sig) ↦{fullShare} V x) ∗ (((d, y) : Loc nD τ sig) ↦{fullShare} V y)) := by
  unfold held
  rw [SparseCore.bigSep_insert' (Finset.notMem_singleton.mpr h), bigSep_singleton]

omit [FloatOps F] in
/-- After `y := f x` the two arrays hold `x`'s contents and `f` of them. -/
theorem held_unary (d : Dev nD) (x y : Ref sig .tc) (hne : x ≠ y) (f : x.ty.Contents (Elt F) → y.ty.Contents (Elt F)) (hx) (hy) (V : Valuation τ sig (Elt F)) :
    (held (SparseCore.T d) {Proc.devRef .tc x, Proc.devRef .tc y} ((StableHlo.unary x y f hx hy).result V) : sProp 𝕄)
      = iprop((((d, Proc.devRef .tc x) : Loc nD τ sig) ↦{fullShare} V (Proc.devRef .tc x)) ∗ (((d, Proc.devRef .tc y) : Loc nD τ sig) ↦{fullShare} f (V (Proc.devRef .tc x)))) := by
  rw [held_pair d (devRef_ne_of_ne hne), unary_result, unary_result_ne _ _ _ _ _ _ hne]

include m in
/-- A host operation `y := f x` at the head of what is left of @main, its two arrays held whole. -/
theorem wp_unary (d : Dev nD) (x y : Ref sig .tc) (hne : x ≠ y)
    (f : x.ty.Contents (Elt F) → y.ty.Contents (Elt F)) (hx) (hy)
    (vx : Buf (Elt F) ((SparseCore.T d).loc x)) (vy : Buf (Elt F) ((SparseCore.T d).loc y))
    {α : Type} {k : Prog (TpuEff nD τ sig (Elt F) (SparseCore.Sig (ΛP (F := F)) 1) .tc) α} {Q : α → sProp 𝕄} :
    iprop(boundary (SparseCore.T d) ∗ ((SparseCore.T d).loc x ↦{fullShare} vx) ∗ ((SparseCore.T d).loc y ↦{fullShare} vy))
      ⊢ iprop(((boundary (SparseCore.T d) ∗ ((SparseCore.T d).loc x ↦{fullShare} vx) ∗ ((SparseCore.T d).loc y ↦{fullShare} (f vx : Buf (Elt F) ((SparseCore.T d).loc y))))
              -∗ wp frame (wpE ((K (F := F)).defs (D (F := F))) 𝒱 (SparseCore.T d) none) Set.univ k Q)
          -∗ wp frame (wpE ((K (F := F)).defs (D (F := F))) 𝒱 (SparseCore.T d) none) Set.univ (hlo rfl (StableHlo.unary x y f hx hy) fun _ => k) Q) := by
  have hne' : (Proc.devRef .tc x : DevRef τ sig) ≠ Proc.devRef .tc y := devRef_ne_of_ne hne
  have hV : ∀ V : Valuation τ sig (Elt F), V = Function.update (Function.update (V0 m d) (Proc.devRef .tc x) vx) (Proc.devRef .tc y) vy →
      V (Proc.devRef .tc x) = vx ∧ V (Proc.devRef .tc y) = vy := by
    rintro V rfl
    exact ⟨by rw [Function.update_of_ne hne', Function.update_self], Function.update_self _ _ _⟩
  obtain ⟨V, hVdef⟩ : ∃ V : Valuation τ sig (Elt F), V = Function.update (Function.update (V0 m d) (Proc.devRef .tc x) vx) (Proc.devRef .tc y) vy := ⟨_, rfl⟩
  obtain ⟨hVx, hVy⟩ := hV V hVdef
  iintro ⟨Hb, Hx, Hy⟩ Hk
  iapply (wp_hlo_within 𝒱 (SparseCore.T d) none Set.univ (op := StableHlo.unary x y f hx hy) (S := {Proc.devRef .tc x, Proc.devRef .tc y}) (Finset.Subset.refl _)
      (V := V)) $$ [Hb Hx Hy]
  · isplitl [Hb]; · iexact Hb
    rw [held_pair d hne', hVx, hVy]
    isplitl [Hx]; · iexact Hx
    iexact Hy
  iintro ⟨Hb, Hheld⟩
  ihave Hh := (Entails.of_eq (held_unary (F := F) d x y hne f hx hy V)) $$ Hheld
  rw [hVx]
  icases Hh with ⟨Hx, Hy⟩
  iapply Hk
  isplitl [Hb]; · iexact Hb
  isplitl [Hx]; · iexact Hx
  iexact Hy

/-- What @main leaves the claim: the two arguments at their launch contents, the result holding the lookup. -/
abbrev FIN (d : Dev nD) : sProp 𝕄 :=
  iprop((a0Loc d ↦{fullShare} m (a0Loc d)) ∗ (a1Loc d ↦{fullShare} m (a1Loc d)) ∗ (resLoc d ↦{fullShare} res m d))

omit [FloatOps F] in
theorem tcSt_split (d : Dev nD) (n : ℕ) : ∃ R : sProp 𝕄, (K (F := F)).tcSt EH d n
    = iprop((∃ W, ⌜(K (F := F)).WBelow (SparseCore.T d) W (8 * n)⌝ ∗ owes (SparseCore.T d) ((K (F := F)).Otc d n) W) ∗ R) := ⟨_, rfl⟩

omit [FloatOps F] in
/-- The TensorCore owes nothing at the region's own index. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

omit [FloatOps F] in
/-- The transposed table read at `(c, r)` is the table at `(r, c)`. -/
theorem tT_apply (d : Dev nD) (i : S1000000x64.Idx) : tT m d (ix2 (i 1) (i 0)) = tIn m d i := by
  unfold tT
  exact transpose_apply _ _ _ _ i (fun b => by
    match b with
    | ⟨0, _⟩ => rfl
    | ⟨1, _⟩ => rfl)

omit [FloatOps F] in
/-- The transposed indices read at `(h, b)` are the indices at `(b, h)`. -/
theorem xT_apply (d : Dev nD) (h : Fin 50) (b : Fin 16384) : xT m d (ix2 h b) = xIn m d (ix2 b h) := by
  unfold xT
  rw [transpose_ix2_apply]

omit [FloatOps F] in
/-- The kernel's output with its first two axes exchanged is the lookup. -/
theorem res_eq (d : Dev nD) (h : S50x16384x64.Transposes [1, 0, 2] S16384x50x64) :
    transpose S16384x50x64 [1, 0, 2] (outT m d) h = res m d := by
  funext j
  rw [transpose_apply _ _ h j (ix3 (j 1) (j 0) (j 2)) (fun b => by
    match b with
    | ⟨0, _⟩ => rfl
    | ⟨1, _⟩ => rfl
    | ⟨2, _⟩ => rfl)]
  rfl

/-- @main on device `d`'s TensorCore: the two transposes, the region (the hypothesis), the call (`wp_run`: the packed
    table, the transposed indices and the output to the two SparseCores; the output back holding the kernel's lookup),
    the last transpose; the two arguments kept throughout. -/
theorem hmain (Gh : Dev nD → sProp 𝕄) (hpack : RegionOK (F := F) Gh) (κ : GSem nD τ sig → ℕ) (d : Dev nD) :
    iprop((K (F := F)).ctx EH (P m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_split (F := F) d 0
  unfold SparseCore.Cfg.tcRes
  rw [unscopedBufs_eq]
  simp only [main, wp_bind, wp_pure]
  iintro ⟨#Hctx, Hst, ⟨Hb, ⟨Ha0, Ha1, Hv0, Hv1, Hv2, Hv3, Hv4⟩, -, -⟩, HG⟩
  ihave Hlev := (SparseCore.Cfg.ctx_levAts κ) $$ Hctx
  -- the indices transposed
  iapply (wp_unary m d main_arg0 main_v0 (by decide) _ _ _ (m (a0Loc d)) (m (xtLoc d))) $$ [Hb Ha0 Hv0]
  · isplitl [Hb]; · iexact Hb
    isplitl [Ha0]; · iexact Ha0
    iexact Hv0
  iintro ⟨Hb, Ha0, Hv0⟩
  rw [wp_ret]; imodintro
  -- the table transposed
  iapply (wp_unary m d main_arg1 main_v1 (by decide) _ _ _ (m (a1Loc d)) (m (t1Loc d))) $$ [Hb Ha1 Hv1]
  · isplitl [Hb]; · iexact Hb
    isplitl [Ha1]; · iexact Ha1
    iexact Hv1
  iintro ⟨Hb, Ha1, Hv1⟩
  rw [wp_ret]; imodintro
  -- the region: the packed table
  ihave Hst' := (Entails.of_eq hR) $$ Hst
  icases Hst' with ⟨HO, HR⟩
  iapply (wp_wand_r frame _ Set.univ)
  isplitl [Hb Hv1 Hv2 HO Hlev HG]
  · iapply (hpack d (tT m d) (m (tabLoc d)) _ _ (Otc_none d))
    isplitl [Hb]; · iexact Hb
    isplitl [Hv1]; · iexact Hv1
    isplitl [Hv2]; · iexact Hv2
    isplitl [HO]; · iexact HO
    isplitl [Hlev]; · iexact Hlev
    iexact HG
  iintro %_ ⟨Hb, Hv1, ⟨%tp, %hp, Hv2⟩, HO⟩
  -- the call
  iapply ((K (F := F)).wp_run (D (F := F)) 𝒱 (EH := EH) (P := P m) κ d 0)
  isplitr; · iexact Hctx
  isplitl [HO HR]
  · iapply (Entails.of_eq hR.symm)
    isplitl [HO]; · iexact HO
    iexact HR
  isplitl [Hv0 Hv2 Hv3]
  · iapply (st_intro m d tp (hp _ (tT_apply m d)))
    isplitl [Hv2]; · iexact Hv2
    isplitl [Hv0]; · iexact Hv0
    iexact Hv3
  iintro ⟨Hst, Hdn⟩
  ihave Hv3 := (dn_elim m d) $$ Hdn
  -- the output's first two axes exchanged
  iapply (wp_unary m d main_v3 main_v4 (by decide) _ _ _ (outT m d) (m (resLoc d))) $$ [Hb Hv3 Hv4]
  · isplitl [Hb]; · iexact Hb
    isplitl [Hv3]; · iexact Hv3
    iexact Hv4
  iintro ⟨Hb, Hv3, Hv4⟩
  rw [wp_ret]; imodintro; imodintro
  isplitl [Hst]; · iexact Hst
  isplitl [Ha0]; · iexact Ha0
  isplitl [Ha1]; · iexact Ha1
  rw [← res_eq m d]
  iexact Hv4

/-! ## The final memory reads the claim -/

def fq (d : Dev nD) (s' : Phys nD τ sig (Elt F)) : Prop :=
  s'.mem.mem (resLoc d) = res m d ∧ s'.mem.mem (a0Loc d) = m (a0Loc d) ∧ s'.mem.mem (a1Loc d) = m (a1Loc d)

omit [FloatOps F] in
theorem hfin (d : Dev nD) (s' : Phys nD τ sig (Elt F)) : iprop(FIN m d ∗ SI s') ⊢ (⌜fq m d s'⌝ : sProp 𝕄) := by
  iintro ⟨⟨Ha0, Ha1, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := resLoc d) (I := Finset.univ) (q := fullShare) (f := res m d)) $$ [HSI Hr]
  · isplitl [HSI] <;> iassumption
  icases H with %h2
  ipureintro
  exact ⟨funext fun i => h2 i (Finset.mem_univ i), funext fun i => h0 i (Finset.mem_univ i), funext fun i => h1 i (Finset.mem_univ i)⟩

end Cert.Proof.WLaunch

end
-- ==== Proof.WRun.lean ====
/-
  The launch, last part: the vector subcores' obligation from the body's proof (a hypothesis), and the launch
  theorem applied: every weakly fair execution of the 35 threads terminates, and in every final memory the result
  holds the lookup of the two arguments, which are unchanged.
-/
import proofs.«206325_g16862041604593_cont_week2b_1534_42_alg».proof.Proof.WMain

noncomputable section

namespace Cert.Proof.WLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.StableHlo (held held_split held_sdiff_result wp_hlo_within)
open Idealize.ShloMosaic.StableHlo (devRef_ne_of_ne unary_result unary_result_ne)
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch theorem's obligations -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile Facts₀.hcore1 Facts₀.hsub1 (fun c s => cc1_k (coordsV c s)
          (Memref.whole main_v2_scv) (Memref.isWhole_whole _) (Memref.whole main_v0_scv) (Memref.isWhole_whole _)
          (Memref.whole main_v3_scv) (Memref.isWhole_whole _) (Memref.whole cc1_scratch0) (Memref.isWhole_whole _)
          (Memref.whole cc1_scratch1) (Memref.isWhole_whole _) (Memref.whole cc1_scratch2) (Memref.isWhole_whole _)
          (Memref.whole cc1_scratch3) (Memref.isWhole_whole _) cc1_scratch4 cc1_scratch5 cc1_scratch6) ⟨⟩ c s := rfl

omit [FloatOps F] in
/-- An entailment in the proof mode's spelling is one in the library's. -/
theorem toEnt {A B : sProp 𝕄} (h : A ⊢ B) : Idealize.SL.BI.Entails A B := h

/-- What the proof of the SparseCore kernel's body supplies: one vector subcore's task at a symbolic grid point,
    from read shares of the packed table (in the pack layout) and of the transposed indices (in range) and its 200
    output chunks, to the chunks holding the lookup. -/
def BodyOK : Prop :=
  ∀ (d : Dev nD) (L : grid1.Coords) (q q' : PosShare TreeShare) (tab : FVec F S1000000x64 .f32) (x : IVec S16384x50 32)
    (tp : Buf (Elt F) (tabLoc d)) (xt : Buf (Elt F) (xtLoc d)) (fo : Buf (Elt F) (outLoc d)),
    (∀ j, (x j).toNat ≤ 999999) → (∀ (h : Fin 50) (b : Fin 16384), xt (ix2 h b) = x (ix2 b h)) → Cert.Spec.PackOK tab tp →
    ∀ (O : CellTallies nD τ sig (HIx 1)) (W : Waits sig (HIx 1)), (∀ g, O g none = 0) →
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * (2 * (L 1).val + (L 0).val) + t.val)]{fullShare} fo)
        ∗ scopedBufs (V d ((L 0).castLE Facts₀.hcore1) ((L 1).castLE Facts₀.hsub1)) ∗ scopedSems0 (V d ((L 0).castLE Facts₀.hcore1) ((L 1).castLE Facts₀.hsub1))
        ∗ owes (V d ((L 0).castLE Facts₀.hcore1) ((L 1).castLE Facts₀.hsub1)) O W)
      ⊢ wp (M := 𝕄) frame (wpE (defs₀ (F := F)) 𝒱₀ (V d ((L 0).castLE Facts₀.hcore1) ((L 1).castLE Facts₀.hsub1)) none) Set.univ
          (cc1_k L (Memref.whole main_v2_scv) (Memref.isWhole_whole _) (Memref.whole main_v0_scv) (Memref.isWhole_whole _)
            (Memref.whole main_v3_scv) (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4 cc1_scratch5 cc1_scratch6)
          fun _ => iprop((tabLoc d ↦{q} tp) ∗ (xtLoc d ↦{q'} xt)
            ∗ (bigSep (Finset.univ : Finset (Fin 200)) fun t => outLoc d ↦[Cert.Spec.chunkSet (200 * (2 * (L 1).val + (L 0).val) + t.val)]{fullShare} Cert.Spec.lookupT x tab)
            ∗ scopedBufs (V d ((L 0).castLE Facts₀.hcore1) ((L 1).castLE Facts₀.hsub1)) ∗ scopedSems0 (V d ((L 0).castLE Facts₀.hcore1) ((L 1).castLE Facts₀.hsub1))
            ∗ ∃ W', ⌜∀ p ∈ W', p ∈ W ∨ p.2 = none⌝ ∗ owes (V d ((L 0).castLE Facts₀.hcore1) ((L 1).castLE Facts₀.hsub1)) O W')

/-- `TileObl` at call 0: the task of vector subcore `i` of SparseCore `c` is the body at the grid point `(c, i)`, on its
    shares and its worker's chunks; the read shares are dropped at the end. -/
theorem tileObl (hx : ∀ (d : Dev nD) j, (xIn m d j).toNat ≤ 999999) (hbody : BodyOK (F := F)) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  rw [P_go, P_td]
  unfold goOf tdOf reads chunks
  refine toEnt ?_
  iintro ⟨#Hlv, -, ⟨⟨%tp, %hp, Ht, Hx⟩, Hch⟩, Hsb, Hss, HO⟩
  iapply (wp_wand_r frame _ Set.univ)
  isplitl [Ht Hx Hch Hsb Hss HO]
  · iapply (hbody d (coordsV ⟨_, hc.1⟩ ⟨_, hc.2⟩) _ _ (tIn m d) (xIn m d) tp (xT m d) (m (outLoc d)) (hx d) (xT_apply m d) hp O W hO)
    isplitr; · iexact Hlv
    isplitl [Ht]; · iexact Ht
    isplitl [Hx]; · iexact Hx
    isplitl [Hch]; · iexact Hch
    isplitl [Hsb]; · iexact Hsb
    isplitl [Hss]; · iexact Hss
    iexact HO
  iintro %_ ⟨-, -, Hch, Hsb, Hss, %W', %hW', HO⟩
  isplitl [Hch]; · iexact Hch
  isplitl [Hsb]; · iexact Hsb
  isplitl [Hss]; · iexact Hss
  iexists W'; isplitr
  · ipureintro; exact fun p hp => (hW' p hp).imp_right Or.inl
  · iexact HO

/-! ## The program's run -/

/-- The strongest post: the result holds the lookup of the two arguments, which are unchanged. -/
def QC : PUnit × MemSt nD τ sig (Elt F) → Prop := fun r => ∀ c : Dev nD,
  r.2.mem ((c.tc : Thread nD τ).loc main_v4) = Cert.Spec.lookup (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

/-- The launch theorem at this program: one vector-subcore call on two SparseCores, after a TensorCore region. -/
theorem run_main [∀ e, Nonempty (Elt F e)]
    (hx : ∀ (d : Dev nD) j, (m ((SparseCore.T d).loc main_arg0) j).toNat ≤ 999999)
    (hbody : BodyOK (F := F))
    (Gh : Dev nD → sProp 𝕄) (c₀ : UP) (hfund : (BI.own (EP (F := F) c₀) : sProp 𝕄) ⊢ iprop(|==> bigSep Finset.univ Gh))
    (hpack : RegionOK (F := F) Gh) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hx hbody)
    (fun q _ => match q with | 0 => SparseCore.Cfg.VecSplit.of_plain (vecSplit m))
    m ρ main Gh (FIN m) (u₀ (F := F) c₀) (sep_elim_left.trans (hu₀ m Gh c₀ hfund)) (hmain m ρ Gh hpack) (fq m) (hfin m) (QC m) (fun _ h => h)

end Cert.Proof.WLaunch

end
-- ==== Proof.WRegion.lean ====
/-
  The TensorCore region of the program: @main's third statement, the pallas_call that re-lays the transposed
  table. On a grid of 31 points it fetches the block of 32768 columns of the transposed table (64 rows; the last
  block overhangs the array: 31 * 32768 > 1000000, and the fetch fills only the columns that exist), transposes
  it, and writes rows [0, 16384) and [16384, 32768) of the transpose side by side into 16384 rows of 128 columns
  of the packed table.

  The proof data is relational: what the body leaves in the input's staging buffer is what it found there; what it
  leaves in the output's staging buffer is constrained by a relation R on the point and the contents left (a
  parameter here: the frame takes the relation that holds of everything, the value the packed layout on the
  entries whose table row exists). The region rule then gives: the transposed table unchanged, the packed table
  at SOME contents the write-backs of such blocks may leave.
-/
import proofs.«206325_g16862041604593_cont_week2b_1534_42_alg».proof.Proof.Gen.Kernel.Launch
import proofs.«206325_g16862041604593_cont_week2b_1534_42_alg».proof.Proof.Gen.Kernel.Points
import proofs.«206325_g16862041604593_cont_week2b_1534_42_alg».proof.Proof.Gen.Kernel.Skeleton
import Idealize.ShloMosaic.Lib.Pipeline.Kit
import Idealize.ShloMosaic.Lib.Pipeline.Regions
import Idealize.ShloMosaic.Lib.SparseCore.Threads
import Idealize.ShloMosaic.Lib.Tactic

noncomputable section

namespace Cert.Proof.WRegion

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf kernel pipe)

variable {F : FTy → Type} [FloatOps F]
variable {Name : Type} [DecidableEq Name] {UU : Type} [URA UU]

local notation "𝕄" => MT nD τ sig (HIx 1) (Elt F) Name UU ℕ

/-- The one admissible contents of the (absent) prefetched tables. -/
abbrev adm : (p : Fin 1) → (pcfgs (F := F) p).Adm := fun p => (cfgs p).toPCfg_adm

/-! ## The proof data -/

variable (R : Fin cfg0.N → (S16384x128.Idx → Elt F .f32) → Prop)
variable (t1 : FVec F S64x1000000 .f32) (v2 : FVec F S507904x128 .f32)
  (O : CellTallies nD τ sig (HIx 1)) (W : Waits sig (HIx 1))

/-- The proof data on device c's TensorCore: the transposed table and the packed table at their entry contents;
    the input's buffer left as found, the output's in the relation R; no invariant; the core owing O throughout,
    its recorded pairs within W and the pairs at index none. -/
def rdat (c : Dev nD) : RDat τ (Elt F) (HIx 1) Name UU ℕ cfg0 c where
  A w := match w with
    | ⟨0, _⟩ => t1
    | ⟨1, _⟩ => v2
  after w t Y X := match w with
    | ⟨0, _⟩ => X = Y
    | ⟨1, _⟩ => R t X
  Φ _ := iprop(emp)
  q _ := fullShare
  owed _ := O
  recorded _ := {p | p ∈ W ∨ p.2 = none}

/-- The family over the one pipeline. -/
def rdats : (p : Fin 1) → (c : Dev nD) → RDat τ (Elt F) (HIx 1) Name UU ℕ (Pipeline.pin (pcfgs (F := F)) adm p) c :=
  fun _ c => rdat (Name := Name) (UU := UU) R t1 v2 O W c

/-! ## The kernel body's obligation -/

/-- The kernel body on staging buffers s0 of the input's window and s1 of the output's: the whole load of the
    input's buffer, the dead whole load of the output's, the whole store of the re-laid block; the input's buffer
    is left as found and the output's holds the payload of what the input's held. -/
theorem sound_body (𝒱₀ : Variants) (c : Dev nD) (E : Set Name) (i : grid0.Coords) (s0 : Fin 2) (s1 : Fin 2)
    (X0 : S64x32768.Idx → Elt F .f32) (X1 : S16384x128.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0 ∗ owns (c : Thread nD τ) (stage0_1 s1) fullShare (k0_pay1 X0)) -∗ K ⟨⟩))
      ⊢ wp frame (wpE (defs₀ (F := F)) 𝒱₀ c none) E
          (cc0_body i (stage0_0 s0) (hstage0_0 s0) (stage0_1 s1) (hstage0_1 s1)) K := by
  have hz : (![0, 0] : Fin 2 → Nat) = fun _ => 0 := funext fun a => by fin_cases a <;> rfl
  fin_cases s0 <;> fin_cases s1
  · have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hw1 : ∀ f w, (((Memref.whole cc0_stg1_0).access (Rect.unit (s := S16384x128) ![0, 0] S16384x128.size inb_S16384x128_S16384x128_0_0)) :
        View sig .tc _ _ _).write (Elt F) f w Finset.univ = w := Memref.write_access_unit_zero_univ (Elt F) cc0_stg1_0 hz _
    simp only [owns_whole_eq, cc0_body_eq_skeleton]; unfold cc0_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hw1 : ∀ f w, (((Memref.whole cc0_stg1_1).access (Rect.unit (s := S16384x128) ![0, 0] S16384x128.size inb_S16384x128_S16384x128_0_0)) :
        View sig .tc _ _ _).write (Elt F) f w Finset.univ = w := Memref.write_access_unit_zero_univ (Elt F) cc0_stg1_1 hz _
    simp only [owns_whole_eq, cc0_body_eq_skeleton]; unfold cc0_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hw1 : ∀ f w, (((Memref.whole cc0_stg1_0).access (Rect.unit (s := S16384x128) ![0, 0] S16384x128.size inb_S16384x128_S16384x128_0_0)) :
        View sig .tc _ _ _).write (Elt F) f w Finset.univ = w := Memref.write_access_unit_zero_univ (Elt F) cc0_stg1_0 hz _
    simp only [owns_whole_eq, cc0_body_eq_skeleton]; unfold cc0_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hw1 : ∀ f w, (((Memref.whole cc0_stg1_1).access (Rect.unit (s := S16384x128) ![0, 0] S16384x128.size inb_S16384x128_S16384x128_0_0)) :
        View sig .tc _ _ _).write (Elt F) f w Finset.univ = w := Memref.write_access_unit_zero_univ (Elt F) cc0_stg1_1 hz _
    simp only [owns_whole_eq, cc0_body_eq_skeleton]; unfold cc0_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1

/-- The library's body obligation, from sound_body at the point's staging buffers, for a relation R that the
    payload of whatever the input's buffer may hold after the fetch satisfies. -/
theorem body_obligation (𝒱₀ : Variants) (c : Dev nD)
    (hR : ∀ (t : Fin cfg0.N) (Y0 : S64x32768.Idx → Elt F .f32),
      (rdat (Name := Name) (UU := UU) R t1 v2 O W c).Finds (0 : Fin 2) t Y0 → R t (k0_pay1 Y0)) :
    (rdat (Name := Name) (UU := UU) R t1 v2 O W c).BodyObligation (defs₀ (F := F)) 𝒱₀ (none : HIx 1) Set.univ := fun t Y hY => by
  rw [bigSep_W0, bigSep_W0]
  rw [show (rdat (Name := Name) (UU := UU) R t1 v2 O W c).Φ t.succ = (rdat (Name := Name) (UU := UU) R t1 v2 O W c).Φ t.castSucc from rfl,
    show (rdat (Name := Name) (UU := UU) R t1 v2 O W c).owesAt none t.succ = (rdat (Name := Name) (UU := UU) R t1 v2 O W c).owesAt none t.castSucc from rfl]
  iintro ⟨HΦ, Ho, H0, H1⟩
  iapply (sound_body (F := F) 𝒱₀ c Set.univ (grid0.coords t) (cfg0.slots t 0) (cfg0.slots t 1) (Y 0) (Y 1) _)
  isplitl [H0 H1]
  · isplitl [H0]
    · iexact H0
    · iexact H1
  iintro ⟨H0, H1⟩
  isplitl [HΦ]; · iexact HΦ
  isplitl [Ho]; · iexact Ho
  isplitl [H0]
  · iexists Y 0
    isplitr; · ipureintro; exact rfl
    iexact H0
  · iexists k0_pay1 (Y 0)
    isplitr; · ipureintro; exact hR t (Y 0) (hY 0)
    iexact H1

/-! ## The region -/

theorem share_full (c : Dev nD) (w : Fin cfg0.W) :
    (rdat (Name := Name) (UU := UU) R t1 v2 O W c).share w = fullShare := by
  unfold RDat.share; split <;> rfl

/-- No table is prefetched. -/
theorem bigSep_fin0 {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 1) (Name := Name) (U := UU) (Lvl := ℕ) (Val := Elt F) (pcfgs (F := F) 0).pre c q pf : sProp 𝕄) = BI.emp :=
  bigSep_fin0 _

/-- The staging cells are pairwise distinct, at the pipelines read with their (absent) tables. -/
theorem phinj : Function.Injective (cellOf (nD := nD) (τ := τ) (Pipeline.pin (pcfgs (F := F)) adm)) :=
  (launch0.toP (Val := Elt F)).cellOf_inj adm

/-- The windows' arrays, whole and at the full share, as points-tos of the two buffers. -/
theorem arr0_eq (c : Dev nD) (G : FVec F S64x1000000 .f32) :
    (((cfg0.win 0).arr.view.loc (c : Thread nD τ)) ↦[(cfg0.win 0).arr.view.set]{(rdat (Name := Name) (UU := UU) R t1 v2 O W c).share 0} G : sProp 𝕄)
      = (((c : Thread nD τ).loc main_v1) ↦{fullShare} G) := by
  have e : (cfg0.win 0).arr.view.set = Finset.univ := (arr_whole0 0).set_eq_univ
  rw [e, share_full]
theorem arr1_eq (c : Dev nD) (G : FVec F S507904x128 .f32) :
    (((cfg0.win 1).arr.view.loc (c : Thread nD τ)) ↦[(cfg0.win 1).arr.view.set]{(rdat (Name := Name) (UU := UU) R t1 v2 O W c).share 1} G : sProp 𝕄)
      = (((c : Thread nD τ).loc main_v2) ↦{fullShare} G) := by
  have e : (cfg0.win 1).arr.view.set = Finset.univ := (arr_whole0 1).set_eq_univ
  rw [e, share_full]

variable (lv : GSem nD τ sig → HIx 1 → ℕ)

/-- The thread state before the region: the transposed table and the packed table whole, the core owing O. -/
abbrev preSt (c : Dev nD) : sProp 𝕄 :=
  iprop((((c : Thread nD τ).loc main_v1) ↦{fullShare} t1) ∗ (((c : Thread nD τ).loc main_v2) ↦{fullShare} v2) ∗ owes (c : Thread nD τ) O W)

/-- The thread state after it: the transposed table as it was, the packed table at some contents the write-backs
    may leave, the core owing O with its recorded pairs within W and the pairs at index none. -/
abbrev postSt (c : Dev nD) : sProp 𝕄 :=
  iprop((((c : Thread nD τ).loc main_v1) ↦{fullShare} t1)
    ∗ (∃ tp : FVec F S507904x128 .f32, ⌜(rdat (Name := Name) (UU := UU) R t1 v2 O W c).ArrAt (1 : Fin 2) cfg0.N tp⌝ ∗ ((c : Thread nD τ).loc main_v2) ↦{fullShare} tp)
    ∗ ∃ W' : Waits sig (HIx 1), ⌜∀ p ∈ W', p ∈ W ∨ p.2 = none⌝ ∗ owes (c : Thread nD τ) O W')

/-- The region's record for the library's region step. -/
def seg (𝒱₀ : Variants) (hO : ∀ g, O g none = 0) (hlv : (sc (F := F)).Refines lv)
    (hR : ∀ (c : Dev nD) (t : Fin cfg0.N) (Y0 : S64x32768.Idx → Elt F .f32),
      (rdat (Name := Name) (UU := UU) R t1 v2 O W c).Finds (0 : Fin 2) t Y0 → R t (k0_pay1 Y0)) :
    Pipeline.RDat.RegionSeg (pcfgs (F := F)) adm (rdats (Name := Name) (UU := UU) R t1 v2 O W) (none : HIx 1) defs₀ 𝒱₀
      (sc (F := F)).L lv (0 : Fin 1) where
  win := winFacts0.to₀
  block_pos := block_pos0
  stage_whole := stage_whole0
  K := PEmpty
  osem k := k.elim
  ho := Pipeline.OwnSemFacts.none _
  hbody c := body_obligation R t1 v2 O W 𝒱₀ c (hR c)
  hwaits c := Pipeline.RDat.cellsWaits_intro _ _ _ _ c fun w s t => (sc (F := F)).mayWait_none _ hO lv hlv
  pre := preSt t1 v2 O W
  post := postSt R t1 v2 O W
  X _ := iprop(emp)
  Y _ := iprop(emp)
  Z _ := iprop(emp)
  hentry c := by
    rw [Pipeline.ownSems0_none,
      Pipeline.RDat.arrays_eq (pcfgs (F := F)) adm (rdats (Name := Name) (UU := UU) R t1 v2 O W) 0 c arr_whole0 (share_full R t1 v2 O W c),
      bigSep_W0, prefHeld_emp]
    iintro ⟨⟨H1, H2, HO⟩, -, -⟩
    imodintro
    isplitl [H1 H2]
    · isplitl [H1]
      · iexact H1
      · iexact H2
    isplitr; · iempintro
    isplitl [HO]
    · iexists W
      isplitr; · ipureintro; exact fun p hp => Or.inl (Or.inl (Finset.mem_coe.mp hp))
      iexact HO
    isplitr <;> iempintro
  hin c := by
    iintro -; iempintro
  hout c := by
    rw [Pipeline.ownSems0_none, scopedRest0_eq]
    iintro -
    isplitr; · iempintro
    isplitr <;> iempintro
  hexit c := by
    unfold RDat.arraysAt
    rw [bigSep_W0]
    iintro ⟨⟨⟨%F0, %h0, H0⟩, ⟨%F1, %h1, H1⟩⟩, ⟨%W', %hW', HO⟩, -, -⟩
    imodintro
    have h0' : (rdat (Name := Name) (UU := UU) R t1 v2 O W c).ArrAt (0 : Fin 2) cfg0.N F0 := h0
    have e0 : F0 = t1 := by
      rw [(rdat (Name := Name) (UU := UU) R t1 v2 O W c).ArrAt_in (0 : Fin 2) rfl cfg0.N] at h0'; exact h0'
    subst e0
    isplitl [H0]
    · iapply (Entails.of_eq (arr0_eq R F0 v2 O W c F0)); iexact H0
    isplitl [H1]
    · iexists F1
      isplitr; · ipureintro; exact h1
      iapply (Entails.of_eq (arr1_eq R F0 v2 O W c F1)); iexact H1
    · iexists W'
      isplitr
      · ipureintro
        intro p hp
        rcases hW' (Finset.mem_coe.mpr hp) with h | ⟨w, s, rfl⟩
        · exact h
        · exact Or.inr rfl
      iexact HO

/-! ## The rule -/

variable (EP : Emb (URounds (GSem nD τ sig) Unit) (MT nD τ sig (HIx 1) (Elt F) Name UU ℕ))

/-- The rounds ghost state of the region's staging cells on device d, as the launch deals it. -/
abbrev ghost (d : Dev nD) : sProp 𝕄 :=
  iprop(Pipeline.cellsGhost (nD := nD) (τ := τ) (cfgs) EP 0 d ∗ Pipeline.toksInit (nD := nD) (τ := τ) (cfgs) EP 0 d)

set_option backward.isDefEq.respectTransparency.types false in
/-- The region, run on device d's TensorCore under the program's body table: from the boundary, the two arrays,
    the core's debt, the level facts and the staging cells' ghost state, to the boundary, the transposed table as
    it was, the packed table at some contents the write-backs may leave, and the debt. -/
theorem wp_region [Infinite Name] [EP.LandsIn (upEmb : UEmb _ 𝕄)] (𝒱₀ : Variants)
    (hO : ∀ g, O g none = 0) (hlv : (sc (F := F)).Refines lv)
    (hR : ∀ (c : Dev nD) (t : Fin cfg0.N) (Y0 : S64x32768.Idx → Elt F .f32),
      (rdat (Name := Name) (UU := UU) R t1 v2 O W c).Finds (0 : Fin 2) t Y0 → R t (k0_pay1 Y0))
    (d : Dev nD) :
    iprop(boundary (d : Thread nD τ) ∗ preSt t1 v2 O W d ∗ levAts (sc (F := F)).L lv ∗ ghost EP d)
      ⊢ wp frame (wpE ((sc (F := F)).defs (Pipeline.defs (pcfgs (F := F)) defs₀)) (Variants.lift 𝒱₀) (d : Thread nD τ) none) Set.univ
          (Prog.lift (.customCall (SparseCore.inner (Pipeline.entry (0 : Fin 1))) ()))
          fun _ => iprop(boundary (d : Thread nD τ) ∗ postSt R t1 v2 O W d) := by
  have h := Pipeline.RDat.RegionSeg.wp (pcfgs (F := F)) adm (rdats (Name := Name) (UU := UU) R t1 v2 O W) (none : HIx 1) phinj EP defs₀ 𝒱₀
    (sc (F := F)).L lv (seg R t1 v2 O W lv 𝒱₀ hO hlv hR) d none (by intro u hu; cases hu) (fun _ => Prog.ret PUnit.unit)
    (fun _ => iprop(boundary (d : Thread nD τ) ∗ postSt R t1 v2 O W d))
  refine BIBase.Entails.trans ?_ ((sc (F := F)).wp_liftProg (Pipeline.defs (pcfgs (F := F)) defs₀) (Variants.lift 𝒱₀) (d : Thread nD τ) Set.univ none
    (Prog.op (TpuEff.customCall (Pipeline.entry (0 : Fin 1)) ()) fun _ => Prog.ret PUnit.unit) _)
  refine BIBase.Entails.trans ?_ h
  iintro ⟨Hb, Hpre, Hl, Hg, Ht⟩
  isplitr
  · iintro H
    rw [wp_ret]
    imodintro
    iexact H
  isplitl [Hb]; · iexact Hb
  isplitl [Hpre]
  · iapply (show (preSt t1 v2 O W d : sProp 𝕄) ⊢ (seg R t1 v2 O W lv 𝒱₀ hO hlv hR).pre d from Entails.of_eq rfl)
    iexact Hpre
  isplitl [Hl]; · iexact Hl
  isplitl [Hg]
  · iexact Hg
  · iexact Ht

/-- The frame of the region: the same with nothing said of the packed table's contents. -/
theorem wp_pack_frame [Infinite Name] [EP.LandsIn (upEmb : UEmb _ 𝕄)] (𝒱₀ : Variants)
    (hO : ∀ g, O g none = 0) (hlv : (sc (F := F)).Refines lv) (d : Dev nD) :
    iprop(boundary (d : Thread nD τ) ∗ preSt t1 v2 O W d ∗ levAts (sc (F := F)).L lv ∗ ghost EP d)
      ⊢ wp frame (wpE ((sc (F := F)).defs (Pipeline.defs (pcfgs (F := F)) defs₀)) (Variants.lift 𝒱₀) (d : Thread nD τ) none) Set.univ
          (Prog.lift (.customCall (SparseCore.inner (Pipeline.entry (0 : Fin 1))) ()))
          fun _ => iprop(boundary (d : Thread nD τ) ∗ (((d : Thread nD τ).loc main_v1) ↦{fullShare} t1)
            ∗ (∃ tp : FVec F S507904x128 .f32, ((d : Thread nD τ).loc main_v2) ↦{fullShare} tp)
            ∗ ∃ W' : Waits sig (HIx 1), ⌜∀ p ∈ W', p ∈ W ∨ p.2 = none⌝ ∗ owes (d : Thread nD τ) O W') :=
  (wp_region (fun _ _ => True) t1 v2 O W lv EP 𝒱₀ hO hlv (fun _ _ _ _ => trivial) d).trans
    (wp_mono frame _ Set.univ fun _ => by
      iintro ⟨Hb, H1, ⟨%tp, -, H2⟩, HO⟩
      isplitl [Hb]; · iexact Hb
      isplitl [H1]; · iexact H1
      isplitl [H2]
      · iexists tp; iexact H2
      iexact HO)

/-! ## Funding the staging cells at the launch -/

theorem bigSep_fin1 {M : Type} [URA M] (Φ : Fin 1 → sProp M) : bigSep Finset.univ Φ = Φ 0 := by
  rw [show (Finset.univ : Finset (Fin 1)) = {0} from by decide, BI.bigSep_singleton]

/-- From the rounds library's launch element at the staging cells and the loop's transfers: every device's ghost
    state for the region. No counter is consumed and no invariant allocated. -/
theorem fund :
    BI.own (EP (initOf (Pipeline.cells (nD := nD) (τ := τ) cfgs cellOf_inj) (Pipeline.launchToks (nD := nD) (τ := τ) cfgs cellOf_inj)))
      ⊢ iprop(|==> bigSep Finset.univ fun d : Dev nD => ghost EP d) := by
  refine (Pipeline.fund_ghost (nD := nD) (τ := τ) cfgs EP cellOf_inj).trans (BI.bupd_mono ?_)
  simp only [bigSep_fin1]
  exact BI.Entails.refl _

end Cert.Proof.WRegion

end
-- ==== Proof.WPackValue.lean ====
/-
  What the re-laying step stores, read at an index.

  At each grid point the step loads a `[64, 32768]` block `b` of the transposed table (64 table columns by 32768
  table rows), transposes it to `[32768, 64]`, and writes rows `[0, 16384)` and rows `[16384, 32768)` of the
  transpose side by side as a `[16384, 128]` array. So entry `(r, j)` of what is stored is, for `j < 64`, entry
  `(r, j)` of the transpose, which is `b (j, r)`; and for `j ≥ 64`, entry `(16384 + r, j - 64)` of the transpose,
  which is `b (j - 64, 16384 + r)`. In one formula: `b (j % 64, r + 16384 (j / 64))`.
-/
import proofs.«206325_g16862041604593_cont_week2b_1534_42_alg».proof.Proof.Gen.Kernel.Skeleton
import Idealize.ShloMosaic.Lib.ValueIdx
import Idealize.ShloMosaic.Lib.ValueLayout
import Idealize.ShloMosaic.Lib.Pipeline.Value

noncomputable section

namespace Cert.WPackValue

open Idealize.ShloMosaic Idealize.ShloMosaic.ValueIdx Cert.Kernel Cert.Kernel.Gen

variable {F : FTy → Type} [FloatOps F]

/-- Two rank-2 indices with equal coordinates are equal. -/
theorem ix2_congr {n0 n1 : Nat} {a a' : Fin n0} {b b' : Fin n1} (ha : a.val = a'.val) (hb : b.val = b'.val) :
    ix2 a b = ix2 a' b' := by
  obtain rfl := Fin.ext ha
  obtain rfl := Fin.ext hb
  rfl

/-- The block transposed: entry `(c, d)` of the `[32768, 64]` array is entry `(d, c)` of the `[64, 32768]` block. -/
def blockT (b : Vec F S64x32768 .f32) : FVec F S32768x64 .f32 :=
  transpose S32768x64 [1, 0] (shapeCast S64x32768 b shapeCasts_S64x32768_S64x32768) transposes_S64x32768_p1_0_S32768x64

theorem blockT_apply (b : Vec F S64x32768 .f32) (c : Fin 32768) (d : Fin 64) :
    blockT b (ix2 c d) = b (ix2 d c) := by
  unfold blockT
  rw [transpose_ix2_apply, shapeCast_self]

/-- The stored value is the two halves of the transposed block side by side. -/
theorem pay_eq (b : Vec F S64x32768 .f32) :
    k0_pay1 b = concatenate S16384x128 1
      [⟨S16384x64, extractStridedSlice S16384x64 ![0, 0] (blockT b) slices_S32768x64_o0_0_S16384x64⟩,
       ⟨S16384x64, extractStridedSlice S16384x64 ![16384, 0] (blockT b) slices_S32768x64_o16384_0_S16384x64⟩]
      concatenates_S16384x64_S16384x64_S16384x128_d1 := rfl

/-- Columns 0–63 of row `r` of the stored value are column `r` of the block: rows `[0, 16384)` of its transpose. -/
theorem pack_apply_left (b : Vec F S64x32768 .f32) (r : Fin 16384) (j : Fin 128) (hj : j.val < 64) :
    k0_pay1 b (ix2 r j) = b (ix2 (⟨j.val, hj⟩ : Fin 64) (⟨r.val, by omega⟩ : Fin 32768)) := by
  have hr := r.isLt
  rw [pay_eq]
  refine (concatenate_pair_apply_left _ _ _ concatenates_S16384x64_S16384x64_S16384x128_d1 (ix2 r j) rfl
    (ix2 r (⟨j.val, hj⟩ : Fin 64)) (fun c => match c with | ⟨0, _⟩ => rfl | ⟨1, _⟩ => rfl)).trans ?_
  refine (slice2_axis0_apply 0 _ _ r (⟨j.val, hj⟩ : Fin 64) (⟨r.val, by omega⟩ : Fin 32768) (by simp)).trans ?_
  exact blockT_apply b _ _

/-- Columns 64–127 of row `r` of the stored value are column `16384 + r` of the block: rows `[16384, 32768)` of its
    transpose. -/
theorem pack_apply_right (b : Vec F S64x32768 .f32) (r : Fin 16384) (j : Fin 128) (hj : 64 ≤ j.val) :
    k0_pay1 b (ix2 r j)
      = b (ix2 (⟨j.val - 64, by omega⟩ : Fin 64) (⟨16384 + r.val, by omega⟩ : Fin 32768)) := by
  have hr := r.isLt
  have hj2 := j.isLt
  rw [pay_eq]
  refine (concatenate_pair_apply_right _ _ _ concatenates_S16384x64_S16384x64_S16384x128_d1 (ix2 r j) rfl rfl
    (ix2 r (⟨j.val - 64, by omega⟩ : Fin 64))
    (fun c => match c with | ⟨0, _⟩ => fun _ => rfl | ⟨1, _⟩ => fun hne => absurd rfl hne) ?_).trans ?_
  · show j.val - 64 + 64 = j.val
    omega
  refine (slice2_axis0_apply 16384 _ _ r (⟨j.val - 64, by omega⟩ : Fin 64) (⟨16384 + r.val, by omega⟩ : Fin 32768) rfl).trans ?_
  exact blockT_apply b _ _

/-- The stored value at `(r, j)`: column `j % 64` of table-block column `r + 16384 (j / 64)`. -/
theorem pack_apply (b : Vec F S64x32768 .f32) (r : Fin 16384) (j : Fin 128) :
    k0_pay1 b (ix2 r j)
      = b (ix2 (⟨j.val % 64, Nat.mod_lt _ (by decide)⟩ : Fin 64)
              (⟨r.val + 16384 * (j.val / 64), by omega⟩ : Fin 32768)) := by
  have hr := r.isLt
  have hj2 := j.isLt
  by_cases hj : j.val < 64
  · rw [pack_apply_left b r j hj]
    exact congrArg b (ix2_congr (by show j.val = j.val % 64; omega)
      (by show r.val = r.val + 16384 * (j.val / 64); omega))
  · rw [pack_apply_right b r j (by omega)]
    exact congrArg b (ix2_congr (by show j.val - 64 = j.val % 64; omega)
      (by show 16384 + r.val = r.val + 16384 * (j.val / 64); omega))

end Cert.WPackValue
-- ==== Proof.WRegionValue.lean ====
/-
  The value of the re-laying region: the relation its proof data takes for the output's staging buffer, and what
  the packed table holds after the write-backs.

  At point t the fetch fills the input's staging buffer with columns [32768 t, 32768 t + 32768) of the
  transposed table, as far as they exist (the table has 1000000 rows, so the last point's block is cut at column
  1000000 - 32768 * 30 = 16960 and the rest of the buffer holds words nothing names). The body writes entry
  (j % 64, r + 16384 (j / 64)) of that buffer to entry (r, j) of the output's; so wherever table row
  32768 t + 16384 (j / 64) + r exists, entry (r, j) of the output's buffer is that row's column j % 64. The
  write-back of point t puts the buffer on rows [16384 t, 16384 t + 16384) of the packed table; the 31 blocks are
  disjoint and cover it, so packed entry (r, j) holds row 32768 (r / 16384) + 16384 (j / 64) + r % 16384,
  column j % 64, of the table wherever that row exists.
-/
import proofs.«206325_g16862041604593_cont_week2b_1534_42_alg».proof.Proof.WRegion
import proofs.«206325_g16862041604593_cont_week2b_1534_42_alg».proof.Proof.WPackValue
import proofs.«206325_g16862041604593_cont_week2b_1534_42_alg».proof.Proof.Spec

noncomputable section

namespace Cert.Proof.WRegion

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (RDat Cfg Window cellOf kernel pipe)
open Idealize.ShloMosaic.ValueIdx

variable {F : FTy → Type} [FloatOps F]
variable {Name : Type} [DecidableEq Name] {UU : Type} [URA UU]

local notation "𝕄" => MT nD τ sig (HIx 1) (Elt F) Name UU ℕ

/-! ## The relation and the layout -/

/-- What the body may leave in the output's staging buffer at point t: on every entry whose table row exists,
    that row's entry of the transposed table. -/
def Rel (t1 : FVec F S64x1000000 .f32) (t : Fin cfg0.N) (X : S16384x128.Idx → Elt F .f32) : Prop :=
  ∀ (r : Fin 16384) (j : Fin 128) (hs : 32768 * t.val + 16384 * (j.val / 64) + r.val < 1000000),
    X (ix2 r j) = t1 (ix2 (⟨j.val % 64, Nat.mod_lt _ (by decide)⟩ : Fin 64)
      (⟨32768 * t.val + 16384 * (j.val / 64) + r.val, hs⟩ : Fin 1000000))

/-- The packed table holds the transposed table in the packed layout wherever the table row exists. -/
def PackedT (t1 : FVec F S64x1000000 .f32) (tp : FVec F S507904x128 .f32) : Prop :=
  ∀ (r : Fin 507904) (j : Fin 128) (hs : Cert.Spec.srcRow r.val j.val < 1000000),
    tp (ix2 r j) = t1 (ix2 (⟨j.val % 64, Nat.mod_lt _ (by decide)⟩ : Fin 64)
      (⟨Cert.Spec.srcRow r.val j.val, hs⟩ : Fin 1000000))

/-- Read through the transposition, that is the packed layout of the table itself. -/
theorem PackedT.packOK {t1 : FVec F S64x1000000 .f32} {tp : FVec F S507904x128 .f32} {tab : FVec F S1000000x64 .f32}
    (h1 : ∀ i : S1000000x64.Idx, t1 (ix2 (i 1) (i 0)) = tab i) (h : PackedT t1 tp) : Cert.Spec.PackOK tab tp :=
  fun r j hs => (h r j hs).trans (h1 (ix2 (⟨Cert.Spec.srcRow r.val j.val, hs⟩ : Fin 1000000) (⟨j.val % 64, Nat.mod_lt _ (by decide)⟩ : Fin 64)))

/-! ## The windows' blocks on the grid -/

theorem xsize0_0 : ∀ t : Fin cfg0.N, win0_0.xsize (grid0.coords t) 0 = 64 := by decide +kernel
theorem xsize0_1 : ∀ t : Fin cfg0.N, win0_0.xsize (grid0.coords t) 1 = min 32768 (1000000 - 32768 * t.val) := by decide +kernel
theorem index0_0 : ∀ t : Fin cfg0.N, win0_0.index t 0 = 0 := by decide +kernel
theorem index0_1 : ∀ t : Fin cfg0.N, win0_0.index t 1 = t.val := by decide +kernel
theorem index1_0 : ∀ t : Fin cfg0.N, win0_1.index t 0 = t.val := by decide +kernel
theorem index1_1 : ∀ t : Fin cfg0.N, win0_1.index t 1 = 0 := by decide +kernel

/-! ## What the fetch leaves in the input's staging buffer -/

variable (t1 : FVec F S64x1000000 .f32) (v2 : FVec F S507904x128 .f32)
  (O : CellTallies nD τ sig (HIx 1)) (W : Waits sig (HIx 1))

/-- After the fetch at point t the input's buffer holds, at a column that exists in the table, that column of
    the transposed table's block t. -/
theorem fetched_apply (R : Fin cfg0.N → (S16384x128.Idx → Elt F .f32) → Prop) (c : Dev nD) (t : Fin cfg0.N)
    (d : S64x32768.Idx → Elt F .f32) (a : Fin 64) (b : Fin 32768) (h : 32768 * t.val + b.val < 1000000) :
    (rdat (Name := Name) (UU := UU) R t1 v2 O W c).fetched (0 : Fin 2) t d (ix2 a b)
      = t1 (ix2 a (⟨32768 * t.val + b.val, h⟩ : Fin 1000000)) := by
  have hm : win0_0.moved (grid0.coords t) (ix2 a b) = true := (win0_0.moved_iff _ _).mpr fun ax => by
    match ax with
    | ⟨0, _⟩ => show a.val < win0_0.xsize (grid0.coords t) 0; rw [xsize0_0 t]; exact a.isLt
    | ⟨1, _⟩ => show b.val < win0_0.xsize (grid0.coords t) 1; rw [xsize0_1 t]; have := b.isLt; omega
  show win0_0.fill (grid0.coords t) d ((win0_0.blk t).view.read (Elt F) t1) (ix2 a b) = _
  unfold Window.fill
  rw [dif_pos hm, View.read_apply]
  refine (cast_eq _ _).trans ?_
  congr 1
  funext ax
  apply Fin.ext
  show ((win0_0.rect t).emb _ ax : Nat) = _
  rw [win0_0.rect_emb_val t _ ax]
  match ax with
  | ⟨0, _⟩ => show win0_0.index t 0 * 64 + a.val = a.val; rw [index0_0 t]; omega
  | ⟨1, _⟩ => show win0_0.index t 1 * 32768 + b.val = 32768 * t.val + b.val; rw [index0_1 t]; omega

/-- So the payload of whatever the body finds in the input's buffer satisfies the relation. -/
theorem rel_of_finds (c : Dev nD) (t : Fin cfg0.N) (Y0 : S64x32768.Idx → Elt F .f32)
    (h : (rdat (Name := Name) (UU := UU) (Rel t1) t1 v2 O W c).Finds (0 : Fin 2) t Y0) : Rel t1 t (k0_pay1 Y0) := by
  rw [RDat.finds_of_fetch _ (fetch0_0 t)] at h
  obtain ⟨d, rfl⟩ := h
  intro r j hs
  have hr := r.isLt
  have hj := j.isLt
  rw [Cert.WPackValue.pack_apply,
    fetched_apply t1 v2 O W (Rel t1) c t d _ _ (show 32768 * t.val + (r.val + 16384 * (j.val / 64)) < 1000000 by omega)]
  exact congrArg t1 (Cert.WPackValue.ix2_congr rfl (by show 32768 * t.val + (r.val + 16384 * (j.val / 64)) = 32768 * t.val + 16384 * (j.val / 64) + r.val; omega))

/-! ## What the write-backs leave in the packed table -/

/-- After the write-backs of the points below n, the packed rows below 16384 n hold the layout. -/
def Inv (n : Nat) (G : FVec F S507904x128 .f32) : Prop :=
  ∀ (r : Fin 507904) (j : Fin 128), r.val / 16384 < n → ∀ hs : Cert.Spec.srcRow r.val j.val < 1000000,
    G (ix2 r j) = t1 (ix2 (⟨j.val % 64, Nat.mod_lt _ (by decide)⟩ : Fin 64) (⟨Cert.Spec.srcRow r.val j.val, hs⟩ : Fin 1000000))

/-- A packed entry is under the block of point u exactly when its row is among the block's. -/
theorem mem_blk1 (u : Fin cfg0.N) (r : Fin 507904) (j : Fin 128) :
    ix2 r j ∈ (win0_1.blk u).view.setOn Finset.univ ↔ r.val / 16384 = u.val := by
  rw [View.setOn_univ]
  show ix2 r j ∈ ((View.whole main_v2).slice (win0_1.rect u)).set ↔ _
  rw [View.set_slice_whole, Rect.mem_set_unit]
  have hj := j.isLt
  constructor
  · intro h
    have h0 := h 0
    rw [index1_0 u] at h0
    have : (u.val * 16384 ≤ r.val) ∧ r.val < u.val * 16384 + 16384 := h0
    omega
  · intro h ax
    match ax with
    | ⟨0, _⟩ =>
      show win0_1.index u 0 * 16384 ≤ r.val ∧ r.val < win0_1.index u 0 * 16384 + 16384
      rw [index1_0 u]
      omega
    | ⟨1, _⟩ =>
      show win0_1.index u 1 * 128 ≤ j.val ∧ j.val < win0_1.index u 1 * 128 + 128
      rw [index1_1 u]
      omega

theorem inv_of_arrAt (c : Dev nD) : ∀ (n : Nat), n ≤ cfg0.N → ∀ G : FVec F S507904x128 .f32,
    (rdat (Name := Name) (UU := UU) (Rel t1) t1 v2 O W c).ArrAt (1 : Fin 2) n G → Inv t1 n G
  | 0, _, G, _ => fun r j h => absurd h (Nat.not_lt_zero _)
  | n + 1, hn, G, hG => by
    have hlt : n < cfg0.N := hn
    simp only [RDat.ArrAt] at hG
    rw [dif_pos hlt, if_pos (flush0_1 ⟨n, hlt⟩)] at hG
    obtain ⟨G₀, X, hG₀, ⟨Y, -, hX⟩, rfl⟩ := hG
    have ih := inv_of_arrAt c n (Nat.le_of_lt hlt) G₀ hG₀
    have hX' : Rel t1 ⟨n, hlt⟩ X := hX
    intro r j hr hs
    have hrl := r.isLt
    by_cases hrn : r.val / 16384 = n
    · -- under the block of point n: what the body left there
      have hy : (win0_1.blk ⟨n, hlt⟩).view.emb (ix2 (⟨r.val % 16384, Nat.mod_lt _ (by decide)⟩ : Fin 16384) j) = ix2 r j := by
        funext ax
        apply Fin.ext
        show ((win0_1.rect ⟨n, hlt⟩).emb _ ax : Nat) = _
        rw [win0_1.rect_emb_val ⟨n, hlt⟩ _ ax]
        match ax with
        | ⟨0, _⟩ =>
          show win0_1.index ⟨n, hlt⟩ 0 * 16384 + r.val % 16384 = r.val
          rw [index1_0 ⟨n, hlt⟩]
          show n * 16384 + r.val % 16384 = r.val
          omega
        | ⟨1, _⟩ =>
          show win0_1.index ⟨n, hlt⟩ 1 * 128 + j.val = j.val
          rw [index1_1 ⟨n, hlt⟩]
          omega
      rw [← hy, View.write_emb_of_mem _ _ (Finset.mem_univ _)]
      refine (cast_eq _ _).trans ?_
      have := hX' (⟨r.val % 16384, Nat.mod_lt _ (by decide)⟩ : Fin 16384) j
        (by show 32768 * n + 16384 * (j.val / 64) + r.val % 16384 < 1000000; unfold Cert.Spec.srcRow at hs; rw [hrn] at hs; omega)
      refine this.trans ?_
      exact congrArg t1 (Cert.WPackValue.ix2_congr rfl (by
        show 32768 * n + 16384 * (j.val / 64) + r.val % 16384 = Cert.Spec.srcRow r.val j.val
        unfold Cert.Spec.srcRow; rw [hrn]))
    · -- under no block yet written but those below n: as before
      rw [View.write_of_not_mem _ _ _ (by rw [mem_blk1]; exact hrn)]
      exact ih r j (by omega) hs

/-- After the run the packed table holds the layout. -/
theorem packed_of_arrAt (c : Dev nD) (tp : FVec F S507904x128 .f32)
    (h : (rdat (Name := Name) (UU := UU) (Rel t1) t1 v2 O W c).ArrAt (1 : Fin 2) cfg0.N tp) : PackedT t1 tp :=
  fun r j hs => inv_of_arrAt t1 v2 O W c cfg0.N (Nat.le_refl _) tp h r j
    (by have := r.isLt; show r.val / 16384 < 31; omega) hs

/-! ## The region's rule, with the value -/

variable (lv : GSem nD τ sig → HIx 1 → ℕ)
variable (EP : Emb (URounds (GSem nD τ sig) Unit) (MT nD τ sig (HIx 1) (Elt F) Name UU ℕ))

/-- The region on device d's TensorCore, under the program's body table: the transposed table unchanged, the
    packed table at SOME contents holding it in the packed layout, the core owing what it owed with its recorded
    pairs within W and the pairs at index none. -/
theorem wp_pack [Infinite Name] [EP.LandsIn (upEmb : UEmb _ 𝕄)] (𝒱₀ : Variants)
    (hO : ∀ g, O g none = 0) (hlv : (sc (F := F)).Refines lv) (d : Dev nD) :
    iprop(boundary (d : Thread nD τ) ∗ preSt t1 v2 O W d ∗ levAts (sc (F := F)).L lv ∗ ghost EP d)
      ⊢ wp frame (wpE ((sc (F := F)).defs (Pipeline.defs (pcfgs (F := F)) defs₀)) (Variants.lift 𝒱₀) (d : Thread nD τ) none) Set.univ
          (Prog.lift (.customCall (SparseCore.inner (Pipeline.entry (0 : Fin 1))) ()))
          fun _ => iprop(boundary (d : Thread nD τ) ∗ (((d : Thread nD τ).loc main_v1) ↦{fullShare} t1)
            ∗ (∃ tp : FVec F S507904x128 .f32, ⌜PackedT t1 tp⌝ ∗ ((d : Thread nD τ).loc main_v2) ↦{fullShare} tp)
            ∗ ∃ W' : Waits sig (HIx 1), ⌜∀ p ∈ W', p ∈ W ∨ p.2 = none⌝ ∗ owes (d : Thread nD τ) O W') :=
  (wp_region (Rel t1) t1 v2 O W lv EP 𝒱₀ hO hlv (fun c t Y0 h => rel_of_finds t1 v2 O W c t Y0 h) d).trans
    (wp_mono frame _ Set.univ fun _ => by
      iintro ⟨Hb, H1, ⟨%tp, %htp, H2⟩, HO⟩
      isplitl [Hb]; · iexact Hb
      isplitl [H1]; · iexact H1
      isplitl [H2]
      · iexists tp
        isplitr; · ipureintro; exact packed_of_arrAt t1 v2 O W d tp htp
        iexact H2
      iexact HO)

/-- The same from and to a core whose recorded pairs all sit at or below a level b (index none is at level 0). -/
theorem wp_pack_below [Infinite Name] [EP.LandsIn (upEmb : UEmb _ 𝕄)] (𝒱₀ : Variants)
    (hO : ∀ g, O g none = 0) (hlv : (sc (F := F)).Refines lv) (b : ℕ) (d : Dev nD) :
    iprop(boundary (d : Thread nD τ) ∗ (((d : Thread nD τ).loc main_v1) ↦{fullShare} t1) ∗ (((d : Thread nD τ).loc main_v2) ↦{fullShare} v2)
        ∗ (∃ W : Waits sig (HIx 1), ⌜(sc (F := F)).WBelow (d : Thread nD τ) W b⌝ ∗ owes (d : Thread nD τ) O W)
        ∗ levAts (sc (F := F)).L lv ∗ ghost EP d)
      ⊢ wp frame (wpE ((sc (F := F)).defs (Pipeline.defs (pcfgs (F := F)) defs₀)) (Variants.lift 𝒱₀) (d : Thread nD τ) none) Set.univ
          (Prog.lift (.customCall (SparseCore.inner (Pipeline.entry (0 : Fin 1))) ()))
          fun _ => iprop(boundary (d : Thread nD τ) ∗ (((d : Thread nD τ).loc main_v1) ↦{fullShare} t1)
            ∗ (∃ tp : FVec F S507904x128 .f32, ⌜PackedT t1 tp⌝ ∗ ((d : Thread nD τ).loc main_v2) ↦{fullShare} tp)
            ∗ ∃ W : Waits sig (HIx 1), ⌜(sc (F := F)).WBelow (d : Thread nD τ) W b⌝ ∗ owes (d : Thread nD τ) O W) := by
  iintro ⟨Hb, H1, H2, ⟨%W, %hW, HO⟩, Hl, Hg⟩
  iapply (wp_wand_r frame _ Set.univ)
  isplitl [Hb H1 H2 HO Hl Hg]
  · iapply (wp_pack t1 v2 O W lv EP 𝒱₀ hO hlv d)
    isplitl [Hb]; · iexact Hb
    isplitl [H1 H2 HO]
    · isplitl [H1]; · iexact H1
      isplitl [H2]; · iexact H2
      iexact HO
    isplitl [Hl]; · iexact Hl
    iexact Hg
  · iintro %_ ⟨Hb, H1, H2, ⟨%W', %hW', HO⟩⟩
    isplitl [Hb]; · iexact Hb
    isplitl [H1]; · iexact H1
    isplitl [H2]; · iexact H2
    iexists W'
    isplitr
    · ipureintro
      intro p hp
      rcases hW' p hp with h | h
      · exact hW p h
      · show (sc (F := F)).lev _ p.2 ≤ b
        rw [h]; exact Nat.zero_le _
    iexact HO

end Cert.Proof.WRegion

end
-- ==== Proof.WRegionGlue.lean ====
/-
  The TensorCore region's rule, in the form @main's proof asks of the region.

  The region leaves the packed table holding the TRANSPOSED table in the pack layout; read through the transposition
  that is the pack layout of the table itself, which is what the SparseCore call is handed.
-/
import proofs.«206325_g16862041604593_cont_week2b_1534_42_alg».proof.Proof.WRun
import proofs.«206325_g16862041604593_cont_week2b_1534_42_alg».proof.Proof.WRegionValue

noncomputable section

namespace Cert.Proof.WClaims

open Cert.Kernel Cert.Kernel.Gen
open Cert.Proof.WLaunch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The region's rule, at the launch's resource algebra and levels, is what @main's proof asks of the region: the
    packed layout of the transposed table, read through the transposition, is the packed layout of the table. -/
theorem regionOK : RegionOK (F := F) (Cert.Proof.WRegion.ghost (EP (F := F))) := by
  intro d t1 v2 O b hO
  refine (Cert.Proof.WRegion.wp_pack_below (t1 := t1) (v2 := v2) (O := O) (lv := (K (F := F)).lev) (EP := EP (F := F)) 𝒱₀ hO
    (by sl_refines_lev) b d).trans (wp_mono frame _ Set.univ fun _ => ?_)
  iintro ⟨Hb, H1, ⟨%tp, %htp, H2⟩, HO⟩
  isplitl [Hb]; · iexact Hb
  isplitl [H1]; · iexact H1
  isplitl [H2]
  · iexists tp
    isplitr; · ipureintro; exact fun tab h => Cert.Proof.WRegion.PackedT.packOK h htp
    iexact H2
  iexact HO

end Cert.Proof.WClaims

end
-- ==== Proof.WFrame.lean ====
/-
  The launch for the frame alone: the same program and the same handshakes, but the SparseCore kernel's body is
  only known to hand its output chunks back at SOME contents. The call then returns the output at contents not named,
  the last transpose leaves the result at contents not named, and what the run establishes is termination with the two
  arguments unchanged.
-/
import proofs.«206325_g16862041604593_cont_week2b_1534_42_alg».proof.Proof.WRun

noncomputable section

namespace Cert.Proof.WLaunch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)
open Idealize.ShloMosaic.StableHlo (held held_split held_sdiff_result wp_hlo_within)
open Idealize.ShloMosaic.StableHlo (devRef_ne_of_ne unary_result unary_result_ne)
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The call's handshakes for the frame: the output chunks come back at contents not named -/

/-- Worker `w`'s 200 output chunks, each whole at the full share, at some contents. -/
def chunksE (d : Dev nD) (w : Nat) : sProp 𝕄 :=
  bigSep (Finset.univ : Finset (Fin 200)) fun t => iprop(∃ f : Buf (Elt F) (outLoc d), outLoc d ↦[Cert.Spec.chunkSet (200 * w + t.val)]{fullShare} f)

def dnOfF (d : Dev nD) (c : Fin 2) : sProp 𝕄 := bigSep (Finset.univ : Finset (Fin 16)) fun i => chunksE (F := F) d (widOf c i)
def tdOfF (d : Dev nD) (c : Fin 2) (i : Fin 16) : sProp 𝕄 := chunksE (F := F) d (widOf c i)

omit [FloatOps F] in
instance chunksE_storable (d : Dev nD) (w : Nat) : BI.Storable (upEmb : UEmb _ 𝕄) (chunksE (F := F) d w) := by
  unfold chunksE; infer_instance
omit [FloatOps F] in
instance dnOfF_storable (d : Dev nD) (c : Fin 2) : BI.Storable (upEmb : UEmb _ 𝕄) (dnOfF (F := F) d c) := by
  unfold dnOfF; infer_instance
omit [FloatOps F] in
instance tdOfF_storable (d : Dev nD) (c : Fin 2) (i : Fin 16) : BI.Storable (upEmb : UEmb _ 𝕄) (tdOfF (F := F) d c i) := by
  unfold tdOfF; infer_instance

/-- Call 0's payloads for the frame: operands as before, the chunks back at contents not named. -/
def PF : (K (F := F)).Pay (nD := nD) (Val := Elt F) (Name := ℕ) (U := UU) where
  st := fun q d c => stOf m d (Fin.cast (nCore_eq q) c)
  dn := fun q d c => dnOfF d (Fin.cast (nCore_eq q) c)
  go := fun q d c i => goOf m d (Fin.cast (nCore_eq q) c) (Fin.cast (nSub_eq q) i)
  td := fun q d c i => tdOfF d (Fin.cast (nCore_eq q) c) (Fin.cast (nSub_eq q) i)
  x := fun _ _ => iprop(emp)

omit [FloatOps F] in
theorem PF_st (q : Fin 1) (d : Dev nD) (c : Fin ((K (F := F)).nCore q)) : (PF m).st q d c = stOf m d (Fin.cast (nCore_eq q) c) := rfl
omit [FloatOps F] in
theorem PF_dn (q : Fin 1) (d : Dev nD) (c : Fin ((K (F := F)).nCore q)) : (PF m).dn q d c = dnOfF d (Fin.cast (nCore_eq q) c) := rfl
omit [FloatOps F] in
theorem PF_go (q : Fin 1) (d : Dev nD) (c : Fin ((K (F := F)).nCore q)) (i : Fin ((K (F := F)).nSub q)) :
    (PF m).go q d c i = goOf m d (Fin.cast (nCore_eq q) c) (Fin.cast (nSub_eq q) i) := rfl
omit [FloatOps F] in
theorem PF_td (q : Fin 1) (d : Dev nD) (c : Fin ((K (F := F)).nCore q)) (i : Fin ((K (F := F)).nSub q)) :
    (PF m).td q d c i = tdOfF d (Fin.cast (nCore_eq q) c) (Fin.cast (nSub_eq q) i) := rfl
omit [FloatOps F] in
theorem PF_x (q : Fin 1) (thr : Thread nD τ) : (PF m).x q thr = iprop(emp) := rfl

omit [FloatOps F] in
instance PF_storable : (PF (F := F) m).IsStorable where
  st _ d c := by rw [PF_st]; infer_instance
  dn _ d c := by rw [PF_dn]; infer_instance
  go _ _ _ _ := by rw [PF_go]; infer_instance
  td _ _ _ _ := by rw [PF_td]; infer_instance

omit [FloatOps F] in
/-- The sequencer's split, for the frame. -/
theorem vecSplitF : (K (F := F)).VecSplit' (PF m) 0 := by
  intro d c
  rw [PF_st, PF_dn]
  simp only [PF_go, PF_td]
  rw [bigSep_tasks (F := F) (fun i => goOf m d (Fin.cast (nCore_eq 0) c) i), bigSep_tasks (F := F) (fun i => tdOfF d (Fin.cast (nCore_eq 0) c) i)]
  generalize Fin.cast (nCore_eq 0) c = c'
  unfold stOf goOf tdOfF dnOfF
  rw [bigSep_sep']
  iintro ⟨Hr, Hch⟩
  imodintro
  isplitl [Hr Hch]
  · isplitl [Hr]; · iapply (reads_split m d (qC c') 16); iexact Hr
    iexact Hch
  · iintro H; iexact H

omit [FloatOps F] in
/-- The call's operands from the whole arrays, for the frame. -/
theorem st_introF (d : Dev nD) (tp : Buf (Elt F) (tabLoc d)) (hp : Cert.Spec.PackOK (tIn m d) tp) :
    iprop((tabLoc d ↦{fullShare} tp) ∗ (xtLoc d ↦{fullShare} xT m d) ∗ (outLoc d ↦{fullShare} m (outLoc d)))
      ⊢ (bigSep Finset.univ fun c : Fin ((K (F := F)).nCore 0) => (PF m).st 0 d c : sProp 𝕄) := by
  simp only [PF_st]
  rw [bigSep_cores (F := F) (fun c => stOf m d c)]
  unfold stOf
  rw [bigSep_sep', out_chunks]
  iintro ⟨Ht, Hx, Ho⟩
  isplitl [Ht Hx]
  · iapply (reads_intro m d fullShare 2 tp hp)
    isplitl [Ht]; · iexact Ht
    iexact Hx
  · iexact Ho

set_option maxRecDepth 100000 in
omit [FloatOps F] in
/-- The 6400 chunks, each at some contents, by worker. -/
theorem chunksE_all (d : Dev nD) :
    (bigSep (Finset.univ : Finset (Fin 2 × Fin 16 × Fin 200)) fun x => iprop(∃ f : Buf (Elt F) (outLoc d), outLoc d ↦[Cert.Spec.chunkSet (chunkNo x)]{fullShare} f) : sProp 𝕄)
      = bigSep (Finset.univ : Finset (Fin 2)) fun c => bigSep (Finset.univ : Finset (Fin 16)) fun i => chunksE (F := F) d (widOf c i) := by
  unfold chunksE
  rw [← Finset.univ_product_univ, SparseCore.bigSep_product]
  refine bigSep_congr fun c _ => ?_
  rw [← Finset.univ_product_univ, SparseCore.bigSep_product]
  try rfl

set_option maxRecDepth 100000 in
omit [FloatOps F] in
/-- The 32 workers' chunks, each at some contents, are the whole output at some contents. -/
theorem out_join (d : Dev nD) (f₀ : Buf (Elt F) (outLoc d)) :
    (bigSep (Finset.univ : Finset (Fin 2)) fun c => bigSep (Finset.univ : Finset (Fin 16)) fun i => chunksE (F := F) d (widOf c i))
      ⊢ (iprop(∃ f : Buf (Elt F) (outLoc d), outLoc d ↦{fullShare} f) : sProp 𝕄) := by
  rw [← chunksE_all]
  haveI : Nonempty (Buf (Elt F) (outLoc d)) := ⟨f₀⟩
  refine toEnt (BI.Entails.trans (bigSep_exists_pi Finset.univ (fun (x : Fin 2 × Fin 16 × Fin 200) (f : Buf (Elt F) (outLoc d)) =>
    (outLoc d ↦[Cert.Spec.chunkSet (chunkNo x)]{fullShare} f : sProp 𝕄))) (toEnt ?_))
  iintro ⟨%fs, H⟩
  ihave H' := (pointsTo_biUnion_join Finset.univ (fun x => Cert.Spec.chunkSet (chunkNo x)) fs f₀
    (fun x _ y _ h => chunk_disjoint (fun e => h (chunkNo_inj e)))) $$ H
  icases H' with ⟨%g, -, Hg⟩
  rw [chunk_cover]
  iexists g; iexact Hg

omit [FloatOps F] in
/-- What the two SparseCores hand back, for the frame, is the output whole at some contents. -/
theorem dn_elimF (d : Dev nD) :
    (bigSep Finset.univ fun c : Fin ((K (F := F)).nCore 0) => (PF m).dn 0 d c : sProp 𝕄) ⊢ (iprop(∃ f : Buf (Elt F) (outLoc d), outLoc d ↦{fullShare} f) : sProp 𝕄) := by
  simp only [PF_dn]
  rw [bigSep_cores (F := F) (fun c => dnOfF d c)]
  unfold dnOfF
  exact out_join d (m (outLoc d))

omit [FloatOps F] in
/-- The launch element, for the frame's payloads. -/
theorem hu₀F (Gh : Dev nD → sProp 𝕄) (c₀ : UP) (hfund : (BI.own (EP (F := F) c₀) : sProp 𝕄) ⊢ iprop(|==> bigSep Finset.univ Gh)) :
    (ownU (u₀ (F := F) c₀) : sProp 𝕄)
      ⊢ |={Set.univ}=> iprop(BI.own (EH (initOf (K (F := F)).hsCells (K (F := F)).hsToks)) ∗ (bigSep Finset.univ Gh)
        ∗ bigSep Finset.univ fun thr : Thread nD τ => bigSep Finset.univ fun q : Fin 1 => (PF m).x q thr) := by
  unfold u₀
  iintro Hu
  ihave H := (ownU_split _ _ _) $$ Hu
  icases H with ⟨HH, HP⟩
  imod hfund $$ HP with HG
  imodintro
  isplitl [HH]; · iexact HH
  isplitl [HG]; · iexact HG
  simp only [PF_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What @main leaves the frame: the two arguments at their launch contents. -/
abbrev FINF (d : Dev nD) : sProp 𝕄 := iprop((a0Loc d ↦{fullShare} m (a0Loc d)) ∗ (a1Loc d ↦{fullShare} m (a1Loc d)))

/-- @main on device `d`'s TensorCore, for the frame: as before, but the call's output comes back at contents not
    named, so the last transpose leaves the result at contents not named; the two arguments kept throughout. -/
theorem hmainF (Gh : Dev nD → sProp 𝕄) (hpack : RegionOK (F := F) Gh) (κ : GSem nD τ sig → ℕ) (d : Dev nD) :
    iprop((K (F := F)).ctx EH (PF m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FINF m d) := by
  obtain ⟨R, hR⟩ := tcSt_split (F := F) d 0
  unfold SparseCore.Cfg.tcRes
  rw [unscopedBufs_eq]
  simp only [main, wp_bind, wp_pure]
  iintro ⟨#Hctx, Hst, ⟨Hb, ⟨Ha0, Ha1, Hv0, Hv1, Hv2, Hv3, Hv4⟩, -, -⟩, HG⟩
  ihave Hlev := (SparseCore.Cfg.ctx_levAts κ) $$ Hctx
  -- the indices transposed
  iapply (wp_unary m d main_arg0 main_v0 (by decide) _ _ _ (m (a0Loc d)) (m (xtLoc d))) $$ [Hb Ha0 Hv0]
  · isplitl [Hb]; · iexact Hb
    isplitl [Ha0]; · iexact Ha0
    iexact Hv0
  iintro ⟨Hb, Ha0, Hv0⟩
  rw [wp_ret]; imodintro
  -- the table transposed
  iapply (wp_unary m d main_arg1 main_v1 (by decide) _ _ _ (m (a1Loc d)) (m (t1Loc d))) $$ [Hb Ha1 Hv1]
  · isplitl [Hb]; · iexact Hb
    isplitl [Ha1]; · iexact Ha1
    iexact Hv1
  iintro ⟨Hb, Ha1, Hv1⟩
  rw [wp_ret]; imodintro
  -- the region: the packed table
  ihave Hst' := (Entails.of_eq hR) $$ Hst
  icases Hst' with ⟨HO, HR⟩
  iapply (wp_wand_r frame _ Set.univ)
  isplitl [Hb Hv1 Hv2 HO Hlev HG]
  · iapply (hpack d (tT m d) (m (tabLoc d)) _ _ (Otc_none d))
    isplitl [Hb]; · iexact Hb
    isplitl [Hv1]; · iexact Hv1
    isplitl [Hv2]; · iexact Hv2
    isplitl [HO]; · iexact HO
    isplitl [Hlev]; · iexact Hlev
    iexact HG
  iintro %_ ⟨Hb, Hv1, ⟨%tp, %hp, Hv2⟩, HO⟩
  -- the call
  iapply ((K (F := F)).wp_run (D (F := F)) 𝒱 (EH := EH) (P := PF m) κ d 0)
  isplitr; · iexact Hctx
  isplitl [HO HR]
  · iapply (Entails.of_eq hR.symm)
    isplitl [HO]; · iexact HO
    iexact HR
  isplitl [Hv0 Hv2 Hv3]
  · iapply (st_introF m d tp (hp _ (tT_apply m d)))
    isplitl [Hv2]; · iexact Hv2
    isplitl [Hv0]; · iexact Hv0
    iexact Hv3
  iintro ⟨Hst, Hdn⟩
  ihave Hv3' := (dn_elimF m d) $$ Hdn
  icases Hv3' with ⟨%g3, Hv3⟩
  -- the output's first two axes exchanged
  iapply (wp_unary m d main_v3 main_v4 (by decide) _ _ _ g3 (m (resLoc d))) $$ [Hb Hv3 Hv4]
  · isplitl [Hb]; · iexact Hb
    isplitl [Hv3]; · iexact Hv3
    iexact Hv4
  iintro ⟨Hb, Hv3, Hv4⟩
  rw [wp_ret]; imodintro; imodintro
  isplitl [Hst]; · iexact Hst
  isplitl [Ha0]; · iexact Ha0
  iexact Ha1

def fqF (d : Dev nD) (s' : Phys nD τ sig (Elt F)) : Prop :=
  s'.mem.mem (a0Loc d) = m (a0Loc d) ∧ s'.mem.mem (a1Loc d) = m (a1Loc d)

omit [FloatOps F] in
theorem hfinF (d : Dev nD) (s' : Phys nD τ sig (Elt F)) : iprop(FINF m d ∗ SI s') ⊢ (⌜fqF m d s'⌝ : sProp 𝕄) := by
  iintro ⟨⟨Ha0, Ha1⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (SI_pointsTo_agree (st := s') (ℓ := a1Loc d) (I := Finset.univ) (q := fullShare) (f := m (a1Loc d))) $$ [HSI Ha1]
  · isplitl [HSI] <;> iassumption
  icases H with %h1
  ipureintro
  exact ⟨funext fun i => h0 i (Finset.mem_univ i), funext fun i => h1 i (Finset.mem_univ i)⟩

/-- What the frame of the SparseCore kernel's body supplies: the same task, its 200 output chunks coming back at
    contents not named. -/
def BodyOKF : Prop :=
  ∀ (d : Dev nD) (L : grid1.Coords) (q q' : PosShare TreeShare) (tab : FVec F S1000000x64 .f32) (x : IVec S16384x50 32)
    (tp : Buf (Elt F) (tabLoc d)) (xt : Buf (Elt F) (xtLoc d)) (fo : Buf (Elt F) (outLoc d)),
    (∀ j, (x j).toNat ≤ 999999) → (∀ (h : Fin 50) (b : Fin 16384), xt (ix2 h b) = x (ix2 b h)) → Cert.Spec.PackOK tab tp →
    ∀ (O : CellTallies nD τ sig (HIx 1)) (W : Waits sig (HIx 1)), (∀ g, O g none = 0) →
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * (2 * (L 1).val + (L 0).val) + t.val)]{fullShare} fo)
        ∗ scopedBufs (V d ((L 0).castLE Facts₀.hcore1) ((L 1).castLE Facts₀.hsub1)) ∗ scopedSems0 (V d ((L 0).castLE Facts₀.hcore1) ((L 1).castLE Facts₀.hsub1))
        ∗ owes (V d ((L 0).castLE Facts₀.hcore1) ((L 1).castLE Facts₀.hsub1)) O W)
      ⊢ wp (M := 𝕄) frame (wpE (defs₀ (F := F)) 𝒱₀ (V d ((L 0).castLE Facts₀.hcore1) ((L 1).castLE Facts₀.hsub1)) none) Set.univ
          (cc1_k L (Memref.whole main_v2_scv) (Memref.isWhole_whole _) (Memref.whole main_v0_scv) (Memref.isWhole_whole _)
            (Memref.whole main_v3_scv) (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4 cc1_scratch5 cc1_scratch6)
          fun _ => iprop((tabLoc d ↦{q} tp) ∗ (xtLoc d ↦{q'} xt)
            ∗ (bigSep (Finset.univ : Finset (Fin 200)) fun t => iprop(∃ f : Buf (Elt F) (outLoc d), outLoc d ↦[Cert.Spec.chunkSet (200 * (2 * (L 1).val + (L 0).val) + t.val)]{fullShare} f))
            ∗ scopedBufs (V d ((L 0).castLE Facts₀.hcore1) ((L 1).castLE Facts₀.hsub1)) ∗ scopedSems0 (V d ((L 0).castLE Facts₀.hcore1) ((L 1).castLE Facts₀.hsub1))
            ∗ ∃ W', ⌜∀ p ∈ W', p ∈ W ∨ p.2 = none⌝ ∗ owes (V d ((L 0).castLE Facts₀.hcore1) ((L 1).castLE Facts₀.hsub1)) O W')

/-- `TileObl` at call 0 for the frame: the same, the chunks handed back at contents not named. -/
theorem tileOblF (hx : ∀ (d : Dev nD) j, (xIn m d j).toNat ≤ 999999) (hbody : BodyOKF (F := F)) :
    (K (F := F)).TileObl (D (F := F)) 𝒱 (PF m) v₀ 0 := by
  intro d c i O W hO _ _
  simp only [show (PF m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  rw [PF_go, PF_td]
  unfold goOf tdOfF reads chunks chunksE
  refine toEnt ?_
  iintro ⟨#Hlv, -, ⟨⟨%tp, %hp, Ht, Hx⟩, Hch⟩, Hsb, Hss, HO⟩
  iapply (wp_wand_r frame _ Set.univ)
  isplitl [Ht Hx Hch Hsb Hss HO]
  · iapply (hbody d (coordsV ⟨_, hc.1⟩ ⟨_, hc.2⟩) _ _ (tIn m d) (xIn m d) tp (xT m d) (m (outLoc d)) (hx d) (xT_apply m d) hp O W hO)
    isplitr; · iexact Hlv
    isplitl [Ht]; · iexact Ht
    isplitl [Hx]; · iexact Hx
    isplitl [Hch]; · iexact Hch
    isplitl [Hsb]; · iexact Hsb
    isplitl [Hss]; · iexact Hss
    iexact HO
  iintro %_ ⟨-, -, Hch, Hsb, Hss, %W', %hW', HO⟩
  isplitl [Hch]; · iexact Hch
  isplitl [Hsb]; · iexact Hsb
  isplitl [Hss]; · iexact Hss
  iexists W'; isplitr
  · ipureintro; exact fun p hp => (hW' p hp).imp_right Or.inl
  · iexact HO

/-! ## The program's run, for the frame -/

/-- The frame's post: the two arguments unchanged. -/
def QF : PUnit × MemSt nD τ sig (Elt F) → Prop := fun r => ∀ c : Dev nD,
  r.2.mem ((c.tc : Thread nD τ).loc main_arg0) = m ((c.tc : Thread nD τ).loc main_arg0)
    ∧ r.2.mem ((c.tc : Thread nD τ).loc main_arg1) = m ((c.tc : Thread nD τ).loc main_arg1)

/-- The launch theorem at this program, from the body's frame. -/
theorem run_frame [∀ e, Nonempty (Elt F e)]
    (hx : ∀ (d : Dev nD) j, (m ((SparseCore.T d).loc main_arg0) j).toNat ≤ 999999)
    (hbody : BodyOKF (F := F))
    (Gh : Dev nD → sProp 𝕄) (c₀ : UP) (hfund : (BI.own (EP (F := F) c₀) : sProp 𝕄) ⊢ iprop(|==> bigSep Finset.univ Gh))
    (hpack : RegionOK (F := F) Gh) :
    θ_run (Cert.Kernel.defs (F := F)) (Cert.Kernel.threads (F := F)) ⟨m, fun _ => 0, ρ⟩ (QF m) :=
  SparseCore.Cfg.θ_run_sc (K := K (F := F)) (D := D (F := F)) (𝒱 := 𝒱) (EH := EH) (P := PF m) facts v₀
    (fun q hq => match q with | 0 => nomatch hq)
    (fun q _ => match q with | 0 => tileOblF m hx hbody)
    (fun q _ => match q with | 0 => SparseCore.Cfg.VecSplit.of_plain (vecSplitF m))
    m ρ main Gh (FINF m) (u₀ (F := F) c₀) (sep_elim_left.trans (hu₀F m Gh c₀ hfund)) (hmainF m ρ Gh hpack) (fqF m) (hfinF m) (QF m) (fun _ h => h)

end Cert.Proof.WLaunch

end
-- ==== Proof.WBodyChunkOff.lean ====
/-
  The SparseCore kernel's chunk arithmetic in closed form.

  The 32 workers (2 cores × 16 subcores; worker `w` = subcore · 2 + core) each handle 200 consecutive chunks of the 6400:
  worker `w` has chunks `200 w … 200 w + 199`. Chunk `g` is history position `g / 128` and batch positions
  `128 (g % 128) … 128 (g % 128) + 127`. The kernel computes the word `g` from the grid point and the loop trip
  (`200 w` plus the trip, plus 5 or minus 4, or plus a literal) and splits it by a signed floor division by 128 and
  the remainder times 128. Every offset chain of the kernel's HBM slices is that one split applied to its word; the
  split is the natural-number one at every word the kernel forms (below 6409), by evaluation, and no word overflows.
-/
import proofs.«206325_g16862041604593_cont_week2b_1534_42_alg».proof.Kernel
import Idealize.ShloMosaic.Lib.Exec

set_option Elab.async false

noncomputable section

namespace Cert.Proof.WBody

open Cert.Kernel
open Idealize.ShloMosaic

/-- The worker number of the subcore at grid point `i`: subcore times two plus core. -/
abbrev wid (i : grid1.Coords) : Nat := 2 * (i 1).val + (i 0).val

theorem wid_lt (i : grid1.Coords) : wid i < 32 := by
  have h0 : (i 0).val < 2 := (i 0).isLt
  have h1 : (i 1).val < 16 := (i 1).isLt
  show 2 * (i 1).val + (i 0).val < 32
  omega

theorem cond1_iff : ∀ k : Fin k1_t1_loop.trips, k1_cond1 k = 1#1 ↔ k.val < 200 := by decide +kernel
theorem cond2_iff : ∀ k : Fin k1_t1_loop.trips, k1_cond2 k = 1#1 ↔ k.val < 195 := by decide +kernel
theorem cond3_iff : ∀ k : Fin k1_t1_loop.trips, k1_cond3 k = 1#1 ↔ 4 ≤ k.val := by decide +kernel
theorem cond4_iff : ∀ k : Fin k1_t1_loop.trips, k1_cond4 k = 1#1 ↔ 6 ≤ k.val := by decide +kernel

/-! ## The split of a chunk word -/

/-- A chunk word split as the kernel splits it: the signed floor quotient by 128, and 128 times the remainder. -/
def splitOff (v : BitVec 32) : Fin 2 → Nat :=
  let c0_i32_162 : BitVec 32 := 0#32
  let v358 : BitVec 1 := Scalar.cmpi .sgt v c0_i32_162
  let v359 : BitVec 32 := Scalar.extui v358
  let c0_i32_163 : BitVec 32 := 0#32
  let v360 : BitVec 1 := Scalar.cmpi .slt v c0_i32_163
  let v361 : BitVec 32 := Scalar.extui v360
  let v362 : BitVec 32 := Scalar.subi v359 v361
  let c128_i32_161 : BitVec 32 := 128#32
  let c0_i32_164 : BitVec 32 := 0#32
  let v363 : BitVec 1 := Scalar.cmpi .sgt c128_i32_161 c0_i32_164
  let v364 : BitVec 32 := Scalar.extui v363
  let c0_i32_165 : BitVec 32 := 0#32
  let v365 : BitVec 1 := Scalar.cmpi .slt c128_i32_161 c0_i32_165
  let v366 : BitVec 32 := Scalar.extui v365
  let v367 : BitVec 32 := Scalar.subi v364 v366
  let v368 : BitVec 1 := Scalar.cmpi .ne v362 v367
  let v369 : BitVec 32 := Scalar.remsi v c128_i32_161
  let c0_i32_166 : BitVec 32 := 0#32
  let v370 : BitVec 1 := Scalar.cmpi .ne v369 c0_i32_166
  let v371 : BitVec 1 := Scalar.andi v368 v370
  let v357 : BitVec 32 := Scalar.divsi v c128_i32_161
  let c1_i32_167 : BitVec 32 := 1#32
  let v372 : BitVec 32 := Scalar.subi v357 c1_i32_167
  let v373 : BitVec 32 := Scalar.select v371 v372 v357
  let c0_i32_169 : BitVec 32 := 0#32
  let v375 : BitVec 1 := Scalar.cmpi .sgt v c0_i32_169
  let v376 : BitVec 32 := Scalar.extui v375
  let c0_i32_170 : BitVec 32 := 0#32
  let v377 : BitVec 1 := Scalar.cmpi .slt v c0_i32_170
  let v378 : BitVec 32 := Scalar.extui v377
  let v379 : BitVec 32 := Scalar.subi v376 v378
  let c128_i32_168 : BitVec 32 := 128#32
  let c0_i32_171 : BitVec 32 := 0#32
  let v380 : BitVec 1 := Scalar.cmpi .sgt c128_i32_168 c0_i32_171
  let v381 : BitVec 32 := Scalar.extui v380
  let c0_i32_172 : BitVec 32 := 0#32
  let v382 : BitVec 1 := Scalar.cmpi .slt c128_i32_168 c0_i32_172
  let v383 : BitVec 32 := Scalar.extui v382
  let v384 : BitVec 32 := Scalar.subi v381 v383
  let v385 : BitVec 1 := Scalar.cmpi .ne v379 v384
  let v386 : BitVec 32 := Scalar.remsi v c128_i32_168
  let c0_i32_173 : BitVec 32 := 0#32
  let v387 : BitVec 1 := Scalar.cmpi .ne v386 c0_i32_173
  let v388 : BitVec 1 := Scalar.andi v385 v387
  let v374 : BitVec 32 := Scalar.divsi v c128_i32_168
  let c1_i32_174 : BitVec 32 := 1#32
  let v389 : BitVec 32 := Scalar.subi v374 c1_i32_174
  let v390 : BitVec 32 := Scalar.select v388 v389 v374
  let c128_i32_175 : BitVec 32 := 128#32
  let v391 : BitVec 32 := Scalar.muli v390 c128_i32_175
  let v392 : BitVec 32 := Scalar.subi v v391
  let c128_i32_176 : BitVec 32 := 128#32
  let v393 : BitVec 32 := Scalar.muli v392 c128_i32_176
  ![v373.toNat, v393.toNat]

/-- At every word the kernel forms the split is the natural-number one. -/
theorem splitOff_ofNat : ∀ (g : Fin 6409) (a : Fin 2),
    splitOff (BitVec.ofNat 32 g.val) a = (![g.val / 128, 128 * (g.val % 128)] : Fin 2 → Nat) a := by
  decide +kernel

theorem splitOff_eq (g : Nat) (hg : g < 6409) :
    splitOff (BitVec.ofNat 32 g) = ![g / 128, 128 * (g % 128)] :=
  funext (splitOff_ofNat ⟨g, hg⟩)

/-! ## The chunk words -/

/-- The worker's first chunk, as the kernel computes it. -/
def baseWord (i : grid1.Coords) : BitVec 32 :=
  Scalar.muli (Scalar.addi (Scalar.muli (BitVec.ofNat 32 (i 1).val) 2#32) (BitVec.ofNat 32 (i 0).val)) 200#32

theorem baseWord_eq : ∀ i : grid1.Coords, baseWord i = BitVec.ofNat 32 (200 * wid i) := by decide +kernel

/-- The loop's variable at a trip is the trip. -/
theorem iv_eq : ∀ k : Fin k1_t1_loop.trips, Scf.iv 0#32 1#32 k.val = BitVec.ofNat 32 k.val := by decide +kernel

/-- From trip 4 on, the trip less four does not wrap. -/
theorem iv_sub4_eq : ∀ k : Fin k1_t1_loop.trips, 4 ≤ k.val →
    Scalar.subi (Scf.iv 0#32 1#32 k.val) 4#32 = BitVec.ofNat 32 (k.val - 4) := by decide +kernel

theorem addi_ofNat (a b : Nat) : Scalar.addi (BitVec.ofNat 32 a) (BitVec.ofNat 32 b) = BitVec.ofNat 32 (a + b) :=
  (BitVec.ofNat_add a b).symm

/-! ## The offset chains in closed form -/

theorem off3_eq (i : grid1.Coords) (k : Fin k1_t1_loop.trips) :
    k1_off3 i k = ![(200 * wid i + k.val) / 128, 128 * ((200 * wid i + k.val) % 128)] := by
  have hw := wid_lt i
  have hk : k.val < 204 := k.isLt
  show splitOff (Scalar.addi (baseWord i) (Scf.iv 0#32 1#32 k.val)) = _
  rw [baseWord_eq, iv_eq, addi_ofNat]
  exact splitOff_eq _ (by omega)

theorem off25_eq (i : grid1.Coords) (k : Fin k1_t1_loop.trips) :
    k1_off25 i k = ![(200 * wid i + k.val + 5) / 128, 128 * ((200 * wid i + k.val + 5) % 128)] := by
  have hw := wid_lt i
  have hk : k.val < 204 := k.isLt
  show splitOff (Scalar.addi (baseWord i) (Scalar.addi (Scf.iv 0#32 1#32 k.val) (BitVec.ofNat 32 5))) = _
  rw [baseWord_eq, iv_eq, addi_ofNat, addi_ofNat, ← Nat.add_assoc]
  exact splitOff_eq _ (by omega)

theorem off425_eq (i : grid1.Coords) (k : Fin k1_t1_loop.trips) (h3 : k1_cond3 k = 1#1) :
    k1_off425 i k = ![(200 * wid i + k.val - 4) / 128, 128 * ((200 * wid i + k.val - 4) % 128), 0] := by
  have hw := wid_lt i
  have hk : k.val < 204 := k.isLt
  have h4 : 4 ≤ k.val := (cond3_iff k).1 h3
  have hs : splitOff (Scalar.addi (baseWord i) (Scalar.subi (Scf.iv 0#32 1#32 k.val) 4#32))
      = ![(200 * wid i + k.val - 4) / 128, 128 * ((200 * wid i + k.val - 4) % 128)] := by
    rw [baseWord_eq, iv_sub4_eq k h4, addi_ofNat, show 200 * wid i + (k.val - 4) = 200 * wid i + k.val - 4 from by omega]
    exact splitOff_eq _ (by omega)
  funext a
  match a with
  | ⟨0, _⟩ => exact congrFun hs 0
  | ⟨1, _⟩ => exact congrFun hs 1
  | ⟨2, _⟩ => rfl

theorem off1_eq (i : grid1.Coords) (r : Fin 5) :
    k1_off1 i (BitVec.ofNat 32 r.val) = ![(200 * wid i + r.val) / 128, 128 * ((200 * wid i + r.val) % 128)] := by
  have hw := wid_lt i
  have hr : r.val < 5 := r.isLt
  show splitOff (Scalar.addi (baseWord i) (BitVec.ofNat 32 r.val)) = _
  rw [baseWord_eq, addi_ofNat]
  exact splitOff_eq _ (by omega)

theorem off427_eq (i : grid1.Coords) (r : Fin 2) :
    k1_off427 i (BitVec.ofNat 32 (198 + r.val))
      = ![(200 * wid i + 198 + r.val) / 128, 128 * ((200 * wid i + 198 + r.val) % 128), 0] := by
  have hw := wid_lt i
  have hr : r.val < 2 := r.isLt
  have hs : splitOff (Scalar.addi (baseWord i) (BitVec.ofNat 32 (198 + r.val)))
      = ![(200 * wid i + 198 + r.val) / 128, 128 * ((200 * wid i + 198 + r.val) % 128)] := by
    rw [baseWord_eq, addi_ofNat, ← Nat.add_assoc]
    exact splitOff_eq _ (by omega)
  funext a
  match a with
  | ⟨0, _⟩ => exact congrFun hs 0
  | ⟨1, _⟩ => exact congrFun hs 1
  | ⟨2, _⟩ => rfl

/-- The same, entry by entry. -/
theorem off3_apply (i : grid1.Coords) (k : Fin k1_t1_loop.trips) (a : Fin 2) :
    k1_off3 i k a = (![(200 * wid i + k.val) / 128, 128 * ((200 * wid i + k.val) % 128)] : Fin 2 → Nat) a :=
  congrFun (off3_eq i k) a
theorem off25_apply (i : grid1.Coords) (k : Fin k1_t1_loop.trips) (a : Fin 2) :
    k1_off25 i k a = (![(200 * wid i + k.val + 5) / 128, 128 * ((200 * wid i + k.val + 5) % 128)] : Fin 2 → Nat) a :=
  congrFun (off25_eq i k) a
theorem off425_apply (i : grid1.Coords) (k : Fin k1_t1_loop.trips) (h3 : k1_cond3 k = 1#1) (a : Fin 3) :
    k1_off425 i k a
      = (![(200 * wid i + k.val - 4) / 128, 128 * ((200 * wid i + k.val - 4) % 128), 0] : Fin 3 → Nat) a :=
  congrFun (off425_eq i k h3) a
theorem off1_apply (i : grid1.Coords) (r : Fin 5) (a : Fin 2) :
    k1_off1 i (BitVec.ofNat 32 r.val) a
      = (![(200 * wid i + r.val) / 128, 128 * ((200 * wid i + r.val) % 128)] : Fin 2 → Nat) a :=
  congrFun (off1_eq i r) a
theorem off427_apply (i : grid1.Coords) (r : Fin 2) (a : Fin 3) :
    k1_off427 i (BitVec.ofNat 32 (198 + r.val)) a
      = (![(200 * wid i + 198 + r.val) / 128, 128 * ((200 * wid i + 198 + r.val) % 128), 0] : Fin 3 → Nat) a :=
  congrFun (off427_eq i r) a

end Cert.Proof.WBody

end
-- ==== Proof.WBodyChunks.lean ====
/-
  The chunks of the two HBM operands that the SparseCore kernel's copies name, as sets of entries.

  Each copy names a slice of the transposed index array [50, 16384] or of the output [50, 16384, 64] at offsets the
  kernel computes from the worker and the trip. With the offsets in closed form, the slice of chunk `g` is the rectangle
  "history position `g / 128`, batch positions `128 (g % 128) … + 127`(, all columns)": exactly the entries whose first
  coordinate is `g / 128` and whose second, divided by 128, is `g % 128`. Different chunks share no entry.
-/
import proofs.«206325_g16862041604593_cont_week2b_1534_42_alg».proof.Kernel
import proofs.«206325_g16862041604593_cont_week2b_1534_42_alg».proof.Proof.Spec
import proofs.«206325_g16862041604593_cont_week2b_1534_42_alg».proof.Proof.WBodyChunkOff
import Idealize.ShloMosaic.Lib.SparseCore.Launch
import Idealize.ShloMosaic.Lib.Tactic

noncomputable section

namespace Cert.Proof.WBody

open Cert.Kernel
open Idealize.ShloMosaic
open Idealize.ShloMosaic.SparseCore (S V T)
open Idealize.SL Idealize.SL.RA Idealize.SL.BI
open scoped Idealize.SL.BI
open Idealize.ShloMosaic.ValueIdx

variable {F : FTy → Type} [Cert.Kernel.Facts]

/-! ## The chunks as sets of entries -/

/-- The entries of chunk `g` of the index array as the kernel reads it (transposed): history position `g / 128`, batch
    positions `128 (g % 128) … + 127`. -/
def xChunkSet (g : Nat) : Finset Cert.Spec.SXT.Idx :=
  Finset.univ.filter fun j => (j 0).val = g / 128 ∧ (j 1).val / 128 = g % 128

/-- The rectangle of one history position, 128 batch positions from a multiple of 128 and all 64 columns is chunk `g` of
    the output. -/
theorem unit_set_chunk (g : Nat)
    (inb : ∀ a, (![g / 128, 128 * (g % 128), 0] : Fin 3 → Nat) a + S1x128x64.size a ≤ S50x16384x64.size a) :
    (Rect.unit (s := S50x16384x64) ![g / 128, 128 * (g % 128), 0] S1x128x64.size inb).set = Cert.Spec.chunkSet g := by
  ext j
  rw [Rect.mem_set_unit]
  unfold Cert.Spec.chunkSet
  rw [Finset.mem_filter]
  simp only [Finset.mem_univ, true_and]
  constructor
  · intro h
    have h0 : g / 128 ≤ (j 0).val ∧ (j 0).val < g / 128 + 1 := h 0
    have h1 : 128 * (g % 128) ≤ (j 1).val ∧ (j 1).val < 128 * (g % 128) + 128 := h 1
    omega
  · rintro ⟨h0, h1⟩ a
    have h2 : (j 2).val < 64 := (j 2).isLt
    match a with
    | ⟨0, _⟩ => exact (show g / 128 ≤ (j 0).val ∧ (j 0).val < g / 128 + 1 from by omega)
    | ⟨1, _⟩ => exact (show 128 * (g % 128) ≤ (j 1).val ∧ (j 1).val < 128 * (g % 128) + 128 from by omega)
    | ⟨2, _⟩ => exact (show 0 ≤ (j 2).val ∧ (j 2).val < 0 + 64 from by omega)

/-- The same rectangle with its offsets given up to an equation. -/
theorem unit_set_chunk_of_eq (g : Nat) (off : Fin 3 → Nat) (hoff : off = ![g / 128, 128 * (g % 128), 0])
    (inb : ∀ a, off a + S1x128x64.size a ≤ S50x16384x64.size a) :
    (Rect.unit (s := S50x16384x64) off S1x128x64.size inb).set = Cert.Spec.chunkSet g := by
  subst hoff
  exact unit_set_chunk g inb

/-- The same for the index array: one history position, 128 batch positions from a multiple of 128. -/
theorem unit_set_xChunk (g : Nat)
    (inb : ∀ a, (![g / 128, 128 * (g % 128)] : Fin 2 → Nat) a + S1x128.size a ≤ S50x16384.size a) :
    (Rect.unit (s := S50x16384) ![g / 128, 128 * (g % 128)] S1x128.size inb).set = xChunkSet g := by
  ext j
  rw [Rect.mem_set_unit]
  unfold xChunkSet
  rw [Finset.mem_filter]
  simp only [Finset.mem_univ, true_and]
  constructor
  · intro h
    have h0 : g / 128 ≤ (j 0).val ∧ (j 0).val < g / 128 + 1 := h 0
    have h1 : 128 * (g % 128) ≤ (j 1).val ∧ (j 1).val < 128 * (g % 128) + 128 := h 1
    omega
  · rintro ⟨h0, h1⟩ a
    match a with
    | ⟨0, _⟩ => exact (show g / 128 ≤ (j 0).val ∧ (j 0).val < g / 128 + 1 from by omega)
    | ⟨1, _⟩ => exact (show 128 * (g % 128) ≤ (j 1).val ∧ (j 1).val < 128 * (g % 128) + 128 from by omega)

/-- The same rectangle with its offsets given up to an equation. -/
theorem unit_set_xChunk_of_eq (g : Nat) (off : Fin 2 → Nat) (hoff : off = ![g / 128, 128 * (g % 128)])
    (inb : ∀ a, off a + S1x128.size a ≤ S50x16384.size a) :
    (Rect.unit (s := S50x16384) off S1x128.size inb).set = xChunkSet g := by
  subst hoff
  exact unit_set_xChunk g inb

/-- Two different chunks of the output share no entry: a chunk's number is read off any of its entries. -/
theorem chunkSet_disjoint (g g' : Nat) (h : g ≠ g') (hg : g < 6400) (hg' : g' < 6400) :
    Disjoint (Cert.Spec.chunkSet g) (Cert.Spec.chunkSet g') := by
  rw [Finset.disjoint_left]
  intro j hj hj'
  unfold Cert.Spec.chunkSet at hj hj'
  rw [Finset.mem_filter] at hj hj'
  omega

/-- Two different chunks of the index array share no entry. -/
theorem xChunkSet_disjoint (g g' : Nat) (h : g ≠ g') (hg : g < 6400) (hg' : g' < 6400) :
    Disjoint (xChunkSet g) (xChunkSet g') := by
  rw [Finset.disjoint_left]
  intro j hj hj'
  unfold xChunkSet at hj hj'
  rw [Finset.mem_filter] at hj hj'
  omega

/-! ## The slices the kernel's copies name -/

/-- The output slice a trip writes back into (trips 4 and later). -/
abbrev outW (i : grid1.Coords) (k : Fin k1_t1_loop.trips) (h3 : k1_cond3 k = 1#1) : Memref sig .scVector .hbm S128x64 .f32 :=
  ((Memref.whole main_v3_scv).slice (Rect.unit (s := S50x16384x64) (k1_off425 i k) S1x128x64.size
    (Facts₀.k1_off425_inb i k h3)) (fun _ => rfl)).squeeze S128x64 Facts₀.squeezes_S1x128x64_S128x64

/-- The two output slices awaited after the loop. -/
abbrev outW427 (i : grid1.Coords) (r : Fin 2) : Memref sig .scVector .hbm S128x64 .f32 :=
  ((Memref.whole main_v3_scv).slice (Rect.unit (s := S50x16384x64) (k1_off427 i (BitVec.ofNat 32 (198 + r.val))) S1x128x64.size
    (Facts₀.k1_off427_inb i r)) (fun _ => rfl)).squeeze S128x64 Facts₀.squeezes_S1x128x64_S128x64

/-- The index slice a trip prefetches. -/
abbrev xtW25 (i : grid1.Coords) (k : Fin k1_t1_loop.trips) (h1 : k1_cond1 k = 1#1) (h2 : k1_cond2 k = 1#1) :
    Memref sig .scVector .hbm S128 .i32 :=
  ((Memref.whole main_v0_scv).slice (Rect.unit (s := S50x16384) (k1_off25 i k) S1x128.size
    (Facts₀.k1_off25_inb i k h1 h2)) (fun _ => rfl)).squeeze S128 Facts₀.squeezes_S1x128_S128

/-- The index slice a trip waits for. -/
abbrev xtW3 (i : grid1.Coords) (k : Fin k1_t1_loop.trips) (h1 : k1_cond1 k = 1#1) : Memref sig .scVector .hbm S128 .i32 :=
  ((Memref.whole main_v0_scv).slice (Rect.unit (s := S50x16384) (k1_off3 i k) S1x128.size
    (Facts₀.k1_off3_inb i k h1)) (fun _ => rfl)).squeeze S128 Facts₀.squeezes_S1x128_S128

/-- The five index slices fetched before the loop. -/
abbrev xtW1 (i : grid1.Coords) (r : Fin 5) : Memref sig .scVector .hbm S128 .i32 :=
  ((Memref.whole main_v0_scv).slice (Rect.unit (s := S50x16384) (k1_off1 i (BitVec.ofNat 32 r.val)) S1x128.size
    (Facts₀.k1_off1_inb i r)) (fun _ => rfl)).squeeze S128 Facts₀.squeezes_S1x128_S128

theorem set_outW (i : grid1.Coords) (k : Fin k1_t1_loop.trips) (h3 : k1_cond3 k = 1#1) :
    (outW i k h3).view.set = Cert.Spec.chunkSet (200 * wid i + k.val - 4) := by
  have hoff : k1_off425 i k
      = ![(200 * wid i + k.val - 4) / 128, 128 * ((200 * wid i + k.val - 4) % 128), 0] := funext (off425_apply i k h3)
  show (((View.whole main_v3_scv).slice (Rect.unit (s := S50x16384x64) (k1_off425 i k) S1x128x64.size
    (Facts₀.k1_off425_inb i k h3))).reshape S128x64 Facts₀.squeezes_S1x128x64_S128x64.numel_eq).set = _
  rw [View.set_reshape, View.set_slice_whole]
  exact unit_set_chunk_of_eq _ _ hoff _

theorem set_outW427 (i : grid1.Coords) (r : Fin 2) :
    (outW427 i r).view.set = Cert.Spec.chunkSet (200 * wid i + 198 + r.val) := by
  have hoff : k1_off427 i (BitVec.ofNat 32 (198 + r.val))
      = ![(200 * wid i + 198 + r.val) / 128, 128 * ((200 * wid i + 198 + r.val) % 128), 0] := funext (off427_apply i r)
  show (((View.whole main_v3_scv).slice (Rect.unit (s := S50x16384x64) (k1_off427 i (BitVec.ofNat 32 (198 + r.val))) S1x128x64.size
    (Facts₀.k1_off427_inb i r))).reshape S128x64 Facts₀.squeezes_S1x128x64_S128x64.numel_eq).set = _
  rw [View.set_reshape, View.set_slice_whole]
  exact unit_set_chunk_of_eq _ _ hoff _

theorem set_xtW25 (i : grid1.Coords) (k : Fin k1_t1_loop.trips) (h1 : k1_cond1 k = 1#1) (h2 : k1_cond2 k = 1#1) :
    (xtW25 i k h1 h2).view.set = xChunkSet (200 * wid i + k.val + 5) := by
  have hoff : k1_off25 i k
      = ![(200 * wid i + k.val + 5) / 128, 128 * ((200 * wid i + k.val + 5) % 128)] := funext (off25_apply i k)
  show (((View.whole main_v0_scv).slice (Rect.unit (s := S50x16384) (k1_off25 i k) S1x128.size
    (Facts₀.k1_off25_inb i k h1 h2))).reshape S128 Facts₀.squeezes_S1x128_S128.numel_eq).set = _
  rw [View.set_reshape, View.set_slice_whole]
  exact unit_set_xChunk_of_eq _ _ hoff _

theorem set_xtW3 (i : grid1.Coords) (k : Fin k1_t1_loop.trips) (h1 : k1_cond1 k = 1#1) :
    (xtW3 i k h1).view.set = xChunkSet (200 * wid i + k.val) := by
  have hoff : k1_off3 i k
      = ![(200 * wid i + k.val) / 128, 128 * ((200 * wid i + k.val) % 128)] := funext (off3_apply i k)
  show (((View.whole main_v0_scv).slice (Rect.unit (s := S50x16384) (k1_off3 i k) S1x128.size
    (Facts₀.k1_off3_inb i k h1))).reshape S128 Facts₀.squeezes_S1x128_S128.numel_eq).set = _
  rw [View.set_reshape, View.set_slice_whole]
  exact unit_set_xChunk_of_eq _ _ hoff _

theorem set_xtW1 (i : grid1.Coords) (r : Fin 5) :
    (xtW1 i r).view.set = xChunkSet (200 * wid i + r.val) := by
  have hoff : k1_off1 i (BitVec.ofNat 32 r.val)
      = ![(200 * wid i + r.val) / 128, 128 * ((200 * wid i + r.val) % 128)] := funext (off1_apply i r)
  show (((View.whole main_v0_scv).slice (Rect.unit (s := S50x16384) (k1_off1 i (BitVec.ofNat 32 r.val)) S1x128.size
    (Facts₀.k1_off1_inb i r))).reshape S128 Facts₀.squeezes_S1x128_S128.numel_eq).set = _
  rw [View.set_reshape, View.set_slice_whole]
  exact unit_set_xChunk_of_eq _ _ hoff _

end Cert.Proof.WBody

end
-- ==== Proof.WBodyDefs.lean ====
import proofs.«206325_g16862041604593_cont_week2b_1534_42_alg».proof.Kernel
import proofs.«206325_g16862041604593_cont_week2b_1534_42_alg».proof.Proof.Gen.Kernel
import proofs.«206325_g16862041604593_cont_week2b_1534_42_alg».proof.Proof.Spec
import proofs.«206325_g16862041604593_cont_week2b_1534_42_alg».proof.Proof.WBodyChunks
import Idealize.ShloMosaic.Lib.SparseCore.Launch
import Idealize.ShloMosaic.Lib.SparseCore.Stream
import Idealize.ShloMosaic.Lib.Ring
import Idealize.ShloMosaic.Lib.Tactic

/-!
  The SparseCore kernel's body, one vector subcore's task: names.

  Each of the four scratch arrays is a ring of slots (10 rows of index words, 5 rows of packed-row numbers,
  5 blocks of gathered rows, 2 blocks of selected half-rows), each slot with a DMA semaphore of its own. A slot
  is named here by a natural number taken modulo the ring's length, so that chunk `u`'s slot is `u` itself.
-/

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none

abbrev cV (L : grid1.Coords) : Fin τ.nSC := (L 0).castLE hcore1
abbrev jV (L : grid1.Coords) : Fin τ.nSub := (L 1).castLE hsub1

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-! ## Slots by number -/

theorem inb_idx (j : Nat) : ∀ a, (![j % 10, 0] : Fin 2 → Nat) a + S1x128.size a ≤ S10x128.size a := by
  intro a; have := Nat.mod_lt j (show 0 < 10 by decide)
  fin_cases a <;> simp [Shape.size] <;> omega
theorem inb_half (j : Nat) : ∀ a, (![j % 5, 0] : Fin 2 → Nat) a + S1x128.size a ≤ S5x128.size a := by
  intro a; have := Nat.mod_lt j (show 0 < 5 by decide)
  fin_cases a <;> simp [Shape.size] <;> omega
theorem inb_rows (j : Nat) : ∀ a, (![j % 5, 0, 0] : Fin 3 → Nat) a + S1x128x128.size a ≤ S5x128x128.size a := by
  intro a; have := Nat.mod_lt j (show 0 < 5 by decide)
  fin_cases a <;> simp [Shape.size] <;> omega
theorem inb_sel (j : Nat) : ∀ a, (![j % 2, 0, 0] : Fin 3 → Nat) a + S1x128x64.size a ≤ S2x128x64.size a := by
  intro a; have := Nat.mod_lt j (show 0 < 2 by decide)
  fin_cases a <;> simp [Shape.size] <;> omega
theorem inb_isem (j : Nat) : ∀ a, (![j % 10] : Fin 1 → Nat) a + S1.size a ≤ S10.size a := by
  intro a; have := Nat.mod_lt j (show 0 < 10 by decide)
  fin_cases a <;> simp [Shape.size] <;> omega
theorem inb_gsem (j : Nat) : ∀ a, (![j % 5] : Fin 1 → Nat) a + S1.size a ≤ S5.size a := by
  intro a; have := Nat.mod_lt j (show 0 < 5 by decide)
  fin_cases a <;> simp [Shape.size] <;> omega
theorem inb_wsem (j : Nat) : ∀ a, (![j % 2] : Fin 1 → Nat) a + S1.size a ≤ S2.size a := by
  intro a; have := Nat.mod_lt j (show 0 < 2 by decide)
  fin_cases a <;> simp [Shape.size] <;> omega

/-- Slot `j` of the index ring, of the packed-row ring, of the gathered-rows ring, of the selected-rows ring: rectangles. -/
abbrev idxR (j : Nat) : Rect S10x128 := Rect.unit (s := S10x128) ![j % 10, 0] S1x128.size (inb_idx j)
abbrev halfR (j : Nat) : Rect S5x128 := Rect.unit (s := S5x128) ![j % 5, 0] S1x128.size (inb_half j)
abbrev rowsR (j : Nat) : Rect S5x128x128 := Rect.unit (s := S5x128x128) ![j % 5, 0, 0] S1x128x128.size (inb_rows j)
abbrev selR (j : Nat) : Rect S2x128x64 := Rect.unit (s := S2x128x64) ![j % 2, 0, 0] S1x128x64.size (inb_sel j)

/-- The slots as memrefs, sliced and squeezed as the kernel does. -/
abbrev idxC (j : Nat) : Memref sig .scVector .vmem S128 .i32 := ((A5).slice (idxR j) (fun _ => rfl)).squeeze S128 squeezes_S1x128_S128
abbrev halfC (j : Nat) : Memref sig .scVector .vmem S128 .i32 := ((A6).slice (halfR j) (fun _ => rfl)).squeeze S128 squeezes_S1x128_S128
abbrev rowsC (j : Nat) : Memref sig .scVector .vmem S128x128 .f32 := ((A7).slice (rowsR j) (fun _ => rfl)).squeeze S128x128 squeezes_S1x128x128_S128x128
abbrev selC (j : Nat) : Memref sig .scVector .vmem S128x64 .f32 := ((A8).slice (selR j) (fun _ => rfl)).squeeze S128x64 squeezes_S1x128x64_S128x64

/-- The slots' semaphores. -/
abbrev isemC (j : Nat) : DmaSem sig := ((cc1_scratch4.slice (Rect.unit (s := S10) ![j % 10] S1.size (inb_isem j))).squeeze S_ squeezes_S1_S_).sem
abbrev gsemC (j : Nat) : DmaSem sig := ((cc1_scratch5.slice (Rect.unit (s := S5) ![j % 5] S1.size (inb_gsem j))).squeeze S_ squeezes_S1_S_).sem
abbrev wsemC (j : Nat) : DmaSem sig := ((cc1_scratch6.slice (Rect.unit (s := S2) ![j % 2] S1.size (inb_wsem j))).squeeze S_ squeezes_S1_S_).sem

/-! ## The program's own spellings of the slots at a trip -/

abbrev idxP2 (k : Fin k1_t1_loop.trips) (h1 : k1_cond1 k = 1#1) :=
  ((A5).slice (Rect.unit (s := S10x128) (k1_off2 k) S1x128.size (k1_off2_inb k h1)) (fun _ => rfl)).squeeze S128 squeezes_S1x128_S128
abbrev xtP3 (L : grid1.Coords) (k : Fin k1_t1_loop.trips) (h1 : k1_cond1 k = 1#1) :=
  ((A3).slice (Rect.unit (s := S50x16384) (k1_off3 L k) S1x128.size (k1_off3_inb L k h1)) (fun _ => rfl)).squeeze S128 squeezes_S1x128_S128
abbrev halfP22 (k : Fin k1_t1_loop.trips) (h1 : k1_cond1 k = 1#1) :=
  ((A6).slice (Rect.unit (s := S5x128) (k1_off22 k) S1x128.size (k1_off22_inb k h1)) (fun _ => rfl)).squeeze S128 squeezes_S1x128_S128
abbrev rowsP21 (k : Fin k1_t1_loop.trips) (h1 : k1_cond1 k = 1#1) :=
  ((A7).slice (Rect.unit (s := S5x128x128) (k1_off21 k) S1x128x128.size (k1_off21_inb k h1)) (fun _ => rfl)).squeeze S128x128 squeezes_S1x128x128_S128x128
abbrev idxP24 (k : Fin k1_t1_loop.trips) (h1 : k1_cond1 k = 1#1) (h2 : k1_cond2 k = 1#1) :=
  ((A5).slice (Rect.unit (s := S10x128) (k1_off24 k) S1x128.size (k1_off24_inb k h1 h2)) (fun _ => rfl)).squeeze S128 squeezes_S1x128_S128
abbrev xtP25 (L : grid1.Coords) (k : Fin k1_t1_loop.trips) (h1 : k1_cond1 k = 1#1) (h2 : k1_cond2 k = 1#1) :=
  ((A3).slice (Rect.unit (s := S50x16384) (k1_off25 L k) S1x128.size (k1_off25_inb L k h1 h2)) (fun _ => rfl)).squeeze S128 squeezes_S1x128_S128
abbrev rowsP27 (k : Fin k1_t1_loop.trips) (h3 : k1_cond3 k = 1#1) :=
  ((A7).slice (Rect.unit (s := S5x128x128) (k1_off27 k) S1x128x128.size (k1_off27_inb k h3)) (fun _ => rfl)).squeeze S128x128 squeezes_S1x128x128_S128x128
abbrev halfP28 (k : Fin k1_t1_loop.trips) (h3 : k1_cond3 k = 1#1) :=
  ((A6).slice (Rect.unit (s := S5x128) (k1_off28 k) S1x128.size (k1_off28_inb k h3)) (fun _ => rfl)).squeeze S128 squeezes_S1x128_S128
abbrev selP30 (k : Fin k1_t1_loop.trips) (h3 : k1_cond3 k = 1#1) (h4 : k1_cond4 k = 1#1) :=
  ((A8).slice (Rect.unit (s := S2x128x64) (k1_off30 k) S1x128x64.size (k1_off30_inb k h3 h4)) (fun _ => rfl)).squeeze S128x64 squeezes_S1x128x64_S128x64
abbrev outP31 (L : grid1.Coords) (k : Fin k1_t1_loop.trips) (h3 : k1_cond3 k = 1#1) (h4 : k1_cond4 k = 1#1) :=
  ((A4).slice (Rect.unit (s := S50x16384x64) (k1_off31 L k) S1x128x64.size (k1_off31_inb L k h3 h4)) (fun _ => rfl)).squeeze S128x64 squeezes_S1x128x64_S128x64
abbrev outP425 (L : grid1.Coords) (k : Fin k1_t1_loop.trips) (h3 : k1_cond3 k = 1#1) :=
  ((A4).slice (Rect.unit (s := S50x16384x64) (k1_off425 L k) S1x128x64.size (k1_off425_inb L k h3)) (fun _ => rfl)).squeeze S128x64 squeezes_S1x128x64_S128x64
abbrev selP423 (k : Fin k1_t1_loop.trips) (h3 : k1_cond3 k = 1#1) :=
  ((A8).slice (Rect.unit (s := S2x128x64) (k1_off423 k) S1x128x64.size (k1_off423_inb k h3)) (fun _ => rfl)).squeeze S128x64 squeezes_S1x128x64_S128x64
abbrev isemP4 (k : Fin k1_t1_loop.trips) (h1 : k1_cond1 k = 1#1) : DmaSem sig :=
  ((cc1_scratch4.slice (Rect.unit (s := S10) (k1_off4 k) S1.size (k1_off4_inb k h1))).squeeze S_ squeezes_S1_S_).sem
abbrev gsemP23 (k : Fin k1_t1_loop.trips) (h1 : k1_cond1 k = 1#1) : DmaSem sig :=
  ((cc1_scratch5.slice (Rect.unit (s := S5) (k1_off23 k) S1.size (k1_off23_inb k h1))).squeeze S_ squeezes_S1_S_).sem
abbrev isemP26 (k : Fin k1_t1_loop.trips) (h1 : k1_cond1 k = 1#1) (h2 : k1_cond2 k = 1#1) : DmaSem sig :=
  ((cc1_scratch4.slice (Rect.unit (s := S10) (k1_off26 k) S1.size (k1_off26_inb k h1 h2))).squeeze S_ squeezes_S1_S_).sem
abbrev gsemP29 (k : Fin k1_t1_loop.trips) (h3 : k1_cond3 k = 1#1) : DmaSem sig :=
  ((cc1_scratch5.slice (Rect.unit (s := S5) (k1_off29 k) S1.size (k1_off29_inb k h3))).squeeze S_ squeezes_S1_S_).sem
abbrev wsemP32 (k : Fin k1_t1_loop.trips) (h3 : k1_cond3 k = 1#1) (h4 : k1_cond4 k = 1#1) : DmaSem sig :=
  ((cc1_scratch6.slice (Rect.unit (s := S2) (k1_off32 k) S1.size (k1_off32_inb k h3 h4))).squeeze S_ squeezes_S1_S_).sem
abbrev wsemP426 (k : Fin k1_t1_loop.trips) (h3 : k1_cond3 k = 1#1) : DmaSem sig :=
  ((cc1_scratch6.slice (Rect.unit (s := S2) (k1_off426 k) S1.size (k1_off426_inb k h3))).squeeze S_ squeezes_S1_S_).sem

/-- The packed table as the gather names it: the whole array through its full rectangle. -/
abbrev tabS : Memref sig .scVector .hbm S507904x128 .f32 := ((A2).slice (Rect.unit (s := S507904x128) ![0, 0] S507904x128.size inb_S507904x128_S507904x128_0_0) (fun _ => rfl))

/-! ## What the loop carries

The three copy rings, by chunk number: a chunk's index copy, gather or write-back IN FLIGHT is the transfer's wait
capability delivering the destination slot and the source back; a FREE slot is its semaphore at zero and the slot at
some contents. Chunk numbers are the worker's own, `t < 200`; chunk `t` of worker `L` is chunk `200 * wid L + t`
of the whole output. -/

section Carried

variable {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))

/-- The index words a slot holds all name table rows. -/
def IdxOK (u : Nat) (c : Buf (Elt F) ((idxC u).view.loc (V d (cV L) (jV L)))) : Prop := ∀ x : S128.Idx, ((idxC u).view.read (Elt F) c x).toNat ≤ 999999

/-- Chunk `u`'s index words on their way into slot `u`. -/
def IFl (u : Nat) : sProp 𝕄 :=
  iprop(∃ c, ⌜IdxOK d L u c⌝ ∗ Transfers.Flight (countersEmb (U := UU)) (V d (cV L) (jV L)) (SemLoc.dma (isemC u)) (default : HIx 1) 4096
    iprop(((idxC u).view.loc (V d (cV L) (jV L)) ↦[(idxC u).view.set]{fullShare} c) ∗ ((A3).view.loc (V d (cV L) (jV L)) ↦[xChunkSet (200 * wid L + u)]{q'} xt)))
/-- Index slot `v` not awaited: its semaphore at zero, the slot at some contents. -/
def IFree (v : Nat) : sProp 𝕄 :=
  iprop(semVal ((V d (cV L) (jV L)), SemLoc.dma (isemC v)) 0 ∗ ∃ f, ((idxC v).view.loc (V d (cV L) (jV L)) ↦[(idxC v).view.set]{fullShare} f))
/-- Chunk `u`'s gather in flight: the rows slot, the list slot and the table's read share come back at its wait. -/
def GFl (u : Nat) : sProp 𝕄 :=
  iprop(∃ c₁ c₂, Transfers.Flight (countersEmb (U := UU)) (V d (cV L) (jV L)) (SemLoc.dma (gsemC u)) (default : HIx 1) 524288
    iprop((((rowsC u).view.loc (V d (cV L) (jV L)) ↦[(rowsC u).view.set]{fullShare} c₁) ∗ ((halfC u).view.loc (V d (cV L) (jV L)) ↦[(halfC u).view.set]{fullShare} c₂))
      ∗ ((tabS).view.loc (V d (cV L) (jV L)) ↦[(tabS).view.set]{Transfers.shareTokN q (u % 5)} tp)))
def GFree (v : Nat) : sProp 𝕄 :=
  iprop(semVal ((V d (cV L) (jV L)), SemLoc.dma (gsemC v)) 0 ∗ (∃ f, ((rowsC v).view.loc (V d (cV L) (jV L)) ↦[(rowsC v).view.set]{fullShare} f)) ∗ (∃ f, ((halfC v).view.loc (V d (cV L) (jV L)) ↦[(halfC v).view.set]{fullShare} f))
    ∗ ((tabS).view.loc (V d (cV L) (jV L)) ↦[(tabS).view.set]{Transfers.shareTokN q (v % 5)} tp))
/-- Chunk `u`'s write-back in flight: the output chunk and the selected-rows slot come back at its wait. -/
def WFl (u : Nat) : sProp 𝕄 :=
  iprop(∃ c₁ c₂, Transfers.Flight (countersEmb (U := UU)) (V d (cV L) (jV L)) (SemLoc.dma (wsemC u)) (default : HIx 1) 262144
    iprop(((A4).view.loc (V d (cV L) (jV L)) ↦[Cert.Spec.chunkSet (200 * wid L + u)]{fullShare} c₁) ∗ ((selC u).view.loc (V d (cV L) (jV L)) ↦[(selC u).view.set]{fullShare} c₂)))
def WFree (v : Nat) : sProp 𝕄 :=
  iprop(semVal ((V d (cV L) (jV L)), SemLoc.dma (wsemC v)) 0 ∗ ∃ f, ((selC v).view.loc (V d (cV L) (jV L)) ↦[(selC v).view.set]{fullShare} f))
/-- Chunk `t` of the index array at home; chunk `t` of the output written, or not yet touched. -/
def XHome (t : Nat) : sProp 𝕄 := (A3).view.loc (V d (cV L) (jV L)) ↦[xChunkSet (200 * wid L + t)]{q'} xt
def OutDone (t : Nat) : sProp 𝕄 := iprop(∃ f, (A4).view.loc (V d (cV L) (jV L)) ↦[Cert.Spec.chunkSet (200 * wid L + t)]{fullShare} f)
def OutInit (t : Nat) : sProp 𝕄 := (A4).view.loc (V d (cV L) (jV L)) ↦[Cert.Spec.chunkSet (200 * wid L + t)]{fullShare} fo

variable (O : CellTallies nD τ sig (HIx 1)) (W : Waits sig (HIx 1))

/-- What the subcore owes the launch, its waits so far at the kernel's own index. -/
def Owes : sProp 𝕄 := iprop(∃ W', ⌜∀ p ∈ W', p ∈ W ∨ p.2 = none⌝ ∗ owes (V d (cV L) (jV L)) O W')

/-- Before trip `n` of the 204: index copies `[m, min (m+5) 200)` in flight, `m = min n 200`, the other index slots
    free; gathers `[n-4, min n 200)` in flight, the other gather slots free; write-backs `[n-6, min (n-4) 200)` in
    flight, the other slot free; the index chunks not in flight at home; the output chunks below `n-6` written,
    those from `min (n-4) 200` untouched. -/
def Inv (n : Nat) (_ : Unit) : sProp 𝕄 :=
  iprop(Transfers.MayWaits (V d (cV L) (jV L)) (default : HIx 1) O ∗ Owes d L O W
    ∗ bigSep (Finset.Ico (min n 200) (min (min n 200 + 5) 200)) (IFl d L q' xt)
    ∗ bigSep (Finset.Ico (min (min n 200 + 5) 200) (min n 200 + 10)) (IFree d L)
    ∗ bigSep (Finset.Ico (n - 4) (min n 200)) (GFl d L q tp)
    ∗ bigSep (Finset.Ico (min n 200) (n - 4 + 5)) (GFree d L q tp)
    ∗ bigSep (Finset.Ico (n - 6) (min (n - 4) 200)) (WFl d L)
    ∗ bigSep (Finset.Ico (min (n - 4) 200) (n - 6 + 2)) (WFree d L)
    ∗ bigSep (Finset.range (min n 200)) (XHome d L q' xt)
    ∗ bigSep (Finset.Ico (min (min n 200 + 5) 200) 200) (XHome d L q' xt)
    ∗ bigSep (Finset.range (n - 6)) (OutDone d L)
    ∗ bigSep (Finset.Ico (min (n - 4) 200) 200) (OutInit d L fo))

end Carried

end Cert.Proof.WBody
end
-- ==== Proof.WBodyOff.lean ====
import proofs.«206325_g16862041604593_cont_week2b_1534_42_alg».proof.Kernel
import Idealize.ShloMosaic.Lib.Exec

set_option Elab.async false

/-!
  Closed forms of the offset chains the SparseCore kernel computes at a trip `k` of its loop (and, for the
  slices of the two HBM operands, at a worker): slot numbers are residues of the trip, chunk places are the
  quotient and remainder of the chunk number by 128. Each is checked at every trip by evaluation.
-/

namespace Cert.Proof.WBody

open Cert.Kernel
open Idealize.ShloMosaic

/-! ## The loop's four conditions as inequalities of the trip -/
theorem k1_cond1_iff : ∀ k : Fin k1_t1_loop.trips, k1_cond1 k = 1#1 ↔ k.val < 200 := by decide +kernel
theorem k1_cond2_iff : ∀ k : Fin k1_t1_loop.trips, k1_cond2 k = 1#1 ↔ k.val < 195 := by decide +kernel
theorem k1_cond3_iff : ∀ k : Fin k1_t1_loop.trips, k1_cond3 k = 1#1 ↔ 4 ≤ k.val := by decide +kernel
theorem k1_cond4_iff : ∀ k : Fin k1_t1_loop.trips, k1_cond4 k = 1#1 ↔ 6 ≤ k.val := by decide +kernel

/-! ## The slot chains: residues of the trip -/
theorem k1_off5_eq : ∀ k : Fin k1_t1_loop.trips, k1_off5 k = ![k.val % 10, 0] := by decide +kernel
instance (k : Fin k1_t1_loop.trips) : ClosedOff (k1_off5 k) := ⟨![k.val % 10, 0], k1_off5_eq k⟩
theorem k1_off6_eq : ∀ k : Fin k1_t1_loop.trips, k1_off6 k = ![k.val % 5, 0] := by decide +kernel
instance (k : Fin k1_t1_loop.trips) : ClosedOff (k1_off6 k) := ⟨![k.val % 5, 0], k1_off6_eq k⟩
theorem k1_off24_eq : ∀ k : Fin k1_t1_loop.trips, k1_off24 k = ![(k.val + 5) % 10, 0] := by decide +kernel
instance (k : Fin k1_t1_loop.trips) : ClosedOff (k1_off24 k) := ⟨![(k.val + 5) % 10, 0], k1_off24_eq k⟩
theorem k1_off27_eq : ∀ k : Fin k1_t1_loop.trips, k1_off27 k = ![(k.val + 1) % 5, 0, 0] := by decide +kernel
instance (k : Fin k1_t1_loop.trips) : ClosedOff (k1_off27 k) := ⟨![(k.val + 1) % 5, 0, 0], k1_off27_eq k⟩
theorem k1_off30_eq : ∀ k : Fin k1_t1_loop.trips, k1_off30 k = ![k.val % 2, 0, 0] := by decide +kernel
instance (k : Fin k1_t1_loop.trips) : ClosedOff (k1_off30 k) := ⟨![k.val % 2, 0, 0], k1_off30_eq k⟩
theorem k1_off33_eq : ∀ k : Fin k1_t1_loop.trips, k1_off33 k = ![(k.val + 6) % 10, 0] := by decide +kernel
instance (k : Fin k1_t1_loop.trips) : ClosedOff (k1_off33 k) := ⟨![(k.val + 6) % 10, 0], k1_off33_eq k⟩
theorem k1_off2_eq (k : Fin k1_t1_loop.trips) : k1_off2 k = ![k.val % 10, 0] :=
  (show k1_off2 k = ![(k1_off5 k) 0, 0] from rfl).trans (by rw [k1_off5_eq]; rfl)
instance (k : Fin k1_t1_loop.trips) : ClosedOff (k1_off2 k) := ⟨![k.val % 10, 0], k1_off2_eq k⟩
theorem k1_off4_eq (k : Fin k1_t1_loop.trips) : k1_off4 k = ![k.val % 10] :=
  (show k1_off4 k = ![(k1_off5 k) 0] from rfl).trans (by rw [k1_off5_eq]; rfl)
instance (k : Fin k1_t1_loop.trips) : ClosedOff (k1_off4 k) := ⟨![k.val % 10], k1_off4_eq k⟩
theorem k1_off7_eq (k : Fin k1_t1_loop.trips) : k1_off7 k = ![k.val % 10, 16] :=
  (show k1_off7 k = ![(k1_off5 k) 0, 16] from rfl).trans (by rw [k1_off5_eq]; rfl)
instance (k : Fin k1_t1_loop.trips) : ClosedOff (k1_off7 k) := ⟨![k.val % 10, 16], k1_off7_eq k⟩
theorem k1_off8_eq (k : Fin k1_t1_loop.trips) : k1_off8 k = ![k.val % 5, 16] :=
  (show k1_off8 k = ![(k1_off6 k) 0, 16] from rfl).trans (by rw [k1_off6_eq]; rfl)
instance (k : Fin k1_t1_loop.trips) : ClosedOff (k1_off8 k) := ⟨![k.val % 5, 16], k1_off8_eq k⟩
theorem k1_off9_eq (k : Fin k1_t1_loop.trips) : k1_off9 k = ![k.val % 10, 32] :=
  (show k1_off9 k = ![(k1_off5 k) 0, 32] from rfl).trans (by rw [k1_off5_eq]; rfl)
instance (k : Fin k1_t1_loop.trips) : ClosedOff (k1_off9 k) := ⟨![k.val % 10, 32], k1_off9_eq k⟩
theorem k1_off10_eq (k : Fin k1_t1_loop.trips) : k1_off10 k = ![k.val % 5, 32] :=
  (show k1_off10 k = ![(k1_off6 k) 0, 32] from rfl).trans (by rw [k1_off6_eq]; rfl)
instance (k : Fin k1_t1_loop.trips) : ClosedOff (k1_off10 k) := ⟨![k.val % 5, 32], k1_off10_eq k⟩
theorem k1_off11_eq (k : Fin k1_t1_loop.trips) : k1_off11 k = ![k.val % 10, 48] :=
  (show k1_off11 k = ![(k1_off5 k) 0, 48] from rfl).trans (by rw [k1_off5_eq]; rfl)
instance (k : Fin k1_t1_loop.trips) : ClosedOff (k1_off11 k) := ⟨![k.val % 10, 48], k1_off11_eq k⟩
theorem k1_off12_eq (k : Fin k1_t1_loop.trips) : k1_off12 k = ![k.val % 5, 48] :=
  (show k1_off12 k = ![(k1_off6 k) 0, 48] from rfl).trans (by rw [k1_off6_eq]; rfl)
instance (k : Fin k1_t1_loop.trips) : ClosedOff (k1_off12 k) := ⟨![k.val % 5, 48], k1_off12_eq k⟩
theorem k1_off13_eq (k : Fin k1_t1_loop.trips) : k1_off13 k = ![k.val % 10, 64] :=
  (show k1_off13 k = ![(k1_off5 k) 0, 64] from rfl).trans (by rw [k1_off5_eq]; rfl)
instance (k : Fin k1_t1_loop.trips) : ClosedOff (k1_off13 k) := ⟨![k.val % 10, 64], k1_off13_eq k⟩
theorem k1_off14_eq (k : Fin k1_t1_loop.trips) : k1_off14 k = ![k.val % 5, 64] :=
  (show k1_off14 k = ![(k1_off6 k) 0, 64] from rfl).trans (by rw [k1_off6_eq]; rfl)
instance (k : Fin k1_t1_loop.trips) : ClosedOff (k1_off14 k) := ⟨![k.val % 5, 64], k1_off14_eq k⟩
theorem k1_off15_eq (k : Fin k1_t1_loop.trips) : k1_off15 k = ![k.val % 10, 80] :=
  (show k1_off15 k = ![(k1_off5 k) 0, 80] from rfl).trans (by rw [k1_off5_eq]; rfl)
instance (k : Fin k1_t1_loop.trips) : ClosedOff (k1_off15 k) := ⟨![k.val % 10, 80], k1_off15_eq k⟩
theorem k1_off16_eq (k : Fin k1_t1_loop.trips) : k1_off16 k = ![k.val % 5, 80] :=
  (show k1_off16 k = ![(k1_off6 k) 0, 80] from rfl).trans (by rw [k1_off6_eq]; rfl)
instance (k : Fin k1_t1_loop.trips) : ClosedOff (k1_off16 k) := ⟨![k.val % 5, 80], k1_off16_eq k⟩
theorem k1_off17_eq (k : Fin k1_t1_loop.trips) : k1_off17 k = ![k.val % 10, 96] :=
  (show k1_off17 k = ![(k1_off5 k) 0, 96] from rfl).trans (by rw [k1_off5_eq]; rfl)
instance (k : Fin k1_t1_loop.trips) : ClosedOff (k1_off17 k) := ⟨![k.val % 10, 96], k1_off17_eq k⟩
theorem k1_off18_eq (k : Fin k1_t1_loop.trips) : k1_off18 k = ![k.val % 5, 96] :=
  (show k1_off18 k = ![(k1_off6 k) 0, 96] from rfl).trans (by rw [k1_off6_eq]; rfl)
instance (k : Fin k1_t1_loop.trips) : ClosedOff (k1_off18 k) := ⟨![k.val % 5, 96], k1_off18_eq k⟩
theorem k1_off19_eq (k : Fin k1_t1_loop.trips) : k1_off19 k = ![k.val % 10, 112] :=
  (show k1_off19 k = ![(k1_off5 k) 0, 112] from rfl).trans (by rw [k1_off5_eq]; rfl)
instance (k : Fin k1_t1_loop.trips) : ClosedOff (k1_off19 k) := ⟨![k.val % 10, 112], k1_off19_eq k⟩
theorem k1_off20_eq (k : Fin k1_t1_loop.trips) : k1_off20 k = ![k.val % 5, 112] :=
  (show k1_off20 k = ![(k1_off6 k) 0, 112] from rfl).trans (by rw [k1_off6_eq]; rfl)
instance (k : Fin k1_t1_loop.trips) : ClosedOff (k1_off20 k) := ⟨![k.val % 5, 112], k1_off20_eq k⟩
theorem k1_off21_eq (k : Fin k1_t1_loop.trips) : k1_off21 k = ![k.val % 5, 0, 0] :=
  (show k1_off21 k = ![(k1_off6 k) 0, 0, 0] from rfl).trans (by rw [k1_off6_eq]; rfl)
instance (k : Fin k1_t1_loop.trips) : ClosedOff (k1_off21 k) := ⟨![k.val % 5, 0, 0], k1_off21_eq k⟩
theorem k1_off22_eq (k : Fin k1_t1_loop.trips) : k1_off22 k = ![k.val % 5, 0] :=
  (show k1_off22 k = ![(k1_off6 k) 0, 0] from rfl).trans (by rw [k1_off6_eq]; rfl)
instance (k : Fin k1_t1_loop.trips) : ClosedOff (k1_off22 k) := ⟨![k.val % 5, 0], k1_off22_eq k⟩
theorem k1_off23_eq (k : Fin k1_t1_loop.trips) : k1_off23 k = ![k.val % 5] :=
  (show k1_off23 k = ![(k1_off6 k) 0] from rfl).trans (by rw [k1_off6_eq]; rfl)
instance (k : Fin k1_t1_loop.trips) : ClosedOff (k1_off23 k) := ⟨![k.val % 5], k1_off23_eq k⟩
theorem k1_off26_eq (k : Fin k1_t1_loop.trips) : k1_off26 k = ![(k.val + 5) % 10] :=
  (show k1_off26 k = ![(k1_off24 k) 0] from rfl).trans (by rw [k1_off24_eq]; rfl)
instance (k : Fin k1_t1_loop.trips) : ClosedOff (k1_off26 k) := ⟨![(k.val + 5) % 10], k1_off26_eq k⟩
theorem k1_off28_eq (k : Fin k1_t1_loop.trips) : k1_off28 k = ![(k.val + 1) % 5, 0] :=
  (show k1_off28 k = ![(k1_off27 k) 0, 0] from rfl).trans (by rw [k1_off27_eq]; rfl)
instance (k : Fin k1_t1_loop.trips) : ClosedOff (k1_off28 k) := ⟨![(k.val + 1) % 5, 0], k1_off28_eq k⟩
theorem k1_off29_eq (k : Fin k1_t1_loop.trips) : k1_off29 k = ![(k.val + 1) % 5] :=
  (show k1_off29 k = ![(k1_off27 k) 0] from rfl).trans (by rw [k1_off27_eq]; rfl)
instance (k : Fin k1_t1_loop.trips) : ClosedOff (k1_off29 k) := ⟨![(k.val + 1) % 5], k1_off29_eq k⟩
theorem k1_off32_eq (k : Fin k1_t1_loop.trips) : k1_off32 k = ![k.val % 2] :=
  (show k1_off32 k = ![(k1_off30 k) 0] from rfl).trans (by rw [k1_off30_eq]; rfl)
instance (k : Fin k1_t1_loop.trips) : ClosedOff (k1_off32 k) := ⟨![k.val % 2], k1_off32_eq k⟩
theorem k1_off35_eq : ∀ k : Fin k1_t1_loop.trips, k1_off35 k = ![k.val % 2, 0, 0] := by decide +kernel
instance (k : Fin k1_t1_loop.trips) : ClosedOff (k1_off35 k) := ⟨![k.val % 2, 0, 0], k1_off35_eq k⟩
theorem k1_off82_eq (k : Fin k1_t1_loop.trips) : k1_off82 k = ![(k.val + 6) % 10, 16] :=
  (show k1_off82 k = ![(k1_off33 k) 0, 16] from rfl).trans (by rw [k1_off33_eq]; rfl)
instance (k : Fin k1_t1_loop.trips) : ClosedOff (k1_off82 k) := ⟨![(k.val + 6) % 10, 16], k1_off82_eq k⟩
theorem k1_off131_eq (k : Fin k1_t1_loop.trips) : k1_off131 k = ![(k.val + 6) % 10, 32] :=
  (show k1_off131 k = ![(k1_off33 k) 0, 32] from rfl).trans (by rw [k1_off33_eq]; rfl)
instance (k : Fin k1_t1_loop.trips) : ClosedOff (k1_off131 k) := ⟨![(k.val + 6) % 10, 32], k1_off131_eq k⟩
theorem k1_off180_eq (k : Fin k1_t1_loop.trips) : k1_off180 k = ![(k.val + 6) % 10, 48] :=
  (show k1_off180 k = ![(k1_off33 k) 0, 48] from rfl).trans (by rw [k1_off33_eq]; rfl)
instance (k : Fin k1_t1_loop.trips) : ClosedOff (k1_off180 k) := ⟨![(k.val + 6) % 10, 48], k1_off180_eq k⟩
theorem k1_off229_eq (k : Fin k1_t1_loop.trips) : k1_off229 k = ![(k.val + 6) % 10, 64] :=
  (show k1_off229 k = ![(k1_off33 k) 0, 64] from rfl).trans (by rw [k1_off33_eq]; rfl)
instance (k : Fin k1_t1_loop.trips) : ClosedOff (k1_off229 k) := ⟨![(k.val + 6) % 10, 64], k1_off229_eq k⟩
theorem k1_off278_eq (k : Fin k1_t1_loop.trips) : k1_off278 k = ![(k.val + 6) % 10, 80] :=
  (show k1_off278 k = ![(k1_off33 k) 0, 80] from rfl).trans (by rw [k1_off33_eq]; rfl)
instance (k : Fin k1_t1_loop.trips) : ClosedOff (k1_off278 k) := ⟨![(k.val + 6) % 10, 80], k1_off278_eq k⟩
theorem k1_off327_eq (k : Fin k1_t1_loop.trips) : k1_off327 k = ![(k.val + 6) % 10, 96] :=
  (show k1_off327 k = ![(k1_off33 k) 0, 96] from rfl).trans (by rw [k1_off33_eq]; rfl)
instance (k : Fin k1_t1_loop.trips) : ClosedOff (k1_off327 k) := ⟨![(k.val + 6) % 10, 96], k1_off327_eq k⟩
theorem k1_off376_eq (k : Fin k1_t1_loop.trips) : k1_off376 k = ![(k.val + 6) % 10, 112] :=
  (show k1_off376 k = ![(k1_off33 k) 0, 112] from rfl).trans (by rw [k1_off33_eq]; rfl)
instance (k : Fin k1_t1_loop.trips) : ClosedOff (k1_off376 k) := ⟨![(k.val + 6) % 10, 112], k1_off376_eq k⟩
theorem k1_off423_eq : ∀ k : Fin k1_t1_loop.trips, k1_off423 k = ![k.val % 2, 0, 0] := by decide +kernel
instance (k : Fin k1_t1_loop.trips) : ClosedOff (k1_off423 k) := ⟨![k.val % 2, 0, 0], k1_off423_eq k⟩
theorem k1_off426_eq : ∀ k : Fin k1_t1_loop.trips, k1_off426 k = ![k.val % 2] := by decide +kernel
instance (k : Fin k1_t1_loop.trips) : ClosedOff (k1_off426 k) := ⟨![k.val % 2], k1_off426_eq k⟩

end Cert.Proof.WBody
-- ==== Proof.WBodyRespell.lean ====
import proofs.«206325_g16862041604593_cont_week2b_1534_42_alg».proof.Proof.WBodyDefs
import proofs.«206325_g16862041604593_cont_week2b_1534_42_alg».proof.Proof.WBodyOff

/-!
  The SparseCore kernel's body: the program's spellings of its slots are the slots by number.

  The kernel names a slot of a ring by a rectangle whose offsets it computes from the trip; in closed form the
  offsets are the trip's residue modulo the ring's length. A slot's memref, its semaphore, what is held of it and
  what a transfer through it credits depend on the offsets only, so each spelling at a trip is the slot of that
  number; the slices of the transposed indices and of the output that a trip names are the chunks of those numbers.
-/

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-! ## Slots through equal offsets

A slot's memref (or semaphore) depends on its rectangle's offsets only: two spellings at equal offsets are the same,
whatever their in-bounds evidence. -/

theorem idx_slot_congr {off off' : Fin 2 → Nat} (h : off = off')
    (inb : ∀ a, off a + S1x128.size a ≤ S10x128.size a) (inb' : ∀ a, off' a + S1x128.size a ≤ S10x128.size a) :
    ((A5).slice (Rect.unit (s := S10x128) off S1x128.size inb) (fun _ => rfl)).squeeze S128 squeezes_S1x128_S128
      = ((A5).slice (Rect.unit (s := S10x128) off' S1x128.size inb') (fun _ => rfl)).squeeze S128 squeezes_S1x128_S128 := by
  subst h; rfl
theorem half_slot_congr {off off' : Fin 2 → Nat} (h : off = off')
    (inb : ∀ a, off a + S1x128.size a ≤ S5x128.size a) (inb' : ∀ a, off' a + S1x128.size a ≤ S5x128.size a) :
    ((A6).slice (Rect.unit (s := S5x128) off S1x128.size inb) (fun _ => rfl)).squeeze S128 squeezes_S1x128_S128
      = ((A6).slice (Rect.unit (s := S5x128) off' S1x128.size inb') (fun _ => rfl)).squeeze S128 squeezes_S1x128_S128 := by
  subst h; rfl
theorem rows_slot_congr {off off' : Fin 3 → Nat} (h : off = off')
    (inb : ∀ a, off a + S1x128x128.size a ≤ S5x128x128.size a) (inb' : ∀ a, off' a + S1x128x128.size a ≤ S5x128x128.size a) :
    ((A7).slice (Rect.unit (s := S5x128x128) off S1x128x128.size inb) (fun _ => rfl)).squeeze S128x128 squeezes_S1x128x128_S128x128
      = ((A7).slice (Rect.unit (s := S5x128x128) off' S1x128x128.size inb') (fun _ => rfl)).squeeze S128x128 squeezes_S1x128x128_S128x128 := by
  subst h; rfl
theorem sel_slot_congr {off off' : Fin 3 → Nat} (h : off = off')
    (inb : ∀ a, off a + S1x128x64.size a ≤ S2x128x64.size a) (inb' : ∀ a, off' a + S1x128x64.size a ≤ S2x128x64.size a) :
    ((A8).slice (Rect.unit (s := S2x128x64) off S1x128x64.size inb) (fun _ => rfl)).squeeze S128x64 squeezes_S1x128x64_S128x64
      = ((A8).slice (Rect.unit (s := S2x128x64) off' S1x128x64.size inb') (fun _ => rfl)).squeeze S128x64 squeezes_S1x128x64_S128x64 := by
  subst h; rfl
theorem isem_slot_congr {off off' : Fin 1 → Nat} (h : off = off')
    (inb : ∀ a, off a + S1.size a ≤ S10.size a) (inb' : ∀ a, off' a + S1.size a ≤ S10.size a) :
    ((cc1_scratch4.slice (Rect.unit (s := S10) off S1.size inb)).squeeze S_ squeezes_S1_S_).sem
      = ((cc1_scratch4.slice (Rect.unit (s := S10) off' S1.size inb')).squeeze S_ squeezes_S1_S_).sem := by
  subst h; rfl
theorem gsem_slot_congr {off off' : Fin 1 → Nat} (h : off = off')
    (inb : ∀ a, off a + S1.size a ≤ S5.size a) (inb' : ∀ a, off' a + S1.size a ≤ S5.size a) :
    ((cc1_scratch5.slice (Rect.unit (s := S5) off S1.size inb)).squeeze S_ squeezes_S1_S_).sem
      = ((cc1_scratch5.slice (Rect.unit (s := S5) off' S1.size inb')).squeeze S_ squeezes_S1_S_).sem := by
  subst h; rfl
theorem wsem_slot_congr {off off' : Fin 1 → Nat} (h : off = off')
    (inb : ∀ a, off a + S1.size a ≤ S2.size a) (inb' : ∀ a, off' a + S1.size a ≤ S2.size a) :
    ((cc1_scratch6.slice (Rect.unit (s := S2) off S1.size inb)).squeeze S_ squeezes_S1_S_).sem
      = ((cc1_scratch6.slice (Rect.unit (s := S2) off' S1.size inb')).squeeze S_ squeezes_S1_S_).sem := by
  subst h; rfl

/-! ## The program's spellings are the slots by number -/

theorem idxP2_eq (k : Fin k1_t1_loop.trips) (h1 : k1_cond1 k = 1#1) : idxP2 k h1 = idxC k.val :=
  idx_slot_congr (k1_off2_eq k) _ _
theorem idxP24_eq (k : Fin k1_t1_loop.trips) (h1 : k1_cond1 k = 1#1) (h2 : k1_cond2 k = 1#1) : idxP24 k h1 h2 = idxC (k.val + 5) :=
  idx_slot_congr (k1_off24_eq k) _ _
theorem halfP22_eq (k : Fin k1_t1_loop.trips) (h1 : k1_cond1 k = 1#1) : halfP22 k h1 = halfC k.val :=
  half_slot_congr (k1_off22_eq k) _ _
theorem halfP28_eq (k : Fin k1_t1_loop.trips) (h3 : k1_cond3 k = 1#1) : halfP28 k h3 = halfC (k.val + 1) :=
  half_slot_congr (k1_off28_eq k) _ _
theorem rowsP21_eq (k : Fin k1_t1_loop.trips) (h1 : k1_cond1 k = 1#1) : rowsP21 k h1 = rowsC k.val :=
  rows_slot_congr (k1_off21_eq k) _ _
theorem rowsP27_eq (k : Fin k1_t1_loop.trips) (h3 : k1_cond3 k = 1#1) : rowsP27 k h3 = rowsC (k.val + 1) :=
  rows_slot_congr (k1_off27_eq k) _ _
theorem selP30_eq (k : Fin k1_t1_loop.trips) (h3 : k1_cond3 k = 1#1) (h4 : k1_cond4 k = 1#1) : selP30 k h3 h4 = selC k.val :=
  sel_slot_congr (k1_off30_eq k) _ _
theorem selP423_eq (k : Fin k1_t1_loop.trips) (h3 : k1_cond3 k = 1#1) : selP423 k h3 = selC k.val :=
  sel_slot_congr (k1_off423_eq k) _ _

/-! ## Slots by number, up to the ring's length -/

theorem idxC_congr {a b : Nat} (h : a % 10 = b % 10) : idxC a = idxC b := idx_slot_congr (by rw [h]) _ _
theorem halfC_congr {a b : Nat} (h : a % 5 = b % 5) : halfC a = halfC b := half_slot_congr (by rw [h]) _ _
theorem rowsC_congr {a b : Nat} (h : a % 5 = b % 5) : rowsC a = rowsC b := rows_slot_congr (by rw [h]) _ _
theorem selC_congr {a b : Nat} (h : a % 2 = b % 2) : selC a = selC b := sel_slot_congr (by rw [h]) _ _
theorem isemC_congr {a b : Nat} (h : a % 10 = b % 10) : isemC a = isemC b := isem_slot_congr (by rw [h]) _ _
theorem gsemC_congr {a b : Nat} (h : a % 5 = b % 5) : gsemC a = gsemC b := gsem_slot_congr (by rw [h]) _ _
theorem wsemC_congr {a b : Nat} (h : a % 2 = b % 2) : wsemC a = wsemC b := wsem_slot_congr (by rw [h]) _ _

/-! ## The semaphores -/

theorem isemP4_eq (k : Fin k1_t1_loop.trips) (h1 : k1_cond1 k = 1#1) : isemP4 k h1 = isemC k.val :=
  isem_slot_congr (k1_off4_eq k) _ _
theorem isemP26_eq (k : Fin k1_t1_loop.trips) (h1 : k1_cond1 k = 1#1) (h2 : k1_cond2 k = 1#1) : isemP26 k h1 h2 = isemC (k.val + 5) :=
  isem_slot_congr (k1_off26_eq k) _ _
theorem gsemP23_eq (k : Fin k1_t1_loop.trips) (h1 : k1_cond1 k = 1#1) : gsemP23 k h1 = gsemC k.val :=
  gsem_slot_congr (k1_off23_eq k) _ _
theorem gsemP29_eq (k : Fin k1_t1_loop.trips) (h3 : k1_cond3 k = 1#1) : gsemP29 k h3 = gsemC (k.val + 1) :=
  gsem_slot_congr (k1_off29_eq k) _ _
theorem wsemP32_eq (k : Fin k1_t1_loop.trips) (h3 : k1_cond3 k = 1#1) (h4 : k1_cond4 k = 1#1) : wsemP32 k h3 h4 = wsemC k.val :=
  wsem_slot_congr (k1_off32_eq k) _ _
theorem wsemP426_eq (k : Fin k1_t1_loop.trips) (h3 : k1_cond3 k = 1#1) : wsemP426 k h3 = wsemC k.val :=
  wsem_slot_congr (k1_off426_eq k) _ _

/-! ## The same for what is held of a slot

A slot held (its elements, at a share, at contents) under the program's spelling is the slot held under its number. -/

section Pts

variable {UU : Type} [URA UU]

set_option quotPrecheck false in
local notation "𝕄" => MT nD τ sig (HIx 1) (Elt F) ℕ UU ℕ

variable (d : Dev nD) (L : grid1.Coords)

theorem pts_idx_slot {off off' : Fin 2 → Nat} (h : off = off')
    (inb : ∀ a, off a + S1x128.size a ≤ S10x128.size a) (inb' : ∀ a, off' a + S1x128.size a ≤ S10x128.size a)
    (q : PosShare TreeShare) (f : Buf (Elt F) ((A5).view.loc (V d (cV L) (jV L)))) :
    ((((A5).slice (Rect.unit (s := S10x128) off S1x128.size inb) (fun _ => rfl)).squeeze S128 squeezes_S1x128_S128).view.loc (V d (cV L) (jV L))
        ↦[(((A5).slice (Rect.unit (s := S10x128) off S1x128.size inb) (fun _ => rfl)).squeeze S128 squeezes_S1x128_S128).view.set]{q} f : sProp 𝕄)
      = ((((A5).slice (Rect.unit (s := S10x128) off' S1x128.size inb') (fun _ => rfl)).squeeze S128 squeezes_S1x128_S128).view.loc (V d (cV L) (jV L))
        ↦[(((A5).slice (Rect.unit (s := S10x128) off' S1x128.size inb') (fun _ => rfl)).squeeze S128 squeezes_S1x128_S128).view.set]{q} f) := by
  subst h; rfl
theorem pts_half_slot {off off' : Fin 2 → Nat} (h : off = off')
    (inb : ∀ a, off a + S1x128.size a ≤ S5x128.size a) (inb' : ∀ a, off' a + S1x128.size a ≤ S5x128.size a)
    (q : PosShare TreeShare) (f : Buf (Elt F) ((A6).view.loc (V d (cV L) (jV L)))) :
    ((((A6).slice (Rect.unit (s := S5x128) off S1x128.size inb) (fun _ => rfl)).squeeze S128 squeezes_S1x128_S128).view.loc (V d (cV L) (jV L))
        ↦[(((A6).slice (Rect.unit (s := S5x128) off S1x128.size inb) (fun _ => rfl)).squeeze S128 squeezes_S1x128_S128).view.set]{q} f : sProp 𝕄)
      = ((((A6).slice (Rect.unit (s := S5x128) off' S1x128.size inb') (fun _ => rfl)).squeeze S128 squeezes_S1x128_S128).view.loc (V d (cV L) (jV L))
        ↦[(((A6).slice (Rect.unit (s := S5x128) off' S1x128.size inb') (fun _ => rfl)).squeeze S128 squeezes_S1x128_S128).view.set]{q} f) := by
  subst h; rfl
theorem pts_rows_slot {off off' : Fin 3 → Nat} (h : off = off')
    (inb : ∀ a, off a + S1x128x128.size a ≤ S5x128x128.size a) (inb' : ∀ a, off' a + S1x128x128.size a ≤ S5x128x128.size a)
    (q : PosShare TreeShare) (f : Buf (Elt F) ((A7).view.loc (V d (cV L) (jV L)))) :
    ((((A7).slice (Rect.unit (s := S5x128x128) off S1x128x128.size inb) (fun _ => rfl)).squeeze S128x128 squeezes_S1x128x128_S128x128).view.loc (V d (cV L) (jV L))
        ↦[(((A7).slice (Rect.unit (s := S5x128x128) off S1x128x128.size inb) (fun _ => rfl)).squeeze S128x128 squeezes_S1x128x128_S128x128).view.set]{q} f : sProp 𝕄)
      = ((((A7).slice (Rect.unit (s := S5x128x128) off' S1x128x128.size inb') (fun _ => rfl)).squeeze S128x128 squeezes_S1x128x128_S128x128).view.loc (V d (cV L) (jV L))
        ↦[(((A7).slice (Rect.unit (s := S5x128x128) off' S1x128x128.size inb') (fun _ => rfl)).squeeze S128x128 squeezes_S1x128x128_S128x128).view.set]{q} f) := by
  subst h; rfl
theorem pts_sel_slot {off off' : Fin 3 → Nat} (h : off = off')
    (inb : ∀ a, off a + S1x128x64.size a ≤ S2x128x64.size a) (inb' : ∀ a, off' a + S1x128x64.size a ≤ S2x128x64.size a)
    (q : PosShare TreeShare) (f : Buf (Elt F) ((A8).view.loc (V d (cV L) (jV L)))) :
    ((((A8).slice (Rect.unit (s := S2x128x64) off S1x128x64.size inb) (fun _ => rfl)).squeeze S128x64 squeezes_S1x128x64_S128x64).view.loc (V d (cV L) (jV L))
        ↦[(((A8).slice (Rect.unit (s := S2x128x64) off S1x128x64.size inb) (fun _ => rfl)).squeeze S128x64 squeezes_S1x128x64_S128x64).view.set]{q} f : sProp 𝕄)
      = ((((A8).slice (Rect.unit (s := S2x128x64) off' S1x128x64.size inb') (fun _ => rfl)).squeeze S128x64 squeezes_S1x128x64_S128x64).view.loc (V d (cV L) (jV L))
        ↦[(((A8).slice (Rect.unit (s := S2x128x64) off' S1x128x64.size inb') (fun _ => rfl)).squeeze S128x64 squeezes_S1x128x64_S128x64).view.set]{q} f) := by
  subst h; rfl

theorem pts_idxP2 (k : Fin k1_t1_loop.trips) (h1 : k1_cond1 k = 1#1) (q : PosShare TreeShare) (f : Buf (Elt F) ((A5).view.loc (V d (cV L) (jV L)))) :
    ((idxP2 k h1).view.loc (V d (cV L) (jV L)) ↦[(idxP2 k h1).view.set]{q} f : sProp 𝕄)
      = ((idxC k.val).view.loc (V d (cV L) (jV L)) ↦[(idxC k.val).view.set]{q} f) :=
  pts_idx_slot d L (k1_off2_eq k) _ _ q f
theorem pts_idxP24 (k : Fin k1_t1_loop.trips) (h1 : k1_cond1 k = 1#1) (h2 : k1_cond2 k = 1#1) (q : PosShare TreeShare) (f : Buf (Elt F) ((A5).view.loc (V d (cV L) (jV L)))) :
    ((idxP24 k h1 h2).view.loc (V d (cV L) (jV L)) ↦[(idxP24 k h1 h2).view.set]{q} f : sProp 𝕄)
      = ((idxC (k.val + 5)).view.loc (V d (cV L) (jV L)) ↦[(idxC (k.val + 5)).view.set]{q} f) :=
  pts_idx_slot d L (k1_off24_eq k) _ _ q f
theorem pts_halfP22 (k : Fin k1_t1_loop.trips) (h1 : k1_cond1 k = 1#1) (q : PosShare TreeShare) (f : Buf (Elt F) ((A6).view.loc (V d (cV L) (jV L)))) :
    ((halfP22 k h1).view.loc (V d (cV L) (jV L)) ↦[(halfP22 k h1).view.set]{q} f : sProp 𝕄)
      = ((halfC k.val).view.loc (V d (cV L) (jV L)) ↦[(halfC k.val).view.set]{q} f) :=
  pts_half_slot d L (k1_off22_eq k) _ _ q f
theorem pts_halfP28 (k : Fin k1_t1_loop.trips) (h3 : k1_cond3 k = 1#1) (q : PosShare TreeShare) (f : Buf (Elt F) ((A6).view.loc (V d (cV L) (jV L)))) :
    ((halfP28 k h3).view.loc (V d (cV L) (jV L)) ↦[(halfP28 k h3).view.set]{q} f : sProp 𝕄)
      = ((halfC (k.val + 1)).view.loc (V d (cV L) (jV L)) ↦[(halfC (k.val + 1)).view.set]{q} f) :=
  pts_half_slot d L (k1_off28_eq k) _ _ q f
theorem pts_rowsP21 (k : Fin k1_t1_loop.trips) (h1 : k1_cond1 k = 1#1) (q : PosShare TreeShare) (f : Buf (Elt F) ((A7).view.loc (V d (cV L) (jV L)))) :
    ((rowsP21 k h1).view.loc (V d (cV L) (jV L)) ↦[(rowsP21 k h1).view.set]{q} f : sProp 𝕄)
      = ((rowsC k.val).view.loc (V d (cV L) (jV L)) ↦[(rowsC k.val).view.set]{q} f) :=
  pts_rows_slot d L (k1_off21_eq k) _ _ q f
theorem pts_rowsP27 (k : Fin k1_t1_loop.trips) (h3 : k1_cond3 k = 1#1) (q : PosShare TreeShare) (f : Buf (Elt F) ((A7).view.loc (V d (cV L) (jV L)))) :
    ((rowsP27 k h3).view.loc (V d (cV L) (jV L)) ↦[(rowsP27 k h3).view.set]{q} f : sProp 𝕄)
      = ((rowsC (k.val + 1)).view.loc (V d (cV L) (jV L)) ↦[(rowsC (k.val + 1)).view.set]{q} f) :=
  pts_rows_slot d L (k1_off27_eq k) _ _ q f
theorem pts_selP30 (k : Fin k1_t1_loop.trips) (h3 : k1_cond3 k = 1#1) (h4 : k1_cond4 k = 1#1) (q : PosShare TreeShare) (f : Buf (Elt F) ((A8).view.loc (V d (cV L) (jV L)))) :
    ((selP30 k h3 h4).view.loc (V d (cV L) (jV L)) ↦[(selP30 k h3 h4).view.set]{q} f : sProp 𝕄)
      = ((selC k.val).view.loc (V d (cV L) (jV L)) ↦[(selC k.val).view.set]{q} f) :=
  pts_sel_slot d L (k1_off30_eq k) _ _ q f
theorem pts_selP423 (k : Fin k1_t1_loop.trips) (h3 : k1_cond3 k = 1#1) (q : PosShare TreeShare) (f : Buf (Elt F) ((A8).view.loc (V d (cV L) (jV L)))) :
    ((selP423 k h3).view.loc (V d (cV L) (jV L)) ↦[(selP423 k h3).view.set]{q} f : sProp 𝕄)
      = ((selC k.val).view.loc (V d (cV L) (jV L)) ↦[(selC k.val).view.set]{q} f) :=
  pts_sel_slot d L (k1_off423_eq k) _ _ q f

/-! ## The slices of the two HBM operands are chunks -/

theorem set_xtP3 (k : Fin k1_t1_loop.trips) (h1 : k1_cond1 k = 1#1) : (xtP3 L k h1).view.set = xChunkSet (200 * wid L + k.val) :=
  set_xtW3 L k h1
theorem set_xtP25 (k : Fin k1_t1_loop.trips) (h1 : k1_cond1 k = 1#1) (h2 : k1_cond2 k = 1#1) :
    (xtP25 L k h1 h2).view.set = xChunkSet (200 * wid L + k.val + 5) :=
  set_xtW25 L k h1 h2
theorem set_outP425 (k : Fin k1_t1_loop.trips) (h3 : k1_cond3 k = 1#1) :
    (outP425 L k h3).view.set = Cert.Spec.chunkSet (200 * wid L + k.val - 4) :=
  set_outW L k h3

theorem pts_xtP3 (k : Fin k1_t1_loop.trips) (h1 : k1_cond1 k = 1#1) (q : PosShare TreeShare) (f : Buf (Elt F) ((A3).view.loc (V d (cV L) (jV L)))) :
    ((xtP3 L k h1).view.loc (V d (cV L) (jV L)) ↦[(xtP3 L k h1).view.set]{q} f : sProp 𝕄)
      = ((A3).view.loc (V d (cV L) (jV L)) ↦[xChunkSet (200 * wid L + k.val)]{q} f) := by
  rw [set_xtP3]
theorem pts_xtP25 (k : Fin k1_t1_loop.trips) (h1 : k1_cond1 k = 1#1) (h2 : k1_cond2 k = 1#1) (q : PosShare TreeShare) (f : Buf (Elt F) ((A3).view.loc (V d (cV L) (jV L)))) :
    ((xtP25 L k h1 h2).view.loc (V d (cV L) (jV L)) ↦[(xtP25 L k h1 h2).view.set]{q} f : sProp 𝕄)
      = ((A3).view.loc (V d (cV L) (jV L)) ↦[xChunkSet (200 * wid L + k.val + 5)]{q} f) := by
  rw [set_xtP25]
theorem pts_outP425 (k : Fin k1_t1_loop.trips) (h3 : k1_cond3 k = 1#1) (q : PosShare TreeShare) (f : Buf (Elt F) ((A4).view.loc (V d (cV L) (jV L)))) :
    ((outP425 L k h3).view.loc (V d (cV L) (jV L)) ↦[(outP425 L k h3).view.set]{q} f : sProp 𝕄)
      = ((A4).view.loc (V d (cV L) (jV L)) ↦[Cert.Spec.chunkSet (200 * wid L + k.val - 4)]{q} f) := by
  rw [set_outP425]

end Pts

/-! ## What a transfer into or out of a slot credits its semaphore -/

theorem credit_idxP2 (k : Fin k1_t1_loop.trips) (h1 : k1_cond1 k = 1#1) : (idxP2 k h1).view.dmaCredit = 4096 := rfl
theorem credit_idxP24 (k : Fin k1_t1_loop.trips) (h1 : k1_cond1 k = 1#1) (h2 : k1_cond2 k = 1#1) : (idxP24 k h1 h2).view.dmaCredit = 4096 := rfl
theorem credit_rowsP27 (k : Fin k1_t1_loop.trips) (h3 : k1_cond3 k = 1#1) : (rowsP27 k h3).view.dmaCredit = 524288 := rfl
theorem credit_outP31 (L : grid1.Coords) (k : Fin k1_t1_loop.trips) (h3 : k1_cond3 k = 1#1) (h4 : k1_cond4 k = 1#1) : (outP31 L k h3 h4).view.dmaCredit = 262144 := rfl
theorem credit_outP425 (L : grid1.Coords) (k : Fin k1_t1_loop.trips) (h3 : k1_cond3 k = 1#1) : (outP425 L k h3).view.dmaCredit = 262144 := rfl

end Cert.Proof.WBody

end
-- ==== Proof.WBodyEntry.lean ====
/-
  The tile's resources at entry and exit, in the spelling the body's run reads them in.

  The launch hands a vector subcore's task: the packed table and the transposed index array read-only, its two hundred
  chunks of the output whole, and everything the subcore owns — its scratch buffers whole at some contents, its
  semaphores at zero. The body reads the same resources piece by piece: each of the four ring buffers slot by slot
  (the slots are the buffer cut along its leading axis, pairwise disjoint and covering it); the seventeen DMA
  semaphores of the three arrays by slot number, apart from the subcore's other semaphores; the index array as this
  worker's two hundred chunks (pairwise disjoint) and the rest; the output's chunks numbered by trip; the table as the
  share the body keeps and five read tokens. Every statement here is an equivalence, used one way at entry and the other
  at exit.
-/
import proofs.«206325_g16862041604593_cont_week2b_1534_42_alg».proof.Kernel
import proofs.«206325_g16862041604593_cont_week2b_1534_42_alg».proof.Proof.Gen.Kernel
import proofs.«206325_g16862041604593_cont_week2b_1534_42_alg».proof.Proof.Spec
import proofs.«206325_g16862041604593_cont_week2b_1534_42_alg».proof.Proof.WBodyChunks
import proofs.«206325_g16862041604593_cont_week2b_1534_42_alg».proof.Proof.WBodyDefs
import Idealize.ShloMosaic.Lib.SparseCore.Launch
import Idealize.ShloMosaic.Lib.SparseCore.Stream
import Idealize.ShloMosaic.Lib.Ring
import Idealize.ShloMosaic.Lib.Tactic

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable {UU : Type} [URA UU] [CountersIn UU]
set_option quotPrecheck false in
local notation "𝕄" => MT nD τ sig (HIx 1) (Elt F) ℕ UU ℕ

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-! ## The HBM operands at entry and exit -/

variable (d : Dev nD) (L : grid1.Coords)

/-- The packed table, read-only: the share the body keeps and one read token per slot of the gathered-rows ring. -/
theorem tab_toks (q : PosShare TreeShare) (tp : Buf (Elt F) ((SparseCore.T d).loc main_v2)) :
    (((SparseCore.T d).loc main_v2 ↦{q} tp : sProp 𝕄))
      ⊣⊢ iprop(((A2).view.loc (V d (cV L) (jV L)) ↦{Transfers.shareDrop q 5} tp)
          ∗ bigSep (Finset.range 5) fun s => (A2).view.loc (V d (cV L) (jV L)) ↦{Transfers.shareTokN q s} tp) :=
  Transfers.pointsTo_toks_range q 5

/-- The output's two hundred chunks of this worker, numbered by trip. -/
theorem out_chunks (f : Buf (Elt F) ((SparseCore.T d).loc main_v3)) :
    (bigSep (Finset.univ : Finset (Fin 200)) fun t =>
        ((SparseCore.T d).loc main_v3 ↦[Cert.Spec.chunkSet (200 * wid L + t.val)]{fullShare} f : sProp 𝕄))
      = bigSep (Finset.range 200) fun t =>
          ((A4).view.loc (V d (cV L) (jV L)) ↦[Cert.Spec.chunkSet (200 * wid L + t)]{fullShare} f : sProp 𝕄) :=
  Ring.bigSep_fin_eq_range 200 _ _ (fun _ _ => rfl)

/-- The index entries of this worker's two hundred chunks. -/
def xtOwn (L : grid1.Coords) : Finset Cert.Spec.SXT.Idx := (Finset.range 200).biUnion fun t => xChunkSet (200 * wid L + t)

/-- The index array's entries outside this worker's chunks, at the same share and contents. -/
def XtRest (q' : PosShare TreeShare) (xt : Buf (Elt F) ((SparseCore.T (τ := τ) d).loc main_v0)) : sProp 𝕄 :=
  (SparseCore.T (τ := τ) d).loc main_v0 ↦[Finset.univ \ xtOwn L]{q'} xt

/-- This worker's index entries are its two hundred chunks, numbered by trip. -/
theorem xt_disj (t t' : ℕ) (ht : t < 200) (ht' : t' < 200) (hne : t ≠ t') :
    Disjoint (xChunkSet (200 * wid L + t)) (xChunkSet (200 * wid L + t')) := by
  have hw := wid_lt L
  exact xChunkSet_disjoint _ _ (by omega) (by omega) (by omega)

theorem xt_own (q' : PosShare TreeShare) (xt : Buf (Elt F) ((SparseCore.T (τ := τ) d).loc main_v0)) :
    ((SparseCore.T (τ := τ) d).loc main_v0 ↦[xtOwn L]{q'} xt : sProp 𝕄)
      = bigSep (Finset.range 200) fun t => (SparseCore.T (τ := τ) d).loc main_v0 ↦[xChunkSet (200 * wid L + t)]{q'} xt :=
  pointsTo_biUnion (Ix := HIx 1) (Val := Elt F) (Name := ℕ) (U := UU) (Lvl := ℕ) (ℓ := (SparseCore.T (τ := τ) d).loc main_v0)
    (q := q') (f := xt) (Finset.range 200) (fun t => xChunkSet (200 * wid L + t))
    (fun t ht t' ht' hne => xt_disj L t t' (Finset.mem_range.mp ht) (Finset.mem_range.mp ht') hne)

set_option maxHeartbeats 1600000 in
/-- The transposed index array, read-only: this worker's two hundred chunks, numbered by trip, and the rest. -/
theorem xt_chunks (q' : PosShare TreeShare) (xt : Buf (Elt F) ((SparseCore.T (τ := τ) d).loc main_v0)) :
    (((SparseCore.T (τ := τ) d).loc main_v0 ↦{q'} xt : sProp 𝕄))
      ⊣⊢ iprop((bigSep (Finset.range 200) fun t => (A3).view.loc (V d (cV L) (jV L)) ↦[xChunkSet (200 * wid L + t)]{q'} xt)
          ∗ XtRest d L q' xt) := by
  show _ ⊣⊢ iprop((bigSep (Finset.range 200) fun t => (SparseCore.T (τ := τ) d).loc main_v0 ↦[xChunkSet (200 * wid L + t)]{q'} xt)
          ∗ XtRest d L q' xt)
  rw [← xt_own d L q' xt]
  exact pointsTo_split_subset (Ix := HIx 1) (Val := Elt F) (Name := ℕ) (U := UU) (Lvl := ℕ)
    (ℓ := (SparseCore.T (τ := τ) d).loc main_v0) (q := q') (f := xt) (Finset.subset_univ (xtOwn L))

/-! ## The subcore's own semaphores at entry and exit -/

/-- The cells of the three semaphore arrays, by slot number. -/
abbrev isemCell (j : Nat) : GSem nD τ sig := (V d (cV L) (jV L), SemLoc.dma (isemC j))
abbrev gsemCell (j : Nat) : GSem nD τ sig := (V d (cV L) (jV L), SemLoc.dma (gsemC j))
abbrev wsemCell (j : Nat) : GSem nD τ sig := (V d (cV L) (jV L), SemLoc.dma (wsemC j))

theorem isem_inj : ∀ a b : Fin 10, isemC a.val = isemC b.val → a = b := by decide
theorem gsem_inj : ∀ a b : Fin 5, gsemC a.val = gsemC b.val → a = b := by decide
theorem wsem_inj : ∀ a b : Fin 2, wsemC a.val = wsemC b.val → a = b := by decide
theorem isem_ne_gsem : ∀ (a : Fin 10) (b : Fin 5), isemC a.val ≠ gsemC b.val := by decide
theorem isem_ne_wsem : ∀ (a : Fin 10) (b : Fin 2), isemC a.val ≠ wsemC b.val := by decide
theorem gsem_ne_wsem : ∀ (a : Fin 5) (b : Fin 2), gsemC a.val ≠ wsemC b.val := by decide
theorem isem_scoped : ∀ a : Fin 10, (SemLoc.dma (isemC a.val) : SemLoc sig).isScoped .scVector = true := by decide
theorem gsem_scoped : ∀ a : Fin 5, (SemLoc.dma (gsemC a.val) : SemLoc sig).isScoped .scVector = true := by decide
theorem wsem_scoped : ∀ a : Fin 2, (SemLoc.dma (wsemC a.val) : SemLoc sig).isScoped .scVector = true := by decide

/-- The seventeen cells. -/
def semCells : Finset (GSem nD τ sig) :=
  (Finset.range 10).image (isemCell d L) ∪ ((Finset.range 5).image (gsemCell d L) ∪ (Finset.range 2).image (wsemCell d L))

/-- The subcore's other own semaphores, at zero. -/
def SemRest : sProp 𝕄 := bigSep (ownCells (V d (cV L) (jV L)) \ semCells d L) fun g => semVal g 0

theorem isemCell_injOn : Set.InjOn (isemCell d L) (Finset.range 10 : Finset ℕ) := by
  intro a ha b hb e
  have ha' := Finset.mem_range.mp (Finset.mem_coe.mp ha)
  have hb' := Finset.mem_range.mp (Finset.mem_coe.mp hb)
  exact congrArg Fin.val (isem_inj ⟨a, ha'⟩ ⟨b, hb'⟩ (SemLoc.dma.inj (congrArg Prod.snd e)))
theorem gsemCell_injOn : Set.InjOn (gsemCell d L) (Finset.range 5 : Finset ℕ) := by
  intro a ha b hb e
  have ha' := Finset.mem_range.mp (Finset.mem_coe.mp ha)
  have hb' := Finset.mem_range.mp (Finset.mem_coe.mp hb)
  exact congrArg Fin.val (gsem_inj ⟨a, ha'⟩ ⟨b, hb'⟩ (SemLoc.dma.inj (congrArg Prod.snd e)))
theorem wsemCell_injOn : Set.InjOn (wsemCell d L) (Finset.range 2 : Finset ℕ) := by
  intro a ha b hb e
  have ha' := Finset.mem_range.mp (Finset.mem_coe.mp ha)
  have hb' := Finset.mem_range.mp (Finset.mem_coe.mp hb)
  exact congrArg Fin.val (wsem_inj ⟨a, ha'⟩ ⟨b, hb'⟩ (SemLoc.dma.inj (congrArg Prod.snd e)))

theorem semCells_disj1 : Disjoint ((Finset.range 10).image (isemCell d L))
    ((Finset.range 5).image (gsemCell d L) ∪ (Finset.range 2).image (wsemCell d L)) := by
  rw [Finset.disjoint_left]
  intro g hg hg'
  obtain ⟨a, ha, rfl⟩ := Finset.mem_image.mp hg
  have ha' := Finset.mem_range.mp ha
  rcases Finset.mem_union.mp hg' with h | h
  · obtain ⟨b, hb, e⟩ := Finset.mem_image.mp h
    exact isem_ne_gsem ⟨a, ha'⟩ ⟨b, Finset.mem_range.mp hb⟩ (SemLoc.dma.inj (congrArg Prod.snd e)).symm
  · obtain ⟨b, hb, e⟩ := Finset.mem_image.mp h
    exact isem_ne_wsem ⟨a, ha'⟩ ⟨b, Finset.mem_range.mp hb⟩ (SemLoc.dma.inj (congrArg Prod.snd e)).symm

theorem semCells_disj2 : Disjoint ((Finset.range 5).image (gsemCell d L)) ((Finset.range 2).image (wsemCell d L)) := by
  rw [Finset.disjoint_left]
  intro g hg hg'
  obtain ⟨a, ha, rfl⟩ := Finset.mem_image.mp hg
  obtain ⟨b, hb, e⟩ := Finset.mem_image.mp hg'
  exact gsem_ne_wsem ⟨a, Finset.mem_range.mp ha⟩ ⟨b, Finset.mem_range.mp hb⟩ (SemLoc.dma.inj (congrArg Prod.snd e)).symm

theorem semCells_sub : semCells d L ⊆ ownCells (V d (cV L) (jV L)) := by
  intro g hg
  unfold semCells at hg
  rcases Finset.mem_union.mp hg with h | h
  · obtain ⟨a, ha, rfl⟩ := Finset.mem_image.mp h
    exact mem_ownCells.mpr ⟨rfl, isem_scoped ⟨a, Finset.mem_range.mp ha⟩⟩
  rcases Finset.mem_union.mp h with h | h
  · obtain ⟨a, ha, rfl⟩ := Finset.mem_image.mp h
    exact mem_ownCells.mpr ⟨rfl, gsem_scoped ⟨a, Finset.mem_range.mp ha⟩⟩
  · obtain ⟨a, ha, rfl⟩ := Finset.mem_image.mp h
    exact mem_ownCells.mpr ⟨rfl, wsem_scoped ⟨a, Finset.mem_range.mp ha⟩⟩

/-- The subcore's own semaphores at zero are the seventeen cells at zero, by slot number, and the rest. -/
theorem scopedSems0_cells :
    (scopedSems0 (V d (cV L) (jV L)) : sProp 𝕄)
      ⊣⊢ iprop((bigSep (Finset.range 10) fun j => semVal ((V d (cV L) (jV L), SemLoc.dma (isemC j)) : GSem nD τ sig) 0)
          ∗ (bigSep (Finset.range 5) fun j => semVal ((V d (cV L) (jV L), SemLoc.dma (gsemC j)) : GSem nD τ sig) 0)
          ∗ (bigSep (Finset.range 2) fun j => semVal ((V d (cV L) (jV L), SemLoc.dma (wsemC j)) : GSem nD τ sig) 0)
          ∗ SemRest d L) := by
  rw [SparseCore.Cfg.scopedSems0_V (Val := Elt F) d (cV L) (jV L)]
  unfold SparseCore.Cfg.ownSems0 SemRest
  rw [SparseCore.bigSep_sdiff_split' (semCells_sub d L)]
  unfold semCells
  rw [SparseCore.bigSep_union' (semCells_disj1 d L), SparseCore.bigSep_union' (semCells_disj2 d L),
    bigSep_image_of_injOn (isemCell_injOn d L), bigSep_image_of_injOn (gsemCell_injOn d L),
    bigSep_image_of_injOn (wsemCell_injOn d L)]
  exact Idealize.SL.BI.Laws.sep_assoc.trans (Idealize.SL.BI.Laws.sep_congr_right Idealize.SL.BI.Laws.sep_assoc)

/-! ## The subcore's own buffers at entry and exit

Each of the four ring buffers is cut along its leading axis into its slots: slot `b` is the rectangle at offset `b` on
that axis, one long there and whole on the other axes. The slots are pairwise disjoint and cover the buffer, so the
buffer held whole at some contents is its slots, each held at some contents. -/

variable [FloatOps F]

omit [FloatOps F] in
/-- Held at given contents is held at some contents. -/
theorem pts_exists_intro {ℓ : Loc nD τ sig} (I : Finset (Idx ℓ)) (f : Buf (Elt F) ℓ) :
    (ℓ ↦[I]{fullShare} f : sProp 𝕄) ⊢ iprop(∃ g, ℓ ↦[I]{fullShare} g) := by
  iintro H; iexists f; iexact H

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem set_idxC (j : Nat) : (idxC j).view.set = (idxR j).set := by
  show (((View.whole cc1_scratch0).slice (idxR j)).reshape S128 squeezes_S1x128_S128.numel_eq).set = _
  rw [View.set_reshape, View.set_slice_whole]

theorem idx_disj (b b' : Fin 10) (h : b ≠ b') : Disjoint (idxR b.val).set (idxR b'.val).set :=
  Ring.lead_disjoint (s := S10x128) (NB := 10) 0 1 (fun b => ![b.val % 10, 0]) S1x128.size (fun b => inb_idx b.val)
    (fun b => by show b.val % 10 = 1 * b.val; rw [Nat.mod_eq_of_lt b.isLt, Nat.one_mul]) rfl b b' h

theorem idx_cover : Finset.univ.biUnion (fun b : Fin 10 => (idxR b.val).set) = Finset.univ :=
  Ring.lead_cover (s := S10x128) (NB := 10) 0 1 (fun b => ![b.val % 10, 0]) S1x128.size (fun b => inb_idx b.val)
    (fun b => by show b.val % 10 = 1 * b.val; rw [Nat.mod_eq_of_lt b.isLt, Nat.one_mul])
    (fun b a ha => by fin_cases a <;> first | exact absurd rfl ha | rfl)
    rfl
    (fun a ha => by fin_cases a <;> first | exact absurd rfl ha | rfl)
    rfl

set_option maxHeartbeats 1000000 in
/-- The buffer held whole at some contents is its slots, each at some contents. -/
theorem idx_slots :
    (iprop(∃ f, (V d (cV L) (jV L)).loc cc1_scratch0 ↦{fullShare} f) : sProp 𝕄)
      ⊣⊢ bigSep (Finset.range 10) fun j => iprop(∃ f, (idxC j).view.loc (V d (cV L) (jV L)) ↦[(idxC j).view.set]{fullShare} f) := by
  have e : (bigSep (Finset.univ : Finset (Fin 10)) fun b => (iprop(∃ f, (V d (cV L) (jV L)).loc cc1_scratch0 ↦[(idxR b.val).set]{fullShare} f) : sProp 𝕄))
      = bigSep (Finset.range 10) fun j => iprop(∃ f, (idxC j).view.loc (V d (cV L) (jV L)) ↦[(idxC j).view.set]{fullShare} f) :=
    Ring.bigSep_fin_eq_range 10 _ _ (fun t h => by rw [set_idxC])
  rw [← e]
  constructor
  · iintro ⟨%f, H⟩
    have hs := Entails.of_eq (Ring.pointsTo_blocks (Ix := HIx 1) (Name := ℕ) (U := UU) (Lvl := ℕ) (q := fullShare)
      (ℓ := (V d (cV L) (jV L)).loc cc1_scratch0) (fun b : Fin 10 => (idxR b.val).set) idx_disj idx_cover f)
    have hm := bigSep_mono (s := (Finset.univ : Finset (Fin 10)))
      (Φ := fun b : Fin 10 => ((V d (cV L) (jV L)).loc cc1_scratch0 ↦[(idxR b.val).set]{fullShare} f : sProp 𝕄))
      (Ψ := fun b : Fin 10 => (iprop(∃ f, (V d (cV L) (jV L)).loc cc1_scratch0 ↦[(idxR b.val).set]{fullShare} f) : sProp 𝕄))
      (fun b _ => pts_exists_intro _ f)
    iapply (hs.trans hm) $$ H
  · iintro H
    iapply (Ring.pointsTo_blocks_join_exists (Ix := HIx 1) (Name := ℕ) (U := UU) (Lvl := ℕ) (q := fullShare)
      (ℓ := (V d (cV L) (jV L)).loc cc1_scratch0) (fun b : Fin 10 => (idxR b.val).set) idx_disj idx_cover
      ((fun _ => (0#32 : BitVec 32)) : Buf (Elt F) ((V d (cV L) (jV L)).loc cc1_scratch0)))
    iexact H

theorem set_halfC (j : Nat) : (halfC j).view.set = (halfR j).set := by
  show (((View.whole cc1_scratch1).slice (halfR j)).reshape S128 squeezes_S1x128_S128.numel_eq).set = _
  rw [View.set_reshape, View.set_slice_whole]

theorem half_disj (b b' : Fin 5) (h : b ≠ b') : Disjoint (halfR b.val).set (halfR b'.val).set :=
  Ring.lead_disjoint (s := S5x128) (NB := 5) 0 1 (fun b => ![b.val % 5, 0]) S1x128.size (fun b => inb_half b.val)
    (fun b => by show b.val % 5 = 1 * b.val; rw [Nat.mod_eq_of_lt b.isLt, Nat.one_mul]) rfl b b' h

theorem half_cover : Finset.univ.biUnion (fun b : Fin 5 => (halfR b.val).set) = Finset.univ :=
  Ring.lead_cover (s := S5x128) (NB := 5) 0 1 (fun b => ![b.val % 5, 0]) S1x128.size (fun b => inb_half b.val)
    (fun b => by show b.val % 5 = 1 * b.val; rw [Nat.mod_eq_of_lt b.isLt, Nat.one_mul])
    (fun b a ha => by fin_cases a <;> first | exact absurd rfl ha | rfl)
    rfl
    (fun a ha => by fin_cases a <;> first | exact absurd rfl ha | rfl)
    rfl

set_option maxHeartbeats 1000000 in
/-- The buffer held whole at some contents is its slots, each at some contents. -/
theorem half_slots :
    (iprop(∃ f, (V d (cV L) (jV L)).loc cc1_scratch1 ↦{fullShare} f) : sProp 𝕄)
      ⊣⊢ bigSep (Finset.range 5) fun j => iprop(∃ f, (halfC j).view.loc (V d (cV L) (jV L)) ↦[(halfC j).view.set]{fullShare} f) := by
  have e : (bigSep (Finset.univ : Finset (Fin 5)) fun b => (iprop(∃ f, (V d (cV L) (jV L)).loc cc1_scratch1 ↦[(halfR b.val).set]{fullShare} f) : sProp 𝕄))
      = bigSep (Finset.range 5) fun j => iprop(∃ f, (halfC j).view.loc (V d (cV L) (jV L)) ↦[(halfC j).view.set]{fullShare} f) :=
    Ring.bigSep_fin_eq_range 5 _ _ (fun t h => by rw [set_halfC])
  rw [← e]
  constructor
  · iintro ⟨%f, H⟩
    have hs := Entails.of_eq (Ring.pointsTo_blocks (Ix := HIx 1) (Name := ℕ) (U := UU) (Lvl := ℕ) (q := fullShare)
      (ℓ := (V d (cV L) (jV L)).loc cc1_scratch1) (fun b : Fin 5 => (halfR b.val).set) half_disj half_cover f)
    have hm := bigSep_mono (s := (Finset.univ : Finset (Fin 5)))
      (Φ := fun b : Fin 5 => ((V d (cV L) (jV L)).loc cc1_scratch1 ↦[(halfR b.val).set]{fullShare} f : sProp 𝕄))
      (Ψ := fun b : Fin 5 => (iprop(∃ f, (V d (cV L) (jV L)).loc cc1_scratch1 ↦[(halfR b.val).set]{fullShare} f) : sProp 𝕄))
      (fun b _ => pts_exists_intro _ f)
    iapply (hs.trans hm) $$ H
  · iintro H
    iapply (Ring.pointsTo_blocks_join_exists (Ix := HIx 1) (Name := ℕ) (U := UU) (Lvl := ℕ) (q := fullShare)
      (ℓ := (V d (cV L) (jV L)).loc cc1_scratch1) (fun b : Fin 5 => (halfR b.val).set) half_disj half_cover
      ((fun _ => (0#32 : BitVec 32)) : Buf (Elt F) ((V d (cV L) (jV L)).loc cc1_scratch1)))
    iexact H

theorem set_rowsC (j : Nat) : (rowsC j).view.set = (rowsR j).set := by
  show (((View.whole cc1_scratch2).slice (rowsR j)).reshape S128x128 squeezes_S1x128x128_S128x128.numel_eq).set = _
  rw [View.set_reshape, View.set_slice_whole]

theorem rows_disj (b b' : Fin 5) (h : b ≠ b') : Disjoint (rowsR b.val).set (rowsR b'.val).set :=
  Ring.lead_disjoint (s := S5x128x128) (NB := 5) 0 1 (fun b => ![b.val % 5, 0, 0]) S1x128x128.size (fun b => inb_rows b.val)
    (fun b => by show b.val % 5 = 1 * b.val; rw [Nat.mod_eq_of_lt b.isLt, Nat.one_mul]) rfl b b' h

theorem rows_cover : Finset.univ.biUnion (fun b : Fin 5 => (rowsR b.val).set) = Finset.univ :=
  Ring.lead_cover (s := S5x128x128) (NB := 5) 0 1 (fun b => ![b.val % 5, 0, 0]) S1x128x128.size (fun b => inb_rows b.val)
    (fun b => by show b.val % 5 = 1 * b.val; rw [Nat.mod_eq_of_lt b.isLt, Nat.one_mul])
    (fun b a ha => by fin_cases a <;> first | exact absurd rfl ha | rfl)
    rfl
    (fun a ha => by fin_cases a <;> first | exact absurd rfl ha | rfl)
    rfl

set_option maxHeartbeats 1000000 in
/-- The buffer held whole at some contents is its slots, each at some contents. -/
theorem rows_slots :
    (iprop(∃ f, (V d (cV L) (jV L)).loc cc1_scratch2 ↦{fullShare} f) : sProp 𝕄)
      ⊣⊢ bigSep (Finset.range 5) fun j => iprop(∃ f, (rowsC j).view.loc (V d (cV L) (jV L)) ↦[(rowsC j).view.set]{fullShare} f) := by
  have e : (bigSep (Finset.univ : Finset (Fin 5)) fun b => (iprop(∃ f, (V d (cV L) (jV L)).loc cc1_scratch2 ↦[(rowsR b.val).set]{fullShare} f) : sProp 𝕄))
      = bigSep (Finset.range 5) fun j => iprop(∃ f, (rowsC j).view.loc (V d (cV L) (jV L)) ↦[(rowsC j).view.set]{fullShare} f) :=
    Ring.bigSep_fin_eq_range 5 _ _ (fun t h => by rw [set_rowsC])
  rw [← e]
  constructor
  · iintro ⟨%f, H⟩
    have hs := Entails.of_eq (Ring.pointsTo_blocks (Ix := HIx 1) (Name := ℕ) (U := UU) (Lvl := ℕ) (q := fullShare)
      (ℓ := (V d (cV L) (jV L)).loc cc1_scratch2) (fun b : Fin 5 => (rowsR b.val).set) rows_disj rows_cover f)
    have hm := bigSep_mono (s := (Finset.univ : Finset (Fin 5)))
      (Φ := fun b : Fin 5 => ((V d (cV L) (jV L)).loc cc1_scratch2 ↦[(rowsR b.val).set]{fullShare} f : sProp 𝕄))
      (Ψ := fun b : Fin 5 => (iprop(∃ f, (V d (cV L) (jV L)).loc cc1_scratch2 ↦[(rowsR b.val).set]{fullShare} f) : sProp 𝕄))
      (fun b _ => pts_exists_intro _ f)
    iapply (hs.trans hm) $$ H
  · iintro H
    iapply (Ring.pointsTo_blocks_join_exists (Ix := HIx 1) (Name := ℕ) (U := UU) (Lvl := ℕ) (q := fullShare)
      (ℓ := (V d (cV L) (jV L)).loc cc1_scratch2) (fun b : Fin 5 => (rowsR b.val).set) rows_disj rows_cover
      ((fun _ => (FloatOps.ofBits .f32 0#32 : F .f32)) : Buf (Elt F) ((V d (cV L) (jV L)).loc cc1_scratch2)))
    iexact H

theorem set_selC (j : Nat) : (selC j).view.set = (selR j).set := by
  show (((View.whole cc1_scratch3).slice (selR j)).reshape S128x64 squeezes_S1x128x64_S128x64.numel_eq).set = _
  rw [View.set_reshape, View.set_slice_whole]

theorem sel_disj (b b' : Fin 2) (h : b ≠ b') : Disjoint (selR b.val).set (selR b'.val).set :=
  Ring.lead_disjoint (s := S2x128x64) (NB := 2) 0 1 (fun b => ![b.val % 2, 0, 0]) S1x128x64.size (fun b => inb_sel b.val)
    (fun b => by show b.val % 2 = 1 * b.val; rw [Nat.mod_eq_of_lt b.isLt, Nat.one_mul]) rfl b b' h

theorem sel_cover : Finset.univ.biUnion (fun b : Fin 2 => (selR b.val).set) = Finset.univ :=
  Ring.lead_cover (s := S2x128x64) (NB := 2) 0 1 (fun b => ![b.val % 2, 0, 0]) S1x128x64.size (fun b => inb_sel b.val)
    (fun b => by show b.val % 2 = 1 * b.val; rw [Nat.mod_eq_of_lt b.isLt, Nat.one_mul])
    (fun b a ha => by fin_cases a <;> first | exact absurd rfl ha | rfl)
    rfl
    (fun a ha => by fin_cases a <;> first | exact absurd rfl ha | rfl)
    rfl

set_option maxHeartbeats 1000000 in
/-- The buffer held whole at some contents is its slots, each at some contents. -/
theorem sel_slots :
    (iprop(∃ f, (V d (cV L) (jV L)).loc cc1_scratch3 ↦{fullShare} f) : sProp 𝕄)
      ⊣⊢ bigSep (Finset.range 2) fun j => iprop(∃ f, (selC j).view.loc (V d (cV L) (jV L)) ↦[(selC j).view.set]{fullShare} f) := by
  have e : (bigSep (Finset.univ : Finset (Fin 2)) fun b => (iprop(∃ f, (V d (cV L) (jV L)).loc cc1_scratch3 ↦[(selR b.val).set]{fullShare} f) : sProp 𝕄))
      = bigSep (Finset.range 2) fun j => iprop(∃ f, (selC j).view.loc (V d (cV L) (jV L)) ↦[(selC j).view.set]{fullShare} f) :=
    Ring.bigSep_fin_eq_range 2 _ _ (fun t h => by rw [set_selC])
  rw [← e]
  constructor
  · iintro ⟨%f, H⟩
    have hs := Entails.of_eq (Ring.pointsTo_blocks (Ix := HIx 1) (Name := ℕ) (U := UU) (Lvl := ℕ) (q := fullShare)
      (ℓ := (V d (cV L) (jV L)).loc cc1_scratch3) (fun b : Fin 2 => (selR b.val).set) sel_disj sel_cover f)
    have hm := bigSep_mono (s := (Finset.univ : Finset (Fin 2)))
      (Φ := fun b : Fin 2 => ((V d (cV L) (jV L)).loc cc1_scratch3 ↦[(selR b.val).set]{fullShare} f : sProp 𝕄))
      (Ψ := fun b : Fin 2 => (iprop(∃ f, (V d (cV L) (jV L)).loc cc1_scratch3 ↦[(selR b.val).set]{fullShare} f) : sProp 𝕄))
      (fun b _ => pts_exists_intro _ f)
    iapply (hs.trans hm) $$ H
  · iintro H
    iapply (Ring.pointsTo_blocks_join_exists (Ix := HIx 1) (Name := ℕ) (U := UU) (Lvl := ℕ) (q := fullShare)
      (ℓ := (V d (cV L) (jV L)).loc cc1_scratch3) (fun b : Fin 2 => (selR b.val).set) sel_disj sel_cover
      ((fun _ => (FloatOps.ofBits .f32 0#32 : F .f32)) : Buf (Elt F) ((V d (cV L) (jV L)).loc cc1_scratch3)))
    iexact H

/-- The subcore's other own buffers, each whole at some contents. -/
def BufRest : sProp 𝕄 :=
  bigSep (((((ownRefs (τ := τ) (.scVector (cV L) (jV L))).erase ((Proc.scVector (cV L) (jV L)).devRef cc1_scratch0)).erase
      ((Proc.scVector (cV L) (jV L)).devRef cc1_scratch1)).erase ((Proc.scVector (cV L) (jV L)).devRef cc1_scratch2)).erase ((Proc.scVector (cV L) (jV L)).devRef cc1_scratch3))
    fun b => iprop(∃ f, ((d, b) : Loc nD τ sig) ↦{fullShare} f)

/-- The four ring buffers are among the subcore's own. -/
theorem ownBufs_four :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f) ∗ BufRest d L) := by
  unfold SparseCore.Cfg.ownBufs BufRest
  refine (SparseCore.bigSep_erase' (SparseCore.Cfg.mem_ownRefs_of_owner (p := (Proc.scVector (cV L) (jV L)))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (Proc.scVector (cV L) (jV L))) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := (Proc.scVector (cV L) (jV L))) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := (Proc.scVector (cV L) (jV L))) (b := (Proc.scVector (cV L) (jV L)).devRef cc1_scratch3) rfl⟩⟩⟩)]

/-- The subcore's own buffers are the four rings slot by slot, each slot at some contents, and the rest. -/
theorem scopedBufs_slots :
    (scopedBufs (V d (cV L) (jV L)) : sProp 𝕄)
      ⊣⊢ iprop((bigSep (Finset.range 10) fun j => iprop(∃ f, (idxC j).view.loc (V d (cV L) (jV L)) ↦[(idxC j).view.set]{fullShare} f))
          ∗ (bigSep (Finset.range 5) fun j => iprop(∃ f, (halfC j).view.loc (V d (cV L) (jV L)) ↦[(halfC j).view.set]{fullShare} f))
          ∗ (bigSep (Finset.range 5) fun j => iprop(∃ f, (rowsC j).view.loc (V d (cV L) (jV L)) ↦[(rowsC j).view.set]{fullShare} f))
          ∗ (bigSep (Finset.range 2) fun j => iprop(∃ f, (selC j).view.loc (V d (cV L) (jV L)) ↦[(selC j).view.set]{fullShare} f))
          ∗ BufRest d L) := by
  rw [(K (F := F)).scopedBufs_V facts d (cV L) (jV L), ownBufs_four]
  exact Idealize.SL.BI.Laws.sep_congr (idx_slots d L) (Idealize.SL.BI.Laws.sep_congr (half_slots d L)
    (Idealize.SL.BI.Laws.sep_congr (rows_slots d L) (Idealize.SL.BI.Laws.sep_congr_left (sel_slots d L))))

end Cert.Proof.WBody

end
-- ==== Proof.WBodyPack.lean ====
import proofs.«206325_g16862041604593_cont_week2b_1534_42_alg».proof.Proof.WBodyRespell
import Idealize.ShloMosaic.Lib.Writes
import Idealize.ShloMosaic.Lib.Exec

/-!
  The SparseCore kernel's body: what the loop carries, opened at a trip and closed after it.

  Between trips the rings' slots, the copies in flight and the chunks at home are held by NUMBER; a trip's program
  text names them by the offsets it computes. Opening turns a held slot or flight of the right number into the
  program's spelling at trip `k` (slot `k`, `k + 5`, `k + 1`, … modulo the ring's length; chunk `k`, `k + 5`, `k - 4`);
  closing turns what the trip leaves back. An index slot overwritten whole by a chunk of the transposed indices holds
  words of that array.
-/

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-! ## The carried families, opened at a trip and closed after it -/

section Pack

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))

/-! ### Opening: from the slot by number to the program's spelling at trip `k` -/

theorem IFl_open (k : Fin k1_t1_loop.trips) (h1 : k1_cond1 k = 1#1) :
    IFl d L q' xt k.val ⊢ (iprop(∃ c, ⌜∀ x : S128.Idx, ((idxP2 k h1).view.read (Elt F) c x).toNat ≤ 999999⌝
      ∗ Transfers.Flight (countersEmb (U := UU)) (V d (cV L) (jV L)) (SemLoc.dma (isemP4 k h1)) (default : HIx 1) 4096
          iprop(((idxP2 k h1).view.loc (V d (cV L) (jV L)) ↦[(idxP2 k h1).view.set]{fullShare} c)
            ∗ ((xtP3 L k h1).view.loc (V d (cV L) (jV L)) ↦[(xtP3 L k h1).view.set]{q'} xt))) : sProp 𝕄) := by
  rw [idxP2_eq k h1, isemP4_eq k h1, set_xtP3]
  unfold IFl IdxOK
  exact BI.Entails.refl _

theorem IFree_open (k : Fin k1_t1_loop.trips) (h1 : k1_cond1 k = 1#1) (h2 : k1_cond2 k = 1#1) :
    IFree d L (k.val + 5) ⊢ (iprop(semVal ((V d (cV L) (jV L)), SemLoc.dma (isemP26 k h1 h2)) 0
      ∗ ∃ f, ((idxP24 k h1 h2).view.loc (V d (cV L) (jV L)) ↦[(idxP24 k h1 h2).view.set]{fullShare} f)) : sProp 𝕄) := by
  rw [idxP24_eq k h1 h2, isemP26_eq k h1 h2]
  unfold IFree
  exact BI.Entails.refl _

theorem XHome_open (k : Fin k1_t1_loop.trips) (h1 : k1_cond1 k = 1#1) (h2 : k1_cond2 k = 1#1) :
    XHome d L q' xt (k.val + 5) ⊢ ((xtP25 L k h1 h2).view.loc (V d (cV L) (jV L)) ↦[(xtP25 L k h1 h2).view.set]{q'} xt : sProp 𝕄) := by
  rw [set_xtP25, show 200 * wid L + k.val + 5 = 200 * wid L + (k.val + 5) by omega]
  unfold XHome
  exact BI.Entails.refl _

theorem GFree_open (k : Fin k1_t1_loop.trips) (h1 : k1_cond1 k = 1#1) :
    GFree d L q tp k.val ⊢ (iprop(semVal ((V d (cV L) (jV L)), SemLoc.dma (gsemP23 k h1)) 0
      ∗ (∃ f, ((rowsP21 k h1).view.loc (V d (cV L) (jV L)) ↦[(rowsP21 k h1).view.set]{fullShare} f))
      ∗ (∃ f, ((halfP22 k h1).view.loc (V d (cV L) (jV L)) ↦[(halfP22 k h1).view.set]{fullShare} f))
      ∗ ((tabS).view.loc (V d (cV L) (jV L)) ↦[(tabS).view.set]{Transfers.shareTokN q (k.val % 5)} tp)) : sProp 𝕄) := by
  rw [rowsP21_eq k h1, halfP22_eq k h1, gsemP23_eq k h1]
  unfold GFree
  exact BI.Entails.refl _

theorem GFl_open (k : Fin k1_t1_loop.trips) (h3 : k1_cond3 k = 1#1) (hk : 4 ≤ k.val) :
    GFl d L q tp (k.val - 4) ⊢ (iprop(∃ c₁ c₂, Transfers.Flight (countersEmb (U := UU)) (V d (cV L) (jV L)) (SemLoc.dma (gsemP29 k h3)) (default : HIx 1) 524288
      iprop((((rowsP27 k h3).view.loc (V d (cV L) (jV L)) ↦[(rowsP27 k h3).view.set]{fullShare} c₁)
          ∗ ((halfP28 k h3).view.loc (V d (cV L) (jV L)) ↦[(halfP28 k h3).view.set]{fullShare} c₂))
        ∗ ((tabS).view.loc (V d (cV L) (jV L)) ↦[(tabS).view.set]{Transfers.shareTokN q ((k.val - 4) % 5)} tp))) : sProp 𝕄) := by
  rw [rowsP27_eq k h3, halfP28_eq k h3, gsemP29_eq k h3,
    rowsC_congr (a := k.val + 1) (b := k.val - 4) (by omega), halfC_congr (a := k.val + 1) (b := k.val - 4) (by omega),
    gsemC_congr (a := k.val + 1) (b := k.val - 4) (by omega)]
  unfold GFl
  exact BI.Entails.refl _

theorem WFl_open (k : Fin k1_t1_loop.trips) (h3 : k1_cond3 k = 1#1) (h4 : k1_cond4 k = 1#1) (hk : 6 ≤ k.val) :
    WFl d L (k.val - 6) ⊢ (iprop(∃ c₁ c₂, Transfers.Flight (countersEmb (U := UU)) (V d (cV L) (jV L)) (SemLoc.dma (wsemP32 k h3 h4)) (default : HIx 1) 262144
      iprop(((A4).view.loc (V d (cV L) (jV L)) ↦[Cert.Spec.chunkSet (200 * wid L + (k.val - 6))]{fullShare} c₁)
        ∗ ((selP30 k h3 h4).view.loc (V d (cV L) (jV L)) ↦[(selP30 k h3 h4).view.set]{fullShare} c₂))) : sProp 𝕄) := by
  rw [selP30_eq k h3 h4, wsemP32_eq k h3 h4, selC_congr (a := k.val) (b := k.val - 6) (by omega), wsemC_congr (a := k.val) (b := k.val - 6) (by omega)]
  unfold WFl
  exact BI.Entails.refl _

theorem OutInit_open (k : Fin k1_t1_loop.trips) (h3 : k1_cond3 k = 1#1) (hk : 4 ≤ k.val) :
    OutInit d L fo (k.val - 4) ⊢ ((outP425 L k h3).view.loc (V d (cV L) (jV L)) ↦[(outP425 L k h3).view.set]{fullShare} fo : sProp 𝕄) := by
  rw [set_outP425, show 200 * wid L + k.val - 4 = 200 * wid L + (k.val - 4) by omega]
  unfold OutInit
  exact BI.Entails.refl _

theorem IFree_read (k : Fin k1_t1_loop.trips) :
    IFree d L (k.val + 6) ⊣⊢ (iprop(semVal ((V d (cV L) (jV L)), SemLoc.dma (isemC (k.val + 6))) 0
      ∗ ∃ f, ((idxC (k.val + 6)).view.loc (V d (cV L) (jV L)) ↦[(idxC (k.val + 6)).view.set]{fullShare} f)) : sProp 𝕄) := by
  unfold IFree
  exact ⟨BI.Entails.refl _, BI.Entails.refl _⟩

/-! ### Closing: from what a trip leaves under the program's spelling to the slot by number -/

theorem IFree_close (k : Fin k1_t1_loop.trips) (h1 : k1_cond1 k = 1#1) :
    (iprop(semVal ((V d (cV L) (jV L)), SemLoc.dma (isemP4 k h1)) 0
      ∗ ∃ f, ((idxP2 k h1).view.loc (V d (cV L) (jV L)) ↦[(idxP2 k h1).view.set]{fullShare} f)) : sProp 𝕄) ⊢ IFree d L (k.val + 10) := by
  rw [idxP2_eq k h1, isemP4_eq k h1, idxC_congr (a := k.val) (b := k.val + 10) (by omega), isemC_congr (a := k.val) (b := k.val + 10) (by omega)]
  unfold IFree
  exact BI.Entails.refl _

theorem XHome_close (k : Fin k1_t1_loop.trips) (h1 : k1_cond1 k = 1#1) :
    ((xtP3 L k h1).view.loc (V d (cV L) (jV L)) ↦[(xtP3 L k h1).view.set]{q'} xt : sProp 𝕄) ⊢ XHome d L q' xt k.val := by
  rw [set_xtP3]
  unfold XHome
  exact BI.Entails.refl _

theorem IFl_close (k : Fin k1_t1_loop.trips) (h1 : k1_cond1 k = 1#1) (h2 : k1_cond2 k = 1#1) :
    ∀ c, (∀ x : S128.Idx, ((idxP24 k h1 h2).view.read (Elt F) c x).toNat ≤ 999999) →
    (Transfers.Flight (countersEmb (U := UU)) (V d (cV L) (jV L)) (SemLoc.dma (isemP26 k h1 h2)) (default : HIx 1) 4096
      iprop(((idxP24 k h1 h2).view.loc (V d (cV L) (jV L)) ↦[(idxP24 k h1 h2).view.set]{fullShare} c)
        ∗ ((xtP25 L k h1 h2).view.loc (V d (cV L) (jV L)) ↦[(xtP25 L k h1 h2).view.set]{q'} xt)) : sProp 𝕄) ⊢ IFl d L q' xt (k.val + 5) := by
  rw [idxP24_eq k h1 h2, isemP26_eq k h1 h2, set_xtP25, show 200 * wid L + k.val + 5 = 200 * wid L + (k.val + 5) by omega]
  intro c hc
  unfold IFl
  iintro H
  iexists c
  isplitr; · ipureintro; exact hc
  iexact H

theorem GFl_close (k : Fin k1_t1_loop.trips) (h1 : k1_cond1 k = 1#1) :
    ∀ c₁ c₂, (Transfers.Flight (countersEmb (U := UU)) (V d (cV L) (jV L)) (SemLoc.dma (gsemP23 k h1)) (default : HIx 1) 524288
      iprop((((rowsP21 k h1).view.loc (V d (cV L) (jV L)) ↦[(rowsP21 k h1).view.set]{fullShare} c₁)
          ∗ ((halfP22 k h1).view.loc (V d (cV L) (jV L)) ↦[(halfP22 k h1).view.set]{fullShare} c₂))
        ∗ ((tabS).view.loc (V d (cV L) (jV L)) ↦[(tabS).view.set]{Transfers.shareTokN q (k.val % 5)} tp)) : sProp 𝕄) ⊢ GFl d L q tp k.val := by
  rw [rowsP21_eq k h1, halfP22_eq k h1, gsemP23_eq k h1]
  intro c₁ c₂
  unfold GFl
  iintro H
  iexists c₁
  iexists c₂
  iexact H

theorem GFree_close (k : Fin k1_t1_loop.trips) (h3 : k1_cond3 k = 1#1) (hk : 4 ≤ k.val) :
    (iprop(semVal ((V d (cV L) (jV L)), SemLoc.dma (gsemP29 k h3)) 0
      ∗ (∃ f, ((rowsP27 k h3).view.loc (V d (cV L) (jV L)) ↦[(rowsP27 k h3).view.set]{fullShare} f))
      ∗ (∃ f, ((halfP28 k h3).view.loc (V d (cV L) (jV L)) ↦[(halfP28 k h3).view.set]{fullShare} f))
      ∗ ((tabS).view.loc (V d (cV L) (jV L)) ↦[(tabS).view.set]{Transfers.shareTokN q ((k.val - 4) % 5)} tp)) : sProp 𝕄) ⊢ GFree d L q tp (k.val + 1) := by
  rw [rowsP27_eq k h3, halfP28_eq k h3, gsemP29_eq k h3, show (k.val - 4) % 5 = (k.val + 1) % 5 by omega]
  unfold GFree
  exact BI.Entails.refl _

theorem WFl_close (k : Fin k1_t1_loop.trips) (h3 : k1_cond3 k = 1#1) (hk : 4 ≤ k.val) :
    ∀ c₁ c₂, (Transfers.Flight (countersEmb (U := UU)) (V d (cV L) (jV L)) (SemLoc.dma (wsemP426 k h3)) (default : HIx 1) 262144
      iprop(((outP425 L k h3).view.loc (V d (cV L) (jV L)) ↦[(outP425 L k h3).view.set]{fullShare} c₁)
        ∗ ((selP423 k h3).view.loc (V d (cV L) (jV L)) ↦[(selP423 k h3).view.set]{fullShare} c₂)) : sProp 𝕄) ⊢ WFl d L (k.val - 4) := by
  rw [selP423_eq k h3, wsemP426_eq k h3, set_outP425, show 200 * wid L + k.val - 4 = 200 * wid L + (k.val - 4) by omega,
    selC_congr (a := k.val) (b := k.val - 4) (by omega), wsemC_congr (a := k.val) (b := k.val - 4) (by omega)]
  intro c₁ c₂
  unfold WFl
  iintro H
  iexists c₁
  iexists c₂
  iexact H

theorem OutDone_close (k : Fin k1_t1_loop.trips) (hk : 6 ≤ k.val) (c : Buf (Elt F) ((A4).view.loc (V d (cV L) (jV L)))) :
    ((A4).view.loc (V d (cV L) (jV L)) ↦[Cert.Spec.chunkSet (200 * wid L + (k.val - 6))]{fullShare} c : sProp 𝕄) ⊢ OutDone d L (k.val - 6) := by
  unfold OutDone
  iintro H
  iexists c
  iexact H

end Pack

/-! ## What a landed index chunk holds -/

/-- A slot of index words overwritten whole by a chunk of the transposed indices holds words of that array: in range
    if all of the array's are. -/
theorem landed_ok (L : grid1.Coords) (k : Fin k1_t1_loop.trips) (h1 : k1_cond1 k = 1#1) (h2 : k1_cond2 k = 1#1)
    (xt : IVec S50x16384 32) (hxt : ∀ j, (xt j).toNat ≤ 999999) (f : (idxP24 k h1 h2).view.ty.Contents (Elt F)) :
    ∀ x : S128.Idx, ((idxP24 k h1 h2).view.read (Elt F) ((idxP24 k h1 h2).view.writes (Elt F) f
      [⟨Rect.whole S128, ReadAs.same.apply ((xtP25 L k h1 h2).view.read (Elt F) xt)⟩]) x).toNat ≤ 999999 := by
  intro x
  rw [View.read_writes_whole]
  exact hxt _

end Cert.Proof.WBody

end
-- ==== Proof.WBodyRegion.lean ====
import proofs.«206325_g16862041604593_cont_week2b_1534_42_alg».proof.Proof.WBodyPack
import Idealize.ShloMosaic.Lib.Ring

/-!
  The SparseCore kernel's body: one trip of the loop takes what the loop carries before trip `k` to what it carries
  before trip `k + 1`.

  What is carried is runs of slots and chunks by number. A trip touches a few of them, according to its phase (the
  first four trips only fetch and gather; from the fifth a gather is awaited and a write-back issued; from the seventh
  a write-back is awaited; the last trips fetch no more, then gather no more). Given what a trip of each phase does to
  the pieces it touches (five hypotheses), the step is bookkeeping: take the pieces off the ends of their runs, frame the
  rest, put the new pieces on.
-/

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-! ## Runs of a family by number -/

section Runs

variable {M : Type} [URA M] (A : ℕ → sProp M)

theorem ico_pop {a a' b : ℕ} (h : a < b) (ha : a' = a + 1) :
    bigSep (Finset.Ico a b) A = iprop(A a ∗ bigSep (Finset.Ico a' b) A) := by
  subst ha; exact Ring.bigSep_Ico_succ h A
theorem ico_push {a b b' : ℕ} (h : a ≤ b) (hb : b' = b + 1) :
    bigSep (Finset.Ico a b') A = iprop(A b ∗ bigSep (Finset.Ico a b) A) := by
  subst hb
  rw [show Finset.Ico a (b + 1) = insert b (Finset.Ico a b) from by
    ext x; simp only [Finset.mem_Ico, Finset.mem_insert]; omega, BI.bigSep_insert (by simp)]; rfl
theorem ico_split {a m b : ℕ} (h1 : a ≤ m) (h2 : m ≤ b) :
    bigSep (Finset.Ico a b) A = iprop(bigSep (Finset.Ico a m) A ∗ bigSep (Finset.Ico m b) A) := by
  rw [← Finset.Ico_union_Ico_eq_Ico h1 h2, BI.bigSep_union (Finset.Ico_disjoint_Ico_consecutive a m b)]; rfl
theorem ico_empty_eq {a b a' b' : ℕ} (h : b ≤ a) (h' : b' ≤ a') :
    bigSep (Finset.Ico a b) A = bigSep (Finset.Ico a' b') A := by
  rw [Finset.Ico_eq_empty (by omega), Finset.Ico_eq_empty (by omega)]
theorem range_push {r r' : ℕ} (h : r' = r + 1) :
    bigSep (Finset.range r') A = iprop(A r ∗ bigSep (Finset.range r) A) := by
  subst h; exact Ring.bigSep_range_succ r A

theorem pop_ent {a a' b : ℕ} (h : a < b) (ha : a' = a + 1) :
    bigSep (Finset.Ico a b) A ⊢ iprop(A a ∗ bigSep (Finset.Ico a' b) A) := Entails.of_eq (ico_pop A h ha)
theorem unpop_ent {a a' b : ℕ} (h : a < b) (ha : a' = a + 1) :
    iprop(A a ∗ bigSep (Finset.Ico a' b) A) ⊢ bigSep (Finset.Ico a b) A := Entails.of_eq (ico_pop A h ha).symm
theorem push_ent {a b b' : ℕ} (h : a ≤ b) (hb : b' = b + 1) :
    iprop(A b ∗ bigSep (Finset.Ico a b) A) ⊢ bigSep (Finset.Ico a b') A := Entails.of_eq (ico_push A h hb).symm
theorem split_ent {a m b : ℕ} (h1 : a ≤ m) (h2 : m ≤ b) :
    bigSep (Finset.Ico a b) A ⊢ iprop(bigSep (Finset.Ico a m) A ∗ bigSep (Finset.Ico m b) A) := Entails.of_eq (ico_split A h1 h2)
theorem join_ent {a m b : ℕ} (h1 : a ≤ m) (h2 : m ≤ b) :
    iprop(bigSep (Finset.Ico a m) A ∗ bigSep (Finset.Ico m b) A) ⊢ bigSep (Finset.Ico a b) A := Entails.of_eq (ico_split A h1 h2).symm
theorem empty_ent {a b a' b' : ℕ} (h : b ≤ a) (h' : b' ≤ a') :
    bigSep (Finset.Ico a b) A ⊢ bigSep (Finset.Ico a' b') A := Entails.of_eq (ico_empty_eq A h h')
theorem rpush_ent {r r' : ℕ} (h : r' = r + 1) :
    iprop(A r ∗ bigSep (Finset.range r) A) ⊢ bigSep (Finset.range r') A := Entails.of_eq (range_push A h).symm

end Runs

theorem trips_eq : k1_t1_loop.trips = 204 := by decide

/-! ## The step -/

section Region

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (O : CellTallies nD τ sig (HIx 1)) (W : Waits sig (HIx 1))

set_option quotPrecheck false in
local notation "fI" => IFl d L q' xt
set_option quotPrecheck false in
local notation "fIF" => IFree d L
set_option quotPrecheck false in
local notation "fG" => GFl d L q tp
set_option quotPrecheck false in
local notation "fGF" => GFree d L q tp
set_option quotPrecheck false in
local notation "fW" => WFl d L
set_option quotPrecheck false in
local notation "fWF" => WFree d L
set_option quotPrecheck false in
local notation "fX" => XHome d L q' xt
set_option quotPrecheck false in
local notation "fOD" => OutDone d L
set_option quotPrecheck false in
local notation "fOI" => OutInit d L fo
set_option quotPrecheck false in
local notation "MW" => Transfers.MayWaits (V d (cV L) (jV L)) (default : HIx 1) O
set_option quotPrecheck false in
local notation "OW" => Owes d L O W

/-- What is carried before trip `n`, with the ends of its runs named. -/
theorem Inv_eq (n a1 b1 a2 b2 a3 b3 a4 b4 a5 b5 a6 b6 r7 a8 r9 a10 : ℕ)
    (h1 : min n 200 = a1) (h2 : min (min n 200 + 5) 200 = b1) (h3 : min (min n 200 + 5) 200 = a2) (h4 : min n 200 + 10 = b2)
    (h5 : n - 4 = a3) (h6 : min n 200 = b3) (h7 : min n 200 = a4) (h8 : n - 4 + 5 = b4) (h9 : n - 6 = a5) (h10 : min (n - 4) 200 = b5)
    (h11 : min (n - 4) 200 = a6) (h12 : n - 6 + 2 = b6) (h13 : min n 200 = r7) (h14 : min (min n 200 + 5) 200 = a8) (h15 : n - 6 = r9)
    (h16 : min (n - 4) 200 = a10) (acc : Unit) :
    Inv d L q q' tp xt fo O W n acc = (iprop(MW ∗ OW
      ∗ bigSep (Finset.Ico a1 b1) fI ∗ bigSep (Finset.Ico a2 b2) fIF ∗ bigSep (Finset.Ico a3 b3) fG ∗ bigSep (Finset.Ico a4 b4) fGF
      ∗ bigSep (Finset.Ico a5 b5) fW ∗ bigSep (Finset.Ico a6 b6) fWF ∗ bigSep (Finset.range r7) fX ∗ bigSep (Finset.Ico a8 200) fX
      ∗ bigSep (Finset.range r9) fOD ∗ bigSep (Finset.Ico a10 200) fOI) : sProp 𝕄) := by
  subst h1 h2 h3 h4 h5 h6 h7 h8 h9 h10 h11 h12 h13 h14 h15 h16; rfl

variable (body : Fin k1_t1_loop.trips → Unit → Prog (TpuEff nD τ sig (Elt F) Λ₀ (Proc.scVector (cV L) (jV L))) Unit)

/-- The first four trips: the trip's index chunk lands and its gather is issued; the chunk five ahead is fetched. -/
def PhaseA : Prop := ∀ k : Fin k1_t1_loop.trips, k.val < 4 →
  (iprop(MW ∗ OW ∗ fI k.val ∗ fIF (k.val + 5) ∗ fX (k.val + 5) ∗ fGF k.val) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val)
/-- Trips four and five: also, the gather issued four trips before lands and its rows are written back. -/
def PhaseB : Prop := ∀ k : Fin k1_t1_loop.trips, 4 ≤ k.val → k.val < 6 →
  (iprop(MW ∗ OW ∗ fI k.val ∗ fIF (k.val + 5) ∗ fX (k.val + 5) ∗ fGF k.val ∗ fG (k.val - 4) ∗ fWF (k.val - 4) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val ∗ fGF (k.val + 1) ∗ fW (k.val - 4) ∗ fIF (k.val + 6))
/-- The steady trips: also, the write-back issued two trips before is awaited first. -/
def PhaseC : Prop := ∀ k : Fin k1_t1_loop.trips, 6 ≤ k.val → k.val < 195 →
  (iprop(MW ∗ OW ∗ fI k.val ∗ fIF (k.val + 5) ∗ fX (k.val + 5) ∗ fGF k.val ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fI (k.val + 5) ∗ fG k.val ∗ fGF (k.val + 1) ∗ fOD (k.val - 6) ∗ fW (k.val - 4) ∗ fIF (k.val + 6))
/-- The last trips that gather: nothing more is fetched. -/
def PhaseD : Prop := ∀ k : Fin k1_t1_loop.trips, 195 ≤ k.val → k.val < 200 →
  (iprop(MW ∗ OW ∗ fI k.val ∗ fGF k.val ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fIF (k.val + 10) ∗ fX k.val ∗ fG k.val ∗ fGF (k.val + 1) ∗ fOD (k.val - 6) ∗ fW (k.val - 4) ∗ fIF (k.val + 6))
/-- The draining trips: only the landing gathers are written back. -/
def PhaseE : Prop := ∀ k : Fin k1_t1_loop.trips, 200 ≤ k.val →
  (iprop(MW ∗ OW ∗ fG (k.val - 4) ∗ fW (k.val - 6) ∗ fOI (k.val - 4) ∗ fIF (k.val + 6)) : sProp 𝕄)
    ⊢ wp frame (wpE (defs₀ (F := F)) 𝒱₀ (V d (cV L) (jV L)) none) Set.univ (body k ())
        fun _ => iprop(MW ∗ OW ∗ fGF (k.val + 1) ∗ fOD (k.val - 6) ∗ fW (k.val - 4) ∗ fIF (k.val + 6))

theorem stepA (hA : PhaseA (UU := UU) d L q q' tp xt O W body) (k : Fin k1_t1_loop.trips) (hk : k.val < 4) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  rw [Inv_eq d L q q' tp xt fo O W (k.val) (k.val) (k.val + 5) (k.val + 5) (k.val + 10) (0) (k.val) (k.val) (5) (0) (0) (0) (2) (k.val) (k.val + 5) (0) (0)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fX (a := k.val + 5) (a' := k.val + 6) (b := 200) (by omega) (by omega)) $$ HX2
  icases T with ⟨Hx5, HX2⟩
  ihave T := (pop_ent fGF (a := k.val) (a' := k.val + 1) (b := 5) (by omega) (by omega)) $$ HGF
  icases T with ⟨Hgf, HGF⟩
  iapply (wp_wand_r frame _ Set.univ)
  isplitl [Hmw How Hi Hif5 Hx5 Hgf]
  · iapply (hA k hk)
    isplitl [Hmw]; · iexact Hmw
    isplitl [How]; · iexact How
    isplitl [Hi]; · iexact Hi
    isplitl [Hif5]; · iexact Hif5
    isplitl [Hx5]; · iexact Hx5
    iexact Hgf
  iintro %acc' ⟨Hmw, How, Hif10, Hx, Hi5, Hg⟩
  rw [Inv_eq d L q q' tp xt fo O W (k.val + 1) (k.val + 1) (k.val + 6) (k.val + 6) (k.val + 11) (0) (k.val + 1) (k.val + 1) (5) (0) (0) (0) (2) (k.val + 1) (k.val + 6) (0) (0)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif10 HIF]
  · iapply (push_ent fIF (a := k.val + 6) (b := k.val + 10) (b' := k.val + 11) (by omega) (by omega))
    isplitl [Hif10]; · iexact Hif10
    iexact HIF
  isplitl [Hg HG]
  · iapply (push_ent fG (a := 0) (b := k.val) (b' := k.val + 1) (by omega) (by omega))
    isplitl [Hg]; · iexact Hg
    iexact HG
  isplitl [HGF]; · iexact HGF
  isplitl [HWf]; · iexact HWf
  isplitl [HWF]; · iexact HWF
  isplitl [Hx HX1]
  · iapply (rpush_ent fX (r := k.val) (r' := k.val + 1) (by omega))
    isplitl [Hx]; · iexact Hx
    iexact HX1
  isplitl [HX2]; · iexact HX2
  isplitl [HOD]; · iexact HOD
  iexact HOI

theorem stepB (hB : PhaseB (UU := UU) d L q q' tp xt fo O W body) (k : Fin k1_t1_loop.trips) (h4 : 4 ≤ k.val) (h6 : k.val < 6) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  rw [Inv_eq d L q q' tp xt fo O W (k.val) (k.val) (k.val + 5) (k.val + 5) (k.val + 10) (k.val - 4) (k.val) (k.val) (k.val + 1) (0) (k.val - 4) (k.val - 4) (2) (k.val) (k.val + 5) (0) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fIF (a := k.val + 6) (a' := k.val + 7) (b := k.val + 10) (by omega) (by omega)) $$ HIF
  icases T with ⟨Hif6, HIF⟩
  ihave T := (pop_ent fX (a := k.val + 5) (a' := k.val + 6) (b := 200) (by omega) (by omega)) $$ HX2
  icases T with ⟨Hx5, HX2⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fWF (a := k.val - 4) (a' := k.val - 3) (b := 2) (by omega) (by omega)) $$ HWF
  icases T with ⟨Hwf, HWF⟩
  ihave T := (pop_ent fOI (a := k.val - 4) (a' := k.val - 3) (b := 200) (by omega) (by omega)) $$ HOI
  icases T with ⟨Hoi, HOI⟩
  iapply (wp_wand_r frame _ Set.univ)
  isplitl [Hmw How Hi Hif5 Hx5 Hgf Hg4 Hwf Hoi Hif6]
  · iapply (hB k h4 h6)
    isplitl [Hmw]; · iexact Hmw
    isplitl [How]; · iexact How
    isplitl [Hi]; · iexact Hi
    isplitl [Hif5]; · iexact Hif5
    isplitl [Hx5]; · iexact Hx5
    isplitl [Hgf]; · iexact Hgf
    isplitl [Hg4]; · iexact Hg4
    isplitl [Hwf]; · iexact Hwf
    isplitl [Hoi]; · iexact Hoi
    iexact Hif6
  iintro %acc' ⟨Hmw, How, Hif10, Hx, Hi5, Hg, Hgf1, Hw4, Hif6⟩
  rw [Inv_eq d L q q' tp xt fo O W (k.val + 1) (k.val + 1) (k.val + 6) (k.val + 6) (k.val + 11) (k.val - 3) (k.val + 1) (k.val + 1) (k.val + 2) (0) (k.val - 3) (k.val - 3) (2) (k.val + 1) (k.val + 6) (0) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif6 Hif10 HIF]
  · iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIF
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := 0) (b := k.val - 4) (b' := k.val - 3) (by omega) (by omega))
    isplitl [Hw4]; · iexact Hw4
    iexact HWf
  isplitl [HWF]; · iexact HWF
  isplitl [Hx HX1]
  · iapply (rpush_ent fX (r := k.val) (r' := k.val + 1) (by omega))
    isplitl [Hx]; · iexact Hx
    iexact HX1
  isplitl [HX2]; · iexact HX2
  isplitl [HOD]; · iexact HOD
  iexact HOI

theorem stepC (hC : PhaseC (UU := UU) d L q q' tp xt fo O W body) (k : Fin k1_t1_loop.trips) (h6 : 6 ≤ k.val) (h195 : k.val < 195) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  rw [Inv_eq d L q q' tp xt fo O W (k.val) (k.val) (k.val + 5) (k.val + 5) (k.val + 10) (k.val - 4) (k.val) (k.val) (k.val + 1) (k.val - 6) (k.val - 4) (k.val - 4) (k.val - 4) (k.val) (k.val + 5) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := k.val + 5) (by omega) (by omega)) $$ HI
  icases T with ⟨Hi, HI⟩
  ihave T := (pop_ent fIF (a := k.val + 5) (a' := k.val + 6) (b := k.val + 10) (by omega) (by omega)) $$ HIF
  icases T with ⟨Hif5, HIF⟩
  ihave T := (pop_ent fIF (a := k.val + 6) (a' := k.val + 7) (b := k.val + 10) (by omega) (by omega)) $$ HIF
  icases T with ⟨Hif6, HIF⟩
  ihave T := (pop_ent fX (a := k.val + 5) (a' := k.val + 6) (b := 200) (by omega) (by omega)) $$ HX2
  icases T with ⟨Hx5, HX2⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hi Hif5 Hx5 Hgf Hg4 Hw6 Hoi Hif6]
  · iapply (hC k h6 h195)
    isplitl [Hmw]; · iexact Hmw
    isplitl [How]; · iexact How
    isplitl [Hi]; · iexact Hi
    isplitl [Hif5]; · iexact Hif5
    isplitl [Hx5]; · iexact Hx5
    isplitl [Hgf]; · iexact Hgf
    isplitl [Hg4]; · iexact Hg4
    isplitl [Hw6]; · iexact Hw6
    isplitl [Hoi]; · iexact Hoi
    iexact Hif6
  iintro %acc' ⟨Hmw, How, Hif10, Hx, Hi5, Hg, Hgf1, Hod, Hw4, Hif6⟩
  rw [Inv_eq d L q q' tp xt fo O W (k.val + 1) (k.val + 1) (k.val + 6) (k.val + 6) (k.val + 11) (k.val - 3) (k.val + 1) (k.val + 1) (k.val + 2) (k.val - 5) (k.val - 3) (k.val - 3) (k.val - 3) (k.val + 1) (k.val + 6) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [Hi5 HI]
  · iapply (push_ent fI (a := k.val + 1) (b := k.val + 5) (b' := k.val + 6) (by omega) (by omega))
    isplitl [Hi5]; · iexact Hi5
    iexact HI
  isplitl [Hif6 Hif10 HIF]
  · iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIF
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [Hx HX1]
  · iapply (rpush_ent fX (r := k.val) (r' := k.val + 1) (by omega))
    isplitl [Hx]; · iexact Hx
    iexact HX1
  isplitl [HX2]; · iexact HX2
  isplitl [Hod HOD]
  · iapply (rpush_ent fOD (r := k.val - 6) (r' := k.val - 5) (by omega))
    isplitl [Hod]; · iexact Hod
    iexact HOD
  iexact HOI

theorem stepD (hD : PhaseD (UU := UU) d L q q' tp xt fo O W body) (k : Fin k1_t1_loop.trips) (h195 : 195 ≤ k.val) (h200 : k.val < 200) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  rw [Inv_eq d L q q' tp xt fo O W (k.val) (k.val) (200) (200) (k.val + 10) (k.val - 4) (k.val) (k.val) (k.val + 1) (k.val - 6) (k.val - 4) (k.val - 4) (k.val - 4) (k.val) (200) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (pop_ent fI (a := k.val) (a' := k.val + 1) (b := 200) (by omega) (by omega)) $$ HI
  icases T with ⟨Hi, HI⟩
  ihave T := (split_ent fIF (a := 200) (m := k.val + 6) (b := k.val + 10) (by omega) (by omega)) $$ HIF
  icases T with ⟨HIFa, HIFb⟩
  ihave T := (pop_ent fIF (a := k.val + 6) (a' := k.val + 7) (b := k.val + 10) (by omega) (by omega)) $$ HIFb
  icases T with ⟨Hif6, HIFb⟩
  ihave T := (pop_ent fGF (a := k.val) (a' := k.val + 1) (b := k.val + 1) (by omega) (by omega)) $$ HGF
  icases T with ⟨Hgf, HGF⟩
  ihave T := (pop_ent fG (a := k.val - 4) (a' := k.val - 3) (b := k.val) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hi Hgf Hg4 Hw6 Hoi Hif6]
  · iapply (hD k h195 h200)
    isplitl [Hmw]; · iexact Hmw
    isplitl [How]; · iexact How
    isplitl [Hi]; · iexact Hi
    isplitl [Hgf]; · iexact Hgf
    isplitl [Hg4]; · iexact Hg4
    isplitl [Hw6]; · iexact Hw6
    isplitl [Hoi]; · iexact Hoi
    iexact Hif6
  iintro %acc' ⟨Hmw, How, Hif10, Hx, Hg, Hgf1, Hod, Hw4, Hif6⟩
  rw [Inv_eq d L q q' tp xt fo O W (k.val + 1) (k.val + 1) (200) (200) (k.val + 11) (k.val - 3) (k.val + 1) (k.val + 1) (k.val + 2) (k.val - 5) (k.val - 3) (k.val - 3) (k.val - 3) (k.val + 1) (200) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [HI]; · iexact HI
  isplitl [HIFa Hif6 Hif10 HIFb]
  · iapply (join_ent fIF (a := 200) (m := k.val + 6) (b := k.val + 11) (by omega) (by omega))
    isplitl [HIFa]; · iexact HIFa
    iapply (unpop_ent fIF (a := k.val + 6) (a' := k.val + 7) (b := k.val + 11) (by omega) (by omega))
    isplitl [Hif6]; · iexact Hif6
    iapply (push_ent fIF (a := k.val + 7) (b := k.val + 10) (b' := k.val + 11) (by omega) (by omega))
    isplitl [Hif10]; · iexact Hif10
    iexact HIFb
  isplitl [Hg HG]
  · iapply (push_ent fG (a := k.val - 3) (b := k.val) (b' := k.val + 1) (by omega) (by omega))
    isplitl [Hg]; · iexact Hg
    iexact HG
  isplitl [Hgf1 HGF]
  · iapply (push_ent fGF (a := k.val + 1) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [Hx HX1]
  · iapply (rpush_ent fX (r := k.val) (r' := k.val + 1) (by omega))
    isplitl [Hx]; · iexact Hx
    iexact HX1
  isplitl [HX2]; · iexact HX2
  isplitl [Hod HOD]
  · iapply (rpush_ent fOD (r := k.val - 6) (r' := k.val - 5) (by omega))
    isplitl [Hod]; · iexact Hod
    iexact HOD
  iexact HOI

theorem stepE (hE : PhaseE (UU := UU) d L q tp fo O W body) (k : Fin k1_t1_loop.trips) (h200 : 200 ≤ k.val) :
    (Inv d L q q' tp xt fo O W k.val () : sProp 𝕄) ⊢ wp frame (wpE (defs₀ (F := F)) 𝒱₀ (V d (cV L) (jV L)) none) Set.univ (body k ()) (Inv d L q q' tp xt fo O W (k.val + 1)) := by
  have hlt : k.val < 204 := lt_of_lt_of_eq k.isLt trips_eq
  rw [Inv_eq d L q q' tp xt fo O W (k.val) (200) (200) (200) (210) (k.val - 4) (200) (200) (k.val + 1) (k.val - 6) (k.val - 4) (k.val - 4) (k.val - 4) (200) (200) (k.val - 6) (k.val - 4)
      (by omega) (by omega) (by omega) (by omega) (by omega) (by omega) (by omega) (by omega) (by omega) (by omega) (by omega) (by omega) (by omega) (by omega) (by omega) (by omega) ()]
  iintro ⟨Hmw, How, HI, HIF, HG, HGF, HWf, HWF, HX1, HX2, HOD, HOI⟩
  ihave T := (split_ent fIF (a := 200) (m := k.val + 6) (b := 210) (by omega) (by omega)) $$ HIF
  icases T with ⟨HIFa, HIFb⟩
  ihave T := (pop_ent fIF (a := k.val + 6) (a' := k.val + 7) (b := 210) (by omega) (by omega)) $$ HIFb
  icases T with ⟨Hif6, HIFb⟩
  ihave T := (pop_ent fG (a := k.val - 4) (a' := k.val - 3) (b := 200) (by omega) (by omega)) $$ HG
  icases T with ⟨Hg4, HG⟩
  ihave T := (pop_ent fW (a := k.val - 6) (a' := k.val - 5) (b := k.val - 4) (by omega) (by omega)) $$ HWf
  icases T with ⟨Hw6, HWf⟩
  ihave T := (pop_ent fOI (a := k.val - 4) (a' := k.val - 3) (b := 200) (by omega) (by omega)) $$ HOI
  icases T with ⟨Hoi, HOI⟩
  iapply (wp_wand_r frame _ Set.univ)
  isplitl [Hmw How Hg4 Hw6 Hoi Hif6]
  · iapply (hE k h200)
    isplitl [Hmw]; · iexact Hmw
    isplitl [How]; · iexact How
    isplitl [Hg4]; · iexact Hg4
    isplitl [Hw6]; · iexact Hw6
    isplitl [Hoi]; · iexact Hoi
    iexact Hif6
  iintro %acc' ⟨Hmw, How, Hgf1, Hod, Hw4, Hif6⟩
  rw [Inv_eq d L q q' tp xt fo O W (k.val + 1) (200) (200) (200) (210) (k.val - 3) (200) (200) (k.val + 2) (k.val - 5) (k.val - 3) (k.val - 3) (k.val - 3) (200) (200) (k.val - 5) (k.val - 3)
      (by omega) (by omega) (by omega) (by omega) (by omega) (by omega) (by omega) (by omega) (by omega) (by omega) (by omega) (by omega) (by omega) (by omega) (by omega) (by omega) acc']
  isplitl [Hmw]; · iexact Hmw
  isplitl [How]; · iexact How
  isplitl [HI]; · iexact HI
  isplitl [HIFa Hif6 HIFb]
  · iapply (join_ent fIF (a := 200) (m := k.val + 6) (b := 210) (by omega) (by omega))
    isplitl [HIFa]; · iexact HIFa
    iapply (unpop_ent fIF (a := k.val + 6) (a' := k.val + 7) (b := 210) (by omega) (by omega))
    isplitl [Hif6]; · iexact Hif6
    iexact HIFb
  isplitl [HG]; · iexact HG
  isplitl [Hgf1 HGF]
  · iapply (push_ent fGF (a := 200) (b := k.val + 1) (b' := k.val + 2) (by omega) (by omega))
    isplitl [Hgf1]; · iexact Hgf1
    iexact HGF
  isplitl [Hw4 HWf]
  · iapply (push_ent fW (a := k.val - 5) (b := k.val - 4) (b' := k.val - 3) (by omega) (by omega))
    isplitl [Hw4]; · iexact Hw4
    iexact HWf
  isplitl [HWF]
  · iapply (empty_ent fWF (a := k.val - 4) (b := k.val - 4) (a' := k.val - 3) (b' := k.val - 3) (by omega) (by omega))
    iexact HWF
  isplitl [HX1]; · iexact HX1
  isplitl [HX2]; · iexact HX2
  isplitl [Hod HOD]
  · iapply (rpush_ent fOD (r := k.val - 6) (r' := k.val - 5) (by omega))
    isplitl [Hod]; · iexact Hod
    iexact HOD
  iexact HOI

/-- One trip: from what is carried before it to what is carried after it, whatever its phase. -/
theorem region (hA : PhaseA (UU := UU) d L q q' tp xt O W body) (hB : PhaseB (UU := UU) d L q q' tp xt fo O W body) (hC : PhaseC (UU := UU) d L q q' tp xt fo O W body)
    (hD : PhaseD (UU := UU) d L q q' tp xt fo O W body) (hE : PhaseE (UU := UU) d L q tp fo O W body) :
    ∀ (k : Fin k1_t1_loop.trips) (acc : Unit),
      (Inv d L q q' tp xt fo O W k.val acc : sProp 𝕄) ⊢ wp frame (wpE (defs₀ (F := F)) 𝒱₀ (V d (cV L) (jV L)) none) Set.univ (body k acc) (Inv d L q q' tp xt fo O W (k.val + 1)) := by
  intro k acc
  cases acc
  by_cases h4 : k.val < 4
  · exact stepA d L q q' tp xt fo O W body hA k h4
  by_cases h6 : k.val < 6
  · exact stepB d L q q' tp xt fo O W body hB k (by omega) h6
  by_cases h195 : k.val < 195
  · exact stepC d L q q' tp xt fo O W body hC k (by omega) h195
  by_cases h200 : k.val < 200
  · exact stepD d L q q' tp xt fo O W body hD k (by omega) h200
  · exact stepE d L q q' tp xt fo O W body hE k (by omega)

end Region

end Cert.Proof.WBody

end
-- ==== Proof.WBodyEnds.lean ====
import proofs.«206325_g16862041604593_cont_week2b_1534_42_alg».proof.Proof.WBodyRegion

/-!
  The SparseCore kernel's body: the two ends of the loop.

  Before the first trip the five index chunks the prologue fetched are in flight and every other slot is free; that is
  what the loop carries before trip 0. After the last trip, what it carries is every slot free again but for the last
  two write-backs, every index chunk at home and all but the last two output chunks written. A free slot depends on
  its number only through the residue modulo its ring's length, so the free slots numbered from 200 are the free slots
  numbered from 0.
-/

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-! ## Runs shifted -/

section Shift

variable {M : Type} [URA M] (A : ℕ → sProp M)

/-- A run over the numbers from `a + c` to `b + c` is the run from `a` to `b` of the family shifted by `c`. -/
theorem ico_shift (a b c : ℕ) : bigSep (Finset.Ico (a + c) (b + c)) A = bigSep (Finset.Ico a b) fun j => A (j + c) := by
  rw [← Finset.map_add_right_Ico, BI.bigSep_map]; rfl

end Shift

section Ends

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (O : CellTallies nD τ sig (HIx 1)) (W : Waits sig (HIx 1))

set_option quotPrecheck false in
local notation "fI" => IFl d L q' xt
set_option quotPrecheck false in
local notation "fIF" => IFree d L
set_option quotPrecheck false in
local notation "fG" => GFl d L q tp
set_option quotPrecheck false in
local notation "fGF" => GFree d L q tp
set_option quotPrecheck false in
local notation "fW" => WFl d L
set_option quotPrecheck false in
local notation "fWF" => WFree d L
set_option quotPrecheck false in
local notation "fX" => XHome d L q' xt
set_option quotPrecheck false in
local notation "fOD" => OutDone d L
set_option quotPrecheck false in
local notation "fOI" => OutInit d L fo
set_option quotPrecheck false in
local notation "MW" => Transfers.MayWaits (V d (cV L) (jV L)) (default : HIx 1) O
set_option quotPrecheck false in
local notation "OW" => Owes d L O W

/-- After the prologue: what the loop carries before trip 0. -/
theorem Inv_zero :
    (iprop(MW ∗ OW ∗ bigSep (Finset.range 5) fI ∗ bigSep (Finset.Ico 5 10) fIF ∗ bigSep (Finset.range 5) fGF ∗ bigSep (Finset.range 2) fWF
      ∗ bigSep (Finset.Ico 5 200) fX ∗ bigSep (Finset.range 200) fOI) : sProp 𝕄) ⊢ Inv d L q q' tp xt fo O W 0 () := by
  rw [Inv_eq d L q q' tp xt fo O W 0 0 5 5 10 0 0 0 5 0 0 0 2 0 5 0 0
    (by omega) (by omega) (by omega) (by omega) (by omega) (by omega) (by omega) (by omega) (by omega) (by omega) (by omega) (by omega) (by omega) (by omega) (by omega) (by omega) ()]
  simp only [Finset.range_eq_Ico]
  iintro ⟨Hmw, How, HI, HIF, HGF, HWF, HX, HOI⟩
  isplitl [Hmw]; · iexact Hmw
  isplitl [How]; · iexact How
  isplitl [HI]; · iexact HI
  isplitl [HIF]; · iexact HIF
  isplitr; · rw [Finset.Ico_self, bigSep_empty]; iempintro
  isplitl [HGF]; · iexact HGF
  isplitr; · rw [Finset.Ico_self, bigSep_empty]; iempintro
  isplitl [HWF]; · iexact HWF
  isplitr; · rw [Finset.Ico_self, bigSep_empty]; iempintro
  isplitl [HX]; · iexact HX
  isplitr; · rw [Finset.Ico_self, bigSep_empty]; iempintro
  iexact HOI

/-- After the last trip: what the loop's exit is handed. -/
theorem Inv_last :
    Inv d L q q' tp xt fo O W 204 () ⊢ (iprop(MW ∗ OW ∗ bigSep (Finset.Ico 200 210) fIF ∗ bigSep (Finset.Ico 200 205) fGF ∗ fW 198 ∗ fW 199
      ∗ bigSep (Finset.range 200) fX ∗ bigSep (Finset.range 198) fOD) : sProp 𝕄) := by
  rw [Inv_eq d L q q' tp xt fo O W 204 200 200 200 210 200 200 200 205 198 200 200 200 200 200 198 200
    (by omega) (by omega) (by omega) (by omega) (by omega) (by omega) (by omega) (by omega) (by omega) (by omega) (by omega) (by omega) (by omega) (by omega) (by omega) (by omega) ()]
  iintro ⟨Hmw, How, -, HIF, -, HGF, HWf, -, HX1, -, HOD, -⟩
  ihave T := (pop_ent fW (a := 198) (a' := 199) (b := 200) (by omega) (by omega)) $$ HWf
  icases T with ⟨Hw198, HWf⟩
  ihave T := (pop_ent fW (a := 199) (a' := 200) (b := 200) (by omega) (by omega)) $$ HWf
  icases T with ⟨Hw199, -⟩
  isplitl [Hmw]; · iexact Hmw
  isplitl [How]; · iexact How
  isplitl [HIF]; · iexact HIF
  isplitl [HGF]; · iexact HGF
  isplitl [Hw198]; · iexact Hw198
  isplitl [Hw199]; · iexact Hw199
  isplitl [HX1]; · iexact HX1
  iexact HOD

/-! ## Free slots by residue -/

omit [FloatOps F] [CountersIn UU] in
/-- A free index slot depends on its number modulo 10 only. -/
theorem IFree_shift (j : ℕ) : (IFree d L (j + 200) : sProp 𝕄) = IFree d L j := by
  unfold IFree
  rw [isemC_congr (a := j + 200) (b := j) (by omega), idxC_congr (a := j + 200) (b := j) (by omega)]

omit [FloatOps F] [CountersIn UU] in
/-- A free gather slot, with its token of the table's share, depends on its number modulo 5 only. -/
theorem GFree_shift (j : ℕ) : (GFree d L q tp (j + 200) : sProp 𝕄) = GFree d L q tp j := by
  unfold GFree
  rw [gsemC_congr (a := j + 200) (b := j) (by omega), rowsC_congr (a := j + 200) (b := j) (by omega), halfC_congr (a := j + 200) (b := j) (by omega),
    show (j + 200) % 5 = j % 5 by omega]

omit [FloatOps F] [CountersIn UU] in
/-- The free index slots numbered from 200 are the ten index slots. -/
theorem IFree_reindex : (bigSep (Finset.Ico 200 210) fIF : sProp 𝕄) = bigSep (Finset.range 10) fIF := by
  rw [show Finset.Ico 200 210 = Finset.Ico (0 + 200) (10 + 200) from rfl, ico_shift, Finset.range_eq_Ico]
  exact bigSep_congr fun j _ => IFree_shift d L j

omit [FloatOps F] [CountersIn UU] in
/-- The free gather slots numbered from 200 are the five gather slots. -/
theorem GFree_reindex : (bigSep (Finset.Ico 200 205) fGF : sProp 𝕄) = bigSep (Finset.range 5) fGF := by
  rw [show Finset.Ico 200 205 = Finset.Ico (0 + 200) (5 + 200) from rfl, ico_shift, Finset.range_eq_Ico]
  exact bigSep_congr fun j _ => GFree_shift d L q tp j

omit [FloatOps F] [CountersIn UU] in
/-- The ten index slots: the five the prologue fetches into and the other five. -/
theorem IFree_split : (bigSep (Finset.range 10) fIF : sProp 𝕄) = iprop(bigSep (Finset.range 5) fIF ∗ bigSep (Finset.Ico 5 10) fIF) := by
  simp only [Finset.range_eq_Ico]
  exact ico_split fIF (a := 0) (m := 5) (b := 10) (by omega) (by omega)

end Ends

/-! ## The same ends, with the free slots spelt out by kind -/

section EndsBySlot

variable [FloatOps F] {UU : Type} [URA UU] [CountersIn UU]

set_option quotPrecheck false in
local notation "𝕄" => MT nD τ sig (HIx 1) (Elt F) ℕ UU ℕ

variable (d : Dev nD) (L : grid1.Coords) (q q' : PosShare TreeShare)
variable (tp : Buf (Elt F) ((A2).view.loc (V d (cV L) (jV L)))) (xt : Buf (Elt F) ((A3).view.loc (V d (cV L) (jV L)))) (fo : Buf (Elt F) ((A4).view.loc (V d (cV L) (jV L))))
variable (O : CellTallies nD τ sig (HIx 1)) (W : Waits sig (HIx 1))

omit [FloatOps F] [CountersIn UU] in
/-- Free index slots over any set: their semaphores at zero and the slots at some contents. -/
theorem IFree_fam (s : Finset ℕ) : (bigSep s (IFree d L) : sProp 𝕄)
    = iprop((bigSep s fun j => semVal (((V d (cV L) (jV L)), SemLoc.dma (isemC j)) : GSem nD τ sig) 0)
      ∗ bigSep s fun j => iprop(∃ f, (idxC j).view.loc (V d (cV L) (jV L)) ↦[(idxC j).view.set]{fullShare} f)) :=
  (bigSep_congr fun j _ => (rfl : (IFree d L j : sProp 𝕄) = iprop(semVal (((V d (cV L) (jV L)), SemLoc.dma (isemC j)) : GSem nD τ sig) 0
      ∗ ∃ f, (idxC j).view.loc (V d (cV L) (jV L)) ↦[(idxC j).view.set]{fullShare} f))).trans (bigSep_sep' _ _ _)

omit [FloatOps F] [CountersIn UU] in
/-- Free write-back slots over any set. -/
theorem WFree_fam (s : Finset ℕ) : (bigSep s (WFree d L) : sProp 𝕄)
    = iprop((bigSep s fun j => semVal (((V d (cV L) (jV L)), SemLoc.dma (wsemC j)) : GSem nD τ sig) 0)
      ∗ bigSep s fun j => iprop(∃ f, (selC j).view.loc (V d (cV L) (jV L)) ↦[(selC j).view.set]{fullShare} f)) :=
  (bigSep_congr fun j _ => (rfl : (WFree d L j : sProp 𝕄) = iprop(semVal (((V d (cV L) (jV L)), SemLoc.dma (wsemC j)) : GSem nD τ sig) 0
      ∗ ∃ f, (selC j).view.loc (V d (cV L) (jV L)) ↦[(selC j).view.set]{fullShare} f))).trans (bigSep_sep' _ _ _)

omit [FloatOps F] [CountersIn UU] in
/-- The five free gather slots: their semaphores, the rows slots, the list slots, and the five tokens of the table's
    share (slot `s` holds token `s`). -/
theorem GFree_fam : (bigSep (Finset.range 5) (GFree d L q tp) : sProp 𝕄)
    = iprop((bigSep (Finset.range 5) fun j => semVal (((V d (cV L) (jV L)), SemLoc.dma (gsemC j)) : GSem nD τ sig) 0)
      ∗ (bigSep (Finset.range 5) fun j => iprop(∃ f, (rowsC j).view.loc (V d (cV L) (jV L)) ↦[(rowsC j).view.set]{fullShare} f))
      ∗ (bigSep (Finset.range 5) fun j => iprop(∃ f, (halfC j).view.loc (V d (cV L) (jV L)) ↦[(halfC j).view.set]{fullShare} f))
      ∗ bigSep (Finset.range 5) fun s => (tabS).view.loc (V d (cV L) (jV L)) ↦[(tabS).view.set]{Transfers.shareTokN q s} tp) := by
  rw [← bigSep_sep', ← bigSep_sep', ← bigSep_sep']
  refine bigSep_congr fun s hs => ?_
  have e : s % 5 = s := Nat.mod_eq_of_lt (Finset.mem_range.mp hs)
  unfold GFree
  rw [e]

theorem trips_eq' : Scf.trips k1_t1_loop.lb k1_t1_loop.ub k1_t1_loop.st = 204 := trips_eq

/-- After the prologue, from the pieces by kind (the five index chunks in flight one by one; the other slots' buffers
    and semaphores; the table's five tokens; the index chunks not yet fetched; the whole output untouched). -/
theorem Inv_zero_slots :
    (iprop(Transfers.MayWaits (V d (cV L) (jV L)) (default : HIx 1) O ∗ owes (V d (cV L) (jV L)) O W
      ∗ IFl d L q' xt 0 ∗ IFl d L q' xt 1 ∗ IFl d L q' xt 2 ∗ IFl d L q' xt 3 ∗ IFl d L q' xt 4
      ∗ (bigSep (Finset.Ico 5 10) fun j => iprop(∃ f, (idxC j).view.loc (V d (cV L) (jV L)) ↦[(idxC j).view.set]{fullShare} f))
      ∗ (bigSep (Finset.Ico 5 10) fun j => semVal (((V d (cV L) (jV L)), SemLoc.dma (isemC j)) : GSem nD τ sig) 0)
      ∗ (bigSep (Finset.range 5) fun j => iprop(∃ f, (halfC j).view.loc (V d (cV L) (jV L)) ↦[(halfC j).view.set]{fullShare} f))
      ∗ (bigSep (Finset.range 5) fun j => iprop(∃ f, (rowsC j).view.loc (V d (cV L) (jV L)) ↦[(rowsC j).view.set]{fullShare} f))
      ∗ (bigSep (Finset.range 5) fun j => semVal (((V d (cV L) (jV L)), SemLoc.dma (gsemC j)) : GSem nD τ sig) 0)
      ∗ (bigSep (Finset.range 5) fun s => (tabS).view.loc (V d (cV L) (jV L)) ↦[(tabS).view.set]{Transfers.shareTokN q s} tp)
      ∗ (bigSep (Finset.range 2) fun j => iprop(∃ f, (selC j).view.loc (V d (cV L) (jV L)) ↦[(selC j).view.set]{fullShare} f))
      ∗ (bigSep (Finset.range 2) fun j => semVal (((V d (cV L) (jV L)), SemLoc.dma (wsemC j)) : GSem nD τ sig) 0)
      ∗ (bigSep (Finset.Ico 5 200) fun t => (A3).view.loc (V d (cV L) (jV L)) ↦[xChunkSet (200 * wid L + t)]{q'} xt)
      ∗ (bigSep (Finset.range 200) fun t => (A4).view.loc (V d (cV L) (jV L)) ↦[Cert.Spec.chunkSet (200 * wid L + t)]{fullShare} fo)) : sProp 𝕄)
      ⊢ Inv d L q q' tp xt fo O W 0 () := by
  iintro ⟨Hmw, HO, H0, H1, H2, H3, H4, Hidx, Hisem, Hhalf, Hrows, Hgsem, Htok, Hsel, Hwsem, HX, HOI⟩
  iapply (Inv_zero d L q q' tp xt fo O W)
  rw [IFree_fam d L (Finset.Ico 5 10), GFree_fam d L q tp, WFree_fam d L (Finset.range 2)]
  isplitl [Hmw]; · iexact Hmw
  isplitl [HO]
  · unfold Owes
    iexists W
    isplitr; · ipureintro; exact fun p hp => Or.inl hp
    iexact HO
  isplitl [H0 H1 H2 H3 H4]
  · iapply (rpush_ent (IFl d L q' xt) (r := 4) (r' := 5) rfl); isplitl [H4]; · iexact H4
    iapply (rpush_ent (IFl d L q' xt) (r := 3) (r' := 4) rfl); isplitl [H3]; · iexact H3
    iapply (rpush_ent (IFl d L q' xt) (r := 2) (r' := 3) rfl); isplitl [H2]; · iexact H2
    iapply (rpush_ent (IFl d L q' xt) (r := 1) (r' := 2) rfl); isplitl [H1]; · iexact H1
    iapply (rpush_ent (IFl d L q' xt) (r := 0) (r' := 1) rfl); isplitl [H0]; · iexact H0
    rw [Finset.range_zero, bigSep_empty]; iempintro
  isplitl [Hidx Hisem]
  · isplitl [Hisem]; · iexact Hisem
    iexact Hidx
  isplitl [Hhalf Hrows Hgsem Htok]
  · isplitl [Hgsem]; · iexact Hgsem
    isplitl [Hrows]; · iexact Hrows
    isplitl [Hhalf]; · iexact Hhalf
    iexact Htok
  isplitl [Hsel Hwsem]
  · isplitl [Hwsem]; · iexact Hwsem
    iexact Hsel
  isplitl [HX]; · iexact HX
  iexact HOI

/-- After the last trip, to the pieces by kind: the last two write-backs in flight apart, every other slot's buffer
    and semaphore, the table's five tokens, every index chunk at home, all but the last two output chunks written. -/
theorem Inv_last_slots (u : Unit) :
    Inv d L q q' tp xt fo O W 204 u ⊢ (iprop(Transfers.MayWaits (V d (cV L) (jV L)) (default : HIx 1) O ∗ Owes d L O W
      ∗ WFl d L 198 ∗ WFl d L 199
      ∗ (bigSep (Finset.range 10) fun j => iprop(∃ f, (idxC j).view.loc (V d (cV L) (jV L)) ↦[(idxC j).view.set]{fullShare} f))
      ∗ (bigSep (Finset.range 10) fun j => semVal (((V d (cV L) (jV L)), SemLoc.dma (isemC j)) : GSem nD τ sig) 0)
      ∗ (bigSep (Finset.range 5) fun j => iprop(∃ f, (halfC j).view.loc (V d (cV L) (jV L)) ↦[(halfC j).view.set]{fullShare} f))
      ∗ (bigSep (Finset.range 5) fun j => iprop(∃ f, (rowsC j).view.loc (V d (cV L) (jV L)) ↦[(rowsC j).view.set]{fullShare} f))
      ∗ (bigSep (Finset.range 5) fun j => semVal (((V d (cV L) (jV L)), SemLoc.dma (gsemC j)) : GSem nD τ sig) 0)
      ∗ (bigSep (Finset.range 5) fun s => (tabS).view.loc (V d (cV L) (jV L)) ↦[(tabS).view.set]{Transfers.shareTokN q s} tp)
      ∗ (bigSep (Finset.range 200) fun t => (A3).view.loc (V d (cV L) (jV L)) ↦[xChunkSet (200 * wid L + t)]{q'} xt)
      ∗ (bigSep (Finset.range 198) fun t => iprop(∃ f, (A4).view.loc (V d (cV L) (jV L)) ↦[Cert.Spec.chunkSet (200 * wid L + t)]{fullShare} f))) : sProp 𝕄) := by
  cases u
  iintro H
  ihave H' := (Inv_last d L q q' tp xt fo O W) $$ H
  rw [IFree_reindex d L, GFree_reindex d L q tp, IFree_fam d L (Finset.range 10), GFree_fam d L q tp]
  icases H' with ⟨Hmw, How, ⟨Hisem, Hidx⟩, ⟨Hgsem, Hrows, Hhalf, Htok⟩, Hw198, Hw199, HX, HOD⟩
  isplitl [Hmw]; · iexact Hmw
  isplitl [How]; · iexact How
  isplitl [Hw198]; · iexact Hw198
  isplitl [Hw199]; · iexact Hw199
  isplitl [Hidx]; · iexact Hidx
  isplitl [Hisem]; · iexact Hisem
  isplitl [Hhalf]; · iexact Hhalf
  isplitl [Hrows]; · iexact Hrows
  isplitl [Hgsem]; · iexact Hgsem
  isplitl [Htok]; · iexact Htok
  isplitl [HX]; · iexact HX
  iexact HOD

end EndsBySlot

end Cert.Proof.WBody

end
-- ==== Proof.WBodyShell.lean ====
/-
  The SparseCore kernel's body, one vector subcore's task: the shell around the loop.

  The task's resources arrive whole: the packed table and the transposed index array read-only, the worker's two
  hundred output chunks, the subcore's scratch buffers at some contents and its semaphores at zero. They are
  regrouped slot by slot and chunk by chunk. Before the loop the body starts the copies of the first five chunks
  of index words, each into its own slot of the index ring on its own semaphore; what lands is a chunk of the
  transposed index array, whose words all name table rows. That is the loop's invariant before trip 0. The loop's
  204 trips keep the invariant (a hypothesis here: the trip's proof). After the last trip everything is free but
  the write-backs of chunks 198 and 199: the body waits for the two, and the pieces regroup into the whole
  resources it was handed, the output's chunks each at some contents.
-/
import proofs.«206325_g16862041604593_cont_week2b_1534_42_alg».proof.Proof.WBodyRespell
import proofs.«206325_g16862041604593_cont_week2b_1534_42_alg».proof.Proof.WBodyEntry
import proofs.«206325_g16862041604593_cont_week2b_1534_42_alg».proof.Proof.WBodyEnds
import proofs.«206325_g16862041604593_cont_week2b_1534_42_alg».proof.Proof.Gen.Kernel.Skeleton
import Idealize.ShloMosaic.Lib.ValueIdx

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

section ShellHelpers
variable {UU : Type} [URA UU] [CountersIn UU]
set_option quotPrecheck false in
local notation "𝕄" => MT nD τ sig (HIx 1) (Elt F) ℕ UU ℕ
variable (d : Dev nD) (L : grid1.Coords)

/-- A run over the numbers below n with its first five set apart. -/
theorem shell_range_take5 {M : Type} [URA M] (n : Nat) (h : 5 ≤ n) (A : ℕ → sProp M) :
    bigSep (Finset.range n) A = iprop(A 0 ∗ A 1 ∗ A 2 ∗ A 3 ∗ A 4 ∗ bigSep (Finset.Ico 5 n) A) := by
  rw [Finset.range_eq_Ico, Ring.bigSep_Ico_succ (by omega : 0 < n), Ring.bigSep_Ico_succ (by omega : 0 + 1 < n),
    Ring.bigSep_Ico_succ (by omega : 0 + 1 + 1 < n), Ring.bigSep_Ico_succ (by omega : 0 + 1 + 1 + 1 < n),
    Ring.bigSep_Ico_succ (by omega : 0 + 1 + 1 + 1 + 1 < n)]

/-- The index slots and their semaphores as the copies before the loop spell them. -/
abbrev idxL0 : Memref sig .scVector .vmem S128 .i32 := ((A5).slice (Rect.unit (s := S10x128) ![0, 0] S1x128.size inb_S10x128_S1x128_0_0) (fun _ => rfl)).squeeze S128 squeezes_S1x128_S128
abbrev idxL1 : Memref sig .scVector .vmem S128 .i32 := ((A5).slice (Rect.unit (s := S10x128) ![1, 0] S1x128.size inb_S10x128_S1x128_1_0) (fun _ => rfl)).squeeze S128 squeezes_S1x128_S128
abbrev idxL2 : Memref sig .scVector .vmem S128 .i32 := ((A5).slice (Rect.unit (s := S10x128) ![2, 0] S1x128.size inb_S10x128_S1x128_2_0) (fun _ => rfl)).squeeze S128 squeezes_S1x128_S128
abbrev idxL3 : Memref sig .scVector .vmem S128 .i32 := ((A5).slice (Rect.unit (s := S10x128) ![3, 0] S1x128.size inb_S10x128_S1x128_3_0) (fun _ => rfl)).squeeze S128 squeezes_S1x128_S128
abbrev idxL4 : Memref sig .scVector .vmem S128 .i32 := ((A5).slice (Rect.unit (s := S10x128) ![4, 0] S1x128.size inb_S10x128_S1x128_4_0) (fun _ => rfl)).squeeze S128 squeezes_S1x128_S128
abbrev isemL0 : DmaSem sig := ((cc1_scratch4.slice (Rect.unit (s := S10) ![0] S1.size inb_S10_S1_0)).squeeze S_ squeezes_S1_S_).sem
abbrev isemL1 : DmaSem sig := ((cc1_scratch4.slice (Rect.unit (s := S10) ![1] S1.size inb_S10_S1_1)).squeeze S_ squeezes_S1_S_).sem
abbrev isemL2 : DmaSem sig := ((cc1_scratch4.slice (Rect.unit (s := S10) ![2] S1.size inb_S10_S1_2)).squeeze S_ squeezes_S1_S_).sem
abbrev isemL3 : DmaSem sig := ((cc1_scratch4.slice (Rect.unit (s := S10) ![3] S1.size inb_S10_S1_3)).squeeze S_ squeezes_S1_S_).sem
abbrev isemL4 : DmaSem sig := ((cc1_scratch4.slice (Rect.unit (s := S10) ![4] S1.size inb_S10_S1_4)).squeeze S_ squeezes_S1_S_).sem

/-- The five index slices fetched before the loop, as the copies spell them. -/
abbrev xtL (L : grid1.Coords) (r : Fin 5) : Memref sig .scVector .hbm S128 .i32 :=
  ((A3).slice (Rect.unit (s := S50x16384) (k1_off1 L (BitVec.ofNat 32 r.val)) S1x128.size (k1_off1_inb L r)) (fun _ => rfl)).squeeze S128 squeezes_S1x128_S128

theorem shell_pts_xtL (r : Fin 5) (q : PosShare TreeShare) (f : Buf (Elt F) ((A3).view.loc (V d (cV L) (jV L)))) :
    ((xtL L r).view.loc (V d (cV L) (jV L)) ↦[(xtL L r).view.set]{q} f : sProp 𝕄)
      = ((A3).view.loc (V d (cV L) (jV L)) ↦[xChunkSet (200 * wid L + r.val)]{q} f) := by
  have e : (xtL L r).view.set = xChunkSet (200 * wid L + r.val) := set_xtW1 L r
  rw [e]

end ShellHelpers

section ShellHelpers2
variable {UU : Type} [URA UU] [CountersIn UU]
set_option quotPrecheck false in
local notation "𝕄" => MT nD τ sig (HIx 1) (Elt F) ℕ UU ℕ
variable (d : Dev nD) (L : grid1.Coords)
open Idealize.ShloMosaic.ValueIdx

/-- The gather's name for the packed table is the whole table. -/
theorem shell_set_tabS : (tabS).view.set = Finset.univ := by
  show ((View.whole main_v2_scv).slice (Rect.unit (s := S507904x128) ![0, 0] S507904x128.size inb_S507904x128_S507904x128_0_0)).set = _
  rw [View.set_slice_whole]
  exact Rect.set_eq_univ_of_whole _ (fun a => ⟨by fin_cases a <;> rfl, rfl, rfl⟩)

theorem shell_pts_tabS (q : PosShare TreeShare) (tp : Buf (Elt F) ((A2).view.loc (V d (cV L) (jV L)))) :
    ((tabS).view.loc (V d (cV L) (jV L)) ↦[(tabS).view.set]{q} tp : sProp 𝕄) = ((A2).view.loc (V d (cV L) (jV L)) ↦{q} tp) := by
  rw [shell_set_tabS]

variable [FloatOps F]

/-- What a whole-slot copy lands in an index slot, when every word copied names a table row. -/
theorem shell_landed_ok (u : Nat) (fi : Buf (Elt F) ((idxC u).view.loc (V d (cV L) (jV L)))) (w : S128.Idx → Elt F .i32)
    (hw : ∀ y, (w y).toNat ≤ 999999) :
    IdxOK d L u ((idxC u).view.writes (Elt F) fi [⟨Rect.whole S128, w⟩]) := by
  intro y
  have h := View.read_writes_cons_emb (idxC u).view fi (Rect.whole S128) w [] y
  rw [Rect.emb_whole_apply] at h
  exact le_of_eq_of_le (congrArg BitVec.toNat h) (hw y)

/-- A chunk of index words read off the transposed index array names table rows, if every word of the array does. -/
theorem shell_read_xtL_le (r : Fin 5) (xt : Buf (Elt F) ((A3).view.loc (V d (cV L) (jV L))))
    (h : ∀ j : S50x16384.Idx, (xt j).toNat ≤ 999999) (y : S128.Idx) :
    ((xtL L r).view.read (Elt F) xt y).toNat ≤ 999999 := by
  rw [View.read_apply, cast_eq]; exact h _

/-- A copy before the loop, issued: chunk r's index words on their way into slot r. -/
theorem shell_ifl_of_flight (q' : PosShare TreeShare) (xt : Buf (Elt F) ((A3).view.loc (V d (cV L) (jV L)))) (r : Fin 5)
    (fi : Buf (Elt F) ((idxC r.val).view.loc (V d (cV L) (jV L)))) (w : S128.Idx → Elt F .i32) (hw : ∀ y, (w y).toNat ≤ 999999) :
    (Transfers.Flight (countersEmb (U := UU)) (V d (cV L) (jV L)) (SemLoc.dma (isemC r.val)) (default : HIx 1) 4096
        iprop(((idxC r.val).view.loc (V d (cV L) (jV L)) ↦[(idxC r.val).view.set]{fullShare} (idxC r.val).view.writes (Elt F) fi [⟨Rect.whole S128, w⟩])
          ∗ ((xtL L r).view.loc (V d (cV L) (jV L)) ↦[(xtL L r).view.set]{q'} xt)) : sProp 𝕄)
      ⊢ IFl d L q' xt r.val := by
  unfold IFl
  iintro H
  iexists _
  isplitr; · ipureintro; exact shell_landed_ok d L r.val fi w hw
  iapply (Transfers.Flight_mono (countersEmb (U := UU)) (V d (cV L) (jV L)) (sep_mono .rfl (Entails.of_eq (shell_pts_xtL d L r q' xt)))) $$ H

end ShellHelpers2

section ShellHelpers3
variable {UU : Type} [URA UU] [CountersIn UU]
set_option quotPrecheck false in
local notation "𝕄" => MT nD τ sig (HIx 1) (Elt F) ℕ UU ℕ
variable (d : Dev nD) (L : grid1.Coords)

/-- The two write-back semaphores as the waits after the loop spell them. -/
abbrev wsemL0 : DmaSem sig := ((cc1_scratch6.slice (Rect.unit (s := S2) ![0] S1.size inb_S2_S1_0)).squeeze S_ squeezes_S1_S_).sem
abbrev wsemL1 : DmaSem sig := ((cc1_scratch6.slice (Rect.unit (s := S2) ![1] S1.size inb_S2_S1_1)).squeeze S_ squeezes_S1_S_).sem

end ShellHelpers3

section ShellHelpers4
variable {UU : Type} [URA UU] [CountersIn UU]
set_option quotPrecheck false in
local notation "𝕄" => MT nD τ sig (HIx 1) (Elt F) ℕ UU ℕ
variable (d : Dev nD) (L : grid1.Coords)

theorem shell_range_two {M : Type} [URA M] (A : ℕ → sProp M) : bigSep (Finset.range 2) A = iprop(A 0 ∗ A 1) := by
  rw [show Finset.range 2 = insert 0 {1} from by decide, bigSep_insert (by decide), BI.bigSep_singleton]; rfl

theorem shell_range_last2 {M : Type} [URA M] (n : ℕ) (A : ℕ → sProp M) :
    bigSep (Finset.range (n + 2)) A = iprop(A (n + 1) ∗ A n ∗ bigSep (Finset.range n) A) := by
  rw [Ring.bigSep_range_succ (n + 1), Ring.bigSep_range_succ n]

theorem shell_out_last {M : Type} [URA M] (A : ℕ → sProp M) :
    bigSep (Finset.range 200) A = iprop(A 199 ∗ A 198 ∗ bigSep (Finset.range 198) A) := shell_range_last2 198 A

/-- The output's two hundred chunks of this worker, each at some contents, numbered by trip. -/
theorem shell_out_chunks_ex :
    (bigSep (Finset.univ : Finset (Fin 200)) fun t =>
        iprop(∃ f, ((SparseCore.T d).loc main_v3 ↦[Cert.Spec.chunkSet (200 * wid L + t.val)]{fullShare} f : sProp 𝕄)))
      = bigSep (Finset.range 200) fun t =>
          iprop(∃ f, ((A4).view.loc (V d (cV L) (jV L)) ↦[Cert.Spec.chunkSet (200 * wid L + t)]{fullShare} f : sProp 𝕄)) :=
  Ring.bigSep_fin_eq_range 200 _ _ (fun _ _ => rfl)

end ShellHelpers4

section Shell
variable {UU : Type} [URA UU] [CountersIn UU]
set_option quotPrecheck false in
local notation "𝕄" => MT nD τ sig (HIx 1) (Elt F) ℕ UU ℕ
open Idealize.ShloMosaic.ValueIdx

abbrev tabLoc (d : Dev nD) : Loc nD τ sig := (SparseCore.T d).loc main_v2
abbrev xtLoc (d : Dev nD) : Loc nD τ sig := (SparseCore.T d).loc main_v0
abbrev outLoc (d : Dev nD) : Loc nD τ sig := (SparseCore.T d).loc main_v3

variable [FloatOps F]

set_option maxHeartbeats 40000000 in
set_option maxRecDepth 65536 in
theorem tile_body_shell (d : Dev nD) (L : grid1.Coords) (q q' : PosShare TreeShare)
    (tab : FVec F S1000000x64 .f32) (x : IVec S16384x50 32)
    (tp : Buf (Elt F) (tabLoc d)) (xt : Buf (Elt F) (xtLoc d)) (fo : Buf (Elt F) (outLoc d))
    (hx : ∀ j, (x j).toNat ≤ 999999)
    (hxt : ∀ (h : Fin 50) (b : Fin 16384), xt (ix2 h b) = x (ix2 b h))
    (hpack : Cert.Spec.PackOK tab tp)
    (O : CellTallies nD τ sig (HIx 1)) (W : Waits sig (HIx 1)) (hO : ∀ g, O g none = 0)
    (region : ∀ (v2 : BitVec 32) (k : Fin k1_t1_loop.trips) (acc : Unit),
      Inv (UU := UU) d L q q' tp xt fo O W k.val acc
        ⊢ wp (M := 𝕄) frame (wpE (defs₀ (F := F)) 𝒱₀ (V d (cV L) (jV L)) none) Set.univ
            (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32 k acc)
            (Inv (UU := UU) d L q q' tp xt fo O W (k.val + 1))) :
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * wid L + t.val)]{fullShare} fo)
        ∗ scopedBufs (V d (cV L) (jV L)) ∗ scopedSems0 (V d (cV L) (jV L)) ∗ owes (V d (cV L) (jV L)) O W)
      ⊢ wp (M := 𝕄) frame (wpE (defs₀ (F := F)) 𝒱₀ (V d (cV L) (jV L)) none) Set.univ
          (cc1_k L A2 (Memref.isWhole_whole _) A3 (Memref.isWhole_whole _) A4 (Memref.isWhole_whole _) A5 (Memref.isWhole_whole _)
            A6 (Memref.isWhole_whole _) A7 (Memref.isWhole_whole _) A8 (Memref.isWhole_whole _) cc1_scratch4 cc1_scratch5 cc1_scratch6)
          fun _ => iprop((tabLoc d ↦{q} tp) ∗ (xtLoc d ↦{q'} xt)
            ∗ (bigSep (Finset.univ : Finset (Fin 200)) fun t => iprop(∃ f, outLoc d ↦[Cert.Spec.chunkSet (200 * wid L + t.val)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  rw [out_chunks (UU := UU) d L fo]
  iintro ⟨#Hlv, Htab, Hxt, Hout, Hsb, Hss, HO⟩
  ihave Hmw := ((K (F := F)).mayWaits_none (thr := V d (cV L) (jV L)) hO) $$ Hlv
  ihave Htab' := (tab_toks (UU := UU) d L q tp).1 $$ Htab
  icases Htab' with ⟨Htab0, Htoks⟩
  ihave Hxt' := (xt_chunks (UU := UU) d L q' xt).1 $$ Hxt
  icases Hxt' with ⟨Hxch, Hxrest⟩
  ihave Hsb' := (scopedBufs_slots (F := F) (UU := UU) d L).1 $$ Hsb
  icases Hsb' with ⟨Hidx, Hhalf, Hrows, Hsel, Hbrest⟩
  ihave Hss' := (scopedSems0_cells (F := F) (UU := UU) d L).1 $$ Hss
  icases Hss' with ⟨Hisem, Hgsem, Hwsem, Hsrest⟩
  -- the five slots, cells and chunks the copies before the loop name
  ihave Hidx' := (Entails.of_eq (shell_range_take5 10 (by decide) _)) $$ Hidx
  icases Hidx' with ⟨⟨%fi0, HI0⟩, ⟨%fi1, HI1⟩, ⟨%fi2, HI2⟩, ⟨%fi3, HI3⟩, ⟨%fi4, HI4⟩, Hidx⟩
  ihave Hisem' := (Entails.of_eq (shell_range_take5 10 (by decide) _)) $$ Hisem
  icases Hisem' with ⟨HS0, HS1, HS2, HS3, HS4, Hisem⟩
  ihave Hxch' := (Entails.of_eq (shell_range_take5 200 (by decide) _)) $$ Hxch
  icases Hxch' with ⟨HX0, HX1, HX2, HX3, HX4, Hxch⟩
  ihave HI0 := (show ((idxC 0).view.loc (V d (cV L) (jV L)) ↦[(idxC 0).view.set]{fullShare} fi0 : sProp 𝕄) ⊢ ((idxL0).view.loc (V d (cV L) (jV L)) ↦[(idxL0).view.set]{fullShare} fi0) from Entails.of_eq rfl) $$ HI0
  ihave HS0 := (show (semVal ((V d (cV L) (jV L), SemLoc.dma (isemC 0)) : GSem nD τ sig) 0 : sProp 𝕄) ⊢ semVal ((V d (cV L) (jV L), SemLoc.dma isemL0) : GSem nD τ sig) 0 from Entails.of_eq rfl) $$ HS0
  ihave HX0 := (Entails.of_eq (shell_pts_xtL (UU := UU) d L (0 : Fin 5) q' xt).symm) $$ HX0
  ihave HI1 := (show ((idxC 1).view.loc (V d (cV L) (jV L)) ↦[(idxC 1).view.set]{fullShare} fi1 : sProp 𝕄) ⊢ ((idxL1).view.loc (V d (cV L) (jV L)) ↦[(idxL1).view.set]{fullShare} fi1) from Entails.of_eq rfl) $$ HI1
  ihave HS1 := (show (semVal ((V d (cV L) (jV L), SemLoc.dma (isemC 1)) : GSem nD τ sig) 0 : sProp 𝕄) ⊢ semVal ((V d (cV L) (jV L), SemLoc.dma isemL1) : GSem nD τ sig) 0 from Entails.of_eq rfl) $$ HS1
  ihave HX1 := (Entails.of_eq (shell_pts_xtL (UU := UU) d L (1 : Fin 5) q' xt).symm) $$ HX1
  ihave HI2 := (show ((idxC 2).view.loc (V d (cV L) (jV L)) ↦[(idxC 2).view.set]{fullShare} fi2 : sProp 𝕄) ⊢ ((idxL2).view.loc (V d (cV L) (jV L)) ↦[(idxL2).view.set]{fullShare} fi2) from Entails.of_eq rfl) $$ HI2
  ihave HS2 := (show (semVal ((V d (cV L) (jV L), SemLoc.dma (isemC 2)) : GSem nD τ sig) 0 : sProp 𝕄) ⊢ semVal ((V d (cV L) (jV L), SemLoc.dma isemL2) : GSem nD τ sig) 0 from Entails.of_eq rfl) $$ HS2
  ihave HX2 := (Entails.of_eq (shell_pts_xtL (UU := UU) d L (2 : Fin 5) q' xt).symm) $$ HX2
  ihave HI3 := (show ((idxC 3).view.loc (V d (cV L) (jV L)) ↦[(idxC 3).view.set]{fullShare} fi3 : sProp 𝕄) ⊢ ((idxL3).view.loc (V d (cV L) (jV L)) ↦[(idxL3).view.set]{fullShare} fi3) from Entails.of_eq rfl) $$ HI3
  ihave HS3 := (show (semVal ((V d (cV L) (jV L), SemLoc.dma (isemC 3)) : GSem nD τ sig) 0 : sProp 𝕄) ⊢ semVal ((V d (cV L) (jV L), SemLoc.dma isemL3) : GSem nD τ sig) 0 from Entails.of_eq rfl) $$ HS3
  ihave HX3 := (Entails.of_eq (shell_pts_xtL (UU := UU) d L (3 : Fin 5) q' xt).symm) $$ HX3
  ihave HI4 := (show ((idxC 4).view.loc (V d (cV L) (jV L)) ↦[(idxC 4).view.set]{fullShare} fi4 : sProp 𝕄) ⊢ ((idxL4).view.loc (V d (cV L) (jV L)) ↦[(idxL4).view.set]{fullShare} fi4) from Entails.of_eq rfl) $$ HI4
  ihave HS4 := (show (semVal ((V d (cV L) (jV L), SemLoc.dma (isemC 4)) : GSem nD τ sig) 0 : sProp 𝕄) ⊢ semVal ((V d (cV L) (jV L), SemLoc.dma isemL4) : GSem nD τ sig) 0 from Entails.of_eq rfl) $$ HS4
  ihave HX4 := (Entails.of_eq (shell_pts_xtL (UU := UU) d L (4 : Fin 5) q' xt).symm) $$ HX4
  sl_exec_parts
  sl_for (Inv (UU := UU) d L q q' tp xt fo O W) $$ [Hmw HO HS0 HS1 HS2 HS3 HS4 Hidx Hisem Hhalf Hrows Hgsem Htoks Hsel Hwsem Hxch Hout]
  case region =>
    intro k acc
    exact region _ k acc
  · have hle : ∀ j : S50x16384.Idx, (xt j).toNat ≤ 999999 := fun j =>
      le_of_eq_of_le (congrArg (fun i => (xt i).toNat) (eq_ix2 j)) (le_of_eq_of_le (congrArg BitVec.toNat (hxt (j 0) (j 1))) (hx _))
    ihave HF0 : IFl d L q' xt 0 $$ [HS0]
    · iclear Hlv
      iclear Hmw
      istop
      exact shell_ifl_of_flight (UU := UU) d L q' xt (0 : Fin 5) fi0 _ (fun y => shell_read_xtL_le (F := F) d L (0 : Fin 5) xt hle y)
    ihave HF1 : IFl d L q' xt 1 $$ [HS1]
    · iclear Hlv
      iclear Hmw
      istop
      exact shell_ifl_of_flight (UU := UU) d L q' xt (1 : Fin 5) fi1 _ (fun y => shell_read_xtL_le (F := F) d L (1 : Fin 5) xt hle y)
    ihave HF2 : IFl d L q' xt 2 $$ [HS2]
    · iclear Hlv
      iclear Hmw
      istop
      exact shell_ifl_of_flight (UU := UU) d L q' xt (2 : Fin 5) fi2 _ (fun y => shell_read_xtL_le (F := F) d L (2 : Fin 5) xt hle y)
    ihave HF3 : IFl d L q' xt 3 $$ [HS3]
    · iclear Hlv
      iclear Hmw
      istop
      exact shell_ifl_of_flight (UU := UU) d L q' xt (3 : Fin 5) fi3 _ (fun y => shell_read_xtL_le (F := F) d L (3 : Fin 5) xt hle y)
    ihave HF4 : IFl d L q' xt 4 $$ [HS4]
    · iclear Hlv
      iclear Hmw
      istop
      exact shell_ifl_of_flight (UU := UU) d L q' xt (4 : Fin 5) fi4 _ (fun y => shell_read_xtL_le (F := F) d L (4 : Fin 5) xt hle y)
    ihave Htoks' : (bigSep (Finset.range 5) fun s => (tabS).view.loc (V d (cV L) (jV L)) ↦[(tabS).view.set]{Transfers.shareTokN q s} tp) $$ [Htoks]
    · iclear Hlv
      iclear Hmw
      istop
      exact Entails.of_eq (bigSep_congr fun s _ => (shell_pts_tabS (UU := UU) d L _ tp).symm)
    iapply (Inv_zero_slots (UU := UU) d L q q' tp xt fo O W)
    isplitl [Hmw]; · iexact Hmw
    isplitl [HO]; · iexact HO
    isplitl [HF0]; · iexact HF0
    isplitl [HF1]; · iexact HF1
    isplitl [HF2]; · iexact HF2
    isplitl [HF3]; · iexact HF3
    isplitl [HF4]; · iexact HF4
    isplitl [Hidx]; · iexact Hidx
    isplitl [Hisem]; · iexact Hisem
    isplitl [Hhalf]; · iexact Hhalf
    isplitl [Hrows]; · iexact Hrows
    isplitl [Hgsem]; · iexact Hgsem
    isplitl [Htoks']; · iexact Htoks'
    isplitl [Hsel]; · iexact Hsel
    isplitl [Hwsem]; · iexact Hwsem
    isplitl [Hxch]; · iexact Hxch
    iexact Hout
  iintro %u HI
  ihave HI' : (Inv (UU := UU) d L q q' tp xt fo O W 204 u) $$ [HI]
  · iclear Hlv
    iclear Hmw
    istop
    exact Entails.of_eq (by rw [trips_eq'])
  ihave HL := (Inv_last_slots (UU := UU) d L q q' tp xt fo O W u) $$ HI'
  unfold Owes WFl
  icases HL with ⟨-, ⟨%W', %hW', HO⟩, ⟨%c1a, %c2a, HWa⟩, ⟨%c1b, %c2b, HWb⟩, Hidx, Hisem, Hhalf, Hrows, Hgsem, Htoks, Hxch, Hout⟩
  ihave HWa' : (Transfers.Flight (countersEmb (U := UU)) (V d (cV L) (jV L)) (SemLoc.dma wsemL0) (default : HIx 1) 262144
      iprop(((A4).view.loc (V d (cV L) (jV L)) ↦[Cert.Spec.chunkSet (200 * wid L + 198)]{fullShare} c1a) ∗ ((selC 198).view.loc (V d (cV L) (jV L)) ↦[(selC 198).view.set]{fullShare} c2a))) $$ [HWa]
  · iclear Hlv
    iclear Hmw
    istop
    exact Entails.of_eq rfl
  ihave HWb' : (Transfers.Flight (countersEmb (U := UU)) (V d (cV L) (jV L)) (SemLoc.dma wsemL1) (default : HIx 1) 262144
      iprop(((A4).view.loc (V d (cV L) (jV L)) ↦[Cert.Spec.chunkSet (200 * wid L + 199)]{fullShare} c1b) ∗ ((selC 199).view.loc (V d (cV L) (jV L)) ↦[(selC 199).view.set]{fullShare} c2b))) $$ [HWb]
  · iclear Hlv
    iclear Hmw
    istop
    exact Entails.of_eq rfl
  sl_exec_parts
  sl_step
  -- the packed table
  isplitl [Htab0 Htoks]
  · ihave Htoks' : (bigSep (Finset.range 5) fun s => (A2).view.loc (V d (cV L) (jV L)) ↦{Transfers.shareTokN q s} tp) $$ [Htoks]
    · iclear Hlv
      iclear Hmw
      istop
      exact Entails.of_eq (bigSep_congr fun s _ => shell_pts_tabS (UU := UU) d L _ tp)
    iapply (tab_toks (UU := UU) d L q tp).2
    isplitl [Htab0]; · iexact Htab0
    iexact Htoks'
  -- the transposed index array
  isplitl [Hxch Hxrest]
  · iapply (xt_chunks (UU := UU) d L q' xt).2
    isplitl [Hxch]; · iexact Hxch
    iexact Hxrest
  -- the output's chunks
  isplitl [Hout HWa'_dst HWb'_dst]
  · iapply (Entails.of_eq (shell_out_chunks_ex (UU := UU) d L).symm)
    iapply (Entails.of_eq (shell_out_last _).symm)
    isplitl [HWb'_dst]; · iexists c1b; iexact HWb'_dst
    isplitl [HWa'_dst]; · iexists c1a; iexact HWa'_dst
    iexact Hout
  -- the subcore's own buffers
  isplitl [Hidx Hhalf Hrows HWa'_src HWb'_src Hbrest]
  · iapply (scopedBufs_slots (F := F) (UU := UU) d L).2
    isplitl [Hidx]; · iexact Hidx
    isplitl [Hhalf]; · iexact Hhalf
    isplitl [Hrows]; · iexact Hrows
    isplitl [HWa'_src HWb'_src]
    · iapply (Entails.of_eq (shell_range_two _).symm)
      isplitl [HWa'_src]
      · iclear Hlv
        iclear Hmw
        istop
        refine BIBase.Entails.trans (show _ ⊢ ((selC 0).view.loc (V d (cV L) (jV L)) ↦[(selC 0).view.set]{fullShare} c2a : sProp 𝕄) from Entails.of_eq rfl) ?_
        iintro H
        iexists c2a
        iexact H
      · iclear Hlv
        iclear Hmw
        istop
        refine BIBase.Entails.trans (show _ ⊢ ((selC 1).view.loc (V d (cV L) (jV L)) ↦[(selC 1).view.set]{fullShare} c2b : sProp 𝕄) from Entails.of_eq rfl) ?_
        iintro H
        iexists c2b
        iexact H
    iexact Hbrest
  -- its semaphores
  isplitl [Hisem Hgsem HWa' HWb' Hsrest]
  · iapply (scopedSems0_cells (F := F) (UU := UU) d L).2
    isplitl [Hisem]; · iexact Hisem
    isplitl [Hgsem]; · iexact Hgsem
    isplitl [HWa' HWb']
    · iapply (Entails.of_eq (shell_range_two _).symm)
      isplitl [HWa']
      · iclear Hlv
        iclear Hmw
        istop
        exact (Entails.of_eq rfl : _ ⊢ (semVal ((V d (cV L) (jV L), SemLoc.dma (wsemC 0)) : GSem nD τ sig) 0 : sProp 𝕄))
      · iclear Hlv
        iclear Hmw
        istop
        exact (Entails.of_eq rfl : _ ⊢ (semVal ((V d (cV L) (jV L), SemLoc.dma (wsemC 1)) : GSem nD τ sig) 0 : sProp 𝕄))
    iexact Hsrest
  -- what the subcore owes
  iexists _
  isplitr
  rotate_left
  · iexact HO
  · ipureintro
    intro p hp
    rcases Finset.mem_insert.mp hp with hp | hp
    · subst hp; exact .inr rfl
    rcases Finset.mem_insert.mp hp with hp | hp
    · subst hp; exact .inr rfl
    exact hW' p hp

end Shell

end Cert.Proof.WBody
end
-- ==== Proof.WLanePay.lean ====
/-
  The gather stage's stored rows and the select stage's offset vectors, as functions of the index words loaded.

  Each of the eight groups of 16 index words is loaded as a `[1, 16]` row `v`. The gather stage stores, for each
  group, the row of packed-row numbers `rowVec v`: entry `(0, l)` is the packed row of the word `v (0, l)`. The select
  stage computes, for each group, the offset vector `offVec v`: lane `l` is the column offset of the word `v (0, l)`.
  The program spells the eight groups' values through differently cut pieces (a cast here, the two halves of the
  row carried apart there); unfolded, all eight are the same two expressions.
-/
import proofs.«206325_g16862041604593_cont_week2b_1534_42_alg».proof.Proof.Gen.Kernel.Skeleton
import proofs.«206325_g16862041604593_cont_week2b_1534_42_alg».proof.Proof.LanePayload

noncomputable section

namespace Cert.WLanePay

open Idealize.ShloMosaic Idealize.ShloMosaic.ValueIdx Cert.Spec Cert.Kernel Cert.Kernel.Gen

variable {F : FTy → Type} [FloatOps F]

/-- The row of packed-row numbers of a loaded row of index words. -/
def rowVec (v : IVec S1x16 32) : IVec S1x16 32 :=
  shapeCast S1x16
    (ori (shli (shrui (shapeCast S16 v shapeCasts_S1x16_S16) (broadcast S16 15#32)) (broadcast S16 14#32))
      (andi (andi (shapeCast S16 v shapeCasts_S1x16_S16) (broadcast S16 32767#32)) (broadcast S16 16383#32)))
    shapeCasts_S16_S1x16

/-- The vector of column offsets of a loaded row of index words. -/
def offVec (v : IVec S1x16 32) : IVec S16 32 :=
  shli (andi (shrui (andi (shapeCast S16 v shapeCasts_S1x16_S16) (broadcast S16 32767#32)) (broadcast S16 14#32))
    (broadcast S16 1#32)) (broadcast S16 6#32)

/-- Entry `(u, l)` of the stored row is the packed row of the loaded word `(0, l)`. -/
theorem rowVec_apply (v : IVec S1x16 32) (u : Fin 1) (l : Fin 16)
    (h : (v (ix2 (0 : Fin 1) l)).toNat ≤ 999999) :
    rowVec v (ix2 u l) = BitVec.ofNat 32 (packRow (v (ix2 (0 : Fin 1) l)).toNat) :=
  LanePayload.rowPayload_apply v shapeCasts_S1x16_S16 shapeCasts_S16_S1x16 u l h

/-- Lane `l` of the offset vector is the column offset of the loaded word `(0, l)`. -/
theorem offVec_apply (v : IVec S1x16 32) (l : Fin 16) (h : (v (ix2 (0 : Fin 1) l)).toNat ≤ 999999) :
    offVec v (ix1 l) = BitVec.ofNat 32 (packOff (v (ix2 (0 : Fin 1) l)).toNat) :=
  LanePayload.offPayload_apply v shapeCasts_S1x16_S16 l h

/-- Lane `l` of the offset vector as a number: the column offset of the loaded word `(0, l)`. -/
theorem offVec_toNat (v : IVec S1x16 32) (l : Fin 16) (h : (v (ix2 (0 : Fin 1) l)).toNat ≤ 999999) :
    (offVec v (ix1 l)).toNat = packOff (v (ix2 (0 : Fin 1) l)).toNat := by
  rw [offVec_apply v l h, BitVec.toNat_ofNat, Nat.mod_eq_of_lt (BitLayout.packOff_lt_word _)]

/-! ## The gather stage: the eight stored rows -/

theorem pay1_eq (v : Vec F S1x16 .i32) : k1_pay1 v = rowVec v := rfl
theorem pay2_eq (v : Vec F S1x16 .i32) : k1_pay2 v = rowVec v := rfl
/-- Group 2: the low 15 bits and the shifted quotient are carried apart. -/
theorem pay6_eq (v : Vec F S1x16 .i32) : k1_pay6 (k1_pay4 v) (k1_pay5 v) = rowVec v := rfl
/-- Group 3: the row vector is carried whole and cast when stored. -/
theorem pay12_eq (v : Vec F S1x16 .i32) : k1_pay12 (k1_pay9 v) = rowVec v := rfl
theorem pay13_eq (v : Vec F S1x16 .i32) : k1_pay13 v = rowVec v := rfl
theorem pay14_eq (v : Vec F S1x16 .i32) : k1_pay14 v = rowVec v := rfl
theorem pay15_eq (v : Vec F S1x16 .i32) : k1_pay15 v = rowVec v := rfl
/-- Group 7: as group 2. -/
theorem pay19_eq (v : Vec F S1x16 .i32) : k1_pay19 (k1_pay17 v) (k1_pay18 v) = rowVec v := rfl

/-! ## The select stage: the eight offset vectors -/

theorem off0_eq (v : Vec F S1x16 .i32) : k1_pay20 v = offVec v := rfl
theorem off1_eq (v : Vec F S1x16 .i32) : k1_pay113 (k1_pay112 v) = offVec v := rfl
theorem off2_eq (v : Vec F S1x16 .i32) : k1_pay206 (k1_pay204 v) = offVec v := rfl
theorem off3_eq (v : Vec F S1x16 .i32) : k1_pay300 (k1_pay297 v) k1_pay299 = offVec v := rfl
theorem off4_eq (v : Vec F S1x16 .i32) : k1_pay394 (k1_pay393 v) = offVec v := rfl
theorem off5_eq (v : Vec F S1x16 .i32) : k1_pay488 (k1_pay486 v) = offVec v := rfl
theorem off6_eq (v : Vec F S1x16 .i32) : k1_pay583 (k1_pay580 v) = offVec v := rfl
theorem off7_eq (v : Vec F S1x16 .i32) : k1_pay675 (k1_pay674 v) = offVec v := rfl

/-! ## The word read for one lane -/

/-- The word the select stage reads for lane `k` of a group: lane `k` of the group's offset vector, the column
    offset of the loaded word `(0, k)`. Stated for any offset vector `x` equal to `offVec v`. -/
theorem laneWord_eq (v : IVec S1x16 32) (x : IVec S16 32) (hx : x = offVec v) (k : Nat) (hk : k < 16)
    (hs : S16.Slices ![k] S1) (hp : ∀ a, (![0] : Fin 1 → Nat) a < S1.size a)
    (h : (v (ix2 (0 : Fin 1) (⟨k, hk⟩ : Fin 16))).toNat ≤ 999999) :
    extractAt ![0] (extractStridedSlice S1 ![k] x hs) hp
      = BitVec.ofNat 32 (packOff (v (ix2 (0 : Fin 1) (⟨k, hk⟩ : Fin 16))).toNat) := by
  rw [LanePayload.extractAt_slice_lane x k hk hs hp, hx]
  exact offVec_apply v ⟨k, hk⟩ h

end Cert.WLanePay
-- ==== Proof.WBodyHin.lean ====
/-
  The list of packed-row numbers the gather reads: what the subcore leaves in the list slot, and why every entry
  is a row of the packed table.

  Before it issues the gather for chunk `k`, the subcore rewrites slot `k % 5` of the list buffer: for each of the
  eight groups `q` of 16 index words of slot `k % 10` of the index buffer, it loads the group, computes the row of
  packed-row numbers, and stores it over columns `16 q … 16 q + 15` of the list slot. The eight stores cover the
  slot, and each store's entry `(0, l)` is the packed row of the index word at column `16 q + l`. So afterwards
  entry `x` of the list slot is the packed row of entry `x` of the index slot, whatever the list slot held before;
  and when every index word is at most 999999, every list entry is below 507904, the number of rows of the packed
  table.
-/
import proofs.«206325_g16862041604593_cont_week2b_1534_42_alg».proof.Proof.WBodyDefs
import proofs.«206325_g16862041604593_cont_week2b_1534_42_alg».proof.Proof.WBodyOff
import proofs.«206325_g16862041604593_cont_week2b_1534_42_alg».proof.Proof.WLanePay
import Idealize.ShloMosaic.Lib.Writes

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)

variable [FloatOps F]

/-! ## The eight stores as a list of writes -/

section Hin

open Idealize.ShloMosaic.ValueIdx Cert.Spec

/-- The 16 index words a load through the whole index buffer at offsets `off` reads. -/
def idxLoad (off : Fin 2 → Nat) (inb : ∀ a, off a + S1x16.size a ≤ S10x128.size a)
    (fi : (A5).view.ty.Contents (Elt F)) : IVec S1x16 32 :=
  View.readAt (Elt F) (A5).view (Rect.unit (s := S10x128) off S1x16.size inb).toLoadRect fi

/-- One store of the stage: the packed rows of the 16 words loaded at `offI`, through the 16 columns at `offH`. -/
def halfPiece (offI : Fin 2 → Nat) (inbI : ∀ a, offI a + S1x16.size a ≤ S10x128.size a)
    (offH : Fin 2 → Nat) (inbH : ∀ a, offH a + S1x16.size a ≤ S5x128.size a)
    (fi : (A5).view.ty.Contents (Elt F)) : View.Piece (Elt F) S5x128 .i32 :=
  ⟨Rect.unit (s := S5x128) offH S1x16.size inbH, Cert.WLanePay.rowVec (idxLoad offI inbI fi)⟩

/-- The eight stores, the last first. -/
def halfList (k : Fin k1_t1_loop.trips) (h1 : k1_cond1 k = 1#1) (fi : (A5).view.ty.Contents (Elt F)) :
    List (View.Piece (Elt F) S5x128 .i32) :=
  [halfPiece (k1_off19 k) (k1_off19_inb k h1) (k1_off20 k) (k1_off20_inb k h1) fi,
   halfPiece (k1_off17 k) (k1_off17_inb k h1) (k1_off18 k) (k1_off18_inb k h1) fi,
   halfPiece (k1_off15 k) (k1_off15_inb k h1) (k1_off16 k) (k1_off16_inb k h1) fi,
   halfPiece (k1_off13 k) (k1_off13_inb k h1) (k1_off14 k) (k1_off14_inb k h1) fi,
   halfPiece (k1_off11 k) (k1_off11_inb k h1) (k1_off12 k) (k1_off12_inb k h1) fi,
   halfPiece (k1_off9 k) (k1_off9_inb k h1) (k1_off10 k) (k1_off10_inb k h1) fi,
   halfPiece (k1_off7 k) (k1_off7_inb k h1) (k1_off8 k) (k1_off8_inb k h1) fi,
   halfPiece (k1_off5 k) (k1_off5_inb k h1) (k1_off6 k) (k1_off6_inb k h1) fi]

/-- The list buffer after the eight stores, over prior contents `fh`. -/
def halfAfter (d : Dev nD) (L : grid1.Coords) (k : Fin k1_t1_loop.trips) (h1 : k1_cond1 k = 1#1)
    (fi : Buf (Elt F) ((idxP2 k h1).view.loc (V d (cV L) (jV L))))
    (fh : Buf (Elt F) ((halfP22 k h1).view.loc (V d (cV L) (jV L)))) :
    Buf (Elt F) ((halfP22 k h1).view.loc (V d (cV L) (jV L))) :=
  (A6).view.writes (Elt F) fh (halfList k h1 fi)

/-! ### Indices -/

/-- Entry `x` of a 128-vector, matched with the `[1, 128]` row it was squeezed from, is entry `(0, x)`. -/
theorem squeeze_idx (h : S128.numel = S1x128.numel) (x : S128.Idx) :
    Shape.reshapeEquiv (s := S1x128) (s' := S128) h x = ix2 (n0 := 1) (n1 := 128) 0 (x 0) :=
  Shape.reshapeEquiv_eq_of_rowMajor h
    ((Shape.rowMajor_val_two (d := ![1, 128]) (ix2 (n0 := 1) (n1 := 128) 0 (x 0))).trans
      ((show (0 : Nat) * 128 + (x 0).val = (x 0).val by omega).trans
        (Shape.rowMajor_val_one (d := ![128]) x).symm))

/-- Entry `(a, b)` of a unit-stride rectangle of a matrix is the matrix's entry at the offsets plus `(a, b)`. -/
theorem unit_emb_ix2 {n0 n1 m0 m1 : Nat} (off : Fin 2 → Nat)
    (inb : ∀ c, off c + (![m0, m1] : Fin 2 → Nat) c ≤ (⟨2, ![n0, n1]⟩ : Shape).size c)
    (a : Fin m0) (b : Fin m1) (i : Fin n0) (j : Fin n1) (hi : i.val = off 0 + a.val) (hj : j.val = off 1 + b.val) :
    (Rect.unit (s := ⟨2, ![n0, n1]⟩) off ![m0, m1] inb).emb (ix2 a b) = ix2 i j := by
  funext c
  match c with
  | ⟨0, _⟩ => exact Fin.ext (by show off 0 + 1 * a.val = i.val; omega)
  | ⟨1, _⟩ => exact Fin.ext (by show off 1 + 1 * b.val = j.val; omega)

end Hin

section HinFacts

open Idealize.ShloMosaic.ValueIdx Cert.Spec

/-- What the list slot `k % 5` reads is row `k % 5` of the whole list buffer. -/
theorem half_read (k : Fin k1_t1_loop.trips) (h1 : k1_cond1 k = 1#1) (g : (A6).view.ty.Contents (Elt F)) (x : S128.Idx) :
    (halfP22 k h1).view.read (Elt F) g x
      = (A6).view.read (Elt F) g (ix2 (n0 := 5) (n1 := 128) ⟨k.val % 5, Nat.mod_lt _ (by decide)⟩ (x 0)) := by
  have e0 : (k1_off22 k) 0 = k.val % 5 := congrFun (k1_off22_eq k) 0
  have e1 : (k1_off22 k) 1 = 0 := congrFun (k1_off22_eq k) 1
  have hx : (halfP22 k h1).view.read (Elt F) g x
      = (A6).view.read (Elt F) g ((Rect.unit (s := S5x128) (k1_off22 k) S1x128.size (k1_off22_inb k h1)).emb
          (Shape.reshapeEquiv (s := S1x128) (s' := S128) squeezes_S1x128_S128.numel_eq x)) := rfl
  rw [hx, squeeze_idx]
  exact congrArg _ (unit_emb_ix2 (n0 := 5) (n1 := 128) (m0 := 1) (m1 := 128) (k1_off22 k) (k1_off22_inb k h1) 0 (x 0)
    ⟨k.val % 5, Nat.mod_lt _ (by decide)⟩ (x 0) (by show k.val % 5 = (k1_off22 k) 0 + 0; omega)
    (by show (x 0).val = (k1_off22 k) 1 + (x 0).val; omega))

/-- What the index slot `k % 10` reads is row `k % 10` of the whole index buffer. -/
theorem idx_read (k : Fin k1_t1_loop.trips) (h1 : k1_cond1 k = 1#1) (g : (A5).view.ty.Contents (Elt F)) (x : S128.Idx) :
    (idxP2 k h1).view.read (Elt F) g x
      = (A5).view.read (Elt F) g (ix2 (n0 := 10) (n1 := 128) ⟨k.val % 10, Nat.mod_lt _ (by decide)⟩ (x 0)) := by
  have e0 : (k1_off2 k) 0 = k.val % 10 := congrFun (k1_off2_eq k) 0
  have e1 : (k1_off2 k) 1 = 0 := congrFun (k1_off2_eq k) 1
  have hx : (idxP2 k h1).view.read (Elt F) g x
      = (A5).view.read (Elt F) g ((Rect.unit (s := S10x128) (k1_off2 k) S1x128.size (k1_off2_inb k h1)).emb
          (Shape.reshapeEquiv (s := S1x128) (s' := S128) squeezes_S1x128_S128.numel_eq x)) := rfl
  rw [hx, squeeze_idx]
  exact congrArg _ (unit_emb_ix2 (n0 := 10) (n1 := 128) (m0 := 1) (m1 := 128) (k1_off2 k) (k1_off2_inb k h1) 0 (x 0)
    ⟨k.val % 10, Nat.mod_lt _ (by decide)⟩ (x 0) (by show k.val % 10 = (k1_off2 k) 0 + 0; omega)
    (by show (x 0).val = (k1_off2 k) 1 + (x 0).val; omega))

/-- A 16-word load at row `j`, column `c` of the index buffer reads, at `(u, l)`, the buffer's entry `(j, c + l)`. -/
theorem idxLoad_apply (off : Fin 2 → Nat) (inb : ∀ a, off a + S1x16.size a ≤ S10x128.size a)
    (fi : (A5).view.ty.Contents (Elt F)) (u : Fin 1) (l : Fin 16) (i : Fin 10) (j : Fin 128)
    (hi : i.val = off 0) (hj : j.val = off 1 + l.val) :
    idxLoad off inb fi (ix2 u l) = (A5).view.read (Elt F) fi (ix2 (n0 := 10) (n1 := 128) i j) := by
  have hu : u.val = 0 := by omega
  have hx : idxLoad off inb fi (ix2 u l)
      = (A5).view.read (Elt F) fi ((Rect.unit (s := S10x128) off S1x16.size inb).emb (ix2 u l)) := rfl
  rw [hx]
  exact congrArg _ (unit_emb_ix2 (n0 := 10) (n1 := 128) (m0 := 1) (m1 := 16) off inb u l i j (by omega) hj)

/-- The table row an index word of row `k % 10` of the index buffer is stored as, by column. -/
def rowOfIdx (k : Fin k1_t1_loop.trips) (fi : (A5).view.ty.Contents (Elt F)) : S5x128.Idx → Elt F .i32 :=
  fun y => BitVec.ofNat 32 (packRow (BitVec.toNat ((A5).view.read (Elt F) fi
    (ix2 (n0 := 10) (n1 := 128) ⟨k.val % 10, Nat.mod_lt _ (by decide)⟩ (y 1)))))

/-- A property of every entry of a `[1, 16]` row, from the property by coordinates. -/
theorem forall_idx_1x16 {P : (⟨2, ![1, 16]⟩ : Shape).Idx → Prop} (h : ∀ (u : Fin 1) (l : Fin 16), P (ix2 u l)) : ∀ x, P x :=
  fun x => by rw [eq_ix2 x]; exact h _ _

/-- One store agrees with `rowOfIdx`: at the same column offset `c` in both buffers, row `k % 10` of the index
    buffer, when the index words of that row are at most 999999. -/
theorem halfPiece_ok (k : Fin k1_t1_loop.trips) (fi : (A5).view.ty.Contents (Elt F))
    (hfi : ∀ j : Fin 128, BitVec.toNat ((A5).view.read (Elt F) fi
      (ix2 (n0 := 10) (n1 := 128) ⟨k.val % 10, Nat.mod_lt _ (by decide)⟩ j)) ≤ 999999)
    (offI : Fin 2 → Nat) (inbI : ∀ a, offI a + S1x16.size a ≤ S10x128.size a)
    (offH : Fin 2 → Nat) (inbH : ∀ a, offH a + S1x16.size a ≤ S5x128.size a)
    (c : Nat) (hI0 : offI 0 = k.val % 10) (hI1 : offI 1 = c) (hH1 : offH 1 = c) (u : Fin 1) (l : Fin 16) :
    (halfPiece offI inbI offH inbH fi).2 (ix2 u l)
      = rowOfIdx k fi ((halfPiece offI inbI offH inbH fi).1.emb (ix2 u l)) := by
  have hcol : ((Rect.unit (s := S5x128) offH S1x16.size inbH).emb (ix2 u l) 1).val = c + l.val := by
    show offH 1 + 1 * l.val = c + l.val
    omega
  have hload : idxLoad offI inbI fi (ix2 (0 : Fin 1) l)
      = (A5).view.read (Elt F) fi (ix2 (n0 := 10) (n1 := 128) ⟨k.val % 10, Nat.mod_lt _ (by decide)⟩
          ((Rect.unit (s := S5x128) offH S1x16.size inbH).emb (ix2 u l) 1)) :=
    idxLoad_apply offI inbI fi 0 l _ _ hI0.symm (by rw [hcol, hI1])
  show Cert.WLanePay.rowVec (idxLoad offI inbI fi) (ix2 u l)
    = BitVec.ofNat 32 (packRow (BitVec.toNat ((A5).view.read (Elt F) fi
        (ix2 (n0 := 10) (n1 := 128) ⟨k.val % 10, Nat.mod_lt _ (by decide)⟩
          ((Rect.unit (s := S5x128) offH S1x16.size inbH).emb (ix2 u l) 1)))))
  rw [Cert.WLanePay.rowVec_apply _ u l (by rw [hload]; exact hfi _), hload]

/-- An entry of row `k % 5` whose column lies in the 16 columns from `c` is in the rectangle stored through at `(k % 5, c)`. -/
theorem mem_halfPiece (k : Fin k1_t1_loop.trips) (offH : Fin 2 → Nat) (inbH : ∀ a, offH a + S1x16.size a ≤ S5x128.size a)
    (c : Nat) (hH0 : offH 0 = k.val % 5) (hH1 : offH 1 = c) (j : Fin 128) (hlo : c ≤ j.val) (hhi : j.val < c + 16) :
    ix2 (n0 := 5) (n1 := 128) ⟨k.val % 5, Nat.mod_lt _ (by decide)⟩ j ∈ (Rect.unit (s := S5x128) offH S1x16.size inbH).set := by
  rw [Rect.mem_set_unit]
  intro a
  match a with
  | ⟨0, _⟩ =>
    show offH 0 ≤ k.val % 5 ∧ k.val % 5 < offH 0 + 1
    omega
  | ⟨1, _⟩ =>
    show offH 1 ≤ j.val ∧ j.val < offH 1 + 16
    omega

end HinFacts

section HinMain

open Idealize.ShloMosaic.ValueIdx Cert.Spec

/-- Every one of the eight stores agrees with `rowOfIdx`. -/
theorem halfList_ok (k : Fin k1_t1_loop.trips) (h1 : k1_cond1 k = 1#1) (fi : (A5).view.ty.Contents (Elt F))
    (hfi' : ∀ j : Fin 128, BitVec.toNat ((A5).view.read (Elt F) fi
      (ix2 (n0 := 10) (n1 := 128) ⟨k.val % 10, Nat.mod_lt _ (by decide)⟩ j)) ≤ 999999) :
    ∀ p ∈ halfList k h1 fi, ∀ x : p.1.shape.Idx, p.2 x = rowOfIdx k fi (p.1.emb x) := by
  intro p hp
  unfold halfList at hp
  simp only [List.mem_cons, List.not_mem_nil, or_false] at hp
  rcases hp with rfl | rfl | rfl | rfl | rfl | rfl | rfl | rfl
  · exact forall_idx_1x16 (fun u l => halfPiece_ok k fi hfi' (k1_off19 k) (k1_off19_inb k h1) (k1_off20 k) (k1_off20_inb k h1) 112
      (congrFun (k1_off19_eq k) 0) (congrFun (k1_off19_eq k) 1) (congrFun (k1_off20_eq k) 1) u l)
  · exact forall_idx_1x16 (fun u l => halfPiece_ok k fi hfi' (k1_off17 k) (k1_off17_inb k h1) (k1_off18 k) (k1_off18_inb k h1) 96
      (congrFun (k1_off17_eq k) 0) (congrFun (k1_off17_eq k) 1) (congrFun (k1_off18_eq k) 1) u l)
  · exact forall_idx_1x16 (fun u l => halfPiece_ok k fi hfi' (k1_off15 k) (k1_off15_inb k h1) (k1_off16 k) (k1_off16_inb k h1) 80
      (congrFun (k1_off15_eq k) 0) (congrFun (k1_off15_eq k) 1) (congrFun (k1_off16_eq k) 1) u l)
  · exact forall_idx_1x16 (fun u l => halfPiece_ok k fi hfi' (k1_off13 k) (k1_off13_inb k h1) (k1_off14 k) (k1_off14_inb k h1) 64
      (congrFun (k1_off13_eq k) 0) (congrFun (k1_off13_eq k) 1) (congrFun (k1_off14_eq k) 1) u l)
  · exact forall_idx_1x16 (fun u l => halfPiece_ok k fi hfi' (k1_off11 k) (k1_off11_inb k h1) (k1_off12 k) (k1_off12_inb k h1) 48
      (congrFun (k1_off11_eq k) 0) (congrFun (k1_off11_eq k) 1) (congrFun (k1_off12_eq k) 1) u l)
  · exact forall_idx_1x16 (fun u l => halfPiece_ok k fi hfi' (k1_off9 k) (k1_off9_inb k h1) (k1_off10 k) (k1_off10_inb k h1) 32
      (congrFun (k1_off9_eq k) 0) (congrFun (k1_off9_eq k) 1) (congrFun (k1_off10_eq k) 1) u l)
  · exact forall_idx_1x16 (fun u l => halfPiece_ok k fi hfi' (k1_off7 k) (k1_off7_inb k h1) (k1_off8 k) (k1_off8_inb k h1) 16
      (congrFun (k1_off7_eq k) 0) (congrFun (k1_off7_eq k) 1) (congrFun (k1_off8_eq k) 1) u l)
  · exact forall_idx_1x16 (fun u l => halfPiece_ok k fi hfi' (k1_off5 k) (k1_off5_inb k h1) (k1_off6 k) (k1_off6_inb k h1) 0
      (congrFun (k1_off5_eq k) 0) (congrFun (k1_off5_eq k) 1) (congrFun (k1_off6_eq k) 1) u l)

/-- The eight stores cover row `k % 5` of the list buffer. -/
theorem halfList_cover (k : Fin k1_t1_loop.trips) (h1 : k1_cond1 k = 1#1) (fi : (A5).view.ty.Contents (Elt F)) (j : Fin 128) :
    ∃ p ∈ halfList k h1 fi,
      ix2 (n0 := 5) (n1 := 128) ⟨k.val % 5, Nat.mod_lt _ (by decide)⟩ j ∈ p.1.set := by
  have hj := j.isLt
  unfold halfList
  by_cases c7 : 112 ≤ j.val
  · exact ⟨halfPiece (k1_off19 k) (k1_off19_inb k h1) (k1_off20 k) (k1_off20_inb k h1) fi, List.mem_cons_self,
      mem_halfPiece k (k1_off20 k) (k1_off20_inb k h1) 112 (congrFun (k1_off20_eq k) 0) (congrFun (k1_off20_eq k) 1) j c7 (by omega)⟩
  by_cases c6 : 96 ≤ j.val
  · exact ⟨halfPiece (k1_off17 k) (k1_off17_inb k h1) (k1_off18 k) (k1_off18_inb k h1) fi, (List.mem_cons_of_mem _ List.mem_cons_self),
      mem_halfPiece k (k1_off18 k) (k1_off18_inb k h1) 96 (congrFun (k1_off18_eq k) 0) (congrFun (k1_off18_eq k) 1) j c6 (by omega)⟩
  by_cases c5 : 80 ≤ j.val
  · exact ⟨halfPiece (k1_off15 k) (k1_off15_inb k h1) (k1_off16 k) (k1_off16_inb k h1) fi, (List.mem_cons_of_mem _ (List.mem_cons_of_mem _ List.mem_cons_self)),
      mem_halfPiece k (k1_off16 k) (k1_off16_inb k h1) 80 (congrFun (k1_off16_eq k) 0) (congrFun (k1_off16_eq k) 1) j c5 (by omega)⟩
  by_cases c4 : 64 ≤ j.val
  · exact ⟨halfPiece (k1_off13 k) (k1_off13_inb k h1) (k1_off14 k) (k1_off14_inb k h1) fi, (List.mem_cons_of_mem _ (List.mem_cons_of_mem _ (List.mem_cons_of_mem _ List.mem_cons_self))),
      mem_halfPiece k (k1_off14 k) (k1_off14_inb k h1) 64 (congrFun (k1_off14_eq k) 0) (congrFun (k1_off14_eq k) 1) j c4 (by omega)⟩
  by_cases c3 : 48 ≤ j.val
  · exact ⟨halfPiece (k1_off11 k) (k1_off11_inb k h1) (k1_off12 k) (k1_off12_inb k h1) fi, (List.mem_cons_of_mem _ (List.mem_cons_of_mem _ (List.mem_cons_of_mem _ (List.mem_cons_of_mem _ List.mem_cons_self)))),
      mem_halfPiece k (k1_off12 k) (k1_off12_inb k h1) 48 (congrFun (k1_off12_eq k) 0) (congrFun (k1_off12_eq k) 1) j c3 (by omega)⟩
  by_cases c2 : 32 ≤ j.val
  · exact ⟨halfPiece (k1_off9 k) (k1_off9_inb k h1) (k1_off10 k) (k1_off10_inb k h1) fi, (List.mem_cons_of_mem _ (List.mem_cons_of_mem _ (List.mem_cons_of_mem _ (List.mem_cons_of_mem _ (List.mem_cons_of_mem _ List.mem_cons_self))))),
      mem_halfPiece k (k1_off10 k) (k1_off10_inb k h1) 32 (congrFun (k1_off10_eq k) 0) (congrFun (k1_off10_eq k) 1) j c2 (by omega)⟩
  by_cases c1 : 16 ≤ j.val
  · exact ⟨halfPiece (k1_off7 k) (k1_off7_inb k h1) (k1_off8 k) (k1_off8_inb k h1) fi, (List.mem_cons_of_mem _ (List.mem_cons_of_mem _ (List.mem_cons_of_mem _ (List.mem_cons_of_mem _ (List.mem_cons_of_mem _ (List.mem_cons_of_mem _ List.mem_cons_self)))))),
      mem_halfPiece k (k1_off8 k) (k1_off8_inb k h1) 16 (congrFun (k1_off8_eq k) 0) (congrFun (k1_off8_eq k) 1) j c1 (by omega)⟩
  exact ⟨halfPiece (k1_off5 k) (k1_off5_inb k h1) (k1_off6 k) (k1_off6_inb k h1) fi, (List.mem_cons_of_mem _ (List.mem_cons_of_mem _ (List.mem_cons_of_mem _ (List.mem_cons_of_mem _ (List.mem_cons_of_mem _ (List.mem_cons_of_mem _ (List.mem_cons_of_mem _ List.mem_cons_self))))))),
    mem_halfPiece k (k1_off6 k) (k1_off6_inb k h1) 0 (congrFun (k1_off6_eq k) 0) (congrFun (k1_off6_eq k) 1) j (by omega) (by omega)⟩

/-- After the eight stores, entry `x` of the list slot is the packed row of entry `x` of the index slot. -/
theorem half_word (d : Dev nD) (L : grid1.Coords) (k : Fin k1_t1_loop.trips) (h1 : k1_cond1 k = 1#1)
    (fi : Buf (Elt F) ((idxP2 k h1).view.loc (V d (cV L) (jV L))))
    (fh : Buf (Elt F) ((halfP22 k h1).view.loc (V d (cV L) (jV L))))
    (hfi : ∀ x : S128.Idx, ((idxP2 k h1).view.read (Elt F) fi x).toNat ≤ 999999) (x : S128.Idx) :
    (halfP22 k h1).view.read (Elt F) (halfAfter d L k h1 fi fh) x
      = BitVec.ofNat 32 (packRow ((idxP2 k h1).view.read (Elt F) fi x).toNat) := by
  have hfi' : ∀ j : Fin 128, BitVec.toNat ((A5).view.read (Elt F) fi
      (ix2 (n0 := 10) (n1 := 128) ⟨k.val % 10, Nat.mod_lt _ (by decide)⟩ j)) ≤ 999999 := fun j => by
    have := hfi (ix1 j)
    rwa [idx_read] at this
  rw [half_read, idx_read]
  exact View.read_writes_apply_of_pieces (A6).view fh (rowOfIdx k fi) (halfList k h1 fi) (halfList_ok k h1 fi hfi') _
    (halfList_cover k h1 fi (x 0))

/-- So every entry of the list slot is a row of the packed table. -/
theorem hin_of_idx (d : Dev nD) (L : grid1.Coords) (k : Fin k1_t1_loop.trips) (h1 : k1_cond1 k = 1#1)
    (fi : Buf (Elt F) ((idxP2 k h1).view.loc (V d (cV L) (jV L))))
    (fh : Buf (Elt F) ((halfP22 k h1).view.loc (V d (cV L) (jV L))))
    (hfi : ∀ x : S128.Idx, ((idxP2 k h1).view.read (Elt F) fi x).toNat ≤ 999999) :
    ∀ x : S128.Idx, ((halfP22 k h1).view.read (Elt F) (halfAfter d L k h1 fi fh) x).toNat < 507904 := by
  intro x
  have hx := hfi x
  rw [half_word d L k h1 fi fh hfi x, BitVec.toNat_ofNat, Nat.mod_eq_of_lt (Cert.BitLayout.packRow_lt_word hx)]
  exact packRow_lt (by omega)

end HinMain

end Cert.Proof.WBody
end
-- ==== Proof.WChkFacts.lean ====
/-
  The 128 window checks of the select stage hold for every vector of index words.

  The stage handles 128 index words, 16 at a time. For each group of 16 it computes the offset vector
  `(((x &&& 32767) >>> 14) &&& 1) <<< 6` once; for the word in lane `k` it reads lane `k` of that vector (a one-lane
  slice, read at its one position) and copies four 16-lane windows of row `16 q + k` of the gathered buffer, at lane
  offsets `off + 16 r`, `r = 0, 1, 2, 3`. Check `N` says the four windows of row `N - 1` lie inside the `[128, 128]`
  buffer. Every lane of an offset vector is 0 or 64 whatever the index words are (`ChkCore.isOff_offLane`), and then
  the windows are inside (`ChkCore.chk_core`): so every check holds with no condition on the words. Below, for each
  check: it holds of any word that is 0 or 64; the word it is about is 0 or 64; so it holds of that word.
-/
import proofs.«206325_g16862041604593_cont_week2b_1534_42_alg».proof.Proof.Gen.Kernel.Skeleton
import proofs.«206325_g16862041604593_cont_week2b_1534_42_alg».proof.Proof.ChkCore

noncomputable section

namespace Cert.WChkFacts

open Idealize.ShloMosaic Cert.Kernel Cert.Kernel.Gen Cert.ChkCore

variable {F : FTy → Type} [FloatOps F]

/-! ## Each check holds of a word that is 0 or 64 -/

theorem chk1_of_isOff (t : Fin k1_t1_loop.trips) (w : BitVec 32) (hw : IsOff w) : k1_chk1 t w :=
  chk_core 0 (by decide) w hw _
theorem chk2_of_isOff (t : Fin k1_t1_loop.trips) (w : BitVec 32) (hw : IsOff w) : k1_chk2 t w :=
  chk_core 1 (by decide) w hw _
theorem chk3_of_isOff (t : Fin k1_t1_loop.trips) (w : BitVec 32) (hw : IsOff w) : k1_chk3 t w :=
  chk_core 2 (by decide) w hw _
theorem chk4_of_isOff (t : Fin k1_t1_loop.trips) (w : BitVec 32) (hw : IsOff w) : k1_chk4 t w :=
  chk_core 3 (by decide) w hw _
theorem chk5_of_isOff (t : Fin k1_t1_loop.trips) (w : BitVec 32) (hw : IsOff w) : k1_chk5 t w :=
  chk_core 4 (by decide) w hw _
theorem chk6_of_isOff (t : Fin k1_t1_loop.trips) (w : BitVec 32) (hw : IsOff w) : k1_chk6 t w :=
  chk_core 5 (by decide) w hw _
theorem chk7_of_isOff (t : Fin k1_t1_loop.trips) (w : BitVec 32) (hw : IsOff w) : k1_chk7 t w :=
  chk_core 6 (by decide) w hw _
theorem chk8_of_isOff (t : Fin k1_t1_loop.trips) (w : BitVec 32) (hw : IsOff w) : k1_chk8 t w :=
  chk_core 7 (by decide) w hw _
theorem chk9_of_isOff (t : Fin k1_t1_loop.trips) (w : BitVec 32) (hw : IsOff w) : k1_chk9 t w :=
  chk_core 8 (by decide) w hw _
theorem chk10_of_isOff (t : Fin k1_t1_loop.trips) (w : BitVec 32) (hw : IsOff w) : k1_chk10 t w :=
  chk_core 9 (by decide) w hw _
theorem chk11_of_isOff (t : Fin k1_t1_loop.trips) (w : BitVec 32) (hw : IsOff w) : k1_chk11 t w :=
  chk_core 10 (by decide) w hw _
theorem chk12_of_isOff (t : Fin k1_t1_loop.trips) (w : BitVec 32) (hw : IsOff w) : k1_chk12 t w :=
  chk_core 11 (by decide) w hw _
theorem chk13_of_isOff (t : Fin k1_t1_loop.trips) (w : BitVec 32) (hw : IsOff w) : k1_chk13 t w :=
  chk_core 12 (by decide) w hw _
theorem chk14_of_isOff (t : Fin k1_t1_loop.trips) (w : BitVec 32) (hw : IsOff w) : k1_chk14 t w :=
  chk_core 13 (by decide) w hw _
theorem chk15_of_isOff (t : Fin k1_t1_loop.trips) (w : BitVec 32) (hw : IsOff w) : k1_chk15 t w :=
  chk_core 14 (by decide) w hw _
theorem chk16_of_isOff (t : Fin k1_t1_loop.trips) (w : BitVec 32) (hw : IsOff w) : k1_chk16 t w :=
  chk_core 15 (by decide) w hw _
theorem chk17_of_isOff (t : Fin k1_t1_loop.trips) (w : BitVec 32) (hw : IsOff w) : k1_chk17 t w :=
  chk_core 16 (by decide) w hw _
theorem chk18_of_isOff (t : Fin k1_t1_loop.trips) (w : BitVec 32) (hw : IsOff w) : k1_chk18 t w :=
  chk_core 17 (by decide) w hw _
theorem chk19_of_isOff (t : Fin k1_t1_loop.trips) (w : BitVec 32) (hw : IsOff w) : k1_chk19 t w :=
  chk_core 18 (by decide) w hw _
theorem chk20_of_isOff (t : Fin k1_t1_loop.trips) (w : BitVec 32) (hw : IsOff w) : k1_chk20 t w :=
  chk_core 19 (by decide) w hw _
theorem chk21_of_isOff (t : Fin k1_t1_loop.trips) (w : BitVec 32) (hw : IsOff w) : k1_chk21 t w :=
  chk_core 20 (by decide) w hw _
theorem chk22_of_isOff (t : Fin k1_t1_loop.trips) (w : BitVec 32) (hw : IsOff w) : k1_chk22 t w :=
  chk_core 21 (by decide) w hw _
theorem chk23_of_isOff (t : Fin k1_t1_loop.trips) (w : BitVec 32) (hw : IsOff w) : k1_chk23 t w :=
  chk_core 22 (by decide) w hw _
theorem chk24_of_isOff (t : Fin k1_t1_loop.trips) (w : BitVec 32) (hw : IsOff w) : k1_chk24 t w :=
  chk_core 23 (by decide) w hw _
theorem chk25_of_isOff (t : Fin k1_t1_loop.trips) (w : BitVec 32) (hw : IsOff w) : k1_chk25 t w :=
  chk_core 24 (by decide) w hw _
theorem chk26_of_isOff (t : Fin k1_t1_loop.trips) (w : BitVec 32) (hw : IsOff w) : k1_chk26 t w :=
  chk_core 25 (by decide) w hw _
theorem chk27_of_isOff (t : Fin k1_t1_loop.trips) (w : BitVec 32) (hw : IsOff w) : k1_chk27 t w :=
  chk_core 26 (by decide) w hw _
theorem chk28_of_isOff (t : Fin k1_t1_loop.trips) (w : BitVec 32) (hw : IsOff w) : k1_chk28 t w :=
  chk_core 27 (by decide) w hw _
theorem chk29_of_isOff (t : Fin k1_t1_loop.trips) (w : BitVec 32) (hw : IsOff w) : k1_chk29 t w :=
  chk_core 28 (by decide) w hw _
theorem chk30_of_isOff (t : Fin k1_t1_loop.trips) (w : BitVec 32) (hw : IsOff w) : k1_chk30 t w :=
  chk_core 29 (by decide) w hw _
theorem chk31_of_isOff (t : Fin k1_t1_loop.trips) (w : BitVec 32) (hw : IsOff w) : k1_chk31 t w :=
  chk_core 30 (by decide) w hw _
theorem chk32_of_isOff (t : Fin k1_t1_loop.trips) (w : BitVec 32) (hw : IsOff w) : k1_chk32 t w :=
  chk_core 31 (by decide) w hw _
theorem chk33_of_isOff (t : Fin k1_t1_loop.trips) (w : BitVec 32) (hw : IsOff w) : k1_chk33 t w :=
  chk_core 32 (by decide) w hw _
theorem chk34_of_isOff (t : Fin k1_t1_loop.trips) (w : BitVec 32) (hw : IsOff w) : k1_chk34 t w :=
  chk_core 33 (by decide) w hw _
theorem chk35_of_isOff (t : Fin k1_t1_loop.trips) (w : BitVec 32) (hw : IsOff w) : k1_chk35 t w :=
  chk_core 34 (by decide) w hw _
theorem chk36_of_isOff (t : Fin k1_t1_loop.trips) (w : BitVec 32) (hw : IsOff w) : k1_chk36 t w :=
  chk_core 35 (by decide) w hw _
theorem chk37_of_isOff (t : Fin k1_t1_loop.trips) (w : BitVec 32) (hw : IsOff w) : k1_chk37 t w :=
  chk_core 36 (by decide) w hw _
theorem chk38_of_isOff (t : Fin k1_t1_loop.trips) (w : BitVec 32) (hw : IsOff w) : k1_chk38 t w :=
  chk_core 37 (by decide) w hw _
theorem chk39_of_isOff (t : Fin k1_t1_loop.trips) (w : BitVec 32) (hw : IsOff w) : k1_chk39 t w :=
  chk_core 38 (by decide) w hw _
theorem chk40_of_isOff (t : Fin k1_t1_loop.trips) (w : BitVec 32) (hw : IsOff w) : k1_chk40 t w :=
  chk_core 39 (by decide) w hw _
theorem chk41_of_isOff (t : Fin k1_t1_loop.trips) (w : BitVec 32) (hw : IsOff w) : k1_chk41 t w :=
  chk_core 40 (by decide) w hw _
theorem chk42_of_isOff (t : Fin k1_t1_loop.trips) (w : BitVec 32) (hw : IsOff w) : k1_chk42 t w :=
  chk_core 41 (by decide) w hw _
theorem chk43_of_isOff (t : Fin k1_t1_loop.trips) (w : BitVec 32) (hw : IsOff w) : k1_chk43 t w :=
  chk_core 42 (by decide) w hw _
theorem chk44_of_isOff (t : Fin k1_t1_loop.trips) (w : BitVec 32) (hw : IsOff w) : k1_chk44 t w :=
  chk_core 43 (by decide) w hw _
theorem chk45_of_isOff (t : Fin k1_t1_loop.trips) (w : BitVec 32) (hw : IsOff w) : k1_chk45 t w :=
  chk_core 44 (by decide) w hw _
theorem chk46_of_isOff (t : Fin k1_t1_loop.trips) (w : BitVec 32) (hw : IsOff w) : k1_chk46 t w :=
  chk_core 45 (by decide) w hw _
theorem chk47_of_isOff (t : Fin k1_t1_loop.trips) (w : BitVec 32) (hw : IsOff w) : k1_chk47 t w :=
  chk_core 46 (by decide) w hw _
theorem chk48_of_isOff (t : Fin k1_t1_loop.trips) (w : BitVec 32) (hw : IsOff w) : k1_chk48 t w :=
  chk_core 47 (by decide) w hw _
theorem chk49_of_isOff (t : Fin k1_t1_loop.trips) (w : BitVec 32) (hw : IsOff w) : k1_chk49 t w :=
  chk_core 48 (by decide) w hw _
theorem chk50_of_isOff (t : Fin k1_t1_loop.trips) (w : BitVec 32) (hw : IsOff w) : k1_chk50 t w :=
  chk_core 49 (by decide) w hw _
theorem chk51_of_isOff (t : Fin k1_t1_loop.trips) (w : BitVec 32) (hw : IsOff w) : k1_chk51 t w :=
  chk_core 50 (by decide) w hw _
theorem chk52_of_isOff (t : Fin k1_t1_loop.trips) (w : BitVec 32) (hw : IsOff w) : k1_chk52 t w :=
  chk_core 51 (by decide) w hw _
theorem chk53_of_isOff (t : Fin k1_t1_loop.trips) (w : BitVec 32) (hw : IsOff w) : k1_chk53 t w :=
  chk_core 52 (by decide) w hw _
theorem chk54_of_isOff (t : Fin k1_t1_loop.trips) (w : BitVec 32) (hw : IsOff w) : k1_chk54 t w :=
  chk_core 53 (by decide) w hw _
theorem chk55_of_isOff (t : Fin k1_t1_loop.trips) (w : BitVec 32) (hw : IsOff w) : k1_chk55 t w :=
  chk_core 54 (by decide) w hw _
theorem chk56_of_isOff (t : Fin k1_t1_loop.trips) (w : BitVec 32) (hw : IsOff w) : k1_chk56 t w :=
  chk_core 55 (by decide) w hw _
theorem chk57_of_isOff (t : Fin k1_t1_loop.trips) (w : BitVec 32) (hw : IsOff w) : k1_chk57 t w :=
  chk_core 56 (by decide) w hw _
theorem chk58_of_isOff (t : Fin k1_t1_loop.trips) (w : BitVec 32) (hw : IsOff w) : k1_chk58 t w :=
  chk_core 57 (by decide) w hw _
theorem chk59_of_isOff (t : Fin k1_t1_loop.trips) (w : BitVec 32) (hw : IsOff w) : k1_chk59 t w :=
  chk_core 58 (by decide) w hw _
theorem chk60_of_isOff (t : Fin k1_t1_loop.trips) (w : BitVec 32) (hw : IsOff w) : k1_chk60 t w :=
  chk_core 59 (by decide) w hw _
theorem chk61_of_isOff (t : Fin k1_t1_loop.trips) (w : BitVec 32) (hw : IsOff w) : k1_chk61 t w :=
  chk_core 60 (by decide) w hw _
theorem chk62_of_isOff (t : Fin k1_t1_loop.trips) (w : BitVec 32) (hw : IsOff w) : k1_chk62 t w :=
  chk_core 61 (by decide) w hw _
theorem chk63_of_isOff (t : Fin k1_t1_loop.trips) (w : BitVec 32) (hw : IsOff w) : k1_chk63 t w :=
  chk_core 62 (by decide) w hw _
theorem chk64_of_isOff (t : Fin k1_t1_loop.trips) (w : BitVec 32) (hw : IsOff w) : k1_chk64 t w :=
  chk_core 63 (by decide) w hw _
theorem chk65_of_isOff (t : Fin k1_t1_loop.trips) (w : BitVec 32) (hw : IsOff w) : k1_chk65 t w :=
  chk_core 64 (by decide) w hw _
theorem chk66_of_isOff (t : Fin k1_t1_loop.trips) (w : BitVec 32) (hw : IsOff w) : k1_chk66 t w :=
  chk_core 65 (by decide) w hw _
theorem chk67_of_isOff (t : Fin k1_t1_loop.trips) (w : BitVec 32) (hw : IsOff w) : k1_chk67 t w :=
  chk_core 66 (by decide) w hw _
theorem chk68_of_isOff (t : Fin k1_t1_loop.trips) (w : BitVec 32) (hw : IsOff w) : k1_chk68 t w :=
  chk_core 67 (by decide) w hw _
theorem chk69_of_isOff (t : Fin k1_t1_loop.trips) (w : BitVec 32) (hw : IsOff w) : k1_chk69 t w :=
  chk_core 68 (by decide) w hw _
theorem chk70_of_isOff (t : Fin k1_t1_loop.trips) (w : BitVec 32) (hw : IsOff w) : k1_chk70 t w :=
  chk_core 69 (by decide) w hw _
theorem chk71_of_isOff (t : Fin k1_t1_loop.trips) (w : BitVec 32) (hw : IsOff w) : k1_chk71 t w :=
  chk_core 70 (by decide) w hw _
theorem chk72_of_isOff (t : Fin k1_t1_loop.trips) (w : BitVec 32) (hw : IsOff w) : k1_chk72 t w :=
  chk_core 71 (by decide) w hw _
theorem chk73_of_isOff (t : Fin k1_t1_loop.trips) (w : BitVec 32) (hw : IsOff w) : k1_chk73 t w :=
  chk_core 72 (by decide) w hw _
theorem chk74_of_isOff (t : Fin k1_t1_loop.trips) (w : BitVec 32) (hw : IsOff w) : k1_chk74 t w :=
  chk_core 73 (by decide) w hw _
theorem chk75_of_isOff (t : Fin k1_t1_loop.trips) (w : BitVec 32) (hw : IsOff w) : k1_chk75 t w :=
  chk_core 74 (by decide) w hw _
theorem chk76_of_isOff (t : Fin k1_t1_loop.trips) (w : BitVec 32) (hw : IsOff w) : k1_chk76 t w :=
  chk_core 75 (by decide) w hw _
theorem chk77_of_isOff (t : Fin k1_t1_loop.trips) (w : BitVec 32) (hw : IsOff w) : k1_chk77 t w :=
  chk_core 76 (by decide) w hw _
theorem chk78_of_isOff (t : Fin k1_t1_loop.trips) (w : BitVec 32) (hw : IsOff w) : k1_chk78 t w :=
  chk_core 77 (by decide) w hw _
theorem chk79_of_isOff (t : Fin k1_t1_loop.trips) (w : BitVec 32) (hw : IsOff w) : k1_chk79 t w :=
  chk_core 78 (by decide) w hw _
theorem chk80_of_isOff (t : Fin k1_t1_loop.trips) (w : BitVec 32) (hw : IsOff w) : k1_chk80 t w :=
  chk_core 79 (by decide) w hw _
theorem chk81_of_isOff (t : Fin k1_t1_loop.trips) (w : BitVec 32) (hw : IsOff w) : k1_chk81 t w :=
  chk_core 80 (by decide) w hw _
theorem chk82_of_isOff (t : Fin k1_t1_loop.trips) (w : BitVec 32) (hw : IsOff w) : k1_chk82 t w :=
  chk_core 81 (by decide) w hw _
theorem chk83_of_isOff (t : Fin k1_t1_loop.trips) (w : BitVec 32) (hw : IsOff w) : k1_chk83 t w :=
  chk_core 82 (by decide) w hw _
theorem chk84_of_isOff (t : Fin k1_t1_loop.trips) (w : BitVec 32) (hw : IsOff w) : k1_chk84 t w :=
  chk_core 83 (by decide) w hw _
theorem chk85_of_isOff (t : Fin k1_t1_loop.trips) (w : BitVec 32) (hw : IsOff w) : k1_chk85 t w :=
  chk_core 84 (by decide) w hw _
theorem chk86_of_isOff (t : Fin k1_t1_loop.trips) (w : BitVec 32) (hw : IsOff w) : k1_chk86 t w :=
  chk_core 85 (by decide) w hw _
theorem chk87_of_isOff (t : Fin k1_t1_loop.trips) (w : BitVec 32) (hw : IsOff w) : k1_chk87 t w :=
  chk_core 86 (by decide) w hw _
theorem chk88_of_isOff (t : Fin k1_t1_loop.trips) (w : BitVec 32) (hw : IsOff w) : k1_chk88 t w :=
  chk_core 87 (by decide) w hw _
theorem chk89_of_isOff (t : Fin k1_t1_loop.trips) (w : BitVec 32) (hw : IsOff w) : k1_chk89 t w :=
  chk_core 88 (by decide) w hw _
theorem chk90_of_isOff (t : Fin k1_t1_loop.trips) (w : BitVec 32) (hw : IsOff w) : k1_chk90 t w :=
  chk_core 89 (by decide) w hw _
theorem chk91_of_isOff (t : Fin k1_t1_loop.trips) (w : BitVec 32) (hw : IsOff w) : k1_chk91 t w :=
  chk_core 90 (by decide) w hw _
theorem chk92_of_isOff (t : Fin k1_t1_loop.trips) (w : BitVec 32) (hw : IsOff w) : k1_chk92 t w :=
  chk_core 91 (by decide) w hw _
theorem chk93_of_isOff (t : Fin k1_t1_loop.trips) (w : BitVec 32) (hw : IsOff w) : k1_chk93 t w :=
  chk_core 92 (by decide) w hw _
theorem chk94_of_isOff (t : Fin k1_t1_loop.trips) (w : BitVec 32) (hw : IsOff w) : k1_chk94 t w :=
  chk_core 93 (by decide) w hw _
theorem chk95_of_isOff (t : Fin k1_t1_loop.trips) (w : BitVec 32) (hw : IsOff w) : k1_chk95 t w :=
  chk_core 94 (by decide) w hw _
theorem chk96_of_isOff (t : Fin k1_t1_loop.trips) (w : BitVec 32) (hw : IsOff w) : k1_chk96 t w :=
  chk_core 95 (by decide) w hw _
theorem chk97_of_isOff (t : Fin k1_t1_loop.trips) (w : BitVec 32) (hw : IsOff w) : k1_chk97 t w :=
  chk_core 96 (by decide) w hw _
theorem chk98_of_isOff (t : Fin k1_t1_loop.trips) (w : BitVec 32) (hw : IsOff w) : k1_chk98 t w :=
  chk_core 97 (by decide) w hw _
theorem chk99_of_isOff (t : Fin k1_t1_loop.trips) (w : BitVec 32) (hw : IsOff w) : k1_chk99 t w :=
  chk_core 98 (by decide) w hw _
theorem chk100_of_isOff (t : Fin k1_t1_loop.trips) (w : BitVec 32) (hw : IsOff w) : k1_chk100 t w :=
  chk_core 99 (by decide) w hw _
theorem chk101_of_isOff (t : Fin k1_t1_loop.trips) (w : BitVec 32) (hw : IsOff w) : k1_chk101 t w :=
  chk_core 100 (by decide) w hw _
theorem chk102_of_isOff (t : Fin k1_t1_loop.trips) (w : BitVec 32) (hw : IsOff w) : k1_chk102 t w :=
  chk_core 101 (by decide) w hw _
theorem chk103_of_isOff (t : Fin k1_t1_loop.trips) (w : BitVec 32) (hw : IsOff w) : k1_chk103 t w :=
  chk_core 102 (by decide) w hw _
theorem chk104_of_isOff (t : Fin k1_t1_loop.trips) (w : BitVec 32) (hw : IsOff w) : k1_chk104 t w :=
  chk_core 103 (by decide) w hw _
theorem chk105_of_isOff (t : Fin k1_t1_loop.trips) (w : BitVec 32) (hw : IsOff w) : k1_chk105 t w :=
  chk_core 104 (by decide) w hw _
theorem chk106_of_isOff (t : Fin k1_t1_loop.trips) (w : BitVec 32) (hw : IsOff w) : k1_chk106 t w :=
  chk_core 105 (by decide) w hw _
theorem chk107_of_isOff (t : Fin k1_t1_loop.trips) (w : BitVec 32) (hw : IsOff w) : k1_chk107 t w :=
  chk_core 106 (by decide) w hw _
theorem chk108_of_isOff (t : Fin k1_t1_loop.trips) (w : BitVec 32) (hw : IsOff w) : k1_chk108 t w :=
  chk_core 107 (by decide) w hw _
theorem chk109_of_isOff (t : Fin k1_t1_loop.trips) (w : BitVec 32) (hw : IsOff w) : k1_chk109 t w :=
  chk_core 108 (by decide) w hw _
theorem chk110_of_isOff (t : Fin k1_t1_loop.trips) (w : BitVec 32) (hw : IsOff w) : k1_chk110 t w :=
  chk_core 109 (by decide) w hw _
theorem chk111_of_isOff (t : Fin k1_t1_loop.trips) (w : BitVec 32) (hw : IsOff w) : k1_chk111 t w :=
  chk_core 110 (by decide) w hw _
theorem chk112_of_isOff (t : Fin k1_t1_loop.trips) (w : BitVec 32) (hw : IsOff w) : k1_chk112 t w :=
  chk_core 111 (by decide) w hw _
theorem chk113_of_isOff (t : Fin k1_t1_loop.trips) (w : BitVec 32) (hw : IsOff w) : k1_chk113 t w :=
  chk_core 112 (by decide) w hw _
theorem chk114_of_isOff (t : Fin k1_t1_loop.trips) (w : BitVec 32) (hw : IsOff w) : k1_chk114 t w :=
  chk_core 113 (by decide) w hw _
theorem chk115_of_isOff (t : Fin k1_t1_loop.trips) (w : BitVec 32) (hw : IsOff w) : k1_chk115 t w :=
  chk_core 114 (by decide) w hw _
theorem chk116_of_isOff (t : Fin k1_t1_loop.trips) (w : BitVec 32) (hw : IsOff w) : k1_chk116 t w :=
  chk_core 115 (by decide) w hw _
theorem chk117_of_isOff (t : Fin k1_t1_loop.trips) (w : BitVec 32) (hw : IsOff w) : k1_chk117 t w :=
  chk_core 116 (by decide) w hw _
theorem chk118_of_isOff (t : Fin k1_t1_loop.trips) (w : BitVec 32) (hw : IsOff w) : k1_chk118 t w :=
  chk_core 117 (by decide) w hw _
theorem chk119_of_isOff (t : Fin k1_t1_loop.trips) (w : BitVec 32) (hw : IsOff w) : k1_chk119 t w :=
  chk_core 118 (by decide) w hw _
theorem chk120_of_isOff (t : Fin k1_t1_loop.trips) (w : BitVec 32) (hw : IsOff w) : k1_chk120 t w :=
  chk_core 119 (by decide) w hw _
theorem chk121_of_isOff (t : Fin k1_t1_loop.trips) (w : BitVec 32) (hw : IsOff w) : k1_chk121 t w :=
  chk_core 120 (by decide) w hw _
theorem chk122_of_isOff (t : Fin k1_t1_loop.trips) (w : BitVec 32) (hw : IsOff w) : k1_chk122 t w :=
  chk_core 121 (by decide) w hw _
theorem chk123_of_isOff (t : Fin k1_t1_loop.trips) (w : BitVec 32) (hw : IsOff w) : k1_chk123 t w :=
  chk_core 122 (by decide) w hw _
theorem chk124_of_isOff (t : Fin k1_t1_loop.trips) (w : BitVec 32) (hw : IsOff w) : k1_chk124 t w :=
  chk_core 123 (by decide) w hw _
theorem chk125_of_isOff (t : Fin k1_t1_loop.trips) (w : BitVec 32) (hw : IsOff w) : k1_chk125 t w :=
  chk_core 124 (by decide) w hw _
theorem chk126_of_isOff (t : Fin k1_t1_loop.trips) (w : BitVec 32) (hw : IsOff w) : k1_chk126 t w :=
  chk_core 125 (by decide) w hw _
theorem chk127_of_isOff (t : Fin k1_t1_loop.trips) (w : BitVec 32) (hw : IsOff w) : k1_chk127 t w :=
  chk_core 126 (by decide) w hw _
theorem chk128_of_isOff (t : Fin k1_t1_loop.trips) (w : BitVec 32) (hw : IsOff w) : k1_chk128 t w :=
  chk_core 127 (by decide) w hw _

/-! ## The word each check is about is 0 or 64, so the check holds of it -/

/-! ### Index words 0 to 15 -/

/-- Every lane of this group's offset vector is 0 or 64. -/
theorem isOff_pay20 (v418 : Vec F S1x16 .i32) (l : S16.Idx) : IsOff (k1_pay20 v418 l) := isOff_offLane _ l

theorem isOff_w1 (v418 : Vec F S1x16 .i32) : IsOff (extractAt ![0] (k1_pay21 v418) inpos_S1_p0) :=
  isOff_extract (k1_pay20 v418) (isOff_pay20 v418) ![0] slices_S16_o0_S1 ![0] inpos_S1_p0

theorem chk1 (t : Fin k1_t1_loop.trips) {v418 : Vec F S1x16 .i32} :
    k1_chk1 t (extractAt ![0] (k1_pay21 v418) inpos_S1_p0) :=
  chk1_of_isOff t _ (isOff_w1 v418)

theorem isOff_w2_of (X : IVec S16 32) (hX : ∀ l, IsOff (X l)) : IsOff (extractAt ![0] (k1_pay27 X) inpos_S1_p0) :=
  isOff_extract X hX ![1] slices_S16_o1_S1 ![0] inpos_S1_p0
theorem chk2_of (t : Fin k1_t1_loop.trips) (X : IVec S16 32) (hX : ∀ l, IsOff (X l)) :
    k1_chk2 t (extractAt ![0] (k1_pay27 X) inpos_S1_p0) :=
  chk2_of_isOff t _ (isOff_w2_of X hX)
theorem chk2 (t : Fin k1_t1_loop.trips) {v418 : Vec F S1x16 .i32} :
    k1_chk2 t (extractAt ![0] (k1_pay27 (k1_pay20 v418)) inpos_S1_p0) :=
  chk2_of t _ (isOff_pay20 v418)

theorem isOff_w3_of (X : IVec S16 32) (hX : ∀ l, IsOff (X l)) : IsOff (extractAt ![0] (k1_pay33 X) inpos_S1_p0) :=
  isOff_extract X hX ![2] slices_S16_o2_S1 ![0] inpos_S1_p0
theorem chk3_of (t : Fin k1_t1_loop.trips) (X : IVec S16 32) (hX : ∀ l, IsOff (X l)) :
    k1_chk3 t (extractAt ![0] (k1_pay33 X) inpos_S1_p0) :=
  chk3_of_isOff t _ (isOff_w3_of X hX)
theorem chk3 (t : Fin k1_t1_loop.trips) {v418 : Vec F S1x16 .i32} :
    k1_chk3 t (extractAt ![0] (k1_pay33 (k1_pay20 v418)) inpos_S1_p0) :=
  chk3_of t _ (isOff_pay20 v418)

theorem isOff_w4_of (X : IVec S16 32) (hX : ∀ l, IsOff (X l)) : IsOff (extractAt ![0] (k1_pay38 X) inpos_S1_p0) :=
  isOff_extract X hX ![3] slices_S16_o3_S1 ![0] inpos_S1_p0
theorem chk4_of (t : Fin k1_t1_loop.trips) (X : IVec S16 32) (hX : ∀ l, IsOff (X l)) :
    k1_chk4 t (extractAt ![0] (k1_pay38 X) inpos_S1_p0) :=
  chk4_of_isOff t _ (isOff_w4_of X hX)
theorem chk4 (t : Fin k1_t1_loop.trips) {v418 : Vec F S1x16 .i32} :
    k1_chk4 t (extractAt ![0] (k1_pay38 (k1_pay20 v418)) inpos_S1_p0) :=
  chk4_of t _ (isOff_pay20 v418)

theorem isOff_w5_of (X : IVec S16 32) (hX : ∀ l, IsOff (X l)) : IsOff (extractAt ![0] (k1_pay44 X) inpos_S1_p0) :=
  isOff_extract X hX ![4] slices_S16_o4_S1 ![0] inpos_S1_p0
theorem chk5_of (t : Fin k1_t1_loop.trips) (X : IVec S16 32) (hX : ∀ l, IsOff (X l)) :
    k1_chk5 t (extractAt ![0] (k1_pay44 X) inpos_S1_p0) :=
  chk5_of_isOff t _ (isOff_w5_of X hX)
theorem chk5 (t : Fin k1_t1_loop.trips) {v418 : Vec F S1x16 .i32} :
    k1_chk5 t (extractAt ![0] (k1_pay44 (k1_pay20 v418)) inpos_S1_p0) :=
  chk5_of t _ (isOff_pay20 v418)

theorem isOff_w6_of (X : IVec S16 32) (hX : ∀ l, IsOff (X l)) : IsOff (extractAt ![0] (k1_pay49 X) inpos_S1_p0) :=
  isOff_extract X hX ![5] slices_S16_o5_S1 ![0] inpos_S1_p0
theorem chk6_of (t : Fin k1_t1_loop.trips) (X : IVec S16 32) (hX : ∀ l, IsOff (X l)) :
    k1_chk6 t (extractAt ![0] (k1_pay49 X) inpos_S1_p0) :=
  chk6_of_isOff t _ (isOff_w6_of X hX)
theorem chk6 (t : Fin k1_t1_loop.trips) {v418 : Vec F S1x16 .i32} :
    k1_chk6 t (extractAt ![0] (k1_pay49 (k1_pay20 v418)) inpos_S1_p0) :=
  chk6_of t _ (isOff_pay20 v418)

theorem isOff_w7_of (X : IVec S16 32) (hX : ∀ l, IsOff (X l)) : IsOff (extractAt ![0] (k1_pay55 X) inpos_S1_p0) :=
  isOff_extract X hX ![6] slices_S16_o6_S1 ![0] inpos_S1_p0
theorem chk7_of (t : Fin k1_t1_loop.trips) (X : IVec S16 32) (hX : ∀ l, IsOff (X l)) :
    k1_chk7 t (extractAt ![0] (k1_pay55 X) inpos_S1_p0) :=
  chk7_of_isOff t _ (isOff_w7_of X hX)
theorem chk7 (t : Fin k1_t1_loop.trips) {v418 : Vec F S1x16 .i32} :
    k1_chk7 t (extractAt ![0] (k1_pay55 (k1_pay20 v418)) inpos_S1_p0) :=
  chk7_of t _ (isOff_pay20 v418)

theorem isOff_w8_of (X : IVec S16 32) (hX : ∀ l, IsOff (X l)) : IsOff (extractAt ![0] (k1_pay60 X) inpos_S1_p0) :=
  isOff_extract X hX ![7] slices_S16_o7_S1 ![0] inpos_S1_p0
theorem chk8_of (t : Fin k1_t1_loop.trips) (X : IVec S16 32) (hX : ∀ l, IsOff (X l)) :
    k1_chk8 t (extractAt ![0] (k1_pay60 X) inpos_S1_p0) :=
  chk8_of_isOff t _ (isOff_w8_of X hX)
theorem chk8 (t : Fin k1_t1_loop.trips) {v418 : Vec F S1x16 .i32} :
    k1_chk8 t (extractAt ![0] (k1_pay60 (k1_pay20 v418)) inpos_S1_p0) :=
  chk8_of t _ (isOff_pay20 v418)

theorem isOff_w9_of (X : IVec S16 32) (hX : ∀ l, IsOff (X l)) : IsOff (extractAt ![0] (k1_pay66 X) inpos_S1_p0) :=
  isOff_extract X hX ![8] slices_S16_o8_S1 ![0] inpos_S1_p0
theorem chk9_of (t : Fin k1_t1_loop.trips) (X : IVec S16 32) (hX : ∀ l, IsOff (X l)) :
    k1_chk9 t (extractAt ![0] (k1_pay66 X) inpos_S1_p0) :=
  chk9_of_isOff t _ (isOff_w9_of X hX)
theorem chk9 (t : Fin k1_t1_loop.trips) {v418 : Vec F S1x16 .i32} :
    k1_chk9 t (extractAt ![0] (k1_pay66 (k1_pay20 v418)) inpos_S1_p0) :=
  chk9_of t _ (isOff_pay20 v418)

theorem isOff_w10_of (X : IVec S16 32) (hX : ∀ l, IsOff (X l)) : IsOff (extractAt ![0] (k1_pay72 X) inpos_S1_p0) :=
  isOff_extract X hX ![9] slices_S16_o9_S1 ![0] inpos_S1_p0
theorem chk10_of (t : Fin k1_t1_loop.trips) (X : IVec S16 32) (hX : ∀ l, IsOff (X l)) :
    k1_chk10 t (extractAt ![0] (k1_pay72 X) inpos_S1_p0) :=
  chk10_of_isOff t _ (isOff_w10_of X hX)
theorem chk10 (t : Fin k1_t1_loop.trips) {v418 : Vec F S1x16 .i32} :
    k1_chk10 t (extractAt ![0] (k1_pay72 (k1_pay20 v418)) inpos_S1_p0) :=
  chk10_of t _ (isOff_pay20 v418)

theorem isOff_w11_of (X : IVec S16 32) (hX : ∀ l, IsOff (X l)) : IsOff (extractAt ![0] (k1_pay78 X) inpos_S1_p0) :=
  isOff_extract X hX ![10] slices_S16_o10_S1 ![0] inpos_S1_p0
theorem chk11_of (t : Fin k1_t1_loop.trips) (X : IVec S16 32) (hX : ∀ l, IsOff (X l)) :
    k1_chk11 t (extractAt ![0] (k1_pay78 X) inpos_S1_p0) :=
  chk11_of_isOff t _ (isOff_w11_of X hX)
theorem chk11 (t : Fin k1_t1_loop.trips) {v418 : Vec F S1x16 .i32} :
    k1_chk11 t (extractAt ![0] (k1_pay78 (k1_pay20 v418)) inpos_S1_p0) :=
  chk11_of t _ (isOff_pay20 v418)

theorem isOff_w12_of (X : IVec S16 32) (hX : ∀ l, IsOff (X l)) : IsOff (extractAt ![0] (k1_pay84 X) inpos_S1_p0) :=
  isOff_extract X hX ![11] slices_S16_o11_S1 ![0] inpos_S1_p0
theorem chk12_of (t : Fin k1_t1_loop.trips) (X : IVec S16 32) (hX : ∀ l, IsOff (X l)) :
    k1_chk12 t (extractAt ![0] (k1_pay84 X) inpos_S1_p0) :=
  chk12_of_isOff t _ (isOff_w12_of X hX)
theorem chk12 (t : Fin k1_t1_loop.trips) {v418 : Vec F S1x16 .i32} :
    k1_chk12 t (extractAt ![0] (k1_pay84 (k1_pay20 v418)) inpos_S1_p0) :=
  chk12_of t _ (isOff_pay20 v418)

theorem isOff_w13_of (X : IVec S16 32) (hX : ∀ l, IsOff (X l)) : IsOff (extractAt ![0] (k1_pay89 X) inpos_S1_p0) :=
  isOff_extract X hX ![12] slices_S16_o12_S1 ![0] inpos_S1_p0
theorem chk13_of (t : Fin k1_t1_loop.trips) (X : IVec S16 32) (hX : ∀ l, IsOff (X l)) :
    k1_chk13 t (extractAt ![0] (k1_pay89 X) inpos_S1_p0) :=
  chk13_of_isOff t _ (isOff_w13_of X hX)
theorem chk13 (t : Fin k1_t1_loop.trips) {v418 : Vec F S1x16 .i32} :
    k1_chk13 t (extractAt ![0] (k1_pay89 (k1_pay20 v418)) inpos_S1_p0) :=
  chk13_of t _ (isOff_pay20 v418)

theorem isOff_w14_of (X : IVec S16 32) (hX : ∀ l, IsOff (X l)) : IsOff (extractAt ![0] (k1_pay95 X) inpos_S1_p0) :=
  isOff_extract X hX ![13] slices_S16_o13_S1 ![0] inpos_S1_p0
theorem chk14_of (t : Fin k1_t1_loop.trips) (X : IVec S16 32) (hX : ∀ l, IsOff (X l)) :
    k1_chk14 t (extractAt ![0] (k1_pay95 X) inpos_S1_p0) :=
  chk14_of_isOff t _ (isOff_w14_of X hX)
theorem chk14 (t : Fin k1_t1_loop.trips) {v418 : Vec F S1x16 .i32} :
    k1_chk14 t (extractAt ![0] (k1_pay95 (k1_pay20 v418)) inpos_S1_p0) :=
  chk14_of t _ (isOff_pay20 v418)

theorem isOff_w15_of (X : IVec S16 32) (hX : ∀ l, IsOff (X l)) : IsOff (extractAt ![0] (k1_pay100 X) inpos_S1_p0) :=
  isOff_extract X hX ![14] slices_S16_o14_S1 ![0] inpos_S1_p0
theorem chk15_of (t : Fin k1_t1_loop.trips) (X : IVec S16 32) (hX : ∀ l, IsOff (X l)) :
    k1_chk15 t (extractAt ![0] (k1_pay100 X) inpos_S1_p0) :=
  chk15_of_isOff t _ (isOff_w15_of X hX)
theorem chk15 (t : Fin k1_t1_loop.trips) {v418 : Vec F S1x16 .i32} :
    k1_chk15 t (extractAt ![0] (k1_pay100 (k1_pay20 v418)) inpos_S1_p0) :=
  chk15_of t _ (isOff_pay20 v418)

theorem isOff_w16_of (X : IVec S16 32) (hX : ∀ l, IsOff (X l)) : IsOff (extractAt ![0] (k1_pay107 X) inpos_S1_p0) :=
  isOff_extract X hX ![15] slices_S16_o15_S1 ![0] inpos_S1_p0
theorem chk16_of (t : Fin k1_t1_loop.trips) (X : IVec S16 32) (hX : ∀ l, IsOff (X l)) :
    k1_chk16 t (extractAt ![0] (k1_pay107 X) inpos_S1_p0) :=
  chk16_of_isOff t _ (isOff_w16_of X hX)
theorem chk16 (t : Fin k1_t1_loop.trips) {v418 : Vec F S1x16 .i32} :
    k1_chk16 t (extractAt ![0] (k1_pay107 (k1_pay20 v418)) inpos_S1_p0) :=
  chk16_of t _ (isOff_pay20 v418)

/-! ### Index words 16 to 31 -/

/-- Every lane of this group's offset vector is 0 or 64. -/
theorem isOff_pay113 (v1311 : IVec S16 32) (l : S16.Idx) : IsOff (k1_pay113 v1311 l) := isOff_offLane _ l

theorem isOff_w17 (v1311 : IVec S16 32) : IsOff (extractAt ![0] (k1_pay114 v1311) inpos_S1_p0) :=
  isOff_extract (k1_pay113 v1311) (isOff_pay113 v1311) ![0] slices_S16_o0_S1 ![0] inpos_S1_p0

theorem chk17 (t : Fin k1_t1_loop.trips) {v1311 : IVec S16 32} :
    k1_chk17 t (extractAt ![0] (k1_pay114 v1311) inpos_S1_p0) :=
  chk17_of_isOff t _ (isOff_w17 v1311)

theorem isOff_w18_of (X : IVec S16 32) (hX : ∀ l, IsOff (X l)) : IsOff (extractAt ![0] (k1_pay120 X) inpos_S1_p0) :=
  isOff_extract X hX ![1] slices_S16_o1_S1 ![0] inpos_S1_p0
theorem chk18_of (t : Fin k1_t1_loop.trips) (X : IVec S16 32) (hX : ∀ l, IsOff (X l)) :
    k1_chk18 t (extractAt ![0] (k1_pay120 X) inpos_S1_p0) :=
  chk18_of_isOff t _ (isOff_w18_of X hX)
theorem chk18 (t : Fin k1_t1_loop.trips) {v1311 : IVec S16 32} :
    k1_chk18 t (extractAt ![0] (k1_pay120 (k1_pay113 v1311)) inpos_S1_p0) :=
  chk18_of t _ (isOff_pay113 v1311)

theorem isOff_w19_of (X : IVec S16 32) (hX : ∀ l, IsOff (X l)) : IsOff (extractAt ![0] (k1_pay125 X) inpos_S1_p0) :=
  isOff_extract X hX ![2] slices_S16_o2_S1 ![0] inpos_S1_p0
theorem chk19_of (t : Fin k1_t1_loop.trips) (X : IVec S16 32) (hX : ∀ l, IsOff (X l)) :
    k1_chk19 t (extractAt ![0] (k1_pay125 X) inpos_S1_p0) :=
  chk19_of_isOff t _ (isOff_w19_of X hX)
theorem chk19 (t : Fin k1_t1_loop.trips) {v1311 : IVec S16 32} :
    k1_chk19 t (extractAt ![0] (k1_pay125 (k1_pay113 v1311)) inpos_S1_p0) :=
  chk19_of t _ (isOff_pay113 v1311)

theorem isOff_w20_of (X : IVec S16 32) (hX : ∀ l, IsOff (X l)) : IsOff (extractAt ![0] (k1_pay131 X) inpos_S1_p0) :=
  isOff_extract X hX ![3] slices_S16_o3_S1 ![0] inpos_S1_p0
theorem chk20_of (t : Fin k1_t1_loop.trips) (X : IVec S16 32) (hX : ∀ l, IsOff (X l)) :
    k1_chk20 t (extractAt ![0] (k1_pay131 X) inpos_S1_p0) :=
  chk20_of_isOff t _ (isOff_w20_of X hX)
theorem chk20 (t : Fin k1_t1_loop.trips) {v1311 : IVec S16 32} :
    k1_chk20 t (extractAt ![0] (k1_pay131 (k1_pay113 v1311)) inpos_S1_p0) :=
  chk20_of t _ (isOff_pay113 v1311)

theorem isOff_w21_of (X : IVec S16 32) (hX : ∀ l, IsOff (X l)) : IsOff (extractAt ![0] (k1_pay137 X) inpos_S1_p0) :=
  isOff_extract X hX ![4] slices_S16_o4_S1 ![0] inpos_S1_p0
theorem chk21_of (t : Fin k1_t1_loop.trips) (X : IVec S16 32) (hX : ∀ l, IsOff (X l)) :
    k1_chk21 t (extractAt ![0] (k1_pay137 X) inpos_S1_p0) :=
  chk21_of_isOff t _ (isOff_w21_of X hX)
theorem chk21 (t : Fin k1_t1_loop.trips) {v1311 : IVec S16 32} :
    k1_chk21 t (extractAt ![0] (k1_pay137 (k1_pay113 v1311)) inpos_S1_p0) :=
  chk21_of t _ (isOff_pay113 v1311)

theorem isOff_w22_of (X : IVec S16 32) (hX : ∀ l, IsOff (X l)) : IsOff (extractAt ![0] (k1_pay142 X) inpos_S1_p0) :=
  isOff_extract X hX ![5] slices_S16_o5_S1 ![0] inpos_S1_p0
theorem chk22_of (t : Fin k1_t1_loop.trips) (X : IVec S16 32) (hX : ∀ l, IsOff (X l)) :
    k1_chk22 t (extractAt ![0] (k1_pay142 X) inpos_S1_p0) :=
  chk22_of_isOff t _ (isOff_w22_of X hX)
theorem chk22 (t : Fin k1_t1_loop.trips) {v1311 : IVec S16 32} :
    k1_chk22 t (extractAt ![0] (k1_pay142 (k1_pay113 v1311)) inpos_S1_p0) :=
  chk22_of t _ (isOff_pay113 v1311)

theorem isOff_w23_of (X : IVec S16 32) (hX : ∀ l, IsOff (X l)) : IsOff (extractAt ![0] (k1_pay148 X) inpos_S1_p0) :=
  isOff_extract X hX ![6] slices_S16_o6_S1 ![0] inpos_S1_p0
theorem chk23_of (t : Fin k1_t1_loop.trips) (X : IVec S16 32) (hX : ∀ l, IsOff (X l)) :
    k1_chk23 t (extractAt ![0] (k1_pay148 X) inpos_S1_p0) :=
  chk23_of_isOff t _ (isOff_w23_of X hX)
theorem chk23 (t : Fin k1_t1_loop.trips) {v1311 : IVec S16 32} :
    k1_chk23 t (extractAt ![0] (k1_pay148 (k1_pay113 v1311)) inpos_S1_p0) :=
  chk23_of t _ (isOff_pay113 v1311)

theorem isOff_w24_of (X : IVec S16 32) (hX : ∀ l, IsOff (X l)) : IsOff (extractAt ![0] (k1_pay153 X) inpos_S1_p0) :=
  isOff_extract X hX ![7] slices_S16_o7_S1 ![0] inpos_S1_p0
theorem chk24_of (t : Fin k1_t1_loop.trips) (X : IVec S16 32) (hX : ∀ l, IsOff (X l)) :
    k1_chk24 t (extractAt ![0] (k1_pay153 X) inpos_S1_p0) :=
  chk24_of_isOff t _ (isOff_w24_of X hX)
theorem chk24 (t : Fin k1_t1_loop.trips) {v1311 : IVec S16 32} :
    k1_chk24 t (extractAt ![0] (k1_pay153 (k1_pay113 v1311)) inpos_S1_p0) :=
  chk24_of t _ (isOff_pay113 v1311)

theorem isOff_w25_of (X : IVec S16 32) (hX : ∀ l, IsOff (X l)) : IsOff (extractAt ![0] (k1_pay159 X) inpos_S1_p0) :=
  isOff_extract X hX ![8] slices_S16_o8_S1 ![0] inpos_S1_p0
theorem chk25_of (t : Fin k1_t1_loop.trips) (X : IVec S16 32) (hX : ∀ l, IsOff (X l)) :
    k1_chk25 t (extractAt ![0] (k1_pay159 X) inpos_S1_p0) :=
  chk25_of_isOff t _ (isOff_w25_of X hX)
theorem chk25 (t : Fin k1_t1_loop.trips) {v1311 : IVec S16 32} :
    k1_chk25 t (extractAt ![0] (k1_pay159 (k1_pay113 v1311)) inpos_S1_p0) :=
  chk25_of t _ (isOff_pay113 v1311)

theorem isOff_w26_of (X : IVec S16 32) (hX : ∀ l, IsOff (X l)) : IsOff (extractAt ![0] (k1_pay164 X) inpos_S1_p0) :=
  isOff_extract X hX ![9] slices_S16_o9_S1 ![0] inpos_S1_p0
theorem chk26_of (t : Fin k1_t1_loop.trips) (X : IVec S16 32) (hX : ∀ l, IsOff (X l)) :
    k1_chk26 t (extractAt ![0] (k1_pay164 X) inpos_S1_p0) :=
  chk26_of_isOff t _ (isOff_w26_of X hX)
theorem chk26 (t : Fin k1_t1_loop.trips) {v1311 : IVec S16 32} :
    k1_chk26 t (extractAt ![0] (k1_pay164 (k1_pay113 v1311)) inpos_S1_p0) :=
  chk26_of t _ (isOff_pay113 v1311)

theorem isOff_w27_of (X : IVec S16 32) (hX : ∀ l, IsOff (X l)) : IsOff (extractAt ![0] (k1_pay170 X) inpos_S1_p0) :=
  isOff_extract X hX ![10] slices_S16_o10_S1 ![0] inpos_S1_p0
theorem chk27_of (t : Fin k1_t1_loop.trips) (X : IVec S16 32) (hX : ∀ l, IsOff (X l)) :
    k1_chk27 t (extractAt ![0] (k1_pay170 X) inpos_S1_p0) :=
  chk27_of_isOff t _ (isOff_w27_of X hX)
theorem chk27 (t : Fin k1_t1_loop.trips) {v1311 : IVec S16 32} :
    k1_chk27 t (extractAt ![0] (k1_pay170 (k1_pay113 v1311)) inpos_S1_p0) :=
  chk27_of t _ (isOff_pay113 v1311)

theorem isOff_w28_of (X : IVec S16 32) (hX : ∀ l, IsOff (X l)) : IsOff (extractAt ![0] (k1_pay176 X) inpos_S1_p0) :=
  isOff_extract X hX ![11] slices_S16_o11_S1 ![0] inpos_S1_p0
theorem chk28_of (t : Fin k1_t1_loop.trips) (X : IVec S16 32) (hX : ∀ l, IsOff (X l)) :
    k1_chk28 t (extractAt ![0] (k1_pay176 X) inpos_S1_p0) :=
  chk28_of_isOff t _ (isOff_w28_of X hX)
theorem chk28 (t : Fin k1_t1_loop.trips) {v1311 : IVec S16 32} :
    k1_chk28 t (extractAt ![0] (k1_pay176 (k1_pay113 v1311)) inpos_S1_p0) :=
  chk28_of t _ (isOff_pay113 v1311)

theorem isOff_w29_of (X : IVec S16 32) (hX : ∀ l, IsOff (X l)) : IsOff (extractAt ![0] (k1_pay182 X) inpos_S1_p0) :=
  isOff_extract X hX ![12] slices_S16_o12_S1 ![0] inpos_S1_p0
theorem chk29_of (t : Fin k1_t1_loop.trips) (X : IVec S16 32) (hX : ∀ l, IsOff (X l)) :
    k1_chk29 t (extractAt ![0] (k1_pay182 X) inpos_S1_p0) :=
  chk29_of_isOff t _ (isOff_w29_of X hX)
theorem chk29 (t : Fin k1_t1_loop.trips) {v1311 : IVec S16 32} :
    k1_chk29 t (extractAt ![0] (k1_pay182 (k1_pay113 v1311)) inpos_S1_p0) :=
  chk29_of t _ (isOff_pay113 v1311)

theorem isOff_w30_of (X : IVec S16 32) (hX : ∀ l, IsOff (X l)) : IsOff (extractAt ![0] (k1_pay188 X) inpos_S1_p0) :=
  isOff_extract X hX ![13] slices_S16_o13_S1 ![0] inpos_S1_p0
theorem chk30_of (t : Fin k1_t1_loop.trips) (X : IVec S16 32) (hX : ∀ l, IsOff (X l)) :
    k1_chk30 t (extractAt ![0] (k1_pay188 X) inpos_S1_p0) :=
  chk30_of_isOff t _ (isOff_w30_of X hX)
theorem chk30 (t : Fin k1_t1_loop.trips) {v1311 : IVec S16 32} :
    k1_chk30 t (extractAt ![0] (k1_pay188 (k1_pay113 v1311)) inpos_S1_p0) :=
  chk30_of t _ (isOff_pay113 v1311)

theorem isOff_w31_of (X : IVec S16 32) (hX : ∀ l, IsOff (X l)) : IsOff (extractAt ![0] (k1_pay193 X) inpos_S1_p0) :=
  isOff_extract X hX ![14] slices_S16_o14_S1 ![0] inpos_S1_p0
theorem chk31_of (t : Fin k1_t1_loop.trips) (X : IVec S16 32) (hX : ∀ l, IsOff (X l)) :
    k1_chk31 t (extractAt ![0] (k1_pay193 X) inpos_S1_p0) :=
  chk31_of_isOff t _ (isOff_w31_of X hX)
theorem chk31 (t : Fin k1_t1_loop.trips) {v1311 : IVec S16 32} :
    k1_chk31 t (extractAt ![0] (k1_pay193 (k1_pay113 v1311)) inpos_S1_p0) :=
  chk31_of t _ (isOff_pay113 v1311)

theorem isOff_w32_of (X : IVec S16 32) (hX : ∀ l, IsOff (X l)) : IsOff (extractAt ![0] (k1_pay199 X) inpos_S1_p0) :=
  isOff_extract X hX ![15] slices_S16_o15_S1 ![0] inpos_S1_p0
theorem chk32_of (t : Fin k1_t1_loop.trips) (X : IVec S16 32) (hX : ∀ l, IsOff (X l)) :
    k1_chk32 t (extractAt ![0] (k1_pay199 X) inpos_S1_p0) :=
  chk32_of_isOff t _ (isOff_w32_of X hX)
theorem chk32 (t : Fin k1_t1_loop.trips) {v1311 : IVec S16 32} :
    k1_chk32 t (extractAt ![0] (k1_pay199 (k1_pay113 v1311)) inpos_S1_p0) :=
  chk32_of t _ (isOff_pay113 v1311)

/-! ### Index words 32 to 47 -/

/-- Every lane of this group's offset vector is 0 or 64. -/
theorem isOff_pay206 (v2203 : IVec S16 32) (l : S16.Idx) : IsOff (k1_pay206 v2203 l) := isOff_offLane _ l

theorem isOff_w33 (v2203 : IVec S16 32) : IsOff (extractAt ![0] (k1_pay207 v2203) inpos_S1_p0) :=
  isOff_extract (k1_pay206 v2203) (isOff_pay206 v2203) ![0] slices_S16_o0_S1 ![0] inpos_S1_p0

theorem chk33 (t : Fin k1_t1_loop.trips) {v2203 : IVec S16 32} :
    k1_chk33 t (extractAt ![0] (k1_pay207 v2203) inpos_S1_p0) :=
  chk33_of_isOff t _ (isOff_w33 v2203)

theorem isOff_w34_of (X : IVec S16 32) (hX : ∀ l, IsOff (X l)) : IsOff (extractAt ![0] (k1_pay213 X) inpos_S1_p0) :=
  isOff_extract X hX ![1] slices_S16_o1_S1 ![0] inpos_S1_p0
theorem chk34_of (t : Fin k1_t1_loop.trips) (X : IVec S16 32) (hX : ∀ l, IsOff (X l)) :
    k1_chk34 t (extractAt ![0] (k1_pay213 X) inpos_S1_p0) :=
  chk34_of_isOff t _ (isOff_w34_of X hX)
theorem chk34 (t : Fin k1_t1_loop.trips) {v2203 : IVec S16 32} :
    k1_chk34 t (extractAt ![0] (k1_pay213 (k1_pay206 v2203)) inpos_S1_p0) :=
  chk34_of t _ (isOff_pay206 v2203)

theorem isOff_w35_of (X : IVec S16 32) (hX : ∀ l, IsOff (X l)) : IsOff (extractAt ![0] (k1_pay218 X) inpos_S1_p0) :=
  isOff_extract X hX ![2] slices_S16_o2_S1 ![0] inpos_S1_p0
theorem chk35_of (t : Fin k1_t1_loop.trips) (X : IVec S16 32) (hX : ∀ l, IsOff (X l)) :
    k1_chk35 t (extractAt ![0] (k1_pay218 X) inpos_S1_p0) :=
  chk35_of_isOff t _ (isOff_w35_of X hX)
theorem chk35 (t : Fin k1_t1_loop.trips) {v2203 : IVec S16 32} :
    k1_chk35 t (extractAt ![0] (k1_pay218 (k1_pay206 v2203)) inpos_S1_p0) :=
  chk35_of t _ (isOff_pay206 v2203)

theorem isOff_w36_of (X : IVec S16 32) (hX : ∀ l, IsOff (X l)) : IsOff (extractAt ![0] (k1_pay224 X) inpos_S1_p0) :=
  isOff_extract X hX ![3] slices_S16_o3_S1 ![0] inpos_S1_p0
theorem chk36_of (t : Fin k1_t1_loop.trips) (X : IVec S16 32) (hX : ∀ l, IsOff (X l)) :
    k1_chk36 t (extractAt ![0] (k1_pay224 X) inpos_S1_p0) :=
  chk36_of_isOff t _ (isOff_w36_of X hX)
theorem chk36 (t : Fin k1_t1_loop.trips) {v2203 : IVec S16 32} :
    k1_chk36 t (extractAt ![0] (k1_pay224 (k1_pay206 v2203)) inpos_S1_p0) :=
  chk36_of t _ (isOff_pay206 v2203)

theorem isOff_w37_of (X : IVec S16 32) (hX : ∀ l, IsOff (X l)) : IsOff (extractAt ![0] (k1_pay229 X) inpos_S1_p0) :=
  isOff_extract X hX ![4] slices_S16_o4_S1 ![0] inpos_S1_p0
theorem chk37_of (t : Fin k1_t1_loop.trips) (X : IVec S16 32) (hX : ∀ l, IsOff (X l)) :
    k1_chk37 t (extractAt ![0] (k1_pay229 X) inpos_S1_p0) :=
  chk37_of_isOff t _ (isOff_w37_of X hX)
theorem chk37 (t : Fin k1_t1_loop.trips) {v2203 : IVec S16 32} :
    k1_chk37 t (extractAt ![0] (k1_pay229 (k1_pay206 v2203)) inpos_S1_p0) :=
  chk37_of t _ (isOff_pay206 v2203)

theorem isOff_w38_of (X : IVec S16 32) (hX : ∀ l, IsOff (X l)) : IsOff (extractAt ![0] (k1_pay235 X) inpos_S1_p0) :=
  isOff_extract X hX ![5] slices_S16_o5_S1 ![0] inpos_S1_p0
theorem chk38_of (t : Fin k1_t1_loop.trips) (X : IVec S16 32) (hX : ∀ l, IsOff (X l)) :
    k1_chk38 t (extractAt ![0] (k1_pay235 X) inpos_S1_p0) :=
  chk38_of_isOff t _ (isOff_w38_of X hX)
theorem chk38 (t : Fin k1_t1_loop.trips) {v2203 : IVec S16 32} :
    k1_chk38 t (extractAt ![0] (k1_pay235 (k1_pay206 v2203)) inpos_S1_p0) :=
  chk38_of t _ (isOff_pay206 v2203)

theorem isOff_w39_of (X : IVec S16 32) (hX : ∀ l, IsOff (X l)) : IsOff (extractAt ![0] (k1_pay241 X) inpos_S1_p0) :=
  isOff_extract X hX ![6] slices_S16_o6_S1 ![0] inpos_S1_p0
theorem chk39_of (t : Fin k1_t1_loop.trips) (X : IVec S16 32) (hX : ∀ l, IsOff (X l)) :
    k1_chk39 t (extractAt ![0] (k1_pay241 X) inpos_S1_p0) :=
  chk39_of_isOff t _ (isOff_w39_of X hX)
theorem chk39 (t : Fin k1_t1_loop.trips) {v2203 : IVec S16 32} :
    k1_chk39 t (extractAt ![0] (k1_pay241 (k1_pay206 v2203)) inpos_S1_p0) :=
  chk39_of t _ (isOff_pay206 v2203)

theorem isOff_w40_of (X : IVec S16 32) (hX : ∀ l, IsOff (X l)) : IsOff (extractAt ![0] (k1_pay246 X) inpos_S1_p0) :=
  isOff_extract X hX ![7] slices_S16_o7_S1 ![0] inpos_S1_p0
theorem chk40_of (t : Fin k1_t1_loop.trips) (X : IVec S16 32) (hX : ∀ l, IsOff (X l)) :
    k1_chk40 t (extractAt ![0] (k1_pay246 X) inpos_S1_p0) :=
  chk40_of_isOff t _ (isOff_w40_of X hX)
theorem chk40 (t : Fin k1_t1_loop.trips) {v2203 : IVec S16 32} :
    k1_chk40 t (extractAt ![0] (k1_pay246 (k1_pay206 v2203)) inpos_S1_p0) :=
  chk40_of t _ (isOff_pay206 v2203)

theorem isOff_w41_of (X : IVec S16 32) (hX : ∀ l, IsOff (X l)) : IsOff (extractAt ![0] (k1_pay252 X) inpos_S1_p0) :=
  isOff_extract X hX ![8] slices_S16_o8_S1 ![0] inpos_S1_p0
theorem chk41_of (t : Fin k1_t1_loop.trips) (X : IVec S16 32) (hX : ∀ l, IsOff (X l)) :
    k1_chk41 t (extractAt ![0] (k1_pay252 X) inpos_S1_p0) :=
  chk41_of_isOff t _ (isOff_w41_of X hX)
theorem chk41 (t : Fin k1_t1_loop.trips) {v2203 : IVec S16 32} :
    k1_chk41 t (extractAt ![0] (k1_pay252 (k1_pay206 v2203)) inpos_S1_p0) :=
  chk41_of t _ (isOff_pay206 v2203)

theorem isOff_w42_of (X : IVec S16 32) (hX : ∀ l, IsOff (X l)) : IsOff (extractAt ![0] (k1_pay257 X) inpos_S1_p0) :=
  isOff_extract X hX ![9] slices_S16_o9_S1 ![0] inpos_S1_p0
theorem chk42_of (t : Fin k1_t1_loop.trips) (X : IVec S16 32) (hX : ∀ l, IsOff (X l)) :
    k1_chk42 t (extractAt ![0] (k1_pay257 X) inpos_S1_p0) :=
  chk42_of_isOff t _ (isOff_w42_of X hX)
theorem chk42 (t : Fin k1_t1_loop.trips) {v2203 : IVec S16 32} :
    k1_chk42 t (extractAt ![0] (k1_pay257 (k1_pay206 v2203)) inpos_S1_p0) :=
  chk42_of t _ (isOff_pay206 v2203)

theorem isOff_w43_of (X : IVec S16 32) (hX : ∀ l, IsOff (X l)) : IsOff (extractAt ![0] (k1_pay263 X) inpos_S1_p0) :=
  isOff_extract X hX ![10] slices_S16_o10_S1 ![0] inpos_S1_p0
theorem chk43_of (t : Fin k1_t1_loop.trips) (X : IVec S16 32) (hX : ∀ l, IsOff (X l)) :
    k1_chk43 t (extractAt ![0] (k1_pay263 X) inpos_S1_p0) :=
  chk43_of_isOff t _ (isOff_w43_of X hX)
theorem chk43 (t : Fin k1_t1_loop.trips) {v2203 : IVec S16 32} :
    k1_chk43 t (extractAt ![0] (k1_pay263 (k1_pay206 v2203)) inpos_S1_p0) :=
  chk43_of t _ (isOff_pay206 v2203)

theorem isOff_w44_of (X : IVec S16 32) (hX : ∀ l, IsOff (X l)) : IsOff (extractAt ![0] (k1_pay268 X) inpos_S1_p0) :=
  isOff_extract X hX ![11] slices_S16_o11_S1 ![0] inpos_S1_p0
theorem chk44_of (t : Fin k1_t1_loop.trips) (X : IVec S16 32) (hX : ∀ l, IsOff (X l)) :
    k1_chk44 t (extractAt ![0] (k1_pay268 X) inpos_S1_p0) :=
  chk44_of_isOff t _ (isOff_w44_of X hX)
theorem chk44 (t : Fin k1_t1_loop.trips) {v2203 : IVec S16 32} :
    k1_chk44 t (extractAt ![0] (k1_pay268 (k1_pay206 v2203)) inpos_S1_p0) :=
  chk44_of t _ (isOff_pay206 v2203)

theorem isOff_w45_of (X : IVec S16 32) (hX : ∀ l, IsOff (X l)) : IsOff (extractAt ![0] (k1_pay274 X) inpos_S1_p0) :=
  isOff_extract X hX ![12] slices_S16_o12_S1 ![0] inpos_S1_p0
theorem chk45_of (t : Fin k1_t1_loop.trips) (X : IVec S16 32) (hX : ∀ l, IsOff (X l)) :
    k1_chk45 t (extractAt ![0] (k1_pay274 X) inpos_S1_p0) :=
  chk45_of_isOff t _ (isOff_w45_of X hX)
theorem chk45 (t : Fin k1_t1_loop.trips) {v2203 : IVec S16 32} :
    k1_chk45 t (extractAt ![0] (k1_pay274 (k1_pay206 v2203)) inpos_S1_p0) :=
  chk45_of t _ (isOff_pay206 v2203)

theorem isOff_w46_of (X : IVec S16 32) (hX : ∀ l, IsOff (X l)) : IsOff (extractAt ![0] (k1_pay280 X) inpos_S1_p0) :=
  isOff_extract X hX ![13] slices_S16_o13_S1 ![0] inpos_S1_p0
theorem chk46_of (t : Fin k1_t1_loop.trips) (X : IVec S16 32) (hX : ∀ l, IsOff (X l)) :
    k1_chk46 t (extractAt ![0] (k1_pay280 X) inpos_S1_p0) :=
  chk46_of_isOff t _ (isOff_w46_of X hX)
theorem chk46 (t : Fin k1_t1_loop.trips) {v2203 : IVec S16 32} :
    k1_chk46 t (extractAt ![0] (k1_pay280 (k1_pay206 v2203)) inpos_S1_p0) :=
  chk46_of t _ (isOff_pay206 v2203)

theorem isOff_w47_of (X : IVec S16 32) (hX : ∀ l, IsOff (X l)) : IsOff (extractAt ![0] (k1_pay286 X) inpos_S1_p0) :=
  isOff_extract X hX ![14] slices_S16_o14_S1 ![0] inpos_S1_p0
theorem chk47_of (t : Fin k1_t1_loop.trips) (X : IVec S16 32) (hX : ∀ l, IsOff (X l)) :
    k1_chk47 t (extractAt ![0] (k1_pay286 X) inpos_S1_p0) :=
  chk47_of_isOff t _ (isOff_w47_of X hX)
theorem chk47 (t : Fin k1_t1_loop.trips) {v2203 : IVec S16 32} :
    k1_chk47 t (extractAt ![0] (k1_pay286 (k1_pay206 v2203)) inpos_S1_p0) :=
  chk47_of t _ (isOff_pay206 v2203)

theorem isOff_w48_of (X : IVec S16 32) (hX : ∀ l, IsOff (X l)) : IsOff (extractAt ![0] (k1_pay292 X) inpos_S1_p0) :=
  isOff_extract X hX ![15] slices_S16_o15_S1 ![0] inpos_S1_p0
theorem chk48_of (t : Fin k1_t1_loop.trips) (X : IVec S16 32) (hX : ∀ l, IsOff (X l)) :
    k1_chk48 t (extractAt ![0] (k1_pay292 X) inpos_S1_p0) :=
  chk48_of_isOff t _ (isOff_w48_of X hX)
theorem chk48 (t : Fin k1_t1_loop.trips) {v2203 : IVec S16 32} :
    k1_chk48 t (extractAt ![0] (k1_pay292 (k1_pay206 v2203)) inpos_S1_p0) :=
  chk48_of t _ (isOff_pay206 v2203)

/-! ### Index words 48 to 63 -/

/-- Every lane of this group's offset vector is 0 or 64. -/
theorem isOff_pay300 (v3095 : IVec S16 32) (v3098 : IVec S16 32) (l : S16.Idx) : IsOff (k1_pay300 v3095 v3098 l) := isOff_offLane _ l

theorem isOff_w49 (v3095 : IVec S16 32) (v3098 : IVec S16 32) : IsOff (extractAt ![0] (k1_pay301 v3095 v3098) inpos_S1_p0) :=
  isOff_extract (k1_pay300 v3095 v3098) (isOff_pay300 v3095 v3098) ![0] slices_S16_o0_S1 ![0] inpos_S1_p0

theorem chk49 (t : Fin k1_t1_loop.trips) {v3095 : IVec S16 32} {v3098 : IVec S16 32} :
    k1_chk49 t (extractAt ![0] (k1_pay301 v3095 v3098) inpos_S1_p0) :=
  chk49_of_isOff t _ (isOff_w49 v3095 v3098)

theorem isOff_w50_of (X : IVec S16 32) (hX : ∀ l, IsOff (X l)) : IsOff (extractAt ![0] (k1_pay307 X) inpos_S1_p0) :=
  isOff_extract X hX ![1] slices_S16_o1_S1 ![0] inpos_S1_p0
theorem chk50_of (t : Fin k1_t1_loop.trips) (X : IVec S16 32) (hX : ∀ l, IsOff (X l)) :
    k1_chk50 t (extractAt ![0] (k1_pay307 X) inpos_S1_p0) :=
  chk50_of_isOff t _ (isOff_w50_of X hX)
theorem chk50 (t : Fin k1_t1_loop.trips) {v3095 : IVec S16 32} {v3098 : IVec S16 32} :
    k1_chk50 t (extractAt ![0] (k1_pay307 (k1_pay300 v3095 v3098)) inpos_S1_p0) :=
  chk50_of t _ (isOff_pay300 v3095 v3098)

theorem isOff_w51_of (X : IVec S16 32) (hX : ∀ l, IsOff (X l)) : IsOff (extractAt ![0] (k1_pay312 X) inpos_S1_p0) :=
  isOff_extract X hX ![2] slices_S16_o2_S1 ![0] inpos_S1_p0
theorem chk51_of (t : Fin k1_t1_loop.trips) (X : IVec S16 32) (hX : ∀ l, IsOff (X l)) :
    k1_chk51 t (extractAt ![0] (k1_pay312 X) inpos_S1_p0) :=
  chk51_of_isOff t _ (isOff_w51_of X hX)
theorem chk51 (t : Fin k1_t1_loop.trips) {v3095 : IVec S16 32} {v3098 : IVec S16 32} :
    k1_chk51 t (extractAt ![0] (k1_pay312 (k1_pay300 v3095 v3098)) inpos_S1_p0) :=
  chk51_of t _ (isOff_pay300 v3095 v3098)

theorem isOff_w52_of (X : IVec S16 32) (hX : ∀ l, IsOff (X l)) : IsOff (extractAt ![0] (k1_pay318 X) inpos_S1_p0) :=
  isOff_extract X hX ![3] slices_S16_o3_S1 ![0] inpos_S1_p0
theorem chk52_of (t : Fin k1_t1_loop.trips) (X : IVec S16 32) (hX : ∀ l, IsOff (X l)) :
    k1_chk52 t (extractAt ![0] (k1_pay318 X) inpos_S1_p0) :=
  chk52_of_isOff t _ (isOff_w52_of X hX)
theorem chk52 (t : Fin k1_t1_loop.trips) {v3095 : IVec S16 32} {v3098 : IVec S16 32} :
    k1_chk52 t (extractAt ![0] (k1_pay318 (k1_pay300 v3095 v3098)) inpos_S1_p0) :=
  chk52_of t _ (isOff_pay300 v3095 v3098)

theorem isOff_w53_of (X : IVec S16 32) (hX : ∀ l, IsOff (X l)) : IsOff (extractAt ![0] (k1_pay323 X) inpos_S1_p0) :=
  isOff_extract X hX ![4] slices_S16_o4_S1 ![0] inpos_S1_p0
theorem chk53_of (t : Fin k1_t1_loop.trips) (X : IVec S16 32) (hX : ∀ l, IsOff (X l)) :
    k1_chk53 t (extractAt ![0] (k1_pay323 X) inpos_S1_p0) :=
  chk53_of_isOff t _ (isOff_w53_of X hX)
theorem chk53 (t : Fin k1_t1_loop.trips) {v3095 : IVec S16 32} {v3098 : IVec S16 32} :
    k1_chk53 t (extractAt ![0] (k1_pay323 (k1_pay300 v3095 v3098)) inpos_S1_p0) :=
  chk53_of t _ (isOff_pay300 v3095 v3098)

theorem isOff_w54_of (X : IVec S16 32) (hX : ∀ l, IsOff (X l)) : IsOff (extractAt ![0] (k1_pay329 X) inpos_S1_p0) :=
  isOff_extract X hX ![5] slices_S16_o5_S1 ![0] inpos_S1_p0
theorem chk54_of (t : Fin k1_t1_loop.trips) (X : IVec S16 32) (hX : ∀ l, IsOff (X l)) :
    k1_chk54 t (extractAt ![0] (k1_pay329 X) inpos_S1_p0) :=
  chk54_of_isOff t _ (isOff_w54_of X hX)
theorem chk54 (t : Fin k1_t1_loop.trips) {v3095 : IVec S16 32} {v3098 : IVec S16 32} :
    k1_chk54 t (extractAt ![0] (k1_pay329 (k1_pay300 v3095 v3098)) inpos_S1_p0) :=
  chk54_of t _ (isOff_pay300 v3095 v3098)

theorem isOff_w55_of (X : IVec S16 32) (hX : ∀ l, IsOff (X l)) : IsOff (extractAt ![0] (k1_pay334 X) inpos_S1_p0) :=
  isOff_extract X hX ![6] slices_S16_o6_S1 ![0] inpos_S1_p0
theorem chk55_of (t : Fin k1_t1_loop.trips) (X : IVec S16 32) (hX : ∀ l, IsOff (X l)) :
    k1_chk55 t (extractAt ![0] (k1_pay334 X) inpos_S1_p0) :=
  chk55_of_isOff t _ (isOff_w55_of X hX)
theorem chk55 (t : Fin k1_t1_loop.trips) {v3095 : IVec S16 32} {v3098 : IVec S16 32} :
    k1_chk55 t (extractAt ![0] (k1_pay334 (k1_pay300 v3095 v3098)) inpos_S1_p0) :=
  chk55_of t _ (isOff_pay300 v3095 v3098)

theorem isOff_w56_of (X : IVec S16 32) (hX : ∀ l, IsOff (X l)) : IsOff (extractAt ![0] (k1_pay340 X) inpos_S1_p0) :=
  isOff_extract X hX ![7] slices_S16_o7_S1 ![0] inpos_S1_p0
theorem chk56_of (t : Fin k1_t1_loop.trips) (X : IVec S16 32) (hX : ∀ l, IsOff (X l)) :
    k1_chk56 t (extractAt ![0] (k1_pay340 X) inpos_S1_p0) :=
  chk56_of_isOff t _ (isOff_w56_of X hX)
theorem chk56 (t : Fin k1_t1_loop.trips) {v3095 : IVec S16 32} {v3098 : IVec S16 32} :
    k1_chk56 t (extractAt ![0] (k1_pay340 (k1_pay300 v3095 v3098)) inpos_S1_p0) :=
  chk56_of t _ (isOff_pay300 v3095 v3098)

theorem isOff_w57_of (X : IVec S16 32) (hX : ∀ l, IsOff (X l)) : IsOff (extractAt ![0] (k1_pay346 X) inpos_S1_p0) :=
  isOff_extract X hX ![8] slices_S16_o8_S1 ![0] inpos_S1_p0
theorem chk57_of (t : Fin k1_t1_loop.trips) (X : IVec S16 32) (hX : ∀ l, IsOff (X l)) :
    k1_chk57 t (extractAt ![0] (k1_pay346 X) inpos_S1_p0) :=
  chk57_of_isOff t _ (isOff_w57_of X hX)
theorem chk57 (t : Fin k1_t1_loop.trips) {v3095 : IVec S16 32} {v3098 : IVec S16 32} :
    k1_chk57 t (extractAt ![0] (k1_pay346 (k1_pay300 v3095 v3098)) inpos_S1_p0) :=
  chk57_of t _ (isOff_pay300 v3095 v3098)

theorem isOff_w58_of (X : IVec S16 32) (hX : ∀ l, IsOff (X l)) : IsOff (extractAt ![0] (k1_pay351 X) inpos_S1_p0) :=
  isOff_extract X hX ![9] slices_S16_o9_S1 ![0] inpos_S1_p0
theorem chk58_of (t : Fin k1_t1_loop.trips) (X : IVec S16 32) (hX : ∀ l, IsOff (X l)) :
    k1_chk58 t (extractAt ![0] (k1_pay351 X) inpos_S1_p0) :=
  chk58_of_isOff t _ (isOff_w58_of X hX)
theorem chk58 (t : Fin k1_t1_loop.trips) {v3095 : IVec S16 32} {v3098 : IVec S16 32} :
    k1_chk58 t (extractAt ![0] (k1_pay351 (k1_pay300 v3095 v3098)) inpos_S1_p0) :=
  chk58_of t _ (isOff_pay300 v3095 v3098)

theorem isOff_w59_of (X : IVec S16 32) (hX : ∀ l, IsOff (X l)) : IsOff (extractAt ![0] (k1_pay357 X) inpos_S1_p0) :=
  isOff_extract X hX ![10] slices_S16_o10_S1 ![0] inpos_S1_p0
theorem chk59_of (t : Fin k1_t1_loop.trips) (X : IVec S16 32) (hX : ∀ l, IsOff (X l)) :
    k1_chk59 t (extractAt ![0] (k1_pay357 X) inpos_S1_p0) :=
  chk59_of_isOff t _ (isOff_w59_of X hX)
theorem chk59 (t : Fin k1_t1_loop.trips) {v3095 : IVec S16 32} {v3098 : IVec S16 32} :
    k1_chk59 t (extractAt ![0] (k1_pay357 (k1_pay300 v3095 v3098)) inpos_S1_p0) :=
  chk59_of t _ (isOff_pay300 v3095 v3098)

theorem isOff_w60_of (X : IVec S16 32) (hX : ∀ l, IsOff (X l)) : IsOff (extractAt ![0] (k1_pay362 X) inpos_S1_p0) :=
  isOff_extract X hX ![11] slices_S16_o11_S1 ![0] inpos_S1_p0
theorem chk60_of (t : Fin k1_t1_loop.trips) (X : IVec S16 32) (hX : ∀ l, IsOff (X l)) :
    k1_chk60 t (extractAt ![0] (k1_pay362 X) inpos_S1_p0) :=
  chk60_of_isOff t _ (isOff_w60_of X hX)
theorem chk60 (t : Fin k1_t1_loop.trips) {v3095 : IVec S16 32} {v3098 : IVec S16 32} :
    k1_chk60 t (extractAt ![0] (k1_pay362 (k1_pay300 v3095 v3098)) inpos_S1_p0) :=
  chk60_of t _ (isOff_pay300 v3095 v3098)

theorem isOff_w61_of (X : IVec S16 32) (hX : ∀ l, IsOff (X l)) : IsOff (extractAt ![0] (k1_pay368 X) inpos_S1_p0) :=
  isOff_extract X hX ![12] slices_S16_o12_S1 ![0] inpos_S1_p0
theorem chk61_of (t : Fin k1_t1_loop.trips) (X : IVec S16 32) (hX : ∀ l, IsOff (X l)) :
    k1_chk61 t (extractAt ![0] (k1_pay368 X) inpos_S1_p0) :=
  chk61_of_isOff t _ (isOff_w61_of X hX)
theorem chk61 (t : Fin k1_t1_loop.trips) {v3095 : IVec S16 32} {v3098 : IVec S16 32} :
    k1_chk61 t (extractAt ![0] (k1_pay368 (k1_pay300 v3095 v3098)) inpos_S1_p0) :=
  chk61_of t _ (isOff_pay300 v3095 v3098)

theorem isOff_w62_of (X : IVec S16 32) (hX : ∀ l, IsOff (X l)) : IsOff (extractAt ![0] (k1_pay373 X) inpos_S1_p0) :=
  isOff_extract X hX ![13] slices_S16_o13_S1 ![0] inpos_S1_p0
theorem chk62_of (t : Fin k1_t1_loop.trips) (X : IVec S16 32) (hX : ∀ l, IsOff (X l)) :
    k1_chk62 t (extractAt ![0] (k1_pay373 X) inpos_S1_p0) :=
  chk62_of_isOff t _ (isOff_w62_of X hX)
theorem chk62 (t : Fin k1_t1_loop.trips) {v3095 : IVec S16 32} {v3098 : IVec S16 32} :
    k1_chk62 t (extractAt ![0] (k1_pay373 (k1_pay300 v3095 v3098)) inpos_S1_p0) :=
  chk62_of t _ (isOff_pay300 v3095 v3098)

theorem isOff_w63_of (X : IVec S16 32) (hX : ∀ l, IsOff (X l)) : IsOff (extractAt ![0] (k1_pay379 X) inpos_S1_p0) :=
  isOff_extract X hX ![14] slices_S16_o14_S1 ![0] inpos_S1_p0
theorem chk63_of (t : Fin k1_t1_loop.trips) (X : IVec S16 32) (hX : ∀ l, IsOff (X l)) :
    k1_chk63 t (extractAt ![0] (k1_pay379 X) inpos_S1_p0) :=
  chk63_of_isOff t _ (isOff_w63_of X hX)
theorem chk63 (t : Fin k1_t1_loop.trips) {v3095 : IVec S16 32} {v3098 : IVec S16 32} :
    k1_chk63 t (extractAt ![0] (k1_pay379 (k1_pay300 v3095 v3098)) inpos_S1_p0) :=
  chk63_of t _ (isOff_pay300 v3095 v3098)

theorem isOff_w64_of (X : IVec S16 32) (hX : ∀ l, IsOff (X l)) : IsOff (extractAt ![0] (k1_pay385 X) inpos_S1_p0) :=
  isOff_extract X hX ![15] slices_S16_o15_S1 ![0] inpos_S1_p0
theorem chk64_of (t : Fin k1_t1_loop.trips) (X : IVec S16 32) (hX : ∀ l, IsOff (X l)) :
    k1_chk64 t (extractAt ![0] (k1_pay385 X) inpos_S1_p0) :=
  chk64_of_isOff t _ (isOff_w64_of X hX)
theorem chk64 (t : Fin k1_t1_loop.trips) {v3095 : IVec S16 32} {v3098 : IVec S16 32} :
    k1_chk64 t (extractAt ![0] (k1_pay385 (k1_pay300 v3095 v3098)) inpos_S1_p0) :=
  chk64_of t _ (isOff_pay300 v3095 v3098)

/-! ### Index words 64 to 79 -/

/-- Every lane of this group's offset vector is 0 or 64. -/
theorem isOff_pay394 (v3991 : IVec S16 32) (l : S16.Idx) : IsOff (k1_pay394 v3991 l) := isOff_offLane _ l

theorem isOff_w65 (v3991 : IVec S16 32) : IsOff (extractAt ![0] (k1_pay395 v3991) inpos_S1_p0) :=
  isOff_extract (k1_pay394 v3991) (isOff_pay394 v3991) ![0] slices_S16_o0_S1 ![0] inpos_S1_p0

theorem chk65 (t : Fin k1_t1_loop.trips) {v3991 : IVec S16 32} :
    k1_chk65 t (extractAt ![0] (k1_pay395 v3991) inpos_S1_p0) :=
  chk65_of_isOff t _ (isOff_w65 v3991)

theorem isOff_w66_of (X : IVec S16 32) (hX : ∀ l, IsOff (X l)) : IsOff (extractAt ![0] (k1_pay401 X) inpos_S1_p0) :=
  isOff_extract X hX ![1] slices_S16_o1_S1 ![0] inpos_S1_p0
theorem chk66_of (t : Fin k1_t1_loop.trips) (X : IVec S16 32) (hX : ∀ l, IsOff (X l)) :
    k1_chk66 t (extractAt ![0] (k1_pay401 X) inpos_S1_p0) :=
  chk66_of_isOff t _ (isOff_w66_of X hX)
theorem chk66 (t : Fin k1_t1_loop.trips) {v3991 : IVec S16 32} :
    k1_chk66 t (extractAt ![0] (k1_pay401 (k1_pay394 v3991)) inpos_S1_p0) :=
  chk66_of t _ (isOff_pay394 v3991)

theorem isOff_w67_of (X : IVec S16 32) (hX : ∀ l, IsOff (X l)) : IsOff (extractAt ![0] (k1_pay407 X) inpos_S1_p0) :=
  isOff_extract X hX ![2] slices_S16_o2_S1 ![0] inpos_S1_p0
theorem chk67_of (t : Fin k1_t1_loop.trips) (X : IVec S16 32) (hX : ∀ l, IsOff (X l)) :
    k1_chk67 t (extractAt ![0] (k1_pay407 X) inpos_S1_p0) :=
  chk67_of_isOff t _ (isOff_w67_of X hX)
theorem chk67 (t : Fin k1_t1_loop.trips) {v3991 : IVec S16 32} :
    k1_chk67 t (extractAt ![0] (k1_pay407 (k1_pay394 v3991)) inpos_S1_p0) :=
  chk67_of t _ (isOff_pay394 v3991)

theorem isOff_w68_of (X : IVec S16 32) (hX : ∀ l, IsOff (X l)) : IsOff (extractAt ![0] (k1_pay413 X) inpos_S1_p0) :=
  isOff_extract X hX ![3] slices_S16_o3_S1 ![0] inpos_S1_p0
theorem chk68_of (t : Fin k1_t1_loop.trips) (X : IVec S16 32) (hX : ∀ l, IsOff (X l)) :
    k1_chk68 t (extractAt ![0] (k1_pay413 X) inpos_S1_p0) :=
  chk68_of_isOff t _ (isOff_w68_of X hX)
theorem chk68 (t : Fin k1_t1_loop.trips) {v3991 : IVec S16 32} :
    k1_chk68 t (extractAt ![0] (k1_pay413 (k1_pay394 v3991)) inpos_S1_p0) :=
  chk68_of t _ (isOff_pay394 v3991)

theorem isOff_w69_of (X : IVec S16 32) (hX : ∀ l, IsOff (X l)) : IsOff (extractAt ![0] (k1_pay418 X) inpos_S1_p0) :=
  isOff_extract X hX ![4] slices_S16_o4_S1 ![0] inpos_S1_p0
theorem chk69_of (t : Fin k1_t1_loop.trips) (X : IVec S16 32) (hX : ∀ l, IsOff (X l)) :
    k1_chk69 t (extractAt ![0] (k1_pay418 X) inpos_S1_p0) :=
  chk69_of_isOff t _ (isOff_w69_of X hX)
theorem chk69 (t : Fin k1_t1_loop.trips) {v3991 : IVec S16 32} :
    k1_chk69 t (extractAt ![0] (k1_pay418 (k1_pay394 v3991)) inpos_S1_p0) :=
  chk69_of t _ (isOff_pay394 v3991)

theorem isOff_w70_of (X : IVec S16 32) (hX : ∀ l, IsOff (X l)) : IsOff (extractAt ![0] (k1_pay424 X) inpos_S1_p0) :=
  isOff_extract X hX ![5] slices_S16_o5_S1 ![0] inpos_S1_p0
theorem chk70_of (t : Fin k1_t1_loop.trips) (X : IVec S16 32) (hX : ∀ l, IsOff (X l)) :
    k1_chk70 t (extractAt ![0] (k1_pay424 X) inpos_S1_p0) :=
  chk70_of_isOff t _ (isOff_w70_of X hX)
theorem chk70 (t : Fin k1_t1_loop.trips) {v3991 : IVec S16 32} :
    k1_chk70 t (extractAt ![0] (k1_pay424 (k1_pay394 v3991)) inpos_S1_p0) :=
  chk70_of t _ (isOff_pay394 v3991)

theorem isOff_w71_of (X : IVec S16 32) (hX : ∀ l, IsOff (X l)) : IsOff (extractAt ![0] (k1_pay429 X) inpos_S1_p0) :=
  isOff_extract X hX ![6] slices_S16_o6_S1 ![0] inpos_S1_p0
theorem chk71_of (t : Fin k1_t1_loop.trips) (X : IVec S16 32) (hX : ∀ l, IsOff (X l)) :
    k1_chk71 t (extractAt ![0] (k1_pay429 X) inpos_S1_p0) :=
  chk71_of_isOff t _ (isOff_w71_of X hX)
theorem chk71 (t : Fin k1_t1_loop.trips) {v3991 : IVec S16 32} :
    k1_chk71 t (extractAt ![0] (k1_pay429 (k1_pay394 v3991)) inpos_S1_p0) :=
  chk71_of t _ (isOff_pay394 v3991)

theorem isOff_w72_of (X : IVec S16 32) (hX : ∀ l, IsOff (X l)) : IsOff (extractAt ![0] (k1_pay435 X) inpos_S1_p0) :=
  isOff_extract X hX ![7] slices_S16_o7_S1 ![0] inpos_S1_p0
theorem chk72_of (t : Fin k1_t1_loop.trips) (X : IVec S16 32) (hX : ∀ l, IsOff (X l)) :
    k1_chk72 t (extractAt ![0] (k1_pay435 X) inpos_S1_p0) :=
  chk72_of_isOff t _ (isOff_w72_of X hX)
theorem chk72 (t : Fin k1_t1_loop.trips) {v3991 : IVec S16 32} :
    k1_chk72 t (extractAt ![0] (k1_pay435 (k1_pay394 v3991)) inpos_S1_p0) :=
  chk72_of t _ (isOff_pay394 v3991)

theorem isOff_w73_of (X : IVec S16 32) (hX : ∀ l, IsOff (X l)) : IsOff (extractAt ![0] (k1_pay440 X) inpos_S1_p0) :=
  isOff_extract X hX ![8] slices_S16_o8_S1 ![0] inpos_S1_p0
theorem chk73_of (t : Fin k1_t1_loop.trips) (X : IVec S16 32) (hX : ∀ l, IsOff (X l)) :
    k1_chk73 t (extractAt ![0] (k1_pay440 X) inpos_S1_p0) :=
  chk73_of_isOff t _ (isOff_w73_of X hX)
theorem chk73 (t : Fin k1_t1_loop.trips) {v3991 : IVec S16 32} :
    k1_chk73 t (extractAt ![0] (k1_pay440 (k1_pay394 v3991)) inpos_S1_p0) :=
  chk73_of t _ (isOff_pay394 v3991)

theorem isOff_w74_of (X : IVec S16 32) (hX : ∀ l, IsOff (X l)) : IsOff (extractAt ![0] (k1_pay446 X) inpos_S1_p0) :=
  isOff_extract X hX ![9] slices_S16_o9_S1 ![0] inpos_S1_p0
theorem chk74_of (t : Fin k1_t1_loop.trips) (X : IVec S16 32) (hX : ∀ l, IsOff (X l)) :
    k1_chk74 t (extractAt ![0] (k1_pay446 X) inpos_S1_p0) :=
  chk74_of_isOff t _ (isOff_w74_of X hX)
theorem chk74 (t : Fin k1_t1_loop.trips) {v3991 : IVec S16 32} :
    k1_chk74 t (extractAt ![0] (k1_pay446 (k1_pay394 v3991)) inpos_S1_p0) :=
  chk74_of t _ (isOff_pay394 v3991)

theorem isOff_w75_of (X : IVec S16 32) (hX : ∀ l, IsOff (X l)) : IsOff (extractAt ![0] (k1_pay452 X) inpos_S1_p0) :=
  isOff_extract X hX ![10] slices_S16_o10_S1 ![0] inpos_S1_p0
theorem chk75_of (t : Fin k1_t1_loop.trips) (X : IVec S16 32) (hX : ∀ l, IsOff (X l)) :
    k1_chk75 t (extractAt ![0] (k1_pay452 X) inpos_S1_p0) :=
  chk75_of_isOff t _ (isOff_w75_of X hX)
theorem chk75 (t : Fin k1_t1_loop.trips) {v3991 : IVec S16 32} :
    k1_chk75 t (extractAt ![0] (k1_pay452 (k1_pay394 v3991)) inpos_S1_p0) :=
  chk75_of t _ (isOff_pay394 v3991)

theorem isOff_w76_of (X : IVec S16 32) (hX : ∀ l, IsOff (X l)) : IsOff (extractAt ![0] (k1_pay457 X) inpos_S1_p0) :=
  isOff_extract X hX ![11] slices_S16_o11_S1 ![0] inpos_S1_p0
theorem chk76_of (t : Fin k1_t1_loop.trips) (X : IVec S16 32) (hX : ∀ l, IsOff (X l)) :
    k1_chk76 t (extractAt ![0] (k1_pay457 X) inpos_S1_p0) :=
  chk76_of_isOff t _ (isOff_w76_of X hX)
theorem chk76 (t : Fin k1_t1_loop.trips) {v3991 : IVec S16 32} :
    k1_chk76 t (extractAt ![0] (k1_pay457 (k1_pay394 v3991)) inpos_S1_p0) :=
  chk76_of t _ (isOff_pay394 v3991)

theorem isOff_w77_of (X : IVec S16 32) (hX : ∀ l, IsOff (X l)) : IsOff (extractAt ![0] (k1_pay463 X) inpos_S1_p0) :=
  isOff_extract X hX ![12] slices_S16_o12_S1 ![0] inpos_S1_p0
theorem chk77_of (t : Fin k1_t1_loop.trips) (X : IVec S16 32) (hX : ∀ l, IsOff (X l)) :
    k1_chk77 t (extractAt ![0] (k1_pay463 X) inpos_S1_p0) :=
  chk77_of_isOff t _ (isOff_w77_of X hX)
theorem chk77 (t : Fin k1_t1_loop.trips) {v3991 : IVec S16 32} :
    k1_chk77 t (extractAt ![0] (k1_pay463 (k1_pay394 v3991)) inpos_S1_p0) :=
  chk77_of t _ (isOff_pay394 v3991)

theorem isOff_w78_of (X : IVec S16 32) (hX : ∀ l, IsOff (X l)) : IsOff (extractAt ![0] (k1_pay468 X) inpos_S1_p0) :=
  isOff_extract X hX ![13] slices_S16_o13_S1 ![0] inpos_S1_p0
theorem chk78_of (t : Fin k1_t1_loop.trips) (X : IVec S16 32) (hX : ∀ l, IsOff (X l)) :
    k1_chk78 t (extractAt ![0] (k1_pay468 X) inpos_S1_p0) :=
  chk78_of_isOff t _ (isOff_w78_of X hX)
theorem chk78 (t : Fin k1_t1_loop.trips) {v3991 : IVec S16 32} :
    k1_chk78 t (extractAt ![0] (k1_pay468 (k1_pay394 v3991)) inpos_S1_p0) :=
  chk78_of t _ (isOff_pay394 v3991)

theorem isOff_w79_of (X : IVec S16 32) (hX : ∀ l, IsOff (X l)) : IsOff (extractAt ![0] (k1_pay474 X) inpos_S1_p0) :=
  isOff_extract X hX ![14] slices_S16_o14_S1 ![0] inpos_S1_p0
theorem chk79_of (t : Fin k1_t1_loop.trips) (X : IVec S16 32) (hX : ∀ l, IsOff (X l)) :
    k1_chk79 t (extractAt ![0] (k1_pay474 X) inpos_S1_p0) :=
  chk79_of_isOff t _ (isOff_w79_of X hX)
theorem chk79 (t : Fin k1_t1_loop.trips) {v3991 : IVec S16 32} :
    k1_chk79 t (extractAt ![0] (k1_pay474 (k1_pay394 v3991)) inpos_S1_p0) :=
  chk79_of t _ (isOff_pay394 v3991)

theorem isOff_w80_of (X : IVec S16 32) (hX : ∀ l, IsOff (X l)) : IsOff (extractAt ![0] (k1_pay479 X) inpos_S1_p0) :=
  isOff_extract X hX ![15] slices_S16_o15_S1 ![0] inpos_S1_p0
theorem chk80_of (t : Fin k1_t1_loop.trips) (X : IVec S16 32) (hX : ∀ l, IsOff (X l)) :
    k1_chk80 t (extractAt ![0] (k1_pay479 X) inpos_S1_p0) :=
  chk80_of_isOff t _ (isOff_w80_of X hX)
theorem chk80 (t : Fin k1_t1_loop.trips) {v3991 : IVec S16 32} :
    k1_chk80 t (extractAt ![0] (k1_pay479 (k1_pay394 v3991)) inpos_S1_p0) :=
  chk80_of t _ (isOff_pay394 v3991)

/-! ### Index words 80 to 95 -/

/-- Every lane of this group's offset vector is 0 or 64. -/
theorem isOff_pay488 (v4883 : IVec S16 32) (l : S16.Idx) : IsOff (k1_pay488 v4883 l) := isOff_offLane _ l

theorem isOff_w81 (v4883 : IVec S16 32) : IsOff (extractAt ![0] (k1_pay489 v4883) inpos_S1_p0) :=
  isOff_extract (k1_pay488 v4883) (isOff_pay488 v4883) ![0] slices_S16_o0_S1 ![0] inpos_S1_p0

theorem chk81 (t : Fin k1_t1_loop.trips) {v4883 : IVec S16 32} :
    k1_chk81 t (extractAt ![0] (k1_pay489 v4883) inpos_S1_p0) :=
  chk81_of_isOff t _ (isOff_w81 v4883)

theorem isOff_w82_of (X : IVec S16 32) (hX : ∀ l, IsOff (X l)) : IsOff (extractAt ![0] (k1_pay494 X) inpos_S1_p0) :=
  isOff_extract X hX ![1] slices_S16_o1_S1 ![0] inpos_S1_p0
theorem chk82_of (t : Fin k1_t1_loop.trips) (X : IVec S16 32) (hX : ∀ l, IsOff (X l)) :
    k1_chk82 t (extractAt ![0] (k1_pay494 X) inpos_S1_p0) :=
  chk82_of_isOff t _ (isOff_w82_of X hX)
theorem chk82 (t : Fin k1_t1_loop.trips) {v4883 : IVec S16 32} :
    k1_chk82 t (extractAt ![0] (k1_pay494 (k1_pay488 v4883)) inpos_S1_p0) :=
  chk82_of t _ (isOff_pay488 v4883)

theorem isOff_w83_of (X : IVec S16 32) (hX : ∀ l, IsOff (X l)) : IsOff (extractAt ![0] (k1_pay500 X) inpos_S1_p0) :=
  isOff_extract X hX ![2] slices_S16_o2_S1 ![0] inpos_S1_p0
theorem chk83_of (t : Fin k1_t1_loop.trips) (X : IVec S16 32) (hX : ∀ l, IsOff (X l)) :
    k1_chk83 t (extractAt ![0] (k1_pay500 X) inpos_S1_p0) :=
  chk83_of_isOff t _ (isOff_w83_of X hX)
theorem chk83 (t : Fin k1_t1_loop.trips) {v4883 : IVec S16 32} :
    k1_chk83 t (extractAt ![0] (k1_pay500 (k1_pay488 v4883)) inpos_S1_p0) :=
  chk83_of t _ (isOff_pay488 v4883)

theorem isOff_w84_of (X : IVec S16 32) (hX : ∀ l, IsOff (X l)) : IsOff (extractAt ![0] (k1_pay506 X) inpos_S1_p0) :=
  isOff_extract X hX ![3] slices_S16_o3_S1 ![0] inpos_S1_p0
theorem chk84_of (t : Fin k1_t1_loop.trips) (X : IVec S16 32) (hX : ∀ l, IsOff (X l)) :
    k1_chk84 t (extractAt ![0] (k1_pay506 X) inpos_S1_p0) :=
  chk84_of_isOff t _ (isOff_w84_of X hX)
theorem chk84 (t : Fin k1_t1_loop.trips) {v4883 : IVec S16 32} :
    k1_chk84 t (extractAt ![0] (k1_pay506 (k1_pay488 v4883)) inpos_S1_p0) :=
  chk84_of t _ (isOff_pay488 v4883)

theorem isOff_w85_of (X : IVec S16 32) (hX : ∀ l, IsOff (X l)) : IsOff (extractAt ![0] (k1_pay512 X) inpos_S1_p0) :=
  isOff_extract X hX ![4] slices_S16_o4_S1 ![0] inpos_S1_p0
theorem chk85_of (t : Fin k1_t1_loop.trips) (X : IVec S16 32) (hX : ∀ l, IsOff (X l)) :
    k1_chk85 t (extractAt ![0] (k1_pay512 X) inpos_S1_p0) :=
  chk85_of_isOff t _ (isOff_w85_of X hX)
theorem chk85 (t : Fin k1_t1_loop.trips) {v4883 : IVec S16 32} :
    k1_chk85 t (extractAt ![0] (k1_pay512 (k1_pay488 v4883)) inpos_S1_p0) :=
  chk85_of t _ (isOff_pay488 v4883)

theorem isOff_w86_of (X : IVec S16 32) (hX : ∀ l, IsOff (X l)) : IsOff (extractAt ![0] (k1_pay518 X) inpos_S1_p0) :=
  isOff_extract X hX ![5] slices_S16_o5_S1 ![0] inpos_S1_p0
theorem chk86_of (t : Fin k1_t1_loop.trips) (X : IVec S16 32) (hX : ∀ l, IsOff (X l)) :
    k1_chk86 t (extractAt ![0] (k1_pay518 X) inpos_S1_p0) :=
  chk86_of_isOff t _ (isOff_w86_of X hX)
theorem chk86 (t : Fin k1_t1_loop.trips) {v4883 : IVec S16 32} :
    k1_chk86 t (extractAt ![0] (k1_pay518 (k1_pay488 v4883)) inpos_S1_p0) :=
  chk86_of t _ (isOff_pay488 v4883)

theorem isOff_w87_of (X : IVec S16 32) (hX : ∀ l, IsOff (X l)) : IsOff (extractAt ![0] (k1_pay523 X) inpos_S1_p0) :=
  isOff_extract X hX ![6] slices_S16_o6_S1 ![0] inpos_S1_p0
theorem chk87_of (t : Fin k1_t1_loop.trips) (X : IVec S16 32) (hX : ∀ l, IsOff (X l)) :
    k1_chk87 t (extractAt ![0] (k1_pay523 X) inpos_S1_p0) :=
  chk87_of_isOff t _ (isOff_w87_of X hX)
theorem chk87 (t : Fin k1_t1_loop.trips) {v4883 : IVec S16 32} :
    k1_chk87 t (extractAt ![0] (k1_pay523 (k1_pay488 v4883)) inpos_S1_p0) :=
  chk87_of t _ (isOff_pay488 v4883)

theorem isOff_w88_of (X : IVec S16 32) (hX : ∀ l, IsOff (X l)) : IsOff (extractAt ![0] (k1_pay529 X) inpos_S1_p0) :=
  isOff_extract X hX ![7] slices_S16_o7_S1 ![0] inpos_S1_p0
theorem chk88_of (t : Fin k1_t1_loop.trips) (X : IVec S16 32) (hX : ∀ l, IsOff (X l)) :
    k1_chk88 t (extractAt ![0] (k1_pay529 X) inpos_S1_p0) :=
  chk88_of_isOff t _ (isOff_w88_of X hX)
theorem chk88 (t : Fin k1_t1_loop.trips) {v4883 : IVec S16 32} :
    k1_chk88 t (extractAt ![0] (k1_pay529 (k1_pay488 v4883)) inpos_S1_p0) :=
  chk88_of t _ (isOff_pay488 v4883)

theorem isOff_w89_of (X : IVec S16 32) (hX : ∀ l, IsOff (X l)) : IsOff (extractAt ![0] (k1_pay534 X) inpos_S1_p0) :=
  isOff_extract X hX ![8] slices_S16_o8_S1 ![0] inpos_S1_p0
theorem chk89_of (t : Fin k1_t1_loop.trips) (X : IVec S16 32) (hX : ∀ l, IsOff (X l)) :
    k1_chk89 t (extractAt ![0] (k1_pay534 X) inpos_S1_p0) :=
  chk89_of_isOff t _ (isOff_w89_of X hX)
theorem chk89 (t : Fin k1_t1_loop.trips) {v4883 : IVec S16 32} :
    k1_chk89 t (extractAt ![0] (k1_pay534 (k1_pay488 v4883)) inpos_S1_p0) :=
  chk89_of t _ (isOff_pay488 v4883)

theorem isOff_w90_of (X : IVec S16 32) (hX : ∀ l, IsOff (X l)) : IsOff (extractAt ![0] (k1_pay540 X) inpos_S1_p0) :=
  isOff_extract X hX ![9] slices_S16_o9_S1 ![0] inpos_S1_p0
theorem chk90_of (t : Fin k1_t1_loop.trips) (X : IVec S16 32) (hX : ∀ l, IsOff (X l)) :
    k1_chk90 t (extractAt ![0] (k1_pay540 X) inpos_S1_p0) :=
  chk90_of_isOff t _ (isOff_w90_of X hX)
theorem chk90 (t : Fin k1_t1_loop.trips) {v4883 : IVec S16 32} :
    k1_chk90 t (extractAt ![0] (k1_pay540 (k1_pay488 v4883)) inpos_S1_p0) :=
  chk90_of t _ (isOff_pay488 v4883)

theorem isOff_w91_of (X : IVec S16 32) (hX : ∀ l, IsOff (X l)) : IsOff (extractAt ![0] (k1_pay545 X) inpos_S1_p0) :=
  isOff_extract X hX ![10] slices_S16_o10_S1 ![0] inpos_S1_p0
theorem chk91_of (t : Fin k1_t1_loop.trips) (X : IVec S16 32) (hX : ∀ l, IsOff (X l)) :
    k1_chk91 t (extractAt ![0] (k1_pay545 X) inpos_S1_p0) :=
  chk91_of_isOff t _ (isOff_w91_of X hX)
theorem chk91 (t : Fin k1_t1_loop.trips) {v4883 : IVec S16 32} :
    k1_chk91 t (extractAt ![0] (k1_pay545 (k1_pay488 v4883)) inpos_S1_p0) :=
  chk91_of t _ (isOff_pay488 v4883)

theorem isOff_w92_of (X : IVec S16 32) (hX : ∀ l, IsOff (X l)) : IsOff (extractAt ![0] (k1_pay551 X) inpos_S1_p0) :=
  isOff_extract X hX ![11] slices_S16_o11_S1 ![0] inpos_S1_p0
theorem chk92_of (t : Fin k1_t1_loop.trips) (X : IVec S16 32) (hX : ∀ l, IsOff (X l)) :
    k1_chk92 t (extractAt ![0] (k1_pay551 X) inpos_S1_p0) :=
  chk92_of_isOff t _ (isOff_w92_of X hX)
theorem chk92 (t : Fin k1_t1_loop.trips) {v4883 : IVec S16 32} :
    k1_chk92 t (extractAt ![0] (k1_pay551 (k1_pay488 v4883)) inpos_S1_p0) :=
  chk92_of t _ (isOff_pay488 v4883)

theorem isOff_w93_of (X : IVec S16 32) (hX : ∀ l, IsOff (X l)) : IsOff (extractAt ![0] (k1_pay557 X) inpos_S1_p0) :=
  isOff_extract X hX ![12] slices_S16_o12_S1 ![0] inpos_S1_p0
theorem chk93_of (t : Fin k1_t1_loop.trips) (X : IVec S16 32) (hX : ∀ l, IsOff (X l)) :
    k1_chk93 t (extractAt ![0] (k1_pay557 X) inpos_S1_p0) :=
  chk93_of_isOff t _ (isOff_w93_of X hX)
theorem chk93 (t : Fin k1_t1_loop.trips) {v4883 : IVec S16 32} :
    k1_chk93 t (extractAt ![0] (k1_pay557 (k1_pay488 v4883)) inpos_S1_p0) :=
  chk93_of t _ (isOff_pay488 v4883)

theorem isOff_w94_of (X : IVec S16 32) (hX : ∀ l, IsOff (X l)) : IsOff (extractAt ![0] (k1_pay562 X) inpos_S1_p0) :=
  isOff_extract X hX ![13] slices_S16_o13_S1 ![0] inpos_S1_p0
theorem chk94_of (t : Fin k1_t1_loop.trips) (X : IVec S16 32) (hX : ∀ l, IsOff (X l)) :
    k1_chk94 t (extractAt ![0] (k1_pay562 X) inpos_S1_p0) :=
  chk94_of_isOff t _ (isOff_w94_of X hX)
theorem chk94 (t : Fin k1_t1_loop.trips) {v4883 : IVec S16 32} :
    k1_chk94 t (extractAt ![0] (k1_pay562 (k1_pay488 v4883)) inpos_S1_p0) :=
  chk94_of t _ (isOff_pay488 v4883)

theorem isOff_w95_of (X : IVec S16 32) (hX : ∀ l, IsOff (X l)) : IsOff (extractAt ![0] (k1_pay568 X) inpos_S1_p0) :=
  isOff_extract X hX ![14] slices_S16_o14_S1 ![0] inpos_S1_p0
theorem chk95_of (t : Fin k1_t1_loop.trips) (X : IVec S16 32) (hX : ∀ l, IsOff (X l)) :
    k1_chk95 t (extractAt ![0] (k1_pay568 X) inpos_S1_p0) :=
  chk95_of_isOff t _ (isOff_w95_of X hX)
theorem chk95 (t : Fin k1_t1_loop.trips) {v4883 : IVec S16 32} :
    k1_chk95 t (extractAt ![0] (k1_pay568 (k1_pay488 v4883)) inpos_S1_p0) :=
  chk95_of t _ (isOff_pay488 v4883)

theorem isOff_w96_of (X : IVec S16 32) (hX : ∀ l, IsOff (X l)) : IsOff (extractAt ![0] (k1_pay573 X) inpos_S1_p0) :=
  isOff_extract X hX ![15] slices_S16_o15_S1 ![0] inpos_S1_p0
theorem chk96_of (t : Fin k1_t1_loop.trips) (X : IVec S16 32) (hX : ∀ l, IsOff (X l)) :
    k1_chk96 t (extractAt ![0] (k1_pay573 X) inpos_S1_p0) :=
  chk96_of_isOff t _ (isOff_w96_of X hX)
theorem chk96 (t : Fin k1_t1_loop.trips) {v4883 : IVec S16 32} :
    k1_chk96 t (extractAt ![0] (k1_pay573 (k1_pay488 v4883)) inpos_S1_p0) :=
  chk96_of t _ (isOff_pay488 v4883)

/-! ### Index words 96 to 111 -/

/-- Every lane of this group's offset vector is 0 or 64. -/
theorem isOff_pay583 (v5775 : IVec S16 32) (l : S16.Idx) : IsOff (k1_pay583 v5775 l) := isOff_offLane _ l

theorem isOff_w97 (v5775 : IVec S16 32) : IsOff (extractAt ![0] (k1_pay584 v5775) inpos_S1_p0) :=
  isOff_extract (k1_pay583 v5775) (isOff_pay583 v5775) ![0] slices_S16_o0_S1 ![0] inpos_S1_p0

theorem chk97 (t : Fin k1_t1_loop.trips) {v5775 : IVec S16 32} :
    k1_chk97 t (extractAt ![0] (k1_pay584 v5775) inpos_S1_p0) :=
  chk97_of_isOff t _ (isOff_w97 v5775)

theorem isOff_w98_of (X : IVec S16 32) (hX : ∀ l, IsOff (X l)) : IsOff (extractAt ![0] (k1_pay589 X) inpos_S1_p0) :=
  isOff_extract X hX ![1] slices_S16_o1_S1 ![0] inpos_S1_p0
theorem chk98_of (t : Fin k1_t1_loop.trips) (X : IVec S16 32) (hX : ∀ l, IsOff (X l)) :
    k1_chk98 t (extractAt ![0] (k1_pay589 X) inpos_S1_p0) :=
  chk98_of_isOff t _ (isOff_w98_of X hX)
theorem chk98 (t : Fin k1_t1_loop.trips) {v5775 : IVec S16 32} :
    k1_chk98 t (extractAt ![0] (k1_pay589 (k1_pay583 v5775)) inpos_S1_p0) :=
  chk98_of t _ (isOff_pay583 v5775)

theorem isOff_w99_of (X : IVec S16 32) (hX : ∀ l, IsOff (X l)) : IsOff (extractAt ![0] (k1_pay595 X) inpos_S1_p0) :=
  isOff_extract X hX ![2] slices_S16_o2_S1 ![0] inpos_S1_p0
theorem chk99_of (t : Fin k1_t1_loop.trips) (X : IVec S16 32) (hX : ∀ l, IsOff (X l)) :
    k1_chk99 t (extractAt ![0] (k1_pay595 X) inpos_S1_p0) :=
  chk99_of_isOff t _ (isOff_w99_of X hX)
theorem chk99 (t : Fin k1_t1_loop.trips) {v5775 : IVec S16 32} :
    k1_chk99 t (extractAt ![0] (k1_pay595 (k1_pay583 v5775)) inpos_S1_p0) :=
  chk99_of t _ (isOff_pay583 v5775)

theorem isOff_w100_of (X : IVec S16 32) (hX : ∀ l, IsOff (X l)) : IsOff (extractAt ![0] (k1_pay600 X) inpos_S1_p0) :=
  isOff_extract X hX ![3] slices_S16_o3_S1 ![0] inpos_S1_p0
theorem chk100_of (t : Fin k1_t1_loop.trips) (X : IVec S16 32) (hX : ∀ l, IsOff (X l)) :
    k1_chk100 t (extractAt ![0] (k1_pay600 X) inpos_S1_p0) :=
  chk100_of_isOff t _ (isOff_w100_of X hX)
theorem chk100 (t : Fin k1_t1_loop.trips) {v5775 : IVec S16 32} :
    k1_chk100 t (extractAt ![0] (k1_pay600 (k1_pay583 v5775)) inpos_S1_p0) :=
  chk100_of t _ (isOff_pay583 v5775)

theorem isOff_w101_of (X : IVec S16 32) (hX : ∀ l, IsOff (X l)) : IsOff (extractAt ![0] (k1_pay606 X) inpos_S1_p0) :=
  isOff_extract X hX ![4] slices_S16_o4_S1 ![0] inpos_S1_p0
theorem chk101_of (t : Fin k1_t1_loop.trips) (X : IVec S16 32) (hX : ∀ l, IsOff (X l)) :
    k1_chk101 t (extractAt ![0] (k1_pay606 X) inpos_S1_p0) :=
  chk101_of_isOff t _ (isOff_w101_of X hX)
theorem chk101 (t : Fin k1_t1_loop.trips) {v5775 : IVec S16 32} :
    k1_chk101 t (extractAt ![0] (k1_pay606 (k1_pay583 v5775)) inpos_S1_p0) :=
  chk101_of t _ (isOff_pay583 v5775)

theorem isOff_w102_of (X : IVec S16 32) (hX : ∀ l, IsOff (X l)) : IsOff (extractAt ![0] (k1_pay612 X) inpos_S1_p0) :=
  isOff_extract X hX ![5] slices_S16_o5_S1 ![0] inpos_S1_p0
theorem chk102_of (t : Fin k1_t1_loop.trips) (X : IVec S16 32) (hX : ∀ l, IsOff (X l)) :
    k1_chk102 t (extractAt ![0] (k1_pay612 X) inpos_S1_p0) :=
  chk102_of_isOff t _ (isOff_w102_of X hX)
theorem chk102 (t : Fin k1_t1_loop.trips) {v5775 : IVec S16 32} :
    k1_chk102 t (extractAt ![0] (k1_pay612 (k1_pay583 v5775)) inpos_S1_p0) :=
  chk102_of t _ (isOff_pay583 v5775)

theorem isOff_w103_of (X : IVec S16 32) (hX : ∀ l, IsOff (X l)) : IsOff (extractAt ![0] (k1_pay618 X) inpos_S1_p0) :=
  isOff_extract X hX ![6] slices_S16_o6_S1 ![0] inpos_S1_p0
theorem chk103_of (t : Fin k1_t1_loop.trips) (X : IVec S16 32) (hX : ∀ l, IsOff (X l)) :
    k1_chk103 t (extractAt ![0] (k1_pay618 X) inpos_S1_p0) :=
  chk103_of_isOff t _ (isOff_w103_of X hX)
theorem chk103 (t : Fin k1_t1_loop.trips) {v5775 : IVec S16 32} :
    k1_chk103 t (extractAt ![0] (k1_pay618 (k1_pay583 v5775)) inpos_S1_p0) :=
  chk103_of t _ (isOff_pay583 v5775)

theorem isOff_w104_of (X : IVec S16 32) (hX : ∀ l, IsOff (X l)) : IsOff (extractAt ![0] (k1_pay624 X) inpos_S1_p0) :=
  isOff_extract X hX ![7] slices_S16_o7_S1 ![0] inpos_S1_p0
theorem chk104_of (t : Fin k1_t1_loop.trips) (X : IVec S16 32) (hX : ∀ l, IsOff (X l)) :
    k1_chk104 t (extractAt ![0] (k1_pay624 X) inpos_S1_p0) :=
  chk104_of_isOff t _ (isOff_w104_of X hX)
theorem chk104 (t : Fin k1_t1_loop.trips) {v5775 : IVec S16 32} :
    k1_chk104 t (extractAt ![0] (k1_pay624 (k1_pay583 v5775)) inpos_S1_p0) :=
  chk104_of t _ (isOff_pay583 v5775)

theorem isOff_w105_of (X : IVec S16 32) (hX : ∀ l, IsOff (X l)) : IsOff (extractAt ![0] (k1_pay629 X) inpos_S1_p0) :=
  isOff_extract X hX ![8] slices_S16_o8_S1 ![0] inpos_S1_p0
theorem chk105_of (t : Fin k1_t1_loop.trips) (X : IVec S16 32) (hX : ∀ l, IsOff (X l)) :
    k1_chk105 t (extractAt ![0] (k1_pay629 X) inpos_S1_p0) :=
  chk105_of_isOff t _ (isOff_w105_of X hX)
theorem chk105 (t : Fin k1_t1_loop.trips) {v5775 : IVec S16 32} :
    k1_chk105 t (extractAt ![0] (k1_pay629 (k1_pay583 v5775)) inpos_S1_p0) :=
  chk105_of t _ (isOff_pay583 v5775)

theorem isOff_w106_of (X : IVec S16 32) (hX : ∀ l, IsOff (X l)) : IsOff (extractAt ![0] (k1_pay635 X) inpos_S1_p0) :=
  isOff_extract X hX ![9] slices_S16_o9_S1 ![0] inpos_S1_p0
theorem chk106_of (t : Fin k1_t1_loop.trips) (X : IVec S16 32) (hX : ∀ l, IsOff (X l)) :
    k1_chk106 t (extractAt ![0] (k1_pay635 X) inpos_S1_p0) :=
  chk106_of_isOff t _ (isOff_w106_of X hX)
theorem chk106 (t : Fin k1_t1_loop.trips) {v5775 : IVec S16 32} :
    k1_chk106 t (extractAt ![0] (k1_pay635 (k1_pay583 v5775)) inpos_S1_p0) :=
  chk106_of t _ (isOff_pay583 v5775)

theorem isOff_w107_of (X : IVec S16 32) (hX : ∀ l, IsOff (X l)) : IsOff (extractAt ![0] (k1_pay640 X) inpos_S1_p0) :=
  isOff_extract X hX ![10] slices_S16_o10_S1 ![0] inpos_S1_p0
theorem chk107_of (t : Fin k1_t1_loop.trips) (X : IVec S16 32) (hX : ∀ l, IsOff (X l)) :
    k1_chk107 t (extractAt ![0] (k1_pay640 X) inpos_S1_p0) :=
  chk107_of_isOff t _ (isOff_w107_of X hX)
theorem chk107 (t : Fin k1_t1_loop.trips) {v5775 : IVec S16 32} :
    k1_chk107 t (extractAt ![0] (k1_pay640 (k1_pay583 v5775)) inpos_S1_p0) :=
  chk107_of t _ (isOff_pay583 v5775)

theorem isOff_w108_of (X : IVec S16 32) (hX : ∀ l, IsOff (X l)) : IsOff (extractAt ![0] (k1_pay646 X) inpos_S1_p0) :=
  isOff_extract X hX ![11] slices_S16_o11_S1 ![0] inpos_S1_p0
theorem chk108_of (t : Fin k1_t1_loop.trips) (X : IVec S16 32) (hX : ∀ l, IsOff (X l)) :
    k1_chk108 t (extractAt ![0] (k1_pay646 X) inpos_S1_p0) :=
  chk108_of_isOff t _ (isOff_w108_of X hX)
theorem chk108 (t : Fin k1_t1_loop.trips) {v5775 : IVec S16 32} :
    k1_chk108 t (extractAt ![0] (k1_pay646 (k1_pay583 v5775)) inpos_S1_p0) :=
  chk108_of t _ (isOff_pay583 v5775)

theorem isOff_w109_of (X : IVec S16 32) (hX : ∀ l, IsOff (X l)) : IsOff (extractAt ![0] (k1_pay651 X) inpos_S1_p0) :=
  isOff_extract X hX ![12] slices_S16_o12_S1 ![0] inpos_S1_p0
theorem chk109_of (t : Fin k1_t1_loop.trips) (X : IVec S16 32) (hX : ∀ l, IsOff (X l)) :
    k1_chk109 t (extractAt ![0] (k1_pay651 X) inpos_S1_p0) :=
  chk109_of_isOff t _ (isOff_w109_of X hX)
theorem chk109 (t : Fin k1_t1_loop.trips) {v5775 : IVec S16 32} :
    k1_chk109 t (extractAt ![0] (k1_pay651 (k1_pay583 v5775)) inpos_S1_p0) :=
  chk109_of t _ (isOff_pay583 v5775)

theorem isOff_w110_of (X : IVec S16 32) (hX : ∀ l, IsOff (X l)) : IsOff (extractAt ![0] (k1_pay657 X) inpos_S1_p0) :=
  isOff_extract X hX ![13] slices_S16_o13_S1 ![0] inpos_S1_p0
theorem chk110_of (t : Fin k1_t1_loop.trips) (X : IVec S16 32) (hX : ∀ l, IsOff (X l)) :
    k1_chk110 t (extractAt ![0] (k1_pay657 X) inpos_S1_p0) :=
  chk110_of_isOff t _ (isOff_w110_of X hX)
theorem chk110 (t : Fin k1_t1_loop.trips) {v5775 : IVec S16 32} :
    k1_chk110 t (extractAt ![0] (k1_pay657 (k1_pay583 v5775)) inpos_S1_p0) :=
  chk110_of t _ (isOff_pay583 v5775)

theorem isOff_w111_of (X : IVec S16 32) (hX : ∀ l, IsOff (X l)) : IsOff (extractAt ![0] (k1_pay663 X) inpos_S1_p0) :=
  isOff_extract X hX ![14] slices_S16_o14_S1 ![0] inpos_S1_p0
theorem chk111_of (t : Fin k1_t1_loop.trips) (X : IVec S16 32) (hX : ∀ l, IsOff (X l)) :
    k1_chk111 t (extractAt ![0] (k1_pay663 X) inpos_S1_p0) :=
  chk111_of_isOff t _ (isOff_w111_of X hX)
theorem chk111 (t : Fin k1_t1_loop.trips) {v5775 : IVec S16 32} :
    k1_chk111 t (extractAt ![0] (k1_pay663 (k1_pay583 v5775)) inpos_S1_p0) :=
  chk111_of t _ (isOff_pay583 v5775)

theorem isOff_w112_of (X : IVec S16 32) (hX : ∀ l, IsOff (X l)) : IsOff (extractAt ![0] (k1_pay668 X) inpos_S1_p0) :=
  isOff_extract X hX ![15] slices_S16_o15_S1 ![0] inpos_S1_p0
theorem chk112_of (t : Fin k1_t1_loop.trips) (X : IVec S16 32) (hX : ∀ l, IsOff (X l)) :
    k1_chk112 t (extractAt ![0] (k1_pay668 X) inpos_S1_p0) :=
  chk112_of_isOff t _ (isOff_w112_of X hX)
theorem chk112 (t : Fin k1_t1_loop.trips) {v5775 : IVec S16 32} :
    k1_chk112 t (extractAt ![0] (k1_pay668 (k1_pay583 v5775)) inpos_S1_p0) :=
  chk112_of t _ (isOff_pay583 v5775)

/-! ### Index words 112 to 127 -/

/-- Every lane of this group's offset vector is 0 or 64. -/
theorem isOff_pay675 (v6667 : IVec S16 32) (l : S16.Idx) : IsOff (k1_pay675 v6667 l) := isOff_offLane _ l

theorem isOff_w113 (v6667 : IVec S16 32) : IsOff (extractAt ![0] (k1_pay676 v6667) inpos_S1_p0) :=
  isOff_extract (k1_pay675 v6667) (isOff_pay675 v6667) ![0] slices_S16_o0_S1 ![0] inpos_S1_p0

theorem chk113 (t : Fin k1_t1_loop.trips) {v6667 : IVec S16 32} :
    k1_chk113 t (extractAt ![0] (k1_pay676 v6667) inpos_S1_p0) :=
  chk113_of_isOff t _ (isOff_w113 v6667)

theorem isOff_w114_of (X : IVec S16 32) (hX : ∀ l, IsOff (X l)) : IsOff (extractAt ![0] (k1_pay681 X) inpos_S1_p0) :=
  isOff_extract X hX ![1] slices_S16_o1_S1 ![0] inpos_S1_p0
theorem chk114_of (t : Fin k1_t1_loop.trips) (X : IVec S16 32) (hX : ∀ l, IsOff (X l)) :
    k1_chk114 t (extractAt ![0] (k1_pay681 X) inpos_S1_p0) :=
  chk114_of_isOff t _ (isOff_w114_of X hX)
theorem chk114 (t : Fin k1_t1_loop.trips) {v6667 : IVec S16 32} :
    k1_chk114 t (extractAt ![0] (k1_pay681 (k1_pay675 v6667)) inpos_S1_p0) :=
  chk114_of t _ (isOff_pay675 v6667)

theorem isOff_w115_of (X : IVec S16 32) (hX : ∀ l, IsOff (X l)) : IsOff (extractAt ![0] (k1_pay688 X) inpos_S1_p0) :=
  isOff_extract X hX ![2] slices_S16_o2_S1 ![0] inpos_S1_p0
theorem chk115_of (t : Fin k1_t1_loop.trips) (X : IVec S16 32) (hX : ∀ l, IsOff (X l)) :
    k1_chk115 t (extractAt ![0] (k1_pay688 X) inpos_S1_p0) :=
  chk115_of_isOff t _ (isOff_w115_of X hX)
theorem chk115 (t : Fin k1_t1_loop.trips) {v6667 : IVec S16 32} :
    k1_chk115 t (extractAt ![0] (k1_pay688 (k1_pay675 v6667)) inpos_S1_p0) :=
  chk115_of t _ (isOff_pay675 v6667)

theorem isOff_w116_of (X : IVec S16 32) (hX : ∀ l, IsOff (X l)) : IsOff (extractAt ![0] (k1_pay693 X) inpos_S1_p0) :=
  isOff_extract X hX ![3] slices_S16_o3_S1 ![0] inpos_S1_p0
theorem chk116_of (t : Fin k1_t1_loop.trips) (X : IVec S16 32) (hX : ∀ l, IsOff (X l)) :
    k1_chk116 t (extractAt ![0] (k1_pay693 X) inpos_S1_p0) :=
  chk116_of_isOff t _ (isOff_w116_of X hX)
theorem chk116 (t : Fin k1_t1_loop.trips) {v6667 : IVec S16 32} :
    k1_chk116 t (extractAt ![0] (k1_pay693 (k1_pay675 v6667)) inpos_S1_p0) :=
  chk116_of t _ (isOff_pay675 v6667)

theorem isOff_w117_of (X : IVec S16 32) (hX : ∀ l, IsOff (X l)) : IsOff (extractAt ![0] (k1_pay699 X) inpos_S1_p0) :=
  isOff_extract X hX ![4] slices_S16_o4_S1 ![0] inpos_S1_p0
theorem chk117_of (t : Fin k1_t1_loop.trips) (X : IVec S16 32) (hX : ∀ l, IsOff (X l)) :
    k1_chk117 t (extractAt ![0] (k1_pay699 X) inpos_S1_p0) :=
  chk117_of_isOff t _ (isOff_w117_of X hX)
theorem chk117 (t : Fin k1_t1_loop.trips) {v6667 : IVec S16 32} :
    k1_chk117 t (extractAt ![0] (k1_pay699 (k1_pay675 v6667)) inpos_S1_p0) :=
  chk117_of t _ (isOff_pay675 v6667)

theorem isOff_w118_of (X : IVec S16 32) (hX : ∀ l, IsOff (X l)) : IsOff (extractAt ![0] (k1_pay704 X) inpos_S1_p0) :=
  isOff_extract X hX ![5] slices_S16_o5_S1 ![0] inpos_S1_p0
theorem chk118_of (t : Fin k1_t1_loop.trips) (X : IVec S16 32) (hX : ∀ l, IsOff (X l)) :
    k1_chk118 t (extractAt ![0] (k1_pay704 X) inpos_S1_p0) :=
  chk118_of_isOff t _ (isOff_w118_of X hX)
theorem chk118 (t : Fin k1_t1_loop.trips) {v6667 : IVec S16 32} :
    k1_chk118 t (extractAt ![0] (k1_pay704 (k1_pay675 v6667)) inpos_S1_p0) :=
  chk118_of t _ (isOff_pay675 v6667)

theorem isOff_w119_of (X : IVec S16 32) (hX : ∀ l, IsOff (X l)) : IsOff (extractAt ![0] (k1_pay710 X) inpos_S1_p0) :=
  isOff_extract X hX ![6] slices_S16_o6_S1 ![0] inpos_S1_p0
theorem chk119_of (t : Fin k1_t1_loop.trips) (X : IVec S16 32) (hX : ∀ l, IsOff (X l)) :
    k1_chk119 t (extractAt ![0] (k1_pay710 X) inpos_S1_p0) :=
  chk119_of_isOff t _ (isOff_w119_of X hX)
theorem chk119 (t : Fin k1_t1_loop.trips) {v6667 : IVec S16 32} :
    k1_chk119 t (extractAt ![0] (k1_pay710 (k1_pay675 v6667)) inpos_S1_p0) :=
  chk119_of t _ (isOff_pay675 v6667)

theorem isOff_w120_of (X : IVec S16 32) (hX : ∀ l, IsOff (X l)) : IsOff (extractAt ![0] (k1_pay716 X) inpos_S1_p0) :=
  isOff_extract X hX ![7] slices_S16_o7_S1 ![0] inpos_S1_p0
theorem chk120_of (t : Fin k1_t1_loop.trips) (X : IVec S16 32) (hX : ∀ l, IsOff (X l)) :
    k1_chk120 t (extractAt ![0] (k1_pay716 X) inpos_S1_p0) :=
  chk120_of_isOff t _ (isOff_w120_of X hX)
theorem chk120 (t : Fin k1_t1_loop.trips) {v6667 : IVec S16 32} :
    k1_chk120 t (extractAt ![0] (k1_pay716 (k1_pay675 v6667)) inpos_S1_p0) :=
  chk120_of t _ (isOff_pay675 v6667)

theorem isOff_w121_of (X : IVec S16 32) (hX : ∀ l, IsOff (X l)) : IsOff (extractAt ![0] (k1_pay722 X) inpos_S1_p0) :=
  isOff_extract X hX ![8] slices_S16_o8_S1 ![0] inpos_S1_p0
theorem chk121_of (t : Fin k1_t1_loop.trips) (X : IVec S16 32) (hX : ∀ l, IsOff (X l)) :
    k1_chk121 t (extractAt ![0] (k1_pay722 X) inpos_S1_p0) :=
  chk121_of_isOff t _ (isOff_w121_of X hX)
theorem chk121 (t : Fin k1_t1_loop.trips) {v6667 : IVec S16 32} :
    k1_chk121 t (extractAt ![0] (k1_pay722 (k1_pay675 v6667)) inpos_S1_p0) :=
  chk121_of t _ (isOff_pay675 v6667)

theorem isOff_w122_of (X : IVec S16 32) (hX : ∀ l, IsOff (X l)) : IsOff (extractAt ![0] (k1_pay728 X) inpos_S1_p0) :=
  isOff_extract X hX ![9] slices_S16_o9_S1 ![0] inpos_S1_p0
theorem chk122_of (t : Fin k1_t1_loop.trips) (X : IVec S16 32) (hX : ∀ l, IsOff (X l)) :
    k1_chk122 t (extractAt ![0] (k1_pay728 X) inpos_S1_p0) :=
  chk122_of_isOff t _ (isOff_w122_of X hX)
theorem chk122 (t : Fin k1_t1_loop.trips) {v6667 : IVec S16 32} :
    k1_chk122 t (extractAt ![0] (k1_pay728 (k1_pay675 v6667)) inpos_S1_p0) :=
  chk122_of t _ (isOff_pay675 v6667)

theorem isOff_w123_of (X : IVec S16 32) (hX : ∀ l, IsOff (X l)) : IsOff (extractAt ![0] (k1_pay733 X) inpos_S1_p0) :=
  isOff_extract X hX ![10] slices_S16_o10_S1 ![0] inpos_S1_p0
theorem chk123_of (t : Fin k1_t1_loop.trips) (X : IVec S16 32) (hX : ∀ l, IsOff (X l)) :
    k1_chk123 t (extractAt ![0] (k1_pay733 X) inpos_S1_p0) :=
  chk123_of_isOff t _ (isOff_w123_of X hX)
theorem chk123 (t : Fin k1_t1_loop.trips) {v6667 : IVec S16 32} :
    k1_chk123 t (extractAt ![0] (k1_pay733 (k1_pay675 v6667)) inpos_S1_p0) :=
  chk123_of t _ (isOff_pay675 v6667)

theorem isOff_w124_of (X : IVec S16 32) (hX : ∀ l, IsOff (X l)) : IsOff (extractAt ![0] (k1_pay739 X) inpos_S1_p0) :=
  isOff_extract X hX ![11] slices_S16_o11_S1 ![0] inpos_S1_p0
theorem chk124_of (t : Fin k1_t1_loop.trips) (X : IVec S16 32) (hX : ∀ l, IsOff (X l)) :
    k1_chk124 t (extractAt ![0] (k1_pay739 X) inpos_S1_p0) :=
  chk124_of_isOff t _ (isOff_w124_of X hX)
theorem chk124 (t : Fin k1_t1_loop.trips) {v6667 : IVec S16 32} :
    k1_chk124 t (extractAt ![0] (k1_pay739 (k1_pay675 v6667)) inpos_S1_p0) :=
  chk124_of t _ (isOff_pay675 v6667)

theorem isOff_w125_of (X : IVec S16 32) (hX : ∀ l, IsOff (X l)) : IsOff (extractAt ![0] (k1_pay744 X) inpos_S1_p0) :=
  isOff_extract X hX ![12] slices_S16_o12_S1 ![0] inpos_S1_p0
theorem chk125_of (t : Fin k1_t1_loop.trips) (X : IVec S16 32) (hX : ∀ l, IsOff (X l)) :
    k1_chk125 t (extractAt ![0] (k1_pay744 X) inpos_S1_p0) :=
  chk125_of_isOff t _ (isOff_w125_of X hX)
theorem chk125 (t : Fin k1_t1_loop.trips) {v6667 : IVec S16 32} :
    k1_chk125 t (extractAt ![0] (k1_pay744 (k1_pay675 v6667)) inpos_S1_p0) :=
  chk125_of t _ (isOff_pay675 v6667)

theorem isOff_w126_of (X : IVec S16 32) (hX : ∀ l, IsOff (X l)) : IsOff (extractAt ![0] (k1_pay750 X) inpos_S1_p0) :=
  isOff_extract X hX ![13] slices_S16_o13_S1 ![0] inpos_S1_p0
theorem chk126_of (t : Fin k1_t1_loop.trips) (X : IVec S16 32) (hX : ∀ l, IsOff (X l)) :
    k1_chk126 t (extractAt ![0] (k1_pay750 X) inpos_S1_p0) :=
  chk126_of_isOff t _ (isOff_w126_of X hX)
theorem chk126 (t : Fin k1_t1_loop.trips) {v6667 : IVec S16 32} :
    k1_chk126 t (extractAt ![0] (k1_pay750 (k1_pay675 v6667)) inpos_S1_p0) :=
  chk126_of t _ (isOff_pay675 v6667)

theorem isOff_w127_of (X : IVec S16 32) (hX : ∀ l, IsOff (X l)) : IsOff (extractAt ![0] (k1_pay755 X) inpos_S1_p0) :=
  isOff_extract X hX ![14] slices_S16_o14_S1 ![0] inpos_S1_p0
theorem chk127_of (t : Fin k1_t1_loop.trips) (X : IVec S16 32) (hX : ∀ l, IsOff (X l)) :
    k1_chk127 t (extractAt ![0] (k1_pay755 X) inpos_S1_p0) :=
  chk127_of_isOff t _ (isOff_w127_of X hX)
theorem chk127 (t : Fin k1_t1_loop.trips) {v6667 : IVec S16 32} :
    k1_chk127 t (extractAt ![0] (k1_pay755 (k1_pay675 v6667)) inpos_S1_p0) :=
  chk127_of t _ (isOff_pay675 v6667)

theorem isOff_w128_of (X : IVec S16 32) (hX : ∀ l, IsOff (X l)) : IsOff (extractAt ![0] (k1_pay761 X) inpos_S1_p0) :=
  isOff_extract X hX ![15] slices_S16_o15_S1 ![0] inpos_S1_p0
theorem chk128_of (t : Fin k1_t1_loop.trips) (X : IVec S16 32) (hX : ∀ l, IsOff (X l)) :
    k1_chk128 t (extractAt ![0] (k1_pay761 X) inpos_S1_p0) :=
  chk128_of_isOff t _ (isOff_w128_of X hX)
theorem chk128 (t : Fin k1_t1_loop.trips) {v6667 : IVec S16 32} :
    k1_chk128 t (extractAt ![0] (k1_pay761 (k1_pay675 v6667)) inpos_S1_p0) :=
  chk128_of t _ (isOff_pay675 v6667)

end Cert.WChkFacts
-- ==== Proof.WBodyPhaseA.lean ====
/-
  The first four trips of a subcore's loop, `k < 4`.

  Nothing gathered is ready yet, so only the first stage runs: the trip waits for its own chunk of index words,
  rewrites the list of packed-row numbers (every entry a row of the packed table, because every index word is at
  most 999999), issues the gather of those rows, and issues the copy of the index chunk five ahead. What it was
  handed — its index copy in flight, the index slot and index chunk five ahead, and its gather slot — comes back
  as: the index slot free again (for chunk `k + 10`), the index chunk at home, the copy five ahead in flight,
  and the gather in flight.
-/
import proofs.«206325_g16862041604593_cont_week2b_1534_42_alg».proof.Kernel
import proofs.«206325_g16862041604593_cont_week2b_1534_42_alg».proof.Proof.Gen.Kernel
import proofs.«206325_g16862041604593_cont_week2b_1534_42_alg».proof.Proof.Gen.Kernel.Skeleton
import proofs.«206325_g16862041604593_cont_week2b_1534_42_alg».proof.Proof.WBodyRegion
import proofs.«206325_g16862041604593_cont_week2b_1534_42_alg».proof.Proof.WBodyHin
import proofs.«206325_g16862041604593_cont_week2b_1534_42_alg».proof.Proof.WChkFacts
import Idealize.ShloMosaic.Lib.SparseCore.Launch
import Idealize.ShloMosaic.Lib.SparseCore.Stream
import Idealize.ShloMosaic.Lib.Tactic

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

set_option maxHeartbeats 40000000 in
set_option maxRecDepth 65536 in
/-- The first four trips, `k < 4`: the first stage only. -/
theorem phaseA_holds (d : Dev nD) (L : grid1.Coords) (q q' : PosShare TreeShare)
    (tp : Buf (Elt F) ((A2).view.loc (V d (cV L) (jV L)))) (xt : Buf (Elt F) ((A3).view.loc (V d (cV L) (jV L))))
    (O : CellTallies nD τ sig (HIx 1)) (W : Waits sig (HIx 1)) (v2 : BitVec 32)
    (hxt : ∀ j, (xt j).toNat ≤ 999999) :
    PhaseA (UU := UU) d L q q' tp xt O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk4
  have h1 : k1_cond1 k = 1#1 := (k1_cond1_iff k).2 (by omega)
  have h2 : k1_cond2 k = 1#1 := (k1_cond2_iff k).2 (by omega)
  have h3 : ¬ k1_cond3 k = 1#1 := fun h => by have := (k1_cond3_iff k).1 h; omega
  unfold k1_t1_body
  iintro ⟨#Hmw, HOW, HI, HIF, HX, HGF⟩
  ihave HI' := (IFl_open d L q' xt k h1) $$ HI
  icases HI' with ⟨%ci, %hci, HflI⟩
  ihave HIF' := (IFree_open d L k h1 h2) $$ HIF
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  unfold Owes
  icases HOW with ⟨%W', %hW', HO⟩
  -- the wait for the index words and the eight stores, up to the gather's issue; the list's words name packed rows
  sl_exec_parts (disch := w_chk_disch)
  have hin := hin_of_idx d L k h1 ci fh hci
  -- the gather and the copy of the index chunk five ahead
  sl_exec_parts (disch := w_chk_disch)
  sl_step
  icases Htab with -
  isplitr; · iexact Hmw
  isplitl [HO]
  · iexists _
    isplitr
    swap
    · iexact HO
    ipureintro
    intro p hp
    rcases Finset.mem_insert.mp hp with hp | hp
    · exact .inr (hp ▸ rfl)
    · exact hW' p hp
  isplitl [HflI HflI_dst]
  · iapply (IFree_close d L k h1)
    isplitl [HflI]; · iexact HflI
    iexists _; iexact HflI_dst
  isplitl [HflI_src]
  · iapply (XHome_close d L q' xt k h1); iexact HflI_src
  isplitl [HsemI']
  · iapply (IFl_close d L q' xt k h1 h2 _ (by exact landed_ok L k h1 h2 xt hxt fi')); iexact HsemI'
  · iapply (GFl_close d L q tp k h1 _ _); iexact HsemG

end Cert.Proof.WBody
end
-- ==== Proof.WBodyPhaseB.lean ====
/-
  Trips four and five of a subcore's loop, `4 ≤ k < 6`.

  The first stage runs as in every trip that fetches: the trip waits for its own chunk of index words, rewrites the
  list of packed-row numbers, issues the gather of those rows and the copy of the index chunk five ahead. The
  gather issued four trips before has been issued, so the second stage runs too: it waits for that gather, selects
  from each gathered row the 64 lanes its index word names, and issues the write-back of the selected rows. No
  write-back was issued two trips before, so there is none to wait for: the slot of selected rows is still free.
-/
import proofs.«206325_g16862041604593_cont_week2b_1534_42_alg».proof.Kernel
import proofs.«206325_g16862041604593_cont_week2b_1534_42_alg».proof.Proof.Gen.Kernel
import proofs.«206325_g16862041604593_cont_week2b_1534_42_alg».proof.Proof.Gen.Kernel.Skeleton
import proofs.«206325_g16862041604593_cont_week2b_1534_42_alg».proof.Proof.WBodyRegion
import proofs.«206325_g16862041604593_cont_week2b_1534_42_alg».proof.Proof.WBodyHin
import proofs.«206325_g16862041604593_cont_week2b_1534_42_alg».proof.Proof.WChkFacts
import Idealize.ShloMosaic.Lib.SparseCore.Launch
import Idealize.ShloMosaic.Lib.SparseCore.Stream
import Idealize.ShloMosaic.Lib.Tactic

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-- The slot of selected rows of chunk `k - 4`, not awaited, under the names the trip's own write-back uses. -/
theorem WFree_open (d : Dev nD) (L : grid1.Coords) (k : Fin k1_t1_loop.trips) (h3 : k1_cond3 k = 1#1) (hk : 4 ≤ k.val) :
    WFree (UU := UU) d L (k.val - 4) ⊢ (iprop(semVal ((V d (cV L) (jV L)), SemLoc.dma (wsemP426 k h3)) 0
      ∗ ∃ f, ((selP423 k h3).view.loc (V d (cV L) (jV L)) ↦[(selP423 k h3).view.set]{fullShare} f)) : sProp 𝕄) := by
  rw [selP423_eq k h3, wsemP426_eq k h3, selC_congr (a := k.val) (b := k.val - 4) (by omega),
    wsemC_congr (a := k.val) (b := k.val - 4) (by omega)]
  unfold WFree
  exact BI.Entails.refl _

set_option maxHeartbeats 40000000 in
set_option maxRecDepth 65536 in
/-- Trips four and five, `4 ≤ k < 6`: both stages, no write-back to wait for. -/
theorem phaseB_holds (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (O : CellTallies nD τ sig (HIx 1)) (W : Waits sig (HIx 1)) (v2 : BitVec 32)
    (hxt : ∀ j, (xt j).toNat ≤ 999999) :
    PhaseB (UU := UU) d L q q' tp xt fo O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk4 hk6
  have h1 : k1_cond1 k = 1#1 := (k1_cond1_iff k).2 (by omega)
  have h2 : k1_cond2 k = 1#1 := (k1_cond2_iff k).2 (by omega)
  have h3 : k1_cond3 k = 1#1 := (k1_cond3_iff k).2 (by omega)
  have h4 : ¬ k1_cond4 k = 1#1 := fun h => by have := (k1_cond4_iff k).1 h; omega
  unfold k1_t1_body
  iintro ⟨#Hmw, HOW, HI, HIF, HX, HGF, HG, HWF, HOI, HIF6⟩
  ihave HI' := (IFl_open d L q' xt k h1) $$ HI
  icases HI' with ⟨%ci, %hci, HflI⟩
  ihave HIF' := (IFree_open d L k h1 h2) $$ HIF
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  ihave HG' := (GFl_open d L q tp k h3 (by omega)) $$ HG
  icases HG' with ⟨%cg1, %cg2, HflG⟩
  ihave HWF' := (WFree_open d L k h3 hk4) $$ HWF
  icases HWF' with ⟨HflW, ⟨%cw2, Hsel⟩⟩
  ihave Hout := (OutInit_open d L fo k h3 (by omega)) $$ HOI
  ihave HIF6' := (IFree_read d L k).1 $$ HIF6
  icases HIF6' with ⟨Hsem6, ⟨%fiu, Hidxu⟩⟩
  unfold Owes
  icases HOW with ⟨%W', %hW', HO⟩
  -- the wait for the index words and the eight stores, up to the gather's issue; the list's words name packed rows
  sl_exec_parts (disch := w_chk_disch)
  have hin := hin_of_idx d L k h1 ci fh hci
  -- the gather, the copy of the index chunk five ahead, the wait for the gather issued four trips before
  sl_exec_parts (disch := w_chk_disch)
  icases HflG_dst with ⟨HGr, HGh⟩
  -- the selection of 64 lanes from each gathered row, and the write-back's issue
  sl_exec_parts (disch := w_chk_disch)
  sl_step
  icases Htab with -
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    · exact hW' p hp
  isplitl [HflI HflI_dst]
  · iapply (IFree_close d L k h1)
    isplitl [HflI]; · iexact HflI
    iexists _; iexact HflI_dst
  isplitl [HflI_src]
  · iapply (XHome_close d L q' xt k h1); iexact HflI_src
  isplitl [HsemI']
  · iapply (IFl_close d L q' xt k h1 h2 _ (by exact landed_ok L k h1 h2 xt hxt fi')); iexact HsemI'
  isplitl [HsemG]
  · iapply (GFl_close d L q tp k h1 _ _); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW]
  · iapply (WFl_close d L k h3 (by omega) _ _); iexact HflW
  · iapply (IFree_read d L k).2
    isplitl [Hsem6]; · iexact Hsem6
    iexists _; iexact Hidxu

end Cert.Proof.WBody
end
-- ==== Proof.WBodyPhaseC.lean ====
import proofs.«206325_g16862041604593_cont_week2b_1534_42_alg».proof.Kernel
import proofs.«206325_g16862041604593_cont_week2b_1534_42_alg».proof.Proof.Gen.Kernel
import proofs.«206325_g16862041604593_cont_week2b_1534_42_alg».proof.Proof.Gen.Kernel.Skeleton
import proofs.«206325_g16862041604593_cont_week2b_1534_42_alg».proof.Proof.WBodyRegion
import proofs.«206325_g16862041604593_cont_week2b_1534_42_alg».proof.Proof.WBodyHin
import proofs.«206325_g16862041604593_cont_week2b_1534_42_alg».proof.Proof.WChkFacts
import Idealize.ShloMosaic.Lib.SparseCore.Launch
import Idealize.ShloMosaic.Lib.SparseCore.Stream
import Idealize.ShloMosaic.Lib.Tactic

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

set_option maxHeartbeats 40000000 in
set_option maxRecDepth 65536 in
/-- The steady trips, 6 ≤ k < 195: every stage runs. -/
theorem phaseC_holds (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (O : CellTallies nD τ sig (HIx 1)) (W : Waits sig (HIx 1)) (v2 : BitVec 32)
    (hxt : ∀ j, (xt j).toNat ≤ 999999) :
    PhaseC (UU := UU) d L q q' tp xt fo O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk6 hk195
  have h1 : k1_cond1 k = 1#1 := (k1_cond1_iff k).2 (by omega)
  have h2 : k1_cond2 k = 1#1 := (k1_cond2_iff k).2 (by omega)
  have h3 : k1_cond3 k = 1#1 := (k1_cond3_iff k).2 (by omega)
  have h4 : k1_cond4 k = 1#1 := (k1_cond4_iff k).2 (by omega)
  unfold k1_t1_body
  iintro ⟨#Hmw, HOW, HI, HIF, HX, HGF, HG, HW, HOI, HIF6⟩
  ihave HI' := (IFl_open d L q' xt k h1) $$ HI
  icases HI' with ⟨%ci, %hci, HflI⟩
  ihave HIF' := (IFree_open d L k h1 h2) $$ HIF
  icases HIF' with ⟨HsemI', ⟨%fi', Hidx'⟩⟩
  ihave Hxt' := (XHome_open d L q' xt k h1 h2) $$ HX
  ihave HGF' := (GFree_open d L q tp k h1) $$ HGF
  icases HGF' with ⟨HsemG, ⟨%fr, Hrows⟩, ⟨%fh, Hhalf⟩, Htab⟩
  ihave HG' := (GFl_open d L q tp k h3 (by omega)) $$ HG
  icases HG' with ⟨%cg1, %cg2, HflG⟩
  ihave HW' := (WFl_open d L k h3 h4 hk6) $$ HW
  icases HW' with ⟨%cw1, %cw2, HflW⟩
  ihave Hout := (OutInit_open d L fo k h3 (by omega)) $$ HOI
  ihave HIF6' := (IFree_read d L k).1 $$ HIF6
  icases HIF6' with ⟨Hsem6, ⟨%fiu, Hidxu⟩⟩
  unfold Owes
  icases HOW with ⟨%W', %hW', HO⟩
  -- stage 1 up to the gather's issue; its list's words name packed rows
  sl_exec_parts (disch := w_chk_disch)
  have hin := hin_of_idx d L k h1 ci fh hci
  -- the gather, the next index copy, the two waits
  sl_exec_parts (disch := w_chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := w_chk_disch)
  sl_step
  icases Htab with -
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact hW' p hp
  isplitl [HflI HflI_dst]
  · iapply (IFree_close d L k h1)
    isplitl [HflI]; · iexact HflI
    iexists _; iexact HflI_dst
  isplitl [HflI_src]
  · iapply (XHome_close d L q' xt k h1); iexact HflI_src
  isplitl [HsemI']
  · iapply (IFl_close d L q' xt k h1 h2 _ (by exact landed_ok L k h1 h2 xt hxt fi')); iexact HsemI'
  isplitl [HsemG]
  · iapply (GFl_close d L q tp k h1 _ _); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDone_close d L k hk6 _); iexact HflW_dst
  isplitl [HflW]
  · iapply (WFl_close d L k h3 (by omega) _ _); iexact HflW
  · iapply (IFree_read d L k).2
    isplitl [Hsem6]; · iexact Hsem6
    iexists _; iexact Hidxu

end Cert.Proof.WBody
end
-- ==== Proof.WBodyPhaseD.lean ====
import proofs.«206325_g16862041604593_cont_week2b_1534_42_alg».proof.Kernel
import proofs.«206325_g16862041604593_cont_week2b_1534_42_alg».proof.Proof.Gen.Kernel
import proofs.«206325_g16862041604593_cont_week2b_1534_42_alg».proof.Proof.Gen.Kernel.Skeleton
import proofs.«206325_g16862041604593_cont_week2b_1534_42_alg».proof.Proof.WBodyRegion
import proofs.«206325_g16862041604593_cont_week2b_1534_42_alg».proof.Proof.WBodyHin
import proofs.«206325_g16862041604593_cont_week2b_1534_42_alg».proof.Proof.WChkFacts
import Idealize.ShloMosaic.Lib.SparseCore.Launch
import Idealize.ShloMosaic.Lib.SparseCore.Stream
import Idealize.ShloMosaic.Lib.Tactic

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-! ## The last gathering trips

From trip 195 to 199 the trip's index chunk still lands and its gather is issued, but no further chunk is fetched; the
second stage runs as in the steady trips. -/

set_option maxHeartbeats 40000000 in
set_option maxRecDepth 65536 in
/-- The last trips that gather, 195 ≤ k < 200: every stage but the next fetch. -/
theorem phaseD_holds (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (O : CellTallies nD τ sig (HIx 1)) (W : Waits sig (HIx 1)) (v2 : BitVec 32)
    (hxt : ∀ j, (xt j).toNat ≤ 999999) :
    PhaseD (UU := UU) d L q q' tp xt fo O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk195 hk200
  have h1 : k1_cond1 k = 1#1 := (k1_cond1_iff k).2 (by omega)
  have h2 : ¬ k1_cond2 k = 1#1 := fun h => by have := (k1_cond2_iff k).1 h; omega
  have h3 : k1_cond3 k = 1#1 := (k1_cond3_iff k).2 (by omega)
  have h4 : k1_cond4 k = 1#1 := (k1_cond4_iff k).2 (by omega)
  unfold k1_t1_body
  iintro ⟨#Hmw, HOW, HI, HGF, HG, HW, HOI, HIF6⟩
  ihave HI' := (IFl_open d L q' xt k h1) $$ HI
  icases HI' with ⟨%ci, %hci, HflI⟩
  ihave HGF' := (GFree_open d L q tp k h1) $$ HGF
  icases HGF' with ⟨HsemG, ⟨%fr, Hrows⟩, ⟨%fh, Hhalf⟩, Htab⟩
  ihave HG' := (GFl_open d L q tp k h3 (by omega)) $$ HG
  icases HG' with ⟨%cg1, %cg2, HflG⟩
  ihave HW' := (WFl_open d L k h3 h4 (by omega)) $$ HW
  icases HW' with ⟨%cw1, %cw2, HflW⟩
  ihave Hout := (OutInit_open d L fo k h3 (by omega)) $$ HOI
  ihave HIF6' := (IFree_read d L k).1 $$ HIF6
  icases HIF6' with ⟨Hsem6, ⟨%fiu, Hidxu⟩⟩
  unfold Owes
  icases HOW with ⟨%W', %hW', HO⟩
  -- stage 1 up to the gather's issue; its list's words name packed rows
  sl_exec_parts (disch := w_chk_disch)
  have hin := hin_of_idx d L k h1 ci fh hci
  -- the gather and the two waits
  sl_exec_parts (disch := w_chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := w_chk_disch)
  sl_step
  icases Htab with -
  isplitr; · iexact Hmw
  isplitl [HO]
  · iexists _
    isplitr
    rotate_left
    · iexact HO
    · ipureintro
      intro p hp
      rcases Finset.mem_insert.mp hp with hp | hp
      · subst hp; exact .inr rfl
      rcases Finset.mem_insert.mp hp with hp | hp
      · subst hp; exact .inr rfl
      rcases Finset.mem_insert.mp hp with hp | hp
      · subst hp; exact .inr rfl
      · exact hW' p hp
  isplitl [HflI HflI_dst]
  · iapply (IFree_close d L k h1)
    isplitl [HflI]; · iexact HflI
    iexists _; iexact HflI_dst
  isplitl [HflI_src]
  · iapply (XHome_close d L q' xt k h1); iexact HflI_src
  isplitl [HsemG]
  · iapply (GFl_close d L q tp k h1 _ _); iexact HsemG
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDone_close d L k (by omega) _); iexact HflW_dst
  isplitl [HflW]
  · iapply (WFl_close d L k h3 (by omega) _ _); iexact HflW
  · iapply (IFree_read d L k).2
    isplitl [Hsem6]; · iexact Hsem6
    iexists _; iexact Hidxu

end Cert.Proof.WBody
end
-- ==== Proof.WBodyPhaseE.lean ====
import proofs.«206325_g16862041604593_cont_week2b_1534_42_alg».proof.Kernel
import proofs.«206325_g16862041604593_cont_week2b_1534_42_alg».proof.Proof.Gen.Kernel
import proofs.«206325_g16862041604593_cont_week2b_1534_42_alg».proof.Proof.Gen.Kernel.Skeleton
import proofs.«206325_g16862041604593_cont_week2b_1534_42_alg».proof.Proof.WBodyRegion
import proofs.«206325_g16862041604593_cont_week2b_1534_42_alg».proof.Proof.WBodyHin
import proofs.«206325_g16862041604593_cont_week2b_1534_42_alg».proof.Proof.WChkFacts
import Idealize.ShloMosaic.Lib.SparseCore.Launch
import Idealize.ShloMosaic.Lib.SparseCore.Stream
import Idealize.ShloMosaic.Lib.Tactic

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable {UU : Type} [URA UU] [CountersIn UU]

set_option quotPrecheck false in
local notation "𝕄" => MT nD τ sig (HIx 1) (Elt F) ℕ UU ℕ

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

/-! ## The draining trips

From trip 200 on nothing is fetched or gathered: the trip only awaits the gather issued four trips before, awaits the
write-back issued two trips before that, selects the landed rows' halves into the freed slot and issues their
write-back. -/

set_option maxHeartbeats 40000000 in
set_option maxRecDepth 65536 in
/-- The draining trips, 200 ≤ k: only the second stage runs. -/
theorem phaseE_holds (d : Dev nD) (L : grid1.Coords) (q q' : PosShare TreeShare)
    (tp : Buf (Elt F) ((A2).view.loc (V d (cV L) (jV L)))) (xt : Buf (Elt F) ((A3).view.loc (V d (cV L) (jV L)))) (fo : Buf (Elt F) ((A4).view.loc (V d (cV L) (jV L))))
    (O : CellTallies nD τ sig (HIx 1)) (W : Waits sig (HIx 1)) (v2 : BitVec 32)
    (hxt : ∀ j, (xt j).toNat ≤ 999999) :
    PhaseE (UU := UU) d L q tp fo O W (k1_t1_body L A2 (Memref.isWhole_whole _) A3 (Memref.isWhole_whole _) A4 (Memref.isWhole_whole _) A5 (Memref.isWhole_whole _) A6 (Memref.isWhole_whole _) A7 (Memref.isWhole_whole _) A8 (Memref.isWhole_whole _) cc1_scratch4 cc1_scratch5 cc1_scratch6 v2 0#32 204#32) := by
  intro k hk200
  have h1 : ¬ k1_cond1 k = 1#1 := fun h => by have := (k1_cond1_iff k).1 h; omega
  have h2 : ¬ k1_cond2 k = 1#1 := fun h => by have := (k1_cond2_iff k).1 h; omega
  have h3 : k1_cond3 k = 1#1 := (k1_cond3_iff k).2 (by omega)
  have h4 : k1_cond4 k = 1#1 := (k1_cond4_iff k).2 (by omega)
  unfold k1_t1_body
  iintro ⟨#Hmw, HOW, HG, HW, HOI, HIF6⟩
  ihave HG' := (GFl_open d L q tp k h3 (by omega)) $$ HG
  icases HG' with ⟨%cg1, %cg2, HflG⟩
  ihave HW' := (WFl_open d L k h3 h4 (by omega)) $$ HW
  icases HW' with ⟨%cw1, %cw2, HflW⟩
  ihave Hout := (OutInit_open d L fo k h3 (by omega)) $$ HOI
  ihave HIF6' := (IFree_read d L k).1 $$ HIF6
  icases HIF6' with ⟨Hsem6, ⟨%fiu, Hidxu⟩⟩
  unfold Owes
  icases HOW with ⟨%W', %hW', HO⟩
  -- the two waits
  sl_exec_parts (disch := w_chk_disch)
  icases HflG_dst with ⟨HGr, HGh⟩
  ihave Hsel := (Entails.of_eq ((pts_selP30 d L k h3 h4 fullShare cw2).trans (pts_selP423 d L k h3 fullShare cw2).symm)) $$ HflW_src
  rw [wsemP32_eq k h3 h4, ← wsemP426_eq k h3]
  -- the select stage and the write-back's issue
  sl_exec_parts (disch := w_chk_disch)
  sl_step
  isplitr; · iexact Hmw
  isplitl [HO]
  · iexists _
    isplitr
    swap
    · iexact HO
    ipureintro
    intro p hp
    rcases Finset.mem_insert.mp hp with hp | hp
    · exact .inr (hp ▸ rfl)
    rcases Finset.mem_insert.mp hp with hp | hp
    · exact .inr (hp ▸ rfl)
    · exact hW' p hp
  isplitl [HflG HGr HGh HflG_src]
  · iapply (GFree_close d L q tp k h3 (by omega))
    isplitl [HflG]; · iexact HflG
    isplitl [HGr]; · iexists _; iexact HGr
    isplitl [HGh]; · iexists _; iexact HGh
    iexact HflG_src
  isplitl [HflW_dst]
  · iapply (OutDone_close d L k (by omega) _); iexact HflW_dst
  isplitl [HflW]
  · iapply (WFl_close d L k h3 (by omega) _ _); iexact HflW
  · iapply (IFree_read d L k).2
    isplitl [Hsem6]; · iexact Hsem6
    iexists _; iexact Hidxu

end Cert.Proof.WBody
end
-- ==== Proof.WBody.lean ====
import proofs.«206325_g16862041604593_cont_week2b_1534_42_alg».proof.Proof.WBodyShell
import proofs.«206325_g16862041604593_cont_week2b_1534_42_alg».proof.Proof.WBodyRegion
import proofs.«206325_g16862041604593_cont_week2b_1534_42_alg».proof.Proof.WBodyPhaseA
import proofs.«206325_g16862041604593_cont_week2b_1534_42_alg».proof.Proof.WBodyPhaseB
import proofs.«206325_g16862041604593_cont_week2b_1534_42_alg».proof.Proof.WBodyPhaseC
import proofs.«206325_g16862041604593_cont_week2b_1534_42_alg».proof.Proof.WBodyPhaseD
import proofs.«206325_g16862041604593_cont_week2b_1534_42_alg».proof.Proof.WBodyPhaseE

/-!
  The SparseCore kernel's body, one vector subcore's task, as a frame: the shell around the loop, the loop's step
  assembled from the five phases of a trip.
-/

noncomputable section

namespace Cert.Proof.WBody

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "A2" => (Memref.whole Cert.Kernel.main_v2_scv : Memref Cert.Kernel.sig Kind.scVector Space.hbm Cert.Kernel.S507904x128 EltTy.f32)
local notation "A3" => (Memref.whole Cert.Kernel.main_v0_scv : Memref Cert.Kernel.sig Kind.scVector Space.hbm Cert.Kernel.S50x16384 EltTy.i32)
local notation "A4" => (Memref.whole Cert.Kernel.main_v3_scv : Memref Cert.Kernel.sig Kind.scVector Space.hbm Cert.Kernel.S50x16384x64 EltTy.f32)
local notation "A5" => (Memref.whole Cert.Kernel.cc1_scratch0 : Memref Cert.Kernel.sig Kind.scVector Space.vmem Cert.Kernel.S10x128 EltTy.i32)
local notation "A6" => (Memref.whole Cert.Kernel.cc1_scratch1 : Memref Cert.Kernel.sig Kind.scVector Space.vmem Cert.Kernel.S5x128 EltTy.i32)
local notation "A7" => (Memref.whole Cert.Kernel.cc1_scratch2 : Memref Cert.Kernel.sig Kind.scVector Space.vmem Cert.Kernel.S5x128x128 EltTy.f32)
local notation "A8" => (Memref.whole Cert.Kernel.cc1_scratch3 : Memref Cert.Kernel.sig Kind.scVector Space.vmem Cert.Kernel.S2x128x64 EltTy.f32)

open Idealize.ShloMosaic.ValueIdx

section Body

variable [FloatOps F] {UU : Type} [URA UU] [CountersIn UU]

set_option quotPrecheck false in
local notation "𝕄" => MT nD τ sig (HIx 1) (Elt F) ℕ UU ℕ

set_option maxHeartbeats 4000000 in
/-- One vector subcore's task, as a frame: from read shares of the packed table and of the transposed indices and the
    worker's 200 output chunks, the body runs and hands the shares back, the chunks at some contents. The shell around
    the loop, with the loop's step from its five phases. -/
theorem tile_body_frame (d : Dev nD) (L : grid1.Coords) (q q' : PosShare TreeShare)
    (tab : FVec F S1000000x64 .f32) (x : IVec S16384x50 32)
    (tp : Buf (Elt F) (tabLoc d)) (xt : Buf (Elt F) (xtLoc d)) (fo : Buf (Elt F) (outLoc d))
    (hx : ∀ j, (x j).toNat ≤ 999999)
    (hxt : ∀ (h : Fin 50) (b : Fin 16384), xt (ix2 h b) = x (ix2 b h))
    (hpack : Cert.Spec.PackOK tab tp)
    (O : CellTallies nD τ sig (HIx 1)) (W : Waits sig (HIx 1)) (hO : ∀ g, O g none = 0) :
    iprop(levAts (K (F := F)).L (K (F := F)).lev ∗ (tabLoc d ↦{q} tp) ∗ (xtLoc d ↦{q'} xt)
        ∗ (bigSep (Finset.univ : Finset (Fin 200)) fun t => outLoc d ↦[Cert.Spec.chunkSet (200 * wid L + t.val)]{fullShare} fo)
        ∗ scopedBufs (V d (cV L) (jV L)) ∗ scopedSems0 (V d (cV L) (jV L)) ∗ owes (V d (cV L) (jV L)) O W)
      ⊢ wp (M := 𝕄) frame (wpE (defs₀ (F := F)) 𝒱₀ (V d (cV L) (jV L)) none) Set.univ
          (cc1_k L A2 (Memref.isWhole_whole _) A3 (Memref.isWhole_whole _) A4 (Memref.isWhole_whole _) A5 (Memref.isWhole_whole _)
            A6 (Memref.isWhole_whole _) A7 (Memref.isWhole_whole _) A8 (Memref.isWhole_whole _) cc1_scratch4 cc1_scratch5 cc1_scratch6)
          fun _ => iprop((tabLoc d ↦{q} tp) ∗ (xtLoc d ↦{q'} xt)
            ∗ (bigSep (Finset.univ : Finset (Fin 200)) fun t => iprop(∃ f, outLoc d ↦[Cert.Spec.chunkSet (200 * wid L + t.val)]{fullShare} f))
            ∗ scopedBufs (V d (cV L) (jV L)) ∗ scopedSems0 (V d (cV L) (jV L))
            ∗ ∃ W', ⌜∀ p ∈ W', p ∈ W ∨ p.2 = none⌝ ∗ owes (V d (cV L) (jV L)) O W') :=
  -- the transposed indices are in range, as the indices are
  have hxtok : ∀ j, (xt j).toNat ≤ 999999 := fun j =>
    le_of_eq_of_le (congrArg (fun i => (xt i).toNat) (eq_ix2 j)) (le_of_eq_of_le (congrArg BitVec.toNat (hxt (j 0) (j 1))) (hx _))
  tile_body_shell d L q q' tab x tp xt fo hx hxt hpack O W hO (fun v2 =>
    region d L q q' tp xt fo O W
      (k1_t1_body L A2 (Memref.isWhole_whole _) A3 (Memref.isWhole_whole _) A4 (Memref.isWhole_whole _) A5 (Memref.isWhole_whole _)
        A6 (Memref.isWhole_whole _) A7 (Memref.isWhole_whole _) A8 (Memref.isWhole_whole _) cc1_scratch4 cc1_scratch5 cc1_scratch6 v2 0#32 204#32)
      (phaseA_holds d L q q' tp xt O W v2 hxtok)
      (phaseB_holds d L q q' tp xt fo O W v2 hxtok)
      (phaseC_holds d L q q' tp xt fo O W v2 hxtok)
      (phaseD_holds d L q q' tp xt fo O W v2 hxtok)
      (phaseE_holds d L q q' tp xt fo O W v2 hxtok))

end Body

end Cert.Proof.WBody

end
-- ==== Proof.WClaimsF.lean ====
/-
  The program's frame under its precondition, from the frame of the SparseCore kernel's body.

  The same application of the launch theorem as for the value, with the body only known to hand its output chunks back
  at some contents: every weakly fair execution terminates with the two arguments unchanged.
-/
import proofs.«206325_g16862041604593_cont_week2b_1534_42_alg».proof.Pre_input_domain
import proofs.«206325_g16862041604593_cont_week2b_1534_42_alg».proof.Proof.Gen.Pre_input_domain
import proofs.«206325_g16862041604593_cont_week2b_1534_42_alg».proof.Proof.WRegionGlue
import proofs.«206325_g16862041604593_cont_week2b_1534_42_alg».proof.Proof.WFrame
import proofs.«206325_g16862041604593_cont_week2b_1534_42_alg».proof.Proof.PreRange
import proofs.«206325_g16862041604593_cont_week2b_1534_42_alg».proof.Proof.WBody

noncomputable section

namespace Cert.Proof.WClaimsF

open Cert.Kernel Cert.Kernel.Gen
open Cert.Proof.WLaunch

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- The body's frame is what the vector subcores' obligation asks of it. -/
theorem bodyOKF : BodyOKF (F := F) :=
  fun d L q q' tab x tp xt fo h1 h2 h3 O W hO => Cert.Proof.WBody.tile_body_frame (UU := UU) d L q q' tab x tp xt fo h1 h2 h3 O W hO

/-- The program's run from a memory whose two arguments satisfy the precondition: the arguments are unchanged. -/
theorem frame_pre [∀ e, Nonempty (Elt F e)] (m : (ℓ : Loc nD τ sig) → Buf (Elt F) ℓ) (g : Dev nD → PrngReg)
    (hpre : ∀ c : Dev nD, @Cert.Pre_input_domain.fn Cert.Pre_input_domain.Gen.facts F _ (m ((c.tc : Thread nD τ).loc main_arg0)) (m ((c.tc : Thread nD τ).loc main_arg1)) = fun _ => 1#1) :
    θ_run (Cert.Kernel.defs (F := F)) (Cert.Kernel.threads (F := F)) ⟨m, fun _ => 0, g⟩ (QF m) :=
  run_frame m g (fun d => Cert.PreRange.x_le _ _ (hpre d)) bodyOKF (Cert.Proof.WRegion.ghost (EP (F := F))) _ (Cert.Proof.WRegion.fund (EP (F := F))) Cert.Proof.WClaims.regionOK

end Cert.Proof.WClaimsF

end
-- ==== Proof.RefOps.lean ====
/-
  The reference program as a straight line of host operations.

  @main calls the row lookup once, and the lookup calls a select once; unfolded at the calls, @main is twenty-three
  operations in order over the buffers the one call names: the wrap of negative index words (compare with 0, add the
  row count, select), the index column, the range mask (two comparisons, their conjunction, an and-reduction over the
  column's one entry), the gather of whole rows, and the final select between the gathered value and the
  not-a-number constant.
-/
import proofs.«206325_g16862041604593_cont_week2b_1534_42_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded. -/
abbrev ops : List (HloOp τ sig (Elt F)) :=
  [ TRef.nullary main_call0.c (constantI S_ 32 0#32),
    TRef.unary main_call0.c main_call0.v0 (broadcastInDim S16384x50 ![] bcast_S_S16384x50),
    TRef.binary (.of main_arg0) main_call0.v0 main_call0.v1 (cmpi .slt),
    TRef.nullary main_call0.c_0 (constantI S_ 32 1000000#32),
    TRef.unary main_call0.c_0 main_call0.v2 (broadcastInDim S16384x50 ![] bcast_S_S16384x50),
    TRef.binary (.of main_arg0) main_call0.v2 main_call0.v3 addi,
    TRef.ternary main_call0.v1 main_call0.v3 (.of main_arg0) main_call0.call0.v0 select,
    TRef.unary main_call0.call0.v0 main_call0.v5 (broadcastInDim S16384x50x1 ![0, 1] bcast_S16384x50_S16384x50x1_0_1),
    TRef.nullary main_call0.c_1 (constantI S1 32 999999#32),
    TRef.nullary main_call0.c_2 (constantI S_ 32 0#32),
    TRef.unary main_call0.c_2 main_call0.v6 (broadcastInDim S16384x50x1 ![] bcast_S_S16384x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x50x1 ![0, 1, 2] bcast_S1x1x1_S16384x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x50x1_S16384x50_d2 h_S_),
    TRef.binary (.of main_arg1) main_call0.v5 main_call0.v13 (fun x i => Host.gather gather_S1000000x64_S16384x50x1_S16384x50x64_2_0_n_n_0_2_164 x i),
    TRef.unary main_call0.v12 main_call0.v14 (broadcastInDim S16384x50x64 ![0, 1] bcast_S16384x50_S16384x50x64_0_1),
    TRef.nullary main_call0.cst (constant S_ .f32 0x7FC00000#32),
    TRef.unary main_call0.cst main_call0.v15 (broadcastInDim S16384x50x64 ![] bcast_S_S16384x50x64),
    TRef.ternary main_call0.v14 main_call0.v13 main_call0.v15 main_call0.v16 select ]

set_option maxRecDepth 1024 in
/-- @main is that straight line: the two functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibTakeRows.lean ====
import Idealize.ShloMosaic.PureOps.Ideal
import Idealize.ShloMosaic.Lib.ValueIdx

/-!
# Rows of a table taken by an array of indices: jnp.take(table, indices, axis = 0) read at an entry

An index array of shape [A, B], laid out as a column [A, B, 1], picks for each (a, b) one row of a table [N, C]; the
result is [A, B, C]. A stablehlo gather reads the start index as a signed integer and clamps it into [0, N − 1]:
entry (a, b, c) of the result is entry c of the row the (a, b)-th start index names. Generic in N, A, B, C and in the
index width.
-/

noncomputable section

namespace Cert.TakeRows

open Idealize.ShloMosaic Idealize.ShloMosaic.ValueIdx

/-- Dimension numbers of a gather of whole rows by an index column [A, B, 1]: operand [N, C], result [A, B, C]. -/
abbrev takeRowsDims (N A B C : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather at (a, b, c): the operand at the row the (a, b)-th start index names (read signed, clamped into
    [0, N − 1]), column c. -/
theorem takeRows_apply {α : Type} {N A B C w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (c : Fin C) :
    Host.gather (takeRowsDims N A B C wf) x idx (ix3 a b c)
      = x (ix2 (⟨min (idx (ix3 a b (0 : Fin 1))).toInt.toNat (N - 1), by omega⟩ : Fin N) c) := by
  unfold Host.gather
  congr 1
  funext r
  refine Fin.ext ?_
  match r with
  | ⟨0, _⟩ =>
    show (takeRowsDims N A B C wf).start (ix3 a b c) idx 0 + (takeRowsDims N A B C wf).batchCoord (ix3 a b c) 0
        + (takeRowsDims N A B C wf).offCoord (ix3 a b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N A B C wf).startIndexMap from List.mem_singleton.mpr rfl)]
    have hsi : (takeRowsDims N A B C wf).siIdx (ix3 a b c)
        ⟨List.idxOf (0 : Fin 2) (takeRowsDims N A B C wf).startIndexMap,
          List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi]
    rfl
  | ⟨1, _⟩ =>
    show (takeRowsDims N A B C wf).start (ix3 a b c) idx 1 + (takeRowsDims N A B C wf).batchCoord (ix3 a b c) 1
        + (takeRowsDims N A B C wf).offCoord (ix3 a b c) 1 = _
    rw [GatherDims.batchCoord_eq_zero _ _ _ List.not_mem_nil]
    have h1 : (1 : Fin 2) ∉ (takeRowsDims N A B C wf).startIndexMap := by
      intro h; exact absurd (congrArg Fin.val (List.mem_singleton.mp h)) Nat.one_ne_zero
    unfold GatherDims.start
    rw [dif_neg h1]
    simp only [Nat.add_zero, Nat.zero_add]
    rfl

end Cert.TakeRows

end
-- ==== Proof.RefValue.lean ====
/-
  What the reference computes, as a function of the two argument arrays, and that under the index range it is the lookup.

  `out x t` composes the program's operations: the index words wrapped (a negative word gets the row count added), laid
  out as a column, the mask "0 ≤ word ≤ 999999" (an and-reduction over the column's one entry), the gather of whole
  rows at the column, and the select between the gathered entry and the not-a-number constant under the mask.
  When every word of `x` is in [0, 999999], read signed: no word is negative, so the wrap is the identity; both
  comparisons hold at every entry, so the mask is 1 everywhere and the select takes the gathered entry; and the gather,
  which reads its start index signed and clamps it into [0, 999999], reads row `x[b, h]` itself. So entry (b, h, c) of
  the result is entry (x[b, h], c) of the table.
-/
import proofs.«206325_g16862041604593_cont_week2b_1534_42_alg».proof.Proof.Gen.ReferenceIdeal
import proofs.«206325_g16862041604593_cont_week2b_1534_42_alg».proof.Proof.Spec
import proofs.«206325_g16862041604593_cont_week2b_1534_42_alg».proof.Proof.LibTakeRows
import Idealize.ShloMosaic.Lib.ReduceAll
import Idealize.ShloMosaic.Lib.ValueIdx

noncomputable section

namespace Cert.ReferenceIdeal.RefRun

open Cert.ReferenceIdeal Cert.ReferenceIdeal.Gen Idealize.ShloMosaic Idealize.ShloMosaic.ValueIdx

variable {F : FTy → Type} [FloatOps F]

/-- The index words with the negative ones wrapped: `x < 0 ? x + 1000000 : x`. -/
def wrapped (x : IVec S16384x50 32) : IVec S16384x50 32 :=
  select (cmpi .slt x (broadcastInDim S16384x50 ![] bcast_S_S16384x50 (constantI S_ 32 0#32)))
    (addi x (broadcastInDim S16384x50 ![] bcast_S_S16384x50 (constantI S_ 32 1000000#32))) x

/-- The wrapped words as a column [16384, 50, 1]. -/
def col (x : IVec S16384x50 32) : IVec S16384x50x1 32 :=
  broadcastInDim S16384x50x1 ![0, 1] bcast_S16384x50_S16384x50x1_0_1 (wrapped x)

/-- The range mask: at (b, h), the conjunction over the column's one entry of `0 ≤ word` and `word ≤ 999999`. -/
def mask (x : IVec S16384x50 32) : IVec S16384x50 1 :=
  Host.reduce IntOp.andi
    (andi (cmpi .sge (col x) (broadcastInDim S16384x50x1 ![] bcast_S_S16384x50x1 (constantI S_ 32 0#32)))
      (cmpi .sle (col x) (broadcastInDim S16384x50x1 ![0, 1, 2] bcast_S1x1x1_S16384x50x1_0_1_2
        (broadcastInDim S1x1x1 ![2] bcast_S1_S1x1x1_2 (constantI S1 32 999999#32)))))
    (constantI S_ 1 1#1) reducesTo_S16384x50x1_S16384x50_d2 h_S_

/-- The result: the gathered rows where the mask holds, the not-a-number constant elsewhere. -/
def out (x : IVec S16384x50 32) (t : FVec F S1000000x64 .f32) : FVec F S16384x50x64 .f32 :=
  select (broadcastInDim S16384x50x64 ![0, 1] bcast_S16384x50_S16384x50x64_0_1 (mask x))
    (Host.gather gather_S1000000x64_S16384x50x1_S16384x50x64_2_0_n_n_0_2_164 t (col x))
    (broadcastInDim S16384x50x64 ![] bcast_S_S16384x50x64 (constant S_ .f32 0x7FC00000#32))

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- No word is negative: the wrap changes nothing. -/
theorem wrapped_eq (x : IVec S16384x50 32) (h0 : ∀ j, 0 ≤ (x j).toInt) : wrapped x = x := by
  funext j
  show Scalar.select (IntOp.cmpi .slt (x j) 0#32) (IntOp.addi (x j) 1000000#32) (x j) = x j
  have hn : ¬ IntOp.cmpi .slt (x j) 0#32 = 1#1 := by
    rw [IntOp.cmpi_slt, show (0#32 : BitVec 32).toInt = 0 from by decide]
    have := h0 j
    omega
  exact if_neg hn

/-- The column's entry (b, h, 0) is the word `x[b, h]`. -/
theorem col_apply (x : IVec S16384x50 32) (h0 : ∀ j, 0 ≤ (x j).toInt) (i : S16384x50x1.Idx) :
    col x i = x (ix2 (i 0) (i 1)) := by
  unfold col
  rw [wrapped_eq x h0]
  unfold broadcastInDim
  congr 1
  funext a
  match a with
  | ⟨0, _⟩ => rfl
  | ⟨1, _⟩ => rfl

/-- Every word in range: the mask is 1 everywhere. -/
theorem mask_eq_one (x : IVec S16384x50 32) (hx : ∀ j, 0 ≤ (x j).toInt ∧ (x j).toInt ≤ 999999) (j : S16384x50.Idx) :
    mask x j = 1#1 := by
  unfold mask
  rw [Host.reduce_eq_foldl]
  refine foldl_andi_one _ (fun i => ?_) _
  show IntOp.andi (IntOp.cmpi .sge (col x i) 0#32) (IntOp.cmpi .sle (col x i) 999999#32) = 1#1
  rw [col_apply x (fun j => (hx j).1), IntOp.andi_eq_one, IntOp.cmpi_sge, IntOp.cmpi_sle,
    show (0#32 : BitVec 32).toInt = 0 from by decide, show (999999#32 : BitVec 32).toInt = 999999 from by decide]
  exact hx _

/-- A word that is nonnegative read signed reads the same unsigned. -/
theorem toInt_toNat_of_nonneg {w : BitVec 32} (h0 : 0 ≤ w.toInt) : w.toInt.toNat = w.toNat := by
  have h := BitVec.toInt_eq_toNat_cond w
  have hlt := w.isLt
  split at h <;> omega

/-- Under the index range the reference's result is the lookup. -/
theorem out_eq_lookup (x : IVec S16384x50 32) (t : FVec F S1000000x64 .f32)
    (hx : ∀ j, 0 ≤ (x j).toInt ∧ (x j).toInt ≤ 999999) :
    out x t = Cert.Spec.lookup x t := by
  funext i
  obtain ⟨a, b, c, rfl⟩ : ∃ a b c, i = ix3 a b c := ⟨i 0, i 1, i 2, eq_ix3 i⟩
  have hm : broadcastInDim S16384x50x64 ![0, 1] bcast_S16384x50_S16384x50x64_0_1 (mask x) (ix3 a b c) = 1#1 :=
    mask_eq_one x hx _
  have hcol : col x (ix3 a b (0 : Fin 1)) = x (ix2 a b) := col_apply x (fun j => (hx j).1) _
  have hrow : (⟨min (col x (ix3 a b (0 : Fin 1))).toInt.toNat (1000000 - 1), by omega⟩ : Fin 1000000)
      = Cert.Spec.rowOf (x (ix2 a b)) := by
    refine Fin.ext ?_
    show min (col x (ix3 a b (0 : Fin 1))).toInt.toNat (1000000 - 1) = min (x (ix2 a b)).toNat 999999
    rw [hcol, toInt_toNat_of_nonneg (hx _).1]
  have hg := Cert.TakeRows.takeRows_apply (N := 1000000) (A := 16384) (B := 50) (C := 64) (by decide)
    gather_S1000000x64_S16384x50x1_S16384x50x64_2_0_n_n_0_2_164_wf t (col x) a b c
  rw [hrow] at hg
  unfold out
  rw [select_apply, hm, select_one]
  exact hg

end Cert.ReferenceIdeal.RefRun

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.RefAfter.lean ====
/-
  The reference's run read back: what its buffers hold at the end.

  Running the twenty-three operations in order from the launch contents leaves the result buffer at `out` of the two
  argument arrays (each operation's result read at its own buffer, the typed references' transports cancelling in
  pairs) and the two argument buffers as they were (no operation writes them). With the index range, `out` is the
  lookup; so every weakly fair execution terminates with the result buffer holding the lookup of the launch's
  arguments, the arguments unchanged.
-/
import proofs.«206325_g16862041604593_cont_week2b_1534_42_alg».proof.Proof.RefOps
import proofs.«206325_g16862041604593_cont_week2b_1534_42_alg».proof.Proof.RefValue
import proofs.«206325_g16862041604593_cont_week2b_1534_42_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather in
/-- After the line the result buffer holds `out` of the arguments' contents. -/
theorem after_out (V : Valuation τ sig (Elt F)) :
    after ops V (main_v0 : DevRef τ sig) = out (V (main_arg0 : DevRef τ sig)) (V (main_arg1 : DevRef τ sig)) := by
  after_results
  simp only [Cert.LibTypedRef.ofBuf_toBuf]
  rfl

/-- No operation writes the index array. -/
theorem after_arg0 (V : Valuation τ sig (Elt F)) :
    after ops V (main_arg0 : DevRef τ sig) = V (main_arg0 : DevRef τ sig) := by
  after_results

/-- No operation writes the table. -/
theorem after_arg1 (V : Valuation τ sig (Elt F)) :
    after ops V (main_arg1 : DevRef τ sig) = V (main_arg1 : DevRef τ sig) := by
  after_results

/-- For any float values, from any memory with zero counters whose index words are all in [0, 999999] read signed:
    every weakly fair execution of @main terminates with the result buffer at the lookup of the launch's arguments and
    the arguments unchanged. -/
theorem run_of_range (m : (ℓ : Loc nD τ sig) → Buf (Elt F) ℓ) (g : Dev nD → PrngReg)
    (hx : ∀ (c : Dev nD) (j : S16384x50.Idx),
      0 ≤ ((m ((c.tc : Thread nD τ).loc main_arg0) : IVec S16384x50 32) j).toInt
        ∧ ((m ((c.tc : Thread nD τ).loc main_arg0) : IVec S16384x50 32) j).toInt ≤ 999999) :
    θ_run defs (onTc (τ := τ) (main (F := F))) ⟨m, fun _ => 0, g⟩ (fun r => ∀ c : Dev nD,
      r.2.mem ((c.tc : Thread nD τ).loc main_v0)
          = Cert.Spec.lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v0).trans ((after_out _).trans (out_eq_lookup _ _ (hx c))),
        (h c main_arg0).trans (after_arg0 _),
        (h c main_arg1).trans (after_arg1 _)⟩)
    (run_main m g)

end Cert.ReferenceIdeal.RefRun

end
-- ==== Proof.RefRun.lean ====
/-
  The reference's run under the certificate's precondition.

  The precondition says every index word is in [0, 999999], read signed (and every table entry finite, which the
  reference does not need). From any memory satisfying it, with zero counters, every weakly fair execution of the
  reference terminates with its result buffer holding the lookup of the launch's two arguments — entry (b, h, c) the
  table's entry (x[b, h], c) — and the arguments unchanged.
-/
import proofs.«206325_g16862041604593_cont_week2b_1534_42_alg».proof.Defs
import proofs.«206325_g16862041604593_cont_week2b_1534_42_alg».proof.Proof.Gen.ReferenceIdeal
import proofs.«206325_g16862041604593_cont_week2b_1534_42_alg».proof.Proof.Gen.Pre_input_domain
import proofs.«206325_g16862041604593_cont_week2b_1534_42_alg».proof.Proof.Spec
import proofs.«206325_g16862041604593_cont_week2b_1534_42_alg».proof.Proof.PreRange
import proofs.«206325_g16862041604593_cont_week2b_1534_42_alg».proof.Proof.RefAfter

noncomputable section

namespace Cert.ReferenceIdeal.RefRun

open Idealize.ShloMosaic Idealize.ShloMosaic.TcCoe Idealize.SL.Sem

theorem run (m : (ℓ : Loc Cert.ReferenceIdeal.nD Cert.ReferenceIdeal.τ Cert.ReferenceIdeal.sig) → Buf (Elt Ideal) ℓ)
    (g : Dev Cert.ReferenceIdeal.nD → PrngReg)
    (hpre : @Cert.Pre_ReferenceIdeal Cert.Pre_input_domain.Gen.facts m) :
    θ_run (Cert.ReferenceIdeal.defs (F := Ideal))
      (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.lookup (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  run_of_range m g (fun c => Cert.PreRange.x_range _ _ (hpre c))

end Cert.ReferenceIdeal.RefRun

end
-- ==== Proof.RefHalf.lean ====
/-
  The reference half of the algebraic claim.

  The claim runs the reference from a memory that agrees with the kernel's on the two arguments. The precondition
  reads only the two arguments, so the kernel memory's precondition is the reference memory's; and the reference then
  ends with its result at the lookup of its own arguments, which are the kernel's.
-/
import proofs.«206325_g16862041604593_cont_week2b_1534_42_alg».proof.Defs
import proofs.«206325_g16862041604593_cont_week2b_1534_42_alg».proof.Proof.RefRun

noncomputable section

namespace Cert.ReferenceIdeal.RefRun

open Idealize.ShloMosaic Idealize.ShloMosaic.TcCoe Idealize.SL.Sem

/-- The reference half of the algebraic claim: from a reference memory agreeing with the kernel's on the two arguments,
    the kernel's precondition gives the reference's, and the reference ends at the lookup of the KERNEL's arguments. -/
theorem ref_half
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpre : @Cert.Pre_KernelIdeal Cert.Pre_input_domain.Gen.facts m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        r.2.mem ((c.tc : Thread Cert.ReferenceIdeal.nD Cert.ReferenceIdeal.τ).loc Cert.ReferenceIdeal.main_v0)
          = Cert.Spec.lookup (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  have hpre' : @Cert.Pre_ReferenceIdeal Cert.Pre_input_domain.Gen.facts m' := fun c => by
    show Cert.Pre_input_domain.fn (F := Ideal) _ _ = _
    rw [(hagree c).1, (hagree c).2]
    exact hpre c
  refine (θ_run _ _ _).mono (fun _ h c => ⟨(h c).1.trans ?_, (h c).2.1, (h c).2.2⟩) (run m' g' hpre')
  rw [(hagree c).1, (hagree c).2]

end Cert.ReferenceIdeal.RefRun

end
-- ==== Proof.lean ====
/-
  The proof of the certificate's claim: an embedding lookup, `out[b, h, c] = table[x[b, h], c]`, computed on the
  SparseCores from a re-laid table.

  The kernel transposes the index array and the table, packs the transposed table (a TensorCore kernel region: the
  rows cut into groups of 32768, group `g` written as 16384 rows of 128 columns, row `r` of the group holding table
  row `32768 g + r` in columns 0–63 and table row `32768 g + 16384 + r` in columns 64–127; the last group runs past
  the table's end, and what it holds there is never read), and starts one SparseCore call: 32 vector subcores, each
  writing 200 chunks of 128 consecutive batch positions of one history position, every entry gathered from the packed
  row `16384 (i / 32768) + i % 16384` at column offset `64 ((i / 16384) % 2)` for the index word `i` — which, an index
  word being in `[0, 999999]` by the precondition, is table row `i`. The call's output is the lookup with its first
  two axes exchanged; the last transpose exchanges them back. So every weakly fair execution of the 35 threads
  terminates with the result equal to the lookup of the two arguments, which nothing writes: that is the word-level
  frame, the idealized frame and, the reference computing the same lookup by one gather, the algebraic claim; the
  idealization rewrote nothing, so `preserves` is trivial.
-/
import proofs.«206325_g16862041604593_cont_week2b_1534_42_alg».proof.Defs
import proofs.«206325_g16862041604593_cont_week2b_1534_42_alg».proof.Proof.KClaims
import proofs.«206325_g16862041604593_cont_week2b_1534_42_alg».proof.Proof.KClaimsF
import proofs.«206325_g16862041604593_cont_week2b_1534_42_alg».proof.Proof.WClaimsF
import proofs.«206325_g16862041604593_cont_week2b_1534_42_alg».proof.Proof.RefHalf

noncomputable section

namespace Cert.Proof

open Idealize.ShloMosaic Idealize.SL.Sem

/-- The word-level program runs and leaves its arguments unchanged. -/
theorem frame_word : @Cert.frame_Kernel Cert.Kernel.Gen.facts Cert.Pre_input_domain.Gen.facts := fun m g hpre =>
  Cert.Proof.WClaimsF.frame_pre (F := Bits) m g hpre

/-- The idealized program runs and leaves its arguments unchanged. -/
theorem frame_ideal : @Cert.frame_KernelIdeal Cert.KernelIdeal.Gen.facts Cert.Pre_input_domain.Gen.facts := fun m g hpre =>
  Cert.Proof.KClaimsF.frame_pre (F := Ideal) m g hpre

/-- The reference runs and leaves its arguments unchanged. -/
theorem frame_ref : @Cert.frame_ReferenceIdeal Cert.ReferenceIdeal.Gen.facts Cert.Pre_input_domain.Gen.facts := fun m g hpre =>
  (θ_run _ _ _).mono (fun _ h c => (h c).2) (Cert.ReferenceIdeal.RefRun.run m g hpre)

/-- The idealized program ends with its result at the lookup of its two arguments. -/
theorem kernel_half (m : (ℓ : Loc Cert.KernelIdeal.nD Cert.KernelIdeal.τ Cert.KernelIdeal.sig) → Buf (Elt Ideal) ℓ) (g : Dev Cert.KernelIdeal.nD → PrngReg)
    (hpre : @Cert.Pre_KernelIdeal Cert.Pre_input_domain.Gen.facts m) :
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v4)
        = Cert.Spec.lookup (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  Cert.Proof.KClaims.run_pre (F := Ideal) m g hpre

theorem claim : Cert.Claim := ⟨Cert.Kernel.Gen.facts, Cert.KernelIdeal.Gen.facts, Cert.ReferenceIdeal.Gen.facts, Cert.Pre_input_domain.Gen.facts,
  frame_word, frame_ideal, frame_ref, trivial,
  fun m g m' g' hpre hagree => ⟨_, kernel_half m g hpre, Cert.ReferenceIdeal.RefRun.ref_half m m' g' hpre hagree⟩⟩

end Cert.Proof

end
